-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v116) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x24x3x3 : Shape := ⟨4, ![131072, 24, 3, 3]⟩
abbrev S131072x24x3 : Shape := ⟨3, ![131072, 24, 3]⟩
abbrev S_ : Shape := ⟨0, ![]⟩

class Facts : Prop where
  bcast_S_S131072x24x3x3 : S_.BroadcastsInDim S131072x24x3x3 (![] : Fin 0 → Fin S131072x24x3x3.rank)
  reducesTo_S131072x24x3x3_S_d0_1_2_3 : S131072x24x3x3.ReducesTo [0, 1, 2, 3] S_
  h_S_ : 0 < S_.numel
  bcast_S_S131072x24x3 : S_.BroadcastsInDim S131072x24x3 (![] : Fin 0 → Fin S131072x24x3.rank)
  reducesTo_S131072x24x3_S_d0_1_2 : S131072x24x3.ReducesTo [0, 1, 2] S_

variable [Facts]

def fn {F : FTy → Type} [FloatOps F] (main_arg0 : FVec F S131072x24x3x3 .f32) (main_arg1 : FVec F S131072x24x3 .f32) : IVec S_ 1 :=
  let main_v0 : FVec F S131072x24x3x3 .f32 := Host.absf main_arg0
  let main_cst : FVec F S_ .f32 := constant S_ .f32 0x7F800000#32
  let main_v1 : FVec F S131072x24x3x3 .f32 := broadcastInDim S131072x24x3x3 ![] bcast_S_S131072x24x3x3 main_cst
  let main_v2 : IVec S131072x24x3x3 1 := cmpf .olt main_v0 main_v1
  let main_c : IVec S_ 1 := constantI S_ 1 1#1
  let main_v3 : IVec S_ 1 := (fun x v => Host.reduce IntOp.andi x v reducesTo_S131072x24x3x3_S_d0_1_2_3 h_S_) main_v2 main_c
  let main_v4 : FVec F S131072x24x3 .f32 := Host.absf main_arg1
  let main_cst_0 : FVec F S_ .f32 := constant S_ .f32 0x7F800000#32
  let main_v5 : FVec F S131072x24x3 .f32 := broadcastInDim S131072x24x3 ![] bcast_S_S131072x24x3 main_cst_0
  let main_v6 : IVec S131072x24x3 1 := cmpf .olt main_v4 main_v5
  let main_c_1 : IVec S_ 1 := constantI S_ 1 1#1
  let main_v7 : IVec S_ 1 := (fun x v => Host.reduce IntOp.andi x v reducesTo_S131072x24x3_S_d0_1_2 h_S_) main_v6 main_c_1
  let main_v8 : IVec S_ 1 := andi main_v3 main_v7
  main_v8
-- ==== Kernel.lean ====
abbrev S131072x24x3x3 : Shape := ⟨4, ![131072, 24, 3, 3]⟩
abbrev S131072x24x3 : Shape := ⟨3, ![131072, 24, 3]⟩
abbrev S131072x216 : Shape := ⟨2, ![131072, 216]⟩
abbrev S131072x72 : Shape := ⟨2, ![131072, 72]⟩
abbrev S131072x384 : Shape := ⟨2, ![131072, 384]⟩
abbrev S128x216 : Shape := ⟨2, ![128, 216]⟩
abbrev S128x72 : Shape := ⟨2, ![128, 72]⟩
abbrev S128x384 : Shape := ⟨2, ![128, 384]⟩
abbrev S128x1 : Shape := ⟨2, ![128, 1]⟩
abbrev S128 : Shape := ⟨1, ![128]⟩
abbrev S128x16 : Shape := ⟨2, ![128, 16]⟩
abbrev S128x3 : Shape := ⟨2, ![128, 3]⟩
abbrev S131072x24x4x4 : Shape := ⟨4, ![131072, 24, 4, 4]⟩

abbrev nBuf : Space → Nat
  | .hbm => 8
  | .vmem => 8
  | .smem => 0
  | _ => 0

abbrev bufTy : (tb : Table) → Fin (tcTables nBuf tb) → BufTy
  | .hbm, ⟨0, _⟩ => ⟨S131072x24x3x3, .f32⟩
  | .hbm, ⟨1, _⟩ => ⟨S131072x24x3, .f32⟩
  | .hbm, ⟨2, _⟩ => ⟨S131072x216, .f32⟩
  | .hbm, ⟨3, _⟩ => ⟨S131072x72, .f32⟩
  | .hbm, ⟨4, _⟩ => ⟨S131072x384, .f32⟩
  | .hbm, ⟨5, _⟩ => ⟨S131072x72, .f32⟩
  | .hbm, ⟨6, _⟩ => ⟨S131072x24x4x4, .f32⟩
  | .hbm, ⟨7, _⟩ => ⟨S131072x24x3, .f32⟩
  | .local _ .vmem, ⟨0, _⟩ => ⟨S128x216, .f32⟩
  | .local _ .vmem, ⟨1, _⟩ => ⟨S128x216, .f32⟩
  | .local _ .vmem, ⟨2, _⟩ => ⟨S128x72, .f32⟩
  | .local _ .vmem, ⟨3, _⟩ => ⟨S128x72, .f32⟩
  | .local _ .vmem, ⟨4, _⟩ => ⟨S128x384, .f32⟩
  | .local _ .vmem, ⟨5, _⟩ => ⟨S128x384, .f32⟩
  | .local _ .vmem, ⟨6, _⟩ => ⟨S128x72, .f32⟩
  | .local _ .vmem, ⟨7, _⟩ => ⟨S128x72, .f32⟩
  | _, _ => ⟨S131072x24x3x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x216 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x72 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x72 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S131072x24x3x3_S131072x216 : S131072x24x3x3.ShapeCasts S131072x216
  shapeCasts_S131072x24x3_S131072x72 : S131072x24x3.ShapeCasts S131072x72
  inb_S128x216_S128x216_0_0 : ∀ a, (![0, 0] : Fin 2 → Nat) a + S128x216.size a ≤ S128x216.size a
  h_S128x216 : 0 < S128x216.numel
  shapeCasts_S128x216_S128x216 : S128x216.ShapeCasts S128x216
  inb_S128x72_S128x72_0_0 : ∀ a, (![0, 0] : Fin 2 → Nat) a + S128x72.size a ≤ S128x72.size a
  h_S128x72 : 0 < S128x72.numel
  shapeCasts_S128x72_S128x72 : S128x72.ShapeCasts S128x72
  slices_S128x216_o0_0_S128x1 : S128x216.Slices ![0, 0] S128x1
  shapeCasts_S128x1_S128 : S128x1.ShapeCasts S128
  slices_S128x216_o0_1_S128x1 : S128x216.Slices ![0, 1] S128x1
  slices_S128x216_o0_2_S128x1 : S128x216.Slices ![0, 2] S128x1
  slices_S128x216_o0_3_S128x1 : S128x216.Slices ![0, 3] S128x1
  slices_S128x216_o0_4_S128x1 : S128x216.Slices ![0, 4] S128x1
  slices_S128x216_o0_5_S128x1 : S128x216.Slices ![0, 5] S128x1
  slices_S128x216_o0_6_S128x1 : S128x216.Slices ![0, 6] S128x1
  slices_S128x216_o0_7_S128x1 : S128x216.Slices ![0, 7] S128x1
  slices_S128x216_o0_8_S128x1 : S128x216.Slices ![0, 8] S128x1
  slices_S128x216_o0_9_S128x1 : S128x216.Slices ![0, 9] S128x1
  slices_S128x216_o0_10_S128x1 : S128x216.Slices ![0, 10] S128x1
  slices_S128x216_o0_11_S128x1 : S128x216.Slices ![0, 11] S128x1
  slices_S128x216_o0_12_S128x1 : S128x216.Slices ![0, 12] S128x1
  slices_S128x216_o0_13_S128x1 : S128x216.Slices ![0, 13] S128x1
  slices_S128x216_o0_14_S128x1 : S128x216.Slices ![0, 14] S128x1
  slices_S128x216_o0_15_S128x1 : S128x216.Slices ![0, 15] S128x1
  slices_S128x216_o0_16_S128x1 : S128x216.Slices ![0, 16] S128x1
  slices_S128x216_o0_17_S128x1 : S128x216.Slices ![0, 17] S128x1
  slices_S128x216_o0_18_S128x1 : S128x216.Slices ![0, 18] S128x1
  slices_S128x216_o0_19_S128x1 : S128x216.Slices ![0, 19] S128x1
  slices_S128x216_o0_20_S128x1 : S128x216.Slices ![0, 20] S128x1
  slices_S128x216_o0_21_S128x1 : S128x216.Slices ![0, 21] S128x1
  slices_S128x216_o0_22_S128x1 : S128x216.Slices ![0, 22] S128x1
  slices_S128x216_o0_23_S128x1 : S128x216.Slices ![0, 23] S128x1
  slices_S128x216_o0_24_S128x1 : S128x216.Slices ![0, 24] S128x1
  slices_S128x216_o0_25_S128x1 : S128x216.Slices ![0, 25] S128x1
  slices_S128x216_o0_26_S128x1 : S128x216.Slices ![0, 26] S128x1
  slices_S128x216_o0_27_S128x1 : S128x216.Slices ![0, 27] S128x1
  slices_S128x216_o0_28_S128x1 : S128x216.Slices ![0, 28] S128x1
  slices_S128x216_o0_29_S128x1 : S128x216.Slices ![0, 29] S128x1
  slices_S128x216_o0_30_S128x1 : S128x216.Slices ![0, 30] S128x1
  slices_S128x216_o0_31_S128x1 : S128x216.Slices ![0, 31] S128x1
  slices_S128x216_o0_32_S128x1 : S128x216.Slices ![0, 32] S128x1
  slices_S128x216_o0_33_S128x1 : S128x216.Slices ![0, 33] S128x1
  slices_S128x216_o0_34_S128x1 : S128x216.Slices ![0, 34] S128x1
  slices_S128x216_o0_35_S128x1 : S128x216.Slices ![0, 35] S128x1
  slices_S128x216_o0_36_S128x1 : S128x216.Slices ![0, 36] S128x1
  slices_S128x216_o0_37_S128x1 : S128x216.Slices ![0, 37] S128x1
  slices_S128x216_o0_38_S128x1 : S128x216.Slices ![0, 38] S128x1
  slices_S128x216_o0_39_S128x1 : S128x216.Slices ![0, 39] S128x1
  slices_S128x216_o0_40_S128x1 : S128x216.Slices ![0, 40] S128x1
  slices_S128x216_o0_41_S128x1 : S128x216.Slices ![0, 41] S128x1
  slices_S128x216_o0_42_S128x1 : S128x216.Slices ![0, 42] S128x1
  slices_S128x216_o0_43_S128x1 : S128x216.Slices ![0, 43] S128x1
  slices_S128x216_o0_44_S128x1 : S128x216.Slices ![0, 44] S128x1
  slices_S128x216_o0_45_S128x1 : S128x216.Slices ![0, 45] S128x1
  slices_S128x216_o0_46_S128x1 : S128x216.Slices ![0, 46] S128x1
  slices_S128x216_o0_47_S128x1 : S128x216.Slices ![0, 47] S128x1
  slices_S128x216_o0_48_S128x1 : S128x216.Slices ![0, 48] S128x1
  slices_S128x216_o0_49_S128x1 : S128x216.Slices ![0, 49] S128x1
  slices_S128x216_o0_50_S128x1 : S128x216.Slices ![0, 50] S128x1
  slices_S128x216_o0_51_S128x1 : S128x216.Slices ![0, 51] S128x1
  slices_S128x216_o0_52_S128x1 : S128x216.Slices ![0, 52] S128x1
  slices_S128x216_o0_53_S128x1 : S128x216.Slices ![0, 53] S128x1
  slices_S128x216_o0_54_S128x1 : S128x216.Slices ![0, 54] S128x1
  slices_S128x216_o0_55_S128x1 : S128x216.Slices ![0, 55] S128x1
  slices_S128x216_o0_56_S128x1 : S128x216.Slices ![0, 56] S128x1
  slices_S128x216_o0_57_S128x1 : S128x216.Slices ![0, 57] S128x1
  slices_S128x216_o0_58_S128x1 : S128x216.Slices ![0, 58] S128x1
  slices_S128x216_o0_59_S128x1 : S128x216.Slices ![0, 59] S128x1
  slices_S128x216_o0_60_S128x1 : S128x216.Slices ![0, 60] S128x1
  slices_S128x216_o0_61_S128x1 : S128x216.Slices ![0, 61] S128x1
  slices_S128x216_o0_62_S128x1 : S128x216.Slices ![0, 62] S128x1
  slices_S128x216_o0_63_S128x1 : S128x216.Slices ![0, 63] S128x1
  slices_S128x216_o0_64_S128x1 : S128x216.Slices ![0, 64] S128x1
  slices_S128x216_o0_65_S128x1 : S128x216.Slices ![0, 65] S128x1
  slices_S128x216_o0_66_S128x1 : S128x216.Slices ![0, 66] S128x1
  slices_S128x216_o0_67_S128x1 : S128x216.Slices ![0, 67] S128x1
  slices_S128x216_o0_68_S128x1 : S128x216.Slices ![0, 68] S128x1
  slices_S128x216_o0_69_S128x1 : S128x216.Slices ![0, 69] S128x1
  slices_S128x216_o0_70_S128x1 : S128x216.Slices ![0, 70] S128x1
  slices_S128x216_o0_71_S128x1 : S128x216.Slices ![0, 71] S128x1
  slices_S128x216_o0_72_S128x1 : S128x216.Slices ![0, 72] S128x1
  slices_S128x216_o0_73_S128x1 : S128x216.Slices ![0, 73] S128x1
  slices_S128x216_o0_74_S128x1 : S128x216.Slices ![0, 74] S128x1
  slices_S128x216_o0_75_S128x1 : S128x216.Slices ![0, 75] S128x1
  slices_S128x216_o0_76_S128x1 : S128x216.Slices ![0, 76] S128x1
  slices_S128x216_o0_77_S128x1 : S128x216.Slices ![0, 77] S128x1
  slices_S128x216_o0_78_S128x1 : S128x216.Slices ![0, 78] S128x1
  slices_S128x216_o0_79_S128x1 : S128x216.Slices ![0, 79] S128x1
  slices_S128x216_o0_80_S128x1 : S128x216.Slices ![0, 80] S128x1
  slices_S128x216_o0_81_S128x1 : S128x216.Slices ![0, 81] S128x1
  slices_S128x216_o0_82_S128x1 : S128x216.Slices ![0, 82] S128x1
  slices_S128x216_o0_83_S128x1 : S128x216.Slices ![0, 83] S128x1
  slices_S128x216_o0_84_S128x1 : S128x216.Slices ![0, 84] S128x1
  slices_S128x216_o0_85_S128x1 : S128x216.Slices ![0, 85] S128x1
  slices_S128x216_o0_86_S128x1 : S128x216.Slices ![0, 86] S128x1
  slices_S128x216_o0_87_S128x1 : S128x216.Slices ![0, 87] S128x1
  slices_S128x216_o0_88_S128x1 : S128x216.Slices ![0, 88] S128x1
  slices_S128x216_o0_89_S128x1 : S128x216.Slices ![0, 89] S128x1
  slices_S128x216_o0_90_S128x1 : S128x216.Slices ![0, 90] S128x1
  slices_S128x216_o0_91_S128x1 : S128x216.Slices ![0, 91] S128x1
  slices_S128x216_o0_92_S128x1 : S128x216.Slices ![0, 92] S128x1
  slices_S128x216_o0_93_S128x1 : S128x216.Slices ![0, 93] S128x1
  slices_S128x216_o0_94_S128x1 : S128x216.Slices ![0, 94] S128x1
  slices_S128x216_o0_95_S128x1 : S128x216.Slices ![0, 95] S128x1
  slices_S128x216_o0_96_S128x1 : S128x216.Slices ![0, 96] S128x1
  slices_S128x216_o0_97_S128x1 : S128x216.Slices ![0, 97] S128x1
  slices_S128x216_o0_98_S128x1 : S128x216.Slices ![0, 98] S128x1
  slices_S128x216_o0_99_S128x1 : S128x216.Slices ![0, 99] S128x1
  slices_S128x216_o0_100_S128x1 : S128x216.Slices ![0, 100] S128x1
  slices_S128x216_o0_101_S128x1 : S128x216.Slices ![0, 101] S128x1
  slices_S128x216_o0_102_S128x1 : S128x216.Slices ![0, 102] S128x1
  slices_S128x216_o0_103_S128x1 : S128x216.Slices ![0, 103] S128x1
  slices_S128x216_o0_104_S128x1 : S128x216.Slices ![0, 104] S128x1
  slices_S128x216_o0_105_S128x1 : S128x216.Slices ![0, 105] S128x1
  slices_S128x216_o0_106_S128x1 : S128x216.Slices ![0, 106] S128x1
  slices_S128x216_o0_107_S128x1 : S128x216.Slices ![0, 107] S128x1
  slices_S128x216_o0_108_S128x1 : S128x216.Slices ![0, 108] S128x1
  slices_S128x216_o0_109_S128x1 : S128x216.Slices ![0, 109] S128x1
  slices_S128x216_o0_110_S128x1 : S128x216.Slices ![0, 110] S128x1
  slices_S128x216_o0_111_S128x1 : S128x216.Slices ![0, 111] S128x1
  slices_S128x216_o0_112_S128x1 : S128x216.Slices ![0, 112] S128x1
  slices_S128x216_o0_113_S128x1 : S128x216.Slices ![0, 113] S128x1
  slices_S128x216_o0_114_S128x1 : S128x216.Slices ![0, 114] S128x1
  slices_S128x216_o0_115_S128x1 : S128x216.Slices ![0, 115] S128x1
  slices_S128x216_o0_116_S128x1 : S128x216.Slices ![0, 116] S128x1
  slices_S128x216_o0_117_S128x1 : S128x216.Slices ![0, 117] S128x1
  slices_S128x216_o0_118_S128x1 : S128x216.Slices ![0, 118] S128x1
  slices_S128x216_o0_119_S128x1 : S128x216.Slices ![0, 119] S128x1
  slices_S128x216_o0_120_S128x1 : S128x216.Slices ![0, 120] S128x1
  slices_S128x216_o0_121_S128x1 : S128x216.Slices ![0, 121] S128x1
  slices_S128x216_o0_122_S128x1 : S128x216.Slices ![0, 122] S128x1
  slices_S128x216_o0_123_S128x1 : S128x216.Slices ![0, 123] S128x1
  slices_S128x216_o0_124_S128x1 : S128x216.Slices ![0, 124] S128x1
  slices_S128x216_o0_125_S128x1 : S128x216.Slices ![0, 125] S128x1
  slices_S128x216_o0_126_S128x1 : S128x216.Slices ![0, 126] S128x1
  slices_S128x216_o0_127_S128x1 : S128x216.Slices ![0, 127] S128x1
  slices_S128x216_o0_128_S128x1 : S128x216.Slices ![0, 128] S128x1
  slices_S128x216_o0_129_S128x1 : S128x216.Slices ![0, 129] S128x1
  slices_S128x216_o0_130_S128x1 : S128x216.Slices ![0, 130] S128x1
  slices_S128x216_o0_131_S128x1 : S128x216.Slices ![0, 131] S128x1
  slices_S128x216_o0_132_S128x1 : S128x216.Slices ![0, 132] S128x1
  slices_S128x216_o0_133_S128x1 : S128x216.Slices ![0, 133] S128x1
  slices_S128x216_o0_134_S128x1 : S128x216.Slices ![0, 134] S128x1
  slices_S128x216_o0_135_S128x1 : S128x216.Slices ![0, 135] S128x1
  slices_S128x216_o0_136_S128x1 : S128x216.Slices ![0, 136] S128x1
  slices_S128x216_o0_137_S128x1 : S128x216.Slices ![0, 137] S128x1
  slices_S128x216_o0_138_S128x1 : S128x216.Slices ![0, 138] S128x1
  slices_S128x216_o0_139_S128x1 : S128x216.Slices ![0, 139] S128x1
  slices_S128x216_o0_140_S128x1 : S128x216.Slices ![0, 140] S128x1
  slices_S128x216_o0_141_S128x1 : S128x216.Slices ![0, 141] S128x1
  slices_S128x216_o0_142_S128x1 : S128x216.Slices ![0, 142] S128x1
  slices_S128x216_o0_143_S128x1 : S128x216.Slices ![0, 143] S128x1
  slices_S128x216_o0_144_S128x1 : S128x216.Slices ![0, 144] S128x1
  slices_S128x216_o0_145_S128x1 : S128x216.Slices ![0, 145] S128x1
  slices_S128x216_o0_146_S128x1 : S128x216.Slices ![0, 146] S128x1
  slices_S128x216_o0_147_S128x1 : S128x216.Slices ![0, 147] S128x1
  slices_S128x216_o0_148_S128x1 : S128x216.Slices ![0, 148] S128x1
  slices_S128x216_o0_149_S128x1 : S128x216.Slices ![0, 149] S128x1
  slices_S128x216_o0_150_S128x1 : S128x216.Slices ![0, 150] S128x1
  slices_S128x216_o0_151_S128x1 : S128x216.Slices ![0, 151] S128x1
  slices_S128x216_o0_152_S128x1 : S128x216.Slices ![0, 152] S128x1
  slices_S128x216_o0_153_S128x1 : S128x216.Slices ![0, 153] S128x1
  slices_S128x216_o0_154_S128x1 : S128x216.Slices ![0, 154] S128x1
  slices_S128x216_o0_155_S128x1 : S128x216.Slices ![0, 155] S128x1
  slices_S128x216_o0_156_S128x1 : S128x216.Slices ![0, 156] S128x1
  slices_S128x216_o0_157_S128x1 : S128x216.Slices ![0, 157] S128x1
  slices_S128x216_o0_158_S128x1 : S128x216.Slices ![0, 158] S128x1
  slices_S128x216_o0_159_S128x1 : S128x216.Slices ![0, 159] S128x1
  slices_S128x216_o0_160_S128x1 : S128x216.Slices ![0, 160] S128x1
  slices_S128x216_o0_161_S128x1 : S128x216.Slices ![0, 161] S128x1
  slices_S128x216_o0_162_S128x1 : S128x216.Slices ![0, 162] S128x1
  slices_S128x216_o0_163_S128x1 : S128x216.Slices ![0, 163] S128x1
  slices_S128x216_o0_164_S128x1 : S128x216.Slices ![0, 164] S128x1
  slices_S128x216_o0_165_S128x1 : S128x216.Slices ![0, 165] S128x1
  slices_S128x216_o0_166_S128x1 : S128x216.Slices ![0, 166] S128x1
  slices_S128x216_o0_167_S128x1 : S128x216.Slices ![0, 167] S128x1
  slices_S128x216_o0_168_S128x1 : S128x216.Slices ![0, 168] S128x1
  slices_S128x216_o0_169_S128x1 : S128x216.Slices ![0, 169] S128x1
  slices_S128x216_o0_170_S128x1 : S128x216.Slices ![0, 170] S128x1
  slices_S128x216_o0_171_S128x1 : S128x216.Slices ![0, 171] S128x1
  slices_S128x216_o0_172_S128x1 : S128x216.Slices ![0, 172] S128x1
  slices_S128x216_o0_173_S128x1 : S128x216.Slices ![0, 173] S128x1
  slices_S128x216_o0_174_S128x1 : S128x216.Slices ![0, 174] S128x1
  slices_S128x216_o0_175_S128x1 : S128x216.Slices ![0, 175] S128x1
  slices_S128x216_o0_176_S128x1 : S128x216.Slices ![0, 176] S128x1
  slices_S128x216_o0_177_S128x1 : S128x216.Slices ![0, 177] S128x1
  slices_S128x216_o0_178_S128x1 : S128x216.Slices ![0, 178] S128x1
  slices_S128x216_o0_179_S128x1 : S128x216.Slices ![0, 179] S128x1
  slices_S128x216_o0_180_S128x1 : S128x216.Slices ![0, 180] S128x1
  slices_S128x216_o0_181_S128x1 : S128x216.Slices ![0, 181] S128x1
  slices_S128x216_o0_182_S128x1 : S128x216.Slices ![0, 182] S128x1
  slices_S128x216_o0_183_S128x1 : S128x216.Slices ![0, 183] S128x1
  slices_S128x216_o0_184_S128x1 : S128x216.Slices ![0, 184] S128x1
  slices_S128x216_o0_185_S128x1 : S128x216.Slices ![0, 185] S128x1
  slices_S128x216_o0_186_S128x1 : S128x216.Slices ![0, 186] S128x1
  slices_S128x216_o0_187_S128x1 : S128x216.Slices ![0, 187] S128x1
  slices_S128x216_o0_188_S128x1 : S128x216.Slices ![0, 188] S128x1
  slices_S128x216_o0_189_S128x1 : S128x216.Slices ![0, 189] S128x1
  slices_S128x216_o0_190_S128x1 : S128x216.Slices ![0, 190] S128x1
  slices_S128x216_o0_191_S128x1 : S128x216.Slices ![0, 191] S128x1
  slices_S128x216_o0_192_S128x1 : S128x216.Slices ![0, 192] S128x1
  slices_S128x216_o0_193_S128x1 : S128x216.Slices ![0, 193] S128x1
  slices_S128x216_o0_194_S128x1 : S128x216.Slices ![0, 194] S128x1
  slices_S128x216_o0_195_S128x1 : S128x216.Slices ![0, 195] S128x1
  slices_S128x216_o0_196_S128x1 : S128x216.Slices ![0, 196] S128x1
  slices_S128x216_o0_197_S128x1 : S128x216.Slices ![0, 197] S128x1
  slices_S128x216_o0_198_S128x1 : S128x216.Slices ![0, 198] S128x1
  slices_S128x216_o0_199_S128x1 : S128x216.Slices ![0, 199] S128x1
  slices_S128x216_o0_200_S128x1 : S128x216.Slices ![0, 200] S128x1
  slices_S128x216_o0_201_S128x1 : S128x216.Slices ![0, 201] S128x1
  slices_S128x216_o0_202_S128x1 : S128x216.Slices ![0, 202] S128x1
  slices_S128x216_o0_203_S128x1 : S128x216.Slices ![0, 203] S128x1
  slices_S128x216_o0_204_S128x1 : S128x216.Slices ![0, 204] S128x1
  slices_S128x216_o0_205_S128x1 : S128x216.Slices ![0, 205] S128x1
  slices_S128x216_o0_206_S128x1 : S128x216.Slices ![0, 206] S128x1
  slices_S128x216_o0_207_S128x1 : S128x216.Slices ![0, 207] S128x1
  slices_S128x216_o0_208_S128x1 : S128x216.Slices ![0, 208] S128x1
  slices_S128x216_o0_209_S128x1 : S128x216.Slices ![0, 209] S128x1
  slices_S128x216_o0_210_S128x1 : S128x216.Slices ![0, 210] S128x1
  slices_S128x216_o0_211_S128x1 : S128x216.Slices ![0, 211] S128x1
  slices_S128x216_o0_212_S128x1 : S128x216.Slices ![0, 212] S128x1
  slices_S128x216_o0_213_S128x1 : S128x216.Slices ![0, 213] S128x1
  slices_S128x216_o0_214_S128x1 : S128x216.Slices ![0, 214] S128x1
  slices_S128x216_o0_215_S128x1 : S128x216.Slices ![0, 215] S128x1
  slices_S128x72_o0_0_S128x1 : S128x72.Slices ![0, 0] S128x1
  slices_S128x72_o0_1_S128x1 : S128x72.Slices ![0, 1] S128x1
  slices_S128x72_o0_2_S128x1 : S128x72.Slices ![0, 2] S128x1
  slices_S128x72_o0_3_S128x1 : S128x72.Slices ![0, 3] S128x1
  slices_S128x72_o0_4_S128x1 : S128x72.Slices ![0, 4] S128x1
  slices_S128x72_o0_5_S128x1 : S128x72.Slices ![0, 5] S128x1
  slices_S128x72_o0_6_S128x1 : S128x72.Slices ![0, 6] S128x1
  slices_S128x72_o0_7_S128x1 : S128x72.Slices ![0, 7] S128x1
  slices_S128x72_o0_8_S128x1 : S128x72.Slices ![0, 8] S128x1
  slices_S128x72_o0_9_S128x1 : S128x72.Slices ![0, 9] S128x1
  slices_S128x72_o0_10_S128x1 : S128x72.Slices ![0, 10] S128x1
  slices_S128x72_o0_11_S128x1 : S128x72.Slices ![0, 11] S128x1
  slices_S128x72_o0_12_S128x1 : S128x72.Slices ![0, 12] S128x1
  slices_S128x72_o0_13_S128x1 : S128x72.Slices ![0, 13] S128x1
  slices_S128x72_o0_14_S128x1 : S128x72.Slices ![0, 14] S128x1
  slices_S128x72_o0_15_S128x1 : S128x72.Slices ![0, 15] S128x1
  slices_S128x72_o0_16_S128x1 : S128x72.Slices ![0, 16] S128x1
  slices_S128x72_o0_17_S128x1 : S128x72.Slices ![0, 17] S128x1
  slices_S128x72_o0_18_S128x1 : S128x72.Slices ![0, 18] S128x1
  slices_S128x72_o0_19_S128x1 : S128x72.Slices ![0, 19] S128x1
  slices_S128x72_o0_20_S128x1 : S128x72.Slices ![0, 20] S128x1
  slices_S128x72_o0_21_S128x1 : S128x72.Slices ![0, 21] S128x1
  slices_S128x72_o0_22_S128x1 : S128x72.Slices ![0, 22] S128x1
  slices_S128x72_o0_23_S128x1 : S128x72.Slices ![0, 23] S128x1
  slices_S128x72_o0_24_S128x1 : S128x72.Slices ![0, 24] S128x1
  slices_S128x72_o0_25_S128x1 : S128x72.Slices ![0, 25] S128x1
  slices_S128x72_o0_26_S128x1 : S128x72.Slices ![0, 26] S128x1
  slices_S128x72_o0_27_S128x1 : S128x72.Slices ![0, 27] S128x1
  slices_S128x72_o0_28_S128x1 : S128x72.Slices ![0, 28] S128x1
  slices_S128x72_o0_29_S128x1 : S128x72.Slices ![0, 29] S128x1
  slices_S128x72_o0_30_S128x1 : S128x72.Slices ![0, 30] S128x1
  slices_S128x72_o0_31_S128x1 : S128x72.Slices ![0, 31] S128x1
  slices_S128x72_o0_32_S128x1 : S128x72.Slices ![0, 32] S128x1
  slices_S128x72_o0_33_S128x1 : S128x72.Slices ![0, 33] S128x1
  slices_S128x72_o0_34_S128x1 : S128x72.Slices ![0, 34] S128x1
  slices_S128x72_o0_35_S128x1 : S128x72.Slices ![0, 35] S128x1
  slices_S128x72_o0_36_S128x1 : S128x72.Slices ![0, 36] S128x1
  slices_S128x72_o0_37_S128x1 : S128x72.Slices ![0, 37] S128x1
  slices_S128x72_o0_38_S128x1 : S128x72.Slices ![0, 38] S128x1
  slices_S128x72_o0_39_S128x1 : S128x72.Slices ![0, 39] S128x1
  slices_S128x72_o0_40_S128x1 : S128x72.Slices ![0, 40] S128x1
  slices_S128x72_o0_41_S128x1 : S128x72.Slices ![0, 41] S128x1
  slices_S128x72_o0_42_S128x1 : S128x72.Slices ![0, 42] S128x1
  slices_S128x72_o0_43_S128x1 : S128x72.Slices ![0, 43] S128x1
  slices_S128x72_o0_44_S128x1 : S128x72.Slices ![0, 44] S128x1
  slices_S128x72_o0_45_S128x1 : S128x72.Slices ![0, 45] S128x1
  slices_S128x72_o0_46_S128x1 : S128x72.Slices ![0, 46] S128x1
  slices_S128x72_o0_47_S128x1 : S128x72.Slices ![0, 47] S128x1
  slices_S128x72_o0_48_S128x1 : S128x72.Slices ![0, 48] S128x1
  slices_S128x72_o0_49_S128x1 : S128x72.Slices ![0, 49] S128x1
  slices_S128x72_o0_50_S128x1 : S128x72.Slices ![0, 50] S128x1
  slices_S128x72_o0_51_S128x1 : S128x72.Slices ![0, 51] S128x1
  slices_S128x72_o0_52_S128x1 : S128x72.Slices ![0, 52] S128x1
  slices_S128x72_o0_53_S128x1 : S128x72.Slices ![0, 53] S128x1
  slices_S128x72_o0_54_S128x1 : S128x72.Slices ![0, 54] S128x1
  slices_S128x72_o0_55_S128x1 : S128x72.Slices ![0, 55] S128x1
  slices_S128x72_o0_56_S128x1 : S128x72.Slices ![0, 56] S128x1
  slices_S128x72_o0_57_S128x1 : S128x72.Slices ![0, 57] S128x1
  slices_S128x72_o0_58_S128x1 : S128x72.Slices ![0, 58] S128x1
  slices_S128x72_o0_59_S128x1 : S128x72.Slices ![0, 59] S128x1
  slices_S128x72_o0_60_S128x1 : S128x72.Slices ![0, 60] S128x1
  slices_S128x72_o0_61_S128x1 : S128x72.Slices ![0, 61] S128x1
  slices_S128x72_o0_62_S128x1 : S128x72.Slices ![0, 62] S128x1
  slices_S128x72_o0_63_S128x1 : S128x72.Slices ![0, 63] S128x1
  slices_S128x72_o0_64_S128x1 : S128x72.Slices ![0, 64] S128x1
  slices_S128x72_o0_65_S128x1 : S128x72.Slices ![0, 65] S128x1
  slices_S128x72_o0_66_S128x1 : S128x72.Slices ![0, 66] S128x1
  slices_S128x72_o0_67_S128x1 : S128x72.Slices ![0, 67] S128x1
  slices_S128x72_o0_68_S128x1 : S128x72.Slices ![0, 68] S128x1
  slices_S128x72_o0_69_S128x1 : S128x72.Slices ![0, 69] S128x1
  slices_S128x72_o0_70_S128x1 : S128x72.Slices ![0, 70] S128x1
  slices_S128x72_o0_71_S128x1 : S128x72.Slices ![0, 71] S128x1
  shapeCasts_S128_S128x1 : S128.ShapeCasts S128x1
  concatenates_S128x1_S128x1_S128x1_S128x1_S128x1_S128x1_S128x1_S128x1_S128x1_S128x1_S128x1_S128x1_S128x1_S128x1_S128x1_S128x1_S128x16_d1 : Shape.Concatenates [S128x1, S128x1, S128x1, S128x1, S128x1, S128x1, S128x1, S128x1, S128x1, S128x1, S128x1, S128x1, S128x1, S128x1, S128x1, S128x1] S128x16 1
  concatenates_S128x1_S128x1_S128x1_S128x3_d1 : Shape.Concatenates [S128x1, S128x1, S128x1] S128x3 1
  concatenates_S128x16_S128x16_S128x16_S128x16_S128x16_S128x16_S128x16_S128x16_S128x16_S128x16_S128x16_S128x16_S128x16_S128x16_S128x16_S128x16_S128x16_S128x16_S128x16_S128x16_S128x16_S128x16_S128x16_S128x16_S128x384_d1 : Shape.Concatenates [S128x16, S128x16, S128x16, S128x16, S128x16, S128x16, S128x16, S128x16, S128x16, S128x16, S128x16, S128x16, S128x16, S128x16, S128x16, S128x16, S128x16, S128x16, S128x16, S128x16, S128x16, S128x16, S128x16, S128x16] S128x384 1
  concatenates_S128x3_S128x3_S128x3_S128x3_S128x3_S128x3_S128x3_S128x3_S128x3_S128x3_S128x3_S128x3_S128x3_S128x3_S128x3_S128x3_S128x3_S128x3_S128x3_S128x3_S128x3_S128x3_S128x3_S128x3_S128x72_d1 : Shape.Concatenates [S128x3, S128x3, S128x3, S128x3, S128x3, S128x3, S128x3, S128x3, S128x3, S128x3, S128x3, S128x3, S128x3, S128x3, S128x3, S128x3, S128x3, S128x3, S128x3, S128x3, S128x3, S128x3, S128x3, S128x3] S128x72 1
  inb_S128x384_S128x384_0_0 : ∀ a, (![0, 0] : Fin 2 → Nat) a + S128x384.size a ≤ S128x384.size a
  h_S128x384 : 0 < S128x384.numel
  shapeCasts_S131072x384_S131072x24x4x4 : S131072x384.ShapeCasts S131072x24x4x4
  shapeCasts_S131072x72_S131072x24x3 : S131072x72.ShapeCasts S131072x24x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x216.size a ≤ S131072x216.size a
  hwx0_0 : ∀ i : grid0.Coords, EltTy.bits .f32 = 32 ∨ (Rect.block (s := S131072x216) S128x216.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x72.size a ≤ S131072x72.size a
  hwx0_1 : ∀ i : grid0.Coords, EltTy.bits .f32 = 32 ∨ (Rect.block (s := S131072x72) S128x72.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x384.size a ≤ S131072x384.size a
  hwx0_2 : ∀ i : grid0.Coords, EltTy.bits .f32 = 32 ∨ (Rect.block (s := S131072x384) S128x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x72.size a ≤ S131072x72.size a
  hwx0_3 : ∀ i : grid0.Coords, EltTy.bits .f32 = 32 ∨ (Rect.block (s := S131072x72) S128x72.size (cc0_transform_3 i) (hinb0_3 i)).WholeWords (EltTy.packing .f32)

variable [Facts₀]

abbrev win0_0 : Pipeline.Window sig grid0 :=
  Pipeline.Window.ofSpec (Memref.whole main_v0) S128x216.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x72.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S128x384.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S128x72.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x24x3x3 : Shape := ⟨4, ![131072, 24, 3, 3]⟩
abbrev S131072x24x3 : Shape := ⟨3, ![131072, 24, 3]⟩
abbrev S24 : Shape := ⟨1, ![24]⟩
abbrev S131072x24x3x1 : Shape := ⟨4, ![131072, 24, 3, 1]⟩
abbrev S_ : Shape := ⟨0, ![]⟩
abbrev S24x1 : Shape := ⟨2, ![24, 1]⟩
abbrev S131072x1x3x1 : Shape := ⟨4, ![131072, 1, 3, 1]⟩
abbrev S131072x3x1 : Shape := ⟨3, ![131072, 3, 1]⟩
abbrev S1 : Shape := ⟨1, ![1]⟩
abbrev S131072x24x4x3 : Shape := ⟨4, ![131072, 24, 4, 3]⟩
abbrev S131072x24x1x1 : Shape := ⟨4, ![131072, 24, 1, 1]⟩
abbrev S131072x24x4x1 : Shape := ⟨4, ![131072, 24, 4, 1]⟩
abbrev S131072x24x4x4 : Shape := ⟨4, ![131072, 24, 4, 4]⟩
abbrev S131072x1x4x4 : Shape := ⟨4, ![131072, 1, 4, 4]⟩
abbrev S131072x4x4 : Shape := ⟨3, ![131072, 4, 4]⟩
abbrev S131072x16x4x4 : Shape := ⟨4, ![131072, 16, 4, 4]⟩
abbrev S131072x8x4x4 : Shape := ⟨4, ![131072, 8, 4, 4]⟩

abbrev nBuf : Space → Nat
  | .hbm => 134
  | .vmem => 0
  | .smem => 0
  | _ => 0

abbrev hbmTy0_0 (i : Nat) : BufTy := match i % 128 with
  | 0 => ⟨S131072x24x3x3, .f32⟩
  | 1 => ⟨S131072x24x3, .f32⟩
  | 2 => ⟨S24, .i32⟩
  | 3 => ⟨S131072x24x3x1, .f32⟩
  | 4 => ⟨S_, .i32⟩
  | 5 => ⟨S24, .i32⟩
  | 6 => ⟨S24, .i1⟩
  | 7 => ⟨S_, .i32⟩
  | 8 => ⟨S24, .i32⟩
  | 9 => ⟨S24, .i32⟩
  | 10 => ⟨S24, .i32⟩
  | 11 => ⟨S24x1, .i32⟩
  | 12 => ⟨S131072x24x3x1, .f32⟩
  | 13 => ⟨S131072x24x3x1, .f32⟩
  | 14 => ⟨S131072x1x3x1, .f32⟩
  | 15 => ⟨S131072x3x1, .f32⟩
  | 16 => ⟨S_, .i32⟩
  | 17 => ⟨S1, .i32⟩
  | 18 => ⟨S131072x24x3x1, .f32⟩
  | 19 => ⟨S_, .i32⟩
  | 20 => ⟨S_, .f32⟩
  | 21 => ⟨S131072x24x4x3, .f32⟩
  | 22 => ⟨S_, .f32⟩
  | 23 => ⟨S131072x24x1x1, .f32⟩
  | 24 => ⟨S131072x24x4x1, .f32⟩
  | 25 => ⟨S131072x24x4x4, .f32⟩
  | 26 => ⟨S131072x1x4x4, .f32⟩
  | 27 => ⟨S131072x4x4, .f32⟩
  | 28 => ⟨S131072x1x4x4, .f32⟩
  | 29 => ⟨S131072x4x4, .f32⟩
  | 30 => ⟨S131072x4x4, .f32⟩
  | 31 => ⟨S131072x1x4x4, .f32⟩
  | 32 => ⟨S131072x4x4, .f32⟩
  | 33 => ⟨S131072x4x4, .f32⟩
  | 34 => ⟨S131072x1x4x4, .f32⟩
  | 35 => ⟨S131072x4x4, .f32⟩
  | 36 => ⟨S131072x4x4, .f32⟩
  | 37 => ⟨S131072x1x4x4, .f32⟩
  | 38 => ⟨S131072x4x4, .f32⟩
  | 39 => ⟨S131072x4x4, .f32⟩
  | 40 => ⟨S131072x1x4x4, .f32⟩
  | 41 => ⟨S131072x4x4, .f32⟩
  | 42 => ⟨S131072x4x4, .f32⟩
  | 43 => ⟨S131072x1x4x4, .f32⟩
  | 44 => ⟨S131072x4x4, .f32⟩
  | 45 => ⟨S131072x4x4, .f32⟩
  | 46 => ⟨S131072x1x4x4, .f32⟩
  | 47 => ⟨S131072x4x4, .f32⟩
  | 48 => ⟨S131072x4x4, .f32⟩
  | 49 => ⟨S131072x1x4x4, .f32⟩
  | 50 => ⟨S131072x4x4, .f32⟩
  | 51 => ⟨S131072x4x4, .f32⟩
  | 52 => ⟨S131072x1x4x4, .f32⟩
  | 53 => ⟨S131072x4x4, .f32⟩
  | 54 => ⟨S131072x4x4, .f32⟩
  | 55 => ⟨S131072x1x4x4, .f32⟩
  | 56 => ⟨S131072x4x4, .f32⟩
  | 57 => ⟨S131072x4x4, .f32⟩
  | 58 => ⟨S131072x1x4x4, .f32⟩
  | 59 => ⟨S131072x4x4, .f32⟩
  | 60 => ⟨S131072x4x4, .f32⟩
  | 61 => ⟨S131072x1x4x4, .f32⟩
  | 62 => ⟨S131072x4x4, .f32⟩
  | 63 => ⟨S131072x4x4, .f32⟩
  | 64 => ⟨S131072x1x4x4, .f32⟩
  | 65 => ⟨S131072x4x4, .f32⟩
  | 66 => ⟨S131072x4x4, .f32⟩
  | 67 => ⟨S131072x1x4x4, .f32⟩
  | 68 => ⟨S131072x4x4, .f32⟩
  | 69 => ⟨S131072x4x4, .f32⟩
  | 70 => ⟨S131072x1x4x4, .f32⟩
  | 71 => ⟨S131072x4x4, .f32⟩
  | 72 => ⟨S131072x4x4, .f32⟩
  | 73 => ⟨S131072x1x4x4, .f32⟩
  | 74 => ⟨S131072x4x4, .f32⟩
  | 75 => ⟨S131072x4x4, .f32⟩
  | 76 => ⟨S131072x1x4x4, .f32⟩
  | 77 => ⟨S131072x4x4, .f32⟩
  | 78 => ⟨S131072x4x4, .f32⟩
  | 79 => ⟨S131072x1x4x4, .f32⟩
  | 80 => ⟨S131072x4x4, .f32⟩
  | 81 => ⟨S131072x4x4, .f32⟩
  | 82 => ⟨S131072x1x4x4, .f32⟩
  | 83 => ⟨S131072x4x4, .f32⟩
  | 84 => ⟨S131072x4x4, .f32⟩
  | 85 => ⟨S131072x1x4x4, .f32⟩
  | 86 => ⟨S131072x4x4, .f32⟩
  | 87 => ⟨S131072x4x4, .f32⟩
  | 88 => ⟨S131072x1x4x4, .f32⟩
  | 89 => ⟨S131072x4x4, .f32⟩
  | 90 => ⟨S131072x4x4, .f32⟩
  | 91 => ⟨S131072x1x4x4, .f32⟩
  | 92 => ⟨S131072x4x4, .f32⟩
  | 93 => ⟨S131072x4x4, .f32⟩
  | 94 => ⟨S131072x1x4x4, .f32⟩
  | 95 => ⟨S131072x4x4, .f32⟩
  | 96 => ⟨S131072x4x4, .f32⟩
  | 97 => ⟨S131072x1x4x4, .f32⟩
  | 98 => ⟨S131072x1x4x4, .f32⟩
  | 99 => ⟨S131072x1x4x4, .f32⟩
  | 100 => ⟨S131072x1x4x4, .f32⟩
  | 101 => ⟨S131072x1x4x4, .f32⟩
  | 102 => ⟨S131072x1x4x4, .f32⟩
  | 103 => ⟨S131072x1x4x4, .f32⟩
  | 104 => ⟨S131072x1x4x4, .f32⟩
  | 105 => ⟨S131072x1x4x4, .f32⟩
  | 106 => ⟨S131072x1x4x4, .f32⟩
  | 107 => ⟨S131072x1x4x4, .f32⟩
  | 108 => ⟨S131072x1x4x4, .f32⟩
  | 109 => ⟨S131072x1x4x4, .f32⟩
  | 110 => ⟨S131072x1x4x4, .f32⟩
  | 111 => ⟨S131072x1x4x4, .f32⟩
  | 112 => ⟨S131072x1x4x4, .f32⟩
  | 113 => ⟨S131072x1x4x4, .f32⟩
  | 114 => ⟨S131072x1x4x4, .f32⟩
  | 115 => ⟨S131072x1x4x4, .f32⟩
  | 116 => ⟨S131072x1x4x4, .f32⟩
  | 117 => ⟨S131072x1x4x4, .f32⟩
  | 118 => ⟨S131072x1x4x4, .f32⟩
  | 119 => ⟨S131072x1x4x4, .f32⟩
  | 120 => ⟨S131072x1x4x4, .f32⟩
  | 121 => ⟨S131072x16x4x4, .f32⟩
  | 122 => ⟨S131072x8x4x4, .f32⟩
  | 123 => ⟨S131072x24x4x4, .f32⟩
  | 124 => ⟨S131072x24x3x1, .f32⟩
  | 125 => ⟨S131072x24x3, .f32⟩
  | 126 => ⟨S_, .f32⟩
  | 127 => ⟨S131072x24x1x1, .f32⟩
  | _ => ⟨S131072x24x3x3, .f32⟩

abbrev hbmTy0_1 (i : Nat) : BufTy := match i % 128 with
  | 0 => ⟨S131072x24x4x1, .f32⟩
  | 1 => ⟨S131072x24x4x1, .f32⟩
  | 2 => ⟨S_, .i32⟩
  | 3 => ⟨S_, .f32⟩
  | 4 => ⟨S131072x24x4x4, .f32⟩
  | 5 => ⟨S131072x24x4x4, .f32⟩
  | _ => ⟨S131072x24x3x3, .f32⟩

abbrev hbmTy (i : Nat) : BufTy := match i / 128 with
  | 0 => hbmTy0_0 i
  | 1 => hbmTy0_1 i
  | _ => ⟨S131072x24x3x3, .f32⟩

abbrev bufTy : (tb : Table) → Fin (tcTables nBuf tb) → BufTy
  | .hbm, ⟨i, _⟩ => hbmTy i
  | _, _ => ⟨S131072x24x3x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_c_3 : Ref sig .tc := ⟨.hbm, 19, rfl⟩
abbrev main_call0_v0 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_cst_4 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_c_5 : Ref sig .tc := ⟨.hbm, 130, rfl⟩
abbrev main_call1_v0 : Ref sig .tc := ⟨.hbm, 131, rfl⟩
abbrev main_v120 : Ref sig .tc := ⟨.hbm, 132, rfl⟩
abbrev main_v121 : Ref sig .tc := ⟨.hbm, 133, rfl⟩

abbrev nD : Nat := 1
abbrev τ : Topo := Topo.v7x

variable {F : FTy → Type} [FloatOps F]

class Facts₀ : Prop where
  bcast_S131072x24x3_S131072x24x3x1_0_1_2 : S131072x24x3.BroadcastsInDim S131072x24x3x1 (![0, 1, 2] : Fin 3 → Fin S131072x24x3x1.rank)
  bcast_S_S24 : S_.BroadcastsInDim S24 (![] : Fin 0 → Fin S24.rank)
  bcast_S24_S24x1_0 : S24.BroadcastsInDim S24x1 (![0] : Fin 1 → Fin S24x1.rank)
  slices_S131072x24x3x1_S131072x1x3x1_0_0_0_0 : S131072x24x3x1.Slices ![0, 0, 0, 0] S131072x1x3x1
  shapeCasts_S131072x1x3x1_S131072x3x1 : S131072x1x3x1.ShapeCasts S131072x3x1
  bcast_S_S1 : S_.BroadcastsInDim S1 (![] : Fin 0 → Fin S1.rank)
  pads_S131072x24x3x3_S131072x24x4x3_000_000_010_000 : S131072x24x3x3.Pads (![0, 0, 0, 0] : Fin 4 → Nat) ![0, 0, 1, 0] ![0, 0, 0, 0] S131072x24x4x3
  h_S_ : 0 < S_.numel
  bcast_S_S131072x24x1x1 : S_.BroadcastsInDim S131072x24x1x1 (![] : Fin 0 → Fin S131072x24x1x1.rank)
  concatenates_S131072x24x3x1_S131072x24x1x1_S131072x24x4x1_d2 : Shape.Concatenates [S131072x24x3x1, S131072x24x1x1] S131072x24x4x1 2
  concatenates_S131072x24x4x3_S131072x24x4x1_S131072x24x4x4_d3 : Shape.Concatenates [S131072x24x4x3, S131072x24x4x1] S131072x24x4x4 3
  slices_S131072x24x4x4_S131072x1x4x4_0_0_0_0 : S131072x24x4x4.Slices ![0, 0, 0, 0] S131072x1x4x4
  shapeCasts_S131072x1x4x4_S131072x4x4 : S131072x1x4x4.ShapeCasts S131072x4x4
  slices_S131072x24x4x4_S131072x1x4x4_0_1_0_0 : S131072x24x4x4.Slices ![0, 1, 0, 0] S131072x1x4x4
  slices_S131072x24x4x4_S131072x1x4x4_0_2_0_0 : S131072x24x4x4.Slices ![0, 2, 0, 0] S131072x1x4x4
  slices_S131072x24x4x4_S131072x1x4x4_0_3_0_0 : S131072x24x4x4.Slices ![0, 3, 0, 0] S131072x1x4x4
  slices_S131072x24x4x4_S131072x1x4x4_0_4_0_0 : S131072x24x4x4.Slices ![0, 4, 0, 0] S131072x1x4x4
  slices_S131072x24x4x4_S131072x1x4x4_0_5_0_0 : S131072x24x4x4.Slices ![0, 5, 0, 0] S131072x1x4x4
  slices_S131072x24x4x4_S131072x1x4x4_0_6_0_0 : S131072x24x4x4.Slices ![0, 6, 0, 0] S131072x1x4x4
  slices_S131072x24x4x4_S131072x1x4x4_0_7_0_0 : S131072x24x4x4.Slices ![0, 7, 0, 0] S131072x1x4x4
  slices_S131072x24x4x4_S131072x1x4x4_0_8_0_0 : S131072x24x4x4.Slices ![0, 8, 0, 0] S131072x1x4x4
  slices_S131072x24x4x4_S131072x1x4x4_0_9_0_0 : S131072x24x4x4.Slices ![0, 9, 0, 0] S131072x1x4x4
  slices_S131072x24x4x4_S131072x1x4x4_0_10_0_0 : S131072x24x4x4.Slices ![0, 10, 0, 0] S131072x1x4x4
  slices_S131072x24x4x4_S131072x1x4x4_0_11_0_0 : S131072x24x4x4.Slices ![0, 11, 0, 0] S131072x1x4x4
  slices_S131072x24x4x4_S131072x1x4x4_0_12_0_0 : S131072x24x4x4.Slices ![0, 12, 0, 0] S131072x1x4x4
  slices_S131072x24x4x4_S131072x1x4x4_0_13_0_0 : S131072x24x4x4.Slices ![0, 13, 0, 0] S131072x1x4x4
  slices_S131072x24x4x4_S131072x1x4x4_0_14_0_0 : S131072x24x4x4.Slices ![0, 14, 0, 0] S131072x1x4x4
  slices_S131072x24x4x4_S131072x1x4x4_0_15_0_0 : S131072x24x4x4.Slices ![0, 15, 0, 0] S131072x1x4x4
  slices_S131072x24x4x4_S131072x1x4x4_0_16_0_0 : S131072x24x4x4.Slices ![0, 16, 0, 0] S131072x1x4x4
  slices_S131072x24x4x4_S131072x1x4x4_0_17_0_0 : S131072x24x4x4.Slices ![0, 17, 0, 0] S131072x1x4x4
  slices_S131072x24x4x4_S131072x1x4x4_0_18_0_0 : S131072x24x4x4.Slices ![0, 18, 0, 0] S131072x1x4x4
  slices_S131072x24x4x4_S131072x1x4x4_0_19_0_0 : S131072x24x4x4.Slices ![0, 19, 0, 0] S131072x1x4x4
  slices_S131072x24x4x4_S131072x1x4x4_0_20_0_0 : S131072x24x4x4.Slices ![0, 20, 0, 0] S131072x1x4x4
  slices_S131072x24x4x4_S131072x1x4x4_0_21_0_0 : S131072x24x4x4.Slices ![0, 21, 0, 0] S131072x1x4x4
  slices_S131072x24x4x4_S131072x1x4x4_0_22_0_0 : S131072x24x4x4.Slices ![0, 22, 0, 0] S131072x1x4x4
  slices_S131072x24x4x4_S131072x1x4x4_0_23_0_0 : S131072x24x4x4.Slices ![0, 23, 0, 0] S131072x1x4x4
  bcast_S131072x4x4_S131072x1x4x4_0_2_3 : S131072x4x4.BroadcastsInDim S131072x1x4x4 (![0, 2, 3] : Fin 3 → Fin S131072x1x4x4.rank)
  concatenates_S131072x1x4x4_S131072x1x4x4_S131072x1x4x4_S131072x1x4x4_S131072x1x4x4_S131072x1x4x4_S131072x1x4x4_S131072x1x4x4_S131072x1x4x4_S131072x1x4x4_S131072x1x4x4_S131072x1x4x4_S131072x1x4x4_S131072x1x4x4_S131072x1x4x4_S131072x1x4x4_S131072x16x4x4_d1 : Shape.Concatenates [S131072x1x4x4, S131072x1x4x4, S131072x1x4x4, S131072x1x4x4, S131072x1x4x4, S131072x1x4x4, S131072x1x4x4, S131072x1x4x4, S131072x1x4x4, S131072x1x4x4, S131072x1x4x4, S131072x1x4x4, S131072x1x4x4, S131072x1x4x4, S131072x1x4x4, S131072x1x4x4] S131072x16x4x4 1
  concatenates_S131072x1x4x4_S131072x1x4x4_S131072x1x4x4_S131072x1x4x4_S131072x1x4x4_S131072x1x4x4_S131072x1x4x4_S131072x1x4x4_S131072x8x4x4_d1 : Shape.Concatenates [S131072x1x4x4, S131072x1x4x4, S131072x1x4x4, S131072x1x4x4, S131072x1x4x4, S131072x1x4x4, S131072x1x4x4, S131072x1x4x4] S131072x8x4x4 1
  concatenates_S131072x16x4x4_S131072x8x4x4_S131072x24x4x4_d1 : Shape.Concatenates [S131072x16x4x4, S131072x8x4x4] S131072x24x4x4 1
  slices_S131072x24x4x4_S131072x24x3x1_0_0_0_3 : S131072x24x4x4.Slices ![0, 0, 0, 3] S131072x24x3x1
  shapeCasts_S131072x24x3x1_S131072x24x3 : S131072x24x3x1.ShapeCasts S131072x24x3
  pads_S131072x24x4x1_S131072x24x4x4_000_000_000_300 : S131072x24x4x1.Pads (![0, 0, 0, 3] : Fin 4 → Nat) ![0, 0, 0, 0] ![0, 0, 0, 0] S131072x24x4x4
  gather_S131072x24x3x1_S24x1_S131072x24x3x1_023_1_n_n_1_1_131072131_wf : GatherDims.WF S131072x24x3x1 S24x1 S131072x24x3x1 [0, 2, 3] [1] [] [1] [] 1 ![131072, 1, 3, 1]
  scatter_S131072x24x3x1_S1_S131072x3x1_012_1_1_0_wf : ScatterDims.WF S131072x24x3x1 S1 S131072x3x1 [0, 1, 2] [1] [1] 0
  dot_S131072x4x4_S131072x4x4_S131072x4x4_2_1_1_2_0_0_wf : DotDims.WF S131072x4x4 S131072x4x4 S131072x4x4 [2] [1] [1] [2] [0] [0]
  dot_S131072x24x4x4_S131072x24x4x1_S131072x24x4x1_3_2_2_3_01_01_wf : DotDims.WF S131072x24x4x4 S131072x24x4x1 S131072x24x4x1 [3] [2] [2] [3] [0, 1] [0, 1]

variable [Facts₀]

def gather_S131072x24x3x1_S24x1_S131072x24x3x1_023_1_n_n_1_1_131072131 : GatherDims S131072x24x3x1 S24x1 S131072x24x3x1 where
  offsetDims := [0, 2, 3]
  collapsedSliceDims := [1]
  operandBatchingDims := []
  startIndicesBatchingDims := []
  startIndexMap := [1]
  indexVectorDim := 1
  sliceSizes := ![131072, 1, 3, 1]
  wf := gather_S131072x24x3x1_S24x1_S131072x24x3x1_023_1_n_n_1_1_131072131_wf
def scatter_S131072x24x3x1_S1_S131072x3x1_012_1_1_0 : ScatterDims S131072x24x3x1 S1 S131072x3x1 where
  updateWindowDims := [0, 1, 2]
  insertedWindowDims := [1]
  scatterDimsToOperandDims := [1]
  indexVectorDim := 0
  wf := scatter_S131072x24x3x1_S1_S131072x3x1_012_1_1_0_wf
def dot_S131072x4x4_S131072x4x4_S131072x4x4_2_1_1_2_0_0 : DotDims S131072x4x4 S131072x4x4 S131072x4x4 where
  lhsContracting := [2]
  rhsContracting := [1]
  lhsNonContracting := [1]
  rhsNonContracting := [2]
  lhsBatch := [0]
  rhsBatch := [0]
  wf := dot_S131072x4x4_S131072x4x4_S131072x4x4_2_1_1_2_0_0_wf
def dot_S131072x24x4x4_S131072x24x4x1_S131072x24x4x1_3_2_2_3_01_01 : DotDims S131072x24x4x4 S131072x24x4x1 S131072x24x4x1 where
  lhsContracting := [3]
  rhsContracting := [2]
  lhsNonContracting := [2]
  rhsNonContracting := [3]
  lhsBatch := [0, 1]
  rhsBatch := [0, 1]
  wf := dot_S131072x24x4x4_S131072x24x4x1_S131072x24x4x1_3_2_2_3_01_01_wf

class Facts : Prop extends Facts₀ where

variable [Facts]
-- ==== Proof.KDefsK.lean ====
/- The values of the kernel body, one name each. The body loads its two input blocks whole, computes columns from them
   and stores two result blocks whole. Each value that is carried from one stretch of the body to the next is, in the
   generated skeleton, a function of the values carried before it; here every such value is named as a function of
   the two input blocks x0 [128, 216] and x1 [128, 72], each name applying the skeleton's function to the names of its
   operands, so that a value used many times is written once. s3732 is the block stored to the first result,
   s3733 the block stored to the second. -/
import proofs.«156383_j88811333747289_2_alg».proof.Proof.Gen.Kernel.Skeleton
import Idealize.ShloMosaic.Lib.Pipeline.FrameBody

noncomputable section

namespace Cert.Kernel.KD

open Idealize.ShloMosaic Cert.Kernel Cert.Kernel.Gen

variable {F : FTy → Type} [FloatOps F]

/-- The first input block as the body loads it. -/
def s0 (x0 : Vec F S128x216 .f32) (x1 : Vec F S128x72 .f32) : Vec F S128x216 .f32 :=
  View.ld x0 (Rect.unit (s := S128x216) ![0, 0] S128x216.size inb_S128x216_S128x216_0_0)
/-- The second input block as the body loads it. -/
def s2 (x0 : Vec F S128x216 .f32) (x1 : Vec F S128x72 .f32) : Vec F S128x72 .f32 :=
  View.ld x1 (Rect.unit (s := S128x72) ![0, 0] S128x72.size inb_S128x72_S128x72_0_0)
def s5 (x0 : Vec F S128x216 .f32) (x1 : Vec F S128x72 .f32) : FVec F S128 .f32 := k0_pay7 (s0 x0 x1)
def s7 (x0 : Vec F S128x216 .f32) (x1 : Vec F S128x72 .f32) : FVec F S128 .f32 := k0_pay8 (s0 x0 x1)
def s9 (x0 : Vec F S128x216 .f32) (x1 : Vec F S128x72 .f32) : FVec F S128 .f32 := k0_pay9 (s0 x0 x1)
def s11 (x0 : Vec F S128x216 .f32) (x1 : Vec F S128x72 .f32) : FVec F S128 .f32 := k0_pay10 (s0 x0 x1)
def s13 (x0 : Vec F S128x216 .f32) (x1 : Vec F S128x72 .f32) : FVec F S128 .f32 := k0_pay11 (s0 x0 x1)
def s15 (x0 : Vec F S128x216 .f32) (x1 : Vec F S128x72 .f32) : FVec F S128 .f32 := k0_pay12 (s0 x0 x1)
def s17 (x0 : Vec F S128x216 .f32) (x1 : Vec F S128x72 .f32) : FVec F S128 .f32 := k0_pay13 (s0 x0 x1)
def s19 (x0 : Vec F S128x216 .f32) (x1 : Vec F S128x72 .f32) : FVec F S128 .f32 := k0_pay14 (s0 x0 x1)
def s21 (x0 : Vec F S128x216 .f32) (x1 : Vec F S128x72 .f32) : FVec F S128 .f32 := k0_pay15 (s0 x0 x1)
def s3 (x0 : Vec F S128x216 .f32) (x1 : Vec F S128x72 .f32) : FVec F S128x72 .f32 := k0_pay6 (s2 x0 x1)
def s437 (x0 : Vec F S128x216 .f32) (x1 : Vec F S128x72 .f32) : FVec F S128 .f32 := k0_pay230 (s3 x0 x1)
def s439 (x0 : Vec F S128x216 .f32) (x1 : Vec F S128x72 .f32) : FVec F S128 .f32 := k0_pay231 (s3 x0 x1)
def s441 (x0 : Vec F S128x216 .f32) (x1 : Vec F S128x72 .f32) : FVec F S128 .f32 := k0_pay232 (s3 x0 x1)
def s2650 (x0 : Vec F S128x216 .f32) (x1 : Vec F S128x72 .f32) : FVec F S128 .f32 := k0_pay693
def s2651 (x0 : Vec F S128x216 .f32) (x1 : Vec F S128x72 .f32) : FVec F S128 .f32 := k0_pay694
def s2654 (x0 : Vec F S128x216 .f32) (x1 : Vec F S128x72 .f32) : FVec F S128 .f32 := k0_pay695 (s5 x0 x1) (s437 x0 x1)
def s2655 (x0 : Vec F S128x216 .f32) (x1 : Vec F S128x72 .f32) : FVec F S128 .f32 := k0_pay696 (s7 x0 x1) (s439 x0 x1)
def s2692 (x0 : Vec F S128x216 .f32) (x1 : Vec F S128x72 .f32) : FVec F S128x16 .f32 := k0_pay697 (s5 x0 x1) (s7 x0 x1) (s9 x0 x1) (s11 x0 x1) (s13 x0 x1) (s15 x0 x1) (s17 x0 x1) (s19 x0 x1) (s21 x0 x1) (s437 x0 x1) (s439 x0 x1) (s441 x0 x1) (s2650 x0 x1) (s2651 x0 x1) (s2654 x0 x1) (s2655 x0 x1)
def s443 (x0 : Vec F S128x216 .f32) (x1 : Vec F S128x72 .f32) : FVec F S128 .f32 := k0_pay233 (s3 x0 x1)
def s445 (x0 : Vec F S128x216 .f32) (x1 : Vec F S128x72 .f32) : FVec F S128 .f32 := k0_pay234 (s3 x0 x1)
def s447 (x0 : Vec F S128x216 .f32) (x1 : Vec F S128x72 .f32) : FVec F S128 .f32 := k0_pay235 (s3 x0 x1)
def s35 (x0 : Vec F S128x216 .f32) (x1 : Vec F S128x72 .f32) : FVec F S128 .f32 := k0_pay22 (s0 x0 x1)
def s23 (x0 : Vec F S128x216 .f32) (x1 : Vec F S128x72 .f32) : FVec F S128 .f32 := k0_pay16 (s0 x0 x1)
def s29 (x0 : Vec F S128x216 .f32) (x1 : Vec F S128x72 .f32) : FVec F S128 .f32 := k0_pay19 (s0 x0 x1)
def s653 (x0 : Vec F S128x216 .f32) (x1 : Vec F S128x72 .f32) : FVec F S128 .f32 := k0_pay373 (s5 x0 x1) (s7 x0 x1) (s23 x0 x1) (s29 x0 x1)
def s655 (x0 : Vec F S128x216 .f32) (x1 : Vec F S128x72 .f32) : FVec F S128 .f32 := k0_pay374 (s9 x0 x1) (s35 x0 x1) (s653 x0 x1)
def s25 (x0 : Vec F S128x216 .f32) (x1 : Vec F S128x72 .f32) : FVec F S128 .f32 := k0_pay17 (s0 x0 x1)
def s31 (x0 : Vec F S128x216 .f32) (x1 : Vec F S128x72 .f32) : FVec F S128 .f32 := k0_pay20 (s0 x0 x1)
def s37 (x0 : Vec F S128x216 .f32) (x1 : Vec F S128x72 .f32) : FVec F S128 .f32 := k0_pay23 (s0 x0 x1)
def s662 (x0 : Vec F S128x216 .f32) (x1 : Vec F S128x72 .f32) : FVec F S128 .f32 := k0_pay375 (s5 x0 x1) (s7 x0 x1) (s9 x0 x1) (s25 x0 x1) (s31 x0 x1) (s37 x0 x1)
def s27 (x0 : Vec F S128x216 .f32) (x1 : Vec F S128x72 .f32) : FVec F S128 .f32 := k0_pay18 (s0 x0 x1)
def s33 (x0 : Vec F S128x216 .f32) (x1 : Vec F S128x72 .f32) : FVec F S128 .f32 := k0_pay21 (s0 x0 x1)
def s39 (x0 : Vec F S128x216 .f32) (x1 : Vec F S128x72 .f32) : FVec F S128 .f32 := k0_pay24 (s0 x0 x1)
def s669 (x0 : Vec F S128x216 .f32) (x1 : Vec F S128x72 .f32) : FVec F S128 .f32 := k0_pay376 (s5 x0 x1) (s7 x0 x1) (s9 x0 x1) (s27 x0 x1) (s33 x0 x1) (s39 x0 x1)
def s676 (x0 : Vec F S128x216 .f32) (x1 : Vec F S128x72 .f32) : FVec F S128 .f32 := k0_pay377 (s11 x0 x1) (s13 x0 x1) (s15 x0 x1) (s23 x0 x1) (s29 x0 x1) (s35 x0 x1)
def s683 (x0 : Vec F S128x216 .f32) (x1 : Vec F S128x72 .f32) : FVec F S128 .f32 := k0_pay378 (s11 x0 x1) (s13 x0 x1) (s15 x0 x1) (s25 x0 x1) (s31 x0 x1) (s37 x0 x1)
def s690 (x0 : Vec F S128x216 .f32) (x1 : Vec F S128x72 .f32) : FVec F S128 .f32 := k0_pay379 (s11 x0 x1) (s13 x0 x1) (s15 x0 x1) (s27 x0 x1) (s33 x0 x1) (s39 x0 x1)
def s697 (x0 : Vec F S128x216 .f32) (x1 : Vec F S128x72 .f32) : FVec F S128 .f32 := k0_pay380 (s17 x0 x1) (s19 x0 x1) (s21 x0 x1) (s23 x0 x1) (s29 x0 x1) (s35 x0 x1)
def s704 (x0 : Vec F S128x216 .f32) (x1 : Vec F S128x72 .f32) : FVec F S128 .f32 := k0_pay381 (s17 x0 x1) (s19 x0 x1) (s21 x0 x1) (s25 x0 x1) (s31 x0 x1) (s37 x0 x1)
def s705 (x0 : Vec F S128x216 .f32) (x1 : Vec F S128x72 .f32) : FVec F S128 .f32 := k0_pay382 (s17 x0 x1) (s27 x0 x1)
def s711 (x0 : Vec F S128x216 .f32) (x1 : Vec F S128x72 .f32) : FVec F S128 .f32 := k0_pay383 (s19 x0 x1) (s21 x0 x1) (s33 x0 x1) (s39 x0 x1) (s705 x0 x1) (Scalar.ofBits .f32 0x00000000#32)
def s580 (x0 : Vec F S128x216 .f32) (x1 : Vec F S128x72 .f32) : FVec F S128 .f32 := k0_pay304 (s437 x0 x1) (s443 x0 x1)
def s581 (x0 : Vec F S128x216 .f32) (x1 : Vec F S128x72 .f32) : FVec F S128 .f32 := k0_pay305 (s439 x0 x1) (s445 x0 x1)
def s582 (x0 : Vec F S128x216 .f32) (x1 : Vec F S128x72 .f32) : FVec F S128 .f32 := k0_pay306 (s441 x0 x1) (s447 x0 x1)
def s727 (x0 : Vec F S128x216 .f32) (x1 : Vec F S128x72 .f32) : FVec F S128 .f32 := k0_pay385 (s11 x0 x1) (s13 x0 x1) (s15 x0 x1) (s439 x0 x1) (s580 x0 x1) (s581 x0 x1) (s582 x0 x1)
def s735 (x0 : Vec F S128x216 .f32) (x1 : Vec F S128x72 .f32) : FVec F S128 .f32 := k0_pay386 (s17 x0 x1) (s19 x0 x1) (s21 x0 x1) (s441 x0 x1) (s580 x0 x1) (s581 x0 x1) (s582 x0 x1)
def s719 (x0 : Vec F S128x216 .f32) (x1 : Vec F S128x72 .f32) : FVec F S128 .f32 := k0_pay384 (s5 x0 x1) (s7 x0 x1) (s9 x0 x1) (s437 x0 x1) (s580 x0 x1) (s581 x0 x1) (s582 x0 x1)
def s2704 (x0 : Vec F S128x216 .f32) (x1 : Vec F S128x72 .f32) : FVec F S128 .f32 := k0_pay699 (s443 x0 x1) (s445 x0 x1) (s447 x0 x1) (s655 x0 x1) (s662 x0 x1) (s669 x0 x1) (s719 x0 x1)
def s2711 (x0 : Vec F S128x216 .f32) (x1 : Vec F S128x72 .f32) : FVec F S128 .f32 := k0_pay700 (s443 x0 x1) (s445 x0 x1) (s447 x0 x1) (s676 x0 x1) (s683 x0 x1) (s690 x0 x1)
def s2737 (x0 : Vec F S128x216 .f32) (x1 : Vec F S128x72 .f32) : FVec F S128x16 .f32 := k0_pay701 (s443 x0 x1) (s445 x0 x1) (s447 x0 x1) (s655 x0 x1) (s662 x0 x1) (s669 x0 x1) (s676 x0 x1) (s683 x0 x1) (s690 x0 x1) (s697 x0 x1) (s704 x0 x1) (s711 x0 x1) (s727 x0 x1) (s735 x0 x1) (s2650 x0 x1) (s2651 x0 x1) (s2704 x0 x1) (s2711 x0 x1)
def s45 (x0 : Vec F S128x216 .f32) (x1 : Vec F S128x72 .f32) : FVec F S128 .f32 := k0_pay27 (s0 x0 x1)
def s51 (x0 : Vec F S128x216 .f32) (x1 : Vec F S128x72 .f32) : FVec F S128 .f32 := k0_pay30 (s0 x0 x1)
def s1 (x0 : Vec F S128x216 .f32) (x1 : Vec F S128x72 .f32) : FVec F S128x216 .f32 := k0_pay5 (s0 x0 x1)
def s57 (x0 : Vec F S128x216 .f32) (x1 : Vec F S128x72 .f32) : FVec F S128 .f32 := k0_pay34 (s1 x0 x1)
def s756 (x0 : Vec F S128x216 .f32) (x1 : Vec F S128x72 .f32) : FVec F S128 .f32 := k0_pay389 (s5 x0 x1) (s7 x0 x1) (s9 x0 x1) (s45 x0 x1) (s51 x0 x1) (s57 x0 x1)
def s47 (x0 : Vec F S128x216 .f32) (x1 : Vec F S128x72 .f32) : FVec F S128 .f32 := k0_pay28 (s0 x0 x1)
def s53 (x0 : Vec F S128x216 .f32) (x1 : Vec F S128x72 .f32) : FVec F S128 .f32 := k0_pay31 (s0 x0 x1)
def s41 (x0 : Vec F S128x216 .f32) (x1 : Vec F S128x72 .f32) : FVec F S128 .f32 := k0_pay25 (s0 x0 x1)
def s757 (x0 : Vec F S128x216 .f32) (x1 : Vec F S128x72 .f32) : FVec F S128 .f32 := k0_pay390 (s11 x0 x1) (s41 x0 x1)
def s758 (x0 : Vec F S128x216 .f32) (x1 : Vec F S128x72 .f32) : FVec F S128 .f32 := k0_pay391
def s763 (x0 : Vec F S128x216 .f32) (x1 : Vec F S128x72 .f32) : FVec F S128 .f32 := k0_pay392 (s13 x0 x1) (s15 x0 x1) (s47 x0 x1) (s53 x0 x1) (s757 x0 x1) (s758 x0 x1)
def s43 (x0 : Vec F S128x216 .f32) (x1 : Vec F S128x72 .f32) : FVec F S128 .f32 := k0_pay26 (s0 x0 x1)
def s49 (x0 : Vec F S128x216 .f32) (x1 : Vec F S128x72 .f32) : FVec F S128 .f32 := k0_pay29 (s0 x0 x1)
def s54 (x0 : Vec F S128x216 .f32) (x1 : Vec F S128x72 .f32) : FVec F S128x1 .f32 := k0_pay32 (s0 x0 x1)
def s55 (x0 : Vec F S128x216 .f32) (x1 : Vec F S128x72 .f32) : FVec F S128 .f32 := k0_pay33 (s54 x0 x1)
def s770 (x0 : Vec F S128x216 .f32) (x1 : Vec F S128x72 .f32) : FVec F S128 .f32 := k0_pay393 (s11 x0 x1) (s13 x0 x1) (s15 x0 x1) (s43 x0 x1) (s49 x0 x1) (s55 x0 x1)
def s777 (x0 : Vec F S128x216 .f32) (x1 : Vec F S128x72 .f32) : FVec F S128 .f32 := k0_pay394 (s11 x0 x1) (s13 x0 x1) (s15 x0 x1) (s45 x0 x1) (s51 x0 x1) (s57 x0 x1)
def s784 (x0 : Vec F S128x216 .f32) (x1 : Vec F S128x72 .f32) : FVec F S128 .f32 := k0_pay395 (s17 x0 x1) (s19 x0 x1) (s21 x0 x1) (s41 x0 x1) (s47 x0 x1) (s53 x0 x1)
def s791 (x0 : Vec F S128x216 .f32) (x1 : Vec F S128x72 .f32) : FVec F S128 .f32 := k0_pay396 (s17 x0 x1) (s19 x0 x1) (s21 x0 x1) (s43 x0 x1) (s49 x0 x1) (s55 x0 x1)
def s798 (x0 : Vec F S128x216 .f32) (x1 : Vec F S128x72 .f32) : FVec F S128 .f32 := k0_pay397 (s17 x0 x1) (s19 x0 x1) (s21 x0 x1) (s45 x0 x1) (s51 x0 x1) (s57 x0 x1)
def s449 (x0 : Vec F S128x216 .f32) (x1 : Vec F S128x72 .f32) : FVec F S128 .f32 := k0_pay236 (s3 x0 x1)
def s451 (x0 : Vec F S128x216 .f32) (x1 : Vec F S128x72 .f32) : FVec F S128 .f32 := k0_pay237 (s3 x0 x1)
def s453 (x0 : Vec F S128x216 .f32) (x1 : Vec F S128x72 .f32) : FVec F S128 .f32 := k0_pay238 (s3 x0 x1)
def s742 (x0 : Vec F S128x216 .f32) (x1 : Vec F S128x72 .f32) : FVec F S128 .f32 := k0_pay387 (s5 x0 x1) (s7 x0 x1) (s9 x0 x1) (s41 x0 x1) (s47 x0 x1) (s53 x0 x1)
def s749 (x0 : Vec F S128x216 .f32) (x1 : Vec F S128x72 .f32) : FVec F S128 .f32 := k0_pay388 (s5 x0 x1) (s7 x0 x1) (s9 x0 x1) (s43 x0 x1) (s49 x0 x1) (s55 x0 x1)
def s583 (x0 : Vec F S128x216 .f32) (x1 : Vec F S128x72 .f32) : FVec F S128 .f32 := k0_pay307 (s437 x0 x1) (s449 x0 x1)
def s584 (x0 : Vec F S128x216 .f32) (x1 : Vec F S128x72 .f32) : FVec F S128 .f32 := k0_pay308 (s439 x0 x1) (s451 x0 x1)
def s585 (x0 : Vec F S128x216 .f32) (x1 : Vec F S128x72 .f32) : FVec F S128 .f32 := k0_pay309 (s441 x0 x1) (s453 x0 x1)
def s806 (x0 : Vec F S128x216 .f32) (x1 : Vec F S128x72 .f32) : FVec F S128 .f32 := k0_pay398 (s5 x0 x1) (s7 x0 x1) (s9 x0 x1) (s437 x0 x1) (s583 x0 x1) (s584 x0 x1) (s585 x0 x1)
def s2749 (x0 : Vec F S128x216 .f32) (x1 : Vec F S128x72 .f32) : FVec F S128 .f32 := k0_pay703 (s449 x0 x1) (s451 x0 x1) (s453 x0 x1) (s742 x0 x1) (s749 x0 x1) (s756 x0 x1) (s806 x0 x1)
def s811 (x0 : Vec F S128x216 .f32) (x1 : Vec F S128x72 .f32) : FVec F S128 .f32 := k0_pay399 (s11 x0 x1) (s13 x0 x1) (s583 x0 x1) (s584 x0 x1)
def s814 (x0 : Vec F S128x216 .f32) (x1 : Vec F S128x72 .f32) : FVec F S128 .f32 := k0_pay400 (s15 x0 x1) (s439 x0 x1) (s585 x0 x1) (s811 x0 x1)
def s2757 (x0 : Vec F S128x216 .f32) (x1 : Vec F S128x72 .f32) : FVec F S128 .f32 := k0_pay704 (s449 x0 x1) (s451 x0 x1) (s453 x0 x1) (s763 x0 x1) (s770 x0 x1) (s777 x0 x1) (s814 x0 x1)
def s822 (x0 : Vec F S128x216 .f32) (x1 : Vec F S128x72 .f32) : FVec F S128 .f32 := k0_pay401 (s17 x0 x1) (s19 x0 x1) (s21 x0 x1) (s441 x0 x1) (s583 x0 x1) (s584 x0 x1) (s585 x0 x1)
def s2765 (x0 : Vec F S128x216 .f32) (x1 : Vec F S128x72 .f32) : FVec F S128 .f32 := k0_pay705 (s449 x0 x1) (s451 x0 x1) (s453 x0 x1) (s784 x0 x1) (s791 x0 x1) (s798 x0 x1) (s822 x0 x1)
def s2766 (x0 : Vec F S128x216 .f32) (x1 : Vec F S128x72 .f32) : FVec F S128x1 .f32 := k0_pay706 (s742 x0 x1)
def s2767 (x0 : Vec F S128x216 .f32) (x1 : Vec F S128x72 .f32) : FVec F S128x1 .f32 := k0_pay707 (s749 x0 x1)
def s2782 (x0 : Vec F S128x216 .f32) (x1 : Vec F S128x72 .f32) : FVec F S128x16 .f32 := k0_pay708 (s756 x0 x1) (s763 x0 x1) (s770 x0 x1) (s777 x0 x1) (s784 x0 x1) (s791 x0 x1) (s798 x0 x1) (s2650 x0 x1) (s2651 x0 x1) (s2749 x0 x1) (s2757 x0 x1) (s2765 x0 x1) (s2766 x0 x1) (s2767 x0 x1)
def s59 (x0 : Vec F S128x216 .f32) (x1 : Vec F S128x72 .f32) : FVec F S128 .f32 := k0_pay35 (s1 x0 x1)
def s65 (x0 : Vec F S128x216 .f32) (x1 : Vec F S128x72 .f32) : FVec F S128 .f32 := k0_pay38 (s1 x0 x1)
def s71 (x0 : Vec F S128x216 .f32) (x1 : Vec F S128x72 .f32) : FVec F S128 .f32 := k0_pay41 (s1 x0 x1)
def s829 (x0 : Vec F S128x216 .f32) (x1 : Vec F S128x72 .f32) : FVec F S128 .f32 := k0_pay402 (s5 x0 x1) (s7 x0 x1) (s9 x0 x1) (s59 x0 x1) (s65 x0 x1) (s71 x0 x1)
def s2811 (x0 : Vec F S128x216 .f32) (x1 : Vec F S128x72 .f32) : FVec F S128x1 .f32 := k0_pay710 (s829 x0 x1)
def s61 (x0 : Vec F S128x216 .f32) (x1 : Vec F S128x72 .f32) : FVec F S128 .f32 := k0_pay36 (s1 x0 x1)
def s67 (x0 : Vec F S128x216 .f32) (x1 : Vec F S128x72 .f32) : FVec F S128 .f32 := k0_pay39 (s1 x0 x1)
def s73 (x0 : Vec F S128x216 .f32) (x1 : Vec F S128x72 .f32) : FVec F S128 .f32 := k0_pay42 (s1 x0 x1)
def s836 (x0 : Vec F S128x216 .f32) (x1 : Vec F S128x72 .f32) : FVec F S128 .f32 := k0_pay403 (s5 x0 x1) (s7 x0 x1) (s9 x0 x1) (s61 x0 x1) (s67 x0 x1) (s73 x0 x1)
def s2812 (x0 : Vec F S128x216 .f32) (x1 : Vec F S128x72 .f32) : FVec F S128x1 .f32 := k0_pay711 (s836 x0 x1)
def s63 (x0 : Vec F S128x216 .f32) (x1 : Vec F S128x72 .f32) : FVec F S128 .f32 := k0_pay37 (s1 x0 x1)
def s69 (x0 : Vec F S128x216 .f32) (x1 : Vec F S128x72 .f32) : FVec F S128 .f32 := k0_pay40 (s1 x0 x1)
def s75 (x0 : Vec F S128x216 .f32) (x1 : Vec F S128x72 .f32) : FVec F S128 .f32 := k0_pay43 (s1 x0 x1)
def s843 (x0 : Vec F S128x216 .f32) (x1 : Vec F S128x72 .f32) : FVec F S128 .f32 := k0_pay404 (s5 x0 x1) (s7 x0 x1) (s9 x0 x1) (s63 x0 x1) (s69 x0 x1) (s75 x0 x1)
def s2813 (x0 : Vec F S128x216 .f32) (x1 : Vec F S128x72 .f32) : FVec F S128x1 .f32 := k0_pay712 (s843 x0 x1)
def s455 (x0 : Vec F S128x216 .f32) (x1 : Vec F S128x72 .f32) : FVec F S128 .f32 := k0_pay239 (s3 x0 x1)
def s457 (x0 : Vec F S128x216 .f32) (x1 : Vec F S128x72 .f32) : FVec F S128 .f32 := k0_pay240 (s3 x0 x1)
def s459 (x0 : Vec F S128x216 .f32) (x1 : Vec F S128x72 .f32) : FVec F S128 .f32 := k0_pay241 (s3 x0 x1)
def s586 (x0 : Vec F S128x216 .f32) (x1 : Vec F S128x72 .f32) : FVec F S128 .f32 := k0_pay310 (s437 x0 x1) (s455 x0 x1)
def s587 (x0 : Vec F S128x216 .f32) (x1 : Vec F S128x72 .f32) : FVec F S128 .f32 := k0_pay311 (s439 x0 x1) (s457 x0 x1)
def s588 (x0 : Vec F S128x216 .f32) (x1 : Vec F S128x72 .f32) : FVec F S128 .f32 := k0_pay312 (s441 x0 x1) (s459 x0 x1)
def s893 (x0 : Vec F S128x216 .f32) (x1 : Vec F S128x72 .f32) : FVec F S128 .f32 := k0_pay411 (s5 x0 x1) (s7 x0 x1) (s9 x0 x1) (s437 x0 x1) (s586 x0 x1) (s587 x0 x1) (s588 x0 x1)
def s2814 (x0 : Vec F S128x216 .f32) (x1 : Vec F S128x72 .f32) : FVec F S128x1 .f32 := k0_pay713 (s455 x0 x1) (s457 x0 x1) (s459 x0 x1) (s829 x0 x1) (s836 x0 x1) (s843 x0 x1) (s893 x0 x1)
def s850 (x0 : Vec F S128x216 .f32) (x1 : Vec F S128x72 .f32) : FVec F S128 .f32 := k0_pay405 (s11 x0 x1) (s13 x0 x1) (s15 x0 x1) (s59 x0 x1) (s65 x0 x1) (s71 x0 x1)
def s2815 (x0 : Vec F S128x216 .f32) (x1 : Vec F S128x72 .f32) : FVec F S128x1 .f32 := k0_pay714 (s850 x0 x1)
def s857 (x0 : Vec F S128x216 .f32) (x1 : Vec F S128x72 .f32) : FVec F S128 .f32 := k0_pay406 (s11 x0 x1) (s13 x0 x1) (s15 x0 x1) (s61 x0 x1) (s67 x0 x1) (s73 x0 x1)
def s2816 (x0 : Vec F S128x216 .f32) (x1 : Vec F S128x72 .f32) : FVec F S128x1 .f32 := k0_pay715 (s857 x0 x1)
def s864 (x0 : Vec F S128x216 .f32) (x1 : Vec F S128x72 .f32) : FVec F S128 .f32 := k0_pay407 (s11 x0 x1) (s13 x0 x1) (s15 x0 x1) (s63 x0 x1) (s69 x0 x1) (s75 x0 x1)
def s2817 (x0 : Vec F S128x216 .f32) (x1 : Vec F S128x72 .f32) : FVec F S128x1 .f32 := k0_pay716 (s864 x0 x1)
def s901 (x0 : Vec F S128x216 .f32) (x1 : Vec F S128x72 .f32) : FVec F S128 .f32 := k0_pay412 (s11 x0 x1) (s13 x0 x1) (s15 x0 x1) (s439 x0 x1) (s586 x0 x1) (s587 x0 x1) (s588 x0 x1)
def s2818 (x0 : Vec F S128x216 .f32) (x1 : Vec F S128x72 .f32) : FVec F S128x1 .f32 := k0_pay717 (s455 x0 x1) (s457 x0 x1) (s459 x0 x1) (s850 x0 x1) (s857 x0 x1) (s864 x0 x1) (s901 x0 x1)
def s871 (x0 : Vec F S128x216 .f32) (x1 : Vec F S128x72 .f32) : FVec F S128 .f32 := k0_pay408 (s17 x0 x1) (s19 x0 x1) (s21 x0 x1) (s59 x0 x1) (s65 x0 x1) (s71 x0 x1)
def s2819 (x0 : Vec F S128x216 .f32) (x1 : Vec F S128x72 .f32) : FVec F S128x1 .f32 := k0_pay718 (s871 x0 x1)
def s878 (x0 : Vec F S128x216 .f32) (x1 : Vec F S128x72 .f32) : FVec F S128 .f32 := k0_pay409 (s17 x0 x1) (s19 x0 x1) (s21 x0 x1) (s61 x0 x1) (s67 x0 x1) (s73 x0 x1)
def s2820 (x0 : Vec F S128x216 .f32) (x1 : Vec F S128x72 .f32) : FVec F S128x1 .f32 := k0_pay719 (s878 x0 x1)
def s885 (x0 : Vec F S128x216 .f32) (x1 : Vec F S128x72 .f32) : FVec F S128 .f32 := k0_pay410 (s17 x0 x1) (s19 x0 x1) (s21 x0 x1) (s63 x0 x1) (s69 x0 x1) (s75 x0 x1)
def s2821 (x0 : Vec F S128x216 .f32) (x1 : Vec F S128x72 .f32) : FVec F S128x1 .f32 := k0_pay720 (s885 x0 x1)
def s909 (x0 : Vec F S128x216 .f32) (x1 : Vec F S128x72 .f32) : FVec F S128 .f32 := k0_pay413 (s17 x0 x1) (s19 x0 x1) (s21 x0 x1) (s441 x0 x1) (s586 x0 x1) (s587 x0 x1) (s588 x0 x1)
def s2822 (x0 : Vec F S128x216 .f32) (x1 : Vec F S128x72 .f32) : FVec F S128x1 .f32 := k0_pay721 (s455 x0 x1) (s457 x0 x1) (s459 x0 x1) (s871 x0 x1) (s878 x0 x1) (s885 x0 x1) (s909 x0 x1)
def s2823 (x0 : Vec F S128x216 .f32) (x1 : Vec F S128x72 .f32) : FVec F S128x1 .f32 := k0_pay722 (s2650 x0 x1)
def s2824 (x0 : Vec F S128x216 .f32) (x1 : Vec F S128x72 .f32) : FVec F S128x1 .f32 := k0_pay723 (s2650 x0 x1)
def s2827 (x0 : Vec F S128x216 .f32) (x1 : Vec F S128x72 .f32) : FVec F S128x16 .f32 := k0_pay724 (s2650 x0 x1) (s2651 x0 x1) (s2811 x0 x1) (s2812 x0 x1) (s2813 x0 x1) (s2814 x0 x1) (s2815 x0 x1) (s2816 x0 x1) (s2817 x0 x1) (s2818 x0 x1) (s2819 x0 x1) (s2820 x0 x1) (s2821 x0 x1) (s2822 x0 x1) (s2823 x0 x1) (s2824 x0 x1)
def s461 (x0 : Vec F S128x216 .f32) (x1 : Vec F S128x72 .f32) : FVec F S128 .f32 := k0_pay242 (s3 x0 x1)
def s463 (x0 : Vec F S128x216 .f32) (x1 : Vec F S128x72 .f32) : FVec F S128 .f32 := k0_pay243 (s3 x0 x1)
def s465 (x0 : Vec F S128x216 .f32) (x1 : Vec F S128x72 .f32) : FVec F S128 .f32 := k0_pay244 (s3 x0 x1)
def s77 (x0 : Vec F S128x216 .f32) (x1 : Vec F S128x72 .f32) : FVec F S128 .f32 := k0_pay44 (s1 x0 x1)
def s83 (x0 : Vec F S128x216 .f32) (x1 : Vec F S128x72 .f32) : FVec F S128 .f32 := k0_pay47 (s1 x0 x1)
def s89 (x0 : Vec F S128x216 .f32) (x1 : Vec F S128x72 .f32) : FVec F S128 .f32 := k0_pay50 (s1 x0 x1)
def s916 (x0 : Vec F S128x216 .f32) (x1 : Vec F S128x72 .f32) : FVec F S128 .f32 := k0_pay414 (s77 x0 x1) (s83 x0 x1) (s89 x0 x1) (s655 x0 x1) (s662 x0 x1) (s669 x0 x1)
def s85 (x0 : Vec F S128x216 .f32) (x1 : Vec F S128x72 .f32) : FVec F S128 .f32 := k0_pay48 (s1 x0 x1)
def s91 (x0 : Vec F S128x216 .f32) (x1 : Vec F S128x72 .f32) : FVec F S128 .f32 := k0_pay51 (s1 x0 x1)
def s79 (x0 : Vec F S128x216 .f32) (x1 : Vec F S128x72 .f32) : FVec F S128 .f32 := k0_pay45 (s1 x0 x1)
def s917 (x0 : Vec F S128x216 .f32) (x1 : Vec F S128x72 .f32) : FVec F S128 .f32 := k0_pay415 (s79 x0 x1) (s655 x0 x1)
def s923 (x0 : Vec F S128x216 .f32) (x1 : Vec F S128x72 .f32) : FVec F S128 .f32 := k0_pay416 (s85 x0 x1) (s91 x0 x1) (s662 x0 x1) (s669 x0 x1) (s917 x0 x1)
def s81 (x0 : Vec F S128x216 .f32) (x1 : Vec F S128x72 .f32) : FVec F S128 .f32 := k0_pay46 (s1 x0 x1)
def s87 (x0 : Vec F S128x216 .f32) (x1 : Vec F S128x72 .f32) : FVec F S128 .f32 := k0_pay49 (s1 x0 x1)
def s93 (x0 : Vec F S128x216 .f32) (x1 : Vec F S128x72 .f32) : FVec F S128 .f32 := k0_pay52 (s1 x0 x1)
def s930 (x0 : Vec F S128x216 .f32) (x1 : Vec F S128x72 .f32) : FVec F S128 .f32 := k0_pay417 (s81 x0 x1) (s87 x0 x1) (s93 x0 x1) (s655 x0 x1) (s662 x0 x1) (s669 x0 x1)
def s937 (x0 : Vec F S128x216 .f32) (x1 : Vec F S128x72 .f32) : FVec F S128 .f32 := k0_pay418 (s77 x0 x1) (s83 x0 x1) (s89 x0 x1) (s676 x0 x1) (s683 x0 x1) (s690 x0 x1)
def s944 (x0 : Vec F S128x216 .f32) (x1 : Vec F S128x72 .f32) : FVec F S128 .f32 := k0_pay419 (s79 x0 x1) (s85 x0 x1) (s91 x0 x1) (s676 x0 x1) (s683 x0 x1) (s690 x0 x1)
def s951 (x0 : Vec F S128x216 .f32) (x1 : Vec F S128x72 .f32) : FVec F S128 .f32 := k0_pay420 (s81 x0 x1) (s87 x0 x1) (s93 x0 x1) (s676 x0 x1) (s683 x0 x1) (s690 x0 x1)
def s958 (x0 : Vec F S128x216 .f32) (x1 : Vec F S128x72 .f32) : FVec F S128 .f32 := k0_pay421 (s77 x0 x1) (s83 x0 x1) (s89 x0 x1) (s697 x0 x1) (s704 x0 x1) (s711 x0 x1)
def s965 (x0 : Vec F S128x216 .f32) (x1 : Vec F S128x72 .f32) : FVec F S128 .f32 := k0_pay422 (s79 x0 x1) (s85 x0 x1) (s91 x0 x1) (s697 x0 x1) (s704 x0 x1) (s711 x0 x1)
def s968 (x0 : Vec F S128x216 .f32) (x1 : Vec F S128x72 .f32) : FVec F S128 .f32 := k0_pay423 (s81 x0 x1) (s697 x0 x1)
def s969 (x0 : Vec F S128x216 .f32) (x1 : Vec F S128x72 .f32) : FVec F S128 .f32 := k0_pay424 (s87 x0 x1) (s704 x0 x1)
def s972 (x0 : Vec F S128x216 .f32) (x1 : Vec F S128x72 .f32) : FVec F S128 .f32 := k0_pay425 (s93 x0 x1) (s711 x0 x1) (s968 x0 x1) (s969 x0 x1)
def s589 (x0 : Vec F S128x216 .f32) (x1 : Vec F S128x72 .f32) : FVec F S128 .f32 := k0_pay313 (s443 x0 x1) (s461 x0 x1)
def s590 (x0 : Vec F S128x216 .f32) (x1 : Vec F S128x72 .f32) : FVec F S128 .f32 := k0_pay314 (s445 x0 x1) (s463 x0 x1)
def s591 (x0 : Vec F S128x216 .f32) (x1 : Vec F S128x72 .f32) : FVec F S128 .f32 := k0_pay315 (s447 x0 x1) (s465 x0 x1)
def s980 (x0 : Vec F S128x216 .f32) (x1 : Vec F S128x72 .f32) : FVec F S128 .f32 := k0_pay426 (s589 x0 x1) (s590 x0 x1) (s591 x0 x1) (s655 x0 x1) (s662 x0 x1) (s669 x0 x1) (s719 x0 x1)
def s988 (x0 : Vec F S128x216 .f32) (x1 : Vec F S128x72 .f32) : FVec F S128 .f32 := k0_pay427 (s589 x0 x1) (s590 x0 x1) (s591 x0 x1) (s676 x0 x1) (s683 x0 x1) (s690 x0 x1) (s727 x0 x1)
def s996 (x0 : Vec F S128x216 .f32) (x1 : Vec F S128x72 .f32) : FVec F S128 .f32 := k0_pay428 (s589 x0 x1) (s590 x0 x1) (s591 x0 x1) (s697 x0 x1) (s704 x0 x1) (s711 x0 x1) (s735 x0 x1)
def s2872 (x0 : Vec F S128x216 .f32) (x1 : Vec F S128x72 .f32) : FVec F S128x16 .f32 := k0_pay726 (s461 x0 x1) (s463 x0 x1) (s465 x0 x1) (s916 x0 x1) (s923 x0 x1) (s930 x0 x1) (s937 x0 x1) (s944 x0 x1) (s951 x0 x1) (s958 x0 x1) (s965 x0 x1) (s972 x0 x1) (s980 x0 x1) (s988 x0 x1) (s996 x0 x1) (s2650 x0 x1) (s2651 x0 x1)
def s467 (x0 : Vec F S128x216 .f32) (x1 : Vec F S128x72 .f32) : FVec F S128 .f32 := k0_pay245 (s3 x0 x1)
def s469 (x0 : Vec F S128x216 .f32) (x1 : Vec F S128x72 .f32) : FVec F S128 .f32 := k0_pay246 (s3 x0 x1)
def s471 (x0 : Vec F S128x216 .f32) (x1 : Vec F S128x72 .f32) : FVec F S128 .f32 := k0_pay247 (s3 x0 x1)
def s95 (x0 : Vec F S128x216 .f32) (x1 : Vec F S128x72 .f32) : FVec F S128 .f32 := k0_pay53 (s1 x0 x1)
def s101 (x0 : Vec F S128x216 .f32) (x1 : Vec F S128x72 .f32) : FVec F S128 .f32 := k0_pay56 (s1 x0 x1)
def s107 (x0 : Vec F S128x216 .f32) (x1 : Vec F S128x72 .f32) : FVec F S128 .f32 := k0_pay59 (s1 x0 x1)
def s1003 (x0 : Vec F S128x216 .f32) (x1 : Vec F S128x72 .f32) : FVec F S128 .f32 := k0_pay429 (s95 x0 x1) (s101 x0 x1) (s107 x0 x1) (s742 x0 x1) (s749 x0 x1) (s756 x0 x1)
def s97 (x0 : Vec F S128x216 .f32) (x1 : Vec F S128x72 .f32) : FVec F S128 .f32 := k0_pay54 (s1 x0 x1)
def s103 (x0 : Vec F S128x216 .f32) (x1 : Vec F S128x72 .f32) : FVec F S128 .f32 := k0_pay57 (s1 x0 x1)
def s109 (x0 : Vec F S128x216 .f32) (x1 : Vec F S128x72 .f32) : FVec F S128 .f32 := k0_pay60 (s1 x0 x1)
def s1010 (x0 : Vec F S128x216 .f32) (x1 : Vec F S128x72 .f32) : FVec F S128 .f32 := k0_pay430 (s97 x0 x1) (s103 x0 x1) (s109 x0 x1) (s742 x0 x1) (s749 x0 x1) (s756 x0 x1)
def s99 (x0 : Vec F S128x216 .f32) (x1 : Vec F S128x72 .f32) : FVec F S128 .f32 := k0_pay55 (s1 x0 x1)
def s105 (x0 : Vec F S128x216 .f32) (x1 : Vec F S128x72 .f32) : FVec F S128 .f32 := k0_pay58 (s1 x0 x1)
def s111 (x0 : Vec F S128x216 .f32) (x1 : Vec F S128x72 .f32) : FVec F S128 .f32 := k0_pay61 (s1 x0 x1)
def s1017 (x0 : Vec F S128x216 .f32) (x1 : Vec F S128x72 .f32) : FVec F S128 .f32 := k0_pay431 (s99 x0 x1) (s105 x0 x1) (s111 x0 x1) (s742 x0 x1) (s749 x0 x1) (s756 x0 x1)
def s1022 (x0 : Vec F S128x216 .f32) (x1 : Vec F S128x72 .f32) : FVec F S128 .f32 := k0_pay432 (s95 x0 x1) (s101 x0 x1) (s763 x0 x1) (s770 x0 x1)
def s1024 (x0 : Vec F S128x216 .f32) (x1 : Vec F S128x72 .f32) : FVec F S128 .f32 := k0_pay433 (s107 x0 x1) (s777 x0 x1) (s1022 x0 x1)
def s1031 (x0 : Vec F S128x216 .f32) (x1 : Vec F S128x72 .f32) : FVec F S128 .f32 := k0_pay434 (s97 x0 x1) (s103 x0 x1) (s109 x0 x1) (s763 x0 x1) (s770 x0 x1) (s777 x0 x1)
def s1038 (x0 : Vec F S128x216 .f32) (x1 : Vec F S128x72 .f32) : FVec F S128 .f32 := k0_pay435 (s99 x0 x1) (s105 x0 x1) (s111 x0 x1) (s763 x0 x1) (s770 x0 x1) (s777 x0 x1)
def s1045 (x0 : Vec F S128x216 .f32) (x1 : Vec F S128x72 .f32) : FVec F S128 .f32 := k0_pay436 (s95 x0 x1) (s101 x0 x1) (s107 x0 x1) (s784 x0 x1) (s791 x0 x1) (s798 x0 x1)
def s1052 (x0 : Vec F S128x216 .f32) (x1 : Vec F S128x72 .f32) : FVec F S128 .f32 := k0_pay437 (s97 x0 x1) (s103 x0 x1) (s109 x0 x1) (s784 x0 x1) (s791 x0 x1) (s798 x0 x1)
def s1059 (x0 : Vec F S128x216 .f32) (x1 : Vec F S128x72 .f32) : FVec F S128 .f32 := k0_pay438 (s99 x0 x1) (s105 x0 x1) (s111 x0 x1) (s784 x0 x1) (s791 x0 x1) (s798 x0 x1)
def s592 (x0 : Vec F S128x216 .f32) (x1 : Vec F S128x72 .f32) : FVec F S128 .f32 := k0_pay316 (s449 x0 x1) (s467 x0 x1)
def s593 (x0 : Vec F S128x216 .f32) (x1 : Vec F S128x72 .f32) : FVec F S128 .f32 := k0_pay317 (s451 x0 x1) (s469 x0 x1)
def s594 (x0 : Vec F S128x216 .f32) (x1 : Vec F S128x72 .f32) : FVec F S128 .f32 := k0_pay318 (s453 x0 x1) (s471 x0 x1)
def s1067 (x0 : Vec F S128x216 .f32) (x1 : Vec F S128x72 .f32) : FVec F S128 .f32 := k0_pay439 (s592 x0 x1) (s593 x0 x1) (s594 x0 x1) (s742 x0 x1) (s749 x0 x1) (s756 x0 x1) (s806 x0 x1)
def s1075 (x0 : Vec F S128x216 .f32) (x1 : Vec F S128x72 .f32) : FVec F S128 .f32 := k0_pay440 (s592 x0 x1) (s593 x0 x1) (s594 x0 x1) (s763 x0 x1) (s770 x0 x1) (s777 x0 x1) (s814 x0 x1)
def s1083 (x0 : Vec F S128x216 .f32) (x1 : Vec F S128x72 .f32) : FVec F S128 .f32 := k0_pay441 (s592 x0 x1) (s593 x0 x1) (s594 x0 x1) (s784 x0 x1) (s791 x0 x1) (s798 x0 x1) (s822 x0 x1)
def s2879 (x0 : Vec F S128x216 .f32) (x1 : Vec F S128x72 .f32) : FVec F S128 .f32 := k0_pay728 (s467 x0 x1) (s1003 x0 x1)
def s2880 (x0 : Vec F S128x216 .f32) (x1 : Vec F S128x72 .f32) : FVec F S128 .f32 := k0_pay729 (s469 x0 x1) (s1010 x0 x1)
def s2917 (x0 : Vec F S128x216 .f32) (x1 : Vec F S128x72 .f32) : FVec F S128x16 .f32 := k0_pay730 (s467 x0 x1) (s469 x0 x1) (s471 x0 x1) (s1003 x0 x1) (s1010 x0 x1) (s1017 x0 x1) (s1024 x0 x1) (s1031 x0 x1) (s1038 x0 x1) (s1045 x0 x1) (s1052 x0 x1) (s1059 x0 x1) (s1067 x0 x1) (s1075 x0 x1) (s1083 x0 x1) (s2650 x0 x1) (s2651 x0 x1) (s2879 x0 x1) (s2880 x0 x1)
def s473 (x0 : Vec F S128x216 .f32) (x1 : Vec F S128x72 .f32) : FVec F S128 .f32 := k0_pay248 (s3 x0 x1)
def s474 (x0 : Vec F S128x216 .f32) (x1 : Vec F S128x72 .f32) : FVec F S128x1 .f32 := k0_pay249 (s3 x0 x1)
def s475 (x0 : Vec F S128x216 .f32) (x1 : Vec F S128x72 .f32) : FVec F S128 .f32 := k0_pay250 (s474 x0 x1)
def s477 (x0 : Vec F S128x216 .f32) (x1 : Vec F S128x72 .f32) : FVec F S128 .f32 := k0_pay251 (s3 x0 x1)
def s113 (x0 : Vec F S128x216 .f32) (x1 : Vec F S128x72 .f32) : FVec F S128 .f32 := k0_pay62 (s1 x0 x1)
def s119 (x0 : Vec F S128x216 .f32) (x1 : Vec F S128x72 .f32) : FVec F S128 .f32 := k0_pay66 (s1 x0 x1)
def s125 (x0 : Vec F S128x216 .f32) (x1 : Vec F S128x72 .f32) : FVec F S128 .f32 := k0_pay69 (s1 x0 x1)
def s1090 (x0 : Vec F S128x216 .f32) (x1 : Vec F S128x72 .f32) : FVec F S128 .f32 := k0_pay442 (s113 x0 x1) (s119 x0 x1) (s125 x0 x1) (s829 x0 x1) (s836 x0 x1) (s843 x0 x1)
def s114 (x0 : Vec F S128x216 .f32) (x1 : Vec F S128x72 .f32) : FVec F S128x1 .f32 := k0_pay63 (s1 x0 x1)
def s115 (x0 : Vec F S128x216 .f32) (x1 : Vec F S128x72 .f32) : FVec F S128 .f32 := k0_pay64 (s114 x0 x1)
def s121 (x0 : Vec F S128x216 .f32) (x1 : Vec F S128x72 .f32) : FVec F S128 .f32 := k0_pay67 (s1 x0 x1)
def s127 (x0 : Vec F S128x216 .f32) (x1 : Vec F S128x72 .f32) : FVec F S128 .f32 := k0_pay70 (s1 x0 x1)
def s1097 (x0 : Vec F S128x216 .f32) (x1 : Vec F S128x72 .f32) : FVec F S128 .f32 := k0_pay443 (s115 x0 x1) (s121 x0 x1) (s127 x0 x1) (s829 x0 x1) (s836 x0 x1) (s843 x0 x1)
def s117 (x0 : Vec F S128x216 .f32) (x1 : Vec F S128x72 .f32) : FVec F S128 .f32 := k0_pay65 (s1 x0 x1)
def s123 (x0 : Vec F S128x216 .f32) (x1 : Vec F S128x72 .f32) : FVec F S128 .f32 := k0_pay68 (s1 x0 x1)
def s129 (x0 : Vec F S128x216 .f32) (x1 : Vec F S128x72 .f32) : FVec F S128 .f32 := k0_pay71 (s1 x0 x1)
def s1104 (x0 : Vec F S128x216 .f32) (x1 : Vec F S128x72 .f32) : FVec F S128 .f32 := k0_pay444 (s117 x0 x1) (s123 x0 x1) (s129 x0 x1) (s829 x0 x1) (s836 x0 x1) (s843 x0 x1)
def s1111 (x0 : Vec F S128x216 .f32) (x1 : Vec F S128x72 .f32) : FVec F S128 .f32 := k0_pay445 (s113 x0 x1) (s119 x0 x1) (s125 x0 x1) (s850 x0 x1) (s857 x0 x1) (s864 x0 x1)
def s1118 (x0 : Vec F S128x216 .f32) (x1 : Vec F S128x72 .f32) : FVec F S128 .f32 := k0_pay446 (s115 x0 x1) (s121 x0 x1) (s127 x0 x1) (s850 x0 x1) (s857 x0 x1) (s864 x0 x1)
def s1125 (x0 : Vec F S128x216 .f32) (x1 : Vec F S128x72 .f32) : FVec F S128 .f32 := k0_pay447 (s117 x0 x1) (s123 x0 x1) (s129 x0 x1) (s850 x0 x1) (s857 x0 x1) (s864 x0 x1)
def s1126 (x0 : Vec F S128x216 .f32) (x1 : Vec F S128x72 .f32) : FVec F S128 .f32 := k0_pay448 (s113 x0 x1) (s871 x0 x1)
def s1127 (x0 : Vec F S128x216 .f32) (x1 : Vec F S128x72 .f32) : FVec F S128 .f32 := k0_pay449
def s1132 (x0 : Vec F S128x216 .f32) (x1 : Vec F S128x72 .f32) : FVec F S128 .f32 := k0_pay450 (s119 x0 x1) (s125 x0 x1) (s878 x0 x1) (s885 x0 x1) (s1126 x0 x1) (s1127 x0 x1)
def s1139 (x0 : Vec F S128x216 .f32) (x1 : Vec F S128x72 .f32) : FVec F S128 .f32 := k0_pay451 (s115 x0 x1) (s121 x0 x1) (s127 x0 x1) (s871 x0 x1) (s878 x0 x1) (s885 x0 x1)
def s1146 (x0 : Vec F S128x216 .f32) (x1 : Vec F S128x72 .f32) : FVec F S128 .f32 := k0_pay452 (s117 x0 x1) (s123 x0 x1) (s129 x0 x1) (s871 x0 x1) (s878 x0 x1) (s885 x0 x1)
def s595 (x0 : Vec F S128x216 .f32) (x1 : Vec F S128x72 .f32) : FVec F S128 .f32 := k0_pay319 (s455 x0 x1) (s473 x0 x1)
def s596 (x0 : Vec F S128x216 .f32) (x1 : Vec F S128x72 .f32) : FVec F S128 .f32 := k0_pay320 (s457 x0 x1) (s475 x0 x1)
def s597 (x0 : Vec F S128x216 .f32) (x1 : Vec F S128x72 .f32) : FVec F S128 .f32 := k0_pay321 (s459 x0 x1) (s477 x0 x1)
def s1162 (x0 : Vec F S128x216 .f32) (x1 : Vec F S128x72 .f32) : FVec F S128 .f32 := k0_pay454 (s595 x0 x1) (s596 x0 x1) (s597 x0 x1) (s850 x0 x1) (s857 x0 x1) (s864 x0 x1) (s901 x0 x1)
def s1170 (x0 : Vec F S128x216 .f32) (x1 : Vec F S128x72 .f32) : FVec F S128 .f32 := k0_pay455 (s595 x0 x1) (s596 x0 x1) (s597 x0 x1) (s871 x0 x1) (s878 x0 x1) (s885 x0 x1) (s909 x0 x1)
def s1154 (x0 : Vec F S128x216 .f32) (x1 : Vec F S128x72 .f32) : FVec F S128 .f32 := k0_pay453 (s595 x0 x1) (s596 x0 x1) (s597 x0 x1) (s829 x0 x1) (s836 x0 x1) (s843 x0 x1) (s893 x0 x1)
def s2929 (x0 : Vec F S128x216 .f32) (x1 : Vec F S128x72 .f32) : FVec F S128 .f32 := k0_pay732 (s473 x0 x1) (s475 x0 x1) (s477 x0 x1) (s1090 x0 x1) (s1097 x0 x1) (s1104 x0 x1) (s1154 x0 x1)
def s2936 (x0 : Vec F S128x216 .f32) (x1 : Vec F S128x72 .f32) : FVec F S128 .f32 := k0_pay733 (s473 x0 x1) (s475 x0 x1) (s477 x0 x1) (s1111 x0 x1) (s1118 x0 x1) (s1125 x0 x1)
def s2962 (x0 : Vec F S128x216 .f32) (x1 : Vec F S128x72 .f32) : FVec F S128x16 .f32 := k0_pay734 (s473 x0 x1) (s475 x0 x1) (s477 x0 x1) (s1090 x0 x1) (s1097 x0 x1) (s1104 x0 x1) (s1111 x0 x1) (s1118 x0 x1) (s1125 x0 x1) (s1132 x0 x1) (s1139 x0 x1) (s1146 x0 x1) (s1162 x0 x1) (s1170 x0 x1) (s2650 x0 x1) (s2651 x0 x1) (s2929 x0 x1) (s2936 x0 x1)
def s135 (x0 : Vec F S128x216 .f32) (x1 : Vec F S128x72 .f32) : FVec F S128 .f32 := k0_pay74 (s1 x0 x1)
def s141 (x0 : Vec F S128x216 .f32) (x1 : Vec F S128x72 .f32) : FVec F S128 .f32 := k0_pay77 (s1 x0 x1)
def s147 (x0 : Vec F S128x216 .f32) (x1 : Vec F S128x72 .f32) : FVec F S128 .f32 := k0_pay80 (s1 x0 x1)
def s1191 (x0 : Vec F S128x216 .f32) (x1 : Vec F S128x72 .f32) : FVec F S128 .f32 := k0_pay459 (s135 x0 x1) (s141 x0 x1) (s147 x0 x1) (s916 x0 x1) (s923 x0 x1) (s930 x0 x1)
def s131 (x0 : Vec F S128x216 .f32) (x1 : Vec F S128x72 .f32) : FVec F S128 .f32 := k0_pay72 (s1 x0 x1)
def s137 (x0 : Vec F S128x216 .f32) (x1 : Vec F S128x72 .f32) : FVec F S128 .f32 := k0_pay75 (s1 x0 x1)
def s143 (x0 : Vec F S128x216 .f32) (x1 : Vec F S128x72 .f32) : FVec F S128 .f32 := k0_pay78 (s1 x0 x1)
def s1198 (x0 : Vec F S128x216 .f32) (x1 : Vec F S128x72 .f32) : FVec F S128 .f32 := k0_pay460 (s131 x0 x1) (s137 x0 x1) (s143 x0 x1) (s937 x0 x1) (s944 x0 x1) (s951 x0 x1)
def s133 (x0 : Vec F S128x216 .f32) (x1 : Vec F S128x72 .f32) : FVec F S128 .f32 := k0_pay73 (s1 x0 x1)
def s139 (x0 : Vec F S128x216 .f32) (x1 : Vec F S128x72 .f32) : FVec F S128 .f32 := k0_pay76 (s1 x0 x1)
def s145 (x0 : Vec F S128x216 .f32) (x1 : Vec F S128x72 .f32) : FVec F S128 .f32 := k0_pay79 (s1 x0 x1)
def s1205 (x0 : Vec F S128x216 .f32) (x1 : Vec F S128x72 .f32) : FVec F S128 .f32 := k0_pay461 (s133 x0 x1) (s139 x0 x1) (s145 x0 x1) (s937 x0 x1) (s944 x0 x1) (s951 x0 x1)
def s1212 (x0 : Vec F S128x216 .f32) (x1 : Vec F S128x72 .f32) : FVec F S128 .f32 := k0_pay462 (s135 x0 x1) (s141 x0 x1) (s147 x0 x1) (s937 x0 x1) (s944 x0 x1) (s951 x0 x1)
def s1219 (x0 : Vec F S128x216 .f32) (x1 : Vec F S128x72 .f32) : FVec F S128 .f32 := k0_pay463 (s131 x0 x1) (s137 x0 x1) (s143 x0 x1) (s958 x0 x1) (s965 x0 x1) (s972 x0 x1)
def s1226 (x0 : Vec F S128x216 .f32) (x1 : Vec F S128x72 .f32) : FVec F S128 .f32 := k0_pay464 (s133 x0 x1) (s139 x0 x1) (s145 x0 x1) (s958 x0 x1) (s965 x0 x1) (s972 x0 x1)
def s1233 (x0 : Vec F S128x216 .f32) (x1 : Vec F S128x72 .f32) : FVec F S128 .f32 := k0_pay465 (s135 x0 x1) (s141 x0 x1) (s147 x0 x1) (s958 x0 x1) (s965 x0 x1) (s972 x0 x1)
def s479 (x0 : Vec F S128x216 .f32) (x1 : Vec F S128x72 .f32) : FVec F S128 .f32 := k0_pay252 (s3 x0 x1)
def s481 (x0 : Vec F S128x216 .f32) (x1 : Vec F S128x72 .f32) : FVec F S128 .f32 := k0_pay253 (s3 x0 x1)
def s483 (x0 : Vec F S128x216 .f32) (x1 : Vec F S128x72 .f32) : FVec F S128 .f32 := k0_pay254 (s3 x0 x1)
def s1177 (x0 : Vec F S128x216 .f32) (x1 : Vec F S128x72 .f32) : FVec F S128 .f32 := k0_pay456 (s131 x0 x1) (s137 x0 x1) (s143 x0 x1) (s916 x0 x1) (s923 x0 x1) (s930 x0 x1)
def s1180 (x0 : Vec F S128x216 .f32) (x1 : Vec F S128x72 .f32) : FVec F S128 .f32 := k0_pay457 (s133 x0 x1) (s916 x0 x1)
def s1184 (x0 : Vec F S128x216 .f32) (x1 : Vec F S128x72 .f32) : FVec F S128 .f32 := k0_pay458 (s139 x0 x1) (s145 x0 x1) (s923 x0 x1) (s930 x0 x1) (s1180 x0 x1)
def s598 (x0 : Vec F S128x216 .f32) (x1 : Vec F S128x72 .f32) : FVec F S128 .f32 := k0_pay322 (s461 x0 x1) (s479 x0 x1)
def s599 (x0 : Vec F S128x216 .f32) (x1 : Vec F S128x72 .f32) : FVec F S128 .f32 := k0_pay323 (s463 x0 x1) (s481 x0 x1)
def s600 (x0 : Vec F S128x216 .f32) (x1 : Vec F S128x72 .f32) : FVec F S128 .f32 := k0_pay324 (s465 x0 x1) (s483 x0 x1)
def s1241 (x0 : Vec F S128x216 .f32) (x1 : Vec F S128x72 .f32) : FVec F S128 .f32 := k0_pay466 (s598 x0 x1) (s599 x0 x1) (s600 x0 x1) (s916 x0 x1) (s923 x0 x1) (s930 x0 x1) (s980 x0 x1)
def s2974 (x0 : Vec F S128x216 .f32) (x1 : Vec F S128x72 .f32) : FVec F S128 .f32 := k0_pay736 (s479 x0 x1) (s481 x0 x1) (s483 x0 x1) (s1177 x0 x1) (s1184 x0 x1) (s1191 x0 x1) (s1241 x0 x1)
def s1249 (x0 : Vec F S128x216 .f32) (x1 : Vec F S128x72 .f32) : FVec F S128 .f32 := k0_pay467 (s598 x0 x1) (s599 x0 x1) (s600 x0 x1) (s937 x0 x1) (s944 x0 x1) (s951 x0 x1) (s988 x0 x1)
def s2982 (x0 : Vec F S128x216 .f32) (x1 : Vec F S128x72 .f32) : FVec F S128 .f32 := k0_pay737 (s479 x0 x1) (s481 x0 x1) (s483 x0 x1) (s1198 x0 x1) (s1205 x0 x1) (s1212 x0 x1) (s1249 x0 x1)
def s1257 (x0 : Vec F S128x216 .f32) (x1 : Vec F S128x72 .f32) : FVec F S128 .f32 := k0_pay468 (s598 x0 x1) (s599 x0 x1) (s600 x0 x1) (s958 x0 x1) (s965 x0 x1) (s972 x0 x1) (s996 x0 x1)
def s2990 (x0 : Vec F S128x216 .f32) (x1 : Vec F S128x72 .f32) : FVec F S128 .f32 := k0_pay738 (s479 x0 x1) (s481 x0 x1) (s483 x0 x1) (s1219 x0 x1) (s1226 x0 x1) (s1233 x0 x1) (s1257 x0 x1)
def s2991 (x0 : Vec F S128x216 .f32) (x1 : Vec F S128x72 .f32) : FVec F S128x1 .f32 := k0_pay739 (s1177 x0 x1)
def s2992 (x0 : Vec F S128x216 .f32) (x1 : Vec F S128x72 .f32) : FVec F S128x1 .f32 := k0_pay740 (s1184 x0 x1)
def s3007 (x0 : Vec F S128x216 .f32) (x1 : Vec F S128x72 .f32) : FVec F S128x16 .f32 := k0_pay741 (s1191 x0 x1) (s1198 x0 x1) (s1205 x0 x1) (s1212 x0 x1) (s1219 x0 x1) (s1226 x0 x1) (s1233 x0 x1) (s2650 x0 x1) (s2651 x0 x1) (s2974 x0 x1) (s2982 x0 x1) (s2990 x0 x1) (s2991 x0 x1) (s2992 x0 x1)
def s149 (x0 : Vec F S128x216 .f32) (x1 : Vec F S128x72 .f32) : FVec F S128 .f32 := k0_pay81 (s1 x0 x1)
def s155 (x0 : Vec F S128x216 .f32) (x1 : Vec F S128x72 .f32) : FVec F S128 .f32 := k0_pay84 (s1 x0 x1)
def s161 (x0 : Vec F S128x216 .f32) (x1 : Vec F S128x72 .f32) : FVec F S128 .f32 := k0_pay87 (s1 x0 x1)
def s1264 (x0 : Vec F S128x216 .f32) (x1 : Vec F S128x72 .f32) : FVec F S128 .f32 := k0_pay469 (s149 x0 x1) (s155 x0 x1) (s161 x0 x1) (s1003 x0 x1) (s1010 x0 x1) (s1017 x0 x1)
def s3036 (x0 : Vec F S128x216 .f32) (x1 : Vec F S128x72 .f32) : FVec F S128x1 .f32 := k0_pay743 (s1264 x0 x1)
def s151 (x0 : Vec F S128x216 .f32) (x1 : Vec F S128x72 .f32) : FVec F S128 .f32 := k0_pay82 (s1 x0 x1)
def s157 (x0 : Vec F S128x216 .f32) (x1 : Vec F S128x72 .f32) : FVec F S128 .f32 := k0_pay85 (s1 x0 x1)
def s163 (x0 : Vec F S128x216 .f32) (x1 : Vec F S128x72 .f32) : FVec F S128 .f32 := k0_pay88 (s1 x0 x1)
def s1271 (x0 : Vec F S128x216 .f32) (x1 : Vec F S128x72 .f32) : FVec F S128 .f32 := k0_pay470 (s151 x0 x1) (s157 x0 x1) (s163 x0 x1) (s1003 x0 x1) (s1010 x0 x1) (s1017 x0 x1)
def s3037 (x0 : Vec F S128x216 .f32) (x1 : Vec F S128x72 .f32) : FVec F S128x1 .f32 := k0_pay744 (s1271 x0 x1)
def s153 (x0 : Vec F S128x216 .f32) (x1 : Vec F S128x72 .f32) : FVec F S128 .f32 := k0_pay83 (s1 x0 x1)
def s159 (x0 : Vec F S128x216 .f32) (x1 : Vec F S128x72 .f32) : FVec F S128 .f32 := k0_pay86 (s1 x0 x1)
def s165 (x0 : Vec F S128x216 .f32) (x1 : Vec F S128x72 .f32) : FVec F S128 .f32 := k0_pay89 (s1 x0 x1)
def s1278 (x0 : Vec F S128x216 .f32) (x1 : Vec F S128x72 .f32) : FVec F S128 .f32 := k0_pay471 (s153 x0 x1) (s159 x0 x1) (s165 x0 x1) (s1003 x0 x1) (s1010 x0 x1) (s1017 x0 x1)
def s3038 (x0 : Vec F S128x216 .f32) (x1 : Vec F S128x72 .f32) : FVec F S128x1 .f32 := k0_pay745 (s1278 x0 x1)
def s485 (x0 : Vec F S128x216 .f32) (x1 : Vec F S128x72 .f32) : FVec F S128 .f32 := k0_pay255 (s3 x0 x1)
def s487 (x0 : Vec F S128x216 .f32) (x1 : Vec F S128x72 .f32) : FVec F S128 .f32 := k0_pay256 (s3 x0 x1)
def s489 (x0 : Vec F S128x216 .f32) (x1 : Vec F S128x72 .f32) : FVec F S128 .f32 := k0_pay257 (s3 x0 x1)
def s601 (x0 : Vec F S128x216 .f32) (x1 : Vec F S128x72 .f32) : FVec F S128 .f32 := k0_pay325 (s467 x0 x1) (s485 x0 x1)
def s602 (x0 : Vec F S128x216 .f32) (x1 : Vec F S128x72 .f32) : FVec F S128 .f32 := k0_pay326 (s469 x0 x1) (s487 x0 x1)
def s603 (x0 : Vec F S128x216 .f32) (x1 : Vec F S128x72 .f32) : FVec F S128 .f32 := k0_pay327 (s471 x0 x1) (s489 x0 x1)
def s1328 (x0 : Vec F S128x216 .f32) (x1 : Vec F S128x72 .f32) : FVec F S128 .f32 := k0_pay479 (s601 x0 x1) (s602 x0 x1) (s603 x0 x1) (s1003 x0 x1) (s1010 x0 x1) (s1017 x0 x1) (s1067 x0 x1)
def s3039 (x0 : Vec F S128x216 .f32) (x1 : Vec F S128x72 .f32) : FVec F S128x1 .f32 := k0_pay746 (s485 x0 x1) (s487 x0 x1) (s489 x0 x1) (s1264 x0 x1) (s1271 x0 x1) (s1278 x0 x1) (s1328 x0 x1)
def s1285 (x0 : Vec F S128x216 .f32) (x1 : Vec F S128x72 .f32) : FVec F S128 .f32 := k0_pay472 (s149 x0 x1) (s155 x0 x1) (s161 x0 x1) (s1024 x0 x1) (s1031 x0 x1) (s1038 x0 x1)
def s3040 (x0 : Vec F S128x216 .f32) (x1 : Vec F S128x72 .f32) : FVec F S128x1 .f32 := k0_pay747 (s1285 x0 x1)
def s1286 (x0 : Vec F S128x216 .f32) (x1 : Vec F S128x72 .f32) : FVec F S128 .f32 := k0_pay473 (s151 x0 x1) (s1024 x0 x1)
def s1292 (x0 : Vec F S128x216 .f32) (x1 : Vec F S128x72 .f32) : FVec F S128 .f32 := k0_pay474 (s157 x0 x1) (s163 x0 x1) (s1031 x0 x1) (s1038 x0 x1) (s1286 x0 x1)
def s3041 (x0 : Vec F S128x216 .f32) (x1 : Vec F S128x72 .f32) : FVec F S128x1 .f32 := k0_pay748 (s1292 x0 x1)
def s1299 (x0 : Vec F S128x216 .f32) (x1 : Vec F S128x72 .f32) : FVec F S128 .f32 := k0_pay475 (s153 x0 x1) (s159 x0 x1) (s165 x0 x1) (s1024 x0 x1) (s1031 x0 x1) (s1038 x0 x1)
def s3042 (x0 : Vec F S128x216 .f32) (x1 : Vec F S128x72 .f32) : FVec F S128x1 .f32 := k0_pay749 (s1299 x0 x1)
def s1336 (x0 : Vec F S128x216 .f32) (x1 : Vec F S128x72 .f32) : FVec F S128 .f32 := k0_pay480 (s601 x0 x1) (s602 x0 x1) (s603 x0 x1) (s1024 x0 x1) (s1031 x0 x1) (s1038 x0 x1) (s1075 x0 x1)
def s3043 (x0 : Vec F S128x216 .f32) (x1 : Vec F S128x72 .f32) : FVec F S128x1 .f32 := k0_pay750 (s485 x0 x1) (s487 x0 x1) (s489 x0 x1) (s1285 x0 x1) (s1292 x0 x1) (s1299 x0 x1) (s1336 x0 x1)
def s1306 (x0 : Vec F S128x216 .f32) (x1 : Vec F S128x72 .f32) : FVec F S128 .f32 := k0_pay476 (s149 x0 x1) (s155 x0 x1) (s161 x0 x1) (s1045 x0 x1) (s1052 x0 x1) (s1059 x0 x1)
def s3044 (x0 : Vec F S128x216 .f32) (x1 : Vec F S128x72 .f32) : FVec F S128x1 .f32 := k0_pay751 (s1306 x0 x1)
def s1313 (x0 : Vec F S128x216 .f32) (x1 : Vec F S128x72 .f32) : FVec F S128 .f32 := k0_pay477 (s151 x0 x1) (s157 x0 x1) (s163 x0 x1) (s1045 x0 x1) (s1052 x0 x1) (s1059 x0 x1)
def s3045 (x0 : Vec F S128x216 .f32) (x1 : Vec F S128x72 .f32) : FVec F S128x1 .f32 := k0_pay752 (s1313 x0 x1)
def s1320 (x0 : Vec F S128x216 .f32) (x1 : Vec F S128x72 .f32) : FVec F S128 .f32 := k0_pay478 (s153 x0 x1) (s159 x0 x1) (s165 x0 x1) (s1045 x0 x1) (s1052 x0 x1) (s1059 x0 x1)
def s3046 (x0 : Vec F S128x216 .f32) (x1 : Vec F S128x72 .f32) : FVec F S128x1 .f32 := k0_pay753 (s1320 x0 x1)
def s1337 (x0 : Vec F S128x216 .f32) (x1 : Vec F S128x72 .f32) : FVec F S128 .f32 := k0_pay481 (s601 x0 x1) (s1045 x0 x1)
def s1338 (x0 : Vec F S128x216 .f32) (x1 : Vec F S128x72 .f32) : FVec F S128 .f32 := k0_pay482
def s1344 (x0 : Vec F S128x216 .f32) (x1 : Vec F S128x72 .f32) : FVec F S128 .f32 := k0_pay483 (s602 x0 x1) (s603 x0 x1) (s1052 x0 x1) (s1059 x0 x1) (s1083 x0 x1) (s1337 x0 x1) (s1338 x0 x1)
def s3047 (x0 : Vec F S128x216 .f32) (x1 : Vec F S128x72 .f32) : FVec F S128x1 .f32 := k0_pay754 (s485 x0 x1) (s487 x0 x1) (s489 x0 x1) (s1306 x0 x1) (s1313 x0 x1) (s1320 x0 x1) (s1344 x0 x1)
def s3048 (x0 : Vec F S128x216 .f32) (x1 : Vec F S128x72 .f32) : FVec F S128x1 .f32 := k0_pay755 (s2650 x0 x1)
def s3049 (x0 : Vec F S128x216 .f32) (x1 : Vec F S128x72 .f32) : FVec F S128x1 .f32 := k0_pay756 (s2650 x0 x1)
def s3052 (x0 : Vec F S128x216 .f32) (x1 : Vec F S128x72 .f32) : FVec F S128x16 .f32 := k0_pay757 (s2650 x0 x1) (s2651 x0 x1) (s3036 x0 x1) (s3037 x0 x1) (s3038 x0 x1) (s3039 x0 x1) (s3040 x0 x1) (s3041 x0 x1) (s3042 x0 x1) (s3043 x0 x1) (s3044 x0 x1) (s3045 x0 x1) (s3046 x0 x1) (s3047 x0 x1) (s3048 x0 x1) (s3049 x0 x1)
def s491 (x0 : Vec F S128x216 .f32) (x1 : Vec F S128x72 .f32) : FVec F S128 .f32 := k0_pay258 (s3 x0 x1)
def s493 (x0 : Vec F S128x216 .f32) (x1 : Vec F S128x72 .f32) : FVec F S128 .f32 := k0_pay259 (s3 x0 x1)
def s495 (x0 : Vec F S128x216 .f32) (x1 : Vec F S128x72 .f32) : FVec F S128 .f32 := k0_pay260 (s3 x0 x1)
def s167 (x0 : Vec F S128x216 .f32) (x1 : Vec F S128x72 .f32) : FVec F S128 .f32 := k0_pay90 (s1 x0 x1)
def s173 (x0 : Vec F S128x216 .f32) (x1 : Vec F S128x72 .f32) : FVec F S128 .f32 := k0_pay93 (s1 x0 x1)
def s179 (x0 : Vec F S128x216 .f32) (x1 : Vec F S128x72 .f32) : FVec F S128 .f32 := k0_pay97 (s1 x0 x1)
def s1351 (x0 : Vec F S128x216 .f32) (x1 : Vec F S128x72 .f32) : FVec F S128 .f32 := k0_pay484 (s167 x0 x1) (s173 x0 x1) (s179 x0 x1) (s1090 x0 x1) (s1097 x0 x1) (s1104 x0 x1)
def s169 (x0 : Vec F S128x216 .f32) (x1 : Vec F S128x72 .f32) : FVec F S128 .f32 := k0_pay91 (s1 x0 x1)
def s174 (x0 : Vec F S128x216 .f32) (x1 : Vec F S128x72 .f32) : FVec F S128x1 .f32 := k0_pay94 (s1 x0 x1)
def s175 (x0 : Vec F S128x216 .f32) (x1 : Vec F S128x72 .f32) : FVec F S128 .f32 := k0_pay95 (s174 x0 x1)
def s181 (x0 : Vec F S128x216 .f32) (x1 : Vec F S128x72 .f32) : FVec F S128 .f32 := k0_pay98 (s1 x0 x1)
def s1358 (x0 : Vec F S128x216 .f32) (x1 : Vec F S128x72 .f32) : FVec F S128 .f32 := k0_pay485 (s169 x0 x1) (s175 x0 x1) (s181 x0 x1) (s1090 x0 x1) (s1097 x0 x1) (s1104 x0 x1)
def s171 (x0 : Vec F S128x216 .f32) (x1 : Vec F S128x72 .f32) : FVec F S128 .f32 := k0_pay92 (s1 x0 x1)
def s177 (x0 : Vec F S128x216 .f32) (x1 : Vec F S128x72 .f32) : FVec F S128 .f32 := k0_pay96 (s1 x0 x1)
def s183 (x0 : Vec F S128x216 .f32) (x1 : Vec F S128x72 .f32) : FVec F S128 .f32 := k0_pay99 (s1 x0 x1)
def s1365 (x0 : Vec F S128x216 .f32) (x1 : Vec F S128x72 .f32) : FVec F S128 .f32 := k0_pay486 (s171 x0 x1) (s177 x0 x1) (s183 x0 x1) (s1090 x0 x1) (s1097 x0 x1) (s1104 x0 x1)
def s1372 (x0 : Vec F S128x216 .f32) (x1 : Vec F S128x72 .f32) : FVec F S128 .f32 := k0_pay487 (s167 x0 x1) (s173 x0 x1) (s179 x0 x1) (s1111 x0 x1) (s1118 x0 x1) (s1125 x0 x1)
def s1379 (x0 : Vec F S128x216 .f32) (x1 : Vec F S128x72 .f32) : FVec F S128 .f32 := k0_pay488 (s169 x0 x1) (s175 x0 x1) (s181 x0 x1) (s1111 x0 x1) (s1118 x0 x1) (s1125 x0 x1)
def s1386 (x0 : Vec F S128x216 .f32) (x1 : Vec F S128x72 .f32) : FVec F S128 .f32 := k0_pay489 (s171 x0 x1) (s177 x0 x1) (s183 x0 x1) (s1111 x0 x1) (s1118 x0 x1) (s1125 x0 x1)
def s1391 (x0 : Vec F S128x216 .f32) (x1 : Vec F S128x72 .f32) : FVec F S128 .f32 := k0_pay490 (s167 x0 x1) (s173 x0 x1) (s1132 x0 x1) (s1139 x0 x1)
def s1393 (x0 : Vec F S128x216 .f32) (x1 : Vec F S128x72 .f32) : FVec F S128 .f32 := k0_pay491 (s179 x0 x1) (s1146 x0 x1) (s1391 x0 x1)
def s1400 (x0 : Vec F S128x216 .f32) (x1 : Vec F S128x72 .f32) : FVec F S128 .f32 := k0_pay492 (s169 x0 x1) (s175 x0 x1) (s181 x0 x1) (s1132 x0 x1) (s1139 x0 x1) (s1146 x0 x1)
def s1407 (x0 : Vec F S128x216 .f32) (x1 : Vec F S128x72 .f32) : FVec F S128 .f32 := k0_pay493 (s171 x0 x1) (s177 x0 x1) (s183 x0 x1) (s1132 x0 x1) (s1139 x0 x1) (s1146 x0 x1)
def s604 (x0 : Vec F S128x216 .f32) (x1 : Vec F S128x72 .f32) : FVec F S128 .f32 := k0_pay328 (s473 x0 x1) (s491 x0 x1)
def s605 (x0 : Vec F S128x216 .f32) (x1 : Vec F S128x72 .f32) : FVec F S128 .f32 := k0_pay329 (s475 x0 x1) (s493 x0 x1)
def s606 (x0 : Vec F S128x216 .f32) (x1 : Vec F S128x72 .f32) : FVec F S128 .f32 := k0_pay330 (s477 x0 x1) (s495 x0 x1)
def s1415 (x0 : Vec F S128x216 .f32) (x1 : Vec F S128x72 .f32) : FVec F S128 .f32 := k0_pay494 (s604 x0 x1) (s605 x0 x1) (s606 x0 x1) (s1090 x0 x1) (s1097 x0 x1) (s1104 x0 x1) (s1154 x0 x1)
def s1423 (x0 : Vec F S128x216 .f32) (x1 : Vec F S128x72 .f32) : FVec F S128 .f32 := k0_pay495 (s604 x0 x1) (s605 x0 x1) (s606 x0 x1) (s1111 x0 x1) (s1118 x0 x1) (s1125 x0 x1) (s1162 x0 x1)
def s1431 (x0 : Vec F S128x216 .f32) (x1 : Vec F S128x72 .f32) : FVec F S128 .f32 := k0_pay496 (s604 x0 x1) (s605 x0 x1) (s606 x0 x1) (s1132 x0 x1) (s1139 x0 x1) (s1146 x0 x1) (s1170 x0 x1)
def s3097 (x0 : Vec F S128x216 .f32) (x1 : Vec F S128x72 .f32) : FVec F S128x16 .f32 := k0_pay759 (s491 x0 x1) (s493 x0 x1) (s495 x0 x1) (s1351 x0 x1) (s1358 x0 x1) (s1365 x0 x1) (s1372 x0 x1) (s1379 x0 x1) (s1386 x0 x1) (s1393 x0 x1) (s1400 x0 x1) (s1407 x0 x1) (s1415 x0 x1) (s1423 x0 x1) (s1431 x0 x1) (s2650 x0 x1) (s2651 x0 x1)
def s497 (x0 : Vec F S128x216 .f32) (x1 : Vec F S128x72 .f32) : FVec F S128 .f32 := k0_pay261 (s3 x0 x1)
def s499 (x0 : Vec F S128x216 .f32) (x1 : Vec F S128x72 .f32) : FVec F S128 .f32 := k0_pay262 (s3 x0 x1)
def s501 (x0 : Vec F S128x216 .f32) (x1 : Vec F S128x72 .f32) : FVec F S128 .f32 := k0_pay263 (s3 x0 x1)
def s185 (x0 : Vec F S128x216 .f32) (x1 : Vec F S128x72 .f32) : FVec F S128 .f32 := k0_pay100 (s1 x0 x1)
def s191 (x0 : Vec F S128x216 .f32) (x1 : Vec F S128x72 .f32) : FVec F S128 .f32 := k0_pay103 (s1 x0 x1)
def s197 (x0 : Vec F S128x216 .f32) (x1 : Vec F S128x72 .f32) : FVec F S128 .f32 := k0_pay106 (s1 x0 x1)
def s1438 (x0 : Vec F S128x216 .f32) (x1 : Vec F S128x72 .f32) : FVec F S128 .f32 := k0_pay497 (s185 x0 x1) (s191 x0 x1) (s197 x0 x1) (s1177 x0 x1) (s1184 x0 x1) (s1191 x0 x1)
def s187 (x0 : Vec F S128x216 .f32) (x1 : Vec F S128x72 .f32) : FVec F S128 .f32 := k0_pay101 (s1 x0 x1)
def s193 (x0 : Vec F S128x216 .f32) (x1 : Vec F S128x72 .f32) : FVec F S128 .f32 := k0_pay104 (s1 x0 x1)
def s1443 (x0 : Vec F S128x216 .f32) (x1 : Vec F S128x72 .f32) : FVec F S128 .f32 := k0_pay498 (s187 x0 x1) (s193 x0 x1) (s1177 x0 x1) (s1184 x0 x1)
def s199 (x0 : Vec F S128x216 .f32) (x1 : Vec F S128x72 .f32) : FVec F S128 .f32 := k0_pay107 (s1 x0 x1)
def s1444 (x0 : Vec F S128x216 .f32) (x1 : Vec F S128x72 .f32) : FVec F S128 .f32 := k0_pay499 (s199 x0 x1) (s1191 x0 x1)
def s1445 (x0 : Vec F S128x216 .f32) (x1 : Vec F S128x72 .f32) : FVec F S128 .f32 := k0_pay500 (s1443 x0 x1) (s1444 x0 x1)
def s189 (x0 : Vec F S128x216 .f32) (x1 : Vec F S128x72 .f32) : FVec F S128 .f32 := k0_pay102 (s1 x0 x1)
def s195 (x0 : Vec F S128x216 .f32) (x1 : Vec F S128x72 .f32) : FVec F S128 .f32 := k0_pay105 (s1 x0 x1)
def s201 (x0 : Vec F S128x216 .f32) (x1 : Vec F S128x72 .f32) : FVec F S128 .f32 := k0_pay108 (s1 x0 x1)
def s1452 (x0 : Vec F S128x216 .f32) (x1 : Vec F S128x72 .f32) : FVec F S128 .f32 := k0_pay501 (s189 x0 x1) (s195 x0 x1) (s201 x0 x1) (s1177 x0 x1) (s1184 x0 x1) (s1191 x0 x1)
def s1459 (x0 : Vec F S128x216 .f32) (x1 : Vec F S128x72 .f32) : FVec F S128 .f32 := k0_pay502 (s185 x0 x1) (s191 x0 x1) (s197 x0 x1) (s1198 x0 x1) (s1205 x0 x1) (s1212 x0 x1)
def s1466 (x0 : Vec F S128x216 .f32) (x1 : Vec F S128x72 .f32) : FVec F S128 .f32 := k0_pay503 (s187 x0 x1) (s193 x0 x1) (s199 x0 x1) (s1198 x0 x1) (s1205 x0 x1) (s1212 x0 x1)
def s1473 (x0 : Vec F S128x216 .f32) (x1 : Vec F S128x72 .f32) : FVec F S128 .f32 := k0_pay504 (s189 x0 x1) (s195 x0 x1) (s201 x0 x1) (s1198 x0 x1) (s1205 x0 x1) (s1212 x0 x1)
def s1480 (x0 : Vec F S128x216 .f32) (x1 : Vec F S128x72 .f32) : FVec F S128 .f32 := k0_pay505 (s185 x0 x1) (s191 x0 x1) (s197 x0 x1) (s1219 x0 x1) (s1226 x0 x1) (s1233 x0 x1)
def s1487 (x0 : Vec F S128x216 .f32) (x1 : Vec F S128x72 .f32) : FVec F S128 .f32 := k0_pay506 (s187 x0 x1) (s193 x0 x1) (s199 x0 x1) (s1219 x0 x1) (s1226 x0 x1) (s1233 x0 x1)
def s1494 (x0 : Vec F S128x216 .f32) (x1 : Vec F S128x72 .f32) : FVec F S128 .f32 := k0_pay507 (s189 x0 x1) (s195 x0 x1) (s201 x0 x1) (s1219 x0 x1) (s1226 x0 x1) (s1233 x0 x1)
def s608 (x0 : Vec F S128x216 .f32) (x1 : Vec F S128x72 .f32) : FVec F S128 .f32 := k0_pay332 (s481 x0 x1) (s499 x0 x1)
def s609 (x0 : Vec F S128x216 .f32) (x1 : Vec F S128x72 .f32) : FVec F S128 .f32 := k0_pay333 (s483 x0 x1) (s501 x0 x1)
def s607 (x0 : Vec F S128x216 .f32) (x1 : Vec F S128x72 .f32) : FVec F S128 .f32 := k0_pay331 (s479 x0 x1) (s497 x0 x1)
def s1495 (x0 : Vec F S128x216 .f32) (x1 : Vec F S128x72 .f32) : FVec F S128 .f32 := k0_pay508 (s607 x0 x1) (s1177 x0 x1)
def s1496 (x0 : Vec F S128x216 .f32) (x1 : Vec F S128x72 .f32) : FVec F S128 .f32 := k0_pay509
def s1502 (x0 : Vec F S128x216 .f32) (x1 : Vec F S128x72 .f32) : FVec F S128 .f32 := k0_pay510 (s608 x0 x1) (s609 x0 x1) (s1184 x0 x1) (s1191 x0 x1) (s1241 x0 x1) (s1495 x0 x1) (s1496 x0 x1)
def s1510 (x0 : Vec F S128x216 .f32) (x1 : Vec F S128x72 .f32) : FVec F S128 .f32 := k0_pay511 (s607 x0 x1) (s608 x0 x1) (s609 x0 x1) (s1198 x0 x1) (s1205 x0 x1) (s1212 x0 x1) (s1249 x0 x1)
def s1518 (x0 : Vec F S128x216 .f32) (x1 : Vec F S128x72 .f32) : FVec F S128 .f32 := k0_pay512 (s607 x0 x1) (s608 x0 x1) (s609 x0 x1) (s1219 x0 x1) (s1226 x0 x1) (s1233 x0 x1) (s1257 x0 x1)
def s3104 (x0 : Vec F S128x216 .f32) (x1 : Vec F S128x72 .f32) : FVec F S128 .f32 := k0_pay761 (s497 x0 x1) (s1438 x0 x1)
def s3105 (x0 : Vec F S128x216 .f32) (x1 : Vec F S128x72 .f32) : FVec F S128 .f32 := k0_pay762 (s499 x0 x1) (s1445 x0 x1)
def s3142 (x0 : Vec F S128x216 .f32) (x1 : Vec F S128x72 .f32) : FVec F S128x16 .f32 := k0_pay763 (s497 x0 x1) (s499 x0 x1) (s501 x0 x1) (s1438 x0 x1) (s1445 x0 x1) (s1452 x0 x1) (s1459 x0 x1) (s1466 x0 x1) (s1473 x0 x1) (s1480 x0 x1) (s1487 x0 x1) (s1494 x0 x1) (s1502 x0 x1) (s1510 x0 x1) (s1518 x0 x1) (s2650 x0 x1) (s2651 x0 x1) (s3104 x0 x1) (s3105 x0 x1)
def s503 (x0 : Vec F S128x216 .f32) (x1 : Vec F S128x72 .f32) : FVec F S128 .f32 := k0_pay264 (s3 x0 x1)
def s505 (x0 : Vec F S128x216 .f32) (x1 : Vec F S128x72 .f32) : FVec F S128 .f32 := k0_pay265 (s3 x0 x1)
def s507 (x0 : Vec F S128x216 .f32) (x1 : Vec F S128x72 .f32) : FVec F S128 .f32 := k0_pay266 (s3 x0 x1)
def s203 (x0 : Vec F S128x216 .f32) (x1 : Vec F S128x72 .f32) : FVec F S128 .f32 := k0_pay109 (s1 x0 x1)
def s209 (x0 : Vec F S128x216 .f32) (x1 : Vec F S128x72 .f32) : FVec F S128 .f32 := k0_pay112 (s1 x0 x1)
def s215 (x0 : Vec F S128x216 .f32) (x1 : Vec F S128x72 .f32) : FVec F S128 .f32 := k0_pay115 (s1 x0 x1)
def s1525 (x0 : Vec F S128x216 .f32) (x1 : Vec F S128x72 .f32) : FVec F S128 .f32 := k0_pay513 (s203 x0 x1) (s209 x0 x1) (s215 x0 x1) (s1264 x0 x1) (s1271 x0 x1) (s1278 x0 x1)
def s205 (x0 : Vec F S128x216 .f32) (x1 : Vec F S128x72 .f32) : FVec F S128 .f32 := k0_pay110 (s1 x0 x1)
def s211 (x0 : Vec F S128x216 .f32) (x1 : Vec F S128x72 .f32) : FVec F S128 .f32 := k0_pay113 (s1 x0 x1)
def s217 (x0 : Vec F S128x216 .f32) (x1 : Vec F S128x72 .f32) : FVec F S128 .f32 := k0_pay116 (s1 x0 x1)
def s1532 (x0 : Vec F S128x216 .f32) (x1 : Vec F S128x72 .f32) : FVec F S128 .f32 := k0_pay514 (s205 x0 x1) (s211 x0 x1) (s217 x0 x1) (s1264 x0 x1) (s1271 x0 x1) (s1278 x0 x1)
def s207 (x0 : Vec F S128x216 .f32) (x1 : Vec F S128x72 .f32) : FVec F S128 .f32 := k0_pay111 (s1 x0 x1)
def s213 (x0 : Vec F S128x216 .f32) (x1 : Vec F S128x72 .f32) : FVec F S128 .f32 := k0_pay114 (s1 x0 x1)
def s219 (x0 : Vec F S128x216 .f32) (x1 : Vec F S128x72 .f32) : FVec F S128 .f32 := k0_pay117 (s1 x0 x1)
def s1539 (x0 : Vec F S128x216 .f32) (x1 : Vec F S128x72 .f32) : FVec F S128 .f32 := k0_pay515 (s207 x0 x1) (s213 x0 x1) (s219 x0 x1) (s1264 x0 x1) (s1271 x0 x1) (s1278 x0 x1)
def s1546 (x0 : Vec F S128x216 .f32) (x1 : Vec F S128x72 .f32) : FVec F S128 .f32 := k0_pay516 (s203 x0 x1) (s209 x0 x1) (s215 x0 x1) (s1285 x0 x1) (s1292 x0 x1) (s1299 x0 x1)
def s1549 (x0 : Vec F S128x216 .f32) (x1 : Vec F S128x72 .f32) : FVec F S128 .f32 := k0_pay517 (s205 x0 x1) (s1285 x0 x1)
def s1553 (x0 : Vec F S128x216 .f32) (x1 : Vec F S128x72 .f32) : FVec F S128 .f32 := k0_pay518 (s211 x0 x1) (s217 x0 x1) (s1292 x0 x1) (s1299 x0 x1) (s1549 x0 x1)
def s1560 (x0 : Vec F S128x216 .f32) (x1 : Vec F S128x72 .f32) : FVec F S128 .f32 := k0_pay519 (s207 x0 x1) (s213 x0 x1) (s219 x0 x1) (s1285 x0 x1) (s1292 x0 x1) (s1299 x0 x1)
def s1567 (x0 : Vec F S128x216 .f32) (x1 : Vec F S128x72 .f32) : FVec F S128 .f32 := k0_pay520 (s203 x0 x1) (s209 x0 x1) (s215 x0 x1) (s1306 x0 x1) (s1313 x0 x1) (s1320 x0 x1)
def s1574 (x0 : Vec F S128x216 .f32) (x1 : Vec F S128x72 .f32) : FVec F S128 .f32 := k0_pay521 (s205 x0 x1) (s211 x0 x1) (s217 x0 x1) (s1306 x0 x1) (s1313 x0 x1) (s1320 x0 x1)
def s1581 (x0 : Vec F S128x216 .f32) (x1 : Vec F S128x72 .f32) : FVec F S128 .f32 := k0_pay522 (s207 x0 x1) (s213 x0 x1) (s219 x0 x1) (s1306 x0 x1) (s1313 x0 x1) (s1320 x0 x1)
def s610 (x0 : Vec F S128x216 .f32) (x1 : Vec F S128x72 .f32) : FVec F S128 .f32 := k0_pay334 (s485 x0 x1) (s503 x0 x1)
def s611 (x0 : Vec F S128x216 .f32) (x1 : Vec F S128x72 .f32) : FVec F S128 .f32 := k0_pay335 (s487 x0 x1) (s505 x0 x1)
def s612 (x0 : Vec F S128x216 .f32) (x1 : Vec F S128x72 .f32) : FVec F S128 .f32 := k0_pay336 (s489 x0 x1) (s507 x0 x1)
def s1597 (x0 : Vec F S128x216 .f32) (x1 : Vec F S128x72 .f32) : FVec F S128 .f32 := k0_pay524 (s610 x0 x1) (s611 x0 x1) (s612 x0 x1) (s1285 x0 x1) (s1292 x0 x1) (s1299 x0 x1) (s1336 x0 x1)
def s1602 (x0 : Vec F S128x216 .f32) (x1 : Vec F S128x72 .f32) : FVec F S128 .f32 := k0_pay525 (s610 x0 x1) (s611 x0 x1) (s1306 x0 x1) (s1313 x0 x1)
def s1605 (x0 : Vec F S128x216 .f32) (x1 : Vec F S128x72 .f32) : FVec F S128 .f32 := k0_pay526 (s612 x0 x1) (s1320 x0 x1) (s1344 x0 x1) (s1602 x0 x1)
def s1589 (x0 : Vec F S128x216 .f32) (x1 : Vec F S128x72 .f32) : FVec F S128 .f32 := k0_pay523 (s610 x0 x1) (s611 x0 x1) (s612 x0 x1) (s1264 x0 x1) (s1271 x0 x1) (s1278 x0 x1) (s1328 x0 x1)
def s3154 (x0 : Vec F S128x216 .f32) (x1 : Vec F S128x72 .f32) : FVec F S128 .f32 := k0_pay765 (s503 x0 x1) (s505 x0 x1) (s507 x0 x1) (s1525 x0 x1) (s1532 x0 x1) (s1539 x0 x1) (s1589 x0 x1)
def s3161 (x0 : Vec F S128x216 .f32) (x1 : Vec F S128x72 .f32) : FVec F S128 .f32 := k0_pay766 (s503 x0 x1) (s505 x0 x1) (s507 x0 x1) (s1546 x0 x1) (s1553 x0 x1) (s1560 x0 x1)
def s3187 (x0 : Vec F S128x216 .f32) (x1 : Vec F S128x72 .f32) : FVec F S128x16 .f32 := k0_pay767 (s503 x0 x1) (s505 x0 x1) (s507 x0 x1) (s1525 x0 x1) (s1532 x0 x1) (s1539 x0 x1) (s1546 x0 x1) (s1553 x0 x1) (s1560 x0 x1) (s1567 x0 x1) (s1574 x0 x1) (s1581 x0 x1) (s1597 x0 x1) (s1605 x0 x1) (s2650 x0 x1) (s2651 x0 x1) (s3154 x0 x1) (s3161 x0 x1)
def s225 (x0 : Vec F S128x216 .f32) (x1 : Vec F S128x72 .f32) : FVec F S128 .f32 := k0_pay120 (s1 x0 x1)
def s231 (x0 : Vec F S128x216 .f32) (x1 : Vec F S128x72 .f32) : FVec F S128 .f32 := k0_pay123 (s1 x0 x1)
def s237 (x0 : Vec F S128x216 .f32) (x1 : Vec F S128x72 .f32) : FVec F S128 .f32 := k0_pay127 (s1 x0 x1)
def s1626 (x0 : Vec F S128x216 .f32) (x1 : Vec F S128x72 .f32) : FVec F S128 .f32 := k0_pay529 (s225 x0 x1) (s231 x0 x1) (s237 x0 x1) (s1351 x0 x1) (s1358 x0 x1) (s1365 x0 x1)
def s221 (x0 : Vec F S128x216 .f32) (x1 : Vec F S128x72 .f32) : FVec F S128 .f32 := k0_pay118 (s1 x0 x1)
def s227 (x0 : Vec F S128x216 .f32) (x1 : Vec F S128x72 .f32) : FVec F S128 .f32 := k0_pay121 (s1 x0 x1)
def s233 (x0 : Vec F S128x216 .f32) (x1 : Vec F S128x72 .f32) : FVec F S128 .f32 := k0_pay124 (s1 x0 x1)
def s1633 (x0 : Vec F S128x216 .f32) (x1 : Vec F S128x72 .f32) : FVec F S128 .f32 := k0_pay530 (s221 x0 x1) (s227 x0 x1) (s233 x0 x1) (s1372 x0 x1) (s1379 x0 x1) (s1386 x0 x1)
def s223 (x0 : Vec F S128x216 .f32) (x1 : Vec F S128x72 .f32) : FVec F S128 .f32 := k0_pay119 (s1 x0 x1)
def s229 (x0 : Vec F S128x216 .f32) (x1 : Vec F S128x72 .f32) : FVec F S128 .f32 := k0_pay122 (s1 x0 x1)
def s234 (x0 : Vec F S128x216 .f32) (x1 : Vec F S128x72 .f32) : FVec F S128x1 .f32 := k0_pay125 (s1 x0 x1)
def s235 (x0 : Vec F S128x216 .f32) (x1 : Vec F S128x72 .f32) : FVec F S128 .f32 := k0_pay126 (s234 x0 x1)
def s1640 (x0 : Vec F S128x216 .f32) (x1 : Vec F S128x72 .f32) : FVec F S128 .f32 := k0_pay531 (s223 x0 x1) (s229 x0 x1) (s235 x0 x1) (s1372 x0 x1) (s1379 x0 x1) (s1386 x0 x1)
def s1647 (x0 : Vec F S128x216 .f32) (x1 : Vec F S128x72 .f32) : FVec F S128 .f32 := k0_pay532 (s225 x0 x1) (s231 x0 x1) (s237 x0 x1) (s1372 x0 x1) (s1379 x0 x1) (s1386 x0 x1)
def s1654 (x0 : Vec F S128x216 .f32) (x1 : Vec F S128x72 .f32) : FVec F S128 .f32 := k0_pay533 (s221 x0 x1) (s227 x0 x1) (s233 x0 x1) (s1393 x0 x1) (s1400 x0 x1) (s1407 x0 x1)
def s1655 (x0 : Vec F S128x216 .f32) (x1 : Vec F S128x72 .f32) : FVec F S128 .f32 := k0_pay534 (s223 x0 x1) (s1393 x0 x1)
def s1661 (x0 : Vec F S128x216 .f32) (x1 : Vec F S128x72 .f32) : FVec F S128 .f32 := k0_pay535 (s229 x0 x1) (s235 x0 x1) (s1400 x0 x1) (s1407 x0 x1) (s1655 x0 x1)
def s1668 (x0 : Vec F S128x216 .f32) (x1 : Vec F S128x72 .f32) : FVec F S128 .f32 := k0_pay536 (s225 x0 x1) (s231 x0 x1) (s237 x0 x1) (s1393 x0 x1) (s1400 x0 x1) (s1407 x0 x1)
def s509 (x0 : Vec F S128x216 .f32) (x1 : Vec F S128x72 .f32) : FVec F S128 .f32 := k0_pay267 (s3 x0 x1)
def s511 (x0 : Vec F S128x216 .f32) (x1 : Vec F S128x72 .f32) : FVec F S128 .f32 := k0_pay268 (s3 x0 x1)
def s513 (x0 : Vec F S128x216 .f32) (x1 : Vec F S128x72 .f32) : FVec F S128 .f32 := k0_pay269 (s3 x0 x1)
def s1612 (x0 : Vec F S128x216 .f32) (x1 : Vec F S128x72 .f32) : FVec F S128 .f32 := k0_pay527 (s221 x0 x1) (s227 x0 x1) (s233 x0 x1) (s1351 x0 x1) (s1358 x0 x1) (s1365 x0 x1)
def s1619 (x0 : Vec F S128x216 .f32) (x1 : Vec F S128x72 .f32) : FVec F S128 .f32 := k0_pay528 (s223 x0 x1) (s229 x0 x1) (s235 x0 x1) (s1351 x0 x1) (s1358 x0 x1) (s1365 x0 x1)
def s613 (x0 : Vec F S128x216 .f32) (x1 : Vec F S128x72 .f32) : FVec F S128 .f32 := k0_pay337 (s491 x0 x1) (s509 x0 x1)
def s614 (x0 : Vec F S128x216 .f32) (x1 : Vec F S128x72 .f32) : FVec F S128 .f32 := k0_pay338 (s493 x0 x1) (s511 x0 x1)
def s615 (x0 : Vec F S128x216 .f32) (x1 : Vec F S128x72 .f32) : FVec F S128 .f32 := k0_pay339 (s495 x0 x1) (s513 x0 x1)
def s1676 (x0 : Vec F S128x216 .f32) (x1 : Vec F S128x72 .f32) : FVec F S128 .f32 := k0_pay537 (s613 x0 x1) (s614 x0 x1) (s615 x0 x1) (s1351 x0 x1) (s1358 x0 x1) (s1365 x0 x1) (s1415 x0 x1)
def s3199 (x0 : Vec F S128x216 .f32) (x1 : Vec F S128x72 .f32) : FVec F S128 .f32 := k0_pay769 (s509 x0 x1) (s511 x0 x1) (s513 x0 x1) (s1612 x0 x1) (s1619 x0 x1) (s1626 x0 x1) (s1676 x0 x1)
def s1684 (x0 : Vec F S128x216 .f32) (x1 : Vec F S128x72 .f32) : FVec F S128 .f32 := k0_pay538 (s613 x0 x1) (s614 x0 x1) (s615 x0 x1) (s1372 x0 x1) (s1379 x0 x1) (s1386 x0 x1) (s1423 x0 x1)
def s3207 (x0 : Vec F S128x216 .f32) (x1 : Vec F S128x72 .f32) : FVec F S128 .f32 := k0_pay770 (s509 x0 x1) (s511 x0 x1) (s513 x0 x1) (s1633 x0 x1) (s1640 x0 x1) (s1647 x0 x1) (s1684 x0 x1)
def s1692 (x0 : Vec F S128x216 .f32) (x1 : Vec F S128x72 .f32) : FVec F S128 .f32 := k0_pay539 (s613 x0 x1) (s614 x0 x1) (s615 x0 x1) (s1393 x0 x1) (s1400 x0 x1) (s1407 x0 x1) (s1431 x0 x1)
def s3215 (x0 : Vec F S128x216 .f32) (x1 : Vec F S128x72 .f32) : FVec F S128 .f32 := k0_pay771 (s509 x0 x1) (s511 x0 x1) (s513 x0 x1) (s1654 x0 x1) (s1661 x0 x1) (s1668 x0 x1) (s1692 x0 x1)
def s3216 (x0 : Vec F S128x216 .f32) (x1 : Vec F S128x72 .f32) : FVec F S128x1 .f32 := k0_pay772 (s1612 x0 x1)
def s3217 (x0 : Vec F S128x216 .f32) (x1 : Vec F S128x72 .f32) : FVec F S128x1 .f32 := k0_pay773 (s1619 x0 x1)
def s3232 (x0 : Vec F S128x216 .f32) (x1 : Vec F S128x72 .f32) : FVec F S128x16 .f32 := k0_pay774 (s1626 x0 x1) (s1633 x0 x1) (s1640 x0 x1) (s1647 x0 x1) (s1654 x0 x1) (s1661 x0 x1) (s1668 x0 x1) (s2650 x0 x1) (s2651 x0 x1) (s3199 x0 x1) (s3207 x0 x1) (s3215 x0 x1) (s3216 x0 x1) (s3217 x0 x1)
def s239 (x0 : Vec F S128x216 .f32) (x1 : Vec F S128x72 .f32) : FVec F S128 .f32 := k0_pay128 (s1 x0 x1)
def s245 (x0 : Vec F S128x216 .f32) (x1 : Vec F S128x72 .f32) : FVec F S128 .f32 := k0_pay131 (s1 x0 x1)
def s251 (x0 : Vec F S128x216 .f32) (x1 : Vec F S128x72 .f32) : FVec F S128 .f32 := k0_pay134 (s1 x0 x1)
def s1699 (x0 : Vec F S128x216 .f32) (x1 : Vec F S128x72 .f32) : FVec F S128 .f32 := k0_pay540 (s239 x0 x1) (s245 x0 x1) (s251 x0 x1) (s1351 x0 x1) (s1358 x0 x1) (s1365 x0 x1)
def s3261 (x0 : Vec F S128x216 .f32) (x1 : Vec F S128x72 .f32) : FVec F S128x1 .f32 := k0_pay776 (s1699 x0 x1)
def s241 (x0 : Vec F S128x216 .f32) (x1 : Vec F S128x72 .f32) : FVec F S128 .f32 := k0_pay129 (s1 x0 x1)
def s247 (x0 : Vec F S128x216 .f32) (x1 : Vec F S128x72 .f32) : FVec F S128 .f32 := k0_pay132 (s1 x0 x1)
def s253 (x0 : Vec F S128x216 .f32) (x1 : Vec F S128x72 .f32) : FVec F S128 .f32 := k0_pay135 (s1 x0 x1)
def s1706 (x0 : Vec F S128x216 .f32) (x1 : Vec F S128x72 .f32) : FVec F S128 .f32 := k0_pay541 (s241 x0 x1) (s247 x0 x1) (s253 x0 x1) (s1351 x0 x1) (s1358 x0 x1) (s1365 x0 x1)
def s3262 (x0 : Vec F S128x216 .f32) (x1 : Vec F S128x72 .f32) : FVec F S128x1 .f32 := k0_pay777 (s1706 x0 x1)
def s249 (x0 : Vec F S128x216 .f32) (x1 : Vec F S128x72 .f32) : FVec F S128 .f32 := k0_pay133 (s1 x0 x1)
def s255 (x0 : Vec F S128x216 .f32) (x1 : Vec F S128x72 .f32) : FVec F S128 .f32 := k0_pay136 (s1 x0 x1)
def s243 (x0 : Vec F S128x216 .f32) (x1 : Vec F S128x72 .f32) : FVec F S128 .f32 := k0_pay130 (s1 x0 x1)
def s1707 (x0 : Vec F S128x216 .f32) (x1 : Vec F S128x72 .f32) : FVec F S128 .f32 := k0_pay542 (s243 x0 x1) (s1351 x0 x1)
def s1713 (x0 : Vec F S128x216 .f32) (x1 : Vec F S128x72 .f32) : FVec F S128 .f32 := k0_pay543 (s249 x0 x1) (s255 x0 x1) (s1358 x0 x1) (s1365 x0 x1) (s1707 x0 x1) (Scalar.ofBits .f32 0x00000000#32)
def s3263 (x0 : Vec F S128x216 .f32) (x1 : Vec F S128x72 .f32) : FVec F S128x1 .f32 := k0_pay778 (s1713 x0 x1)
def s515 (x0 : Vec F S128x216 .f32) (x1 : Vec F S128x72 .f32) : FVec F S128 .f32 := k0_pay270 (s3 x0 x1)
def s517 (x0 : Vec F S128x216 .f32) (x1 : Vec F S128x72 .f32) : FVec F S128 .f32 := k0_pay271 (s3 x0 x1)
def s519 (x0 : Vec F S128x216 .f32) (x1 : Vec F S128x72 .f32) : FVec F S128 .f32 := k0_pay272 (s3 x0 x1)
def s618 (x0 : Vec F S128x216 .f32) (x1 : Vec F S128x72 .f32) : FVec F S128 .f32 := k0_pay342 (s495 x0 x1) (s519 x0 x1)
def s616 (x0 : Vec F S128x216 .f32) (x1 : Vec F S128x72 .f32) : FVec F S128 .f32 := k0_pay340 (s491 x0 x1) (s515 x0 x1)
def s617 (x0 : Vec F S128x216 .f32) (x1 : Vec F S128x72 .f32) : FVec F S128 .f32 := k0_pay341 (s493 x0 x1) (s517 x0 x1)
def s1760 (x0 : Vec F S128x216 .f32) (x1 : Vec F S128x72 .f32) : FVec F S128 .f32 := k0_pay550 (s616 x0 x1) (s617 x0 x1) (s1351 x0 x1) (s1358 x0 x1)
def s1763 (x0 : Vec F S128x216 .f32) (x1 : Vec F S128x72 .f32) : FVec F S128 .f32 := k0_pay551 (s618 x0 x1) (s1365 x0 x1) (s1415 x0 x1) (s1760 x0 x1)
def s3264 (x0 : Vec F S128x216 .f32) (x1 : Vec F S128x72 .f32) : FVec F S128x1 .f32 := k0_pay779 (s515 x0 x1) (s517 x0 x1) (s519 x0 x1) (s1699 x0 x1) (s1706 x0 x1) (s1713 x0 x1) (s1763 x0 x1)
def s1720 (x0 : Vec F S128x216 .f32) (x1 : Vec F S128x72 .f32) : FVec F S128 .f32 := k0_pay544 (s239 x0 x1) (s245 x0 x1) (s251 x0 x1) (s1372 x0 x1) (s1379 x0 x1) (s1386 x0 x1)
def s3265 (x0 : Vec F S128x216 .f32) (x1 : Vec F S128x72 .f32) : FVec F S128x1 .f32 := k0_pay780 (s1720 x0 x1)
def s1727 (x0 : Vec F S128x216 .f32) (x1 : Vec F S128x72 .f32) : FVec F S128 .f32 := k0_pay545 (s241 x0 x1) (s247 x0 x1) (s253 x0 x1) (s1372 x0 x1) (s1379 x0 x1) (s1386 x0 x1)
def s3266 (x0 : Vec F S128x216 .f32) (x1 : Vec F S128x72 .f32) : FVec F S128x1 .f32 := k0_pay781 (s1727 x0 x1)
def s1734 (x0 : Vec F S128x216 .f32) (x1 : Vec F S128x72 .f32) : FVec F S128 .f32 := k0_pay546 (s243 x0 x1) (s249 x0 x1) (s255 x0 x1) (s1372 x0 x1) (s1379 x0 x1) (s1386 x0 x1)
def s3267 (x0 : Vec F S128x216 .f32) (x1 : Vec F S128x72 .f32) : FVec F S128x1 .f32 := k0_pay782 (s1734 x0 x1)
def s1771 (x0 : Vec F S128x216 .f32) (x1 : Vec F S128x72 .f32) : FVec F S128 .f32 := k0_pay552 (s616 x0 x1) (s617 x0 x1) (s618 x0 x1) (s1372 x0 x1) (s1379 x0 x1) (s1386 x0 x1) (s1423 x0 x1)
def s3268 (x0 : Vec F S128x216 .f32) (x1 : Vec F S128x72 .f32) : FVec F S128x1 .f32 := k0_pay783 (s515 x0 x1) (s517 x0 x1) (s519 x0 x1) (s1720 x0 x1) (s1727 x0 x1) (s1734 x0 x1) (s1771 x0 x1)
def s1741 (x0 : Vec F S128x216 .f32) (x1 : Vec F S128x72 .f32) : FVec F S128 .f32 := k0_pay547 (s239 x0 x1) (s245 x0 x1) (s251 x0 x1) (s1393 x0 x1) (s1400 x0 x1) (s1407 x0 x1)
def s3269 (x0 : Vec F S128x216 .f32) (x1 : Vec F S128x72 .f32) : FVec F S128x1 .f32 := k0_pay784 (s1741 x0 x1)
def s1748 (x0 : Vec F S128x216 .f32) (x1 : Vec F S128x72 .f32) : FVec F S128 .f32 := k0_pay548 (s241 x0 x1) (s247 x0 x1) (s253 x0 x1) (s1393 x0 x1) (s1400 x0 x1) (s1407 x0 x1)
def s3270 (x0 : Vec F S128x216 .f32) (x1 : Vec F S128x72 .f32) : FVec F S128x1 .f32 := k0_pay785 (s1748 x0 x1)
def s1755 (x0 : Vec F S128x216 .f32) (x1 : Vec F S128x72 .f32) : FVec F S128 .f32 := k0_pay549 (s243 x0 x1) (s249 x0 x1) (s255 x0 x1) (s1393 x0 x1) (s1400 x0 x1) (s1407 x0 x1)
def s3271 (x0 : Vec F S128x216 .f32) (x1 : Vec F S128x72 .f32) : FVec F S128x1 .f32 := k0_pay786 (s1755 x0 x1)
def s1779 (x0 : Vec F S128x216 .f32) (x1 : Vec F S128x72 .f32) : FVec F S128 .f32 := k0_pay553 (s616 x0 x1) (s617 x0 x1) (s618 x0 x1) (s1393 x0 x1) (s1400 x0 x1) (s1407 x0 x1) (s1431 x0 x1)
def s3272 (x0 : Vec F S128x216 .f32) (x1 : Vec F S128x72 .f32) : FVec F S128x1 .f32 := k0_pay787 (s515 x0 x1) (s517 x0 x1) (s519 x0 x1) (s1741 x0 x1) (s1748 x0 x1) (s1755 x0 x1) (s1779 x0 x1)
def s3273 (x0 : Vec F S128x216 .f32) (x1 : Vec F S128x72 .f32) : FVec F S128x1 .f32 := k0_pay788 (s2650 x0 x1)
def s3274 (x0 : Vec F S128x216 .f32) (x1 : Vec F S128x72 .f32) : FVec F S128x1 .f32 := k0_pay789 (s2650 x0 x1)
def s3277 (x0 : Vec F S128x216 .f32) (x1 : Vec F S128x72 .f32) : FVec F S128x16 .f32 := k0_pay790 (s2650 x0 x1) (s2651 x0 x1) (s3261 x0 x1) (s3262 x0 x1) (s3263 x0 x1) (s3264 x0 x1) (s3265 x0 x1) (s3266 x0 x1) (s3267 x0 x1) (s3268 x0 x1) (s3269 x0 x1) (s3270 x0 x1) (s3271 x0 x1) (s3272 x0 x1) (s3273 x0 x1) (s3274 x0 x1)
def s521 (x0 : Vec F S128x216 .f32) (x1 : Vec F S128x72 .f32) : FVec F S128 .f32 := k0_pay273 (s3 x0 x1)
def s523 (x0 : Vec F S128x216 .f32) (x1 : Vec F S128x72 .f32) : FVec F S128 .f32 := k0_pay274 (s3 x0 x1)
def s525 (x0 : Vec F S128x216 .f32) (x1 : Vec F S128x72 .f32) : FVec F S128 .f32 := k0_pay275 (s3 x0 x1)
def s257 (x0 : Vec F S128x216 .f32) (x1 : Vec F S128x72 .f32) : FVec F S128 .f32 := k0_pay137 (s1 x0 x1)
def s263 (x0 : Vec F S128x216 .f32) (x1 : Vec F S128x72 .f32) : FVec F S128 .f32 := k0_pay140 (s1 x0 x1)
def s269 (x0 : Vec F S128x216 .f32) (x1 : Vec F S128x72 .f32) : FVec F S128 .f32 := k0_pay143 (s1 x0 x1)
def s1786 (x0 : Vec F S128x216 .f32) (x1 : Vec F S128x72 .f32) : FVec F S128 .f32 := k0_pay554 (s257 x0 x1) (s263 x0 x1) (s269 x0 x1) (s1351 x0 x1) (s1358 x0 x1) (s1365 x0 x1)
def s259 (x0 : Vec F S128x216 .f32) (x1 : Vec F S128x72 .f32) : FVec F S128 .f32 := k0_pay138 (s1 x0 x1)
def s265 (x0 : Vec F S128x216 .f32) (x1 : Vec F S128x72 .f32) : FVec F S128 .f32 := k0_pay141 (s1 x0 x1)
def s271 (x0 : Vec F S128x216 .f32) (x1 : Vec F S128x72 .f32) : FVec F S128 .f32 := k0_pay144 (s1 x0 x1)
def s1793 (x0 : Vec F S128x216 .f32) (x1 : Vec F S128x72 .f32) : FVec F S128 .f32 := k0_pay555 (s259 x0 x1) (s265 x0 x1) (s271 x0 x1) (s1351 x0 x1) (s1358 x0 x1) (s1365 x0 x1)
def s261 (x0 : Vec F S128x216 .f32) (x1 : Vec F S128x72 .f32) : FVec F S128 .f32 := k0_pay139 (s1 x0 x1)
def s267 (x0 : Vec F S128x216 .f32) (x1 : Vec F S128x72 .f32) : FVec F S128 .f32 := k0_pay142 (s1 x0 x1)
def s273 (x0 : Vec F S128x216 .f32) (x1 : Vec F S128x72 .f32) : FVec F S128 .f32 := k0_pay145 (s1 x0 x1)
def s1800 (x0 : Vec F S128x216 .f32) (x1 : Vec F S128x72 .f32) : FVec F S128 .f32 := k0_pay556 (s261 x0 x1) (s267 x0 x1) (s273 x0 x1) (s1351 x0 x1) (s1358 x0 x1) (s1365 x0 x1)
def s1807 (x0 : Vec F S128x216 .f32) (x1 : Vec F S128x72 .f32) : FVec F S128 .f32 := k0_pay557 (s257 x0 x1) (s263 x0 x1) (s269 x0 x1) (s1372 x0 x1) (s1379 x0 x1) (s1386 x0 x1)
def s1812 (x0 : Vec F S128x216 .f32) (x1 : Vec F S128x72 .f32) : FVec F S128 .f32 := k0_pay558 (s259 x0 x1) (s265 x0 x1) (s1372 x0 x1) (s1379 x0 x1)
def s1813 (x0 : Vec F S128x216 .f32) (x1 : Vec F S128x72 .f32) : FVec F S128 .f32 := k0_pay559 (s271 x0 x1) (s1386 x0 x1)
def s1814 (x0 : Vec F S128x216 .f32) (x1 : Vec F S128x72 .f32) : FVec F S128 .f32 := k0_pay560 (s1812 x0 x1) (s1813 x0 x1)
def s1821 (x0 : Vec F S128x216 .f32) (x1 : Vec F S128x72 .f32) : FVec F S128 .f32 := k0_pay561 (s261 x0 x1) (s267 x0 x1) (s273 x0 x1) (s1372 x0 x1) (s1379 x0 x1) (s1386 x0 x1)
def s1828 (x0 : Vec F S128x216 .f32) (x1 : Vec F S128x72 .f32) : FVec F S128 .f32 := k0_pay562 (s257 x0 x1) (s263 x0 x1) (s269 x0 x1) (s1393 x0 x1) (s1400 x0 x1) (s1407 x0 x1)
def s1835 (x0 : Vec F S128x216 .f32) (x1 : Vec F S128x72 .f32) : FVec F S128 .f32 := k0_pay563 (s259 x0 x1) (s265 x0 x1) (s271 x0 x1) (s1393 x0 x1) (s1400 x0 x1) (s1407 x0 x1)
def s1842 (x0 : Vec F S128x216 .f32) (x1 : Vec F S128x72 .f32) : FVec F S128 .f32 := k0_pay564 (s261 x0 x1) (s267 x0 x1) (s273 x0 x1) (s1393 x0 x1) (s1400 x0 x1) (s1407 x0 x1)
def s619 (x0 : Vec F S128x216 .f32) (x1 : Vec F S128x72 .f32) : FVec F S128 .f32 := k0_pay343 (s491 x0 x1) (s521 x0 x1)
def s620 (x0 : Vec F S128x216 .f32) (x1 : Vec F S128x72 .f32) : FVec F S128 .f32 := k0_pay344 (s493 x0 x1) (s523 x0 x1)
def s621 (x0 : Vec F S128x216 .f32) (x1 : Vec F S128x72 .f32) : FVec F S128 .f32 := k0_pay345 (s495 x0 x1) (s525 x0 x1)
def s1850 (x0 : Vec F S128x216 .f32) (x1 : Vec F S128x72 .f32) : FVec F S128 .f32 := k0_pay565 (s619 x0 x1) (s620 x0 x1) (s621 x0 x1) (s1351 x0 x1) (s1358 x0 x1) (s1365 x0 x1) (s1415 x0 x1)
def s1858 (x0 : Vec F S128x216 .f32) (x1 : Vec F S128x72 .f32) : FVec F S128 .f32 := k0_pay566 (s619 x0 x1) (s620 x0 x1) (s621 x0 x1) (s1372 x0 x1) (s1379 x0 x1) (s1386 x0 x1) (s1423 x0 x1)
def s1866 (x0 : Vec F S128x216 .f32) (x1 : Vec F S128x72 .f32) : FVec F S128 .f32 := k0_pay567 (s619 x0 x1) (s620 x0 x1) (s621 x0 x1) (s1393 x0 x1) (s1400 x0 x1) (s1407 x0 x1) (s1431 x0 x1)
def s3322 (x0 : Vec F S128x216 .f32) (x1 : Vec F S128x72 .f32) : FVec F S128x16 .f32 := k0_pay792 (s521 x0 x1) (s523 x0 x1) (s525 x0 x1) (s1786 x0 x1) (s1793 x0 x1) (s1800 x0 x1) (s1807 x0 x1) (s1814 x0 x1) (s1821 x0 x1) (s1828 x0 x1) (s1835 x0 x1) (s1842 x0 x1) (s1850 x0 x1) (s1858 x0 x1) (s1866 x0 x1) (s2650 x0 x1) (s2651 x0 x1)
def s527 (x0 : Vec F S128x216 .f32) (x1 : Vec F S128x72 .f32) : FVec F S128 .f32 := k0_pay276 (s3 x0 x1)
def s529 (x0 : Vec F S128x216 .f32) (x1 : Vec F S128x72 .f32) : FVec F S128 .f32 := k0_pay277 (s3 x0 x1)
def s531 (x0 : Vec F S128x216 .f32) (x1 : Vec F S128x72 .f32) : FVec F S128 .f32 := k0_pay278 (s3 x0 x1)
def s275 (x0 : Vec F S128x216 .f32) (x1 : Vec F S128x72 .f32) : FVec F S128 .f32 := k0_pay146 (s1 x0 x1)
def s281 (x0 : Vec F S128x216 .f32) (x1 : Vec F S128x72 .f32) : FVec F S128 .f32 := k0_pay149 (s1 x0 x1)
def s287 (x0 : Vec F S128x216 .f32) (x1 : Vec F S128x72 .f32) : FVec F S128 .f32 := k0_pay152 (s1 x0 x1)
def s1873 (x0 : Vec F S128x216 .f32) (x1 : Vec F S128x72 .f32) : FVec F S128 .f32 := k0_pay568 (s275 x0 x1) (s281 x0 x1) (s287 x0 x1) (s1612 x0 x1) (s1619 x0 x1) (s1626 x0 x1)
def s277 (x0 : Vec F S128x216 .f32) (x1 : Vec F S128x72 .f32) : FVec F S128 .f32 := k0_pay147 (s1 x0 x1)
def s283 (x0 : Vec F S128x216 .f32) (x1 : Vec F S128x72 .f32) : FVec F S128 .f32 := k0_pay150 (s1 x0 x1)
def s289 (x0 : Vec F S128x216 .f32) (x1 : Vec F S128x72 .f32) : FVec F S128 .f32 := k0_pay153 (s1 x0 x1)
def s1880 (x0 : Vec F S128x216 .f32) (x1 : Vec F S128x72 .f32) : FVec F S128 .f32 := k0_pay569 (s277 x0 x1) (s283 x0 x1) (s289 x0 x1) (s1612 x0 x1) (s1619 x0 x1) (s1626 x0 x1)
def s279 (x0 : Vec F S128x216 .f32) (x1 : Vec F S128x72 .f32) : FVec F S128 .f32 := k0_pay148 (s1 x0 x1)
def s285 (x0 : Vec F S128x216 .f32) (x1 : Vec F S128x72 .f32) : FVec F S128 .f32 := k0_pay151 (s1 x0 x1)
def s291 (x0 : Vec F S128x216 .f32) (x1 : Vec F S128x72 .f32) : FVec F S128 .f32 := k0_pay154 (s1 x0 x1)
def s1887 (x0 : Vec F S128x216 .f32) (x1 : Vec F S128x72 .f32) : FVec F S128 .f32 := k0_pay570 (s279 x0 x1) (s285 x0 x1) (s291 x0 x1) (s1612 x0 x1) (s1619 x0 x1) (s1626 x0 x1)
def s1894 (x0 : Vec F S128x216 .f32) (x1 : Vec F S128x72 .f32) : FVec F S128 .f32 := k0_pay571 (s275 x0 x1) (s281 x0 x1) (s287 x0 x1) (s1633 x0 x1) (s1640 x0 x1) (s1647 x0 x1)
def s1901 (x0 : Vec F S128x216 .f32) (x1 : Vec F S128x72 .f32) : FVec F S128 .f32 := k0_pay572 (s277 x0 x1) (s283 x0 x1) (s289 x0 x1) (s1633 x0 x1) (s1640 x0 x1) (s1647 x0 x1)
def s1908 (x0 : Vec F S128x216 .f32) (x1 : Vec F S128x72 .f32) : FVec F S128 .f32 := k0_pay573 (s279 x0 x1) (s285 x0 x1) (s291 x0 x1) (s1633 x0 x1) (s1640 x0 x1) (s1647 x0 x1)
def s1915 (x0 : Vec F S128x216 .f32) (x1 : Vec F S128x72 .f32) : FVec F S128 .f32 := k0_pay574 (s275 x0 x1) (s281 x0 x1) (s287 x0 x1) (s1654 x0 x1) (s1661 x0 x1) (s1668 x0 x1)
def s1918 (x0 : Vec F S128x216 .f32) (x1 : Vec F S128x72 .f32) : FVec F S128 .f32 := k0_pay575 (s277 x0 x1) (s1654 x0 x1)
def s1922 (x0 : Vec F S128x216 .f32) (x1 : Vec F S128x72 .f32) : FVec F S128 .f32 := k0_pay576 (s283 x0 x1) (s289 x0 x1) (s1661 x0 x1) (s1668 x0 x1) (s1918 x0 x1)
def s1929 (x0 : Vec F S128x216 .f32) (x1 : Vec F S128x72 .f32) : FVec F S128 .f32 := k0_pay577 (s279 x0 x1) (s285 x0 x1) (s291 x0 x1) (s1654 x0 x1) (s1661 x0 x1) (s1668 x0 x1)
def s622 (x0 : Vec F S128x216 .f32) (x1 : Vec F S128x72 .f32) : FVec F S128 .f32 := k0_pay346 (s509 x0 x1) (s527 x0 x1)
def s623 (x0 : Vec F S128x216 .f32) (x1 : Vec F S128x72 .f32) : FVec F S128 .f32 := k0_pay347 (s511 x0 x1) (s529 x0 x1)
def s624 (x0 : Vec F S128x216 .f32) (x1 : Vec F S128x72 .f32) : FVec F S128 .f32 := k0_pay348 (s513 x0 x1) (s531 x0 x1)
def s1937 (x0 : Vec F S128x216 .f32) (x1 : Vec F S128x72 .f32) : FVec F S128 .f32 := k0_pay578 (s622 x0 x1) (s623 x0 x1) (s624 x0 x1) (s1612 x0 x1) (s1619 x0 x1) (s1626 x0 x1) (s1676 x0 x1)
def s1945 (x0 : Vec F S128x216 .f32) (x1 : Vec F S128x72 .f32) : FVec F S128 .f32 := k0_pay579 (s622 x0 x1) (s623 x0 x1) (s624 x0 x1) (s1633 x0 x1) (s1640 x0 x1) (s1647 x0 x1) (s1684 x0 x1)
def s1953 (x0 : Vec F S128x216 .f32) (x1 : Vec F S128x72 .f32) : FVec F S128 .f32 := k0_pay580 (s622 x0 x1) (s623 x0 x1) (s624 x0 x1) (s1654 x0 x1) (s1661 x0 x1) (s1668 x0 x1) (s1692 x0 x1)
def s3329 (x0 : Vec F S128x216 .f32) (x1 : Vec F S128x72 .f32) : FVec F S128 .f32 := k0_pay794 (s527 x0 x1) (s1873 x0 x1)
def s3330 (x0 : Vec F S128x216 .f32) (x1 : Vec F S128x72 .f32) : FVec F S128 .f32 := k0_pay795 (s529 x0 x1) (s1880 x0 x1)
def s3367 (x0 : Vec F S128x216 .f32) (x1 : Vec F S128x72 .f32) : FVec F S128x16 .f32 := k0_pay796 (s527 x0 x1) (s529 x0 x1) (s531 x0 x1) (s1873 x0 x1) (s1880 x0 x1) (s1887 x0 x1) (s1894 x0 x1) (s1901 x0 x1) (s1908 x0 x1) (s1915 x0 x1) (s1922 x0 x1) (s1929 x0 x1) (s1937 x0 x1) (s1945 x0 x1) (s1953 x0 x1) (s2650 x0 x1) (s2651 x0 x1) (s3329 x0 x1) (s3330 x0 x1)
def s533 (x0 : Vec F S128x216 .f32) (x1 : Vec F S128x72 .f32) : FVec F S128 .f32 := k0_pay279 (s3 x0 x1)
def s534 (x0 : Vec F S128x216 .f32) (x1 : Vec F S128x72 .f32) : FVec F S128x1 .f32 := k0_pay280 (s3 x0 x1)
def s535 (x0 : Vec F S128x216 .f32) (x1 : Vec F S128x72 .f32) : FVec F S128 .f32 := k0_pay281 (s534 x0 x1)
def s537 (x0 : Vec F S128x216 .f32) (x1 : Vec F S128x72 .f32) : FVec F S128 .f32 := k0_pay282 (s3 x0 x1)
def s293 (x0 : Vec F S128x216 .f32) (x1 : Vec F S128x72 .f32) : FVec F S128 .f32 := k0_pay155 (s1 x0 x1)
def s299 (x0 : Vec F S128x216 .f32) (x1 : Vec F S128x72 .f32) : FVec F S128 .f32 := k0_pay159 (s1 x0 x1)
def s305 (x0 : Vec F S128x216 .f32) (x1 : Vec F S128x72 .f32) : FVec F S128 .f32 := k0_pay162 (s1 x0 x1)
def s1960 (x0 : Vec F S128x216 .f32) (x1 : Vec F S128x72 .f32) : FVec F S128 .f32 := k0_pay581 (s293 x0 x1) (s299 x0 x1) (s305 x0 x1) (s1699 x0 x1) (s1706 x0 x1) (s1713 x0 x1)
def s294 (x0 : Vec F S128x216 .f32) (x1 : Vec F S128x72 .f32) : FVec F S128x1 .f32 := k0_pay156 (s1 x0 x1)
def s295 (x0 : Vec F S128x216 .f32) (x1 : Vec F S128x72 .f32) : FVec F S128 .f32 := k0_pay157 (s294 x0 x1)
def s301 (x0 : Vec F S128x216 .f32) (x1 : Vec F S128x72 .f32) : FVec F S128 .f32 := k0_pay160 (s1 x0 x1)
def s307 (x0 : Vec F S128x216 .f32) (x1 : Vec F S128x72 .f32) : FVec F S128 .f32 := k0_pay163 (s1 x0 x1)
def s1967 (x0 : Vec F S128x216 .f32) (x1 : Vec F S128x72 .f32) : FVec F S128 .f32 := k0_pay582 (s295 x0 x1) (s301 x0 x1) (s307 x0 x1) (s1699 x0 x1) (s1706 x0 x1) (s1713 x0 x1)
def s309 (x0 : Vec F S128x216 .f32) (x1 : Vec F S128x72 .f32) : FVec F S128 .f32 := k0_pay164 (s1 x0 x1)
def s297 (x0 : Vec F S128x216 .f32) (x1 : Vec F S128x72 .f32) : FVec F S128 .f32 := k0_pay158 (s1 x0 x1)
def s1970 (x0 : Vec F S128x216 .f32) (x1 : Vec F S128x72 .f32) : FVec F S128 .f32 := k0_pay583 (s297 x0 x1) (s1699 x0 x1)
def s303 (x0 : Vec F S128x216 .f32) (x1 : Vec F S128x72 .f32) : FVec F S128 .f32 := k0_pay161 (s1 x0 x1)
def s1971 (x0 : Vec F S128x216 .f32) (x1 : Vec F S128x72 .f32) : FVec F S128 .f32 := k0_pay584 (s303 x0 x1) (s1706 x0 x1)
def s1974 (x0 : Vec F S128x216 .f32) (x1 : Vec F S128x72 .f32) : FVec F S128 .f32 := k0_pay585 (s309 x0 x1) (s1713 x0 x1) (s1970 x0 x1) (s1971 x0 x1)
def s1981 (x0 : Vec F S128x216 .f32) (x1 : Vec F S128x72 .f32) : FVec F S128 .f32 := k0_pay586 (s293 x0 x1) (s299 x0 x1) (s305 x0 x1) (s1720 x0 x1) (s1727 x0 x1) (s1734 x0 x1)
def s1988 (x0 : Vec F S128x216 .f32) (x1 : Vec F S128x72 .f32) : FVec F S128 .f32 := k0_pay587 (s295 x0 x1) (s301 x0 x1) (s307 x0 x1) (s1720 x0 x1) (s1727 x0 x1) (s1734 x0 x1)
def s1995 (x0 : Vec F S128x216 .f32) (x1 : Vec F S128x72 .f32) : FVec F S128 .f32 := k0_pay588 (s297 x0 x1) (s303 x0 x1) (s309 x0 x1) (s1720 x0 x1) (s1727 x0 x1) (s1734 x0 x1)
def s2002 (x0 : Vec F S128x216 .f32) (x1 : Vec F S128x72 .f32) : FVec F S128 .f32 := k0_pay589 (s293 x0 x1) (s299 x0 x1) (s305 x0 x1) (s1741 x0 x1) (s1748 x0 x1) (s1755 x0 x1)
def s2009 (x0 : Vec F S128x216 .f32) (x1 : Vec F S128x72 .f32) : FVec F S128 .f32 := k0_pay590 (s295 x0 x1) (s301 x0 x1) (s307 x0 x1) (s1741 x0 x1) (s1748 x0 x1) (s1755 x0 x1)
def s2016 (x0 : Vec F S128x216 .f32) (x1 : Vec F S128x72 .f32) : FVec F S128 .f32 := k0_pay591 (s297 x0 x1) (s303 x0 x1) (s309 x0 x1) (s1741 x0 x1) (s1748 x0 x1) (s1755 x0 x1)
def s625 (x0 : Vec F S128x216 .f32) (x1 : Vec F S128x72 .f32) : FVec F S128 .f32 := k0_pay349 (s515 x0 x1) (s533 x0 x1)
def s626 (x0 : Vec F S128x216 .f32) (x1 : Vec F S128x72 .f32) : FVec F S128 .f32 := k0_pay350 (s517 x0 x1) (s535 x0 x1)
def s627 (x0 : Vec F S128x216 .f32) (x1 : Vec F S128x72 .f32) : FVec F S128 .f32 := k0_pay351 (s519 x0 x1) (s537 x0 x1)
def s2032 (x0 : Vec F S128x216 .f32) (x1 : Vec F S128x72 .f32) : FVec F S128 .f32 := k0_pay593 (s625 x0 x1) (s626 x0 x1) (s627 x0 x1) (s1720 x0 x1) (s1727 x0 x1) (s1734 x0 x1) (s1771 x0 x1)
def s2040 (x0 : Vec F S128x216 .f32) (x1 : Vec F S128x72 .f32) : FVec F S128 .f32 := k0_pay594 (s625 x0 x1) (s626 x0 x1) (s627 x0 x1) (s1741 x0 x1) (s1748 x0 x1) (s1755 x0 x1) (s1779 x0 x1)
def s2024 (x0 : Vec F S128x216 .f32) (x1 : Vec F S128x72 .f32) : FVec F S128 .f32 := k0_pay592 (s625 x0 x1) (s626 x0 x1) (s627 x0 x1) (s1699 x0 x1) (s1706 x0 x1) (s1713 x0 x1) (s1763 x0 x1)
def s3379 (x0 : Vec F S128x216 .f32) (x1 : Vec F S128x72 .f32) : FVec F S128 .f32 := k0_pay798 (s533 x0 x1) (s535 x0 x1) (s537 x0 x1) (s1960 x0 x1) (s1967 x0 x1) (s1974 x0 x1) (s2024 x0 x1)
def s3386 (x0 : Vec F S128x216 .f32) (x1 : Vec F S128x72 .f32) : FVec F S128 .f32 := k0_pay799 (s533 x0 x1) (s535 x0 x1) (s537 x0 x1) (s1981 x0 x1) (s1988 x0 x1) (s1995 x0 x1)
def s3412 (x0 : Vec F S128x216 .f32) (x1 : Vec F S128x72 .f32) : FVec F S128x16 .f32 := k0_pay800 (s533 x0 x1) (s535 x0 x1) (s537 x0 x1) (s1960 x0 x1) (s1967 x0 x1) (s1974 x0 x1) (s1981 x0 x1) (s1988 x0 x1) (s1995 x0 x1) (s2002 x0 x1) (s2009 x0 x1) (s2016 x0 x1) (s2032 x0 x1) (s2040 x0 x1) (s2650 x0 x1) (s2651 x0 x1) (s3379 x0 x1) (s3386 x0 x1)
def s315 (x0 : Vec F S128x216 .f32) (x1 : Vec F S128x72 .f32) : FVec F S128 .f32 := k0_pay167 (s1 x0 x1)
def s321 (x0 : Vec F S128x216 .f32) (x1 : Vec F S128x72 .f32) : FVec F S128 .f32 := k0_pay170 (s1 x0 x1)
def s327 (x0 : Vec F S128x216 .f32) (x1 : Vec F S128x72 .f32) : FVec F S128 .f32 := k0_pay173 (s1 x0 x1)
def s2061 (x0 : Vec F S128x216 .f32) (x1 : Vec F S128x72 .f32) : FVec F S128 .f32 := k0_pay597 (s315 x0 x1) (s321 x0 x1) (s327 x0 x1) (s1786 x0 x1) (s1793 x0 x1) (s1800 x0 x1)
def s311 (x0 : Vec F S128x216 .f32) (x1 : Vec F S128x72 .f32) : FVec F S128 .f32 := k0_pay165 (s1 x0 x1)
def s317 (x0 : Vec F S128x216 .f32) (x1 : Vec F S128x72 .f32) : FVec F S128 .f32 := k0_pay168 (s1 x0 x1)
def s323 (x0 : Vec F S128x216 .f32) (x1 : Vec F S128x72 .f32) : FVec F S128 .f32 := k0_pay171 (s1 x0 x1)
def s2068 (x0 : Vec F S128x216 .f32) (x1 : Vec F S128x72 .f32) : FVec F S128 .f32 := k0_pay598 (s311 x0 x1) (s317 x0 x1) (s323 x0 x1) (s1807 x0 x1) (s1814 x0 x1) (s1821 x0 x1)
def s313 (x0 : Vec F S128x216 .f32) (x1 : Vec F S128x72 .f32) : FVec F S128 .f32 := k0_pay166 (s1 x0 x1)
def s319 (x0 : Vec F S128x216 .f32) (x1 : Vec F S128x72 .f32) : FVec F S128 .f32 := k0_pay169 (s1 x0 x1)
def s325 (x0 : Vec F S128x216 .f32) (x1 : Vec F S128x72 .f32) : FVec F S128 .f32 := k0_pay172 (s1 x0 x1)
def s2075 (x0 : Vec F S128x216 .f32) (x1 : Vec F S128x72 .f32) : FVec F S128 .f32 := k0_pay599 (s313 x0 x1) (s319 x0 x1) (s325 x0 x1) (s1807 x0 x1) (s1814 x0 x1) (s1821 x0 x1)
def s2076 (x0 : Vec F S128x216 .f32) (x1 : Vec F S128x72 .f32) : FVec F S128 .f32 := k0_pay600 (s315 x0 x1) (s1807 x0 x1)
def s2082 (x0 : Vec F S128x216 .f32) (x1 : Vec F S128x72 .f32) : FVec F S128 .f32 := k0_pay601 (s321 x0 x1) (s327 x0 x1) (s1814 x0 x1) (s1821 x0 x1) (s2076 x0 x1) (Scalar.ofBits .f32 0x00000000#32)
def s2089 (x0 : Vec F S128x216 .f32) (x1 : Vec F S128x72 .f32) : FVec F S128 .f32 := k0_pay602 (s311 x0 x1) (s317 x0 x1) (s323 x0 x1) (s1828 x0 x1) (s1835 x0 x1) (s1842 x0 x1)
def s2096 (x0 : Vec F S128x216 .f32) (x1 : Vec F S128x72 .f32) : FVec F S128 .f32 := k0_pay603 (s313 x0 x1) (s319 x0 x1) (s325 x0 x1) (s1828 x0 x1) (s1835 x0 x1) (s1842 x0 x1)
def s2103 (x0 : Vec F S128x216 .f32) (x1 : Vec F S128x72 .f32) : FVec F S128 .f32 := k0_pay604 (s315 x0 x1) (s321 x0 x1) (s327 x0 x1) (s1828 x0 x1) (s1835 x0 x1) (s1842 x0 x1)
def s539 (x0 : Vec F S128x216 .f32) (x1 : Vec F S128x72 .f32) : FVec F S128 .f32 := k0_pay283 (s3 x0 x1)
def s541 (x0 : Vec F S128x216 .f32) (x1 : Vec F S128x72 .f32) : FVec F S128 .f32 := k0_pay284 (s3 x0 x1)
def s543 (x0 : Vec F S128x216 .f32) (x1 : Vec F S128x72 .f32) : FVec F S128 .f32 := k0_pay285 (s3 x0 x1)
def s2047 (x0 : Vec F S128x216 .f32) (x1 : Vec F S128x72 .f32) : FVec F S128 .f32 := k0_pay595 (s311 x0 x1) (s317 x0 x1) (s323 x0 x1) (s1786 x0 x1) (s1793 x0 x1) (s1800 x0 x1)
def s2054 (x0 : Vec F S128x216 .f32) (x1 : Vec F S128x72 .f32) : FVec F S128 .f32 := k0_pay596 (s313 x0 x1) (s319 x0 x1) (s325 x0 x1) (s1786 x0 x1) (s1793 x0 x1) (s1800 x0 x1)
def s628 (x0 : Vec F S128x216 .f32) (x1 : Vec F S128x72 .f32) : FVec F S128 .f32 := k0_pay352 (s521 x0 x1) (s539 x0 x1)
def s629 (x0 : Vec F S128x216 .f32) (x1 : Vec F S128x72 .f32) : FVec F S128 .f32 := k0_pay353 (s523 x0 x1) (s541 x0 x1)
def s630 (x0 : Vec F S128x216 .f32) (x1 : Vec F S128x72 .f32) : FVec F S128 .f32 := k0_pay354 (s525 x0 x1) (s543 x0 x1)
def s2111 (x0 : Vec F S128x216 .f32) (x1 : Vec F S128x72 .f32) : FVec F S128 .f32 := k0_pay605 (s628 x0 x1) (s629 x0 x1) (s630 x0 x1) (s1786 x0 x1) (s1793 x0 x1) (s1800 x0 x1) (s1850 x0 x1)
def s3424 (x0 : Vec F S128x216 .f32) (x1 : Vec F S128x72 .f32) : FVec F S128 .f32 := k0_pay802 (s539 x0 x1) (s541 x0 x1) (s543 x0 x1) (s2047 x0 x1) (s2054 x0 x1) (s2061 x0 x1) (s2111 x0 x1)
def s2119 (x0 : Vec F S128x216 .f32) (x1 : Vec F S128x72 .f32) : FVec F S128 .f32 := k0_pay606 (s628 x0 x1) (s629 x0 x1) (s630 x0 x1) (s1807 x0 x1) (s1814 x0 x1) (s1821 x0 x1) (s1858 x0 x1)
def s3432 (x0 : Vec F S128x216 .f32) (x1 : Vec F S128x72 .f32) : FVec F S128 .f32 := k0_pay803 (s539 x0 x1) (s541 x0 x1) (s543 x0 x1) (s2068 x0 x1) (s2075 x0 x1) (s2082 x0 x1) (s2119 x0 x1)
def s2127 (x0 : Vec F S128x216 .f32) (x1 : Vec F S128x72 .f32) : FVec F S128 .f32 := k0_pay607 (s628 x0 x1) (s629 x0 x1) (s630 x0 x1) (s1828 x0 x1) (s1835 x0 x1) (s1842 x0 x1) (s1866 x0 x1)
def s3440 (x0 : Vec F S128x216 .f32) (x1 : Vec F S128x72 .f32) : FVec F S128 .f32 := k0_pay804 (s539 x0 x1) (s541 x0 x1) (s543 x0 x1) (s2089 x0 x1) (s2096 x0 x1) (s2103 x0 x1) (s2127 x0 x1)
def s3441 (x0 : Vec F S128x216 .f32) (x1 : Vec F S128x72 .f32) : FVec F S128x1 .f32 := k0_pay805 (s2047 x0 x1)
def s3442 (x0 : Vec F S128x216 .f32) (x1 : Vec F S128x72 .f32) : FVec F S128x1 .f32 := k0_pay806 (s2054 x0 x1)
def s3457 (x0 : Vec F S128x216 .f32) (x1 : Vec F S128x72 .f32) : FVec F S128x16 .f32 := k0_pay807 (s2061 x0 x1) (s2068 x0 x1) (s2075 x0 x1) (s2082 x0 x1) (s2089 x0 x1) (s2096 x0 x1) (s2103 x0 x1) (s2650 x0 x1) (s2651 x0 x1) (s3424 x0 x1) (s3432 x0 x1) (s3440 x0 x1) (s3441 x0 x1) (s3442 x0 x1)
def s335 (x0 : Vec F S128x216 .f32) (x1 : Vec F S128x72 .f32) : FVec F S128 .f32 := k0_pay177 (s1 x0 x1)
def s341 (x0 : Vec F S128x216 .f32) (x1 : Vec F S128x72 .f32) : FVec F S128 .f32 := k0_pay180 (s1 x0 x1)
def s329 (x0 : Vec F S128x216 .f32) (x1 : Vec F S128x72 .f32) : FVec F S128 .f32 := k0_pay174 (s1 x0 x1)
def s2128 (x0 : Vec F S128x216 .f32) (x1 : Vec F S128x72 .f32) : FVec F S128 .f32 := k0_pay608 (s329 x0 x1) (s1960 x0 x1)
def s2129 (x0 : Vec F S128x216 .f32) (x1 : Vec F S128x72 .f32) : FVec F S128 .f32 := k0_pay609
def s2134 (x0 : Vec F S128x216 .f32) (x1 : Vec F S128x72 .f32) : FVec F S128 .f32 := k0_pay610 (s335 x0 x1) (s341 x0 x1) (s1967 x0 x1) (s1974 x0 x1) (s2128 x0 x1) (s2129 x0 x1)
def s3486 (x0 : Vec F S128x216 .f32) (x1 : Vec F S128x72 .f32) : FVec F S128x1 .f32 := k0_pay809 (s2134 x0 x1)
def s331 (x0 : Vec F S128x216 .f32) (x1 : Vec F S128x72 .f32) : FVec F S128 .f32 := k0_pay175 (s1 x0 x1)
def s337 (x0 : Vec F S128x216 .f32) (x1 : Vec F S128x72 .f32) : FVec F S128 .f32 := k0_pay178 (s1 x0 x1)
def s343 (x0 : Vec F S128x216 .f32) (x1 : Vec F S128x72 .f32) : FVec F S128 .f32 := k0_pay181 (s1 x0 x1)
def s2141 (x0 : Vec F S128x216 .f32) (x1 : Vec F S128x72 .f32) : FVec F S128 .f32 := k0_pay611 (s331 x0 x1) (s337 x0 x1) (s343 x0 x1) (s1960 x0 x1) (s1967 x0 x1) (s1974 x0 x1)
def s3487 (x0 : Vec F S128x216 .f32) (x1 : Vec F S128x72 .f32) : FVec F S128x1 .f32 := k0_pay810 (s2141 x0 x1)
def s333 (x0 : Vec F S128x216 .f32) (x1 : Vec F S128x72 .f32) : FVec F S128 .f32 := k0_pay176 (s1 x0 x1)
def s339 (x0 : Vec F S128x216 .f32) (x1 : Vec F S128x72 .f32) : FVec F S128 .f32 := k0_pay179 (s1 x0 x1)
def s345 (x0 : Vec F S128x216 .f32) (x1 : Vec F S128x72 .f32) : FVec F S128 .f32 := k0_pay182 (s1 x0 x1)
def s2148 (x0 : Vec F S128x216 .f32) (x1 : Vec F S128x72 .f32) : FVec F S128 .f32 := k0_pay612 (s333 x0 x1) (s339 x0 x1) (s345 x0 x1) (s1960 x0 x1) (s1967 x0 x1) (s1974 x0 x1)
def s3488 (x0 : Vec F S128x216 .f32) (x1 : Vec F S128x72 .f32) : FVec F S128x1 .f32 := k0_pay811 (s2148 x0 x1)
def s545 (x0 : Vec F S128x216 .f32) (x1 : Vec F S128x72 .f32) : FVec F S128 .f32 := k0_pay286 (s3 x0 x1)
def s547 (x0 : Vec F S128x216 .f32) (x1 : Vec F S128x72 .f32) : FVec F S128 .f32 := k0_pay287 (s3 x0 x1)
def s549 (x0 : Vec F S128x216 .f32) (x1 : Vec F S128x72 .f32) : FVec F S128 .f32 := k0_pay288 (s3 x0 x1)
def s631 (x0 : Vec F S128x216 .f32) (x1 : Vec F S128x72 .f32) : FVec F S128 .f32 := k0_pay355 (s533 x0 x1) (s545 x0 x1)
def s632 (x0 : Vec F S128x216 .f32) (x1 : Vec F S128x72 .f32) : FVec F S128 .f32 := k0_pay356 (s535 x0 x1) (s547 x0 x1)
def s633 (x0 : Vec F S128x216 .f32) (x1 : Vec F S128x72 .f32) : FVec F S128 .f32 := k0_pay357 (s537 x0 x1) (s549 x0 x1)
def s2198 (x0 : Vec F S128x216 .f32) (x1 : Vec F S128x72 .f32) : FVec F S128 .f32 := k0_pay621 (s631 x0 x1) (s632 x0 x1) (s633 x0 x1) (s1960 x0 x1) (s1967 x0 x1) (s1974 x0 x1) (s2024 x0 x1)
def s3489 (x0 : Vec F S128x216 .f32) (x1 : Vec F S128x72 .f32) : FVec F S128x1 .f32 := k0_pay812 (s545 x0 x1) (s547 x0 x1) (s549 x0 x1) (s2134 x0 x1) (s2141 x0 x1) (s2148 x0 x1) (s2198 x0 x1)
def s2155 (x0 : Vec F S128x216 .f32) (x1 : Vec F S128x72 .f32) : FVec F S128 .f32 := k0_pay613 (s329 x0 x1) (s335 x0 x1) (s341 x0 x1) (s1981 x0 x1) (s1988 x0 x1) (s1995 x0 x1)
def s3490 (x0 : Vec F S128x216 .f32) (x1 : Vec F S128x72 .f32) : FVec F S128x1 .f32 := k0_pay813 (s2155 x0 x1)
def s2162 (x0 : Vec F S128x216 .f32) (x1 : Vec F S128x72 .f32) : FVec F S128 .f32 := k0_pay614 (s331 x0 x1) (s337 x0 x1) (s343 x0 x1) (s1981 x0 x1) (s1988 x0 x1) (s1995 x0 x1)
def s3491 (x0 : Vec F S128x216 .f32) (x1 : Vec F S128x72 .f32) : FVec F S128x1 .f32 := k0_pay814 (s2162 x0 x1)
def s2169 (x0 : Vec F S128x216 .f32) (x1 : Vec F S128x72 .f32) : FVec F S128 .f32 := k0_pay615 (s333 x0 x1) (s339 x0 x1) (s345 x0 x1) (s1981 x0 x1) (s1988 x0 x1) (s1995 x0 x1)
def s3492 (x0 : Vec F S128x216 .f32) (x1 : Vec F S128x72 .f32) : FVec F S128x1 .f32 := k0_pay815 (s2169 x0 x1)
def s2206 (x0 : Vec F S128x216 .f32) (x1 : Vec F S128x72 .f32) : FVec F S128 .f32 := k0_pay622 (s631 x0 x1) (s632 x0 x1) (s633 x0 x1) (s1981 x0 x1) (s1988 x0 x1) (s1995 x0 x1) (s2032 x0 x1)
def s3493 (x0 : Vec F S128x216 .f32) (x1 : Vec F S128x72 .f32) : FVec F S128x1 .f32 := k0_pay816 (s545 x0 x1) (s547 x0 x1) (s549 x0 x1) (s2155 x0 x1) (s2162 x0 x1) (s2169 x0 x1) (s2206 x0 x1)
def s2176 (x0 : Vec F S128x216 .f32) (x1 : Vec F S128x72 .f32) : FVec F S128 .f32 := k0_pay616 (s329 x0 x1) (s335 x0 x1) (s341 x0 x1) (s2002 x0 x1) (s2009 x0 x1) (s2016 x0 x1)
def s3494 (x0 : Vec F S128x216 .f32) (x1 : Vec F S128x72 .f32) : FVec F S128x1 .f32 := k0_pay817 (s2176 x0 x1)
def s2181 (x0 : Vec F S128x216 .f32) (x1 : Vec F S128x72 .f32) : FVec F S128 .f32 := k0_pay617 (s331 x0 x1) (s337 x0 x1) (s2002 x0 x1) (s2009 x0 x1)
def s2182 (x0 : Vec F S128x216 .f32) (x1 : Vec F S128x72 .f32) : FVec F S128 .f32 := k0_pay618 (s343 x0 x1) (s2016 x0 x1)
def s2183 (x0 : Vec F S128x216 .f32) (x1 : Vec F S128x72 .f32) : FVec F S128 .f32 := k0_pay619 (s2181 x0 x1) (s2182 x0 x1)
def s3495 (x0 : Vec F S128x216 .f32) (x1 : Vec F S128x72 .f32) : FVec F S128x1 .f32 := k0_pay818 (s2183 x0 x1)
def s2190 (x0 : Vec F S128x216 .f32) (x1 : Vec F S128x72 .f32) : FVec F S128 .f32 := k0_pay620 (s333 x0 x1) (s339 x0 x1) (s345 x0 x1) (s2002 x0 x1) (s2009 x0 x1) (s2016 x0 x1)
def s3496 (x0 : Vec F S128x216 .f32) (x1 : Vec F S128x72 .f32) : FVec F S128x1 .f32 := k0_pay819 (s2190 x0 x1)
def s2214 (x0 : Vec F S128x216 .f32) (x1 : Vec F S128x72 .f32) : FVec F S128 .f32 := k0_pay623 (s631 x0 x1) (s632 x0 x1) (s633 x0 x1) (s2002 x0 x1) (s2009 x0 x1) (s2016 x0 x1) (s2040 x0 x1)
def s3497 (x0 : Vec F S128x216 .f32) (x1 : Vec F S128x72 .f32) : FVec F S128x1 .f32 := k0_pay820 (s545 x0 x1) (s547 x0 x1) (s549 x0 x1) (s2176 x0 x1) (s2183 x0 x1) (s2190 x0 x1) (s2214 x0 x1)
def s3498 (x0 : Vec F S128x216 .f32) (x1 : Vec F S128x72 .f32) : FVec F S128x1 .f32 := k0_pay821 (s2650 x0 x1)
def s3499 (x0 : Vec F S128x216 .f32) (x1 : Vec F S128x72 .f32) : FVec F S128x1 .f32 := k0_pay822 (s2650 x0 x1)
def s3502 (x0 : Vec F S128x216 .f32) (x1 : Vec F S128x72 .f32) : FVec F S128x16 .f32 := k0_pay823 (s2650 x0 x1) (s2651 x0 x1) (s3486 x0 x1) (s3487 x0 x1) (s3488 x0 x1) (s3489 x0 x1) (s3490 x0 x1) (s3491 x0 x1) (s3492 x0 x1) (s3493 x0 x1) (s3494 x0 x1) (s3495 x0 x1) (s3496 x0 x1) (s3497 x0 x1) (s3498 x0 x1) (s3499 x0 x1)
def s551 (x0 : Vec F S128x216 .f32) (x1 : Vec F S128x72 .f32) : FVec F S128 .f32 := k0_pay289 (s3 x0 x1)
def s553 (x0 : Vec F S128x216 .f32) (x1 : Vec F S128x72 .f32) : FVec F S128 .f32 := k0_pay290 (s3 x0 x1)
def s555 (x0 : Vec F S128x216 .f32) (x1 : Vec F S128x72 .f32) : FVec F S128 .f32 := k0_pay291 (s3 x0 x1)
def s347 (x0 : Vec F S128x216 .f32) (x1 : Vec F S128x72 .f32) : FVec F S128 .f32 := k0_pay183 (s1 x0 x1)
def s353 (x0 : Vec F S128x216 .f32) (x1 : Vec F S128x72 .f32) : FVec F S128 .f32 := k0_pay186 (s1 x0 x1)
def s359 (x0 : Vec F S128x216 .f32) (x1 : Vec F S128x72 .f32) : FVec F S128 .f32 := k0_pay190 (s1 x0 x1)
def s2221 (x0 : Vec F S128x216 .f32) (x1 : Vec F S128x72 .f32) : FVec F S128 .f32 := k0_pay624 (s347 x0 x1) (s353 x0 x1) (s359 x0 x1) (s2047 x0 x1) (s2054 x0 x1) (s2061 x0 x1)
def s349 (x0 : Vec F S128x216 .f32) (x1 : Vec F S128x72 .f32) : FVec F S128 .f32 := k0_pay184 (s1 x0 x1)
def s354 (x0 : Vec F S128x216 .f32) (x1 : Vec F S128x72 .f32) : FVec F S128x1 .f32 := k0_pay187 (s1 x0 x1)
def s355 (x0 : Vec F S128x216 .f32) (x1 : Vec F S128x72 .f32) : FVec F S128 .f32 := k0_pay188 (s354 x0 x1)
def s361 (x0 : Vec F S128x216 .f32) (x1 : Vec F S128x72 .f32) : FVec F S128 .f32 := k0_pay191 (s1 x0 x1)
def s2228 (x0 : Vec F S128x216 .f32) (x1 : Vec F S128x72 .f32) : FVec F S128 .f32 := k0_pay625 (s349 x0 x1) (s355 x0 x1) (s361 x0 x1) (s2047 x0 x1) (s2054 x0 x1) (s2061 x0 x1)
def s351 (x0 : Vec F S128x216 .f32) (x1 : Vec F S128x72 .f32) : FVec F S128 .f32 := k0_pay185 (s1 x0 x1)
def s357 (x0 : Vec F S128x216 .f32) (x1 : Vec F S128x72 .f32) : FVec F S128 .f32 := k0_pay189 (s1 x0 x1)
def s363 (x0 : Vec F S128x216 .f32) (x1 : Vec F S128x72 .f32) : FVec F S128 .f32 := k0_pay192 (s1 x0 x1)
def s2235 (x0 : Vec F S128x216 .f32) (x1 : Vec F S128x72 .f32) : FVec F S128 .f32 := k0_pay626 (s351 x0 x1) (s357 x0 x1) (s363 x0 x1) (s2047 x0 x1) (s2054 x0 x1) (s2061 x0 x1)
def s2242 (x0 : Vec F S128x216 .f32) (x1 : Vec F S128x72 .f32) : FVec F S128 .f32 := k0_pay627 (s347 x0 x1) (s353 x0 x1) (s359 x0 x1) (s2068 x0 x1) (s2075 x0 x1) (s2082 x0 x1)
def s2249 (x0 : Vec F S128x216 .f32) (x1 : Vec F S128x72 .f32) : FVec F S128 .f32 := k0_pay628 (s349 x0 x1) (s355 x0 x1) (s361 x0 x1) (s2068 x0 x1) (s2075 x0 x1) (s2082 x0 x1)
def s2256 (x0 : Vec F S128x216 .f32) (x1 : Vec F S128x72 .f32) : FVec F S128 .f32 := k0_pay629 (s351 x0 x1) (s357 x0 x1) (s363 x0 x1) (s2068 x0 x1) (s2075 x0 x1) (s2082 x0 x1)
def s2263 (x0 : Vec F S128x216 .f32) (x1 : Vec F S128x72 .f32) : FVec F S128 .f32 := k0_pay630 (s347 x0 x1) (s353 x0 x1) (s359 x0 x1) (s2089 x0 x1) (s2096 x0 x1) (s2103 x0 x1)
def s2270 (x0 : Vec F S128x216 .f32) (x1 : Vec F S128x72 .f32) : FVec F S128 .f32 := k0_pay631 (s349 x0 x1) (s355 x0 x1) (s361 x0 x1) (s2089 x0 x1) (s2096 x0 x1) (s2103 x0 x1)
def s2277 (x0 : Vec F S128x216 .f32) (x1 : Vec F S128x72 .f32) : FVec F S128 .f32 := k0_pay632 (s351 x0 x1) (s357 x0 x1) (s363 x0 x1) (s2089 x0 x1) (s2096 x0 x1) (s2103 x0 x1)
def s634 (x0 : Vec F S128x216 .f32) (x1 : Vec F S128x72 .f32) : FVec F S128 .f32 := k0_pay358 (s539 x0 x1) (s551 x0 x1)
def s635 (x0 : Vec F S128x216 .f32) (x1 : Vec F S128x72 .f32) : FVec F S128 .f32 := k0_pay359 (s541 x0 x1) (s553 x0 x1)
def s636 (x0 : Vec F S128x216 .f32) (x1 : Vec F S128x72 .f32) : FVec F S128 .f32 := k0_pay360 (s543 x0 x1) (s555 x0 x1)
def s2285 (x0 : Vec F S128x216 .f32) (x1 : Vec F S128x72 .f32) : FVec F S128 .f32 := k0_pay633 (s634 x0 x1) (s635 x0 x1) (s636 x0 x1) (s2047 x0 x1) (s2054 x0 x1) (s2061 x0 x1) (s2111 x0 x1)
def s2286 (x0 : Vec F S128x216 .f32) (x1 : Vec F S128x72 .f32) : FVec F S128 .f32 := k0_pay634 (s634 x0 x1) (s2068 x0 x1)
def s2287 (x0 : Vec F S128x216 .f32) (x1 : Vec F S128x72 .f32) : FVec F S128 .f32 := k0_pay635
def s2293 (x0 : Vec F S128x216 .f32) (x1 : Vec F S128x72 .f32) : FVec F S128 .f32 := k0_pay636 (s635 x0 x1) (s636 x0 x1) (s2075 x0 x1) (s2082 x0 x1) (s2119 x0 x1) (s2286 x0 x1) (s2287 x0 x1)
def s2301 (x0 : Vec F S128x216 .f32) (x1 : Vec F S128x72 .f32) : FVec F S128 .f32 := k0_pay637 (s634 x0 x1) (s635 x0 x1) (s636 x0 x1) (s2089 x0 x1) (s2096 x0 x1) (s2103 x0 x1) (s2127 x0 x1)
def s3547 (x0 : Vec F S128x216 .f32) (x1 : Vec F S128x72 .f32) : FVec F S128x16 .f32 := k0_pay825 (s551 x0 x1) (s553 x0 x1) (s555 x0 x1) (s2221 x0 x1) (s2228 x0 x1) (s2235 x0 x1) (s2242 x0 x1) (s2249 x0 x1) (s2256 x0 x1) (s2263 x0 x1) (s2270 x0 x1) (s2277 x0 x1) (s2285 x0 x1) (s2293 x0 x1) (s2301 x0 x1) (s2650 x0 x1) (s2651 x0 x1)
def s557 (x0 : Vec F S128x216 .f32) (x1 : Vec F S128x72 .f32) : FVec F S128 .f32 := k0_pay292 (s3 x0 x1)
def s559 (x0 : Vec F S128x216 .f32) (x1 : Vec F S128x72 .f32) : FVec F S128 .f32 := k0_pay293 (s3 x0 x1)
def s561 (x0 : Vec F S128x216 .f32) (x1 : Vec F S128x72 .f32) : FVec F S128 .f32 := k0_pay294 (s3 x0 x1)
def s365 (x0 : Vec F S128x216 .f32) (x1 : Vec F S128x72 .f32) : FVec F S128 .f32 := k0_pay193 (s1 x0 x1)
def s371 (x0 : Vec F S128x216 .f32) (x1 : Vec F S128x72 .f32) : FVec F S128 .f32 := k0_pay196 (s1 x0 x1)
def s377 (x0 : Vec F S128x216 .f32) (x1 : Vec F S128x72 .f32) : FVec F S128 .f32 := k0_pay199 (s1 x0 x1)
def s2308 (x0 : Vec F S128x216 .f32) (x1 : Vec F S128x72 .f32) : FVec F S128 .f32 := k0_pay638 (s365 x0 x1) (s371 x0 x1) (s377 x0 x1) (s2134 x0 x1) (s2141 x0 x1) (s2148 x0 x1)
def s367 (x0 : Vec F S128x216 .f32) (x1 : Vec F S128x72 .f32) : FVec F S128 .f32 := k0_pay194 (s1 x0 x1)
def s373 (x0 : Vec F S128x216 .f32) (x1 : Vec F S128x72 .f32) : FVec F S128 .f32 := k0_pay197 (s1 x0 x1)
def s379 (x0 : Vec F S128x216 .f32) (x1 : Vec F S128x72 .f32) : FVec F S128 .f32 := k0_pay200 (s1 x0 x1)
def s2315 (x0 : Vec F S128x216 .f32) (x1 : Vec F S128x72 .f32) : FVec F S128 .f32 := k0_pay639 (s367 x0 x1) (s373 x0 x1) (s379 x0 x1) (s2134 x0 x1) (s2141 x0 x1) (s2148 x0 x1)
def s369 (x0 : Vec F S128x216 .f32) (x1 : Vec F S128x72 .f32) : FVec F S128 .f32 := k0_pay195 (s1 x0 x1)
def s375 (x0 : Vec F S128x216 .f32) (x1 : Vec F S128x72 .f32) : FVec F S128 .f32 := k0_pay198 (s1 x0 x1)
def s381 (x0 : Vec F S128x216 .f32) (x1 : Vec F S128x72 .f32) : FVec F S128 .f32 := k0_pay201 (s1 x0 x1)
def s2322 (x0 : Vec F S128x216 .f32) (x1 : Vec F S128x72 .f32) : FVec F S128 .f32 := k0_pay640 (s369 x0 x1) (s375 x0 x1) (s381 x0 x1) (s2134 x0 x1) (s2141 x0 x1) (s2148 x0 x1)
def s2329 (x0 : Vec F S128x216 .f32) (x1 : Vec F S128x72 .f32) : FVec F S128 .f32 := k0_pay641 (s365 x0 x1) (s371 x0 x1) (s377 x0 x1) (s2155 x0 x1) (s2162 x0 x1) (s2169 x0 x1)
def s2336 (x0 : Vec F S128x216 .f32) (x1 : Vec F S128x72 .f32) : FVec F S128 .f32 := k0_pay642 (s367 x0 x1) (s373 x0 x1) (s379 x0 x1) (s2155 x0 x1) (s2162 x0 x1) (s2169 x0 x1)
def s2339 (x0 : Vec F S128x216 .f32) (x1 : Vec F S128x72 .f32) : FVec F S128 .f32 := k0_pay643 (s369 x0 x1) (s2155 x0 x1)
def s2340 (x0 : Vec F S128x216 .f32) (x1 : Vec F S128x72 .f32) : FVec F S128 .f32 := k0_pay644 (s375 x0 x1) (s2162 x0 x1)
def s2343 (x0 : Vec F S128x216 .f32) (x1 : Vec F S128x72 .f32) : FVec F S128 .f32 := k0_pay645 (s381 x0 x1) (s2169 x0 x1) (s2339 x0 x1) (s2340 x0 x1)
def s2350 (x0 : Vec F S128x216 .f32) (x1 : Vec F S128x72 .f32) : FVec F S128 .f32 := k0_pay646 (s365 x0 x1) (s371 x0 x1) (s377 x0 x1) (s2176 x0 x1) (s2183 x0 x1) (s2190 x0 x1)
def s2357 (x0 : Vec F S128x216 .f32) (x1 : Vec F S128x72 .f32) : FVec F S128 .f32 := k0_pay647 (s367 x0 x1) (s373 x0 x1) (s379 x0 x1) (s2176 x0 x1) (s2183 x0 x1) (s2190 x0 x1)
def s2364 (x0 : Vec F S128x216 .f32) (x1 : Vec F S128x72 .f32) : FVec F S128 .f32 := k0_pay648 (s369 x0 x1) (s375 x0 x1) (s381 x0 x1) (s2176 x0 x1) (s2183 x0 x1) (s2190 x0 x1)
def s637 (x0 : Vec F S128x216 .f32) (x1 : Vec F S128x72 .f32) : FVec F S128 .f32 := k0_pay361 (s545 x0 x1) (s557 x0 x1)
def s638 (x0 : Vec F S128x216 .f32) (x1 : Vec F S128x72 .f32) : FVec F S128 .f32 := k0_pay362 (s547 x0 x1) (s559 x0 x1)
def s639 (x0 : Vec F S128x216 .f32) (x1 : Vec F S128x72 .f32) : FVec F S128 .f32 := k0_pay363 (s549 x0 x1) (s561 x0 x1)
def s2372 (x0 : Vec F S128x216 .f32) (x1 : Vec F S128x72 .f32) : FVec F S128 .f32 := k0_pay649 (s637 x0 x1) (s638 x0 x1) (s639 x0 x1) (s2134 x0 x1) (s2141 x0 x1) (s2148 x0 x1) (s2198 x0 x1)
def s2380 (x0 : Vec F S128x216 .f32) (x1 : Vec F S128x72 .f32) : FVec F S128 .f32 := k0_pay650 (s637 x0 x1) (s638 x0 x1) (s639 x0 x1) (s2155 x0 x1) (s2162 x0 x1) (s2169 x0 x1) (s2206 x0 x1)
def s2388 (x0 : Vec F S128x216 .f32) (x1 : Vec F S128x72 .f32) : FVec F S128 .f32 := k0_pay651 (s637 x0 x1) (s638 x0 x1) (s639 x0 x1) (s2176 x0 x1) (s2183 x0 x1) (s2190 x0 x1) (s2214 x0 x1)
def s3554 (x0 : Vec F S128x216 .f32) (x1 : Vec F S128x72 .f32) : FVec F S128 .f32 := k0_pay827 (s557 x0 x1) (s2308 x0 x1)
def s3555 (x0 : Vec F S128x216 .f32) (x1 : Vec F S128x72 .f32) : FVec F S128 .f32 := k0_pay828 (s559 x0 x1) (s2315 x0 x1)
def s3592 (x0 : Vec F S128x216 .f32) (x1 : Vec F S128x72 .f32) : FVec F S128x16 .f32 := k0_pay829 (s557 x0 x1) (s559 x0 x1) (s561 x0 x1) (s2308 x0 x1) (s2315 x0 x1) (s2322 x0 x1) (s2329 x0 x1) (s2336 x0 x1) (s2343 x0 x1) (s2350 x0 x1) (s2357 x0 x1) (s2364 x0 x1) (s2372 x0 x1) (s2380 x0 x1) (s2388 x0 x1) (s2650 x0 x1) (s2651 x0 x1) (s3554 x0 x1) (s3555 x0 x1)
def s563 (x0 : Vec F S128x216 .f32) (x1 : Vec F S128x72 .f32) : FVec F S128 .f32 := k0_pay295 (s3 x0 x1)
def s565 (x0 : Vec F S128x216 .f32) (x1 : Vec F S128x72 .f32) : FVec F S128 .f32 := k0_pay296 (s3 x0 x1)
def s567 (x0 : Vec F S128x216 .f32) (x1 : Vec F S128x72 .f32) : FVec F S128 .f32 := k0_pay297 (s3 x0 x1)
def s395 (x0 : Vec F S128x216 .f32) (x1 : Vec F S128x72 .f32) : FVec F S128 .f32 := k0_pay208 (s1 x0 x1)
def s383 (x0 : Vec F S128x216 .f32) (x1 : Vec F S128x72 .f32) : FVec F S128 .f32 := k0_pay202 (s1 x0 x1)
def s389 (x0 : Vec F S128x216 .f32) (x1 : Vec F S128x72 .f32) : FVec F S128 .f32 := k0_pay205 (s1 x0 x1)
def s2393 (x0 : Vec F S128x216 .f32) (x1 : Vec F S128x72 .f32) : FVec F S128 .f32 := k0_pay652 (s383 x0 x1) (s389 x0 x1) (s2221 x0 x1) (s2228 x0 x1)
def s2395 (x0 : Vec F S128x216 .f32) (x1 : Vec F S128x72 .f32) : FVec F S128 .f32 := k0_pay653 (s395 x0 x1) (s2235 x0 x1) (s2393 x0 x1)
def s385 (x0 : Vec F S128x216 .f32) (x1 : Vec F S128x72 .f32) : FVec F S128 .f32 := k0_pay203 (s1 x0 x1)
def s391 (x0 : Vec F S128x216 .f32) (x1 : Vec F S128x72 .f32) : FVec F S128 .f32 := k0_pay206 (s1 x0 x1)
def s397 (x0 : Vec F S128x216 .f32) (x1 : Vec F S128x72 .f32) : FVec F S128 .f32 := k0_pay209 (s1 x0 x1)
def s2402 (x0 : Vec F S128x216 .f32) (x1 : Vec F S128x72 .f32) : FVec F S128 .f32 := k0_pay654 (s385 x0 x1) (s391 x0 x1) (s397 x0 x1) (s2221 x0 x1) (s2228 x0 x1) (s2235 x0 x1)
def s387 (x0 : Vec F S128x216 .f32) (x1 : Vec F S128x72 .f32) : FVec F S128 .f32 := k0_pay204 (s1 x0 x1)
def s393 (x0 : Vec F S128x216 .f32) (x1 : Vec F S128x72 .f32) : FVec F S128 .f32 := k0_pay207 (s1 x0 x1)
def s399 (x0 : Vec F S128x216 .f32) (x1 : Vec F S128x72 .f32) : FVec F S128 .f32 := k0_pay210 (s1 x0 x1)
def s2409 (x0 : Vec F S128x216 .f32) (x1 : Vec F S128x72 .f32) : FVec F S128 .f32 := k0_pay655 (s387 x0 x1) (s393 x0 x1) (s399 x0 x1) (s2221 x0 x1) (s2228 x0 x1) (s2235 x0 x1)
def s2416 (x0 : Vec F S128x216 .f32) (x1 : Vec F S128x72 .f32) : FVec F S128 .f32 := k0_pay656 (s383 x0 x1) (s389 x0 x1) (s395 x0 x1) (s2242 x0 x1) (s2249 x0 x1) (s2256 x0 x1)
def s2423 (x0 : Vec F S128x216 .f32) (x1 : Vec F S128x72 .f32) : FVec F S128 .f32 := k0_pay657 (s385 x0 x1) (s391 x0 x1) (s397 x0 x1) (s2242 x0 x1) (s2249 x0 x1) (s2256 x0 x1)
def s2430 (x0 : Vec F S128x216 .f32) (x1 : Vec F S128x72 .f32) : FVec F S128 .f32 := k0_pay658 (s387 x0 x1) (s393 x0 x1) (s399 x0 x1) (s2242 x0 x1) (s2249 x0 x1) (s2256 x0 x1)
def s2437 (x0 : Vec F S128x216 .f32) (x1 : Vec F S128x72 .f32) : FVec F S128 .f32 := k0_pay659 (s383 x0 x1) (s389 x0 x1) (s395 x0 x1) (s2263 x0 x1) (s2270 x0 x1) (s2277 x0 x1)
def s2444 (x0 : Vec F S128x216 .f32) (x1 : Vec F S128x72 .f32) : FVec F S128 .f32 := k0_pay660 (s385 x0 x1) (s391 x0 x1) (s397 x0 x1) (s2263 x0 x1) (s2270 x0 x1) (s2277 x0 x1)
def s2445 (x0 : Vec F S128x216 .f32) (x1 : Vec F S128x72 .f32) : FVec F S128 .f32 := k0_pay661 (s387 x0 x1) (s2263 x0 x1)
def s2451 (x0 : Vec F S128x216 .f32) (x1 : Vec F S128x72 .f32) : FVec F S128 .f32 := k0_pay662 (s393 x0 x1) (s399 x0 x1) (s2270 x0 x1) (s2277 x0 x1) (s2445 x0 x1) (Scalar.ofBits .f32 0x00000000#32)
def s640 (x0 : Vec F S128x216 .f32) (x1 : Vec F S128x72 .f32) : FVec F S128 .f32 := k0_pay364 (s551 x0 x1) (s563 x0 x1)
def s641 (x0 : Vec F S128x216 .f32) (x1 : Vec F S128x72 .f32) : FVec F S128 .f32 := k0_pay365 (s553 x0 x1) (s565 x0 x1)
def s642 (x0 : Vec F S128x216 .f32) (x1 : Vec F S128x72 .f32) : FVec F S128 .f32 := k0_pay366 (s555 x0 x1) (s567 x0 x1)
def s2467 (x0 : Vec F S128x216 .f32) (x1 : Vec F S128x72 .f32) : FVec F S128 .f32 := k0_pay664 (s640 x0 x1) (s641 x0 x1) (s642 x0 x1) (s2242 x0 x1) (s2249 x0 x1) (s2256 x0 x1) (s2293 x0 x1)
def s2475 (x0 : Vec F S128x216 .f32) (x1 : Vec F S128x72 .f32) : FVec F S128 .f32 := k0_pay665 (s640 x0 x1) (s641 x0 x1) (s642 x0 x1) (s2263 x0 x1) (s2270 x0 x1) (s2277 x0 x1) (s2301 x0 x1)
def s2459 (x0 : Vec F S128x216 .f32) (x1 : Vec F S128x72 .f32) : FVec F S128 .f32 := k0_pay663 (s640 x0 x1) (s641 x0 x1) (s642 x0 x1) (s2221 x0 x1) (s2228 x0 x1) (s2235 x0 x1) (s2285 x0 x1)
def s3604 (x0 : Vec F S128x216 .f32) (x1 : Vec F S128x72 .f32) : FVec F S128 .f32 := k0_pay831 (s563 x0 x1) (s565 x0 x1) (s567 x0 x1) (s2395 x0 x1) (s2402 x0 x1) (s2409 x0 x1) (s2459 x0 x1)
def s3611 (x0 : Vec F S128x216 .f32) (x1 : Vec F S128x72 .f32) : FVec F S128 .f32 := k0_pay832 (s563 x0 x1) (s565 x0 x1) (s567 x0 x1) (s2416 x0 x1) (s2423 x0 x1) (s2430 x0 x1)
def s3637 (x0 : Vec F S128x216 .f32) (x1 : Vec F S128x72 .f32) : FVec F S128x16 .f32 := k0_pay833 (s563 x0 x1) (s565 x0 x1) (s567 x0 x1) (s2395 x0 x1) (s2402 x0 x1) (s2409 x0 x1) (s2416 x0 x1) (s2423 x0 x1) (s2430 x0 x1) (s2437 x0 x1) (s2444 x0 x1) (s2451 x0 x1) (s2467 x0 x1) (s2475 x0 x1) (s2650 x0 x1) (s2651 x0 x1) (s3604 x0 x1) (s3611 x0 x1)
def s405 (x0 : Vec F S128x216 .f32) (x1 : Vec F S128x72 .f32) : FVec F S128 .f32 := k0_pay213 (s1 x0 x1)
def s411 (x0 : Vec F S128x216 .f32) (x1 : Vec F S128x72 .f32) : FVec F S128 .f32 := k0_pay216 (s1 x0 x1)
def s417 (x0 : Vec F S128x216 .f32) (x1 : Vec F S128x72 .f32) : FVec F S128 .f32 := k0_pay220 (s1 x0 x1)
def s2496 (x0 : Vec F S128x216 .f32) (x1 : Vec F S128x72 .f32) : FVec F S128 .f32 := k0_pay668 (s405 x0 x1) (s411 x0 x1) (s417 x0 x1) (s2308 x0 x1) (s2315 x0 x1) (s2322 x0 x1)
def s407 (x0 : Vec F S128x216 .f32) (x1 : Vec F S128x72 .f32) : FVec F S128 .f32 := k0_pay214 (s1 x0 x1)
def s413 (x0 : Vec F S128x216 .f32) (x1 : Vec F S128x72 .f32) : FVec F S128 .f32 := k0_pay217 (s1 x0 x1)
def s401 (x0 : Vec F S128x216 .f32) (x1 : Vec F S128x72 .f32) : FVec F S128 .f32 := k0_pay211 (s1 x0 x1)
def s2497 (x0 : Vec F S128x216 .f32) (x1 : Vec F S128x72 .f32) : FVec F S128 .f32 := k0_pay669 (s401 x0 x1) (s2329 x0 x1)
def s2498 (x0 : Vec F S128x216 .f32) (x1 : Vec F S128x72 .f32) : FVec F S128 .f32 := k0_pay670
def s2503 (x0 : Vec F S128x216 .f32) (x1 : Vec F S128x72 .f32) : FVec F S128 .f32 := k0_pay671 (s407 x0 x1) (s413 x0 x1) (s2336 x0 x1) (s2343 x0 x1) (s2497 x0 x1) (s2498 x0 x1)
def s403 (x0 : Vec F S128x216 .f32) (x1 : Vec F S128x72 .f32) : FVec F S128 .f32 := k0_pay212 (s1 x0 x1)
def s409 (x0 : Vec F S128x216 .f32) (x1 : Vec F S128x72 .f32) : FVec F S128 .f32 := k0_pay215 (s1 x0 x1)
def s414 (x0 : Vec F S128x216 .f32) (x1 : Vec F S128x72 .f32) : FVec F S128x1 .f32 := k0_pay218 (s1 x0 x1)
def s415 (x0 : Vec F S128x216 .f32) (x1 : Vec F S128x72 .f32) : FVec F S128 .f32 := k0_pay219 (s414 x0 x1)
def s2510 (x0 : Vec F S128x216 .f32) (x1 : Vec F S128x72 .f32) : FVec F S128 .f32 := k0_pay672 (s403 x0 x1) (s409 x0 x1) (s415 x0 x1) (s2329 x0 x1) (s2336 x0 x1) (s2343 x0 x1)
def s2517 (x0 : Vec F S128x216 .f32) (x1 : Vec F S128x72 .f32) : FVec F S128 .f32 := k0_pay673 (s405 x0 x1) (s411 x0 x1) (s417 x0 x1) (s2329 x0 x1) (s2336 x0 x1) (s2343 x0 x1)
def s2524 (x0 : Vec F S128x216 .f32) (x1 : Vec F S128x72 .f32) : FVec F S128 .f32 := k0_pay674 (s401 x0 x1) (s407 x0 x1) (s413 x0 x1) (s2350 x0 x1) (s2357 x0 x1) (s2364 x0 x1)
def s2531 (x0 : Vec F S128x216 .f32) (x1 : Vec F S128x72 .f32) : FVec F S128 .f32 := k0_pay675 (s403 x0 x1) (s409 x0 x1) (s415 x0 x1) (s2350 x0 x1) (s2357 x0 x1) (s2364 x0 x1)
def s2538 (x0 : Vec F S128x216 .f32) (x1 : Vec F S128x72 .f32) : FVec F S128 .f32 := k0_pay676 (s405 x0 x1) (s411 x0 x1) (s417 x0 x1) (s2350 x0 x1) (s2357 x0 x1) (s2364 x0 x1)
def s569 (x0 : Vec F S128x216 .f32) (x1 : Vec F S128x72 .f32) : FVec F S128 .f32 := k0_pay298 (s3 x0 x1)
def s571 (x0 : Vec F S128x216 .f32) (x1 : Vec F S128x72 .f32) : FVec F S128 .f32 := k0_pay299 (s3 x0 x1)
def s573 (x0 : Vec F S128x216 .f32) (x1 : Vec F S128x72 .f32) : FVec F S128 .f32 := k0_pay300 (s3 x0 x1)
def s2482 (x0 : Vec F S128x216 .f32) (x1 : Vec F S128x72 .f32) : FVec F S128 .f32 := k0_pay666 (s401 x0 x1) (s407 x0 x1) (s413 x0 x1) (s2308 x0 x1) (s2315 x0 x1) (s2322 x0 x1)
def s2489 (x0 : Vec F S128x216 .f32) (x1 : Vec F S128x72 .f32) : FVec F S128 .f32 := k0_pay667 (s403 x0 x1) (s409 x0 x1) (s415 x0 x1) (s2308 x0 x1) (s2315 x0 x1) (s2322 x0 x1)
def s643 (x0 : Vec F S128x216 .f32) (x1 : Vec F S128x72 .f32) : FVec F S128 .f32 := k0_pay367 (s557 x0 x1) (s569 x0 x1)
def s644 (x0 : Vec F S128x216 .f32) (x1 : Vec F S128x72 .f32) : FVec F S128 .f32 := k0_pay368 (s559 x0 x1) (s571 x0 x1)
def s645 (x0 : Vec F S128x216 .f32) (x1 : Vec F S128x72 .f32) : FVec F S128 .f32 := k0_pay369 (s561 x0 x1) (s573 x0 x1)
def s2546 (x0 : Vec F S128x216 .f32) (x1 : Vec F S128x72 .f32) : FVec F S128 .f32 := k0_pay677 (s643 x0 x1) (s644 x0 x1) (s645 x0 x1) (s2308 x0 x1) (s2315 x0 x1) (s2322 x0 x1) (s2372 x0 x1)
def s3649 (x0 : Vec F S128x216 .f32) (x1 : Vec F S128x72 .f32) : FVec F S128 .f32 := k0_pay835 (s569 x0 x1) (s571 x0 x1) (s573 x0 x1) (s2482 x0 x1) (s2489 x0 x1) (s2496 x0 x1) (s2546 x0 x1)
def s2551 (x0 : Vec F S128x216 .f32) (x1 : Vec F S128x72 .f32) : FVec F S128 .f32 := k0_pay678 (s643 x0 x1) (s644 x0 x1) (s2329 x0 x1) (s2336 x0 x1)
def s2554 (x0 : Vec F S128x216 .f32) (x1 : Vec F S128x72 .f32) : FVec F S128 .f32 := k0_pay679 (s645 x0 x1) (s2343 x0 x1) (s2380 x0 x1) (s2551 x0 x1)
def s3657 (x0 : Vec F S128x216 .f32) (x1 : Vec F S128x72 .f32) : FVec F S128 .f32 := k0_pay836 (s569 x0 x1) (s571 x0 x1) (s573 x0 x1) (s2503 x0 x1) (s2510 x0 x1) (s2517 x0 x1) (s2554 x0 x1)
def s2562 (x0 : Vec F S128x216 .f32) (x1 : Vec F S128x72 .f32) : FVec F S128 .f32 := k0_pay680 (s643 x0 x1) (s644 x0 x1) (s645 x0 x1) (s2350 x0 x1) (s2357 x0 x1) (s2364 x0 x1) (s2388 x0 x1)
def s3665 (x0 : Vec F S128x216 .f32) (x1 : Vec F S128x72 .f32) : FVec F S128 .f32 := k0_pay837 (s569 x0 x1) (s571 x0 x1) (s573 x0 x1) (s2524 x0 x1) (s2531 x0 x1) (s2538 x0 x1) (s2562 x0 x1)
def s3666 (x0 : Vec F S128x216 .f32) (x1 : Vec F S128x72 .f32) : FVec F S128x1 .f32 := k0_pay838 (s2482 x0 x1)
def s3667 (x0 : Vec F S128x216 .f32) (x1 : Vec F S128x72 .f32) : FVec F S128x1 .f32 := k0_pay839 (s2489 x0 x1)
def s3682 (x0 : Vec F S128x216 .f32) (x1 : Vec F S128x72 .f32) : FVec F S128x16 .f32 := k0_pay840 (s2496 x0 x1) (s2503 x0 x1) (s2510 x0 x1) (s2517 x0 x1) (s2524 x0 x1) (s2531 x0 x1) (s2538 x0 x1) (s2650 x0 x1) (s2651 x0 x1) (s3649 x0 x1) (s3657 x0 x1) (s3665 x0 x1) (s3666 x0 x1) (s3667 x0 x1)
def s419 (x0 : Vec F S128x216 .f32) (x1 : Vec F S128x72 .f32) : FVec F S128 .f32 := k0_pay221 (s1 x0 x1)
def s425 (x0 : Vec F S128x216 .f32) (x1 : Vec F S128x72 .f32) : FVec F S128 .f32 := k0_pay224 (s1 x0 x1)
def s431 (x0 : Vec F S128x216 .f32) (x1 : Vec F S128x72 .f32) : FVec F S128 .f32 := k0_pay227 (s1 x0 x1)
def s2569 (x0 : Vec F S128x216 .f32) (x1 : Vec F S128x72 .f32) : FVec F S128 .f32 := k0_pay681 (s419 x0 x1) (s425 x0 x1) (s431 x0 x1) (s2395 x0 x1) (s2402 x0 x1) (s2409 x0 x1)
def s3711 (x0 : Vec F S128x216 .f32) (x1 : Vec F S128x72 .f32) : FVec F S128x1 .f32 := k0_pay842 (s2569 x0 x1)
def s421 (x0 : Vec F S128x216 .f32) (x1 : Vec F S128x72 .f32) : FVec F S128 .f32 := k0_pay222 (s1 x0 x1)
def s427 (x0 : Vec F S128x216 .f32) (x1 : Vec F S128x72 .f32) : FVec F S128 .f32 := k0_pay225 (s1 x0 x1)
def s433 (x0 : Vec F S128x216 .f32) (x1 : Vec F S128x72 .f32) : FVec F S128 .f32 := k0_pay228 (s1 x0 x1)
def s2576 (x0 : Vec F S128x216 .f32) (x1 : Vec F S128x72 .f32) : FVec F S128 .f32 := k0_pay682 (s421 x0 x1) (s427 x0 x1) (s433 x0 x1) (s2395 x0 x1) (s2402 x0 x1) (s2409 x0 x1)
def s3712 (x0 : Vec F S128x216 .f32) (x1 : Vec F S128x72 .f32) : FVec F S128x1 .f32 := k0_pay843 (s2576 x0 x1)
def s423 (x0 : Vec F S128x216 .f32) (x1 : Vec F S128x72 .f32) : FVec F S128 .f32 := k0_pay223 (s1 x0 x1)
def s429 (x0 : Vec F S128x216 .f32) (x1 : Vec F S128x72 .f32) : FVec F S128 .f32 := k0_pay226 (s1 x0 x1)
def s435 (x0 : Vec F S128x216 .f32) (x1 : Vec F S128x72 .f32) : FVec F S128 .f32 := k0_pay229 (s1 x0 x1)
def s2583 (x0 : Vec F S128x216 .f32) (x1 : Vec F S128x72 .f32) : FVec F S128 .f32 := k0_pay683 (s423 x0 x1) (s429 x0 x1) (s435 x0 x1) (s2395 x0 x1) (s2402 x0 x1) (s2409 x0 x1)
def s3713 (x0 : Vec F S128x216 .f32) (x1 : Vec F S128x72 .f32) : FVec F S128x1 .f32 := k0_pay844 (s2583 x0 x1)
def s575 (x0 : Vec F S128x216 .f32) (x1 : Vec F S128x72 .f32) : FVec F S128 .f32 := k0_pay301 (s3 x0 x1)
def s577 (x0 : Vec F S128x216 .f32) (x1 : Vec F S128x72 .f32) : FVec F S128 .f32 := k0_pay302 (s3 x0 x1)
def s579 (x0 : Vec F S128x216 .f32) (x1 : Vec F S128x72 .f32) : FVec F S128 .f32 := k0_pay303 (s3 x0 x1)
def s646 (x0 : Vec F S128x216 .f32) (x1 : Vec F S128x72 .f32) : FVec F S128 .f32 := k0_pay370 (s563 x0 x1) (s575 x0 x1)
def s647 (x0 : Vec F S128x216 .f32) (x1 : Vec F S128x72 .f32) : FVec F S128 .f32 := k0_pay371 (s565 x0 x1) (s577 x0 x1)
def s648 (x0 : Vec F S128x216 .f32) (x1 : Vec F S128x72 .f32) : FVec F S128 .f32 := k0_pay372 (s567 x0 x1) (s579 x0 x1)
def s2633 (x0 : Vec F S128x216 .f32) (x1 : Vec F S128x72 .f32) : FVec F S128 .f32 := k0_pay690 (s646 x0 x1) (s647 x0 x1) (s648 x0 x1) (s2395 x0 x1) (s2402 x0 x1) (s2409 x0 x1) (s2459 x0 x1)
def s3714 (x0 : Vec F S128x216 .f32) (x1 : Vec F S128x72 .f32) : FVec F S128x1 .f32 := k0_pay845 (s575 x0 x1) (s577 x0 x1) (s579 x0 x1) (s2569 x0 x1) (s2576 x0 x1) (s2583 x0 x1) (s2633 x0 x1)
def s2590 (x0 : Vec F S128x216 .f32) (x1 : Vec F S128x72 .f32) : FVec F S128 .f32 := k0_pay684 (s419 x0 x1) (s425 x0 x1) (s431 x0 x1) (s2416 x0 x1) (s2423 x0 x1) (s2430 x0 x1)
def s3715 (x0 : Vec F S128x216 .f32) (x1 : Vec F S128x72 .f32) : FVec F S128x1 .f32 := k0_pay846 (s2590 x0 x1)
def s2597 (x0 : Vec F S128x216 .f32) (x1 : Vec F S128x72 .f32) : FVec F S128 .f32 := k0_pay685 (s421 x0 x1) (s427 x0 x1) (s433 x0 x1) (s2416 x0 x1) (s2423 x0 x1) (s2430 x0 x1)
def s3716 (x0 : Vec F S128x216 .f32) (x1 : Vec F S128x72 .f32) : FVec F S128x1 .f32 := k0_pay847 (s2597 x0 x1)
def s2604 (x0 : Vec F S128x216 .f32) (x1 : Vec F S128x72 .f32) : FVec F S128 .f32 := k0_pay686 (s423 x0 x1) (s429 x0 x1) (s435 x0 x1) (s2416 x0 x1) (s2423 x0 x1) (s2430 x0 x1)
def s3717 (x0 : Vec F S128x216 .f32) (x1 : Vec F S128x72 .f32) : FVec F S128x1 .f32 := k0_pay848 (s2604 x0 x1)
def s2641 (x0 : Vec F S128x216 .f32) (x1 : Vec F S128x72 .f32) : FVec F S128 .f32 := k0_pay691 (s646 x0 x1) (s647 x0 x1) (s648 x0 x1) (s2416 x0 x1) (s2423 x0 x1) (s2430 x0 x1) (s2467 x0 x1)
def s3718 (x0 : Vec F S128x216 .f32) (x1 : Vec F S128x72 .f32) : FVec F S128x1 .f32 := k0_pay849 (s575 x0 x1) (s577 x0 x1) (s579 x0 x1) (s2590 x0 x1) (s2597 x0 x1) (s2604 x0 x1) (s2641 x0 x1)
def s2611 (x0 : Vec F S128x216 .f32) (x1 : Vec F S128x72 .f32) : FVec F S128 .f32 := k0_pay687 (s419 x0 x1) (s425 x0 x1) (s431 x0 x1) (s2437 x0 x1) (s2444 x0 x1) (s2451 x0 x1)
def s3719 (x0 : Vec F S128x216 .f32) (x1 : Vec F S128x72 .f32) : FVec F S128x1 .f32 := k0_pay850 (s2611 x0 x1)
def s2618 (x0 : Vec F S128x216 .f32) (x1 : Vec F S128x72 .f32) : FVec F S128 .f32 := k0_pay688 (s421 x0 x1) (s427 x0 x1) (s433 x0 x1) (s2437 x0 x1) (s2444 x0 x1) (s2451 x0 x1)
def s3720 (x0 : Vec F S128x216 .f32) (x1 : Vec F S128x72 .f32) : FVec F S128x1 .f32 := k0_pay851 (s2618 x0 x1)
def s2625 (x0 : Vec F S128x216 .f32) (x1 : Vec F S128x72 .f32) : FVec F S128 .f32 := k0_pay689 (s423 x0 x1) (s429 x0 x1) (s435 x0 x1) (s2437 x0 x1) (s2444 x0 x1) (s2451 x0 x1)
def s3721 (x0 : Vec F S128x216 .f32) (x1 : Vec F S128x72 .f32) : FVec F S128x1 .f32 := k0_pay852 (s2625 x0 x1)
def s2649 (x0 : Vec F S128x216 .f32) (x1 : Vec F S128x72 .f32) : FVec F S128 .f32 := k0_pay692 (s646 x0 x1) (s647 x0 x1) (s648 x0 x1) (s2437 x0 x1) (s2444 x0 x1) (s2451 x0 x1) (s2475 x0 x1)
def s3722 (x0 : Vec F S128x216 .f32) (x1 : Vec F S128x72 .f32) : FVec F S128x1 .f32 := k0_pay853 (s575 x0 x1) (s577 x0 x1) (s579 x0 x1) (s2611 x0 x1) (s2618 x0 x1) (s2625 x0 x1) (s2649 x0 x1)
def s3723 (x0 : Vec F S128x216 .f32) (x1 : Vec F S128x72 .f32) : FVec F S128x1 .f32 := k0_pay854 (s2650 x0 x1)
def s3724 (x0 : Vec F S128x216 .f32) (x1 : Vec F S128x72 .f32) : FVec F S128x1 .f32 := k0_pay855 (s2650 x0 x1)
def s3727 (x0 : Vec F S128x216 .f32) (x1 : Vec F S128x72 .f32) : FVec F S128x16 .f32 := k0_pay1 (s2650 x0 x1) (s2651 x0 x1) (s3711 x0 x1) (s3712 x0 x1) (s3713 x0 x1) (s3714 x0 x1) (s3715 x0 x1) (s3716 x0 x1) (s3717 x0 x1) (s3718 x0 x1) (s3719 x0 x1) (s3720 x0 x1) (s3721 x0 x1) (s3722 x0 x1) (s3723 x0 x1) (s3724 x0 x1)
def s3732 (x0 : Vec F S128x216 .f32) (x1 : Vec F S128x72 .f32) : FVec F S128x384 .f32 := k0_pay3 (s2692 x0 x1) (s2737 x0 x1) (s2782 x0 x1) (s2827 x0 x1) (s2872 x0 x1) (s2917 x0 x1) (s2962 x0 x1) (s3007 x0 x1) (s3052 x0 x1) (s3097 x0 x1) (s3142 x0 x1) (s3187 x0 x1) (s3232 x0 x1) (s3277 x0 x1) (s3322 x0 x1) (s3367 x0 x1) (s3412 x0 x1) (s3457 x0 x1) (s3502 x0 x1) (s3547 x0 x1) (s3592 x0 x1) (s3637 x0 x1) (s3682 x0 x1) (s3727 x0 x1)
def s2696 (x0 : Vec F S128x216 .f32) (x1 : Vec F S128x72 .f32) : FVec F S128x3 .f32 := k0_pay698 (s437 x0 x1) (s439 x0 x1) (s441 x0 x1)
def s2741 (x0 : Vec F S128x216 .f32) (x1 : Vec F S128x72 .f32) : FVec F S128x3 .f32 := k0_pay702 (s719 x0 x1) (s727 x0 x1) (s735 x0 x1)
def s2786 (x0 : Vec F S128x216 .f32) (x1 : Vec F S128x72 .f32) : FVec F S128x3 .f32 := k0_pay709 (s806 x0 x1) (s814 x0 x1) (s822 x0 x1)
def s2831 (x0 : Vec F S128x216 .f32) (x1 : Vec F S128x72 .f32) : FVec F S128x3 .f32 := k0_pay725 (s893 x0 x1) (s901 x0 x1) (s909 x0 x1)
def s2876 (x0 : Vec F S128x216 .f32) (x1 : Vec F S128x72 .f32) : FVec F S128x3 .f32 := k0_pay727 (s980 x0 x1) (s988 x0 x1) (s996 x0 x1)
def s2921 (x0 : Vec F S128x216 .f32) (x1 : Vec F S128x72 .f32) : FVec F S128x3 .f32 := k0_pay731 (s1067 x0 x1) (s1075 x0 x1) (s1083 x0 x1)
def s2966 (x0 : Vec F S128x216 .f32) (x1 : Vec F S128x72 .f32) : FVec F S128x3 .f32 := k0_pay735 (s1154 x0 x1) (s1162 x0 x1) (s1170 x0 x1)
def s3011 (x0 : Vec F S128x216 .f32) (x1 : Vec F S128x72 .f32) : FVec F S128x3 .f32 := k0_pay742 (s1241 x0 x1) (s1249 x0 x1) (s1257 x0 x1)
def s3056 (x0 : Vec F S128x216 .f32) (x1 : Vec F S128x72 .f32) : FVec F S128x3 .f32 := k0_pay758 (s1328 x0 x1) (s1336 x0 x1) (s1344 x0 x1)
def s3101 (x0 : Vec F S128x216 .f32) (x1 : Vec F S128x72 .f32) : FVec F S128x3 .f32 := k0_pay760 (s1415 x0 x1) (s1423 x0 x1) (s1431 x0 x1)
def s3146 (x0 : Vec F S128x216 .f32) (x1 : Vec F S128x72 .f32) : FVec F S128x3 .f32 := k0_pay764 (s1502 x0 x1) (s1510 x0 x1) (s1518 x0 x1)
def s3191 (x0 : Vec F S128x216 .f32) (x1 : Vec F S128x72 .f32) : FVec F S128x3 .f32 := k0_pay768 (s1589 x0 x1) (s1597 x0 x1) (s1605 x0 x1)
def s3236 (x0 : Vec F S128x216 .f32) (x1 : Vec F S128x72 .f32) : FVec F S128x3 .f32 := k0_pay775 (s1676 x0 x1) (s1684 x0 x1) (s1692 x0 x1)
def s3281 (x0 : Vec F S128x216 .f32) (x1 : Vec F S128x72 .f32) : FVec F S128x3 .f32 := k0_pay791 (s1763 x0 x1) (s1771 x0 x1) (s1779 x0 x1)
def s3326 (x0 : Vec F S128x216 .f32) (x1 : Vec F S128x72 .f32) : FVec F S128x3 .f32 := k0_pay793 (s1850 x0 x1) (s1858 x0 x1) (s1866 x0 x1)
def s3371 (x0 : Vec F S128x216 .f32) (x1 : Vec F S128x72 .f32) : FVec F S128x3 .f32 := k0_pay797 (s1937 x0 x1) (s1945 x0 x1) (s1953 x0 x1)
def s3416 (x0 : Vec F S128x216 .f32) (x1 : Vec F S128x72 .f32) : FVec F S128x3 .f32 := k0_pay801 (s2024 x0 x1) (s2032 x0 x1) (s2040 x0 x1)
def s3461 (x0 : Vec F S128x216 .f32) (x1 : Vec F S128x72 .f32) : FVec F S128x3 .f32 := k0_pay808 (s2111 x0 x1) (s2119 x0 x1) (s2127 x0 x1)
def s3506 (x0 : Vec F S128x216 .f32) (x1 : Vec F S128x72 .f32) : FVec F S128x3 .f32 := k0_pay824 (s2198 x0 x1) (s2206 x0 x1) (s2214 x0 x1)
def s3551 (x0 : Vec F S128x216 .f32) (x1 : Vec F S128x72 .f32) : FVec F S128x3 .f32 := k0_pay826 (s2285 x0 x1) (s2293 x0 x1) (s2301 x0 x1)
def s3596 (x0 : Vec F S128x216 .f32) (x1 : Vec F S128x72 .f32) : FVec F S128x3 .f32 := k0_pay830 (s2372 x0 x1) (s2380 x0 x1) (s2388 x0 x1)
def s3641 (x0 : Vec F S128x216 .f32) (x1 : Vec F S128x72 .f32) : FVec F S128x3 .f32 := k0_pay834 (s2459 x0 x1) (s2467 x0 x1) (s2475 x0 x1)
def s3686 (x0 : Vec F S128x216 .f32) (x1 : Vec F S128x72 .f32) : FVec F S128x3 .f32 := k0_pay841 (s2546 x0 x1) (s2554 x0 x1) (s2562 x0 x1)
def s3731 (x0 : Vec F S128x216 .f32) (x1 : Vec F S128x72 .f32) : FVec F S128x3 .f32 := k0_pay2 (s2633 x0 x1) (s2641 x0 x1) (s2649 x0 x1)
def s3733 (x0 : Vec F S128x216 .f32) (x1 : Vec F S128x72 .f32) : FVec F S128x72 .f32 := k0_pay4 (s2696 x0 x1) (s2741 x0 x1) (s2786 x0 x1) (s2831 x0 x1) (s2876 x0 x1) (s2921 x0 x1) (s2966 x0 x1) (s3011 x0 x1) (s3056 x0 x1) (s3101 x0 x1) (s3146 x0 x1) (s3191 x0 x1) (s3236 x0 x1) (s3281 x0 x1) (s3326 x0 x1) (s3371 x0 x1) (s3416 x0 x1) (s3461 x0 x1) (s3506 x0 x1) (s3551 x0 x1) (s3596 x0 x1) (s3641 x0 x1) (s3686 x0 x1) (s3731 x0 x1)

end Cert.Kernel.KD

end
-- ==== Proof.KDefsI.lean ====
/- The values of the kernel body, one name each. The body loads its two input blocks whole, computes columns from them
   and stores two result blocks whole. Each value that is carried from one stretch of the body to the next is, in the
   generated skeleton, a function of the values carried before it; here every such value is named as a function of
   the two input blocks x0 [128, 216] and x1 [128, 72], each name applying the skeleton's function to the names of its
   operands, so that a value used many times is written once. s3732 is the block stored to the first result,
   s3733 the block stored to the second. -/
import proofs.«156383_j88811333747289_2_alg».proof.Proof.Gen.KernelIdeal.Skeleton
import Idealize.ShloMosaic.Lib.Pipeline.FrameBody

noncomputable section

namespace Cert.KernelIdeal.KD

open Idealize.ShloMosaic Cert.KernelIdeal Cert.KernelIdeal.Gen

variable {F : FTy → Type} [FloatOps F]

/-- The first input block as the body loads it. -/
def s0 (x0 : Vec F S128x216 .f32) (x1 : Vec F S128x72 .f32) : Vec F S128x216 .f32 :=
  View.ld x0 (Rect.unit (s := S128x216) ![0, 0] S128x216.size inb_S128x216_S128x216_0_0)
/-- The second input block as the body loads it. -/
def s2 (x0 : Vec F S128x216 .f32) (x1 : Vec F S128x72 .f32) : Vec F S128x72 .f32 :=
  View.ld x1 (Rect.unit (s := S128x72) ![0, 0] S128x72.size inb_S128x72_S128x72_0_0)
def s5 (x0 : Vec F S128x216 .f32) (x1 : Vec F S128x72 .f32) : FVec F S128 .f32 := k0_pay7 (s0 x0 x1)
def s7 (x0 : Vec F S128x216 .f32) (x1 : Vec F S128x72 .f32) : FVec F S128 .f32 := k0_pay8 (s0 x0 x1)
def s9 (x0 : Vec F S128x216 .f32) (x1 : Vec F S128x72 .f32) : FVec F S128 .f32 := k0_pay9 (s0 x0 x1)
def s11 (x0 : Vec F S128x216 .f32) (x1 : Vec F S128x72 .f32) : FVec F S128 .f32 := k0_pay10 (s0 x0 x1)
def s13 (x0 : Vec F S128x216 .f32) (x1 : Vec F S128x72 .f32) : FVec F S128 .f32 := k0_pay11 (s0 x0 x1)
def s15 (x0 : Vec F S128x216 .f32) (x1 : Vec F S128x72 .f32) : FVec F S128 .f32 := k0_pay12 (s0 x0 x1)
def s17 (x0 : Vec F S128x216 .f32) (x1 : Vec F S128x72 .f32) : FVec F S128 .f32 := k0_pay13 (s0 x0 x1)
def s19 (x0 : Vec F S128x216 .f32) (x1 : Vec F S128x72 .f32) : FVec F S128 .f32 := k0_pay14 (s0 x0 x1)
def s21 (x0 : Vec F S128x216 .f32) (x1 : Vec F S128x72 .f32) : FVec F S128 .f32 := k0_pay15 (s0 x0 x1)
def s3 (x0 : Vec F S128x216 .f32) (x1 : Vec F S128x72 .f32) : FVec F S128x72 .f32 := k0_pay6 (s2 x0 x1)
def s437 (x0 : Vec F S128x216 .f32) (x1 : Vec F S128x72 .f32) : FVec F S128 .f32 := k0_pay230 (s3 x0 x1)
def s439 (x0 : Vec F S128x216 .f32) (x1 : Vec F S128x72 .f32) : FVec F S128 .f32 := k0_pay231 (s3 x0 x1)
def s441 (x0 : Vec F S128x216 .f32) (x1 : Vec F S128x72 .f32) : FVec F S128 .f32 := k0_pay232 (s3 x0 x1)
def s2650 (x0 : Vec F S128x216 .f32) (x1 : Vec F S128x72 .f32) : FVec F S128 .f32 := k0_pay693
def s2651 (x0 : Vec F S128x216 .f32) (x1 : Vec F S128x72 .f32) : FVec F S128 .f32 := k0_pay694
def s2654 (x0 : Vec F S128x216 .f32) (x1 : Vec F S128x72 .f32) : FVec F S128 .f32 := k0_pay695 (s5 x0 x1) (s437 x0 x1)
def s2655 (x0 : Vec F S128x216 .f32) (x1 : Vec F S128x72 .f32) : FVec F S128 .f32 := k0_pay696 (s7 x0 x1) (s439 x0 x1)
def s2692 (x0 : Vec F S128x216 .f32) (x1 : Vec F S128x72 .f32) : FVec F S128x16 .f32 := k0_pay697 (s5 x0 x1) (s7 x0 x1) (s9 x0 x1) (s11 x0 x1) (s13 x0 x1) (s15 x0 x1) (s17 x0 x1) (s19 x0 x1) (s21 x0 x1) (s437 x0 x1) (s439 x0 x1) (s441 x0 x1) (s2650 x0 x1) (s2651 x0 x1) (s2654 x0 x1) (s2655 x0 x1)
def s443 (x0 : Vec F S128x216 .f32) (x1 : Vec F S128x72 .f32) : FVec F S128 .f32 := k0_pay233 (s3 x0 x1)
def s445 (x0 : Vec F S128x216 .f32) (x1 : Vec F S128x72 .f32) : FVec F S128 .f32 := k0_pay234 (s3 x0 x1)
def s447 (x0 : Vec F S128x216 .f32) (x1 : Vec F S128x72 .f32) : FVec F S128 .f32 := k0_pay235 (s3 x0 x1)
def s35 (x0 : Vec F S128x216 .f32) (x1 : Vec F S128x72 .f32) : FVec F S128 .f32 := k0_pay22 (s0 x0 x1)
def s23 (x0 : Vec F S128x216 .f32) (x1 : Vec F S128x72 .f32) : FVec F S128 .f32 := k0_pay16 (s0 x0 x1)
def s29 (x0 : Vec F S128x216 .f32) (x1 : Vec F S128x72 .f32) : FVec F S128 .f32 := k0_pay19 (s0 x0 x1)
def s653 (x0 : Vec F S128x216 .f32) (x1 : Vec F S128x72 .f32) : FVec F S128 .f32 := k0_pay373 (s5 x0 x1) (s7 x0 x1) (s23 x0 x1) (s29 x0 x1)
def s655 (x0 : Vec F S128x216 .f32) (x1 : Vec F S128x72 .f32) : FVec F S128 .f32 := k0_pay374 (s9 x0 x1) (s35 x0 x1) (s653 x0 x1)
def s25 (x0 : Vec F S128x216 .f32) (x1 : Vec F S128x72 .f32) : FVec F S128 .f32 := k0_pay17 (s0 x0 x1)
def s31 (x0 : Vec F S128x216 .f32) (x1 : Vec F S128x72 .f32) : FVec F S128 .f32 := k0_pay20 (s0 x0 x1)
def s37 (x0 : Vec F S128x216 .f32) (x1 : Vec F S128x72 .f32) : FVec F S128 .f32 := k0_pay23 (s0 x0 x1)
def s662 (x0 : Vec F S128x216 .f32) (x1 : Vec F S128x72 .f32) : FVec F S128 .f32 := k0_pay375 (s5 x0 x1) (s7 x0 x1) (s9 x0 x1) (s25 x0 x1) (s31 x0 x1) (s37 x0 x1)
def s27 (x0 : Vec F S128x216 .f32) (x1 : Vec F S128x72 .f32) : FVec F S128 .f32 := k0_pay18 (s0 x0 x1)
def s33 (x0 : Vec F S128x216 .f32) (x1 : Vec F S128x72 .f32) : FVec F S128 .f32 := k0_pay21 (s0 x0 x1)
def s39 (x0 : Vec F S128x216 .f32) (x1 : Vec F S128x72 .f32) : FVec F S128 .f32 := k0_pay24 (s0 x0 x1)
def s669 (x0 : Vec F S128x216 .f32) (x1 : Vec F S128x72 .f32) : FVec F S128 .f32 := k0_pay376 (s5 x0 x1) (s7 x0 x1) (s9 x0 x1) (s27 x0 x1) (s33 x0 x1) (s39 x0 x1)
def s676 (x0 : Vec F S128x216 .f32) (x1 : Vec F S128x72 .f32) : FVec F S128 .f32 := k0_pay377 (s11 x0 x1) (s13 x0 x1) (s15 x0 x1) (s23 x0 x1) (s29 x0 x1) (s35 x0 x1)
def s683 (x0 : Vec F S128x216 .f32) (x1 : Vec F S128x72 .f32) : FVec F S128 .f32 := k0_pay378 (s11 x0 x1) (s13 x0 x1) (s15 x0 x1) (s25 x0 x1) (s31 x0 x1) (s37 x0 x1)
def s690 (x0 : Vec F S128x216 .f32) (x1 : Vec F S128x72 .f32) : FVec F S128 .f32 := k0_pay379 (s11 x0 x1) (s13 x0 x1) (s15 x0 x1) (s27 x0 x1) (s33 x0 x1) (s39 x0 x1)
def s697 (x0 : Vec F S128x216 .f32) (x1 : Vec F S128x72 .f32) : FVec F S128 .f32 := k0_pay380 (s17 x0 x1) (s19 x0 x1) (s21 x0 x1) (s23 x0 x1) (s29 x0 x1) (s35 x0 x1)
def s704 (x0 : Vec F S128x216 .f32) (x1 : Vec F S128x72 .f32) : FVec F S128 .f32 := k0_pay381 (s17 x0 x1) (s19 x0 x1) (s21 x0 x1) (s25 x0 x1) (s31 x0 x1) (s37 x0 x1)
def s705 (x0 : Vec F S128x216 .f32) (x1 : Vec F S128x72 .f32) : FVec F S128 .f32 := k0_pay382 (s17 x0 x1) (s27 x0 x1)
def s711 (x0 : Vec F S128x216 .f32) (x1 : Vec F S128x72 .f32) : FVec F S128 .f32 := k0_pay383 (s19 x0 x1) (s21 x0 x1) (s33 x0 x1) (s39 x0 x1) (s705 x0 x1) (Scalar.ofBits .f32 0x00000000#32)
def s580 (x0 : Vec F S128x216 .f32) (x1 : Vec F S128x72 .f32) : FVec F S128 .f32 := k0_pay304 (s437 x0 x1) (s443 x0 x1)
def s581 (x0 : Vec F S128x216 .f32) (x1 : Vec F S128x72 .f32) : FVec F S128 .f32 := k0_pay305 (s439 x0 x1) (s445 x0 x1)
def s582 (x0 : Vec F S128x216 .f32) (x1 : Vec F S128x72 .f32) : FVec F S128 .f32 := k0_pay306 (s441 x0 x1) (s447 x0 x1)
def s727 (x0 : Vec F S128x216 .f32) (x1 : Vec F S128x72 .f32) : FVec F S128 .f32 := k0_pay385 (s11 x0 x1) (s13 x0 x1) (s15 x0 x1) (s439 x0 x1) (s580 x0 x1) (s581 x0 x1) (s582 x0 x1)
def s735 (x0 : Vec F S128x216 .f32) (x1 : Vec F S128x72 .f32) : FVec F S128 .f32 := k0_pay386 (s17 x0 x1) (s19 x0 x1) (s21 x0 x1) (s441 x0 x1) (s580 x0 x1) (s581 x0 x1) (s582 x0 x1)
def s719 (x0 : Vec F S128x216 .f32) (x1 : Vec F S128x72 .f32) : FVec F S128 .f32 := k0_pay384 (s5 x0 x1) (s7 x0 x1) (s9 x0 x1) (s437 x0 x1) (s580 x0 x1) (s581 x0 x1) (s582 x0 x1)
def s2704 (x0 : Vec F S128x216 .f32) (x1 : Vec F S128x72 .f32) : FVec F S128 .f32 := k0_pay699 (s443 x0 x1) (s445 x0 x1) (s447 x0 x1) (s655 x0 x1) (s662 x0 x1) (s669 x0 x1) (s719 x0 x1)
def s2711 (x0 : Vec F S128x216 .f32) (x1 : Vec F S128x72 .f32) : FVec F S128 .f32 := k0_pay700 (s443 x0 x1) (s445 x0 x1) (s447 x0 x1) (s676 x0 x1) (s683 x0 x1) (s690 x0 x1)
def s2737 (x0 : Vec F S128x216 .f32) (x1 : Vec F S128x72 .f32) : FVec F S128x16 .f32 := k0_pay701 (s443 x0 x1) (s445 x0 x1) (s447 x0 x1) (s655 x0 x1) (s662 x0 x1) (s669 x0 x1) (s676 x0 x1) (s683 x0 x1) (s690 x0 x1) (s697 x0 x1) (s704 x0 x1) (s711 x0 x1) (s727 x0 x1) (s735 x0 x1) (s2650 x0 x1) (s2651 x0 x1) (s2704 x0 x1) (s2711 x0 x1)
def s45 (x0 : Vec F S128x216 .f32) (x1 : Vec F S128x72 .f32) : FVec F S128 .f32 := k0_pay27 (s0 x0 x1)
def s51 (x0 : Vec F S128x216 .f32) (x1 : Vec F S128x72 .f32) : FVec F S128 .f32 := k0_pay30 (s0 x0 x1)
def s1 (x0 : Vec F S128x216 .f32) (x1 : Vec F S128x72 .f32) : FVec F S128x216 .f32 := k0_pay5 (s0 x0 x1)
def s57 (x0 : Vec F S128x216 .f32) (x1 : Vec F S128x72 .f32) : FVec F S128 .f32 := k0_pay34 (s1 x0 x1)
def s756 (x0 : Vec F S128x216 .f32) (x1 : Vec F S128x72 .f32) : FVec F S128 .f32 := k0_pay389 (s5 x0 x1) (s7 x0 x1) (s9 x0 x1) (s45 x0 x1) (s51 x0 x1) (s57 x0 x1)
def s47 (x0 : Vec F S128x216 .f32) (x1 : Vec F S128x72 .f32) : FVec F S128 .f32 := k0_pay28 (s0 x0 x1)
def s53 (x0 : Vec F S128x216 .f32) (x1 : Vec F S128x72 .f32) : FVec F S128 .f32 := k0_pay31 (s0 x0 x1)
def s41 (x0 : Vec F S128x216 .f32) (x1 : Vec F S128x72 .f32) : FVec F S128 .f32 := k0_pay25 (s0 x0 x1)
def s757 (x0 : Vec F S128x216 .f32) (x1 : Vec F S128x72 .f32) : FVec F S128 .f32 := k0_pay390 (s11 x0 x1) (s41 x0 x1)
def s758 (x0 : Vec F S128x216 .f32) (x1 : Vec F S128x72 .f32) : FVec F S128 .f32 := k0_pay391
def s763 (x0 : Vec F S128x216 .f32) (x1 : Vec F S128x72 .f32) : FVec F S128 .f32 := k0_pay392 (s13 x0 x1) (s15 x0 x1) (s47 x0 x1) (s53 x0 x1) (s757 x0 x1) (s758 x0 x1)
def s43 (x0 : Vec F S128x216 .f32) (x1 : Vec F S128x72 .f32) : FVec F S128 .f32 := k0_pay26 (s0 x0 x1)
def s49 (x0 : Vec F S128x216 .f32) (x1 : Vec F S128x72 .f32) : FVec F S128 .f32 := k0_pay29 (s0 x0 x1)
def s54 (x0 : Vec F S128x216 .f32) (x1 : Vec F S128x72 .f32) : FVec F S128x1 .f32 := k0_pay32 (s0 x0 x1)
def s55 (x0 : Vec F S128x216 .f32) (x1 : Vec F S128x72 .f32) : FVec F S128 .f32 := k0_pay33 (s54 x0 x1)
def s770 (x0 : Vec F S128x216 .f32) (x1 : Vec F S128x72 .f32) : FVec F S128 .f32 := k0_pay393 (s11 x0 x1) (s13 x0 x1) (s15 x0 x1) (s43 x0 x1) (s49 x0 x1) (s55 x0 x1)
def s777 (x0 : Vec F S128x216 .f32) (x1 : Vec F S128x72 .f32) : FVec F S128 .f32 := k0_pay394 (s11 x0 x1) (s13 x0 x1) (s15 x0 x1) (s45 x0 x1) (s51 x0 x1) (s57 x0 x1)
def s784 (x0 : Vec F S128x216 .f32) (x1 : Vec F S128x72 .f32) : FVec F S128 .f32 := k0_pay395 (s17 x0 x1) (s19 x0 x1) (s21 x0 x1) (s41 x0 x1) (s47 x0 x1) (s53 x0 x1)
def s791 (x0 : Vec F S128x216 .f32) (x1 : Vec F S128x72 .f32) : FVec F S128 .f32 := k0_pay396 (s17 x0 x1) (s19 x0 x1) (s21 x0 x1) (s43 x0 x1) (s49 x0 x1) (s55 x0 x1)
def s798 (x0 : Vec F S128x216 .f32) (x1 : Vec F S128x72 .f32) : FVec F S128 .f32 := k0_pay397 (s17 x0 x1) (s19 x0 x1) (s21 x0 x1) (s45 x0 x1) (s51 x0 x1) (s57 x0 x1)
def s449 (x0 : Vec F S128x216 .f32) (x1 : Vec F S128x72 .f32) : FVec F S128 .f32 := k0_pay236 (s3 x0 x1)
def s451 (x0 : Vec F S128x216 .f32) (x1 : Vec F S128x72 .f32) : FVec F S128 .f32 := k0_pay237 (s3 x0 x1)
def s453 (x0 : Vec F S128x216 .f32) (x1 : Vec F S128x72 .f32) : FVec F S128 .f32 := k0_pay238 (s3 x0 x1)
def s742 (x0 : Vec F S128x216 .f32) (x1 : Vec F S128x72 .f32) : FVec F S128 .f32 := k0_pay387 (s5 x0 x1) (s7 x0 x1) (s9 x0 x1) (s41 x0 x1) (s47 x0 x1) (s53 x0 x1)
def s749 (x0 : Vec F S128x216 .f32) (x1 : Vec F S128x72 .f32) : FVec F S128 .f32 := k0_pay388 (s5 x0 x1) (s7 x0 x1) (s9 x0 x1) (s43 x0 x1) (s49 x0 x1) (s55 x0 x1)
def s583 (x0 : Vec F S128x216 .f32) (x1 : Vec F S128x72 .f32) : FVec F S128 .f32 := k0_pay307 (s437 x0 x1) (s449 x0 x1)
def s584 (x0 : Vec F S128x216 .f32) (x1 : Vec F S128x72 .f32) : FVec F S128 .f32 := k0_pay308 (s439 x0 x1) (s451 x0 x1)
def s585 (x0 : Vec F S128x216 .f32) (x1 : Vec F S128x72 .f32) : FVec F S128 .f32 := k0_pay309 (s441 x0 x1) (s453 x0 x1)
def s806 (x0 : Vec F S128x216 .f32) (x1 : Vec F S128x72 .f32) : FVec F S128 .f32 := k0_pay398 (s5 x0 x1) (s7 x0 x1) (s9 x0 x1) (s437 x0 x1) (s583 x0 x1) (s584 x0 x1) (s585 x0 x1)
def s2749 (x0 : Vec F S128x216 .f32) (x1 : Vec F S128x72 .f32) : FVec F S128 .f32 := k0_pay703 (s449 x0 x1) (s451 x0 x1) (s453 x0 x1) (s742 x0 x1) (s749 x0 x1) (s756 x0 x1) (s806 x0 x1)
def s811 (x0 : Vec F S128x216 .f32) (x1 : Vec F S128x72 .f32) : FVec F S128 .f32 := k0_pay399 (s11 x0 x1) (s13 x0 x1) (s583 x0 x1) (s584 x0 x1)
def s814 (x0 : Vec F S128x216 .f32) (x1 : Vec F S128x72 .f32) : FVec F S128 .f32 := k0_pay400 (s15 x0 x1) (s439 x0 x1) (s585 x0 x1) (s811 x0 x1)
def s2757 (x0 : Vec F S128x216 .f32) (x1 : Vec F S128x72 .f32) : FVec F S128 .f32 := k0_pay704 (s449 x0 x1) (s451 x0 x1) (s453 x0 x1) (s763 x0 x1) (s770 x0 x1) (s777 x0 x1) (s814 x0 x1)
def s822 (x0 : Vec F S128x216 .f32) (x1 : Vec F S128x72 .f32) : FVec F S128 .f32 := k0_pay401 (s17 x0 x1) (s19 x0 x1) (s21 x0 x1) (s441 x0 x1) (s583 x0 x1) (s584 x0 x1) (s585 x0 x1)
def s2765 (x0 : Vec F S128x216 .f32) (x1 : Vec F S128x72 .f32) : FVec F S128 .f32 := k0_pay705 (s449 x0 x1) (s451 x0 x1) (s453 x0 x1) (s784 x0 x1) (s791 x0 x1) (s798 x0 x1) (s822 x0 x1)
def s2766 (x0 : Vec F S128x216 .f32) (x1 : Vec F S128x72 .f32) : FVec F S128x1 .f32 := k0_pay706 (s742 x0 x1)
def s2767 (x0 : Vec F S128x216 .f32) (x1 : Vec F S128x72 .f32) : FVec F S128x1 .f32 := k0_pay707 (s749 x0 x1)
def s2782 (x0 : Vec F S128x216 .f32) (x1 : Vec F S128x72 .f32) : FVec F S128x16 .f32 := k0_pay708 (s756 x0 x1) (s763 x0 x1) (s770 x0 x1) (s777 x0 x1) (s784 x0 x1) (s791 x0 x1) (s798 x0 x1) (s2650 x0 x1) (s2651 x0 x1) (s2749 x0 x1) (s2757 x0 x1) (s2765 x0 x1) (s2766 x0 x1) (s2767 x0 x1)
def s59 (x0 : Vec F S128x216 .f32) (x1 : Vec F S128x72 .f32) : FVec F S128 .f32 := k0_pay35 (s1 x0 x1)
def s65 (x0 : Vec F S128x216 .f32) (x1 : Vec F S128x72 .f32) : FVec F S128 .f32 := k0_pay38 (s1 x0 x1)
def s71 (x0 : Vec F S128x216 .f32) (x1 : Vec F S128x72 .f32) : FVec F S128 .f32 := k0_pay41 (s1 x0 x1)
def s829 (x0 : Vec F S128x216 .f32) (x1 : Vec F S128x72 .f32) : FVec F S128 .f32 := k0_pay402 (s5 x0 x1) (s7 x0 x1) (s9 x0 x1) (s59 x0 x1) (s65 x0 x1) (s71 x0 x1)
def s2811 (x0 : Vec F S128x216 .f32) (x1 : Vec F S128x72 .f32) : FVec F S128x1 .f32 := k0_pay710 (s829 x0 x1)
def s61 (x0 : Vec F S128x216 .f32) (x1 : Vec F S128x72 .f32) : FVec F S128 .f32 := k0_pay36 (s1 x0 x1)
def s67 (x0 : Vec F S128x216 .f32) (x1 : Vec F S128x72 .f32) : FVec F S128 .f32 := k0_pay39 (s1 x0 x1)
def s73 (x0 : Vec F S128x216 .f32) (x1 : Vec F S128x72 .f32) : FVec F S128 .f32 := k0_pay42 (s1 x0 x1)
def s836 (x0 : Vec F S128x216 .f32) (x1 : Vec F S128x72 .f32) : FVec F S128 .f32 := k0_pay403 (s5 x0 x1) (s7 x0 x1) (s9 x0 x1) (s61 x0 x1) (s67 x0 x1) (s73 x0 x1)
def s2812 (x0 : Vec F S128x216 .f32) (x1 : Vec F S128x72 .f32) : FVec F S128x1 .f32 := k0_pay711 (s836 x0 x1)
def s63 (x0 : Vec F S128x216 .f32) (x1 : Vec F S128x72 .f32) : FVec F S128 .f32 := k0_pay37 (s1 x0 x1)
def s69 (x0 : Vec F S128x216 .f32) (x1 : Vec F S128x72 .f32) : FVec F S128 .f32 := k0_pay40 (s1 x0 x1)
def s75 (x0 : Vec F S128x216 .f32) (x1 : Vec F S128x72 .f32) : FVec F S128 .f32 := k0_pay43 (s1 x0 x1)
def s843 (x0 : Vec F S128x216 .f32) (x1 : Vec F S128x72 .f32) : FVec F S128 .f32 := k0_pay404 (s5 x0 x1) (s7 x0 x1) (s9 x0 x1) (s63 x0 x1) (s69 x0 x1) (s75 x0 x1)
def s2813 (x0 : Vec F S128x216 .f32) (x1 : Vec F S128x72 .f32) : FVec F S128x1 .f32 := k0_pay712 (s843 x0 x1)
def s455 (x0 : Vec F S128x216 .f32) (x1 : Vec F S128x72 .f32) : FVec F S128 .f32 := k0_pay239 (s3 x0 x1)
def s457 (x0 : Vec F S128x216 .f32) (x1 : Vec F S128x72 .f32) : FVec F S128 .f32 := k0_pay240 (s3 x0 x1)
def s459 (x0 : Vec F S128x216 .f32) (x1 : Vec F S128x72 .f32) : FVec F S128 .f32 := k0_pay241 (s3 x0 x1)
def s586 (x0 : Vec F S128x216 .f32) (x1 : Vec F S128x72 .f32) : FVec F S128 .f32 := k0_pay310 (s437 x0 x1) (s455 x0 x1)
def s587 (x0 : Vec F S128x216 .f32) (x1 : Vec F S128x72 .f32) : FVec F S128 .f32 := k0_pay311 (s439 x0 x1) (s457 x0 x1)
def s588 (x0 : Vec F S128x216 .f32) (x1 : Vec F S128x72 .f32) : FVec F S128 .f32 := k0_pay312 (s441 x0 x1) (s459 x0 x1)
def s893 (x0 : Vec F S128x216 .f32) (x1 : Vec F S128x72 .f32) : FVec F S128 .f32 := k0_pay411 (s5 x0 x1) (s7 x0 x1) (s9 x0 x1) (s437 x0 x1) (s586 x0 x1) (s587 x0 x1) (s588 x0 x1)
def s2814 (x0 : Vec F S128x216 .f32) (x1 : Vec F S128x72 .f32) : FVec F S128x1 .f32 := k0_pay713 (s455 x0 x1) (s457 x0 x1) (s459 x0 x1) (s829 x0 x1) (s836 x0 x1) (s843 x0 x1) (s893 x0 x1)
def s850 (x0 : Vec F S128x216 .f32) (x1 : Vec F S128x72 .f32) : FVec F S128 .f32 := k0_pay405 (s11 x0 x1) (s13 x0 x1) (s15 x0 x1) (s59 x0 x1) (s65 x0 x1) (s71 x0 x1)
def s2815 (x0 : Vec F S128x216 .f32) (x1 : Vec F S128x72 .f32) : FVec F S128x1 .f32 := k0_pay714 (s850 x0 x1)
def s857 (x0 : Vec F S128x216 .f32) (x1 : Vec F S128x72 .f32) : FVec F S128 .f32 := k0_pay406 (s11 x0 x1) (s13 x0 x1) (s15 x0 x1) (s61 x0 x1) (s67 x0 x1) (s73 x0 x1)
def s2816 (x0 : Vec F S128x216 .f32) (x1 : Vec F S128x72 .f32) : FVec F S128x1 .f32 := k0_pay715 (s857 x0 x1)
def s864 (x0 : Vec F S128x216 .f32) (x1 : Vec F S128x72 .f32) : FVec F S128 .f32 := k0_pay407 (s11 x0 x1) (s13 x0 x1) (s15 x0 x1) (s63 x0 x1) (s69 x0 x1) (s75 x0 x1)
def s2817 (x0 : Vec F S128x216 .f32) (x1 : Vec F S128x72 .f32) : FVec F S128x1 .f32 := k0_pay716 (s864 x0 x1)
def s901 (x0 : Vec F S128x216 .f32) (x1 : Vec F S128x72 .f32) : FVec F S128 .f32 := k0_pay412 (s11 x0 x1) (s13 x0 x1) (s15 x0 x1) (s439 x0 x1) (s586 x0 x1) (s587 x0 x1) (s588 x0 x1)
def s2818 (x0 : Vec F S128x216 .f32) (x1 : Vec F S128x72 .f32) : FVec F S128x1 .f32 := k0_pay717 (s455 x0 x1) (s457 x0 x1) (s459 x0 x1) (s850 x0 x1) (s857 x0 x1) (s864 x0 x1) (s901 x0 x1)
def s871 (x0 : Vec F S128x216 .f32) (x1 : Vec F S128x72 .f32) : FVec F S128 .f32 := k0_pay408 (s17 x0 x1) (s19 x0 x1) (s21 x0 x1) (s59 x0 x1) (s65 x0 x1) (s71 x0 x1)
def s2819 (x0 : Vec F S128x216 .f32) (x1 : Vec F S128x72 .f32) : FVec F S128x1 .f32 := k0_pay718 (s871 x0 x1)
def s878 (x0 : Vec F S128x216 .f32) (x1 : Vec F S128x72 .f32) : FVec F S128 .f32 := k0_pay409 (s17 x0 x1) (s19 x0 x1) (s21 x0 x1) (s61 x0 x1) (s67 x0 x1) (s73 x0 x1)
def s2820 (x0 : Vec F S128x216 .f32) (x1 : Vec F S128x72 .f32) : FVec F S128x1 .f32 := k0_pay719 (s878 x0 x1)
def s885 (x0 : Vec F S128x216 .f32) (x1 : Vec F S128x72 .f32) : FVec F S128 .f32 := k0_pay410 (s17 x0 x1) (s19 x0 x1) (s21 x0 x1) (s63 x0 x1) (s69 x0 x1) (s75 x0 x1)
def s2821 (x0 : Vec F S128x216 .f32) (x1 : Vec F S128x72 .f32) : FVec F S128x1 .f32 := k0_pay720 (s885 x0 x1)
def s909 (x0 : Vec F S128x216 .f32) (x1 : Vec F S128x72 .f32) : FVec F S128 .f32 := k0_pay413 (s17 x0 x1) (s19 x0 x1) (s21 x0 x1) (s441 x0 x1) (s586 x0 x1) (s587 x0 x1) (s588 x0 x1)
def s2822 (x0 : Vec F S128x216 .f32) (x1 : Vec F S128x72 .f32) : FVec F S128x1 .f32 := k0_pay721 (s455 x0 x1) (s457 x0 x1) (s459 x0 x1) (s871 x0 x1) (s878 x0 x1) (s885 x0 x1) (s909 x0 x1)
def s2823 (x0 : Vec F S128x216 .f32) (x1 : Vec F S128x72 .f32) : FVec F S128x1 .f32 := k0_pay722 (s2650 x0 x1)
def s2824 (x0 : Vec F S128x216 .f32) (x1 : Vec F S128x72 .f32) : FVec F S128x1 .f32 := k0_pay723 (s2650 x0 x1)
def s2827 (x0 : Vec F S128x216 .f32) (x1 : Vec F S128x72 .f32) : FVec F S128x16 .f32 := k0_pay724 (s2650 x0 x1) (s2651 x0 x1) (s2811 x0 x1) (s2812 x0 x1) (s2813 x0 x1) (s2814 x0 x1) (s2815 x0 x1) (s2816 x0 x1) (s2817 x0 x1) (s2818 x0 x1) (s2819 x0 x1) (s2820 x0 x1) (s2821 x0 x1) (s2822 x0 x1) (s2823 x0 x1) (s2824 x0 x1)
def s461 (x0 : Vec F S128x216 .f32) (x1 : Vec F S128x72 .f32) : FVec F S128 .f32 := k0_pay242 (s3 x0 x1)
def s463 (x0 : Vec F S128x216 .f32) (x1 : Vec F S128x72 .f32) : FVec F S128 .f32 := k0_pay243 (s3 x0 x1)
def s465 (x0 : Vec F S128x216 .f32) (x1 : Vec F S128x72 .f32) : FVec F S128 .f32 := k0_pay244 (s3 x0 x1)
def s77 (x0 : Vec F S128x216 .f32) (x1 : Vec F S128x72 .f32) : FVec F S128 .f32 := k0_pay44 (s1 x0 x1)
def s83 (x0 : Vec F S128x216 .f32) (x1 : Vec F S128x72 .f32) : FVec F S128 .f32 := k0_pay47 (s1 x0 x1)
def s89 (x0 : Vec F S128x216 .f32) (x1 : Vec F S128x72 .f32) : FVec F S128 .f32 := k0_pay50 (s1 x0 x1)
def s916 (x0 : Vec F S128x216 .f32) (x1 : Vec F S128x72 .f32) : FVec F S128 .f32 := k0_pay414 (s77 x0 x1) (s83 x0 x1) (s89 x0 x1) (s655 x0 x1) (s662 x0 x1) (s669 x0 x1)
def s85 (x0 : Vec F S128x216 .f32) (x1 : Vec F S128x72 .f32) : FVec F S128 .f32 := k0_pay48 (s1 x0 x1)
def s91 (x0 : Vec F S128x216 .f32) (x1 : Vec F S128x72 .f32) : FVec F S128 .f32 := k0_pay51 (s1 x0 x1)
def s79 (x0 : Vec F S128x216 .f32) (x1 : Vec F S128x72 .f32) : FVec F S128 .f32 := k0_pay45 (s1 x0 x1)
def s917 (x0 : Vec F S128x216 .f32) (x1 : Vec F S128x72 .f32) : FVec F S128 .f32 := k0_pay415 (s79 x0 x1) (s655 x0 x1)
def s923 (x0 : Vec F S128x216 .f32) (x1 : Vec F S128x72 .f32) : FVec F S128 .f32 := k0_pay416 (s85 x0 x1) (s91 x0 x1) (s662 x0 x1) (s669 x0 x1) (s917 x0 x1)
def s81 (x0 : Vec F S128x216 .f32) (x1 : Vec F S128x72 .f32) : FVec F S128 .f32 := k0_pay46 (s1 x0 x1)
def s87 (x0 : Vec F S128x216 .f32) (x1 : Vec F S128x72 .f32) : FVec F S128 .f32 := k0_pay49 (s1 x0 x1)
def s93 (x0 : Vec F S128x216 .f32) (x1 : Vec F S128x72 .f32) : FVec F S128 .f32 := k0_pay52 (s1 x0 x1)
def s930 (x0 : Vec F S128x216 .f32) (x1 : Vec F S128x72 .f32) : FVec F S128 .f32 := k0_pay417 (s81 x0 x1) (s87 x0 x1) (s93 x0 x1) (s655 x0 x1) (s662 x0 x1) (s669 x0 x1)
def s937 (x0 : Vec F S128x216 .f32) (x1 : Vec F S128x72 .f32) : FVec F S128 .f32 := k0_pay418 (s77 x0 x1) (s83 x0 x1) (s89 x0 x1) (s676 x0 x1) (s683 x0 x1) (s690 x0 x1)
def s944 (x0 : Vec F S128x216 .f32) (x1 : Vec F S128x72 .f32) : FVec F S128 .f32 := k0_pay419 (s79 x0 x1) (s85 x0 x1) (s91 x0 x1) (s676 x0 x1) (s683 x0 x1) (s690 x0 x1)
def s951 (x0 : Vec F S128x216 .f32) (x1 : Vec F S128x72 .f32) : FVec F S128 .f32 := k0_pay420 (s81 x0 x1) (s87 x0 x1) (s93 x0 x1) (s676 x0 x1) (s683 x0 x1) (s690 x0 x1)
def s958 (x0 : Vec F S128x216 .f32) (x1 : Vec F S128x72 .f32) : FVec F S128 .f32 := k0_pay421 (s77 x0 x1) (s83 x0 x1) (s89 x0 x1) (s697 x0 x1) (s704 x0 x1) (s711 x0 x1)
def s965 (x0 : Vec F S128x216 .f32) (x1 : Vec F S128x72 .f32) : FVec F S128 .f32 := k0_pay422 (s79 x0 x1) (s85 x0 x1) (s91 x0 x1) (s697 x0 x1) (s704 x0 x1) (s711 x0 x1)
def s968 (x0 : Vec F S128x216 .f32) (x1 : Vec F S128x72 .f32) : FVec F S128 .f32 := k0_pay423 (s81 x0 x1) (s697 x0 x1)
def s969 (x0 : Vec F S128x216 .f32) (x1 : Vec F S128x72 .f32) : FVec F S128 .f32 := k0_pay424 (s87 x0 x1) (s704 x0 x1)
def s972 (x0 : Vec F S128x216 .f32) (x1 : Vec F S128x72 .f32) : FVec F S128 .f32 := k0_pay425 (s93 x0 x1) (s711 x0 x1) (s968 x0 x1) (s969 x0 x1)
def s589 (x0 : Vec F S128x216 .f32) (x1 : Vec F S128x72 .f32) : FVec F S128 .f32 := k0_pay313 (s443 x0 x1) (s461 x0 x1)
def s590 (x0 : Vec F S128x216 .f32) (x1 : Vec F S128x72 .f32) : FVec F S128 .f32 := k0_pay314 (s445 x0 x1) (s463 x0 x1)
def s591 (x0 : Vec F S128x216 .f32) (x1 : Vec F S128x72 .f32) : FVec F S128 .f32 := k0_pay315 (s447 x0 x1) (s465 x0 x1)
def s980 (x0 : Vec F S128x216 .f32) (x1 : Vec F S128x72 .f32) : FVec F S128 .f32 := k0_pay426 (s589 x0 x1) (s590 x0 x1) (s591 x0 x1) (s655 x0 x1) (s662 x0 x1) (s669 x0 x1) (s719 x0 x1)
def s988 (x0 : Vec F S128x216 .f32) (x1 : Vec F S128x72 .f32) : FVec F S128 .f32 := k0_pay427 (s589 x0 x1) (s590 x0 x1) (s591 x0 x1) (s676 x0 x1) (s683 x0 x1) (s690 x0 x1) (s727 x0 x1)
def s996 (x0 : Vec F S128x216 .f32) (x1 : Vec F S128x72 .f32) : FVec F S128 .f32 := k0_pay428 (s589 x0 x1) (s590 x0 x1) (s591 x0 x1) (s697 x0 x1) (s704 x0 x1) (s711 x0 x1) (s735 x0 x1)
def s2872 (x0 : Vec F S128x216 .f32) (x1 : Vec F S128x72 .f32) : FVec F S128x16 .f32 := k0_pay726 (s461 x0 x1) (s463 x0 x1) (s465 x0 x1) (s916 x0 x1) (s923 x0 x1) (s930 x0 x1) (s937 x0 x1) (s944 x0 x1) (s951 x0 x1) (s958 x0 x1) (s965 x0 x1) (s972 x0 x1) (s980 x0 x1) (s988 x0 x1) (s996 x0 x1) (s2650 x0 x1) (s2651 x0 x1)
def s467 (x0 : Vec F S128x216 .f32) (x1 : Vec F S128x72 .f32) : FVec F S128 .f32 := k0_pay245 (s3 x0 x1)
def s469 (x0 : Vec F S128x216 .f32) (x1 : Vec F S128x72 .f32) : FVec F S128 .f32 := k0_pay246 (s3 x0 x1)
def s471 (x0 : Vec F S128x216 .f32) (x1 : Vec F S128x72 .f32) : FVec F S128 .f32 := k0_pay247 (s3 x0 x1)
def s95 (x0 : Vec F S128x216 .f32) (x1 : Vec F S128x72 .f32) : FVec F S128 .f32 := k0_pay53 (s1 x0 x1)
def s101 (x0 : Vec F S128x216 .f32) (x1 : Vec F S128x72 .f32) : FVec F S128 .f32 := k0_pay56 (s1 x0 x1)
def s107 (x0 : Vec F S128x216 .f32) (x1 : Vec F S128x72 .f32) : FVec F S128 .f32 := k0_pay59 (s1 x0 x1)
def s1003 (x0 : Vec F S128x216 .f32) (x1 : Vec F S128x72 .f32) : FVec F S128 .f32 := k0_pay429 (s95 x0 x1) (s101 x0 x1) (s107 x0 x1) (s742 x0 x1) (s749 x0 x1) (s756 x0 x1)
def s97 (x0 : Vec F S128x216 .f32) (x1 : Vec F S128x72 .f32) : FVec F S128 .f32 := k0_pay54 (s1 x0 x1)
def s103 (x0 : Vec F S128x216 .f32) (x1 : Vec F S128x72 .f32) : FVec F S128 .f32 := k0_pay57 (s1 x0 x1)
def s109 (x0 : Vec F S128x216 .f32) (x1 : Vec F S128x72 .f32) : FVec F S128 .f32 := k0_pay60 (s1 x0 x1)
def s1010 (x0 : Vec F S128x216 .f32) (x1 : Vec F S128x72 .f32) : FVec F S128 .f32 := k0_pay430 (s97 x0 x1) (s103 x0 x1) (s109 x0 x1) (s742 x0 x1) (s749 x0 x1) (s756 x0 x1)
def s99 (x0 : Vec F S128x216 .f32) (x1 : Vec F S128x72 .f32) : FVec F S128 .f32 := k0_pay55 (s1 x0 x1)
def s105 (x0 : Vec F S128x216 .f32) (x1 : Vec F S128x72 .f32) : FVec F S128 .f32 := k0_pay58 (s1 x0 x1)
def s111 (x0 : Vec F S128x216 .f32) (x1 : Vec F S128x72 .f32) : FVec F S128 .f32 := k0_pay61 (s1 x0 x1)
def s1017 (x0 : Vec F S128x216 .f32) (x1 : Vec F S128x72 .f32) : FVec F S128 .f32 := k0_pay431 (s99 x0 x1) (s105 x0 x1) (s111 x0 x1) (s742 x0 x1) (s749 x0 x1) (s756 x0 x1)
def s1022 (x0 : Vec F S128x216 .f32) (x1 : Vec F S128x72 .f32) : FVec F S128 .f32 := k0_pay432 (s95 x0 x1) (s101 x0 x1) (s763 x0 x1) (s770 x0 x1)
def s1024 (x0 : Vec F S128x216 .f32) (x1 : Vec F S128x72 .f32) : FVec F S128 .f32 := k0_pay433 (s107 x0 x1) (s777 x0 x1) (s1022 x0 x1)
def s1031 (x0 : Vec F S128x216 .f32) (x1 : Vec F S128x72 .f32) : FVec F S128 .f32 := k0_pay434 (s97 x0 x1) (s103 x0 x1) (s109 x0 x1) (s763 x0 x1) (s770 x0 x1) (s777 x0 x1)
def s1038 (x0 : Vec F S128x216 .f32) (x1 : Vec F S128x72 .f32) : FVec F S128 .f32 := k0_pay435 (s99 x0 x1) (s105 x0 x1) (s111 x0 x1) (s763 x0 x1) (s770 x0 x1) (s777 x0 x1)
def s1045 (x0 : Vec F S128x216 .f32) (x1 : Vec F S128x72 .f32) : FVec F S128 .f32 := k0_pay436 (s95 x0 x1) (s101 x0 x1) (s107 x0 x1) (s784 x0 x1) (s791 x0 x1) (s798 x0 x1)
def s1052 (x0 : Vec F S128x216 .f32) (x1 : Vec F S128x72 .f32) : FVec F S128 .f32 := k0_pay437 (s97 x0 x1) (s103 x0 x1) (s109 x0 x1) (s784 x0 x1) (s791 x0 x1) (s798 x0 x1)
def s1059 (x0 : Vec F S128x216 .f32) (x1 : Vec F S128x72 .f32) : FVec F S128 .f32 := k0_pay438 (s99 x0 x1) (s105 x0 x1) (s111 x0 x1) (s784 x0 x1) (s791 x0 x1) (s798 x0 x1)
def s592 (x0 : Vec F S128x216 .f32) (x1 : Vec F S128x72 .f32) : FVec F S128 .f32 := k0_pay316 (s449 x0 x1) (s467 x0 x1)
def s593 (x0 : Vec F S128x216 .f32) (x1 : Vec F S128x72 .f32) : FVec F S128 .f32 := k0_pay317 (s451 x0 x1) (s469 x0 x1)
def s594 (x0 : Vec F S128x216 .f32) (x1 : Vec F S128x72 .f32) : FVec F S128 .f32 := k0_pay318 (s453 x0 x1) (s471 x0 x1)
def s1067 (x0 : Vec F S128x216 .f32) (x1 : Vec F S128x72 .f32) : FVec F S128 .f32 := k0_pay439 (s592 x0 x1) (s593 x0 x1) (s594 x0 x1) (s742 x0 x1) (s749 x0 x1) (s756 x0 x1) (s806 x0 x1)
def s1075 (x0 : Vec F S128x216 .f32) (x1 : Vec F S128x72 .f32) : FVec F S128 .f32 := k0_pay440 (s592 x0 x1) (s593 x0 x1) (s594 x0 x1) (s763 x0 x1) (s770 x0 x1) (s777 x0 x1) (s814 x0 x1)
def s1083 (x0 : Vec F S128x216 .f32) (x1 : Vec F S128x72 .f32) : FVec F S128 .f32 := k0_pay441 (s592 x0 x1) (s593 x0 x1) (s594 x0 x1) (s784 x0 x1) (s791 x0 x1) (s798 x0 x1) (s822 x0 x1)
def s2879 (x0 : Vec F S128x216 .f32) (x1 : Vec F S128x72 .f32) : FVec F S128 .f32 := k0_pay728 (s467 x0 x1) (s1003 x0 x1)
def s2880 (x0 : Vec F S128x216 .f32) (x1 : Vec F S128x72 .f32) : FVec F S128 .f32 := k0_pay729 (s469 x0 x1) (s1010 x0 x1)
def s2917 (x0 : Vec F S128x216 .f32) (x1 : Vec F S128x72 .f32) : FVec F S128x16 .f32 := k0_pay730 (s467 x0 x1) (s469 x0 x1) (s471 x0 x1) (s1003 x0 x1) (s1010 x0 x1) (s1017 x0 x1) (s1024 x0 x1) (s1031 x0 x1) (s1038 x0 x1) (s1045 x0 x1) (s1052 x0 x1) (s1059 x0 x1) (s1067 x0 x1) (s1075 x0 x1) (s1083 x0 x1) (s2650 x0 x1) (s2651 x0 x1) (s2879 x0 x1) (s2880 x0 x1)
def s473 (x0 : Vec F S128x216 .f32) (x1 : Vec F S128x72 .f32) : FVec F S128 .f32 := k0_pay248 (s3 x0 x1)
def s474 (x0 : Vec F S128x216 .f32) (x1 : Vec F S128x72 .f32) : FVec F S128x1 .f32 := k0_pay249 (s3 x0 x1)
def s475 (x0 : Vec F S128x216 .f32) (x1 : Vec F S128x72 .f32) : FVec F S128 .f32 := k0_pay250 (s474 x0 x1)
def s477 (x0 : Vec F S128x216 .f32) (x1 : Vec F S128x72 .f32) : FVec F S128 .f32 := k0_pay251 (s3 x0 x1)
def s113 (x0 : Vec F S128x216 .f32) (x1 : Vec F S128x72 .f32) : FVec F S128 .f32 := k0_pay62 (s1 x0 x1)
def s119 (x0 : Vec F S128x216 .f32) (x1 : Vec F S128x72 .f32) : FVec F S128 .f32 := k0_pay66 (s1 x0 x1)
def s125 (x0 : Vec F S128x216 .f32) (x1 : Vec F S128x72 .f32) : FVec F S128 .f32 := k0_pay69 (s1 x0 x1)
def s1090 (x0 : Vec F S128x216 .f32) (x1 : Vec F S128x72 .f32) : FVec F S128 .f32 := k0_pay442 (s113 x0 x1) (s119 x0 x1) (s125 x0 x1) (s829 x0 x1) (s836 x0 x1) (s843 x0 x1)
def s114 (x0 : Vec F S128x216 .f32) (x1 : Vec F S128x72 .f32) : FVec F S128x1 .f32 := k0_pay63 (s1 x0 x1)
def s115 (x0 : Vec F S128x216 .f32) (x1 : Vec F S128x72 .f32) : FVec F S128 .f32 := k0_pay64 (s114 x0 x1)
def s121 (x0 : Vec F S128x216 .f32) (x1 : Vec F S128x72 .f32) : FVec F S128 .f32 := k0_pay67 (s1 x0 x1)
def s127 (x0 : Vec F S128x216 .f32) (x1 : Vec F S128x72 .f32) : FVec F S128 .f32 := k0_pay70 (s1 x0 x1)
def s1097 (x0 : Vec F S128x216 .f32) (x1 : Vec F S128x72 .f32) : FVec F S128 .f32 := k0_pay443 (s115 x0 x1) (s121 x0 x1) (s127 x0 x1) (s829 x0 x1) (s836 x0 x1) (s843 x0 x1)
def s117 (x0 : Vec F S128x216 .f32) (x1 : Vec F S128x72 .f32) : FVec F S128 .f32 := k0_pay65 (s1 x0 x1)
def s123 (x0 : Vec F S128x216 .f32) (x1 : Vec F S128x72 .f32) : FVec F S128 .f32 := k0_pay68 (s1 x0 x1)
def s129 (x0 : Vec F S128x216 .f32) (x1 : Vec F S128x72 .f32) : FVec F S128 .f32 := k0_pay71 (s1 x0 x1)
def s1104 (x0 : Vec F S128x216 .f32) (x1 : Vec F S128x72 .f32) : FVec F S128 .f32 := k0_pay444 (s117 x0 x1) (s123 x0 x1) (s129 x0 x1) (s829 x0 x1) (s836 x0 x1) (s843 x0 x1)
def s1111 (x0 : Vec F S128x216 .f32) (x1 : Vec F S128x72 .f32) : FVec F S128 .f32 := k0_pay445 (s113 x0 x1) (s119 x0 x1) (s125 x0 x1) (s850 x0 x1) (s857 x0 x1) (s864 x0 x1)
def s1118 (x0 : Vec F S128x216 .f32) (x1 : Vec F S128x72 .f32) : FVec F S128 .f32 := k0_pay446 (s115 x0 x1) (s121 x0 x1) (s127 x0 x1) (s850 x0 x1) (s857 x0 x1) (s864 x0 x1)
def s1125 (x0 : Vec F S128x216 .f32) (x1 : Vec F S128x72 .f32) : FVec F S128 .f32 := k0_pay447 (s117 x0 x1) (s123 x0 x1) (s129 x0 x1) (s850 x0 x1) (s857 x0 x1) (s864 x0 x1)
def s1126 (x0 : Vec F S128x216 .f32) (x1 : Vec F S128x72 .f32) : FVec F S128 .f32 := k0_pay448 (s113 x0 x1) (s871 x0 x1)
def s1127 (x0 : Vec F S128x216 .f32) (x1 : Vec F S128x72 .f32) : FVec F S128 .f32 := k0_pay449
def s1132 (x0 : Vec F S128x216 .f32) (x1 : Vec F S128x72 .f32) : FVec F S128 .f32 := k0_pay450 (s119 x0 x1) (s125 x0 x1) (s878 x0 x1) (s885 x0 x1) (s1126 x0 x1) (s1127 x0 x1)
def s1139 (x0 : Vec F S128x216 .f32) (x1 : Vec F S128x72 .f32) : FVec F S128 .f32 := k0_pay451 (s115 x0 x1) (s121 x0 x1) (s127 x0 x1) (s871 x0 x1) (s878 x0 x1) (s885 x0 x1)
def s1146 (x0 : Vec F S128x216 .f32) (x1 : Vec F S128x72 .f32) : FVec F S128 .f32 := k0_pay452 (s117 x0 x1) (s123 x0 x1) (s129 x0 x1) (s871 x0 x1) (s878 x0 x1) (s885 x0 x1)
def s595 (x0 : Vec F S128x216 .f32) (x1 : Vec F S128x72 .f32) : FVec F S128 .f32 := k0_pay319 (s455 x0 x1) (s473 x0 x1)
def s596 (x0 : Vec F S128x216 .f32) (x1 : Vec F S128x72 .f32) : FVec F S128 .f32 := k0_pay320 (s457 x0 x1) (s475 x0 x1)
def s597 (x0 : Vec F S128x216 .f32) (x1 : Vec F S128x72 .f32) : FVec F S128 .f32 := k0_pay321 (s459 x0 x1) (s477 x0 x1)
def s1162 (x0 : Vec F S128x216 .f32) (x1 : Vec F S128x72 .f32) : FVec F S128 .f32 := k0_pay454 (s595 x0 x1) (s596 x0 x1) (s597 x0 x1) (s850 x0 x1) (s857 x0 x1) (s864 x0 x1) (s901 x0 x1)
def s1170 (x0 : Vec F S128x216 .f32) (x1 : Vec F S128x72 .f32) : FVec F S128 .f32 := k0_pay455 (s595 x0 x1) (s596 x0 x1) (s597 x0 x1) (s871 x0 x1) (s878 x0 x1) (s885 x0 x1) (s909 x0 x1)
def s1154 (x0 : Vec F S128x216 .f32) (x1 : Vec F S128x72 .f32) : FVec F S128 .f32 := k0_pay453 (s595 x0 x1) (s596 x0 x1) (s597 x0 x1) (s829 x0 x1) (s836 x0 x1) (s843 x0 x1) (s893 x0 x1)
def s2929 (x0 : Vec F S128x216 .f32) (x1 : Vec F S128x72 .f32) : FVec F S128 .f32 := k0_pay732 (s473 x0 x1) (s475 x0 x1) (s477 x0 x1) (s1090 x0 x1) (s1097 x0 x1) (s1104 x0 x1) (s1154 x0 x1)
def s2936 (x0 : Vec F S128x216 .f32) (x1 : Vec F S128x72 .f32) : FVec F S128 .f32 := k0_pay733 (s473 x0 x1) (s475 x0 x1) (s477 x0 x1) (s1111 x0 x1) (s1118 x0 x1) (s1125 x0 x1)
def s2962 (x0 : Vec F S128x216 .f32) (x1 : Vec F S128x72 .f32) : FVec F S128x16 .f32 := k0_pay734 (s473 x0 x1) (s475 x0 x1) (s477 x0 x1) (s1090 x0 x1) (s1097 x0 x1) (s1104 x0 x1) (s1111 x0 x1) (s1118 x0 x1) (s1125 x0 x1) (s1132 x0 x1) (s1139 x0 x1) (s1146 x0 x1) (s1162 x0 x1) (s1170 x0 x1) (s2650 x0 x1) (s2651 x0 x1) (s2929 x0 x1) (s2936 x0 x1)
def s135 (x0 : Vec F S128x216 .f32) (x1 : Vec F S128x72 .f32) : FVec F S128 .f32 := k0_pay74 (s1 x0 x1)
def s141 (x0 : Vec F S128x216 .f32) (x1 : Vec F S128x72 .f32) : FVec F S128 .f32 := k0_pay77 (s1 x0 x1)
def s147 (x0 : Vec F S128x216 .f32) (x1 : Vec F S128x72 .f32) : FVec F S128 .f32 := k0_pay80 (s1 x0 x1)
def s1191 (x0 : Vec F S128x216 .f32) (x1 : Vec F S128x72 .f32) : FVec F S128 .f32 := k0_pay459 (s135 x0 x1) (s141 x0 x1) (s147 x0 x1) (s916 x0 x1) (s923 x0 x1) (s930 x0 x1)
def s131 (x0 : Vec F S128x216 .f32) (x1 : Vec F S128x72 .f32) : FVec F S128 .f32 := k0_pay72 (s1 x0 x1)
def s137 (x0 : Vec F S128x216 .f32) (x1 : Vec F S128x72 .f32) : FVec F S128 .f32 := k0_pay75 (s1 x0 x1)
def s143 (x0 : Vec F S128x216 .f32) (x1 : Vec F S128x72 .f32) : FVec F S128 .f32 := k0_pay78 (s1 x0 x1)
def s1198 (x0 : Vec F S128x216 .f32) (x1 : Vec F S128x72 .f32) : FVec F S128 .f32 := k0_pay460 (s131 x0 x1) (s137 x0 x1) (s143 x0 x1) (s937 x0 x1) (s944 x0 x1) (s951 x0 x1)
def s133 (x0 : Vec F S128x216 .f32) (x1 : Vec F S128x72 .f32) : FVec F S128 .f32 := k0_pay73 (s1 x0 x1)
def s139 (x0 : Vec F S128x216 .f32) (x1 : Vec F S128x72 .f32) : FVec F S128 .f32 := k0_pay76 (s1 x0 x1)
def s145 (x0 : Vec F S128x216 .f32) (x1 : Vec F S128x72 .f32) : FVec F S128 .f32 := k0_pay79 (s1 x0 x1)
def s1205 (x0 : Vec F S128x216 .f32) (x1 : Vec F S128x72 .f32) : FVec F S128 .f32 := k0_pay461 (s133 x0 x1) (s139 x0 x1) (s145 x0 x1) (s937 x0 x1) (s944 x0 x1) (s951 x0 x1)
def s1212 (x0 : Vec F S128x216 .f32) (x1 : Vec F S128x72 .f32) : FVec F S128 .f32 := k0_pay462 (s135 x0 x1) (s141 x0 x1) (s147 x0 x1) (s937 x0 x1) (s944 x0 x1) (s951 x0 x1)
def s1219 (x0 : Vec F S128x216 .f32) (x1 : Vec F S128x72 .f32) : FVec F S128 .f32 := k0_pay463 (s131 x0 x1) (s137 x0 x1) (s143 x0 x1) (s958 x0 x1) (s965 x0 x1) (s972 x0 x1)
def s1226 (x0 : Vec F S128x216 .f32) (x1 : Vec F S128x72 .f32) : FVec F S128 .f32 := k0_pay464 (s133 x0 x1) (s139 x0 x1) (s145 x0 x1) (s958 x0 x1) (s965 x0 x1) (s972 x0 x1)
def s1233 (x0 : Vec F S128x216 .f32) (x1 : Vec F S128x72 .f32) : FVec F S128 .f32 := k0_pay465 (s135 x0 x1) (s141 x0 x1) (s147 x0 x1) (s958 x0 x1) (s965 x0 x1) (s972 x0 x1)
def s479 (x0 : Vec F S128x216 .f32) (x1 : Vec F S128x72 .f32) : FVec F S128 .f32 := k0_pay252 (s3 x0 x1)
def s481 (x0 : Vec F S128x216 .f32) (x1 : Vec F S128x72 .f32) : FVec F S128 .f32 := k0_pay253 (s3 x0 x1)
def s483 (x0 : Vec F S128x216 .f32) (x1 : Vec F S128x72 .f32) : FVec F S128 .f32 := k0_pay254 (s3 x0 x1)
def s1177 (x0 : Vec F S128x216 .f32) (x1 : Vec F S128x72 .f32) : FVec F S128 .f32 := k0_pay456 (s131 x0 x1) (s137 x0 x1) (s143 x0 x1) (s916 x0 x1) (s923 x0 x1) (s930 x0 x1)
def s1180 (x0 : Vec F S128x216 .f32) (x1 : Vec F S128x72 .f32) : FVec F S128 .f32 := k0_pay457 (s133 x0 x1) (s916 x0 x1)
def s1184 (x0 : Vec F S128x216 .f32) (x1 : Vec F S128x72 .f32) : FVec F S128 .f32 := k0_pay458 (s139 x0 x1) (s145 x0 x1) (s923 x0 x1) (s930 x0 x1) (s1180 x0 x1)
def s598 (x0 : Vec F S128x216 .f32) (x1 : Vec F S128x72 .f32) : FVec F S128 .f32 := k0_pay322 (s461 x0 x1) (s479 x0 x1)
def s599 (x0 : Vec F S128x216 .f32) (x1 : Vec F S128x72 .f32) : FVec F S128 .f32 := k0_pay323 (s463 x0 x1) (s481 x0 x1)
def s600 (x0 : Vec F S128x216 .f32) (x1 : Vec F S128x72 .f32) : FVec F S128 .f32 := k0_pay324 (s465 x0 x1) (s483 x0 x1)
def s1241 (x0 : Vec F S128x216 .f32) (x1 : Vec F S128x72 .f32) : FVec F S128 .f32 := k0_pay466 (s598 x0 x1) (s599 x0 x1) (s600 x0 x1) (s916 x0 x1) (s923 x0 x1) (s930 x0 x1) (s980 x0 x1)
def s2974 (x0 : Vec F S128x216 .f32) (x1 : Vec F S128x72 .f32) : FVec F S128 .f32 := k0_pay736 (s479 x0 x1) (s481 x0 x1) (s483 x0 x1) (s1177 x0 x1) (s1184 x0 x1) (s1191 x0 x1) (s1241 x0 x1)
def s1249 (x0 : Vec F S128x216 .f32) (x1 : Vec F S128x72 .f32) : FVec F S128 .f32 := k0_pay467 (s598 x0 x1) (s599 x0 x1) (s600 x0 x1) (s937 x0 x1) (s944 x0 x1) (s951 x0 x1) (s988 x0 x1)
def s2982 (x0 : Vec F S128x216 .f32) (x1 : Vec F S128x72 .f32) : FVec F S128 .f32 := k0_pay737 (s479 x0 x1) (s481 x0 x1) (s483 x0 x1) (s1198 x0 x1) (s1205 x0 x1) (s1212 x0 x1) (s1249 x0 x1)
def s1257 (x0 : Vec F S128x216 .f32) (x1 : Vec F S128x72 .f32) : FVec F S128 .f32 := k0_pay468 (s598 x0 x1) (s599 x0 x1) (s600 x0 x1) (s958 x0 x1) (s965 x0 x1) (s972 x0 x1) (s996 x0 x1)
def s2990 (x0 : Vec F S128x216 .f32) (x1 : Vec F S128x72 .f32) : FVec F S128 .f32 := k0_pay738 (s479 x0 x1) (s481 x0 x1) (s483 x0 x1) (s1219 x0 x1) (s1226 x0 x1) (s1233 x0 x1) (s1257 x0 x1)
def s2991 (x0 : Vec F S128x216 .f32) (x1 : Vec F S128x72 .f32) : FVec F S128x1 .f32 := k0_pay739 (s1177 x0 x1)
def s2992 (x0 : Vec F S128x216 .f32) (x1 : Vec F S128x72 .f32) : FVec F S128x1 .f32 := k0_pay740 (s1184 x0 x1)
def s3007 (x0 : Vec F S128x216 .f32) (x1 : Vec F S128x72 .f32) : FVec F S128x16 .f32 := k0_pay741 (s1191 x0 x1) (s1198 x0 x1) (s1205 x0 x1) (s1212 x0 x1) (s1219 x0 x1) (s1226 x0 x1) (s1233 x0 x1) (s2650 x0 x1) (s2651 x0 x1) (s2974 x0 x1) (s2982 x0 x1) (s2990 x0 x1) (s2991 x0 x1) (s2992 x0 x1)
def s149 (x0 : Vec F S128x216 .f32) (x1 : Vec F S128x72 .f32) : FVec F S128 .f32 := k0_pay81 (s1 x0 x1)
def s155 (x0 : Vec F S128x216 .f32) (x1 : Vec F S128x72 .f32) : FVec F S128 .f32 := k0_pay84 (s1 x0 x1)
def s161 (x0 : Vec F S128x216 .f32) (x1 : Vec F S128x72 .f32) : FVec F S128 .f32 := k0_pay87 (s1 x0 x1)
def s1264 (x0 : Vec F S128x216 .f32) (x1 : Vec F S128x72 .f32) : FVec F S128 .f32 := k0_pay469 (s149 x0 x1) (s155 x0 x1) (s161 x0 x1) (s1003 x0 x1) (s1010 x0 x1) (s1017 x0 x1)
def s3036 (x0 : Vec F S128x216 .f32) (x1 : Vec F S128x72 .f32) : FVec F S128x1 .f32 := k0_pay743 (s1264 x0 x1)
def s151 (x0 : Vec F S128x216 .f32) (x1 : Vec F S128x72 .f32) : FVec F S128 .f32 := k0_pay82 (s1 x0 x1)
def s157 (x0 : Vec F S128x216 .f32) (x1 : Vec F S128x72 .f32) : FVec F S128 .f32 := k0_pay85 (s1 x0 x1)
def s163 (x0 : Vec F S128x216 .f32) (x1 : Vec F S128x72 .f32) : FVec F S128 .f32 := k0_pay88 (s1 x0 x1)
def s1271 (x0 : Vec F S128x216 .f32) (x1 : Vec F S128x72 .f32) : FVec F S128 .f32 := k0_pay470 (s151 x0 x1) (s157 x0 x1) (s163 x0 x1) (s1003 x0 x1) (s1010 x0 x1) (s1017 x0 x1)
def s3037 (x0 : Vec F S128x216 .f32) (x1 : Vec F S128x72 .f32) : FVec F S128x1 .f32 := k0_pay744 (s1271 x0 x1)
def s153 (x0 : Vec F S128x216 .f32) (x1 : Vec F S128x72 .f32) : FVec F S128 .f32 := k0_pay83 (s1 x0 x1)
def s159 (x0 : Vec F S128x216 .f32) (x1 : Vec F S128x72 .f32) : FVec F S128 .f32 := k0_pay86 (s1 x0 x1)
def s165 (x0 : Vec F S128x216 .f32) (x1 : Vec F S128x72 .f32) : FVec F S128 .f32 := k0_pay89 (s1 x0 x1)
def s1278 (x0 : Vec F S128x216 .f32) (x1 : Vec F S128x72 .f32) : FVec F S128 .f32 := k0_pay471 (s153 x0 x1) (s159 x0 x1) (s165 x0 x1) (s1003 x0 x1) (s1010 x0 x1) (s1017 x0 x1)
def s3038 (x0 : Vec F S128x216 .f32) (x1 : Vec F S128x72 .f32) : FVec F S128x1 .f32 := k0_pay745 (s1278 x0 x1)
def s485 (x0 : Vec F S128x216 .f32) (x1 : Vec F S128x72 .f32) : FVec F S128 .f32 := k0_pay255 (s3 x0 x1)
def s487 (x0 : Vec F S128x216 .f32) (x1 : Vec F S128x72 .f32) : FVec F S128 .f32 := k0_pay256 (s3 x0 x1)
def s489 (x0 : Vec F S128x216 .f32) (x1 : Vec F S128x72 .f32) : FVec F S128 .f32 := k0_pay257 (s3 x0 x1)
def s601 (x0 : Vec F S128x216 .f32) (x1 : Vec F S128x72 .f32) : FVec F S128 .f32 := k0_pay325 (s467 x0 x1) (s485 x0 x1)
def s602 (x0 : Vec F S128x216 .f32) (x1 : Vec F S128x72 .f32) : FVec F S128 .f32 := k0_pay326 (s469 x0 x1) (s487 x0 x1)
def s603 (x0 : Vec F S128x216 .f32) (x1 : Vec F S128x72 .f32) : FVec F S128 .f32 := k0_pay327 (s471 x0 x1) (s489 x0 x1)
def s1328 (x0 : Vec F S128x216 .f32) (x1 : Vec F S128x72 .f32) : FVec F S128 .f32 := k0_pay479 (s601 x0 x1) (s602 x0 x1) (s603 x0 x1) (s1003 x0 x1) (s1010 x0 x1) (s1017 x0 x1) (s1067 x0 x1)
def s3039 (x0 : Vec F S128x216 .f32) (x1 : Vec F S128x72 .f32) : FVec F S128x1 .f32 := k0_pay746 (s485 x0 x1) (s487 x0 x1) (s489 x0 x1) (s1264 x0 x1) (s1271 x0 x1) (s1278 x0 x1) (s1328 x0 x1)
def s1285 (x0 : Vec F S128x216 .f32) (x1 : Vec F S128x72 .f32) : FVec F S128 .f32 := k0_pay472 (s149 x0 x1) (s155 x0 x1) (s161 x0 x1) (s1024 x0 x1) (s1031 x0 x1) (s1038 x0 x1)
def s3040 (x0 : Vec F S128x216 .f32) (x1 : Vec F S128x72 .f32) : FVec F S128x1 .f32 := k0_pay747 (s1285 x0 x1)
def s1286 (x0 : Vec F S128x216 .f32) (x1 : Vec F S128x72 .f32) : FVec F S128 .f32 := k0_pay473 (s151 x0 x1) (s1024 x0 x1)
def s1292 (x0 : Vec F S128x216 .f32) (x1 : Vec F S128x72 .f32) : FVec F S128 .f32 := k0_pay474 (s157 x0 x1) (s163 x0 x1) (s1031 x0 x1) (s1038 x0 x1) (s1286 x0 x1)
def s3041 (x0 : Vec F S128x216 .f32) (x1 : Vec F S128x72 .f32) : FVec F S128x1 .f32 := k0_pay748 (s1292 x0 x1)
def s1299 (x0 : Vec F S128x216 .f32) (x1 : Vec F S128x72 .f32) : FVec F S128 .f32 := k0_pay475 (s153 x0 x1) (s159 x0 x1) (s165 x0 x1) (s1024 x0 x1) (s1031 x0 x1) (s1038 x0 x1)
def s3042 (x0 : Vec F S128x216 .f32) (x1 : Vec F S128x72 .f32) : FVec F S128x1 .f32 := k0_pay749 (s1299 x0 x1)
def s1336 (x0 : Vec F S128x216 .f32) (x1 : Vec F S128x72 .f32) : FVec F S128 .f32 := k0_pay480 (s601 x0 x1) (s602 x0 x1) (s603 x0 x1) (s1024 x0 x1) (s1031 x0 x1) (s1038 x0 x1) (s1075 x0 x1)
def s3043 (x0 : Vec F S128x216 .f32) (x1 : Vec F S128x72 .f32) : FVec F S128x1 .f32 := k0_pay750 (s485 x0 x1) (s487 x0 x1) (s489 x0 x1) (s1285 x0 x1) (s1292 x0 x1) (s1299 x0 x1) (s1336 x0 x1)
def s1306 (x0 : Vec F S128x216 .f32) (x1 : Vec F S128x72 .f32) : FVec F S128 .f32 := k0_pay476 (s149 x0 x1) (s155 x0 x1) (s161 x0 x1) (s1045 x0 x1) (s1052 x0 x1) (s1059 x0 x1)
def s3044 (x0 : Vec F S128x216 .f32) (x1 : Vec F S128x72 .f32) : FVec F S128x1 .f32 := k0_pay751 (s1306 x0 x1)
def s1313 (x0 : Vec F S128x216 .f32) (x1 : Vec F S128x72 .f32) : FVec F S128 .f32 := k0_pay477 (s151 x0 x1) (s157 x0 x1) (s163 x0 x1) (s1045 x0 x1) (s1052 x0 x1) (s1059 x0 x1)
def s3045 (x0 : Vec F S128x216 .f32) (x1 : Vec F S128x72 .f32) : FVec F S128x1 .f32 := k0_pay752 (s1313 x0 x1)
def s1320 (x0 : Vec F S128x216 .f32) (x1 : Vec F S128x72 .f32) : FVec F S128 .f32 := k0_pay478 (s153 x0 x1) (s159 x0 x1) (s165 x0 x1) (s1045 x0 x1) (s1052 x0 x1) (s1059 x0 x1)
def s3046 (x0 : Vec F S128x216 .f32) (x1 : Vec F S128x72 .f32) : FVec F S128x1 .f32 := k0_pay753 (s1320 x0 x1)
def s1337 (x0 : Vec F S128x216 .f32) (x1 : Vec F S128x72 .f32) : FVec F S128 .f32 := k0_pay481 (s601 x0 x1) (s1045 x0 x1)
def s1338 (x0 : Vec F S128x216 .f32) (x1 : Vec F S128x72 .f32) : FVec F S128 .f32 := k0_pay482
def s1344 (x0 : Vec F S128x216 .f32) (x1 : Vec F S128x72 .f32) : FVec F S128 .f32 := k0_pay483 (s602 x0 x1) (s603 x0 x1) (s1052 x0 x1) (s1059 x0 x1) (s1083 x0 x1) (s1337 x0 x1) (s1338 x0 x1)
def s3047 (x0 : Vec F S128x216 .f32) (x1 : Vec F S128x72 .f32) : FVec F S128x1 .f32 := k0_pay754 (s485 x0 x1) (s487 x0 x1) (s489 x0 x1) (s1306 x0 x1) (s1313 x0 x1) (s1320 x0 x1) (s1344 x0 x1)
def s3048 (x0 : Vec F S128x216 .f32) (x1 : Vec F S128x72 .f32) : FVec F S128x1 .f32 := k0_pay755 (s2650 x0 x1)
def s3049 (x0 : Vec F S128x216 .f32) (x1 : Vec F S128x72 .f32) : FVec F S128x1 .f32 := k0_pay756 (s2650 x0 x1)
def s3052 (x0 : Vec F S128x216 .f32) (x1 : Vec F S128x72 .f32) : FVec F S128x16 .f32 := k0_pay757 (s2650 x0 x1) (s2651 x0 x1) (s3036 x0 x1) (s3037 x0 x1) (s3038 x0 x1) (s3039 x0 x1) (s3040 x0 x1) (s3041 x0 x1) (s3042 x0 x1) (s3043 x0 x1) (s3044 x0 x1) (s3045 x0 x1) (s3046 x0 x1) (s3047 x0 x1) (s3048 x0 x1) (s3049 x0 x1)
def s491 (x0 : Vec F S128x216 .f32) (x1 : Vec F S128x72 .f32) : FVec F S128 .f32 := k0_pay258 (s3 x0 x1)
def s493 (x0 : Vec F S128x216 .f32) (x1 : Vec F S128x72 .f32) : FVec F S128 .f32 := k0_pay259 (s3 x0 x1)
def s495 (x0 : Vec F S128x216 .f32) (x1 : Vec F S128x72 .f32) : FVec F S128 .f32 := k0_pay260 (s3 x0 x1)
def s167 (x0 : Vec F S128x216 .f32) (x1 : Vec F S128x72 .f32) : FVec F S128 .f32 := k0_pay90 (s1 x0 x1)
def s173 (x0 : Vec F S128x216 .f32) (x1 : Vec F S128x72 .f32) : FVec F S128 .f32 := k0_pay93 (s1 x0 x1)
def s179 (x0 : Vec F S128x216 .f32) (x1 : Vec F S128x72 .f32) : FVec F S128 .f32 := k0_pay97 (s1 x0 x1)
def s1351 (x0 : Vec F S128x216 .f32) (x1 : Vec F S128x72 .f32) : FVec F S128 .f32 := k0_pay484 (s167 x0 x1) (s173 x0 x1) (s179 x0 x1) (s1090 x0 x1) (s1097 x0 x1) (s1104 x0 x1)
def s169 (x0 : Vec F S128x216 .f32) (x1 : Vec F S128x72 .f32) : FVec F S128 .f32 := k0_pay91 (s1 x0 x1)
def s174 (x0 : Vec F S128x216 .f32) (x1 : Vec F S128x72 .f32) : FVec F S128x1 .f32 := k0_pay94 (s1 x0 x1)
def s175 (x0 : Vec F S128x216 .f32) (x1 : Vec F S128x72 .f32) : FVec F S128 .f32 := k0_pay95 (s174 x0 x1)
def s181 (x0 : Vec F S128x216 .f32) (x1 : Vec F S128x72 .f32) : FVec F S128 .f32 := k0_pay98 (s1 x0 x1)
def s1358 (x0 : Vec F S128x216 .f32) (x1 : Vec F S128x72 .f32) : FVec F S128 .f32 := k0_pay485 (s169 x0 x1) (s175 x0 x1) (s181 x0 x1) (s1090 x0 x1) (s1097 x0 x1) (s1104 x0 x1)
def s171 (x0 : Vec F S128x216 .f32) (x1 : Vec F S128x72 .f32) : FVec F S128 .f32 := k0_pay92 (s1 x0 x1)
def s177 (x0 : Vec F S128x216 .f32) (x1 : Vec F S128x72 .f32) : FVec F S128 .f32 := k0_pay96 (s1 x0 x1)
def s183 (x0 : Vec F S128x216 .f32) (x1 : Vec F S128x72 .f32) : FVec F S128 .f32 := k0_pay99 (s1 x0 x1)
def s1365 (x0 : Vec F S128x216 .f32) (x1 : Vec F S128x72 .f32) : FVec F S128 .f32 := k0_pay486 (s171 x0 x1) (s177 x0 x1) (s183 x0 x1) (s1090 x0 x1) (s1097 x0 x1) (s1104 x0 x1)
def s1372 (x0 : Vec F S128x216 .f32) (x1 : Vec F S128x72 .f32) : FVec F S128 .f32 := k0_pay487 (s167 x0 x1) (s173 x0 x1) (s179 x0 x1) (s1111 x0 x1) (s1118 x0 x1) (s1125 x0 x1)
def s1379 (x0 : Vec F S128x216 .f32) (x1 : Vec F S128x72 .f32) : FVec F S128 .f32 := k0_pay488 (s169 x0 x1) (s175 x0 x1) (s181 x0 x1) (s1111 x0 x1) (s1118 x0 x1) (s1125 x0 x1)
def s1386 (x0 : Vec F S128x216 .f32) (x1 : Vec F S128x72 .f32) : FVec F S128 .f32 := k0_pay489 (s171 x0 x1) (s177 x0 x1) (s183 x0 x1) (s1111 x0 x1) (s1118 x0 x1) (s1125 x0 x1)
def s1391 (x0 : Vec F S128x216 .f32) (x1 : Vec F S128x72 .f32) : FVec F S128 .f32 := k0_pay490 (s167 x0 x1) (s173 x0 x1) (s1132 x0 x1) (s1139 x0 x1)
def s1393 (x0 : Vec F S128x216 .f32) (x1 : Vec F S128x72 .f32) : FVec F S128 .f32 := k0_pay491 (s179 x0 x1) (s1146 x0 x1) (s1391 x0 x1)
def s1400 (x0 : Vec F S128x216 .f32) (x1 : Vec F S128x72 .f32) : FVec F S128 .f32 := k0_pay492 (s169 x0 x1) (s175 x0 x1) (s181 x0 x1) (s1132 x0 x1) (s1139 x0 x1) (s1146 x0 x1)
def s1407 (x0 : Vec F S128x216 .f32) (x1 : Vec F S128x72 .f32) : FVec F S128 .f32 := k0_pay493 (s171 x0 x1) (s177 x0 x1) (s183 x0 x1) (s1132 x0 x1) (s1139 x0 x1) (s1146 x0 x1)
def s604 (x0 : Vec F S128x216 .f32) (x1 : Vec F S128x72 .f32) : FVec F S128 .f32 := k0_pay328 (s473 x0 x1) (s491 x0 x1)
def s605 (x0 : Vec F S128x216 .f32) (x1 : Vec F S128x72 .f32) : FVec F S128 .f32 := k0_pay329 (s475 x0 x1) (s493 x0 x1)
def s606 (x0 : Vec F S128x216 .f32) (x1 : Vec F S128x72 .f32) : FVec F S128 .f32 := k0_pay330 (s477 x0 x1) (s495 x0 x1)
def s1415 (x0 : Vec F S128x216 .f32) (x1 : Vec F S128x72 .f32) : FVec F S128 .f32 := k0_pay494 (s604 x0 x1) (s605 x0 x1) (s606 x0 x1) (s1090 x0 x1) (s1097 x0 x1) (s1104 x0 x1) (s1154 x0 x1)
def s1423 (x0 : Vec F S128x216 .f32) (x1 : Vec F S128x72 .f32) : FVec F S128 .f32 := k0_pay495 (s604 x0 x1) (s605 x0 x1) (s606 x0 x1) (s1111 x0 x1) (s1118 x0 x1) (s1125 x0 x1) (s1162 x0 x1)
def s1431 (x0 : Vec F S128x216 .f32) (x1 : Vec F S128x72 .f32) : FVec F S128 .f32 := k0_pay496 (s604 x0 x1) (s605 x0 x1) (s606 x0 x1) (s1132 x0 x1) (s1139 x0 x1) (s1146 x0 x1) (s1170 x0 x1)
def s3097 (x0 : Vec F S128x216 .f32) (x1 : Vec F S128x72 .f32) : FVec F S128x16 .f32 := k0_pay759 (s491 x0 x1) (s493 x0 x1) (s495 x0 x1) (s1351 x0 x1) (s1358 x0 x1) (s1365 x0 x1) (s1372 x0 x1) (s1379 x0 x1) (s1386 x0 x1) (s1393 x0 x1) (s1400 x0 x1) (s1407 x0 x1) (s1415 x0 x1) (s1423 x0 x1) (s1431 x0 x1) (s2650 x0 x1) (s2651 x0 x1)
def s497 (x0 : Vec F S128x216 .f32) (x1 : Vec F S128x72 .f32) : FVec F S128 .f32 := k0_pay261 (s3 x0 x1)
def s499 (x0 : Vec F S128x216 .f32) (x1 : Vec F S128x72 .f32) : FVec F S128 .f32 := k0_pay262 (s3 x0 x1)
def s501 (x0 : Vec F S128x216 .f32) (x1 : Vec F S128x72 .f32) : FVec F S128 .f32 := k0_pay263 (s3 x0 x1)
def s185 (x0 : Vec F S128x216 .f32) (x1 : Vec F S128x72 .f32) : FVec F S128 .f32 := k0_pay100 (s1 x0 x1)
def s191 (x0 : Vec F S128x216 .f32) (x1 : Vec F S128x72 .f32) : FVec F S128 .f32 := k0_pay103 (s1 x0 x1)
def s197 (x0 : Vec F S128x216 .f32) (x1 : Vec F S128x72 .f32) : FVec F S128 .f32 := k0_pay106 (s1 x0 x1)
def s1438 (x0 : Vec F S128x216 .f32) (x1 : Vec F S128x72 .f32) : FVec F S128 .f32 := k0_pay497 (s185 x0 x1) (s191 x0 x1) (s197 x0 x1) (s1177 x0 x1) (s1184 x0 x1) (s1191 x0 x1)
def s187 (x0 : Vec F S128x216 .f32) (x1 : Vec F S128x72 .f32) : FVec F S128 .f32 := k0_pay101 (s1 x0 x1)
def s193 (x0 : Vec F S128x216 .f32) (x1 : Vec F S128x72 .f32) : FVec F S128 .f32 := k0_pay104 (s1 x0 x1)
def s1443 (x0 : Vec F S128x216 .f32) (x1 : Vec F S128x72 .f32) : FVec F S128 .f32 := k0_pay498 (s187 x0 x1) (s193 x0 x1) (s1177 x0 x1) (s1184 x0 x1)
def s199 (x0 : Vec F S128x216 .f32) (x1 : Vec F S128x72 .f32) : FVec F S128 .f32 := k0_pay107 (s1 x0 x1)
def s1444 (x0 : Vec F S128x216 .f32) (x1 : Vec F S128x72 .f32) : FVec F S128 .f32 := k0_pay499 (s199 x0 x1) (s1191 x0 x1)
def s1445 (x0 : Vec F S128x216 .f32) (x1 : Vec F S128x72 .f32) : FVec F S128 .f32 := k0_pay500 (s1443 x0 x1) (s1444 x0 x1)
def s189 (x0 : Vec F S128x216 .f32) (x1 : Vec F S128x72 .f32) : FVec F S128 .f32 := k0_pay102 (s1 x0 x1)
def s195 (x0 : Vec F S128x216 .f32) (x1 : Vec F S128x72 .f32) : FVec F S128 .f32 := k0_pay105 (s1 x0 x1)
def s201 (x0 : Vec F S128x216 .f32) (x1 : Vec F S128x72 .f32) : FVec F S128 .f32 := k0_pay108 (s1 x0 x1)
def s1452 (x0 : Vec F S128x216 .f32) (x1 : Vec F S128x72 .f32) : FVec F S128 .f32 := k0_pay501 (s189 x0 x1) (s195 x0 x1) (s201 x0 x1) (s1177 x0 x1) (s1184 x0 x1) (s1191 x0 x1)
def s1459 (x0 : Vec F S128x216 .f32) (x1 : Vec F S128x72 .f32) : FVec F S128 .f32 := k0_pay502 (s185 x0 x1) (s191 x0 x1) (s197 x0 x1) (s1198 x0 x1) (s1205 x0 x1) (s1212 x0 x1)
def s1466 (x0 : Vec F S128x216 .f32) (x1 : Vec F S128x72 .f32) : FVec F S128 .f32 := k0_pay503 (s187 x0 x1) (s193 x0 x1) (s199 x0 x1) (s1198 x0 x1) (s1205 x0 x1) (s1212 x0 x1)
def s1473 (x0 : Vec F S128x216 .f32) (x1 : Vec F S128x72 .f32) : FVec F S128 .f32 := k0_pay504 (s189 x0 x1) (s195 x0 x1) (s201 x0 x1) (s1198 x0 x1) (s1205 x0 x1) (s1212 x0 x1)
def s1480 (x0 : Vec F S128x216 .f32) (x1 : Vec F S128x72 .f32) : FVec F S128 .f32 := k0_pay505 (s185 x0 x1) (s191 x0 x1) (s197 x0 x1) (s1219 x0 x1) (s1226 x0 x1) (s1233 x0 x1)
def s1487 (x0 : Vec F S128x216 .f32) (x1 : Vec F S128x72 .f32) : FVec F S128 .f32 := k0_pay506 (s187 x0 x1) (s193 x0 x1) (s199 x0 x1) (s1219 x0 x1) (s1226 x0 x1) (s1233 x0 x1)
def s1494 (x0 : Vec F S128x216 .f32) (x1 : Vec F S128x72 .f32) : FVec F S128 .f32 := k0_pay507 (s189 x0 x1) (s195 x0 x1) (s201 x0 x1) (s1219 x0 x1) (s1226 x0 x1) (s1233 x0 x1)
def s608 (x0 : Vec F S128x216 .f32) (x1 : Vec F S128x72 .f32) : FVec F S128 .f32 := k0_pay332 (s481 x0 x1) (s499 x0 x1)
def s609 (x0 : Vec F S128x216 .f32) (x1 : Vec F S128x72 .f32) : FVec F S128 .f32 := k0_pay333 (s483 x0 x1) (s501 x0 x1)
def s607 (x0 : Vec F S128x216 .f32) (x1 : Vec F S128x72 .f32) : FVec F S128 .f32 := k0_pay331 (s479 x0 x1) (s497 x0 x1)
def s1495 (x0 : Vec F S128x216 .f32) (x1 : Vec F S128x72 .f32) : FVec F S128 .f32 := k0_pay508 (s607 x0 x1) (s1177 x0 x1)
def s1496 (x0 : Vec F S128x216 .f32) (x1 : Vec F S128x72 .f32) : FVec F S128 .f32 := k0_pay509
def s1502 (x0 : Vec F S128x216 .f32) (x1 : Vec F S128x72 .f32) : FVec F S128 .f32 := k0_pay510 (s608 x0 x1) (s609 x0 x1) (s1184 x0 x1) (s1191 x0 x1) (s1241 x0 x1) (s1495 x0 x1) (s1496 x0 x1)
def s1510 (x0 : Vec F S128x216 .f32) (x1 : Vec F S128x72 .f32) : FVec F S128 .f32 := k0_pay511 (s607 x0 x1) (s608 x0 x1) (s609 x0 x1) (s1198 x0 x1) (s1205 x0 x1) (s1212 x0 x1) (s1249 x0 x1)
def s1518 (x0 : Vec F S128x216 .f32) (x1 : Vec F S128x72 .f32) : FVec F S128 .f32 := k0_pay512 (s607 x0 x1) (s608 x0 x1) (s609 x0 x1) (s1219 x0 x1) (s1226 x0 x1) (s1233 x0 x1) (s1257 x0 x1)
def s3104 (x0 : Vec F S128x216 .f32) (x1 : Vec F S128x72 .f32) : FVec F S128 .f32 := k0_pay761 (s497 x0 x1) (s1438 x0 x1)
def s3105 (x0 : Vec F S128x216 .f32) (x1 : Vec F S128x72 .f32) : FVec F S128 .f32 := k0_pay762 (s499 x0 x1) (s1445 x0 x1)
def s3142 (x0 : Vec F S128x216 .f32) (x1 : Vec F S128x72 .f32) : FVec F S128x16 .f32 := k0_pay763 (s497 x0 x1) (s499 x0 x1) (s501 x0 x1) (s1438 x0 x1) (s1445 x0 x1) (s1452 x0 x1) (s1459 x0 x1) (s1466 x0 x1) (s1473 x0 x1) (s1480 x0 x1) (s1487 x0 x1) (s1494 x0 x1) (s1502 x0 x1) (s1510 x0 x1) (s1518 x0 x1) (s2650 x0 x1) (s2651 x0 x1) (s3104 x0 x1) (s3105 x0 x1)
def s503 (x0 : Vec F S128x216 .f32) (x1 : Vec F S128x72 .f32) : FVec F S128 .f32 := k0_pay264 (s3 x0 x1)
def s505 (x0 : Vec F S128x216 .f32) (x1 : Vec F S128x72 .f32) : FVec F S128 .f32 := k0_pay265 (s3 x0 x1)
def s507 (x0 : Vec F S128x216 .f32) (x1 : Vec F S128x72 .f32) : FVec F S128 .f32 := k0_pay266 (s3 x0 x1)
def s203 (x0 : Vec F S128x216 .f32) (x1 : Vec F S128x72 .f32) : FVec F S128 .f32 := k0_pay109 (s1 x0 x1)
def s209 (x0 : Vec F S128x216 .f32) (x1 : Vec F S128x72 .f32) : FVec F S128 .f32 := k0_pay112 (s1 x0 x1)
def s215 (x0 : Vec F S128x216 .f32) (x1 : Vec F S128x72 .f32) : FVec F S128 .f32 := k0_pay115 (s1 x0 x1)
def s1525 (x0 : Vec F S128x216 .f32) (x1 : Vec F S128x72 .f32) : FVec F S128 .f32 := k0_pay513 (s203 x0 x1) (s209 x0 x1) (s215 x0 x1) (s1264 x0 x1) (s1271 x0 x1) (s1278 x0 x1)
def s205 (x0 : Vec F S128x216 .f32) (x1 : Vec F S128x72 .f32) : FVec F S128 .f32 := k0_pay110 (s1 x0 x1)
def s211 (x0 : Vec F S128x216 .f32) (x1 : Vec F S128x72 .f32) : FVec F S128 .f32 := k0_pay113 (s1 x0 x1)
def s217 (x0 : Vec F S128x216 .f32) (x1 : Vec F S128x72 .f32) : FVec F S128 .f32 := k0_pay116 (s1 x0 x1)
def s1532 (x0 : Vec F S128x216 .f32) (x1 : Vec F S128x72 .f32) : FVec F S128 .f32 := k0_pay514 (s205 x0 x1) (s211 x0 x1) (s217 x0 x1) (s1264 x0 x1) (s1271 x0 x1) (s1278 x0 x1)
def s207 (x0 : Vec F S128x216 .f32) (x1 : Vec F S128x72 .f32) : FVec F S128 .f32 := k0_pay111 (s1 x0 x1)
def s213 (x0 : Vec F S128x216 .f32) (x1 : Vec F S128x72 .f32) : FVec F S128 .f32 := k0_pay114 (s1 x0 x1)
def s219 (x0 : Vec F S128x216 .f32) (x1 : Vec F S128x72 .f32) : FVec F S128 .f32 := k0_pay117 (s1 x0 x1)
def s1539 (x0 : Vec F S128x216 .f32) (x1 : Vec F S128x72 .f32) : FVec F S128 .f32 := k0_pay515 (s207 x0 x1) (s213 x0 x1) (s219 x0 x1) (s1264 x0 x1) (s1271 x0 x1) (s1278 x0 x1)
def s1546 (x0 : Vec F S128x216 .f32) (x1 : Vec F S128x72 .f32) : FVec F S128 .f32 := k0_pay516 (s203 x0 x1) (s209 x0 x1) (s215 x0 x1) (s1285 x0 x1) (s1292 x0 x1) (s1299 x0 x1)
def s1549 (x0 : Vec F S128x216 .f32) (x1 : Vec F S128x72 .f32) : FVec F S128 .f32 := k0_pay517 (s205 x0 x1) (s1285 x0 x1)
def s1553 (x0 : Vec F S128x216 .f32) (x1 : Vec F S128x72 .f32) : FVec F S128 .f32 := k0_pay518 (s211 x0 x1) (s217 x0 x1) (s1292 x0 x1) (s1299 x0 x1) (s1549 x0 x1)
def s1560 (x0 : Vec F S128x216 .f32) (x1 : Vec F S128x72 .f32) : FVec F S128 .f32 := k0_pay519 (s207 x0 x1) (s213 x0 x1) (s219 x0 x1) (s1285 x0 x1) (s1292 x0 x1) (s1299 x0 x1)
def s1567 (x0 : Vec F S128x216 .f32) (x1 : Vec F S128x72 .f32) : FVec F S128 .f32 := k0_pay520 (s203 x0 x1) (s209 x0 x1) (s215 x0 x1) (s1306 x0 x1) (s1313 x0 x1) (s1320 x0 x1)
def s1574 (x0 : Vec F S128x216 .f32) (x1 : Vec F S128x72 .f32) : FVec F S128 .f32 := k0_pay521 (s205 x0 x1) (s211 x0 x1) (s217 x0 x1) (s1306 x0 x1) (s1313 x0 x1) (s1320 x0 x1)
def s1581 (x0 : Vec F S128x216 .f32) (x1 : Vec F S128x72 .f32) : FVec F S128 .f32 := k0_pay522 (s207 x0 x1) (s213 x0 x1) (s219 x0 x1) (s1306 x0 x1) (s1313 x0 x1) (s1320 x0 x1)
def s610 (x0 : Vec F S128x216 .f32) (x1 : Vec F S128x72 .f32) : FVec F S128 .f32 := k0_pay334 (s485 x0 x1) (s503 x0 x1)
def s611 (x0 : Vec F S128x216 .f32) (x1 : Vec F S128x72 .f32) : FVec F S128 .f32 := k0_pay335 (s487 x0 x1) (s505 x0 x1)
def s612 (x0 : Vec F S128x216 .f32) (x1 : Vec F S128x72 .f32) : FVec F S128 .f32 := k0_pay336 (s489 x0 x1) (s507 x0 x1)
def s1597 (x0 : Vec F S128x216 .f32) (x1 : Vec F S128x72 .f32) : FVec F S128 .f32 := k0_pay524 (s610 x0 x1) (s611 x0 x1) (s612 x0 x1) (s1285 x0 x1) (s1292 x0 x1) (s1299 x0 x1) (s1336 x0 x1)
def s1602 (x0 : Vec F S128x216 .f32) (x1 : Vec F S128x72 .f32) : FVec F S128 .f32 := k0_pay525 (s610 x0 x1) (s611 x0 x1) (s1306 x0 x1) (s1313 x0 x1)
def s1605 (x0 : Vec F S128x216 .f32) (x1 : Vec F S128x72 .f32) : FVec F S128 .f32 := k0_pay526 (s612 x0 x1) (s1320 x0 x1) (s1344 x0 x1) (s1602 x0 x1)
def s1589 (x0 : Vec F S128x216 .f32) (x1 : Vec F S128x72 .f32) : FVec F S128 .f32 := k0_pay523 (s610 x0 x1) (s611 x0 x1) (s612 x0 x1) (s1264 x0 x1) (s1271 x0 x1) (s1278 x0 x1) (s1328 x0 x1)
def s3154 (x0 : Vec F S128x216 .f32) (x1 : Vec F S128x72 .f32) : FVec F S128 .f32 := k0_pay765 (s503 x0 x1) (s505 x0 x1) (s507 x0 x1) (s1525 x0 x1) (s1532 x0 x1) (s1539 x0 x1) (s1589 x0 x1)
def s3161 (x0 : Vec F S128x216 .f32) (x1 : Vec F S128x72 .f32) : FVec F S128 .f32 := k0_pay766 (s503 x0 x1) (s505 x0 x1) (s507 x0 x1) (s1546 x0 x1) (s1553 x0 x1) (s1560 x0 x1)
def s3187 (x0 : Vec F S128x216 .f32) (x1 : Vec F S128x72 .f32) : FVec F S128x16 .f32 := k0_pay767 (s503 x0 x1) (s505 x0 x1) (s507 x0 x1) (s1525 x0 x1) (s1532 x0 x1) (s1539 x0 x1) (s1546 x0 x1) (s1553 x0 x1) (s1560 x0 x1) (s1567 x0 x1) (s1574 x0 x1) (s1581 x0 x1) (s1597 x0 x1) (s1605 x0 x1) (s2650 x0 x1) (s2651 x0 x1) (s3154 x0 x1) (s3161 x0 x1)
def s225 (x0 : Vec F S128x216 .f32) (x1 : Vec F S128x72 .f32) : FVec F S128 .f32 := k0_pay120 (s1 x0 x1)
def s231 (x0 : Vec F S128x216 .f32) (x1 : Vec F S128x72 .f32) : FVec F S128 .f32 := k0_pay123 (s1 x0 x1)
def s237 (x0 : Vec F S128x216 .f32) (x1 : Vec F S128x72 .f32) : FVec F S128 .f32 := k0_pay127 (s1 x0 x1)
def s1626 (x0 : Vec F S128x216 .f32) (x1 : Vec F S128x72 .f32) : FVec F S128 .f32 := k0_pay529 (s225 x0 x1) (s231 x0 x1) (s237 x0 x1) (s1351 x0 x1) (s1358 x0 x1) (s1365 x0 x1)
def s221 (x0 : Vec F S128x216 .f32) (x1 : Vec F S128x72 .f32) : FVec F S128 .f32 := k0_pay118 (s1 x0 x1)
def s227 (x0 : Vec F S128x216 .f32) (x1 : Vec F S128x72 .f32) : FVec F S128 .f32 := k0_pay121 (s1 x0 x1)
def s233 (x0 : Vec F S128x216 .f32) (x1 : Vec F S128x72 .f32) : FVec F S128 .f32 := k0_pay124 (s1 x0 x1)
def s1633 (x0 : Vec F S128x216 .f32) (x1 : Vec F S128x72 .f32) : FVec F S128 .f32 := k0_pay530 (s221 x0 x1) (s227 x0 x1) (s233 x0 x1) (s1372 x0 x1) (s1379 x0 x1) (s1386 x0 x1)
def s223 (x0 : Vec F S128x216 .f32) (x1 : Vec F S128x72 .f32) : FVec F S128 .f32 := k0_pay119 (s1 x0 x1)
def s229 (x0 : Vec F S128x216 .f32) (x1 : Vec F S128x72 .f32) : FVec F S128 .f32 := k0_pay122 (s1 x0 x1)
def s234 (x0 : Vec F S128x216 .f32) (x1 : Vec F S128x72 .f32) : FVec F S128x1 .f32 := k0_pay125 (s1 x0 x1)
def s235 (x0 : Vec F S128x216 .f32) (x1 : Vec F S128x72 .f32) : FVec F S128 .f32 := k0_pay126 (s234 x0 x1)
def s1640 (x0 : Vec F S128x216 .f32) (x1 : Vec F S128x72 .f32) : FVec F S128 .f32 := k0_pay531 (s223 x0 x1) (s229 x0 x1) (s235 x0 x1) (s1372 x0 x1) (s1379 x0 x1) (s1386 x0 x1)
def s1647 (x0 : Vec F S128x216 .f32) (x1 : Vec F S128x72 .f32) : FVec F S128 .f32 := k0_pay532 (s225 x0 x1) (s231 x0 x1) (s237 x0 x1) (s1372 x0 x1) (s1379 x0 x1) (s1386 x0 x1)
def s1654 (x0 : Vec F S128x216 .f32) (x1 : Vec F S128x72 .f32) : FVec F S128 .f32 := k0_pay533 (s221 x0 x1) (s227 x0 x1) (s233 x0 x1) (s1393 x0 x1) (s1400 x0 x1) (s1407 x0 x1)
def s1655 (x0 : Vec F S128x216 .f32) (x1 : Vec F S128x72 .f32) : FVec F S128 .f32 := k0_pay534 (s223 x0 x1) (s1393 x0 x1)
def s1661 (x0 : Vec F S128x216 .f32) (x1 : Vec F S128x72 .f32) : FVec F S128 .f32 := k0_pay535 (s229 x0 x1) (s235 x0 x1) (s1400 x0 x1) (s1407 x0 x1) (s1655 x0 x1)
def s1668 (x0 : Vec F S128x216 .f32) (x1 : Vec F S128x72 .f32) : FVec F S128 .f32 := k0_pay536 (s225 x0 x1) (s231 x0 x1) (s237 x0 x1) (s1393 x0 x1) (s1400 x0 x1) (s1407 x0 x1)
def s509 (x0 : Vec F S128x216 .f32) (x1 : Vec F S128x72 .f32) : FVec F S128 .f32 := k0_pay267 (s3 x0 x1)
def s511 (x0 : Vec F S128x216 .f32) (x1 : Vec F S128x72 .f32) : FVec F S128 .f32 := k0_pay268 (s3 x0 x1)
def s513 (x0 : Vec F S128x216 .f32) (x1 : Vec F S128x72 .f32) : FVec F S128 .f32 := k0_pay269 (s3 x0 x1)
def s1612 (x0 : Vec F S128x216 .f32) (x1 : Vec F S128x72 .f32) : FVec F S128 .f32 := k0_pay527 (s221 x0 x1) (s227 x0 x1) (s233 x0 x1) (s1351 x0 x1) (s1358 x0 x1) (s1365 x0 x1)
def s1619 (x0 : Vec F S128x216 .f32) (x1 : Vec F S128x72 .f32) : FVec F S128 .f32 := k0_pay528 (s223 x0 x1) (s229 x0 x1) (s235 x0 x1) (s1351 x0 x1) (s1358 x0 x1) (s1365 x0 x1)
def s613 (x0 : Vec F S128x216 .f32) (x1 : Vec F S128x72 .f32) : FVec F S128 .f32 := k0_pay337 (s491 x0 x1) (s509 x0 x1)
def s614 (x0 : Vec F S128x216 .f32) (x1 : Vec F S128x72 .f32) : FVec F S128 .f32 := k0_pay338 (s493 x0 x1) (s511 x0 x1)
def s615 (x0 : Vec F S128x216 .f32) (x1 : Vec F S128x72 .f32) : FVec F S128 .f32 := k0_pay339 (s495 x0 x1) (s513 x0 x1)
def s1676 (x0 : Vec F S128x216 .f32) (x1 : Vec F S128x72 .f32) : FVec F S128 .f32 := k0_pay537 (s613 x0 x1) (s614 x0 x1) (s615 x0 x1) (s1351 x0 x1) (s1358 x0 x1) (s1365 x0 x1) (s1415 x0 x1)
def s3199 (x0 : Vec F S128x216 .f32) (x1 : Vec F S128x72 .f32) : FVec F S128 .f32 := k0_pay769 (s509 x0 x1) (s511 x0 x1) (s513 x0 x1) (s1612 x0 x1) (s1619 x0 x1) (s1626 x0 x1) (s1676 x0 x1)
def s1684 (x0 : Vec F S128x216 .f32) (x1 : Vec F S128x72 .f32) : FVec F S128 .f32 := k0_pay538 (s613 x0 x1) (s614 x0 x1) (s615 x0 x1) (s1372 x0 x1) (s1379 x0 x1) (s1386 x0 x1) (s1423 x0 x1)
def s3207 (x0 : Vec F S128x216 .f32) (x1 : Vec F S128x72 .f32) : FVec F S128 .f32 := k0_pay770 (s509 x0 x1) (s511 x0 x1) (s513 x0 x1) (s1633 x0 x1) (s1640 x0 x1) (s1647 x0 x1) (s1684 x0 x1)
def s1692 (x0 : Vec F S128x216 .f32) (x1 : Vec F S128x72 .f32) : FVec F S128 .f32 := k0_pay539 (s613 x0 x1) (s614 x0 x1) (s615 x0 x1) (s1393 x0 x1) (s1400 x0 x1) (s1407 x0 x1) (s1431 x0 x1)
def s3215 (x0 : Vec F S128x216 .f32) (x1 : Vec F S128x72 .f32) : FVec F S128 .f32 := k0_pay771 (s509 x0 x1) (s511 x0 x1) (s513 x0 x1) (s1654 x0 x1) (s1661 x0 x1) (s1668 x0 x1) (s1692 x0 x1)
def s3216 (x0 : Vec F S128x216 .f32) (x1 : Vec F S128x72 .f32) : FVec F S128x1 .f32 := k0_pay772 (s1612 x0 x1)
def s3217 (x0 : Vec F S128x216 .f32) (x1 : Vec F S128x72 .f32) : FVec F S128x1 .f32 := k0_pay773 (s1619 x0 x1)
def s3232 (x0 : Vec F S128x216 .f32) (x1 : Vec F S128x72 .f32) : FVec F S128x16 .f32 := k0_pay774 (s1626 x0 x1) (s1633 x0 x1) (s1640 x0 x1) (s1647 x0 x1) (s1654 x0 x1) (s1661 x0 x1) (s1668 x0 x1) (s2650 x0 x1) (s2651 x0 x1) (s3199 x0 x1) (s3207 x0 x1) (s3215 x0 x1) (s3216 x0 x1) (s3217 x0 x1)
def s239 (x0 : Vec F S128x216 .f32) (x1 : Vec F S128x72 .f32) : FVec F S128 .f32 := k0_pay128 (s1 x0 x1)
def s245 (x0 : Vec F S128x216 .f32) (x1 : Vec F S128x72 .f32) : FVec F S128 .f32 := k0_pay131 (s1 x0 x1)
def s251 (x0 : Vec F S128x216 .f32) (x1 : Vec F S128x72 .f32) : FVec F S128 .f32 := k0_pay134 (s1 x0 x1)
def s1699 (x0 : Vec F S128x216 .f32) (x1 : Vec F S128x72 .f32) : FVec F S128 .f32 := k0_pay540 (s239 x0 x1) (s245 x0 x1) (s251 x0 x1) (s1351 x0 x1) (s1358 x0 x1) (s1365 x0 x1)
def s3261 (x0 : Vec F S128x216 .f32) (x1 : Vec F S128x72 .f32) : FVec F S128x1 .f32 := k0_pay776 (s1699 x0 x1)
def s241 (x0 : Vec F S128x216 .f32) (x1 : Vec F S128x72 .f32) : FVec F S128 .f32 := k0_pay129 (s1 x0 x1)
def s247 (x0 : Vec F S128x216 .f32) (x1 : Vec F S128x72 .f32) : FVec F S128 .f32 := k0_pay132 (s1 x0 x1)
def s253 (x0 : Vec F S128x216 .f32) (x1 : Vec F S128x72 .f32) : FVec F S128 .f32 := k0_pay135 (s1 x0 x1)
def s1706 (x0 : Vec F S128x216 .f32) (x1 : Vec F S128x72 .f32) : FVec F S128 .f32 := k0_pay541 (s241 x0 x1) (s247 x0 x1) (s253 x0 x1) (s1351 x0 x1) (s1358 x0 x1) (s1365 x0 x1)
def s3262 (x0 : Vec F S128x216 .f32) (x1 : Vec F S128x72 .f32) : FVec F S128x1 .f32 := k0_pay777 (s1706 x0 x1)
def s249 (x0 : Vec F S128x216 .f32) (x1 : Vec F S128x72 .f32) : FVec F S128 .f32 := k0_pay133 (s1 x0 x1)
def s255 (x0 : Vec F S128x216 .f32) (x1 : Vec F S128x72 .f32) : FVec F S128 .f32 := k0_pay136 (s1 x0 x1)
def s243 (x0 : Vec F S128x216 .f32) (x1 : Vec F S128x72 .f32) : FVec F S128 .f32 := k0_pay130 (s1 x0 x1)
def s1707 (x0 : Vec F S128x216 .f32) (x1 : Vec F S128x72 .f32) : FVec F S128 .f32 := k0_pay542 (s243 x0 x1) (s1351 x0 x1)
def s1713 (x0 : Vec F S128x216 .f32) (x1 : Vec F S128x72 .f32) : FVec F S128 .f32 := k0_pay543 (s249 x0 x1) (s255 x0 x1) (s1358 x0 x1) (s1365 x0 x1) (s1707 x0 x1) (Scalar.ofBits .f32 0x00000000#32)
def s3263 (x0 : Vec F S128x216 .f32) (x1 : Vec F S128x72 .f32) : FVec F S128x1 .f32 := k0_pay778 (s1713 x0 x1)
def s515 (x0 : Vec F S128x216 .f32) (x1 : Vec F S128x72 .f32) : FVec F S128 .f32 := k0_pay270 (s3 x0 x1)
def s517 (x0 : Vec F S128x216 .f32) (x1 : Vec F S128x72 .f32) : FVec F S128 .f32 := k0_pay271 (s3 x0 x1)
def s519 (x0 : Vec F S128x216 .f32) (x1 : Vec F S128x72 .f32) : FVec F S128 .f32 := k0_pay272 (s3 x0 x1)
def s618 (x0 : Vec F S128x216 .f32) (x1 : Vec F S128x72 .f32) : FVec F S128 .f32 := k0_pay342 (s495 x0 x1) (s519 x0 x1)
def s616 (x0 : Vec F S128x216 .f32) (x1 : Vec F S128x72 .f32) : FVec F S128 .f32 := k0_pay340 (s491 x0 x1) (s515 x0 x1)
def s617 (x0 : Vec F S128x216 .f32) (x1 : Vec F S128x72 .f32) : FVec F S128 .f32 := k0_pay341 (s493 x0 x1) (s517 x0 x1)
def s1760 (x0 : Vec F S128x216 .f32) (x1 : Vec F S128x72 .f32) : FVec F S128 .f32 := k0_pay550 (s616 x0 x1) (s617 x0 x1) (s1351 x0 x1) (s1358 x0 x1)
def s1763 (x0 : Vec F S128x216 .f32) (x1 : Vec F S128x72 .f32) : FVec F S128 .f32 := k0_pay551 (s618 x0 x1) (s1365 x0 x1) (s1415 x0 x1) (s1760 x0 x1)
def s3264 (x0 : Vec F S128x216 .f32) (x1 : Vec F S128x72 .f32) : FVec F S128x1 .f32 := k0_pay779 (s515 x0 x1) (s517 x0 x1) (s519 x0 x1) (s1699 x0 x1) (s1706 x0 x1) (s1713 x0 x1) (s1763 x0 x1)
def s1720 (x0 : Vec F S128x216 .f32) (x1 : Vec F S128x72 .f32) : FVec F S128 .f32 := k0_pay544 (s239 x0 x1) (s245 x0 x1) (s251 x0 x1) (s1372 x0 x1) (s1379 x0 x1) (s1386 x0 x1)
def s3265 (x0 : Vec F S128x216 .f32) (x1 : Vec F S128x72 .f32) : FVec F S128x1 .f32 := k0_pay780 (s1720 x0 x1)
def s1727 (x0 : Vec F S128x216 .f32) (x1 : Vec F S128x72 .f32) : FVec F S128 .f32 := k0_pay545 (s241 x0 x1) (s247 x0 x1) (s253 x0 x1) (s1372 x0 x1) (s1379 x0 x1) (s1386 x0 x1)
def s3266 (x0 : Vec F S128x216 .f32) (x1 : Vec F S128x72 .f32) : FVec F S128x1 .f32 := k0_pay781 (s1727 x0 x1)
def s1734 (x0 : Vec F S128x216 .f32) (x1 : Vec F S128x72 .f32) : FVec F S128 .f32 := k0_pay546 (s243 x0 x1) (s249 x0 x1) (s255 x0 x1) (s1372 x0 x1) (s1379 x0 x1) (s1386 x0 x1)
def s3267 (x0 : Vec F S128x216 .f32) (x1 : Vec F S128x72 .f32) : FVec F S128x1 .f32 := k0_pay782 (s1734 x0 x1)
def s1771 (x0 : Vec F S128x216 .f32) (x1 : Vec F S128x72 .f32) : FVec F S128 .f32 := k0_pay552 (s616 x0 x1) (s617 x0 x1) (s618 x0 x1) (s1372 x0 x1) (s1379 x0 x1) (s1386 x0 x1) (s1423 x0 x1)
def s3268 (x0 : Vec F S128x216 .f32) (x1 : Vec F S128x72 .f32) : FVec F S128x1 .f32 := k0_pay783 (s515 x0 x1) (s517 x0 x1) (s519 x0 x1) (s1720 x0 x1) (s1727 x0 x1) (s1734 x0 x1) (s1771 x0 x1)
def s1741 (x0 : Vec F S128x216 .f32) (x1 : Vec F S128x72 .f32) : FVec F S128 .f32 := k0_pay547 (s239 x0 x1) (s245 x0 x1) (s251 x0 x1) (s1393 x0 x1) (s1400 x0 x1) (s1407 x0 x1)
def s3269 (x0 : Vec F S128x216 .f32) (x1 : Vec F S128x72 .f32) : FVec F S128x1 .f32 := k0_pay784 (s1741 x0 x1)
def s1748 (x0 : Vec F S128x216 .f32) (x1 : Vec F S128x72 .f32) : FVec F S128 .f32 := k0_pay548 (s241 x0 x1) (s247 x0 x1) (s253 x0 x1) (s1393 x0 x1) (s1400 x0 x1) (s1407 x0 x1)
def s3270 (x0 : Vec F S128x216 .f32) (x1 : Vec F S128x72 .f32) : FVec F S128x1 .f32 := k0_pay785 (s1748 x0 x1)
def s1755 (x0 : Vec F S128x216 .f32) (x1 : Vec F S128x72 .f32) : FVec F S128 .f32 := k0_pay549 (s243 x0 x1) (s249 x0 x1) (s255 x0 x1) (s1393 x0 x1) (s1400 x0 x1) (s1407 x0 x1)
def s3271 (x0 : Vec F S128x216 .f32) (x1 : Vec F S128x72 .f32) : FVec F S128x1 .f32 := k0_pay786 (s1755 x0 x1)
def s1779 (x0 : Vec F S128x216 .f32) (x1 : Vec F S128x72 .f32) : FVec F S128 .f32 := k0_pay553 (s616 x0 x1) (s617 x0 x1) (s618 x0 x1) (s1393 x0 x1) (s1400 x0 x1) (s1407 x0 x1) (s1431 x0 x1)
def s3272 (x0 : Vec F S128x216 .f32) (x1 : Vec F S128x72 .f32) : FVec F S128x1 .f32 := k0_pay787 (s515 x0 x1) (s517 x0 x1) (s519 x0 x1) (s1741 x0 x1) (s1748 x0 x1) (s1755 x0 x1) (s1779 x0 x1)
def s3273 (x0 : Vec F S128x216 .f32) (x1 : Vec F S128x72 .f32) : FVec F S128x1 .f32 := k0_pay788 (s2650 x0 x1)
def s3274 (x0 : Vec F S128x216 .f32) (x1 : Vec F S128x72 .f32) : FVec F S128x1 .f32 := k0_pay789 (s2650 x0 x1)
def s3277 (x0 : Vec F S128x216 .f32) (x1 : Vec F S128x72 .f32) : FVec F S128x16 .f32 := k0_pay790 (s2650 x0 x1) (s2651 x0 x1) (s3261 x0 x1) (s3262 x0 x1) (s3263 x0 x1) (s3264 x0 x1) (s3265 x0 x1) (s3266 x0 x1) (s3267 x0 x1) (s3268 x0 x1) (s3269 x0 x1) (s3270 x0 x1) (s3271 x0 x1) (s3272 x0 x1) (s3273 x0 x1) (s3274 x0 x1)
def s521 (x0 : Vec F S128x216 .f32) (x1 : Vec F S128x72 .f32) : FVec F S128 .f32 := k0_pay273 (s3 x0 x1)
def s523 (x0 : Vec F S128x216 .f32) (x1 : Vec F S128x72 .f32) : FVec F S128 .f32 := k0_pay274 (s3 x0 x1)
def s525 (x0 : Vec F S128x216 .f32) (x1 : Vec F S128x72 .f32) : FVec F S128 .f32 := k0_pay275 (s3 x0 x1)
def s257 (x0 : Vec F S128x216 .f32) (x1 : Vec F S128x72 .f32) : FVec F S128 .f32 := k0_pay137 (s1 x0 x1)
def s263 (x0 : Vec F S128x216 .f32) (x1 : Vec F S128x72 .f32) : FVec F S128 .f32 := k0_pay140 (s1 x0 x1)
def s269 (x0 : Vec F S128x216 .f32) (x1 : Vec F S128x72 .f32) : FVec F S128 .f32 := k0_pay143 (s1 x0 x1)
def s1786 (x0 : Vec F S128x216 .f32) (x1 : Vec F S128x72 .f32) : FVec F S128 .f32 := k0_pay554 (s257 x0 x1) (s263 x0 x1) (s269 x0 x1) (s1351 x0 x1) (s1358 x0 x1) (s1365 x0 x1)
def s259 (x0 : Vec F S128x216 .f32) (x1 : Vec F S128x72 .f32) : FVec F S128 .f32 := k0_pay138 (s1 x0 x1)
def s265 (x0 : Vec F S128x216 .f32) (x1 : Vec F S128x72 .f32) : FVec F S128 .f32 := k0_pay141 (s1 x0 x1)
def s271 (x0 : Vec F S128x216 .f32) (x1 : Vec F S128x72 .f32) : FVec F S128 .f32 := k0_pay144 (s1 x0 x1)
def s1793 (x0 : Vec F S128x216 .f32) (x1 : Vec F S128x72 .f32) : FVec F S128 .f32 := k0_pay555 (s259 x0 x1) (s265 x0 x1) (s271 x0 x1) (s1351 x0 x1) (s1358 x0 x1) (s1365 x0 x1)
def s261 (x0 : Vec F S128x216 .f32) (x1 : Vec F S128x72 .f32) : FVec F S128 .f32 := k0_pay139 (s1 x0 x1)
def s267 (x0 : Vec F S128x216 .f32) (x1 : Vec F S128x72 .f32) : FVec F S128 .f32 := k0_pay142 (s1 x0 x1)
def s273 (x0 : Vec F S128x216 .f32) (x1 : Vec F S128x72 .f32) : FVec F S128 .f32 := k0_pay145 (s1 x0 x1)
def s1800 (x0 : Vec F S128x216 .f32) (x1 : Vec F S128x72 .f32) : FVec F S128 .f32 := k0_pay556 (s261 x0 x1) (s267 x0 x1) (s273 x0 x1) (s1351 x0 x1) (s1358 x0 x1) (s1365 x0 x1)
def s1807 (x0 : Vec F S128x216 .f32) (x1 : Vec F S128x72 .f32) : FVec F S128 .f32 := k0_pay557 (s257 x0 x1) (s263 x0 x1) (s269 x0 x1) (s1372 x0 x1) (s1379 x0 x1) (s1386 x0 x1)
def s1812 (x0 : Vec F S128x216 .f32) (x1 : Vec F S128x72 .f32) : FVec F S128 .f32 := k0_pay558 (s259 x0 x1) (s265 x0 x1) (s1372 x0 x1) (s1379 x0 x1)
def s1813 (x0 : Vec F S128x216 .f32) (x1 : Vec F S128x72 .f32) : FVec F S128 .f32 := k0_pay559 (s271 x0 x1) (s1386 x0 x1)
def s1814 (x0 : Vec F S128x216 .f32) (x1 : Vec F S128x72 .f32) : FVec F S128 .f32 := k0_pay560 (s1812 x0 x1) (s1813 x0 x1)
def s1821 (x0 : Vec F S128x216 .f32) (x1 : Vec F S128x72 .f32) : FVec F S128 .f32 := k0_pay561 (s261 x0 x1) (s267 x0 x1) (s273 x0 x1) (s1372 x0 x1) (s1379 x0 x1) (s1386 x0 x1)
def s1828 (x0 : Vec F S128x216 .f32) (x1 : Vec F S128x72 .f32) : FVec F S128 .f32 := k0_pay562 (s257 x0 x1) (s263 x0 x1) (s269 x0 x1) (s1393 x0 x1) (s1400 x0 x1) (s1407 x0 x1)
def s1835 (x0 : Vec F S128x216 .f32) (x1 : Vec F S128x72 .f32) : FVec F S128 .f32 := k0_pay563 (s259 x0 x1) (s265 x0 x1) (s271 x0 x1) (s1393 x0 x1) (s1400 x0 x1) (s1407 x0 x1)
def s1842 (x0 : Vec F S128x216 .f32) (x1 : Vec F S128x72 .f32) : FVec F S128 .f32 := k0_pay564 (s261 x0 x1) (s267 x0 x1) (s273 x0 x1) (s1393 x0 x1) (s1400 x0 x1) (s1407 x0 x1)
def s619 (x0 : Vec F S128x216 .f32) (x1 : Vec F S128x72 .f32) : FVec F S128 .f32 := k0_pay343 (s491 x0 x1) (s521 x0 x1)
def s620 (x0 : Vec F S128x216 .f32) (x1 : Vec F S128x72 .f32) : FVec F S128 .f32 := k0_pay344 (s493 x0 x1) (s523 x0 x1)
def s621 (x0 : Vec F S128x216 .f32) (x1 : Vec F S128x72 .f32) : FVec F S128 .f32 := k0_pay345 (s495 x0 x1) (s525 x0 x1)
def s1850 (x0 : Vec F S128x216 .f32) (x1 : Vec F S128x72 .f32) : FVec F S128 .f32 := k0_pay565 (s619 x0 x1) (s620 x0 x1) (s621 x0 x1) (s1351 x0 x1) (s1358 x0 x1) (s1365 x0 x1) (s1415 x0 x1)
def s1858 (x0 : Vec F S128x216 .f32) (x1 : Vec F S128x72 .f32) : FVec F S128 .f32 := k0_pay566 (s619 x0 x1) (s620 x0 x1) (s621 x0 x1) (s1372 x0 x1) (s1379 x0 x1) (s1386 x0 x1) (s1423 x0 x1)
def s1866 (x0 : Vec F S128x216 .f32) (x1 : Vec F S128x72 .f32) : FVec F S128 .f32 := k0_pay567 (s619 x0 x1) (s620 x0 x1) (s621 x0 x1) (s1393 x0 x1) (s1400 x0 x1) (s1407 x0 x1) (s1431 x0 x1)
def s3322 (x0 : Vec F S128x216 .f32) (x1 : Vec F S128x72 .f32) : FVec F S128x16 .f32 := k0_pay792 (s521 x0 x1) (s523 x0 x1) (s525 x0 x1) (s1786 x0 x1) (s1793 x0 x1) (s1800 x0 x1) (s1807 x0 x1) (s1814 x0 x1) (s1821 x0 x1) (s1828 x0 x1) (s1835 x0 x1) (s1842 x0 x1) (s1850 x0 x1) (s1858 x0 x1) (s1866 x0 x1) (s2650 x0 x1) (s2651 x0 x1)
def s527 (x0 : Vec F S128x216 .f32) (x1 : Vec F S128x72 .f32) : FVec F S128 .f32 := k0_pay276 (s3 x0 x1)
def s529 (x0 : Vec F S128x216 .f32) (x1 : Vec F S128x72 .f32) : FVec F S128 .f32 := k0_pay277 (s3 x0 x1)
def s531 (x0 : Vec F S128x216 .f32) (x1 : Vec F S128x72 .f32) : FVec F S128 .f32 := k0_pay278 (s3 x0 x1)
def s275 (x0 : Vec F S128x216 .f32) (x1 : Vec F S128x72 .f32) : FVec F S128 .f32 := k0_pay146 (s1 x0 x1)
def s281 (x0 : Vec F S128x216 .f32) (x1 : Vec F S128x72 .f32) : FVec F S128 .f32 := k0_pay149 (s1 x0 x1)
def s287 (x0 : Vec F S128x216 .f32) (x1 : Vec F S128x72 .f32) : FVec F S128 .f32 := k0_pay152 (s1 x0 x1)
def s1873 (x0 : Vec F S128x216 .f32) (x1 : Vec F S128x72 .f32) : FVec F S128 .f32 := k0_pay568 (s275 x0 x1) (s281 x0 x1) (s287 x0 x1) (s1612 x0 x1) (s1619 x0 x1) (s1626 x0 x1)
def s277 (x0 : Vec F S128x216 .f32) (x1 : Vec F S128x72 .f32) : FVec F S128 .f32 := k0_pay147 (s1 x0 x1)
def s283 (x0 : Vec F S128x216 .f32) (x1 : Vec F S128x72 .f32) : FVec F S128 .f32 := k0_pay150 (s1 x0 x1)
def s289 (x0 : Vec F S128x216 .f32) (x1 : Vec F S128x72 .f32) : FVec F S128 .f32 := k0_pay153 (s1 x0 x1)
def s1880 (x0 : Vec F S128x216 .f32) (x1 : Vec F S128x72 .f32) : FVec F S128 .f32 := k0_pay569 (s277 x0 x1) (s283 x0 x1) (s289 x0 x1) (s1612 x0 x1) (s1619 x0 x1) (s1626 x0 x1)
def s279 (x0 : Vec F S128x216 .f32) (x1 : Vec F S128x72 .f32) : FVec F S128 .f32 := k0_pay148 (s1 x0 x1)
def s285 (x0 : Vec F S128x216 .f32) (x1 : Vec F S128x72 .f32) : FVec F S128 .f32 := k0_pay151 (s1 x0 x1)
def s291 (x0 : Vec F S128x216 .f32) (x1 : Vec F S128x72 .f32) : FVec F S128 .f32 := k0_pay154 (s1 x0 x1)
def s1887 (x0 : Vec F S128x216 .f32) (x1 : Vec F S128x72 .f32) : FVec F S128 .f32 := k0_pay570 (s279 x0 x1) (s285 x0 x1) (s291 x0 x1) (s1612 x0 x1) (s1619 x0 x1) (s1626 x0 x1)
def s1894 (x0 : Vec F S128x216 .f32) (x1 : Vec F S128x72 .f32) : FVec F S128 .f32 := k0_pay571 (s275 x0 x1) (s281 x0 x1) (s287 x0 x1) (s1633 x0 x1) (s1640 x0 x1) (s1647 x0 x1)
def s1901 (x0 : Vec F S128x216 .f32) (x1 : Vec F S128x72 .f32) : FVec F S128 .f32 := k0_pay572 (s277 x0 x1) (s283 x0 x1) (s289 x0 x1) (s1633 x0 x1) (s1640 x0 x1) (s1647 x0 x1)
def s1908 (x0 : Vec F S128x216 .f32) (x1 : Vec F S128x72 .f32) : FVec F S128 .f32 := k0_pay573 (s279 x0 x1) (s285 x0 x1) (s291 x0 x1) (s1633 x0 x1) (s1640 x0 x1) (s1647 x0 x1)
def s1915 (x0 : Vec F S128x216 .f32) (x1 : Vec F S128x72 .f32) : FVec F S128 .f32 := k0_pay574 (s275 x0 x1) (s281 x0 x1) (s287 x0 x1) (s1654 x0 x1) (s1661 x0 x1) (s1668 x0 x1)
def s1918 (x0 : Vec F S128x216 .f32) (x1 : Vec F S128x72 .f32) : FVec F S128 .f32 := k0_pay575 (s277 x0 x1) (s1654 x0 x1)
def s1922 (x0 : Vec F S128x216 .f32) (x1 : Vec F S128x72 .f32) : FVec F S128 .f32 := k0_pay576 (s283 x0 x1) (s289 x0 x1) (s1661 x0 x1) (s1668 x0 x1) (s1918 x0 x1)
def s1929 (x0 : Vec F S128x216 .f32) (x1 : Vec F S128x72 .f32) : FVec F S128 .f32 := k0_pay577 (s279 x0 x1) (s285 x0 x1) (s291 x0 x1) (s1654 x0 x1) (s1661 x0 x1) (s1668 x0 x1)
def s622 (x0 : Vec F S128x216 .f32) (x1 : Vec F S128x72 .f32) : FVec F S128 .f32 := k0_pay346 (s509 x0 x1) (s527 x0 x1)
def s623 (x0 : Vec F S128x216 .f32) (x1 : Vec F S128x72 .f32) : FVec F S128 .f32 := k0_pay347 (s511 x0 x1) (s529 x0 x1)
def s624 (x0 : Vec F S128x216 .f32) (x1 : Vec F S128x72 .f32) : FVec F S128 .f32 := k0_pay348 (s513 x0 x1) (s531 x0 x1)
def s1937 (x0 : Vec F S128x216 .f32) (x1 : Vec F S128x72 .f32) : FVec F S128 .f32 := k0_pay578 (s622 x0 x1) (s623 x0 x1) (s624 x0 x1) (s1612 x0 x1) (s1619 x0 x1) (s1626 x0 x1) (s1676 x0 x1)
def s1945 (x0 : Vec F S128x216 .f32) (x1 : Vec F S128x72 .f32) : FVec F S128 .f32 := k0_pay579 (s622 x0 x1) (s623 x0 x1) (s624 x0 x1) (s1633 x0 x1) (s1640 x0 x1) (s1647 x0 x1) (s1684 x0 x1)
def s1953 (x0 : Vec F S128x216 .f32) (x1 : Vec F S128x72 .f32) : FVec F S128 .f32 := k0_pay580 (s622 x0 x1) (s623 x0 x1) (s624 x0 x1) (s1654 x0 x1) (s1661 x0 x1) (s1668 x0 x1) (s1692 x0 x1)
def s3329 (x0 : Vec F S128x216 .f32) (x1 : Vec F S128x72 .f32) : FVec F S128 .f32 := k0_pay794 (s527 x0 x1) (s1873 x0 x1)
def s3330 (x0 : Vec F S128x216 .f32) (x1 : Vec F S128x72 .f32) : FVec F S128 .f32 := k0_pay795 (s529 x0 x1) (s1880 x0 x1)
def s3367 (x0 : Vec F S128x216 .f32) (x1 : Vec F S128x72 .f32) : FVec F S128x16 .f32 := k0_pay796 (s527 x0 x1) (s529 x0 x1) (s531 x0 x1) (s1873 x0 x1) (s1880 x0 x1) (s1887 x0 x1) (s1894 x0 x1) (s1901 x0 x1) (s1908 x0 x1) (s1915 x0 x1) (s1922 x0 x1) (s1929 x0 x1) (s1937 x0 x1) (s1945 x0 x1) (s1953 x0 x1) (s2650 x0 x1) (s2651 x0 x1) (s3329 x0 x1) (s3330 x0 x1)
def s533 (x0 : Vec F S128x216 .f32) (x1 : Vec F S128x72 .f32) : FVec F S128 .f32 := k0_pay279 (s3 x0 x1)
def s534 (x0 : Vec F S128x216 .f32) (x1 : Vec F S128x72 .f32) : FVec F S128x1 .f32 := k0_pay280 (s3 x0 x1)
def s535 (x0 : Vec F S128x216 .f32) (x1 : Vec F S128x72 .f32) : FVec F S128 .f32 := k0_pay281 (s534 x0 x1)
def s537 (x0 : Vec F S128x216 .f32) (x1 : Vec F S128x72 .f32) : FVec F S128 .f32 := k0_pay282 (s3 x0 x1)
def s293 (x0 : Vec F S128x216 .f32) (x1 : Vec F S128x72 .f32) : FVec F S128 .f32 := k0_pay155 (s1 x0 x1)
def s299 (x0 : Vec F S128x216 .f32) (x1 : Vec F S128x72 .f32) : FVec F S128 .f32 := k0_pay159 (s1 x0 x1)
def s305 (x0 : Vec F S128x216 .f32) (x1 : Vec F S128x72 .f32) : FVec F S128 .f32 := k0_pay162 (s1 x0 x1)
def s1960 (x0 : Vec F S128x216 .f32) (x1 : Vec F S128x72 .f32) : FVec F S128 .f32 := k0_pay581 (s293 x0 x1) (s299 x0 x1) (s305 x0 x1) (s1699 x0 x1) (s1706 x0 x1) (s1713 x0 x1)
def s294 (x0 : Vec F S128x216 .f32) (x1 : Vec F S128x72 .f32) : FVec F S128x1 .f32 := k0_pay156 (s1 x0 x1)
def s295 (x0 : Vec F S128x216 .f32) (x1 : Vec F S128x72 .f32) : FVec F S128 .f32 := k0_pay157 (s294 x0 x1)
def s301 (x0 : Vec F S128x216 .f32) (x1 : Vec F S128x72 .f32) : FVec F S128 .f32 := k0_pay160 (s1 x0 x1)
def s307 (x0 : Vec F S128x216 .f32) (x1 : Vec F S128x72 .f32) : FVec F S128 .f32 := k0_pay163 (s1 x0 x1)
def s1967 (x0 : Vec F S128x216 .f32) (x1 : Vec F S128x72 .f32) : FVec F S128 .f32 := k0_pay582 (s295 x0 x1) (s301 x0 x1) (s307 x0 x1) (s1699 x0 x1) (s1706 x0 x1) (s1713 x0 x1)
def s309 (x0 : Vec F S128x216 .f32) (x1 : Vec F S128x72 .f32) : FVec F S128 .f32 := k0_pay164 (s1 x0 x1)
def s297 (x0 : Vec F S128x216 .f32) (x1 : Vec F S128x72 .f32) : FVec F S128 .f32 := k0_pay158 (s1 x0 x1)
def s1970 (x0 : Vec F S128x216 .f32) (x1 : Vec F S128x72 .f32) : FVec F S128 .f32 := k0_pay583 (s297 x0 x1) (s1699 x0 x1)
def s303 (x0 : Vec F S128x216 .f32) (x1 : Vec F S128x72 .f32) : FVec F S128 .f32 := k0_pay161 (s1 x0 x1)
def s1971 (x0 : Vec F S128x216 .f32) (x1 : Vec F S128x72 .f32) : FVec F S128 .f32 := k0_pay584 (s303 x0 x1) (s1706 x0 x1)
def s1974 (x0 : Vec F S128x216 .f32) (x1 : Vec F S128x72 .f32) : FVec F S128 .f32 := k0_pay585 (s309 x0 x1) (s1713 x0 x1) (s1970 x0 x1) (s1971 x0 x1)
def s1981 (x0 : Vec F S128x216 .f32) (x1 : Vec F S128x72 .f32) : FVec F S128 .f32 := k0_pay586 (s293 x0 x1) (s299 x0 x1) (s305 x0 x1) (s1720 x0 x1) (s1727 x0 x1) (s1734 x0 x1)
def s1988 (x0 : Vec F S128x216 .f32) (x1 : Vec F S128x72 .f32) : FVec F S128 .f32 := k0_pay587 (s295 x0 x1) (s301 x0 x1) (s307 x0 x1) (s1720 x0 x1) (s1727 x0 x1) (s1734 x0 x1)
def s1995 (x0 : Vec F S128x216 .f32) (x1 : Vec F S128x72 .f32) : FVec F S128 .f32 := k0_pay588 (s297 x0 x1) (s303 x0 x1) (s309 x0 x1) (s1720 x0 x1) (s1727 x0 x1) (s1734 x0 x1)
def s2002 (x0 : Vec F S128x216 .f32) (x1 : Vec F S128x72 .f32) : FVec F S128 .f32 := k0_pay589 (s293 x0 x1) (s299 x0 x1) (s305 x0 x1) (s1741 x0 x1) (s1748 x0 x1) (s1755 x0 x1)
def s2009 (x0 : Vec F S128x216 .f32) (x1 : Vec F S128x72 .f32) : FVec F S128 .f32 := k0_pay590 (s295 x0 x1) (s301 x0 x1) (s307 x0 x1) (s1741 x0 x1) (s1748 x0 x1) (s1755 x0 x1)
def s2016 (x0 : Vec F S128x216 .f32) (x1 : Vec F S128x72 .f32) : FVec F S128 .f32 := k0_pay591 (s297 x0 x1) (s303 x0 x1) (s309 x0 x1) (s1741 x0 x1) (s1748 x0 x1) (s1755 x0 x1)
def s625 (x0 : Vec F S128x216 .f32) (x1 : Vec F S128x72 .f32) : FVec F S128 .f32 := k0_pay349 (s515 x0 x1) (s533 x0 x1)
def s626 (x0 : Vec F S128x216 .f32) (x1 : Vec F S128x72 .f32) : FVec F S128 .f32 := k0_pay350 (s517 x0 x1) (s535 x0 x1)
def s627 (x0 : Vec F S128x216 .f32) (x1 : Vec F S128x72 .f32) : FVec F S128 .f32 := k0_pay351 (s519 x0 x1) (s537 x0 x1)
def s2032 (x0 : Vec F S128x216 .f32) (x1 : Vec F S128x72 .f32) : FVec F S128 .f32 := k0_pay593 (s625 x0 x1) (s626 x0 x1) (s627 x0 x1) (s1720 x0 x1) (s1727 x0 x1) (s1734 x0 x1) (s1771 x0 x1)
def s2040 (x0 : Vec F S128x216 .f32) (x1 : Vec F S128x72 .f32) : FVec F S128 .f32 := k0_pay594 (s625 x0 x1) (s626 x0 x1) (s627 x0 x1) (s1741 x0 x1) (s1748 x0 x1) (s1755 x0 x1) (s1779 x0 x1)
def s2024 (x0 : Vec F S128x216 .f32) (x1 : Vec F S128x72 .f32) : FVec F S128 .f32 := k0_pay592 (s625 x0 x1) (s626 x0 x1) (s627 x0 x1) (s1699 x0 x1) (s1706 x0 x1) (s1713 x0 x1) (s1763 x0 x1)
def s3379 (x0 : Vec F S128x216 .f32) (x1 : Vec F S128x72 .f32) : FVec F S128 .f32 := k0_pay798 (s533 x0 x1) (s535 x0 x1) (s537 x0 x1) (s1960 x0 x1) (s1967 x0 x1) (s1974 x0 x1) (s2024 x0 x1)
def s3386 (x0 : Vec F S128x216 .f32) (x1 : Vec F S128x72 .f32) : FVec F S128 .f32 := k0_pay799 (s533 x0 x1) (s535 x0 x1) (s537 x0 x1) (s1981 x0 x1) (s1988 x0 x1) (s1995 x0 x1)
def s3412 (x0 : Vec F S128x216 .f32) (x1 : Vec F S128x72 .f32) : FVec F S128x16 .f32 := k0_pay800 (s533 x0 x1) (s535 x0 x1) (s537 x0 x1) (s1960 x0 x1) (s1967 x0 x1) (s1974 x0 x1) (s1981 x0 x1) (s1988 x0 x1) (s1995 x0 x1) (s2002 x0 x1) (s2009 x0 x1) (s2016 x0 x1) (s2032 x0 x1) (s2040 x0 x1) (s2650 x0 x1) (s2651 x0 x1) (s3379 x0 x1) (s3386 x0 x1)
def s315 (x0 : Vec F S128x216 .f32) (x1 : Vec F S128x72 .f32) : FVec F S128 .f32 := k0_pay167 (s1 x0 x1)
def s321 (x0 : Vec F S128x216 .f32) (x1 : Vec F S128x72 .f32) : FVec F S128 .f32 := k0_pay170 (s1 x0 x1)
def s327 (x0 : Vec F S128x216 .f32) (x1 : Vec F S128x72 .f32) : FVec F S128 .f32 := k0_pay173 (s1 x0 x1)
def s2061 (x0 : Vec F S128x216 .f32) (x1 : Vec F S128x72 .f32) : FVec F S128 .f32 := k0_pay597 (s315 x0 x1) (s321 x0 x1) (s327 x0 x1) (s1786 x0 x1) (s1793 x0 x1) (s1800 x0 x1)
def s311 (x0 : Vec F S128x216 .f32) (x1 : Vec F S128x72 .f32) : FVec F S128 .f32 := k0_pay165 (s1 x0 x1)
def s317 (x0 : Vec F S128x216 .f32) (x1 : Vec F S128x72 .f32) : FVec F S128 .f32 := k0_pay168 (s1 x0 x1)
def s323 (x0 : Vec F S128x216 .f32) (x1 : Vec F S128x72 .f32) : FVec F S128 .f32 := k0_pay171 (s1 x0 x1)
def s2068 (x0 : Vec F S128x216 .f32) (x1 : Vec F S128x72 .f32) : FVec F S128 .f32 := k0_pay598 (s311 x0 x1) (s317 x0 x1) (s323 x0 x1) (s1807 x0 x1) (s1814 x0 x1) (s1821 x0 x1)
def s313 (x0 : Vec F S128x216 .f32) (x1 : Vec F S128x72 .f32) : FVec F S128 .f32 := k0_pay166 (s1 x0 x1)
def s319 (x0 : Vec F S128x216 .f32) (x1 : Vec F S128x72 .f32) : FVec F S128 .f32 := k0_pay169 (s1 x0 x1)
def s325 (x0 : Vec F S128x216 .f32) (x1 : Vec F S128x72 .f32) : FVec F S128 .f32 := k0_pay172 (s1 x0 x1)
def s2075 (x0 : Vec F S128x216 .f32) (x1 : Vec F S128x72 .f32) : FVec F S128 .f32 := k0_pay599 (s313 x0 x1) (s319 x0 x1) (s325 x0 x1) (s1807 x0 x1) (s1814 x0 x1) (s1821 x0 x1)
def s2076 (x0 : Vec F S128x216 .f32) (x1 : Vec F S128x72 .f32) : FVec F S128 .f32 := k0_pay600 (s315 x0 x1) (s1807 x0 x1)
def s2082 (x0 : Vec F S128x216 .f32) (x1 : Vec F S128x72 .f32) : FVec F S128 .f32 := k0_pay601 (s321 x0 x1) (s327 x0 x1) (s1814 x0 x1) (s1821 x0 x1) (s2076 x0 x1) (Scalar.ofBits .f32 0x00000000#32)
def s2089 (x0 : Vec F S128x216 .f32) (x1 : Vec F S128x72 .f32) : FVec F S128 .f32 := k0_pay602 (s311 x0 x1) (s317 x0 x1) (s323 x0 x1) (s1828 x0 x1) (s1835 x0 x1) (s1842 x0 x1)
def s2096 (x0 : Vec F S128x216 .f32) (x1 : Vec F S128x72 .f32) : FVec F S128 .f32 := k0_pay603 (s313 x0 x1) (s319 x0 x1) (s325 x0 x1) (s1828 x0 x1) (s1835 x0 x1) (s1842 x0 x1)
def s2103 (x0 : Vec F S128x216 .f32) (x1 : Vec F S128x72 .f32) : FVec F S128 .f32 := k0_pay604 (s315 x0 x1) (s321 x0 x1) (s327 x0 x1) (s1828 x0 x1) (s1835 x0 x1) (s1842 x0 x1)
def s539 (x0 : Vec F S128x216 .f32) (x1 : Vec F S128x72 .f32) : FVec F S128 .f32 := k0_pay283 (s3 x0 x1)
def s541 (x0 : Vec F S128x216 .f32) (x1 : Vec F S128x72 .f32) : FVec F S128 .f32 := k0_pay284 (s3 x0 x1)
def s543 (x0 : Vec F S128x216 .f32) (x1 : Vec F S128x72 .f32) : FVec F S128 .f32 := k0_pay285 (s3 x0 x1)
def s2047 (x0 : Vec F S128x216 .f32) (x1 : Vec F S128x72 .f32) : FVec F S128 .f32 := k0_pay595 (s311 x0 x1) (s317 x0 x1) (s323 x0 x1) (s1786 x0 x1) (s1793 x0 x1) (s1800 x0 x1)
def s2054 (x0 : Vec F S128x216 .f32) (x1 : Vec F S128x72 .f32) : FVec F S128 .f32 := k0_pay596 (s313 x0 x1) (s319 x0 x1) (s325 x0 x1) (s1786 x0 x1) (s1793 x0 x1) (s1800 x0 x1)
def s628 (x0 : Vec F S128x216 .f32) (x1 : Vec F S128x72 .f32) : FVec F S128 .f32 := k0_pay352 (s521 x0 x1) (s539 x0 x1)
def s629 (x0 : Vec F S128x216 .f32) (x1 : Vec F S128x72 .f32) : FVec F S128 .f32 := k0_pay353 (s523 x0 x1) (s541 x0 x1)
def s630 (x0 : Vec F S128x216 .f32) (x1 : Vec F S128x72 .f32) : FVec F S128 .f32 := k0_pay354 (s525 x0 x1) (s543 x0 x1)
def s2111 (x0 : Vec F S128x216 .f32) (x1 : Vec F S128x72 .f32) : FVec F S128 .f32 := k0_pay605 (s628 x0 x1) (s629 x0 x1) (s630 x0 x1) (s1786 x0 x1) (s1793 x0 x1) (s1800 x0 x1) (s1850 x0 x1)
def s3424 (x0 : Vec F S128x216 .f32) (x1 : Vec F S128x72 .f32) : FVec F S128 .f32 := k0_pay802 (s539 x0 x1) (s541 x0 x1) (s543 x0 x1) (s2047 x0 x1) (s2054 x0 x1) (s2061 x0 x1) (s2111 x0 x1)
def s2119 (x0 : Vec F S128x216 .f32) (x1 : Vec F S128x72 .f32) : FVec F S128 .f32 := k0_pay606 (s628 x0 x1) (s629 x0 x1) (s630 x0 x1) (s1807 x0 x1) (s1814 x0 x1) (s1821 x0 x1) (s1858 x0 x1)
def s3432 (x0 : Vec F S128x216 .f32) (x1 : Vec F S128x72 .f32) : FVec F S128 .f32 := k0_pay803 (s539 x0 x1) (s541 x0 x1) (s543 x0 x1) (s2068 x0 x1) (s2075 x0 x1) (s2082 x0 x1) (s2119 x0 x1)
def s2127 (x0 : Vec F S128x216 .f32) (x1 : Vec F S128x72 .f32) : FVec F S128 .f32 := k0_pay607 (s628 x0 x1) (s629 x0 x1) (s630 x0 x1) (s1828 x0 x1) (s1835 x0 x1) (s1842 x0 x1) (s1866 x0 x1)
def s3440 (x0 : Vec F S128x216 .f32) (x1 : Vec F S128x72 .f32) : FVec F S128 .f32 := k0_pay804 (s539 x0 x1) (s541 x0 x1) (s543 x0 x1) (s2089 x0 x1) (s2096 x0 x1) (s2103 x0 x1) (s2127 x0 x1)
def s3441 (x0 : Vec F S128x216 .f32) (x1 : Vec F S128x72 .f32) : FVec F S128x1 .f32 := k0_pay805 (s2047 x0 x1)
def s3442 (x0 : Vec F S128x216 .f32) (x1 : Vec F S128x72 .f32) : FVec F S128x1 .f32 := k0_pay806 (s2054 x0 x1)
def s3457 (x0 : Vec F S128x216 .f32) (x1 : Vec F S128x72 .f32) : FVec F S128x16 .f32 := k0_pay807 (s2061 x0 x1) (s2068 x0 x1) (s2075 x0 x1) (s2082 x0 x1) (s2089 x0 x1) (s2096 x0 x1) (s2103 x0 x1) (s2650 x0 x1) (s2651 x0 x1) (s3424 x0 x1) (s3432 x0 x1) (s3440 x0 x1) (s3441 x0 x1) (s3442 x0 x1)
def s335 (x0 : Vec F S128x216 .f32) (x1 : Vec F S128x72 .f32) : FVec F S128 .f32 := k0_pay177 (s1 x0 x1)
def s341 (x0 : Vec F S128x216 .f32) (x1 : Vec F S128x72 .f32) : FVec F S128 .f32 := k0_pay180 (s1 x0 x1)
def s329 (x0 : Vec F S128x216 .f32) (x1 : Vec F S128x72 .f32) : FVec F S128 .f32 := k0_pay174 (s1 x0 x1)
def s2128 (x0 : Vec F S128x216 .f32) (x1 : Vec F S128x72 .f32) : FVec F S128 .f32 := k0_pay608 (s329 x0 x1) (s1960 x0 x1)
def s2129 (x0 : Vec F S128x216 .f32) (x1 : Vec F S128x72 .f32) : FVec F S128 .f32 := k0_pay609
def s2134 (x0 : Vec F S128x216 .f32) (x1 : Vec F S128x72 .f32) : FVec F S128 .f32 := k0_pay610 (s335 x0 x1) (s341 x0 x1) (s1967 x0 x1) (s1974 x0 x1) (s2128 x0 x1) (s2129 x0 x1)
def s3486 (x0 : Vec F S128x216 .f32) (x1 : Vec F S128x72 .f32) : FVec F S128x1 .f32 := k0_pay809 (s2134 x0 x1)
def s331 (x0 : Vec F S128x216 .f32) (x1 : Vec F S128x72 .f32) : FVec F S128 .f32 := k0_pay175 (s1 x0 x1)
def s337 (x0 : Vec F S128x216 .f32) (x1 : Vec F S128x72 .f32) : FVec F S128 .f32 := k0_pay178 (s1 x0 x1)
def s343 (x0 : Vec F S128x216 .f32) (x1 : Vec F S128x72 .f32) : FVec F S128 .f32 := k0_pay181 (s1 x0 x1)
def s2141 (x0 : Vec F S128x216 .f32) (x1 : Vec F S128x72 .f32) : FVec F S128 .f32 := k0_pay611 (s331 x0 x1) (s337 x0 x1) (s343 x0 x1) (s1960 x0 x1) (s1967 x0 x1) (s1974 x0 x1)
def s3487 (x0 : Vec F S128x216 .f32) (x1 : Vec F S128x72 .f32) : FVec F S128x1 .f32 := k0_pay810 (s2141 x0 x1)
def s333 (x0 : Vec F S128x216 .f32) (x1 : Vec F S128x72 .f32) : FVec F S128 .f32 := k0_pay176 (s1 x0 x1)
def s339 (x0 : Vec F S128x216 .f32) (x1 : Vec F S128x72 .f32) : FVec F S128 .f32 := k0_pay179 (s1 x0 x1)
def s345 (x0 : Vec F S128x216 .f32) (x1 : Vec F S128x72 .f32) : FVec F S128 .f32 := k0_pay182 (s1 x0 x1)
def s2148 (x0 : Vec F S128x216 .f32) (x1 : Vec F S128x72 .f32) : FVec F S128 .f32 := k0_pay612 (s333 x0 x1) (s339 x0 x1) (s345 x0 x1) (s1960 x0 x1) (s1967 x0 x1) (s1974 x0 x1)
def s3488 (x0 : Vec F S128x216 .f32) (x1 : Vec F S128x72 .f32) : FVec F S128x1 .f32 := k0_pay811 (s2148 x0 x1)
def s545 (x0 : Vec F S128x216 .f32) (x1 : Vec F S128x72 .f32) : FVec F S128 .f32 := k0_pay286 (s3 x0 x1)
def s547 (x0 : Vec F S128x216 .f32) (x1 : Vec F S128x72 .f32) : FVec F S128 .f32 := k0_pay287 (s3 x0 x1)
def s549 (x0 : Vec F S128x216 .f32) (x1 : Vec F S128x72 .f32) : FVec F S128 .f32 := k0_pay288 (s3 x0 x1)
def s631 (x0 : Vec F S128x216 .f32) (x1 : Vec F S128x72 .f32) : FVec F S128 .f32 := k0_pay355 (s533 x0 x1) (s545 x0 x1)
def s632 (x0 : Vec F S128x216 .f32) (x1 : Vec F S128x72 .f32) : FVec F S128 .f32 := k0_pay356 (s535 x0 x1) (s547 x0 x1)
def s633 (x0 : Vec F S128x216 .f32) (x1 : Vec F S128x72 .f32) : FVec F S128 .f32 := k0_pay357 (s537 x0 x1) (s549 x0 x1)
def s2198 (x0 : Vec F S128x216 .f32) (x1 : Vec F S128x72 .f32) : FVec F S128 .f32 := k0_pay621 (s631 x0 x1) (s632 x0 x1) (s633 x0 x1) (s1960 x0 x1) (s1967 x0 x1) (s1974 x0 x1) (s2024 x0 x1)
def s3489 (x0 : Vec F S128x216 .f32) (x1 : Vec F S128x72 .f32) : FVec F S128x1 .f32 := k0_pay812 (s545 x0 x1) (s547 x0 x1) (s549 x0 x1) (s2134 x0 x1) (s2141 x0 x1) (s2148 x0 x1) (s2198 x0 x1)
def s2155 (x0 : Vec F S128x216 .f32) (x1 : Vec F S128x72 .f32) : FVec F S128 .f32 := k0_pay613 (s329 x0 x1) (s335 x0 x1) (s341 x0 x1) (s1981 x0 x1) (s1988 x0 x1) (s1995 x0 x1)
def s3490 (x0 : Vec F S128x216 .f32) (x1 : Vec F S128x72 .f32) : FVec F S128x1 .f32 := k0_pay813 (s2155 x0 x1)
def s2162 (x0 : Vec F S128x216 .f32) (x1 : Vec F S128x72 .f32) : FVec F S128 .f32 := k0_pay614 (s331 x0 x1) (s337 x0 x1) (s343 x0 x1) (s1981 x0 x1) (s1988 x0 x1) (s1995 x0 x1)
def s3491 (x0 : Vec F S128x216 .f32) (x1 : Vec F S128x72 .f32) : FVec F S128x1 .f32 := k0_pay814 (s2162 x0 x1)
def s2169 (x0 : Vec F S128x216 .f32) (x1 : Vec F S128x72 .f32) : FVec F S128 .f32 := k0_pay615 (s333 x0 x1) (s339 x0 x1) (s345 x0 x1) (s1981 x0 x1) (s1988 x0 x1) (s1995 x0 x1)
def s3492 (x0 : Vec F S128x216 .f32) (x1 : Vec F S128x72 .f32) : FVec F S128x1 .f32 := k0_pay815 (s2169 x0 x1)
def s2206 (x0 : Vec F S128x216 .f32) (x1 : Vec F S128x72 .f32) : FVec F S128 .f32 := k0_pay622 (s631 x0 x1) (s632 x0 x1) (s633 x0 x1) (s1981 x0 x1) (s1988 x0 x1) (s1995 x0 x1) (s2032 x0 x1)
def s3493 (x0 : Vec F S128x216 .f32) (x1 : Vec F S128x72 .f32) : FVec F S128x1 .f32 := k0_pay816 (s545 x0 x1) (s547 x0 x1) (s549 x0 x1) (s2155 x0 x1) (s2162 x0 x1) (s2169 x0 x1) (s2206 x0 x1)
def s2176 (x0 : Vec F S128x216 .f32) (x1 : Vec F S128x72 .f32) : FVec F S128 .f32 := k0_pay616 (s329 x0 x1) (s335 x0 x1) (s341 x0 x1) (s2002 x0 x1) (s2009 x0 x1) (s2016 x0 x1)
def s3494 (x0 : Vec F S128x216 .f32) (x1 : Vec F S128x72 .f32) : FVec F S128x1 .f32 := k0_pay817 (s2176 x0 x1)
def s2181 (x0 : Vec F S128x216 .f32) (x1 : Vec F S128x72 .f32) : FVec F S128 .f32 := k0_pay617 (s331 x0 x1) (s337 x0 x1) (s2002 x0 x1) (s2009 x0 x1)
def s2182 (x0 : Vec F S128x216 .f32) (x1 : Vec F S128x72 .f32) : FVec F S128 .f32 := k0_pay618 (s343 x0 x1) (s2016 x0 x1)
def s2183 (x0 : Vec F S128x216 .f32) (x1 : Vec F S128x72 .f32) : FVec F S128 .f32 := k0_pay619 (s2181 x0 x1) (s2182 x0 x1)
def s3495 (x0 : Vec F S128x216 .f32) (x1 : Vec F S128x72 .f32) : FVec F S128x1 .f32 := k0_pay818 (s2183 x0 x1)
def s2190 (x0 : Vec F S128x216 .f32) (x1 : Vec F S128x72 .f32) : FVec F S128 .f32 := k0_pay620 (s333 x0 x1) (s339 x0 x1) (s345 x0 x1) (s2002 x0 x1) (s2009 x0 x1) (s2016 x0 x1)
def s3496 (x0 : Vec F S128x216 .f32) (x1 : Vec F S128x72 .f32) : FVec F S128x1 .f32 := k0_pay819 (s2190 x0 x1)
def s2214 (x0 : Vec F S128x216 .f32) (x1 : Vec F S128x72 .f32) : FVec F S128 .f32 := k0_pay623 (s631 x0 x1) (s632 x0 x1) (s633 x0 x1) (s2002 x0 x1) (s2009 x0 x1) (s2016 x0 x1) (s2040 x0 x1)
def s3497 (x0 : Vec F S128x216 .f32) (x1 : Vec F S128x72 .f32) : FVec F S128x1 .f32 := k0_pay820 (s545 x0 x1) (s547 x0 x1) (s549 x0 x1) (s2176 x0 x1) (s2183 x0 x1) (s2190 x0 x1) (s2214 x0 x1)
def s3498 (x0 : Vec F S128x216 .f32) (x1 : Vec F S128x72 .f32) : FVec F S128x1 .f32 := k0_pay821 (s2650 x0 x1)
def s3499 (x0 : Vec F S128x216 .f32) (x1 : Vec F S128x72 .f32) : FVec F S128x1 .f32 := k0_pay822 (s2650 x0 x1)
def s3502 (x0 : Vec F S128x216 .f32) (x1 : Vec F S128x72 .f32) : FVec F S128x16 .f32 := k0_pay823 (s2650 x0 x1) (s2651 x0 x1) (s3486 x0 x1) (s3487 x0 x1) (s3488 x0 x1) (s3489 x0 x1) (s3490 x0 x1) (s3491 x0 x1) (s3492 x0 x1) (s3493 x0 x1) (s3494 x0 x1) (s3495 x0 x1) (s3496 x0 x1) (s3497 x0 x1) (s3498 x0 x1) (s3499 x0 x1)
def s551 (x0 : Vec F S128x216 .f32) (x1 : Vec F S128x72 .f32) : FVec F S128 .f32 := k0_pay289 (s3 x0 x1)
def s553 (x0 : Vec F S128x216 .f32) (x1 : Vec F S128x72 .f32) : FVec F S128 .f32 := k0_pay290 (s3 x0 x1)
def s555 (x0 : Vec F S128x216 .f32) (x1 : Vec F S128x72 .f32) : FVec F S128 .f32 := k0_pay291 (s3 x0 x1)
def s347 (x0 : Vec F S128x216 .f32) (x1 : Vec F S128x72 .f32) : FVec F S128 .f32 := k0_pay183 (s1 x0 x1)
def s353 (x0 : Vec F S128x216 .f32) (x1 : Vec F S128x72 .f32) : FVec F S128 .f32 := k0_pay186 (s1 x0 x1)
def s359 (x0 : Vec F S128x216 .f32) (x1 : Vec F S128x72 .f32) : FVec F S128 .f32 := k0_pay190 (s1 x0 x1)
def s2221 (x0 : Vec F S128x216 .f32) (x1 : Vec F S128x72 .f32) : FVec F S128 .f32 := k0_pay624 (s347 x0 x1) (s353 x0 x1) (s359 x0 x1) (s2047 x0 x1) (s2054 x0 x1) (s2061 x0 x1)
def s349 (x0 : Vec F S128x216 .f32) (x1 : Vec F S128x72 .f32) : FVec F S128 .f32 := k0_pay184 (s1 x0 x1)
def s354 (x0 : Vec F S128x216 .f32) (x1 : Vec F S128x72 .f32) : FVec F S128x1 .f32 := k0_pay187 (s1 x0 x1)
def s355 (x0 : Vec F S128x216 .f32) (x1 : Vec F S128x72 .f32) : FVec F S128 .f32 := k0_pay188 (s354 x0 x1)
def s361 (x0 : Vec F S128x216 .f32) (x1 : Vec F S128x72 .f32) : FVec F S128 .f32 := k0_pay191 (s1 x0 x1)
def s2228 (x0 : Vec F S128x216 .f32) (x1 : Vec F S128x72 .f32) : FVec F S128 .f32 := k0_pay625 (s349 x0 x1) (s355 x0 x1) (s361 x0 x1) (s2047 x0 x1) (s2054 x0 x1) (s2061 x0 x1)
def s351 (x0 : Vec F S128x216 .f32) (x1 : Vec F S128x72 .f32) : FVec F S128 .f32 := k0_pay185 (s1 x0 x1)
def s357 (x0 : Vec F S128x216 .f32) (x1 : Vec F S128x72 .f32) : FVec F S128 .f32 := k0_pay189 (s1 x0 x1)
def s363 (x0 : Vec F S128x216 .f32) (x1 : Vec F S128x72 .f32) : FVec F S128 .f32 := k0_pay192 (s1 x0 x1)
def s2235 (x0 : Vec F S128x216 .f32) (x1 : Vec F S128x72 .f32) : FVec F S128 .f32 := k0_pay626 (s351 x0 x1) (s357 x0 x1) (s363 x0 x1) (s2047 x0 x1) (s2054 x0 x1) (s2061 x0 x1)
def s2242 (x0 : Vec F S128x216 .f32) (x1 : Vec F S128x72 .f32) : FVec F S128 .f32 := k0_pay627 (s347 x0 x1) (s353 x0 x1) (s359 x0 x1) (s2068 x0 x1) (s2075 x0 x1) (s2082 x0 x1)
def s2249 (x0 : Vec F S128x216 .f32) (x1 : Vec F S128x72 .f32) : FVec F S128 .f32 := k0_pay628 (s349 x0 x1) (s355 x0 x1) (s361 x0 x1) (s2068 x0 x1) (s2075 x0 x1) (s2082 x0 x1)
def s2256 (x0 : Vec F S128x216 .f32) (x1 : Vec F S128x72 .f32) : FVec F S128 .f32 := k0_pay629 (s351 x0 x1) (s357 x0 x1) (s363 x0 x1) (s2068 x0 x1) (s2075 x0 x1) (s2082 x0 x1)
def s2263 (x0 : Vec F S128x216 .f32) (x1 : Vec F S128x72 .f32) : FVec F S128 .f32 := k0_pay630 (s347 x0 x1) (s353 x0 x1) (s359 x0 x1) (s2089 x0 x1) (s2096 x0 x1) (s2103 x0 x1)
def s2270 (x0 : Vec F S128x216 .f32) (x1 : Vec F S128x72 .f32) : FVec F S128 .f32 := k0_pay631 (s349 x0 x1) (s355 x0 x1) (s361 x0 x1) (s2089 x0 x1) (s2096 x0 x1) (s2103 x0 x1)
def s2277 (x0 : Vec F S128x216 .f32) (x1 : Vec F S128x72 .f32) : FVec F S128 .f32 := k0_pay632 (s351 x0 x1) (s357 x0 x1) (s363 x0 x1) (s2089 x0 x1) (s2096 x0 x1) (s2103 x0 x1)
def s634 (x0 : Vec F S128x216 .f32) (x1 : Vec F S128x72 .f32) : FVec F S128 .f32 := k0_pay358 (s539 x0 x1) (s551 x0 x1)
def s635 (x0 : Vec F S128x216 .f32) (x1 : Vec F S128x72 .f32) : FVec F S128 .f32 := k0_pay359 (s541 x0 x1) (s553 x0 x1)
def s636 (x0 : Vec F S128x216 .f32) (x1 : Vec F S128x72 .f32) : FVec F S128 .f32 := k0_pay360 (s543 x0 x1) (s555 x0 x1)
def s2285 (x0 : Vec F S128x216 .f32) (x1 : Vec F S128x72 .f32) : FVec F S128 .f32 := k0_pay633 (s634 x0 x1) (s635 x0 x1) (s636 x0 x1) (s2047 x0 x1) (s2054 x0 x1) (s2061 x0 x1) (s2111 x0 x1)
def s2286 (x0 : Vec F S128x216 .f32) (x1 : Vec F S128x72 .f32) : FVec F S128 .f32 := k0_pay634 (s634 x0 x1) (s2068 x0 x1)
def s2287 (x0 : Vec F S128x216 .f32) (x1 : Vec F S128x72 .f32) : FVec F S128 .f32 := k0_pay635
def s2293 (x0 : Vec F S128x216 .f32) (x1 : Vec F S128x72 .f32) : FVec F S128 .f32 := k0_pay636 (s635 x0 x1) (s636 x0 x1) (s2075 x0 x1) (s2082 x0 x1) (s2119 x0 x1) (s2286 x0 x1) (s2287 x0 x1)
def s2301 (x0 : Vec F S128x216 .f32) (x1 : Vec F S128x72 .f32) : FVec F S128 .f32 := k0_pay637 (s634 x0 x1) (s635 x0 x1) (s636 x0 x1) (s2089 x0 x1) (s2096 x0 x1) (s2103 x0 x1) (s2127 x0 x1)
def s3547 (x0 : Vec F S128x216 .f32) (x1 : Vec F S128x72 .f32) : FVec F S128x16 .f32 := k0_pay825 (s551 x0 x1) (s553 x0 x1) (s555 x0 x1) (s2221 x0 x1) (s2228 x0 x1) (s2235 x0 x1) (s2242 x0 x1) (s2249 x0 x1) (s2256 x0 x1) (s2263 x0 x1) (s2270 x0 x1) (s2277 x0 x1) (s2285 x0 x1) (s2293 x0 x1) (s2301 x0 x1) (s2650 x0 x1) (s2651 x0 x1)
def s557 (x0 : Vec F S128x216 .f32) (x1 : Vec F S128x72 .f32) : FVec F S128 .f32 := k0_pay292 (s3 x0 x1)
def s559 (x0 : Vec F S128x216 .f32) (x1 : Vec F S128x72 .f32) : FVec F S128 .f32 := k0_pay293 (s3 x0 x1)
def s561 (x0 : Vec F S128x216 .f32) (x1 : Vec F S128x72 .f32) : FVec F S128 .f32 := k0_pay294 (s3 x0 x1)
def s365 (x0 : Vec F S128x216 .f32) (x1 : Vec F S128x72 .f32) : FVec F S128 .f32 := k0_pay193 (s1 x0 x1)
def s371 (x0 : Vec F S128x216 .f32) (x1 : Vec F S128x72 .f32) : FVec F S128 .f32 := k0_pay196 (s1 x0 x1)
def s377 (x0 : Vec F S128x216 .f32) (x1 : Vec F S128x72 .f32) : FVec F S128 .f32 := k0_pay199 (s1 x0 x1)
def s2308 (x0 : Vec F S128x216 .f32) (x1 : Vec F S128x72 .f32) : FVec F S128 .f32 := k0_pay638 (s365 x0 x1) (s371 x0 x1) (s377 x0 x1) (s2134 x0 x1) (s2141 x0 x1) (s2148 x0 x1)
def s367 (x0 : Vec F S128x216 .f32) (x1 : Vec F S128x72 .f32) : FVec F S128 .f32 := k0_pay194 (s1 x0 x1)
def s373 (x0 : Vec F S128x216 .f32) (x1 : Vec F S128x72 .f32) : FVec F S128 .f32 := k0_pay197 (s1 x0 x1)
def s379 (x0 : Vec F S128x216 .f32) (x1 : Vec F S128x72 .f32) : FVec F S128 .f32 := k0_pay200 (s1 x0 x1)
def s2315 (x0 : Vec F S128x216 .f32) (x1 : Vec F S128x72 .f32) : FVec F S128 .f32 := k0_pay639 (s367 x0 x1) (s373 x0 x1) (s379 x0 x1) (s2134 x0 x1) (s2141 x0 x1) (s2148 x0 x1)
def s369 (x0 : Vec F S128x216 .f32) (x1 : Vec F S128x72 .f32) : FVec F S128 .f32 := k0_pay195 (s1 x0 x1)
def s375 (x0 : Vec F S128x216 .f32) (x1 : Vec F S128x72 .f32) : FVec F S128 .f32 := k0_pay198 (s1 x0 x1)
def s381 (x0 : Vec F S128x216 .f32) (x1 : Vec F S128x72 .f32) : FVec F S128 .f32 := k0_pay201 (s1 x0 x1)
def s2322 (x0 : Vec F S128x216 .f32) (x1 : Vec F S128x72 .f32) : FVec F S128 .f32 := k0_pay640 (s369 x0 x1) (s375 x0 x1) (s381 x0 x1) (s2134 x0 x1) (s2141 x0 x1) (s2148 x0 x1)
def s2329 (x0 : Vec F S128x216 .f32) (x1 : Vec F S128x72 .f32) : FVec F S128 .f32 := k0_pay641 (s365 x0 x1) (s371 x0 x1) (s377 x0 x1) (s2155 x0 x1) (s2162 x0 x1) (s2169 x0 x1)
def s2336 (x0 : Vec F S128x216 .f32) (x1 : Vec F S128x72 .f32) : FVec F S128 .f32 := k0_pay642 (s367 x0 x1) (s373 x0 x1) (s379 x0 x1) (s2155 x0 x1) (s2162 x0 x1) (s2169 x0 x1)
def s2339 (x0 : Vec F S128x216 .f32) (x1 : Vec F S128x72 .f32) : FVec F S128 .f32 := k0_pay643 (s369 x0 x1) (s2155 x0 x1)
def s2340 (x0 : Vec F S128x216 .f32) (x1 : Vec F S128x72 .f32) : FVec F S128 .f32 := k0_pay644 (s375 x0 x1) (s2162 x0 x1)
def s2343 (x0 : Vec F S128x216 .f32) (x1 : Vec F S128x72 .f32) : FVec F S128 .f32 := k0_pay645 (s381 x0 x1) (s2169 x0 x1) (s2339 x0 x1) (s2340 x0 x1)
def s2350 (x0 : Vec F S128x216 .f32) (x1 : Vec F S128x72 .f32) : FVec F S128 .f32 := k0_pay646 (s365 x0 x1) (s371 x0 x1) (s377 x0 x1) (s2176 x0 x1) (s2183 x0 x1) (s2190 x0 x1)
def s2357 (x0 : Vec F S128x216 .f32) (x1 : Vec F S128x72 .f32) : FVec F S128 .f32 := k0_pay647 (s367 x0 x1) (s373 x0 x1) (s379 x0 x1) (s2176 x0 x1) (s2183 x0 x1) (s2190 x0 x1)
def s2364 (x0 : Vec F S128x216 .f32) (x1 : Vec F S128x72 .f32) : FVec F S128 .f32 := k0_pay648 (s369 x0 x1) (s375 x0 x1) (s381 x0 x1) (s2176 x0 x1) (s2183 x0 x1) (s2190 x0 x1)
def s637 (x0 : Vec F S128x216 .f32) (x1 : Vec F S128x72 .f32) : FVec F S128 .f32 := k0_pay361 (s545 x0 x1) (s557 x0 x1)
def s638 (x0 : Vec F S128x216 .f32) (x1 : Vec F S128x72 .f32) : FVec F S128 .f32 := k0_pay362 (s547 x0 x1) (s559 x0 x1)
def s639 (x0 : Vec F S128x216 .f32) (x1 : Vec F S128x72 .f32) : FVec F S128 .f32 := k0_pay363 (s549 x0 x1) (s561 x0 x1)
def s2372 (x0 : Vec F S128x216 .f32) (x1 : Vec F S128x72 .f32) : FVec F S128 .f32 := k0_pay649 (s637 x0 x1) (s638 x0 x1) (s639 x0 x1) (s2134 x0 x1) (s2141 x0 x1) (s2148 x0 x1) (s2198 x0 x1)
def s2380 (x0 : Vec F S128x216 .f32) (x1 : Vec F S128x72 .f32) : FVec F S128 .f32 := k0_pay650 (s637 x0 x1) (s638 x0 x1) (s639 x0 x1) (s2155 x0 x1) (s2162 x0 x1) (s2169 x0 x1) (s2206 x0 x1)
def s2388 (x0 : Vec F S128x216 .f32) (x1 : Vec F S128x72 .f32) : FVec F S128 .f32 := k0_pay651 (s637 x0 x1) (s638 x0 x1) (s639 x0 x1) (s2176 x0 x1) (s2183 x0 x1) (s2190 x0 x1) (s2214 x0 x1)
def s3554 (x0 : Vec F S128x216 .f32) (x1 : Vec F S128x72 .f32) : FVec F S128 .f32 := k0_pay827 (s557 x0 x1) (s2308 x0 x1)
def s3555 (x0 : Vec F S128x216 .f32) (x1 : Vec F S128x72 .f32) : FVec F S128 .f32 := k0_pay828 (s559 x0 x1) (s2315 x0 x1)
def s3592 (x0 : Vec F S128x216 .f32) (x1 : Vec F S128x72 .f32) : FVec F S128x16 .f32 := k0_pay829 (s557 x0 x1) (s559 x0 x1) (s561 x0 x1) (s2308 x0 x1) (s2315 x0 x1) (s2322 x0 x1) (s2329 x0 x1) (s2336 x0 x1) (s2343 x0 x1) (s2350 x0 x1) (s2357 x0 x1) (s2364 x0 x1) (s2372 x0 x1) (s2380 x0 x1) (s2388 x0 x1) (s2650 x0 x1) (s2651 x0 x1) (s3554 x0 x1) (s3555 x0 x1)
def s563 (x0 : Vec F S128x216 .f32) (x1 : Vec F S128x72 .f32) : FVec F S128 .f32 := k0_pay295 (s3 x0 x1)
def s565 (x0 : Vec F S128x216 .f32) (x1 : Vec F S128x72 .f32) : FVec F S128 .f32 := k0_pay296 (s3 x0 x1)
def s567 (x0 : Vec F S128x216 .f32) (x1 : Vec F S128x72 .f32) : FVec F S128 .f32 := k0_pay297 (s3 x0 x1)
def s395 (x0 : Vec F S128x216 .f32) (x1 : Vec F S128x72 .f32) : FVec F S128 .f32 := k0_pay208 (s1 x0 x1)
def s383 (x0 : Vec F S128x216 .f32) (x1 : Vec F S128x72 .f32) : FVec F S128 .f32 := k0_pay202 (s1 x0 x1)
def s389 (x0 : Vec F S128x216 .f32) (x1 : Vec F S128x72 .f32) : FVec F S128 .f32 := k0_pay205 (s1 x0 x1)
def s2393 (x0 : Vec F S128x216 .f32) (x1 : Vec F S128x72 .f32) : FVec F S128 .f32 := k0_pay652 (s383 x0 x1) (s389 x0 x1) (s2221 x0 x1) (s2228 x0 x1)
def s2395 (x0 : Vec F S128x216 .f32) (x1 : Vec F S128x72 .f32) : FVec F S128 .f32 := k0_pay653 (s395 x0 x1) (s2235 x0 x1) (s2393 x0 x1)
def s385 (x0 : Vec F S128x216 .f32) (x1 : Vec F S128x72 .f32) : FVec F S128 .f32 := k0_pay203 (s1 x0 x1)
def s391 (x0 : Vec F S128x216 .f32) (x1 : Vec F S128x72 .f32) : FVec F S128 .f32 := k0_pay206 (s1 x0 x1)
def s397 (x0 : Vec F S128x216 .f32) (x1 : Vec F S128x72 .f32) : FVec F S128 .f32 := k0_pay209 (s1 x0 x1)
def s2402 (x0 : Vec F S128x216 .f32) (x1 : Vec F S128x72 .f32) : FVec F S128 .f32 := k0_pay654 (s385 x0 x1) (s391 x0 x1) (s397 x0 x1) (s2221 x0 x1) (s2228 x0 x1) (s2235 x0 x1)
def s387 (x0 : Vec F S128x216 .f32) (x1 : Vec F S128x72 .f32) : FVec F S128 .f32 := k0_pay204 (s1 x0 x1)
def s393 (x0 : Vec F S128x216 .f32) (x1 : Vec F S128x72 .f32) : FVec F S128 .f32 := k0_pay207 (s1 x0 x1)
def s399 (x0 : Vec F S128x216 .f32) (x1 : Vec F S128x72 .f32) : FVec F S128 .f32 := k0_pay210 (s1 x0 x1)
def s2409 (x0 : Vec F S128x216 .f32) (x1 : Vec F S128x72 .f32) : FVec F S128 .f32 := k0_pay655 (s387 x0 x1) (s393 x0 x1) (s399 x0 x1) (s2221 x0 x1) (s2228 x0 x1) (s2235 x0 x1)
def s2416 (x0 : Vec F S128x216 .f32) (x1 : Vec F S128x72 .f32) : FVec F S128 .f32 := k0_pay656 (s383 x0 x1) (s389 x0 x1) (s395 x0 x1) (s2242 x0 x1) (s2249 x0 x1) (s2256 x0 x1)
def s2423 (x0 : Vec F S128x216 .f32) (x1 : Vec F S128x72 .f32) : FVec F S128 .f32 := k0_pay657 (s385 x0 x1) (s391 x0 x1) (s397 x0 x1) (s2242 x0 x1) (s2249 x0 x1) (s2256 x0 x1)
def s2430 (x0 : Vec F S128x216 .f32) (x1 : Vec F S128x72 .f32) : FVec F S128 .f32 := k0_pay658 (s387 x0 x1) (s393 x0 x1) (s399 x0 x1) (s2242 x0 x1) (s2249 x0 x1) (s2256 x0 x1)
def s2437 (x0 : Vec F S128x216 .f32) (x1 : Vec F S128x72 .f32) : FVec F S128 .f32 := k0_pay659 (s383 x0 x1) (s389 x0 x1) (s395 x0 x1) (s2263 x0 x1) (s2270 x0 x1) (s2277 x0 x1)
def s2444 (x0 : Vec F S128x216 .f32) (x1 : Vec F S128x72 .f32) : FVec F S128 .f32 := k0_pay660 (s385 x0 x1) (s391 x0 x1) (s397 x0 x1) (s2263 x0 x1) (s2270 x0 x1) (s2277 x0 x1)
def s2445 (x0 : Vec F S128x216 .f32) (x1 : Vec F S128x72 .f32) : FVec F S128 .f32 := k0_pay661 (s387 x0 x1) (s2263 x0 x1)
def s2451 (x0 : Vec F S128x216 .f32) (x1 : Vec F S128x72 .f32) : FVec F S128 .f32 := k0_pay662 (s393 x0 x1) (s399 x0 x1) (s2270 x0 x1) (s2277 x0 x1) (s2445 x0 x1) (Scalar.ofBits .f32 0x00000000#32)
def s640 (x0 : Vec F S128x216 .f32) (x1 : Vec F S128x72 .f32) : FVec F S128 .f32 := k0_pay364 (s551 x0 x1) (s563 x0 x1)
def s641 (x0 : Vec F S128x216 .f32) (x1 : Vec F S128x72 .f32) : FVec F S128 .f32 := k0_pay365 (s553 x0 x1) (s565 x0 x1)
def s642 (x0 : Vec F S128x216 .f32) (x1 : Vec F S128x72 .f32) : FVec F S128 .f32 := k0_pay366 (s555 x0 x1) (s567 x0 x1)
def s2467 (x0 : Vec F S128x216 .f32) (x1 : Vec F S128x72 .f32) : FVec F S128 .f32 := k0_pay664 (s640 x0 x1) (s641 x0 x1) (s642 x0 x1) (s2242 x0 x1) (s2249 x0 x1) (s2256 x0 x1) (s2293 x0 x1)
def s2475 (x0 : Vec F S128x216 .f32) (x1 : Vec F S128x72 .f32) : FVec F S128 .f32 := k0_pay665 (s640 x0 x1) (s641 x0 x1) (s642 x0 x1) (s2263 x0 x1) (s2270 x0 x1) (s2277 x0 x1) (s2301 x0 x1)
def s2459 (x0 : Vec F S128x216 .f32) (x1 : Vec F S128x72 .f32) : FVec F S128 .f32 := k0_pay663 (s640 x0 x1) (s641 x0 x1) (s642 x0 x1) (s2221 x0 x1) (s2228 x0 x1) (s2235 x0 x1) (s2285 x0 x1)
def s3604 (x0 : Vec F S128x216 .f32) (x1 : Vec F S128x72 .f32) : FVec F S128 .f32 := k0_pay831 (s563 x0 x1) (s565 x0 x1) (s567 x0 x1) (s2395 x0 x1) (s2402 x0 x1) (s2409 x0 x1) (s2459 x0 x1)
def s3611 (x0 : Vec F S128x216 .f32) (x1 : Vec F S128x72 .f32) : FVec F S128 .f32 := k0_pay832 (s563 x0 x1) (s565 x0 x1) (s567 x0 x1) (s2416 x0 x1) (s2423 x0 x1) (s2430 x0 x1)
def s3637 (x0 : Vec F S128x216 .f32) (x1 : Vec F S128x72 .f32) : FVec F S128x16 .f32 := k0_pay833 (s563 x0 x1) (s565 x0 x1) (s567 x0 x1) (s2395 x0 x1) (s2402 x0 x1) (s2409 x0 x1) (s2416 x0 x1) (s2423 x0 x1) (s2430 x0 x1) (s2437 x0 x1) (s2444 x0 x1) (s2451 x0 x1) (s2467 x0 x1) (s2475 x0 x1) (s2650 x0 x1) (s2651 x0 x1) (s3604 x0 x1) (s3611 x0 x1)
def s405 (x0 : Vec F S128x216 .f32) (x1 : Vec F S128x72 .f32) : FVec F S128 .f32 := k0_pay213 (s1 x0 x1)
def s411 (x0 : Vec F S128x216 .f32) (x1 : Vec F S128x72 .f32) : FVec F S128 .f32 := k0_pay216 (s1 x0 x1)
def s417 (x0 : Vec F S128x216 .f32) (x1 : Vec F S128x72 .f32) : FVec F S128 .f32 := k0_pay220 (s1 x0 x1)
def s2496 (x0 : Vec F S128x216 .f32) (x1 : Vec F S128x72 .f32) : FVec F S128 .f32 := k0_pay668 (s405 x0 x1) (s411 x0 x1) (s417 x0 x1) (s2308 x0 x1) (s2315 x0 x1) (s2322 x0 x1)
def s407 (x0 : Vec F S128x216 .f32) (x1 : Vec F S128x72 .f32) : FVec F S128 .f32 := k0_pay214 (s1 x0 x1)
def s413 (x0 : Vec F S128x216 .f32) (x1 : Vec F S128x72 .f32) : FVec F S128 .f32 := k0_pay217 (s1 x0 x1)
def s401 (x0 : Vec F S128x216 .f32) (x1 : Vec F S128x72 .f32) : FVec F S128 .f32 := k0_pay211 (s1 x0 x1)
def s2497 (x0 : Vec F S128x216 .f32) (x1 : Vec F S128x72 .f32) : FVec F S128 .f32 := k0_pay669 (s401 x0 x1) (s2329 x0 x1)
def s2498 (x0 : Vec F S128x216 .f32) (x1 : Vec F S128x72 .f32) : FVec F S128 .f32 := k0_pay670
def s2503 (x0 : Vec F S128x216 .f32) (x1 : Vec F S128x72 .f32) : FVec F S128 .f32 := k0_pay671 (s407 x0 x1) (s413 x0 x1) (s2336 x0 x1) (s2343 x0 x1) (s2497 x0 x1) (s2498 x0 x1)
def s403 (x0 : Vec F S128x216 .f32) (x1 : Vec F S128x72 .f32) : FVec F S128 .f32 := k0_pay212 (s1 x0 x1)
def s409 (x0 : Vec F S128x216 .f32) (x1 : Vec F S128x72 .f32) : FVec F S128 .f32 := k0_pay215 (s1 x0 x1)
def s414 (x0 : Vec F S128x216 .f32) (x1 : Vec F S128x72 .f32) : FVec F S128x1 .f32 := k0_pay218 (s1 x0 x1)
def s415 (x0 : Vec F S128x216 .f32) (x1 : Vec F S128x72 .f32) : FVec F S128 .f32 := k0_pay219 (s414 x0 x1)
def s2510 (x0 : Vec F S128x216 .f32) (x1 : Vec F S128x72 .f32) : FVec F S128 .f32 := k0_pay672 (s403 x0 x1) (s409 x0 x1) (s415 x0 x1) (s2329 x0 x1) (s2336 x0 x1) (s2343 x0 x1)
def s2517 (x0 : Vec F S128x216 .f32) (x1 : Vec F S128x72 .f32) : FVec F S128 .f32 := k0_pay673 (s405 x0 x1) (s411 x0 x1) (s417 x0 x1) (s2329 x0 x1) (s2336 x0 x1) (s2343 x0 x1)
def s2524 (x0 : Vec F S128x216 .f32) (x1 : Vec F S128x72 .f32) : FVec F S128 .f32 := k0_pay674 (s401 x0 x1) (s407 x0 x1) (s413 x0 x1) (s2350 x0 x1) (s2357 x0 x1) (s2364 x0 x1)
def s2531 (x0 : Vec F S128x216 .f32) (x1 : Vec F S128x72 .f32) : FVec F S128 .f32 := k0_pay675 (s403 x0 x1) (s409 x0 x1) (s415 x0 x1) (s2350 x0 x1) (s2357 x0 x1) (s2364 x0 x1)
def s2538 (x0 : Vec F S128x216 .f32) (x1 : Vec F S128x72 .f32) : FVec F S128 .f32 := k0_pay676 (s405 x0 x1) (s411 x0 x1) (s417 x0 x1) (s2350 x0 x1) (s2357 x0 x1) (s2364 x0 x1)
def s569 (x0 : Vec F S128x216 .f32) (x1 : Vec F S128x72 .f32) : FVec F S128 .f32 := k0_pay298 (s3 x0 x1)
def s571 (x0 : Vec F S128x216 .f32) (x1 : Vec F S128x72 .f32) : FVec F S128 .f32 := k0_pay299 (s3 x0 x1)
def s573 (x0 : Vec F S128x216 .f32) (x1 : Vec F S128x72 .f32) : FVec F S128 .f32 := k0_pay300 (s3 x0 x1)
def s2482 (x0 : Vec F S128x216 .f32) (x1 : Vec F S128x72 .f32) : FVec F S128 .f32 := k0_pay666 (s401 x0 x1) (s407 x0 x1) (s413 x0 x1) (s2308 x0 x1) (s2315 x0 x1) (s2322 x0 x1)
def s2489 (x0 : Vec F S128x216 .f32) (x1 : Vec F S128x72 .f32) : FVec F S128 .f32 := k0_pay667 (s403 x0 x1) (s409 x0 x1) (s415 x0 x1) (s2308 x0 x1) (s2315 x0 x1) (s2322 x0 x1)
def s643 (x0 : Vec F S128x216 .f32) (x1 : Vec F S128x72 .f32) : FVec F S128 .f32 := k0_pay367 (s557 x0 x1) (s569 x0 x1)
def s644 (x0 : Vec F S128x216 .f32) (x1 : Vec F S128x72 .f32) : FVec F S128 .f32 := k0_pay368 (s559 x0 x1) (s571 x0 x1)
def s645 (x0 : Vec F S128x216 .f32) (x1 : Vec F S128x72 .f32) : FVec F S128 .f32 := k0_pay369 (s561 x0 x1) (s573 x0 x1)
def s2546 (x0 : Vec F S128x216 .f32) (x1 : Vec F S128x72 .f32) : FVec F S128 .f32 := k0_pay677 (s643 x0 x1) (s644 x0 x1) (s645 x0 x1) (s2308 x0 x1) (s2315 x0 x1) (s2322 x0 x1) (s2372 x0 x1)
def s3649 (x0 : Vec F S128x216 .f32) (x1 : Vec F S128x72 .f32) : FVec F S128 .f32 := k0_pay835 (s569 x0 x1) (s571 x0 x1) (s573 x0 x1) (s2482 x0 x1) (s2489 x0 x1) (s2496 x0 x1) (s2546 x0 x1)
def s2551 (x0 : Vec F S128x216 .f32) (x1 : Vec F S128x72 .f32) : FVec F S128 .f32 := k0_pay678 (s643 x0 x1) (s644 x0 x1) (s2329 x0 x1) (s2336 x0 x1)
def s2554 (x0 : Vec F S128x216 .f32) (x1 : Vec F S128x72 .f32) : FVec F S128 .f32 := k0_pay679 (s645 x0 x1) (s2343 x0 x1) (s2380 x0 x1) (s2551 x0 x1)
def s3657 (x0 : Vec F S128x216 .f32) (x1 : Vec F S128x72 .f32) : FVec F S128 .f32 := k0_pay836 (s569 x0 x1) (s571 x0 x1) (s573 x0 x1) (s2503 x0 x1) (s2510 x0 x1) (s2517 x0 x1) (s2554 x0 x1)
def s2562 (x0 : Vec F S128x216 .f32) (x1 : Vec F S128x72 .f32) : FVec F S128 .f32 := k0_pay680 (s643 x0 x1) (s644 x0 x1) (s645 x0 x1) (s2350 x0 x1) (s2357 x0 x1) (s2364 x0 x1) (s2388 x0 x1)
def s3665 (x0 : Vec F S128x216 .f32) (x1 : Vec F S128x72 .f32) : FVec F S128 .f32 := k0_pay837 (s569 x0 x1) (s571 x0 x1) (s573 x0 x1) (s2524 x0 x1) (s2531 x0 x1) (s2538 x0 x1) (s2562 x0 x1)
def s3666 (x0 : Vec F S128x216 .f32) (x1 : Vec F S128x72 .f32) : FVec F S128x1 .f32 := k0_pay838 (s2482 x0 x1)
def s3667 (x0 : Vec F S128x216 .f32) (x1 : Vec F S128x72 .f32) : FVec F S128x1 .f32 := k0_pay839 (s2489 x0 x1)
def s3682 (x0 : Vec F S128x216 .f32) (x1 : Vec F S128x72 .f32) : FVec F S128x16 .f32 := k0_pay840 (s2496 x0 x1) (s2503 x0 x1) (s2510 x0 x1) (s2517 x0 x1) (s2524 x0 x1) (s2531 x0 x1) (s2538 x0 x1) (s2650 x0 x1) (s2651 x0 x1) (s3649 x0 x1) (s3657 x0 x1) (s3665 x0 x1) (s3666 x0 x1) (s3667 x0 x1)
def s419 (x0 : Vec F S128x216 .f32) (x1 : Vec F S128x72 .f32) : FVec F S128 .f32 := k0_pay221 (s1 x0 x1)
def s425 (x0 : Vec F S128x216 .f32) (x1 : Vec F S128x72 .f32) : FVec F S128 .f32 := k0_pay224 (s1 x0 x1)
def s431 (x0 : Vec F S128x216 .f32) (x1 : Vec F S128x72 .f32) : FVec F S128 .f32 := k0_pay227 (s1 x0 x1)
def s2569 (x0 : Vec F S128x216 .f32) (x1 : Vec F S128x72 .f32) : FVec F S128 .f32 := k0_pay681 (s419 x0 x1) (s425 x0 x1) (s431 x0 x1) (s2395 x0 x1) (s2402 x0 x1) (s2409 x0 x1)
def s3711 (x0 : Vec F S128x216 .f32) (x1 : Vec F S128x72 .f32) : FVec F S128x1 .f32 := k0_pay842 (s2569 x0 x1)
def s421 (x0 : Vec F S128x216 .f32) (x1 : Vec F S128x72 .f32) : FVec F S128 .f32 := k0_pay222 (s1 x0 x1)
def s427 (x0 : Vec F S128x216 .f32) (x1 : Vec F S128x72 .f32) : FVec F S128 .f32 := k0_pay225 (s1 x0 x1)
def s433 (x0 : Vec F S128x216 .f32) (x1 : Vec F S128x72 .f32) : FVec F S128 .f32 := k0_pay228 (s1 x0 x1)
def s2576 (x0 : Vec F S128x216 .f32) (x1 : Vec F S128x72 .f32) : FVec F S128 .f32 := k0_pay682 (s421 x0 x1) (s427 x0 x1) (s433 x0 x1) (s2395 x0 x1) (s2402 x0 x1) (s2409 x0 x1)
def s3712 (x0 : Vec F S128x216 .f32) (x1 : Vec F S128x72 .f32) : FVec F S128x1 .f32 := k0_pay843 (s2576 x0 x1)
def s423 (x0 : Vec F S128x216 .f32) (x1 : Vec F S128x72 .f32) : FVec F S128 .f32 := k0_pay223 (s1 x0 x1)
def s429 (x0 : Vec F S128x216 .f32) (x1 : Vec F S128x72 .f32) : FVec F S128 .f32 := k0_pay226 (s1 x0 x1)
def s435 (x0 : Vec F S128x216 .f32) (x1 : Vec F S128x72 .f32) : FVec F S128 .f32 := k0_pay229 (s1 x0 x1)
def s2583 (x0 : Vec F S128x216 .f32) (x1 : Vec F S128x72 .f32) : FVec F S128 .f32 := k0_pay683 (s423 x0 x1) (s429 x0 x1) (s435 x0 x1) (s2395 x0 x1) (s2402 x0 x1) (s2409 x0 x1)
def s3713 (x0 : Vec F S128x216 .f32) (x1 : Vec F S128x72 .f32) : FVec F S128x1 .f32 := k0_pay844 (s2583 x0 x1)
def s575 (x0 : Vec F S128x216 .f32) (x1 : Vec F S128x72 .f32) : FVec F S128 .f32 := k0_pay301 (s3 x0 x1)
def s577 (x0 : Vec F S128x216 .f32) (x1 : Vec F S128x72 .f32) : FVec F S128 .f32 := k0_pay302 (s3 x0 x1)
def s579 (x0 : Vec F S128x216 .f32) (x1 : Vec F S128x72 .f32) : FVec F S128 .f32 := k0_pay303 (s3 x0 x1)
def s646 (x0 : Vec F S128x216 .f32) (x1 : Vec F S128x72 .f32) : FVec F S128 .f32 := k0_pay370 (s563 x0 x1) (s575 x0 x1)
def s647 (x0 : Vec F S128x216 .f32) (x1 : Vec F S128x72 .f32) : FVec F S128 .f32 := k0_pay371 (s565 x0 x1) (s577 x0 x1)
def s648 (x0 : Vec F S128x216 .f32) (x1 : Vec F S128x72 .f32) : FVec F S128 .f32 := k0_pay372 (s567 x0 x1) (s579 x0 x1)
def s2633 (x0 : Vec F S128x216 .f32) (x1 : Vec F S128x72 .f32) : FVec F S128 .f32 := k0_pay690 (s646 x0 x1) (s647 x0 x1) (s648 x0 x1) (s2395 x0 x1) (s2402 x0 x1) (s2409 x0 x1) (s2459 x0 x1)
def s3714 (x0 : Vec F S128x216 .f32) (x1 : Vec F S128x72 .f32) : FVec F S128x1 .f32 := k0_pay845 (s575 x0 x1) (s577 x0 x1) (s579 x0 x1) (s2569 x0 x1) (s2576 x0 x1) (s2583 x0 x1) (s2633 x0 x1)
def s2590 (x0 : Vec F S128x216 .f32) (x1 : Vec F S128x72 .f32) : FVec F S128 .f32 := k0_pay684 (s419 x0 x1) (s425 x0 x1) (s431 x0 x1) (s2416 x0 x1) (s2423 x0 x1) (s2430 x0 x1)
def s3715 (x0 : Vec F S128x216 .f32) (x1 : Vec F S128x72 .f32) : FVec F S128x1 .f32 := k0_pay846 (s2590 x0 x1)
def s2597 (x0 : Vec F S128x216 .f32) (x1 : Vec F S128x72 .f32) : FVec F S128 .f32 := k0_pay685 (s421 x0 x1) (s427 x0 x1) (s433 x0 x1) (s2416 x0 x1) (s2423 x0 x1) (s2430 x0 x1)
def s3716 (x0 : Vec F S128x216 .f32) (x1 : Vec F S128x72 .f32) : FVec F S128x1 .f32 := k0_pay847 (s2597 x0 x1)
def s2604 (x0 : Vec F S128x216 .f32) (x1 : Vec F S128x72 .f32) : FVec F S128 .f32 := k0_pay686 (s423 x0 x1) (s429 x0 x1) (s435 x0 x1) (s2416 x0 x1) (s2423 x0 x1) (s2430 x0 x1)
def s3717 (x0 : Vec F S128x216 .f32) (x1 : Vec F S128x72 .f32) : FVec F S128x1 .f32 := k0_pay848 (s2604 x0 x1)
def s2641 (x0 : Vec F S128x216 .f32) (x1 : Vec F S128x72 .f32) : FVec F S128 .f32 := k0_pay691 (s646 x0 x1) (s647 x0 x1) (s648 x0 x1) (s2416 x0 x1) (s2423 x0 x1) (s2430 x0 x1) (s2467 x0 x1)
def s3718 (x0 : Vec F S128x216 .f32) (x1 : Vec F S128x72 .f32) : FVec F S128x1 .f32 := k0_pay849 (s575 x0 x1) (s577 x0 x1) (s579 x0 x1) (s2590 x0 x1) (s2597 x0 x1) (s2604 x0 x1) (s2641 x0 x1)
def s2611 (x0 : Vec F S128x216 .f32) (x1 : Vec F S128x72 .f32) : FVec F S128 .f32 := k0_pay687 (s419 x0 x1) (s425 x0 x1) (s431 x0 x1) (s2437 x0 x1) (s2444 x0 x1) (s2451 x0 x1)
def s3719 (x0 : Vec F S128x216 .f32) (x1 : Vec F S128x72 .f32) : FVec F S128x1 .f32 := k0_pay850 (s2611 x0 x1)
def s2618 (x0 : Vec F S128x216 .f32) (x1 : Vec F S128x72 .f32) : FVec F S128 .f32 := k0_pay688 (s421 x0 x1) (s427 x0 x1) (s433 x0 x1) (s2437 x0 x1) (s2444 x0 x1) (s2451 x0 x1)
def s3720 (x0 : Vec F S128x216 .f32) (x1 : Vec F S128x72 .f32) : FVec F S128x1 .f32 := k0_pay851 (s2618 x0 x1)
def s2625 (x0 : Vec F S128x216 .f32) (x1 : Vec F S128x72 .f32) : FVec F S128 .f32 := k0_pay689 (s423 x0 x1) (s429 x0 x1) (s435 x0 x1) (s2437 x0 x1) (s2444 x0 x1) (s2451 x0 x1)
def s3721 (x0 : Vec F S128x216 .f32) (x1 : Vec F S128x72 .f32) : FVec F S128x1 .f32 := k0_pay852 (s2625 x0 x1)
def s2649 (x0 : Vec F S128x216 .f32) (x1 : Vec F S128x72 .f32) : FVec F S128 .f32 := k0_pay692 (s646 x0 x1) (s647 x0 x1) (s648 x0 x1) (s2437 x0 x1) (s2444 x0 x1) (s2451 x0 x1) (s2475 x0 x1)
def s3722 (x0 : Vec F S128x216 .f32) (x1 : Vec F S128x72 .f32) : FVec F S128x1 .f32 := k0_pay853 (s575 x0 x1) (s577 x0 x1) (s579 x0 x1) (s2611 x0 x1) (s2618 x0 x1) (s2625 x0 x1) (s2649 x0 x1)
def s3723 (x0 : Vec F S128x216 .f32) (x1 : Vec F S128x72 .f32) : FVec F S128x1 .f32 := k0_pay854 (s2650 x0 x1)
def s3724 (x0 : Vec F S128x216 .f32) (x1 : Vec F S128x72 .f32) : FVec F S128x1 .f32 := k0_pay855 (s2650 x0 x1)
def s3727 (x0 : Vec F S128x216 .f32) (x1 : Vec F S128x72 .f32) : FVec F S128x16 .f32 := k0_pay1 (s2650 x0 x1) (s2651 x0 x1) (s3711 x0 x1) (s3712 x0 x1) (s3713 x0 x1) (s3714 x0 x1) (s3715 x0 x1) (s3716 x0 x1) (s3717 x0 x1) (s3718 x0 x1) (s3719 x0 x1) (s3720 x0 x1) (s3721 x0 x1) (s3722 x0 x1) (s3723 x0 x1) (s3724 x0 x1)
def s3732 (x0 : Vec F S128x216 .f32) (x1 : Vec F S128x72 .f32) : FVec F S128x384 .f32 := k0_pay3 (s2692 x0 x1) (s2737 x0 x1) (s2782 x0 x1) (s2827 x0 x1) (s2872 x0 x1) (s2917 x0 x1) (s2962 x0 x1) (s3007 x0 x1) (s3052 x0 x1) (s3097 x0 x1) (s3142 x0 x1) (s3187 x0 x1) (s3232 x0 x1) (s3277 x0 x1) (s3322 x0 x1) (s3367 x0 x1) (s3412 x0 x1) (s3457 x0 x1) (s3502 x0 x1) (s3547 x0 x1) (s3592 x0 x1) (s3637 x0 x1) (s3682 x0 x1) (s3727 x0 x1)
def s2696 (x0 : Vec F S128x216 .f32) (x1 : Vec F S128x72 .f32) : FVec F S128x3 .f32 := k0_pay698 (s437 x0 x1) (s439 x0 x1) (s441 x0 x1)
def s2741 (x0 : Vec F S128x216 .f32) (x1 : Vec F S128x72 .f32) : FVec F S128x3 .f32 := k0_pay702 (s719 x0 x1) (s727 x0 x1) (s735 x0 x1)
def s2786 (x0 : Vec F S128x216 .f32) (x1 : Vec F S128x72 .f32) : FVec F S128x3 .f32 := k0_pay709 (s806 x0 x1) (s814 x0 x1) (s822 x0 x1)
def s2831 (x0 : Vec F S128x216 .f32) (x1 : Vec F S128x72 .f32) : FVec F S128x3 .f32 := k0_pay725 (s893 x0 x1) (s901 x0 x1) (s909 x0 x1)
def s2876 (x0 : Vec F S128x216 .f32) (x1 : Vec F S128x72 .f32) : FVec F S128x3 .f32 := k0_pay727 (s980 x0 x1) (s988 x0 x1) (s996 x0 x1)
def s2921 (x0 : Vec F S128x216 .f32) (x1 : Vec F S128x72 .f32) : FVec F S128x3 .f32 := k0_pay731 (s1067 x0 x1) (s1075 x0 x1) (s1083 x0 x1)
def s2966 (x0 : Vec F S128x216 .f32) (x1 : Vec F S128x72 .f32) : FVec F S128x3 .f32 := k0_pay735 (s1154 x0 x1) (s1162 x0 x1) (s1170 x0 x1)
def s3011 (x0 : Vec F S128x216 .f32) (x1 : Vec F S128x72 .f32) : FVec F S128x3 .f32 := k0_pay742 (s1241 x0 x1) (s1249 x0 x1) (s1257 x0 x1)
def s3056 (x0 : Vec F S128x216 .f32) (x1 : Vec F S128x72 .f32) : FVec F S128x3 .f32 := k0_pay758 (s1328 x0 x1) (s1336 x0 x1) (s1344 x0 x1)
def s3101 (x0 : Vec F S128x216 .f32) (x1 : Vec F S128x72 .f32) : FVec F S128x3 .f32 := k0_pay760 (s1415 x0 x1) (s1423 x0 x1) (s1431 x0 x1)
def s3146 (x0 : Vec F S128x216 .f32) (x1 : Vec F S128x72 .f32) : FVec F S128x3 .f32 := k0_pay764 (s1502 x0 x1) (s1510 x0 x1) (s1518 x0 x1)
def s3191 (x0 : Vec F S128x216 .f32) (x1 : Vec F S128x72 .f32) : FVec F S128x3 .f32 := k0_pay768 (s1589 x0 x1) (s1597 x0 x1) (s1605 x0 x1)
def s3236 (x0 : Vec F S128x216 .f32) (x1 : Vec F S128x72 .f32) : FVec F S128x3 .f32 := k0_pay775 (s1676 x0 x1) (s1684 x0 x1) (s1692 x0 x1)
def s3281 (x0 : Vec F S128x216 .f32) (x1 : Vec F S128x72 .f32) : FVec F S128x3 .f32 := k0_pay791 (s1763 x0 x1) (s1771 x0 x1) (s1779 x0 x1)
def s3326 (x0 : Vec F S128x216 .f32) (x1 : Vec F S128x72 .f32) : FVec F S128x3 .f32 := k0_pay793 (s1850 x0 x1) (s1858 x0 x1) (s1866 x0 x1)
def s3371 (x0 : Vec F S128x216 .f32) (x1 : Vec F S128x72 .f32) : FVec F S128x3 .f32 := k0_pay797 (s1937 x0 x1) (s1945 x0 x1) (s1953 x0 x1)
def s3416 (x0 : Vec F S128x216 .f32) (x1 : Vec F S128x72 .f32) : FVec F S128x3 .f32 := k0_pay801 (s2024 x0 x1) (s2032 x0 x1) (s2040 x0 x1)
def s3461 (x0 : Vec F S128x216 .f32) (x1 : Vec F S128x72 .f32) : FVec F S128x3 .f32 := k0_pay808 (s2111 x0 x1) (s2119 x0 x1) (s2127 x0 x1)
def s3506 (x0 : Vec F S128x216 .f32) (x1 : Vec F S128x72 .f32) : FVec F S128x3 .f32 := k0_pay824 (s2198 x0 x1) (s2206 x0 x1) (s2214 x0 x1)
def s3551 (x0 : Vec F S128x216 .f32) (x1 : Vec F S128x72 .f32) : FVec F S128x3 .f32 := k0_pay826 (s2285 x0 x1) (s2293 x0 x1) (s2301 x0 x1)
def s3596 (x0 : Vec F S128x216 .f32) (x1 : Vec F S128x72 .f32) : FVec F S128x3 .f32 := k0_pay830 (s2372 x0 x1) (s2380 x0 x1) (s2388 x0 x1)
def s3641 (x0 : Vec F S128x216 .f32) (x1 : Vec F S128x72 .f32) : FVec F S128x3 .f32 := k0_pay834 (s2459 x0 x1) (s2467 x0 x1) (s2475 x0 x1)
def s3686 (x0 : Vec F S128x216 .f32) (x1 : Vec F S128x72 .f32) : FVec F S128x3 .f32 := k0_pay841 (s2546 x0 x1) (s2554 x0 x1) (s2562 x0 x1)
def s3731 (x0 : Vec F S128x216 .f32) (x1 : Vec F S128x72 .f32) : FVec F S128x3 .f32 := k0_pay2 (s2633 x0 x1) (s2641 x0 x1) (s2649 x0 x1)
def s3733 (x0 : Vec F S128x216 .f32) (x1 : Vec F S128x72 .f32) : FVec F S128x72 .f32 := k0_pay4 (s2696 x0 x1) (s2741 x0 x1) (s2786 x0 x1) (s2831 x0 x1) (s2876 x0 x1) (s2921 x0 x1) (s2966 x0 x1) (s3011 x0 x1) (s3056 x0 x1) (s3101 x0 x1) (s3146 x0 x1) (s3191 x0 x1) (s3236 x0 x1) (s3281 x0 x1) (s3326 x0 x1) (s3371 x0 x1) (s3416 x0 x1) (s3461 x0 x1) (s3506 x0 x1) (s3551 x0 x1) (s3596 x0 x1) (s3641 x0 x1) (s3686 x0 x1) (s3731 x0 x1)

end Cert.KernelIdeal.KD

end
-- ==== Proof.PoseSpec.lean ====
/-
  The posed skeleton of one batch element, as extended-real formulas.

  A skeleton is a tree of 24 joints; joint 0 is the root and joint j > 0 hangs from its parent par j < j. Every joint
  carries a local 3x3 matrix R j and a rest position p j. The local translation of a joint is its rest position
  relative to its parent's (the root keeps its own): rel j = p j - p (par j), rel 0 = p 0. Posing composes the local
  affine maps down the tree. Two spellings of the same composition live here:

  * the affine-pair spelling: a 3x3 matrix Rh j and a translation th j with
      Rh j = Rh (par j) * R j,   th j = Rh (par j) * rel j + th (par j),   Rh 0 = R 0,  th 0 = rel 0,
    every three-term sum written ((0 + a0) + a1) + a2;

  * the homogeneous spelling: 4x4 matrices Lm j = [[R j, rel j], [0, 1]] multiplied down the tree,
      T j = T (par j) * Lm j,   T 0 = Lm 0,   a product entry being the sum over the four inner indices.

  The two agree (T_eq): T j = [[Rh j, th j], [0, 1]]. On the extended reals this needs no finiteness: the only laws
  used are x * 0 = 0, 0 * x = 0, x * 1 = x, 1 * x = x, x + 0 = x, 0 + x = x, which hold at the infinities too, and
  the reassociation of a sum of three terms.

  The two results of posing: the posed joint position th j (= column 3 of T j), and the corrected transform
  T j - [0 | T j * (p j; 0)], whose last column is th j - Rh j * p j and whose other entries are T j's.
-/
import Idealize.ShloMosaic.PureOps.Ideal
import Mathlib.Tactic.FinCases
import Mathlib.Algebra.BigOperators.Fin

noncomputable section

open scoped BigOperators

namespace Cert.Pose

/-- The parent of each joint of the 24-joint tree (the root is its own parent; beyond the tree, the root). -/
def par : ℕ → ℕ
  | 4 => 1 | 5 => 2 | 6 => 3 | 7 => 4 | 8 => 5 | 9 => 6 | 10 => 7 | 11 => 8 | 12 => 9 | 13 => 9 | 14 => 9
  | 15 => 12 | 16 => 13 | 17 => 14 | 18 => 16 | 19 => 17 | 20 => 18 | 21 => 19 | 22 => 20 | 23 => 21
  | _ => 0

/-- A parent comes before its child. -/
theorem par_lt (j : ℕ) : par (j + 1) < j + 1 := by
  unfold par
  split <;> omega

/-- A three-term inner product in the order the sums are accumulated: ((0 + a0 b0) + a1 b1) + a2 b2. -/
def dot3 (a0 a1 a2 b0 b1 b2 : EReal) : EReal := ((0 + a0 * b0) + a1 * b1) + a2 * b2

section Chain
variable (R : ℕ → Fin 3 → Fin 3 → EReal) (p : ℕ → Fin 3 → EReal)

/-- The local translation: the rest position relative to the parent's; the root keeps its own. -/
def rel : ℕ → Fin 3 → EReal
  | 0 => p 0
  | (j + 1) => fun k => p (j + 1) k - p (par (j + 1)) k

/-- The composed rotation of joint j. -/
def Rh : ℕ → Fin 3 → Fin 3 → EReal
  | 0 => R 0
  | (j + 1) => fun r c =>
      dot3 (Rh (par (j + 1)) r 0) (Rh (par (j + 1)) r 1) (Rh (par (j + 1)) r 2) (R (j + 1) 0 c) (R (j + 1) 1 c) (R (j + 1) 2 c)
termination_by j => j
decreasing_by all_goals exact par_lt j

/-- The composed translation of joint j: the posed joint position. -/
def th : ℕ → Fin 3 → EReal
  | 0 => p 0
  | (j + 1) => fun r =>
      dot3 (Rh R (par (j + 1)) r 0) (Rh R (par (j + 1)) r 1) (Rh R (par (j + 1)) r 2)
        (rel p (j + 1) 0) (rel p (j + 1) 1) (rel p (j + 1) 2) + th (par (j + 1)) r
termination_by j => j
decreasing_by all_goals exact par_lt j

/-- The corrected translation: the posed position minus the composed rotation applied to the rest position. -/
def newt (j : ℕ) (r : Fin 3) : EReal :=
  th R p j r - dot3 (Rh R j r 0) (Rh R j r 1) (Rh R j r 2) (p j 0) (p j 1) (p j 2)

/-- A 4x4 matrix [[A, t], [0, 1]] from a 3x3 block and a column. -/
def homog (A : Fin 3 → Fin 3 → EReal) (t : Fin 3 → EReal) : Fin 4 → Fin 4 → EReal := fun r c =>
  if hr : r.val < 3 then (if hc : c.val < 3 then A ⟨r.val, hr⟩ ⟨c.val, hc⟩ else t ⟨r.val, hr⟩)
  else (if c.val < 3 then 0 else 1)

/-- The local homogeneous transform of joint j. -/
def Lm (j : ℕ) : Fin 4 → Fin 4 → EReal := homog (R j) (rel p j)

/-- The product of two 4x4 matrices, entry by entry the sum over the inner index. -/
def mul4 (A B : Fin 4 → Fin 4 → EReal) : Fin 4 → Fin 4 → EReal := fun r c => ∑ k : Fin 4, A r k * B k c

/-- The composed homogeneous transform of joint j. -/
def T : ℕ → Fin 4 → Fin 4 → EReal
  | 0 => Lm R p 0
  | (j + 1) => mul4 (T (par (j + 1))) (Lm R p (j + 1))
termination_by j => j
decreasing_by all_goals exact par_lt j

theorem T_zero : T R p 0 = Lm R p 0 := by rw [T]
theorem T_succ (j : ℕ) : T R p (j + 1) = mul4 (T R p (par (j + 1))) (Lm R p (j + 1)) := by rw [T]
theorem Rh_zero : Rh R 0 = R 0 := by rw [Rh]
theorem Rh_succ (j : ℕ) (r c : Fin 3) : Rh R (j + 1) r c =
    dot3 (Rh R (par (j + 1)) r 0) (Rh R (par (j + 1)) r 1) (Rh R (par (j + 1)) r 2) (R (j + 1) 0 c) (R (j + 1) 1 c) (R (j + 1) 2 c) := by
  rw [Rh]
theorem th_zero : th R p 0 = p 0 := by rw [th]
theorem th_succ (j : ℕ) (r : Fin 3) : th R p (j + 1) r =
    dot3 (Rh R (par (j + 1)) r 0) (Rh R (par (j + 1)) r 1) (Rh R (par (j + 1)) r 2)
      (rel p (j + 1) 0) (rel p (j + 1) 1) (rel p (j + 1) 2) + th R p (par (j + 1)) r := by
  rw [th]

/-- The product of two homogeneous matrices is homogeneous: the blocks multiply, the translations compose. -/
theorem mul4_homog (A B : Fin 3 → Fin 3 → EReal) (s t : Fin 3 → EReal) :
    mul4 (homog A s) (homog B t) =
      homog (fun r c => dot3 (A r 0) (A r 1) (A r 2) (B 0 c) (B 1 c) (B 2 c))
        (fun r => dot3 (A r 0) (A r 1) (A r 2) (t 0) (t 1) (t 2) + s r) := by
  funext r c
  simp only [mul4, Fin.sum_univ_four]
  fin_cases r <;> fin_cases c <;>
    simp [homog, dot3, add_assoc]

/-- THE TWO SPELLINGS AGREE: the composed homogeneous transform is [[Rh j, th j], [0, 1]]. -/
theorem T_eq (j : ℕ) : T R p j = homog (Rh R j) (th R p j) := by
  induction j using Nat.strong_induction_on with
  | _ j ih =>
    cases j with
    | zero => rw [T_zero, Lm, Rh_zero, th_zero]; rfl
    | succ j =>
      rw [T_succ, ih _ (par_lt j), Lm, mul4_homog]
      congr 1
      · funext r c; rw [Rh_succ]
      · funext r; rw [th_succ]

end Chain

section Outputs
variable (R : ℕ → Fin 3 → Fin 3 → EReal) (p : ℕ → Fin 3 → EReal)

/-- The rest position as a homogeneous direction: (p j; 0). -/
def rest (j : ℕ) : Fin 4 → EReal := fun k => if h : k.val < 3 then p j ⟨k.val, h⟩ else 0

/-- The correction subtracted from the transform: zero in the first three columns, T j * (p j; 0) in the last. -/
def corr (j : ℕ) (r c : Fin 4) : EReal := if c.val < 3 then 0 else ∑ k : Fin 4, T R p j r k * rest p j k

/-- THE CORRECTED TRANSFORM: T j - [0 | T j (p j; 0)] = [[Rh j, th j - Rh j p j], [0, 1]]. -/
theorem tf_eq (j : ℕ) (r c : Fin 4) : T R p j r c - corr R p j r c = homog (Rh R j) (newt R p j) r c := by
  unfold corr
  rw [T_eq]
  fin_cases r <;> fin_cases c <;>
    simp [homog, rest, newt, dot3, Fin.sum_univ_four]

/-- THE POSED POSITION: column 3 of T j over the first three rows is th j. -/
theorem posed_eq (j : ℕ) (r : Fin 3) : T R p j ⟨r.val, by omega⟩ 3 = th R p j r := by
  rw [T_eq]
  fin_cases r <;> simp [homog]

end Outputs

end Cert.Pose

end
-- ==== Proof.KRow.lean ====
/-
  One row of a [128, n] block, read through the operations the body is made of.

  The body works on whole columns: a column of a block [128, n] is sliced out as [128, 1] and recast to a vector [128]; the
  arithmetic is pointwise on such vectors; results are recast to [128, 1] and laid side by side again. So row b of every
  value is a scalar expression in row b of the two input blocks. This file reads each kind of operation at row b — a
  sliced column, the two recasts, the two constant words, one column of a side-by-side layout of one-column pieces — and
  fixes the names of the inputs of row b: its 24 local matrices Rk and rest positions pk, entry (j, r, c) of the first
  block sitting in column 9 j + 3 r + c and entry (j, k) of the second in column 3 j + k. It also restates the recursions
  of the posed skeleton one step at a time at a given joint with a given parent.
-/
import proofs.«156383_j88811333747289_2_alg».proof.Proof.KDefsI
import proofs.«156383_j88811333747289_2_alg».proof.Proof.PoseSpec
import Idealize.ShloMosaic.Lib.ValueIdx
import Idealize.ShloMosaic.Lib.Pipeline.Value
import Idealize.ShloMosaic.PureOps.Ideal.Laws

noncomputable section

namespace Cert.KernelIdeal.KV

open Idealize.ShloMosaic Idealize.ShloMosaic.ValueIdx Cert.KernelIdeal Cert.KernelIdeal.Gen Cert.KernelIdeal.KD Cert.Pose

/-! ## The inputs of one row -/

/-- Row b of the first block as 24 local matrices: entry (j, r, c) is column 9 j + 3 r + c. -/
def Rk (x0 : Vec Ideal S128x216 .f32) (b : Fin 128) : ℕ → Fin 3 → Fin 3 → EReal := fun j r c =>
  x0 (ix2 b ⟨(9 * j + 3 * r.val + c.val) % 216, Nat.mod_lt _ (by norm_num)⟩)

/-- Row b of the second block as 24 rest positions: entry (j, k) is column 3 j + k. -/
def pk (x1 : Vec Ideal S128x72 .f32) (b : Fin 128) : ℕ → Fin 3 → EReal := fun j k =>
  x1 (ix2 b ⟨(3 * j + k.val) % 72, Nat.mod_lt _ (by norm_num)⟩)

/-- A block loaded whole is the block. -/
theorem ld0_eq (x0 : Vec Ideal S128x216 .f32) (x1 : Vec Ideal S128x72 .f32) : s0 x0 x1 = x0 :=
  View.ld_unit_zero (funext fun a => by fin_cases a <;> rfl) _ x0
theorem ld1_eq (x0 : Vec Ideal S128x216 .f32) (x1 : Vec Ideal S128x72 .f32) : s2 x0 x1 = x1 :=
  View.ld_unit_zero (funext fun a => by fin_cases a <;> rfl) _ x1

/-! ## Columns, recasts, constant words -/

section Layout
variable {α : Type}

/-- Column n of a block sliced out as [128, 1], read at row b. -/
theorem slice_at {N : ℕ} (v : (⟨2, ![128, N]⟩ : Shape).Idx → α) (n : ℕ) (hn : n < N)
    (hs : (⟨2, ![128, N]⟩ : Shape).Slices ![0, n] ⟨2, ![128, 1]⟩) (b : Fin 128) :
    extractStridedSlice ⟨2, ![128, 1]⟩ ![0, n] v hs (ix2 b (0 : Fin 1)) = v (ix2 b ⟨n, hn⟩) :=
  extractStridedSlice_apply ![0, n] v hs (ix2 b (0 : Fin 1)) (ix2 b ⟨n, hn⟩) (fun a => by
    match a with
    | ⟨0, _⟩ => simp
    | ⟨1, _⟩ => simp)

/-- A column [128, 1] recast to a vector [128], read at row b. -/
theorem tovec_at (v : (⟨2, ![128, 1]⟩ : Shape).Idx → α) (hc : (⟨2, ![128, 1]⟩ : Shape).ShapeCasts ⟨1, ![128]⟩) (b : Fin 128) :
    shapeCast ⟨1, ![128]⟩ v hc (ix1 b) = v (ix2 b (0 : Fin 1)) :=
  shapeCast_apply _ hc (ix1 b) (ix2 b (0 : Fin 1)) (by
    rw [Shape.rowMajor_val_two, Shape.rowMajor_val_one]; show b.val * 1 + 0 = b.val; omega)

/-- A vector [128] recast as a column [128, 1], read at row b. -/
theorem ascol_at (v : (⟨1, ![128]⟩ : Shape).Idx → α) (hc : (⟨1, ![128]⟩ : Shape).ShapeCasts ⟨2, ![128, 1]⟩) (b : Fin 128) :
    shapeCast ⟨2, ![128, 1]⟩ v hc (ix2 b (0 : Fin 1)) = v (ix1 b) :=
  shapeCast_apply _ hc (ix2 b (0 : Fin 1)) (ix1 b) (by
    rw [Shape.rowMajor_val_two, Shape.rowMajor_val_one]; show b.val = b.val * 1 + 0; omega)

/-- One-column pieces laid side by side: column k of the layout is piece k, given that the k pieces before it are
    one column wide each. -/
theorem concat_unit_piece {M : ℕ} (k : ℕ) (hk : k < M) (cs : List ((s : Shape) × (s.Idx → α)))
    (h : Shape.Concatenates (cs.map (·.1)) ⟨2, ![128, M]⟩ 1) (c : (⟨2, ![128, 1]⟩ : Shape).Idx → α)
    (hlen : k < cs.length) (hxk : cs[k] = ⟨⟨2, ![128, 1]⟩, c⟩)
    (hpre : (((cs.take k).map (·.1)).map fun s =>
      if h : s.rank = (⟨2, ![128, M]⟩ : Shape).rank then s.size ((1 : Fin (⟨2, ![128, M]⟩ : Shape).rank).cast h.symm) else 0).sum = k)
    (b : Fin 128) :
    concatenate ⟨2, ![128, M]⟩ 1 cs h (ix2 b ⟨k, hk⟩) = c (ix2 b (0 : Fin 1)) :=
  concatenate_apply_piece 1 cs h (ix2 b ⟨k, hk⟩) k hlen ⟨2, ![128, 1]⟩ c hxk rfl k hpre (ix2 b (0 : Fin 1))
    (fun a ha => by
      match a with
      | ⟨0, _⟩ => rfl
      | ⟨1, _⟩ => exact absurd rfl ha)
    (by show k + 0 = k; omega)

end Layout

/-- The zero word is the real 0 and the word of 1.0 the real 1. -/
theorem zero_word : Scalar.ofBits (F := Ideal) .f32 0x00000000#32 = (0 : EReal) := Ideal.ofBits_zero_f32
theorem one_word : Scalar.ofBits (F := Ideal) .f32 0x3F800000#32 = (1 : EReal) := by
  show Ideal.ofBits .f32 0x3F800000#32 = 1
  simp [Ideal.ofBits, Ideal.ieee]
  first
    | (rw [← EReal.coe_mul]; norm_num)
    | (norm_cast; norm_num)
    | (exact_mod_cast (by norm_num : ((8388608 : ℝ) * ((2 : ℝ) ^ 23)⁻¹) = 1))

/-! ## The recursions of the posed skeleton, one step at joint j with parent q -/

section Step
variable (R : ℕ → Fin 3 → Fin 3 → EReal) (p : ℕ → Fin 3 → EReal)

theorem rel_zero : rel p 0 = p 0 := rfl

theorem rel_at (j q : ℕ) (hj : 0 < j) (hq : par j = q) (k : Fin 3) : rel p j k = p j k - p q k := by
  obtain ⟨i, rfl⟩ : ∃ i, j = i + 1 := ⟨j - 1, by omega⟩
  subst hq
  rfl

theorem Rh_at (j q : ℕ) (hj : 0 < j) (hq : par j = q) (r c : Fin 3) :
    Rh R j r c = dot3 (Rh R q r 0) (Rh R q r 1) (Rh R q r 2) (R j 0 c) (R j 1 c) (R j 2 c) := by
  obtain ⟨i, rfl⟩ : ∃ i, j = i + 1 := ⟨j - 1, by omega⟩
  subst hq
  exact Rh_succ R i r c

theorem th_at (j q : ℕ) (hj : 0 < j) (hq : par j = q) (r : Fin 3) :
    th R p j r = dot3 (Rh R q r 0) (Rh R q r 1) (Rh R q r 2) (rel p j 0) (rel p j 1) (rel p j 2) + th R p q r := by
  obtain ⟨i, rfl⟩ : ∃ i, j = i + 1 := ⟨j - 1, by omega⟩
  subst hq
  exact th_succ R p i r

end Step

end Cert.KernelIdeal.KV

end
-- ==== Proof.KFacts.lean ====
/- Row b of every value of the idealized kernel's body, as a formula of the posed skeleton of row b.
   Each equation reads one named value (KDefsI) at row b: its function's pointwise operations are read at the row, its
   operands are replaced by their own equations, and where the value is an entry of the skeleton's recursion — a
   composed rotation Rh j, a posed position th j, a relative rest position rel j, a corrected translation newt j — the
   recursion is opened one step at joint j. A value that is only part of such an entry (a partial sum) is stated as
   the partial formula. The blocks of 16 and of 3 columns are read column by column. -/
import proofs.«156383_j88811333747289_2_alg».proof.Proof.KRow
import proofs.«156383_j88811333747289_2_alg».proof.Proof.KDefsI

set_option maxHeartbeats 1600000

noncomputable section

namespace Cert.KernelIdeal.KV

open Idealize.ShloMosaic Idealize.ShloMosaic.ValueIdx Cert.KernelIdeal Cert.KernelIdeal.Gen Cert.KernelIdeal.KD Cert.Pose

variable (x0 : Vec Ideal S128x216 .f32) (x1 : Vec Ideal S128x72 .f32)

theorem s5_at (b : Fin 128) : s5 x0 x1 (ix1 b) = Rk x0 b 0 0 0 := by
  simp only [s5, k0_pay7, k0_pay5, ValueIdx.mulf_apply, ValueIdx.addf_apply, ValueIdx.subf_apply, ValueIdx.broadcast_apply, zero_word, one_word, tovec_at, ascol_at, shapeCast_self, slice_at (N := 216) _ 0 (by norm_num), ld0_eq, dot3, newt, Rh_zero, th_zero, rel_zero] <;> rfl
theorem s7_at (b : Fin 128) : s7 x0 x1 (ix1 b) = Rk x0 b 0 0 1 := by
  simp only [s7, k0_pay8, k0_pay5, ValueIdx.mulf_apply, ValueIdx.addf_apply, ValueIdx.subf_apply, ValueIdx.broadcast_apply, zero_word, one_word, tovec_at, ascol_at, shapeCast_self, slice_at (N := 216) _ 1 (by norm_num), ld0_eq, dot3, newt, Rh_zero, th_zero, rel_zero] <;> rfl
theorem s9_at (b : Fin 128) : s9 x0 x1 (ix1 b) = Rk x0 b 0 0 2 := by
  simp only [s9, k0_pay9, k0_pay5, ValueIdx.mulf_apply, ValueIdx.addf_apply, ValueIdx.subf_apply, ValueIdx.broadcast_apply, zero_word, one_word, tovec_at, ascol_at, shapeCast_self, slice_at (N := 216) _ 2 (by norm_num), ld0_eq, dot3, newt, Rh_zero, th_zero, rel_zero] <;> rfl
theorem s11_at (b : Fin 128) : s11 x0 x1 (ix1 b) = Rk x0 b 0 1 0 := by
  simp only [s11, k0_pay10, k0_pay5, ValueIdx.mulf_apply, ValueIdx.addf_apply, ValueIdx.subf_apply, ValueIdx.broadcast_apply, zero_word, one_word, tovec_at, ascol_at, shapeCast_self, slice_at (N := 216) _ 3 (by norm_num), ld0_eq, dot3, newt, Rh_zero, th_zero, rel_zero] <;> rfl
theorem s13_at (b : Fin 128) : s13 x0 x1 (ix1 b) = Rk x0 b 0 1 1 := by
  simp only [s13, k0_pay11, k0_pay5, ValueIdx.mulf_apply, ValueIdx.addf_apply, ValueIdx.subf_apply, ValueIdx.broadcast_apply, zero_word, one_word, tovec_at, ascol_at, shapeCast_self, slice_at (N := 216) _ 4 (by norm_num), ld0_eq, dot3, newt, Rh_zero, th_zero, rel_zero] <;> rfl
theorem s15_at (b : Fin 128) : s15 x0 x1 (ix1 b) = Rk x0 b 0 1 2 := by
  simp only [s15, k0_pay12, k0_pay5, ValueIdx.mulf_apply, ValueIdx.addf_apply, ValueIdx.subf_apply, ValueIdx.broadcast_apply, zero_word, one_word, tovec_at, ascol_at, shapeCast_self, slice_at (N := 216) _ 5 (by norm_num), ld0_eq, dot3, newt, Rh_zero, th_zero, rel_zero] <;> rfl
theorem s17_at (b : Fin 128) : s17 x0 x1 (ix1 b) = Rk x0 b 0 2 0 := by
  simp only [s17, k0_pay13, k0_pay5, ValueIdx.mulf_apply, ValueIdx.addf_apply, ValueIdx.subf_apply, ValueIdx.broadcast_apply, zero_word, one_word, tovec_at, ascol_at, shapeCast_self, slice_at (N := 216) _ 6 (by norm_num), ld0_eq, dot3, newt, Rh_zero, th_zero, rel_zero] <;> rfl
theorem s19_at (b : Fin 128) : s19 x0 x1 (ix1 b) = Rk x0 b 0 2 1 := by
  simp only [s19, k0_pay14, k0_pay5, ValueIdx.mulf_apply, ValueIdx.addf_apply, ValueIdx.subf_apply, ValueIdx.broadcast_apply, zero_word, one_word, tovec_at, ascol_at, shapeCast_self, slice_at (N := 216) _ 7 (by norm_num), ld0_eq, dot3, newt, Rh_zero, th_zero, rel_zero] <;> rfl
theorem s21_at (b : Fin 128) : s21 x0 x1 (ix1 b) = Rk x0 b 0 2 2 := by
  simp only [s21, k0_pay15, k0_pay5, ValueIdx.mulf_apply, ValueIdx.addf_apply, ValueIdx.subf_apply, ValueIdx.broadcast_apply, zero_word, one_word, tovec_at, ascol_at, shapeCast_self, slice_at (N := 216) _ 8 (by norm_num), ld0_eq, dot3, newt, Rh_zero, th_zero, rel_zero] <;> rfl
theorem s3_eq : s3 x0 x1 = x1 := by
  simp only [s3, k0_pay6, ld1_eq, shapeCast_self] <;> rfl
theorem s437_at (b : Fin 128) : s437 x0 x1 (ix1 b) = pk x1 b 0 0 := by
  simp only [s437, k0_pay230, ValueIdx.mulf_apply, ValueIdx.addf_apply, ValueIdx.subf_apply, ValueIdx.broadcast_apply, zero_word, one_word, tovec_at, ascol_at, shapeCast_self, slice_at (N := 72) _ 0 (by norm_num), s3_eq, dot3, newt, Rh_zero, th_zero, rel_zero] <;> rfl
theorem s439_at (b : Fin 128) : s439 x0 x1 (ix1 b) = pk x1 b 0 1 := by
  simp only [s439, k0_pay231, ValueIdx.mulf_apply, ValueIdx.addf_apply, ValueIdx.subf_apply, ValueIdx.broadcast_apply, zero_word, one_word, tovec_at, ascol_at, shapeCast_self, slice_at (N := 72) _ 1 (by norm_num), s3_eq, dot3, newt, Rh_zero, th_zero, rel_zero] <;> rfl
theorem s441_at (b : Fin 128) : s441 x0 x1 (ix1 b) = pk x1 b 0 2 := by
  simp only [s441, k0_pay232, ValueIdx.mulf_apply, ValueIdx.addf_apply, ValueIdx.subf_apply, ValueIdx.broadcast_apply, zero_word, one_word, tovec_at, ascol_at, shapeCast_self, slice_at (N := 72) _ 2 (by norm_num), s3_eq, dot3, newt, Rh_zero, th_zero, rel_zero] <;> rfl
theorem s2650_at (b : Fin 128) : s2650 x0 x1 (ix1 b) = (0 : EReal) := by
  simp only [s2650, k0_pay693, ValueIdx.mulf_apply, ValueIdx.addf_apply, ValueIdx.subf_apply, ValueIdx.broadcast_apply, zero_word, one_word, tovec_at, ascol_at, shapeCast_self, dot3, newt, Rh_zero, th_zero, rel_zero] <;> rfl
theorem s2651_at (b : Fin 128) : s2651 x0 x1 (ix1 b) = (1 : EReal) := by
  simp only [s2651, k0_pay694, ValueIdx.mulf_apply, ValueIdx.addf_apply, ValueIdx.subf_apply, ValueIdx.broadcast_apply, zero_word, one_word, tovec_at, ascol_at, shapeCast_self, dot3, newt, Rh_zero, th_zero, rel_zero] <;> rfl
theorem s2654_at (b : Fin 128) : s2654 x0 x1 (ix1 b) = ((0 : EReal) + ((Rk x0 b 0 0 0) * (pk x1 b 0 0))) := by
  simp only [s2654, k0_pay695, ValueIdx.mulf_apply, ValueIdx.addf_apply, ValueIdx.subf_apply, ValueIdx.broadcast_apply, zero_word, one_word, tovec_at, ascol_at, shapeCast_self, s5_at, s437_at, dot3, newt, Rh_zero, th_zero, rel_zero] <;> rfl
theorem s2655_at (b : Fin 128) : s2655 x0 x1 (ix1 b) = ((Rk x0 b 0 0 1) * (pk x1 b 0 1)) := by
  simp only [s2655, k0_pay696, ValueIdx.mulf_apply, ValueIdx.addf_apply, ValueIdx.subf_apply, ValueIdx.broadcast_apply, zero_word, one_word, tovec_at, ascol_at, shapeCast_self, s7_at, s439_at, dot3, newt, Rh_zero, th_zero, rel_zero] <;> rfl
theorem s2692_c0 (b : Fin 128) : s2692 x0 x1 (ix2 b (⟨0, by norm_num⟩ : Fin 16)) = Rh (Rk x0 b) 0 0 0 := by
  simp only [s2692, k0_pay697]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s5_at, s7_at, s9_at, s11_at, s13_at, s15_at, s17_at, s19_at, s21_at, s437_at, s439_at, s441_at, s2650_at, s2651_at, s2654_at, s2655_at, dot3, newt, Rh_zero, th_zero, rel_zero] <;> rfl
theorem s2692_c1 (b : Fin 128) : s2692 x0 x1 (ix2 b (⟨1, by norm_num⟩ : Fin 16)) = Rh (Rk x0 b) 0 0 1 := by
  simp only [s2692, k0_pay697]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s5_at, s7_at, s9_at, s11_at, s13_at, s15_at, s17_at, s19_at, s21_at, s437_at, s439_at, s441_at, s2650_at, s2651_at, s2654_at, s2655_at, dot3, newt, Rh_zero, th_zero, rel_zero] <;> rfl
theorem s2692_c2 (b : Fin 128) : s2692 x0 x1 (ix2 b (⟨2, by norm_num⟩ : Fin 16)) = Rh (Rk x0 b) 0 0 2 := by
  simp only [s2692, k0_pay697]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s5_at, s7_at, s9_at, s11_at, s13_at, s15_at, s17_at, s19_at, s21_at, s437_at, s439_at, s441_at, s2650_at, s2651_at, s2654_at, s2655_at, dot3, newt, Rh_zero, th_zero, rel_zero] <;> rfl
theorem s2692_c3 (b : Fin 128) : s2692 x0 x1 (ix2 b (⟨3, by norm_num⟩ : Fin 16)) = newt (Rk x0 b) (pk x1 b) 0 0 := by
  simp only [s2692, k0_pay697]
  refine (concat_unit_piece 3 (by norm_num) _ _ _ (by simp) rfl rfl b).trans ?_
  simp only [ValueIdx.mulf_apply, ValueIdx.addf_apply, ValueIdx.subf_apply, ValueIdx.broadcast_apply, zero_word, one_word, tovec_at, ascol_at, shapeCast_self, s5_at, s7_at, s9_at, s11_at, s13_at, s15_at, s17_at, s19_at, s21_at, s437_at, s439_at, s441_at, s2650_at, s2651_at, s2654_at, s2655_at, dot3, newt, Rh_zero, th_zero, rel_zero] <;> rfl
theorem s2692_c4 (b : Fin 128) : s2692 x0 x1 (ix2 b (⟨4, by norm_num⟩ : Fin 16)) = Rh (Rk x0 b) 0 1 0 := by
  simp only [s2692, k0_pay697]
  refine (concat_unit_piece 4 (by norm_num) _ _ _ (by simp) rfl rfl b).trans ?_
  simp only [ValueIdx.mulf_apply, ValueIdx.addf_apply, ValueIdx.subf_apply, ValueIdx.broadcast_apply, zero_word, one_word, tovec_at, ascol_at, shapeCast_self, s5_at, s7_at, s9_at, s11_at, s13_at, s15_at, s17_at, s19_at, s21_at, s437_at, s439_at, s441_at, s2650_at, s2651_at, s2654_at, s2655_at, dot3, newt, Rh_zero, th_zero, rel_zero] <;> rfl
theorem s2692_c5 (b : Fin 128) : s2692 x0 x1 (ix2 b (⟨5, by norm_num⟩ : Fin 16)) = Rh (Rk x0 b) 0 1 1 := by
  simp only [s2692, k0_pay697]
  refine (concat_unit_piece 5 (by norm_num) _ _ _ (by simp) rfl rfl b).trans ?_
  simp only [ValueIdx.mulf_apply, ValueIdx.addf_apply, ValueIdx.subf_apply, ValueIdx.broadcast_apply, zero_word, one_word, tovec_at, ascol_at, shapeCast_self, s5_at, s7_at, s9_at, s11_at, s13_at, s15_at, s17_at, s19_at, s21_at, s437_at, s439_at, s441_at, s2650_at, s2651_at, s2654_at, s2655_at, dot3, newt, Rh_zero, th_zero, rel_zero] <;> rfl
theorem s2692_c6 (b : Fin 128) : s2692 x0 x1 (ix2 b (⟨6, by norm_num⟩ : Fin 16)) = Rh (Rk x0 b) 0 1 2 := by
  simp only [s2692, k0_pay697]
  refine (concat_unit_piece 6 (by norm_num) _ _ _ (by simp) rfl rfl b).trans ?_
  simp only [ValueIdx.mulf_apply, ValueIdx.addf_apply, ValueIdx.subf_apply, ValueIdx.broadcast_apply, zero_word, one_word, tovec_at, ascol_at, shapeCast_self, s5_at, s7_at, s9_at, s11_at, s13_at, s15_at, s17_at, s19_at, s21_at, s437_at, s439_at, s441_at, s2650_at, s2651_at, s2654_at, s2655_at, dot3, newt, Rh_zero, th_zero, rel_zero] <;> rfl
theorem s2692_c7 (b : Fin 128) : s2692 x0 x1 (ix2 b (⟨7, by norm_num⟩ : Fin 16)) = newt (Rk x0 b) (pk x1 b) 0 1 := by
  simp only [s2692, k0_pay697]
  refine (concat_unit_piece 7 (by norm_num) _ _ _ (by simp) rfl rfl b).trans ?_
  simp only [ValueIdx.mulf_apply, ValueIdx.addf_apply, ValueIdx.subf_apply, ValueIdx.broadcast_apply, zero_word, one_word, tovec_at, ascol_at, shapeCast_self, s5_at, s7_at, s9_at, s11_at, s13_at, s15_at, s17_at, s19_at, s21_at, s437_at, s439_at, s441_at, s2650_at, s2651_at, s2654_at, s2655_at, dot3, newt, Rh_zero, th_zero, rel_zero] <;> rfl
theorem s2692_c8 (b : Fin 128) : s2692 x0 x1 (ix2 b (⟨8, by norm_num⟩ : Fin 16)) = Rh (Rk x0 b) 0 2 0 := by
  simp only [s2692, k0_pay697]
  refine (concat_unit_piece 8 (by norm_num) _ _ _ (by simp) rfl rfl b).trans ?_
  simp only [ValueIdx.mulf_apply, ValueIdx.addf_apply, ValueIdx.subf_apply, ValueIdx.broadcast_apply, zero_word, one_word, tovec_at, ascol_at, shapeCast_self, s5_at, s7_at, s9_at, s11_at, s13_at, s15_at, s17_at, s19_at, s21_at, s437_at, s439_at, s441_at, s2650_at, s2651_at, s2654_at, s2655_at, dot3, newt, Rh_zero, th_zero, rel_zero] <;> rfl
theorem s2692_c9 (b : Fin 128) : s2692 x0 x1 (ix2 b (⟨9, by norm_num⟩ : Fin 16)) = Rh (Rk x0 b) 0 2 1 := by
  simp only [s2692, k0_pay697]
  refine (concat_unit_piece 9 (by norm_num) _ _ _ (by simp) rfl rfl b).trans ?_
  simp only [ValueIdx.mulf_apply, ValueIdx.addf_apply, ValueIdx.subf_apply, ValueIdx.broadcast_apply, zero_word, one_word, tovec_at, ascol_at, shapeCast_self, s5_at, s7_at, s9_at, s11_at, s13_at, s15_at, s17_at, s19_at, s21_at, s437_at, s439_at, s441_at, s2650_at, s2651_at, s2654_at, s2655_at, dot3, newt, Rh_zero, th_zero, rel_zero] <;> rfl
theorem s2692_c10 (b : Fin 128) : s2692 x0 x1 (ix2 b (⟨10, by norm_num⟩ : Fin 16)) = Rh (Rk x0 b) 0 2 2 := by
  simp only [s2692, k0_pay697]
  refine (concat_unit_piece 10 (by norm_num) _ _ _ (by simp) rfl rfl b).trans ?_
  simp only [ValueIdx.mulf_apply, ValueIdx.addf_apply, ValueIdx.subf_apply, ValueIdx.broadcast_apply, zero_word, one_word, tovec_at, ascol_at, shapeCast_self, s5_at, s7_at, s9_at, s11_at, s13_at, s15_at, s17_at, s19_at, s21_at, s437_at, s439_at, s441_at, s2650_at, s2651_at, s2654_at, s2655_at, dot3, newt, Rh_zero, th_zero, rel_zero] <;> rfl
theorem s2692_c11 (b : Fin 128) : s2692 x0 x1 (ix2 b (⟨11, by norm_num⟩ : Fin 16)) = newt (Rk x0 b) (pk x1 b) 0 2 := by
  simp only [s2692, k0_pay697]
  refine (concat_unit_piece 11 (by norm_num) _ _ _ (by simp) rfl rfl b).trans ?_
  simp only [ValueIdx.mulf_apply, ValueIdx.addf_apply, ValueIdx.subf_apply, ValueIdx.broadcast_apply, zero_word, one_word, tovec_at, ascol_at, shapeCast_self, s5_at, s7_at, s9_at, s11_at, s13_at, s15_at, s17_at, s19_at, s21_at, s437_at, s439_at, s441_at, s2650_at, s2651_at, s2654_at, s2655_at, dot3, newt, Rh_zero, th_zero, rel_zero] <;> rfl
theorem s2692_c12 (b : Fin 128) : s2692 x0 x1 (ix2 b (⟨12, by norm_num⟩ : Fin 16)) = (0 : EReal) := by
  simp only [s2692, k0_pay697]
  refine (concat_unit_piece 12 (by norm_num) _ _ _ (by simp) rfl rfl b).trans ?_
  simp only [ValueIdx.mulf_apply, ValueIdx.addf_apply, ValueIdx.subf_apply, ValueIdx.broadcast_apply, zero_word, one_word, tovec_at, ascol_at, shapeCast_self, s5_at, s7_at, s9_at, s11_at, s13_at, s15_at, s17_at, s19_at, s21_at, s437_at, s439_at, s441_at, s2650_at, s2651_at, s2654_at, s2655_at, dot3, newt, Rh_zero, th_zero, rel_zero] <;> rfl
theorem s2692_c13 (b : Fin 128) : s2692 x0 x1 (ix2 b (⟨13, by norm_num⟩ : Fin 16)) = (0 : EReal) := by
  simp only [s2692, k0_pay697]
  refine (concat_unit_piece 13 (by norm_num) _ _ _ (by simp) rfl rfl b).trans ?_
  simp only [ValueIdx.mulf_apply, ValueIdx.addf_apply, ValueIdx.subf_apply, ValueIdx.broadcast_apply, zero_word, one_word, tovec_at, ascol_at, shapeCast_self, s5_at, s7_at, s9_at, s11_at, s13_at, s15_at, s17_at, s19_at, s21_at, s437_at, s439_at, s441_at, s2650_at, s2651_at, s2654_at, s2655_at, dot3, newt, Rh_zero, th_zero, rel_zero] <;> rfl
theorem s2692_c14 (b : Fin 128) : s2692 x0 x1 (ix2 b (⟨14, by norm_num⟩ : Fin 16)) = (0 : EReal) := by
  simp only [s2692, k0_pay697]
  refine (concat_unit_piece 14 (by norm_num) _ _ _ (by simp) rfl rfl b).trans ?_
  simp only [ValueIdx.mulf_apply, ValueIdx.addf_apply, ValueIdx.subf_apply, ValueIdx.broadcast_apply, zero_word, one_word, tovec_at, ascol_at, shapeCast_self, s5_at, s7_at, s9_at, s11_at, s13_at, s15_at, s17_at, s19_at, s21_at, s437_at, s439_at, s441_at, s2650_at, s2651_at, s2654_at, s2655_at, dot3, newt, Rh_zero, th_zero, rel_zero] <;> rfl
theorem s2692_c15 (b : Fin 128) : s2692 x0 x1 (ix2 b (⟨15, by norm_num⟩ : Fin 16)) = (1 : EReal) := by
  simp only [s2692, k0_pay697]
  refine (concat_unit_piece 15 (by norm_num) _ _ _ (by simp) rfl rfl b).trans ?_
  simp only [ValueIdx.mulf_apply, ValueIdx.addf_apply, ValueIdx.subf_apply, ValueIdx.broadcast_apply, zero_word, one_word, tovec_at, ascol_at, shapeCast_self, s5_at, s7_at, s9_at, s11_at, s13_at, s15_at, s17_at, s19_at, s21_at, s437_at, s439_at, s441_at, s2650_at, s2651_at, s2654_at, s2655_at, dot3, newt, Rh_zero, th_zero, rel_zero] <;> rfl
theorem s443_at (b : Fin 128) : s443 x0 x1 (ix1 b) = pk x1 b 1 0 := by
  simp only [s443, k0_pay233, ValueIdx.mulf_apply, ValueIdx.addf_apply, ValueIdx.subf_apply, ValueIdx.broadcast_apply, zero_word, one_word, tovec_at, ascol_at, shapeCast_self, slice_at (N := 72) _ 3 (by norm_num), s3_eq, dot3, newt, Rh_zero, th_zero, rel_zero] <;> rfl
theorem s445_at (b : Fin 128) : s445 x0 x1 (ix1 b) = pk x1 b 1 1 := by
  simp only [s445, k0_pay234, ValueIdx.mulf_apply, ValueIdx.addf_apply, ValueIdx.subf_apply, ValueIdx.broadcast_apply, zero_word, one_word, tovec_at, ascol_at, shapeCast_self, slice_at (N := 72) _ 4 (by norm_num), s3_eq, dot3, newt, Rh_zero, th_zero, rel_zero] <;> rfl
theorem s447_at (b : Fin 128) : s447 x0 x1 (ix1 b) = pk x1 b 1 2 := by
  simp only [s447, k0_pay235, ValueIdx.mulf_apply, ValueIdx.addf_apply, ValueIdx.subf_apply, ValueIdx.broadcast_apply, zero_word, one_word, tovec_at, ascol_at, shapeCast_self, slice_at (N := 72) _ 5 (by norm_num), s3_eq, dot3, newt, Rh_zero, th_zero, rel_zero] <;> rfl
theorem s35_at (b : Fin 128) : s35 x0 x1 (ix1 b) = Rk x0 b 1 2 0 := by
  simp only [s35, k0_pay22, k0_pay5, ValueIdx.mulf_apply, ValueIdx.addf_apply, ValueIdx.subf_apply, ValueIdx.broadcast_apply, zero_word, one_word, tovec_at, ascol_at, shapeCast_self, slice_at (N := 216) _ 15 (by norm_num), ld0_eq, dot3, newt, Rh_zero, th_zero, rel_zero] <;> rfl
theorem s23_at (b : Fin 128) : s23 x0 x1 (ix1 b) = Rk x0 b 1 0 0 := by
  simp only [s23, k0_pay16, k0_pay5, ValueIdx.mulf_apply, ValueIdx.addf_apply, ValueIdx.subf_apply, ValueIdx.broadcast_apply, zero_word, one_word, tovec_at, ascol_at, shapeCast_self, slice_at (N := 216) _ 9 (by norm_num), ld0_eq, dot3, newt, Rh_zero, th_zero, rel_zero] <;> rfl
theorem s29_at (b : Fin 128) : s29 x0 x1 (ix1 b) = Rk x0 b 1 1 0 := by
  simp only [s29, k0_pay19, k0_pay5, ValueIdx.mulf_apply, ValueIdx.addf_apply, ValueIdx.subf_apply, ValueIdx.broadcast_apply, zero_word, one_word, tovec_at, ascol_at, shapeCast_self, slice_at (N := 216) _ 12 (by norm_num), ld0_eq, dot3, newt, Rh_zero, th_zero, rel_zero] <;> rfl
theorem s653_at (b : Fin 128) : s653 x0 x1 (ix1 b) = (((0 : EReal) + ((Rk x0 b 0 0 0) * (Rk x0 b 1 0 0))) + ((Rk x0 b 0 0 1) * (Rk x0 b 1 1 0))) := by
  simp only [s653, k0_pay373, ValueIdx.mulf_apply, ValueIdx.addf_apply, ValueIdx.subf_apply, ValueIdx.broadcast_apply, zero_word, one_word, tovec_at, ascol_at, shapeCast_self, s5_at, s7_at, s23_at, s29_at, dot3, newt, Rh_zero, th_zero, rel_zero] <;> rfl
theorem s655_at (b : Fin 128) : s655 x0 x1 (ix1 b) = Rh (Rk x0 b) 1 0 0 := by
  simp only [s655, k0_pay374, ValueIdx.mulf_apply, ValueIdx.addf_apply, ValueIdx.subf_apply, ValueIdx.broadcast_apply, zero_word, one_word, tovec_at, ascol_at, shapeCast_self, s9_at, s35_at, s653_at, dot3, newt, Rh_zero, th_zero, rel_zero, Rh_at _ 1 0 (by norm_num) rfl, th_at _ _ 1 0 (by norm_num) rfl, rel_at _ 1 0 (by norm_num) rfl] <;> rfl
theorem s25_at (b : Fin 128) : s25 x0 x1 (ix1 b) = Rk x0 b 1 0 1 := by
  simp only [s25, k0_pay17, k0_pay5, ValueIdx.mulf_apply, ValueIdx.addf_apply, ValueIdx.subf_apply, ValueIdx.broadcast_apply, zero_word, one_word, tovec_at, ascol_at, shapeCast_self, slice_at (N := 216) _ 10 (by norm_num), ld0_eq, dot3, newt, Rh_zero, th_zero, rel_zero] <;> rfl
theorem s31_at (b : Fin 128) : s31 x0 x1 (ix1 b) = Rk x0 b 1 1 1 := by
  simp only [s31, k0_pay20, k0_pay5, ValueIdx.mulf_apply, ValueIdx.addf_apply, ValueIdx.subf_apply, ValueIdx.broadcast_apply, zero_word, one_word, tovec_at, ascol_at, shapeCast_self, slice_at (N := 216) _ 13 (by norm_num), ld0_eq, dot3, newt, Rh_zero, th_zero, rel_zero] <;> rfl
theorem s37_at (b : Fin 128) : s37 x0 x1 (ix1 b) = Rk x0 b 1 2 1 := by
  simp only [s37, k0_pay23, k0_pay5, ValueIdx.mulf_apply, ValueIdx.addf_apply, ValueIdx.subf_apply, ValueIdx.broadcast_apply, zero_word, one_word, tovec_at, ascol_at, shapeCast_self, slice_at (N := 216) _ 16 (by norm_num), ld0_eq, dot3, newt, Rh_zero, th_zero, rel_zero] <;> rfl
theorem s662_at (b : Fin 128) : s662 x0 x1 (ix1 b) = Rh (Rk x0 b) 1 0 1 := by
  simp only [s662, k0_pay375, ValueIdx.mulf_apply, ValueIdx.addf_apply, ValueIdx.subf_apply, ValueIdx.broadcast_apply, zero_word, one_word, tovec_at, ascol_at, shapeCast_self, s5_at, s7_at, s9_at, s25_at, s31_at, s37_at, dot3, newt, Rh_zero, th_zero, rel_zero, Rh_at _ 1 0 (by norm_num) rfl, th_at _ _ 1 0 (by norm_num) rfl, rel_at _ 1 0 (by norm_num) rfl] <;> rfl
theorem s27_at (b : Fin 128) : s27 x0 x1 (ix1 b) = Rk x0 b 1 0 2 := by
  simp only [s27, k0_pay18, k0_pay5, ValueIdx.mulf_apply, ValueIdx.addf_apply, ValueIdx.subf_apply, ValueIdx.broadcast_apply, zero_word, one_word, tovec_at, ascol_at, shapeCast_self, slice_at (N := 216) _ 11 (by norm_num), ld0_eq, dot3, newt, Rh_zero, th_zero, rel_zero] <;> rfl
theorem s33_at (b : Fin 128) : s33 x0 x1 (ix1 b) = Rk x0 b 1 1 2 := by
  simp only [s33, k0_pay21, k0_pay5, ValueIdx.mulf_apply, ValueIdx.addf_apply, ValueIdx.subf_apply, ValueIdx.broadcast_apply, zero_word, one_word, tovec_at, ascol_at, shapeCast_self, slice_at (N := 216) _ 14 (by norm_num), ld0_eq, dot3, newt, Rh_zero, th_zero, rel_zero] <;> rfl
theorem s39_at (b : Fin 128) : s39 x0 x1 (ix1 b) = Rk x0 b 1 2 2 := by
  simp only [s39, k0_pay24, k0_pay5, ValueIdx.mulf_apply, ValueIdx.addf_apply, ValueIdx.subf_apply, ValueIdx.broadcast_apply, zero_word, one_word, tovec_at, ascol_at, shapeCast_self, slice_at (N := 216) _ 17 (by norm_num), ld0_eq, dot3, newt, Rh_zero, th_zero, rel_zero] <;> rfl
theorem s669_at (b : Fin 128) : s669 x0 x1 (ix1 b) = Rh (Rk x0 b) 1 0 2 := by
  simp only [s669, k0_pay376, ValueIdx.mulf_apply, ValueIdx.addf_apply, ValueIdx.subf_apply, ValueIdx.broadcast_apply, zero_word, one_word, tovec_at, ascol_at, shapeCast_self, s5_at, s7_at, s9_at, s27_at, s33_at, s39_at, dot3, newt, Rh_zero, th_zero, rel_zero, Rh_at _ 1 0 (by norm_num) rfl, th_at _ _ 1 0 (by norm_num) rfl, rel_at _ 1 0 (by norm_num) rfl] <;> rfl
theorem s676_at (b : Fin 128) : s676 x0 x1 (ix1 b) = Rh (Rk x0 b) 1 1 0 := by
  simp only [s676, k0_pay377, ValueIdx.mulf_apply, ValueIdx.addf_apply, ValueIdx.subf_apply, ValueIdx.broadcast_apply, zero_word, one_word, tovec_at, ascol_at, shapeCast_self, s11_at, s13_at, s15_at, s23_at, s29_at, s35_at, dot3, newt, Rh_zero, th_zero, rel_zero, Rh_at _ 1 0 (by norm_num) rfl, th_at _ _ 1 0 (by norm_num) rfl, rel_at _ 1 0 (by norm_num) rfl] <;> rfl
theorem s683_at (b : Fin 128) : s683 x0 x1 (ix1 b) = Rh (Rk x0 b) 1 1 1 := by
  simp only [s683, k0_pay378, ValueIdx.mulf_apply, ValueIdx.addf_apply, ValueIdx.subf_apply, ValueIdx.broadcast_apply, zero_word, one_word, tovec_at, ascol_at, shapeCast_self, s11_at, s13_at, s15_at, s25_at, s31_at, s37_at, dot3, newt, Rh_zero, th_zero, rel_zero, Rh_at _ 1 0 (by norm_num) rfl, th_at _ _ 1 0 (by norm_num) rfl, rel_at _ 1 0 (by norm_num) rfl] <;> rfl
theorem s690_at (b : Fin 128) : s690 x0 x1 (ix1 b) = Rh (Rk x0 b) 1 1 2 := by
  simp only [s690, k0_pay379, ValueIdx.mulf_apply, ValueIdx.addf_apply, ValueIdx.subf_apply, ValueIdx.broadcast_apply, zero_word, one_word, tovec_at, ascol_at, shapeCast_self, s11_at, s13_at, s15_at, s27_at, s33_at, s39_at, dot3, newt, Rh_zero, th_zero, rel_zero, Rh_at _ 1 0 (by norm_num) rfl, th_at _ _ 1 0 (by norm_num) rfl, rel_at _ 1 0 (by norm_num) rfl] <;> rfl
theorem s697_at (b : Fin 128) : s697 x0 x1 (ix1 b) = Rh (Rk x0 b) 1 2 0 := by
  simp only [s697, k0_pay380, ValueIdx.mulf_apply, ValueIdx.addf_apply, ValueIdx.subf_apply, ValueIdx.broadcast_apply, zero_word, one_word, tovec_at, ascol_at, shapeCast_self, s17_at, s19_at, s21_at, s23_at, s29_at, s35_at, dot3, newt, Rh_zero, th_zero, rel_zero, Rh_at _ 1 0 (by norm_num) rfl, th_at _ _ 1 0 (by norm_num) rfl, rel_at _ 1 0 (by norm_num) rfl] <;> rfl
theorem s704_at (b : Fin 128) : s704 x0 x1 (ix1 b) = Rh (Rk x0 b) 1 2 1 := by
  simp only [s704, k0_pay381, ValueIdx.mulf_apply, ValueIdx.addf_apply, ValueIdx.subf_apply, ValueIdx.broadcast_apply, zero_word, one_word, tovec_at, ascol_at, shapeCast_self, s17_at, s19_at, s21_at, s25_at, s31_at, s37_at, dot3, newt, Rh_zero, th_zero, rel_zero, Rh_at _ 1 0 (by norm_num) rfl, th_at _ _ 1 0 (by norm_num) rfl, rel_at _ 1 0 (by norm_num) rfl] <;> rfl
theorem s705_at (b : Fin 128) : s705 x0 x1 (ix1 b) = ((Rk x0 b 0 2 0) * (Rk x0 b 1 0 2)) := by
  simp only [s705, k0_pay382, ValueIdx.mulf_apply, ValueIdx.addf_apply, ValueIdx.subf_apply, ValueIdx.broadcast_apply, zero_word, one_word, tovec_at, ascol_at, shapeCast_self, s17_at, s27_at, dot3, newt, Rh_zero, th_zero, rel_zero] <;> rfl
theorem s711_at (b : Fin 128) : s711 x0 x1 (ix1 b) = Rh (Rk x0 b) 1 2 2 := by
  simp only [s711, k0_pay383, ValueIdx.mulf_apply, ValueIdx.addf_apply, ValueIdx.subf_apply, ValueIdx.broadcast_apply, zero_word, one_word, tovec_at, ascol_at, shapeCast_self, s19_at, s21_at, s33_at, s39_at, s705_at, dot3, newt, Rh_zero, th_zero, rel_zero, Rh_at _ 1 0 (by norm_num) rfl, th_at _ _ 1 0 (by norm_num) rfl, rel_at _ 1 0 (by norm_num) rfl] <;> rfl
theorem s580_at (b : Fin 128) : s580 x0 x1 (ix1 b) = rel (pk x1 b) 1 0 := by
  simp only [s580, k0_pay304, ValueIdx.mulf_apply, ValueIdx.addf_apply, ValueIdx.subf_apply, ValueIdx.broadcast_apply, zero_word, one_word, tovec_at, ascol_at, shapeCast_self, s437_at, s443_at, dot3, newt, Rh_zero, th_zero, rel_zero, Rh_at _ 1 0 (by norm_num) rfl, th_at _ _ 1 0 (by norm_num) rfl, rel_at _ 1 0 (by norm_num) rfl] <;> rfl
theorem s581_at (b : Fin 128) : s581 x0 x1 (ix1 b) = rel (pk x1 b) 1 1 := by
  simp only [s581, k0_pay305, ValueIdx.mulf_apply, ValueIdx.addf_apply, ValueIdx.subf_apply, ValueIdx.broadcast_apply, zero_word, one_word, tovec_at, ascol_at, shapeCast_self, s439_at, s445_at, dot3, newt, Rh_zero, th_zero, rel_zero, Rh_at _ 1 0 (by norm_num) rfl, th_at _ _ 1 0 (by norm_num) rfl, rel_at _ 1 0 (by norm_num) rfl] <;> rfl
theorem s582_at (b : Fin 128) : s582 x0 x1 (ix1 b) = rel (pk x1 b) 1 2 := by
  simp only [s582, k0_pay306, ValueIdx.mulf_apply, ValueIdx.addf_apply, ValueIdx.subf_apply, ValueIdx.broadcast_apply, zero_word, one_word, tovec_at, ascol_at, shapeCast_self, s441_at, s447_at, dot3, newt, Rh_zero, th_zero, rel_zero, Rh_at _ 1 0 (by norm_num) rfl, th_at _ _ 1 0 (by norm_num) rfl, rel_at _ 1 0 (by norm_num) rfl] <;> rfl
theorem s727_at (b : Fin 128) : s727 x0 x1 (ix1 b) = th (Rk x0 b) (pk x1 b) 1 1 := by
  simp only [s727, k0_pay385, ValueIdx.mulf_apply, ValueIdx.addf_apply, ValueIdx.subf_apply, ValueIdx.broadcast_apply, zero_word, one_word, tovec_at, ascol_at, shapeCast_self, s11_at, s13_at, s15_at, s439_at, s580_at, s581_at, s582_at, dot3, newt, Rh_zero, th_zero, rel_zero, Rh_at _ 1 0 (by norm_num) rfl, th_at _ _ 1 0 (by norm_num) rfl, rel_at _ 1 0 (by norm_num) rfl] <;> rfl
theorem s735_at (b : Fin 128) : s735 x0 x1 (ix1 b) = th (Rk x0 b) (pk x1 b) 1 2 := by
  simp only [s735, k0_pay386, ValueIdx.mulf_apply, ValueIdx.addf_apply, ValueIdx.subf_apply, ValueIdx.broadcast_apply, zero_word, one_word, tovec_at, ascol_at, shapeCast_self, s17_at, s19_at, s21_at, s441_at, s580_at, s581_at, s582_at, dot3, newt, Rh_zero, th_zero, rel_zero, Rh_at _ 1 0 (by norm_num) rfl, th_at _ _ 1 0 (by norm_num) rfl, rel_at _ 1 0 (by norm_num) rfl] <;> rfl
theorem s719_at (b : Fin 128) : s719 x0 x1 (ix1 b) = th (Rk x0 b) (pk x1 b) 1 0 := by
  simp only [s719, k0_pay384, ValueIdx.mulf_apply, ValueIdx.addf_apply, ValueIdx.subf_apply, ValueIdx.broadcast_apply, zero_word, one_word, tovec_at, ascol_at, shapeCast_self, s5_at, s7_at, s9_at, s437_at, s580_at, s581_at, s582_at, dot3, newt, Rh_zero, th_zero, rel_zero, Rh_at _ 1 0 (by norm_num) rfl, th_at _ _ 1 0 (by norm_num) rfl, rel_at _ 1 0 (by norm_num) rfl] <;> rfl
theorem s2704_at (b : Fin 128) : s2704 x0 x1 (ix1 b) = newt (Rk x0 b) (pk x1 b) 1 0 := by
  simp only [s2704, k0_pay699, ValueIdx.mulf_apply, ValueIdx.addf_apply, ValueIdx.subf_apply, ValueIdx.broadcast_apply, zero_word, one_word, tovec_at, ascol_at, shapeCast_self, s443_at, s445_at, s447_at, s655_at, s662_at, s669_at, s719_at, dot3, newt, Rh_zero, th_zero, rel_zero, Rh_at _ 1 0 (by norm_num) rfl, th_at _ _ 1 0 (by norm_num) rfl, rel_at _ 1 0 (by norm_num) rfl] <;> rfl
theorem s2711_at (b : Fin 128) : s2711 x0 x1 (ix1 b) = ((((0 : EReal) + ((Rh (Rk x0 b) 1 1 0) * (pk x1 b 1 0))) + ((Rh (Rk x0 b) 1 1 1) * (pk x1 b 1 1))) + ((Rh (Rk x0 b) 1 1 2) * (pk x1 b 1 2))) := by
  simp only [s2711, k0_pay700, ValueIdx.mulf_apply, ValueIdx.addf_apply, ValueIdx.subf_apply, ValueIdx.broadcast_apply, zero_word, one_word, tovec_at, ascol_at, shapeCast_self, s443_at, s445_at, s447_at, s676_at, s683_at, s690_at, dot3, newt, Rh_zero, th_zero, rel_zero] <;> rfl
theorem s2737_c0 (b : Fin 128) : s2737 x0 x1 (ix2 b (⟨0, by norm_num⟩ : Fin 16)) = Rh (Rk x0 b) 1 0 0 := by
  simp only [s2737, k0_pay701]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s443_at, s445_at, s447_at, s655_at, s662_at, s669_at, s676_at, s683_at, s690_at, s697_at, s704_at, s711_at, s727_at, s735_at, s2650_at, s2651_at, s2704_at, s2711_at, dot3, newt, Rh_zero, th_zero, rel_zero, Rh_at _ 1 0 (by norm_num) rfl, th_at _ _ 1 0 (by norm_num) rfl, rel_at _ 1 0 (by norm_num) rfl] <;> rfl
theorem s2737_c1 (b : Fin 128) : s2737 x0 x1 (ix2 b (⟨1, by norm_num⟩ : Fin 16)) = Rh (Rk x0 b) 1 0 1 := by
  simp only [s2737, k0_pay701]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s443_at, s445_at, s447_at, s655_at, s662_at, s669_at, s676_at, s683_at, s690_at, s697_at, s704_at, s711_at, s727_at, s735_at, s2650_at, s2651_at, s2704_at, s2711_at, dot3, newt, Rh_zero, th_zero, rel_zero, Rh_at _ 1 0 (by norm_num) rfl, th_at _ _ 1 0 (by norm_num) rfl, rel_at _ 1 0 (by norm_num) rfl] <;> rfl
theorem s2737_c2 (b : Fin 128) : s2737 x0 x1 (ix2 b (⟨2, by norm_num⟩ : Fin 16)) = Rh (Rk x0 b) 1 0 2 := by
  simp only [s2737, k0_pay701]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s443_at, s445_at, s447_at, s655_at, s662_at, s669_at, s676_at, s683_at, s690_at, s697_at, s704_at, s711_at, s727_at, s735_at, s2650_at, s2651_at, s2704_at, s2711_at, dot3, newt, Rh_zero, th_zero, rel_zero, Rh_at _ 1 0 (by norm_num) rfl, th_at _ _ 1 0 (by norm_num) rfl, rel_at _ 1 0 (by norm_num) rfl] <;> rfl
theorem s2737_c3 (b : Fin 128) : s2737 x0 x1 (ix2 b (⟨3, by norm_num⟩ : Fin 16)) = newt (Rk x0 b) (pk x1 b) 1 0 := by
  simp only [s2737, k0_pay701]
  refine (concat_unit_piece 3 (by norm_num) _ _ _ (by simp) rfl rfl b).trans ?_
  simp only [ValueIdx.mulf_apply, ValueIdx.addf_apply, ValueIdx.subf_apply, ValueIdx.broadcast_apply, zero_word, one_word, tovec_at, ascol_at, shapeCast_self, s443_at, s445_at, s447_at, s655_at, s662_at, s669_at, s676_at, s683_at, s690_at, s697_at, s704_at, s711_at, s727_at, s735_at, s2650_at, s2651_at, s2704_at, s2711_at, dot3, newt, Rh_zero, th_zero, rel_zero, Rh_at _ 1 0 (by norm_num) rfl, th_at _ _ 1 0 (by norm_num) rfl, rel_at _ 1 0 (by norm_num) rfl] <;> rfl
theorem s2737_c4 (b : Fin 128) : s2737 x0 x1 (ix2 b (⟨4, by norm_num⟩ : Fin 16)) = Rh (Rk x0 b) 1 1 0 := by
  simp only [s2737, k0_pay701]
  refine (concat_unit_piece 4 (by norm_num) _ _ _ (by simp) rfl rfl b).trans ?_
  simp only [ValueIdx.mulf_apply, ValueIdx.addf_apply, ValueIdx.subf_apply, ValueIdx.broadcast_apply, zero_word, one_word, tovec_at, ascol_at, shapeCast_self, s443_at, s445_at, s447_at, s655_at, s662_at, s669_at, s676_at, s683_at, s690_at, s697_at, s704_at, s711_at, s727_at, s735_at, s2650_at, s2651_at, s2704_at, s2711_at, dot3, newt, Rh_zero, th_zero, rel_zero, Rh_at _ 1 0 (by norm_num) rfl, th_at _ _ 1 0 (by norm_num) rfl, rel_at _ 1 0 (by norm_num) rfl] <;> rfl
theorem s2737_c5 (b : Fin 128) : s2737 x0 x1 (ix2 b (⟨5, by norm_num⟩ : Fin 16)) = Rh (Rk x0 b) 1 1 1 := by
  simp only [s2737, k0_pay701]
  refine (concat_unit_piece 5 (by norm_num) _ _ _ (by simp) rfl rfl b).trans ?_
  simp only [ValueIdx.mulf_apply, ValueIdx.addf_apply, ValueIdx.subf_apply, ValueIdx.broadcast_apply, zero_word, one_word, tovec_at, ascol_at, shapeCast_self, s443_at, s445_at, s447_at, s655_at, s662_at, s669_at, s676_at, s683_at, s690_at, s697_at, s704_at, s711_at, s727_at, s735_at, s2650_at, s2651_at, s2704_at, s2711_at, dot3, newt, Rh_zero, th_zero, rel_zero, Rh_at _ 1 0 (by norm_num) rfl, th_at _ _ 1 0 (by norm_num) rfl, rel_at _ 1 0 (by norm_num) rfl] <;> rfl
theorem s2737_c6 (b : Fin 128) : s2737 x0 x1 (ix2 b (⟨6, by norm_num⟩ : Fin 16)) = Rh (Rk x0 b) 1 1 2 := by
  simp only [s2737, k0_pay701]
  refine (concat_unit_piece 6 (by norm_num) _ _ _ (by simp) rfl rfl b).trans ?_
  simp only [ValueIdx.mulf_apply, ValueIdx.addf_apply, ValueIdx.subf_apply, ValueIdx.broadcast_apply, zero_word, one_word, tovec_at, ascol_at, shapeCast_self, s443_at, s445_at, s447_at, s655_at, s662_at, s669_at, s676_at, s683_at, s690_at, s697_at, s704_at, s711_at, s727_at, s735_at, s2650_at, s2651_at, s2704_at, s2711_at, dot3, newt, Rh_zero, th_zero, rel_zero, Rh_at _ 1 0 (by norm_num) rfl, th_at _ _ 1 0 (by norm_num) rfl, rel_at _ 1 0 (by norm_num) rfl] <;> rfl
theorem s2737_c7 (b : Fin 128) : s2737 x0 x1 (ix2 b (⟨7, by norm_num⟩ : Fin 16)) = newt (Rk x0 b) (pk x1 b) 1 1 := by
  simp only [s2737, k0_pay701]
  refine (concat_unit_piece 7 (by norm_num) _ _ _ (by simp) rfl rfl b).trans ?_
  simp only [ValueIdx.mulf_apply, ValueIdx.addf_apply, ValueIdx.subf_apply, ValueIdx.broadcast_apply, zero_word, one_word, tovec_at, ascol_at, shapeCast_self, s443_at, s445_at, s447_at, s655_at, s662_at, s669_at, s676_at, s683_at, s690_at, s697_at, s704_at, s711_at, s727_at, s735_at, s2650_at, s2651_at, s2704_at, s2711_at, dot3, newt, Rh_zero, th_zero, rel_zero, Rh_at _ 1 0 (by norm_num) rfl, th_at _ _ 1 0 (by norm_num) rfl, rel_at _ 1 0 (by norm_num) rfl] <;> rfl
theorem s2737_c8 (b : Fin 128) : s2737 x0 x1 (ix2 b (⟨8, by norm_num⟩ : Fin 16)) = Rh (Rk x0 b) 1 2 0 := by
  simp only [s2737, k0_pay701]
  refine (concat_unit_piece 8 (by norm_num) _ _ _ (by simp) rfl rfl b).trans ?_
  simp only [ValueIdx.mulf_apply, ValueIdx.addf_apply, ValueIdx.subf_apply, ValueIdx.broadcast_apply, zero_word, one_word, tovec_at, ascol_at, shapeCast_self, s443_at, s445_at, s447_at, s655_at, s662_at, s669_at, s676_at, s683_at, s690_at, s697_at, s704_at, s711_at, s727_at, s735_at, s2650_at, s2651_at, s2704_at, s2711_at, dot3, newt, Rh_zero, th_zero, rel_zero, Rh_at _ 1 0 (by norm_num) rfl, th_at _ _ 1 0 (by norm_num) rfl, rel_at _ 1 0 (by norm_num) rfl] <;> rfl
theorem s2737_c9 (b : Fin 128) : s2737 x0 x1 (ix2 b (⟨9, by norm_num⟩ : Fin 16)) = Rh (Rk x0 b) 1 2 1 := by
  simp only [s2737, k0_pay701]
  refine (concat_unit_piece 9 (by norm_num) _ _ _ (by simp) rfl rfl b).trans ?_
  simp only [ValueIdx.mulf_apply, ValueIdx.addf_apply, ValueIdx.subf_apply, ValueIdx.broadcast_apply, zero_word, one_word, tovec_at, ascol_at, shapeCast_self, s443_at, s445_at, s447_at, s655_at, s662_at, s669_at, s676_at, s683_at, s690_at, s697_at, s704_at, s711_at, s727_at, s735_at, s2650_at, s2651_at, s2704_at, s2711_at, dot3, newt, Rh_zero, th_zero, rel_zero, Rh_at _ 1 0 (by norm_num) rfl, th_at _ _ 1 0 (by norm_num) rfl, rel_at _ 1 0 (by norm_num) rfl] <;> rfl
theorem s2737_c10 (b : Fin 128) : s2737 x0 x1 (ix2 b (⟨10, by norm_num⟩ : Fin 16)) = Rh (Rk x0 b) 1 2 2 := by
  simp only [s2737, k0_pay701]
  refine (concat_unit_piece 10 (by norm_num) _ _ _ (by simp) rfl rfl b).trans ?_
  simp only [ValueIdx.mulf_apply, ValueIdx.addf_apply, ValueIdx.subf_apply, ValueIdx.broadcast_apply, zero_word, one_word, tovec_at, ascol_at, shapeCast_self, s443_at, s445_at, s447_at, s655_at, s662_at, s669_at, s676_at, s683_at, s690_at, s697_at, s704_at, s711_at, s727_at, s735_at, s2650_at, s2651_at, s2704_at, s2711_at, dot3, newt, Rh_zero, th_zero, rel_zero, Rh_at _ 1 0 (by norm_num) rfl, th_at _ _ 1 0 (by norm_num) rfl, rel_at _ 1 0 (by norm_num) rfl] <;> rfl
theorem s2737_c11 (b : Fin 128) : s2737 x0 x1 (ix2 b (⟨11, by norm_num⟩ : Fin 16)) = newt (Rk x0 b) (pk x1 b) 1 2 := by
  simp only [s2737, k0_pay701]
  refine (concat_unit_piece 11 (by norm_num) _ _ _ (by simp) rfl rfl b).trans ?_
  simp only [ValueIdx.mulf_apply, ValueIdx.addf_apply, ValueIdx.subf_apply, ValueIdx.broadcast_apply, zero_word, one_word, tovec_at, ascol_at, shapeCast_self, s443_at, s445_at, s447_at, s655_at, s662_at, s669_at, s676_at, s683_at, s690_at, s697_at, s704_at, s711_at, s727_at, s735_at, s2650_at, s2651_at, s2704_at, s2711_at, dot3, newt, Rh_zero, th_zero, rel_zero, Rh_at _ 1 0 (by norm_num) rfl, th_at _ _ 1 0 (by norm_num) rfl, rel_at _ 1 0 (by norm_num) rfl] <;> rfl
theorem s2737_c12 (b : Fin 128) : s2737 x0 x1 (ix2 b (⟨12, by norm_num⟩ : Fin 16)) = (0 : EReal) := by
  simp only [s2737, k0_pay701]
  refine (concat_unit_piece 12 (by norm_num) _ _ _ (by simp) rfl rfl b).trans ?_
  simp only [ValueIdx.mulf_apply, ValueIdx.addf_apply, ValueIdx.subf_apply, ValueIdx.broadcast_apply, zero_word, one_word, tovec_at, ascol_at, shapeCast_self, s443_at, s445_at, s447_at, s655_at, s662_at, s669_at, s676_at, s683_at, s690_at, s697_at, s704_at, s711_at, s727_at, s735_at, s2650_at, s2651_at, s2704_at, s2711_at, dot3, newt, Rh_zero, th_zero, rel_zero, Rh_at _ 1 0 (by norm_num) rfl, th_at _ _ 1 0 (by norm_num) rfl, rel_at _ 1 0 (by norm_num) rfl] <;> rfl
theorem s2737_c13 (b : Fin 128) : s2737 x0 x1 (ix2 b (⟨13, by norm_num⟩ : Fin 16)) = (0 : EReal) := by
  simp only [s2737, k0_pay701]
  refine (concat_unit_piece 13 (by norm_num) _ _ _ (by simp) rfl rfl b).trans ?_
  simp only [ValueIdx.mulf_apply, ValueIdx.addf_apply, ValueIdx.subf_apply, ValueIdx.broadcast_apply, zero_word, one_word, tovec_at, ascol_at, shapeCast_self, s443_at, s445_at, s447_at, s655_at, s662_at, s669_at, s676_at, s683_at, s690_at, s697_at, s704_at, s711_at, s727_at, s735_at, s2650_at, s2651_at, s2704_at, s2711_at, dot3, newt, Rh_zero, th_zero, rel_zero, Rh_at _ 1 0 (by norm_num) rfl, th_at _ _ 1 0 (by norm_num) rfl, rel_at _ 1 0 (by norm_num) rfl] <;> rfl
theorem s2737_c14 (b : Fin 128) : s2737 x0 x1 (ix2 b (⟨14, by norm_num⟩ : Fin 16)) = (0 : EReal) := by
  simp only [s2737, k0_pay701]
  refine (concat_unit_piece 14 (by norm_num) _ _ _ (by simp) rfl rfl b).trans ?_
  simp only [ValueIdx.mulf_apply, ValueIdx.addf_apply, ValueIdx.subf_apply, ValueIdx.broadcast_apply, zero_word, one_word, tovec_at, ascol_at, shapeCast_self, s443_at, s445_at, s447_at, s655_at, s662_at, s669_at, s676_at, s683_at, s690_at, s697_at, s704_at, s711_at, s727_at, s735_at, s2650_at, s2651_at, s2704_at, s2711_at, dot3, newt, Rh_zero, th_zero, rel_zero, Rh_at _ 1 0 (by norm_num) rfl, th_at _ _ 1 0 (by norm_num) rfl, rel_at _ 1 0 (by norm_num) rfl] <;> rfl
theorem s2737_c15 (b : Fin 128) : s2737 x0 x1 (ix2 b (⟨15, by norm_num⟩ : Fin 16)) = (1 : EReal) := by
  simp only [s2737, k0_pay701]
  refine (concat_unit_piece 15 (by norm_num) _ _ _ (by simp) rfl rfl b).trans ?_
  simp only [ValueIdx.mulf_apply, ValueIdx.addf_apply, ValueIdx.subf_apply, ValueIdx.broadcast_apply, zero_word, one_word, tovec_at, ascol_at, shapeCast_self, s443_at, s445_at, s447_at, s655_at, s662_at, s669_at, s676_at, s683_at, s690_at, s697_at, s704_at, s711_at, s727_at, s735_at, s2650_at, s2651_at, s2704_at, s2711_at, dot3, newt, Rh_zero, th_zero, rel_zero, Rh_at _ 1 0 (by norm_num) rfl, th_at _ _ 1 0 (by norm_num) rfl, rel_at _ 1 0 (by norm_num) rfl] <;> rfl
theorem s45_at (b : Fin 128) : s45 x0 x1 (ix1 b) = Rk x0 b 2 0 2 := by
  simp only [s45, k0_pay27, k0_pay5, ValueIdx.mulf_apply, ValueIdx.addf_apply, ValueIdx.subf_apply, ValueIdx.broadcast_apply, zero_word, one_word, tovec_at, ascol_at, shapeCast_self, slice_at (N := 216) _ 20 (by norm_num), ld0_eq, dot3, newt, Rh_zero, th_zero, rel_zero] <;> rfl
theorem s51_at (b : Fin 128) : s51 x0 x1 (ix1 b) = Rk x0 b 2 1 2 := by
  simp only [s51, k0_pay30, k0_pay5, ValueIdx.mulf_apply, ValueIdx.addf_apply, ValueIdx.subf_apply, ValueIdx.broadcast_apply, zero_word, one_word, tovec_at, ascol_at, shapeCast_self, slice_at (N := 216) _ 23 (by norm_num), ld0_eq, dot3, newt, Rh_zero, th_zero, rel_zero] <;> rfl
theorem s1_eq : s1 x0 x1 = x0 := by
  simp only [s1, k0_pay5, ld0_eq, shapeCast_self] <;> rfl
theorem s57_at (b : Fin 128) : s57 x0 x1 (ix1 b) = Rk x0 b 2 2 2 := by
  simp only [s57, k0_pay34, ValueIdx.mulf_apply, ValueIdx.addf_apply, ValueIdx.subf_apply, ValueIdx.broadcast_apply, zero_word, one_word, tovec_at, ascol_at, shapeCast_self, slice_at (N := 216) _ 26 (by norm_num), s1_eq, dot3, newt, Rh_zero, th_zero, rel_zero] <;> rfl
theorem s756_at (b : Fin 128) : s756 x0 x1 (ix1 b) = Rh (Rk x0 b) 2 0 2 := by
  simp only [s756, k0_pay389, ValueIdx.mulf_apply, ValueIdx.addf_apply, ValueIdx.subf_apply, ValueIdx.broadcast_apply, zero_word, one_word, tovec_at, ascol_at, shapeCast_self, s5_at, s7_at, s9_at, s45_at, s51_at, s57_at, dot3, newt, Rh_zero, th_zero, rel_zero, Rh_at _ 2 0 (by norm_num) rfl, th_at _ _ 2 0 (by norm_num) rfl, rel_at _ 2 0 (by norm_num) rfl] <;> rfl
theorem s47_at (b : Fin 128) : s47 x0 x1 (ix1 b) = Rk x0 b 2 1 0 := by
  simp only [s47, k0_pay28, k0_pay5, ValueIdx.mulf_apply, ValueIdx.addf_apply, ValueIdx.subf_apply, ValueIdx.broadcast_apply, zero_word, one_word, tovec_at, ascol_at, shapeCast_self, slice_at (N := 216) _ 21 (by norm_num), ld0_eq, dot3, newt, Rh_zero, th_zero, rel_zero] <;> rfl
theorem s53_at (b : Fin 128) : s53 x0 x1 (ix1 b) = Rk x0 b 2 2 0 := by
  simp only [s53, k0_pay31, k0_pay5, ValueIdx.mulf_apply, ValueIdx.addf_apply, ValueIdx.subf_apply, ValueIdx.broadcast_apply, zero_word, one_word, tovec_at, ascol_at, shapeCast_self, slice_at (N := 216) _ 24 (by norm_num), ld0_eq, dot3, newt, Rh_zero, th_zero, rel_zero] <;> rfl
theorem s41_at (b : Fin 128) : s41 x0 x1 (ix1 b) = Rk x0 b 2 0 0 := by
  simp only [s41, k0_pay25, k0_pay5, ValueIdx.mulf_apply, ValueIdx.addf_apply, ValueIdx.subf_apply, ValueIdx.broadcast_apply, zero_word, one_word, tovec_at, ascol_at, shapeCast_self, slice_at (N := 216) _ 18 (by norm_num), ld0_eq, dot3, newt, Rh_zero, th_zero, rel_zero] <;> rfl
theorem s757_at (b : Fin 128) : s757 x0 x1 (ix1 b) = ((Rk x0 b 0 1 0) * (Rk x0 b 2 0 0)) := by
  simp only [s757, k0_pay390, ValueIdx.mulf_apply, ValueIdx.addf_apply, ValueIdx.subf_apply, ValueIdx.broadcast_apply, zero_word, one_word, tovec_at, ascol_at, shapeCast_self, s11_at, s41_at, dot3, newt, Rh_zero, th_zero, rel_zero] <;> rfl
theorem s758_at (b : Fin 128) : s758 x0 x1 (ix1 b) = (0 : EReal) := by
  simp only [s758, k0_pay391, ValueIdx.mulf_apply, ValueIdx.addf_apply, ValueIdx.subf_apply, ValueIdx.broadcast_apply, zero_word, one_word, tovec_at, ascol_at, shapeCast_self, dot3, newt, Rh_zero, th_zero, rel_zero] <;> rfl
theorem s763_at (b : Fin 128) : s763 x0 x1 (ix1 b) = Rh (Rk x0 b) 2 1 0 := by
  simp only [s763, k0_pay392, ValueIdx.mulf_apply, ValueIdx.addf_apply, ValueIdx.subf_apply, ValueIdx.broadcast_apply, zero_word, one_word, tovec_at, ascol_at, shapeCast_self, s13_at, s15_at, s47_at, s53_at, s757_at, s758_at, dot3, newt, Rh_zero, th_zero, rel_zero, Rh_at _ 2 0 (by norm_num) rfl, th_at _ _ 2 0 (by norm_num) rfl, rel_at _ 2 0 (by norm_num) rfl] <;> rfl
theorem s43_at (b : Fin 128) : s43 x0 x1 (ix1 b) = Rk x0 b 2 0 1 := by
  simp only [s43, k0_pay26, k0_pay5, ValueIdx.mulf_apply, ValueIdx.addf_apply, ValueIdx.subf_apply, ValueIdx.broadcast_apply, zero_word, one_word, tovec_at, ascol_at, shapeCast_self, slice_at (N := 216) _ 19 (by norm_num), ld0_eq, dot3, newt, Rh_zero, th_zero, rel_zero] <;> rfl
theorem s49_at (b : Fin 128) : s49 x0 x1 (ix1 b) = Rk x0 b 2 1 1 := by
  simp only [s49, k0_pay29, k0_pay5, ValueIdx.mulf_apply, ValueIdx.addf_apply, ValueIdx.subf_apply, ValueIdx.broadcast_apply, zero_word, one_word, tovec_at, ascol_at, shapeCast_self, slice_at (N := 216) _ 22 (by norm_num), ld0_eq, dot3, newt, Rh_zero, th_zero, rel_zero] <;> rfl
theorem s54_at (b : Fin 128) : s54 x0 x1 (ix2 b (0 : Fin 1)) = Rk x0 b 2 2 1 := by
  simp only [s54, k0_pay32, k0_pay5, ValueIdx.mulf_apply, ValueIdx.addf_apply, ValueIdx.subf_apply, ValueIdx.broadcast_apply, zero_word, one_word, tovec_at, ascol_at, shapeCast_self, slice_at (N := 216) _ 25 (by norm_num), ld0_eq, dot3, newt, Rh_zero, th_zero, rel_zero] <;> rfl
theorem s55_at (b : Fin 128) : s55 x0 x1 (ix1 b) = Rk x0 b 2 2 1 := by
  simp only [s55, k0_pay33, ValueIdx.mulf_apply, ValueIdx.addf_apply, ValueIdx.subf_apply, ValueIdx.broadcast_apply, zero_word, one_word, tovec_at, ascol_at, shapeCast_self, s54_at, dot3, newt, Rh_zero, th_zero, rel_zero] <;> rfl
theorem s770_at (b : Fin 128) : s770 x0 x1 (ix1 b) = Rh (Rk x0 b) 2 1 1 := by
  simp only [s770, k0_pay393, ValueIdx.mulf_apply, ValueIdx.addf_apply, ValueIdx.subf_apply, ValueIdx.broadcast_apply, zero_word, one_word, tovec_at, ascol_at, shapeCast_self, s11_at, s13_at, s15_at, s43_at, s49_at, s55_at, dot3, newt, Rh_zero, th_zero, rel_zero, Rh_at _ 2 0 (by norm_num) rfl, th_at _ _ 2 0 (by norm_num) rfl, rel_at _ 2 0 (by norm_num) rfl] <;> rfl
theorem s777_at (b : Fin 128) : s777 x0 x1 (ix1 b) = Rh (Rk x0 b) 2 1 2 := by
  simp only [s777, k0_pay394, ValueIdx.mulf_apply, ValueIdx.addf_apply, ValueIdx.subf_apply, ValueIdx.broadcast_apply, zero_word, one_word, tovec_at, ascol_at, shapeCast_self, s11_at, s13_at, s15_at, s45_at, s51_at, s57_at, dot3, newt, Rh_zero, th_zero, rel_zero, Rh_at _ 2 0 (by norm_num) rfl, th_at _ _ 2 0 (by norm_num) rfl, rel_at _ 2 0 (by norm_num) rfl] <;> rfl
theorem s784_at (b : Fin 128) : s784 x0 x1 (ix1 b) = Rh (Rk x0 b) 2 2 0 := by
  simp only [s784, k0_pay395, ValueIdx.mulf_apply, ValueIdx.addf_apply, ValueIdx.subf_apply, ValueIdx.broadcast_apply, zero_word, one_word, tovec_at, ascol_at, shapeCast_self, s17_at, s19_at, s21_at, s41_at, s47_at, s53_at, dot3, newt, Rh_zero, th_zero, rel_zero, Rh_at _ 2 0 (by norm_num) rfl, th_at _ _ 2 0 (by norm_num) rfl, rel_at _ 2 0 (by norm_num) rfl] <;> rfl
theorem s791_at (b : Fin 128) : s791 x0 x1 (ix1 b) = Rh (Rk x0 b) 2 2 1 := by
  simp only [s791, k0_pay396, ValueIdx.mulf_apply, ValueIdx.addf_apply, ValueIdx.subf_apply, ValueIdx.broadcast_apply, zero_word, one_word, tovec_at, ascol_at, shapeCast_self, s17_at, s19_at, s21_at, s43_at, s49_at, s55_at, dot3, newt, Rh_zero, th_zero, rel_zero, Rh_at _ 2 0 (by norm_num) rfl, th_at _ _ 2 0 (by norm_num) rfl, rel_at _ 2 0 (by norm_num) rfl] <;> rfl
theorem s798_at (b : Fin 128) : s798 x0 x1 (ix1 b) = Rh (Rk x0 b) 2 2 2 := by
  simp only [s798, k0_pay397, ValueIdx.mulf_apply, ValueIdx.addf_apply, ValueIdx.subf_apply, ValueIdx.broadcast_apply, zero_word, one_word, tovec_at, ascol_at, shapeCast_self, s17_at, s19_at, s21_at, s45_at, s51_at, s57_at, dot3, newt, Rh_zero, th_zero, rel_zero, Rh_at _ 2 0 (by norm_num) rfl, th_at _ _ 2 0 (by norm_num) rfl, rel_at _ 2 0 (by norm_num) rfl] <;> rfl
theorem s449_at (b : Fin 128) : s449 x0 x1 (ix1 b) = pk x1 b 2 0 := by
  simp only [s449, k0_pay236, ValueIdx.mulf_apply, ValueIdx.addf_apply, ValueIdx.subf_apply, ValueIdx.broadcast_apply, zero_word, one_word, tovec_at, ascol_at, shapeCast_self, slice_at (N := 72) _ 6 (by norm_num), s3_eq, dot3, newt, Rh_zero, th_zero, rel_zero] <;> rfl
theorem s451_at (b : Fin 128) : s451 x0 x1 (ix1 b) = pk x1 b 2 1 := by
  simp only [s451, k0_pay237, ValueIdx.mulf_apply, ValueIdx.addf_apply, ValueIdx.subf_apply, ValueIdx.broadcast_apply, zero_word, one_word, tovec_at, ascol_at, shapeCast_self, slice_at (N := 72) _ 7 (by norm_num), s3_eq, dot3, newt, Rh_zero, th_zero, rel_zero] <;> rfl
theorem s453_at (b : Fin 128) : s453 x0 x1 (ix1 b) = pk x1 b 2 2 := by
  simp only [s453, k0_pay238, ValueIdx.mulf_apply, ValueIdx.addf_apply, ValueIdx.subf_apply, ValueIdx.broadcast_apply, zero_word, one_word, tovec_at, ascol_at, shapeCast_self, slice_at (N := 72) _ 8 (by norm_num), s3_eq, dot3, newt, Rh_zero, th_zero, rel_zero] <;> rfl
theorem s742_at (b : Fin 128) : s742 x0 x1 (ix1 b) = Rh (Rk x0 b) 2 0 0 := by
  simp only [s742, k0_pay387, ValueIdx.mulf_apply, ValueIdx.addf_apply, ValueIdx.subf_apply, ValueIdx.broadcast_apply, zero_word, one_word, tovec_at, ascol_at, shapeCast_self, s5_at, s7_at, s9_at, s41_at, s47_at, s53_at, dot3, newt, Rh_zero, th_zero, rel_zero, Rh_at _ 2 0 (by norm_num) rfl, th_at _ _ 2 0 (by norm_num) rfl, rel_at _ 2 0 (by norm_num) rfl] <;> rfl
theorem s749_at (b : Fin 128) : s749 x0 x1 (ix1 b) = Rh (Rk x0 b) 2 0 1 := by
  simp only [s749, k0_pay388, ValueIdx.mulf_apply, ValueIdx.addf_apply, ValueIdx.subf_apply, ValueIdx.broadcast_apply, zero_word, one_word, tovec_at, ascol_at, shapeCast_self, s5_at, s7_at, s9_at, s43_at, s49_at, s55_at, dot3, newt, Rh_zero, th_zero, rel_zero, Rh_at _ 2 0 (by norm_num) rfl, th_at _ _ 2 0 (by norm_num) rfl, rel_at _ 2 0 (by norm_num) rfl] <;> rfl
theorem s583_at (b : Fin 128) : s583 x0 x1 (ix1 b) = rel (pk x1 b) 2 0 := by
  simp only [s583, k0_pay307, ValueIdx.mulf_apply, ValueIdx.addf_apply, ValueIdx.subf_apply, ValueIdx.broadcast_apply, zero_word, one_word, tovec_at, ascol_at, shapeCast_self, s437_at, s449_at, dot3, newt, Rh_zero, th_zero, rel_zero, Rh_at _ 2 0 (by norm_num) rfl, th_at _ _ 2 0 (by norm_num) rfl, rel_at _ 2 0 (by norm_num) rfl] <;> rfl
theorem s584_at (b : Fin 128) : s584 x0 x1 (ix1 b) = rel (pk x1 b) 2 1 := by
  simp only [s584, k0_pay308, ValueIdx.mulf_apply, ValueIdx.addf_apply, ValueIdx.subf_apply, ValueIdx.broadcast_apply, zero_word, one_word, tovec_at, ascol_at, shapeCast_self, s439_at, s451_at, dot3, newt, Rh_zero, th_zero, rel_zero, Rh_at _ 2 0 (by norm_num) rfl, th_at _ _ 2 0 (by norm_num) rfl, rel_at _ 2 0 (by norm_num) rfl] <;> rfl
theorem s585_at (b : Fin 128) : s585 x0 x1 (ix1 b) = rel (pk x1 b) 2 2 := by
  simp only [s585, k0_pay309, ValueIdx.mulf_apply, ValueIdx.addf_apply, ValueIdx.subf_apply, ValueIdx.broadcast_apply, zero_word, one_word, tovec_at, ascol_at, shapeCast_self, s441_at, s453_at, dot3, newt, Rh_zero, th_zero, rel_zero, Rh_at _ 2 0 (by norm_num) rfl, th_at _ _ 2 0 (by norm_num) rfl, rel_at _ 2 0 (by norm_num) rfl] <;> rfl
theorem s806_at (b : Fin 128) : s806 x0 x1 (ix1 b) = th (Rk x0 b) (pk x1 b) 2 0 := by
  simp only [s806, k0_pay398, ValueIdx.mulf_apply, ValueIdx.addf_apply, ValueIdx.subf_apply, ValueIdx.broadcast_apply, zero_word, one_word, tovec_at, ascol_at, shapeCast_self, s5_at, s7_at, s9_at, s437_at, s583_at, s584_at, s585_at, dot3, newt, Rh_zero, th_zero, rel_zero, Rh_at _ 2 0 (by norm_num) rfl, th_at _ _ 2 0 (by norm_num) rfl, rel_at _ 2 0 (by norm_num) rfl] <;> rfl
theorem s2749_at (b : Fin 128) : s2749 x0 x1 (ix1 b) = newt (Rk x0 b) (pk x1 b) 2 0 := by
  simp only [s2749, k0_pay703, ValueIdx.mulf_apply, ValueIdx.addf_apply, ValueIdx.subf_apply, ValueIdx.broadcast_apply, zero_word, one_word, tovec_at, ascol_at, shapeCast_self, s449_at, s451_at, s453_at, s742_at, s749_at, s756_at, s806_at, dot3, newt, Rh_zero, th_zero, rel_zero, Rh_at _ 2 0 (by norm_num) rfl, th_at _ _ 2 0 (by norm_num) rfl, rel_at _ 2 0 (by norm_num) rfl] <;> rfl
theorem s811_at (b : Fin 128) : s811 x0 x1 (ix1 b) = (((0 : EReal) + ((Rk x0 b 0 1 0) * (rel (pk x1 b) 2 0))) + ((Rk x0 b 0 1 1) * (rel (pk x1 b) 2 1))) := by
  simp only [s811, k0_pay399, ValueIdx.mulf_apply, ValueIdx.addf_apply, ValueIdx.subf_apply, ValueIdx.broadcast_apply, zero_word, one_word, tovec_at, ascol_at, shapeCast_self, s11_at, s13_at, s583_at, s584_at, dot3, newt, Rh_zero, th_zero, rel_zero] <;> rfl
theorem s814_at (b : Fin 128) : s814 x0 x1 (ix1 b) = th (Rk x0 b) (pk x1 b) 2 1 := by
  simp only [s814, k0_pay400, ValueIdx.mulf_apply, ValueIdx.addf_apply, ValueIdx.subf_apply, ValueIdx.broadcast_apply, zero_word, one_word, tovec_at, ascol_at, shapeCast_self, s15_at, s439_at, s585_at, s811_at, dot3, newt, Rh_zero, th_zero, rel_zero, Rh_at _ 2 0 (by norm_num) rfl, th_at _ _ 2 0 (by norm_num) rfl, rel_at _ 2 0 (by norm_num) rfl] <;> rfl
theorem s2757_at (b : Fin 128) : s2757 x0 x1 (ix1 b) = newt (Rk x0 b) (pk x1 b) 2 1 := by
  simp only [s2757, k0_pay704, ValueIdx.mulf_apply, ValueIdx.addf_apply, ValueIdx.subf_apply, ValueIdx.broadcast_apply, zero_word, one_word, tovec_at, ascol_at, shapeCast_self, s449_at, s451_at, s453_at, s763_at, s770_at, s777_at, s814_at, dot3, newt, Rh_zero, th_zero, rel_zero, Rh_at _ 2 0 (by norm_num) rfl, th_at _ _ 2 0 (by norm_num) rfl, rel_at _ 2 0 (by norm_num) rfl] <;> rfl
theorem s822_at (b : Fin 128) : s822 x0 x1 (ix1 b) = th (Rk x0 b) (pk x1 b) 2 2 := by
  simp only [s822, k0_pay401, ValueIdx.mulf_apply, ValueIdx.addf_apply, ValueIdx.subf_apply, ValueIdx.broadcast_apply, zero_word, one_word, tovec_at, ascol_at, shapeCast_self, s17_at, s19_at, s21_at, s441_at, s583_at, s584_at, s585_at, dot3, newt, Rh_zero, th_zero, rel_zero, Rh_at _ 2 0 (by norm_num) rfl, th_at _ _ 2 0 (by norm_num) rfl, rel_at _ 2 0 (by norm_num) rfl] <;> rfl
theorem s2765_at (b : Fin 128) : s2765 x0 x1 (ix1 b) = newt (Rk x0 b) (pk x1 b) 2 2 := by
  simp only [s2765, k0_pay705, ValueIdx.mulf_apply, ValueIdx.addf_apply, ValueIdx.subf_apply, ValueIdx.broadcast_apply, zero_word, one_word, tovec_at, ascol_at, shapeCast_self, s449_at, s451_at, s453_at, s784_at, s791_at, s798_at, s822_at, dot3, newt, Rh_zero, th_zero, rel_zero, Rh_at _ 2 0 (by norm_num) rfl, th_at _ _ 2 0 (by norm_num) rfl, rel_at _ 2 0 (by norm_num) rfl] <;> rfl
theorem s2766_at (b : Fin 128) : s2766 x0 x1 (ix2 b (0 : Fin 1)) = Rh (Rk x0 b) 2 0 0 := by
  simp only [s2766, k0_pay706, ValueIdx.mulf_apply, ValueIdx.addf_apply, ValueIdx.subf_apply, ValueIdx.broadcast_apply, zero_word, one_word, tovec_at, ascol_at, shapeCast_self, s742_at, dot3, newt, Rh_zero, th_zero, rel_zero, Rh_at _ 2 0 (by norm_num) rfl, th_at _ _ 2 0 (by norm_num) rfl, rel_at _ 2 0 (by norm_num) rfl] <;> rfl
theorem s2767_at (b : Fin 128) : s2767 x0 x1 (ix2 b (0 : Fin 1)) = Rh (Rk x0 b) 2 0 1 := by
  simp only [s2767, k0_pay707, ValueIdx.mulf_apply, ValueIdx.addf_apply, ValueIdx.subf_apply, ValueIdx.broadcast_apply, zero_word, one_word, tovec_at, ascol_at, shapeCast_self, s749_at, dot3, newt, Rh_zero, th_zero, rel_zero, Rh_at _ 2 0 (by norm_num) rfl, th_at _ _ 2 0 (by norm_num) rfl, rel_at _ 2 0 (by norm_num) rfl] <;> rfl
theorem s2782_c0 (b : Fin 128) : s2782 x0 x1 (ix2 b (⟨0, by norm_num⟩ : Fin 16)) = Rh (Rk x0 b) 2 0 0 := by
  simp only [s2782, k0_pay708]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s756_at, s763_at, s770_at, s777_at, s784_at, s791_at, s798_at, s2650_at, s2651_at, s2749_at, s2757_at, s2765_at, s2766_at, s2767_at, dot3, newt, Rh_zero, th_zero, rel_zero, Rh_at _ 2 0 (by norm_num) rfl, th_at _ _ 2 0 (by norm_num) rfl, rel_at _ 2 0 (by norm_num) rfl] <;> rfl
theorem s2782_c1 (b : Fin 128) : s2782 x0 x1 (ix2 b (⟨1, by norm_num⟩ : Fin 16)) = Rh (Rk x0 b) 2 0 1 := by
  simp only [s2782, k0_pay708]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s756_at, s763_at, s770_at, s777_at, s784_at, s791_at, s798_at, s2650_at, s2651_at, s2749_at, s2757_at, s2765_at, s2766_at, s2767_at, dot3, newt, Rh_zero, th_zero, rel_zero, Rh_at _ 2 0 (by norm_num) rfl, th_at _ _ 2 0 (by norm_num) rfl, rel_at _ 2 0 (by norm_num) rfl] <;> rfl
theorem s2782_c2 (b : Fin 128) : s2782 x0 x1 (ix2 b (⟨2, by norm_num⟩ : Fin 16)) = Rh (Rk x0 b) 2 0 2 := by
  simp only [s2782, k0_pay708]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s756_at, s763_at, s770_at, s777_at, s784_at, s791_at, s798_at, s2650_at, s2651_at, s2749_at, s2757_at, s2765_at, s2766_at, s2767_at, dot3, newt, Rh_zero, th_zero, rel_zero, Rh_at _ 2 0 (by norm_num) rfl, th_at _ _ 2 0 (by norm_num) rfl, rel_at _ 2 0 (by norm_num) rfl] <;> rfl
theorem s2782_c3 (b : Fin 128) : s2782 x0 x1 (ix2 b (⟨3, by norm_num⟩ : Fin 16)) = newt (Rk x0 b) (pk x1 b) 2 0 := by
  simp only [s2782, k0_pay708]
  refine (concat_unit_piece 3 (by norm_num) _ _ _ (by simp) rfl rfl b).trans ?_
  simp only [ValueIdx.mulf_apply, ValueIdx.addf_apply, ValueIdx.subf_apply, ValueIdx.broadcast_apply, zero_word, one_word, tovec_at, ascol_at, shapeCast_self, s756_at, s763_at, s770_at, s777_at, s784_at, s791_at, s798_at, s2650_at, s2651_at, s2749_at, s2757_at, s2765_at, s2766_at, s2767_at, dot3, newt, Rh_zero, th_zero, rel_zero, Rh_at _ 2 0 (by norm_num) rfl, th_at _ _ 2 0 (by norm_num) rfl, rel_at _ 2 0 (by norm_num) rfl] <;> rfl
theorem s2782_c4 (b : Fin 128) : s2782 x0 x1 (ix2 b (⟨4, by norm_num⟩ : Fin 16)) = Rh (Rk x0 b) 2 1 0 := by
  simp only [s2782, k0_pay708]
  refine (concat_unit_piece 4 (by norm_num) _ _ _ (by simp) rfl rfl b).trans ?_
  simp only [ValueIdx.mulf_apply, ValueIdx.addf_apply, ValueIdx.subf_apply, ValueIdx.broadcast_apply, zero_word, one_word, tovec_at, ascol_at, shapeCast_self, s756_at, s763_at, s770_at, s777_at, s784_at, s791_at, s798_at, s2650_at, s2651_at, s2749_at, s2757_at, s2765_at, s2766_at, s2767_at, dot3, newt, Rh_zero, th_zero, rel_zero, Rh_at _ 2 0 (by norm_num) rfl, th_at _ _ 2 0 (by norm_num) rfl, rel_at _ 2 0 (by norm_num) rfl] <;> rfl
theorem s2782_c5 (b : Fin 128) : s2782 x0 x1 (ix2 b (⟨5, by norm_num⟩ : Fin 16)) = Rh (Rk x0 b) 2 1 1 := by
  simp only [s2782, k0_pay708]
  refine (concat_unit_piece 5 (by norm_num) _ _ _ (by simp) rfl rfl b).trans ?_
  simp only [ValueIdx.mulf_apply, ValueIdx.addf_apply, ValueIdx.subf_apply, ValueIdx.broadcast_apply, zero_word, one_word, tovec_at, ascol_at, shapeCast_self, s756_at, s763_at, s770_at, s777_at, s784_at, s791_at, s798_at, s2650_at, s2651_at, s2749_at, s2757_at, s2765_at, s2766_at, s2767_at, dot3, newt, Rh_zero, th_zero, rel_zero, Rh_at _ 2 0 (by norm_num) rfl, th_at _ _ 2 0 (by norm_num) rfl, rel_at _ 2 0 (by norm_num) rfl] <;> rfl
theorem s2782_c6 (b : Fin 128) : s2782 x0 x1 (ix2 b (⟨6, by norm_num⟩ : Fin 16)) = Rh (Rk x0 b) 2 1 2 := by
  simp only [s2782, k0_pay708]
  refine (concat_unit_piece 6 (by norm_num) _ _ _ (by simp) rfl rfl b).trans ?_
  simp only [ValueIdx.mulf_apply, ValueIdx.addf_apply, ValueIdx.subf_apply, ValueIdx.broadcast_apply, zero_word, one_word, tovec_at, ascol_at, shapeCast_self, s756_at, s763_at, s770_at, s777_at, s784_at, s791_at, s798_at, s2650_at, s2651_at, s2749_at, s2757_at, s2765_at, s2766_at, s2767_at, dot3, newt, Rh_zero, th_zero, rel_zero, Rh_at _ 2 0 (by norm_num) rfl, th_at _ _ 2 0 (by norm_num) rfl, rel_at _ 2 0 (by norm_num) rfl] <;> rfl
theorem s2782_c7 (b : Fin 128) : s2782 x0 x1 (ix2 b (⟨7, by norm_num⟩ : Fin 16)) = newt (Rk x0 b) (pk x1 b) 2 1 := by
  simp only [s2782, k0_pay708]
  refine (concat_unit_piece 7 (by norm_num) _ _ _ (by simp) rfl rfl b).trans ?_
  simp only [ValueIdx.mulf_apply, ValueIdx.addf_apply, ValueIdx.subf_apply, ValueIdx.broadcast_apply, zero_word, one_word, tovec_at, ascol_at, shapeCast_self, s756_at, s763_at, s770_at, s777_at, s784_at, s791_at, s798_at, s2650_at, s2651_at, s2749_at, s2757_at, s2765_at, s2766_at, s2767_at, dot3, newt, Rh_zero, th_zero, rel_zero, Rh_at _ 2 0 (by norm_num) rfl, th_at _ _ 2 0 (by norm_num) rfl, rel_at _ 2 0 (by norm_num) rfl] <;> rfl
theorem s2782_c8 (b : Fin 128) : s2782 x0 x1 (ix2 b (⟨8, by norm_num⟩ : Fin 16)) = Rh (Rk x0 b) 2 2 0 := by
  simp only [s2782, k0_pay708]
  refine (concat_unit_piece 8 (by norm_num) _ _ _ (by simp) rfl rfl b).trans ?_
  simp only [ValueIdx.mulf_apply, ValueIdx.addf_apply, ValueIdx.subf_apply, ValueIdx.broadcast_apply, zero_word, one_word, tovec_at, ascol_at, shapeCast_self, s756_at, s763_at, s770_at, s777_at, s784_at, s791_at, s798_at, s2650_at, s2651_at, s2749_at, s2757_at, s2765_at, s2766_at, s2767_at, dot3, newt, Rh_zero, th_zero, rel_zero, Rh_at _ 2 0 (by norm_num) rfl, th_at _ _ 2 0 (by norm_num) rfl, rel_at _ 2 0 (by norm_num) rfl] <;> rfl
theorem s2782_c9 (b : Fin 128) : s2782 x0 x1 (ix2 b (⟨9, by norm_num⟩ : Fin 16)) = Rh (Rk x0 b) 2 2 1 := by
  simp only [s2782, k0_pay708]
  refine (concat_unit_piece 9 (by norm_num) _ _ _ (by simp) rfl rfl b).trans ?_
  simp only [ValueIdx.mulf_apply, ValueIdx.addf_apply, ValueIdx.subf_apply, ValueIdx.broadcast_apply, zero_word, one_word, tovec_at, ascol_at, shapeCast_self, s756_at, s763_at, s770_at, s777_at, s784_at, s791_at, s798_at, s2650_at, s2651_at, s2749_at, s2757_at, s2765_at, s2766_at, s2767_at, dot3, newt, Rh_zero, th_zero, rel_zero, Rh_at _ 2 0 (by norm_num) rfl, th_at _ _ 2 0 (by norm_num) rfl, rel_at _ 2 0 (by norm_num) rfl] <;> rfl
theorem s2782_c10 (b : Fin 128) : s2782 x0 x1 (ix2 b (⟨10, by norm_num⟩ : Fin 16)) = Rh (Rk x0 b) 2 2 2 := by
  simp only [s2782, k0_pay708]
  refine (concat_unit_piece 10 (by norm_num) _ _ _ (by simp) rfl rfl b).trans ?_
  simp only [ValueIdx.mulf_apply, ValueIdx.addf_apply, ValueIdx.subf_apply, ValueIdx.broadcast_apply, zero_word, one_word, tovec_at, ascol_at, shapeCast_self, s756_at, s763_at, s770_at, s777_at, s784_at, s791_at, s798_at, s2650_at, s2651_at, s2749_at, s2757_at, s2765_at, s2766_at, s2767_at, dot3, newt, Rh_zero, th_zero, rel_zero, Rh_at _ 2 0 (by norm_num) rfl, th_at _ _ 2 0 (by norm_num) rfl, rel_at _ 2 0 (by norm_num) rfl] <;> rfl
theorem s2782_c11 (b : Fin 128) : s2782 x0 x1 (ix2 b (⟨11, by norm_num⟩ : Fin 16)) = newt (Rk x0 b) (pk x1 b) 2 2 := by
  simp only [s2782, k0_pay708]
  refine (concat_unit_piece 11 (by norm_num) _ _ _ (by simp) rfl rfl b).trans ?_
  simp only [ValueIdx.mulf_apply, ValueIdx.addf_apply, ValueIdx.subf_apply, ValueIdx.broadcast_apply, zero_word, one_word, tovec_at, ascol_at, shapeCast_self, s756_at, s763_at, s770_at, s777_at, s784_at, s791_at, s798_at, s2650_at, s2651_at, s2749_at, s2757_at, s2765_at, s2766_at, s2767_at, dot3, newt, Rh_zero, th_zero, rel_zero, Rh_at _ 2 0 (by norm_num) rfl, th_at _ _ 2 0 (by norm_num) rfl, rel_at _ 2 0 (by norm_num) rfl] <;> rfl
theorem s2782_c12 (b : Fin 128) : s2782 x0 x1 (ix2 b (⟨12, by norm_num⟩ : Fin 16)) = (0 : EReal) := by
  simp only [s2782, k0_pay708]
  refine (concat_unit_piece 12 (by norm_num) _ _ _ (by simp) rfl rfl b).trans ?_
  simp only [ValueIdx.mulf_apply, ValueIdx.addf_apply, ValueIdx.subf_apply, ValueIdx.broadcast_apply, zero_word, one_word, tovec_at, ascol_at, shapeCast_self, s756_at, s763_at, s770_at, s777_at, s784_at, s791_at, s798_at, s2650_at, s2651_at, s2749_at, s2757_at, s2765_at, s2766_at, s2767_at, dot3, newt, Rh_zero, th_zero, rel_zero, Rh_at _ 2 0 (by norm_num) rfl, th_at _ _ 2 0 (by norm_num) rfl, rel_at _ 2 0 (by norm_num) rfl] <;> rfl
theorem s2782_c13 (b : Fin 128) : s2782 x0 x1 (ix2 b (⟨13, by norm_num⟩ : Fin 16)) = (0 : EReal) := by
  simp only [s2782, k0_pay708]
  refine (concat_unit_piece 13 (by norm_num) _ _ _ (by simp) rfl rfl b).trans ?_
  simp only [ValueIdx.mulf_apply, ValueIdx.addf_apply, ValueIdx.subf_apply, ValueIdx.broadcast_apply, zero_word, one_word, tovec_at, ascol_at, shapeCast_self, s756_at, s763_at, s770_at, s777_at, s784_at, s791_at, s798_at, s2650_at, s2651_at, s2749_at, s2757_at, s2765_at, s2766_at, s2767_at, dot3, newt, Rh_zero, th_zero, rel_zero, Rh_at _ 2 0 (by norm_num) rfl, th_at _ _ 2 0 (by norm_num) rfl, rel_at _ 2 0 (by norm_num) rfl] <;> rfl
theorem s2782_c14 (b : Fin 128) : s2782 x0 x1 (ix2 b (⟨14, by norm_num⟩ : Fin 16)) = (0 : EReal) := by
  simp only [s2782, k0_pay708]
  refine (concat_unit_piece 14 (by norm_num) _ _ _ (by simp) rfl rfl b).trans ?_
  simp only [ValueIdx.mulf_apply, ValueIdx.addf_apply, ValueIdx.subf_apply, ValueIdx.broadcast_apply, zero_word, one_word, tovec_at, ascol_at, shapeCast_self, s756_at, s763_at, s770_at, s777_at, s784_at, s791_at, s798_at, s2650_at, s2651_at, s2749_at, s2757_at, s2765_at, s2766_at, s2767_at, dot3, newt, Rh_zero, th_zero, rel_zero, Rh_at _ 2 0 (by norm_num) rfl, th_at _ _ 2 0 (by norm_num) rfl, rel_at _ 2 0 (by norm_num) rfl] <;> rfl
theorem s2782_c15 (b : Fin 128) : s2782 x0 x1 (ix2 b (⟨15, by norm_num⟩ : Fin 16)) = (1 : EReal) := by
  simp only [s2782, k0_pay708]
  refine (concat_unit_piece 15 (by norm_num) _ _ _ (by simp) rfl rfl b).trans ?_
  simp only [ValueIdx.mulf_apply, ValueIdx.addf_apply, ValueIdx.subf_apply, ValueIdx.broadcast_apply, zero_word, one_word, tovec_at, ascol_at, shapeCast_self, s756_at, s763_at, s770_at, s777_at, s784_at, s791_at, s798_at, s2650_at, s2651_at, s2749_at, s2757_at, s2765_at, s2766_at, s2767_at, dot3, newt, Rh_zero, th_zero, rel_zero, Rh_at _ 2 0 (by norm_num) rfl, th_at _ _ 2 0 (by norm_num) rfl, rel_at _ 2 0 (by norm_num) rfl] <;> rfl
theorem s59_at (b : Fin 128) : s59 x0 x1 (ix1 b) = Rk x0 b 3 0 0 := by
  simp only [s59, k0_pay35, ValueIdx.mulf_apply, ValueIdx.addf_apply, ValueIdx.subf_apply, ValueIdx.broadcast_apply, zero_word, one_word, tovec_at, ascol_at, shapeCast_self, slice_at (N := 216) _ 27 (by norm_num), s1_eq, dot3, newt, Rh_zero, th_zero, rel_zero] <;> rfl
theorem s65_at (b : Fin 128) : s65 x0 x1 (ix1 b) = Rk x0 b 3 1 0 := by
  simp only [s65, k0_pay38, ValueIdx.mulf_apply, ValueIdx.addf_apply, ValueIdx.subf_apply, ValueIdx.broadcast_apply, zero_word, one_word, tovec_at, ascol_at, shapeCast_self, slice_at (N := 216) _ 30 (by norm_num), s1_eq, dot3, newt, Rh_zero, th_zero, rel_zero] <;> rfl
theorem s71_at (b : Fin 128) : s71 x0 x1 (ix1 b) = Rk x0 b 3 2 0 := by
  simp only [s71, k0_pay41, ValueIdx.mulf_apply, ValueIdx.addf_apply, ValueIdx.subf_apply, ValueIdx.broadcast_apply, zero_word, one_word, tovec_at, ascol_at, shapeCast_self, slice_at (N := 216) _ 33 (by norm_num), s1_eq, dot3, newt, Rh_zero, th_zero, rel_zero] <;> rfl
theorem s829_at (b : Fin 128) : s829 x0 x1 (ix1 b) = Rh (Rk x0 b) 3 0 0 := by
  simp only [s829, k0_pay402, ValueIdx.mulf_apply, ValueIdx.addf_apply, ValueIdx.subf_apply, ValueIdx.broadcast_apply, zero_word, one_word, tovec_at, ascol_at, shapeCast_self, s5_at, s7_at, s9_at, s59_at, s65_at, s71_at, dot3, newt, Rh_zero, th_zero, rel_zero, Rh_at _ 3 0 (by norm_num) rfl, th_at _ _ 3 0 (by norm_num) rfl, rel_at _ 3 0 (by norm_num) rfl] <;> rfl
theorem s2811_at (b : Fin 128) : s2811 x0 x1 (ix2 b (0 : Fin 1)) = Rh (Rk x0 b) 3 0 0 := by
  simp only [s2811, k0_pay710, ValueIdx.mulf_apply, ValueIdx.addf_apply, ValueIdx.subf_apply, ValueIdx.broadcast_apply, zero_word, one_word, tovec_at, ascol_at, shapeCast_self, s829_at, dot3, newt, Rh_zero, th_zero, rel_zero, Rh_at _ 3 0 (by norm_num) rfl, th_at _ _ 3 0 (by norm_num) rfl, rel_at _ 3 0 (by norm_num) rfl] <;> rfl
theorem s61_at (b : Fin 128) : s61 x0 x1 (ix1 b) = Rk x0 b 3 0 1 := by
  simp only [s61, k0_pay36, ValueIdx.mulf_apply, ValueIdx.addf_apply, ValueIdx.subf_apply, ValueIdx.broadcast_apply, zero_word, one_word, tovec_at, ascol_at, shapeCast_self, slice_at (N := 216) _ 28 (by norm_num), s1_eq, dot3, newt, Rh_zero, th_zero, rel_zero] <;> rfl
theorem s67_at (b : Fin 128) : s67 x0 x1 (ix1 b) = Rk x0 b 3 1 1 := by
  simp only [s67, k0_pay39, ValueIdx.mulf_apply, ValueIdx.addf_apply, ValueIdx.subf_apply, ValueIdx.broadcast_apply, zero_word, one_word, tovec_at, ascol_at, shapeCast_self, slice_at (N := 216) _ 31 (by norm_num), s1_eq, dot3, newt, Rh_zero, th_zero, rel_zero] <;> rfl
theorem s73_at (b : Fin 128) : s73 x0 x1 (ix1 b) = Rk x0 b 3 2 1 := by
  simp only [s73, k0_pay42, ValueIdx.mulf_apply, ValueIdx.addf_apply, ValueIdx.subf_apply, ValueIdx.broadcast_apply, zero_word, one_word, tovec_at, ascol_at, shapeCast_self, slice_at (N := 216) _ 34 (by norm_num), s1_eq, dot3, newt, Rh_zero, th_zero, rel_zero] <;> rfl
theorem s836_at (b : Fin 128) : s836 x0 x1 (ix1 b) = Rh (Rk x0 b) 3 0 1 := by
  simp only [s836, k0_pay403, ValueIdx.mulf_apply, ValueIdx.addf_apply, ValueIdx.subf_apply, ValueIdx.broadcast_apply, zero_word, one_word, tovec_at, ascol_at, shapeCast_self, s5_at, s7_at, s9_at, s61_at, s67_at, s73_at, dot3, newt, Rh_zero, th_zero, rel_zero, Rh_at _ 3 0 (by norm_num) rfl, th_at _ _ 3 0 (by norm_num) rfl, rel_at _ 3 0 (by norm_num) rfl] <;> rfl
theorem s2812_at (b : Fin 128) : s2812 x0 x1 (ix2 b (0 : Fin 1)) = Rh (Rk x0 b) 3 0 1 := by
  simp only [s2812, k0_pay711, ValueIdx.mulf_apply, ValueIdx.addf_apply, ValueIdx.subf_apply, ValueIdx.broadcast_apply, zero_word, one_word, tovec_at, ascol_at, shapeCast_self, s836_at, dot3, newt, Rh_zero, th_zero, rel_zero, Rh_at _ 3 0 (by norm_num) rfl, th_at _ _ 3 0 (by norm_num) rfl, rel_at _ 3 0 (by norm_num) rfl] <;> rfl
theorem s63_at (b : Fin 128) : s63 x0 x1 (ix1 b) = Rk x0 b 3 0 2 := by
  simp only [s63, k0_pay37, ValueIdx.mulf_apply, ValueIdx.addf_apply, ValueIdx.subf_apply, ValueIdx.broadcast_apply, zero_word, one_word, tovec_at, ascol_at, shapeCast_self, slice_at (N := 216) _ 29 (by norm_num), s1_eq, dot3, newt, Rh_zero, th_zero, rel_zero] <;> rfl
theorem s69_at (b : Fin 128) : s69 x0 x1 (ix1 b) = Rk x0 b 3 1 2 := by
  simp only [s69, k0_pay40, ValueIdx.mulf_apply, ValueIdx.addf_apply, ValueIdx.subf_apply, ValueIdx.broadcast_apply, zero_word, one_word, tovec_at, ascol_at, shapeCast_self, slice_at (N := 216) _ 32 (by norm_num), s1_eq, dot3, newt, Rh_zero, th_zero, rel_zero] <;> rfl
theorem s75_at (b : Fin 128) : s75 x0 x1 (ix1 b) = Rk x0 b 3 2 2 := by
  simp only [s75, k0_pay43, ValueIdx.mulf_apply, ValueIdx.addf_apply, ValueIdx.subf_apply, ValueIdx.broadcast_apply, zero_word, one_word, tovec_at, ascol_at, shapeCast_self, slice_at (N := 216) _ 35 (by norm_num), s1_eq, dot3, newt, Rh_zero, th_zero, rel_zero] <;> rfl
theorem s843_at (b : Fin 128) : s843 x0 x1 (ix1 b) = Rh (Rk x0 b) 3 0 2 := by
  simp only [s843, k0_pay404, ValueIdx.mulf_apply, ValueIdx.addf_apply, ValueIdx.subf_apply, ValueIdx.broadcast_apply, zero_word, one_word, tovec_at, ascol_at, shapeCast_self, s5_at, s7_at, s9_at, s63_at, s69_at, s75_at, dot3, newt, Rh_zero, th_zero, rel_zero, Rh_at _ 3 0 (by norm_num) rfl, th_at _ _ 3 0 (by norm_num) rfl, rel_at _ 3 0 (by norm_num) rfl] <;> rfl
theorem s2813_at (b : Fin 128) : s2813 x0 x1 (ix2 b (0 : Fin 1)) = Rh (Rk x0 b) 3 0 2 := by
  simp only [s2813, k0_pay712, ValueIdx.mulf_apply, ValueIdx.addf_apply, ValueIdx.subf_apply, ValueIdx.broadcast_apply, zero_word, one_word, tovec_at, ascol_at, shapeCast_self, s843_at, dot3, newt, Rh_zero, th_zero, rel_zero, Rh_at _ 3 0 (by norm_num) rfl, th_at _ _ 3 0 (by norm_num) rfl, rel_at _ 3 0 (by norm_num) rfl] <;> rfl
theorem s455_at (b : Fin 128) : s455 x0 x1 (ix1 b) = pk x1 b 3 0 := by
  simp only [s455, k0_pay239, ValueIdx.mulf_apply, ValueIdx.addf_apply, ValueIdx.subf_apply, ValueIdx.broadcast_apply, zero_word, one_word, tovec_at, ascol_at, shapeCast_self, slice_at (N := 72) _ 9 (by norm_num), s3_eq, dot3, newt, Rh_zero, th_zero, rel_zero] <;> rfl
theorem s457_at (b : Fin 128) : s457 x0 x1 (ix1 b) = pk x1 b 3 1 := by
  simp only [s457, k0_pay240, ValueIdx.mulf_apply, ValueIdx.addf_apply, ValueIdx.subf_apply, ValueIdx.broadcast_apply, zero_word, one_word, tovec_at, ascol_at, shapeCast_self, slice_at (N := 72) _ 10 (by norm_num), s3_eq, dot3, newt, Rh_zero, th_zero, rel_zero] <;> rfl
theorem s459_at (b : Fin 128) : s459 x0 x1 (ix1 b) = pk x1 b 3 2 := by
  simp only [s459, k0_pay241, ValueIdx.mulf_apply, ValueIdx.addf_apply, ValueIdx.subf_apply, ValueIdx.broadcast_apply, zero_word, one_word, tovec_at, ascol_at, shapeCast_self, slice_at (N := 72) _ 11 (by norm_num), s3_eq, dot3, newt, Rh_zero, th_zero, rel_zero] <;> rfl
theorem s586_at (b : Fin 128) : s586 x0 x1 (ix1 b) = rel (pk x1 b) 3 0 := by
  simp only [s586, k0_pay310, ValueIdx.mulf_apply, ValueIdx.addf_apply, ValueIdx.subf_apply, ValueIdx.broadcast_apply, zero_word, one_word, tovec_at, ascol_at, shapeCast_self, s437_at, s455_at, dot3, newt, Rh_zero, th_zero, rel_zero, Rh_at _ 3 0 (by norm_num) rfl, th_at _ _ 3 0 (by norm_num) rfl, rel_at _ 3 0 (by norm_num) rfl] <;> rfl
theorem s587_at (b : Fin 128) : s587 x0 x1 (ix1 b) = rel (pk x1 b) 3 1 := by
  simp only [s587, k0_pay311, ValueIdx.mulf_apply, ValueIdx.addf_apply, ValueIdx.subf_apply, ValueIdx.broadcast_apply, zero_word, one_word, tovec_at, ascol_at, shapeCast_self, s439_at, s457_at, dot3, newt, Rh_zero, th_zero, rel_zero, Rh_at _ 3 0 (by norm_num) rfl, th_at _ _ 3 0 (by norm_num) rfl, rel_at _ 3 0 (by norm_num) rfl] <;> rfl
theorem s588_at (b : Fin 128) : s588 x0 x1 (ix1 b) = rel (pk x1 b) 3 2 := by
  simp only [s588, k0_pay312, ValueIdx.mulf_apply, ValueIdx.addf_apply, ValueIdx.subf_apply, ValueIdx.broadcast_apply, zero_word, one_word, tovec_at, ascol_at, shapeCast_self, s441_at, s459_at, dot3, newt, Rh_zero, th_zero, rel_zero, Rh_at _ 3 0 (by norm_num) rfl, th_at _ _ 3 0 (by norm_num) rfl, rel_at _ 3 0 (by norm_num) rfl] <;> rfl
theorem s893_at (b : Fin 128) : s893 x0 x1 (ix1 b) = th (Rk x0 b) (pk x1 b) 3 0 := by
  simp only [s893, k0_pay411, ValueIdx.mulf_apply, ValueIdx.addf_apply, ValueIdx.subf_apply, ValueIdx.broadcast_apply, zero_word, one_word, tovec_at, ascol_at, shapeCast_self, s5_at, s7_at, s9_at, s437_at, s586_at, s587_at, s588_at, dot3, newt, Rh_zero, th_zero, rel_zero, Rh_at _ 3 0 (by norm_num) rfl, th_at _ _ 3 0 (by norm_num) rfl, rel_at _ 3 0 (by norm_num) rfl] <;> rfl
theorem s2814_at (b : Fin 128) : s2814 x0 x1 (ix2 b (0 : Fin 1)) = newt (Rk x0 b) (pk x1 b) 3 0 := by
  simp only [s2814, k0_pay713, ValueIdx.mulf_apply, ValueIdx.addf_apply, ValueIdx.subf_apply, ValueIdx.broadcast_apply, zero_word, one_word, tovec_at, ascol_at, shapeCast_self, s455_at, s457_at, s459_at, s829_at, s836_at, s843_at, s893_at, dot3, newt, Rh_zero, th_zero, rel_zero, Rh_at _ 3 0 (by norm_num) rfl, th_at _ _ 3 0 (by norm_num) rfl, rel_at _ 3 0 (by norm_num) rfl] <;> rfl
theorem s850_at (b : Fin 128) : s850 x0 x1 (ix1 b) = Rh (Rk x0 b) 3 1 0 := by
  simp only [s850, k0_pay405, ValueIdx.mulf_apply, ValueIdx.addf_apply, ValueIdx.subf_apply, ValueIdx.broadcast_apply, zero_word, one_word, tovec_at, ascol_at, shapeCast_self, s11_at, s13_at, s15_at, s59_at, s65_at, s71_at, dot3, newt, Rh_zero, th_zero, rel_zero, Rh_at _ 3 0 (by norm_num) rfl, th_at _ _ 3 0 (by norm_num) rfl, rel_at _ 3 0 (by norm_num) rfl] <;> rfl
theorem s2815_at (b : Fin 128) : s2815 x0 x1 (ix2 b (0 : Fin 1)) = Rh (Rk x0 b) 3 1 0 := by
  simp only [s2815, k0_pay714, ValueIdx.mulf_apply, ValueIdx.addf_apply, ValueIdx.subf_apply, ValueIdx.broadcast_apply, zero_word, one_word, tovec_at, ascol_at, shapeCast_self, s850_at, dot3, newt, Rh_zero, th_zero, rel_zero, Rh_at _ 3 0 (by norm_num) rfl, th_at _ _ 3 0 (by norm_num) rfl, rel_at _ 3 0 (by norm_num) rfl] <;> rfl
theorem s857_at (b : Fin 128) : s857 x0 x1 (ix1 b) = Rh (Rk x0 b) 3 1 1 := by
  simp only [s857, k0_pay406, ValueIdx.mulf_apply, ValueIdx.addf_apply, ValueIdx.subf_apply, ValueIdx.broadcast_apply, zero_word, one_word, tovec_at, ascol_at, shapeCast_self, s11_at, s13_at, s15_at, s61_at, s67_at, s73_at, dot3, newt, Rh_zero, th_zero, rel_zero, Rh_at _ 3 0 (by norm_num) rfl, th_at _ _ 3 0 (by norm_num) rfl, rel_at _ 3 0 (by norm_num) rfl] <;> rfl
theorem s2816_at (b : Fin 128) : s2816 x0 x1 (ix2 b (0 : Fin 1)) = Rh (Rk x0 b) 3 1 1 := by
  simp only [s2816, k0_pay715, ValueIdx.mulf_apply, ValueIdx.addf_apply, ValueIdx.subf_apply, ValueIdx.broadcast_apply, zero_word, one_word, tovec_at, ascol_at, shapeCast_self, s857_at, dot3, newt, Rh_zero, th_zero, rel_zero, Rh_at _ 3 0 (by norm_num) rfl, th_at _ _ 3 0 (by norm_num) rfl, rel_at _ 3 0 (by norm_num) rfl] <;> rfl
theorem s864_at (b : Fin 128) : s864 x0 x1 (ix1 b) = Rh (Rk x0 b) 3 1 2 := by
  simp only [s864, k0_pay407, ValueIdx.mulf_apply, ValueIdx.addf_apply, ValueIdx.subf_apply, ValueIdx.broadcast_apply, zero_word, one_word, tovec_at, ascol_at, shapeCast_self, s11_at, s13_at, s15_at, s63_at, s69_at, s75_at, dot3, newt, Rh_zero, th_zero, rel_zero, Rh_at _ 3 0 (by norm_num) rfl, th_at _ _ 3 0 (by norm_num) rfl, rel_at _ 3 0 (by norm_num) rfl] <;> rfl
theorem s2817_at (b : Fin 128) : s2817 x0 x1 (ix2 b (0 : Fin 1)) = Rh (Rk x0 b) 3 1 2 := by
  simp only [s2817, k0_pay716, ValueIdx.mulf_apply, ValueIdx.addf_apply, ValueIdx.subf_apply, ValueIdx.broadcast_apply, zero_word, one_word, tovec_at, ascol_at, shapeCast_self, s864_at, dot3, newt, Rh_zero, th_zero, rel_zero, Rh_at _ 3 0 (by norm_num) rfl, th_at _ _ 3 0 (by norm_num) rfl, rel_at _ 3 0 (by norm_num) rfl] <;> rfl
theorem s901_at (b : Fin 128) : s901 x0 x1 (ix1 b) = th (Rk x0 b) (pk x1 b) 3 1 := by
  simp only [s901, k0_pay412, ValueIdx.mulf_apply, ValueIdx.addf_apply, ValueIdx.subf_apply, ValueIdx.broadcast_apply, zero_word, one_word, tovec_at, ascol_at, shapeCast_self, s11_at, s13_at, s15_at, s439_at, s586_at, s587_at, s588_at, dot3, newt, Rh_zero, th_zero, rel_zero, Rh_at _ 3 0 (by norm_num) rfl, th_at _ _ 3 0 (by norm_num) rfl, rel_at _ 3 0 (by norm_num) rfl] <;> rfl
theorem s2818_at (b : Fin 128) : s2818 x0 x1 (ix2 b (0 : Fin 1)) = newt (Rk x0 b) (pk x1 b) 3 1 := by
  simp only [s2818, k0_pay717, ValueIdx.mulf_apply, ValueIdx.addf_apply, ValueIdx.subf_apply, ValueIdx.broadcast_apply, zero_word, one_word, tovec_at, ascol_at, shapeCast_self, s455_at, s457_at, s459_at, s850_at, s857_at, s864_at, s901_at, dot3, newt, Rh_zero, th_zero, rel_zero, Rh_at _ 3 0 (by norm_num) rfl, th_at _ _ 3 0 (by norm_num) rfl, rel_at _ 3 0 (by norm_num) rfl] <;> rfl
theorem s871_at (b : Fin 128) : s871 x0 x1 (ix1 b) = Rh (Rk x0 b) 3 2 0 := by
  simp only [s871, k0_pay408, ValueIdx.mulf_apply, ValueIdx.addf_apply, ValueIdx.subf_apply, ValueIdx.broadcast_apply, zero_word, one_word, tovec_at, ascol_at, shapeCast_self, s17_at, s19_at, s21_at, s59_at, s65_at, s71_at, dot3, newt, Rh_zero, th_zero, rel_zero, Rh_at _ 3 0 (by norm_num) rfl, th_at _ _ 3 0 (by norm_num) rfl, rel_at _ 3 0 (by norm_num) rfl] <;> rfl
theorem s2819_at (b : Fin 128) : s2819 x0 x1 (ix2 b (0 : Fin 1)) = Rh (Rk x0 b) 3 2 0 := by
  simp only [s2819, k0_pay718, ValueIdx.mulf_apply, ValueIdx.addf_apply, ValueIdx.subf_apply, ValueIdx.broadcast_apply, zero_word, one_word, tovec_at, ascol_at, shapeCast_self, s871_at, dot3, newt, Rh_zero, th_zero, rel_zero, Rh_at _ 3 0 (by norm_num) rfl, th_at _ _ 3 0 (by norm_num) rfl, rel_at _ 3 0 (by norm_num) rfl] <;> rfl
theorem s878_at (b : Fin 128) : s878 x0 x1 (ix1 b) = Rh (Rk x0 b) 3 2 1 := by
  simp only [s878, k0_pay409, ValueIdx.mulf_apply, ValueIdx.addf_apply, ValueIdx.subf_apply, ValueIdx.broadcast_apply, zero_word, one_word, tovec_at, ascol_at, shapeCast_self, s17_at, s19_at, s21_at, s61_at, s67_at, s73_at, dot3, newt, Rh_zero, th_zero, rel_zero, Rh_at _ 3 0 (by norm_num) rfl, th_at _ _ 3 0 (by norm_num) rfl, rel_at _ 3 0 (by norm_num) rfl] <;> rfl
theorem s2820_at (b : Fin 128) : s2820 x0 x1 (ix2 b (0 : Fin 1)) = Rh (Rk x0 b) 3 2 1 := by
  simp only [s2820, k0_pay719, ValueIdx.mulf_apply, ValueIdx.addf_apply, ValueIdx.subf_apply, ValueIdx.broadcast_apply, zero_word, one_word, tovec_at, ascol_at, shapeCast_self, s878_at, dot3, newt, Rh_zero, th_zero, rel_zero, Rh_at _ 3 0 (by norm_num) rfl, th_at _ _ 3 0 (by norm_num) rfl, rel_at _ 3 0 (by norm_num) rfl] <;> rfl
theorem s885_at (b : Fin 128) : s885 x0 x1 (ix1 b) = Rh (Rk x0 b) 3 2 2 := by
  simp only [s885, k0_pay410, ValueIdx.mulf_apply, ValueIdx.addf_apply, ValueIdx.subf_apply, ValueIdx.broadcast_apply, zero_word, one_word, tovec_at, ascol_at, shapeCast_self, s17_at, s19_at, s21_at, s63_at, s69_at, s75_at, dot3, newt, Rh_zero, th_zero, rel_zero, Rh_at _ 3 0 (by norm_num) rfl, th_at _ _ 3 0 (by norm_num) rfl, rel_at _ 3 0 (by norm_num) rfl] <;> rfl
theorem s2821_at (b : Fin 128) : s2821 x0 x1 (ix2 b (0 : Fin 1)) = Rh (Rk x0 b) 3 2 2 := by
  simp only [s2821, k0_pay720, ValueIdx.mulf_apply, ValueIdx.addf_apply, ValueIdx.subf_apply, ValueIdx.broadcast_apply, zero_word, one_word, tovec_at, ascol_at, shapeCast_self, s885_at, dot3, newt, Rh_zero, th_zero, rel_zero, Rh_at _ 3 0 (by norm_num) rfl, th_at _ _ 3 0 (by norm_num) rfl, rel_at _ 3 0 (by norm_num) rfl] <;> rfl
theorem s909_at (b : Fin 128) : s909 x0 x1 (ix1 b) = th (Rk x0 b) (pk x1 b) 3 2 := by
  simp only [s909, k0_pay413, ValueIdx.mulf_apply, ValueIdx.addf_apply, ValueIdx.subf_apply, ValueIdx.broadcast_apply, zero_word, one_word, tovec_at, ascol_at, shapeCast_self, s17_at, s19_at, s21_at, s441_at, s586_at, s587_at, s588_at, dot3, newt, Rh_zero, th_zero, rel_zero, Rh_at _ 3 0 (by norm_num) rfl, th_at _ _ 3 0 (by norm_num) rfl, rel_at _ 3 0 (by norm_num) rfl] <;> rfl
theorem s2822_at (b : Fin 128) : s2822 x0 x1 (ix2 b (0 : Fin 1)) = newt (Rk x0 b) (pk x1 b) 3 2 := by
  simp only [s2822, k0_pay721, ValueIdx.mulf_apply, ValueIdx.addf_apply, ValueIdx.subf_apply, ValueIdx.broadcast_apply, zero_word, one_word, tovec_at, ascol_at, shapeCast_self, s455_at, s457_at, s459_at, s871_at, s878_at, s885_at, s909_at, dot3, newt, Rh_zero, th_zero, rel_zero, Rh_at _ 3 0 (by norm_num) rfl, th_at _ _ 3 0 (by norm_num) rfl, rel_at _ 3 0 (by norm_num) rfl] <;> rfl
theorem s2823_at (b : Fin 128) : s2823 x0 x1 (ix2 b (0 : Fin 1)) = (0 : EReal) := by
  simp only [s2823, k0_pay722, ValueIdx.mulf_apply, ValueIdx.addf_apply, ValueIdx.subf_apply, ValueIdx.broadcast_apply, zero_word, one_word, tovec_at, ascol_at, shapeCast_self, s2650_at, dot3, newt, Rh_zero, th_zero, rel_zero] <;> rfl
theorem s2824_at (b : Fin 128) : s2824 x0 x1 (ix2 b (0 : Fin 1)) = (0 : EReal) := by
  simp only [s2824, k0_pay723, ValueIdx.mulf_apply, ValueIdx.addf_apply, ValueIdx.subf_apply, ValueIdx.broadcast_apply, zero_word, one_word, tovec_at, ascol_at, shapeCast_self, s2650_at, dot3, newt, Rh_zero, th_zero, rel_zero] <;> rfl
theorem s2827_c0 (b : Fin 128) : s2827 x0 x1 (ix2 b (⟨0, by norm_num⟩ : Fin 16)) = Rh (Rk x0 b) 3 0 0 := by
  simp only [s2827, k0_pay724]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s2811_at, s2812_at, s2813_at, s2814_at, s2815_at, s2816_at, s2817_at, s2818_at, s2819_at, s2820_at, s2821_at, s2822_at, s2823_at, s2824_at, dot3, newt, Rh_zero, th_zero, rel_zero, Rh_at _ 3 0 (by norm_num) rfl, th_at _ _ 3 0 (by norm_num) rfl, rel_at _ 3 0 (by norm_num) rfl] <;> rfl
theorem s2827_c1 (b : Fin 128) : s2827 x0 x1 (ix2 b (⟨1, by norm_num⟩ : Fin 16)) = Rh (Rk x0 b) 3 0 1 := by
  simp only [s2827, k0_pay724]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s2811_at, s2812_at, s2813_at, s2814_at, s2815_at, s2816_at, s2817_at, s2818_at, s2819_at, s2820_at, s2821_at, s2822_at, s2823_at, s2824_at, dot3, newt, Rh_zero, th_zero, rel_zero, Rh_at _ 3 0 (by norm_num) rfl, th_at _ _ 3 0 (by norm_num) rfl, rel_at _ 3 0 (by norm_num) rfl] <;> rfl
theorem s2827_c2 (b : Fin 128) : s2827 x0 x1 (ix2 b (⟨2, by norm_num⟩ : Fin 16)) = Rh (Rk x0 b) 3 0 2 := by
  simp only [s2827, k0_pay724]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s2811_at, s2812_at, s2813_at, s2814_at, s2815_at, s2816_at, s2817_at, s2818_at, s2819_at, s2820_at, s2821_at, s2822_at, s2823_at, s2824_at, dot3, newt, Rh_zero, th_zero, rel_zero, Rh_at _ 3 0 (by norm_num) rfl, th_at _ _ 3 0 (by norm_num) rfl, rel_at _ 3 0 (by norm_num) rfl] <;> rfl
theorem s2827_c3 (b : Fin 128) : s2827 x0 x1 (ix2 b (⟨3, by norm_num⟩ : Fin 16)) = newt (Rk x0 b) (pk x1 b) 3 0 := by
  simp only [s2827, k0_pay724]
  refine (concat_unit_piece 3 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s2811_at, s2812_at, s2813_at, s2814_at, s2815_at, s2816_at, s2817_at, s2818_at, s2819_at, s2820_at, s2821_at, s2822_at, s2823_at, s2824_at, dot3, newt, Rh_zero, th_zero, rel_zero, Rh_at _ 3 0 (by norm_num) rfl, th_at _ _ 3 0 (by norm_num) rfl, rel_at _ 3 0 (by norm_num) rfl] <;> rfl
theorem s2827_c4 (b : Fin 128) : s2827 x0 x1 (ix2 b (⟨4, by norm_num⟩ : Fin 16)) = Rh (Rk x0 b) 3 1 0 := by
  simp only [s2827, k0_pay724]
  refine (concat_unit_piece 4 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s2811_at, s2812_at, s2813_at, s2814_at, s2815_at, s2816_at, s2817_at, s2818_at, s2819_at, s2820_at, s2821_at, s2822_at, s2823_at, s2824_at, dot3, newt, Rh_zero, th_zero, rel_zero, Rh_at _ 3 0 (by norm_num) rfl, th_at _ _ 3 0 (by norm_num) rfl, rel_at _ 3 0 (by norm_num) rfl] <;> rfl
theorem s2827_c5 (b : Fin 128) : s2827 x0 x1 (ix2 b (⟨5, by norm_num⟩ : Fin 16)) = Rh (Rk x0 b) 3 1 1 := by
  simp only [s2827, k0_pay724]
  refine (concat_unit_piece 5 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s2811_at, s2812_at, s2813_at, s2814_at, s2815_at, s2816_at, s2817_at, s2818_at, s2819_at, s2820_at, s2821_at, s2822_at, s2823_at, s2824_at, dot3, newt, Rh_zero, th_zero, rel_zero, Rh_at _ 3 0 (by norm_num) rfl, th_at _ _ 3 0 (by norm_num) rfl, rel_at _ 3 0 (by norm_num) rfl] <;> rfl
theorem s2827_c6 (b : Fin 128) : s2827 x0 x1 (ix2 b (⟨6, by norm_num⟩ : Fin 16)) = Rh (Rk x0 b) 3 1 2 := by
  simp only [s2827, k0_pay724]
  refine (concat_unit_piece 6 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s2811_at, s2812_at, s2813_at, s2814_at, s2815_at, s2816_at, s2817_at, s2818_at, s2819_at, s2820_at, s2821_at, s2822_at, s2823_at, s2824_at, dot3, newt, Rh_zero, th_zero, rel_zero, Rh_at _ 3 0 (by norm_num) rfl, th_at _ _ 3 0 (by norm_num) rfl, rel_at _ 3 0 (by norm_num) rfl] <;> rfl
theorem s2827_c7 (b : Fin 128) : s2827 x0 x1 (ix2 b (⟨7, by norm_num⟩ : Fin 16)) = newt (Rk x0 b) (pk x1 b) 3 1 := by
  simp only [s2827, k0_pay724]
  refine (concat_unit_piece 7 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s2811_at, s2812_at, s2813_at, s2814_at, s2815_at, s2816_at, s2817_at, s2818_at, s2819_at, s2820_at, s2821_at, s2822_at, s2823_at, s2824_at, dot3, newt, Rh_zero, th_zero, rel_zero, Rh_at _ 3 0 (by norm_num) rfl, th_at _ _ 3 0 (by norm_num) rfl, rel_at _ 3 0 (by norm_num) rfl] <;> rfl
theorem s2827_c8 (b : Fin 128) : s2827 x0 x1 (ix2 b (⟨8, by norm_num⟩ : Fin 16)) = Rh (Rk x0 b) 3 2 0 := by
  simp only [s2827, k0_pay724]
  refine (concat_unit_piece 8 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s2811_at, s2812_at, s2813_at, s2814_at, s2815_at, s2816_at, s2817_at, s2818_at, s2819_at, s2820_at, s2821_at, s2822_at, s2823_at, s2824_at, dot3, newt, Rh_zero, th_zero, rel_zero, Rh_at _ 3 0 (by norm_num) rfl, th_at _ _ 3 0 (by norm_num) rfl, rel_at _ 3 0 (by norm_num) rfl] <;> rfl
theorem s2827_c9 (b : Fin 128) : s2827 x0 x1 (ix2 b (⟨9, by norm_num⟩ : Fin 16)) = Rh (Rk x0 b) 3 2 1 := by
  simp only [s2827, k0_pay724]
  refine (concat_unit_piece 9 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s2811_at, s2812_at, s2813_at, s2814_at, s2815_at, s2816_at, s2817_at, s2818_at, s2819_at, s2820_at, s2821_at, s2822_at, s2823_at, s2824_at, dot3, newt, Rh_zero, th_zero, rel_zero, Rh_at _ 3 0 (by norm_num) rfl, th_at _ _ 3 0 (by norm_num) rfl, rel_at _ 3 0 (by norm_num) rfl] <;> rfl
theorem s2827_c10 (b : Fin 128) : s2827 x0 x1 (ix2 b (⟨10, by norm_num⟩ : Fin 16)) = Rh (Rk x0 b) 3 2 2 := by
  simp only [s2827, k0_pay724]
  refine (concat_unit_piece 10 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s2811_at, s2812_at, s2813_at, s2814_at, s2815_at, s2816_at, s2817_at, s2818_at, s2819_at, s2820_at, s2821_at, s2822_at, s2823_at, s2824_at, dot3, newt, Rh_zero, th_zero, rel_zero, Rh_at _ 3 0 (by norm_num) rfl, th_at _ _ 3 0 (by norm_num) rfl, rel_at _ 3 0 (by norm_num) rfl] <;> rfl
theorem s2827_c11 (b : Fin 128) : s2827 x0 x1 (ix2 b (⟨11, by norm_num⟩ : Fin 16)) = newt (Rk x0 b) (pk x1 b) 3 2 := by
  simp only [s2827, k0_pay724]
  refine (concat_unit_piece 11 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s2811_at, s2812_at, s2813_at, s2814_at, s2815_at, s2816_at, s2817_at, s2818_at, s2819_at, s2820_at, s2821_at, s2822_at, s2823_at, s2824_at, dot3, newt, Rh_zero, th_zero, rel_zero, Rh_at _ 3 0 (by norm_num) rfl, th_at _ _ 3 0 (by norm_num) rfl, rel_at _ 3 0 (by norm_num) rfl] <;> rfl
theorem s2827_c12 (b : Fin 128) : s2827 x0 x1 (ix2 b (⟨12, by norm_num⟩ : Fin 16)) = (0 : EReal) := by
  simp only [s2827, k0_pay724]
  refine (concat_unit_piece 12 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s2811_at, s2812_at, s2813_at, s2814_at, s2815_at, s2816_at, s2817_at, s2818_at, s2819_at, s2820_at, s2821_at, s2822_at, s2823_at, s2824_at, dot3, newt, Rh_zero, th_zero, rel_zero, Rh_at _ 3 0 (by norm_num) rfl, th_at _ _ 3 0 (by norm_num) rfl, rel_at _ 3 0 (by norm_num) rfl] <;> rfl
theorem s2827_c13 (b : Fin 128) : s2827 x0 x1 (ix2 b (⟨13, by norm_num⟩ : Fin 16)) = (0 : EReal) := by
  simp only [s2827, k0_pay724]
  refine (concat_unit_piece 13 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s2811_at, s2812_at, s2813_at, s2814_at, s2815_at, s2816_at, s2817_at, s2818_at, s2819_at, s2820_at, s2821_at, s2822_at, s2823_at, s2824_at, dot3, newt, Rh_zero, th_zero, rel_zero, Rh_at _ 3 0 (by norm_num) rfl, th_at _ _ 3 0 (by norm_num) rfl, rel_at _ 3 0 (by norm_num) rfl] <;> rfl
theorem s2827_c14 (b : Fin 128) : s2827 x0 x1 (ix2 b (⟨14, by norm_num⟩ : Fin 16)) = (0 : EReal) := by
  simp only [s2827, k0_pay724]
  refine (concat_unit_piece 14 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s2811_at, s2812_at, s2813_at, s2814_at, s2815_at, s2816_at, s2817_at, s2818_at, s2819_at, s2820_at, s2821_at, s2822_at, s2823_at, s2824_at, dot3, newt, Rh_zero, th_zero, rel_zero, Rh_at _ 3 0 (by norm_num) rfl, th_at _ _ 3 0 (by norm_num) rfl, rel_at _ 3 0 (by norm_num) rfl] <;> rfl
theorem s2827_c15 (b : Fin 128) : s2827 x0 x1 (ix2 b (⟨15, by norm_num⟩ : Fin 16)) = (1 : EReal) := by
  simp only [s2827, k0_pay724]
  refine (concat_unit_piece 15 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s2811_at, s2812_at, s2813_at, s2814_at, s2815_at, s2816_at, s2817_at, s2818_at, s2819_at, s2820_at, s2821_at, s2822_at, s2823_at, s2824_at, dot3, newt, Rh_zero, th_zero, rel_zero, Rh_at _ 3 0 (by norm_num) rfl, th_at _ _ 3 0 (by norm_num) rfl, rel_at _ 3 0 (by norm_num) rfl] <;> rfl
theorem s461_at (b : Fin 128) : s461 x0 x1 (ix1 b) = pk x1 b 4 0 := by
  simp only [s461, k0_pay242, ValueIdx.mulf_apply, ValueIdx.addf_apply, ValueIdx.subf_apply, ValueIdx.broadcast_apply, zero_word, one_word, tovec_at, ascol_at, shapeCast_self, slice_at (N := 72) _ 12 (by norm_num), s3_eq, dot3, newt, Rh_zero, th_zero, rel_zero] <;> rfl
theorem s463_at (b : Fin 128) : s463 x0 x1 (ix1 b) = pk x1 b 4 1 := by
  simp only [s463, k0_pay243, ValueIdx.mulf_apply, ValueIdx.addf_apply, ValueIdx.subf_apply, ValueIdx.broadcast_apply, zero_word, one_word, tovec_at, ascol_at, shapeCast_self, slice_at (N := 72) _ 13 (by norm_num), s3_eq, dot3, newt, Rh_zero, th_zero, rel_zero] <;> rfl
theorem s465_at (b : Fin 128) : s465 x0 x1 (ix1 b) = pk x1 b 4 2 := by
  simp only [s465, k0_pay244, ValueIdx.mulf_apply, ValueIdx.addf_apply, ValueIdx.subf_apply, ValueIdx.broadcast_apply, zero_word, one_word, tovec_at, ascol_at, shapeCast_self, slice_at (N := 72) _ 14 (by norm_num), s3_eq, dot3, newt, Rh_zero, th_zero, rel_zero] <;> rfl
theorem s77_at (b : Fin 128) : s77 x0 x1 (ix1 b) = Rk x0 b 4 0 0 := by
  simp only [s77, k0_pay44, ValueIdx.mulf_apply, ValueIdx.addf_apply, ValueIdx.subf_apply, ValueIdx.broadcast_apply, zero_word, one_word, tovec_at, ascol_at, shapeCast_self, slice_at (N := 216) _ 36 (by norm_num), s1_eq, dot3, newt, Rh_zero, th_zero, rel_zero] <;> rfl
theorem s83_at (b : Fin 128) : s83 x0 x1 (ix1 b) = Rk x0 b 4 1 0 := by
  simp only [s83, k0_pay47, ValueIdx.mulf_apply, ValueIdx.addf_apply, ValueIdx.subf_apply, ValueIdx.broadcast_apply, zero_word, one_word, tovec_at, ascol_at, shapeCast_self, slice_at (N := 216) _ 39 (by norm_num), s1_eq, dot3, newt, Rh_zero, th_zero, rel_zero] <;> rfl
theorem s89_at (b : Fin 128) : s89 x0 x1 (ix1 b) = Rk x0 b 4 2 0 := by
  simp only [s89, k0_pay50, ValueIdx.mulf_apply, ValueIdx.addf_apply, ValueIdx.subf_apply, ValueIdx.broadcast_apply, zero_word, one_word, tovec_at, ascol_at, shapeCast_self, slice_at (N := 216) _ 42 (by norm_num), s1_eq, dot3, newt, Rh_zero, th_zero, rel_zero] <;> rfl
theorem s916_at (b : Fin 128) : s916 x0 x1 (ix1 b) = Rh (Rk x0 b) 4 0 0 := by
  simp only [s916, k0_pay414, ValueIdx.mulf_apply, ValueIdx.addf_apply, ValueIdx.subf_apply, ValueIdx.broadcast_apply, zero_word, one_word, tovec_at, ascol_at, shapeCast_self, s77_at, s83_at, s89_at, s655_at, s662_at, s669_at, dot3, newt, Rh_zero, th_zero, rel_zero, Rh_at _ 4 1 (by norm_num) rfl, th_at _ _ 4 1 (by norm_num) rfl, rel_at _ 4 1 (by norm_num) rfl] <;> rfl
theorem s85_at (b : Fin 128) : s85 x0 x1 (ix1 b) = Rk x0 b 4 1 1 := by
  simp only [s85, k0_pay48, ValueIdx.mulf_apply, ValueIdx.addf_apply, ValueIdx.subf_apply, ValueIdx.broadcast_apply, zero_word, one_word, tovec_at, ascol_at, shapeCast_self, slice_at (N := 216) _ 40 (by norm_num), s1_eq, dot3, newt, Rh_zero, th_zero, rel_zero] <;> rfl
theorem s91_at (b : Fin 128) : s91 x0 x1 (ix1 b) = Rk x0 b 4 2 1 := by
  simp only [s91, k0_pay51, ValueIdx.mulf_apply, ValueIdx.addf_apply, ValueIdx.subf_apply, ValueIdx.broadcast_apply, zero_word, one_word, tovec_at, ascol_at, shapeCast_self, slice_at (N := 216) _ 43 (by norm_num), s1_eq, dot3, newt, Rh_zero, th_zero, rel_zero] <;> rfl
theorem s79_at (b : Fin 128) : s79 x0 x1 (ix1 b) = Rk x0 b 4 0 1 := by
  simp only [s79, k0_pay45, ValueIdx.mulf_apply, ValueIdx.addf_apply, ValueIdx.subf_apply, ValueIdx.broadcast_apply, zero_word, one_word, tovec_at, ascol_at, shapeCast_self, slice_at (N := 216) _ 37 (by norm_num), s1_eq, dot3, newt, Rh_zero, th_zero, rel_zero] <;> rfl
theorem s917_at (b : Fin 128) : s917 x0 x1 (ix1 b) = ((Rh (Rk x0 b) 1 0 0) * (Rk x0 b 4 0 1)) := by
  simp only [s917, k0_pay415, ValueIdx.mulf_apply, ValueIdx.addf_apply, ValueIdx.subf_apply, ValueIdx.broadcast_apply, zero_word, one_word, tovec_at, ascol_at, shapeCast_self, s79_at, s655_at, dot3, newt, Rh_zero, th_zero, rel_zero] <;> rfl
theorem s923_at (b : Fin 128) : s923 x0 x1 (ix1 b) = Rh (Rk x0 b) 4 0 1 := by
  simp only [s923, k0_pay416, ValueIdx.mulf_apply, ValueIdx.addf_apply, ValueIdx.subf_apply, ValueIdx.broadcast_apply, zero_word, one_word, tovec_at, ascol_at, shapeCast_self, s85_at, s91_at, s662_at, s669_at, s917_at, dot3, newt, Rh_zero, th_zero, rel_zero, Rh_at _ 4 1 (by norm_num) rfl, th_at _ _ 4 1 (by norm_num) rfl, rel_at _ 4 1 (by norm_num) rfl] <;> rfl
theorem s81_at (b : Fin 128) : s81 x0 x1 (ix1 b) = Rk x0 b 4 0 2 := by
  simp only [s81, k0_pay46, ValueIdx.mulf_apply, ValueIdx.addf_apply, ValueIdx.subf_apply, ValueIdx.broadcast_apply, zero_word, one_word, tovec_at, ascol_at, shapeCast_self, slice_at (N := 216) _ 38 (by norm_num), s1_eq, dot3, newt, Rh_zero, th_zero, rel_zero] <;> rfl
theorem s87_at (b : Fin 128) : s87 x0 x1 (ix1 b) = Rk x0 b 4 1 2 := by
  simp only [s87, k0_pay49, ValueIdx.mulf_apply, ValueIdx.addf_apply, ValueIdx.subf_apply, ValueIdx.broadcast_apply, zero_word, one_word, tovec_at, ascol_at, shapeCast_self, slice_at (N := 216) _ 41 (by norm_num), s1_eq, dot3, newt, Rh_zero, th_zero, rel_zero] <;> rfl
theorem s93_at (b : Fin 128) : s93 x0 x1 (ix1 b) = Rk x0 b 4 2 2 := by
  simp only [s93, k0_pay52, ValueIdx.mulf_apply, ValueIdx.addf_apply, ValueIdx.subf_apply, ValueIdx.broadcast_apply, zero_word, one_word, tovec_at, ascol_at, shapeCast_self, slice_at (N := 216) _ 44 (by norm_num), s1_eq, dot3, newt, Rh_zero, th_zero, rel_zero] <;> rfl
theorem s930_at (b : Fin 128) : s930 x0 x1 (ix1 b) = Rh (Rk x0 b) 4 0 2 := by
  simp only [s930, k0_pay417, ValueIdx.mulf_apply, ValueIdx.addf_apply, ValueIdx.subf_apply, ValueIdx.broadcast_apply, zero_word, one_word, tovec_at, ascol_at, shapeCast_self, s81_at, s87_at, s93_at, s655_at, s662_at, s669_at, dot3, newt, Rh_zero, th_zero, rel_zero, Rh_at _ 4 1 (by norm_num) rfl, th_at _ _ 4 1 (by norm_num) rfl, rel_at _ 4 1 (by norm_num) rfl] <;> rfl
theorem s937_at (b : Fin 128) : s937 x0 x1 (ix1 b) = Rh (Rk x0 b) 4 1 0 := by
  simp only [s937, k0_pay418, ValueIdx.mulf_apply, ValueIdx.addf_apply, ValueIdx.subf_apply, ValueIdx.broadcast_apply, zero_word, one_word, tovec_at, ascol_at, shapeCast_self, s77_at, s83_at, s89_at, s676_at, s683_at, s690_at, dot3, newt, Rh_zero, th_zero, rel_zero, Rh_at _ 4 1 (by norm_num) rfl, th_at _ _ 4 1 (by norm_num) rfl, rel_at _ 4 1 (by norm_num) rfl] <;> rfl
theorem s944_at (b : Fin 128) : s944 x0 x1 (ix1 b) = Rh (Rk x0 b) 4 1 1 := by
  simp only [s944, k0_pay419, ValueIdx.mulf_apply, ValueIdx.addf_apply, ValueIdx.subf_apply, ValueIdx.broadcast_apply, zero_word, one_word, tovec_at, ascol_at, shapeCast_self, s79_at, s85_at, s91_at, s676_at, s683_at, s690_at, dot3, newt, Rh_zero, th_zero, rel_zero, Rh_at _ 4 1 (by norm_num) rfl, th_at _ _ 4 1 (by norm_num) rfl, rel_at _ 4 1 (by norm_num) rfl] <;> rfl
theorem s951_at (b : Fin 128) : s951 x0 x1 (ix1 b) = Rh (Rk x0 b) 4 1 2 := by
  simp only [s951, k0_pay420, ValueIdx.mulf_apply, ValueIdx.addf_apply, ValueIdx.subf_apply, ValueIdx.broadcast_apply, zero_word, one_word, tovec_at, ascol_at, shapeCast_self, s81_at, s87_at, s93_at, s676_at, s683_at, s690_at, dot3, newt, Rh_zero, th_zero, rel_zero, Rh_at _ 4 1 (by norm_num) rfl, th_at _ _ 4 1 (by norm_num) rfl, rel_at _ 4 1 (by norm_num) rfl] <;> rfl
theorem s958_at (b : Fin 128) : s958 x0 x1 (ix1 b) = Rh (Rk x0 b) 4 2 0 := by
  simp only [s958, k0_pay421, ValueIdx.mulf_apply, ValueIdx.addf_apply, ValueIdx.subf_apply, ValueIdx.broadcast_apply, zero_word, one_word, tovec_at, ascol_at, shapeCast_self, s77_at, s83_at, s89_at, s697_at, s704_at, s711_at, dot3, newt, Rh_zero, th_zero, rel_zero, Rh_at _ 4 1 (by norm_num) rfl, th_at _ _ 4 1 (by norm_num) rfl, rel_at _ 4 1 (by norm_num) rfl] <;> rfl
theorem s965_at (b : Fin 128) : s965 x0 x1 (ix1 b) = Rh (Rk x0 b) 4 2 1 := by
  simp only [s965, k0_pay422, ValueIdx.mulf_apply, ValueIdx.addf_apply, ValueIdx.subf_apply, ValueIdx.broadcast_apply, zero_word, one_word, tovec_at, ascol_at, shapeCast_self, s79_at, s85_at, s91_at, s697_at, s704_at, s711_at, dot3, newt, Rh_zero, th_zero, rel_zero, Rh_at _ 4 1 (by norm_num) rfl, th_at _ _ 4 1 (by norm_num) rfl, rel_at _ 4 1 (by norm_num) rfl] <;> rfl
theorem s968_at (b : Fin 128) : s968 x0 x1 (ix1 b) = ((0 : EReal) + ((Rh (Rk x0 b) 1 2 0) * (Rk x0 b 4 0 2))) := by
  simp only [s968, k0_pay423, ValueIdx.mulf_apply, ValueIdx.addf_apply, ValueIdx.subf_apply, ValueIdx.broadcast_apply, zero_word, one_word, tovec_at, ascol_at, shapeCast_self, s81_at, s697_at, dot3, newt, Rh_zero, th_zero, rel_zero] <;> rfl
theorem s969_at (b : Fin 128) : s969 x0 x1 (ix1 b) = ((Rh (Rk x0 b) 1 2 1) * (Rk x0 b 4 1 2)) := by
  simp only [s969, k0_pay424, ValueIdx.mulf_apply, ValueIdx.addf_apply, ValueIdx.subf_apply, ValueIdx.broadcast_apply, zero_word, one_word, tovec_at, ascol_at, shapeCast_self, s87_at, s704_at, dot3, newt, Rh_zero, th_zero, rel_zero] <;> rfl
theorem s972_at (b : Fin 128) : s972 x0 x1 (ix1 b) = Rh (Rk x0 b) 4 2 2 := by
  simp only [s972, k0_pay425, ValueIdx.mulf_apply, ValueIdx.addf_apply, ValueIdx.subf_apply, ValueIdx.broadcast_apply, zero_word, one_word, tovec_at, ascol_at, shapeCast_self, s93_at, s711_at, s968_at, s969_at, dot3, newt, Rh_zero, th_zero, rel_zero, Rh_at _ 4 1 (by norm_num) rfl, th_at _ _ 4 1 (by norm_num) rfl, rel_at _ 4 1 (by norm_num) rfl] <;> rfl
theorem s589_at (b : Fin 128) : s589 x0 x1 (ix1 b) = rel (pk x1 b) 4 0 := by
  simp only [s589, k0_pay313, ValueIdx.mulf_apply, ValueIdx.addf_apply, ValueIdx.subf_apply, ValueIdx.broadcast_apply, zero_word, one_word, tovec_at, ascol_at, shapeCast_self, s443_at, s461_at, dot3, newt, Rh_zero, th_zero, rel_zero, Rh_at _ 4 1 (by norm_num) rfl, th_at _ _ 4 1 (by norm_num) rfl, rel_at _ 4 1 (by norm_num) rfl] <;> rfl
theorem s590_at (b : Fin 128) : s590 x0 x1 (ix1 b) = rel (pk x1 b) 4 1 := by
  simp only [s590, k0_pay314, ValueIdx.mulf_apply, ValueIdx.addf_apply, ValueIdx.subf_apply, ValueIdx.broadcast_apply, zero_word, one_word, tovec_at, ascol_at, shapeCast_self, s445_at, s463_at, dot3, newt, Rh_zero, th_zero, rel_zero, Rh_at _ 4 1 (by norm_num) rfl, th_at _ _ 4 1 (by norm_num) rfl, rel_at _ 4 1 (by norm_num) rfl] <;> rfl
theorem s591_at (b : Fin 128) : s591 x0 x1 (ix1 b) = rel (pk x1 b) 4 2 := by
  simp only [s591, k0_pay315, ValueIdx.mulf_apply, ValueIdx.addf_apply, ValueIdx.subf_apply, ValueIdx.broadcast_apply, zero_word, one_word, tovec_at, ascol_at, shapeCast_self, s447_at, s465_at, dot3, newt, Rh_zero, th_zero, rel_zero, Rh_at _ 4 1 (by norm_num) rfl, th_at _ _ 4 1 (by norm_num) rfl, rel_at _ 4 1 (by norm_num) rfl] <;> rfl
theorem s980_at (b : Fin 128) : s980 x0 x1 (ix1 b) = th (Rk x0 b) (pk x1 b) 4 0 := by
  simp only [s980, k0_pay426, ValueIdx.mulf_apply, ValueIdx.addf_apply, ValueIdx.subf_apply, ValueIdx.broadcast_apply, zero_word, one_word, tovec_at, ascol_at, shapeCast_self, s589_at, s590_at, s591_at, s655_at, s662_at, s669_at, s719_at, dot3, newt, Rh_zero, th_zero, rel_zero, Rh_at _ 4 1 (by norm_num) rfl, th_at _ _ 4 1 (by norm_num) rfl, rel_at _ 4 1 (by norm_num) rfl] <;> rfl
theorem s988_at (b : Fin 128) : s988 x0 x1 (ix1 b) = th (Rk x0 b) (pk x1 b) 4 1 := by
  simp only [s988, k0_pay427, ValueIdx.mulf_apply, ValueIdx.addf_apply, ValueIdx.subf_apply, ValueIdx.broadcast_apply, zero_word, one_word, tovec_at, ascol_at, shapeCast_self, s589_at, s590_at, s591_at, s676_at, s683_at, s690_at, s727_at, dot3, newt, Rh_zero, th_zero, rel_zero, Rh_at _ 4 1 (by norm_num) rfl, th_at _ _ 4 1 (by norm_num) rfl, rel_at _ 4 1 (by norm_num) rfl] <;> rfl
theorem s996_at (b : Fin 128) : s996 x0 x1 (ix1 b) = th (Rk x0 b) (pk x1 b) 4 2 := by
  simp only [s996, k0_pay428, ValueIdx.mulf_apply, ValueIdx.addf_apply, ValueIdx.subf_apply, ValueIdx.broadcast_apply, zero_word, one_word, tovec_at, ascol_at, shapeCast_self, s589_at, s590_at, s591_at, s697_at, s704_at, s711_at, s735_at, dot3, newt, Rh_zero, th_zero, rel_zero, Rh_at _ 4 1 (by norm_num) rfl, th_at _ _ 4 1 (by norm_num) rfl, rel_at _ 4 1 (by norm_num) rfl] <;> rfl
theorem s2872_c0 (b : Fin 128) : s2872 x0 x1 (ix2 b (⟨0, by norm_num⟩ : Fin 16)) = Rh (Rk x0 b) 4 0 0 := by
  simp only [s2872, k0_pay726]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s461_at, s463_at, s465_at, s916_at, s923_at, s930_at, s937_at, s944_at, s951_at, s958_at, s965_at, s972_at, s980_at, s988_at, s996_at, s2650_at, s2651_at, dot3, newt, Rh_zero, th_zero, rel_zero, Rh_at _ 4 1 (by norm_num) rfl, th_at _ _ 4 1 (by norm_num) rfl, rel_at _ 4 1 (by norm_num) rfl] <;> rfl
theorem s2872_c1 (b : Fin 128) : s2872 x0 x1 (ix2 b (⟨1, by norm_num⟩ : Fin 16)) = Rh (Rk x0 b) 4 0 1 := by
  simp only [s2872, k0_pay726]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s461_at, s463_at, s465_at, s916_at, s923_at, s930_at, s937_at, s944_at, s951_at, s958_at, s965_at, s972_at, s980_at, s988_at, s996_at, s2650_at, s2651_at, dot3, newt, Rh_zero, th_zero, rel_zero, Rh_at _ 4 1 (by norm_num) rfl, th_at _ _ 4 1 (by norm_num) rfl, rel_at _ 4 1 (by norm_num) rfl] <;> rfl
theorem s2872_c2 (b : Fin 128) : s2872 x0 x1 (ix2 b (⟨2, by norm_num⟩ : Fin 16)) = Rh (Rk x0 b) 4 0 2 := by
  simp only [s2872, k0_pay726]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s461_at, s463_at, s465_at, s916_at, s923_at, s930_at, s937_at, s944_at, s951_at, s958_at, s965_at, s972_at, s980_at, s988_at, s996_at, s2650_at, s2651_at, dot3, newt, Rh_zero, th_zero, rel_zero, Rh_at _ 4 1 (by norm_num) rfl, th_at _ _ 4 1 (by norm_num) rfl, rel_at _ 4 1 (by norm_num) rfl] <;> rfl
theorem s2872_c3 (b : Fin 128) : s2872 x0 x1 (ix2 b (⟨3, by norm_num⟩ : Fin 16)) = newt (Rk x0 b) (pk x1 b) 4 0 := by
  simp only [s2872, k0_pay726]
  refine (concat_unit_piece 3 (by norm_num) _ _ _ (by simp) rfl rfl b).trans ?_
  simp only [ValueIdx.mulf_apply, ValueIdx.addf_apply, ValueIdx.subf_apply, ValueIdx.broadcast_apply, zero_word, one_word, tovec_at, ascol_at, shapeCast_self, s461_at, s463_at, s465_at, s916_at, s923_at, s930_at, s937_at, s944_at, s951_at, s958_at, s965_at, s972_at, s980_at, s988_at, s996_at, s2650_at, s2651_at, dot3, newt, Rh_zero, th_zero, rel_zero, Rh_at _ 4 1 (by norm_num) rfl, th_at _ _ 4 1 (by norm_num) rfl, rel_at _ 4 1 (by norm_num) rfl] <;> rfl
theorem s2872_c4 (b : Fin 128) : s2872 x0 x1 (ix2 b (⟨4, by norm_num⟩ : Fin 16)) = Rh (Rk x0 b) 4 1 0 := by
  simp only [s2872, k0_pay726]
  refine (concat_unit_piece 4 (by norm_num) _ _ _ (by simp) rfl rfl b).trans ?_
  simp only [ValueIdx.mulf_apply, ValueIdx.addf_apply, ValueIdx.subf_apply, ValueIdx.broadcast_apply, zero_word, one_word, tovec_at, ascol_at, shapeCast_self, s461_at, s463_at, s465_at, s916_at, s923_at, s930_at, s937_at, s944_at, s951_at, s958_at, s965_at, s972_at, s980_at, s988_at, s996_at, s2650_at, s2651_at, dot3, newt, Rh_zero, th_zero, rel_zero, Rh_at _ 4 1 (by norm_num) rfl, th_at _ _ 4 1 (by norm_num) rfl, rel_at _ 4 1 (by norm_num) rfl] <;> rfl
theorem s2872_c5 (b : Fin 128) : s2872 x0 x1 (ix2 b (⟨5, by norm_num⟩ : Fin 16)) = Rh (Rk x0 b) 4 1 1 := by
  simp only [s2872, k0_pay726]
  refine (concat_unit_piece 5 (by norm_num) _ _ _ (by simp) rfl rfl b).trans ?_
  simp only [ValueIdx.mulf_apply, ValueIdx.addf_apply, ValueIdx.subf_apply, ValueIdx.broadcast_apply, zero_word, one_word, tovec_at, ascol_at, shapeCast_self, s461_at, s463_at, s465_at, s916_at, s923_at, s930_at, s937_at, s944_at, s951_at, s958_at, s965_at, s972_at, s980_at, s988_at, s996_at, s2650_at, s2651_at, dot3, newt, Rh_zero, th_zero, rel_zero, Rh_at _ 4 1 (by norm_num) rfl, th_at _ _ 4 1 (by norm_num) rfl, rel_at _ 4 1 (by norm_num) rfl] <;> rfl
theorem s2872_c6 (b : Fin 128) : s2872 x0 x1 (ix2 b (⟨6, by norm_num⟩ : Fin 16)) = Rh (Rk x0 b) 4 1 2 := by
  simp only [s2872, k0_pay726]
  refine (concat_unit_piece 6 (by norm_num) _ _ _ (by simp) rfl rfl b).trans ?_
  simp only [ValueIdx.mulf_apply, ValueIdx.addf_apply, ValueIdx.subf_apply, ValueIdx.broadcast_apply, zero_word, one_word, tovec_at, ascol_at, shapeCast_self, s461_at, s463_at, s465_at, s916_at, s923_at, s930_at, s937_at, s944_at, s951_at, s958_at, s965_at, s972_at, s980_at, s988_at, s996_at, s2650_at, s2651_at, dot3, newt, Rh_zero, th_zero, rel_zero, Rh_at _ 4 1 (by norm_num) rfl, th_at _ _ 4 1 (by norm_num) rfl, rel_at _ 4 1 (by norm_num) rfl] <;> rfl
theorem s2872_c7 (b : Fin 128) : s2872 x0 x1 (ix2 b (⟨7, by norm_num⟩ : Fin 16)) = newt (Rk x0 b) (pk x1 b) 4 1 := by
  simp only [s2872, k0_pay726]
  refine (concat_unit_piece 7 (by norm_num) _ _ _ (by simp) rfl rfl b).trans ?_
  simp only [ValueIdx.mulf_apply, ValueIdx.addf_apply, ValueIdx.subf_apply, ValueIdx.broadcast_apply, zero_word, one_word, tovec_at, ascol_at, shapeCast_self, s461_at, s463_at, s465_at, s916_at, s923_at, s930_at, s937_at, s944_at, s951_at, s958_at, s965_at, s972_at, s980_at, s988_at, s996_at, s2650_at, s2651_at, dot3, newt, Rh_zero, th_zero, rel_zero, Rh_at _ 4 1 (by norm_num) rfl, th_at _ _ 4 1 (by norm_num) rfl, rel_at _ 4 1 (by norm_num) rfl] <;> rfl
theorem s2872_c8 (b : Fin 128) : s2872 x0 x1 (ix2 b (⟨8, by norm_num⟩ : Fin 16)) = Rh (Rk x0 b) 4 2 0 := by
  simp only [s2872, k0_pay726]
  refine (concat_unit_piece 8 (by norm_num) _ _ _ (by simp) rfl rfl b).trans ?_
  simp only [ValueIdx.mulf_apply, ValueIdx.addf_apply, ValueIdx.subf_apply, ValueIdx.broadcast_apply, zero_word, one_word, tovec_at, ascol_at, shapeCast_self, s461_at, s463_at, s465_at, s916_at, s923_at, s930_at, s937_at, s944_at, s951_at, s958_at, s965_at, s972_at, s980_at, s988_at, s996_at, s2650_at, s2651_at, dot3, newt, Rh_zero, th_zero, rel_zero, Rh_at _ 4 1 (by norm_num) rfl, th_at _ _ 4 1 (by norm_num) rfl, rel_at _ 4 1 (by norm_num) rfl] <;> rfl
theorem s2872_c9 (b : Fin 128) : s2872 x0 x1 (ix2 b (⟨9, by norm_num⟩ : Fin 16)) = Rh (Rk x0 b) 4 2 1 := by
  simp only [s2872, k0_pay726]
  refine (concat_unit_piece 9 (by norm_num) _ _ _ (by simp) rfl rfl b).trans ?_
  simp only [ValueIdx.mulf_apply, ValueIdx.addf_apply, ValueIdx.subf_apply, ValueIdx.broadcast_apply, zero_word, one_word, tovec_at, ascol_at, shapeCast_self, s461_at, s463_at, s465_at, s916_at, s923_at, s930_at, s937_at, s944_at, s951_at, s958_at, s965_at, s972_at, s980_at, s988_at, s996_at, s2650_at, s2651_at, dot3, newt, Rh_zero, th_zero, rel_zero, Rh_at _ 4 1 (by norm_num) rfl, th_at _ _ 4 1 (by norm_num) rfl, rel_at _ 4 1 (by norm_num) rfl] <;> rfl
theorem s2872_c10 (b : Fin 128) : s2872 x0 x1 (ix2 b (⟨10, by norm_num⟩ : Fin 16)) = Rh (Rk x0 b) 4 2 2 := by
  simp only [s2872, k0_pay726]
  refine (concat_unit_piece 10 (by norm_num) _ _ _ (by simp) rfl rfl b).trans ?_
  simp only [ValueIdx.mulf_apply, ValueIdx.addf_apply, ValueIdx.subf_apply, ValueIdx.broadcast_apply, zero_word, one_word, tovec_at, ascol_at, shapeCast_self, s461_at, s463_at, s465_at, s916_at, s923_at, s930_at, s937_at, s944_at, s951_at, s958_at, s965_at, s972_at, s980_at, s988_at, s996_at, s2650_at, s2651_at, dot3, newt, Rh_zero, th_zero, rel_zero, Rh_at _ 4 1 (by norm_num) rfl, th_at _ _ 4 1 (by norm_num) rfl, rel_at _ 4 1 (by norm_num) rfl] <;> rfl
theorem s2872_c11 (b : Fin 128) : s2872 x0 x1 (ix2 b (⟨11, by norm_num⟩ : Fin 16)) = newt (Rk x0 b) (pk x1 b) 4 2 := by
  simp only [s2872, k0_pay726]
  refine (concat_unit_piece 11 (by norm_num) _ _ _ (by simp) rfl rfl b).trans ?_
  simp only [ValueIdx.mulf_apply, ValueIdx.addf_apply, ValueIdx.subf_apply, ValueIdx.broadcast_apply, zero_word, one_word, tovec_at, ascol_at, shapeCast_self, s461_at, s463_at, s465_at, s916_at, s923_at, s930_at, s937_at, s944_at, s951_at, s958_at, s965_at, s972_at, s980_at, s988_at, s996_at, s2650_at, s2651_at, dot3, newt, Rh_zero, th_zero, rel_zero, Rh_at _ 4 1 (by norm_num) rfl, th_at _ _ 4 1 (by norm_num) rfl, rel_at _ 4 1 (by norm_num) rfl] <;> rfl
theorem s2872_c12 (b : Fin 128) : s2872 x0 x1 (ix2 b (⟨12, by norm_num⟩ : Fin 16)) = (0 : EReal) := by
  simp only [s2872, k0_pay726]
  refine (concat_unit_piece 12 (by norm_num) _ _ _ (by simp) rfl rfl b).trans ?_
  simp only [ValueIdx.mulf_apply, ValueIdx.addf_apply, ValueIdx.subf_apply, ValueIdx.broadcast_apply, zero_word, one_word, tovec_at, ascol_at, shapeCast_self, s461_at, s463_at, s465_at, s916_at, s923_at, s930_at, s937_at, s944_at, s951_at, s958_at, s965_at, s972_at, s980_at, s988_at, s996_at, s2650_at, s2651_at, dot3, newt, Rh_zero, th_zero, rel_zero, Rh_at _ 4 1 (by norm_num) rfl, th_at _ _ 4 1 (by norm_num) rfl, rel_at _ 4 1 (by norm_num) rfl] <;> rfl
theorem s2872_c13 (b : Fin 128) : s2872 x0 x1 (ix2 b (⟨13, by norm_num⟩ : Fin 16)) = (0 : EReal) := by
  simp only [s2872, k0_pay726]
  refine (concat_unit_piece 13 (by norm_num) _ _ _ (by simp) rfl rfl b).trans ?_
  simp only [ValueIdx.mulf_apply, ValueIdx.addf_apply, ValueIdx.subf_apply, ValueIdx.broadcast_apply, zero_word, one_word, tovec_at, ascol_at, shapeCast_self, s461_at, s463_at, s465_at, s916_at, s923_at, s930_at, s937_at, s944_at, s951_at, s958_at, s965_at, s972_at, s980_at, s988_at, s996_at, s2650_at, s2651_at, dot3, newt, Rh_zero, th_zero, rel_zero, Rh_at _ 4 1 (by norm_num) rfl, th_at _ _ 4 1 (by norm_num) rfl, rel_at _ 4 1 (by norm_num) rfl] <;> rfl
theorem s2872_c14 (b : Fin 128) : s2872 x0 x1 (ix2 b (⟨14, by norm_num⟩ : Fin 16)) = (0 : EReal) := by
  simp only [s2872, k0_pay726]
  refine (concat_unit_piece 14 (by norm_num) _ _ _ (by simp) rfl rfl b).trans ?_
  simp only [ValueIdx.mulf_apply, ValueIdx.addf_apply, ValueIdx.subf_apply, ValueIdx.broadcast_apply, zero_word, one_word, tovec_at, ascol_at, shapeCast_self, s461_at, s463_at, s465_at, s916_at, s923_at, s930_at, s937_at, s944_at, s951_at, s958_at, s965_at, s972_at, s980_at, s988_at, s996_at, s2650_at, s2651_at, dot3, newt, Rh_zero, th_zero, rel_zero, Rh_at _ 4 1 (by norm_num) rfl, th_at _ _ 4 1 (by norm_num) rfl, rel_at _ 4 1 (by norm_num) rfl] <;> rfl
theorem s2872_c15 (b : Fin 128) : s2872 x0 x1 (ix2 b (⟨15, by norm_num⟩ : Fin 16)) = (1 : EReal) := by
  simp only [s2872, k0_pay726]
  refine (concat_unit_piece 15 (by norm_num) _ _ _ (by simp) rfl rfl b).trans ?_
  simp only [ValueIdx.mulf_apply, ValueIdx.addf_apply, ValueIdx.subf_apply, ValueIdx.broadcast_apply, zero_word, one_word, tovec_at, ascol_at, shapeCast_self, s461_at, s463_at, s465_at, s916_at, s923_at, s930_at, s937_at, s944_at, s951_at, s958_at, s965_at, s972_at, s980_at, s988_at, s996_at, s2650_at, s2651_at, dot3, newt, Rh_zero, th_zero, rel_zero, Rh_at _ 4 1 (by norm_num) rfl, th_at _ _ 4 1 (by norm_num) rfl, rel_at _ 4 1 (by norm_num) rfl] <;> rfl
theorem s467_at (b : Fin 128) : s467 x0 x1 (ix1 b) = pk x1 b 5 0 := by
  simp only [s467, k0_pay245, ValueIdx.mulf_apply, ValueIdx.addf_apply, ValueIdx.subf_apply, ValueIdx.broadcast_apply, zero_word, one_word, tovec_at, ascol_at, shapeCast_self, slice_at (N := 72) _ 15 (by norm_num), s3_eq, dot3, newt, Rh_zero, th_zero, rel_zero] <;> rfl
theorem s469_at (b : Fin 128) : s469 x0 x1 (ix1 b) = pk x1 b 5 1 := by
  simp only [s469, k0_pay246, ValueIdx.mulf_apply, ValueIdx.addf_apply, ValueIdx.subf_apply, ValueIdx.broadcast_apply, zero_word, one_word, tovec_at, ascol_at, shapeCast_self, slice_at (N := 72) _ 16 (by norm_num), s3_eq, dot3, newt, Rh_zero, th_zero, rel_zero] <;> rfl
theorem s471_at (b : Fin 128) : s471 x0 x1 (ix1 b) = pk x1 b 5 2 := by
  simp only [s471, k0_pay247, ValueIdx.mulf_apply, ValueIdx.addf_apply, ValueIdx.subf_apply, ValueIdx.broadcast_apply, zero_word, one_word, tovec_at, ascol_at, shapeCast_self, slice_at (N := 72) _ 17 (by norm_num), s3_eq, dot3, newt, Rh_zero, th_zero, rel_zero] <;> rfl
theorem s95_at (b : Fin 128) : s95 x0 x1 (ix1 b) = Rk x0 b 5 0 0 := by
  simp only [s95, k0_pay53, ValueIdx.mulf_apply, ValueIdx.addf_apply, ValueIdx.subf_apply, ValueIdx.broadcast_apply, zero_word, one_word, tovec_at, ascol_at, shapeCast_self, slice_at (N := 216) _ 45 (by norm_num), s1_eq, dot3, newt, Rh_zero, th_zero, rel_zero] <;> rfl
theorem s101_at (b : Fin 128) : s101 x0 x1 (ix1 b) = Rk x0 b 5 1 0 := by
  simp only [s101, k0_pay56, ValueIdx.mulf_apply, ValueIdx.addf_apply, ValueIdx.subf_apply, ValueIdx.broadcast_apply, zero_word, one_word, tovec_at, ascol_at, shapeCast_self, slice_at (N := 216) _ 48 (by norm_num), s1_eq, dot3, newt, Rh_zero, th_zero, rel_zero] <;> rfl
theorem s107_at (b : Fin 128) : s107 x0 x1 (ix1 b) = Rk x0 b 5 2 0 := by
  simp only [s107, k0_pay59, ValueIdx.mulf_apply, ValueIdx.addf_apply, ValueIdx.subf_apply, ValueIdx.broadcast_apply, zero_word, one_word, tovec_at, ascol_at, shapeCast_self, slice_at (N := 216) _ 51 (by norm_num), s1_eq, dot3, newt, Rh_zero, th_zero, rel_zero] <;> rfl
theorem s1003_at (b : Fin 128) : s1003 x0 x1 (ix1 b) = Rh (Rk x0 b) 5 0 0 := by
  simp only [s1003, k0_pay429, ValueIdx.mulf_apply, ValueIdx.addf_apply, ValueIdx.subf_apply, ValueIdx.broadcast_apply, zero_word, one_word, tovec_at, ascol_at, shapeCast_self, s95_at, s101_at, s107_at, s742_at, s749_at, s756_at, dot3, newt, Rh_zero, th_zero, rel_zero, Rh_at _ 5 2 (by norm_num) rfl, th_at _ _ 5 2 (by norm_num) rfl, rel_at _ 5 2 (by norm_num) rfl] <;> rfl
theorem s97_at (b : Fin 128) : s97 x0 x1 (ix1 b) = Rk x0 b 5 0 1 := by
  simp only [s97, k0_pay54, ValueIdx.mulf_apply, ValueIdx.addf_apply, ValueIdx.subf_apply, ValueIdx.broadcast_apply, zero_word, one_word, tovec_at, ascol_at, shapeCast_self, slice_at (N := 216) _ 46 (by norm_num), s1_eq, dot3, newt, Rh_zero, th_zero, rel_zero] <;> rfl
theorem s103_at (b : Fin 128) : s103 x0 x1 (ix1 b) = Rk x0 b 5 1 1 := by
  simp only [s103, k0_pay57, ValueIdx.mulf_apply, ValueIdx.addf_apply, ValueIdx.subf_apply, ValueIdx.broadcast_apply, zero_word, one_word, tovec_at, ascol_at, shapeCast_self, slice_at (N := 216) _ 49 (by norm_num), s1_eq, dot3, newt, Rh_zero, th_zero, rel_zero] <;> rfl
theorem s109_at (b : Fin 128) : s109 x0 x1 (ix1 b) = Rk x0 b 5 2 1 := by
  simp only [s109, k0_pay60, ValueIdx.mulf_apply, ValueIdx.addf_apply, ValueIdx.subf_apply, ValueIdx.broadcast_apply, zero_word, one_word, tovec_at, ascol_at, shapeCast_self, slice_at (N := 216) _ 52 (by norm_num), s1_eq, dot3, newt, Rh_zero, th_zero, rel_zero] <;> rfl
theorem s1010_at (b : Fin 128) : s1010 x0 x1 (ix1 b) = Rh (Rk x0 b) 5 0 1 := by
  simp only [s1010, k0_pay430, ValueIdx.mulf_apply, ValueIdx.addf_apply, ValueIdx.subf_apply, ValueIdx.broadcast_apply, zero_word, one_word, tovec_at, ascol_at, shapeCast_self, s97_at, s103_at, s109_at, s742_at, s749_at, s756_at, dot3, newt, Rh_zero, th_zero, rel_zero, Rh_at _ 5 2 (by norm_num) rfl, th_at _ _ 5 2 (by norm_num) rfl, rel_at _ 5 2 (by norm_num) rfl] <;> rfl
theorem s99_at (b : Fin 128) : s99 x0 x1 (ix1 b) = Rk x0 b 5 0 2 := by
  simp only [s99, k0_pay55, ValueIdx.mulf_apply, ValueIdx.addf_apply, ValueIdx.subf_apply, ValueIdx.broadcast_apply, zero_word, one_word, tovec_at, ascol_at, shapeCast_self, slice_at (N := 216) _ 47 (by norm_num), s1_eq, dot3, newt, Rh_zero, th_zero, rel_zero] <;> rfl
theorem s105_at (b : Fin 128) : s105 x0 x1 (ix1 b) = Rk x0 b 5 1 2 := by
  simp only [s105, k0_pay58, ValueIdx.mulf_apply, ValueIdx.addf_apply, ValueIdx.subf_apply, ValueIdx.broadcast_apply, zero_word, one_word, tovec_at, ascol_at, shapeCast_self, slice_at (N := 216) _ 50 (by norm_num), s1_eq, dot3, newt, Rh_zero, th_zero, rel_zero] <;> rfl
theorem s111_at (b : Fin 128) : s111 x0 x1 (ix1 b) = Rk x0 b 5 2 2 := by
  simp only [s111, k0_pay61, ValueIdx.mulf_apply, ValueIdx.addf_apply, ValueIdx.subf_apply, ValueIdx.broadcast_apply, zero_word, one_word, tovec_at, ascol_at, shapeCast_self, slice_at (N := 216) _ 53 (by norm_num), s1_eq, dot3, newt, Rh_zero, th_zero, rel_zero] <;> rfl
theorem s1017_at (b : Fin 128) : s1017 x0 x1 (ix1 b) = Rh (Rk x0 b) 5 0 2 := by
  simp only [s1017, k0_pay431, ValueIdx.mulf_apply, ValueIdx.addf_apply, ValueIdx.subf_apply, ValueIdx.broadcast_apply, zero_word, one_word, tovec_at, ascol_at, shapeCast_self, s99_at, s105_at, s111_at, s742_at, s749_at, s756_at, dot3, newt, Rh_zero, th_zero, rel_zero, Rh_at _ 5 2 (by norm_num) rfl, th_at _ _ 5 2 (by norm_num) rfl, rel_at _ 5 2 (by norm_num) rfl] <;> rfl
theorem s1022_at (b : Fin 128) : s1022 x0 x1 (ix1 b) = (((0 : EReal) + ((Rh (Rk x0 b) 2 1 0) * (Rk x0 b 5 0 0))) + ((Rh (Rk x0 b) 2 1 1) * (Rk x0 b 5 1 0))) := by
  simp only [s1022, k0_pay432, ValueIdx.mulf_apply, ValueIdx.addf_apply, ValueIdx.subf_apply, ValueIdx.broadcast_apply, zero_word, one_word, tovec_at, ascol_at, shapeCast_self, s95_at, s101_at, s763_at, s770_at, dot3, newt, Rh_zero, th_zero, rel_zero] <;> rfl
theorem s1024_at (b : Fin 128) : s1024 x0 x1 (ix1 b) = Rh (Rk x0 b) 5 1 0 := by
  simp only [s1024, k0_pay433, ValueIdx.mulf_apply, ValueIdx.addf_apply, ValueIdx.subf_apply, ValueIdx.broadcast_apply, zero_word, one_word, tovec_at, ascol_at, shapeCast_self, s107_at, s777_at, s1022_at, dot3, newt, Rh_zero, th_zero, rel_zero, Rh_at _ 5 2 (by norm_num) rfl, th_at _ _ 5 2 (by norm_num) rfl, rel_at _ 5 2 (by norm_num) rfl] <;> rfl
theorem s1031_at (b : Fin 128) : s1031 x0 x1 (ix1 b) = Rh (Rk x0 b) 5 1 1 := by
  simp only [s1031, k0_pay434, ValueIdx.mulf_apply, ValueIdx.addf_apply, ValueIdx.subf_apply, ValueIdx.broadcast_apply, zero_word, one_word, tovec_at, ascol_at, shapeCast_self, s97_at, s103_at, s109_at, s763_at, s770_at, s777_at, dot3, newt, Rh_zero, th_zero, rel_zero, Rh_at _ 5 2 (by norm_num) rfl, th_at _ _ 5 2 (by norm_num) rfl, rel_at _ 5 2 (by norm_num) rfl] <;> rfl
theorem s1038_at (b : Fin 128) : s1038 x0 x1 (ix1 b) = Rh (Rk x0 b) 5 1 2 := by
  simp only [s1038, k0_pay435, ValueIdx.mulf_apply, ValueIdx.addf_apply, ValueIdx.subf_apply, ValueIdx.broadcast_apply, zero_word, one_word, tovec_at, ascol_at, shapeCast_self, s99_at, s105_at, s111_at, s763_at, s770_at, s777_at, dot3, newt, Rh_zero, th_zero, rel_zero, Rh_at _ 5 2 (by norm_num) rfl, th_at _ _ 5 2 (by norm_num) rfl, rel_at _ 5 2 (by norm_num) rfl] <;> rfl
theorem s1045_at (b : Fin 128) : s1045 x0 x1 (ix1 b) = Rh (Rk x0 b) 5 2 0 := by
  simp only [s1045, k0_pay436, ValueIdx.mulf_apply, ValueIdx.addf_apply, ValueIdx.subf_apply, ValueIdx.broadcast_apply, zero_word, one_word, tovec_at, ascol_at, shapeCast_self, s95_at, s101_at, s107_at, s784_at, s791_at, s798_at, dot3, newt, Rh_zero, th_zero, rel_zero, Rh_at _ 5 2 (by norm_num) rfl, th_at _ _ 5 2 (by norm_num) rfl, rel_at _ 5 2 (by norm_num) rfl] <;> rfl
theorem s1052_at (b : Fin 128) : s1052 x0 x1 (ix1 b) = Rh (Rk x0 b) 5 2 1 := by
  simp only [s1052, k0_pay437, ValueIdx.mulf_apply, ValueIdx.addf_apply, ValueIdx.subf_apply, ValueIdx.broadcast_apply, zero_word, one_word, tovec_at, ascol_at, shapeCast_self, s97_at, s103_at, s109_at, s784_at, s791_at, s798_at, dot3, newt, Rh_zero, th_zero, rel_zero, Rh_at _ 5 2 (by norm_num) rfl, th_at _ _ 5 2 (by norm_num) rfl, rel_at _ 5 2 (by norm_num) rfl] <;> rfl
theorem s1059_at (b : Fin 128) : s1059 x0 x1 (ix1 b) = Rh (Rk x0 b) 5 2 2 := by
  simp only [s1059, k0_pay438, ValueIdx.mulf_apply, ValueIdx.addf_apply, ValueIdx.subf_apply, ValueIdx.broadcast_apply, zero_word, one_word, tovec_at, ascol_at, shapeCast_self, s99_at, s105_at, s111_at, s784_at, s791_at, s798_at, dot3, newt, Rh_zero, th_zero, rel_zero, Rh_at _ 5 2 (by norm_num) rfl, th_at _ _ 5 2 (by norm_num) rfl, rel_at _ 5 2 (by norm_num) rfl] <;> rfl
theorem s592_at (b : Fin 128) : s592 x0 x1 (ix1 b) = rel (pk x1 b) 5 0 := by
  simp only [s592, k0_pay316, ValueIdx.mulf_apply, ValueIdx.addf_apply, ValueIdx.subf_apply, ValueIdx.broadcast_apply, zero_word, one_word, tovec_at, ascol_at, shapeCast_self, s449_at, s467_at, dot3, newt, Rh_zero, th_zero, rel_zero, Rh_at _ 5 2 (by norm_num) rfl, th_at _ _ 5 2 (by norm_num) rfl, rel_at _ 5 2 (by norm_num) rfl] <;> rfl
theorem s593_at (b : Fin 128) : s593 x0 x1 (ix1 b) = rel (pk x1 b) 5 1 := by
  simp only [s593, k0_pay317, ValueIdx.mulf_apply, ValueIdx.addf_apply, ValueIdx.subf_apply, ValueIdx.broadcast_apply, zero_word, one_word, tovec_at, ascol_at, shapeCast_self, s451_at, s469_at, dot3, newt, Rh_zero, th_zero, rel_zero, Rh_at _ 5 2 (by norm_num) rfl, th_at _ _ 5 2 (by norm_num) rfl, rel_at _ 5 2 (by norm_num) rfl] <;> rfl
theorem s594_at (b : Fin 128) : s594 x0 x1 (ix1 b) = rel (pk x1 b) 5 2 := by
  simp only [s594, k0_pay318, ValueIdx.mulf_apply, ValueIdx.addf_apply, ValueIdx.subf_apply, ValueIdx.broadcast_apply, zero_word, one_word, tovec_at, ascol_at, shapeCast_self, s453_at, s471_at, dot3, newt, Rh_zero, th_zero, rel_zero, Rh_at _ 5 2 (by norm_num) rfl, th_at _ _ 5 2 (by norm_num) rfl, rel_at _ 5 2 (by norm_num) rfl] <;> rfl
theorem s1067_at (b : Fin 128) : s1067 x0 x1 (ix1 b) = th (Rk x0 b) (pk x1 b) 5 0 := by
  simp only [s1067, k0_pay439, ValueIdx.mulf_apply, ValueIdx.addf_apply, ValueIdx.subf_apply, ValueIdx.broadcast_apply, zero_word, one_word, tovec_at, ascol_at, shapeCast_self, s592_at, s593_at, s594_at, s742_at, s749_at, s756_at, s806_at, dot3, newt, Rh_zero, th_zero, rel_zero, Rh_at _ 5 2 (by norm_num) rfl, th_at _ _ 5 2 (by norm_num) rfl, rel_at _ 5 2 (by norm_num) rfl] <;> rfl
theorem s1075_at (b : Fin 128) : s1075 x0 x1 (ix1 b) = th (Rk x0 b) (pk x1 b) 5 1 := by
  simp only [s1075, k0_pay440, ValueIdx.mulf_apply, ValueIdx.addf_apply, ValueIdx.subf_apply, ValueIdx.broadcast_apply, zero_word, one_word, tovec_at, ascol_at, shapeCast_self, s592_at, s593_at, s594_at, s763_at, s770_at, s777_at, s814_at, dot3, newt, Rh_zero, th_zero, rel_zero, Rh_at _ 5 2 (by norm_num) rfl, th_at _ _ 5 2 (by norm_num) rfl, rel_at _ 5 2 (by norm_num) rfl] <;> rfl
theorem s1083_at (b : Fin 128) : s1083 x0 x1 (ix1 b) = th (Rk x0 b) (pk x1 b) 5 2 := by
  simp only [s1083, k0_pay441, ValueIdx.mulf_apply, ValueIdx.addf_apply, ValueIdx.subf_apply, ValueIdx.broadcast_apply, zero_word, one_word, tovec_at, ascol_at, shapeCast_self, s592_at, s593_at, s594_at, s784_at, s791_at, s798_at, s822_at, dot3, newt, Rh_zero, th_zero, rel_zero, Rh_at _ 5 2 (by norm_num) rfl, th_at _ _ 5 2 (by norm_num) rfl, rel_at _ 5 2 (by norm_num) rfl] <;> rfl
theorem s2879_at (b : Fin 128) : s2879 x0 x1 (ix1 b) = ((0 : EReal) + ((Rh (Rk x0 b) 5 0 0) * (pk x1 b 5 0))) := by
  simp only [s2879, k0_pay728, ValueIdx.mulf_apply, ValueIdx.addf_apply, ValueIdx.subf_apply, ValueIdx.broadcast_apply, zero_word, one_word, tovec_at, ascol_at, shapeCast_self, s467_at, s1003_at, dot3, newt, Rh_zero, th_zero, rel_zero] <;> rfl
theorem s2880_at (b : Fin 128) : s2880 x0 x1 (ix1 b) = ((Rh (Rk x0 b) 5 0 1) * (pk x1 b 5 1)) := by
  simp only [s2880, k0_pay729, ValueIdx.mulf_apply, ValueIdx.addf_apply, ValueIdx.subf_apply, ValueIdx.broadcast_apply, zero_word, one_word, tovec_at, ascol_at, shapeCast_self, s469_at, s1010_at, dot3, newt, Rh_zero, th_zero, rel_zero] <;> rfl
theorem s2917_c0 (b : Fin 128) : s2917 x0 x1 (ix2 b (⟨0, by norm_num⟩ : Fin 16)) = Rh (Rk x0 b) 5 0 0 := by
  simp only [s2917, k0_pay730]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s467_at, s469_at, s471_at, s1003_at, s1010_at, s1017_at, s1024_at, s1031_at, s1038_at, s1045_at, s1052_at, s1059_at, s1067_at, s1075_at, s1083_at, s2650_at, s2651_at, s2879_at, s2880_at, dot3, newt, Rh_zero, th_zero, rel_zero, Rh_at _ 5 2 (by norm_num) rfl, th_at _ _ 5 2 (by norm_num) rfl, rel_at _ 5 2 (by norm_num) rfl] <;> rfl
theorem s2917_c1 (b : Fin 128) : s2917 x0 x1 (ix2 b (⟨1, by norm_num⟩ : Fin 16)) = Rh (Rk x0 b) 5 0 1 := by
  simp only [s2917, k0_pay730]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s467_at, s469_at, s471_at, s1003_at, s1010_at, s1017_at, s1024_at, s1031_at, s1038_at, s1045_at, s1052_at, s1059_at, s1067_at, s1075_at, s1083_at, s2650_at, s2651_at, s2879_at, s2880_at, dot3, newt, Rh_zero, th_zero, rel_zero, Rh_at _ 5 2 (by norm_num) rfl, th_at _ _ 5 2 (by norm_num) rfl, rel_at _ 5 2 (by norm_num) rfl] <;> rfl
theorem s2917_c2 (b : Fin 128) : s2917 x0 x1 (ix2 b (⟨2, by norm_num⟩ : Fin 16)) = Rh (Rk x0 b) 5 0 2 := by
  simp only [s2917, k0_pay730]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s467_at, s469_at, s471_at, s1003_at, s1010_at, s1017_at, s1024_at, s1031_at, s1038_at, s1045_at, s1052_at, s1059_at, s1067_at, s1075_at, s1083_at, s2650_at, s2651_at, s2879_at, s2880_at, dot3, newt, Rh_zero, th_zero, rel_zero, Rh_at _ 5 2 (by norm_num) rfl, th_at _ _ 5 2 (by norm_num) rfl, rel_at _ 5 2 (by norm_num) rfl] <;> rfl
theorem s2917_c3 (b : Fin 128) : s2917 x0 x1 (ix2 b (⟨3, by norm_num⟩ : Fin 16)) = newt (Rk x0 b) (pk x1 b) 5 0 := by
  simp only [s2917, k0_pay730]
  refine (concat_unit_piece 3 (by norm_num) _ _ _ (by simp) rfl rfl b).trans ?_
  simp only [ValueIdx.mulf_apply, ValueIdx.addf_apply, ValueIdx.subf_apply, ValueIdx.broadcast_apply, zero_word, one_word, tovec_at, ascol_at, shapeCast_self, s467_at, s469_at, s471_at, s1003_at, s1010_at, s1017_at, s1024_at, s1031_at, s1038_at, s1045_at, s1052_at, s1059_at, s1067_at, s1075_at, s1083_at, s2650_at, s2651_at, s2879_at, s2880_at, dot3, newt, Rh_zero, th_zero, rel_zero, Rh_at _ 5 2 (by norm_num) rfl, th_at _ _ 5 2 (by norm_num) rfl, rel_at _ 5 2 (by norm_num) rfl] <;> rfl
theorem s2917_c4 (b : Fin 128) : s2917 x0 x1 (ix2 b (⟨4, by norm_num⟩ : Fin 16)) = Rh (Rk x0 b) 5 1 0 := by
  simp only [s2917, k0_pay730]
  refine (concat_unit_piece 4 (by norm_num) _ _ _ (by simp) rfl rfl b).trans ?_
  simp only [ValueIdx.mulf_apply, ValueIdx.addf_apply, ValueIdx.subf_apply, ValueIdx.broadcast_apply, zero_word, one_word, tovec_at, ascol_at, shapeCast_self, s467_at, s469_at, s471_at, s1003_at, s1010_at, s1017_at, s1024_at, s1031_at, s1038_at, s1045_at, s1052_at, s1059_at, s1067_at, s1075_at, s1083_at, s2650_at, s2651_at, s2879_at, s2880_at, dot3, newt, Rh_zero, th_zero, rel_zero, Rh_at _ 5 2 (by norm_num) rfl, th_at _ _ 5 2 (by norm_num) rfl, rel_at _ 5 2 (by norm_num) rfl] <;> rfl
theorem s2917_c5 (b : Fin 128) : s2917 x0 x1 (ix2 b (⟨5, by norm_num⟩ : Fin 16)) = Rh (Rk x0 b) 5 1 1 := by
  simp only [s2917, k0_pay730]
  refine (concat_unit_piece 5 (by norm_num) _ _ _ (by simp) rfl rfl b).trans ?_
  simp only [ValueIdx.mulf_apply, ValueIdx.addf_apply, ValueIdx.subf_apply, ValueIdx.broadcast_apply, zero_word, one_word, tovec_at, ascol_at, shapeCast_self, s467_at, s469_at, s471_at, s1003_at, s1010_at, s1017_at, s1024_at, s1031_at, s1038_at, s1045_at, s1052_at, s1059_at, s1067_at, s1075_at, s1083_at, s2650_at, s2651_at, s2879_at, s2880_at, dot3, newt, Rh_zero, th_zero, rel_zero, Rh_at _ 5 2 (by norm_num) rfl, th_at _ _ 5 2 (by norm_num) rfl, rel_at _ 5 2 (by norm_num) rfl] <;> rfl
theorem s2917_c6 (b : Fin 128) : s2917 x0 x1 (ix2 b (⟨6, by norm_num⟩ : Fin 16)) = Rh (Rk x0 b) 5 1 2 := by
  simp only [s2917, k0_pay730]
  refine (concat_unit_piece 6 (by norm_num) _ _ _ (by simp) rfl rfl b).trans ?_
  simp only [ValueIdx.mulf_apply, ValueIdx.addf_apply, ValueIdx.subf_apply, ValueIdx.broadcast_apply, zero_word, one_word, tovec_at, ascol_at, shapeCast_self, s467_at, s469_at, s471_at, s1003_at, s1010_at, s1017_at, s1024_at, s1031_at, s1038_at, s1045_at, s1052_at, s1059_at, s1067_at, s1075_at, s1083_at, s2650_at, s2651_at, s2879_at, s2880_at, dot3, newt, Rh_zero, th_zero, rel_zero, Rh_at _ 5 2 (by norm_num) rfl, th_at _ _ 5 2 (by norm_num) rfl, rel_at _ 5 2 (by norm_num) rfl] <;> rfl
theorem s2917_c7 (b : Fin 128) : s2917 x0 x1 (ix2 b (⟨7, by norm_num⟩ : Fin 16)) = newt (Rk x0 b) (pk x1 b) 5 1 := by
  simp only [s2917, k0_pay730]
  refine (concat_unit_piece 7 (by norm_num) _ _ _ (by simp) rfl rfl b).trans ?_
  simp only [ValueIdx.mulf_apply, ValueIdx.addf_apply, ValueIdx.subf_apply, ValueIdx.broadcast_apply, zero_word, one_word, tovec_at, ascol_at, shapeCast_self, s467_at, s469_at, s471_at, s1003_at, s1010_at, s1017_at, s1024_at, s1031_at, s1038_at, s1045_at, s1052_at, s1059_at, s1067_at, s1075_at, s1083_at, s2650_at, s2651_at, s2879_at, s2880_at, dot3, newt, Rh_zero, th_zero, rel_zero, Rh_at _ 5 2 (by norm_num) rfl, th_at _ _ 5 2 (by norm_num) rfl, rel_at _ 5 2 (by norm_num) rfl] <;> rfl
theorem s2917_c8 (b : Fin 128) : s2917 x0 x1 (ix2 b (⟨8, by norm_num⟩ : Fin 16)) = Rh (Rk x0 b) 5 2 0 := by
  simp only [s2917, k0_pay730]
  refine (concat_unit_piece 8 (by norm_num) _ _ _ (by simp) rfl rfl b).trans ?_
  simp only [ValueIdx.mulf_apply, ValueIdx.addf_apply, ValueIdx.subf_apply, ValueIdx.broadcast_apply, zero_word, one_word, tovec_at, ascol_at, shapeCast_self, s467_at, s469_at, s471_at, s1003_at, s1010_at, s1017_at, s1024_at, s1031_at, s1038_at, s1045_at, s1052_at, s1059_at, s1067_at, s1075_at, s1083_at, s2650_at, s2651_at, s2879_at, s2880_at, dot3, newt, Rh_zero, th_zero, rel_zero, Rh_at _ 5 2 (by norm_num) rfl, th_at _ _ 5 2 (by norm_num) rfl, rel_at _ 5 2 (by norm_num) rfl] <;> rfl
theorem s2917_c9 (b : Fin 128) : s2917 x0 x1 (ix2 b (⟨9, by norm_num⟩ : Fin 16)) = Rh (Rk x0 b) 5 2 1 := by
  simp only [s2917, k0_pay730]
  refine (concat_unit_piece 9 (by norm_num) _ _ _ (by simp) rfl rfl b).trans ?_
  simp only [ValueIdx.mulf_apply, ValueIdx.addf_apply, ValueIdx.subf_apply, ValueIdx.broadcast_apply, zero_word, one_word, tovec_at, ascol_at, shapeCast_self, s467_at, s469_at, s471_at, s1003_at, s1010_at, s1017_at, s1024_at, s1031_at, s1038_at, s1045_at, s1052_at, s1059_at, s1067_at, s1075_at, s1083_at, s2650_at, s2651_at, s2879_at, s2880_at, dot3, newt, Rh_zero, th_zero, rel_zero, Rh_at _ 5 2 (by norm_num) rfl, th_at _ _ 5 2 (by norm_num) rfl, rel_at _ 5 2 (by norm_num) rfl] <;> rfl
theorem s2917_c10 (b : Fin 128) : s2917 x0 x1 (ix2 b (⟨10, by norm_num⟩ : Fin 16)) = Rh (Rk x0 b) 5 2 2 := by
  simp only [s2917, k0_pay730]
  refine (concat_unit_piece 10 (by norm_num) _ _ _ (by simp) rfl rfl b).trans ?_
  simp only [ValueIdx.mulf_apply, ValueIdx.addf_apply, ValueIdx.subf_apply, ValueIdx.broadcast_apply, zero_word, one_word, tovec_at, ascol_at, shapeCast_self, s467_at, s469_at, s471_at, s1003_at, s1010_at, s1017_at, s1024_at, s1031_at, s1038_at, s1045_at, s1052_at, s1059_at, s1067_at, s1075_at, s1083_at, s2650_at, s2651_at, s2879_at, s2880_at, dot3, newt, Rh_zero, th_zero, rel_zero, Rh_at _ 5 2 (by norm_num) rfl, th_at _ _ 5 2 (by norm_num) rfl, rel_at _ 5 2 (by norm_num) rfl] <;> rfl
theorem s2917_c11 (b : Fin 128) : s2917 x0 x1 (ix2 b (⟨11, by norm_num⟩ : Fin 16)) = newt (Rk x0 b) (pk x1 b) 5 2 := by
  simp only [s2917, k0_pay730]
  refine (concat_unit_piece 11 (by norm_num) _ _ _ (by simp) rfl rfl b).trans ?_
  simp only [ValueIdx.mulf_apply, ValueIdx.addf_apply, ValueIdx.subf_apply, ValueIdx.broadcast_apply, zero_word, one_word, tovec_at, ascol_at, shapeCast_self, s467_at, s469_at, s471_at, s1003_at, s1010_at, s1017_at, s1024_at, s1031_at, s1038_at, s1045_at, s1052_at, s1059_at, s1067_at, s1075_at, s1083_at, s2650_at, s2651_at, s2879_at, s2880_at, dot3, newt, Rh_zero, th_zero, rel_zero, Rh_at _ 5 2 (by norm_num) rfl, th_at _ _ 5 2 (by norm_num) rfl, rel_at _ 5 2 (by norm_num) rfl] <;> rfl
theorem s2917_c12 (b : Fin 128) : s2917 x0 x1 (ix2 b (⟨12, by norm_num⟩ : Fin 16)) = (0 : EReal) := by
  simp only [s2917, k0_pay730]
  refine (concat_unit_piece 12 (by norm_num) _ _ _ (by simp) rfl rfl b).trans ?_
  simp only [ValueIdx.mulf_apply, ValueIdx.addf_apply, ValueIdx.subf_apply, ValueIdx.broadcast_apply, zero_word, one_word, tovec_at, ascol_at, shapeCast_self, s467_at, s469_at, s471_at, s1003_at, s1010_at, s1017_at, s1024_at, s1031_at, s1038_at, s1045_at, s1052_at, s1059_at, s1067_at, s1075_at, s1083_at, s2650_at, s2651_at, s2879_at, s2880_at, dot3, newt, Rh_zero, th_zero, rel_zero, Rh_at _ 5 2 (by norm_num) rfl, th_at _ _ 5 2 (by norm_num) rfl, rel_at _ 5 2 (by norm_num) rfl] <;> rfl
theorem s2917_c13 (b : Fin 128) : s2917 x0 x1 (ix2 b (⟨13, by norm_num⟩ : Fin 16)) = (0 : EReal) := by
  simp only [s2917, k0_pay730]
  refine (concat_unit_piece 13 (by norm_num) _ _ _ (by simp) rfl rfl b).trans ?_
  simp only [ValueIdx.mulf_apply, ValueIdx.addf_apply, ValueIdx.subf_apply, ValueIdx.broadcast_apply, zero_word, one_word, tovec_at, ascol_at, shapeCast_self, s467_at, s469_at, s471_at, s1003_at, s1010_at, s1017_at, s1024_at, s1031_at, s1038_at, s1045_at, s1052_at, s1059_at, s1067_at, s1075_at, s1083_at, s2650_at, s2651_at, s2879_at, s2880_at, dot3, newt, Rh_zero, th_zero, rel_zero, Rh_at _ 5 2 (by norm_num) rfl, th_at _ _ 5 2 (by norm_num) rfl, rel_at _ 5 2 (by norm_num) rfl] <;> rfl
theorem s2917_c14 (b : Fin 128) : s2917 x0 x1 (ix2 b (⟨14, by norm_num⟩ : Fin 16)) = (0 : EReal) := by
  simp only [s2917, k0_pay730]
  refine (concat_unit_piece 14 (by norm_num) _ _ _ (by simp) rfl rfl b).trans ?_
  simp only [ValueIdx.mulf_apply, ValueIdx.addf_apply, ValueIdx.subf_apply, ValueIdx.broadcast_apply, zero_word, one_word, tovec_at, ascol_at, shapeCast_self, s467_at, s469_at, s471_at, s1003_at, s1010_at, s1017_at, s1024_at, s1031_at, s1038_at, s1045_at, s1052_at, s1059_at, s1067_at, s1075_at, s1083_at, s2650_at, s2651_at, s2879_at, s2880_at, dot3, newt, Rh_zero, th_zero, rel_zero, Rh_at _ 5 2 (by norm_num) rfl, th_at _ _ 5 2 (by norm_num) rfl, rel_at _ 5 2 (by norm_num) rfl] <;> rfl
theorem s2917_c15 (b : Fin 128) : s2917 x0 x1 (ix2 b (⟨15, by norm_num⟩ : Fin 16)) = (1 : EReal) := by
  simp only [s2917, k0_pay730]
  refine (concat_unit_piece 15 (by norm_num) _ _ _ (by simp) rfl rfl b).trans ?_
  simp only [ValueIdx.mulf_apply, ValueIdx.addf_apply, ValueIdx.subf_apply, ValueIdx.broadcast_apply, zero_word, one_word, tovec_at, ascol_at, shapeCast_self, s467_at, s469_at, s471_at, s1003_at, s1010_at, s1017_at, s1024_at, s1031_at, s1038_at, s1045_at, s1052_at, s1059_at, s1067_at, s1075_at, s1083_at, s2650_at, s2651_at, s2879_at, s2880_at, dot3, newt, Rh_zero, th_zero, rel_zero, Rh_at _ 5 2 (by norm_num) rfl, th_at _ _ 5 2 (by norm_num) rfl, rel_at _ 5 2 (by norm_num) rfl] <;> rfl
theorem s473_at (b : Fin 128) : s473 x0 x1 (ix1 b) = pk x1 b 6 0 := by
  simp only [s473, k0_pay248, ValueIdx.mulf_apply, ValueIdx.addf_apply, ValueIdx.subf_apply, ValueIdx.broadcast_apply, zero_word, one_word, tovec_at, ascol_at, shapeCast_self, slice_at (N := 72) _ 18 (by norm_num), s3_eq, dot3, newt, Rh_zero, th_zero, rel_zero] <;> rfl
theorem s474_at (b : Fin 128) : s474 x0 x1 (ix2 b (0 : Fin 1)) = pk x1 b 6 1 := by
  simp only [s474, k0_pay249, ValueIdx.mulf_apply, ValueIdx.addf_apply, ValueIdx.subf_apply, ValueIdx.broadcast_apply, zero_word, one_word, tovec_at, ascol_at, shapeCast_self, slice_at (N := 72) _ 19 (by norm_num), s3_eq, dot3, newt, Rh_zero, th_zero, rel_zero] <;> rfl
theorem s475_at (b : Fin 128) : s475 x0 x1 (ix1 b) = pk x1 b 6 1 := by
  simp only [s475, k0_pay250, ValueIdx.mulf_apply, ValueIdx.addf_apply, ValueIdx.subf_apply, ValueIdx.broadcast_apply, zero_word, one_word, tovec_at, ascol_at, shapeCast_self, s474_at, dot3, newt, Rh_zero, th_zero, rel_zero] <;> rfl
theorem s477_at (b : Fin 128) : s477 x0 x1 (ix1 b) = pk x1 b 6 2 := by
  simp only [s477, k0_pay251, ValueIdx.mulf_apply, ValueIdx.addf_apply, ValueIdx.subf_apply, ValueIdx.broadcast_apply, zero_word, one_word, tovec_at, ascol_at, shapeCast_self, slice_at (N := 72) _ 20 (by norm_num), s3_eq, dot3, newt, Rh_zero, th_zero, rel_zero] <;> rfl
theorem s113_at (b : Fin 128) : s113 x0 x1 (ix1 b) = Rk x0 b 6 0 0 := by
  simp only [s113, k0_pay62, ValueIdx.mulf_apply, ValueIdx.addf_apply, ValueIdx.subf_apply, ValueIdx.broadcast_apply, zero_word, one_word, tovec_at, ascol_at, shapeCast_self, slice_at (N := 216) _ 54 (by norm_num), s1_eq, dot3, newt, Rh_zero, th_zero, rel_zero] <;> rfl
theorem s119_at (b : Fin 128) : s119 x0 x1 (ix1 b) = Rk x0 b 6 1 0 := by
  simp only [s119, k0_pay66, ValueIdx.mulf_apply, ValueIdx.addf_apply, ValueIdx.subf_apply, ValueIdx.broadcast_apply, zero_word, one_word, tovec_at, ascol_at, shapeCast_self, slice_at (N := 216) _ 57 (by norm_num), s1_eq, dot3, newt, Rh_zero, th_zero, rel_zero] <;> rfl
theorem s125_at (b : Fin 128) : s125 x0 x1 (ix1 b) = Rk x0 b 6 2 0 := by
  simp only [s125, k0_pay69, ValueIdx.mulf_apply, ValueIdx.addf_apply, ValueIdx.subf_apply, ValueIdx.broadcast_apply, zero_word, one_word, tovec_at, ascol_at, shapeCast_self, slice_at (N := 216) _ 60 (by norm_num), s1_eq, dot3, newt, Rh_zero, th_zero, rel_zero] <;> rfl
theorem s1090_at (b : Fin 128) : s1090 x0 x1 (ix1 b) = Rh (Rk x0 b) 6 0 0 := by
  simp only [s1090, k0_pay442, ValueIdx.mulf_apply, ValueIdx.addf_apply, ValueIdx.subf_apply, ValueIdx.broadcast_apply, zero_word, one_word, tovec_at, ascol_at, shapeCast_self, s113_at, s119_at, s125_at, s829_at, s836_at, s843_at, dot3, newt, Rh_zero, th_zero, rel_zero, Rh_at _ 6 3 (by norm_num) rfl, th_at _ _ 6 3 (by norm_num) rfl, rel_at _ 6 3 (by norm_num) rfl] <;> rfl
theorem s114_at (b : Fin 128) : s114 x0 x1 (ix2 b (0 : Fin 1)) = Rk x0 b 6 0 1 := by
  simp only [s114, k0_pay63, ValueIdx.mulf_apply, ValueIdx.addf_apply, ValueIdx.subf_apply, ValueIdx.broadcast_apply, zero_word, one_word, tovec_at, ascol_at, shapeCast_self, slice_at (N := 216) _ 55 (by norm_num), s1_eq, dot3, newt, Rh_zero, th_zero, rel_zero] <;> rfl
theorem s115_at (b : Fin 128) : s115 x0 x1 (ix1 b) = Rk x0 b 6 0 1 := by
  simp only [s115, k0_pay64, ValueIdx.mulf_apply, ValueIdx.addf_apply, ValueIdx.subf_apply, ValueIdx.broadcast_apply, zero_word, one_word, tovec_at, ascol_at, shapeCast_self, s114_at, dot3, newt, Rh_zero, th_zero, rel_zero] <;> rfl
theorem s121_at (b : Fin 128) : s121 x0 x1 (ix1 b) = Rk x0 b 6 1 1 := by
  simp only [s121, k0_pay67, ValueIdx.mulf_apply, ValueIdx.addf_apply, ValueIdx.subf_apply, ValueIdx.broadcast_apply, zero_word, one_word, tovec_at, ascol_at, shapeCast_self, slice_at (N := 216) _ 58 (by norm_num), s1_eq, dot3, newt, Rh_zero, th_zero, rel_zero] <;> rfl
theorem s127_at (b : Fin 128) : s127 x0 x1 (ix1 b) = Rk x0 b 6 2 1 := by
  simp only [s127, k0_pay70, ValueIdx.mulf_apply, ValueIdx.addf_apply, ValueIdx.subf_apply, ValueIdx.broadcast_apply, zero_word, one_word, tovec_at, ascol_at, shapeCast_self, slice_at (N := 216) _ 61 (by norm_num), s1_eq, dot3, newt, Rh_zero, th_zero, rel_zero] <;> rfl
theorem s1097_at (b : Fin 128) : s1097 x0 x1 (ix1 b) = Rh (Rk x0 b) 6 0 1 := by
  simp only [s1097, k0_pay443, ValueIdx.mulf_apply, ValueIdx.addf_apply, ValueIdx.subf_apply, ValueIdx.broadcast_apply, zero_word, one_word, tovec_at, ascol_at, shapeCast_self, s115_at, s121_at, s127_at, s829_at, s836_at, s843_at, dot3, newt, Rh_zero, th_zero, rel_zero, Rh_at _ 6 3 (by norm_num) rfl, th_at _ _ 6 3 (by norm_num) rfl, rel_at _ 6 3 (by norm_num) rfl] <;> rfl
theorem s117_at (b : Fin 128) : s117 x0 x1 (ix1 b) = Rk x0 b 6 0 2 := by
  simp only [s117, k0_pay65, ValueIdx.mulf_apply, ValueIdx.addf_apply, ValueIdx.subf_apply, ValueIdx.broadcast_apply, zero_word, one_word, tovec_at, ascol_at, shapeCast_self, slice_at (N := 216) _ 56 (by norm_num), s1_eq, dot3, newt, Rh_zero, th_zero, rel_zero] <;> rfl
theorem s123_at (b : Fin 128) : s123 x0 x1 (ix1 b) = Rk x0 b 6 1 2 := by
  simp only [s123, k0_pay68, ValueIdx.mulf_apply, ValueIdx.addf_apply, ValueIdx.subf_apply, ValueIdx.broadcast_apply, zero_word, one_word, tovec_at, ascol_at, shapeCast_self, slice_at (N := 216) _ 59 (by norm_num), s1_eq, dot3, newt, Rh_zero, th_zero, rel_zero] <;> rfl
theorem s129_at (b : Fin 128) : s129 x0 x1 (ix1 b) = Rk x0 b 6 2 2 := by
  simp only [s129, k0_pay71, ValueIdx.mulf_apply, ValueIdx.addf_apply, ValueIdx.subf_apply, ValueIdx.broadcast_apply, zero_word, one_word, tovec_at, ascol_at, shapeCast_self, slice_at (N := 216) _ 62 (by norm_num), s1_eq, dot3, newt, Rh_zero, th_zero, rel_zero] <;> rfl
theorem s1104_at (b : Fin 128) : s1104 x0 x1 (ix1 b) = Rh (Rk x0 b) 6 0 2 := by
  simp only [s1104, k0_pay444, ValueIdx.mulf_apply, ValueIdx.addf_apply, ValueIdx.subf_apply, ValueIdx.broadcast_apply, zero_word, one_word, tovec_at, ascol_at, shapeCast_self, s117_at, s123_at, s129_at, s829_at, s836_at, s843_at, dot3, newt, Rh_zero, th_zero, rel_zero, Rh_at _ 6 3 (by norm_num) rfl, th_at _ _ 6 3 (by norm_num) rfl, rel_at _ 6 3 (by norm_num) rfl] <;> rfl
theorem s1111_at (b : Fin 128) : s1111 x0 x1 (ix1 b) = Rh (Rk x0 b) 6 1 0 := by
  simp only [s1111, k0_pay445, ValueIdx.mulf_apply, ValueIdx.addf_apply, ValueIdx.subf_apply, ValueIdx.broadcast_apply, zero_word, one_word, tovec_at, ascol_at, shapeCast_self, s113_at, s119_at, s125_at, s850_at, s857_at, s864_at, dot3, newt, Rh_zero, th_zero, rel_zero, Rh_at _ 6 3 (by norm_num) rfl, th_at _ _ 6 3 (by norm_num) rfl, rel_at _ 6 3 (by norm_num) rfl] <;> rfl
theorem s1118_at (b : Fin 128) : s1118 x0 x1 (ix1 b) = Rh (Rk x0 b) 6 1 1 := by
  simp only [s1118, k0_pay446, ValueIdx.mulf_apply, ValueIdx.addf_apply, ValueIdx.subf_apply, ValueIdx.broadcast_apply, zero_word, one_word, tovec_at, ascol_at, shapeCast_self, s115_at, s121_at, s127_at, s850_at, s857_at, s864_at, dot3, newt, Rh_zero, th_zero, rel_zero, Rh_at _ 6 3 (by norm_num) rfl, th_at _ _ 6 3 (by norm_num) rfl, rel_at _ 6 3 (by norm_num) rfl] <;> rfl
theorem s1125_at (b : Fin 128) : s1125 x0 x1 (ix1 b) = Rh (Rk x0 b) 6 1 2 := by
  simp only [s1125, k0_pay447, ValueIdx.mulf_apply, ValueIdx.addf_apply, ValueIdx.subf_apply, ValueIdx.broadcast_apply, zero_word, one_word, tovec_at, ascol_at, shapeCast_self, s117_at, s123_at, s129_at, s850_at, s857_at, s864_at, dot3, newt, Rh_zero, th_zero, rel_zero, Rh_at _ 6 3 (by norm_num) rfl, th_at _ _ 6 3 (by norm_num) rfl, rel_at _ 6 3 (by norm_num) rfl] <;> rfl
theorem s1126_at (b : Fin 128) : s1126 x0 x1 (ix1 b) = ((Rh (Rk x0 b) 3 2 0) * (Rk x0 b 6 0 0)) := by
  simp only [s1126, k0_pay448, ValueIdx.mulf_apply, ValueIdx.addf_apply, ValueIdx.subf_apply, ValueIdx.broadcast_apply, zero_word, one_word, tovec_at, ascol_at, shapeCast_self, s113_at, s871_at, dot3, newt, Rh_zero, th_zero, rel_zero] <;> rfl
theorem s1127_at (b : Fin 128) : s1127 x0 x1 (ix1 b) = (0 : EReal) := by
  simp only [s1127, k0_pay449, ValueIdx.mulf_apply, ValueIdx.addf_apply, ValueIdx.subf_apply, ValueIdx.broadcast_apply, zero_word, one_word, tovec_at, ascol_at, shapeCast_self, dot3, newt, Rh_zero, th_zero, rel_zero] <;> rfl
theorem s1132_at (b : Fin 128) : s1132 x0 x1 (ix1 b) = Rh (Rk x0 b) 6 2 0 := by
  simp only [s1132, k0_pay450, ValueIdx.mulf_apply, ValueIdx.addf_apply, ValueIdx.subf_apply, ValueIdx.broadcast_apply, zero_word, one_word, tovec_at, ascol_at, shapeCast_self, s119_at, s125_at, s878_at, s885_at, s1126_at, s1127_at, dot3, newt, Rh_zero, th_zero, rel_zero, Rh_at _ 6 3 (by norm_num) rfl, th_at _ _ 6 3 (by norm_num) rfl, rel_at _ 6 3 (by norm_num) rfl] <;> rfl
theorem s1139_at (b : Fin 128) : s1139 x0 x1 (ix1 b) = Rh (Rk x0 b) 6 2 1 := by
  simp only [s1139, k0_pay451, ValueIdx.mulf_apply, ValueIdx.addf_apply, ValueIdx.subf_apply, ValueIdx.broadcast_apply, zero_word, one_word, tovec_at, ascol_at, shapeCast_self, s115_at, s121_at, s127_at, s871_at, s878_at, s885_at, dot3, newt, Rh_zero, th_zero, rel_zero, Rh_at _ 6 3 (by norm_num) rfl, th_at _ _ 6 3 (by norm_num) rfl, rel_at _ 6 3 (by norm_num) rfl] <;> rfl
theorem s1146_at (b : Fin 128) : s1146 x0 x1 (ix1 b) = Rh (Rk x0 b) 6 2 2 := by
  simp only [s1146, k0_pay452, ValueIdx.mulf_apply, ValueIdx.addf_apply, ValueIdx.subf_apply, ValueIdx.broadcast_apply, zero_word, one_word, tovec_at, ascol_at, shapeCast_self, s117_at, s123_at, s129_at, s871_at, s878_at, s885_at, dot3, newt, Rh_zero, th_zero, rel_zero, Rh_at _ 6 3 (by norm_num) rfl, th_at _ _ 6 3 (by norm_num) rfl, rel_at _ 6 3 (by norm_num) rfl] <;> rfl
theorem s595_at (b : Fin 128) : s595 x0 x1 (ix1 b) = rel (pk x1 b) 6 0 := by
  simp only [s595, k0_pay319, ValueIdx.mulf_apply, ValueIdx.addf_apply, ValueIdx.subf_apply, ValueIdx.broadcast_apply, zero_word, one_word, tovec_at, ascol_at, shapeCast_self, s455_at, s473_at, dot3, newt, Rh_zero, th_zero, rel_zero, Rh_at _ 6 3 (by norm_num) rfl, th_at _ _ 6 3 (by norm_num) rfl, rel_at _ 6 3 (by norm_num) rfl] <;> rfl
theorem s596_at (b : Fin 128) : s596 x0 x1 (ix1 b) = rel (pk x1 b) 6 1 := by
  simp only [s596, k0_pay320, ValueIdx.mulf_apply, ValueIdx.addf_apply, ValueIdx.subf_apply, ValueIdx.broadcast_apply, zero_word, one_word, tovec_at, ascol_at, shapeCast_self, s457_at, s475_at, dot3, newt, Rh_zero, th_zero, rel_zero, Rh_at _ 6 3 (by norm_num) rfl, th_at _ _ 6 3 (by norm_num) rfl, rel_at _ 6 3 (by norm_num) rfl] <;> rfl
theorem s597_at (b : Fin 128) : s597 x0 x1 (ix1 b) = rel (pk x1 b) 6 2 := by
  simp only [s597, k0_pay321, ValueIdx.mulf_apply, ValueIdx.addf_apply, ValueIdx.subf_apply, ValueIdx.broadcast_apply, zero_word, one_word, tovec_at, ascol_at, shapeCast_self, s459_at, s477_at, dot3, newt, Rh_zero, th_zero, rel_zero, Rh_at _ 6 3 (by norm_num) rfl, th_at _ _ 6 3 (by norm_num) rfl, rel_at _ 6 3 (by norm_num) rfl] <;> rfl
theorem s1162_at (b : Fin 128) : s1162 x0 x1 (ix1 b) = th (Rk x0 b) (pk x1 b) 6 1 := by
  simp only [s1162, k0_pay454, ValueIdx.mulf_apply, ValueIdx.addf_apply, ValueIdx.subf_apply, ValueIdx.broadcast_apply, zero_word, one_word, tovec_at, ascol_at, shapeCast_self, s595_at, s596_at, s597_at, s850_at, s857_at, s864_at, s901_at, dot3, newt, Rh_zero, th_zero, rel_zero, Rh_at _ 6 3 (by norm_num) rfl, th_at _ _ 6 3 (by norm_num) rfl, rel_at _ 6 3 (by norm_num) rfl] <;> rfl
theorem s1170_at (b : Fin 128) : s1170 x0 x1 (ix1 b) = th (Rk x0 b) (pk x1 b) 6 2 := by
  simp only [s1170, k0_pay455, ValueIdx.mulf_apply, ValueIdx.addf_apply, ValueIdx.subf_apply, ValueIdx.broadcast_apply, zero_word, one_word, tovec_at, ascol_at, shapeCast_self, s595_at, s596_at, s597_at, s871_at, s878_at, s885_at, s909_at, dot3, newt, Rh_zero, th_zero, rel_zero, Rh_at _ 6 3 (by norm_num) rfl, th_at _ _ 6 3 (by norm_num) rfl, rel_at _ 6 3 (by norm_num) rfl] <;> rfl
theorem s1154_at (b : Fin 128) : s1154 x0 x1 (ix1 b) = th (Rk x0 b) (pk x1 b) 6 0 := by
  simp only [s1154, k0_pay453, ValueIdx.mulf_apply, ValueIdx.addf_apply, ValueIdx.subf_apply, ValueIdx.broadcast_apply, zero_word, one_word, tovec_at, ascol_at, shapeCast_self, s595_at, s596_at, s597_at, s829_at, s836_at, s843_at, s893_at, dot3, newt, Rh_zero, th_zero, rel_zero, Rh_at _ 6 3 (by norm_num) rfl, th_at _ _ 6 3 (by norm_num) rfl, rel_at _ 6 3 (by norm_num) rfl] <;> rfl
theorem s2929_at (b : Fin 128) : s2929 x0 x1 (ix1 b) = newt (Rk x0 b) (pk x1 b) 6 0 := by
  simp only [s2929, k0_pay732, ValueIdx.mulf_apply, ValueIdx.addf_apply, ValueIdx.subf_apply, ValueIdx.broadcast_apply, zero_word, one_word, tovec_at, ascol_at, shapeCast_self, s473_at, s475_at, s477_at, s1090_at, s1097_at, s1104_at, s1154_at, dot3, newt, Rh_zero, th_zero, rel_zero, Rh_at _ 6 3 (by norm_num) rfl, th_at _ _ 6 3 (by norm_num) rfl, rel_at _ 6 3 (by norm_num) rfl] <;> rfl
theorem s2936_at (b : Fin 128) : s2936 x0 x1 (ix1 b) = ((((0 : EReal) + ((Rh (Rk x0 b) 6 1 0) * (pk x1 b 6 0))) + ((Rh (Rk x0 b) 6 1 1) * (pk x1 b 6 1))) + ((Rh (Rk x0 b) 6 1 2) * (pk x1 b 6 2))) := by
  simp only [s2936, k0_pay733, ValueIdx.mulf_apply, ValueIdx.addf_apply, ValueIdx.subf_apply, ValueIdx.broadcast_apply, zero_word, one_word, tovec_at, ascol_at, shapeCast_self, s473_at, s475_at, s477_at, s1111_at, s1118_at, s1125_at, dot3, newt, Rh_zero, th_zero, rel_zero] <;> rfl
theorem s2962_c0 (b : Fin 128) : s2962 x0 x1 (ix2 b (⟨0, by norm_num⟩ : Fin 16)) = Rh (Rk x0 b) 6 0 0 := by
  simp only [s2962, k0_pay734]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s473_at, s475_at, s477_at, s1090_at, s1097_at, s1104_at, s1111_at, s1118_at, s1125_at, s1132_at, s1139_at, s1146_at, s1162_at, s1170_at, s2650_at, s2651_at, s2929_at, s2936_at, dot3, newt, Rh_zero, th_zero, rel_zero, Rh_at _ 6 3 (by norm_num) rfl, th_at _ _ 6 3 (by norm_num) rfl, rel_at _ 6 3 (by norm_num) rfl] <;> rfl
theorem s2962_c1 (b : Fin 128) : s2962 x0 x1 (ix2 b (⟨1, by norm_num⟩ : Fin 16)) = Rh (Rk x0 b) 6 0 1 := by
  simp only [s2962, k0_pay734]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s473_at, s475_at, s477_at, s1090_at, s1097_at, s1104_at, s1111_at, s1118_at, s1125_at, s1132_at, s1139_at, s1146_at, s1162_at, s1170_at, s2650_at, s2651_at, s2929_at, s2936_at, dot3, newt, Rh_zero, th_zero, rel_zero, Rh_at _ 6 3 (by norm_num) rfl, th_at _ _ 6 3 (by norm_num) rfl, rel_at _ 6 3 (by norm_num) rfl] <;> rfl
theorem s2962_c2 (b : Fin 128) : s2962 x0 x1 (ix2 b (⟨2, by norm_num⟩ : Fin 16)) = Rh (Rk x0 b) 6 0 2 := by
  simp only [s2962, k0_pay734]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s473_at, s475_at, s477_at, s1090_at, s1097_at, s1104_at, s1111_at, s1118_at, s1125_at, s1132_at, s1139_at, s1146_at, s1162_at, s1170_at, s2650_at, s2651_at, s2929_at, s2936_at, dot3, newt, Rh_zero, th_zero, rel_zero, Rh_at _ 6 3 (by norm_num) rfl, th_at _ _ 6 3 (by norm_num) rfl, rel_at _ 6 3 (by norm_num) rfl] <;> rfl
theorem s2962_c3 (b : Fin 128) : s2962 x0 x1 (ix2 b (⟨3, by norm_num⟩ : Fin 16)) = newt (Rk x0 b) (pk x1 b) 6 0 := by
  simp only [s2962, k0_pay734]
  refine (concat_unit_piece 3 (by norm_num) _ _ _ (by simp) rfl rfl b).trans ?_
  simp only [ValueIdx.mulf_apply, ValueIdx.addf_apply, ValueIdx.subf_apply, ValueIdx.broadcast_apply, zero_word, one_word, tovec_at, ascol_at, shapeCast_self, s473_at, s475_at, s477_at, s1090_at, s1097_at, s1104_at, s1111_at, s1118_at, s1125_at, s1132_at, s1139_at, s1146_at, s1162_at, s1170_at, s2650_at, s2651_at, s2929_at, s2936_at, dot3, newt, Rh_zero, th_zero, rel_zero, Rh_at _ 6 3 (by norm_num) rfl, th_at _ _ 6 3 (by norm_num) rfl, rel_at _ 6 3 (by norm_num) rfl] <;> rfl
theorem s2962_c4 (b : Fin 128) : s2962 x0 x1 (ix2 b (⟨4, by norm_num⟩ : Fin 16)) = Rh (Rk x0 b) 6 1 0 := by
  simp only [s2962, k0_pay734]
  refine (concat_unit_piece 4 (by norm_num) _ _ _ (by simp) rfl rfl b).trans ?_
  simp only [ValueIdx.mulf_apply, ValueIdx.addf_apply, ValueIdx.subf_apply, ValueIdx.broadcast_apply, zero_word, one_word, tovec_at, ascol_at, shapeCast_self, s473_at, s475_at, s477_at, s1090_at, s1097_at, s1104_at, s1111_at, s1118_at, s1125_at, s1132_at, s1139_at, s1146_at, s1162_at, s1170_at, s2650_at, s2651_at, s2929_at, s2936_at, dot3, newt, Rh_zero, th_zero, rel_zero, Rh_at _ 6 3 (by norm_num) rfl, th_at _ _ 6 3 (by norm_num) rfl, rel_at _ 6 3 (by norm_num) rfl] <;> rfl
theorem s2962_c5 (b : Fin 128) : s2962 x0 x1 (ix2 b (⟨5, by norm_num⟩ : Fin 16)) = Rh (Rk x0 b) 6 1 1 := by
  simp only [s2962, k0_pay734]
  refine (concat_unit_piece 5 (by norm_num) _ _ _ (by simp) rfl rfl b).trans ?_
  simp only [ValueIdx.mulf_apply, ValueIdx.addf_apply, ValueIdx.subf_apply, ValueIdx.broadcast_apply, zero_word, one_word, tovec_at, ascol_at, shapeCast_self, s473_at, s475_at, s477_at, s1090_at, s1097_at, s1104_at, s1111_at, s1118_at, s1125_at, s1132_at, s1139_at, s1146_at, s1162_at, s1170_at, s2650_at, s2651_at, s2929_at, s2936_at, dot3, newt, Rh_zero, th_zero, rel_zero, Rh_at _ 6 3 (by norm_num) rfl, th_at _ _ 6 3 (by norm_num) rfl, rel_at _ 6 3 (by norm_num) rfl] <;> rfl
theorem s2962_c6 (b : Fin 128) : s2962 x0 x1 (ix2 b (⟨6, by norm_num⟩ : Fin 16)) = Rh (Rk x0 b) 6 1 2 := by
  simp only [s2962, k0_pay734]
  refine (concat_unit_piece 6 (by norm_num) _ _ _ (by simp) rfl rfl b).trans ?_
  simp only [ValueIdx.mulf_apply, ValueIdx.addf_apply, ValueIdx.subf_apply, ValueIdx.broadcast_apply, zero_word, one_word, tovec_at, ascol_at, shapeCast_self, s473_at, s475_at, s477_at, s1090_at, s1097_at, s1104_at, s1111_at, s1118_at, s1125_at, s1132_at, s1139_at, s1146_at, s1162_at, s1170_at, s2650_at, s2651_at, s2929_at, s2936_at, dot3, newt, Rh_zero, th_zero, rel_zero, Rh_at _ 6 3 (by norm_num) rfl, th_at _ _ 6 3 (by norm_num) rfl, rel_at _ 6 3 (by norm_num) rfl] <;> rfl
theorem s2962_c7 (b : Fin 128) : s2962 x0 x1 (ix2 b (⟨7, by norm_num⟩ : Fin 16)) = newt (Rk x0 b) (pk x1 b) 6 1 := by
  simp only [s2962, k0_pay734]
  refine (concat_unit_piece 7 (by norm_num) _ _ _ (by simp) rfl rfl b).trans ?_
  simp only [ValueIdx.mulf_apply, ValueIdx.addf_apply, ValueIdx.subf_apply, ValueIdx.broadcast_apply, zero_word, one_word, tovec_at, ascol_at, shapeCast_self, s473_at, s475_at, s477_at, s1090_at, s1097_at, s1104_at, s1111_at, s1118_at, s1125_at, s1132_at, s1139_at, s1146_at, s1162_at, s1170_at, s2650_at, s2651_at, s2929_at, s2936_at, dot3, newt, Rh_zero, th_zero, rel_zero, Rh_at _ 6 3 (by norm_num) rfl, th_at _ _ 6 3 (by norm_num) rfl, rel_at _ 6 3 (by norm_num) rfl] <;> rfl
theorem s2962_c8 (b : Fin 128) : s2962 x0 x1 (ix2 b (⟨8, by norm_num⟩ : Fin 16)) = Rh (Rk x0 b) 6 2 0 := by
  simp only [s2962, k0_pay734]
  refine (concat_unit_piece 8 (by norm_num) _ _ _ (by simp) rfl rfl b).trans ?_
  simp only [ValueIdx.mulf_apply, ValueIdx.addf_apply, ValueIdx.subf_apply, ValueIdx.broadcast_apply, zero_word, one_word, tovec_at, ascol_at, shapeCast_self, s473_at, s475_at, s477_at, s1090_at, s1097_at, s1104_at, s1111_at, s1118_at, s1125_at, s1132_at, s1139_at, s1146_at, s1162_at, s1170_at, s2650_at, s2651_at, s2929_at, s2936_at, dot3, newt, Rh_zero, th_zero, rel_zero, Rh_at _ 6 3 (by norm_num) rfl, th_at _ _ 6 3 (by norm_num) rfl, rel_at _ 6 3 (by norm_num) rfl] <;> rfl
theorem s2962_c9 (b : Fin 128) : s2962 x0 x1 (ix2 b (⟨9, by norm_num⟩ : Fin 16)) = Rh (Rk x0 b) 6 2 1 := by
  simp only [s2962, k0_pay734]
  refine (concat_unit_piece 9 (by norm_num) _ _ _ (by simp) rfl rfl b).trans ?_
  simp only [ValueIdx.mulf_apply, ValueIdx.addf_apply, ValueIdx.subf_apply, ValueIdx.broadcast_apply, zero_word, one_word, tovec_at, ascol_at, shapeCast_self, s473_at, s475_at, s477_at, s1090_at, s1097_at, s1104_at, s1111_at, s1118_at, s1125_at, s1132_at, s1139_at, s1146_at, s1162_at, s1170_at, s2650_at, s2651_at, s2929_at, s2936_at, dot3, newt, Rh_zero, th_zero, rel_zero, Rh_at _ 6 3 (by norm_num) rfl, th_at _ _ 6 3 (by norm_num) rfl, rel_at _ 6 3 (by norm_num) rfl] <;> rfl
theorem s2962_c10 (b : Fin 128) : s2962 x0 x1 (ix2 b (⟨10, by norm_num⟩ : Fin 16)) = Rh (Rk x0 b) 6 2 2 := by
  simp only [s2962, k0_pay734]
  refine (concat_unit_piece 10 (by norm_num) _ _ _ (by simp) rfl rfl b).trans ?_
  simp only [ValueIdx.mulf_apply, ValueIdx.addf_apply, ValueIdx.subf_apply, ValueIdx.broadcast_apply, zero_word, one_word, tovec_at, ascol_at, shapeCast_self, s473_at, s475_at, s477_at, s1090_at, s1097_at, s1104_at, s1111_at, s1118_at, s1125_at, s1132_at, s1139_at, s1146_at, s1162_at, s1170_at, s2650_at, s2651_at, s2929_at, s2936_at, dot3, newt, Rh_zero, th_zero, rel_zero, Rh_at _ 6 3 (by norm_num) rfl, th_at _ _ 6 3 (by norm_num) rfl, rel_at _ 6 3 (by norm_num) rfl] <;> rfl
theorem s2962_c11 (b : Fin 128) : s2962 x0 x1 (ix2 b (⟨11, by norm_num⟩ : Fin 16)) = newt (Rk x0 b) (pk x1 b) 6 2 := by
  simp only [s2962, k0_pay734]
  refine (concat_unit_piece 11 (by norm_num) _ _ _ (by simp) rfl rfl b).trans ?_
  simp only [ValueIdx.mulf_apply, ValueIdx.addf_apply, ValueIdx.subf_apply, ValueIdx.broadcast_apply, zero_word, one_word, tovec_at, ascol_at, shapeCast_self, s473_at, s475_at, s477_at, s1090_at, s1097_at, s1104_at, s1111_at, s1118_at, s1125_at, s1132_at, s1139_at, s1146_at, s1162_at, s1170_at, s2650_at, s2651_at, s2929_at, s2936_at, dot3, newt, Rh_zero, th_zero, rel_zero, Rh_at _ 6 3 (by norm_num) rfl, th_at _ _ 6 3 (by norm_num) rfl, rel_at _ 6 3 (by norm_num) rfl] <;> rfl
theorem s2962_c12 (b : Fin 128) : s2962 x0 x1 (ix2 b (⟨12, by norm_num⟩ : Fin 16)) = (0 : EReal) := by
  simp only [s2962, k0_pay734]
  refine (concat_unit_piece 12 (by norm_num) _ _ _ (by simp) rfl rfl b).trans ?_
  simp only [ValueIdx.mulf_apply, ValueIdx.addf_apply, ValueIdx.subf_apply, ValueIdx.broadcast_apply, zero_word, one_word, tovec_at, ascol_at, shapeCast_self, s473_at, s475_at, s477_at, s1090_at, s1097_at, s1104_at, s1111_at, s1118_at, s1125_at, s1132_at, s1139_at, s1146_at, s1162_at, s1170_at, s2650_at, s2651_at, s2929_at, s2936_at, dot3, newt, Rh_zero, th_zero, rel_zero, Rh_at _ 6 3 (by norm_num) rfl, th_at _ _ 6 3 (by norm_num) rfl, rel_at _ 6 3 (by norm_num) rfl] <;> rfl
theorem s2962_c13 (b : Fin 128) : s2962 x0 x1 (ix2 b (⟨13, by norm_num⟩ : Fin 16)) = (0 : EReal) := by
  simp only [s2962, k0_pay734]
  refine (concat_unit_piece 13 (by norm_num) _ _ _ (by simp) rfl rfl b).trans ?_
  simp only [ValueIdx.mulf_apply, ValueIdx.addf_apply, ValueIdx.subf_apply, ValueIdx.broadcast_apply, zero_word, one_word, tovec_at, ascol_at, shapeCast_self, s473_at, s475_at, s477_at, s1090_at, s1097_at, s1104_at, s1111_at, s1118_at, s1125_at, s1132_at, s1139_at, s1146_at, s1162_at, s1170_at, s2650_at, s2651_at, s2929_at, s2936_at, dot3, newt, Rh_zero, th_zero, rel_zero, Rh_at _ 6 3 (by norm_num) rfl, th_at _ _ 6 3 (by norm_num) rfl, rel_at _ 6 3 (by norm_num) rfl] <;> rfl
theorem s2962_c14 (b : Fin 128) : s2962 x0 x1 (ix2 b (⟨14, by norm_num⟩ : Fin 16)) = (0 : EReal) := by
  simp only [s2962, k0_pay734]
  refine (concat_unit_piece 14 (by norm_num) _ _ _ (by simp) rfl rfl b).trans ?_
  simp only [ValueIdx.mulf_apply, ValueIdx.addf_apply, ValueIdx.subf_apply, ValueIdx.broadcast_apply, zero_word, one_word, tovec_at, ascol_at, shapeCast_self, s473_at, s475_at, s477_at, s1090_at, s1097_at, s1104_at, s1111_at, s1118_at, s1125_at, s1132_at, s1139_at, s1146_at, s1162_at, s1170_at, s2650_at, s2651_at, s2929_at, s2936_at, dot3, newt, Rh_zero, th_zero, rel_zero, Rh_at _ 6 3 (by norm_num) rfl, th_at _ _ 6 3 (by norm_num) rfl, rel_at _ 6 3 (by norm_num) rfl] <;> rfl
theorem s2962_c15 (b : Fin 128) : s2962 x0 x1 (ix2 b (⟨15, by norm_num⟩ : Fin 16)) = (1 : EReal) := by
  simp only [s2962, k0_pay734]
  refine (concat_unit_piece 15 (by norm_num) _ _ _ (by simp) rfl rfl b).trans ?_
  simp only [ValueIdx.mulf_apply, ValueIdx.addf_apply, ValueIdx.subf_apply, ValueIdx.broadcast_apply, zero_word, one_word, tovec_at, ascol_at, shapeCast_self, s473_at, s475_at, s477_at, s1090_at, s1097_at, s1104_at, s1111_at, s1118_at, s1125_at, s1132_at, s1139_at, s1146_at, s1162_at, s1170_at, s2650_at, s2651_at, s2929_at, s2936_at, dot3, newt, Rh_zero, th_zero, rel_zero, Rh_at _ 6 3 (by norm_num) rfl, th_at _ _ 6 3 (by norm_num) rfl, rel_at _ 6 3 (by norm_num) rfl] <;> rfl
theorem s135_at (b : Fin 128) : s135 x0 x1 (ix1 b) = Rk x0 b 7 0 2 := by
  simp only [s135, k0_pay74, ValueIdx.mulf_apply, ValueIdx.addf_apply, ValueIdx.subf_apply, ValueIdx.broadcast_apply, zero_word, one_word, tovec_at, ascol_at, shapeCast_self, slice_at (N := 216) _ 65 (by norm_num), s1_eq, dot3, newt, Rh_zero, th_zero, rel_zero] <;> rfl
theorem s141_at (b : Fin 128) : s141 x0 x1 (ix1 b) = Rk x0 b 7 1 2 := by
  simp only [s141, k0_pay77, ValueIdx.mulf_apply, ValueIdx.addf_apply, ValueIdx.subf_apply, ValueIdx.broadcast_apply, zero_word, one_word, tovec_at, ascol_at, shapeCast_self, slice_at (N := 216) _ 68 (by norm_num), s1_eq, dot3, newt, Rh_zero, th_zero, rel_zero] <;> rfl
theorem s147_at (b : Fin 128) : s147 x0 x1 (ix1 b) = Rk x0 b 7 2 2 := by
  simp only [s147, k0_pay80, ValueIdx.mulf_apply, ValueIdx.addf_apply, ValueIdx.subf_apply, ValueIdx.broadcast_apply, zero_word, one_word, tovec_at, ascol_at, shapeCast_self, slice_at (N := 216) _ 71 (by norm_num), s1_eq, dot3, newt, Rh_zero, th_zero, rel_zero] <;> rfl
theorem s1191_at (b : Fin 128) : s1191 x0 x1 (ix1 b) = Rh (Rk x0 b) 7 0 2 := by
  simp only [s1191, k0_pay459, ValueIdx.mulf_apply, ValueIdx.addf_apply, ValueIdx.subf_apply, ValueIdx.broadcast_apply, zero_word, one_word, tovec_at, ascol_at, shapeCast_self, s135_at, s141_at, s147_at, s916_at, s923_at, s930_at, dot3, newt, Rh_zero, th_zero, rel_zero, Rh_at _ 7 4 (by norm_num) rfl, th_at _ _ 7 4 (by norm_num) rfl, rel_at _ 7 4 (by norm_num) rfl] <;> rfl
theorem s131_at (b : Fin 128) : s131 x0 x1 (ix1 b) = Rk x0 b 7 0 0 := by
  simp only [s131, k0_pay72, ValueIdx.mulf_apply, ValueIdx.addf_apply, ValueIdx.subf_apply, ValueIdx.broadcast_apply, zero_word, one_word, tovec_at, ascol_at, shapeCast_self, slice_at (N := 216) _ 63 (by norm_num), s1_eq, dot3, newt, Rh_zero, th_zero, rel_zero] <;> rfl
theorem s137_at (b : Fin 128) : s137 x0 x1 (ix1 b) = Rk x0 b 7 1 0 := by
  simp only [s137, k0_pay75, ValueIdx.mulf_apply, ValueIdx.addf_apply, ValueIdx.subf_apply, ValueIdx.broadcast_apply, zero_word, one_word, tovec_at, ascol_at, shapeCast_self, slice_at (N := 216) _ 66 (by norm_num), s1_eq, dot3, newt, Rh_zero, th_zero, rel_zero] <;> rfl
theorem s143_at (b : Fin 128) : s143 x0 x1 (ix1 b) = Rk x0 b 7 2 0 := by
  simp only [s143, k0_pay78, ValueIdx.mulf_apply, ValueIdx.addf_apply, ValueIdx.subf_apply, ValueIdx.broadcast_apply, zero_word, one_word, tovec_at, ascol_at, shapeCast_self, slice_at (N := 216) _ 69 (by norm_num), s1_eq, dot3, newt, Rh_zero, th_zero, rel_zero] <;> rfl
theorem s1198_at (b : Fin 128) : s1198 x0 x1 (ix1 b) = Rh (Rk x0 b) 7 1 0 := by
  simp only [s1198, k0_pay460, ValueIdx.mulf_apply, ValueIdx.addf_apply, ValueIdx.subf_apply, ValueIdx.broadcast_apply, zero_word, one_word, tovec_at, ascol_at, shapeCast_self, s131_at, s137_at, s143_at, s937_at, s944_at, s951_at, dot3, newt, Rh_zero, th_zero, rel_zero, Rh_at _ 7 4 (by norm_num) rfl, th_at _ _ 7 4 (by norm_num) rfl, rel_at _ 7 4 (by norm_num) rfl] <;> rfl
theorem s133_at (b : Fin 128) : s133 x0 x1 (ix1 b) = Rk x0 b 7 0 1 := by
  simp only [s133, k0_pay73, ValueIdx.mulf_apply, ValueIdx.addf_apply, ValueIdx.subf_apply, ValueIdx.broadcast_apply, zero_word, one_word, tovec_at, ascol_at, shapeCast_self, slice_at (N := 216) _ 64 (by norm_num), s1_eq, dot3, newt, Rh_zero, th_zero, rel_zero] <;> rfl
theorem s139_at (b : Fin 128) : s139 x0 x1 (ix1 b) = Rk x0 b 7 1 1 := by
  simp only [s139, k0_pay76, ValueIdx.mulf_apply, ValueIdx.addf_apply, ValueIdx.subf_apply, ValueIdx.broadcast_apply, zero_word, one_word, tovec_at, ascol_at, shapeCast_self, slice_at (N := 216) _ 67 (by norm_num), s1_eq, dot3, newt, Rh_zero, th_zero, rel_zero] <;> rfl
theorem s145_at (b : Fin 128) : s145 x0 x1 (ix1 b) = Rk x0 b 7 2 1 := by
  simp only [s145, k0_pay79, ValueIdx.mulf_apply, ValueIdx.addf_apply, ValueIdx.subf_apply, ValueIdx.broadcast_apply, zero_word, one_word, tovec_at, ascol_at, shapeCast_self, slice_at (N := 216) _ 70 (by norm_num), s1_eq, dot3, newt, Rh_zero, th_zero, rel_zero] <;> rfl
theorem s1205_at (b : Fin 128) : s1205 x0 x1 (ix1 b) = Rh (Rk x0 b) 7 1 1 := by
  simp only [s1205, k0_pay461, ValueIdx.mulf_apply, ValueIdx.addf_apply, ValueIdx.subf_apply, ValueIdx.broadcast_apply, zero_word, one_word, tovec_at, ascol_at, shapeCast_self, s133_at, s139_at, s145_at, s937_at, s944_at, s951_at, dot3, newt, Rh_zero, th_zero, rel_zero, Rh_at _ 7 4 (by norm_num) rfl, th_at _ _ 7 4 (by norm_num) rfl, rel_at _ 7 4 (by norm_num) rfl] <;> rfl
theorem s1212_at (b : Fin 128) : s1212 x0 x1 (ix1 b) = Rh (Rk x0 b) 7 1 2 := by
  simp only [s1212, k0_pay462, ValueIdx.mulf_apply, ValueIdx.addf_apply, ValueIdx.subf_apply, ValueIdx.broadcast_apply, zero_word, one_word, tovec_at, ascol_at, shapeCast_self, s135_at, s141_at, s147_at, s937_at, s944_at, s951_at, dot3, newt, Rh_zero, th_zero, rel_zero, Rh_at _ 7 4 (by norm_num) rfl, th_at _ _ 7 4 (by norm_num) rfl, rel_at _ 7 4 (by norm_num) rfl] <;> rfl
theorem s1219_at (b : Fin 128) : s1219 x0 x1 (ix1 b) = Rh (Rk x0 b) 7 2 0 := by
  simp only [s1219, k0_pay463, ValueIdx.mulf_apply, ValueIdx.addf_apply, ValueIdx.subf_apply, ValueIdx.broadcast_apply, zero_word, one_word, tovec_at, ascol_at, shapeCast_self, s131_at, s137_at, s143_at, s958_at, s965_at, s972_at, dot3, newt, Rh_zero, th_zero, rel_zero, Rh_at _ 7 4 (by norm_num) rfl, th_at _ _ 7 4 (by norm_num) rfl, rel_at _ 7 4 (by norm_num) rfl] <;> rfl
theorem s1226_at (b : Fin 128) : s1226 x0 x1 (ix1 b) = Rh (Rk x0 b) 7 2 1 := by
  simp only [s1226, k0_pay464, ValueIdx.mulf_apply, ValueIdx.addf_apply, ValueIdx.subf_apply, ValueIdx.broadcast_apply, zero_word, one_word, tovec_at, ascol_at, shapeCast_self, s133_at, s139_at, s145_at, s958_at, s965_at, s972_at, dot3, newt, Rh_zero, th_zero, rel_zero, Rh_at _ 7 4 (by norm_num) rfl, th_at _ _ 7 4 (by norm_num) rfl, rel_at _ 7 4 (by norm_num) rfl] <;> rfl
theorem s1233_at (b : Fin 128) : s1233 x0 x1 (ix1 b) = Rh (Rk x0 b) 7 2 2 := by
  simp only [s1233, k0_pay465, ValueIdx.mulf_apply, ValueIdx.addf_apply, ValueIdx.subf_apply, ValueIdx.broadcast_apply, zero_word, one_word, tovec_at, ascol_at, shapeCast_self, s135_at, s141_at, s147_at, s958_at, s965_at, s972_at, dot3, newt, Rh_zero, th_zero, rel_zero, Rh_at _ 7 4 (by norm_num) rfl, th_at _ _ 7 4 (by norm_num) rfl, rel_at _ 7 4 (by norm_num) rfl] <;> rfl
theorem s479_at (b : Fin 128) : s479 x0 x1 (ix1 b) = pk x1 b 7 0 := by
  simp only [s479, k0_pay252, ValueIdx.mulf_apply, ValueIdx.addf_apply, ValueIdx.subf_apply, ValueIdx.broadcast_apply, zero_word, one_word, tovec_at, ascol_at, shapeCast_self, slice_at (N := 72) _ 21 (by norm_num), s3_eq, dot3, newt, Rh_zero, th_zero, rel_zero] <;> rfl
theorem s481_at (b : Fin 128) : s481 x0 x1 (ix1 b) = pk x1 b 7 1 := by
  simp only [s481, k0_pay253, ValueIdx.mulf_apply, ValueIdx.addf_apply, ValueIdx.subf_apply, ValueIdx.broadcast_apply, zero_word, one_word, tovec_at, ascol_at, shapeCast_self, slice_at (N := 72) _ 22 (by norm_num), s3_eq, dot3, newt, Rh_zero, th_zero, rel_zero] <;> rfl
theorem s483_at (b : Fin 128) : s483 x0 x1 (ix1 b) = pk x1 b 7 2 := by
  simp only [s483, k0_pay254, ValueIdx.mulf_apply, ValueIdx.addf_apply, ValueIdx.subf_apply, ValueIdx.broadcast_apply, zero_word, one_word, tovec_at, ascol_at, shapeCast_self, slice_at (N := 72) _ 23 (by norm_num), s3_eq, dot3, newt, Rh_zero, th_zero, rel_zero] <;> rfl
theorem s1177_at (b : Fin 128) : s1177 x0 x1 (ix1 b) = Rh (Rk x0 b) 7 0 0 := by
  simp only [s1177, k0_pay456, ValueIdx.mulf_apply, ValueIdx.addf_apply, ValueIdx.subf_apply, ValueIdx.broadcast_apply, zero_word, one_word, tovec_at, ascol_at, shapeCast_self, s131_at, s137_at, s143_at, s916_at, s923_at, s930_at, dot3, newt, Rh_zero, th_zero, rel_zero, Rh_at _ 7 4 (by norm_num) rfl, th_at _ _ 7 4 (by norm_num) rfl, rel_at _ 7 4 (by norm_num) rfl] <;> rfl
theorem s1180_at (b : Fin 128) : s1180 x0 x1 (ix1 b) = ((0 : EReal) + ((Rh (Rk x0 b) 4 0 0) * (Rk x0 b 7 0 1))) := by
  simp only [s1180, k0_pay457, ValueIdx.mulf_apply, ValueIdx.addf_apply, ValueIdx.subf_apply, ValueIdx.broadcast_apply, zero_word, one_word, tovec_at, ascol_at, shapeCast_self, s133_at, s916_at, dot3, newt, Rh_zero, th_zero, rel_zero] <;> rfl
theorem s1184_at (b : Fin 128) : s1184 x0 x1 (ix1 b) = Rh (Rk x0 b) 7 0 1 := by
  simp only [s1184, k0_pay458, ValueIdx.mulf_apply, ValueIdx.addf_apply, ValueIdx.subf_apply, ValueIdx.broadcast_apply, zero_word, one_word, tovec_at, ascol_at, shapeCast_self, s139_at, s145_at, s923_at, s930_at, s1180_at, dot3, newt, Rh_zero, th_zero, rel_zero, Rh_at _ 7 4 (by norm_num) rfl, th_at _ _ 7 4 (by norm_num) rfl, rel_at _ 7 4 (by norm_num) rfl] <;> rfl
theorem s598_at (b : Fin 128) : s598 x0 x1 (ix1 b) = rel (pk x1 b) 7 0 := by
  simp only [s598, k0_pay322, ValueIdx.mulf_apply, ValueIdx.addf_apply, ValueIdx.subf_apply, ValueIdx.broadcast_apply, zero_word, one_word, tovec_at, ascol_at, shapeCast_self, s461_at, s479_at, dot3, newt, Rh_zero, th_zero, rel_zero, Rh_at _ 7 4 (by norm_num) rfl, th_at _ _ 7 4 (by norm_num) rfl, rel_at _ 7 4 (by norm_num) rfl] <;> rfl
theorem s599_at (b : Fin 128) : s599 x0 x1 (ix1 b) = rel (pk x1 b) 7 1 := by
  simp only [s599, k0_pay323, ValueIdx.mulf_apply, ValueIdx.addf_apply, ValueIdx.subf_apply, ValueIdx.broadcast_apply, zero_word, one_word, tovec_at, ascol_at, shapeCast_self, s463_at, s481_at, dot3, newt, Rh_zero, th_zero, rel_zero, Rh_at _ 7 4 (by norm_num) rfl, th_at _ _ 7 4 (by norm_num) rfl, rel_at _ 7 4 (by norm_num) rfl] <;> rfl
theorem s600_at (b : Fin 128) : s600 x0 x1 (ix1 b) = rel (pk x1 b) 7 2 := by
  simp only [s600, k0_pay324, ValueIdx.mulf_apply, ValueIdx.addf_apply, ValueIdx.subf_apply, ValueIdx.broadcast_apply, zero_word, one_word, tovec_at, ascol_at, shapeCast_self, s465_at, s483_at, dot3, newt, Rh_zero, th_zero, rel_zero, Rh_at _ 7 4 (by norm_num) rfl, th_at _ _ 7 4 (by norm_num) rfl, rel_at _ 7 4 (by norm_num) rfl] <;> rfl
theorem s1241_at (b : Fin 128) : s1241 x0 x1 (ix1 b) = th (Rk x0 b) (pk x1 b) 7 0 := by
  simp only [s1241, k0_pay466, ValueIdx.mulf_apply, ValueIdx.addf_apply, ValueIdx.subf_apply, ValueIdx.broadcast_apply, zero_word, one_word, tovec_at, ascol_at, shapeCast_self, s598_at, s599_at, s600_at, s916_at, s923_at, s930_at, s980_at, dot3, newt, Rh_zero, th_zero, rel_zero, Rh_at _ 7 4 (by norm_num) rfl, th_at _ _ 7 4 (by norm_num) rfl, rel_at _ 7 4 (by norm_num) rfl] <;> rfl
theorem s2974_at (b : Fin 128) : s2974 x0 x1 (ix1 b) = newt (Rk x0 b) (pk x1 b) 7 0 := by
  simp only [s2974, k0_pay736, ValueIdx.mulf_apply, ValueIdx.addf_apply, ValueIdx.subf_apply, ValueIdx.broadcast_apply, zero_word, one_word, tovec_at, ascol_at, shapeCast_self, s479_at, s481_at, s483_at, s1177_at, s1184_at, s1191_at, s1241_at, dot3, newt, Rh_zero, th_zero, rel_zero, Rh_at _ 7 4 (by norm_num) rfl, th_at _ _ 7 4 (by norm_num) rfl, rel_at _ 7 4 (by norm_num) rfl] <;> rfl
theorem s1249_at (b : Fin 128) : s1249 x0 x1 (ix1 b) = th (Rk x0 b) (pk x1 b) 7 1 := by
  simp only [s1249, k0_pay467, ValueIdx.mulf_apply, ValueIdx.addf_apply, ValueIdx.subf_apply, ValueIdx.broadcast_apply, zero_word, one_word, tovec_at, ascol_at, shapeCast_self, s598_at, s599_at, s600_at, s937_at, s944_at, s951_at, s988_at, dot3, newt, Rh_zero, th_zero, rel_zero, Rh_at _ 7 4 (by norm_num) rfl, th_at _ _ 7 4 (by norm_num) rfl, rel_at _ 7 4 (by norm_num) rfl] <;> rfl
theorem s2982_at (b : Fin 128) : s2982 x0 x1 (ix1 b) = newt (Rk x0 b) (pk x1 b) 7 1 := by
  simp only [s2982, k0_pay737, ValueIdx.mulf_apply, ValueIdx.addf_apply, ValueIdx.subf_apply, ValueIdx.broadcast_apply, zero_word, one_word, tovec_at, ascol_at, shapeCast_self, s479_at, s481_at, s483_at, s1198_at, s1205_at, s1212_at, s1249_at, dot3, newt, Rh_zero, th_zero, rel_zero, Rh_at _ 7 4 (by norm_num) rfl, th_at _ _ 7 4 (by norm_num) rfl, rel_at _ 7 4 (by norm_num) rfl] <;> rfl
theorem s1257_at (b : Fin 128) : s1257 x0 x1 (ix1 b) = th (Rk x0 b) (pk x1 b) 7 2 := by
  simp only [s1257, k0_pay468, ValueIdx.mulf_apply, ValueIdx.addf_apply, ValueIdx.subf_apply, ValueIdx.broadcast_apply, zero_word, one_word, tovec_at, ascol_at, shapeCast_self, s598_at, s599_at, s600_at, s958_at, s965_at, s972_at, s996_at, dot3, newt, Rh_zero, th_zero, rel_zero, Rh_at _ 7 4 (by norm_num) rfl, th_at _ _ 7 4 (by norm_num) rfl, rel_at _ 7 4 (by norm_num) rfl] <;> rfl
theorem s2990_at (b : Fin 128) : s2990 x0 x1 (ix1 b) = newt (Rk x0 b) (pk x1 b) 7 2 := by
  simp only [s2990, k0_pay738, ValueIdx.mulf_apply, ValueIdx.addf_apply, ValueIdx.subf_apply, ValueIdx.broadcast_apply, zero_word, one_word, tovec_at, ascol_at, shapeCast_self, s479_at, s481_at, s483_at, s1219_at, s1226_at, s1233_at, s1257_at, dot3, newt, Rh_zero, th_zero, rel_zero, Rh_at _ 7 4 (by norm_num) rfl, th_at _ _ 7 4 (by norm_num) rfl, rel_at _ 7 4 (by norm_num) rfl] <;> rfl
theorem s2991_at (b : Fin 128) : s2991 x0 x1 (ix2 b (0 : Fin 1)) = Rh (Rk x0 b) 7 0 0 := by
  simp only [s2991, k0_pay739, ValueIdx.mulf_apply, ValueIdx.addf_apply, ValueIdx.subf_apply, ValueIdx.broadcast_apply, zero_word, one_word, tovec_at, ascol_at, shapeCast_self, s1177_at, dot3, newt, Rh_zero, th_zero, rel_zero, Rh_at _ 7 4 (by norm_num) rfl, th_at _ _ 7 4 (by norm_num) rfl, rel_at _ 7 4 (by norm_num) rfl] <;> rfl
theorem s2992_at (b : Fin 128) : s2992 x0 x1 (ix2 b (0 : Fin 1)) = Rh (Rk x0 b) 7 0 1 := by
  simp only [s2992, k0_pay740, ValueIdx.mulf_apply, ValueIdx.addf_apply, ValueIdx.subf_apply, ValueIdx.broadcast_apply, zero_word, one_word, tovec_at, ascol_at, shapeCast_self, s1184_at, dot3, newt, Rh_zero, th_zero, rel_zero, Rh_at _ 7 4 (by norm_num) rfl, th_at _ _ 7 4 (by norm_num) rfl, rel_at _ 7 4 (by norm_num) rfl] <;> rfl
theorem s3007_c0 (b : Fin 128) : s3007 x0 x1 (ix2 b (⟨0, by norm_num⟩ : Fin 16)) = Rh (Rk x0 b) 7 0 0 := by
  simp only [s3007, k0_pay741]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s1191_at, s1198_at, s1205_at, s1212_at, s1219_at, s1226_at, s1233_at, s2650_at, s2651_at, s2974_at, s2982_at, s2990_at, s2991_at, s2992_at, dot3, newt, Rh_zero, th_zero, rel_zero, Rh_at _ 7 4 (by norm_num) rfl, th_at _ _ 7 4 (by norm_num) rfl, rel_at _ 7 4 (by norm_num) rfl] <;> rfl
theorem s3007_c1 (b : Fin 128) : s3007 x0 x1 (ix2 b (⟨1, by norm_num⟩ : Fin 16)) = Rh (Rk x0 b) 7 0 1 := by
  simp only [s3007, k0_pay741]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s1191_at, s1198_at, s1205_at, s1212_at, s1219_at, s1226_at, s1233_at, s2650_at, s2651_at, s2974_at, s2982_at, s2990_at, s2991_at, s2992_at, dot3, newt, Rh_zero, th_zero, rel_zero, Rh_at _ 7 4 (by norm_num) rfl, th_at _ _ 7 4 (by norm_num) rfl, rel_at _ 7 4 (by norm_num) rfl] <;> rfl
theorem s3007_c2 (b : Fin 128) : s3007 x0 x1 (ix2 b (⟨2, by norm_num⟩ : Fin 16)) = Rh (Rk x0 b) 7 0 2 := by
  simp only [s3007, k0_pay741]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s1191_at, s1198_at, s1205_at, s1212_at, s1219_at, s1226_at, s1233_at, s2650_at, s2651_at, s2974_at, s2982_at, s2990_at, s2991_at, s2992_at, dot3, newt, Rh_zero, th_zero, rel_zero, Rh_at _ 7 4 (by norm_num) rfl, th_at _ _ 7 4 (by norm_num) rfl, rel_at _ 7 4 (by norm_num) rfl] <;> rfl
theorem s3007_c3 (b : Fin 128) : s3007 x0 x1 (ix2 b (⟨3, by norm_num⟩ : Fin 16)) = newt (Rk x0 b) (pk x1 b) 7 0 := by
  simp only [s3007, k0_pay741]
  refine (concat_unit_piece 3 (by norm_num) _ _ _ (by simp) rfl rfl b).trans ?_
  simp only [ValueIdx.mulf_apply, ValueIdx.addf_apply, ValueIdx.subf_apply, ValueIdx.broadcast_apply, zero_word, one_word, tovec_at, ascol_at, shapeCast_self, s1191_at, s1198_at, s1205_at, s1212_at, s1219_at, s1226_at, s1233_at, s2650_at, s2651_at, s2974_at, s2982_at, s2990_at, s2991_at, s2992_at, dot3, newt, Rh_zero, th_zero, rel_zero, Rh_at _ 7 4 (by norm_num) rfl, th_at _ _ 7 4 (by norm_num) rfl, rel_at _ 7 4 (by norm_num) rfl] <;> rfl
theorem s3007_c4 (b : Fin 128) : s3007 x0 x1 (ix2 b (⟨4, by norm_num⟩ : Fin 16)) = Rh (Rk x0 b) 7 1 0 := by
  simp only [s3007, k0_pay741]
  refine (concat_unit_piece 4 (by norm_num) _ _ _ (by simp) rfl rfl b).trans ?_
  simp only [ValueIdx.mulf_apply, ValueIdx.addf_apply, ValueIdx.subf_apply, ValueIdx.broadcast_apply, zero_word, one_word, tovec_at, ascol_at, shapeCast_self, s1191_at, s1198_at, s1205_at, s1212_at, s1219_at, s1226_at, s1233_at, s2650_at, s2651_at, s2974_at, s2982_at, s2990_at, s2991_at, s2992_at, dot3, newt, Rh_zero, th_zero, rel_zero, Rh_at _ 7 4 (by norm_num) rfl, th_at _ _ 7 4 (by norm_num) rfl, rel_at _ 7 4 (by norm_num) rfl] <;> rfl
theorem s3007_c5 (b : Fin 128) : s3007 x0 x1 (ix2 b (⟨5, by norm_num⟩ : Fin 16)) = Rh (Rk x0 b) 7 1 1 := by
  simp only [s3007, k0_pay741]
  refine (concat_unit_piece 5 (by norm_num) _ _ _ (by simp) rfl rfl b).trans ?_
  simp only [ValueIdx.mulf_apply, ValueIdx.addf_apply, ValueIdx.subf_apply, ValueIdx.broadcast_apply, zero_word, one_word, tovec_at, ascol_at, shapeCast_self, s1191_at, s1198_at, s1205_at, s1212_at, s1219_at, s1226_at, s1233_at, s2650_at, s2651_at, s2974_at, s2982_at, s2990_at, s2991_at, s2992_at, dot3, newt, Rh_zero, th_zero, rel_zero, Rh_at _ 7 4 (by norm_num) rfl, th_at _ _ 7 4 (by norm_num) rfl, rel_at _ 7 4 (by norm_num) rfl] <;> rfl
theorem s3007_c6 (b : Fin 128) : s3007 x0 x1 (ix2 b (⟨6, by norm_num⟩ : Fin 16)) = Rh (Rk x0 b) 7 1 2 := by
  simp only [s3007, k0_pay741]
  refine (concat_unit_piece 6 (by norm_num) _ _ _ (by simp) rfl rfl b).trans ?_
  simp only [ValueIdx.mulf_apply, ValueIdx.addf_apply, ValueIdx.subf_apply, ValueIdx.broadcast_apply, zero_word, one_word, tovec_at, ascol_at, shapeCast_self, s1191_at, s1198_at, s1205_at, s1212_at, s1219_at, s1226_at, s1233_at, s2650_at, s2651_at, s2974_at, s2982_at, s2990_at, s2991_at, s2992_at, dot3, newt, Rh_zero, th_zero, rel_zero, Rh_at _ 7 4 (by norm_num) rfl, th_at _ _ 7 4 (by norm_num) rfl, rel_at _ 7 4 (by norm_num) rfl] <;> rfl
theorem s3007_c7 (b : Fin 128) : s3007 x0 x1 (ix2 b (⟨7, by norm_num⟩ : Fin 16)) = newt (Rk x0 b) (pk x1 b) 7 1 := by
  simp only [s3007, k0_pay741]
  refine (concat_unit_piece 7 (by norm_num) _ _ _ (by simp) rfl rfl b).trans ?_
  simp only [ValueIdx.mulf_apply, ValueIdx.addf_apply, ValueIdx.subf_apply, ValueIdx.broadcast_apply, zero_word, one_word, tovec_at, ascol_at, shapeCast_self, s1191_at, s1198_at, s1205_at, s1212_at, s1219_at, s1226_at, s1233_at, s2650_at, s2651_at, s2974_at, s2982_at, s2990_at, s2991_at, s2992_at, dot3, newt, Rh_zero, th_zero, rel_zero, Rh_at _ 7 4 (by norm_num) rfl, th_at _ _ 7 4 (by norm_num) rfl, rel_at _ 7 4 (by norm_num) rfl] <;> rfl
theorem s3007_c8 (b : Fin 128) : s3007 x0 x1 (ix2 b (⟨8, by norm_num⟩ : Fin 16)) = Rh (Rk x0 b) 7 2 0 := by
  simp only [s3007, k0_pay741]
  refine (concat_unit_piece 8 (by norm_num) _ _ _ (by simp) rfl rfl b).trans ?_
  simp only [ValueIdx.mulf_apply, ValueIdx.addf_apply, ValueIdx.subf_apply, ValueIdx.broadcast_apply, zero_word, one_word, tovec_at, ascol_at, shapeCast_self, s1191_at, s1198_at, s1205_at, s1212_at, s1219_at, s1226_at, s1233_at, s2650_at, s2651_at, s2974_at, s2982_at, s2990_at, s2991_at, s2992_at, dot3, newt, Rh_zero, th_zero, rel_zero, Rh_at _ 7 4 (by norm_num) rfl, th_at _ _ 7 4 (by norm_num) rfl, rel_at _ 7 4 (by norm_num) rfl] <;> rfl
theorem s3007_c9 (b : Fin 128) : s3007 x0 x1 (ix2 b (⟨9, by norm_num⟩ : Fin 16)) = Rh (Rk x0 b) 7 2 1 := by
  simp only [s3007, k0_pay741]
  refine (concat_unit_piece 9 (by norm_num) _ _ _ (by simp) rfl rfl b).trans ?_
  simp only [ValueIdx.mulf_apply, ValueIdx.addf_apply, ValueIdx.subf_apply, ValueIdx.broadcast_apply, zero_word, one_word, tovec_at, ascol_at, shapeCast_self, s1191_at, s1198_at, s1205_at, s1212_at, s1219_at, s1226_at, s1233_at, s2650_at, s2651_at, s2974_at, s2982_at, s2990_at, s2991_at, s2992_at, dot3, newt, Rh_zero, th_zero, rel_zero, Rh_at _ 7 4 (by norm_num) rfl, th_at _ _ 7 4 (by norm_num) rfl, rel_at _ 7 4 (by norm_num) rfl] <;> rfl
theorem s3007_c10 (b : Fin 128) : s3007 x0 x1 (ix2 b (⟨10, by norm_num⟩ : Fin 16)) = Rh (Rk x0 b) 7 2 2 := by
  simp only [s3007, k0_pay741]
  refine (concat_unit_piece 10 (by norm_num) _ _ _ (by simp) rfl rfl b).trans ?_
  simp only [ValueIdx.mulf_apply, ValueIdx.addf_apply, ValueIdx.subf_apply, ValueIdx.broadcast_apply, zero_word, one_word, tovec_at, ascol_at, shapeCast_self, s1191_at, s1198_at, s1205_at, s1212_at, s1219_at, s1226_at, s1233_at, s2650_at, s2651_at, s2974_at, s2982_at, s2990_at, s2991_at, s2992_at, dot3, newt, Rh_zero, th_zero, rel_zero, Rh_at _ 7 4 (by norm_num) rfl, th_at _ _ 7 4 (by norm_num) rfl, rel_at _ 7 4 (by norm_num) rfl] <;> rfl
theorem s3007_c11 (b : Fin 128) : s3007 x0 x1 (ix2 b (⟨11, by norm_num⟩ : Fin 16)) = newt (Rk x0 b) (pk x1 b) 7 2 := by
  simp only [s3007, k0_pay741]
  refine (concat_unit_piece 11 (by norm_num) _ _ _ (by simp) rfl rfl b).trans ?_
  simp only [ValueIdx.mulf_apply, ValueIdx.addf_apply, ValueIdx.subf_apply, ValueIdx.broadcast_apply, zero_word, one_word, tovec_at, ascol_at, shapeCast_self, s1191_at, s1198_at, s1205_at, s1212_at, s1219_at, s1226_at, s1233_at, s2650_at, s2651_at, s2974_at, s2982_at, s2990_at, s2991_at, s2992_at, dot3, newt, Rh_zero, th_zero, rel_zero, Rh_at _ 7 4 (by norm_num) rfl, th_at _ _ 7 4 (by norm_num) rfl, rel_at _ 7 4 (by norm_num) rfl] <;> rfl
theorem s3007_c12 (b : Fin 128) : s3007 x0 x1 (ix2 b (⟨12, by norm_num⟩ : Fin 16)) = (0 : EReal) := by
  simp only [s3007, k0_pay741]
  refine (concat_unit_piece 12 (by norm_num) _ _ _ (by simp) rfl rfl b).trans ?_
  simp only [ValueIdx.mulf_apply, ValueIdx.addf_apply, ValueIdx.subf_apply, ValueIdx.broadcast_apply, zero_word, one_word, tovec_at, ascol_at, shapeCast_self, s1191_at, s1198_at, s1205_at, s1212_at, s1219_at, s1226_at, s1233_at, s2650_at, s2651_at, s2974_at, s2982_at, s2990_at, s2991_at, s2992_at, dot3, newt, Rh_zero, th_zero, rel_zero, Rh_at _ 7 4 (by norm_num) rfl, th_at _ _ 7 4 (by norm_num) rfl, rel_at _ 7 4 (by norm_num) rfl] <;> rfl
theorem s3007_c13 (b : Fin 128) : s3007 x0 x1 (ix2 b (⟨13, by norm_num⟩ : Fin 16)) = (0 : EReal) := by
  simp only [s3007, k0_pay741]
  refine (concat_unit_piece 13 (by norm_num) _ _ _ (by simp) rfl rfl b).trans ?_
  simp only [ValueIdx.mulf_apply, ValueIdx.addf_apply, ValueIdx.subf_apply, ValueIdx.broadcast_apply, zero_word, one_word, tovec_at, ascol_at, shapeCast_self, s1191_at, s1198_at, s1205_at, s1212_at, s1219_at, s1226_at, s1233_at, s2650_at, s2651_at, s2974_at, s2982_at, s2990_at, s2991_at, s2992_at, dot3, newt, Rh_zero, th_zero, rel_zero, Rh_at _ 7 4 (by norm_num) rfl, th_at _ _ 7 4 (by norm_num) rfl, rel_at _ 7 4 (by norm_num) rfl] <;> rfl
theorem s3007_c14 (b : Fin 128) : s3007 x0 x1 (ix2 b (⟨14, by norm_num⟩ : Fin 16)) = (0 : EReal) := by
  simp only [s3007, k0_pay741]
  refine (concat_unit_piece 14 (by norm_num) _ _ _ (by simp) rfl rfl b).trans ?_
  simp only [ValueIdx.mulf_apply, ValueIdx.addf_apply, ValueIdx.subf_apply, ValueIdx.broadcast_apply, zero_word, one_word, tovec_at, ascol_at, shapeCast_self, s1191_at, s1198_at, s1205_at, s1212_at, s1219_at, s1226_at, s1233_at, s2650_at, s2651_at, s2974_at, s2982_at, s2990_at, s2991_at, s2992_at, dot3, newt, Rh_zero, th_zero, rel_zero, Rh_at _ 7 4 (by norm_num) rfl, th_at _ _ 7 4 (by norm_num) rfl, rel_at _ 7 4 (by norm_num) rfl] <;> rfl
theorem s3007_c15 (b : Fin 128) : s3007 x0 x1 (ix2 b (⟨15, by norm_num⟩ : Fin 16)) = (1 : EReal) := by
  simp only [s3007, k0_pay741]
  refine (concat_unit_piece 15 (by norm_num) _ _ _ (by simp) rfl rfl b).trans ?_
  simp only [ValueIdx.mulf_apply, ValueIdx.addf_apply, ValueIdx.subf_apply, ValueIdx.broadcast_apply, zero_word, one_word, tovec_at, ascol_at, shapeCast_self, s1191_at, s1198_at, s1205_at, s1212_at, s1219_at, s1226_at, s1233_at, s2650_at, s2651_at, s2974_at, s2982_at, s2990_at, s2991_at, s2992_at, dot3, newt, Rh_zero, th_zero, rel_zero, Rh_at _ 7 4 (by norm_num) rfl, th_at _ _ 7 4 (by norm_num) rfl, rel_at _ 7 4 (by norm_num) rfl] <;> rfl
theorem s149_at (b : Fin 128) : s149 x0 x1 (ix1 b) = Rk x0 b 8 0 0 := by
  simp only [s149, k0_pay81, ValueIdx.mulf_apply, ValueIdx.addf_apply, ValueIdx.subf_apply, ValueIdx.broadcast_apply, zero_word, one_word, tovec_at, ascol_at, shapeCast_self, slice_at (N := 216) _ 72 (by norm_num), s1_eq, dot3, newt, Rh_zero, th_zero, rel_zero] <;> rfl
theorem s155_at (b : Fin 128) : s155 x0 x1 (ix1 b) = Rk x0 b 8 1 0 := by
  simp only [s155, k0_pay84, ValueIdx.mulf_apply, ValueIdx.addf_apply, ValueIdx.subf_apply, ValueIdx.broadcast_apply, zero_word, one_word, tovec_at, ascol_at, shapeCast_self, slice_at (N := 216) _ 75 (by norm_num), s1_eq, dot3, newt, Rh_zero, th_zero, rel_zero] <;> rfl
theorem s161_at (b : Fin 128) : s161 x0 x1 (ix1 b) = Rk x0 b 8 2 0 := by
  simp only [s161, k0_pay87, ValueIdx.mulf_apply, ValueIdx.addf_apply, ValueIdx.subf_apply, ValueIdx.broadcast_apply, zero_word, one_word, tovec_at, ascol_at, shapeCast_self, slice_at (N := 216) _ 78 (by norm_num), s1_eq, dot3, newt, Rh_zero, th_zero, rel_zero] <;> rfl
theorem s1264_at (b : Fin 128) : s1264 x0 x1 (ix1 b) = Rh (Rk x0 b) 8 0 0 := by
  simp only [s1264, k0_pay469, ValueIdx.mulf_apply, ValueIdx.addf_apply, ValueIdx.subf_apply, ValueIdx.broadcast_apply, zero_word, one_word, tovec_at, ascol_at, shapeCast_self, s149_at, s155_at, s161_at, s1003_at, s1010_at, s1017_at, dot3, newt, Rh_zero, th_zero, rel_zero, Rh_at _ 8 5 (by norm_num) rfl, th_at _ _ 8 5 (by norm_num) rfl, rel_at _ 8 5 (by norm_num) rfl] <;> rfl
theorem s3036_at (b : Fin 128) : s3036 x0 x1 (ix2 b (0 : Fin 1)) = Rh (Rk x0 b) 8 0 0 := by
  simp only [s3036, k0_pay743, ValueIdx.mulf_apply, ValueIdx.addf_apply, ValueIdx.subf_apply, ValueIdx.broadcast_apply, zero_word, one_word, tovec_at, ascol_at, shapeCast_self, s1264_at, dot3, newt, Rh_zero, th_zero, rel_zero, Rh_at _ 8 5 (by norm_num) rfl, th_at _ _ 8 5 (by norm_num) rfl, rel_at _ 8 5 (by norm_num) rfl] <;> rfl
theorem s151_at (b : Fin 128) : s151 x0 x1 (ix1 b) = Rk x0 b 8 0 1 := by
  simp only [s151, k0_pay82, ValueIdx.mulf_apply, ValueIdx.addf_apply, ValueIdx.subf_apply, ValueIdx.broadcast_apply, zero_word, one_word, tovec_at, ascol_at, shapeCast_self, slice_at (N := 216) _ 73 (by norm_num), s1_eq, dot3, newt, Rh_zero, th_zero, rel_zero] <;> rfl
theorem s157_at (b : Fin 128) : s157 x0 x1 (ix1 b) = Rk x0 b 8 1 1 := by
  simp only [s157, k0_pay85, ValueIdx.mulf_apply, ValueIdx.addf_apply, ValueIdx.subf_apply, ValueIdx.broadcast_apply, zero_word, one_word, tovec_at, ascol_at, shapeCast_self, slice_at (N := 216) _ 76 (by norm_num), s1_eq, dot3, newt, Rh_zero, th_zero, rel_zero] <;> rfl
theorem s163_at (b : Fin 128) : s163 x0 x1 (ix1 b) = Rk x0 b 8 2 1 := by
  simp only [s163, k0_pay88, ValueIdx.mulf_apply, ValueIdx.addf_apply, ValueIdx.subf_apply, ValueIdx.broadcast_apply, zero_word, one_word, tovec_at, ascol_at, shapeCast_self, slice_at (N := 216) _ 79 (by norm_num), s1_eq, dot3, newt, Rh_zero, th_zero, rel_zero] <;> rfl
theorem s1271_at (b : Fin 128) : s1271 x0 x1 (ix1 b) = Rh (Rk x0 b) 8 0 1 := by
  simp only [s1271, k0_pay470, ValueIdx.mulf_apply, ValueIdx.addf_apply, ValueIdx.subf_apply, ValueIdx.broadcast_apply, zero_word, one_word, tovec_at, ascol_at, shapeCast_self, s151_at, s157_at, s163_at, s1003_at, s1010_at, s1017_at, dot3, newt, Rh_zero, th_zero, rel_zero, Rh_at _ 8 5 (by norm_num) rfl, th_at _ _ 8 5 (by norm_num) rfl, rel_at _ 8 5 (by norm_num) rfl] <;> rfl
theorem s3037_at (b : Fin 128) : s3037 x0 x1 (ix2 b (0 : Fin 1)) = Rh (Rk x0 b) 8 0 1 := by
  simp only [s3037, k0_pay744, ValueIdx.mulf_apply, ValueIdx.addf_apply, ValueIdx.subf_apply, ValueIdx.broadcast_apply, zero_word, one_word, tovec_at, ascol_at, shapeCast_self, s1271_at, dot3, newt, Rh_zero, th_zero, rel_zero, Rh_at _ 8 5 (by norm_num) rfl, th_at _ _ 8 5 (by norm_num) rfl, rel_at _ 8 5 (by norm_num) rfl] <;> rfl
theorem s153_at (b : Fin 128) : s153 x0 x1 (ix1 b) = Rk x0 b 8 0 2 := by
  simp only [s153, k0_pay83, ValueIdx.mulf_apply, ValueIdx.addf_apply, ValueIdx.subf_apply, ValueIdx.broadcast_apply, zero_word, one_word, tovec_at, ascol_at, shapeCast_self, slice_at (N := 216) _ 74 (by norm_num), s1_eq, dot3, newt, Rh_zero, th_zero, rel_zero] <;> rfl
theorem s159_at (b : Fin 128) : s159 x0 x1 (ix1 b) = Rk x0 b 8 1 2 := by
  simp only [s159, k0_pay86, ValueIdx.mulf_apply, ValueIdx.addf_apply, ValueIdx.subf_apply, ValueIdx.broadcast_apply, zero_word, one_word, tovec_at, ascol_at, shapeCast_self, slice_at (N := 216) _ 77 (by norm_num), s1_eq, dot3, newt, Rh_zero, th_zero, rel_zero] <;> rfl
theorem s165_at (b : Fin 128) : s165 x0 x1 (ix1 b) = Rk x0 b 8 2 2 := by
  simp only [s165, k0_pay89, ValueIdx.mulf_apply, ValueIdx.addf_apply, ValueIdx.subf_apply, ValueIdx.broadcast_apply, zero_word, one_word, tovec_at, ascol_at, shapeCast_self, slice_at (N := 216) _ 80 (by norm_num), s1_eq, dot3, newt, Rh_zero, th_zero, rel_zero] <;> rfl
theorem s1278_at (b : Fin 128) : s1278 x0 x1 (ix1 b) = Rh (Rk x0 b) 8 0 2 := by
  simp only [s1278, k0_pay471, ValueIdx.mulf_apply, ValueIdx.addf_apply, ValueIdx.subf_apply, ValueIdx.broadcast_apply, zero_word, one_word, tovec_at, ascol_at, shapeCast_self, s153_at, s159_at, s165_at, s1003_at, s1010_at, s1017_at, dot3, newt, Rh_zero, th_zero, rel_zero, Rh_at _ 8 5 (by norm_num) rfl, th_at _ _ 8 5 (by norm_num) rfl, rel_at _ 8 5 (by norm_num) rfl] <;> rfl
theorem s3038_at (b : Fin 128) : s3038 x0 x1 (ix2 b (0 : Fin 1)) = Rh (Rk x0 b) 8 0 2 := by
  simp only [s3038, k0_pay745, ValueIdx.mulf_apply, ValueIdx.addf_apply, ValueIdx.subf_apply, ValueIdx.broadcast_apply, zero_word, one_word, tovec_at, ascol_at, shapeCast_self, s1278_at, dot3, newt, Rh_zero, th_zero, rel_zero, Rh_at _ 8 5 (by norm_num) rfl, th_at _ _ 8 5 (by norm_num) rfl, rel_at _ 8 5 (by norm_num) rfl] <;> rfl
theorem s485_at (b : Fin 128) : s485 x0 x1 (ix1 b) = pk x1 b 8 0 := by
  simp only [s485, k0_pay255, ValueIdx.mulf_apply, ValueIdx.addf_apply, ValueIdx.subf_apply, ValueIdx.broadcast_apply, zero_word, one_word, tovec_at, ascol_at, shapeCast_self, slice_at (N := 72) _ 24 (by norm_num), s3_eq, dot3, newt, Rh_zero, th_zero, rel_zero] <;> rfl
theorem s487_at (b : Fin 128) : s487 x0 x1 (ix1 b) = pk x1 b 8 1 := by
  simp only [s487, k0_pay256, ValueIdx.mulf_apply, ValueIdx.addf_apply, ValueIdx.subf_apply, ValueIdx.broadcast_apply, zero_word, one_word, tovec_at, ascol_at, shapeCast_self, slice_at (N := 72) _ 25 (by norm_num), s3_eq, dot3, newt, Rh_zero, th_zero, rel_zero] <;> rfl
theorem s489_at (b : Fin 128) : s489 x0 x1 (ix1 b) = pk x1 b 8 2 := by
  simp only [s489, k0_pay257, ValueIdx.mulf_apply, ValueIdx.addf_apply, ValueIdx.subf_apply, ValueIdx.broadcast_apply, zero_word, one_word, tovec_at, ascol_at, shapeCast_self, slice_at (N := 72) _ 26 (by norm_num), s3_eq, dot3, newt, Rh_zero, th_zero, rel_zero] <;> rfl
theorem s601_at (b : Fin 128) : s601 x0 x1 (ix1 b) = rel (pk x1 b) 8 0 := by
  simp only [s601, k0_pay325, ValueIdx.mulf_apply, ValueIdx.addf_apply, ValueIdx.subf_apply, ValueIdx.broadcast_apply, zero_word, one_word, tovec_at, ascol_at, shapeCast_self, s467_at, s485_at, dot3, newt, Rh_zero, th_zero, rel_zero, Rh_at _ 8 5 (by norm_num) rfl, th_at _ _ 8 5 (by norm_num) rfl, rel_at _ 8 5 (by norm_num) rfl] <;> rfl
theorem s602_at (b : Fin 128) : s602 x0 x1 (ix1 b) = rel (pk x1 b) 8 1 := by
  simp only [s602, k0_pay326, ValueIdx.mulf_apply, ValueIdx.addf_apply, ValueIdx.subf_apply, ValueIdx.broadcast_apply, zero_word, one_word, tovec_at, ascol_at, shapeCast_self, s469_at, s487_at, dot3, newt, Rh_zero, th_zero, rel_zero, Rh_at _ 8 5 (by norm_num) rfl, th_at _ _ 8 5 (by norm_num) rfl, rel_at _ 8 5 (by norm_num) rfl] <;> rfl
theorem s603_at (b : Fin 128) : s603 x0 x1 (ix1 b) = rel (pk x1 b) 8 2 := by
  simp only [s603, k0_pay327, ValueIdx.mulf_apply, ValueIdx.addf_apply, ValueIdx.subf_apply, ValueIdx.broadcast_apply, zero_word, one_word, tovec_at, ascol_at, shapeCast_self, s471_at, s489_at, dot3, newt, Rh_zero, th_zero, rel_zero, Rh_at _ 8 5 (by norm_num) rfl, th_at _ _ 8 5 (by norm_num) rfl, rel_at _ 8 5 (by norm_num) rfl] <;> rfl
theorem s1328_at (b : Fin 128) : s1328 x0 x1 (ix1 b) = th (Rk x0 b) (pk x1 b) 8 0 := by
  simp only [s1328, k0_pay479, ValueIdx.mulf_apply, ValueIdx.addf_apply, ValueIdx.subf_apply, ValueIdx.broadcast_apply, zero_word, one_word, tovec_at, ascol_at, shapeCast_self, s601_at, s602_at, s603_at, s1003_at, s1010_at, s1017_at, s1067_at, dot3, newt, Rh_zero, th_zero, rel_zero, Rh_at _ 8 5 (by norm_num) rfl, th_at _ _ 8 5 (by norm_num) rfl, rel_at _ 8 5 (by norm_num) rfl] <;> rfl
theorem s3039_at (b : Fin 128) : s3039 x0 x1 (ix2 b (0 : Fin 1)) = newt (Rk x0 b) (pk x1 b) 8 0 := by
  simp only [s3039, k0_pay746, ValueIdx.mulf_apply, ValueIdx.addf_apply, ValueIdx.subf_apply, ValueIdx.broadcast_apply, zero_word, one_word, tovec_at, ascol_at, shapeCast_self, s485_at, s487_at, s489_at, s1264_at, s1271_at, s1278_at, s1328_at, dot3, newt, Rh_zero, th_zero, rel_zero, Rh_at _ 8 5 (by norm_num) rfl, th_at _ _ 8 5 (by norm_num) rfl, rel_at _ 8 5 (by norm_num) rfl] <;> rfl
theorem s1285_at (b : Fin 128) : s1285 x0 x1 (ix1 b) = Rh (Rk x0 b) 8 1 0 := by
  simp only [s1285, k0_pay472, ValueIdx.mulf_apply, ValueIdx.addf_apply, ValueIdx.subf_apply, ValueIdx.broadcast_apply, zero_word, one_word, tovec_at, ascol_at, shapeCast_self, s149_at, s155_at, s161_at, s1024_at, s1031_at, s1038_at, dot3, newt, Rh_zero, th_zero, rel_zero, Rh_at _ 8 5 (by norm_num) rfl, th_at _ _ 8 5 (by norm_num) rfl, rel_at _ 8 5 (by norm_num) rfl] <;> rfl
theorem s3040_at (b : Fin 128) : s3040 x0 x1 (ix2 b (0 : Fin 1)) = Rh (Rk x0 b) 8 1 0 := by
  simp only [s3040, k0_pay747, ValueIdx.mulf_apply, ValueIdx.addf_apply, ValueIdx.subf_apply, ValueIdx.broadcast_apply, zero_word, one_word, tovec_at, ascol_at, shapeCast_self, s1285_at, dot3, newt, Rh_zero, th_zero, rel_zero, Rh_at _ 8 5 (by norm_num) rfl, th_at _ _ 8 5 (by norm_num) rfl, rel_at _ 8 5 (by norm_num) rfl] <;> rfl
theorem s1286_at (b : Fin 128) : s1286 x0 x1 (ix1 b) = ((Rh (Rk x0 b) 5 1 0) * (Rk x0 b 8 0 1)) := by
  simp only [s1286, k0_pay473, ValueIdx.mulf_apply, ValueIdx.addf_apply, ValueIdx.subf_apply, ValueIdx.broadcast_apply, zero_word, one_word, tovec_at, ascol_at, shapeCast_self, s151_at, s1024_at, dot3, newt, Rh_zero, th_zero, rel_zero] <;> rfl
theorem s1292_at (b : Fin 128) : s1292 x0 x1 (ix1 b) = Rh (Rk x0 b) 8 1 1 := by
  simp only [s1292, k0_pay474, ValueIdx.mulf_apply, ValueIdx.addf_apply, ValueIdx.subf_apply, ValueIdx.broadcast_apply, zero_word, one_word, tovec_at, ascol_at, shapeCast_self, s157_at, s163_at, s1031_at, s1038_at, s1286_at, dot3, newt, Rh_zero, th_zero, rel_zero, Rh_at _ 8 5 (by norm_num) rfl, th_at _ _ 8 5 (by norm_num) rfl, rel_at _ 8 5 (by norm_num) rfl] <;> rfl
theorem s3041_at (b : Fin 128) : s3041 x0 x1 (ix2 b (0 : Fin 1)) = Rh (Rk x0 b) 8 1 1 := by
  simp only [s3041, k0_pay748, ValueIdx.mulf_apply, ValueIdx.addf_apply, ValueIdx.subf_apply, ValueIdx.broadcast_apply, zero_word, one_word, tovec_at, ascol_at, shapeCast_self, s1292_at, dot3, newt, Rh_zero, th_zero, rel_zero, Rh_at _ 8 5 (by norm_num) rfl, th_at _ _ 8 5 (by norm_num) rfl, rel_at _ 8 5 (by norm_num) rfl] <;> rfl
theorem s1299_at (b : Fin 128) : s1299 x0 x1 (ix1 b) = Rh (Rk x0 b) 8 1 2 := by
  simp only [s1299, k0_pay475, ValueIdx.mulf_apply, ValueIdx.addf_apply, ValueIdx.subf_apply, ValueIdx.broadcast_apply, zero_word, one_word, tovec_at, ascol_at, shapeCast_self, s153_at, s159_at, s165_at, s1024_at, s1031_at, s1038_at, dot3, newt, Rh_zero, th_zero, rel_zero, Rh_at _ 8 5 (by norm_num) rfl, th_at _ _ 8 5 (by norm_num) rfl, rel_at _ 8 5 (by norm_num) rfl] <;> rfl
theorem s3042_at (b : Fin 128) : s3042 x0 x1 (ix2 b (0 : Fin 1)) = Rh (Rk x0 b) 8 1 2 := by
  simp only [s3042, k0_pay749, ValueIdx.mulf_apply, ValueIdx.addf_apply, ValueIdx.subf_apply, ValueIdx.broadcast_apply, zero_word, one_word, tovec_at, ascol_at, shapeCast_self, s1299_at, dot3, newt, Rh_zero, th_zero, rel_zero, Rh_at _ 8 5 (by norm_num) rfl, th_at _ _ 8 5 (by norm_num) rfl, rel_at _ 8 5 (by norm_num) rfl] <;> rfl
theorem s1336_at (b : Fin 128) : s1336 x0 x1 (ix1 b) = th (Rk x0 b) (pk x1 b) 8 1 := by
  simp only [s1336, k0_pay480, ValueIdx.mulf_apply, ValueIdx.addf_apply, ValueIdx.subf_apply, ValueIdx.broadcast_apply, zero_word, one_word, tovec_at, ascol_at, shapeCast_self, s601_at, s602_at, s603_at, s1024_at, s1031_at, s1038_at, s1075_at, dot3, newt, Rh_zero, th_zero, rel_zero, Rh_at _ 8 5 (by norm_num) rfl, th_at _ _ 8 5 (by norm_num) rfl, rel_at _ 8 5 (by norm_num) rfl] <;> rfl
theorem s3043_at (b : Fin 128) : s3043 x0 x1 (ix2 b (0 : Fin 1)) = newt (Rk x0 b) (pk x1 b) 8 1 := by
  simp only [s3043, k0_pay750, ValueIdx.mulf_apply, ValueIdx.addf_apply, ValueIdx.subf_apply, ValueIdx.broadcast_apply, zero_word, one_word, tovec_at, ascol_at, shapeCast_self, s485_at, s487_at, s489_at, s1285_at, s1292_at, s1299_at, s1336_at, dot3, newt, Rh_zero, th_zero, rel_zero, Rh_at _ 8 5 (by norm_num) rfl, th_at _ _ 8 5 (by norm_num) rfl, rel_at _ 8 5 (by norm_num) rfl] <;> rfl
theorem s1306_at (b : Fin 128) : s1306 x0 x1 (ix1 b) = Rh (Rk x0 b) 8 2 0 := by
  simp only [s1306, k0_pay476, ValueIdx.mulf_apply, ValueIdx.addf_apply, ValueIdx.subf_apply, ValueIdx.broadcast_apply, zero_word, one_word, tovec_at, ascol_at, shapeCast_self, s149_at, s155_at, s161_at, s1045_at, s1052_at, s1059_at, dot3, newt, Rh_zero, th_zero, rel_zero, Rh_at _ 8 5 (by norm_num) rfl, th_at _ _ 8 5 (by norm_num) rfl, rel_at _ 8 5 (by norm_num) rfl] <;> rfl
theorem s3044_at (b : Fin 128) : s3044 x0 x1 (ix2 b (0 : Fin 1)) = Rh (Rk x0 b) 8 2 0 := by
  simp only [s3044, k0_pay751, ValueIdx.mulf_apply, ValueIdx.addf_apply, ValueIdx.subf_apply, ValueIdx.broadcast_apply, zero_word, one_word, tovec_at, ascol_at, shapeCast_self, s1306_at, dot3, newt, Rh_zero, th_zero, rel_zero, Rh_at _ 8 5 (by norm_num) rfl, th_at _ _ 8 5 (by norm_num) rfl, rel_at _ 8 5 (by norm_num) rfl] <;> rfl
theorem s1313_at (b : Fin 128) : s1313 x0 x1 (ix1 b) = Rh (Rk x0 b) 8 2 1 := by
  simp only [s1313, k0_pay477, ValueIdx.mulf_apply, ValueIdx.addf_apply, ValueIdx.subf_apply, ValueIdx.broadcast_apply, zero_word, one_word, tovec_at, ascol_at, shapeCast_self, s151_at, s157_at, s163_at, s1045_at, s1052_at, s1059_at, dot3, newt, Rh_zero, th_zero, rel_zero, Rh_at _ 8 5 (by norm_num) rfl, th_at _ _ 8 5 (by norm_num) rfl, rel_at _ 8 5 (by norm_num) rfl] <;> rfl
theorem s3045_at (b : Fin 128) : s3045 x0 x1 (ix2 b (0 : Fin 1)) = Rh (Rk x0 b) 8 2 1 := by
  simp only [s3045, k0_pay752, ValueIdx.mulf_apply, ValueIdx.addf_apply, ValueIdx.subf_apply, ValueIdx.broadcast_apply, zero_word, one_word, tovec_at, ascol_at, shapeCast_self, s1313_at, dot3, newt, Rh_zero, th_zero, rel_zero, Rh_at _ 8 5 (by norm_num) rfl, th_at _ _ 8 5 (by norm_num) rfl, rel_at _ 8 5 (by norm_num) rfl] <;> rfl
theorem s1320_at (b : Fin 128) : s1320 x0 x1 (ix1 b) = Rh (Rk x0 b) 8 2 2 := by
  simp only [s1320, k0_pay478, ValueIdx.mulf_apply, ValueIdx.addf_apply, ValueIdx.subf_apply, ValueIdx.broadcast_apply, zero_word, one_word, tovec_at, ascol_at, shapeCast_self, s153_at, s159_at, s165_at, s1045_at, s1052_at, s1059_at, dot3, newt, Rh_zero, th_zero, rel_zero, Rh_at _ 8 5 (by norm_num) rfl, th_at _ _ 8 5 (by norm_num) rfl, rel_at _ 8 5 (by norm_num) rfl] <;> rfl
theorem s3046_at (b : Fin 128) : s3046 x0 x1 (ix2 b (0 : Fin 1)) = Rh (Rk x0 b) 8 2 2 := by
  simp only [s3046, k0_pay753, ValueIdx.mulf_apply, ValueIdx.addf_apply, ValueIdx.subf_apply, ValueIdx.broadcast_apply, zero_word, one_word, tovec_at, ascol_at, shapeCast_self, s1320_at, dot3, newt, Rh_zero, th_zero, rel_zero, Rh_at _ 8 5 (by norm_num) rfl, th_at _ _ 8 5 (by norm_num) rfl, rel_at _ 8 5 (by norm_num) rfl] <;> rfl
theorem s1337_at (b : Fin 128) : s1337 x0 x1 (ix1 b) = ((Rh (Rk x0 b) 5 2 0) * (rel (pk x1 b) 8 0)) := by
  simp only [s1337, k0_pay481, ValueIdx.mulf_apply, ValueIdx.addf_apply, ValueIdx.subf_apply, ValueIdx.broadcast_apply, zero_word, one_word, tovec_at, ascol_at, shapeCast_self, s601_at, s1045_at, dot3, newt, Rh_zero, th_zero, rel_zero] <;> rfl
theorem s1338_at (b : Fin 128) : s1338 x0 x1 (ix1 b) = (0 : EReal) := by
  simp only [s1338, k0_pay482, ValueIdx.mulf_apply, ValueIdx.addf_apply, ValueIdx.subf_apply, ValueIdx.broadcast_apply, zero_word, one_word, tovec_at, ascol_at, shapeCast_self, dot3, newt, Rh_zero, th_zero, rel_zero] <;> rfl
theorem s1344_at (b : Fin 128) : s1344 x0 x1 (ix1 b) = th (Rk x0 b) (pk x1 b) 8 2 := by
  simp only [s1344, k0_pay483, ValueIdx.mulf_apply, ValueIdx.addf_apply, ValueIdx.subf_apply, ValueIdx.broadcast_apply, zero_word, one_word, tovec_at, ascol_at, shapeCast_self, s602_at, s603_at, s1052_at, s1059_at, s1083_at, s1337_at, s1338_at, dot3, newt, Rh_zero, th_zero, rel_zero, Rh_at _ 8 5 (by norm_num) rfl, th_at _ _ 8 5 (by norm_num) rfl, rel_at _ 8 5 (by norm_num) rfl] <;> rfl
theorem s3047_at (b : Fin 128) : s3047 x0 x1 (ix2 b (0 : Fin 1)) = newt (Rk x0 b) (pk x1 b) 8 2 := by
  simp only [s3047, k0_pay754, ValueIdx.mulf_apply, ValueIdx.addf_apply, ValueIdx.subf_apply, ValueIdx.broadcast_apply, zero_word, one_word, tovec_at, ascol_at, shapeCast_self, s485_at, s487_at, s489_at, s1306_at, s1313_at, s1320_at, s1344_at, dot3, newt, Rh_zero, th_zero, rel_zero, Rh_at _ 8 5 (by norm_num) rfl, th_at _ _ 8 5 (by norm_num) rfl, rel_at _ 8 5 (by norm_num) rfl] <;> rfl
theorem s3048_at (b : Fin 128) : s3048 x0 x1 (ix2 b (0 : Fin 1)) = (0 : EReal) := by
  simp only [s3048, k0_pay755, ValueIdx.mulf_apply, ValueIdx.addf_apply, ValueIdx.subf_apply, ValueIdx.broadcast_apply, zero_word, one_word, tovec_at, ascol_at, shapeCast_self, s2650_at, dot3, newt, Rh_zero, th_zero, rel_zero] <;> rfl
theorem s3049_at (b : Fin 128) : s3049 x0 x1 (ix2 b (0 : Fin 1)) = (0 : EReal) := by
  simp only [s3049, k0_pay756, ValueIdx.mulf_apply, ValueIdx.addf_apply, ValueIdx.subf_apply, ValueIdx.broadcast_apply, zero_word, one_word, tovec_at, ascol_at, shapeCast_self, s2650_at, dot3, newt, Rh_zero, th_zero, rel_zero] <;> rfl
theorem s3052_c0 (b : Fin 128) : s3052 x0 x1 (ix2 b (⟨0, by norm_num⟩ : Fin 16)) = Rh (Rk x0 b) 8 0 0 := by
  simp only [s3052, k0_pay757]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3036_at, s3037_at, s3038_at, s3039_at, s3040_at, s3041_at, s3042_at, s3043_at, s3044_at, s3045_at, s3046_at, s3047_at, s3048_at, s3049_at, dot3, newt, Rh_zero, th_zero, rel_zero, Rh_at _ 8 5 (by norm_num) rfl, th_at _ _ 8 5 (by norm_num) rfl, rel_at _ 8 5 (by norm_num) rfl] <;> rfl
theorem s3052_c1 (b : Fin 128) : s3052 x0 x1 (ix2 b (⟨1, by norm_num⟩ : Fin 16)) = Rh (Rk x0 b) 8 0 1 := by
  simp only [s3052, k0_pay757]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3036_at, s3037_at, s3038_at, s3039_at, s3040_at, s3041_at, s3042_at, s3043_at, s3044_at, s3045_at, s3046_at, s3047_at, s3048_at, s3049_at, dot3, newt, Rh_zero, th_zero, rel_zero, Rh_at _ 8 5 (by norm_num) rfl, th_at _ _ 8 5 (by norm_num) rfl, rel_at _ 8 5 (by norm_num) rfl] <;> rfl
theorem s3052_c2 (b : Fin 128) : s3052 x0 x1 (ix2 b (⟨2, by norm_num⟩ : Fin 16)) = Rh (Rk x0 b) 8 0 2 := by
  simp only [s3052, k0_pay757]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3036_at, s3037_at, s3038_at, s3039_at, s3040_at, s3041_at, s3042_at, s3043_at, s3044_at, s3045_at, s3046_at, s3047_at, s3048_at, s3049_at, dot3, newt, Rh_zero, th_zero, rel_zero, Rh_at _ 8 5 (by norm_num) rfl, th_at _ _ 8 5 (by norm_num) rfl, rel_at _ 8 5 (by norm_num) rfl] <;> rfl
theorem s3052_c3 (b : Fin 128) : s3052 x0 x1 (ix2 b (⟨3, by norm_num⟩ : Fin 16)) = newt (Rk x0 b) (pk x1 b) 8 0 := by
  simp only [s3052, k0_pay757]
  refine (concat_unit_piece 3 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3036_at, s3037_at, s3038_at, s3039_at, s3040_at, s3041_at, s3042_at, s3043_at, s3044_at, s3045_at, s3046_at, s3047_at, s3048_at, s3049_at, dot3, newt, Rh_zero, th_zero, rel_zero, Rh_at _ 8 5 (by norm_num) rfl, th_at _ _ 8 5 (by norm_num) rfl, rel_at _ 8 5 (by norm_num) rfl] <;> rfl
theorem s3052_c4 (b : Fin 128) : s3052 x0 x1 (ix2 b (⟨4, by norm_num⟩ : Fin 16)) = Rh (Rk x0 b) 8 1 0 := by
  simp only [s3052, k0_pay757]
  refine (concat_unit_piece 4 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3036_at, s3037_at, s3038_at, s3039_at, s3040_at, s3041_at, s3042_at, s3043_at, s3044_at, s3045_at, s3046_at, s3047_at, s3048_at, s3049_at, dot3, newt, Rh_zero, th_zero, rel_zero, Rh_at _ 8 5 (by norm_num) rfl, th_at _ _ 8 5 (by norm_num) rfl, rel_at _ 8 5 (by norm_num) rfl] <;> rfl
theorem s3052_c5 (b : Fin 128) : s3052 x0 x1 (ix2 b (⟨5, by norm_num⟩ : Fin 16)) = Rh (Rk x0 b) 8 1 1 := by
  simp only [s3052, k0_pay757]
  refine (concat_unit_piece 5 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3036_at, s3037_at, s3038_at, s3039_at, s3040_at, s3041_at, s3042_at, s3043_at, s3044_at, s3045_at, s3046_at, s3047_at, s3048_at, s3049_at, dot3, newt, Rh_zero, th_zero, rel_zero, Rh_at _ 8 5 (by norm_num) rfl, th_at _ _ 8 5 (by norm_num) rfl, rel_at _ 8 5 (by norm_num) rfl] <;> rfl
theorem s3052_c6 (b : Fin 128) : s3052 x0 x1 (ix2 b (⟨6, by norm_num⟩ : Fin 16)) = Rh (Rk x0 b) 8 1 2 := by
  simp only [s3052, k0_pay757]
  refine (concat_unit_piece 6 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3036_at, s3037_at, s3038_at, s3039_at, s3040_at, s3041_at, s3042_at, s3043_at, s3044_at, s3045_at, s3046_at, s3047_at, s3048_at, s3049_at, dot3, newt, Rh_zero, th_zero, rel_zero, Rh_at _ 8 5 (by norm_num) rfl, th_at _ _ 8 5 (by norm_num) rfl, rel_at _ 8 5 (by norm_num) rfl] <;> rfl
theorem s3052_c7 (b : Fin 128) : s3052 x0 x1 (ix2 b (⟨7, by norm_num⟩ : Fin 16)) = newt (Rk x0 b) (pk x1 b) 8 1 := by
  simp only [s3052, k0_pay757]
  refine (concat_unit_piece 7 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3036_at, s3037_at, s3038_at, s3039_at, s3040_at, s3041_at, s3042_at, s3043_at, s3044_at, s3045_at, s3046_at, s3047_at, s3048_at, s3049_at, dot3, newt, Rh_zero, th_zero, rel_zero, Rh_at _ 8 5 (by norm_num) rfl, th_at _ _ 8 5 (by norm_num) rfl, rel_at _ 8 5 (by norm_num) rfl] <;> rfl
theorem s3052_c8 (b : Fin 128) : s3052 x0 x1 (ix2 b (⟨8, by norm_num⟩ : Fin 16)) = Rh (Rk x0 b) 8 2 0 := by
  simp only [s3052, k0_pay757]
  refine (concat_unit_piece 8 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3036_at, s3037_at, s3038_at, s3039_at, s3040_at, s3041_at, s3042_at, s3043_at, s3044_at, s3045_at, s3046_at, s3047_at, s3048_at, s3049_at, dot3, newt, Rh_zero, th_zero, rel_zero, Rh_at _ 8 5 (by norm_num) rfl, th_at _ _ 8 5 (by norm_num) rfl, rel_at _ 8 5 (by norm_num) rfl] <;> rfl
theorem s3052_c9 (b : Fin 128) : s3052 x0 x1 (ix2 b (⟨9, by norm_num⟩ : Fin 16)) = Rh (Rk x0 b) 8 2 1 := by
  simp only [s3052, k0_pay757]
  refine (concat_unit_piece 9 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3036_at, s3037_at, s3038_at, s3039_at, s3040_at, s3041_at, s3042_at, s3043_at, s3044_at, s3045_at, s3046_at, s3047_at, s3048_at, s3049_at, dot3, newt, Rh_zero, th_zero, rel_zero, Rh_at _ 8 5 (by norm_num) rfl, th_at _ _ 8 5 (by norm_num) rfl, rel_at _ 8 5 (by norm_num) rfl] <;> rfl
theorem s3052_c10 (b : Fin 128) : s3052 x0 x1 (ix2 b (⟨10, by norm_num⟩ : Fin 16)) = Rh (Rk x0 b) 8 2 2 := by
  simp only [s3052, k0_pay757]
  refine (concat_unit_piece 10 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3036_at, s3037_at, s3038_at, s3039_at, s3040_at, s3041_at, s3042_at, s3043_at, s3044_at, s3045_at, s3046_at, s3047_at, s3048_at, s3049_at, dot3, newt, Rh_zero, th_zero, rel_zero, Rh_at _ 8 5 (by norm_num) rfl, th_at _ _ 8 5 (by norm_num) rfl, rel_at _ 8 5 (by norm_num) rfl] <;> rfl
theorem s3052_c11 (b : Fin 128) : s3052 x0 x1 (ix2 b (⟨11, by norm_num⟩ : Fin 16)) = newt (Rk x0 b) (pk x1 b) 8 2 := by
  simp only [s3052, k0_pay757]
  refine (concat_unit_piece 11 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3036_at, s3037_at, s3038_at, s3039_at, s3040_at, s3041_at, s3042_at, s3043_at, s3044_at, s3045_at, s3046_at, s3047_at, s3048_at, s3049_at, dot3, newt, Rh_zero, th_zero, rel_zero, Rh_at _ 8 5 (by norm_num) rfl, th_at _ _ 8 5 (by norm_num) rfl, rel_at _ 8 5 (by norm_num) rfl] <;> rfl
theorem s3052_c12 (b : Fin 128) : s3052 x0 x1 (ix2 b (⟨12, by norm_num⟩ : Fin 16)) = (0 : EReal) := by
  simp only [s3052, k0_pay757]
  refine (concat_unit_piece 12 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3036_at, s3037_at, s3038_at, s3039_at, s3040_at, s3041_at, s3042_at, s3043_at, s3044_at, s3045_at, s3046_at, s3047_at, s3048_at, s3049_at, dot3, newt, Rh_zero, th_zero, rel_zero, Rh_at _ 8 5 (by norm_num) rfl, th_at _ _ 8 5 (by norm_num) rfl, rel_at _ 8 5 (by norm_num) rfl] <;> rfl
theorem s3052_c13 (b : Fin 128) : s3052 x0 x1 (ix2 b (⟨13, by norm_num⟩ : Fin 16)) = (0 : EReal) := by
  simp only [s3052, k0_pay757]
  refine (concat_unit_piece 13 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3036_at, s3037_at, s3038_at, s3039_at, s3040_at, s3041_at, s3042_at, s3043_at, s3044_at, s3045_at, s3046_at, s3047_at, s3048_at, s3049_at, dot3, newt, Rh_zero, th_zero, rel_zero, Rh_at _ 8 5 (by norm_num) rfl, th_at _ _ 8 5 (by norm_num) rfl, rel_at _ 8 5 (by norm_num) rfl] <;> rfl
theorem s3052_c14 (b : Fin 128) : s3052 x0 x1 (ix2 b (⟨14, by norm_num⟩ : Fin 16)) = (0 : EReal) := by
  simp only [s3052, k0_pay757]
  refine (concat_unit_piece 14 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3036_at, s3037_at, s3038_at, s3039_at, s3040_at, s3041_at, s3042_at, s3043_at, s3044_at, s3045_at, s3046_at, s3047_at, s3048_at, s3049_at, dot3, newt, Rh_zero, th_zero, rel_zero, Rh_at _ 8 5 (by norm_num) rfl, th_at _ _ 8 5 (by norm_num) rfl, rel_at _ 8 5 (by norm_num) rfl] <;> rfl
theorem s3052_c15 (b : Fin 128) : s3052 x0 x1 (ix2 b (⟨15, by norm_num⟩ : Fin 16)) = (1 : EReal) := by
  simp only [s3052, k0_pay757]
  refine (concat_unit_piece 15 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3036_at, s3037_at, s3038_at, s3039_at, s3040_at, s3041_at, s3042_at, s3043_at, s3044_at, s3045_at, s3046_at, s3047_at, s3048_at, s3049_at, dot3, newt, Rh_zero, th_zero, rel_zero, Rh_at _ 8 5 (by norm_num) rfl, th_at _ _ 8 5 (by norm_num) rfl, rel_at _ 8 5 (by norm_num) rfl] <;> rfl
theorem s491_at (b : Fin 128) : s491 x0 x1 (ix1 b) = pk x1 b 9 0 := by
  simp only [s491, k0_pay258, ValueIdx.mulf_apply, ValueIdx.addf_apply, ValueIdx.subf_apply, ValueIdx.broadcast_apply, zero_word, one_word, tovec_at, ascol_at, shapeCast_self, slice_at (N := 72) _ 27 (by norm_num), s3_eq, dot3, newt, Rh_zero, th_zero, rel_zero] <;> rfl
theorem s493_at (b : Fin 128) : s493 x0 x1 (ix1 b) = pk x1 b 9 1 := by
  simp only [s493, k0_pay259, ValueIdx.mulf_apply, ValueIdx.addf_apply, ValueIdx.subf_apply, ValueIdx.broadcast_apply, zero_word, one_word, tovec_at, ascol_at, shapeCast_self, slice_at (N := 72) _ 28 (by norm_num), s3_eq, dot3, newt, Rh_zero, th_zero, rel_zero] <;> rfl
theorem s495_at (b : Fin 128) : s495 x0 x1 (ix1 b) = pk x1 b 9 2 := by
  simp only [s495, k0_pay260, ValueIdx.mulf_apply, ValueIdx.addf_apply, ValueIdx.subf_apply, ValueIdx.broadcast_apply, zero_word, one_word, tovec_at, ascol_at, shapeCast_self, slice_at (N := 72) _ 29 (by norm_num), s3_eq, dot3, newt, Rh_zero, th_zero, rel_zero] <;> rfl
theorem s167_at (b : Fin 128) : s167 x0 x1 (ix1 b) = Rk x0 b 9 0 0 := by
  simp only [s167, k0_pay90, ValueIdx.mulf_apply, ValueIdx.addf_apply, ValueIdx.subf_apply, ValueIdx.broadcast_apply, zero_word, one_word, tovec_at, ascol_at, shapeCast_self, slice_at (N := 216) _ 81 (by norm_num), s1_eq, dot3, newt, Rh_zero, th_zero, rel_zero] <;> rfl
theorem s173_at (b : Fin 128) : s173 x0 x1 (ix1 b) = Rk x0 b 9 1 0 := by
  simp only [s173, k0_pay93, ValueIdx.mulf_apply, ValueIdx.addf_apply, ValueIdx.subf_apply, ValueIdx.broadcast_apply, zero_word, one_word, tovec_at, ascol_at, shapeCast_self, slice_at (N := 216) _ 84 (by norm_num), s1_eq, dot3, newt, Rh_zero, th_zero, rel_zero] <;> rfl
theorem s179_at (b : Fin 128) : s179 x0 x1 (ix1 b) = Rk x0 b 9 2 0 := by
  simp only [s179, k0_pay97, ValueIdx.mulf_apply, ValueIdx.addf_apply, ValueIdx.subf_apply, ValueIdx.broadcast_apply, zero_word, one_word, tovec_at, ascol_at, shapeCast_self, slice_at (N := 216) _ 87 (by norm_num), s1_eq, dot3, newt, Rh_zero, th_zero, rel_zero] <;> rfl
theorem s1351_at (b : Fin 128) : s1351 x0 x1 (ix1 b) = Rh (Rk x0 b) 9 0 0 := by
  simp only [s1351, k0_pay484, ValueIdx.mulf_apply, ValueIdx.addf_apply, ValueIdx.subf_apply, ValueIdx.broadcast_apply, zero_word, one_word, tovec_at, ascol_at, shapeCast_self, s167_at, s173_at, s179_at, s1090_at, s1097_at, s1104_at, dot3, newt, Rh_zero, th_zero, rel_zero, Rh_at _ 9 6 (by norm_num) rfl, th_at _ _ 9 6 (by norm_num) rfl, rel_at _ 9 6 (by norm_num) rfl] <;> rfl
theorem s169_at (b : Fin 128) : s169 x0 x1 (ix1 b) = Rk x0 b 9 0 1 := by
  simp only [s169, k0_pay91, ValueIdx.mulf_apply, ValueIdx.addf_apply, ValueIdx.subf_apply, ValueIdx.broadcast_apply, zero_word, one_word, tovec_at, ascol_at, shapeCast_self, slice_at (N := 216) _ 82 (by norm_num), s1_eq, dot3, newt, Rh_zero, th_zero, rel_zero] <;> rfl
theorem s174_at (b : Fin 128) : s174 x0 x1 (ix2 b (0 : Fin 1)) = Rk x0 b 9 1 1 := by
  simp only [s174, k0_pay94, ValueIdx.mulf_apply, ValueIdx.addf_apply, ValueIdx.subf_apply, ValueIdx.broadcast_apply, zero_word, one_word, tovec_at, ascol_at, shapeCast_self, slice_at (N := 216) _ 85 (by norm_num), s1_eq, dot3, newt, Rh_zero, th_zero, rel_zero] <;> rfl
theorem s175_at (b : Fin 128) : s175 x0 x1 (ix1 b) = Rk x0 b 9 1 1 := by
  simp only [s175, k0_pay95, ValueIdx.mulf_apply, ValueIdx.addf_apply, ValueIdx.subf_apply, ValueIdx.broadcast_apply, zero_word, one_word, tovec_at, ascol_at, shapeCast_self, s174_at, dot3, newt, Rh_zero, th_zero, rel_zero] <;> rfl
theorem s181_at (b : Fin 128) : s181 x0 x1 (ix1 b) = Rk x0 b 9 2 1 := by
  simp only [s181, k0_pay98, ValueIdx.mulf_apply, ValueIdx.addf_apply, ValueIdx.subf_apply, ValueIdx.broadcast_apply, zero_word, one_word, tovec_at, ascol_at, shapeCast_self, slice_at (N := 216) _ 88 (by norm_num), s1_eq, dot3, newt, Rh_zero, th_zero, rel_zero] <;> rfl
theorem s1358_at (b : Fin 128) : s1358 x0 x1 (ix1 b) = Rh (Rk x0 b) 9 0 1 := by
  simp only [s1358, k0_pay485, ValueIdx.mulf_apply, ValueIdx.addf_apply, ValueIdx.subf_apply, ValueIdx.broadcast_apply, zero_word, one_word, tovec_at, ascol_at, shapeCast_self, s169_at, s175_at, s181_at, s1090_at, s1097_at, s1104_at, dot3, newt, Rh_zero, th_zero, rel_zero, Rh_at _ 9 6 (by norm_num) rfl, th_at _ _ 9 6 (by norm_num) rfl, rel_at _ 9 6 (by norm_num) rfl] <;> rfl
theorem s171_at (b : Fin 128) : s171 x0 x1 (ix1 b) = Rk x0 b 9 0 2 := by
  simp only [s171, k0_pay92, ValueIdx.mulf_apply, ValueIdx.addf_apply, ValueIdx.subf_apply, ValueIdx.broadcast_apply, zero_word, one_word, tovec_at, ascol_at, shapeCast_self, slice_at (N := 216) _ 83 (by norm_num), s1_eq, dot3, newt, Rh_zero, th_zero, rel_zero] <;> rfl
theorem s177_at (b : Fin 128) : s177 x0 x1 (ix1 b) = Rk x0 b 9 1 2 := by
  simp only [s177, k0_pay96, ValueIdx.mulf_apply, ValueIdx.addf_apply, ValueIdx.subf_apply, ValueIdx.broadcast_apply, zero_word, one_word, tovec_at, ascol_at, shapeCast_self, slice_at (N := 216) _ 86 (by norm_num), s1_eq, dot3, newt, Rh_zero, th_zero, rel_zero] <;> rfl
theorem s183_at (b : Fin 128) : s183 x0 x1 (ix1 b) = Rk x0 b 9 2 2 := by
  simp only [s183, k0_pay99, ValueIdx.mulf_apply, ValueIdx.addf_apply, ValueIdx.subf_apply, ValueIdx.broadcast_apply, zero_word, one_word, tovec_at, ascol_at, shapeCast_self, slice_at (N := 216) _ 89 (by norm_num), s1_eq, dot3, newt, Rh_zero, th_zero, rel_zero] <;> rfl
theorem s1365_at (b : Fin 128) : s1365 x0 x1 (ix1 b) = Rh (Rk x0 b) 9 0 2 := by
  simp only [s1365, k0_pay486, ValueIdx.mulf_apply, ValueIdx.addf_apply, ValueIdx.subf_apply, ValueIdx.broadcast_apply, zero_word, one_word, tovec_at, ascol_at, shapeCast_self, s171_at, s177_at, s183_at, s1090_at, s1097_at, s1104_at, dot3, newt, Rh_zero, th_zero, rel_zero, Rh_at _ 9 6 (by norm_num) rfl, th_at _ _ 9 6 (by norm_num) rfl, rel_at _ 9 6 (by norm_num) rfl] <;> rfl
theorem s1372_at (b : Fin 128) : s1372 x0 x1 (ix1 b) = Rh (Rk x0 b) 9 1 0 := by
  simp only [s1372, k0_pay487, ValueIdx.mulf_apply, ValueIdx.addf_apply, ValueIdx.subf_apply, ValueIdx.broadcast_apply, zero_word, one_word, tovec_at, ascol_at, shapeCast_self, s167_at, s173_at, s179_at, s1111_at, s1118_at, s1125_at, dot3, newt, Rh_zero, th_zero, rel_zero, Rh_at _ 9 6 (by norm_num) rfl, th_at _ _ 9 6 (by norm_num) rfl, rel_at _ 9 6 (by norm_num) rfl] <;> rfl
theorem s1379_at (b : Fin 128) : s1379 x0 x1 (ix1 b) = Rh (Rk x0 b) 9 1 1 := by
  simp only [s1379, k0_pay488, ValueIdx.mulf_apply, ValueIdx.addf_apply, ValueIdx.subf_apply, ValueIdx.broadcast_apply, zero_word, one_word, tovec_at, ascol_at, shapeCast_self, s169_at, s175_at, s181_at, s1111_at, s1118_at, s1125_at, dot3, newt, Rh_zero, th_zero, rel_zero, Rh_at _ 9 6 (by norm_num) rfl, th_at _ _ 9 6 (by norm_num) rfl, rel_at _ 9 6 (by norm_num) rfl] <;> rfl
theorem s1386_at (b : Fin 128) : s1386 x0 x1 (ix1 b) = Rh (Rk x0 b) 9 1 2 := by
  simp only [s1386, k0_pay489, ValueIdx.mulf_apply, ValueIdx.addf_apply, ValueIdx.subf_apply, ValueIdx.broadcast_apply, zero_word, one_word, tovec_at, ascol_at, shapeCast_self, s171_at, s177_at, s183_at, s1111_at, s1118_at, s1125_at, dot3, newt, Rh_zero, th_zero, rel_zero, Rh_at _ 9 6 (by norm_num) rfl, th_at _ _ 9 6 (by norm_num) rfl, rel_at _ 9 6 (by norm_num) rfl] <;> rfl
theorem s1391_at (b : Fin 128) : s1391 x0 x1 (ix1 b) = (((0 : EReal) + ((Rh (Rk x0 b) 6 2 0) * (Rk x0 b 9 0 0))) + ((Rh (Rk x0 b) 6 2 1) * (Rk x0 b 9 1 0))) := by
  simp only [s1391, k0_pay490, ValueIdx.mulf_apply, ValueIdx.addf_apply, ValueIdx.subf_apply, ValueIdx.broadcast_apply, zero_word, one_word, tovec_at, ascol_at, shapeCast_self, s167_at, s173_at, s1132_at, s1139_at, dot3, newt, Rh_zero, th_zero, rel_zero] <;> rfl
theorem s1393_at (b : Fin 128) : s1393 x0 x1 (ix1 b) = Rh (Rk x0 b) 9 2 0 := by
  simp only [s1393, k0_pay491, ValueIdx.mulf_apply, ValueIdx.addf_apply, ValueIdx.subf_apply, ValueIdx.broadcast_apply, zero_word, one_word, tovec_at, ascol_at, shapeCast_self, s179_at, s1146_at, s1391_at, dot3, newt, Rh_zero, th_zero, rel_zero, Rh_at _ 9 6 (by norm_num) rfl, th_at _ _ 9 6 (by norm_num) rfl, rel_at _ 9 6 (by norm_num) rfl] <;> rfl
theorem s1400_at (b : Fin 128) : s1400 x0 x1 (ix1 b) = Rh (Rk x0 b) 9 2 1 := by
  simp only [s1400, k0_pay492, ValueIdx.mulf_apply, ValueIdx.addf_apply, ValueIdx.subf_apply, ValueIdx.broadcast_apply, zero_word, one_word, tovec_at, ascol_at, shapeCast_self, s169_at, s175_at, s181_at, s1132_at, s1139_at, s1146_at, dot3, newt, Rh_zero, th_zero, rel_zero, Rh_at _ 9 6 (by norm_num) rfl, th_at _ _ 9 6 (by norm_num) rfl, rel_at _ 9 6 (by norm_num) rfl] <;> rfl
theorem s1407_at (b : Fin 128) : s1407 x0 x1 (ix1 b) = Rh (Rk x0 b) 9 2 2 := by
  simp only [s1407, k0_pay493, ValueIdx.mulf_apply, ValueIdx.addf_apply, ValueIdx.subf_apply, ValueIdx.broadcast_apply, zero_word, one_word, tovec_at, ascol_at, shapeCast_self, s171_at, s177_at, s183_at, s1132_at, s1139_at, s1146_at, dot3, newt, Rh_zero, th_zero, rel_zero, Rh_at _ 9 6 (by norm_num) rfl, th_at _ _ 9 6 (by norm_num) rfl, rel_at _ 9 6 (by norm_num) rfl] <;> rfl
theorem s604_at (b : Fin 128) : s604 x0 x1 (ix1 b) = rel (pk x1 b) 9 0 := by
  simp only [s604, k0_pay328, ValueIdx.mulf_apply, ValueIdx.addf_apply, ValueIdx.subf_apply, ValueIdx.broadcast_apply, zero_word, one_word, tovec_at, ascol_at, shapeCast_self, s473_at, s491_at, dot3, newt, Rh_zero, th_zero, rel_zero, Rh_at _ 9 6 (by norm_num) rfl, th_at _ _ 9 6 (by norm_num) rfl, rel_at _ 9 6 (by norm_num) rfl] <;> rfl
theorem s605_at (b : Fin 128) : s605 x0 x1 (ix1 b) = rel (pk x1 b) 9 1 := by
  simp only [s605, k0_pay329, ValueIdx.mulf_apply, ValueIdx.addf_apply, ValueIdx.subf_apply, ValueIdx.broadcast_apply, zero_word, one_word, tovec_at, ascol_at, shapeCast_self, s475_at, s493_at, dot3, newt, Rh_zero, th_zero, rel_zero, Rh_at _ 9 6 (by norm_num) rfl, th_at _ _ 9 6 (by norm_num) rfl, rel_at _ 9 6 (by norm_num) rfl] <;> rfl
theorem s606_at (b : Fin 128) : s606 x0 x1 (ix1 b) = rel (pk x1 b) 9 2 := by
  simp only [s606, k0_pay330, ValueIdx.mulf_apply, ValueIdx.addf_apply, ValueIdx.subf_apply, ValueIdx.broadcast_apply, zero_word, one_word, tovec_at, ascol_at, shapeCast_self, s477_at, s495_at, dot3, newt, Rh_zero, th_zero, rel_zero, Rh_at _ 9 6 (by norm_num) rfl, th_at _ _ 9 6 (by norm_num) rfl, rel_at _ 9 6 (by norm_num) rfl] <;> rfl
theorem s1415_at (b : Fin 128) : s1415 x0 x1 (ix1 b) = th (Rk x0 b) (pk x1 b) 9 0 := by
  simp only [s1415, k0_pay494, ValueIdx.mulf_apply, ValueIdx.addf_apply, ValueIdx.subf_apply, ValueIdx.broadcast_apply, zero_word, one_word, tovec_at, ascol_at, shapeCast_self, s604_at, s605_at, s606_at, s1090_at, s1097_at, s1104_at, s1154_at, dot3, newt, Rh_zero, th_zero, rel_zero, Rh_at _ 9 6 (by norm_num) rfl, th_at _ _ 9 6 (by norm_num) rfl, rel_at _ 9 6 (by norm_num) rfl] <;> rfl
theorem s1423_at (b : Fin 128) : s1423 x0 x1 (ix1 b) = th (Rk x0 b) (pk x1 b) 9 1 := by
  simp only [s1423, k0_pay495, ValueIdx.mulf_apply, ValueIdx.addf_apply, ValueIdx.subf_apply, ValueIdx.broadcast_apply, zero_word, one_word, tovec_at, ascol_at, shapeCast_self, s604_at, s605_at, s606_at, s1111_at, s1118_at, s1125_at, s1162_at, dot3, newt, Rh_zero, th_zero, rel_zero, Rh_at _ 9 6 (by norm_num) rfl, th_at _ _ 9 6 (by norm_num) rfl, rel_at _ 9 6 (by norm_num) rfl] <;> rfl
theorem s1431_at (b : Fin 128) : s1431 x0 x1 (ix1 b) = th (Rk x0 b) (pk x1 b) 9 2 := by
  simp only [s1431, k0_pay496, ValueIdx.mulf_apply, ValueIdx.addf_apply, ValueIdx.subf_apply, ValueIdx.broadcast_apply, zero_word, one_word, tovec_at, ascol_at, shapeCast_self, s604_at, s605_at, s606_at, s1132_at, s1139_at, s1146_at, s1170_at, dot3, newt, Rh_zero, th_zero, rel_zero, Rh_at _ 9 6 (by norm_num) rfl, th_at _ _ 9 6 (by norm_num) rfl, rel_at _ 9 6 (by norm_num) rfl] <;> rfl
theorem s3097_c0 (b : Fin 128) : s3097 x0 x1 (ix2 b (⟨0, by norm_num⟩ : Fin 16)) = Rh (Rk x0 b) 9 0 0 := by
  simp only [s3097, k0_pay759]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s491_at, s493_at, s495_at, s1351_at, s1358_at, s1365_at, s1372_at, s1379_at, s1386_at, s1393_at, s1400_at, s1407_at, s1415_at, s1423_at, s1431_at, s2650_at, s2651_at, dot3, newt, Rh_zero, th_zero, rel_zero, Rh_at _ 9 6 (by norm_num) rfl, th_at _ _ 9 6 (by norm_num) rfl, rel_at _ 9 6 (by norm_num) rfl] <;> rfl
theorem s3097_c1 (b : Fin 128) : s3097 x0 x1 (ix2 b (⟨1, by norm_num⟩ : Fin 16)) = Rh (Rk x0 b) 9 0 1 := by
  simp only [s3097, k0_pay759]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s491_at, s493_at, s495_at, s1351_at, s1358_at, s1365_at, s1372_at, s1379_at, s1386_at, s1393_at, s1400_at, s1407_at, s1415_at, s1423_at, s1431_at, s2650_at, s2651_at, dot3, newt, Rh_zero, th_zero, rel_zero, Rh_at _ 9 6 (by norm_num) rfl, th_at _ _ 9 6 (by norm_num) rfl, rel_at _ 9 6 (by norm_num) rfl] <;> rfl
theorem s3097_c2 (b : Fin 128) : s3097 x0 x1 (ix2 b (⟨2, by norm_num⟩ : Fin 16)) = Rh (Rk x0 b) 9 0 2 := by
  simp only [s3097, k0_pay759]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s491_at, s493_at, s495_at, s1351_at, s1358_at, s1365_at, s1372_at, s1379_at, s1386_at, s1393_at, s1400_at, s1407_at, s1415_at, s1423_at, s1431_at, s2650_at, s2651_at, dot3, newt, Rh_zero, th_zero, rel_zero, Rh_at _ 9 6 (by norm_num) rfl, th_at _ _ 9 6 (by norm_num) rfl, rel_at _ 9 6 (by norm_num) rfl] <;> rfl
theorem s3097_c3 (b : Fin 128) : s3097 x0 x1 (ix2 b (⟨3, by norm_num⟩ : Fin 16)) = newt (Rk x0 b) (pk x1 b) 9 0 := by
  simp only [s3097, k0_pay759]
  refine (concat_unit_piece 3 (by norm_num) _ _ _ (by simp) rfl rfl b).trans ?_
  simp only [ValueIdx.mulf_apply, ValueIdx.addf_apply, ValueIdx.subf_apply, ValueIdx.broadcast_apply, zero_word, one_word, tovec_at, ascol_at, shapeCast_self, s491_at, s493_at, s495_at, s1351_at, s1358_at, s1365_at, s1372_at, s1379_at, s1386_at, s1393_at, s1400_at, s1407_at, s1415_at, s1423_at, s1431_at, s2650_at, s2651_at, dot3, newt, Rh_zero, th_zero, rel_zero, Rh_at _ 9 6 (by norm_num) rfl, th_at _ _ 9 6 (by norm_num) rfl, rel_at _ 9 6 (by norm_num) rfl] <;> rfl
theorem s3097_c4 (b : Fin 128) : s3097 x0 x1 (ix2 b (⟨4, by norm_num⟩ : Fin 16)) = Rh (Rk x0 b) 9 1 0 := by
  simp only [s3097, k0_pay759]
  refine (concat_unit_piece 4 (by norm_num) _ _ _ (by simp) rfl rfl b).trans ?_
  simp only [ValueIdx.mulf_apply, ValueIdx.addf_apply, ValueIdx.subf_apply, ValueIdx.broadcast_apply, zero_word, one_word, tovec_at, ascol_at, shapeCast_self, s491_at, s493_at, s495_at, s1351_at, s1358_at, s1365_at, s1372_at, s1379_at, s1386_at, s1393_at, s1400_at, s1407_at, s1415_at, s1423_at, s1431_at, s2650_at, s2651_at, dot3, newt, Rh_zero, th_zero, rel_zero, Rh_at _ 9 6 (by norm_num) rfl, th_at _ _ 9 6 (by norm_num) rfl, rel_at _ 9 6 (by norm_num) rfl] <;> rfl
theorem s3097_c5 (b : Fin 128) : s3097 x0 x1 (ix2 b (⟨5, by norm_num⟩ : Fin 16)) = Rh (Rk x0 b) 9 1 1 := by
  simp only [s3097, k0_pay759]
  refine (concat_unit_piece 5 (by norm_num) _ _ _ (by simp) rfl rfl b).trans ?_
  simp only [ValueIdx.mulf_apply, ValueIdx.addf_apply, ValueIdx.subf_apply, ValueIdx.broadcast_apply, zero_word, one_word, tovec_at, ascol_at, shapeCast_self, s491_at, s493_at, s495_at, s1351_at, s1358_at, s1365_at, s1372_at, s1379_at, s1386_at, s1393_at, s1400_at, s1407_at, s1415_at, s1423_at, s1431_at, s2650_at, s2651_at, dot3, newt, Rh_zero, th_zero, rel_zero, Rh_at _ 9 6 (by norm_num) rfl, th_at _ _ 9 6 (by norm_num) rfl, rel_at _ 9 6 (by norm_num) rfl] <;> rfl
theorem s3097_c6 (b : Fin 128) : s3097 x0 x1 (ix2 b (⟨6, by norm_num⟩ : Fin 16)) = Rh (Rk x0 b) 9 1 2 := by
  simp only [s3097, k0_pay759]
  refine (concat_unit_piece 6 (by norm_num) _ _ _ (by simp) rfl rfl b).trans ?_
  simp only [ValueIdx.mulf_apply, ValueIdx.addf_apply, ValueIdx.subf_apply, ValueIdx.broadcast_apply, zero_word, one_word, tovec_at, ascol_at, shapeCast_self, s491_at, s493_at, s495_at, s1351_at, s1358_at, s1365_at, s1372_at, s1379_at, s1386_at, s1393_at, s1400_at, s1407_at, s1415_at, s1423_at, s1431_at, s2650_at, s2651_at, dot3, newt, Rh_zero, th_zero, rel_zero, Rh_at _ 9 6 (by norm_num) rfl, th_at _ _ 9 6 (by norm_num) rfl, rel_at _ 9 6 (by norm_num) rfl] <;> rfl
theorem s3097_c7 (b : Fin 128) : s3097 x0 x1 (ix2 b (⟨7, by norm_num⟩ : Fin 16)) = newt (Rk x0 b) (pk x1 b) 9 1 := by
  simp only [s3097, k0_pay759]
  refine (concat_unit_piece 7 (by norm_num) _ _ _ (by simp) rfl rfl b).trans ?_
  simp only [ValueIdx.mulf_apply, ValueIdx.addf_apply, ValueIdx.subf_apply, ValueIdx.broadcast_apply, zero_word, one_word, tovec_at, ascol_at, shapeCast_self, s491_at, s493_at, s495_at, s1351_at, s1358_at, s1365_at, s1372_at, s1379_at, s1386_at, s1393_at, s1400_at, s1407_at, s1415_at, s1423_at, s1431_at, s2650_at, s2651_at, dot3, newt, Rh_zero, th_zero, rel_zero, Rh_at _ 9 6 (by norm_num) rfl, th_at _ _ 9 6 (by norm_num) rfl, rel_at _ 9 6 (by norm_num) rfl] <;> rfl
theorem s3097_c8 (b : Fin 128) : s3097 x0 x1 (ix2 b (⟨8, by norm_num⟩ : Fin 16)) = Rh (Rk x0 b) 9 2 0 := by
  simp only [s3097, k0_pay759]
  refine (concat_unit_piece 8 (by norm_num) _ _ _ (by simp) rfl rfl b).trans ?_
  simp only [ValueIdx.mulf_apply, ValueIdx.addf_apply, ValueIdx.subf_apply, ValueIdx.broadcast_apply, zero_word, one_word, tovec_at, ascol_at, shapeCast_self, s491_at, s493_at, s495_at, s1351_at, s1358_at, s1365_at, s1372_at, s1379_at, s1386_at, s1393_at, s1400_at, s1407_at, s1415_at, s1423_at, s1431_at, s2650_at, s2651_at, dot3, newt, Rh_zero, th_zero, rel_zero, Rh_at _ 9 6 (by norm_num) rfl, th_at _ _ 9 6 (by norm_num) rfl, rel_at _ 9 6 (by norm_num) rfl] <;> rfl
theorem s3097_c9 (b : Fin 128) : s3097 x0 x1 (ix2 b (⟨9, by norm_num⟩ : Fin 16)) = Rh (Rk x0 b) 9 2 1 := by
  simp only [s3097, k0_pay759]
  refine (concat_unit_piece 9 (by norm_num) _ _ _ (by simp) rfl rfl b).trans ?_
  simp only [ValueIdx.mulf_apply, ValueIdx.addf_apply, ValueIdx.subf_apply, ValueIdx.broadcast_apply, zero_word, one_word, tovec_at, ascol_at, shapeCast_self, s491_at, s493_at, s495_at, s1351_at, s1358_at, s1365_at, s1372_at, s1379_at, s1386_at, s1393_at, s1400_at, s1407_at, s1415_at, s1423_at, s1431_at, s2650_at, s2651_at, dot3, newt, Rh_zero, th_zero, rel_zero, Rh_at _ 9 6 (by norm_num) rfl, th_at _ _ 9 6 (by norm_num) rfl, rel_at _ 9 6 (by norm_num) rfl] <;> rfl
theorem s3097_c10 (b : Fin 128) : s3097 x0 x1 (ix2 b (⟨10, by norm_num⟩ : Fin 16)) = Rh (Rk x0 b) 9 2 2 := by
  simp only [s3097, k0_pay759]
  refine (concat_unit_piece 10 (by norm_num) _ _ _ (by simp) rfl rfl b).trans ?_
  simp only [ValueIdx.mulf_apply, ValueIdx.addf_apply, ValueIdx.subf_apply, ValueIdx.broadcast_apply, zero_word, one_word, tovec_at, ascol_at, shapeCast_self, s491_at, s493_at, s495_at, s1351_at, s1358_at, s1365_at, s1372_at, s1379_at, s1386_at, s1393_at, s1400_at, s1407_at, s1415_at, s1423_at, s1431_at, s2650_at, s2651_at, dot3, newt, Rh_zero, th_zero, rel_zero, Rh_at _ 9 6 (by norm_num) rfl, th_at _ _ 9 6 (by norm_num) rfl, rel_at _ 9 6 (by norm_num) rfl] <;> rfl
theorem s3097_c11 (b : Fin 128) : s3097 x0 x1 (ix2 b (⟨11, by norm_num⟩ : Fin 16)) = newt (Rk x0 b) (pk x1 b) 9 2 := by
  simp only [s3097, k0_pay759]
  refine (concat_unit_piece 11 (by norm_num) _ _ _ (by simp) rfl rfl b).trans ?_
  simp only [ValueIdx.mulf_apply, ValueIdx.addf_apply, ValueIdx.subf_apply, ValueIdx.broadcast_apply, zero_word, one_word, tovec_at, ascol_at, shapeCast_self, s491_at, s493_at, s495_at, s1351_at, s1358_at, s1365_at, s1372_at, s1379_at, s1386_at, s1393_at, s1400_at, s1407_at, s1415_at, s1423_at, s1431_at, s2650_at, s2651_at, dot3, newt, Rh_zero, th_zero, rel_zero, Rh_at _ 9 6 (by norm_num) rfl, th_at _ _ 9 6 (by norm_num) rfl, rel_at _ 9 6 (by norm_num) rfl] <;> rfl
theorem s3097_c12 (b : Fin 128) : s3097 x0 x1 (ix2 b (⟨12, by norm_num⟩ : Fin 16)) = (0 : EReal) := by
  simp only [s3097, k0_pay759]
  refine (concat_unit_piece 12 (by norm_num) _ _ _ (by simp) rfl rfl b).trans ?_
  simp only [ValueIdx.mulf_apply, ValueIdx.addf_apply, ValueIdx.subf_apply, ValueIdx.broadcast_apply, zero_word, one_word, tovec_at, ascol_at, shapeCast_self, s491_at, s493_at, s495_at, s1351_at, s1358_at, s1365_at, s1372_at, s1379_at, s1386_at, s1393_at, s1400_at, s1407_at, s1415_at, s1423_at, s1431_at, s2650_at, s2651_at, dot3, newt, Rh_zero, th_zero, rel_zero, Rh_at _ 9 6 (by norm_num) rfl, th_at _ _ 9 6 (by norm_num) rfl, rel_at _ 9 6 (by norm_num) rfl] <;> rfl
theorem s3097_c13 (b : Fin 128) : s3097 x0 x1 (ix2 b (⟨13, by norm_num⟩ : Fin 16)) = (0 : EReal) := by
  simp only [s3097, k0_pay759]
  refine (concat_unit_piece 13 (by norm_num) _ _ _ (by simp) rfl rfl b).trans ?_
  simp only [ValueIdx.mulf_apply, ValueIdx.addf_apply, ValueIdx.subf_apply, ValueIdx.broadcast_apply, zero_word, one_word, tovec_at, ascol_at, shapeCast_self, s491_at, s493_at, s495_at, s1351_at, s1358_at, s1365_at, s1372_at, s1379_at, s1386_at, s1393_at, s1400_at, s1407_at, s1415_at, s1423_at, s1431_at, s2650_at, s2651_at, dot3, newt, Rh_zero, th_zero, rel_zero, Rh_at _ 9 6 (by norm_num) rfl, th_at _ _ 9 6 (by norm_num) rfl, rel_at _ 9 6 (by norm_num) rfl] <;> rfl
theorem s3097_c14 (b : Fin 128) : s3097 x0 x1 (ix2 b (⟨14, by norm_num⟩ : Fin 16)) = (0 : EReal) := by
  simp only [s3097, k0_pay759]
  refine (concat_unit_piece 14 (by norm_num) _ _ _ (by simp) rfl rfl b).trans ?_
  simp only [ValueIdx.mulf_apply, ValueIdx.addf_apply, ValueIdx.subf_apply, ValueIdx.broadcast_apply, zero_word, one_word, tovec_at, ascol_at, shapeCast_self, s491_at, s493_at, s495_at, s1351_at, s1358_at, s1365_at, s1372_at, s1379_at, s1386_at, s1393_at, s1400_at, s1407_at, s1415_at, s1423_at, s1431_at, s2650_at, s2651_at, dot3, newt, Rh_zero, th_zero, rel_zero, Rh_at _ 9 6 (by norm_num) rfl, th_at _ _ 9 6 (by norm_num) rfl, rel_at _ 9 6 (by norm_num) rfl] <;> rfl
theorem s3097_c15 (b : Fin 128) : s3097 x0 x1 (ix2 b (⟨15, by norm_num⟩ : Fin 16)) = (1 : EReal) := by
  simp only [s3097, k0_pay759]
  refine (concat_unit_piece 15 (by norm_num) _ _ _ (by simp) rfl rfl b).trans ?_
  simp only [ValueIdx.mulf_apply, ValueIdx.addf_apply, ValueIdx.subf_apply, ValueIdx.broadcast_apply, zero_word, one_word, tovec_at, ascol_at, shapeCast_self, s491_at, s493_at, s495_at, s1351_at, s1358_at, s1365_at, s1372_at, s1379_at, s1386_at, s1393_at, s1400_at, s1407_at, s1415_at, s1423_at, s1431_at, s2650_at, s2651_at, dot3, newt, Rh_zero, th_zero, rel_zero, Rh_at _ 9 6 (by norm_num) rfl, th_at _ _ 9 6 (by norm_num) rfl, rel_at _ 9 6 (by norm_num) rfl] <;> rfl
theorem s497_at (b : Fin 128) : s497 x0 x1 (ix1 b) = pk x1 b 10 0 := by
  simp only [s497, k0_pay261, ValueIdx.mulf_apply, ValueIdx.addf_apply, ValueIdx.subf_apply, ValueIdx.broadcast_apply, zero_word, one_word, tovec_at, ascol_at, shapeCast_self, slice_at (N := 72) _ 30 (by norm_num), s3_eq, dot3, newt, Rh_zero, th_zero, rel_zero] <;> rfl
theorem s499_at (b : Fin 128) : s499 x0 x1 (ix1 b) = pk x1 b 10 1 := by
  simp only [s499, k0_pay262, ValueIdx.mulf_apply, ValueIdx.addf_apply, ValueIdx.subf_apply, ValueIdx.broadcast_apply, zero_word, one_word, tovec_at, ascol_at, shapeCast_self, slice_at (N := 72) _ 31 (by norm_num), s3_eq, dot3, newt, Rh_zero, th_zero, rel_zero] <;> rfl
theorem s501_at (b : Fin 128) : s501 x0 x1 (ix1 b) = pk x1 b 10 2 := by
  simp only [s501, k0_pay263, ValueIdx.mulf_apply, ValueIdx.addf_apply, ValueIdx.subf_apply, ValueIdx.broadcast_apply, zero_word, one_word, tovec_at, ascol_at, shapeCast_self, slice_at (N := 72) _ 32 (by norm_num), s3_eq, dot3, newt, Rh_zero, th_zero, rel_zero] <;> rfl
theorem s185_at (b : Fin 128) : s185 x0 x1 (ix1 b) = Rk x0 b 10 0 0 := by
  simp only [s185, k0_pay100, ValueIdx.mulf_apply, ValueIdx.addf_apply, ValueIdx.subf_apply, ValueIdx.broadcast_apply, zero_word, one_word, tovec_at, ascol_at, shapeCast_self, slice_at (N := 216) _ 90 (by norm_num), s1_eq, dot3, newt, Rh_zero, th_zero, rel_zero] <;> rfl
theorem s191_at (b : Fin 128) : s191 x0 x1 (ix1 b) = Rk x0 b 10 1 0 := by
  simp only [s191, k0_pay103, ValueIdx.mulf_apply, ValueIdx.addf_apply, ValueIdx.subf_apply, ValueIdx.broadcast_apply, zero_word, one_word, tovec_at, ascol_at, shapeCast_self, slice_at (N := 216) _ 93 (by norm_num), s1_eq, dot3, newt, Rh_zero, th_zero, rel_zero] <;> rfl
theorem s197_at (b : Fin 128) : s197 x0 x1 (ix1 b) = Rk x0 b 10 2 0 := by
  simp only [s197, k0_pay106, ValueIdx.mulf_apply, ValueIdx.addf_apply, ValueIdx.subf_apply, ValueIdx.broadcast_apply, zero_word, one_word, tovec_at, ascol_at, shapeCast_self, slice_at (N := 216) _ 96 (by norm_num), s1_eq, dot3, newt, Rh_zero, th_zero, rel_zero] <;> rfl
theorem s1438_at (b : Fin 128) : s1438 x0 x1 (ix1 b) = Rh (Rk x0 b) 10 0 0 := by
  simp only [s1438, k0_pay497, ValueIdx.mulf_apply, ValueIdx.addf_apply, ValueIdx.subf_apply, ValueIdx.broadcast_apply, zero_word, one_word, tovec_at, ascol_at, shapeCast_self, s185_at, s191_at, s197_at, s1177_at, s1184_at, s1191_at, dot3, newt, Rh_zero, th_zero, rel_zero, Rh_at _ 10 7 (by norm_num) rfl, th_at _ _ 10 7 (by norm_num) rfl, rel_at _ 10 7 (by norm_num) rfl] <;> rfl
theorem s187_at (b : Fin 128) : s187 x0 x1 (ix1 b) = Rk x0 b 10 0 1 := by
  simp only [s187, k0_pay101, ValueIdx.mulf_apply, ValueIdx.addf_apply, ValueIdx.subf_apply, ValueIdx.broadcast_apply, zero_word, one_word, tovec_at, ascol_at, shapeCast_self, slice_at (N := 216) _ 91 (by norm_num), s1_eq, dot3, newt, Rh_zero, th_zero, rel_zero] <;> rfl
theorem s193_at (b : Fin 128) : s193 x0 x1 (ix1 b) = Rk x0 b 10 1 1 := by
  simp only [s193, k0_pay104, ValueIdx.mulf_apply, ValueIdx.addf_apply, ValueIdx.subf_apply, ValueIdx.broadcast_apply, zero_word, one_word, tovec_at, ascol_at, shapeCast_self, slice_at (N := 216) _ 94 (by norm_num), s1_eq, dot3, newt, Rh_zero, th_zero, rel_zero] <;> rfl
theorem s1443_at (b : Fin 128) : s1443 x0 x1 (ix1 b) = (((0 : EReal) + ((Rh (Rk x0 b) 7 0 0) * (Rk x0 b 10 0 1))) + ((Rh (Rk x0 b) 7 0 1) * (Rk x0 b 10 1 1))) := by
  simp only [s1443, k0_pay498, ValueIdx.mulf_apply, ValueIdx.addf_apply, ValueIdx.subf_apply, ValueIdx.broadcast_apply, zero_word, one_word, tovec_at, ascol_at, shapeCast_self, s187_at, s193_at, s1177_at, s1184_at, dot3, newt, Rh_zero, th_zero, rel_zero] <;> rfl
theorem s199_at (b : Fin 128) : s199 x0 x1 (ix1 b) = Rk x0 b 10 2 1 := by
  simp only [s199, k0_pay107, ValueIdx.mulf_apply, ValueIdx.addf_apply, ValueIdx.subf_apply, ValueIdx.broadcast_apply, zero_word, one_word, tovec_at, ascol_at, shapeCast_self, slice_at (N := 216) _ 97 (by norm_num), s1_eq, dot3, newt, Rh_zero, th_zero, rel_zero] <;> rfl
theorem s1444_at (b : Fin 128) : s1444 x0 x1 (ix1 b) = ((Rh (Rk x0 b) 7 0 2) * (Rk x0 b 10 2 1)) := by
  simp only [s1444, k0_pay499, ValueIdx.mulf_apply, ValueIdx.addf_apply, ValueIdx.subf_apply, ValueIdx.broadcast_apply, zero_word, one_word, tovec_at, ascol_at, shapeCast_self, s199_at, s1191_at, dot3, newt, Rh_zero, th_zero, rel_zero] <;> rfl
theorem s1445_at (b : Fin 128) : s1445 x0 x1 (ix1 b) = Rh (Rk x0 b) 10 0 1 := by
  simp only [s1445, k0_pay500, ValueIdx.mulf_apply, ValueIdx.addf_apply, ValueIdx.subf_apply, ValueIdx.broadcast_apply, zero_word, one_word, tovec_at, ascol_at, shapeCast_self, s1443_at, s1444_at, dot3, newt, Rh_zero, th_zero, rel_zero, Rh_at _ 10 7 (by norm_num) rfl, th_at _ _ 10 7 (by norm_num) rfl, rel_at _ 10 7 (by norm_num) rfl] <;> rfl
theorem s189_at (b : Fin 128) : s189 x0 x1 (ix1 b) = Rk x0 b 10 0 2 := by
  simp only [s189, k0_pay102, ValueIdx.mulf_apply, ValueIdx.addf_apply, ValueIdx.subf_apply, ValueIdx.broadcast_apply, zero_word, one_word, tovec_at, ascol_at, shapeCast_self, slice_at (N := 216) _ 92 (by norm_num), s1_eq, dot3, newt, Rh_zero, th_zero, rel_zero] <;> rfl
theorem s195_at (b : Fin 128) : s195 x0 x1 (ix1 b) = Rk x0 b 10 1 2 := by
  simp only [s195, k0_pay105, ValueIdx.mulf_apply, ValueIdx.addf_apply, ValueIdx.subf_apply, ValueIdx.broadcast_apply, zero_word, one_word, tovec_at, ascol_at, shapeCast_self, slice_at (N := 216) _ 95 (by norm_num), s1_eq, dot3, newt, Rh_zero, th_zero, rel_zero] <;> rfl
theorem s201_at (b : Fin 128) : s201 x0 x1 (ix1 b) = Rk x0 b 10 2 2 := by
  simp only [s201, k0_pay108, ValueIdx.mulf_apply, ValueIdx.addf_apply, ValueIdx.subf_apply, ValueIdx.broadcast_apply, zero_word, one_word, tovec_at, ascol_at, shapeCast_self, slice_at (N := 216) _ 98 (by norm_num), s1_eq, dot3, newt, Rh_zero, th_zero, rel_zero] <;> rfl
theorem s1452_at (b : Fin 128) : s1452 x0 x1 (ix1 b) = Rh (Rk x0 b) 10 0 2 := by
  simp only [s1452, k0_pay501, ValueIdx.mulf_apply, ValueIdx.addf_apply, ValueIdx.subf_apply, ValueIdx.broadcast_apply, zero_word, one_word, tovec_at, ascol_at, shapeCast_self, s189_at, s195_at, s201_at, s1177_at, s1184_at, s1191_at, dot3, newt, Rh_zero, th_zero, rel_zero, Rh_at _ 10 7 (by norm_num) rfl, th_at _ _ 10 7 (by norm_num) rfl, rel_at _ 10 7 (by norm_num) rfl] <;> rfl
theorem s1459_at (b : Fin 128) : s1459 x0 x1 (ix1 b) = Rh (Rk x0 b) 10 1 0 := by
  simp only [s1459, k0_pay502, ValueIdx.mulf_apply, ValueIdx.addf_apply, ValueIdx.subf_apply, ValueIdx.broadcast_apply, zero_word, one_word, tovec_at, ascol_at, shapeCast_self, s185_at, s191_at, s197_at, s1198_at, s1205_at, s1212_at, dot3, newt, Rh_zero, th_zero, rel_zero, Rh_at _ 10 7 (by norm_num) rfl, th_at _ _ 10 7 (by norm_num) rfl, rel_at _ 10 7 (by norm_num) rfl] <;> rfl
theorem s1466_at (b : Fin 128) : s1466 x0 x1 (ix1 b) = Rh (Rk x0 b) 10 1 1 := by
  simp only [s1466, k0_pay503, ValueIdx.mulf_apply, ValueIdx.addf_apply, ValueIdx.subf_apply, ValueIdx.broadcast_apply, zero_word, one_word, tovec_at, ascol_at, shapeCast_self, s187_at, s193_at, s199_at, s1198_at, s1205_at, s1212_at, dot3, newt, Rh_zero, th_zero, rel_zero, Rh_at _ 10 7 (by norm_num) rfl, th_at _ _ 10 7 (by norm_num) rfl, rel_at _ 10 7 (by norm_num) rfl] <;> rfl
theorem s1473_at (b : Fin 128) : s1473 x0 x1 (ix1 b) = Rh (Rk x0 b) 10 1 2 := by
  simp only [s1473, k0_pay504, ValueIdx.mulf_apply, ValueIdx.addf_apply, ValueIdx.subf_apply, ValueIdx.broadcast_apply, zero_word, one_word, tovec_at, ascol_at, shapeCast_self, s189_at, s195_at, s201_at, s1198_at, s1205_at, s1212_at, dot3, newt, Rh_zero, th_zero, rel_zero, Rh_at _ 10 7 (by norm_num) rfl, th_at _ _ 10 7 (by norm_num) rfl, rel_at _ 10 7 (by norm_num) rfl] <;> rfl
theorem s1480_at (b : Fin 128) : s1480 x0 x1 (ix1 b) = Rh (Rk x0 b) 10 2 0 := by
  simp only [s1480, k0_pay505, ValueIdx.mulf_apply, ValueIdx.addf_apply, ValueIdx.subf_apply, ValueIdx.broadcast_apply, zero_word, one_word, tovec_at, ascol_at, shapeCast_self, s185_at, s191_at, s197_at, s1219_at, s1226_at, s1233_at, dot3, newt, Rh_zero, th_zero, rel_zero, Rh_at _ 10 7 (by norm_num) rfl, th_at _ _ 10 7 (by norm_num) rfl, rel_at _ 10 7 (by norm_num) rfl] <;> rfl
theorem s1487_at (b : Fin 128) : s1487 x0 x1 (ix1 b) = Rh (Rk x0 b) 10 2 1 := by
  simp only [s1487, k0_pay506, ValueIdx.mulf_apply, ValueIdx.addf_apply, ValueIdx.subf_apply, ValueIdx.broadcast_apply, zero_word, one_word, tovec_at, ascol_at, shapeCast_self, s187_at, s193_at, s199_at, s1219_at, s1226_at, s1233_at, dot3, newt, Rh_zero, th_zero, rel_zero, Rh_at _ 10 7 (by norm_num) rfl, th_at _ _ 10 7 (by norm_num) rfl, rel_at _ 10 7 (by norm_num) rfl] <;> rfl
theorem s1494_at (b : Fin 128) : s1494 x0 x1 (ix1 b) = Rh (Rk x0 b) 10 2 2 := by
  simp only [s1494, k0_pay507, ValueIdx.mulf_apply, ValueIdx.addf_apply, ValueIdx.subf_apply, ValueIdx.broadcast_apply, zero_word, one_word, tovec_at, ascol_at, shapeCast_self, s189_at, s195_at, s201_at, s1219_at, s1226_at, s1233_at, dot3, newt, Rh_zero, th_zero, rel_zero, Rh_at _ 10 7 (by norm_num) rfl, th_at _ _ 10 7 (by norm_num) rfl, rel_at _ 10 7 (by norm_num) rfl] <;> rfl
theorem s608_at (b : Fin 128) : s608 x0 x1 (ix1 b) = rel (pk x1 b) 10 1 := by
  simp only [s608, k0_pay332, ValueIdx.mulf_apply, ValueIdx.addf_apply, ValueIdx.subf_apply, ValueIdx.broadcast_apply, zero_word, one_word, tovec_at, ascol_at, shapeCast_self, s481_at, s499_at, dot3, newt, Rh_zero, th_zero, rel_zero, Rh_at _ 10 7 (by norm_num) rfl, th_at _ _ 10 7 (by norm_num) rfl, rel_at _ 10 7 (by norm_num) rfl] <;> rfl
theorem s609_at (b : Fin 128) : s609 x0 x1 (ix1 b) = rel (pk x1 b) 10 2 := by
  simp only [s609, k0_pay333, ValueIdx.mulf_apply, ValueIdx.addf_apply, ValueIdx.subf_apply, ValueIdx.broadcast_apply, zero_word, one_word, tovec_at, ascol_at, shapeCast_self, s483_at, s501_at, dot3, newt, Rh_zero, th_zero, rel_zero, Rh_at _ 10 7 (by norm_num) rfl, th_at _ _ 10 7 (by norm_num) rfl, rel_at _ 10 7 (by norm_num) rfl] <;> rfl
theorem s607_at (b : Fin 128) : s607 x0 x1 (ix1 b) = rel (pk x1 b) 10 0 := by
  simp only [s607, k0_pay331, ValueIdx.mulf_apply, ValueIdx.addf_apply, ValueIdx.subf_apply, ValueIdx.broadcast_apply, zero_word, one_word, tovec_at, ascol_at, shapeCast_self, s479_at, s497_at, dot3, newt, Rh_zero, th_zero, rel_zero, Rh_at _ 10 7 (by norm_num) rfl, th_at _ _ 10 7 (by norm_num) rfl, rel_at _ 10 7 (by norm_num) rfl] <;> rfl
theorem s1495_at (b : Fin 128) : s1495 x0 x1 (ix1 b) = ((Rh (Rk x0 b) 7 0 0) * (rel (pk x1 b) 10 0)) := by
  simp only [s1495, k0_pay508, ValueIdx.mulf_apply, ValueIdx.addf_apply, ValueIdx.subf_apply, ValueIdx.broadcast_apply, zero_word, one_word, tovec_at, ascol_at, shapeCast_self, s607_at, s1177_at, dot3, newt, Rh_zero, th_zero, rel_zero] <;> rfl
theorem s1496_at (b : Fin 128) : s1496 x0 x1 (ix1 b) = (0 : EReal) := by
  simp only [s1496, k0_pay509, ValueIdx.mulf_apply, ValueIdx.addf_apply, ValueIdx.subf_apply, ValueIdx.broadcast_apply, zero_word, one_word, tovec_at, ascol_at, shapeCast_self, dot3, newt, Rh_zero, th_zero, rel_zero] <;> rfl
theorem s1502_at (b : Fin 128) : s1502 x0 x1 (ix1 b) = th (Rk x0 b) (pk x1 b) 10 0 := by
  simp only [s1502, k0_pay510, ValueIdx.mulf_apply, ValueIdx.addf_apply, ValueIdx.subf_apply, ValueIdx.broadcast_apply, zero_word, one_word, tovec_at, ascol_at, shapeCast_self, s608_at, s609_at, s1184_at, s1191_at, s1241_at, s1495_at, s1496_at, dot3, newt, Rh_zero, th_zero, rel_zero, Rh_at _ 10 7 (by norm_num) rfl, th_at _ _ 10 7 (by norm_num) rfl, rel_at _ 10 7 (by norm_num) rfl] <;> rfl
theorem s1510_at (b : Fin 128) : s1510 x0 x1 (ix1 b) = th (Rk x0 b) (pk x1 b) 10 1 := by
  simp only [s1510, k0_pay511, ValueIdx.mulf_apply, ValueIdx.addf_apply, ValueIdx.subf_apply, ValueIdx.broadcast_apply, zero_word, one_word, tovec_at, ascol_at, shapeCast_self, s607_at, s608_at, s609_at, s1198_at, s1205_at, s1212_at, s1249_at, dot3, newt, Rh_zero, th_zero, rel_zero, Rh_at _ 10 7 (by norm_num) rfl, th_at _ _ 10 7 (by norm_num) rfl, rel_at _ 10 7 (by norm_num) rfl] <;> rfl
theorem s1518_at (b : Fin 128) : s1518 x0 x1 (ix1 b) = th (Rk x0 b) (pk x1 b) 10 2 := by
  simp only [s1518, k0_pay512, ValueIdx.mulf_apply, ValueIdx.addf_apply, ValueIdx.subf_apply, ValueIdx.broadcast_apply, zero_word, one_word, tovec_at, ascol_at, shapeCast_self, s607_at, s608_at, s609_at, s1219_at, s1226_at, s1233_at, s1257_at, dot3, newt, Rh_zero, th_zero, rel_zero, Rh_at _ 10 7 (by norm_num) rfl, th_at _ _ 10 7 (by norm_num) rfl, rel_at _ 10 7 (by norm_num) rfl] <;> rfl
theorem s3104_at (b : Fin 128) : s3104 x0 x1 (ix1 b) = ((0 : EReal) + ((Rh (Rk x0 b) 10 0 0) * (pk x1 b 10 0))) := by
  simp only [s3104, k0_pay761, ValueIdx.mulf_apply, ValueIdx.addf_apply, ValueIdx.subf_apply, ValueIdx.broadcast_apply, zero_word, one_word, tovec_at, ascol_at, shapeCast_self, s497_at, s1438_at, dot3, newt, Rh_zero, th_zero, rel_zero] <;> rfl
theorem s3105_at (b : Fin 128) : s3105 x0 x1 (ix1 b) = ((Rh (Rk x0 b) 10 0 1) * (pk x1 b 10 1)) := by
  simp only [s3105, k0_pay762, ValueIdx.mulf_apply, ValueIdx.addf_apply, ValueIdx.subf_apply, ValueIdx.broadcast_apply, zero_word, one_word, tovec_at, ascol_at, shapeCast_self, s499_at, s1445_at, dot3, newt, Rh_zero, th_zero, rel_zero] <;> rfl
theorem s3142_c0 (b : Fin 128) : s3142 x0 x1 (ix2 b (⟨0, by norm_num⟩ : Fin 16)) = Rh (Rk x0 b) 10 0 0 := by
  simp only [s3142, k0_pay763]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s497_at, s499_at, s501_at, s1438_at, s1445_at, s1452_at, s1459_at, s1466_at, s1473_at, s1480_at, s1487_at, s1494_at, s1502_at, s1510_at, s1518_at, s2650_at, s2651_at, s3104_at, s3105_at, dot3, newt, Rh_zero, th_zero, rel_zero, Rh_at _ 10 7 (by norm_num) rfl, th_at _ _ 10 7 (by norm_num) rfl, rel_at _ 10 7 (by norm_num) rfl] <;> rfl
theorem s3142_c1 (b : Fin 128) : s3142 x0 x1 (ix2 b (⟨1, by norm_num⟩ : Fin 16)) = Rh (Rk x0 b) 10 0 1 := by
  simp only [s3142, k0_pay763]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s497_at, s499_at, s501_at, s1438_at, s1445_at, s1452_at, s1459_at, s1466_at, s1473_at, s1480_at, s1487_at, s1494_at, s1502_at, s1510_at, s1518_at, s2650_at, s2651_at, s3104_at, s3105_at, dot3, newt, Rh_zero, th_zero, rel_zero, Rh_at _ 10 7 (by norm_num) rfl, th_at _ _ 10 7 (by norm_num) rfl, rel_at _ 10 7 (by norm_num) rfl] <;> rfl
theorem s3142_c2 (b : Fin 128) : s3142 x0 x1 (ix2 b (⟨2, by norm_num⟩ : Fin 16)) = Rh (Rk x0 b) 10 0 2 := by
  simp only [s3142, k0_pay763]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s497_at, s499_at, s501_at, s1438_at, s1445_at, s1452_at, s1459_at, s1466_at, s1473_at, s1480_at, s1487_at, s1494_at, s1502_at, s1510_at, s1518_at, s2650_at, s2651_at, s3104_at, s3105_at, dot3, newt, Rh_zero, th_zero, rel_zero, Rh_at _ 10 7 (by norm_num) rfl, th_at _ _ 10 7 (by norm_num) rfl, rel_at _ 10 7 (by norm_num) rfl] <;> rfl
theorem s3142_c3 (b : Fin 128) : s3142 x0 x1 (ix2 b (⟨3, by norm_num⟩ : Fin 16)) = newt (Rk x0 b) (pk x1 b) 10 0 := by
  simp only [s3142, k0_pay763]
  refine (concat_unit_piece 3 (by norm_num) _ _ _ (by simp) rfl rfl b).trans ?_
  simp only [ValueIdx.mulf_apply, ValueIdx.addf_apply, ValueIdx.subf_apply, ValueIdx.broadcast_apply, zero_word, one_word, tovec_at, ascol_at, shapeCast_self, s497_at, s499_at, s501_at, s1438_at, s1445_at, s1452_at, s1459_at, s1466_at, s1473_at, s1480_at, s1487_at, s1494_at, s1502_at, s1510_at, s1518_at, s2650_at, s2651_at, s3104_at, s3105_at, dot3, newt, Rh_zero, th_zero, rel_zero, Rh_at _ 10 7 (by norm_num) rfl, th_at _ _ 10 7 (by norm_num) rfl, rel_at _ 10 7 (by norm_num) rfl] <;> rfl
theorem s3142_c4 (b : Fin 128) : s3142 x0 x1 (ix2 b (⟨4, by norm_num⟩ : Fin 16)) = Rh (Rk x0 b) 10 1 0 := by
  simp only [s3142, k0_pay763]
  refine (concat_unit_piece 4 (by norm_num) _ _ _ (by simp) rfl rfl b).trans ?_
  simp only [ValueIdx.mulf_apply, ValueIdx.addf_apply, ValueIdx.subf_apply, ValueIdx.broadcast_apply, zero_word, one_word, tovec_at, ascol_at, shapeCast_self, s497_at, s499_at, s501_at, s1438_at, s1445_at, s1452_at, s1459_at, s1466_at, s1473_at, s1480_at, s1487_at, s1494_at, s1502_at, s1510_at, s1518_at, s2650_at, s2651_at, s3104_at, s3105_at, dot3, newt, Rh_zero, th_zero, rel_zero, Rh_at _ 10 7 (by norm_num) rfl, th_at _ _ 10 7 (by norm_num) rfl, rel_at _ 10 7 (by norm_num) rfl] <;> rfl
theorem s3142_c5 (b : Fin 128) : s3142 x0 x1 (ix2 b (⟨5, by norm_num⟩ : Fin 16)) = Rh (Rk x0 b) 10 1 1 := by
  simp only [s3142, k0_pay763]
  refine (concat_unit_piece 5 (by norm_num) _ _ _ (by simp) rfl rfl b).trans ?_
  simp only [ValueIdx.mulf_apply, ValueIdx.addf_apply, ValueIdx.subf_apply, ValueIdx.broadcast_apply, zero_word, one_word, tovec_at, ascol_at, shapeCast_self, s497_at, s499_at, s501_at, s1438_at, s1445_at, s1452_at, s1459_at, s1466_at, s1473_at, s1480_at, s1487_at, s1494_at, s1502_at, s1510_at, s1518_at, s2650_at, s2651_at, s3104_at, s3105_at, dot3, newt, Rh_zero, th_zero, rel_zero, Rh_at _ 10 7 (by norm_num) rfl, th_at _ _ 10 7 (by norm_num) rfl, rel_at _ 10 7 (by norm_num) rfl] <;> rfl
theorem s3142_c6 (b : Fin 128) : s3142 x0 x1 (ix2 b (⟨6, by norm_num⟩ : Fin 16)) = Rh (Rk x0 b) 10 1 2 := by
  simp only [s3142, k0_pay763]
  refine (concat_unit_piece 6 (by norm_num) _ _ _ (by simp) rfl rfl b).trans ?_
  simp only [ValueIdx.mulf_apply, ValueIdx.addf_apply, ValueIdx.subf_apply, ValueIdx.broadcast_apply, zero_word, one_word, tovec_at, ascol_at, shapeCast_self, s497_at, s499_at, s501_at, s1438_at, s1445_at, s1452_at, s1459_at, s1466_at, s1473_at, s1480_at, s1487_at, s1494_at, s1502_at, s1510_at, s1518_at, s2650_at, s2651_at, s3104_at, s3105_at, dot3, newt, Rh_zero, th_zero, rel_zero, Rh_at _ 10 7 (by norm_num) rfl, th_at _ _ 10 7 (by norm_num) rfl, rel_at _ 10 7 (by norm_num) rfl] <;> rfl
theorem s3142_c7 (b : Fin 128) : s3142 x0 x1 (ix2 b (⟨7, by norm_num⟩ : Fin 16)) = newt (Rk x0 b) (pk x1 b) 10 1 := by
  simp only [s3142, k0_pay763]
  refine (concat_unit_piece 7 (by norm_num) _ _ _ (by simp) rfl rfl b).trans ?_
  simp only [ValueIdx.mulf_apply, ValueIdx.addf_apply, ValueIdx.subf_apply, ValueIdx.broadcast_apply, zero_word, one_word, tovec_at, ascol_at, shapeCast_self, s497_at, s499_at, s501_at, s1438_at, s1445_at, s1452_at, s1459_at, s1466_at, s1473_at, s1480_at, s1487_at, s1494_at, s1502_at, s1510_at, s1518_at, s2650_at, s2651_at, s3104_at, s3105_at, dot3, newt, Rh_zero, th_zero, rel_zero, Rh_at _ 10 7 (by norm_num) rfl, th_at _ _ 10 7 (by norm_num) rfl, rel_at _ 10 7 (by norm_num) rfl] <;> rfl
theorem s3142_c8 (b : Fin 128) : s3142 x0 x1 (ix2 b (⟨8, by norm_num⟩ : Fin 16)) = Rh (Rk x0 b) 10 2 0 := by
  simp only [s3142, k0_pay763]
  refine (concat_unit_piece 8 (by norm_num) _ _ _ (by simp) rfl rfl b).trans ?_
  simp only [ValueIdx.mulf_apply, ValueIdx.addf_apply, ValueIdx.subf_apply, ValueIdx.broadcast_apply, zero_word, one_word, tovec_at, ascol_at, shapeCast_self, s497_at, s499_at, s501_at, s1438_at, s1445_at, s1452_at, s1459_at, s1466_at, s1473_at, s1480_at, s1487_at, s1494_at, s1502_at, s1510_at, s1518_at, s2650_at, s2651_at, s3104_at, s3105_at, dot3, newt, Rh_zero, th_zero, rel_zero, Rh_at _ 10 7 (by norm_num) rfl, th_at _ _ 10 7 (by norm_num) rfl, rel_at _ 10 7 (by norm_num) rfl] <;> rfl
theorem s3142_c9 (b : Fin 128) : s3142 x0 x1 (ix2 b (⟨9, by norm_num⟩ : Fin 16)) = Rh (Rk x0 b) 10 2 1 := by
  simp only [s3142, k0_pay763]
  refine (concat_unit_piece 9 (by norm_num) _ _ _ (by simp) rfl rfl b).trans ?_
  simp only [ValueIdx.mulf_apply, ValueIdx.addf_apply, ValueIdx.subf_apply, ValueIdx.broadcast_apply, zero_word, one_word, tovec_at, ascol_at, shapeCast_self, s497_at, s499_at, s501_at, s1438_at, s1445_at, s1452_at, s1459_at, s1466_at, s1473_at, s1480_at, s1487_at, s1494_at, s1502_at, s1510_at, s1518_at, s2650_at, s2651_at, s3104_at, s3105_at, dot3, newt, Rh_zero, th_zero, rel_zero, Rh_at _ 10 7 (by norm_num) rfl, th_at _ _ 10 7 (by norm_num) rfl, rel_at _ 10 7 (by norm_num) rfl] <;> rfl
theorem s3142_c10 (b : Fin 128) : s3142 x0 x1 (ix2 b (⟨10, by norm_num⟩ : Fin 16)) = Rh (Rk x0 b) 10 2 2 := by
  simp only [s3142, k0_pay763]
  refine (concat_unit_piece 10 (by norm_num) _ _ _ (by simp) rfl rfl b).trans ?_
  simp only [ValueIdx.mulf_apply, ValueIdx.addf_apply, ValueIdx.subf_apply, ValueIdx.broadcast_apply, zero_word, one_word, tovec_at, ascol_at, shapeCast_self, s497_at, s499_at, s501_at, s1438_at, s1445_at, s1452_at, s1459_at, s1466_at, s1473_at, s1480_at, s1487_at, s1494_at, s1502_at, s1510_at, s1518_at, s2650_at, s2651_at, s3104_at, s3105_at, dot3, newt, Rh_zero, th_zero, rel_zero, Rh_at _ 10 7 (by norm_num) rfl, th_at _ _ 10 7 (by norm_num) rfl, rel_at _ 10 7 (by norm_num) rfl] <;> rfl
theorem s3142_c11 (b : Fin 128) : s3142 x0 x1 (ix2 b (⟨11, by norm_num⟩ : Fin 16)) = newt (Rk x0 b) (pk x1 b) 10 2 := by
  simp only [s3142, k0_pay763]
  refine (concat_unit_piece 11 (by norm_num) _ _ _ (by simp) rfl rfl b).trans ?_
  simp only [ValueIdx.mulf_apply, ValueIdx.addf_apply, ValueIdx.subf_apply, ValueIdx.broadcast_apply, zero_word, one_word, tovec_at, ascol_at, shapeCast_self, s497_at, s499_at, s501_at, s1438_at, s1445_at, s1452_at, s1459_at, s1466_at, s1473_at, s1480_at, s1487_at, s1494_at, s1502_at, s1510_at, s1518_at, s2650_at, s2651_at, s3104_at, s3105_at, dot3, newt, Rh_zero, th_zero, rel_zero, Rh_at _ 10 7 (by norm_num) rfl, th_at _ _ 10 7 (by norm_num) rfl, rel_at _ 10 7 (by norm_num) rfl] <;> rfl
theorem s3142_c12 (b : Fin 128) : s3142 x0 x1 (ix2 b (⟨12, by norm_num⟩ : Fin 16)) = (0 : EReal) := by
  simp only [s3142, k0_pay763]
  refine (concat_unit_piece 12 (by norm_num) _ _ _ (by simp) rfl rfl b).trans ?_
  simp only [ValueIdx.mulf_apply, ValueIdx.addf_apply, ValueIdx.subf_apply, ValueIdx.broadcast_apply, zero_word, one_word, tovec_at, ascol_at, shapeCast_self, s497_at, s499_at, s501_at, s1438_at, s1445_at, s1452_at, s1459_at, s1466_at, s1473_at, s1480_at, s1487_at, s1494_at, s1502_at, s1510_at, s1518_at, s2650_at, s2651_at, s3104_at, s3105_at, dot3, newt, Rh_zero, th_zero, rel_zero, Rh_at _ 10 7 (by norm_num) rfl, th_at _ _ 10 7 (by norm_num) rfl, rel_at _ 10 7 (by norm_num) rfl] <;> rfl
theorem s3142_c13 (b : Fin 128) : s3142 x0 x1 (ix2 b (⟨13, by norm_num⟩ : Fin 16)) = (0 : EReal) := by
  simp only [s3142, k0_pay763]
  refine (concat_unit_piece 13 (by norm_num) _ _ _ (by simp) rfl rfl b).trans ?_
  simp only [ValueIdx.mulf_apply, ValueIdx.addf_apply, ValueIdx.subf_apply, ValueIdx.broadcast_apply, zero_word, one_word, tovec_at, ascol_at, shapeCast_self, s497_at, s499_at, s501_at, s1438_at, s1445_at, s1452_at, s1459_at, s1466_at, s1473_at, s1480_at, s1487_at, s1494_at, s1502_at, s1510_at, s1518_at, s2650_at, s2651_at, s3104_at, s3105_at, dot3, newt, Rh_zero, th_zero, rel_zero, Rh_at _ 10 7 (by norm_num) rfl, th_at _ _ 10 7 (by norm_num) rfl, rel_at _ 10 7 (by norm_num) rfl] <;> rfl
theorem s3142_c14 (b : Fin 128) : s3142 x0 x1 (ix2 b (⟨14, by norm_num⟩ : Fin 16)) = (0 : EReal) := by
  simp only [s3142, k0_pay763]
  refine (concat_unit_piece 14 (by norm_num) _ _ _ (by simp) rfl rfl b).trans ?_
  simp only [ValueIdx.mulf_apply, ValueIdx.addf_apply, ValueIdx.subf_apply, ValueIdx.broadcast_apply, zero_word, one_word, tovec_at, ascol_at, shapeCast_self, s497_at, s499_at, s501_at, s1438_at, s1445_at, s1452_at, s1459_at, s1466_at, s1473_at, s1480_at, s1487_at, s1494_at, s1502_at, s1510_at, s1518_at, s2650_at, s2651_at, s3104_at, s3105_at, dot3, newt, Rh_zero, th_zero, rel_zero, Rh_at _ 10 7 (by norm_num) rfl, th_at _ _ 10 7 (by norm_num) rfl, rel_at _ 10 7 (by norm_num) rfl] <;> rfl
theorem s3142_c15 (b : Fin 128) : s3142 x0 x1 (ix2 b (⟨15, by norm_num⟩ : Fin 16)) = (1 : EReal) := by
  simp only [s3142, k0_pay763]
  refine (concat_unit_piece 15 (by norm_num) _ _ _ (by simp) rfl rfl b).trans ?_
  simp only [ValueIdx.mulf_apply, ValueIdx.addf_apply, ValueIdx.subf_apply, ValueIdx.broadcast_apply, zero_word, one_word, tovec_at, ascol_at, shapeCast_self, s497_at, s499_at, s501_at, s1438_at, s1445_at, s1452_at, s1459_at, s1466_at, s1473_at, s1480_at, s1487_at, s1494_at, s1502_at, s1510_at, s1518_at, s2650_at, s2651_at, s3104_at, s3105_at, dot3, newt, Rh_zero, th_zero, rel_zero, Rh_at _ 10 7 (by norm_num) rfl, th_at _ _ 10 7 (by norm_num) rfl, rel_at _ 10 7 (by norm_num) rfl] <;> rfl
theorem s503_at (b : Fin 128) : s503 x0 x1 (ix1 b) = pk x1 b 11 0 := by
  simp only [s503, k0_pay264, ValueIdx.mulf_apply, ValueIdx.addf_apply, ValueIdx.subf_apply, ValueIdx.broadcast_apply, zero_word, one_word, tovec_at, ascol_at, shapeCast_self, slice_at (N := 72) _ 33 (by norm_num), s3_eq, dot3, newt, Rh_zero, th_zero, rel_zero] <;> rfl
theorem s505_at (b : Fin 128) : s505 x0 x1 (ix1 b) = pk x1 b 11 1 := by
  simp only [s505, k0_pay265, ValueIdx.mulf_apply, ValueIdx.addf_apply, ValueIdx.subf_apply, ValueIdx.broadcast_apply, zero_word, one_word, tovec_at, ascol_at, shapeCast_self, slice_at (N := 72) _ 34 (by norm_num), s3_eq, dot3, newt, Rh_zero, th_zero, rel_zero] <;> rfl
theorem s507_at (b : Fin 128) : s507 x0 x1 (ix1 b) = pk x1 b 11 2 := by
  simp only [s507, k0_pay266, ValueIdx.mulf_apply, ValueIdx.addf_apply, ValueIdx.subf_apply, ValueIdx.broadcast_apply, zero_word, one_word, tovec_at, ascol_at, shapeCast_self, slice_at (N := 72) _ 35 (by norm_num), s3_eq, dot3, newt, Rh_zero, th_zero, rel_zero] <;> rfl
theorem s203_at (b : Fin 128) : s203 x0 x1 (ix1 b) = Rk x0 b 11 0 0 := by
  simp only [s203, k0_pay109, ValueIdx.mulf_apply, ValueIdx.addf_apply, ValueIdx.subf_apply, ValueIdx.broadcast_apply, zero_word, one_word, tovec_at, ascol_at, shapeCast_self, slice_at (N := 216) _ 99 (by norm_num), s1_eq, dot3, newt, Rh_zero, th_zero, rel_zero] <;> rfl
theorem s209_at (b : Fin 128) : s209 x0 x1 (ix1 b) = Rk x0 b 11 1 0 := by
  simp only [s209, k0_pay112, ValueIdx.mulf_apply, ValueIdx.addf_apply, ValueIdx.subf_apply, ValueIdx.broadcast_apply, zero_word, one_word, tovec_at, ascol_at, shapeCast_self, slice_at (N := 216) _ 102 (by norm_num), s1_eq, dot3, newt, Rh_zero, th_zero, rel_zero] <;> rfl
theorem s215_at (b : Fin 128) : s215 x0 x1 (ix1 b) = Rk x0 b 11 2 0 := by
  simp only [s215, k0_pay115, ValueIdx.mulf_apply, ValueIdx.addf_apply, ValueIdx.subf_apply, ValueIdx.broadcast_apply, zero_word, one_word, tovec_at, ascol_at, shapeCast_self, slice_at (N := 216) _ 105 (by norm_num), s1_eq, dot3, newt, Rh_zero, th_zero, rel_zero] <;> rfl
theorem s1525_at (b : Fin 128) : s1525 x0 x1 (ix1 b) = Rh (Rk x0 b) 11 0 0 := by
  simp only [s1525, k0_pay513, ValueIdx.mulf_apply, ValueIdx.addf_apply, ValueIdx.subf_apply, ValueIdx.broadcast_apply, zero_word, one_word, tovec_at, ascol_at, shapeCast_self, s203_at, s209_at, s215_at, s1264_at, s1271_at, s1278_at, dot3, newt, Rh_zero, th_zero, rel_zero, Rh_at _ 11 8 (by norm_num) rfl, th_at _ _ 11 8 (by norm_num) rfl, rel_at _ 11 8 (by norm_num) rfl] <;> rfl
theorem s205_at (b : Fin 128) : s205 x0 x1 (ix1 b) = Rk x0 b 11 0 1 := by
  simp only [s205, k0_pay110, ValueIdx.mulf_apply, ValueIdx.addf_apply, ValueIdx.subf_apply, ValueIdx.broadcast_apply, zero_word, one_word, tovec_at, ascol_at, shapeCast_self, slice_at (N := 216) _ 100 (by norm_num), s1_eq, dot3, newt, Rh_zero, th_zero, rel_zero] <;> rfl
theorem s211_at (b : Fin 128) : s211 x0 x1 (ix1 b) = Rk x0 b 11 1 1 := by
  simp only [s211, k0_pay113, ValueIdx.mulf_apply, ValueIdx.addf_apply, ValueIdx.subf_apply, ValueIdx.broadcast_apply, zero_word, one_word, tovec_at, ascol_at, shapeCast_self, slice_at (N := 216) _ 103 (by norm_num), s1_eq, dot3, newt, Rh_zero, th_zero, rel_zero] <;> rfl
theorem s217_at (b : Fin 128) : s217 x0 x1 (ix1 b) = Rk x0 b 11 2 1 := by
  simp only [s217, k0_pay116, ValueIdx.mulf_apply, ValueIdx.addf_apply, ValueIdx.subf_apply, ValueIdx.broadcast_apply, zero_word, one_word, tovec_at, ascol_at, shapeCast_self, slice_at (N := 216) _ 106 (by norm_num), s1_eq, dot3, newt, Rh_zero, th_zero, rel_zero] <;> rfl
theorem s1532_at (b : Fin 128) : s1532 x0 x1 (ix1 b) = Rh (Rk x0 b) 11 0 1 := by
  simp only [s1532, k0_pay514, ValueIdx.mulf_apply, ValueIdx.addf_apply, ValueIdx.subf_apply, ValueIdx.broadcast_apply, zero_word, one_word, tovec_at, ascol_at, shapeCast_self, s205_at, s211_at, s217_at, s1264_at, s1271_at, s1278_at, dot3, newt, Rh_zero, th_zero, rel_zero, Rh_at _ 11 8 (by norm_num) rfl, th_at _ _ 11 8 (by norm_num) rfl, rel_at _ 11 8 (by norm_num) rfl] <;> rfl
theorem s207_at (b : Fin 128) : s207 x0 x1 (ix1 b) = Rk x0 b 11 0 2 := by
  simp only [s207, k0_pay111, ValueIdx.mulf_apply, ValueIdx.addf_apply, ValueIdx.subf_apply, ValueIdx.broadcast_apply, zero_word, one_word, tovec_at, ascol_at, shapeCast_self, slice_at (N := 216) _ 101 (by norm_num), s1_eq, dot3, newt, Rh_zero, th_zero, rel_zero] <;> rfl
theorem s213_at (b : Fin 128) : s213 x0 x1 (ix1 b) = Rk x0 b 11 1 2 := by
  simp only [s213, k0_pay114, ValueIdx.mulf_apply, ValueIdx.addf_apply, ValueIdx.subf_apply, ValueIdx.broadcast_apply, zero_word, one_word, tovec_at, ascol_at, shapeCast_self, slice_at (N := 216) _ 104 (by norm_num), s1_eq, dot3, newt, Rh_zero, th_zero, rel_zero] <;> rfl
theorem s219_at (b : Fin 128) : s219 x0 x1 (ix1 b) = Rk x0 b 11 2 2 := by
  simp only [s219, k0_pay117, ValueIdx.mulf_apply, ValueIdx.addf_apply, ValueIdx.subf_apply, ValueIdx.broadcast_apply, zero_word, one_word, tovec_at, ascol_at, shapeCast_self, slice_at (N := 216) _ 107 (by norm_num), s1_eq, dot3, newt, Rh_zero, th_zero, rel_zero] <;> rfl
theorem s1539_at (b : Fin 128) : s1539 x0 x1 (ix1 b) = Rh (Rk x0 b) 11 0 2 := by
  simp only [s1539, k0_pay515, ValueIdx.mulf_apply, ValueIdx.addf_apply, ValueIdx.subf_apply, ValueIdx.broadcast_apply, zero_word, one_word, tovec_at, ascol_at, shapeCast_self, s207_at, s213_at, s219_at, s1264_at, s1271_at, s1278_at, dot3, newt, Rh_zero, th_zero, rel_zero, Rh_at _ 11 8 (by norm_num) rfl, th_at _ _ 11 8 (by norm_num) rfl, rel_at _ 11 8 (by norm_num) rfl] <;> rfl
theorem s1546_at (b : Fin 128) : s1546 x0 x1 (ix1 b) = Rh (Rk x0 b) 11 1 0 := by
  simp only [s1546, k0_pay516, ValueIdx.mulf_apply, ValueIdx.addf_apply, ValueIdx.subf_apply, ValueIdx.broadcast_apply, zero_word, one_word, tovec_at, ascol_at, shapeCast_self, s203_at, s209_at, s215_at, s1285_at, s1292_at, s1299_at, dot3, newt, Rh_zero, th_zero, rel_zero, Rh_at _ 11 8 (by norm_num) rfl, th_at _ _ 11 8 (by norm_num) rfl, rel_at _ 11 8 (by norm_num) rfl] <;> rfl
theorem s1549_at (b : Fin 128) : s1549 x0 x1 (ix1 b) = ((0 : EReal) + ((Rh (Rk x0 b) 8 1 0) * (Rk x0 b 11 0 1))) := by
  simp only [s1549, k0_pay517, ValueIdx.mulf_apply, ValueIdx.addf_apply, ValueIdx.subf_apply, ValueIdx.broadcast_apply, zero_word, one_word, tovec_at, ascol_at, shapeCast_self, s205_at, s1285_at, dot3, newt, Rh_zero, th_zero, rel_zero] <;> rfl
theorem s1553_at (b : Fin 128) : s1553 x0 x1 (ix1 b) = Rh (Rk x0 b) 11 1 1 := by
  simp only [s1553, k0_pay518, ValueIdx.mulf_apply, ValueIdx.addf_apply, ValueIdx.subf_apply, ValueIdx.broadcast_apply, zero_word, one_word, tovec_at, ascol_at, shapeCast_self, s211_at, s217_at, s1292_at, s1299_at, s1549_at, dot3, newt, Rh_zero, th_zero, rel_zero, Rh_at _ 11 8 (by norm_num) rfl, th_at _ _ 11 8 (by norm_num) rfl, rel_at _ 11 8 (by norm_num) rfl] <;> rfl
theorem s1560_at (b : Fin 128) : s1560 x0 x1 (ix1 b) = Rh (Rk x0 b) 11 1 2 := by
  simp only [s1560, k0_pay519, ValueIdx.mulf_apply, ValueIdx.addf_apply, ValueIdx.subf_apply, ValueIdx.broadcast_apply, zero_word, one_word, tovec_at, ascol_at, shapeCast_self, s207_at, s213_at, s219_at, s1285_at, s1292_at, s1299_at, dot3, newt, Rh_zero, th_zero, rel_zero, Rh_at _ 11 8 (by norm_num) rfl, th_at _ _ 11 8 (by norm_num) rfl, rel_at _ 11 8 (by norm_num) rfl] <;> rfl
theorem s1567_at (b : Fin 128) : s1567 x0 x1 (ix1 b) = Rh (Rk x0 b) 11 2 0 := by
  simp only [s1567, k0_pay520, ValueIdx.mulf_apply, ValueIdx.addf_apply, ValueIdx.subf_apply, ValueIdx.broadcast_apply, zero_word, one_word, tovec_at, ascol_at, shapeCast_self, s203_at, s209_at, s215_at, s1306_at, s1313_at, s1320_at, dot3, newt, Rh_zero, th_zero, rel_zero, Rh_at _ 11 8 (by norm_num) rfl, th_at _ _ 11 8 (by norm_num) rfl, rel_at _ 11 8 (by norm_num) rfl] <;> rfl
theorem s1574_at (b : Fin 128) : s1574 x0 x1 (ix1 b) = Rh (Rk x0 b) 11 2 1 := by
  simp only [s1574, k0_pay521, ValueIdx.mulf_apply, ValueIdx.addf_apply, ValueIdx.subf_apply, ValueIdx.broadcast_apply, zero_word, one_word, tovec_at, ascol_at, shapeCast_self, s205_at, s211_at, s217_at, s1306_at, s1313_at, s1320_at, dot3, newt, Rh_zero, th_zero, rel_zero, Rh_at _ 11 8 (by norm_num) rfl, th_at _ _ 11 8 (by norm_num) rfl, rel_at _ 11 8 (by norm_num) rfl] <;> rfl
theorem s1581_at (b : Fin 128) : s1581 x0 x1 (ix1 b) = Rh (Rk x0 b) 11 2 2 := by
  simp only [s1581, k0_pay522, ValueIdx.mulf_apply, ValueIdx.addf_apply, ValueIdx.subf_apply, ValueIdx.broadcast_apply, zero_word, one_word, tovec_at, ascol_at, shapeCast_self, s207_at, s213_at, s219_at, s1306_at, s1313_at, s1320_at, dot3, newt, Rh_zero, th_zero, rel_zero, Rh_at _ 11 8 (by norm_num) rfl, th_at _ _ 11 8 (by norm_num) rfl, rel_at _ 11 8 (by norm_num) rfl] <;> rfl
theorem s610_at (b : Fin 128) : s610 x0 x1 (ix1 b) = rel (pk x1 b) 11 0 := by
  simp only [s610, k0_pay334, ValueIdx.mulf_apply, ValueIdx.addf_apply, ValueIdx.subf_apply, ValueIdx.broadcast_apply, zero_word, one_word, tovec_at, ascol_at, shapeCast_self, s485_at, s503_at, dot3, newt, Rh_zero, th_zero, rel_zero, Rh_at _ 11 8 (by norm_num) rfl, th_at _ _ 11 8 (by norm_num) rfl, rel_at _ 11 8 (by norm_num) rfl] <;> rfl
theorem s611_at (b : Fin 128) : s611 x0 x1 (ix1 b) = rel (pk x1 b) 11 1 := by
  simp only [s611, k0_pay335, ValueIdx.mulf_apply, ValueIdx.addf_apply, ValueIdx.subf_apply, ValueIdx.broadcast_apply, zero_word, one_word, tovec_at, ascol_at, shapeCast_self, s487_at, s505_at, dot3, newt, Rh_zero, th_zero, rel_zero, Rh_at _ 11 8 (by norm_num) rfl, th_at _ _ 11 8 (by norm_num) rfl, rel_at _ 11 8 (by norm_num) rfl] <;> rfl
theorem s612_at (b : Fin 128) : s612 x0 x1 (ix1 b) = rel (pk x1 b) 11 2 := by
  simp only [s612, k0_pay336, ValueIdx.mulf_apply, ValueIdx.addf_apply, ValueIdx.subf_apply, ValueIdx.broadcast_apply, zero_word, one_word, tovec_at, ascol_at, shapeCast_self, s489_at, s507_at, dot3, newt, Rh_zero, th_zero, rel_zero, Rh_at _ 11 8 (by norm_num) rfl, th_at _ _ 11 8 (by norm_num) rfl, rel_at _ 11 8 (by norm_num) rfl] <;> rfl
theorem s1597_at (b : Fin 128) : s1597 x0 x1 (ix1 b) = th (Rk x0 b) (pk x1 b) 11 1 := by
  simp only [s1597, k0_pay524, ValueIdx.mulf_apply, ValueIdx.addf_apply, ValueIdx.subf_apply, ValueIdx.broadcast_apply, zero_word, one_word, tovec_at, ascol_at, shapeCast_self, s610_at, s611_at, s612_at, s1285_at, s1292_at, s1299_at, s1336_at, dot3, newt, Rh_zero, th_zero, rel_zero, Rh_at _ 11 8 (by norm_num) rfl, th_at _ _ 11 8 (by norm_num) rfl, rel_at _ 11 8 (by norm_num) rfl] <;> rfl
theorem s1602_at (b : Fin 128) : s1602 x0 x1 (ix1 b) = (((0 : EReal) + ((Rh (Rk x0 b) 8 2 0) * (rel (pk x1 b) 11 0))) + ((Rh (Rk x0 b) 8 2 1) * (rel (pk x1 b) 11 1))) := by
  simp only [s1602, k0_pay525, ValueIdx.mulf_apply, ValueIdx.addf_apply, ValueIdx.subf_apply, ValueIdx.broadcast_apply, zero_word, one_word, tovec_at, ascol_at, shapeCast_self, s610_at, s611_at, s1306_at, s1313_at, dot3, newt, Rh_zero, th_zero, rel_zero] <;> rfl
theorem s1605_at (b : Fin 128) : s1605 x0 x1 (ix1 b) = th (Rk x0 b) (pk x1 b) 11 2 := by
  simp only [s1605, k0_pay526, ValueIdx.mulf_apply, ValueIdx.addf_apply, ValueIdx.subf_apply, ValueIdx.broadcast_apply, zero_word, one_word, tovec_at, ascol_at, shapeCast_self, s612_at, s1320_at, s1344_at, s1602_at, dot3, newt, Rh_zero, th_zero, rel_zero, Rh_at _ 11 8 (by norm_num) rfl, th_at _ _ 11 8 (by norm_num) rfl, rel_at _ 11 8 (by norm_num) rfl] <;> rfl
theorem s1589_at (b : Fin 128) : s1589 x0 x1 (ix1 b) = th (Rk x0 b) (pk x1 b) 11 0 := by
  simp only [s1589, k0_pay523, ValueIdx.mulf_apply, ValueIdx.addf_apply, ValueIdx.subf_apply, ValueIdx.broadcast_apply, zero_word, one_word, tovec_at, ascol_at, shapeCast_self, s610_at, s611_at, s612_at, s1264_at, s1271_at, s1278_at, s1328_at, dot3, newt, Rh_zero, th_zero, rel_zero, Rh_at _ 11 8 (by norm_num) rfl, th_at _ _ 11 8 (by norm_num) rfl, rel_at _ 11 8 (by norm_num) rfl] <;> rfl
theorem s3154_at (b : Fin 128) : s3154 x0 x1 (ix1 b) = newt (Rk x0 b) (pk x1 b) 11 0 := by
  simp only [s3154, k0_pay765, ValueIdx.mulf_apply, ValueIdx.addf_apply, ValueIdx.subf_apply, ValueIdx.broadcast_apply, zero_word, one_word, tovec_at, ascol_at, shapeCast_self, s503_at, s505_at, s507_at, s1525_at, s1532_at, s1539_at, s1589_at, dot3, newt, Rh_zero, th_zero, rel_zero, Rh_at _ 11 8 (by norm_num) rfl, th_at _ _ 11 8 (by norm_num) rfl, rel_at _ 11 8 (by norm_num) rfl] <;> rfl
theorem s3161_at (b : Fin 128) : s3161 x0 x1 (ix1 b) = ((((0 : EReal) + ((Rh (Rk x0 b) 11 1 0) * (pk x1 b 11 0))) + ((Rh (Rk x0 b) 11 1 1) * (pk x1 b 11 1))) + ((Rh (Rk x0 b) 11 1 2) * (pk x1 b 11 2))) := by
  simp only [s3161, k0_pay766, ValueIdx.mulf_apply, ValueIdx.addf_apply, ValueIdx.subf_apply, ValueIdx.broadcast_apply, zero_word, one_word, tovec_at, ascol_at, shapeCast_self, s503_at, s505_at, s507_at, s1546_at, s1553_at, s1560_at, dot3, newt, Rh_zero, th_zero, rel_zero] <;> rfl
theorem s3187_c0 (b : Fin 128) : s3187 x0 x1 (ix2 b (⟨0, by norm_num⟩ : Fin 16)) = Rh (Rk x0 b) 11 0 0 := by
  simp only [s3187, k0_pay767]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s503_at, s505_at, s507_at, s1525_at, s1532_at, s1539_at, s1546_at, s1553_at, s1560_at, s1567_at, s1574_at, s1581_at, s1597_at, s1605_at, s2650_at, s2651_at, s3154_at, s3161_at, dot3, newt, Rh_zero, th_zero, rel_zero, Rh_at _ 11 8 (by norm_num) rfl, th_at _ _ 11 8 (by norm_num) rfl, rel_at _ 11 8 (by norm_num) rfl] <;> rfl
theorem s3187_c1 (b : Fin 128) : s3187 x0 x1 (ix2 b (⟨1, by norm_num⟩ : Fin 16)) = Rh (Rk x0 b) 11 0 1 := by
  simp only [s3187, k0_pay767]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s503_at, s505_at, s507_at, s1525_at, s1532_at, s1539_at, s1546_at, s1553_at, s1560_at, s1567_at, s1574_at, s1581_at, s1597_at, s1605_at, s2650_at, s2651_at, s3154_at, s3161_at, dot3, newt, Rh_zero, th_zero, rel_zero, Rh_at _ 11 8 (by norm_num) rfl, th_at _ _ 11 8 (by norm_num) rfl, rel_at _ 11 8 (by norm_num) rfl] <;> rfl
theorem s3187_c2 (b : Fin 128) : s3187 x0 x1 (ix2 b (⟨2, by norm_num⟩ : Fin 16)) = Rh (Rk x0 b) 11 0 2 := by
  simp only [s3187, k0_pay767]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s503_at, s505_at, s507_at, s1525_at, s1532_at, s1539_at, s1546_at, s1553_at, s1560_at, s1567_at, s1574_at, s1581_at, s1597_at, s1605_at, s2650_at, s2651_at, s3154_at, s3161_at, dot3, newt, Rh_zero, th_zero, rel_zero, Rh_at _ 11 8 (by norm_num) rfl, th_at _ _ 11 8 (by norm_num) rfl, rel_at _ 11 8 (by norm_num) rfl] <;> rfl
theorem s3187_c3 (b : Fin 128) : s3187 x0 x1 (ix2 b (⟨3, by norm_num⟩ : Fin 16)) = newt (Rk x0 b) (pk x1 b) 11 0 := by
  simp only [s3187, k0_pay767]
  refine (concat_unit_piece 3 (by norm_num) _ _ _ (by simp) rfl rfl b).trans ?_
  simp only [ValueIdx.mulf_apply, ValueIdx.addf_apply, ValueIdx.subf_apply, ValueIdx.broadcast_apply, zero_word, one_word, tovec_at, ascol_at, shapeCast_self, s503_at, s505_at, s507_at, s1525_at, s1532_at, s1539_at, s1546_at, s1553_at, s1560_at, s1567_at, s1574_at, s1581_at, s1597_at, s1605_at, s2650_at, s2651_at, s3154_at, s3161_at, dot3, newt, Rh_zero, th_zero, rel_zero, Rh_at _ 11 8 (by norm_num) rfl, th_at _ _ 11 8 (by norm_num) rfl, rel_at _ 11 8 (by norm_num) rfl] <;> rfl
theorem s3187_c4 (b : Fin 128) : s3187 x0 x1 (ix2 b (⟨4, by norm_num⟩ : Fin 16)) = Rh (Rk x0 b) 11 1 0 := by
  simp only [s3187, k0_pay767]
  refine (concat_unit_piece 4 (by norm_num) _ _ _ (by simp) rfl rfl b).trans ?_
  simp only [ValueIdx.mulf_apply, ValueIdx.addf_apply, ValueIdx.subf_apply, ValueIdx.broadcast_apply, zero_word, one_word, tovec_at, ascol_at, shapeCast_self, s503_at, s505_at, s507_at, s1525_at, s1532_at, s1539_at, s1546_at, s1553_at, s1560_at, s1567_at, s1574_at, s1581_at, s1597_at, s1605_at, s2650_at, s2651_at, s3154_at, s3161_at, dot3, newt, Rh_zero, th_zero, rel_zero, Rh_at _ 11 8 (by norm_num) rfl, th_at _ _ 11 8 (by norm_num) rfl, rel_at _ 11 8 (by norm_num) rfl] <;> rfl
theorem s3187_c5 (b : Fin 128) : s3187 x0 x1 (ix2 b (⟨5, by norm_num⟩ : Fin 16)) = Rh (Rk x0 b) 11 1 1 := by
  simp only [s3187, k0_pay767]
  refine (concat_unit_piece 5 (by norm_num) _ _ _ (by simp) rfl rfl b).trans ?_
  simp only [ValueIdx.mulf_apply, ValueIdx.addf_apply, ValueIdx.subf_apply, ValueIdx.broadcast_apply, zero_word, one_word, tovec_at, ascol_at, shapeCast_self, s503_at, s505_at, s507_at, s1525_at, s1532_at, s1539_at, s1546_at, s1553_at, s1560_at, s1567_at, s1574_at, s1581_at, s1597_at, s1605_at, s2650_at, s2651_at, s3154_at, s3161_at, dot3, newt, Rh_zero, th_zero, rel_zero, Rh_at _ 11 8 (by norm_num) rfl, th_at _ _ 11 8 (by norm_num) rfl, rel_at _ 11 8 (by norm_num) rfl] <;> rfl
theorem s3187_c6 (b : Fin 128) : s3187 x0 x1 (ix2 b (⟨6, by norm_num⟩ : Fin 16)) = Rh (Rk x0 b) 11 1 2 := by
  simp only [s3187, k0_pay767]
  refine (concat_unit_piece 6 (by norm_num) _ _ _ (by simp) rfl rfl b).trans ?_
  simp only [ValueIdx.mulf_apply, ValueIdx.addf_apply, ValueIdx.subf_apply, ValueIdx.broadcast_apply, zero_word, one_word, tovec_at, ascol_at, shapeCast_self, s503_at, s505_at, s507_at, s1525_at, s1532_at, s1539_at, s1546_at, s1553_at, s1560_at, s1567_at, s1574_at, s1581_at, s1597_at, s1605_at, s2650_at, s2651_at, s3154_at, s3161_at, dot3, newt, Rh_zero, th_zero, rel_zero, Rh_at _ 11 8 (by norm_num) rfl, th_at _ _ 11 8 (by norm_num) rfl, rel_at _ 11 8 (by norm_num) rfl] <;> rfl
theorem s3187_c7 (b : Fin 128) : s3187 x0 x1 (ix2 b (⟨7, by norm_num⟩ : Fin 16)) = newt (Rk x0 b) (pk x1 b) 11 1 := by
  simp only [s3187, k0_pay767]
  refine (concat_unit_piece 7 (by norm_num) _ _ _ (by simp) rfl rfl b).trans ?_
  simp only [ValueIdx.mulf_apply, ValueIdx.addf_apply, ValueIdx.subf_apply, ValueIdx.broadcast_apply, zero_word, one_word, tovec_at, ascol_at, shapeCast_self, s503_at, s505_at, s507_at, s1525_at, s1532_at, s1539_at, s1546_at, s1553_at, s1560_at, s1567_at, s1574_at, s1581_at, s1597_at, s1605_at, s2650_at, s2651_at, s3154_at, s3161_at, dot3, newt, Rh_zero, th_zero, rel_zero, Rh_at _ 11 8 (by norm_num) rfl, th_at _ _ 11 8 (by norm_num) rfl, rel_at _ 11 8 (by norm_num) rfl] <;> rfl
theorem s3187_c8 (b : Fin 128) : s3187 x0 x1 (ix2 b (⟨8, by norm_num⟩ : Fin 16)) = Rh (Rk x0 b) 11 2 0 := by
  simp only [s3187, k0_pay767]
  refine (concat_unit_piece 8 (by norm_num) _ _ _ (by simp) rfl rfl b).trans ?_
  simp only [ValueIdx.mulf_apply, ValueIdx.addf_apply, ValueIdx.subf_apply, ValueIdx.broadcast_apply, zero_word, one_word, tovec_at, ascol_at, shapeCast_self, s503_at, s505_at, s507_at, s1525_at, s1532_at, s1539_at, s1546_at, s1553_at, s1560_at, s1567_at, s1574_at, s1581_at, s1597_at, s1605_at, s2650_at, s2651_at, s3154_at, s3161_at, dot3, newt, Rh_zero, th_zero, rel_zero, Rh_at _ 11 8 (by norm_num) rfl, th_at _ _ 11 8 (by norm_num) rfl, rel_at _ 11 8 (by norm_num) rfl] <;> rfl
theorem s3187_c9 (b : Fin 128) : s3187 x0 x1 (ix2 b (⟨9, by norm_num⟩ : Fin 16)) = Rh (Rk x0 b) 11 2 1 := by
  simp only [s3187, k0_pay767]
  refine (concat_unit_piece 9 (by norm_num) _ _ _ (by simp) rfl rfl b).trans ?_
  simp only [ValueIdx.mulf_apply, ValueIdx.addf_apply, ValueIdx.subf_apply, ValueIdx.broadcast_apply, zero_word, one_word, tovec_at, ascol_at, shapeCast_self, s503_at, s505_at, s507_at, s1525_at, s1532_at, s1539_at, s1546_at, s1553_at, s1560_at, s1567_at, s1574_at, s1581_at, s1597_at, s1605_at, s2650_at, s2651_at, s3154_at, s3161_at, dot3, newt, Rh_zero, th_zero, rel_zero, Rh_at _ 11 8 (by norm_num) rfl, th_at _ _ 11 8 (by norm_num) rfl, rel_at _ 11 8 (by norm_num) rfl] <;> rfl
theorem s3187_c10 (b : Fin 128) : s3187 x0 x1 (ix2 b (⟨10, by norm_num⟩ : Fin 16)) = Rh (Rk x0 b) 11 2 2 := by
  simp only [s3187, k0_pay767]
  refine (concat_unit_piece 10 (by norm_num) _ _ _ (by simp) rfl rfl b).trans ?_
  simp only [ValueIdx.mulf_apply, ValueIdx.addf_apply, ValueIdx.subf_apply, ValueIdx.broadcast_apply, zero_word, one_word, tovec_at, ascol_at, shapeCast_self, s503_at, s505_at, s507_at, s1525_at, s1532_at, s1539_at, s1546_at, s1553_at, s1560_at, s1567_at, s1574_at, s1581_at, s1597_at, s1605_at, s2650_at, s2651_at, s3154_at, s3161_at, dot3, newt, Rh_zero, th_zero, rel_zero, Rh_at _ 11 8 (by norm_num) rfl, th_at _ _ 11 8 (by norm_num) rfl, rel_at _ 11 8 (by norm_num) rfl] <;> rfl
theorem s3187_c11 (b : Fin 128) : s3187 x0 x1 (ix2 b (⟨11, by norm_num⟩ : Fin 16)) = newt (Rk x0 b) (pk x1 b) 11 2 := by
  simp only [s3187, k0_pay767]
  refine (concat_unit_piece 11 (by norm_num) _ _ _ (by simp) rfl rfl b).trans ?_
  simp only [ValueIdx.mulf_apply, ValueIdx.addf_apply, ValueIdx.subf_apply, ValueIdx.broadcast_apply, zero_word, one_word, tovec_at, ascol_at, shapeCast_self, s503_at, s505_at, s507_at, s1525_at, s1532_at, s1539_at, s1546_at, s1553_at, s1560_at, s1567_at, s1574_at, s1581_at, s1597_at, s1605_at, s2650_at, s2651_at, s3154_at, s3161_at, dot3, newt, Rh_zero, th_zero, rel_zero, Rh_at _ 11 8 (by norm_num) rfl, th_at _ _ 11 8 (by norm_num) rfl, rel_at _ 11 8 (by norm_num) rfl] <;> rfl
theorem s3187_c12 (b : Fin 128) : s3187 x0 x1 (ix2 b (⟨12, by norm_num⟩ : Fin 16)) = (0 : EReal) := by
  simp only [s3187, k0_pay767]
  refine (concat_unit_piece 12 (by norm_num) _ _ _ (by simp) rfl rfl b).trans ?_
  simp only [ValueIdx.mulf_apply, ValueIdx.addf_apply, ValueIdx.subf_apply, ValueIdx.broadcast_apply, zero_word, one_word, tovec_at, ascol_at, shapeCast_self, s503_at, s505_at, s507_at, s1525_at, s1532_at, s1539_at, s1546_at, s1553_at, s1560_at, s1567_at, s1574_at, s1581_at, s1597_at, s1605_at, s2650_at, s2651_at, s3154_at, s3161_at, dot3, newt, Rh_zero, th_zero, rel_zero, Rh_at _ 11 8 (by norm_num) rfl, th_at _ _ 11 8 (by norm_num) rfl, rel_at _ 11 8 (by norm_num) rfl] <;> rfl
theorem s3187_c13 (b : Fin 128) : s3187 x0 x1 (ix2 b (⟨13, by norm_num⟩ : Fin 16)) = (0 : EReal) := by
  simp only [s3187, k0_pay767]
  refine (concat_unit_piece 13 (by norm_num) _ _ _ (by simp) rfl rfl b).trans ?_
  simp only [ValueIdx.mulf_apply, ValueIdx.addf_apply, ValueIdx.subf_apply, ValueIdx.broadcast_apply, zero_word, one_word, tovec_at, ascol_at, shapeCast_self, s503_at, s505_at, s507_at, s1525_at, s1532_at, s1539_at, s1546_at, s1553_at, s1560_at, s1567_at, s1574_at, s1581_at, s1597_at, s1605_at, s2650_at, s2651_at, s3154_at, s3161_at, dot3, newt, Rh_zero, th_zero, rel_zero, Rh_at _ 11 8 (by norm_num) rfl, th_at _ _ 11 8 (by norm_num) rfl, rel_at _ 11 8 (by norm_num) rfl] <;> rfl
theorem s3187_c14 (b : Fin 128) : s3187 x0 x1 (ix2 b (⟨14, by norm_num⟩ : Fin 16)) = (0 : EReal) := by
  simp only [s3187, k0_pay767]
  refine (concat_unit_piece 14 (by norm_num) _ _ _ (by simp) rfl rfl b).trans ?_
  simp only [ValueIdx.mulf_apply, ValueIdx.addf_apply, ValueIdx.subf_apply, ValueIdx.broadcast_apply, zero_word, one_word, tovec_at, ascol_at, shapeCast_self, s503_at, s505_at, s507_at, s1525_at, s1532_at, s1539_at, s1546_at, s1553_at, s1560_at, s1567_at, s1574_at, s1581_at, s1597_at, s1605_at, s2650_at, s2651_at, s3154_at, s3161_at, dot3, newt, Rh_zero, th_zero, rel_zero, Rh_at _ 11 8 (by norm_num) rfl, th_at _ _ 11 8 (by norm_num) rfl, rel_at _ 11 8 (by norm_num) rfl] <;> rfl
theorem s3187_c15 (b : Fin 128) : s3187 x0 x1 (ix2 b (⟨15, by norm_num⟩ : Fin 16)) = (1 : EReal) := by
  simp only [s3187, k0_pay767]
  refine (concat_unit_piece 15 (by norm_num) _ _ _ (by simp) rfl rfl b).trans ?_
  simp only [ValueIdx.mulf_apply, ValueIdx.addf_apply, ValueIdx.subf_apply, ValueIdx.broadcast_apply, zero_word, one_word, tovec_at, ascol_at, shapeCast_self, s503_at, s505_at, s507_at, s1525_at, s1532_at, s1539_at, s1546_at, s1553_at, s1560_at, s1567_at, s1574_at, s1581_at, s1597_at, s1605_at, s2650_at, s2651_at, s3154_at, s3161_at, dot3, newt, Rh_zero, th_zero, rel_zero, Rh_at _ 11 8 (by norm_num) rfl, th_at _ _ 11 8 (by norm_num) rfl, rel_at _ 11 8 (by norm_num) rfl] <;> rfl
theorem s225_at (b : Fin 128) : s225 x0 x1 (ix1 b) = Rk x0 b 12 0 2 := by
  simp only [s225, k0_pay120, ValueIdx.mulf_apply, ValueIdx.addf_apply, ValueIdx.subf_apply, ValueIdx.broadcast_apply, zero_word, one_word, tovec_at, ascol_at, shapeCast_self, slice_at (N := 216) _ 110 (by norm_num), s1_eq, dot3, newt, Rh_zero, th_zero, rel_zero] <;> rfl
theorem s231_at (b : Fin 128) : s231 x0 x1 (ix1 b) = Rk x0 b 12 1 2 := by
  simp only [s231, k0_pay123, ValueIdx.mulf_apply, ValueIdx.addf_apply, ValueIdx.subf_apply, ValueIdx.broadcast_apply, zero_word, one_word, tovec_at, ascol_at, shapeCast_self, slice_at (N := 216) _ 113 (by norm_num), s1_eq, dot3, newt, Rh_zero, th_zero, rel_zero] <;> rfl
theorem s237_at (b : Fin 128) : s237 x0 x1 (ix1 b) = Rk x0 b 12 2 2 := by
  simp only [s237, k0_pay127, ValueIdx.mulf_apply, ValueIdx.addf_apply, ValueIdx.subf_apply, ValueIdx.broadcast_apply, zero_word, one_word, tovec_at, ascol_at, shapeCast_self, slice_at (N := 216) _ 116 (by norm_num), s1_eq, dot3, newt, Rh_zero, th_zero, rel_zero] <;> rfl
theorem s1626_at (b : Fin 128) : s1626 x0 x1 (ix1 b) = Rh (Rk x0 b) 12 0 2 := by
  simp only [s1626, k0_pay529, ValueIdx.mulf_apply, ValueIdx.addf_apply, ValueIdx.subf_apply, ValueIdx.broadcast_apply, zero_word, one_word, tovec_at, ascol_at, shapeCast_self, s225_at, s231_at, s237_at, s1351_at, s1358_at, s1365_at, dot3, newt, Rh_zero, th_zero, rel_zero, Rh_at _ 12 9 (by norm_num) rfl, th_at _ _ 12 9 (by norm_num) rfl, rel_at _ 12 9 (by norm_num) rfl] <;> rfl
theorem s221_at (b : Fin 128) : s221 x0 x1 (ix1 b) = Rk x0 b 12 0 0 := by
  simp only [s221, k0_pay118, ValueIdx.mulf_apply, ValueIdx.addf_apply, ValueIdx.subf_apply, ValueIdx.broadcast_apply, zero_word, one_word, tovec_at, ascol_at, shapeCast_self, slice_at (N := 216) _ 108 (by norm_num), s1_eq, dot3, newt, Rh_zero, th_zero, rel_zero] <;> rfl
theorem s227_at (b : Fin 128) : s227 x0 x1 (ix1 b) = Rk x0 b 12 1 0 := by
  simp only [s227, k0_pay121, ValueIdx.mulf_apply, ValueIdx.addf_apply, ValueIdx.subf_apply, ValueIdx.broadcast_apply, zero_word, one_word, tovec_at, ascol_at, shapeCast_self, slice_at (N := 216) _ 111 (by norm_num), s1_eq, dot3, newt, Rh_zero, th_zero, rel_zero] <;> rfl
theorem s233_at (b : Fin 128) : s233 x0 x1 (ix1 b) = Rk x0 b 12 2 0 := by
  simp only [s233, k0_pay124, ValueIdx.mulf_apply, ValueIdx.addf_apply, ValueIdx.subf_apply, ValueIdx.broadcast_apply, zero_word, one_word, tovec_at, ascol_at, shapeCast_self, slice_at (N := 216) _ 114 (by norm_num), s1_eq, dot3, newt, Rh_zero, th_zero, rel_zero] <;> rfl
theorem s1633_at (b : Fin 128) : s1633 x0 x1 (ix1 b) = Rh (Rk x0 b) 12 1 0 := by
  simp only [s1633, k0_pay530, ValueIdx.mulf_apply, ValueIdx.addf_apply, ValueIdx.subf_apply, ValueIdx.broadcast_apply, zero_word, one_word, tovec_at, ascol_at, shapeCast_self, s221_at, s227_at, s233_at, s1372_at, s1379_at, s1386_at, dot3, newt, Rh_zero, th_zero, rel_zero, Rh_at _ 12 9 (by norm_num) rfl, th_at _ _ 12 9 (by norm_num) rfl, rel_at _ 12 9 (by norm_num) rfl] <;> rfl
theorem s223_at (b : Fin 128) : s223 x0 x1 (ix1 b) = Rk x0 b 12 0 1 := by
  simp only [s223, k0_pay119, ValueIdx.mulf_apply, ValueIdx.addf_apply, ValueIdx.subf_apply, ValueIdx.broadcast_apply, zero_word, one_word, tovec_at, ascol_at, shapeCast_self, slice_at (N := 216) _ 109 (by norm_num), s1_eq, dot3, newt, Rh_zero, th_zero, rel_zero] <;> rfl
theorem s229_at (b : Fin 128) : s229 x0 x1 (ix1 b) = Rk x0 b 12 1 1 := by
  simp only [s229, k0_pay122, ValueIdx.mulf_apply, ValueIdx.addf_apply, ValueIdx.subf_apply, ValueIdx.broadcast_apply, zero_word, one_word, tovec_at, ascol_at, shapeCast_self, slice_at (N := 216) _ 112 (by norm_num), s1_eq, dot3, newt, Rh_zero, th_zero, rel_zero] <;> rfl
theorem s234_at (b : Fin 128) : s234 x0 x1 (ix2 b (0 : Fin 1)) = Rk x0 b 12 2 1 := by
  simp only [s234, k0_pay125, ValueIdx.mulf_apply, ValueIdx.addf_apply, ValueIdx.subf_apply, ValueIdx.broadcast_apply, zero_word, one_word, tovec_at, ascol_at, shapeCast_self, slice_at (N := 216) _ 115 (by norm_num), s1_eq, dot3, newt, Rh_zero, th_zero, rel_zero] <;> rfl
theorem s235_at (b : Fin 128) : s235 x0 x1 (ix1 b) = Rk x0 b 12 2 1 := by
  simp only [s235, k0_pay126, ValueIdx.mulf_apply, ValueIdx.addf_apply, ValueIdx.subf_apply, ValueIdx.broadcast_apply, zero_word, one_word, tovec_at, ascol_at, shapeCast_self, s234_at, dot3, newt, Rh_zero, th_zero, rel_zero] <;> rfl
theorem s1640_at (b : Fin 128) : s1640 x0 x1 (ix1 b) = Rh (Rk x0 b) 12 1 1 := by
  simp only [s1640, k0_pay531, ValueIdx.mulf_apply, ValueIdx.addf_apply, ValueIdx.subf_apply, ValueIdx.broadcast_apply, zero_word, one_word, tovec_at, ascol_at, shapeCast_self, s223_at, s229_at, s235_at, s1372_at, s1379_at, s1386_at, dot3, newt, Rh_zero, th_zero, rel_zero, Rh_at _ 12 9 (by norm_num) rfl, th_at _ _ 12 9 (by norm_num) rfl, rel_at _ 12 9 (by norm_num) rfl] <;> rfl
theorem s1647_at (b : Fin 128) : s1647 x0 x1 (ix1 b) = Rh (Rk x0 b) 12 1 2 := by
  simp only [s1647, k0_pay532, ValueIdx.mulf_apply, ValueIdx.addf_apply, ValueIdx.subf_apply, ValueIdx.broadcast_apply, zero_word, one_word, tovec_at, ascol_at, shapeCast_self, s225_at, s231_at, s237_at, s1372_at, s1379_at, s1386_at, dot3, newt, Rh_zero, th_zero, rel_zero, Rh_at _ 12 9 (by norm_num) rfl, th_at _ _ 12 9 (by norm_num) rfl, rel_at _ 12 9 (by norm_num) rfl] <;> rfl
theorem s1654_at (b : Fin 128) : s1654 x0 x1 (ix1 b) = Rh (Rk x0 b) 12 2 0 := by
  simp only [s1654, k0_pay533, ValueIdx.mulf_apply, ValueIdx.addf_apply, ValueIdx.subf_apply, ValueIdx.broadcast_apply, zero_word, one_word, tovec_at, ascol_at, shapeCast_self, s221_at, s227_at, s233_at, s1393_at, s1400_at, s1407_at, dot3, newt, Rh_zero, th_zero, rel_zero, Rh_at _ 12 9 (by norm_num) rfl, th_at _ _ 12 9 (by norm_num) rfl, rel_at _ 12 9 (by norm_num) rfl] <;> rfl
theorem s1655_at (b : Fin 128) : s1655 x0 x1 (ix1 b) = ((Rh (Rk x0 b) 9 2 0) * (Rk x0 b 12 0 1)) := by
  simp only [s1655, k0_pay534, ValueIdx.mulf_apply, ValueIdx.addf_apply, ValueIdx.subf_apply, ValueIdx.broadcast_apply, zero_word, one_word, tovec_at, ascol_at, shapeCast_self, s223_at, s1393_at, dot3, newt, Rh_zero, th_zero, rel_zero] <;> rfl
theorem s1661_at (b : Fin 128) : s1661 x0 x1 (ix1 b) = Rh (Rk x0 b) 12 2 1 := by
  simp only [s1661, k0_pay535, ValueIdx.mulf_apply, ValueIdx.addf_apply, ValueIdx.subf_apply, ValueIdx.broadcast_apply, zero_word, one_word, tovec_at, ascol_at, shapeCast_self, s229_at, s235_at, s1400_at, s1407_at, s1655_at, dot3, newt, Rh_zero, th_zero, rel_zero, Rh_at _ 12 9 (by norm_num) rfl, th_at _ _ 12 9 (by norm_num) rfl, rel_at _ 12 9 (by norm_num) rfl] <;> rfl
theorem s1668_at (b : Fin 128) : s1668 x0 x1 (ix1 b) = Rh (Rk x0 b) 12 2 2 := by
  simp only [s1668, k0_pay536, ValueIdx.mulf_apply, ValueIdx.addf_apply, ValueIdx.subf_apply, ValueIdx.broadcast_apply, zero_word, one_word, tovec_at, ascol_at, shapeCast_self, s225_at, s231_at, s237_at, s1393_at, s1400_at, s1407_at, dot3, newt, Rh_zero, th_zero, rel_zero, Rh_at _ 12 9 (by norm_num) rfl, th_at _ _ 12 9 (by norm_num) rfl, rel_at _ 12 9 (by norm_num) rfl] <;> rfl
theorem s509_at (b : Fin 128) : s509 x0 x1 (ix1 b) = pk x1 b 12 0 := by
  simp only [s509, k0_pay267, ValueIdx.mulf_apply, ValueIdx.addf_apply, ValueIdx.subf_apply, ValueIdx.broadcast_apply, zero_word, one_word, tovec_at, ascol_at, shapeCast_self, slice_at (N := 72) _ 36 (by norm_num), s3_eq, dot3, newt, Rh_zero, th_zero, rel_zero] <;> rfl
theorem s511_at (b : Fin 128) : s511 x0 x1 (ix1 b) = pk x1 b 12 1 := by
  simp only [s511, k0_pay268, ValueIdx.mulf_apply, ValueIdx.addf_apply, ValueIdx.subf_apply, ValueIdx.broadcast_apply, zero_word, one_word, tovec_at, ascol_at, shapeCast_self, slice_at (N := 72) _ 37 (by norm_num), s3_eq, dot3, newt, Rh_zero, th_zero, rel_zero] <;> rfl
theorem s513_at (b : Fin 128) : s513 x0 x1 (ix1 b) = pk x1 b 12 2 := by
  simp only [s513, k0_pay269, ValueIdx.mulf_apply, ValueIdx.addf_apply, ValueIdx.subf_apply, ValueIdx.broadcast_apply, zero_word, one_word, tovec_at, ascol_at, shapeCast_self, slice_at (N := 72) _ 38 (by norm_num), s3_eq, dot3, newt, Rh_zero, th_zero, rel_zero] <;> rfl
theorem s1612_at (b : Fin 128) : s1612 x0 x1 (ix1 b) = Rh (Rk x0 b) 12 0 0 := by
  simp only [s1612, k0_pay527, ValueIdx.mulf_apply, ValueIdx.addf_apply, ValueIdx.subf_apply, ValueIdx.broadcast_apply, zero_word, one_word, tovec_at, ascol_at, shapeCast_self, s221_at, s227_at, s233_at, s1351_at, s1358_at, s1365_at, dot3, newt, Rh_zero, th_zero, rel_zero, Rh_at _ 12 9 (by norm_num) rfl, th_at _ _ 12 9 (by norm_num) rfl, rel_at _ 12 9 (by norm_num) rfl] <;> rfl
theorem s1619_at (b : Fin 128) : s1619 x0 x1 (ix1 b) = Rh (Rk x0 b) 12 0 1 := by
  simp only [s1619, k0_pay528, ValueIdx.mulf_apply, ValueIdx.addf_apply, ValueIdx.subf_apply, ValueIdx.broadcast_apply, zero_word, one_word, tovec_at, ascol_at, shapeCast_self, s223_at, s229_at, s235_at, s1351_at, s1358_at, s1365_at, dot3, newt, Rh_zero, th_zero, rel_zero, Rh_at _ 12 9 (by norm_num) rfl, th_at _ _ 12 9 (by norm_num) rfl, rel_at _ 12 9 (by norm_num) rfl] <;> rfl
theorem s613_at (b : Fin 128) : s613 x0 x1 (ix1 b) = rel (pk x1 b) 12 0 := by
  simp only [s613, k0_pay337, ValueIdx.mulf_apply, ValueIdx.addf_apply, ValueIdx.subf_apply, ValueIdx.broadcast_apply, zero_word, one_word, tovec_at, ascol_at, shapeCast_self, s491_at, s509_at, dot3, newt, Rh_zero, th_zero, rel_zero, Rh_at _ 12 9 (by norm_num) rfl, th_at _ _ 12 9 (by norm_num) rfl, rel_at _ 12 9 (by norm_num) rfl] <;> rfl
theorem s614_at (b : Fin 128) : s614 x0 x1 (ix1 b) = rel (pk x1 b) 12 1 := by
  simp only [s614, k0_pay338, ValueIdx.mulf_apply, ValueIdx.addf_apply, ValueIdx.subf_apply, ValueIdx.broadcast_apply, zero_word, one_word, tovec_at, ascol_at, shapeCast_self, s493_at, s511_at, dot3, newt, Rh_zero, th_zero, rel_zero, Rh_at _ 12 9 (by norm_num) rfl, th_at _ _ 12 9 (by norm_num) rfl, rel_at _ 12 9 (by norm_num) rfl] <;> rfl
theorem s615_at (b : Fin 128) : s615 x0 x1 (ix1 b) = rel (pk x1 b) 12 2 := by
  simp only [s615, k0_pay339, ValueIdx.mulf_apply, ValueIdx.addf_apply, ValueIdx.subf_apply, ValueIdx.broadcast_apply, zero_word, one_word, tovec_at, ascol_at, shapeCast_self, s495_at, s513_at, dot3, newt, Rh_zero, th_zero, rel_zero, Rh_at _ 12 9 (by norm_num) rfl, th_at _ _ 12 9 (by norm_num) rfl, rel_at _ 12 9 (by norm_num) rfl] <;> rfl
theorem s1676_at (b : Fin 128) : s1676 x0 x1 (ix1 b) = th (Rk x0 b) (pk x1 b) 12 0 := by
  simp only [s1676, k0_pay537, ValueIdx.mulf_apply, ValueIdx.addf_apply, ValueIdx.subf_apply, ValueIdx.broadcast_apply, zero_word, one_word, tovec_at, ascol_at, shapeCast_self, s613_at, s614_at, s615_at, s1351_at, s1358_at, s1365_at, s1415_at, dot3, newt, Rh_zero, th_zero, rel_zero, Rh_at _ 12 9 (by norm_num) rfl, th_at _ _ 12 9 (by norm_num) rfl, rel_at _ 12 9 (by norm_num) rfl] <;> rfl
theorem s3199_at (b : Fin 128) : s3199 x0 x1 (ix1 b) = newt (Rk x0 b) (pk x1 b) 12 0 := by
  simp only [s3199, k0_pay769, ValueIdx.mulf_apply, ValueIdx.addf_apply, ValueIdx.subf_apply, ValueIdx.broadcast_apply, zero_word, one_word, tovec_at, ascol_at, shapeCast_self, s509_at, s511_at, s513_at, s1612_at, s1619_at, s1626_at, s1676_at, dot3, newt, Rh_zero, th_zero, rel_zero, Rh_at _ 12 9 (by norm_num) rfl, th_at _ _ 12 9 (by norm_num) rfl, rel_at _ 12 9 (by norm_num) rfl] <;> rfl
theorem s1684_at (b : Fin 128) : s1684 x0 x1 (ix1 b) = th (Rk x0 b) (pk x1 b) 12 1 := by
  simp only [s1684, k0_pay538, ValueIdx.mulf_apply, ValueIdx.addf_apply, ValueIdx.subf_apply, ValueIdx.broadcast_apply, zero_word, one_word, tovec_at, ascol_at, shapeCast_self, s613_at, s614_at, s615_at, s1372_at, s1379_at, s1386_at, s1423_at, dot3, newt, Rh_zero, th_zero, rel_zero, Rh_at _ 12 9 (by norm_num) rfl, th_at _ _ 12 9 (by norm_num) rfl, rel_at _ 12 9 (by norm_num) rfl] <;> rfl
theorem s3207_at (b : Fin 128) : s3207 x0 x1 (ix1 b) = newt (Rk x0 b) (pk x1 b) 12 1 := by
  simp only [s3207, k0_pay770, ValueIdx.mulf_apply, ValueIdx.addf_apply, ValueIdx.subf_apply, ValueIdx.broadcast_apply, zero_word, one_word, tovec_at, ascol_at, shapeCast_self, s509_at, s511_at, s513_at, s1633_at, s1640_at, s1647_at, s1684_at, dot3, newt, Rh_zero, th_zero, rel_zero, Rh_at _ 12 9 (by norm_num) rfl, th_at _ _ 12 9 (by norm_num) rfl, rel_at _ 12 9 (by norm_num) rfl] <;> rfl
theorem s1692_at (b : Fin 128) : s1692 x0 x1 (ix1 b) = th (Rk x0 b) (pk x1 b) 12 2 := by
  simp only [s1692, k0_pay539, ValueIdx.mulf_apply, ValueIdx.addf_apply, ValueIdx.subf_apply, ValueIdx.broadcast_apply, zero_word, one_word, tovec_at, ascol_at, shapeCast_self, s613_at, s614_at, s615_at, s1393_at, s1400_at, s1407_at, s1431_at, dot3, newt, Rh_zero, th_zero, rel_zero, Rh_at _ 12 9 (by norm_num) rfl, th_at _ _ 12 9 (by norm_num) rfl, rel_at _ 12 9 (by norm_num) rfl] <;> rfl
theorem s3215_at (b : Fin 128) : s3215 x0 x1 (ix1 b) = newt (Rk x0 b) (pk x1 b) 12 2 := by
  simp only [s3215, k0_pay771, ValueIdx.mulf_apply, ValueIdx.addf_apply, ValueIdx.subf_apply, ValueIdx.broadcast_apply, zero_word, one_word, tovec_at, ascol_at, shapeCast_self, s509_at, s511_at, s513_at, s1654_at, s1661_at, s1668_at, s1692_at, dot3, newt, Rh_zero, th_zero, rel_zero, Rh_at _ 12 9 (by norm_num) rfl, th_at _ _ 12 9 (by norm_num) rfl, rel_at _ 12 9 (by norm_num) rfl] <;> rfl
theorem s3216_at (b : Fin 128) : s3216 x0 x1 (ix2 b (0 : Fin 1)) = Rh (Rk x0 b) 12 0 0 := by
  simp only [s3216, k0_pay772, ValueIdx.mulf_apply, ValueIdx.addf_apply, ValueIdx.subf_apply, ValueIdx.broadcast_apply, zero_word, one_word, tovec_at, ascol_at, shapeCast_self, s1612_at, dot3, newt, Rh_zero, th_zero, rel_zero, Rh_at _ 12 9 (by norm_num) rfl, th_at _ _ 12 9 (by norm_num) rfl, rel_at _ 12 9 (by norm_num) rfl] <;> rfl
theorem s3217_at (b : Fin 128) : s3217 x0 x1 (ix2 b (0 : Fin 1)) = Rh (Rk x0 b) 12 0 1 := by
  simp only [s3217, k0_pay773, ValueIdx.mulf_apply, ValueIdx.addf_apply, ValueIdx.subf_apply, ValueIdx.broadcast_apply, zero_word, one_word, tovec_at, ascol_at, shapeCast_self, s1619_at, dot3, newt, Rh_zero, th_zero, rel_zero, Rh_at _ 12 9 (by norm_num) rfl, th_at _ _ 12 9 (by norm_num) rfl, rel_at _ 12 9 (by norm_num) rfl] <;> rfl
theorem s3232_c0 (b : Fin 128) : s3232 x0 x1 (ix2 b (⟨0, by norm_num⟩ : Fin 16)) = Rh (Rk x0 b) 12 0 0 := by
  simp only [s3232, k0_pay774]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s1626_at, s1633_at, s1640_at, s1647_at, s1654_at, s1661_at, s1668_at, s2650_at, s2651_at, s3199_at, s3207_at, s3215_at, s3216_at, s3217_at, dot3, newt, Rh_zero, th_zero, rel_zero, Rh_at _ 12 9 (by norm_num) rfl, th_at _ _ 12 9 (by norm_num) rfl, rel_at _ 12 9 (by norm_num) rfl] <;> rfl
theorem s3232_c1 (b : Fin 128) : s3232 x0 x1 (ix2 b (⟨1, by norm_num⟩ : Fin 16)) = Rh (Rk x0 b) 12 0 1 := by
  simp only [s3232, k0_pay774]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s1626_at, s1633_at, s1640_at, s1647_at, s1654_at, s1661_at, s1668_at, s2650_at, s2651_at, s3199_at, s3207_at, s3215_at, s3216_at, s3217_at, dot3, newt, Rh_zero, th_zero, rel_zero, Rh_at _ 12 9 (by norm_num) rfl, th_at _ _ 12 9 (by norm_num) rfl, rel_at _ 12 9 (by norm_num) rfl] <;> rfl
theorem s3232_c2 (b : Fin 128) : s3232 x0 x1 (ix2 b (⟨2, by norm_num⟩ : Fin 16)) = Rh (Rk x0 b) 12 0 2 := by
  simp only [s3232, k0_pay774]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s1626_at, s1633_at, s1640_at, s1647_at, s1654_at, s1661_at, s1668_at, s2650_at, s2651_at, s3199_at, s3207_at, s3215_at, s3216_at, s3217_at, dot3, newt, Rh_zero, th_zero, rel_zero, Rh_at _ 12 9 (by norm_num) rfl, th_at _ _ 12 9 (by norm_num) rfl, rel_at _ 12 9 (by norm_num) rfl] <;> rfl
theorem s3232_c3 (b : Fin 128) : s3232 x0 x1 (ix2 b (⟨3, by norm_num⟩ : Fin 16)) = newt (Rk x0 b) (pk x1 b) 12 0 := by
  simp only [s3232, k0_pay774]
  refine (concat_unit_piece 3 (by norm_num) _ _ _ (by simp) rfl rfl b).trans ?_
  simp only [ValueIdx.mulf_apply, ValueIdx.addf_apply, ValueIdx.subf_apply, ValueIdx.broadcast_apply, zero_word, one_word, tovec_at, ascol_at, shapeCast_self, s1626_at, s1633_at, s1640_at, s1647_at, s1654_at, s1661_at, s1668_at, s2650_at, s2651_at, s3199_at, s3207_at, s3215_at, s3216_at, s3217_at, dot3, newt, Rh_zero, th_zero, rel_zero, Rh_at _ 12 9 (by norm_num) rfl, th_at _ _ 12 9 (by norm_num) rfl, rel_at _ 12 9 (by norm_num) rfl] <;> rfl
theorem s3232_c4 (b : Fin 128) : s3232 x0 x1 (ix2 b (⟨4, by norm_num⟩ : Fin 16)) = Rh (Rk x0 b) 12 1 0 := by
  simp only [s3232, k0_pay774]
  refine (concat_unit_piece 4 (by norm_num) _ _ _ (by simp) rfl rfl b).trans ?_
  simp only [ValueIdx.mulf_apply, ValueIdx.addf_apply, ValueIdx.subf_apply, ValueIdx.broadcast_apply, zero_word, one_word, tovec_at, ascol_at, shapeCast_self, s1626_at, s1633_at, s1640_at, s1647_at, s1654_at, s1661_at, s1668_at, s2650_at, s2651_at, s3199_at, s3207_at, s3215_at, s3216_at, s3217_at, dot3, newt, Rh_zero, th_zero, rel_zero, Rh_at _ 12 9 (by norm_num) rfl, th_at _ _ 12 9 (by norm_num) rfl, rel_at _ 12 9 (by norm_num) rfl] <;> rfl
theorem s3232_c5 (b : Fin 128) : s3232 x0 x1 (ix2 b (⟨5, by norm_num⟩ : Fin 16)) = Rh (Rk x0 b) 12 1 1 := by
  simp only [s3232, k0_pay774]
  refine (concat_unit_piece 5 (by norm_num) _ _ _ (by simp) rfl rfl b).trans ?_
  simp only [ValueIdx.mulf_apply, ValueIdx.addf_apply, ValueIdx.subf_apply, ValueIdx.broadcast_apply, zero_word, one_word, tovec_at, ascol_at, shapeCast_self, s1626_at, s1633_at, s1640_at, s1647_at, s1654_at, s1661_at, s1668_at, s2650_at, s2651_at, s3199_at, s3207_at, s3215_at, s3216_at, s3217_at, dot3, newt, Rh_zero, th_zero, rel_zero, Rh_at _ 12 9 (by norm_num) rfl, th_at _ _ 12 9 (by norm_num) rfl, rel_at _ 12 9 (by norm_num) rfl] <;> rfl
theorem s3232_c6 (b : Fin 128) : s3232 x0 x1 (ix2 b (⟨6, by norm_num⟩ : Fin 16)) = Rh (Rk x0 b) 12 1 2 := by
  simp only [s3232, k0_pay774]
  refine (concat_unit_piece 6 (by norm_num) _ _ _ (by simp) rfl rfl b).trans ?_
  simp only [ValueIdx.mulf_apply, ValueIdx.addf_apply, ValueIdx.subf_apply, ValueIdx.broadcast_apply, zero_word, one_word, tovec_at, ascol_at, shapeCast_self, s1626_at, s1633_at, s1640_at, s1647_at, s1654_at, s1661_at, s1668_at, s2650_at, s2651_at, s3199_at, s3207_at, s3215_at, s3216_at, s3217_at, dot3, newt, Rh_zero, th_zero, rel_zero, Rh_at _ 12 9 (by norm_num) rfl, th_at _ _ 12 9 (by norm_num) rfl, rel_at _ 12 9 (by norm_num) rfl] <;> rfl
theorem s3232_c7 (b : Fin 128) : s3232 x0 x1 (ix2 b (⟨7, by norm_num⟩ : Fin 16)) = newt (Rk x0 b) (pk x1 b) 12 1 := by
  simp only [s3232, k0_pay774]
  refine (concat_unit_piece 7 (by norm_num) _ _ _ (by simp) rfl rfl b).trans ?_
  simp only [ValueIdx.mulf_apply, ValueIdx.addf_apply, ValueIdx.subf_apply, ValueIdx.broadcast_apply, zero_word, one_word, tovec_at, ascol_at, shapeCast_self, s1626_at, s1633_at, s1640_at, s1647_at, s1654_at, s1661_at, s1668_at, s2650_at, s2651_at, s3199_at, s3207_at, s3215_at, s3216_at, s3217_at, dot3, newt, Rh_zero, th_zero, rel_zero, Rh_at _ 12 9 (by norm_num) rfl, th_at _ _ 12 9 (by norm_num) rfl, rel_at _ 12 9 (by norm_num) rfl] <;> rfl
theorem s3232_c8 (b : Fin 128) : s3232 x0 x1 (ix2 b (⟨8, by norm_num⟩ : Fin 16)) = Rh (Rk x0 b) 12 2 0 := by
  simp only [s3232, k0_pay774]
  refine (concat_unit_piece 8 (by norm_num) _ _ _ (by simp) rfl rfl b).trans ?_
  simp only [ValueIdx.mulf_apply, ValueIdx.addf_apply, ValueIdx.subf_apply, ValueIdx.broadcast_apply, zero_word, one_word, tovec_at, ascol_at, shapeCast_self, s1626_at, s1633_at, s1640_at, s1647_at, s1654_at, s1661_at, s1668_at, s2650_at, s2651_at, s3199_at, s3207_at, s3215_at, s3216_at, s3217_at, dot3, newt, Rh_zero, th_zero, rel_zero, Rh_at _ 12 9 (by norm_num) rfl, th_at _ _ 12 9 (by norm_num) rfl, rel_at _ 12 9 (by norm_num) rfl] <;> rfl
theorem s3232_c9 (b : Fin 128) : s3232 x0 x1 (ix2 b (⟨9, by norm_num⟩ : Fin 16)) = Rh (Rk x0 b) 12 2 1 := by
  simp only [s3232, k0_pay774]
  refine (concat_unit_piece 9 (by norm_num) _ _ _ (by simp) rfl rfl b).trans ?_
  simp only [ValueIdx.mulf_apply, ValueIdx.addf_apply, ValueIdx.subf_apply, ValueIdx.broadcast_apply, zero_word, one_word, tovec_at, ascol_at, shapeCast_self, s1626_at, s1633_at, s1640_at, s1647_at, s1654_at, s1661_at, s1668_at, s2650_at, s2651_at, s3199_at, s3207_at, s3215_at, s3216_at, s3217_at, dot3, newt, Rh_zero, th_zero, rel_zero, Rh_at _ 12 9 (by norm_num) rfl, th_at _ _ 12 9 (by norm_num) rfl, rel_at _ 12 9 (by norm_num) rfl] <;> rfl
theorem s3232_c10 (b : Fin 128) : s3232 x0 x1 (ix2 b (⟨10, by norm_num⟩ : Fin 16)) = Rh (Rk x0 b) 12 2 2 := by
  simp only [s3232, k0_pay774]
  refine (concat_unit_piece 10 (by norm_num) _ _ _ (by simp) rfl rfl b).trans ?_
  simp only [ValueIdx.mulf_apply, ValueIdx.addf_apply, ValueIdx.subf_apply, ValueIdx.broadcast_apply, zero_word, one_word, tovec_at, ascol_at, shapeCast_self, s1626_at, s1633_at, s1640_at, s1647_at, s1654_at, s1661_at, s1668_at, s2650_at, s2651_at, s3199_at, s3207_at, s3215_at, s3216_at, s3217_at, dot3, newt, Rh_zero, th_zero, rel_zero, Rh_at _ 12 9 (by norm_num) rfl, th_at _ _ 12 9 (by norm_num) rfl, rel_at _ 12 9 (by norm_num) rfl] <;> rfl
theorem s3232_c11 (b : Fin 128) : s3232 x0 x1 (ix2 b (⟨11, by norm_num⟩ : Fin 16)) = newt (Rk x0 b) (pk x1 b) 12 2 := by
  simp only [s3232, k0_pay774]
  refine (concat_unit_piece 11 (by norm_num) _ _ _ (by simp) rfl rfl b).trans ?_
  simp only [ValueIdx.mulf_apply, ValueIdx.addf_apply, ValueIdx.subf_apply, ValueIdx.broadcast_apply, zero_word, one_word, tovec_at, ascol_at, shapeCast_self, s1626_at, s1633_at, s1640_at, s1647_at, s1654_at, s1661_at, s1668_at, s2650_at, s2651_at, s3199_at, s3207_at, s3215_at, s3216_at, s3217_at, dot3, newt, Rh_zero, th_zero, rel_zero, Rh_at _ 12 9 (by norm_num) rfl, th_at _ _ 12 9 (by norm_num) rfl, rel_at _ 12 9 (by norm_num) rfl] <;> rfl
theorem s3232_c12 (b : Fin 128) : s3232 x0 x1 (ix2 b (⟨12, by norm_num⟩ : Fin 16)) = (0 : EReal) := by
  simp only [s3232, k0_pay774]
  refine (concat_unit_piece 12 (by norm_num) _ _ _ (by simp) rfl rfl b).trans ?_
  simp only [ValueIdx.mulf_apply, ValueIdx.addf_apply, ValueIdx.subf_apply, ValueIdx.broadcast_apply, zero_word, one_word, tovec_at, ascol_at, shapeCast_self, s1626_at, s1633_at, s1640_at, s1647_at, s1654_at, s1661_at, s1668_at, s2650_at, s2651_at, s3199_at, s3207_at, s3215_at, s3216_at, s3217_at, dot3, newt, Rh_zero, th_zero, rel_zero, Rh_at _ 12 9 (by norm_num) rfl, th_at _ _ 12 9 (by norm_num) rfl, rel_at _ 12 9 (by norm_num) rfl] <;> rfl
theorem s3232_c13 (b : Fin 128) : s3232 x0 x1 (ix2 b (⟨13, by norm_num⟩ : Fin 16)) = (0 : EReal) := by
  simp only [s3232, k0_pay774]
  refine (concat_unit_piece 13 (by norm_num) _ _ _ (by simp) rfl rfl b).trans ?_
  simp only [ValueIdx.mulf_apply, ValueIdx.addf_apply, ValueIdx.subf_apply, ValueIdx.broadcast_apply, zero_word, one_word, tovec_at, ascol_at, shapeCast_self, s1626_at, s1633_at, s1640_at, s1647_at, s1654_at, s1661_at, s1668_at, s2650_at, s2651_at, s3199_at, s3207_at, s3215_at, s3216_at, s3217_at, dot3, newt, Rh_zero, th_zero, rel_zero, Rh_at _ 12 9 (by norm_num) rfl, th_at _ _ 12 9 (by norm_num) rfl, rel_at _ 12 9 (by norm_num) rfl] <;> rfl
theorem s3232_c14 (b : Fin 128) : s3232 x0 x1 (ix2 b (⟨14, by norm_num⟩ : Fin 16)) = (0 : EReal) := by
  simp only [s3232, k0_pay774]
  refine (concat_unit_piece 14 (by norm_num) _ _ _ (by simp) rfl rfl b).trans ?_
  simp only [ValueIdx.mulf_apply, ValueIdx.addf_apply, ValueIdx.subf_apply, ValueIdx.broadcast_apply, zero_word, one_word, tovec_at, ascol_at, shapeCast_self, s1626_at, s1633_at, s1640_at, s1647_at, s1654_at, s1661_at, s1668_at, s2650_at, s2651_at, s3199_at, s3207_at, s3215_at, s3216_at, s3217_at, dot3, newt, Rh_zero, th_zero, rel_zero, Rh_at _ 12 9 (by norm_num) rfl, th_at _ _ 12 9 (by norm_num) rfl, rel_at _ 12 9 (by norm_num) rfl] <;> rfl
theorem s3232_c15 (b : Fin 128) : s3232 x0 x1 (ix2 b (⟨15, by norm_num⟩ : Fin 16)) = (1 : EReal) := by
  simp only [s3232, k0_pay774]
  refine (concat_unit_piece 15 (by norm_num) _ _ _ (by simp) rfl rfl b).trans ?_
  simp only [ValueIdx.mulf_apply, ValueIdx.addf_apply, ValueIdx.subf_apply, ValueIdx.broadcast_apply, zero_word, one_word, tovec_at, ascol_at, shapeCast_self, s1626_at, s1633_at, s1640_at, s1647_at, s1654_at, s1661_at, s1668_at, s2650_at, s2651_at, s3199_at, s3207_at, s3215_at, s3216_at, s3217_at, dot3, newt, Rh_zero, th_zero, rel_zero, Rh_at _ 12 9 (by norm_num) rfl, th_at _ _ 12 9 (by norm_num) rfl, rel_at _ 12 9 (by norm_num) rfl] <;> rfl
theorem s239_at (b : Fin 128) : s239 x0 x1 (ix1 b) = Rk x0 b 13 0 0 := by
  simp only [s239, k0_pay128, ValueIdx.mulf_apply, ValueIdx.addf_apply, ValueIdx.subf_apply, ValueIdx.broadcast_apply, zero_word, one_word, tovec_at, ascol_at, shapeCast_self, slice_at (N := 216) _ 117 (by norm_num), s1_eq, dot3, newt, Rh_zero, th_zero, rel_zero] <;> rfl
theorem s245_at (b : Fin 128) : s245 x0 x1 (ix1 b) = Rk x0 b 13 1 0 := by
  simp only [s245, k0_pay131, ValueIdx.mulf_apply, ValueIdx.addf_apply, ValueIdx.subf_apply, ValueIdx.broadcast_apply, zero_word, one_word, tovec_at, ascol_at, shapeCast_self, slice_at (N := 216) _ 120 (by norm_num), s1_eq, dot3, newt, Rh_zero, th_zero, rel_zero] <;> rfl
theorem s251_at (b : Fin 128) : s251 x0 x1 (ix1 b) = Rk x0 b 13 2 0 := by
  simp only [s251, k0_pay134, ValueIdx.mulf_apply, ValueIdx.addf_apply, ValueIdx.subf_apply, ValueIdx.broadcast_apply, zero_word, one_word, tovec_at, ascol_at, shapeCast_self, slice_at (N := 216) _ 123 (by norm_num), s1_eq, dot3, newt, Rh_zero, th_zero, rel_zero] <;> rfl
theorem s1699_at (b : Fin 128) : s1699 x0 x1 (ix1 b) = Rh (Rk x0 b) 13 0 0 := by
  simp only [s1699, k0_pay540, ValueIdx.mulf_apply, ValueIdx.addf_apply, ValueIdx.subf_apply, ValueIdx.broadcast_apply, zero_word, one_word, tovec_at, ascol_at, shapeCast_self, s239_at, s245_at, s251_at, s1351_at, s1358_at, s1365_at, dot3, newt, Rh_zero, th_zero, rel_zero, Rh_at _ 13 9 (by norm_num) rfl, th_at _ _ 13 9 (by norm_num) rfl, rel_at _ 13 9 (by norm_num) rfl] <;> rfl
theorem s3261_at (b : Fin 128) : s3261 x0 x1 (ix2 b (0 : Fin 1)) = Rh (Rk x0 b) 13 0 0 := by
  simp only [s3261, k0_pay776, ValueIdx.mulf_apply, ValueIdx.addf_apply, ValueIdx.subf_apply, ValueIdx.broadcast_apply, zero_word, one_word, tovec_at, ascol_at, shapeCast_self, s1699_at, dot3, newt, Rh_zero, th_zero, rel_zero, Rh_at _ 13 9 (by norm_num) rfl, th_at _ _ 13 9 (by norm_num) rfl, rel_at _ 13 9 (by norm_num) rfl] <;> rfl
theorem s241_at (b : Fin 128) : s241 x0 x1 (ix1 b) = Rk x0 b 13 0 1 := by
  simp only [s241, k0_pay129, ValueIdx.mulf_apply, ValueIdx.addf_apply, ValueIdx.subf_apply, ValueIdx.broadcast_apply, zero_word, one_word, tovec_at, ascol_at, shapeCast_self, slice_at (N := 216) _ 118 (by norm_num), s1_eq, dot3, newt, Rh_zero, th_zero, rel_zero] <;> rfl
theorem s247_at (b : Fin 128) : s247 x0 x1 (ix1 b) = Rk x0 b 13 1 1 := by
  simp only [s247, k0_pay132, ValueIdx.mulf_apply, ValueIdx.addf_apply, ValueIdx.subf_apply, ValueIdx.broadcast_apply, zero_word, one_word, tovec_at, ascol_at, shapeCast_self, slice_at (N := 216) _ 121 (by norm_num), s1_eq, dot3, newt, Rh_zero, th_zero, rel_zero] <;> rfl
theorem s253_at (b : Fin 128) : s253 x0 x1 (ix1 b) = Rk x0 b 13 2 1 := by
  simp only [s253, k0_pay135, ValueIdx.mulf_apply, ValueIdx.addf_apply, ValueIdx.subf_apply, ValueIdx.broadcast_apply, zero_word, one_word, tovec_at, ascol_at, shapeCast_self, slice_at (N := 216) _ 124 (by norm_num), s1_eq, dot3, newt, Rh_zero, th_zero, rel_zero] <;> rfl
theorem s1706_at (b : Fin 128) : s1706 x0 x1 (ix1 b) = Rh (Rk x0 b) 13 0 1 := by
  simp only [s1706, k0_pay541, ValueIdx.mulf_apply, ValueIdx.addf_apply, ValueIdx.subf_apply, ValueIdx.broadcast_apply, zero_word, one_word, tovec_at, ascol_at, shapeCast_self, s241_at, s247_at, s253_at, s1351_at, s1358_at, s1365_at, dot3, newt, Rh_zero, th_zero, rel_zero, Rh_at _ 13 9 (by norm_num) rfl, th_at _ _ 13 9 (by norm_num) rfl, rel_at _ 13 9 (by norm_num) rfl] <;> rfl
theorem s3262_at (b : Fin 128) : s3262 x0 x1 (ix2 b (0 : Fin 1)) = Rh (Rk x0 b) 13 0 1 := by
  simp only [s3262, k0_pay777, ValueIdx.mulf_apply, ValueIdx.addf_apply, ValueIdx.subf_apply, ValueIdx.broadcast_apply, zero_word, one_word, tovec_at, ascol_at, shapeCast_self, s1706_at, dot3, newt, Rh_zero, th_zero, rel_zero, Rh_at _ 13 9 (by norm_num) rfl, th_at _ _ 13 9 (by norm_num) rfl, rel_at _ 13 9 (by norm_num) rfl] <;> rfl
theorem s249_at (b : Fin 128) : s249 x0 x1 (ix1 b) = Rk x0 b 13 1 2 := by
  simp only [s249, k0_pay133, ValueIdx.mulf_apply, ValueIdx.addf_apply, ValueIdx.subf_apply, ValueIdx.broadcast_apply, zero_word, one_word, tovec_at, ascol_at, shapeCast_self, slice_at (N := 216) _ 122 (by norm_num), s1_eq, dot3, newt, Rh_zero, th_zero, rel_zero] <;> rfl
theorem s255_at (b : Fin 128) : s255 x0 x1 (ix1 b) = Rk x0 b 13 2 2 := by
  simp only [s255, k0_pay136, ValueIdx.mulf_apply, ValueIdx.addf_apply, ValueIdx.subf_apply, ValueIdx.broadcast_apply, zero_word, one_word, tovec_at, ascol_at, shapeCast_self, slice_at (N := 216) _ 125 (by norm_num), s1_eq, dot3, newt, Rh_zero, th_zero, rel_zero] <;> rfl
theorem s243_at (b : Fin 128) : s243 x0 x1 (ix1 b) = Rk x0 b 13 0 2 := by
  simp only [s243, k0_pay130, ValueIdx.mulf_apply, ValueIdx.addf_apply, ValueIdx.subf_apply, ValueIdx.broadcast_apply, zero_word, one_word, tovec_at, ascol_at, shapeCast_self, slice_at (N := 216) _ 119 (by norm_num), s1_eq, dot3, newt, Rh_zero, th_zero, rel_zero] <;> rfl
theorem s1707_at (b : Fin 128) : s1707 x0 x1 (ix1 b) = ((Rh (Rk x0 b) 9 0 0) * (Rk x0 b 13 0 2)) := by
  simp only [s1707, k0_pay542, ValueIdx.mulf_apply, ValueIdx.addf_apply, ValueIdx.subf_apply, ValueIdx.broadcast_apply, zero_word, one_word, tovec_at, ascol_at, shapeCast_self, s243_at, s1351_at, dot3, newt, Rh_zero, th_zero, rel_zero] <;> rfl
theorem s1713_at (b : Fin 128) : s1713 x0 x1 (ix1 b) = Rh (Rk x0 b) 13 0 2 := by
  simp only [s1713, k0_pay543, ValueIdx.mulf_apply, ValueIdx.addf_apply, ValueIdx.subf_apply, ValueIdx.broadcast_apply, zero_word, one_word, tovec_at, ascol_at, shapeCast_self, s249_at, s255_at, s1358_at, s1365_at, s1707_at, dot3, newt, Rh_zero, th_zero, rel_zero, Rh_at _ 13 9 (by norm_num) rfl, th_at _ _ 13 9 (by norm_num) rfl, rel_at _ 13 9 (by norm_num) rfl] <;> rfl
theorem s3263_at (b : Fin 128) : s3263 x0 x1 (ix2 b (0 : Fin 1)) = Rh (Rk x0 b) 13 0 2 := by
  simp only [s3263, k0_pay778, ValueIdx.mulf_apply, ValueIdx.addf_apply, ValueIdx.subf_apply, ValueIdx.broadcast_apply, zero_word, one_word, tovec_at, ascol_at, shapeCast_self, s1713_at, dot3, newt, Rh_zero, th_zero, rel_zero, Rh_at _ 13 9 (by norm_num) rfl, th_at _ _ 13 9 (by norm_num) rfl, rel_at _ 13 9 (by norm_num) rfl] <;> rfl
theorem s515_at (b : Fin 128) : s515 x0 x1 (ix1 b) = pk x1 b 13 0 := by
  simp only [s515, k0_pay270, ValueIdx.mulf_apply, ValueIdx.addf_apply, ValueIdx.subf_apply, ValueIdx.broadcast_apply, zero_word, one_word, tovec_at, ascol_at, shapeCast_self, slice_at (N := 72) _ 39 (by norm_num), s3_eq, dot3, newt, Rh_zero, th_zero, rel_zero] <;> rfl
theorem s517_at (b : Fin 128) : s517 x0 x1 (ix1 b) = pk x1 b 13 1 := by
  simp only [s517, k0_pay271, ValueIdx.mulf_apply, ValueIdx.addf_apply, ValueIdx.subf_apply, ValueIdx.broadcast_apply, zero_word, one_word, tovec_at, ascol_at, shapeCast_self, slice_at (N := 72) _ 40 (by norm_num), s3_eq, dot3, newt, Rh_zero, th_zero, rel_zero] <;> rfl
theorem s519_at (b : Fin 128) : s519 x0 x1 (ix1 b) = pk x1 b 13 2 := by
  simp only [s519, k0_pay272, ValueIdx.mulf_apply, ValueIdx.addf_apply, ValueIdx.subf_apply, ValueIdx.broadcast_apply, zero_word, one_word, tovec_at, ascol_at, shapeCast_self, slice_at (N := 72) _ 41 (by norm_num), s3_eq, dot3, newt, Rh_zero, th_zero, rel_zero] <;> rfl
theorem s618_at (b : Fin 128) : s618 x0 x1 (ix1 b) = rel (pk x1 b) 13 2 := by
  simp only [s618, k0_pay342, ValueIdx.mulf_apply, ValueIdx.addf_apply, ValueIdx.subf_apply, ValueIdx.broadcast_apply, zero_word, one_word, tovec_at, ascol_at, shapeCast_self, s495_at, s519_at, dot3, newt, Rh_zero, th_zero, rel_zero, Rh_at _ 13 9 (by norm_num) rfl, th_at _ _ 13 9 (by norm_num) rfl, rel_at _ 13 9 (by norm_num) rfl] <;> rfl
theorem s616_at (b : Fin 128) : s616 x0 x1 (ix1 b) = rel (pk x1 b) 13 0 := by
  simp only [s616, k0_pay340, ValueIdx.mulf_apply, ValueIdx.addf_apply, ValueIdx.subf_apply, ValueIdx.broadcast_apply, zero_word, one_word, tovec_at, ascol_at, shapeCast_self, s491_at, s515_at, dot3, newt, Rh_zero, th_zero, rel_zero, Rh_at _ 13 9 (by norm_num) rfl, th_at _ _ 13 9 (by norm_num) rfl, rel_at _ 13 9 (by norm_num) rfl] <;> rfl
theorem s617_at (b : Fin 128) : s617 x0 x1 (ix1 b) = rel (pk x1 b) 13 1 := by
  simp only [s617, k0_pay341, ValueIdx.mulf_apply, ValueIdx.addf_apply, ValueIdx.subf_apply, ValueIdx.broadcast_apply, zero_word, one_word, tovec_at, ascol_at, shapeCast_self, s493_at, s517_at, dot3, newt, Rh_zero, th_zero, rel_zero, Rh_at _ 13 9 (by norm_num) rfl, th_at _ _ 13 9 (by norm_num) rfl, rel_at _ 13 9 (by norm_num) rfl] <;> rfl
theorem s1760_at (b : Fin 128) : s1760 x0 x1 (ix1 b) = (((0 : EReal) + ((Rh (Rk x0 b) 9 0 0) * (rel (pk x1 b) 13 0))) + ((Rh (Rk x0 b) 9 0 1) * (rel (pk x1 b) 13 1))) := by
  simp only [s1760, k0_pay550, ValueIdx.mulf_apply, ValueIdx.addf_apply, ValueIdx.subf_apply, ValueIdx.broadcast_apply, zero_word, one_word, tovec_at, ascol_at, shapeCast_self, s616_at, s617_at, s1351_at, s1358_at, dot3, newt, Rh_zero, th_zero, rel_zero] <;> rfl
theorem s1763_at (b : Fin 128) : s1763 x0 x1 (ix1 b) = th (Rk x0 b) (pk x1 b) 13 0 := by
  simp only [s1763, k0_pay551, ValueIdx.mulf_apply, ValueIdx.addf_apply, ValueIdx.subf_apply, ValueIdx.broadcast_apply, zero_word, one_word, tovec_at, ascol_at, shapeCast_self, s618_at, s1365_at, s1415_at, s1760_at, dot3, newt, Rh_zero, th_zero, rel_zero, Rh_at _ 13 9 (by norm_num) rfl, th_at _ _ 13 9 (by norm_num) rfl, rel_at _ 13 9 (by norm_num) rfl] <;> rfl
theorem s3264_at (b : Fin 128) : s3264 x0 x1 (ix2 b (0 : Fin 1)) = newt (Rk x0 b) (pk x1 b) 13 0 := by
  simp only [s3264, k0_pay779, ValueIdx.mulf_apply, ValueIdx.addf_apply, ValueIdx.subf_apply, ValueIdx.broadcast_apply, zero_word, one_word, tovec_at, ascol_at, shapeCast_self, s515_at, s517_at, s519_at, s1699_at, s1706_at, s1713_at, s1763_at, dot3, newt, Rh_zero, th_zero, rel_zero, Rh_at _ 13 9 (by norm_num) rfl, th_at _ _ 13 9 (by norm_num) rfl, rel_at _ 13 9 (by norm_num) rfl] <;> rfl
theorem s1720_at (b : Fin 128) : s1720 x0 x1 (ix1 b) = Rh (Rk x0 b) 13 1 0 := by
  simp only [s1720, k0_pay544, ValueIdx.mulf_apply, ValueIdx.addf_apply, ValueIdx.subf_apply, ValueIdx.broadcast_apply, zero_word, one_word, tovec_at, ascol_at, shapeCast_self, s239_at, s245_at, s251_at, s1372_at, s1379_at, s1386_at, dot3, newt, Rh_zero, th_zero, rel_zero, Rh_at _ 13 9 (by norm_num) rfl, th_at _ _ 13 9 (by norm_num) rfl, rel_at _ 13 9 (by norm_num) rfl] <;> rfl
theorem s3265_at (b : Fin 128) : s3265 x0 x1 (ix2 b (0 : Fin 1)) = Rh (Rk x0 b) 13 1 0 := by
  simp only [s3265, k0_pay780, ValueIdx.mulf_apply, ValueIdx.addf_apply, ValueIdx.subf_apply, ValueIdx.broadcast_apply, zero_word, one_word, tovec_at, ascol_at, shapeCast_self, s1720_at, dot3, newt, Rh_zero, th_zero, rel_zero, Rh_at _ 13 9 (by norm_num) rfl, th_at _ _ 13 9 (by norm_num) rfl, rel_at _ 13 9 (by norm_num) rfl] <;> rfl
theorem s1727_at (b : Fin 128) : s1727 x0 x1 (ix1 b) = Rh (Rk x0 b) 13 1 1 := by
  simp only [s1727, k0_pay545, ValueIdx.mulf_apply, ValueIdx.addf_apply, ValueIdx.subf_apply, ValueIdx.broadcast_apply, zero_word, one_word, tovec_at, ascol_at, shapeCast_self, s241_at, s247_at, s253_at, s1372_at, s1379_at, s1386_at, dot3, newt, Rh_zero, th_zero, rel_zero, Rh_at _ 13 9 (by norm_num) rfl, th_at _ _ 13 9 (by norm_num) rfl, rel_at _ 13 9 (by norm_num) rfl] <;> rfl
theorem s3266_at (b : Fin 128) : s3266 x0 x1 (ix2 b (0 : Fin 1)) = Rh (Rk x0 b) 13 1 1 := by
  simp only [s3266, k0_pay781, ValueIdx.mulf_apply, ValueIdx.addf_apply, ValueIdx.subf_apply, ValueIdx.broadcast_apply, zero_word, one_word, tovec_at, ascol_at, shapeCast_self, s1727_at, dot3, newt, Rh_zero, th_zero, rel_zero, Rh_at _ 13 9 (by norm_num) rfl, th_at _ _ 13 9 (by norm_num) rfl, rel_at _ 13 9 (by norm_num) rfl] <;> rfl
theorem s1734_at (b : Fin 128) : s1734 x0 x1 (ix1 b) = Rh (Rk x0 b) 13 1 2 := by
  simp only [s1734, k0_pay546, ValueIdx.mulf_apply, ValueIdx.addf_apply, ValueIdx.subf_apply, ValueIdx.broadcast_apply, zero_word, one_word, tovec_at, ascol_at, shapeCast_self, s243_at, s249_at, s255_at, s1372_at, s1379_at, s1386_at, dot3, newt, Rh_zero, th_zero, rel_zero, Rh_at _ 13 9 (by norm_num) rfl, th_at _ _ 13 9 (by norm_num) rfl, rel_at _ 13 9 (by norm_num) rfl] <;> rfl
theorem s3267_at (b : Fin 128) : s3267 x0 x1 (ix2 b (0 : Fin 1)) = Rh (Rk x0 b) 13 1 2 := by
  simp only [s3267, k0_pay782, ValueIdx.mulf_apply, ValueIdx.addf_apply, ValueIdx.subf_apply, ValueIdx.broadcast_apply, zero_word, one_word, tovec_at, ascol_at, shapeCast_self, s1734_at, dot3, newt, Rh_zero, th_zero, rel_zero, Rh_at _ 13 9 (by norm_num) rfl, th_at _ _ 13 9 (by norm_num) rfl, rel_at _ 13 9 (by norm_num) rfl] <;> rfl
theorem s1771_at (b : Fin 128) : s1771 x0 x1 (ix1 b) = th (Rk x0 b) (pk x1 b) 13 1 := by
  simp only [s1771, k0_pay552, ValueIdx.mulf_apply, ValueIdx.addf_apply, ValueIdx.subf_apply, ValueIdx.broadcast_apply, zero_word, one_word, tovec_at, ascol_at, shapeCast_self, s616_at, s617_at, s618_at, s1372_at, s1379_at, s1386_at, s1423_at, dot3, newt, Rh_zero, th_zero, rel_zero, Rh_at _ 13 9 (by norm_num) rfl, th_at _ _ 13 9 (by norm_num) rfl, rel_at _ 13 9 (by norm_num) rfl] <;> rfl
theorem s3268_at (b : Fin 128) : s3268 x0 x1 (ix2 b (0 : Fin 1)) = newt (Rk x0 b) (pk x1 b) 13 1 := by
  simp only [s3268, k0_pay783, ValueIdx.mulf_apply, ValueIdx.addf_apply, ValueIdx.subf_apply, ValueIdx.broadcast_apply, zero_word, one_word, tovec_at, ascol_at, shapeCast_self, s515_at, s517_at, s519_at, s1720_at, s1727_at, s1734_at, s1771_at, dot3, newt, Rh_zero, th_zero, rel_zero, Rh_at _ 13 9 (by norm_num) rfl, th_at _ _ 13 9 (by norm_num) rfl, rel_at _ 13 9 (by norm_num) rfl] <;> rfl
theorem s1741_at (b : Fin 128) : s1741 x0 x1 (ix1 b) = Rh (Rk x0 b) 13 2 0 := by
  simp only [s1741, k0_pay547, ValueIdx.mulf_apply, ValueIdx.addf_apply, ValueIdx.subf_apply, ValueIdx.broadcast_apply, zero_word, one_word, tovec_at, ascol_at, shapeCast_self, s239_at, s245_at, s251_at, s1393_at, s1400_at, s1407_at, dot3, newt, Rh_zero, th_zero, rel_zero, Rh_at _ 13 9 (by norm_num) rfl, th_at _ _ 13 9 (by norm_num) rfl, rel_at _ 13 9 (by norm_num) rfl] <;> rfl
theorem s3269_at (b : Fin 128) : s3269 x0 x1 (ix2 b (0 : Fin 1)) = Rh (Rk x0 b) 13 2 0 := by
  simp only [s3269, k0_pay784, ValueIdx.mulf_apply, ValueIdx.addf_apply, ValueIdx.subf_apply, ValueIdx.broadcast_apply, zero_word, one_word, tovec_at, ascol_at, shapeCast_self, s1741_at, dot3, newt, Rh_zero, th_zero, rel_zero, Rh_at _ 13 9 (by norm_num) rfl, th_at _ _ 13 9 (by norm_num) rfl, rel_at _ 13 9 (by norm_num) rfl] <;> rfl
theorem s1748_at (b : Fin 128) : s1748 x0 x1 (ix1 b) = Rh (Rk x0 b) 13 2 1 := by
  simp only [s1748, k0_pay548, ValueIdx.mulf_apply, ValueIdx.addf_apply, ValueIdx.subf_apply, ValueIdx.broadcast_apply, zero_word, one_word, tovec_at, ascol_at, shapeCast_self, s241_at, s247_at, s253_at, s1393_at, s1400_at, s1407_at, dot3, newt, Rh_zero, th_zero, rel_zero, Rh_at _ 13 9 (by norm_num) rfl, th_at _ _ 13 9 (by norm_num) rfl, rel_at _ 13 9 (by norm_num) rfl] <;> rfl
theorem s3270_at (b : Fin 128) : s3270 x0 x1 (ix2 b (0 : Fin 1)) = Rh (Rk x0 b) 13 2 1 := by
  simp only [s3270, k0_pay785, ValueIdx.mulf_apply, ValueIdx.addf_apply, ValueIdx.subf_apply, ValueIdx.broadcast_apply, zero_word, one_word, tovec_at, ascol_at, shapeCast_self, s1748_at, dot3, newt, Rh_zero, th_zero, rel_zero, Rh_at _ 13 9 (by norm_num) rfl, th_at _ _ 13 9 (by norm_num) rfl, rel_at _ 13 9 (by norm_num) rfl] <;> rfl
theorem s1755_at (b : Fin 128) : s1755 x0 x1 (ix1 b) = Rh (Rk x0 b) 13 2 2 := by
  simp only [s1755, k0_pay549, ValueIdx.mulf_apply, ValueIdx.addf_apply, ValueIdx.subf_apply, ValueIdx.broadcast_apply, zero_word, one_word, tovec_at, ascol_at, shapeCast_self, s243_at, s249_at, s255_at, s1393_at, s1400_at, s1407_at, dot3, newt, Rh_zero, th_zero, rel_zero, Rh_at _ 13 9 (by norm_num) rfl, th_at _ _ 13 9 (by norm_num) rfl, rel_at _ 13 9 (by norm_num) rfl] <;> rfl
theorem s3271_at (b : Fin 128) : s3271 x0 x1 (ix2 b (0 : Fin 1)) = Rh (Rk x0 b) 13 2 2 := by
  simp only [s3271, k0_pay786, ValueIdx.mulf_apply, ValueIdx.addf_apply, ValueIdx.subf_apply, ValueIdx.broadcast_apply, zero_word, one_word, tovec_at, ascol_at, shapeCast_self, s1755_at, dot3, newt, Rh_zero, th_zero, rel_zero, Rh_at _ 13 9 (by norm_num) rfl, th_at _ _ 13 9 (by norm_num) rfl, rel_at _ 13 9 (by norm_num) rfl] <;> rfl
theorem s1779_at (b : Fin 128) : s1779 x0 x1 (ix1 b) = th (Rk x0 b) (pk x1 b) 13 2 := by
  simp only [s1779, k0_pay553, ValueIdx.mulf_apply, ValueIdx.addf_apply, ValueIdx.subf_apply, ValueIdx.broadcast_apply, zero_word, one_word, tovec_at, ascol_at, shapeCast_self, s616_at, s617_at, s618_at, s1393_at, s1400_at, s1407_at, s1431_at, dot3, newt, Rh_zero, th_zero, rel_zero, Rh_at _ 13 9 (by norm_num) rfl, th_at _ _ 13 9 (by norm_num) rfl, rel_at _ 13 9 (by norm_num) rfl] <;> rfl
theorem s3272_at (b : Fin 128) : s3272 x0 x1 (ix2 b (0 : Fin 1)) = newt (Rk x0 b) (pk x1 b) 13 2 := by
  simp only [s3272, k0_pay787, ValueIdx.mulf_apply, ValueIdx.addf_apply, ValueIdx.subf_apply, ValueIdx.broadcast_apply, zero_word, one_word, tovec_at, ascol_at, shapeCast_self, s515_at, s517_at, s519_at, s1741_at, s1748_at, s1755_at, s1779_at, dot3, newt, Rh_zero, th_zero, rel_zero, Rh_at _ 13 9 (by norm_num) rfl, th_at _ _ 13 9 (by norm_num) rfl, rel_at _ 13 9 (by norm_num) rfl] <;> rfl
theorem s3273_at (b : Fin 128) : s3273 x0 x1 (ix2 b (0 : Fin 1)) = (0 : EReal) := by
  simp only [s3273, k0_pay788, ValueIdx.mulf_apply, ValueIdx.addf_apply, ValueIdx.subf_apply, ValueIdx.broadcast_apply, zero_word, one_word, tovec_at, ascol_at, shapeCast_self, s2650_at, dot3, newt, Rh_zero, th_zero, rel_zero] <;> rfl
theorem s3274_at (b : Fin 128) : s3274 x0 x1 (ix2 b (0 : Fin 1)) = (0 : EReal) := by
  simp only [s3274, k0_pay789, ValueIdx.mulf_apply, ValueIdx.addf_apply, ValueIdx.subf_apply, ValueIdx.broadcast_apply, zero_word, one_word, tovec_at, ascol_at, shapeCast_self, s2650_at, dot3, newt, Rh_zero, th_zero, rel_zero] <;> rfl
theorem s3277_c0 (b : Fin 128) : s3277 x0 x1 (ix2 b (⟨0, by norm_num⟩ : Fin 16)) = Rh (Rk x0 b) 13 0 0 := by
  simp only [s3277, k0_pay790]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3261_at, s3262_at, s3263_at, s3264_at, s3265_at, s3266_at, s3267_at, s3268_at, s3269_at, s3270_at, s3271_at, s3272_at, s3273_at, s3274_at, dot3, newt, Rh_zero, th_zero, rel_zero, Rh_at _ 13 9 (by norm_num) rfl, th_at _ _ 13 9 (by norm_num) rfl, rel_at _ 13 9 (by norm_num) rfl] <;> rfl
theorem s3277_c1 (b : Fin 128) : s3277 x0 x1 (ix2 b (⟨1, by norm_num⟩ : Fin 16)) = Rh (Rk x0 b) 13 0 1 := by
  simp only [s3277, k0_pay790]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3261_at, s3262_at, s3263_at, s3264_at, s3265_at, s3266_at, s3267_at, s3268_at, s3269_at, s3270_at, s3271_at, s3272_at, s3273_at, s3274_at, dot3, newt, Rh_zero, th_zero, rel_zero, Rh_at _ 13 9 (by norm_num) rfl, th_at _ _ 13 9 (by norm_num) rfl, rel_at _ 13 9 (by norm_num) rfl] <;> rfl
theorem s3277_c2 (b : Fin 128) : s3277 x0 x1 (ix2 b (⟨2, by norm_num⟩ : Fin 16)) = Rh (Rk x0 b) 13 0 2 := by
  simp only [s3277, k0_pay790]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3261_at, s3262_at, s3263_at, s3264_at, s3265_at, s3266_at, s3267_at, s3268_at, s3269_at, s3270_at, s3271_at, s3272_at, s3273_at, s3274_at, dot3, newt, Rh_zero, th_zero, rel_zero, Rh_at _ 13 9 (by norm_num) rfl, th_at _ _ 13 9 (by norm_num) rfl, rel_at _ 13 9 (by norm_num) rfl] <;> rfl
theorem s3277_c3 (b : Fin 128) : s3277 x0 x1 (ix2 b (⟨3, by norm_num⟩ : Fin 16)) = newt (Rk x0 b) (pk x1 b) 13 0 := by
  simp only [s3277, k0_pay790]
  refine (concat_unit_piece 3 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3261_at, s3262_at, s3263_at, s3264_at, s3265_at, s3266_at, s3267_at, s3268_at, s3269_at, s3270_at, s3271_at, s3272_at, s3273_at, s3274_at, dot3, newt, Rh_zero, th_zero, rel_zero, Rh_at _ 13 9 (by norm_num) rfl, th_at _ _ 13 9 (by norm_num) rfl, rel_at _ 13 9 (by norm_num) rfl] <;> rfl
theorem s3277_c4 (b : Fin 128) : s3277 x0 x1 (ix2 b (⟨4, by norm_num⟩ : Fin 16)) = Rh (Rk x0 b) 13 1 0 := by
  simp only [s3277, k0_pay790]
  refine (concat_unit_piece 4 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3261_at, s3262_at, s3263_at, s3264_at, s3265_at, s3266_at, s3267_at, s3268_at, s3269_at, s3270_at, s3271_at, s3272_at, s3273_at, s3274_at, dot3, newt, Rh_zero, th_zero, rel_zero, Rh_at _ 13 9 (by norm_num) rfl, th_at _ _ 13 9 (by norm_num) rfl, rel_at _ 13 9 (by norm_num) rfl] <;> rfl
theorem s3277_c5 (b : Fin 128) : s3277 x0 x1 (ix2 b (⟨5, by norm_num⟩ : Fin 16)) = Rh (Rk x0 b) 13 1 1 := by
  simp only [s3277, k0_pay790]
  refine (concat_unit_piece 5 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3261_at, s3262_at, s3263_at, s3264_at, s3265_at, s3266_at, s3267_at, s3268_at, s3269_at, s3270_at, s3271_at, s3272_at, s3273_at, s3274_at, dot3, newt, Rh_zero, th_zero, rel_zero, Rh_at _ 13 9 (by norm_num) rfl, th_at _ _ 13 9 (by norm_num) rfl, rel_at _ 13 9 (by norm_num) rfl] <;> rfl
theorem s3277_c6 (b : Fin 128) : s3277 x0 x1 (ix2 b (⟨6, by norm_num⟩ : Fin 16)) = Rh (Rk x0 b) 13 1 2 := by
  simp only [s3277, k0_pay790]
  refine (concat_unit_piece 6 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3261_at, s3262_at, s3263_at, s3264_at, s3265_at, s3266_at, s3267_at, s3268_at, s3269_at, s3270_at, s3271_at, s3272_at, s3273_at, s3274_at, dot3, newt, Rh_zero, th_zero, rel_zero, Rh_at _ 13 9 (by norm_num) rfl, th_at _ _ 13 9 (by norm_num) rfl, rel_at _ 13 9 (by norm_num) rfl] <;> rfl
theorem s3277_c7 (b : Fin 128) : s3277 x0 x1 (ix2 b (⟨7, by norm_num⟩ : Fin 16)) = newt (Rk x0 b) (pk x1 b) 13 1 := by
  simp only [s3277, k0_pay790]
  refine (concat_unit_piece 7 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3261_at, s3262_at, s3263_at, s3264_at, s3265_at, s3266_at, s3267_at, s3268_at, s3269_at, s3270_at, s3271_at, s3272_at, s3273_at, s3274_at, dot3, newt, Rh_zero, th_zero, rel_zero, Rh_at _ 13 9 (by norm_num) rfl, th_at _ _ 13 9 (by norm_num) rfl, rel_at _ 13 9 (by norm_num) rfl] <;> rfl
theorem s3277_c8 (b : Fin 128) : s3277 x0 x1 (ix2 b (⟨8, by norm_num⟩ : Fin 16)) = Rh (Rk x0 b) 13 2 0 := by
  simp only [s3277, k0_pay790]
  refine (concat_unit_piece 8 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3261_at, s3262_at, s3263_at, s3264_at, s3265_at, s3266_at, s3267_at, s3268_at, s3269_at, s3270_at, s3271_at, s3272_at, s3273_at, s3274_at, dot3, newt, Rh_zero, th_zero, rel_zero, Rh_at _ 13 9 (by norm_num) rfl, th_at _ _ 13 9 (by norm_num) rfl, rel_at _ 13 9 (by norm_num) rfl] <;> rfl
theorem s3277_c9 (b : Fin 128) : s3277 x0 x1 (ix2 b (⟨9, by norm_num⟩ : Fin 16)) = Rh (Rk x0 b) 13 2 1 := by
  simp only [s3277, k0_pay790]
  refine (concat_unit_piece 9 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3261_at, s3262_at, s3263_at, s3264_at, s3265_at, s3266_at, s3267_at, s3268_at, s3269_at, s3270_at, s3271_at, s3272_at, s3273_at, s3274_at, dot3, newt, Rh_zero, th_zero, rel_zero, Rh_at _ 13 9 (by norm_num) rfl, th_at _ _ 13 9 (by norm_num) rfl, rel_at _ 13 9 (by norm_num) rfl] <;> rfl
theorem s3277_c10 (b : Fin 128) : s3277 x0 x1 (ix2 b (⟨10, by norm_num⟩ : Fin 16)) = Rh (Rk x0 b) 13 2 2 := by
  simp only [s3277, k0_pay790]
  refine (concat_unit_piece 10 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3261_at, s3262_at, s3263_at, s3264_at, s3265_at, s3266_at, s3267_at, s3268_at, s3269_at, s3270_at, s3271_at, s3272_at, s3273_at, s3274_at, dot3, newt, Rh_zero, th_zero, rel_zero, Rh_at _ 13 9 (by norm_num) rfl, th_at _ _ 13 9 (by norm_num) rfl, rel_at _ 13 9 (by norm_num) rfl] <;> rfl
theorem s3277_c11 (b : Fin 128) : s3277 x0 x1 (ix2 b (⟨11, by norm_num⟩ : Fin 16)) = newt (Rk x0 b) (pk x1 b) 13 2 := by
  simp only [s3277, k0_pay790]
  refine (concat_unit_piece 11 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3261_at, s3262_at, s3263_at, s3264_at, s3265_at, s3266_at, s3267_at, s3268_at, s3269_at, s3270_at, s3271_at, s3272_at, s3273_at, s3274_at, dot3, newt, Rh_zero, th_zero, rel_zero, Rh_at _ 13 9 (by norm_num) rfl, th_at _ _ 13 9 (by norm_num) rfl, rel_at _ 13 9 (by norm_num) rfl] <;> rfl
theorem s3277_c12 (b : Fin 128) : s3277 x0 x1 (ix2 b (⟨12, by norm_num⟩ : Fin 16)) = (0 : EReal) := by
  simp only [s3277, k0_pay790]
  refine (concat_unit_piece 12 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3261_at, s3262_at, s3263_at, s3264_at, s3265_at, s3266_at, s3267_at, s3268_at, s3269_at, s3270_at, s3271_at, s3272_at, s3273_at, s3274_at, dot3, newt, Rh_zero, th_zero, rel_zero, Rh_at _ 13 9 (by norm_num) rfl, th_at _ _ 13 9 (by norm_num) rfl, rel_at _ 13 9 (by norm_num) rfl] <;> rfl
theorem s3277_c13 (b : Fin 128) : s3277 x0 x1 (ix2 b (⟨13, by norm_num⟩ : Fin 16)) = (0 : EReal) := by
  simp only [s3277, k0_pay790]
  refine (concat_unit_piece 13 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3261_at, s3262_at, s3263_at, s3264_at, s3265_at, s3266_at, s3267_at, s3268_at, s3269_at, s3270_at, s3271_at, s3272_at, s3273_at, s3274_at, dot3, newt, Rh_zero, th_zero, rel_zero, Rh_at _ 13 9 (by norm_num) rfl, th_at _ _ 13 9 (by norm_num) rfl, rel_at _ 13 9 (by norm_num) rfl] <;> rfl
theorem s3277_c14 (b : Fin 128) : s3277 x0 x1 (ix2 b (⟨14, by norm_num⟩ : Fin 16)) = (0 : EReal) := by
  simp only [s3277, k0_pay790]
  refine (concat_unit_piece 14 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3261_at, s3262_at, s3263_at, s3264_at, s3265_at, s3266_at, s3267_at, s3268_at, s3269_at, s3270_at, s3271_at, s3272_at, s3273_at, s3274_at, dot3, newt, Rh_zero, th_zero, rel_zero, Rh_at _ 13 9 (by norm_num) rfl, th_at _ _ 13 9 (by norm_num) rfl, rel_at _ 13 9 (by norm_num) rfl] <;> rfl
theorem s3277_c15 (b : Fin 128) : s3277 x0 x1 (ix2 b (⟨15, by norm_num⟩ : Fin 16)) = (1 : EReal) := by
  simp only [s3277, k0_pay790]
  refine (concat_unit_piece 15 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3261_at, s3262_at, s3263_at, s3264_at, s3265_at, s3266_at, s3267_at, s3268_at, s3269_at, s3270_at, s3271_at, s3272_at, s3273_at, s3274_at, dot3, newt, Rh_zero, th_zero, rel_zero, Rh_at _ 13 9 (by norm_num) rfl, th_at _ _ 13 9 (by norm_num) rfl, rel_at _ 13 9 (by norm_num) rfl] <;> rfl
theorem s521_at (b : Fin 128) : s521 x0 x1 (ix1 b) = pk x1 b 14 0 := by
  simp only [s521, k0_pay273, ValueIdx.mulf_apply, ValueIdx.addf_apply, ValueIdx.subf_apply, ValueIdx.broadcast_apply, zero_word, one_word, tovec_at, ascol_at, shapeCast_self, slice_at (N := 72) _ 42 (by norm_num), s3_eq, dot3, newt, Rh_zero, th_zero, rel_zero] <;> rfl
theorem s523_at (b : Fin 128) : s523 x0 x1 (ix1 b) = pk x1 b 14 1 := by
  simp only [s523, k0_pay274, ValueIdx.mulf_apply, ValueIdx.addf_apply, ValueIdx.subf_apply, ValueIdx.broadcast_apply, zero_word, one_word, tovec_at, ascol_at, shapeCast_self, slice_at (N := 72) _ 43 (by norm_num), s3_eq, dot3, newt, Rh_zero, th_zero, rel_zero] <;> rfl
theorem s525_at (b : Fin 128) : s525 x0 x1 (ix1 b) = pk x1 b 14 2 := by
  simp only [s525, k0_pay275, ValueIdx.mulf_apply, ValueIdx.addf_apply, ValueIdx.subf_apply, ValueIdx.broadcast_apply, zero_word, one_word, tovec_at, ascol_at, shapeCast_self, slice_at (N := 72) _ 44 (by norm_num), s3_eq, dot3, newt, Rh_zero, th_zero, rel_zero] <;> rfl
theorem s257_at (b : Fin 128) : s257 x0 x1 (ix1 b) = Rk x0 b 14 0 0 := by
  simp only [s257, k0_pay137, ValueIdx.mulf_apply, ValueIdx.addf_apply, ValueIdx.subf_apply, ValueIdx.broadcast_apply, zero_word, one_word, tovec_at, ascol_at, shapeCast_self, slice_at (N := 216) _ 126 (by norm_num), s1_eq, dot3, newt, Rh_zero, th_zero, rel_zero] <;> rfl
theorem s263_at (b : Fin 128) : s263 x0 x1 (ix1 b) = Rk x0 b 14 1 0 := by
  simp only [s263, k0_pay140, ValueIdx.mulf_apply, ValueIdx.addf_apply, ValueIdx.subf_apply, ValueIdx.broadcast_apply, zero_word, one_word, tovec_at, ascol_at, shapeCast_self, slice_at (N := 216) _ 129 (by norm_num), s1_eq, dot3, newt, Rh_zero, th_zero, rel_zero] <;> rfl
theorem s269_at (b : Fin 128) : s269 x0 x1 (ix1 b) = Rk x0 b 14 2 0 := by
  simp only [s269, k0_pay143, ValueIdx.mulf_apply, ValueIdx.addf_apply, ValueIdx.subf_apply, ValueIdx.broadcast_apply, zero_word, one_word, tovec_at, ascol_at, shapeCast_self, slice_at (N := 216) _ 132 (by norm_num), s1_eq, dot3, newt, Rh_zero, th_zero, rel_zero] <;> rfl
theorem s1786_at (b : Fin 128) : s1786 x0 x1 (ix1 b) = Rh (Rk x0 b) 14 0 0 := by
  simp only [s1786, k0_pay554, ValueIdx.mulf_apply, ValueIdx.addf_apply, ValueIdx.subf_apply, ValueIdx.broadcast_apply, zero_word, one_word, tovec_at, ascol_at, shapeCast_self, s257_at, s263_at, s269_at, s1351_at, s1358_at, s1365_at, dot3, newt, Rh_zero, th_zero, rel_zero, Rh_at _ 14 9 (by norm_num) rfl, th_at _ _ 14 9 (by norm_num) rfl, rel_at _ 14 9 (by norm_num) rfl] <;> rfl
theorem s259_at (b : Fin 128) : s259 x0 x1 (ix1 b) = Rk x0 b 14 0 1 := by
  simp only [s259, k0_pay138, ValueIdx.mulf_apply, ValueIdx.addf_apply, ValueIdx.subf_apply, ValueIdx.broadcast_apply, zero_word, one_word, tovec_at, ascol_at, shapeCast_self, slice_at (N := 216) _ 127 (by norm_num), s1_eq, dot3, newt, Rh_zero, th_zero, rel_zero] <;> rfl
theorem s265_at (b : Fin 128) : s265 x0 x1 (ix1 b) = Rk x0 b 14 1 1 := by
  simp only [s265, k0_pay141, ValueIdx.mulf_apply, ValueIdx.addf_apply, ValueIdx.subf_apply, ValueIdx.broadcast_apply, zero_word, one_word, tovec_at, ascol_at, shapeCast_self, slice_at (N := 216) _ 130 (by norm_num), s1_eq, dot3, newt, Rh_zero, th_zero, rel_zero] <;> rfl
theorem s271_at (b : Fin 128) : s271 x0 x1 (ix1 b) = Rk x0 b 14 2 1 := by
  simp only [s271, k0_pay144, ValueIdx.mulf_apply, ValueIdx.addf_apply, ValueIdx.subf_apply, ValueIdx.broadcast_apply, zero_word, one_word, tovec_at, ascol_at, shapeCast_self, slice_at (N := 216) _ 133 (by norm_num), s1_eq, dot3, newt, Rh_zero, th_zero, rel_zero] <;> rfl
theorem s1793_at (b : Fin 128) : s1793 x0 x1 (ix1 b) = Rh (Rk x0 b) 14 0 1 := by
  simp only [s1793, k0_pay555, ValueIdx.mulf_apply, ValueIdx.addf_apply, ValueIdx.subf_apply, ValueIdx.broadcast_apply, zero_word, one_word, tovec_at, ascol_at, shapeCast_self, s259_at, s265_at, s271_at, s1351_at, s1358_at, s1365_at, dot3, newt, Rh_zero, th_zero, rel_zero, Rh_at _ 14 9 (by norm_num) rfl, th_at _ _ 14 9 (by norm_num) rfl, rel_at _ 14 9 (by norm_num) rfl] <;> rfl
theorem s261_at (b : Fin 128) : s261 x0 x1 (ix1 b) = Rk x0 b 14 0 2 := by
  simp only [s261, k0_pay139, ValueIdx.mulf_apply, ValueIdx.addf_apply, ValueIdx.subf_apply, ValueIdx.broadcast_apply, zero_word, one_word, tovec_at, ascol_at, shapeCast_self, slice_at (N := 216) _ 128 (by norm_num), s1_eq, dot3, newt, Rh_zero, th_zero, rel_zero] <;> rfl
theorem s267_at (b : Fin 128) : s267 x0 x1 (ix1 b) = Rk x0 b 14 1 2 := by
  simp only [s267, k0_pay142, ValueIdx.mulf_apply, ValueIdx.addf_apply, ValueIdx.subf_apply, ValueIdx.broadcast_apply, zero_word, one_word, tovec_at, ascol_at, shapeCast_self, slice_at (N := 216) _ 131 (by norm_num), s1_eq, dot3, newt, Rh_zero, th_zero, rel_zero] <;> rfl
theorem s273_at (b : Fin 128) : s273 x0 x1 (ix1 b) = Rk x0 b 14 2 2 := by
  simp only [s273, k0_pay145, ValueIdx.mulf_apply, ValueIdx.addf_apply, ValueIdx.subf_apply, ValueIdx.broadcast_apply, zero_word, one_word, tovec_at, ascol_at, shapeCast_self, slice_at (N := 216) _ 134 (by norm_num), s1_eq, dot3, newt, Rh_zero, th_zero, rel_zero] <;> rfl
theorem s1800_at (b : Fin 128) : s1800 x0 x1 (ix1 b) = Rh (Rk x0 b) 14 0 2 := by
  simp only [s1800, k0_pay556, ValueIdx.mulf_apply, ValueIdx.addf_apply, ValueIdx.subf_apply, ValueIdx.broadcast_apply, zero_word, one_word, tovec_at, ascol_at, shapeCast_self, s261_at, s267_at, s273_at, s1351_at, s1358_at, s1365_at, dot3, newt, Rh_zero, th_zero, rel_zero, Rh_at _ 14 9 (by norm_num) rfl, th_at _ _ 14 9 (by norm_num) rfl, rel_at _ 14 9 (by norm_num) rfl] <;> rfl
theorem s1807_at (b : Fin 128) : s1807 x0 x1 (ix1 b) = Rh (Rk x0 b) 14 1 0 := by
  simp only [s1807, k0_pay557, ValueIdx.mulf_apply, ValueIdx.addf_apply, ValueIdx.subf_apply, ValueIdx.broadcast_apply, zero_word, one_word, tovec_at, ascol_at, shapeCast_self, s257_at, s263_at, s269_at, s1372_at, s1379_at, s1386_at, dot3, newt, Rh_zero, th_zero, rel_zero, Rh_at _ 14 9 (by norm_num) rfl, th_at _ _ 14 9 (by norm_num) rfl, rel_at _ 14 9 (by norm_num) rfl] <;> rfl
theorem s1812_at (b : Fin 128) : s1812 x0 x1 (ix1 b) = (((0 : EReal) + ((Rh (Rk x0 b) 9 1 0) * (Rk x0 b 14 0 1))) + ((Rh (Rk x0 b) 9 1 1) * (Rk x0 b 14 1 1))) := by
  simp only [s1812, k0_pay558, ValueIdx.mulf_apply, ValueIdx.addf_apply, ValueIdx.subf_apply, ValueIdx.broadcast_apply, zero_word, one_word, tovec_at, ascol_at, shapeCast_self, s259_at, s265_at, s1372_at, s1379_at, dot3, newt, Rh_zero, th_zero, rel_zero] <;> rfl
theorem s1813_at (b : Fin 128) : s1813 x0 x1 (ix1 b) = ((Rh (Rk x0 b) 9 1 2) * (Rk x0 b 14 2 1)) := by
  simp only [s1813, k0_pay559, ValueIdx.mulf_apply, ValueIdx.addf_apply, ValueIdx.subf_apply, ValueIdx.broadcast_apply, zero_word, one_word, tovec_at, ascol_at, shapeCast_self, s271_at, s1386_at, dot3, newt, Rh_zero, th_zero, rel_zero] <;> rfl
theorem s1814_at (b : Fin 128) : s1814 x0 x1 (ix1 b) = Rh (Rk x0 b) 14 1 1 := by
  simp only [s1814, k0_pay560, ValueIdx.mulf_apply, ValueIdx.addf_apply, ValueIdx.subf_apply, ValueIdx.broadcast_apply, zero_word, one_word, tovec_at, ascol_at, shapeCast_self, s1812_at, s1813_at, dot3, newt, Rh_zero, th_zero, rel_zero, Rh_at _ 14 9 (by norm_num) rfl, th_at _ _ 14 9 (by norm_num) rfl, rel_at _ 14 9 (by norm_num) rfl] <;> rfl
theorem s1821_at (b : Fin 128) : s1821 x0 x1 (ix1 b) = Rh (Rk x0 b) 14 1 2 := by
  simp only [s1821, k0_pay561, ValueIdx.mulf_apply, ValueIdx.addf_apply, ValueIdx.subf_apply, ValueIdx.broadcast_apply, zero_word, one_word, tovec_at, ascol_at, shapeCast_self, s261_at, s267_at, s273_at, s1372_at, s1379_at, s1386_at, dot3, newt, Rh_zero, th_zero, rel_zero, Rh_at _ 14 9 (by norm_num) rfl, th_at _ _ 14 9 (by norm_num) rfl, rel_at _ 14 9 (by norm_num) rfl] <;> rfl
theorem s1828_at (b : Fin 128) : s1828 x0 x1 (ix1 b) = Rh (Rk x0 b) 14 2 0 := by
  simp only [s1828, k0_pay562, ValueIdx.mulf_apply, ValueIdx.addf_apply, ValueIdx.subf_apply, ValueIdx.broadcast_apply, zero_word, one_word, tovec_at, ascol_at, shapeCast_self, s257_at, s263_at, s269_at, s1393_at, s1400_at, s1407_at, dot3, newt, Rh_zero, th_zero, rel_zero, Rh_at _ 14 9 (by norm_num) rfl, th_at _ _ 14 9 (by norm_num) rfl, rel_at _ 14 9 (by norm_num) rfl] <;> rfl
theorem s1835_at (b : Fin 128) : s1835 x0 x1 (ix1 b) = Rh (Rk x0 b) 14 2 1 := by
  simp only [s1835, k0_pay563, ValueIdx.mulf_apply, ValueIdx.addf_apply, ValueIdx.subf_apply, ValueIdx.broadcast_apply, zero_word, one_word, tovec_at, ascol_at, shapeCast_self, s259_at, s265_at, s271_at, s1393_at, s1400_at, s1407_at, dot3, newt, Rh_zero, th_zero, rel_zero, Rh_at _ 14 9 (by norm_num) rfl, th_at _ _ 14 9 (by norm_num) rfl, rel_at _ 14 9 (by norm_num) rfl] <;> rfl
theorem s1842_at (b : Fin 128) : s1842 x0 x1 (ix1 b) = Rh (Rk x0 b) 14 2 2 := by
  simp only [s1842, k0_pay564, ValueIdx.mulf_apply, ValueIdx.addf_apply, ValueIdx.subf_apply, ValueIdx.broadcast_apply, zero_word, one_word, tovec_at, ascol_at, shapeCast_self, s261_at, s267_at, s273_at, s1393_at, s1400_at, s1407_at, dot3, newt, Rh_zero, th_zero, rel_zero, Rh_at _ 14 9 (by norm_num) rfl, th_at _ _ 14 9 (by norm_num) rfl, rel_at _ 14 9 (by norm_num) rfl] <;> rfl
theorem s619_at (b : Fin 128) : s619 x0 x1 (ix1 b) = rel (pk x1 b) 14 0 := by
  simp only [s619, k0_pay343, ValueIdx.mulf_apply, ValueIdx.addf_apply, ValueIdx.subf_apply, ValueIdx.broadcast_apply, zero_word, one_word, tovec_at, ascol_at, shapeCast_self, s491_at, s521_at, dot3, newt, Rh_zero, th_zero, rel_zero, Rh_at _ 14 9 (by norm_num) rfl, th_at _ _ 14 9 (by norm_num) rfl, rel_at _ 14 9 (by norm_num) rfl] <;> rfl
theorem s620_at (b : Fin 128) : s620 x0 x1 (ix1 b) = rel (pk x1 b) 14 1 := by
  simp only [s620, k0_pay344, ValueIdx.mulf_apply, ValueIdx.addf_apply, ValueIdx.subf_apply, ValueIdx.broadcast_apply, zero_word, one_word, tovec_at, ascol_at, shapeCast_self, s493_at, s523_at, dot3, newt, Rh_zero, th_zero, rel_zero, Rh_at _ 14 9 (by norm_num) rfl, th_at _ _ 14 9 (by norm_num) rfl, rel_at _ 14 9 (by norm_num) rfl] <;> rfl
theorem s621_at (b : Fin 128) : s621 x0 x1 (ix1 b) = rel (pk x1 b) 14 2 := by
  simp only [s621, k0_pay345, ValueIdx.mulf_apply, ValueIdx.addf_apply, ValueIdx.subf_apply, ValueIdx.broadcast_apply, zero_word, one_word, tovec_at, ascol_at, shapeCast_self, s495_at, s525_at, dot3, newt, Rh_zero, th_zero, rel_zero, Rh_at _ 14 9 (by norm_num) rfl, th_at _ _ 14 9 (by norm_num) rfl, rel_at _ 14 9 (by norm_num) rfl] <;> rfl
theorem s1850_at (b : Fin 128) : s1850 x0 x1 (ix1 b) = th (Rk x0 b) (pk x1 b) 14 0 := by
  simp only [s1850, k0_pay565, ValueIdx.mulf_apply, ValueIdx.addf_apply, ValueIdx.subf_apply, ValueIdx.broadcast_apply, zero_word, one_word, tovec_at, ascol_at, shapeCast_self, s619_at, s620_at, s621_at, s1351_at, s1358_at, s1365_at, s1415_at, dot3, newt, Rh_zero, th_zero, rel_zero, Rh_at _ 14 9 (by norm_num) rfl, th_at _ _ 14 9 (by norm_num) rfl, rel_at _ 14 9 (by norm_num) rfl] <;> rfl
theorem s1858_at (b : Fin 128) : s1858 x0 x1 (ix1 b) = th (Rk x0 b) (pk x1 b) 14 1 := by
  simp only [s1858, k0_pay566, ValueIdx.mulf_apply, ValueIdx.addf_apply, ValueIdx.subf_apply, ValueIdx.broadcast_apply, zero_word, one_word, tovec_at, ascol_at, shapeCast_self, s619_at, s620_at, s621_at, s1372_at, s1379_at, s1386_at, s1423_at, dot3, newt, Rh_zero, th_zero, rel_zero, Rh_at _ 14 9 (by norm_num) rfl, th_at _ _ 14 9 (by norm_num) rfl, rel_at _ 14 9 (by norm_num) rfl] <;> rfl
theorem s1866_at (b : Fin 128) : s1866 x0 x1 (ix1 b) = th (Rk x0 b) (pk x1 b) 14 2 := by
  simp only [s1866, k0_pay567, ValueIdx.mulf_apply, ValueIdx.addf_apply, ValueIdx.subf_apply, ValueIdx.broadcast_apply, zero_word, one_word, tovec_at, ascol_at, shapeCast_self, s619_at, s620_at, s621_at, s1393_at, s1400_at, s1407_at, s1431_at, dot3, newt, Rh_zero, th_zero, rel_zero, Rh_at _ 14 9 (by norm_num) rfl, th_at _ _ 14 9 (by norm_num) rfl, rel_at _ 14 9 (by norm_num) rfl] <;> rfl
theorem s3322_c0 (b : Fin 128) : s3322 x0 x1 (ix2 b (⟨0, by norm_num⟩ : Fin 16)) = Rh (Rk x0 b) 14 0 0 := by
  simp only [s3322, k0_pay792]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s521_at, s523_at, s525_at, s1786_at, s1793_at, s1800_at, s1807_at, s1814_at, s1821_at, s1828_at, s1835_at, s1842_at, s1850_at, s1858_at, s1866_at, s2650_at, s2651_at, dot3, newt, Rh_zero, th_zero, rel_zero, Rh_at _ 14 9 (by norm_num) rfl, th_at _ _ 14 9 (by norm_num) rfl, rel_at _ 14 9 (by norm_num) rfl] <;> rfl
theorem s3322_c1 (b : Fin 128) : s3322 x0 x1 (ix2 b (⟨1, by norm_num⟩ : Fin 16)) = Rh (Rk x0 b) 14 0 1 := by
  simp only [s3322, k0_pay792]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s521_at, s523_at, s525_at, s1786_at, s1793_at, s1800_at, s1807_at, s1814_at, s1821_at, s1828_at, s1835_at, s1842_at, s1850_at, s1858_at, s1866_at, s2650_at, s2651_at, dot3, newt, Rh_zero, th_zero, rel_zero, Rh_at _ 14 9 (by norm_num) rfl, th_at _ _ 14 9 (by norm_num) rfl, rel_at _ 14 9 (by norm_num) rfl] <;> rfl
theorem s3322_c2 (b : Fin 128) : s3322 x0 x1 (ix2 b (⟨2, by norm_num⟩ : Fin 16)) = Rh (Rk x0 b) 14 0 2 := by
  simp only [s3322, k0_pay792]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s521_at, s523_at, s525_at, s1786_at, s1793_at, s1800_at, s1807_at, s1814_at, s1821_at, s1828_at, s1835_at, s1842_at, s1850_at, s1858_at, s1866_at, s2650_at, s2651_at, dot3, newt, Rh_zero, th_zero, rel_zero, Rh_at _ 14 9 (by norm_num) rfl, th_at _ _ 14 9 (by norm_num) rfl, rel_at _ 14 9 (by norm_num) rfl] <;> rfl
theorem s3322_c3 (b : Fin 128) : s3322 x0 x1 (ix2 b (⟨3, by norm_num⟩ : Fin 16)) = newt (Rk x0 b) (pk x1 b) 14 0 := by
  simp only [s3322, k0_pay792]
  refine (concat_unit_piece 3 (by norm_num) _ _ _ (by simp) rfl rfl b).trans ?_
  simp only [ValueIdx.mulf_apply, ValueIdx.addf_apply, ValueIdx.subf_apply, ValueIdx.broadcast_apply, zero_word, one_word, tovec_at, ascol_at, shapeCast_self, s521_at, s523_at, s525_at, s1786_at, s1793_at, s1800_at, s1807_at, s1814_at, s1821_at, s1828_at, s1835_at, s1842_at, s1850_at, s1858_at, s1866_at, s2650_at, s2651_at, dot3, newt, Rh_zero, th_zero, rel_zero, Rh_at _ 14 9 (by norm_num) rfl, th_at _ _ 14 9 (by norm_num) rfl, rel_at _ 14 9 (by norm_num) rfl] <;> rfl
theorem s3322_c4 (b : Fin 128) : s3322 x0 x1 (ix2 b (⟨4, by norm_num⟩ : Fin 16)) = Rh (Rk x0 b) 14 1 0 := by
  simp only [s3322, k0_pay792]
  refine (concat_unit_piece 4 (by norm_num) _ _ _ (by simp) rfl rfl b).trans ?_
  simp only [ValueIdx.mulf_apply, ValueIdx.addf_apply, ValueIdx.subf_apply, ValueIdx.broadcast_apply, zero_word, one_word, tovec_at, ascol_at, shapeCast_self, s521_at, s523_at, s525_at, s1786_at, s1793_at, s1800_at, s1807_at, s1814_at, s1821_at, s1828_at, s1835_at, s1842_at, s1850_at, s1858_at, s1866_at, s2650_at, s2651_at, dot3, newt, Rh_zero, th_zero, rel_zero, Rh_at _ 14 9 (by norm_num) rfl, th_at _ _ 14 9 (by norm_num) rfl, rel_at _ 14 9 (by norm_num) rfl] <;> rfl
theorem s3322_c5 (b : Fin 128) : s3322 x0 x1 (ix2 b (⟨5, by norm_num⟩ : Fin 16)) = Rh (Rk x0 b) 14 1 1 := by
  simp only [s3322, k0_pay792]
  refine (concat_unit_piece 5 (by norm_num) _ _ _ (by simp) rfl rfl b).trans ?_
  simp only [ValueIdx.mulf_apply, ValueIdx.addf_apply, ValueIdx.subf_apply, ValueIdx.broadcast_apply, zero_word, one_word, tovec_at, ascol_at, shapeCast_self, s521_at, s523_at, s525_at, s1786_at, s1793_at, s1800_at, s1807_at, s1814_at, s1821_at, s1828_at, s1835_at, s1842_at, s1850_at, s1858_at, s1866_at, s2650_at, s2651_at, dot3, newt, Rh_zero, th_zero, rel_zero, Rh_at _ 14 9 (by norm_num) rfl, th_at _ _ 14 9 (by norm_num) rfl, rel_at _ 14 9 (by norm_num) rfl] <;> rfl
theorem s3322_c6 (b : Fin 128) : s3322 x0 x1 (ix2 b (⟨6, by norm_num⟩ : Fin 16)) = Rh (Rk x0 b) 14 1 2 := by
  simp only [s3322, k0_pay792]
  refine (concat_unit_piece 6 (by norm_num) _ _ _ (by simp) rfl rfl b).trans ?_
  simp only [ValueIdx.mulf_apply, ValueIdx.addf_apply, ValueIdx.subf_apply, ValueIdx.broadcast_apply, zero_word, one_word, tovec_at, ascol_at, shapeCast_self, s521_at, s523_at, s525_at, s1786_at, s1793_at, s1800_at, s1807_at, s1814_at, s1821_at, s1828_at, s1835_at, s1842_at, s1850_at, s1858_at, s1866_at, s2650_at, s2651_at, dot3, newt, Rh_zero, th_zero, rel_zero, Rh_at _ 14 9 (by norm_num) rfl, th_at _ _ 14 9 (by norm_num) rfl, rel_at _ 14 9 (by norm_num) rfl] <;> rfl
theorem s3322_c7 (b : Fin 128) : s3322 x0 x1 (ix2 b (⟨7, by norm_num⟩ : Fin 16)) = newt (Rk x0 b) (pk x1 b) 14 1 := by
  simp only [s3322, k0_pay792]
  refine (concat_unit_piece 7 (by norm_num) _ _ _ (by simp) rfl rfl b).trans ?_
  simp only [ValueIdx.mulf_apply, ValueIdx.addf_apply, ValueIdx.subf_apply, ValueIdx.broadcast_apply, zero_word, one_word, tovec_at, ascol_at, shapeCast_self, s521_at, s523_at, s525_at, s1786_at, s1793_at, s1800_at, s1807_at, s1814_at, s1821_at, s1828_at, s1835_at, s1842_at, s1850_at, s1858_at, s1866_at, s2650_at, s2651_at, dot3, newt, Rh_zero, th_zero, rel_zero, Rh_at _ 14 9 (by norm_num) rfl, th_at _ _ 14 9 (by norm_num) rfl, rel_at _ 14 9 (by norm_num) rfl] <;> rfl
theorem s3322_c8 (b : Fin 128) : s3322 x0 x1 (ix2 b (⟨8, by norm_num⟩ : Fin 16)) = Rh (Rk x0 b) 14 2 0 := by
  simp only [s3322, k0_pay792]
  refine (concat_unit_piece 8 (by norm_num) _ _ _ (by simp) rfl rfl b).trans ?_
  simp only [ValueIdx.mulf_apply, ValueIdx.addf_apply, ValueIdx.subf_apply, ValueIdx.broadcast_apply, zero_word, one_word, tovec_at, ascol_at, shapeCast_self, s521_at, s523_at, s525_at, s1786_at, s1793_at, s1800_at, s1807_at, s1814_at, s1821_at, s1828_at, s1835_at, s1842_at, s1850_at, s1858_at, s1866_at, s2650_at, s2651_at, dot3, newt, Rh_zero, th_zero, rel_zero, Rh_at _ 14 9 (by norm_num) rfl, th_at _ _ 14 9 (by norm_num) rfl, rel_at _ 14 9 (by norm_num) rfl] <;> rfl
theorem s3322_c9 (b : Fin 128) : s3322 x0 x1 (ix2 b (⟨9, by norm_num⟩ : Fin 16)) = Rh (Rk x0 b) 14 2 1 := by
  simp only [s3322, k0_pay792]
  refine (concat_unit_piece 9 (by norm_num) _ _ _ (by simp) rfl rfl b).trans ?_
  simp only [ValueIdx.mulf_apply, ValueIdx.addf_apply, ValueIdx.subf_apply, ValueIdx.broadcast_apply, zero_word, one_word, tovec_at, ascol_at, shapeCast_self, s521_at, s523_at, s525_at, s1786_at, s1793_at, s1800_at, s1807_at, s1814_at, s1821_at, s1828_at, s1835_at, s1842_at, s1850_at, s1858_at, s1866_at, s2650_at, s2651_at, dot3, newt, Rh_zero, th_zero, rel_zero, Rh_at _ 14 9 (by norm_num) rfl, th_at _ _ 14 9 (by norm_num) rfl, rel_at _ 14 9 (by norm_num) rfl] <;> rfl
theorem s3322_c10 (b : Fin 128) : s3322 x0 x1 (ix2 b (⟨10, by norm_num⟩ : Fin 16)) = Rh (Rk x0 b) 14 2 2 := by
  simp only [s3322, k0_pay792]
  refine (concat_unit_piece 10 (by norm_num) _ _ _ (by simp) rfl rfl b).trans ?_
  simp only [ValueIdx.mulf_apply, ValueIdx.addf_apply, ValueIdx.subf_apply, ValueIdx.broadcast_apply, zero_word, one_word, tovec_at, ascol_at, shapeCast_self, s521_at, s523_at, s525_at, s1786_at, s1793_at, s1800_at, s1807_at, s1814_at, s1821_at, s1828_at, s1835_at, s1842_at, s1850_at, s1858_at, s1866_at, s2650_at, s2651_at, dot3, newt, Rh_zero, th_zero, rel_zero, Rh_at _ 14 9 (by norm_num) rfl, th_at _ _ 14 9 (by norm_num) rfl, rel_at _ 14 9 (by norm_num) rfl] <;> rfl
theorem s3322_c11 (b : Fin 128) : s3322 x0 x1 (ix2 b (⟨11, by norm_num⟩ : Fin 16)) = newt (Rk x0 b) (pk x1 b) 14 2 := by
  simp only [s3322, k0_pay792]
  refine (concat_unit_piece 11 (by norm_num) _ _ _ (by simp) rfl rfl b).trans ?_
  simp only [ValueIdx.mulf_apply, ValueIdx.addf_apply, ValueIdx.subf_apply, ValueIdx.broadcast_apply, zero_word, one_word, tovec_at, ascol_at, shapeCast_self, s521_at, s523_at, s525_at, s1786_at, s1793_at, s1800_at, s1807_at, s1814_at, s1821_at, s1828_at, s1835_at, s1842_at, s1850_at, s1858_at, s1866_at, s2650_at, s2651_at, dot3, newt, Rh_zero, th_zero, rel_zero, Rh_at _ 14 9 (by norm_num) rfl, th_at _ _ 14 9 (by norm_num) rfl, rel_at _ 14 9 (by norm_num) rfl] <;> rfl
theorem s3322_c12 (b : Fin 128) : s3322 x0 x1 (ix2 b (⟨12, by norm_num⟩ : Fin 16)) = (0 : EReal) := by
  simp only [s3322, k0_pay792]
  refine (concat_unit_piece 12 (by norm_num) _ _ _ (by simp) rfl rfl b).trans ?_
  simp only [ValueIdx.mulf_apply, ValueIdx.addf_apply, ValueIdx.subf_apply, ValueIdx.broadcast_apply, zero_word, one_word, tovec_at, ascol_at, shapeCast_self, s521_at, s523_at, s525_at, s1786_at, s1793_at, s1800_at, s1807_at, s1814_at, s1821_at, s1828_at, s1835_at, s1842_at, s1850_at, s1858_at, s1866_at, s2650_at, s2651_at, dot3, newt, Rh_zero, th_zero, rel_zero, Rh_at _ 14 9 (by norm_num) rfl, th_at _ _ 14 9 (by norm_num) rfl, rel_at _ 14 9 (by norm_num) rfl] <;> rfl
theorem s3322_c13 (b : Fin 128) : s3322 x0 x1 (ix2 b (⟨13, by norm_num⟩ : Fin 16)) = (0 : EReal) := by
  simp only [s3322, k0_pay792]
  refine (concat_unit_piece 13 (by norm_num) _ _ _ (by simp) rfl rfl b).trans ?_
  simp only [ValueIdx.mulf_apply, ValueIdx.addf_apply, ValueIdx.subf_apply, ValueIdx.broadcast_apply, zero_word, one_word, tovec_at, ascol_at, shapeCast_self, s521_at, s523_at, s525_at, s1786_at, s1793_at, s1800_at, s1807_at, s1814_at, s1821_at, s1828_at, s1835_at, s1842_at, s1850_at, s1858_at, s1866_at, s2650_at, s2651_at, dot3, newt, Rh_zero, th_zero, rel_zero, Rh_at _ 14 9 (by norm_num) rfl, th_at _ _ 14 9 (by norm_num) rfl, rel_at _ 14 9 (by norm_num) rfl] <;> rfl
theorem s3322_c14 (b : Fin 128) : s3322 x0 x1 (ix2 b (⟨14, by norm_num⟩ : Fin 16)) = (0 : EReal) := by
  simp only [s3322, k0_pay792]
  refine (concat_unit_piece 14 (by norm_num) _ _ _ (by simp) rfl rfl b).trans ?_
  simp only [ValueIdx.mulf_apply, ValueIdx.addf_apply, ValueIdx.subf_apply, ValueIdx.broadcast_apply, zero_word, one_word, tovec_at, ascol_at, shapeCast_self, s521_at, s523_at, s525_at, s1786_at, s1793_at, s1800_at, s1807_at, s1814_at, s1821_at, s1828_at, s1835_at, s1842_at, s1850_at, s1858_at, s1866_at, s2650_at, s2651_at, dot3, newt, Rh_zero, th_zero, rel_zero, Rh_at _ 14 9 (by norm_num) rfl, th_at _ _ 14 9 (by norm_num) rfl, rel_at _ 14 9 (by norm_num) rfl] <;> rfl
theorem s3322_c15 (b : Fin 128) : s3322 x0 x1 (ix2 b (⟨15, by norm_num⟩ : Fin 16)) = (1 : EReal) := by
  simp only [s3322, k0_pay792]
  refine (concat_unit_piece 15 (by norm_num) _ _ _ (by simp) rfl rfl b).trans ?_
  simp only [ValueIdx.mulf_apply, ValueIdx.addf_apply, ValueIdx.subf_apply, ValueIdx.broadcast_apply, zero_word, one_word, tovec_at, ascol_at, shapeCast_self, s521_at, s523_at, s525_at, s1786_at, s1793_at, s1800_at, s1807_at, s1814_at, s1821_at, s1828_at, s1835_at, s1842_at, s1850_at, s1858_at, s1866_at, s2650_at, s2651_at, dot3, newt, Rh_zero, th_zero, rel_zero, Rh_at _ 14 9 (by norm_num) rfl, th_at _ _ 14 9 (by norm_num) rfl, rel_at _ 14 9 (by norm_num) rfl] <;> rfl
theorem s527_at (b : Fin 128) : s527 x0 x1 (ix1 b) = pk x1 b 15 0 := by
  simp only [s527, k0_pay276, ValueIdx.mulf_apply, ValueIdx.addf_apply, ValueIdx.subf_apply, ValueIdx.broadcast_apply, zero_word, one_word, tovec_at, ascol_at, shapeCast_self, slice_at (N := 72) _ 45 (by norm_num), s3_eq, dot3, newt, Rh_zero, th_zero, rel_zero] <;> rfl
theorem s529_at (b : Fin 128) : s529 x0 x1 (ix1 b) = pk x1 b 15 1 := by
  simp only [s529, k0_pay277, ValueIdx.mulf_apply, ValueIdx.addf_apply, ValueIdx.subf_apply, ValueIdx.broadcast_apply, zero_word, one_word, tovec_at, ascol_at, shapeCast_self, slice_at (N := 72) _ 46 (by norm_num), s3_eq, dot3, newt, Rh_zero, th_zero, rel_zero] <;> rfl
theorem s531_at (b : Fin 128) : s531 x0 x1 (ix1 b) = pk x1 b 15 2 := by
  simp only [s531, k0_pay278, ValueIdx.mulf_apply, ValueIdx.addf_apply, ValueIdx.subf_apply, ValueIdx.broadcast_apply, zero_word, one_word, tovec_at, ascol_at, shapeCast_self, slice_at (N := 72) _ 47 (by norm_num), s3_eq, dot3, newt, Rh_zero, th_zero, rel_zero] <;> rfl
theorem s275_at (b : Fin 128) : s275 x0 x1 (ix1 b) = Rk x0 b 15 0 0 := by
  simp only [s275, k0_pay146, ValueIdx.mulf_apply, ValueIdx.addf_apply, ValueIdx.subf_apply, ValueIdx.broadcast_apply, zero_word, one_word, tovec_at, ascol_at, shapeCast_self, slice_at (N := 216) _ 135 (by norm_num), s1_eq, dot3, newt, Rh_zero, th_zero, rel_zero] <;> rfl
theorem s281_at (b : Fin 128) : s281 x0 x1 (ix1 b) = Rk x0 b 15 1 0 := by
  simp only [s281, k0_pay149, ValueIdx.mulf_apply, ValueIdx.addf_apply, ValueIdx.subf_apply, ValueIdx.broadcast_apply, zero_word, one_word, tovec_at, ascol_at, shapeCast_self, slice_at (N := 216) _ 138 (by norm_num), s1_eq, dot3, newt, Rh_zero, th_zero, rel_zero] <;> rfl
theorem s287_at (b : Fin 128) : s287 x0 x1 (ix1 b) = Rk x0 b 15 2 0 := by
  simp only [s287, k0_pay152, ValueIdx.mulf_apply, ValueIdx.addf_apply, ValueIdx.subf_apply, ValueIdx.broadcast_apply, zero_word, one_word, tovec_at, ascol_at, shapeCast_self, slice_at (N := 216) _ 141 (by norm_num), s1_eq, dot3, newt, Rh_zero, th_zero, rel_zero] <;> rfl
theorem s1873_at (b : Fin 128) : s1873 x0 x1 (ix1 b) = Rh (Rk x0 b) 15 0 0 := by
  simp only [s1873, k0_pay568, ValueIdx.mulf_apply, ValueIdx.addf_apply, ValueIdx.subf_apply, ValueIdx.broadcast_apply, zero_word, one_word, tovec_at, ascol_at, shapeCast_self, s275_at, s281_at, s287_at, s1612_at, s1619_at, s1626_at, dot3, newt, Rh_zero, th_zero, rel_zero, Rh_at _ 15 12 (by norm_num) rfl, th_at _ _ 15 12 (by norm_num) rfl, rel_at _ 15 12 (by norm_num) rfl] <;> rfl
theorem s277_at (b : Fin 128) : s277 x0 x1 (ix1 b) = Rk x0 b 15 0 1 := by
  simp only [s277, k0_pay147, ValueIdx.mulf_apply, ValueIdx.addf_apply, ValueIdx.subf_apply, ValueIdx.broadcast_apply, zero_word, one_word, tovec_at, ascol_at, shapeCast_self, slice_at (N := 216) _ 136 (by norm_num), s1_eq, dot3, newt, Rh_zero, th_zero, rel_zero] <;> rfl
theorem s283_at (b : Fin 128) : s283 x0 x1 (ix1 b) = Rk x0 b 15 1 1 := by
  simp only [s283, k0_pay150, ValueIdx.mulf_apply, ValueIdx.addf_apply, ValueIdx.subf_apply, ValueIdx.broadcast_apply, zero_word, one_word, tovec_at, ascol_at, shapeCast_self, slice_at (N := 216) _ 139 (by norm_num), s1_eq, dot3, newt, Rh_zero, th_zero, rel_zero] <;> rfl
theorem s289_at (b : Fin 128) : s289 x0 x1 (ix1 b) = Rk x0 b 15 2 1 := by
  simp only [s289, k0_pay153, ValueIdx.mulf_apply, ValueIdx.addf_apply, ValueIdx.subf_apply, ValueIdx.broadcast_apply, zero_word, one_word, tovec_at, ascol_at, shapeCast_self, slice_at (N := 216) _ 142 (by norm_num), s1_eq, dot3, newt, Rh_zero, th_zero, rel_zero] <;> rfl
theorem s1880_at (b : Fin 128) : s1880 x0 x1 (ix1 b) = Rh (Rk x0 b) 15 0 1 := by
  simp only [s1880, k0_pay569, ValueIdx.mulf_apply, ValueIdx.addf_apply, ValueIdx.subf_apply, ValueIdx.broadcast_apply, zero_word, one_word, tovec_at, ascol_at, shapeCast_self, s277_at, s283_at, s289_at, s1612_at, s1619_at, s1626_at, dot3, newt, Rh_zero, th_zero, rel_zero, Rh_at _ 15 12 (by norm_num) rfl, th_at _ _ 15 12 (by norm_num) rfl, rel_at _ 15 12 (by norm_num) rfl] <;> rfl
theorem s279_at (b : Fin 128) : s279 x0 x1 (ix1 b) = Rk x0 b 15 0 2 := by
  simp only [s279, k0_pay148, ValueIdx.mulf_apply, ValueIdx.addf_apply, ValueIdx.subf_apply, ValueIdx.broadcast_apply, zero_word, one_word, tovec_at, ascol_at, shapeCast_self, slice_at (N := 216) _ 137 (by norm_num), s1_eq, dot3, newt, Rh_zero, th_zero, rel_zero] <;> rfl
theorem s285_at (b : Fin 128) : s285 x0 x1 (ix1 b) = Rk x0 b 15 1 2 := by
  simp only [s285, k0_pay151, ValueIdx.mulf_apply, ValueIdx.addf_apply, ValueIdx.subf_apply, ValueIdx.broadcast_apply, zero_word, one_word, tovec_at, ascol_at, shapeCast_self, slice_at (N := 216) _ 140 (by norm_num), s1_eq, dot3, newt, Rh_zero, th_zero, rel_zero] <;> rfl
theorem s291_at (b : Fin 128) : s291 x0 x1 (ix1 b) = Rk x0 b 15 2 2 := by
  simp only [s291, k0_pay154, ValueIdx.mulf_apply, ValueIdx.addf_apply, ValueIdx.subf_apply, ValueIdx.broadcast_apply, zero_word, one_word, tovec_at, ascol_at, shapeCast_self, slice_at (N := 216) _ 143 (by norm_num), s1_eq, dot3, newt, Rh_zero, th_zero, rel_zero] <;> rfl
theorem s1887_at (b : Fin 128) : s1887 x0 x1 (ix1 b) = Rh (Rk x0 b) 15 0 2 := by
  simp only [s1887, k0_pay570, ValueIdx.mulf_apply, ValueIdx.addf_apply, ValueIdx.subf_apply, ValueIdx.broadcast_apply, zero_word, one_word, tovec_at, ascol_at, shapeCast_self, s279_at, s285_at, s291_at, s1612_at, s1619_at, s1626_at, dot3, newt, Rh_zero, th_zero, rel_zero, Rh_at _ 15 12 (by norm_num) rfl, th_at _ _ 15 12 (by norm_num) rfl, rel_at _ 15 12 (by norm_num) rfl] <;> rfl
theorem s1894_at (b : Fin 128) : s1894 x0 x1 (ix1 b) = Rh (Rk x0 b) 15 1 0 := by
  simp only [s1894, k0_pay571, ValueIdx.mulf_apply, ValueIdx.addf_apply, ValueIdx.subf_apply, ValueIdx.broadcast_apply, zero_word, one_word, tovec_at, ascol_at, shapeCast_self, s275_at, s281_at, s287_at, s1633_at, s1640_at, s1647_at, dot3, newt, Rh_zero, th_zero, rel_zero, Rh_at _ 15 12 (by norm_num) rfl, th_at _ _ 15 12 (by norm_num) rfl, rel_at _ 15 12 (by norm_num) rfl] <;> rfl
theorem s1901_at (b : Fin 128) : s1901 x0 x1 (ix1 b) = Rh (Rk x0 b) 15 1 1 := by
  simp only [s1901, k0_pay572, ValueIdx.mulf_apply, ValueIdx.addf_apply, ValueIdx.subf_apply, ValueIdx.broadcast_apply, zero_word, one_word, tovec_at, ascol_at, shapeCast_self, s277_at, s283_at, s289_at, s1633_at, s1640_at, s1647_at, dot3, newt, Rh_zero, th_zero, rel_zero, Rh_at _ 15 12 (by norm_num) rfl, th_at _ _ 15 12 (by norm_num) rfl, rel_at _ 15 12 (by norm_num) rfl] <;> rfl
theorem s1908_at (b : Fin 128) : s1908 x0 x1 (ix1 b) = Rh (Rk x0 b) 15 1 2 := by
  simp only [s1908, k0_pay573, ValueIdx.mulf_apply, ValueIdx.addf_apply, ValueIdx.subf_apply, ValueIdx.broadcast_apply, zero_word, one_word, tovec_at, ascol_at, shapeCast_self, s279_at, s285_at, s291_at, s1633_at, s1640_at, s1647_at, dot3, newt, Rh_zero, th_zero, rel_zero, Rh_at _ 15 12 (by norm_num) rfl, th_at _ _ 15 12 (by norm_num) rfl, rel_at _ 15 12 (by norm_num) rfl] <;> rfl
theorem s1915_at (b : Fin 128) : s1915 x0 x1 (ix1 b) = Rh (Rk x0 b) 15 2 0 := by
  simp only [s1915, k0_pay574, ValueIdx.mulf_apply, ValueIdx.addf_apply, ValueIdx.subf_apply, ValueIdx.broadcast_apply, zero_word, one_word, tovec_at, ascol_at, shapeCast_self, s275_at, s281_at, s287_at, s1654_at, s1661_at, s1668_at, dot3, newt, Rh_zero, th_zero, rel_zero, Rh_at _ 15 12 (by norm_num) rfl, th_at _ _ 15 12 (by norm_num) rfl, rel_at _ 15 12 (by norm_num) rfl] <;> rfl
theorem s1918_at (b : Fin 128) : s1918 x0 x1 (ix1 b) = ((0 : EReal) + ((Rh (Rk x0 b) 12 2 0) * (Rk x0 b 15 0 1))) := by
  simp only [s1918, k0_pay575, ValueIdx.mulf_apply, ValueIdx.addf_apply, ValueIdx.subf_apply, ValueIdx.broadcast_apply, zero_word, one_word, tovec_at, ascol_at, shapeCast_self, s277_at, s1654_at, dot3, newt, Rh_zero, th_zero, rel_zero] <;> rfl
theorem s1922_at (b : Fin 128) : s1922 x0 x1 (ix1 b) = Rh (Rk x0 b) 15 2 1 := by
  simp only [s1922, k0_pay576, ValueIdx.mulf_apply, ValueIdx.addf_apply, ValueIdx.subf_apply, ValueIdx.broadcast_apply, zero_word, one_word, tovec_at, ascol_at, shapeCast_self, s283_at, s289_at, s1661_at, s1668_at, s1918_at, dot3, newt, Rh_zero, th_zero, rel_zero, Rh_at _ 15 12 (by norm_num) rfl, th_at _ _ 15 12 (by norm_num) rfl, rel_at _ 15 12 (by norm_num) rfl] <;> rfl
theorem s1929_at (b : Fin 128) : s1929 x0 x1 (ix1 b) = Rh (Rk x0 b) 15 2 2 := by
  simp only [s1929, k0_pay577, ValueIdx.mulf_apply, ValueIdx.addf_apply, ValueIdx.subf_apply, ValueIdx.broadcast_apply, zero_word, one_word, tovec_at, ascol_at, shapeCast_self, s279_at, s285_at, s291_at, s1654_at, s1661_at, s1668_at, dot3, newt, Rh_zero, th_zero, rel_zero, Rh_at _ 15 12 (by norm_num) rfl, th_at _ _ 15 12 (by norm_num) rfl, rel_at _ 15 12 (by norm_num) rfl] <;> rfl
theorem s622_at (b : Fin 128) : s622 x0 x1 (ix1 b) = rel (pk x1 b) 15 0 := by
  simp only [s622, k0_pay346, ValueIdx.mulf_apply, ValueIdx.addf_apply, ValueIdx.subf_apply, ValueIdx.broadcast_apply, zero_word, one_word, tovec_at, ascol_at, shapeCast_self, s509_at, s527_at, dot3, newt, Rh_zero, th_zero, rel_zero, Rh_at _ 15 12 (by norm_num) rfl, th_at _ _ 15 12 (by norm_num) rfl, rel_at _ 15 12 (by norm_num) rfl] <;> rfl
theorem s623_at (b : Fin 128) : s623 x0 x1 (ix1 b) = rel (pk x1 b) 15 1 := by
  simp only [s623, k0_pay347, ValueIdx.mulf_apply, ValueIdx.addf_apply, ValueIdx.subf_apply, ValueIdx.broadcast_apply, zero_word, one_word, tovec_at, ascol_at, shapeCast_self, s511_at, s529_at, dot3, newt, Rh_zero, th_zero, rel_zero, Rh_at _ 15 12 (by norm_num) rfl, th_at _ _ 15 12 (by norm_num) rfl, rel_at _ 15 12 (by norm_num) rfl] <;> rfl
theorem s624_at (b : Fin 128) : s624 x0 x1 (ix1 b) = rel (pk x1 b) 15 2 := by
  simp only [s624, k0_pay348, ValueIdx.mulf_apply, ValueIdx.addf_apply, ValueIdx.subf_apply, ValueIdx.broadcast_apply, zero_word, one_word, tovec_at, ascol_at, shapeCast_self, s513_at, s531_at, dot3, newt, Rh_zero, th_zero, rel_zero, Rh_at _ 15 12 (by norm_num) rfl, th_at _ _ 15 12 (by norm_num) rfl, rel_at _ 15 12 (by norm_num) rfl] <;> rfl
theorem s1937_at (b : Fin 128) : s1937 x0 x1 (ix1 b) = th (Rk x0 b) (pk x1 b) 15 0 := by
  simp only [s1937, k0_pay578, ValueIdx.mulf_apply, ValueIdx.addf_apply, ValueIdx.subf_apply, ValueIdx.broadcast_apply, zero_word, one_word, tovec_at, ascol_at, shapeCast_self, s622_at, s623_at, s624_at, s1612_at, s1619_at, s1626_at, s1676_at, dot3, newt, Rh_zero, th_zero, rel_zero, Rh_at _ 15 12 (by norm_num) rfl, th_at _ _ 15 12 (by norm_num) rfl, rel_at _ 15 12 (by norm_num) rfl] <;> rfl
theorem s1945_at (b : Fin 128) : s1945 x0 x1 (ix1 b) = th (Rk x0 b) (pk x1 b) 15 1 := by
  simp only [s1945, k0_pay579, ValueIdx.mulf_apply, ValueIdx.addf_apply, ValueIdx.subf_apply, ValueIdx.broadcast_apply, zero_word, one_word, tovec_at, ascol_at, shapeCast_self, s622_at, s623_at, s624_at, s1633_at, s1640_at, s1647_at, s1684_at, dot3, newt, Rh_zero, th_zero, rel_zero, Rh_at _ 15 12 (by norm_num) rfl, th_at _ _ 15 12 (by norm_num) rfl, rel_at _ 15 12 (by norm_num) rfl] <;> rfl
theorem s1953_at (b : Fin 128) : s1953 x0 x1 (ix1 b) = th (Rk x0 b) (pk x1 b) 15 2 := by
  simp only [s1953, k0_pay580, ValueIdx.mulf_apply, ValueIdx.addf_apply, ValueIdx.subf_apply, ValueIdx.broadcast_apply, zero_word, one_word, tovec_at, ascol_at, shapeCast_self, s622_at, s623_at, s624_at, s1654_at, s1661_at, s1668_at, s1692_at, dot3, newt, Rh_zero, th_zero, rel_zero, Rh_at _ 15 12 (by norm_num) rfl, th_at _ _ 15 12 (by norm_num) rfl, rel_at _ 15 12 (by norm_num) rfl] <;> rfl
theorem s3329_at (b : Fin 128) : s3329 x0 x1 (ix1 b) = ((0 : EReal) + ((Rh (Rk x0 b) 15 0 0) * (pk x1 b 15 0))) := by
  simp only [s3329, k0_pay794, ValueIdx.mulf_apply, ValueIdx.addf_apply, ValueIdx.subf_apply, ValueIdx.broadcast_apply, zero_word, one_word, tovec_at, ascol_at, shapeCast_self, s527_at, s1873_at, dot3, newt, Rh_zero, th_zero, rel_zero] <;> rfl
theorem s3330_at (b : Fin 128) : s3330 x0 x1 (ix1 b) = ((Rh (Rk x0 b) 15 0 1) * (pk x1 b 15 1)) := by
  simp only [s3330, k0_pay795, ValueIdx.mulf_apply, ValueIdx.addf_apply, ValueIdx.subf_apply, ValueIdx.broadcast_apply, zero_word, one_word, tovec_at, ascol_at, shapeCast_self, s529_at, s1880_at, dot3, newt, Rh_zero, th_zero, rel_zero] <;> rfl
theorem s3367_c0 (b : Fin 128) : s3367 x0 x1 (ix2 b (⟨0, by norm_num⟩ : Fin 16)) = Rh (Rk x0 b) 15 0 0 := by
  simp only [s3367, k0_pay796]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s527_at, s529_at, s531_at, s1873_at, s1880_at, s1887_at, s1894_at, s1901_at, s1908_at, s1915_at, s1922_at, s1929_at, s1937_at, s1945_at, s1953_at, s2650_at, s2651_at, s3329_at, s3330_at, dot3, newt, Rh_zero, th_zero, rel_zero, Rh_at _ 15 12 (by norm_num) rfl, th_at _ _ 15 12 (by norm_num) rfl, rel_at _ 15 12 (by norm_num) rfl] <;> rfl
theorem s3367_c1 (b : Fin 128) : s3367 x0 x1 (ix2 b (⟨1, by norm_num⟩ : Fin 16)) = Rh (Rk x0 b) 15 0 1 := by
  simp only [s3367, k0_pay796]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s527_at, s529_at, s531_at, s1873_at, s1880_at, s1887_at, s1894_at, s1901_at, s1908_at, s1915_at, s1922_at, s1929_at, s1937_at, s1945_at, s1953_at, s2650_at, s2651_at, s3329_at, s3330_at, dot3, newt, Rh_zero, th_zero, rel_zero, Rh_at _ 15 12 (by norm_num) rfl, th_at _ _ 15 12 (by norm_num) rfl, rel_at _ 15 12 (by norm_num) rfl] <;> rfl
theorem s3367_c2 (b : Fin 128) : s3367 x0 x1 (ix2 b (⟨2, by norm_num⟩ : Fin 16)) = Rh (Rk x0 b) 15 0 2 := by
  simp only [s3367, k0_pay796]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s527_at, s529_at, s531_at, s1873_at, s1880_at, s1887_at, s1894_at, s1901_at, s1908_at, s1915_at, s1922_at, s1929_at, s1937_at, s1945_at, s1953_at, s2650_at, s2651_at, s3329_at, s3330_at, dot3, newt, Rh_zero, th_zero, rel_zero, Rh_at _ 15 12 (by norm_num) rfl, th_at _ _ 15 12 (by norm_num) rfl, rel_at _ 15 12 (by norm_num) rfl] <;> rfl
theorem s3367_c3 (b : Fin 128) : s3367 x0 x1 (ix2 b (⟨3, by norm_num⟩ : Fin 16)) = newt (Rk x0 b) (pk x1 b) 15 0 := by
  simp only [s3367, k0_pay796]
  refine (concat_unit_piece 3 (by norm_num) _ _ _ (by simp) rfl rfl b).trans ?_
  simp only [ValueIdx.mulf_apply, ValueIdx.addf_apply, ValueIdx.subf_apply, ValueIdx.broadcast_apply, zero_word, one_word, tovec_at, ascol_at, shapeCast_self, s527_at, s529_at, s531_at, s1873_at, s1880_at, s1887_at, s1894_at, s1901_at, s1908_at, s1915_at, s1922_at, s1929_at, s1937_at, s1945_at, s1953_at, s2650_at, s2651_at, s3329_at, s3330_at, dot3, newt, Rh_zero, th_zero, rel_zero, Rh_at _ 15 12 (by norm_num) rfl, th_at _ _ 15 12 (by norm_num) rfl, rel_at _ 15 12 (by norm_num) rfl] <;> rfl
theorem s3367_c4 (b : Fin 128) : s3367 x0 x1 (ix2 b (⟨4, by norm_num⟩ : Fin 16)) = Rh (Rk x0 b) 15 1 0 := by
  simp only [s3367, k0_pay796]
  refine (concat_unit_piece 4 (by norm_num) _ _ _ (by simp) rfl rfl b).trans ?_
  simp only [ValueIdx.mulf_apply, ValueIdx.addf_apply, ValueIdx.subf_apply, ValueIdx.broadcast_apply, zero_word, one_word, tovec_at, ascol_at, shapeCast_self, s527_at, s529_at, s531_at, s1873_at, s1880_at, s1887_at, s1894_at, s1901_at, s1908_at, s1915_at, s1922_at, s1929_at, s1937_at, s1945_at, s1953_at, s2650_at, s2651_at, s3329_at, s3330_at, dot3, newt, Rh_zero, th_zero, rel_zero, Rh_at _ 15 12 (by norm_num) rfl, th_at _ _ 15 12 (by norm_num) rfl, rel_at _ 15 12 (by norm_num) rfl] <;> rfl
theorem s3367_c5 (b : Fin 128) : s3367 x0 x1 (ix2 b (⟨5, by norm_num⟩ : Fin 16)) = Rh (Rk x0 b) 15 1 1 := by
  simp only [s3367, k0_pay796]
  refine (concat_unit_piece 5 (by norm_num) _ _ _ (by simp) rfl rfl b).trans ?_
  simp only [ValueIdx.mulf_apply, ValueIdx.addf_apply, ValueIdx.subf_apply, ValueIdx.broadcast_apply, zero_word, one_word, tovec_at, ascol_at, shapeCast_self, s527_at, s529_at, s531_at, s1873_at, s1880_at, s1887_at, s1894_at, s1901_at, s1908_at, s1915_at, s1922_at, s1929_at, s1937_at, s1945_at, s1953_at, s2650_at, s2651_at, s3329_at, s3330_at, dot3, newt, Rh_zero, th_zero, rel_zero, Rh_at _ 15 12 (by norm_num) rfl, th_at _ _ 15 12 (by norm_num) rfl, rel_at _ 15 12 (by norm_num) rfl] <;> rfl
theorem s3367_c6 (b : Fin 128) : s3367 x0 x1 (ix2 b (⟨6, by norm_num⟩ : Fin 16)) = Rh (Rk x0 b) 15 1 2 := by
  simp only [s3367, k0_pay796]
  refine (concat_unit_piece 6 (by norm_num) _ _ _ (by simp) rfl rfl b).trans ?_
  simp only [ValueIdx.mulf_apply, ValueIdx.addf_apply, ValueIdx.subf_apply, ValueIdx.broadcast_apply, zero_word, one_word, tovec_at, ascol_at, shapeCast_self, s527_at, s529_at, s531_at, s1873_at, s1880_at, s1887_at, s1894_at, s1901_at, s1908_at, s1915_at, s1922_at, s1929_at, s1937_at, s1945_at, s1953_at, s2650_at, s2651_at, s3329_at, s3330_at, dot3, newt, Rh_zero, th_zero, rel_zero, Rh_at _ 15 12 (by norm_num) rfl, th_at _ _ 15 12 (by norm_num) rfl, rel_at _ 15 12 (by norm_num) rfl] <;> rfl
theorem s3367_c7 (b : Fin 128) : s3367 x0 x1 (ix2 b (⟨7, by norm_num⟩ : Fin 16)) = newt (Rk x0 b) (pk x1 b) 15 1 := by
  simp only [s3367, k0_pay796]
  refine (concat_unit_piece 7 (by norm_num) _ _ _ (by simp) rfl rfl b).trans ?_
  simp only [ValueIdx.mulf_apply, ValueIdx.addf_apply, ValueIdx.subf_apply, ValueIdx.broadcast_apply, zero_word, one_word, tovec_at, ascol_at, shapeCast_self, s527_at, s529_at, s531_at, s1873_at, s1880_at, s1887_at, s1894_at, s1901_at, s1908_at, s1915_at, s1922_at, s1929_at, s1937_at, s1945_at, s1953_at, s2650_at, s2651_at, s3329_at, s3330_at, dot3, newt, Rh_zero, th_zero, rel_zero, Rh_at _ 15 12 (by norm_num) rfl, th_at _ _ 15 12 (by norm_num) rfl, rel_at _ 15 12 (by norm_num) rfl] <;> rfl
theorem s3367_c8 (b : Fin 128) : s3367 x0 x1 (ix2 b (⟨8, by norm_num⟩ : Fin 16)) = Rh (Rk x0 b) 15 2 0 := by
  simp only [s3367, k0_pay796]
  refine (concat_unit_piece 8 (by norm_num) _ _ _ (by simp) rfl rfl b).trans ?_
  simp only [ValueIdx.mulf_apply, ValueIdx.addf_apply, ValueIdx.subf_apply, ValueIdx.broadcast_apply, zero_word, one_word, tovec_at, ascol_at, shapeCast_self, s527_at, s529_at, s531_at, s1873_at, s1880_at, s1887_at, s1894_at, s1901_at, s1908_at, s1915_at, s1922_at, s1929_at, s1937_at, s1945_at, s1953_at, s2650_at, s2651_at, s3329_at, s3330_at, dot3, newt, Rh_zero, th_zero, rel_zero, Rh_at _ 15 12 (by norm_num) rfl, th_at _ _ 15 12 (by norm_num) rfl, rel_at _ 15 12 (by norm_num) rfl] <;> rfl
theorem s3367_c9 (b : Fin 128) : s3367 x0 x1 (ix2 b (⟨9, by norm_num⟩ : Fin 16)) = Rh (Rk x0 b) 15 2 1 := by
  simp only [s3367, k0_pay796]
  refine (concat_unit_piece 9 (by norm_num) _ _ _ (by simp) rfl rfl b).trans ?_
  simp only [ValueIdx.mulf_apply, ValueIdx.addf_apply, ValueIdx.subf_apply, ValueIdx.broadcast_apply, zero_word, one_word, tovec_at, ascol_at, shapeCast_self, s527_at, s529_at, s531_at, s1873_at, s1880_at, s1887_at, s1894_at, s1901_at, s1908_at, s1915_at, s1922_at, s1929_at, s1937_at, s1945_at, s1953_at, s2650_at, s2651_at, s3329_at, s3330_at, dot3, newt, Rh_zero, th_zero, rel_zero, Rh_at _ 15 12 (by norm_num) rfl, th_at _ _ 15 12 (by norm_num) rfl, rel_at _ 15 12 (by norm_num) rfl] <;> rfl
theorem s3367_c10 (b : Fin 128) : s3367 x0 x1 (ix2 b (⟨10, by norm_num⟩ : Fin 16)) = Rh (Rk x0 b) 15 2 2 := by
  simp only [s3367, k0_pay796]
  refine (concat_unit_piece 10 (by norm_num) _ _ _ (by simp) rfl rfl b).trans ?_
  simp only [ValueIdx.mulf_apply, ValueIdx.addf_apply, ValueIdx.subf_apply, ValueIdx.broadcast_apply, zero_word, one_word, tovec_at, ascol_at, shapeCast_self, s527_at, s529_at, s531_at, s1873_at, s1880_at, s1887_at, s1894_at, s1901_at, s1908_at, s1915_at, s1922_at, s1929_at, s1937_at, s1945_at, s1953_at, s2650_at, s2651_at, s3329_at, s3330_at, dot3, newt, Rh_zero, th_zero, rel_zero, Rh_at _ 15 12 (by norm_num) rfl, th_at _ _ 15 12 (by norm_num) rfl, rel_at _ 15 12 (by norm_num) rfl] <;> rfl
theorem s3367_c11 (b : Fin 128) : s3367 x0 x1 (ix2 b (⟨11, by norm_num⟩ : Fin 16)) = newt (Rk x0 b) (pk x1 b) 15 2 := by
  simp only [s3367, k0_pay796]
  refine (concat_unit_piece 11 (by norm_num) _ _ _ (by simp) rfl rfl b).trans ?_
  simp only [ValueIdx.mulf_apply, ValueIdx.addf_apply, ValueIdx.subf_apply, ValueIdx.broadcast_apply, zero_word, one_word, tovec_at, ascol_at, shapeCast_self, s527_at, s529_at, s531_at, s1873_at, s1880_at, s1887_at, s1894_at, s1901_at, s1908_at, s1915_at, s1922_at, s1929_at, s1937_at, s1945_at, s1953_at, s2650_at, s2651_at, s3329_at, s3330_at, dot3, newt, Rh_zero, th_zero, rel_zero, Rh_at _ 15 12 (by norm_num) rfl, th_at _ _ 15 12 (by norm_num) rfl, rel_at _ 15 12 (by norm_num) rfl] <;> rfl
theorem s3367_c12 (b : Fin 128) : s3367 x0 x1 (ix2 b (⟨12, by norm_num⟩ : Fin 16)) = (0 : EReal) := by
  simp only [s3367, k0_pay796]
  refine (concat_unit_piece 12 (by norm_num) _ _ _ (by simp) rfl rfl b).trans ?_
  simp only [ValueIdx.mulf_apply, ValueIdx.addf_apply, ValueIdx.subf_apply, ValueIdx.broadcast_apply, zero_word, one_word, tovec_at, ascol_at, shapeCast_self, s527_at, s529_at, s531_at, s1873_at, s1880_at, s1887_at, s1894_at, s1901_at, s1908_at, s1915_at, s1922_at, s1929_at, s1937_at, s1945_at, s1953_at, s2650_at, s2651_at, s3329_at, s3330_at, dot3, newt, Rh_zero, th_zero, rel_zero, Rh_at _ 15 12 (by norm_num) rfl, th_at _ _ 15 12 (by norm_num) rfl, rel_at _ 15 12 (by norm_num) rfl] <;> rfl
theorem s3367_c13 (b : Fin 128) : s3367 x0 x1 (ix2 b (⟨13, by norm_num⟩ : Fin 16)) = (0 : EReal) := by
  simp only [s3367, k0_pay796]
  refine (concat_unit_piece 13 (by norm_num) _ _ _ (by simp) rfl rfl b).trans ?_
  simp only [ValueIdx.mulf_apply, ValueIdx.addf_apply, ValueIdx.subf_apply, ValueIdx.broadcast_apply, zero_word, one_word, tovec_at, ascol_at, shapeCast_self, s527_at, s529_at, s531_at, s1873_at, s1880_at, s1887_at, s1894_at, s1901_at, s1908_at, s1915_at, s1922_at, s1929_at, s1937_at, s1945_at, s1953_at, s2650_at, s2651_at, s3329_at, s3330_at, dot3, newt, Rh_zero, th_zero, rel_zero, Rh_at _ 15 12 (by norm_num) rfl, th_at _ _ 15 12 (by norm_num) rfl, rel_at _ 15 12 (by norm_num) rfl] <;> rfl
theorem s3367_c14 (b : Fin 128) : s3367 x0 x1 (ix2 b (⟨14, by norm_num⟩ : Fin 16)) = (0 : EReal) := by
  simp only [s3367, k0_pay796]
  refine (concat_unit_piece 14 (by norm_num) _ _ _ (by simp) rfl rfl b).trans ?_
  simp only [ValueIdx.mulf_apply, ValueIdx.addf_apply, ValueIdx.subf_apply, ValueIdx.broadcast_apply, zero_word, one_word, tovec_at, ascol_at, shapeCast_self, s527_at, s529_at, s531_at, s1873_at, s1880_at, s1887_at, s1894_at, s1901_at, s1908_at, s1915_at, s1922_at, s1929_at, s1937_at, s1945_at, s1953_at, s2650_at, s2651_at, s3329_at, s3330_at, dot3, newt, Rh_zero, th_zero, rel_zero, Rh_at _ 15 12 (by norm_num) rfl, th_at _ _ 15 12 (by norm_num) rfl, rel_at _ 15 12 (by norm_num) rfl] <;> rfl
theorem s3367_c15 (b : Fin 128) : s3367 x0 x1 (ix2 b (⟨15, by norm_num⟩ : Fin 16)) = (1 : EReal) := by
  simp only [s3367, k0_pay796]
  refine (concat_unit_piece 15 (by norm_num) _ _ _ (by simp) rfl rfl b).trans ?_
  simp only [ValueIdx.mulf_apply, ValueIdx.addf_apply, ValueIdx.subf_apply, ValueIdx.broadcast_apply, zero_word, one_word, tovec_at, ascol_at, shapeCast_self, s527_at, s529_at, s531_at, s1873_at, s1880_at, s1887_at, s1894_at, s1901_at, s1908_at, s1915_at, s1922_at, s1929_at, s1937_at, s1945_at, s1953_at, s2650_at, s2651_at, s3329_at, s3330_at, dot3, newt, Rh_zero, th_zero, rel_zero, Rh_at _ 15 12 (by norm_num) rfl, th_at _ _ 15 12 (by norm_num) rfl, rel_at _ 15 12 (by norm_num) rfl] <;> rfl
theorem s533_at (b : Fin 128) : s533 x0 x1 (ix1 b) = pk x1 b 16 0 := by
  simp only [s533, k0_pay279, ValueIdx.mulf_apply, ValueIdx.addf_apply, ValueIdx.subf_apply, ValueIdx.broadcast_apply, zero_word, one_word, tovec_at, ascol_at, shapeCast_self, slice_at (N := 72) _ 48 (by norm_num), s3_eq, dot3, newt, Rh_zero, th_zero, rel_zero] <;> rfl
theorem s534_at (b : Fin 128) : s534 x0 x1 (ix2 b (0 : Fin 1)) = pk x1 b 16 1 := by
  simp only [s534, k0_pay280, ValueIdx.mulf_apply, ValueIdx.addf_apply, ValueIdx.subf_apply, ValueIdx.broadcast_apply, zero_word, one_word, tovec_at, ascol_at, shapeCast_self, slice_at (N := 72) _ 49 (by norm_num), s3_eq, dot3, newt, Rh_zero, th_zero, rel_zero] <;> rfl
theorem s535_at (b : Fin 128) : s535 x0 x1 (ix1 b) = pk x1 b 16 1 := by
  simp only [s535, k0_pay281, ValueIdx.mulf_apply, ValueIdx.addf_apply, ValueIdx.subf_apply, ValueIdx.broadcast_apply, zero_word, one_word, tovec_at, ascol_at, shapeCast_self, s534_at, dot3, newt, Rh_zero, th_zero, rel_zero] <;> rfl
theorem s537_at (b : Fin 128) : s537 x0 x1 (ix1 b) = pk x1 b 16 2 := by
  simp only [s537, k0_pay282, ValueIdx.mulf_apply, ValueIdx.addf_apply, ValueIdx.subf_apply, ValueIdx.broadcast_apply, zero_word, one_word, tovec_at, ascol_at, shapeCast_self, slice_at (N := 72) _ 50 (by norm_num), s3_eq, dot3, newt, Rh_zero, th_zero, rel_zero] <;> rfl
theorem s293_at (b : Fin 128) : s293 x0 x1 (ix1 b) = Rk x0 b 16 0 0 := by
  simp only [s293, k0_pay155, ValueIdx.mulf_apply, ValueIdx.addf_apply, ValueIdx.subf_apply, ValueIdx.broadcast_apply, zero_word, one_word, tovec_at, ascol_at, shapeCast_self, slice_at (N := 216) _ 144 (by norm_num), s1_eq, dot3, newt, Rh_zero, th_zero, rel_zero] <;> rfl
theorem s299_at (b : Fin 128) : s299 x0 x1 (ix1 b) = Rk x0 b 16 1 0 := by
  simp only [s299, k0_pay159, ValueIdx.mulf_apply, ValueIdx.addf_apply, ValueIdx.subf_apply, ValueIdx.broadcast_apply, zero_word, one_word, tovec_at, ascol_at, shapeCast_self, slice_at (N := 216) _ 147 (by norm_num), s1_eq, dot3, newt, Rh_zero, th_zero, rel_zero] <;> rfl
theorem s305_at (b : Fin 128) : s305 x0 x1 (ix1 b) = Rk x0 b 16 2 0 := by
  simp only [s305, k0_pay162, ValueIdx.mulf_apply, ValueIdx.addf_apply, ValueIdx.subf_apply, ValueIdx.broadcast_apply, zero_word, one_word, tovec_at, ascol_at, shapeCast_self, slice_at (N := 216) _ 150 (by norm_num), s1_eq, dot3, newt, Rh_zero, th_zero, rel_zero] <;> rfl
theorem s1960_at (b : Fin 128) : s1960 x0 x1 (ix1 b) = Rh (Rk x0 b) 16 0 0 := by
  simp only [s1960, k0_pay581, ValueIdx.mulf_apply, ValueIdx.addf_apply, ValueIdx.subf_apply, ValueIdx.broadcast_apply, zero_word, one_word, tovec_at, ascol_at, shapeCast_self, s293_at, s299_at, s305_at, s1699_at, s1706_at, s1713_at, dot3, newt, Rh_zero, th_zero, rel_zero, Rh_at _ 16 13 (by norm_num) rfl, th_at _ _ 16 13 (by norm_num) rfl, rel_at _ 16 13 (by norm_num) rfl] <;> rfl
theorem s294_at (b : Fin 128) : s294 x0 x1 (ix2 b (0 : Fin 1)) = Rk x0 b 16 0 1 := by
  simp only [s294, k0_pay156, ValueIdx.mulf_apply, ValueIdx.addf_apply, ValueIdx.subf_apply, ValueIdx.broadcast_apply, zero_word, one_word, tovec_at, ascol_at, shapeCast_self, slice_at (N := 216) _ 145 (by norm_num), s1_eq, dot3, newt, Rh_zero, th_zero, rel_zero] <;> rfl
theorem s295_at (b : Fin 128) : s295 x0 x1 (ix1 b) = Rk x0 b 16 0 1 := by
  simp only [s295, k0_pay157, ValueIdx.mulf_apply, ValueIdx.addf_apply, ValueIdx.subf_apply, ValueIdx.broadcast_apply, zero_word, one_word, tovec_at, ascol_at, shapeCast_self, s294_at, dot3, newt, Rh_zero, th_zero, rel_zero] <;> rfl
theorem s301_at (b : Fin 128) : s301 x0 x1 (ix1 b) = Rk x0 b 16 1 1 := by
  simp only [s301, k0_pay160, ValueIdx.mulf_apply, ValueIdx.addf_apply, ValueIdx.subf_apply, ValueIdx.broadcast_apply, zero_word, one_word, tovec_at, ascol_at, shapeCast_self, slice_at (N := 216) _ 148 (by norm_num), s1_eq, dot3, newt, Rh_zero, th_zero, rel_zero] <;> rfl
theorem s307_at (b : Fin 128) : s307 x0 x1 (ix1 b) = Rk x0 b 16 2 1 := by
  simp only [s307, k0_pay163, ValueIdx.mulf_apply, ValueIdx.addf_apply, ValueIdx.subf_apply, ValueIdx.broadcast_apply, zero_word, one_word, tovec_at, ascol_at, shapeCast_self, slice_at (N := 216) _ 151 (by norm_num), s1_eq, dot3, newt, Rh_zero, th_zero, rel_zero] <;> rfl
theorem s1967_at (b : Fin 128) : s1967 x0 x1 (ix1 b) = Rh (Rk x0 b) 16 0 1 := by
  simp only [s1967, k0_pay582, ValueIdx.mulf_apply, ValueIdx.addf_apply, ValueIdx.subf_apply, ValueIdx.broadcast_apply, zero_word, one_word, tovec_at, ascol_at, shapeCast_self, s295_at, s301_at, s307_at, s1699_at, s1706_at, s1713_at, dot3, newt, Rh_zero, th_zero, rel_zero, Rh_at _ 16 13 (by norm_num) rfl, th_at _ _ 16 13 (by norm_num) rfl, rel_at _ 16 13 (by norm_num) rfl] <;> rfl
theorem s309_at (b : Fin 128) : s309 x0 x1 (ix1 b) = Rk x0 b 16 2 2 := by
  simp only [s309, k0_pay164, ValueIdx.mulf_apply, ValueIdx.addf_apply, ValueIdx.subf_apply, ValueIdx.broadcast_apply, zero_word, one_word, tovec_at, ascol_at, shapeCast_self, slice_at (N := 216) _ 152 (by norm_num), s1_eq, dot3, newt, Rh_zero, th_zero, rel_zero] <;> rfl
theorem s297_at (b : Fin 128) : s297 x0 x1 (ix1 b) = Rk x0 b 16 0 2 := by
  simp only [s297, k0_pay158, ValueIdx.mulf_apply, ValueIdx.addf_apply, ValueIdx.subf_apply, ValueIdx.broadcast_apply, zero_word, one_word, tovec_at, ascol_at, shapeCast_self, slice_at (N := 216) _ 146 (by norm_num), s1_eq, dot3, newt, Rh_zero, th_zero, rel_zero] <;> rfl
theorem s1970_at (b : Fin 128) : s1970 x0 x1 (ix1 b) = ((0 : EReal) + ((Rh (Rk x0 b) 13 0 0) * (Rk x0 b 16 0 2))) := by
  simp only [s1970, k0_pay583, ValueIdx.mulf_apply, ValueIdx.addf_apply, ValueIdx.subf_apply, ValueIdx.broadcast_apply, zero_word, one_word, tovec_at, ascol_at, shapeCast_self, s297_at, s1699_at, dot3, newt, Rh_zero, th_zero, rel_zero] <;> rfl
theorem s303_at (b : Fin 128) : s303 x0 x1 (ix1 b) = Rk x0 b 16 1 2 := by
  simp only [s303, k0_pay161, ValueIdx.mulf_apply, ValueIdx.addf_apply, ValueIdx.subf_apply, ValueIdx.broadcast_apply, zero_word, one_word, tovec_at, ascol_at, shapeCast_self, slice_at (N := 216) _ 149 (by norm_num), s1_eq, dot3, newt, Rh_zero, th_zero, rel_zero] <;> rfl
theorem s1971_at (b : Fin 128) : s1971 x0 x1 (ix1 b) = ((Rh (Rk x0 b) 13 0 1) * (Rk x0 b 16 1 2)) := by
  simp only [s1971, k0_pay584, ValueIdx.mulf_apply, ValueIdx.addf_apply, ValueIdx.subf_apply, ValueIdx.broadcast_apply, zero_word, one_word, tovec_at, ascol_at, shapeCast_self, s303_at, s1706_at, dot3, newt, Rh_zero, th_zero, rel_zero] <;> rfl
theorem s1974_at (b : Fin 128) : s1974 x0 x1 (ix1 b) = Rh (Rk x0 b) 16 0 2 := by
  simp only [s1974, k0_pay585, ValueIdx.mulf_apply, ValueIdx.addf_apply, ValueIdx.subf_apply, ValueIdx.broadcast_apply, zero_word, one_word, tovec_at, ascol_at, shapeCast_self, s309_at, s1713_at, s1970_at, s1971_at, dot3, newt, Rh_zero, th_zero, rel_zero, Rh_at _ 16 13 (by norm_num) rfl, th_at _ _ 16 13 (by norm_num) rfl, rel_at _ 16 13 (by norm_num) rfl] <;> rfl
theorem s1981_at (b : Fin 128) : s1981 x0 x1 (ix1 b) = Rh (Rk x0 b) 16 1 0 := by
  simp only [s1981, k0_pay586, ValueIdx.mulf_apply, ValueIdx.addf_apply, ValueIdx.subf_apply, ValueIdx.broadcast_apply, zero_word, one_word, tovec_at, ascol_at, shapeCast_self, s293_at, s299_at, s305_at, s1720_at, s1727_at, s1734_at, dot3, newt, Rh_zero, th_zero, rel_zero, Rh_at _ 16 13 (by norm_num) rfl, th_at _ _ 16 13 (by norm_num) rfl, rel_at _ 16 13 (by norm_num) rfl] <;> rfl
theorem s1988_at (b : Fin 128) : s1988 x0 x1 (ix1 b) = Rh (Rk x0 b) 16 1 1 := by
  simp only [s1988, k0_pay587, ValueIdx.mulf_apply, ValueIdx.addf_apply, ValueIdx.subf_apply, ValueIdx.broadcast_apply, zero_word, one_word, tovec_at, ascol_at, shapeCast_self, s295_at, s301_at, s307_at, s1720_at, s1727_at, s1734_at, dot3, newt, Rh_zero, th_zero, rel_zero, Rh_at _ 16 13 (by norm_num) rfl, th_at _ _ 16 13 (by norm_num) rfl, rel_at _ 16 13 (by norm_num) rfl] <;> rfl
theorem s1995_at (b : Fin 128) : s1995 x0 x1 (ix1 b) = Rh (Rk x0 b) 16 1 2 := by
  simp only [s1995, k0_pay588, ValueIdx.mulf_apply, ValueIdx.addf_apply, ValueIdx.subf_apply, ValueIdx.broadcast_apply, zero_word, one_word, tovec_at, ascol_at, shapeCast_self, s297_at, s303_at, s309_at, s1720_at, s1727_at, s1734_at, dot3, newt, Rh_zero, th_zero, rel_zero, Rh_at _ 16 13 (by norm_num) rfl, th_at _ _ 16 13 (by norm_num) rfl, rel_at _ 16 13 (by norm_num) rfl] <;> rfl
theorem s2002_at (b : Fin 128) : s2002 x0 x1 (ix1 b) = Rh (Rk x0 b) 16 2 0 := by
  simp only [s2002, k0_pay589, ValueIdx.mulf_apply, ValueIdx.addf_apply, ValueIdx.subf_apply, ValueIdx.broadcast_apply, zero_word, one_word, tovec_at, ascol_at, shapeCast_self, s293_at, s299_at, s305_at, s1741_at, s1748_at, s1755_at, dot3, newt, Rh_zero, th_zero, rel_zero, Rh_at _ 16 13 (by norm_num) rfl, th_at _ _ 16 13 (by norm_num) rfl, rel_at _ 16 13 (by norm_num) rfl] <;> rfl
theorem s2009_at (b : Fin 128) : s2009 x0 x1 (ix1 b) = Rh (Rk x0 b) 16 2 1 := by
  simp only [s2009, k0_pay590, ValueIdx.mulf_apply, ValueIdx.addf_apply, ValueIdx.subf_apply, ValueIdx.broadcast_apply, zero_word, one_word, tovec_at, ascol_at, shapeCast_self, s295_at, s301_at, s307_at, s1741_at, s1748_at, s1755_at, dot3, newt, Rh_zero, th_zero, rel_zero, Rh_at _ 16 13 (by norm_num) rfl, th_at _ _ 16 13 (by norm_num) rfl, rel_at _ 16 13 (by norm_num) rfl] <;> rfl
theorem s2016_at (b : Fin 128) : s2016 x0 x1 (ix1 b) = Rh (Rk x0 b) 16 2 2 := by
  simp only [s2016, k0_pay591, ValueIdx.mulf_apply, ValueIdx.addf_apply, ValueIdx.subf_apply, ValueIdx.broadcast_apply, zero_word, one_word, tovec_at, ascol_at, shapeCast_self, s297_at, s303_at, s309_at, s1741_at, s1748_at, s1755_at, dot3, newt, Rh_zero, th_zero, rel_zero, Rh_at _ 16 13 (by norm_num) rfl, th_at _ _ 16 13 (by norm_num) rfl, rel_at _ 16 13 (by norm_num) rfl] <;> rfl
theorem s625_at (b : Fin 128) : s625 x0 x1 (ix1 b) = rel (pk x1 b) 16 0 := by
  simp only [s625, k0_pay349, ValueIdx.mulf_apply, ValueIdx.addf_apply, ValueIdx.subf_apply, ValueIdx.broadcast_apply, zero_word, one_word, tovec_at, ascol_at, shapeCast_self, s515_at, s533_at, dot3, newt, Rh_zero, th_zero, rel_zero, Rh_at _ 16 13 (by norm_num) rfl, th_at _ _ 16 13 (by norm_num) rfl, rel_at _ 16 13 (by norm_num) rfl] <;> rfl
theorem s626_at (b : Fin 128) : s626 x0 x1 (ix1 b) = rel (pk x1 b) 16 1 := by
  simp only [s626, k0_pay350, ValueIdx.mulf_apply, ValueIdx.addf_apply, ValueIdx.subf_apply, ValueIdx.broadcast_apply, zero_word, one_word, tovec_at, ascol_at, shapeCast_self, s517_at, s535_at, dot3, newt, Rh_zero, th_zero, rel_zero, Rh_at _ 16 13 (by norm_num) rfl, th_at _ _ 16 13 (by norm_num) rfl, rel_at _ 16 13 (by norm_num) rfl] <;> rfl
theorem s627_at (b : Fin 128) : s627 x0 x1 (ix1 b) = rel (pk x1 b) 16 2 := by
  simp only [s627, k0_pay351, ValueIdx.mulf_apply, ValueIdx.addf_apply, ValueIdx.subf_apply, ValueIdx.broadcast_apply, zero_word, one_word, tovec_at, ascol_at, shapeCast_self, s519_at, s537_at, dot3, newt, Rh_zero, th_zero, rel_zero, Rh_at _ 16 13 (by norm_num) rfl, th_at _ _ 16 13 (by norm_num) rfl, rel_at _ 16 13 (by norm_num) rfl] <;> rfl
theorem s2032_at (b : Fin 128) : s2032 x0 x1 (ix1 b) = th (Rk x0 b) (pk x1 b) 16 1 := by
  simp only [s2032, k0_pay593, ValueIdx.mulf_apply, ValueIdx.addf_apply, ValueIdx.subf_apply, ValueIdx.broadcast_apply, zero_word, one_word, tovec_at, ascol_at, shapeCast_self, s625_at, s626_at, s627_at, s1720_at, s1727_at, s1734_at, s1771_at, dot3, newt, Rh_zero, th_zero, rel_zero, Rh_at _ 16 13 (by norm_num) rfl, th_at _ _ 16 13 (by norm_num) rfl, rel_at _ 16 13 (by norm_num) rfl] <;> rfl
theorem s2040_at (b : Fin 128) : s2040 x0 x1 (ix1 b) = th (Rk x0 b) (pk x1 b) 16 2 := by
  simp only [s2040, k0_pay594, ValueIdx.mulf_apply, ValueIdx.addf_apply, ValueIdx.subf_apply, ValueIdx.broadcast_apply, zero_word, one_word, tovec_at, ascol_at, shapeCast_self, s625_at, s626_at, s627_at, s1741_at, s1748_at, s1755_at, s1779_at, dot3, newt, Rh_zero, th_zero, rel_zero, Rh_at _ 16 13 (by norm_num) rfl, th_at _ _ 16 13 (by norm_num) rfl, rel_at _ 16 13 (by norm_num) rfl] <;> rfl
theorem s2024_at (b : Fin 128) : s2024 x0 x1 (ix1 b) = th (Rk x0 b) (pk x1 b) 16 0 := by
  simp only [s2024, k0_pay592, ValueIdx.mulf_apply, ValueIdx.addf_apply, ValueIdx.subf_apply, ValueIdx.broadcast_apply, zero_word, one_word, tovec_at, ascol_at, shapeCast_self, s625_at, s626_at, s627_at, s1699_at, s1706_at, s1713_at, s1763_at, dot3, newt, Rh_zero, th_zero, rel_zero, Rh_at _ 16 13 (by norm_num) rfl, th_at _ _ 16 13 (by norm_num) rfl, rel_at _ 16 13 (by norm_num) rfl] <;> rfl
theorem s3379_at (b : Fin 128) : s3379 x0 x1 (ix1 b) = newt (Rk x0 b) (pk x1 b) 16 0 := by
  simp only [s3379, k0_pay798, ValueIdx.mulf_apply, ValueIdx.addf_apply, ValueIdx.subf_apply, ValueIdx.broadcast_apply, zero_word, one_word, tovec_at, ascol_at, shapeCast_self, s533_at, s535_at, s537_at, s1960_at, s1967_at, s1974_at, s2024_at, dot3, newt, Rh_zero, th_zero, rel_zero, Rh_at _ 16 13 (by norm_num) rfl, th_at _ _ 16 13 (by norm_num) rfl, rel_at _ 16 13 (by norm_num) rfl] <;> rfl
theorem s3386_at (b : Fin 128) : s3386 x0 x1 (ix1 b) = ((((0 : EReal) + ((Rh (Rk x0 b) 16 1 0) * (pk x1 b 16 0))) + ((Rh (Rk x0 b) 16 1 1) * (pk x1 b 16 1))) + ((Rh (Rk x0 b) 16 1 2) * (pk x1 b 16 2))) := by
  simp only [s3386, k0_pay799, ValueIdx.mulf_apply, ValueIdx.addf_apply, ValueIdx.subf_apply, ValueIdx.broadcast_apply, zero_word, one_word, tovec_at, ascol_at, shapeCast_self, s533_at, s535_at, s537_at, s1981_at, s1988_at, s1995_at, dot3, newt, Rh_zero, th_zero, rel_zero] <;> rfl
theorem s3412_c0 (b : Fin 128) : s3412 x0 x1 (ix2 b (⟨0, by norm_num⟩ : Fin 16)) = Rh (Rk x0 b) 16 0 0 := by
  simp only [s3412, k0_pay800]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s533_at, s535_at, s537_at, s1960_at, s1967_at, s1974_at, s1981_at, s1988_at, s1995_at, s2002_at, s2009_at, s2016_at, s2032_at, s2040_at, s2650_at, s2651_at, s3379_at, s3386_at, dot3, newt, Rh_zero, th_zero, rel_zero, Rh_at _ 16 13 (by norm_num) rfl, th_at _ _ 16 13 (by norm_num) rfl, rel_at _ 16 13 (by norm_num) rfl] <;> rfl
theorem s3412_c1 (b : Fin 128) : s3412 x0 x1 (ix2 b (⟨1, by norm_num⟩ : Fin 16)) = Rh (Rk x0 b) 16 0 1 := by
  simp only [s3412, k0_pay800]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s533_at, s535_at, s537_at, s1960_at, s1967_at, s1974_at, s1981_at, s1988_at, s1995_at, s2002_at, s2009_at, s2016_at, s2032_at, s2040_at, s2650_at, s2651_at, s3379_at, s3386_at, dot3, newt, Rh_zero, th_zero, rel_zero, Rh_at _ 16 13 (by norm_num) rfl, th_at _ _ 16 13 (by norm_num) rfl, rel_at _ 16 13 (by norm_num) rfl] <;> rfl
theorem s3412_c2 (b : Fin 128) : s3412 x0 x1 (ix2 b (⟨2, by norm_num⟩ : Fin 16)) = Rh (Rk x0 b) 16 0 2 := by
  simp only [s3412, k0_pay800]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s533_at, s535_at, s537_at, s1960_at, s1967_at, s1974_at, s1981_at, s1988_at, s1995_at, s2002_at, s2009_at, s2016_at, s2032_at, s2040_at, s2650_at, s2651_at, s3379_at, s3386_at, dot3, newt, Rh_zero, th_zero, rel_zero, Rh_at _ 16 13 (by norm_num) rfl, th_at _ _ 16 13 (by norm_num) rfl, rel_at _ 16 13 (by norm_num) rfl] <;> rfl
theorem s3412_c3 (b : Fin 128) : s3412 x0 x1 (ix2 b (⟨3, by norm_num⟩ : Fin 16)) = newt (Rk x0 b) (pk x1 b) 16 0 := by
  simp only [s3412, k0_pay800]
  refine (concat_unit_piece 3 (by norm_num) _ _ _ (by simp) rfl rfl b).trans ?_
  simp only [ValueIdx.mulf_apply, ValueIdx.addf_apply, ValueIdx.subf_apply, ValueIdx.broadcast_apply, zero_word, one_word, tovec_at, ascol_at, shapeCast_self, s533_at, s535_at, s537_at, s1960_at, s1967_at, s1974_at, s1981_at, s1988_at, s1995_at, s2002_at, s2009_at, s2016_at, s2032_at, s2040_at, s2650_at, s2651_at, s3379_at, s3386_at, dot3, newt, Rh_zero, th_zero, rel_zero, Rh_at _ 16 13 (by norm_num) rfl, th_at _ _ 16 13 (by norm_num) rfl, rel_at _ 16 13 (by norm_num) rfl] <;> rfl
theorem s3412_c4 (b : Fin 128) : s3412 x0 x1 (ix2 b (⟨4, by norm_num⟩ : Fin 16)) = Rh (Rk x0 b) 16 1 0 := by
  simp only [s3412, k0_pay800]
  refine (concat_unit_piece 4 (by norm_num) _ _ _ (by simp) rfl rfl b).trans ?_
  simp only [ValueIdx.mulf_apply, ValueIdx.addf_apply, ValueIdx.subf_apply, ValueIdx.broadcast_apply, zero_word, one_word, tovec_at, ascol_at, shapeCast_self, s533_at, s535_at, s537_at, s1960_at, s1967_at, s1974_at, s1981_at, s1988_at, s1995_at, s2002_at, s2009_at, s2016_at, s2032_at, s2040_at, s2650_at, s2651_at, s3379_at, s3386_at, dot3, newt, Rh_zero, th_zero, rel_zero, Rh_at _ 16 13 (by norm_num) rfl, th_at _ _ 16 13 (by norm_num) rfl, rel_at _ 16 13 (by norm_num) rfl] <;> rfl
theorem s3412_c5 (b : Fin 128) : s3412 x0 x1 (ix2 b (⟨5, by norm_num⟩ : Fin 16)) = Rh (Rk x0 b) 16 1 1 := by
  simp only [s3412, k0_pay800]
  refine (concat_unit_piece 5 (by norm_num) _ _ _ (by simp) rfl rfl b).trans ?_
  simp only [ValueIdx.mulf_apply, ValueIdx.addf_apply, ValueIdx.subf_apply, ValueIdx.broadcast_apply, zero_word, one_word, tovec_at, ascol_at, shapeCast_self, s533_at, s535_at, s537_at, s1960_at, s1967_at, s1974_at, s1981_at, s1988_at, s1995_at, s2002_at, s2009_at, s2016_at, s2032_at, s2040_at, s2650_at, s2651_at, s3379_at, s3386_at, dot3, newt, Rh_zero, th_zero, rel_zero, Rh_at _ 16 13 (by norm_num) rfl, th_at _ _ 16 13 (by norm_num) rfl, rel_at _ 16 13 (by norm_num) rfl] <;> rfl
theorem s3412_c6 (b : Fin 128) : s3412 x0 x1 (ix2 b (⟨6, by norm_num⟩ : Fin 16)) = Rh (Rk x0 b) 16 1 2 := by
  simp only [s3412, k0_pay800]
  refine (concat_unit_piece 6 (by norm_num) _ _ _ (by simp) rfl rfl b).trans ?_
  simp only [ValueIdx.mulf_apply, ValueIdx.addf_apply, ValueIdx.subf_apply, ValueIdx.broadcast_apply, zero_word, one_word, tovec_at, ascol_at, shapeCast_self, s533_at, s535_at, s537_at, s1960_at, s1967_at, s1974_at, s1981_at, s1988_at, s1995_at, s2002_at, s2009_at, s2016_at, s2032_at, s2040_at, s2650_at, s2651_at, s3379_at, s3386_at, dot3, newt, Rh_zero, th_zero, rel_zero, Rh_at _ 16 13 (by norm_num) rfl, th_at _ _ 16 13 (by norm_num) rfl, rel_at _ 16 13 (by norm_num) rfl] <;> rfl
theorem s3412_c7 (b : Fin 128) : s3412 x0 x1 (ix2 b (⟨7, by norm_num⟩ : Fin 16)) = newt (Rk x0 b) (pk x1 b) 16 1 := by
  simp only [s3412, k0_pay800]
  refine (concat_unit_piece 7 (by norm_num) _ _ _ (by simp) rfl rfl b).trans ?_
  simp only [ValueIdx.mulf_apply, ValueIdx.addf_apply, ValueIdx.subf_apply, ValueIdx.broadcast_apply, zero_word, one_word, tovec_at, ascol_at, shapeCast_self, s533_at, s535_at, s537_at, s1960_at, s1967_at, s1974_at, s1981_at, s1988_at, s1995_at, s2002_at, s2009_at, s2016_at, s2032_at, s2040_at, s2650_at, s2651_at, s3379_at, s3386_at, dot3, newt, Rh_zero, th_zero, rel_zero, Rh_at _ 16 13 (by norm_num) rfl, th_at _ _ 16 13 (by norm_num) rfl, rel_at _ 16 13 (by norm_num) rfl] <;> rfl
theorem s3412_c8 (b : Fin 128) : s3412 x0 x1 (ix2 b (⟨8, by norm_num⟩ : Fin 16)) = Rh (Rk x0 b) 16 2 0 := by
  simp only [s3412, k0_pay800]
  refine (concat_unit_piece 8 (by norm_num) _ _ _ (by simp) rfl rfl b).trans ?_
  simp only [ValueIdx.mulf_apply, ValueIdx.addf_apply, ValueIdx.subf_apply, ValueIdx.broadcast_apply, zero_word, one_word, tovec_at, ascol_at, shapeCast_self, s533_at, s535_at, s537_at, s1960_at, s1967_at, s1974_at, s1981_at, s1988_at, s1995_at, s2002_at, s2009_at, s2016_at, s2032_at, s2040_at, s2650_at, s2651_at, s3379_at, s3386_at, dot3, newt, Rh_zero, th_zero, rel_zero, Rh_at _ 16 13 (by norm_num) rfl, th_at _ _ 16 13 (by norm_num) rfl, rel_at _ 16 13 (by norm_num) rfl] <;> rfl
theorem s3412_c9 (b : Fin 128) : s3412 x0 x1 (ix2 b (⟨9, by norm_num⟩ : Fin 16)) = Rh (Rk x0 b) 16 2 1 := by
  simp only [s3412, k0_pay800]
  refine (concat_unit_piece 9 (by norm_num) _ _ _ (by simp) rfl rfl b).trans ?_
  simp only [ValueIdx.mulf_apply, ValueIdx.addf_apply, ValueIdx.subf_apply, ValueIdx.broadcast_apply, zero_word, one_word, tovec_at, ascol_at, shapeCast_self, s533_at, s535_at, s537_at, s1960_at, s1967_at, s1974_at, s1981_at, s1988_at, s1995_at, s2002_at, s2009_at, s2016_at, s2032_at, s2040_at, s2650_at, s2651_at, s3379_at, s3386_at, dot3, newt, Rh_zero, th_zero, rel_zero, Rh_at _ 16 13 (by norm_num) rfl, th_at _ _ 16 13 (by norm_num) rfl, rel_at _ 16 13 (by norm_num) rfl] <;> rfl
theorem s3412_c10 (b : Fin 128) : s3412 x0 x1 (ix2 b (⟨10, by norm_num⟩ : Fin 16)) = Rh (Rk x0 b) 16 2 2 := by
  simp only [s3412, k0_pay800]
  refine (concat_unit_piece 10 (by norm_num) _ _ _ (by simp) rfl rfl b).trans ?_
  simp only [ValueIdx.mulf_apply, ValueIdx.addf_apply, ValueIdx.subf_apply, ValueIdx.broadcast_apply, zero_word, one_word, tovec_at, ascol_at, shapeCast_self, s533_at, s535_at, s537_at, s1960_at, s1967_at, s1974_at, s1981_at, s1988_at, s1995_at, s2002_at, s2009_at, s2016_at, s2032_at, s2040_at, s2650_at, s2651_at, s3379_at, s3386_at, dot3, newt, Rh_zero, th_zero, rel_zero, Rh_at _ 16 13 (by norm_num) rfl, th_at _ _ 16 13 (by norm_num) rfl, rel_at _ 16 13 (by norm_num) rfl] <;> rfl
theorem s3412_c11 (b : Fin 128) : s3412 x0 x1 (ix2 b (⟨11, by norm_num⟩ : Fin 16)) = newt (Rk x0 b) (pk x1 b) 16 2 := by
  simp only [s3412, k0_pay800]
  refine (concat_unit_piece 11 (by norm_num) _ _ _ (by simp) rfl rfl b).trans ?_
  simp only [ValueIdx.mulf_apply, ValueIdx.addf_apply, ValueIdx.subf_apply, ValueIdx.broadcast_apply, zero_word, one_word, tovec_at, ascol_at, shapeCast_self, s533_at, s535_at, s537_at, s1960_at, s1967_at, s1974_at, s1981_at, s1988_at, s1995_at, s2002_at, s2009_at, s2016_at, s2032_at, s2040_at, s2650_at, s2651_at, s3379_at, s3386_at, dot3, newt, Rh_zero, th_zero, rel_zero, Rh_at _ 16 13 (by norm_num) rfl, th_at _ _ 16 13 (by norm_num) rfl, rel_at _ 16 13 (by norm_num) rfl] <;> rfl
theorem s3412_c12 (b : Fin 128) : s3412 x0 x1 (ix2 b (⟨12, by norm_num⟩ : Fin 16)) = (0 : EReal) := by
  simp only [s3412, k0_pay800]
  refine (concat_unit_piece 12 (by norm_num) _ _ _ (by simp) rfl rfl b).trans ?_
  simp only [ValueIdx.mulf_apply, ValueIdx.addf_apply, ValueIdx.subf_apply, ValueIdx.broadcast_apply, zero_word, one_word, tovec_at, ascol_at, shapeCast_self, s533_at, s535_at, s537_at, s1960_at, s1967_at, s1974_at, s1981_at, s1988_at, s1995_at, s2002_at, s2009_at, s2016_at, s2032_at, s2040_at, s2650_at, s2651_at, s3379_at, s3386_at, dot3, newt, Rh_zero, th_zero, rel_zero, Rh_at _ 16 13 (by norm_num) rfl, th_at _ _ 16 13 (by norm_num) rfl, rel_at _ 16 13 (by norm_num) rfl] <;> rfl
theorem s3412_c13 (b : Fin 128) : s3412 x0 x1 (ix2 b (⟨13, by norm_num⟩ : Fin 16)) = (0 : EReal) := by
  simp only [s3412, k0_pay800]
  refine (concat_unit_piece 13 (by norm_num) _ _ _ (by simp) rfl rfl b).trans ?_
  simp only [ValueIdx.mulf_apply, ValueIdx.addf_apply, ValueIdx.subf_apply, ValueIdx.broadcast_apply, zero_word, one_word, tovec_at, ascol_at, shapeCast_self, s533_at, s535_at, s537_at, s1960_at, s1967_at, s1974_at, s1981_at, s1988_at, s1995_at, s2002_at, s2009_at, s2016_at, s2032_at, s2040_at, s2650_at, s2651_at, s3379_at, s3386_at, dot3, newt, Rh_zero, th_zero, rel_zero, Rh_at _ 16 13 (by norm_num) rfl, th_at _ _ 16 13 (by norm_num) rfl, rel_at _ 16 13 (by norm_num) rfl] <;> rfl
theorem s3412_c14 (b : Fin 128) : s3412 x0 x1 (ix2 b (⟨14, by norm_num⟩ : Fin 16)) = (0 : EReal) := by
  simp only [s3412, k0_pay800]
  refine (concat_unit_piece 14 (by norm_num) _ _ _ (by simp) rfl rfl b).trans ?_
  simp only [ValueIdx.mulf_apply, ValueIdx.addf_apply, ValueIdx.subf_apply, ValueIdx.broadcast_apply, zero_word, one_word, tovec_at, ascol_at, shapeCast_self, s533_at, s535_at, s537_at, s1960_at, s1967_at, s1974_at, s1981_at, s1988_at, s1995_at, s2002_at, s2009_at, s2016_at, s2032_at, s2040_at, s2650_at, s2651_at, s3379_at, s3386_at, dot3, newt, Rh_zero, th_zero, rel_zero, Rh_at _ 16 13 (by norm_num) rfl, th_at _ _ 16 13 (by norm_num) rfl, rel_at _ 16 13 (by norm_num) rfl] <;> rfl
theorem s3412_c15 (b : Fin 128) : s3412 x0 x1 (ix2 b (⟨15, by norm_num⟩ : Fin 16)) = (1 : EReal) := by
  simp only [s3412, k0_pay800]
  refine (concat_unit_piece 15 (by norm_num) _ _ _ (by simp) rfl rfl b).trans ?_
  simp only [ValueIdx.mulf_apply, ValueIdx.addf_apply, ValueIdx.subf_apply, ValueIdx.broadcast_apply, zero_word, one_word, tovec_at, ascol_at, shapeCast_self, s533_at, s535_at, s537_at, s1960_at, s1967_at, s1974_at, s1981_at, s1988_at, s1995_at, s2002_at, s2009_at, s2016_at, s2032_at, s2040_at, s2650_at, s2651_at, s3379_at, s3386_at, dot3, newt, Rh_zero, th_zero, rel_zero, Rh_at _ 16 13 (by norm_num) rfl, th_at _ _ 16 13 (by norm_num) rfl, rel_at _ 16 13 (by norm_num) rfl] <;> rfl
theorem s315_at (b : Fin 128) : s315 x0 x1 (ix1 b) = Rk x0 b 17 0 2 := by
  simp only [s315, k0_pay167, ValueIdx.mulf_apply, ValueIdx.addf_apply, ValueIdx.subf_apply, ValueIdx.broadcast_apply, zero_word, one_word, tovec_at, ascol_at, shapeCast_self, slice_at (N := 216) _ 155 (by norm_num), s1_eq, dot3, newt, Rh_zero, th_zero, rel_zero] <;> rfl
theorem s321_at (b : Fin 128) : s321 x0 x1 (ix1 b) = Rk x0 b 17 1 2 := by
  simp only [s321, k0_pay170, ValueIdx.mulf_apply, ValueIdx.addf_apply, ValueIdx.subf_apply, ValueIdx.broadcast_apply, zero_word, one_word, tovec_at, ascol_at, shapeCast_self, slice_at (N := 216) _ 158 (by norm_num), s1_eq, dot3, newt, Rh_zero, th_zero, rel_zero] <;> rfl
theorem s327_at (b : Fin 128) : s327 x0 x1 (ix1 b) = Rk x0 b 17 2 2 := by
  simp only [s327, k0_pay173, ValueIdx.mulf_apply, ValueIdx.addf_apply, ValueIdx.subf_apply, ValueIdx.broadcast_apply, zero_word, one_word, tovec_at, ascol_at, shapeCast_self, slice_at (N := 216) _ 161 (by norm_num), s1_eq, dot3, newt, Rh_zero, th_zero, rel_zero] <;> rfl
theorem s2061_at (b : Fin 128) : s2061 x0 x1 (ix1 b) = Rh (Rk x0 b) 17 0 2 := by
  simp only [s2061, k0_pay597, ValueIdx.mulf_apply, ValueIdx.addf_apply, ValueIdx.subf_apply, ValueIdx.broadcast_apply, zero_word, one_word, tovec_at, ascol_at, shapeCast_self, s315_at, s321_at, s327_at, s1786_at, s1793_at, s1800_at, dot3, newt, Rh_zero, th_zero, rel_zero, Rh_at _ 17 14 (by norm_num) rfl, th_at _ _ 17 14 (by norm_num) rfl, rel_at _ 17 14 (by norm_num) rfl] <;> rfl
theorem s311_at (b : Fin 128) : s311 x0 x1 (ix1 b) = Rk x0 b 17 0 0 := by
  simp only [s311, k0_pay165, ValueIdx.mulf_apply, ValueIdx.addf_apply, ValueIdx.subf_apply, ValueIdx.broadcast_apply, zero_word, one_word, tovec_at, ascol_at, shapeCast_self, slice_at (N := 216) _ 153 (by norm_num), s1_eq, dot3, newt, Rh_zero, th_zero, rel_zero] <;> rfl
theorem s317_at (b : Fin 128) : s317 x0 x1 (ix1 b) = Rk x0 b 17 1 0 := by
  simp only [s317, k0_pay168, ValueIdx.mulf_apply, ValueIdx.addf_apply, ValueIdx.subf_apply, ValueIdx.broadcast_apply, zero_word, one_word, tovec_at, ascol_at, shapeCast_self, slice_at (N := 216) _ 156 (by norm_num), s1_eq, dot3, newt, Rh_zero, th_zero, rel_zero] <;> rfl
theorem s323_at (b : Fin 128) : s323 x0 x1 (ix1 b) = Rk x0 b 17 2 0 := by
  simp only [s323, k0_pay171, ValueIdx.mulf_apply, ValueIdx.addf_apply, ValueIdx.subf_apply, ValueIdx.broadcast_apply, zero_word, one_word, tovec_at, ascol_at, shapeCast_self, slice_at (N := 216) _ 159 (by norm_num), s1_eq, dot3, newt, Rh_zero, th_zero, rel_zero] <;> rfl
theorem s2068_at (b : Fin 128) : s2068 x0 x1 (ix1 b) = Rh (Rk x0 b) 17 1 0 := by
  simp only [s2068, k0_pay598, ValueIdx.mulf_apply, ValueIdx.addf_apply, ValueIdx.subf_apply, ValueIdx.broadcast_apply, zero_word, one_word, tovec_at, ascol_at, shapeCast_self, s311_at, s317_at, s323_at, s1807_at, s1814_at, s1821_at, dot3, newt, Rh_zero, th_zero, rel_zero, Rh_at _ 17 14 (by norm_num) rfl, th_at _ _ 17 14 (by norm_num) rfl, rel_at _ 17 14 (by norm_num) rfl] <;> rfl
theorem s313_at (b : Fin 128) : s313 x0 x1 (ix1 b) = Rk x0 b 17 0 1 := by
  simp only [s313, k0_pay166, ValueIdx.mulf_apply, ValueIdx.addf_apply, ValueIdx.subf_apply, ValueIdx.broadcast_apply, zero_word, one_word, tovec_at, ascol_at, shapeCast_self, slice_at (N := 216) _ 154 (by norm_num), s1_eq, dot3, newt, Rh_zero, th_zero, rel_zero] <;> rfl
theorem s319_at (b : Fin 128) : s319 x0 x1 (ix1 b) = Rk x0 b 17 1 1 := by
  simp only [s319, k0_pay169, ValueIdx.mulf_apply, ValueIdx.addf_apply, ValueIdx.subf_apply, ValueIdx.broadcast_apply, zero_word, one_word, tovec_at, ascol_at, shapeCast_self, slice_at (N := 216) _ 157 (by norm_num), s1_eq, dot3, newt, Rh_zero, th_zero, rel_zero] <;> rfl
theorem s325_at (b : Fin 128) : s325 x0 x1 (ix1 b) = Rk x0 b 17 2 1 := by
  simp only [s325, k0_pay172, ValueIdx.mulf_apply, ValueIdx.addf_apply, ValueIdx.subf_apply, ValueIdx.broadcast_apply, zero_word, one_word, tovec_at, ascol_at, shapeCast_self, slice_at (N := 216) _ 160 (by norm_num), s1_eq, dot3, newt, Rh_zero, th_zero, rel_zero] <;> rfl
theorem s2075_at (b : Fin 128) : s2075 x0 x1 (ix1 b) = Rh (Rk x0 b) 17 1 1 := by
  simp only [s2075, k0_pay599, ValueIdx.mulf_apply, ValueIdx.addf_apply, ValueIdx.subf_apply, ValueIdx.broadcast_apply, zero_word, one_word, tovec_at, ascol_at, shapeCast_self, s313_at, s319_at, s325_at, s1807_at, s1814_at, s1821_at, dot3, newt, Rh_zero, th_zero, rel_zero, Rh_at _ 17 14 (by norm_num) rfl, th_at _ _ 17 14 (by norm_num) rfl, rel_at _ 17 14 (by norm_num) rfl] <;> rfl
theorem s2076_at (b : Fin 128) : s2076 x0 x1 (ix1 b) = ((Rh (Rk x0 b) 14 1 0) * (Rk x0 b 17 0 2)) := by
  simp only [s2076, k0_pay600, ValueIdx.mulf_apply, ValueIdx.addf_apply, ValueIdx.subf_apply, ValueIdx.broadcast_apply, zero_word, one_word, tovec_at, ascol_at, shapeCast_self, s315_at, s1807_at, dot3, newt, Rh_zero, th_zero, rel_zero] <;> rfl
theorem s2082_at (b : Fin 128) : s2082 x0 x1 (ix1 b) = Rh (Rk x0 b) 17 1 2 := by
  simp only [s2082, k0_pay601, ValueIdx.mulf_apply, ValueIdx.addf_apply, ValueIdx.subf_apply, ValueIdx.broadcast_apply, zero_word, one_word, tovec_at, ascol_at, shapeCast_self, s321_at, s327_at, s1814_at, s1821_at, s2076_at, dot3, newt, Rh_zero, th_zero, rel_zero, Rh_at _ 17 14 (by norm_num) rfl, th_at _ _ 17 14 (by norm_num) rfl, rel_at _ 17 14 (by norm_num) rfl] <;> rfl
theorem s2089_at (b : Fin 128) : s2089 x0 x1 (ix1 b) = Rh (Rk x0 b) 17 2 0 := by
  simp only [s2089, k0_pay602, ValueIdx.mulf_apply, ValueIdx.addf_apply, ValueIdx.subf_apply, ValueIdx.broadcast_apply, zero_word, one_word, tovec_at, ascol_at, shapeCast_self, s311_at, s317_at, s323_at, s1828_at, s1835_at, s1842_at, dot3, newt, Rh_zero, th_zero, rel_zero, Rh_at _ 17 14 (by norm_num) rfl, th_at _ _ 17 14 (by norm_num) rfl, rel_at _ 17 14 (by norm_num) rfl] <;> rfl
theorem s2096_at (b : Fin 128) : s2096 x0 x1 (ix1 b) = Rh (Rk x0 b) 17 2 1 := by
  simp only [s2096, k0_pay603, ValueIdx.mulf_apply, ValueIdx.addf_apply, ValueIdx.subf_apply, ValueIdx.broadcast_apply, zero_word, one_word, tovec_at, ascol_at, shapeCast_self, s313_at, s319_at, s325_at, s1828_at, s1835_at, s1842_at, dot3, newt, Rh_zero, th_zero, rel_zero, Rh_at _ 17 14 (by norm_num) rfl, th_at _ _ 17 14 (by norm_num) rfl, rel_at _ 17 14 (by norm_num) rfl] <;> rfl
theorem s2103_at (b : Fin 128) : s2103 x0 x1 (ix1 b) = Rh (Rk x0 b) 17 2 2 := by
  simp only [s2103, k0_pay604, ValueIdx.mulf_apply, ValueIdx.addf_apply, ValueIdx.subf_apply, ValueIdx.broadcast_apply, zero_word, one_word, tovec_at, ascol_at, shapeCast_self, s315_at, s321_at, s327_at, s1828_at, s1835_at, s1842_at, dot3, newt, Rh_zero, th_zero, rel_zero, Rh_at _ 17 14 (by norm_num) rfl, th_at _ _ 17 14 (by norm_num) rfl, rel_at _ 17 14 (by norm_num) rfl] <;> rfl
theorem s539_at (b : Fin 128) : s539 x0 x1 (ix1 b) = pk x1 b 17 0 := by
  simp only [s539, k0_pay283, ValueIdx.mulf_apply, ValueIdx.addf_apply, ValueIdx.subf_apply, ValueIdx.broadcast_apply, zero_word, one_word, tovec_at, ascol_at, shapeCast_self, slice_at (N := 72) _ 51 (by norm_num), s3_eq, dot3, newt, Rh_zero, th_zero, rel_zero] <;> rfl
theorem s541_at (b : Fin 128) : s541 x0 x1 (ix1 b) = pk x1 b 17 1 := by
  simp only [s541, k0_pay284, ValueIdx.mulf_apply, ValueIdx.addf_apply, ValueIdx.subf_apply, ValueIdx.broadcast_apply, zero_word, one_word, tovec_at, ascol_at, shapeCast_self, slice_at (N := 72) _ 52 (by norm_num), s3_eq, dot3, newt, Rh_zero, th_zero, rel_zero] <;> rfl
theorem s543_at (b : Fin 128) : s543 x0 x1 (ix1 b) = pk x1 b 17 2 := by
  simp only [s543, k0_pay285, ValueIdx.mulf_apply, ValueIdx.addf_apply, ValueIdx.subf_apply, ValueIdx.broadcast_apply, zero_word, one_word, tovec_at, ascol_at, shapeCast_self, slice_at (N := 72) _ 53 (by norm_num), s3_eq, dot3, newt, Rh_zero, th_zero, rel_zero] <;> rfl
theorem s2047_at (b : Fin 128) : s2047 x0 x1 (ix1 b) = Rh (Rk x0 b) 17 0 0 := by
  simp only [s2047, k0_pay595, ValueIdx.mulf_apply, ValueIdx.addf_apply, ValueIdx.subf_apply, ValueIdx.broadcast_apply, zero_word, one_word, tovec_at, ascol_at, shapeCast_self, s311_at, s317_at, s323_at, s1786_at, s1793_at, s1800_at, dot3, newt, Rh_zero, th_zero, rel_zero, Rh_at _ 17 14 (by norm_num) rfl, th_at _ _ 17 14 (by norm_num) rfl, rel_at _ 17 14 (by norm_num) rfl] <;> rfl
theorem s2054_at (b : Fin 128) : s2054 x0 x1 (ix1 b) = Rh (Rk x0 b) 17 0 1 := by
  simp only [s2054, k0_pay596, ValueIdx.mulf_apply, ValueIdx.addf_apply, ValueIdx.subf_apply, ValueIdx.broadcast_apply, zero_word, one_word, tovec_at, ascol_at, shapeCast_self, s313_at, s319_at, s325_at, s1786_at, s1793_at, s1800_at, dot3, newt, Rh_zero, th_zero, rel_zero, Rh_at _ 17 14 (by norm_num) rfl, th_at _ _ 17 14 (by norm_num) rfl, rel_at _ 17 14 (by norm_num) rfl] <;> rfl
theorem s628_at (b : Fin 128) : s628 x0 x1 (ix1 b) = rel (pk x1 b) 17 0 := by
  simp only [s628, k0_pay352, ValueIdx.mulf_apply, ValueIdx.addf_apply, ValueIdx.subf_apply, ValueIdx.broadcast_apply, zero_word, one_word, tovec_at, ascol_at, shapeCast_self, s521_at, s539_at, dot3, newt, Rh_zero, th_zero, rel_zero, Rh_at _ 17 14 (by norm_num) rfl, th_at _ _ 17 14 (by norm_num) rfl, rel_at _ 17 14 (by norm_num) rfl] <;> rfl
theorem s629_at (b : Fin 128) : s629 x0 x1 (ix1 b) = rel (pk x1 b) 17 1 := by
  simp only [s629, k0_pay353, ValueIdx.mulf_apply, ValueIdx.addf_apply, ValueIdx.subf_apply, ValueIdx.broadcast_apply, zero_word, one_word, tovec_at, ascol_at, shapeCast_self, s523_at, s541_at, dot3, newt, Rh_zero, th_zero, rel_zero, Rh_at _ 17 14 (by norm_num) rfl, th_at _ _ 17 14 (by norm_num) rfl, rel_at _ 17 14 (by norm_num) rfl] <;> rfl
theorem s630_at (b : Fin 128) : s630 x0 x1 (ix1 b) = rel (pk x1 b) 17 2 := by
  simp only [s630, k0_pay354, ValueIdx.mulf_apply, ValueIdx.addf_apply, ValueIdx.subf_apply, ValueIdx.broadcast_apply, zero_word, one_word, tovec_at, ascol_at, shapeCast_self, s525_at, s543_at, dot3, newt, Rh_zero, th_zero, rel_zero, Rh_at _ 17 14 (by norm_num) rfl, th_at _ _ 17 14 (by norm_num) rfl, rel_at _ 17 14 (by norm_num) rfl] <;> rfl
theorem s2111_at (b : Fin 128) : s2111 x0 x1 (ix1 b) = th (Rk x0 b) (pk x1 b) 17 0 := by
  simp only [s2111, k0_pay605, ValueIdx.mulf_apply, ValueIdx.addf_apply, ValueIdx.subf_apply, ValueIdx.broadcast_apply, zero_word, one_word, tovec_at, ascol_at, shapeCast_self, s628_at, s629_at, s630_at, s1786_at, s1793_at, s1800_at, s1850_at, dot3, newt, Rh_zero, th_zero, rel_zero, Rh_at _ 17 14 (by norm_num) rfl, th_at _ _ 17 14 (by norm_num) rfl, rel_at _ 17 14 (by norm_num) rfl] <;> rfl
theorem s3424_at (b : Fin 128) : s3424 x0 x1 (ix1 b) = newt (Rk x0 b) (pk x1 b) 17 0 := by
  simp only [s3424, k0_pay802, ValueIdx.mulf_apply, ValueIdx.addf_apply, ValueIdx.subf_apply, ValueIdx.broadcast_apply, zero_word, one_word, tovec_at, ascol_at, shapeCast_self, s539_at, s541_at, s543_at, s2047_at, s2054_at, s2061_at, s2111_at, dot3, newt, Rh_zero, th_zero, rel_zero, Rh_at _ 17 14 (by norm_num) rfl, th_at _ _ 17 14 (by norm_num) rfl, rel_at _ 17 14 (by norm_num) rfl] <;> rfl
theorem s2119_at (b : Fin 128) : s2119 x0 x1 (ix1 b) = th (Rk x0 b) (pk x1 b) 17 1 := by
  simp only [s2119, k0_pay606, ValueIdx.mulf_apply, ValueIdx.addf_apply, ValueIdx.subf_apply, ValueIdx.broadcast_apply, zero_word, one_word, tovec_at, ascol_at, shapeCast_self, s628_at, s629_at, s630_at, s1807_at, s1814_at, s1821_at, s1858_at, dot3, newt, Rh_zero, th_zero, rel_zero, Rh_at _ 17 14 (by norm_num) rfl, th_at _ _ 17 14 (by norm_num) rfl, rel_at _ 17 14 (by norm_num) rfl] <;> rfl
theorem s3432_at (b : Fin 128) : s3432 x0 x1 (ix1 b) = newt (Rk x0 b) (pk x1 b) 17 1 := by
  simp only [s3432, k0_pay803, ValueIdx.mulf_apply, ValueIdx.addf_apply, ValueIdx.subf_apply, ValueIdx.broadcast_apply, zero_word, one_word, tovec_at, ascol_at, shapeCast_self, s539_at, s541_at, s543_at, s2068_at, s2075_at, s2082_at, s2119_at, dot3, newt, Rh_zero, th_zero, rel_zero, Rh_at _ 17 14 (by norm_num) rfl, th_at _ _ 17 14 (by norm_num) rfl, rel_at _ 17 14 (by norm_num) rfl] <;> rfl
theorem s2127_at (b : Fin 128) : s2127 x0 x1 (ix1 b) = th (Rk x0 b) (pk x1 b) 17 2 := by
  simp only [s2127, k0_pay607, ValueIdx.mulf_apply, ValueIdx.addf_apply, ValueIdx.subf_apply, ValueIdx.broadcast_apply, zero_word, one_word, tovec_at, ascol_at, shapeCast_self, s628_at, s629_at, s630_at, s1828_at, s1835_at, s1842_at, s1866_at, dot3, newt, Rh_zero, th_zero, rel_zero, Rh_at _ 17 14 (by norm_num) rfl, th_at _ _ 17 14 (by norm_num) rfl, rel_at _ 17 14 (by norm_num) rfl] <;> rfl
theorem s3440_at (b : Fin 128) : s3440 x0 x1 (ix1 b) = newt (Rk x0 b) (pk x1 b) 17 2 := by
  simp only [s3440, k0_pay804, ValueIdx.mulf_apply, ValueIdx.addf_apply, ValueIdx.subf_apply, ValueIdx.broadcast_apply, zero_word, one_word, tovec_at, ascol_at, shapeCast_self, s539_at, s541_at, s543_at, s2089_at, s2096_at, s2103_at, s2127_at, dot3, newt, Rh_zero, th_zero, rel_zero, Rh_at _ 17 14 (by norm_num) rfl, th_at _ _ 17 14 (by norm_num) rfl, rel_at _ 17 14 (by norm_num) rfl] <;> rfl
theorem s3441_at (b : Fin 128) : s3441 x0 x1 (ix2 b (0 : Fin 1)) = Rh (Rk x0 b) 17 0 0 := by
  simp only [s3441, k0_pay805, ValueIdx.mulf_apply, ValueIdx.addf_apply, ValueIdx.subf_apply, ValueIdx.broadcast_apply, zero_word, one_word, tovec_at, ascol_at, shapeCast_self, s2047_at, dot3, newt, Rh_zero, th_zero, rel_zero, Rh_at _ 17 14 (by norm_num) rfl, th_at _ _ 17 14 (by norm_num) rfl, rel_at _ 17 14 (by norm_num) rfl] <;> rfl
theorem s3442_at (b : Fin 128) : s3442 x0 x1 (ix2 b (0 : Fin 1)) = Rh (Rk x0 b) 17 0 1 := by
  simp only [s3442, k0_pay806, ValueIdx.mulf_apply, ValueIdx.addf_apply, ValueIdx.subf_apply, ValueIdx.broadcast_apply, zero_word, one_word, tovec_at, ascol_at, shapeCast_self, s2054_at, dot3, newt, Rh_zero, th_zero, rel_zero, Rh_at _ 17 14 (by norm_num) rfl, th_at _ _ 17 14 (by norm_num) rfl, rel_at _ 17 14 (by norm_num) rfl] <;> rfl
theorem s3457_c0 (b : Fin 128) : s3457 x0 x1 (ix2 b (⟨0, by norm_num⟩ : Fin 16)) = Rh (Rk x0 b) 17 0 0 := by
  simp only [s3457, k0_pay807]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s2061_at, s2068_at, s2075_at, s2082_at, s2089_at, s2096_at, s2103_at, s2650_at, s2651_at, s3424_at, s3432_at, s3440_at, s3441_at, s3442_at, dot3, newt, Rh_zero, th_zero, rel_zero, Rh_at _ 17 14 (by norm_num) rfl, th_at _ _ 17 14 (by norm_num) rfl, rel_at _ 17 14 (by norm_num) rfl] <;> rfl
theorem s3457_c1 (b : Fin 128) : s3457 x0 x1 (ix2 b (⟨1, by norm_num⟩ : Fin 16)) = Rh (Rk x0 b) 17 0 1 := by
  simp only [s3457, k0_pay807]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s2061_at, s2068_at, s2075_at, s2082_at, s2089_at, s2096_at, s2103_at, s2650_at, s2651_at, s3424_at, s3432_at, s3440_at, s3441_at, s3442_at, dot3, newt, Rh_zero, th_zero, rel_zero, Rh_at _ 17 14 (by norm_num) rfl, th_at _ _ 17 14 (by norm_num) rfl, rel_at _ 17 14 (by norm_num) rfl] <;> rfl
theorem s3457_c2 (b : Fin 128) : s3457 x0 x1 (ix2 b (⟨2, by norm_num⟩ : Fin 16)) = Rh (Rk x0 b) 17 0 2 := by
  simp only [s3457, k0_pay807]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s2061_at, s2068_at, s2075_at, s2082_at, s2089_at, s2096_at, s2103_at, s2650_at, s2651_at, s3424_at, s3432_at, s3440_at, s3441_at, s3442_at, dot3, newt, Rh_zero, th_zero, rel_zero, Rh_at _ 17 14 (by norm_num) rfl, th_at _ _ 17 14 (by norm_num) rfl, rel_at _ 17 14 (by norm_num) rfl] <;> rfl
theorem s3457_c3 (b : Fin 128) : s3457 x0 x1 (ix2 b (⟨3, by norm_num⟩ : Fin 16)) = newt (Rk x0 b) (pk x1 b) 17 0 := by
  simp only [s3457, k0_pay807]
  refine (concat_unit_piece 3 (by norm_num) _ _ _ (by simp) rfl rfl b).trans ?_
  simp only [ValueIdx.mulf_apply, ValueIdx.addf_apply, ValueIdx.subf_apply, ValueIdx.broadcast_apply, zero_word, one_word, tovec_at, ascol_at, shapeCast_self, s2061_at, s2068_at, s2075_at, s2082_at, s2089_at, s2096_at, s2103_at, s2650_at, s2651_at, s3424_at, s3432_at, s3440_at, s3441_at, s3442_at, dot3, newt, Rh_zero, th_zero, rel_zero, Rh_at _ 17 14 (by norm_num) rfl, th_at _ _ 17 14 (by norm_num) rfl, rel_at _ 17 14 (by norm_num) rfl] <;> rfl
theorem s3457_c4 (b : Fin 128) : s3457 x0 x1 (ix2 b (⟨4, by norm_num⟩ : Fin 16)) = Rh (Rk x0 b) 17 1 0 := by
  simp only [s3457, k0_pay807]
  refine (concat_unit_piece 4 (by norm_num) _ _ _ (by simp) rfl rfl b).trans ?_
  simp only [ValueIdx.mulf_apply, ValueIdx.addf_apply, ValueIdx.subf_apply, ValueIdx.broadcast_apply, zero_word, one_word, tovec_at, ascol_at, shapeCast_self, s2061_at, s2068_at, s2075_at, s2082_at, s2089_at, s2096_at, s2103_at, s2650_at, s2651_at, s3424_at, s3432_at, s3440_at, s3441_at, s3442_at, dot3, newt, Rh_zero, th_zero, rel_zero, Rh_at _ 17 14 (by norm_num) rfl, th_at _ _ 17 14 (by norm_num) rfl, rel_at _ 17 14 (by norm_num) rfl] <;> rfl
theorem s3457_c5 (b : Fin 128) : s3457 x0 x1 (ix2 b (⟨5, by norm_num⟩ : Fin 16)) = Rh (Rk x0 b) 17 1 1 := by
  simp only [s3457, k0_pay807]
  refine (concat_unit_piece 5 (by norm_num) _ _ _ (by simp) rfl rfl b).trans ?_
  simp only [ValueIdx.mulf_apply, ValueIdx.addf_apply, ValueIdx.subf_apply, ValueIdx.broadcast_apply, zero_word, one_word, tovec_at, ascol_at, shapeCast_self, s2061_at, s2068_at, s2075_at, s2082_at, s2089_at, s2096_at, s2103_at, s2650_at, s2651_at, s3424_at, s3432_at, s3440_at, s3441_at, s3442_at, dot3, newt, Rh_zero, th_zero, rel_zero, Rh_at _ 17 14 (by norm_num) rfl, th_at _ _ 17 14 (by norm_num) rfl, rel_at _ 17 14 (by norm_num) rfl] <;> rfl
theorem s3457_c6 (b : Fin 128) : s3457 x0 x1 (ix2 b (⟨6, by norm_num⟩ : Fin 16)) = Rh (Rk x0 b) 17 1 2 := by
  simp only [s3457, k0_pay807]
  refine (concat_unit_piece 6 (by norm_num) _ _ _ (by simp) rfl rfl b).trans ?_
  simp only [ValueIdx.mulf_apply, ValueIdx.addf_apply, ValueIdx.subf_apply, ValueIdx.broadcast_apply, zero_word, one_word, tovec_at, ascol_at, shapeCast_self, s2061_at, s2068_at, s2075_at, s2082_at, s2089_at, s2096_at, s2103_at, s2650_at, s2651_at, s3424_at, s3432_at, s3440_at, s3441_at, s3442_at, dot3, newt, Rh_zero, th_zero, rel_zero, Rh_at _ 17 14 (by norm_num) rfl, th_at _ _ 17 14 (by norm_num) rfl, rel_at _ 17 14 (by norm_num) rfl] <;> rfl
theorem s3457_c7 (b : Fin 128) : s3457 x0 x1 (ix2 b (⟨7, by norm_num⟩ : Fin 16)) = newt (Rk x0 b) (pk x1 b) 17 1 := by
  simp only [s3457, k0_pay807]
  refine (concat_unit_piece 7 (by norm_num) _ _ _ (by simp) rfl rfl b).trans ?_
  simp only [ValueIdx.mulf_apply, ValueIdx.addf_apply, ValueIdx.subf_apply, ValueIdx.broadcast_apply, zero_word, one_word, tovec_at, ascol_at, shapeCast_self, s2061_at, s2068_at, s2075_at, s2082_at, s2089_at, s2096_at, s2103_at, s2650_at, s2651_at, s3424_at, s3432_at, s3440_at, s3441_at, s3442_at, dot3, newt, Rh_zero, th_zero, rel_zero, Rh_at _ 17 14 (by norm_num) rfl, th_at _ _ 17 14 (by norm_num) rfl, rel_at _ 17 14 (by norm_num) rfl] <;> rfl
theorem s3457_c8 (b : Fin 128) : s3457 x0 x1 (ix2 b (⟨8, by norm_num⟩ : Fin 16)) = Rh (Rk x0 b) 17 2 0 := by
  simp only [s3457, k0_pay807]
  refine (concat_unit_piece 8 (by norm_num) _ _ _ (by simp) rfl rfl b).trans ?_
  simp only [ValueIdx.mulf_apply, ValueIdx.addf_apply, ValueIdx.subf_apply, ValueIdx.broadcast_apply, zero_word, one_word, tovec_at, ascol_at, shapeCast_self, s2061_at, s2068_at, s2075_at, s2082_at, s2089_at, s2096_at, s2103_at, s2650_at, s2651_at, s3424_at, s3432_at, s3440_at, s3441_at, s3442_at, dot3, newt, Rh_zero, th_zero, rel_zero, Rh_at _ 17 14 (by norm_num) rfl, th_at _ _ 17 14 (by norm_num) rfl, rel_at _ 17 14 (by norm_num) rfl] <;> rfl
theorem s3457_c9 (b : Fin 128) : s3457 x0 x1 (ix2 b (⟨9, by norm_num⟩ : Fin 16)) = Rh (Rk x0 b) 17 2 1 := by
  simp only [s3457, k0_pay807]
  refine (concat_unit_piece 9 (by norm_num) _ _ _ (by simp) rfl rfl b).trans ?_
  simp only [ValueIdx.mulf_apply, ValueIdx.addf_apply, ValueIdx.subf_apply, ValueIdx.broadcast_apply, zero_word, one_word, tovec_at, ascol_at, shapeCast_self, s2061_at, s2068_at, s2075_at, s2082_at, s2089_at, s2096_at, s2103_at, s2650_at, s2651_at, s3424_at, s3432_at, s3440_at, s3441_at, s3442_at, dot3, newt, Rh_zero, th_zero, rel_zero, Rh_at _ 17 14 (by norm_num) rfl, th_at _ _ 17 14 (by norm_num) rfl, rel_at _ 17 14 (by norm_num) rfl] <;> rfl
theorem s3457_c10 (b : Fin 128) : s3457 x0 x1 (ix2 b (⟨10, by norm_num⟩ : Fin 16)) = Rh (Rk x0 b) 17 2 2 := by
  simp only [s3457, k0_pay807]
  refine (concat_unit_piece 10 (by norm_num) _ _ _ (by simp) rfl rfl b).trans ?_
  simp only [ValueIdx.mulf_apply, ValueIdx.addf_apply, ValueIdx.subf_apply, ValueIdx.broadcast_apply, zero_word, one_word, tovec_at, ascol_at, shapeCast_self, s2061_at, s2068_at, s2075_at, s2082_at, s2089_at, s2096_at, s2103_at, s2650_at, s2651_at, s3424_at, s3432_at, s3440_at, s3441_at, s3442_at, dot3, newt, Rh_zero, th_zero, rel_zero, Rh_at _ 17 14 (by norm_num) rfl, th_at _ _ 17 14 (by norm_num) rfl, rel_at _ 17 14 (by norm_num) rfl] <;> rfl
theorem s3457_c11 (b : Fin 128) : s3457 x0 x1 (ix2 b (⟨11, by norm_num⟩ : Fin 16)) = newt (Rk x0 b) (pk x1 b) 17 2 := by
  simp only [s3457, k0_pay807]
  refine (concat_unit_piece 11 (by norm_num) _ _ _ (by simp) rfl rfl b).trans ?_
  simp only [ValueIdx.mulf_apply, ValueIdx.addf_apply, ValueIdx.subf_apply, ValueIdx.broadcast_apply, zero_word, one_word, tovec_at, ascol_at, shapeCast_self, s2061_at, s2068_at, s2075_at, s2082_at, s2089_at, s2096_at, s2103_at, s2650_at, s2651_at, s3424_at, s3432_at, s3440_at, s3441_at, s3442_at, dot3, newt, Rh_zero, th_zero, rel_zero, Rh_at _ 17 14 (by norm_num) rfl, th_at _ _ 17 14 (by norm_num) rfl, rel_at _ 17 14 (by norm_num) rfl] <;> rfl
theorem s3457_c12 (b : Fin 128) : s3457 x0 x1 (ix2 b (⟨12, by norm_num⟩ : Fin 16)) = (0 : EReal) := by
  simp only [s3457, k0_pay807]
  refine (concat_unit_piece 12 (by norm_num) _ _ _ (by simp) rfl rfl b).trans ?_
  simp only [ValueIdx.mulf_apply, ValueIdx.addf_apply, ValueIdx.subf_apply, ValueIdx.broadcast_apply, zero_word, one_word, tovec_at, ascol_at, shapeCast_self, s2061_at, s2068_at, s2075_at, s2082_at, s2089_at, s2096_at, s2103_at, s2650_at, s2651_at, s3424_at, s3432_at, s3440_at, s3441_at, s3442_at, dot3, newt, Rh_zero, th_zero, rel_zero, Rh_at _ 17 14 (by norm_num) rfl, th_at _ _ 17 14 (by norm_num) rfl, rel_at _ 17 14 (by norm_num) rfl] <;> rfl
theorem s3457_c13 (b : Fin 128) : s3457 x0 x1 (ix2 b (⟨13, by norm_num⟩ : Fin 16)) = (0 : EReal) := by
  simp only [s3457, k0_pay807]
  refine (concat_unit_piece 13 (by norm_num) _ _ _ (by simp) rfl rfl b).trans ?_
  simp only [ValueIdx.mulf_apply, ValueIdx.addf_apply, ValueIdx.subf_apply, ValueIdx.broadcast_apply, zero_word, one_word, tovec_at, ascol_at, shapeCast_self, s2061_at, s2068_at, s2075_at, s2082_at, s2089_at, s2096_at, s2103_at, s2650_at, s2651_at, s3424_at, s3432_at, s3440_at, s3441_at, s3442_at, dot3, newt, Rh_zero, th_zero, rel_zero, Rh_at _ 17 14 (by norm_num) rfl, th_at _ _ 17 14 (by norm_num) rfl, rel_at _ 17 14 (by norm_num) rfl] <;> rfl
theorem s3457_c14 (b : Fin 128) : s3457 x0 x1 (ix2 b (⟨14, by norm_num⟩ : Fin 16)) = (0 : EReal) := by
  simp only [s3457, k0_pay807]
  refine (concat_unit_piece 14 (by norm_num) _ _ _ (by simp) rfl rfl b).trans ?_
  simp only [ValueIdx.mulf_apply, ValueIdx.addf_apply, ValueIdx.subf_apply, ValueIdx.broadcast_apply, zero_word, one_word, tovec_at, ascol_at, shapeCast_self, s2061_at, s2068_at, s2075_at, s2082_at, s2089_at, s2096_at, s2103_at, s2650_at, s2651_at, s3424_at, s3432_at, s3440_at, s3441_at, s3442_at, dot3, newt, Rh_zero, th_zero, rel_zero, Rh_at _ 17 14 (by norm_num) rfl, th_at _ _ 17 14 (by norm_num) rfl, rel_at _ 17 14 (by norm_num) rfl] <;> rfl
theorem s3457_c15 (b : Fin 128) : s3457 x0 x1 (ix2 b (⟨15, by norm_num⟩ : Fin 16)) = (1 : EReal) := by
  simp only [s3457, k0_pay807]
  refine (concat_unit_piece 15 (by norm_num) _ _ _ (by simp) rfl rfl b).trans ?_
  simp only [ValueIdx.mulf_apply, ValueIdx.addf_apply, ValueIdx.subf_apply, ValueIdx.broadcast_apply, zero_word, one_word, tovec_at, ascol_at, shapeCast_self, s2061_at, s2068_at, s2075_at, s2082_at, s2089_at, s2096_at, s2103_at, s2650_at, s2651_at, s3424_at, s3432_at, s3440_at, s3441_at, s3442_at, dot3, newt, Rh_zero, th_zero, rel_zero, Rh_at _ 17 14 (by norm_num) rfl, th_at _ _ 17 14 (by norm_num) rfl, rel_at _ 17 14 (by norm_num) rfl] <;> rfl
theorem s335_at (b : Fin 128) : s335 x0 x1 (ix1 b) = Rk x0 b 18 1 0 := by
  simp only [s335, k0_pay177, ValueIdx.mulf_apply, ValueIdx.addf_apply, ValueIdx.subf_apply, ValueIdx.broadcast_apply, zero_word, one_word, tovec_at, ascol_at, shapeCast_self, slice_at (N := 216) _ 165 (by norm_num), s1_eq, dot3, newt, Rh_zero, th_zero, rel_zero] <;> rfl
theorem s341_at (b : Fin 128) : s341 x0 x1 (ix1 b) = Rk x0 b 18 2 0 := by
  simp only [s341, k0_pay180, ValueIdx.mulf_apply, ValueIdx.addf_apply, ValueIdx.subf_apply, ValueIdx.broadcast_apply, zero_word, one_word, tovec_at, ascol_at, shapeCast_self, slice_at (N := 216) _ 168 (by norm_num), s1_eq, dot3, newt, Rh_zero, th_zero, rel_zero] <;> rfl
theorem s329_at (b : Fin 128) : s329 x0 x1 (ix1 b) = Rk x0 b 18 0 0 := by
  simp only [s329, k0_pay174, ValueIdx.mulf_apply, ValueIdx.addf_apply, ValueIdx.subf_apply, ValueIdx.broadcast_apply, zero_word, one_word, tovec_at, ascol_at, shapeCast_self, slice_at (N := 216) _ 162 (by norm_num), s1_eq, dot3, newt, Rh_zero, th_zero, rel_zero] <;> rfl
theorem s2128_at (b : Fin 128) : s2128 x0 x1 (ix1 b) = ((Rh (Rk x0 b) 16 0 0) * (Rk x0 b 18 0 0)) := by
  simp only [s2128, k0_pay608, ValueIdx.mulf_apply, ValueIdx.addf_apply, ValueIdx.subf_apply, ValueIdx.broadcast_apply, zero_word, one_word, tovec_at, ascol_at, shapeCast_self, s329_at, s1960_at, dot3, newt, Rh_zero, th_zero, rel_zero] <;> rfl
theorem s2129_at (b : Fin 128) : s2129 x0 x1 (ix1 b) = (0 : EReal) := by
  simp only [s2129, k0_pay609, ValueIdx.mulf_apply, ValueIdx.addf_apply, ValueIdx.subf_apply, ValueIdx.broadcast_apply, zero_word, one_word, tovec_at, ascol_at, shapeCast_self, dot3, newt, Rh_zero, th_zero, rel_zero] <;> rfl
theorem s2134_at (b : Fin 128) : s2134 x0 x1 (ix1 b) = Rh (Rk x0 b) 18 0 0 := by
  simp only [s2134, k0_pay610, ValueIdx.mulf_apply, ValueIdx.addf_apply, ValueIdx.subf_apply, ValueIdx.broadcast_apply, zero_word, one_word, tovec_at, ascol_at, shapeCast_self, s335_at, s341_at, s1967_at, s1974_at, s2128_at, s2129_at, dot3, newt, Rh_zero, th_zero, rel_zero, Rh_at _ 18 16 (by norm_num) rfl, th_at _ _ 18 16 (by norm_num) rfl, rel_at _ 18 16 (by norm_num) rfl] <;> rfl
theorem s3486_at (b : Fin 128) : s3486 x0 x1 (ix2 b (0 : Fin 1)) = Rh (Rk x0 b) 18 0 0 := by
  simp only [s3486, k0_pay809, ValueIdx.mulf_apply, ValueIdx.addf_apply, ValueIdx.subf_apply, ValueIdx.broadcast_apply, zero_word, one_word, tovec_at, ascol_at, shapeCast_self, s2134_at, dot3, newt, Rh_zero, th_zero, rel_zero, Rh_at _ 18 16 (by norm_num) rfl, th_at _ _ 18 16 (by norm_num) rfl, rel_at _ 18 16 (by norm_num) rfl] <;> rfl
theorem s331_at (b : Fin 128) : s331 x0 x1 (ix1 b) = Rk x0 b 18 0 1 := by
  simp only [s331, k0_pay175, ValueIdx.mulf_apply, ValueIdx.addf_apply, ValueIdx.subf_apply, ValueIdx.broadcast_apply, zero_word, one_word, tovec_at, ascol_at, shapeCast_self, slice_at (N := 216) _ 163 (by norm_num), s1_eq, dot3, newt, Rh_zero, th_zero, rel_zero] <;> rfl
theorem s337_at (b : Fin 128) : s337 x0 x1 (ix1 b) = Rk x0 b 18 1 1 := by
  simp only [s337, k0_pay178, ValueIdx.mulf_apply, ValueIdx.addf_apply, ValueIdx.subf_apply, ValueIdx.broadcast_apply, zero_word, one_word, tovec_at, ascol_at, shapeCast_self, slice_at (N := 216) _ 166 (by norm_num), s1_eq, dot3, newt, Rh_zero, th_zero, rel_zero] <;> rfl
theorem s343_at (b : Fin 128) : s343 x0 x1 (ix1 b) = Rk x0 b 18 2 1 := by
  simp only [s343, k0_pay181, ValueIdx.mulf_apply, ValueIdx.addf_apply, ValueIdx.subf_apply, ValueIdx.broadcast_apply, zero_word, one_word, tovec_at, ascol_at, shapeCast_self, slice_at (N := 216) _ 169 (by norm_num), s1_eq, dot3, newt, Rh_zero, th_zero, rel_zero] <;> rfl
theorem s2141_at (b : Fin 128) : s2141 x0 x1 (ix1 b) = Rh (Rk x0 b) 18 0 1 := by
  simp only [s2141, k0_pay611, ValueIdx.mulf_apply, ValueIdx.addf_apply, ValueIdx.subf_apply, ValueIdx.broadcast_apply, zero_word, one_word, tovec_at, ascol_at, shapeCast_self, s331_at, s337_at, s343_at, s1960_at, s1967_at, s1974_at, dot3, newt, Rh_zero, th_zero, rel_zero, Rh_at _ 18 16 (by norm_num) rfl, th_at _ _ 18 16 (by norm_num) rfl, rel_at _ 18 16 (by norm_num) rfl] <;> rfl
theorem s3487_at (b : Fin 128) : s3487 x0 x1 (ix2 b (0 : Fin 1)) = Rh (Rk x0 b) 18 0 1 := by
  simp only [s3487, k0_pay810, ValueIdx.mulf_apply, ValueIdx.addf_apply, ValueIdx.subf_apply, ValueIdx.broadcast_apply, zero_word, one_word, tovec_at, ascol_at, shapeCast_self, s2141_at, dot3, newt, Rh_zero, th_zero, rel_zero, Rh_at _ 18 16 (by norm_num) rfl, th_at _ _ 18 16 (by norm_num) rfl, rel_at _ 18 16 (by norm_num) rfl] <;> rfl
theorem s333_at (b : Fin 128) : s333 x0 x1 (ix1 b) = Rk x0 b 18 0 2 := by
  simp only [s333, k0_pay176, ValueIdx.mulf_apply, ValueIdx.addf_apply, ValueIdx.subf_apply, ValueIdx.broadcast_apply, zero_word, one_word, tovec_at, ascol_at, shapeCast_self, slice_at (N := 216) _ 164 (by norm_num), s1_eq, dot3, newt, Rh_zero, th_zero, rel_zero] <;> rfl
theorem s339_at (b : Fin 128) : s339 x0 x1 (ix1 b) = Rk x0 b 18 1 2 := by
  simp only [s339, k0_pay179, ValueIdx.mulf_apply, ValueIdx.addf_apply, ValueIdx.subf_apply, ValueIdx.broadcast_apply, zero_word, one_word, tovec_at, ascol_at, shapeCast_self, slice_at (N := 216) _ 167 (by norm_num), s1_eq, dot3, newt, Rh_zero, th_zero, rel_zero] <;> rfl
theorem s345_at (b : Fin 128) : s345 x0 x1 (ix1 b) = Rk x0 b 18 2 2 := by
  simp only [s345, k0_pay182, ValueIdx.mulf_apply, ValueIdx.addf_apply, ValueIdx.subf_apply, ValueIdx.broadcast_apply, zero_word, one_word, tovec_at, ascol_at, shapeCast_self, slice_at (N := 216) _ 170 (by norm_num), s1_eq, dot3, newt, Rh_zero, th_zero, rel_zero] <;> rfl
theorem s2148_at (b : Fin 128) : s2148 x0 x1 (ix1 b) = Rh (Rk x0 b) 18 0 2 := by
  simp only [s2148, k0_pay612, ValueIdx.mulf_apply, ValueIdx.addf_apply, ValueIdx.subf_apply, ValueIdx.broadcast_apply, zero_word, one_word, tovec_at, ascol_at, shapeCast_self, s333_at, s339_at, s345_at, s1960_at, s1967_at, s1974_at, dot3, newt, Rh_zero, th_zero, rel_zero, Rh_at _ 18 16 (by norm_num) rfl, th_at _ _ 18 16 (by norm_num) rfl, rel_at _ 18 16 (by norm_num) rfl] <;> rfl
theorem s3488_at (b : Fin 128) : s3488 x0 x1 (ix2 b (0 : Fin 1)) = Rh (Rk x0 b) 18 0 2 := by
  simp only [s3488, k0_pay811, ValueIdx.mulf_apply, ValueIdx.addf_apply, ValueIdx.subf_apply, ValueIdx.broadcast_apply, zero_word, one_word, tovec_at, ascol_at, shapeCast_self, s2148_at, dot3, newt, Rh_zero, th_zero, rel_zero, Rh_at _ 18 16 (by norm_num) rfl, th_at _ _ 18 16 (by norm_num) rfl, rel_at _ 18 16 (by norm_num) rfl] <;> rfl
theorem s545_at (b : Fin 128) : s545 x0 x1 (ix1 b) = pk x1 b 18 0 := by
  simp only [s545, k0_pay286, ValueIdx.mulf_apply, ValueIdx.addf_apply, ValueIdx.subf_apply, ValueIdx.broadcast_apply, zero_word, one_word, tovec_at, ascol_at, shapeCast_self, slice_at (N := 72) _ 54 (by norm_num), s3_eq, dot3, newt, Rh_zero, th_zero, rel_zero] <;> rfl
theorem s547_at (b : Fin 128) : s547 x0 x1 (ix1 b) = pk x1 b 18 1 := by
  simp only [s547, k0_pay287, ValueIdx.mulf_apply, ValueIdx.addf_apply, ValueIdx.subf_apply, ValueIdx.broadcast_apply, zero_word, one_word, tovec_at, ascol_at, shapeCast_self, slice_at (N := 72) _ 55 (by norm_num), s3_eq, dot3, newt, Rh_zero, th_zero, rel_zero] <;> rfl
theorem s549_at (b : Fin 128) : s549 x0 x1 (ix1 b) = pk x1 b 18 2 := by
  simp only [s549, k0_pay288, ValueIdx.mulf_apply, ValueIdx.addf_apply, ValueIdx.subf_apply, ValueIdx.broadcast_apply, zero_word, one_word, tovec_at, ascol_at, shapeCast_self, slice_at (N := 72) _ 56 (by norm_num), s3_eq, dot3, newt, Rh_zero, th_zero, rel_zero] <;> rfl
theorem s631_at (b : Fin 128) : s631 x0 x1 (ix1 b) = rel (pk x1 b) 18 0 := by
  simp only [s631, k0_pay355, ValueIdx.mulf_apply, ValueIdx.addf_apply, ValueIdx.subf_apply, ValueIdx.broadcast_apply, zero_word, one_word, tovec_at, ascol_at, shapeCast_self, s533_at, s545_at, dot3, newt, Rh_zero, th_zero, rel_zero, Rh_at _ 18 16 (by norm_num) rfl, th_at _ _ 18 16 (by norm_num) rfl, rel_at _ 18 16 (by norm_num) rfl] <;> rfl
theorem s632_at (b : Fin 128) : s632 x0 x1 (ix1 b) = rel (pk x1 b) 18 1 := by
  simp only [s632, k0_pay356, ValueIdx.mulf_apply, ValueIdx.addf_apply, ValueIdx.subf_apply, ValueIdx.broadcast_apply, zero_word, one_word, tovec_at, ascol_at, shapeCast_self, s535_at, s547_at, dot3, newt, Rh_zero, th_zero, rel_zero, Rh_at _ 18 16 (by norm_num) rfl, th_at _ _ 18 16 (by norm_num) rfl, rel_at _ 18 16 (by norm_num) rfl] <;> rfl
theorem s633_at (b : Fin 128) : s633 x0 x1 (ix1 b) = rel (pk x1 b) 18 2 := by
  simp only [s633, k0_pay357, ValueIdx.mulf_apply, ValueIdx.addf_apply, ValueIdx.subf_apply, ValueIdx.broadcast_apply, zero_word, one_word, tovec_at, ascol_at, shapeCast_self, s537_at, s549_at, dot3, newt, Rh_zero, th_zero, rel_zero, Rh_at _ 18 16 (by norm_num) rfl, th_at _ _ 18 16 (by norm_num) rfl, rel_at _ 18 16 (by norm_num) rfl] <;> rfl
theorem s2198_at (b : Fin 128) : s2198 x0 x1 (ix1 b) = th (Rk x0 b) (pk x1 b) 18 0 := by
  simp only [s2198, k0_pay621, ValueIdx.mulf_apply, ValueIdx.addf_apply, ValueIdx.subf_apply, ValueIdx.broadcast_apply, zero_word, one_word, tovec_at, ascol_at, shapeCast_self, s631_at, s632_at, s633_at, s1960_at, s1967_at, s1974_at, s2024_at, dot3, newt, Rh_zero, th_zero, rel_zero, Rh_at _ 18 16 (by norm_num) rfl, th_at _ _ 18 16 (by norm_num) rfl, rel_at _ 18 16 (by norm_num) rfl] <;> rfl
theorem s3489_at (b : Fin 128) : s3489 x0 x1 (ix2 b (0 : Fin 1)) = newt (Rk x0 b) (pk x1 b) 18 0 := by
  simp only [s3489, k0_pay812, ValueIdx.mulf_apply, ValueIdx.addf_apply, ValueIdx.subf_apply, ValueIdx.broadcast_apply, zero_word, one_word, tovec_at, ascol_at, shapeCast_self, s545_at, s547_at, s549_at, s2134_at, s2141_at, s2148_at, s2198_at, dot3, newt, Rh_zero, th_zero, rel_zero, Rh_at _ 18 16 (by norm_num) rfl, th_at _ _ 18 16 (by norm_num) rfl, rel_at _ 18 16 (by norm_num) rfl] <;> rfl
theorem s2155_at (b : Fin 128) : s2155 x0 x1 (ix1 b) = Rh (Rk x0 b) 18 1 0 := by
  simp only [s2155, k0_pay613, ValueIdx.mulf_apply, ValueIdx.addf_apply, ValueIdx.subf_apply, ValueIdx.broadcast_apply, zero_word, one_word, tovec_at, ascol_at, shapeCast_self, s329_at, s335_at, s341_at, s1981_at, s1988_at, s1995_at, dot3, newt, Rh_zero, th_zero, rel_zero, Rh_at _ 18 16 (by norm_num) rfl, th_at _ _ 18 16 (by norm_num) rfl, rel_at _ 18 16 (by norm_num) rfl] <;> rfl
theorem s3490_at (b : Fin 128) : s3490 x0 x1 (ix2 b (0 : Fin 1)) = Rh (Rk x0 b) 18 1 0 := by
  simp only [s3490, k0_pay813, ValueIdx.mulf_apply, ValueIdx.addf_apply, ValueIdx.subf_apply, ValueIdx.broadcast_apply, zero_word, one_word, tovec_at, ascol_at, shapeCast_self, s2155_at, dot3, newt, Rh_zero, th_zero, rel_zero, Rh_at _ 18 16 (by norm_num) rfl, th_at _ _ 18 16 (by norm_num) rfl, rel_at _ 18 16 (by norm_num) rfl] <;> rfl
theorem s2162_at (b : Fin 128) : s2162 x0 x1 (ix1 b) = Rh (Rk x0 b) 18 1 1 := by
  simp only [s2162, k0_pay614, ValueIdx.mulf_apply, ValueIdx.addf_apply, ValueIdx.subf_apply, ValueIdx.broadcast_apply, zero_word, one_word, tovec_at, ascol_at, shapeCast_self, s331_at, s337_at, s343_at, s1981_at, s1988_at, s1995_at, dot3, newt, Rh_zero, th_zero, rel_zero, Rh_at _ 18 16 (by norm_num) rfl, th_at _ _ 18 16 (by norm_num) rfl, rel_at _ 18 16 (by norm_num) rfl] <;> rfl
theorem s3491_at (b : Fin 128) : s3491 x0 x1 (ix2 b (0 : Fin 1)) = Rh (Rk x0 b) 18 1 1 := by
  simp only [s3491, k0_pay814, ValueIdx.mulf_apply, ValueIdx.addf_apply, ValueIdx.subf_apply, ValueIdx.broadcast_apply, zero_word, one_word, tovec_at, ascol_at, shapeCast_self, s2162_at, dot3, newt, Rh_zero, th_zero, rel_zero, Rh_at _ 18 16 (by norm_num) rfl, th_at _ _ 18 16 (by norm_num) rfl, rel_at _ 18 16 (by norm_num) rfl] <;> rfl
theorem s2169_at (b : Fin 128) : s2169 x0 x1 (ix1 b) = Rh (Rk x0 b) 18 1 2 := by
  simp only [s2169, k0_pay615, ValueIdx.mulf_apply, ValueIdx.addf_apply, ValueIdx.subf_apply, ValueIdx.broadcast_apply, zero_word, one_word, tovec_at, ascol_at, shapeCast_self, s333_at, s339_at, s345_at, s1981_at, s1988_at, s1995_at, dot3, newt, Rh_zero, th_zero, rel_zero, Rh_at _ 18 16 (by norm_num) rfl, th_at _ _ 18 16 (by norm_num) rfl, rel_at _ 18 16 (by norm_num) rfl] <;> rfl
theorem s3492_at (b : Fin 128) : s3492 x0 x1 (ix2 b (0 : Fin 1)) = Rh (Rk x0 b) 18 1 2 := by
  simp only [s3492, k0_pay815, ValueIdx.mulf_apply, ValueIdx.addf_apply, ValueIdx.subf_apply, ValueIdx.broadcast_apply, zero_word, one_word, tovec_at, ascol_at, shapeCast_self, s2169_at, dot3, newt, Rh_zero, th_zero, rel_zero, Rh_at _ 18 16 (by norm_num) rfl, th_at _ _ 18 16 (by norm_num) rfl, rel_at _ 18 16 (by norm_num) rfl] <;> rfl
theorem s2206_at (b : Fin 128) : s2206 x0 x1 (ix1 b) = th (Rk x0 b) (pk x1 b) 18 1 := by
  simp only [s2206, k0_pay622, ValueIdx.mulf_apply, ValueIdx.addf_apply, ValueIdx.subf_apply, ValueIdx.broadcast_apply, zero_word, one_word, tovec_at, ascol_at, shapeCast_self, s631_at, s632_at, s633_at, s1981_at, s1988_at, s1995_at, s2032_at, dot3, newt, Rh_zero, th_zero, rel_zero, Rh_at _ 18 16 (by norm_num) rfl, th_at _ _ 18 16 (by norm_num) rfl, rel_at _ 18 16 (by norm_num) rfl] <;> rfl
theorem s3493_at (b : Fin 128) : s3493 x0 x1 (ix2 b (0 : Fin 1)) = newt (Rk x0 b) (pk x1 b) 18 1 := by
  simp only [s3493, k0_pay816, ValueIdx.mulf_apply, ValueIdx.addf_apply, ValueIdx.subf_apply, ValueIdx.broadcast_apply, zero_word, one_word, tovec_at, ascol_at, shapeCast_self, s545_at, s547_at, s549_at, s2155_at, s2162_at, s2169_at, s2206_at, dot3, newt, Rh_zero, th_zero, rel_zero, Rh_at _ 18 16 (by norm_num) rfl, th_at _ _ 18 16 (by norm_num) rfl, rel_at _ 18 16 (by norm_num) rfl] <;> rfl
theorem s2176_at (b : Fin 128) : s2176 x0 x1 (ix1 b) = Rh (Rk x0 b) 18 2 0 := by
  simp only [s2176, k0_pay616, ValueIdx.mulf_apply, ValueIdx.addf_apply, ValueIdx.subf_apply, ValueIdx.broadcast_apply, zero_word, one_word, tovec_at, ascol_at, shapeCast_self, s329_at, s335_at, s341_at, s2002_at, s2009_at, s2016_at, dot3, newt, Rh_zero, th_zero, rel_zero, Rh_at _ 18 16 (by norm_num) rfl, th_at _ _ 18 16 (by norm_num) rfl, rel_at _ 18 16 (by norm_num) rfl] <;> rfl
theorem s3494_at (b : Fin 128) : s3494 x0 x1 (ix2 b (0 : Fin 1)) = Rh (Rk x0 b) 18 2 0 := by
  simp only [s3494, k0_pay817, ValueIdx.mulf_apply, ValueIdx.addf_apply, ValueIdx.subf_apply, ValueIdx.broadcast_apply, zero_word, one_word, tovec_at, ascol_at, shapeCast_self, s2176_at, dot3, newt, Rh_zero, th_zero, rel_zero, Rh_at _ 18 16 (by norm_num) rfl, th_at _ _ 18 16 (by norm_num) rfl, rel_at _ 18 16 (by norm_num) rfl] <;> rfl
theorem s2181_at (b : Fin 128) : s2181 x0 x1 (ix1 b) = (((0 : EReal) + ((Rh (Rk x0 b) 16 2 0) * (Rk x0 b 18 0 1))) + ((Rh (Rk x0 b) 16 2 1) * (Rk x0 b 18 1 1))) := by
  simp only [s2181, k0_pay617, ValueIdx.mulf_apply, ValueIdx.addf_apply, ValueIdx.subf_apply, ValueIdx.broadcast_apply, zero_word, one_word, tovec_at, ascol_at, shapeCast_self, s331_at, s337_at, s2002_at, s2009_at, dot3, newt, Rh_zero, th_zero, rel_zero] <;> rfl
theorem s2182_at (b : Fin 128) : s2182 x0 x1 (ix1 b) = ((Rh (Rk x0 b) 16 2 2) * (Rk x0 b 18 2 1)) := by
  simp only [s2182, k0_pay618, ValueIdx.mulf_apply, ValueIdx.addf_apply, ValueIdx.subf_apply, ValueIdx.broadcast_apply, zero_word, one_word, tovec_at, ascol_at, shapeCast_self, s343_at, s2016_at, dot3, newt, Rh_zero, th_zero, rel_zero] <;> rfl
theorem s2183_at (b : Fin 128) : s2183 x0 x1 (ix1 b) = Rh (Rk x0 b) 18 2 1 := by
  simp only [s2183, k0_pay619, ValueIdx.mulf_apply, ValueIdx.addf_apply, ValueIdx.subf_apply, ValueIdx.broadcast_apply, zero_word, one_word, tovec_at, ascol_at, shapeCast_self, s2181_at, s2182_at, dot3, newt, Rh_zero, th_zero, rel_zero, Rh_at _ 18 16 (by norm_num) rfl, th_at _ _ 18 16 (by norm_num) rfl, rel_at _ 18 16 (by norm_num) rfl] <;> rfl
theorem s3495_at (b : Fin 128) : s3495 x0 x1 (ix2 b (0 : Fin 1)) = Rh (Rk x0 b) 18 2 1 := by
  simp only [s3495, k0_pay818, ValueIdx.mulf_apply, ValueIdx.addf_apply, ValueIdx.subf_apply, ValueIdx.broadcast_apply, zero_word, one_word, tovec_at, ascol_at, shapeCast_self, s2183_at, dot3, newt, Rh_zero, th_zero, rel_zero, Rh_at _ 18 16 (by norm_num) rfl, th_at _ _ 18 16 (by norm_num) rfl, rel_at _ 18 16 (by norm_num) rfl] <;> rfl
theorem s2190_at (b : Fin 128) : s2190 x0 x1 (ix1 b) = Rh (Rk x0 b) 18 2 2 := by
  simp only [s2190, k0_pay620, ValueIdx.mulf_apply, ValueIdx.addf_apply, ValueIdx.subf_apply, ValueIdx.broadcast_apply, zero_word, one_word, tovec_at, ascol_at, shapeCast_self, s333_at, s339_at, s345_at, s2002_at, s2009_at, s2016_at, dot3, newt, Rh_zero, th_zero, rel_zero, Rh_at _ 18 16 (by norm_num) rfl, th_at _ _ 18 16 (by norm_num) rfl, rel_at _ 18 16 (by norm_num) rfl] <;> rfl
theorem s3496_at (b : Fin 128) : s3496 x0 x1 (ix2 b (0 : Fin 1)) = Rh (Rk x0 b) 18 2 2 := by
  simp only [s3496, k0_pay819, ValueIdx.mulf_apply, ValueIdx.addf_apply, ValueIdx.subf_apply, ValueIdx.broadcast_apply, zero_word, one_word, tovec_at, ascol_at, shapeCast_self, s2190_at, dot3, newt, Rh_zero, th_zero, rel_zero, Rh_at _ 18 16 (by norm_num) rfl, th_at _ _ 18 16 (by norm_num) rfl, rel_at _ 18 16 (by norm_num) rfl] <;> rfl
theorem s2214_at (b : Fin 128) : s2214 x0 x1 (ix1 b) = th (Rk x0 b) (pk x1 b) 18 2 := by
  simp only [s2214, k0_pay623, ValueIdx.mulf_apply, ValueIdx.addf_apply, ValueIdx.subf_apply, ValueIdx.broadcast_apply, zero_word, one_word, tovec_at, ascol_at, shapeCast_self, s631_at, s632_at, s633_at, s2002_at, s2009_at, s2016_at, s2040_at, dot3, newt, Rh_zero, th_zero, rel_zero, Rh_at _ 18 16 (by norm_num) rfl, th_at _ _ 18 16 (by norm_num) rfl, rel_at _ 18 16 (by norm_num) rfl] <;> rfl
theorem s3497_at (b : Fin 128) : s3497 x0 x1 (ix2 b (0 : Fin 1)) = newt (Rk x0 b) (pk x1 b) 18 2 := by
  simp only [s3497, k0_pay820, ValueIdx.mulf_apply, ValueIdx.addf_apply, ValueIdx.subf_apply, ValueIdx.broadcast_apply, zero_word, one_word, tovec_at, ascol_at, shapeCast_self, s545_at, s547_at, s549_at, s2176_at, s2183_at, s2190_at, s2214_at, dot3, newt, Rh_zero, th_zero, rel_zero, Rh_at _ 18 16 (by norm_num) rfl, th_at _ _ 18 16 (by norm_num) rfl, rel_at _ 18 16 (by norm_num) rfl] <;> rfl
theorem s3498_at (b : Fin 128) : s3498 x0 x1 (ix2 b (0 : Fin 1)) = (0 : EReal) := by
  simp only [s3498, k0_pay821, ValueIdx.mulf_apply, ValueIdx.addf_apply, ValueIdx.subf_apply, ValueIdx.broadcast_apply, zero_word, one_word, tovec_at, ascol_at, shapeCast_self, s2650_at, dot3, newt, Rh_zero, th_zero, rel_zero] <;> rfl
theorem s3499_at (b : Fin 128) : s3499 x0 x1 (ix2 b (0 : Fin 1)) = (0 : EReal) := by
  simp only [s3499, k0_pay822, ValueIdx.mulf_apply, ValueIdx.addf_apply, ValueIdx.subf_apply, ValueIdx.broadcast_apply, zero_word, one_word, tovec_at, ascol_at, shapeCast_self, s2650_at, dot3, newt, Rh_zero, th_zero, rel_zero] <;> rfl
theorem s3502_c0 (b : Fin 128) : s3502 x0 x1 (ix2 b (⟨0, by norm_num⟩ : Fin 16)) = Rh (Rk x0 b) 18 0 0 := by
  simp only [s3502, k0_pay823]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3486_at, s3487_at, s3488_at, s3489_at, s3490_at, s3491_at, s3492_at, s3493_at, s3494_at, s3495_at, s3496_at, s3497_at, s3498_at, s3499_at, dot3, newt, Rh_zero, th_zero, rel_zero, Rh_at _ 18 16 (by norm_num) rfl, th_at _ _ 18 16 (by norm_num) rfl, rel_at _ 18 16 (by norm_num) rfl] <;> rfl
theorem s3502_c1 (b : Fin 128) : s3502 x0 x1 (ix2 b (⟨1, by norm_num⟩ : Fin 16)) = Rh (Rk x0 b) 18 0 1 := by
  simp only [s3502, k0_pay823]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3486_at, s3487_at, s3488_at, s3489_at, s3490_at, s3491_at, s3492_at, s3493_at, s3494_at, s3495_at, s3496_at, s3497_at, s3498_at, s3499_at, dot3, newt, Rh_zero, th_zero, rel_zero, Rh_at _ 18 16 (by norm_num) rfl, th_at _ _ 18 16 (by norm_num) rfl, rel_at _ 18 16 (by norm_num) rfl] <;> rfl
theorem s3502_c2 (b : Fin 128) : s3502 x0 x1 (ix2 b (⟨2, by norm_num⟩ : Fin 16)) = Rh (Rk x0 b) 18 0 2 := by
  simp only [s3502, k0_pay823]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3486_at, s3487_at, s3488_at, s3489_at, s3490_at, s3491_at, s3492_at, s3493_at, s3494_at, s3495_at, s3496_at, s3497_at, s3498_at, s3499_at, dot3, newt, Rh_zero, th_zero, rel_zero, Rh_at _ 18 16 (by norm_num) rfl, th_at _ _ 18 16 (by norm_num) rfl, rel_at _ 18 16 (by norm_num) rfl] <;> rfl
theorem s3502_c3 (b : Fin 128) : s3502 x0 x1 (ix2 b (⟨3, by norm_num⟩ : Fin 16)) = newt (Rk x0 b) (pk x1 b) 18 0 := by
  simp only [s3502, k0_pay823]
  refine (concat_unit_piece 3 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3486_at, s3487_at, s3488_at, s3489_at, s3490_at, s3491_at, s3492_at, s3493_at, s3494_at, s3495_at, s3496_at, s3497_at, s3498_at, s3499_at, dot3, newt, Rh_zero, th_zero, rel_zero, Rh_at _ 18 16 (by norm_num) rfl, th_at _ _ 18 16 (by norm_num) rfl, rel_at _ 18 16 (by norm_num) rfl] <;> rfl
theorem s3502_c4 (b : Fin 128) : s3502 x0 x1 (ix2 b (⟨4, by norm_num⟩ : Fin 16)) = Rh (Rk x0 b) 18 1 0 := by
  simp only [s3502, k0_pay823]
  refine (concat_unit_piece 4 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3486_at, s3487_at, s3488_at, s3489_at, s3490_at, s3491_at, s3492_at, s3493_at, s3494_at, s3495_at, s3496_at, s3497_at, s3498_at, s3499_at, dot3, newt, Rh_zero, th_zero, rel_zero, Rh_at _ 18 16 (by norm_num) rfl, th_at _ _ 18 16 (by norm_num) rfl, rel_at _ 18 16 (by norm_num) rfl] <;> rfl
theorem s3502_c5 (b : Fin 128) : s3502 x0 x1 (ix2 b (⟨5, by norm_num⟩ : Fin 16)) = Rh (Rk x0 b) 18 1 1 := by
  simp only [s3502, k0_pay823]
  refine (concat_unit_piece 5 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3486_at, s3487_at, s3488_at, s3489_at, s3490_at, s3491_at, s3492_at, s3493_at, s3494_at, s3495_at, s3496_at, s3497_at, s3498_at, s3499_at, dot3, newt, Rh_zero, th_zero, rel_zero, Rh_at _ 18 16 (by norm_num) rfl, th_at _ _ 18 16 (by norm_num) rfl, rel_at _ 18 16 (by norm_num) rfl] <;> rfl
theorem s3502_c6 (b : Fin 128) : s3502 x0 x1 (ix2 b (⟨6, by norm_num⟩ : Fin 16)) = Rh (Rk x0 b) 18 1 2 := by
  simp only [s3502, k0_pay823]
  refine (concat_unit_piece 6 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3486_at, s3487_at, s3488_at, s3489_at, s3490_at, s3491_at, s3492_at, s3493_at, s3494_at, s3495_at, s3496_at, s3497_at, s3498_at, s3499_at, dot3, newt, Rh_zero, th_zero, rel_zero, Rh_at _ 18 16 (by norm_num) rfl, th_at _ _ 18 16 (by norm_num) rfl, rel_at _ 18 16 (by norm_num) rfl] <;> rfl
theorem s3502_c7 (b : Fin 128) : s3502 x0 x1 (ix2 b (⟨7, by norm_num⟩ : Fin 16)) = newt (Rk x0 b) (pk x1 b) 18 1 := by
  simp only [s3502, k0_pay823]
  refine (concat_unit_piece 7 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3486_at, s3487_at, s3488_at, s3489_at, s3490_at, s3491_at, s3492_at, s3493_at, s3494_at, s3495_at, s3496_at, s3497_at, s3498_at, s3499_at, dot3, newt, Rh_zero, th_zero, rel_zero, Rh_at _ 18 16 (by norm_num) rfl, th_at _ _ 18 16 (by norm_num) rfl, rel_at _ 18 16 (by norm_num) rfl] <;> rfl
theorem s3502_c8 (b : Fin 128) : s3502 x0 x1 (ix2 b (⟨8, by norm_num⟩ : Fin 16)) = Rh (Rk x0 b) 18 2 0 := by
  simp only [s3502, k0_pay823]
  refine (concat_unit_piece 8 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3486_at, s3487_at, s3488_at, s3489_at, s3490_at, s3491_at, s3492_at, s3493_at, s3494_at, s3495_at, s3496_at, s3497_at, s3498_at, s3499_at, dot3, newt, Rh_zero, th_zero, rel_zero, Rh_at _ 18 16 (by norm_num) rfl, th_at _ _ 18 16 (by norm_num) rfl, rel_at _ 18 16 (by norm_num) rfl] <;> rfl
theorem s3502_c9 (b : Fin 128) : s3502 x0 x1 (ix2 b (⟨9, by norm_num⟩ : Fin 16)) = Rh (Rk x0 b) 18 2 1 := by
  simp only [s3502, k0_pay823]
  refine (concat_unit_piece 9 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3486_at, s3487_at, s3488_at, s3489_at, s3490_at, s3491_at, s3492_at, s3493_at, s3494_at, s3495_at, s3496_at, s3497_at, s3498_at, s3499_at, dot3, newt, Rh_zero, th_zero, rel_zero, Rh_at _ 18 16 (by norm_num) rfl, th_at _ _ 18 16 (by norm_num) rfl, rel_at _ 18 16 (by norm_num) rfl] <;> rfl
theorem s3502_c10 (b : Fin 128) : s3502 x0 x1 (ix2 b (⟨10, by norm_num⟩ : Fin 16)) = Rh (Rk x0 b) 18 2 2 := by
  simp only [s3502, k0_pay823]
  refine (concat_unit_piece 10 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3486_at, s3487_at, s3488_at, s3489_at, s3490_at, s3491_at, s3492_at, s3493_at, s3494_at, s3495_at, s3496_at, s3497_at, s3498_at, s3499_at, dot3, newt, Rh_zero, th_zero, rel_zero, Rh_at _ 18 16 (by norm_num) rfl, th_at _ _ 18 16 (by norm_num) rfl, rel_at _ 18 16 (by norm_num) rfl] <;> rfl
theorem s3502_c11 (b : Fin 128) : s3502 x0 x1 (ix2 b (⟨11, by norm_num⟩ : Fin 16)) = newt (Rk x0 b) (pk x1 b) 18 2 := by
  simp only [s3502, k0_pay823]
  refine (concat_unit_piece 11 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3486_at, s3487_at, s3488_at, s3489_at, s3490_at, s3491_at, s3492_at, s3493_at, s3494_at, s3495_at, s3496_at, s3497_at, s3498_at, s3499_at, dot3, newt, Rh_zero, th_zero, rel_zero, Rh_at _ 18 16 (by norm_num) rfl, th_at _ _ 18 16 (by norm_num) rfl, rel_at _ 18 16 (by norm_num) rfl] <;> rfl
theorem s3502_c12 (b : Fin 128) : s3502 x0 x1 (ix2 b (⟨12, by norm_num⟩ : Fin 16)) = (0 : EReal) := by
  simp only [s3502, k0_pay823]
  refine (concat_unit_piece 12 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3486_at, s3487_at, s3488_at, s3489_at, s3490_at, s3491_at, s3492_at, s3493_at, s3494_at, s3495_at, s3496_at, s3497_at, s3498_at, s3499_at, dot3, newt, Rh_zero, th_zero, rel_zero, Rh_at _ 18 16 (by norm_num) rfl, th_at _ _ 18 16 (by norm_num) rfl, rel_at _ 18 16 (by norm_num) rfl] <;> rfl
theorem s3502_c13 (b : Fin 128) : s3502 x0 x1 (ix2 b (⟨13, by norm_num⟩ : Fin 16)) = (0 : EReal) := by
  simp only [s3502, k0_pay823]
  refine (concat_unit_piece 13 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3486_at, s3487_at, s3488_at, s3489_at, s3490_at, s3491_at, s3492_at, s3493_at, s3494_at, s3495_at, s3496_at, s3497_at, s3498_at, s3499_at, dot3, newt, Rh_zero, th_zero, rel_zero, Rh_at _ 18 16 (by norm_num) rfl, th_at _ _ 18 16 (by norm_num) rfl, rel_at _ 18 16 (by norm_num) rfl] <;> rfl
theorem s3502_c14 (b : Fin 128) : s3502 x0 x1 (ix2 b (⟨14, by norm_num⟩ : Fin 16)) = (0 : EReal) := by
  simp only [s3502, k0_pay823]
  refine (concat_unit_piece 14 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3486_at, s3487_at, s3488_at, s3489_at, s3490_at, s3491_at, s3492_at, s3493_at, s3494_at, s3495_at, s3496_at, s3497_at, s3498_at, s3499_at, dot3, newt, Rh_zero, th_zero, rel_zero, Rh_at _ 18 16 (by norm_num) rfl, th_at _ _ 18 16 (by norm_num) rfl, rel_at _ 18 16 (by norm_num) rfl] <;> rfl
theorem s3502_c15 (b : Fin 128) : s3502 x0 x1 (ix2 b (⟨15, by norm_num⟩ : Fin 16)) = (1 : EReal) := by
  simp only [s3502, k0_pay823]
  refine (concat_unit_piece 15 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3486_at, s3487_at, s3488_at, s3489_at, s3490_at, s3491_at, s3492_at, s3493_at, s3494_at, s3495_at, s3496_at, s3497_at, s3498_at, s3499_at, dot3, newt, Rh_zero, th_zero, rel_zero, Rh_at _ 18 16 (by norm_num) rfl, th_at _ _ 18 16 (by norm_num) rfl, rel_at _ 18 16 (by norm_num) rfl] <;> rfl
theorem s551_at (b : Fin 128) : s551 x0 x1 (ix1 b) = pk x1 b 19 0 := by
  simp only [s551, k0_pay289, ValueIdx.mulf_apply, ValueIdx.addf_apply, ValueIdx.subf_apply, ValueIdx.broadcast_apply, zero_word, one_word, tovec_at, ascol_at, shapeCast_self, slice_at (N := 72) _ 57 (by norm_num), s3_eq, dot3, newt, Rh_zero, th_zero, rel_zero] <;> rfl
theorem s553_at (b : Fin 128) : s553 x0 x1 (ix1 b) = pk x1 b 19 1 := by
  simp only [s553, k0_pay290, ValueIdx.mulf_apply, ValueIdx.addf_apply, ValueIdx.subf_apply, ValueIdx.broadcast_apply, zero_word, one_word, tovec_at, ascol_at, shapeCast_self, slice_at (N := 72) _ 58 (by norm_num), s3_eq, dot3, newt, Rh_zero, th_zero, rel_zero] <;> rfl
theorem s555_at (b : Fin 128) : s555 x0 x1 (ix1 b) = pk x1 b 19 2 := by
  simp only [s555, k0_pay291, ValueIdx.mulf_apply, ValueIdx.addf_apply, ValueIdx.subf_apply, ValueIdx.broadcast_apply, zero_word, one_word, tovec_at, ascol_at, shapeCast_self, slice_at (N := 72) _ 59 (by norm_num), s3_eq, dot3, newt, Rh_zero, th_zero, rel_zero] <;> rfl
theorem s347_at (b : Fin 128) : s347 x0 x1 (ix1 b) = Rk x0 b 19 0 0 := by
  simp only [s347, k0_pay183, ValueIdx.mulf_apply, ValueIdx.addf_apply, ValueIdx.subf_apply, ValueIdx.broadcast_apply, zero_word, one_word, tovec_at, ascol_at, shapeCast_self, slice_at (N := 216) _ 171 (by norm_num), s1_eq, dot3, newt, Rh_zero, th_zero, rel_zero] <;> rfl
theorem s353_at (b : Fin 128) : s353 x0 x1 (ix1 b) = Rk x0 b 19 1 0 := by
  simp only [s353, k0_pay186, ValueIdx.mulf_apply, ValueIdx.addf_apply, ValueIdx.subf_apply, ValueIdx.broadcast_apply, zero_word, one_word, tovec_at, ascol_at, shapeCast_self, slice_at (N := 216) _ 174 (by norm_num), s1_eq, dot3, newt, Rh_zero, th_zero, rel_zero] <;> rfl
theorem s359_at (b : Fin 128) : s359 x0 x1 (ix1 b) = Rk x0 b 19 2 0 := by
  simp only [s359, k0_pay190, ValueIdx.mulf_apply, ValueIdx.addf_apply, ValueIdx.subf_apply, ValueIdx.broadcast_apply, zero_word, one_word, tovec_at, ascol_at, shapeCast_self, slice_at (N := 216) _ 177 (by norm_num), s1_eq, dot3, newt, Rh_zero, th_zero, rel_zero] <;> rfl
theorem s2221_at (b : Fin 128) : s2221 x0 x1 (ix1 b) = Rh (Rk x0 b) 19 0 0 := by
  simp only [s2221, k0_pay624, ValueIdx.mulf_apply, ValueIdx.addf_apply, ValueIdx.subf_apply, ValueIdx.broadcast_apply, zero_word, one_word, tovec_at, ascol_at, shapeCast_self, s347_at, s353_at, s359_at, s2047_at, s2054_at, s2061_at, dot3, newt, Rh_zero, th_zero, rel_zero, Rh_at _ 19 17 (by norm_num) rfl, th_at _ _ 19 17 (by norm_num) rfl, rel_at _ 19 17 (by norm_num) rfl] <;> rfl
theorem s349_at (b : Fin 128) : s349 x0 x1 (ix1 b) = Rk x0 b 19 0 1 := by
  simp only [s349, k0_pay184, ValueIdx.mulf_apply, ValueIdx.addf_apply, ValueIdx.subf_apply, ValueIdx.broadcast_apply, zero_word, one_word, tovec_at, ascol_at, shapeCast_self, slice_at (N := 216) _ 172 (by norm_num), s1_eq, dot3, newt, Rh_zero, th_zero, rel_zero] <;> rfl
theorem s354_at (b : Fin 128) : s354 x0 x1 (ix2 b (0 : Fin 1)) = Rk x0 b 19 1 1 := by
  simp only [s354, k0_pay187, ValueIdx.mulf_apply, ValueIdx.addf_apply, ValueIdx.subf_apply, ValueIdx.broadcast_apply, zero_word, one_word, tovec_at, ascol_at, shapeCast_self, slice_at (N := 216) _ 175 (by norm_num), s1_eq, dot3, newt, Rh_zero, th_zero, rel_zero] <;> rfl
theorem s355_at (b : Fin 128) : s355 x0 x1 (ix1 b) = Rk x0 b 19 1 1 := by
  simp only [s355, k0_pay188, ValueIdx.mulf_apply, ValueIdx.addf_apply, ValueIdx.subf_apply, ValueIdx.broadcast_apply, zero_word, one_word, tovec_at, ascol_at, shapeCast_self, s354_at, dot3, newt, Rh_zero, th_zero, rel_zero] <;> rfl
theorem s361_at (b : Fin 128) : s361 x0 x1 (ix1 b) = Rk x0 b 19 2 1 := by
  simp only [s361, k0_pay191, ValueIdx.mulf_apply, ValueIdx.addf_apply, ValueIdx.subf_apply, ValueIdx.broadcast_apply, zero_word, one_word, tovec_at, ascol_at, shapeCast_self, slice_at (N := 216) _ 178 (by norm_num), s1_eq, dot3, newt, Rh_zero, th_zero, rel_zero] <;> rfl
theorem s2228_at (b : Fin 128) : s2228 x0 x1 (ix1 b) = Rh (Rk x0 b) 19 0 1 := by
  simp only [s2228, k0_pay625, ValueIdx.mulf_apply, ValueIdx.addf_apply, ValueIdx.subf_apply, ValueIdx.broadcast_apply, zero_word, one_word, tovec_at, ascol_at, shapeCast_self, s349_at, s355_at, s361_at, s2047_at, s2054_at, s2061_at, dot3, newt, Rh_zero, th_zero, rel_zero, Rh_at _ 19 17 (by norm_num) rfl, th_at _ _ 19 17 (by norm_num) rfl, rel_at _ 19 17 (by norm_num) rfl] <;> rfl
theorem s351_at (b : Fin 128) : s351 x0 x1 (ix1 b) = Rk x0 b 19 0 2 := by
  simp only [s351, k0_pay185, ValueIdx.mulf_apply, ValueIdx.addf_apply, ValueIdx.subf_apply, ValueIdx.broadcast_apply, zero_word, one_word, tovec_at, ascol_at, shapeCast_self, slice_at (N := 216) _ 173 (by norm_num), s1_eq, dot3, newt, Rh_zero, th_zero, rel_zero] <;> rfl
theorem s357_at (b : Fin 128) : s357 x0 x1 (ix1 b) = Rk x0 b 19 1 2 := by
  simp only [s357, k0_pay189, ValueIdx.mulf_apply, ValueIdx.addf_apply, ValueIdx.subf_apply, ValueIdx.broadcast_apply, zero_word, one_word, tovec_at, ascol_at, shapeCast_self, slice_at (N := 216) _ 176 (by norm_num), s1_eq, dot3, newt, Rh_zero, th_zero, rel_zero] <;> rfl
theorem s363_at (b : Fin 128) : s363 x0 x1 (ix1 b) = Rk x0 b 19 2 2 := by
  simp only [s363, k0_pay192, ValueIdx.mulf_apply, ValueIdx.addf_apply, ValueIdx.subf_apply, ValueIdx.broadcast_apply, zero_word, one_word, tovec_at, ascol_at, shapeCast_self, slice_at (N := 216) _ 179 (by norm_num), s1_eq, dot3, newt, Rh_zero, th_zero, rel_zero] <;> rfl
theorem s2235_at (b : Fin 128) : s2235 x0 x1 (ix1 b) = Rh (Rk x0 b) 19 0 2 := by
  simp only [s2235, k0_pay626, ValueIdx.mulf_apply, ValueIdx.addf_apply, ValueIdx.subf_apply, ValueIdx.broadcast_apply, zero_word, one_word, tovec_at, ascol_at, shapeCast_self, s351_at, s357_at, s363_at, s2047_at, s2054_at, s2061_at, dot3, newt, Rh_zero, th_zero, rel_zero, Rh_at _ 19 17 (by norm_num) rfl, th_at _ _ 19 17 (by norm_num) rfl, rel_at _ 19 17 (by norm_num) rfl] <;> rfl
theorem s2242_at (b : Fin 128) : s2242 x0 x1 (ix1 b) = Rh (Rk x0 b) 19 1 0 := by
  simp only [s2242, k0_pay627, ValueIdx.mulf_apply, ValueIdx.addf_apply, ValueIdx.subf_apply, ValueIdx.broadcast_apply, zero_word, one_word, tovec_at, ascol_at, shapeCast_self, s347_at, s353_at, s359_at, s2068_at, s2075_at, s2082_at, dot3, newt, Rh_zero, th_zero, rel_zero, Rh_at _ 19 17 (by norm_num) rfl, th_at _ _ 19 17 (by norm_num) rfl, rel_at _ 19 17 (by norm_num) rfl] <;> rfl
theorem s2249_at (b : Fin 128) : s2249 x0 x1 (ix1 b) = Rh (Rk x0 b) 19 1 1 := by
  simp only [s2249, k0_pay628, ValueIdx.mulf_apply, ValueIdx.addf_apply, ValueIdx.subf_apply, ValueIdx.broadcast_apply, zero_word, one_word, tovec_at, ascol_at, shapeCast_self, s349_at, s355_at, s361_at, s2068_at, s2075_at, s2082_at, dot3, newt, Rh_zero, th_zero, rel_zero, Rh_at _ 19 17 (by norm_num) rfl, th_at _ _ 19 17 (by norm_num) rfl, rel_at _ 19 17 (by norm_num) rfl] <;> rfl
theorem s2256_at (b : Fin 128) : s2256 x0 x1 (ix1 b) = Rh (Rk x0 b) 19 1 2 := by
  simp only [s2256, k0_pay629, ValueIdx.mulf_apply, ValueIdx.addf_apply, ValueIdx.subf_apply, ValueIdx.broadcast_apply, zero_word, one_word, tovec_at, ascol_at, shapeCast_self, s351_at, s357_at, s363_at, s2068_at, s2075_at, s2082_at, dot3, newt, Rh_zero, th_zero, rel_zero, Rh_at _ 19 17 (by norm_num) rfl, th_at _ _ 19 17 (by norm_num) rfl, rel_at _ 19 17 (by norm_num) rfl] <;> rfl
theorem s2263_at (b : Fin 128) : s2263 x0 x1 (ix1 b) = Rh (Rk x0 b) 19 2 0 := by
  simp only [s2263, k0_pay630, ValueIdx.mulf_apply, ValueIdx.addf_apply, ValueIdx.subf_apply, ValueIdx.broadcast_apply, zero_word, one_word, tovec_at, ascol_at, shapeCast_self, s347_at, s353_at, s359_at, s2089_at, s2096_at, s2103_at, dot3, newt, Rh_zero, th_zero, rel_zero, Rh_at _ 19 17 (by norm_num) rfl, th_at _ _ 19 17 (by norm_num) rfl, rel_at _ 19 17 (by norm_num) rfl] <;> rfl
theorem s2270_at (b : Fin 128) : s2270 x0 x1 (ix1 b) = Rh (Rk x0 b) 19 2 1 := by
  simp only [s2270, k0_pay631, ValueIdx.mulf_apply, ValueIdx.addf_apply, ValueIdx.subf_apply, ValueIdx.broadcast_apply, zero_word, one_word, tovec_at, ascol_at, shapeCast_self, s349_at, s355_at, s361_at, s2089_at, s2096_at, s2103_at, dot3, newt, Rh_zero, th_zero, rel_zero, Rh_at _ 19 17 (by norm_num) rfl, th_at _ _ 19 17 (by norm_num) rfl, rel_at _ 19 17 (by norm_num) rfl] <;> rfl
theorem s2277_at (b : Fin 128) : s2277 x0 x1 (ix1 b) = Rh (Rk x0 b) 19 2 2 := by
  simp only [s2277, k0_pay632, ValueIdx.mulf_apply, ValueIdx.addf_apply, ValueIdx.subf_apply, ValueIdx.broadcast_apply, zero_word, one_word, tovec_at, ascol_at, shapeCast_self, s351_at, s357_at, s363_at, s2089_at, s2096_at, s2103_at, dot3, newt, Rh_zero, th_zero, rel_zero, Rh_at _ 19 17 (by norm_num) rfl, th_at _ _ 19 17 (by norm_num) rfl, rel_at _ 19 17 (by norm_num) rfl] <;> rfl
theorem s634_at (b : Fin 128) : s634 x0 x1 (ix1 b) = rel (pk x1 b) 19 0 := by
  simp only [s634, k0_pay358, ValueIdx.mulf_apply, ValueIdx.addf_apply, ValueIdx.subf_apply, ValueIdx.broadcast_apply, zero_word, one_word, tovec_at, ascol_at, shapeCast_self, s539_at, s551_at, dot3, newt, Rh_zero, th_zero, rel_zero, Rh_at _ 19 17 (by norm_num) rfl, th_at _ _ 19 17 (by norm_num) rfl, rel_at _ 19 17 (by norm_num) rfl] <;> rfl
theorem s635_at (b : Fin 128) : s635 x0 x1 (ix1 b) = rel (pk x1 b) 19 1 := by
  simp only [s635, k0_pay359, ValueIdx.mulf_apply, ValueIdx.addf_apply, ValueIdx.subf_apply, ValueIdx.broadcast_apply, zero_word, one_word, tovec_at, ascol_at, shapeCast_self, s541_at, s553_at, dot3, newt, Rh_zero, th_zero, rel_zero, Rh_at _ 19 17 (by norm_num) rfl, th_at _ _ 19 17 (by norm_num) rfl, rel_at _ 19 17 (by norm_num) rfl] <;> rfl
theorem s636_at (b : Fin 128) : s636 x0 x1 (ix1 b) = rel (pk x1 b) 19 2 := by
  simp only [s636, k0_pay360, ValueIdx.mulf_apply, ValueIdx.addf_apply, ValueIdx.subf_apply, ValueIdx.broadcast_apply, zero_word, one_word, tovec_at, ascol_at, shapeCast_self, s543_at, s555_at, dot3, newt, Rh_zero, th_zero, rel_zero, Rh_at _ 19 17 (by norm_num) rfl, th_at _ _ 19 17 (by norm_num) rfl, rel_at _ 19 17 (by norm_num) rfl] <;> rfl
theorem s2285_at (b : Fin 128) : s2285 x0 x1 (ix1 b) = th (Rk x0 b) (pk x1 b) 19 0 := by
  simp only [s2285, k0_pay633, ValueIdx.mulf_apply, ValueIdx.addf_apply, ValueIdx.subf_apply, ValueIdx.broadcast_apply, zero_word, one_word, tovec_at, ascol_at, shapeCast_self, s634_at, s635_at, s636_at, s2047_at, s2054_at, s2061_at, s2111_at, dot3, newt, Rh_zero, th_zero, rel_zero, Rh_at _ 19 17 (by norm_num) rfl, th_at _ _ 19 17 (by norm_num) rfl, rel_at _ 19 17 (by norm_num) rfl] <;> rfl
theorem s2286_at (b : Fin 128) : s2286 x0 x1 (ix1 b) = ((Rh (Rk x0 b) 17 1 0) * (rel (pk x1 b) 19 0)) := by
  simp only [s2286, k0_pay634, ValueIdx.mulf_apply, ValueIdx.addf_apply, ValueIdx.subf_apply, ValueIdx.broadcast_apply, zero_word, one_word, tovec_at, ascol_at, shapeCast_self, s634_at, s2068_at, dot3, newt, Rh_zero, th_zero, rel_zero] <;> rfl
theorem s2287_at (b : Fin 128) : s2287 x0 x1 (ix1 b) = (0 : EReal) := by
  simp only [s2287, k0_pay635, ValueIdx.mulf_apply, ValueIdx.addf_apply, ValueIdx.subf_apply, ValueIdx.broadcast_apply, zero_word, one_word, tovec_at, ascol_at, shapeCast_self, dot3, newt, Rh_zero, th_zero, rel_zero] <;> rfl
theorem s2293_at (b : Fin 128) : s2293 x0 x1 (ix1 b) = th (Rk x0 b) (pk x1 b) 19 1 := by
  simp only [s2293, k0_pay636, ValueIdx.mulf_apply, ValueIdx.addf_apply, ValueIdx.subf_apply, ValueIdx.broadcast_apply, zero_word, one_word, tovec_at, ascol_at, shapeCast_self, s635_at, s636_at, s2075_at, s2082_at, s2119_at, s2286_at, s2287_at, dot3, newt, Rh_zero, th_zero, rel_zero, Rh_at _ 19 17 (by norm_num) rfl, th_at _ _ 19 17 (by norm_num) rfl, rel_at _ 19 17 (by norm_num) rfl] <;> rfl
theorem s2301_at (b : Fin 128) : s2301 x0 x1 (ix1 b) = th (Rk x0 b) (pk x1 b) 19 2 := by
  simp only [s2301, k0_pay637, ValueIdx.mulf_apply, ValueIdx.addf_apply, ValueIdx.subf_apply, ValueIdx.broadcast_apply, zero_word, one_word, tovec_at, ascol_at, shapeCast_self, s634_at, s635_at, s636_at, s2089_at, s2096_at, s2103_at, s2127_at, dot3, newt, Rh_zero, th_zero, rel_zero, Rh_at _ 19 17 (by norm_num) rfl, th_at _ _ 19 17 (by norm_num) rfl, rel_at _ 19 17 (by norm_num) rfl] <;> rfl
theorem s3547_c0 (b : Fin 128) : s3547 x0 x1 (ix2 b (⟨0, by norm_num⟩ : Fin 16)) = Rh (Rk x0 b) 19 0 0 := by
  simp only [s3547, k0_pay825]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s551_at, s553_at, s555_at, s2221_at, s2228_at, s2235_at, s2242_at, s2249_at, s2256_at, s2263_at, s2270_at, s2277_at, s2285_at, s2293_at, s2301_at, s2650_at, s2651_at, dot3, newt, Rh_zero, th_zero, rel_zero, Rh_at _ 19 17 (by norm_num) rfl, th_at _ _ 19 17 (by norm_num) rfl, rel_at _ 19 17 (by norm_num) rfl] <;> rfl
theorem s3547_c1 (b : Fin 128) : s3547 x0 x1 (ix2 b (⟨1, by norm_num⟩ : Fin 16)) = Rh (Rk x0 b) 19 0 1 := by
  simp only [s3547, k0_pay825]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s551_at, s553_at, s555_at, s2221_at, s2228_at, s2235_at, s2242_at, s2249_at, s2256_at, s2263_at, s2270_at, s2277_at, s2285_at, s2293_at, s2301_at, s2650_at, s2651_at, dot3, newt, Rh_zero, th_zero, rel_zero, Rh_at _ 19 17 (by norm_num) rfl, th_at _ _ 19 17 (by norm_num) rfl, rel_at _ 19 17 (by norm_num) rfl] <;> rfl
theorem s3547_c2 (b : Fin 128) : s3547 x0 x1 (ix2 b (⟨2, by norm_num⟩ : Fin 16)) = Rh (Rk x0 b) 19 0 2 := by
  simp only [s3547, k0_pay825]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s551_at, s553_at, s555_at, s2221_at, s2228_at, s2235_at, s2242_at, s2249_at, s2256_at, s2263_at, s2270_at, s2277_at, s2285_at, s2293_at, s2301_at, s2650_at, s2651_at, dot3, newt, Rh_zero, th_zero, rel_zero, Rh_at _ 19 17 (by norm_num) rfl, th_at _ _ 19 17 (by norm_num) rfl, rel_at _ 19 17 (by norm_num) rfl] <;> rfl
theorem s3547_c3 (b : Fin 128) : s3547 x0 x1 (ix2 b (⟨3, by norm_num⟩ : Fin 16)) = newt (Rk x0 b) (pk x1 b) 19 0 := by
  simp only [s3547, k0_pay825]
  refine (concat_unit_piece 3 (by norm_num) _ _ _ (by simp) rfl rfl b).trans ?_
  simp only [ValueIdx.mulf_apply, ValueIdx.addf_apply, ValueIdx.subf_apply, ValueIdx.broadcast_apply, zero_word, one_word, tovec_at, ascol_at, shapeCast_self, s551_at, s553_at, s555_at, s2221_at, s2228_at, s2235_at, s2242_at, s2249_at, s2256_at, s2263_at, s2270_at, s2277_at, s2285_at, s2293_at, s2301_at, s2650_at, s2651_at, dot3, newt, Rh_zero, th_zero, rel_zero, Rh_at _ 19 17 (by norm_num) rfl, th_at _ _ 19 17 (by norm_num) rfl, rel_at _ 19 17 (by norm_num) rfl] <;> rfl
theorem s3547_c4 (b : Fin 128) : s3547 x0 x1 (ix2 b (⟨4, by norm_num⟩ : Fin 16)) = Rh (Rk x0 b) 19 1 0 := by
  simp only [s3547, k0_pay825]
  refine (concat_unit_piece 4 (by norm_num) _ _ _ (by simp) rfl rfl b).trans ?_
  simp only [ValueIdx.mulf_apply, ValueIdx.addf_apply, ValueIdx.subf_apply, ValueIdx.broadcast_apply, zero_word, one_word, tovec_at, ascol_at, shapeCast_self, s551_at, s553_at, s555_at, s2221_at, s2228_at, s2235_at, s2242_at, s2249_at, s2256_at, s2263_at, s2270_at, s2277_at, s2285_at, s2293_at, s2301_at, s2650_at, s2651_at, dot3, newt, Rh_zero, th_zero, rel_zero, Rh_at _ 19 17 (by norm_num) rfl, th_at _ _ 19 17 (by norm_num) rfl, rel_at _ 19 17 (by norm_num) rfl] <;> rfl
theorem s3547_c5 (b : Fin 128) : s3547 x0 x1 (ix2 b (⟨5, by norm_num⟩ : Fin 16)) = Rh (Rk x0 b) 19 1 1 := by
  simp only [s3547, k0_pay825]
  refine (concat_unit_piece 5 (by norm_num) _ _ _ (by simp) rfl rfl b).trans ?_
  simp only [ValueIdx.mulf_apply, ValueIdx.addf_apply, ValueIdx.subf_apply, ValueIdx.broadcast_apply, zero_word, one_word, tovec_at, ascol_at, shapeCast_self, s551_at, s553_at, s555_at, s2221_at, s2228_at, s2235_at, s2242_at, s2249_at, s2256_at, s2263_at, s2270_at, s2277_at, s2285_at, s2293_at, s2301_at, s2650_at, s2651_at, dot3, newt, Rh_zero, th_zero, rel_zero, Rh_at _ 19 17 (by norm_num) rfl, th_at _ _ 19 17 (by norm_num) rfl, rel_at _ 19 17 (by norm_num) rfl] <;> rfl
theorem s3547_c6 (b : Fin 128) : s3547 x0 x1 (ix2 b (⟨6, by norm_num⟩ : Fin 16)) = Rh (Rk x0 b) 19 1 2 := by
  simp only [s3547, k0_pay825]
  refine (concat_unit_piece 6 (by norm_num) _ _ _ (by simp) rfl rfl b).trans ?_
  simp only [ValueIdx.mulf_apply, ValueIdx.addf_apply, ValueIdx.subf_apply, ValueIdx.broadcast_apply, zero_word, one_word, tovec_at, ascol_at, shapeCast_self, s551_at, s553_at, s555_at, s2221_at, s2228_at, s2235_at, s2242_at, s2249_at, s2256_at, s2263_at, s2270_at, s2277_at, s2285_at, s2293_at, s2301_at, s2650_at, s2651_at, dot3, newt, Rh_zero, th_zero, rel_zero, Rh_at _ 19 17 (by norm_num) rfl, th_at _ _ 19 17 (by norm_num) rfl, rel_at _ 19 17 (by norm_num) rfl] <;> rfl
theorem s3547_c7 (b : Fin 128) : s3547 x0 x1 (ix2 b (⟨7, by norm_num⟩ : Fin 16)) = newt (Rk x0 b) (pk x1 b) 19 1 := by
  simp only [s3547, k0_pay825]
  refine (concat_unit_piece 7 (by norm_num) _ _ _ (by simp) rfl rfl b).trans ?_
  simp only [ValueIdx.mulf_apply, ValueIdx.addf_apply, ValueIdx.subf_apply, ValueIdx.broadcast_apply, zero_word, one_word, tovec_at, ascol_at, shapeCast_self, s551_at, s553_at, s555_at, s2221_at, s2228_at, s2235_at, s2242_at, s2249_at, s2256_at, s2263_at, s2270_at, s2277_at, s2285_at, s2293_at, s2301_at, s2650_at, s2651_at, dot3, newt, Rh_zero, th_zero, rel_zero, Rh_at _ 19 17 (by norm_num) rfl, th_at _ _ 19 17 (by norm_num) rfl, rel_at _ 19 17 (by norm_num) rfl] <;> rfl
theorem s3547_c8 (b : Fin 128) : s3547 x0 x1 (ix2 b (⟨8, by norm_num⟩ : Fin 16)) = Rh (Rk x0 b) 19 2 0 := by
  simp only [s3547, k0_pay825]
  refine (concat_unit_piece 8 (by norm_num) _ _ _ (by simp) rfl rfl b).trans ?_
  simp only [ValueIdx.mulf_apply, ValueIdx.addf_apply, ValueIdx.subf_apply, ValueIdx.broadcast_apply, zero_word, one_word, tovec_at, ascol_at, shapeCast_self, s551_at, s553_at, s555_at, s2221_at, s2228_at, s2235_at, s2242_at, s2249_at, s2256_at, s2263_at, s2270_at, s2277_at, s2285_at, s2293_at, s2301_at, s2650_at, s2651_at, dot3, newt, Rh_zero, th_zero, rel_zero, Rh_at _ 19 17 (by norm_num) rfl, th_at _ _ 19 17 (by norm_num) rfl, rel_at _ 19 17 (by norm_num) rfl] <;> rfl
theorem s3547_c9 (b : Fin 128) : s3547 x0 x1 (ix2 b (⟨9, by norm_num⟩ : Fin 16)) = Rh (Rk x0 b) 19 2 1 := by
  simp only [s3547, k0_pay825]
  refine (concat_unit_piece 9 (by norm_num) _ _ _ (by simp) rfl rfl b).trans ?_
  simp only [ValueIdx.mulf_apply, ValueIdx.addf_apply, ValueIdx.subf_apply, ValueIdx.broadcast_apply, zero_word, one_word, tovec_at, ascol_at, shapeCast_self, s551_at, s553_at, s555_at, s2221_at, s2228_at, s2235_at, s2242_at, s2249_at, s2256_at, s2263_at, s2270_at, s2277_at, s2285_at, s2293_at, s2301_at, s2650_at, s2651_at, dot3, newt, Rh_zero, th_zero, rel_zero, Rh_at _ 19 17 (by norm_num) rfl, th_at _ _ 19 17 (by norm_num) rfl, rel_at _ 19 17 (by norm_num) rfl] <;> rfl
theorem s3547_c10 (b : Fin 128) : s3547 x0 x1 (ix2 b (⟨10, by norm_num⟩ : Fin 16)) = Rh (Rk x0 b) 19 2 2 := by
  simp only [s3547, k0_pay825]
  refine (concat_unit_piece 10 (by norm_num) _ _ _ (by simp) rfl rfl b).trans ?_
  simp only [ValueIdx.mulf_apply, ValueIdx.addf_apply, ValueIdx.subf_apply, ValueIdx.broadcast_apply, zero_word, one_word, tovec_at, ascol_at, shapeCast_self, s551_at, s553_at, s555_at, s2221_at, s2228_at, s2235_at, s2242_at, s2249_at, s2256_at, s2263_at, s2270_at, s2277_at, s2285_at, s2293_at, s2301_at, s2650_at, s2651_at, dot3, newt, Rh_zero, th_zero, rel_zero, Rh_at _ 19 17 (by norm_num) rfl, th_at _ _ 19 17 (by norm_num) rfl, rel_at _ 19 17 (by norm_num) rfl] <;> rfl
theorem s3547_c11 (b : Fin 128) : s3547 x0 x1 (ix2 b (⟨11, by norm_num⟩ : Fin 16)) = newt (Rk x0 b) (pk x1 b) 19 2 := by
  simp only [s3547, k0_pay825]
  refine (concat_unit_piece 11 (by norm_num) _ _ _ (by simp) rfl rfl b).trans ?_
  simp only [ValueIdx.mulf_apply, ValueIdx.addf_apply, ValueIdx.subf_apply, ValueIdx.broadcast_apply, zero_word, one_word, tovec_at, ascol_at, shapeCast_self, s551_at, s553_at, s555_at, s2221_at, s2228_at, s2235_at, s2242_at, s2249_at, s2256_at, s2263_at, s2270_at, s2277_at, s2285_at, s2293_at, s2301_at, s2650_at, s2651_at, dot3, newt, Rh_zero, th_zero, rel_zero, Rh_at _ 19 17 (by norm_num) rfl, th_at _ _ 19 17 (by norm_num) rfl, rel_at _ 19 17 (by norm_num) rfl] <;> rfl
theorem s3547_c12 (b : Fin 128) : s3547 x0 x1 (ix2 b (⟨12, by norm_num⟩ : Fin 16)) = (0 : EReal) := by
  simp only [s3547, k0_pay825]
  refine (concat_unit_piece 12 (by norm_num) _ _ _ (by simp) rfl rfl b).trans ?_
  simp only [ValueIdx.mulf_apply, ValueIdx.addf_apply, ValueIdx.subf_apply, ValueIdx.broadcast_apply, zero_word, one_word, tovec_at, ascol_at, shapeCast_self, s551_at, s553_at, s555_at, s2221_at, s2228_at, s2235_at, s2242_at, s2249_at, s2256_at, s2263_at, s2270_at, s2277_at, s2285_at, s2293_at, s2301_at, s2650_at, s2651_at, dot3, newt, Rh_zero, th_zero, rel_zero, Rh_at _ 19 17 (by norm_num) rfl, th_at _ _ 19 17 (by norm_num) rfl, rel_at _ 19 17 (by norm_num) rfl] <;> rfl
theorem s3547_c13 (b : Fin 128) : s3547 x0 x1 (ix2 b (⟨13, by norm_num⟩ : Fin 16)) = (0 : EReal) := by
  simp only [s3547, k0_pay825]
  refine (concat_unit_piece 13 (by norm_num) _ _ _ (by simp) rfl rfl b).trans ?_
  simp only [ValueIdx.mulf_apply, ValueIdx.addf_apply, ValueIdx.subf_apply, ValueIdx.broadcast_apply, zero_word, one_word, tovec_at, ascol_at, shapeCast_self, s551_at, s553_at, s555_at, s2221_at, s2228_at, s2235_at, s2242_at, s2249_at, s2256_at, s2263_at, s2270_at, s2277_at, s2285_at, s2293_at, s2301_at, s2650_at, s2651_at, dot3, newt, Rh_zero, th_zero, rel_zero, Rh_at _ 19 17 (by norm_num) rfl, th_at _ _ 19 17 (by norm_num) rfl, rel_at _ 19 17 (by norm_num) rfl] <;> rfl
theorem s3547_c14 (b : Fin 128) : s3547 x0 x1 (ix2 b (⟨14, by norm_num⟩ : Fin 16)) = (0 : EReal) := by
  simp only [s3547, k0_pay825]
  refine (concat_unit_piece 14 (by norm_num) _ _ _ (by simp) rfl rfl b).trans ?_
  simp only [ValueIdx.mulf_apply, ValueIdx.addf_apply, ValueIdx.subf_apply, ValueIdx.broadcast_apply, zero_word, one_word, tovec_at, ascol_at, shapeCast_self, s551_at, s553_at, s555_at, s2221_at, s2228_at, s2235_at, s2242_at, s2249_at, s2256_at, s2263_at, s2270_at, s2277_at, s2285_at, s2293_at, s2301_at, s2650_at, s2651_at, dot3, newt, Rh_zero, th_zero, rel_zero, Rh_at _ 19 17 (by norm_num) rfl, th_at _ _ 19 17 (by norm_num) rfl, rel_at _ 19 17 (by norm_num) rfl] <;> rfl
theorem s3547_c15 (b : Fin 128) : s3547 x0 x1 (ix2 b (⟨15, by norm_num⟩ : Fin 16)) = (1 : EReal) := by
  simp only [s3547, k0_pay825]
  refine (concat_unit_piece 15 (by norm_num) _ _ _ (by simp) rfl rfl b).trans ?_
  simp only [ValueIdx.mulf_apply, ValueIdx.addf_apply, ValueIdx.subf_apply, ValueIdx.broadcast_apply, zero_word, one_word, tovec_at, ascol_at, shapeCast_self, s551_at, s553_at, s555_at, s2221_at, s2228_at, s2235_at, s2242_at, s2249_at, s2256_at, s2263_at, s2270_at, s2277_at, s2285_at, s2293_at, s2301_at, s2650_at, s2651_at, dot3, newt, Rh_zero, th_zero, rel_zero, Rh_at _ 19 17 (by norm_num) rfl, th_at _ _ 19 17 (by norm_num) rfl, rel_at _ 19 17 (by norm_num) rfl] <;> rfl
theorem s557_at (b : Fin 128) : s557 x0 x1 (ix1 b) = pk x1 b 20 0 := by
  simp only [s557, k0_pay292, ValueIdx.mulf_apply, ValueIdx.addf_apply, ValueIdx.subf_apply, ValueIdx.broadcast_apply, zero_word, one_word, tovec_at, ascol_at, shapeCast_self, slice_at (N := 72) _ 60 (by norm_num), s3_eq, dot3, newt, Rh_zero, th_zero, rel_zero] <;> rfl
theorem s559_at (b : Fin 128) : s559 x0 x1 (ix1 b) = pk x1 b 20 1 := by
  simp only [s559, k0_pay293, ValueIdx.mulf_apply, ValueIdx.addf_apply, ValueIdx.subf_apply, ValueIdx.broadcast_apply, zero_word, one_word, tovec_at, ascol_at, shapeCast_self, slice_at (N := 72) _ 61 (by norm_num), s3_eq, dot3, newt, Rh_zero, th_zero, rel_zero] <;> rfl
theorem s561_at (b : Fin 128) : s561 x0 x1 (ix1 b) = pk x1 b 20 2 := by
  simp only [s561, k0_pay294, ValueIdx.mulf_apply, ValueIdx.addf_apply, ValueIdx.subf_apply, ValueIdx.broadcast_apply, zero_word, one_word, tovec_at, ascol_at, shapeCast_self, slice_at (N := 72) _ 62 (by norm_num), s3_eq, dot3, newt, Rh_zero, th_zero, rel_zero] <;> rfl
theorem s365_at (b : Fin 128) : s365 x0 x1 (ix1 b) = Rk x0 b 20 0 0 := by
  simp only [s365, k0_pay193, ValueIdx.mulf_apply, ValueIdx.addf_apply, ValueIdx.subf_apply, ValueIdx.broadcast_apply, zero_word, one_word, tovec_at, ascol_at, shapeCast_self, slice_at (N := 216) _ 180 (by norm_num), s1_eq, dot3, newt, Rh_zero, th_zero, rel_zero] <;> rfl
theorem s371_at (b : Fin 128) : s371 x0 x1 (ix1 b) = Rk x0 b 20 1 0 := by
  simp only [s371, k0_pay196, ValueIdx.mulf_apply, ValueIdx.addf_apply, ValueIdx.subf_apply, ValueIdx.broadcast_apply, zero_word, one_word, tovec_at, ascol_at, shapeCast_self, slice_at (N := 216) _ 183 (by norm_num), s1_eq, dot3, newt, Rh_zero, th_zero, rel_zero] <;> rfl
theorem s377_at (b : Fin 128) : s377 x0 x1 (ix1 b) = Rk x0 b 20 2 0 := by
  simp only [s377, k0_pay199, ValueIdx.mulf_apply, ValueIdx.addf_apply, ValueIdx.subf_apply, ValueIdx.broadcast_apply, zero_word, one_word, tovec_at, ascol_at, shapeCast_self, slice_at (N := 216) _ 186 (by norm_num), s1_eq, dot3, newt, Rh_zero, th_zero, rel_zero] <;> rfl
theorem s2308_at (b : Fin 128) : s2308 x0 x1 (ix1 b) = Rh (Rk x0 b) 20 0 0 := by
  simp only [s2308, k0_pay638, ValueIdx.mulf_apply, ValueIdx.addf_apply, ValueIdx.subf_apply, ValueIdx.broadcast_apply, zero_word, one_word, tovec_at, ascol_at, shapeCast_self, s365_at, s371_at, s377_at, s2134_at, s2141_at, s2148_at, dot3, newt, Rh_zero, th_zero, rel_zero, Rh_at _ 20 18 (by norm_num) rfl, th_at _ _ 20 18 (by norm_num) rfl, rel_at _ 20 18 (by norm_num) rfl] <;> rfl
theorem s367_at (b : Fin 128) : s367 x0 x1 (ix1 b) = Rk x0 b 20 0 1 := by
  simp only [s367, k0_pay194, ValueIdx.mulf_apply, ValueIdx.addf_apply, ValueIdx.subf_apply, ValueIdx.broadcast_apply, zero_word, one_word, tovec_at, ascol_at, shapeCast_self, slice_at (N := 216) _ 181 (by norm_num), s1_eq, dot3, newt, Rh_zero, th_zero, rel_zero] <;> rfl
theorem s373_at (b : Fin 128) : s373 x0 x1 (ix1 b) = Rk x0 b 20 1 1 := by
  simp only [s373, k0_pay197, ValueIdx.mulf_apply, ValueIdx.addf_apply, ValueIdx.subf_apply, ValueIdx.broadcast_apply, zero_word, one_word, tovec_at, ascol_at, shapeCast_self, slice_at (N := 216) _ 184 (by norm_num), s1_eq, dot3, newt, Rh_zero, th_zero, rel_zero] <;> rfl
theorem s379_at (b : Fin 128) : s379 x0 x1 (ix1 b) = Rk x0 b 20 2 1 := by
  simp only [s379, k0_pay200, ValueIdx.mulf_apply, ValueIdx.addf_apply, ValueIdx.subf_apply, ValueIdx.broadcast_apply, zero_word, one_word, tovec_at, ascol_at, shapeCast_self, slice_at (N := 216) _ 187 (by norm_num), s1_eq, dot3, newt, Rh_zero, th_zero, rel_zero] <;> rfl
theorem s2315_at (b : Fin 128) : s2315 x0 x1 (ix1 b) = Rh (Rk x0 b) 20 0 1 := by
  simp only [s2315, k0_pay639, ValueIdx.mulf_apply, ValueIdx.addf_apply, ValueIdx.subf_apply, ValueIdx.broadcast_apply, zero_word, one_word, tovec_at, ascol_at, shapeCast_self, s367_at, s373_at, s379_at, s2134_at, s2141_at, s2148_at, dot3, newt, Rh_zero, th_zero, rel_zero, Rh_at _ 20 18 (by norm_num) rfl, th_at _ _ 20 18 (by norm_num) rfl, rel_at _ 20 18 (by norm_num) rfl] <;> rfl
theorem s369_at (b : Fin 128) : s369 x0 x1 (ix1 b) = Rk x0 b 20 0 2 := by
  simp only [s369, k0_pay195, ValueIdx.mulf_apply, ValueIdx.addf_apply, ValueIdx.subf_apply, ValueIdx.broadcast_apply, zero_word, one_word, tovec_at, ascol_at, shapeCast_self, slice_at (N := 216) _ 182 (by norm_num), s1_eq, dot3, newt, Rh_zero, th_zero, rel_zero] <;> rfl
theorem s375_at (b : Fin 128) : s375 x0 x1 (ix1 b) = Rk x0 b 20 1 2 := by
  simp only [s375, k0_pay198, ValueIdx.mulf_apply, ValueIdx.addf_apply, ValueIdx.subf_apply, ValueIdx.broadcast_apply, zero_word, one_word, tovec_at, ascol_at, shapeCast_self, slice_at (N := 216) _ 185 (by norm_num), s1_eq, dot3, newt, Rh_zero, th_zero, rel_zero] <;> rfl
theorem s381_at (b : Fin 128) : s381 x0 x1 (ix1 b) = Rk x0 b 20 2 2 := by
  simp only [s381, k0_pay201, ValueIdx.mulf_apply, ValueIdx.addf_apply, ValueIdx.subf_apply, ValueIdx.broadcast_apply, zero_word, one_word, tovec_at, ascol_at, shapeCast_self, slice_at (N := 216) _ 188 (by norm_num), s1_eq, dot3, newt, Rh_zero, th_zero, rel_zero] <;> rfl
theorem s2322_at (b : Fin 128) : s2322 x0 x1 (ix1 b) = Rh (Rk x0 b) 20 0 2 := by
  simp only [s2322, k0_pay640, ValueIdx.mulf_apply, ValueIdx.addf_apply, ValueIdx.subf_apply, ValueIdx.broadcast_apply, zero_word, one_word, tovec_at, ascol_at, shapeCast_self, s369_at, s375_at, s381_at, s2134_at, s2141_at, s2148_at, dot3, newt, Rh_zero, th_zero, rel_zero, Rh_at _ 20 18 (by norm_num) rfl, th_at _ _ 20 18 (by norm_num) rfl, rel_at _ 20 18 (by norm_num) rfl] <;> rfl
theorem s2329_at (b : Fin 128) : s2329 x0 x1 (ix1 b) = Rh (Rk x0 b) 20 1 0 := by
  simp only [s2329, k0_pay641, ValueIdx.mulf_apply, ValueIdx.addf_apply, ValueIdx.subf_apply, ValueIdx.broadcast_apply, zero_word, one_word, tovec_at, ascol_at, shapeCast_self, s365_at, s371_at, s377_at, s2155_at, s2162_at, s2169_at, dot3, newt, Rh_zero, th_zero, rel_zero, Rh_at _ 20 18 (by norm_num) rfl, th_at _ _ 20 18 (by norm_num) rfl, rel_at _ 20 18 (by norm_num) rfl] <;> rfl
theorem s2336_at (b : Fin 128) : s2336 x0 x1 (ix1 b) = Rh (Rk x0 b) 20 1 1 := by
  simp only [s2336, k0_pay642, ValueIdx.mulf_apply, ValueIdx.addf_apply, ValueIdx.subf_apply, ValueIdx.broadcast_apply, zero_word, one_word, tovec_at, ascol_at, shapeCast_self, s367_at, s373_at, s379_at, s2155_at, s2162_at, s2169_at, dot3, newt, Rh_zero, th_zero, rel_zero, Rh_at _ 20 18 (by norm_num) rfl, th_at _ _ 20 18 (by norm_num) rfl, rel_at _ 20 18 (by norm_num) rfl] <;> rfl
theorem s2339_at (b : Fin 128) : s2339 x0 x1 (ix1 b) = ((0 : EReal) + ((Rh (Rk x0 b) 18 1 0) * (Rk x0 b 20 0 2))) := by
  simp only [s2339, k0_pay643, ValueIdx.mulf_apply, ValueIdx.addf_apply, ValueIdx.subf_apply, ValueIdx.broadcast_apply, zero_word, one_word, tovec_at, ascol_at, shapeCast_self, s369_at, s2155_at, dot3, newt, Rh_zero, th_zero, rel_zero] <;> rfl
theorem s2340_at (b : Fin 128) : s2340 x0 x1 (ix1 b) = ((Rh (Rk x0 b) 18 1 1) * (Rk x0 b 20 1 2)) := by
  simp only [s2340, k0_pay644, ValueIdx.mulf_apply, ValueIdx.addf_apply, ValueIdx.subf_apply, ValueIdx.broadcast_apply, zero_word, one_word, tovec_at, ascol_at, shapeCast_self, s375_at, s2162_at, dot3, newt, Rh_zero, th_zero, rel_zero] <;> rfl
theorem s2343_at (b : Fin 128) : s2343 x0 x1 (ix1 b) = Rh (Rk x0 b) 20 1 2 := by
  simp only [s2343, k0_pay645, ValueIdx.mulf_apply, ValueIdx.addf_apply, ValueIdx.subf_apply, ValueIdx.broadcast_apply, zero_word, one_word, tovec_at, ascol_at, shapeCast_self, s381_at, s2169_at, s2339_at, s2340_at, dot3, newt, Rh_zero, th_zero, rel_zero, Rh_at _ 20 18 (by norm_num) rfl, th_at _ _ 20 18 (by norm_num) rfl, rel_at _ 20 18 (by norm_num) rfl] <;> rfl
theorem s2350_at (b : Fin 128) : s2350 x0 x1 (ix1 b) = Rh (Rk x0 b) 20 2 0 := by
  simp only [s2350, k0_pay646, ValueIdx.mulf_apply, ValueIdx.addf_apply, ValueIdx.subf_apply, ValueIdx.broadcast_apply, zero_word, one_word, tovec_at, ascol_at, shapeCast_self, s365_at, s371_at, s377_at, s2176_at, s2183_at, s2190_at, dot3, newt, Rh_zero, th_zero, rel_zero, Rh_at _ 20 18 (by norm_num) rfl, th_at _ _ 20 18 (by norm_num) rfl, rel_at _ 20 18 (by norm_num) rfl] <;> rfl
theorem s2357_at (b : Fin 128) : s2357 x0 x1 (ix1 b) = Rh (Rk x0 b) 20 2 1 := by
  simp only [s2357, k0_pay647, ValueIdx.mulf_apply, ValueIdx.addf_apply, ValueIdx.subf_apply, ValueIdx.broadcast_apply, zero_word, one_word, tovec_at, ascol_at, shapeCast_self, s367_at, s373_at, s379_at, s2176_at, s2183_at, s2190_at, dot3, newt, Rh_zero, th_zero, rel_zero, Rh_at _ 20 18 (by norm_num) rfl, th_at _ _ 20 18 (by norm_num) rfl, rel_at _ 20 18 (by norm_num) rfl] <;> rfl
theorem s2364_at (b : Fin 128) : s2364 x0 x1 (ix1 b) = Rh (Rk x0 b) 20 2 2 := by
  simp only [s2364, k0_pay648, ValueIdx.mulf_apply, ValueIdx.addf_apply, ValueIdx.subf_apply, ValueIdx.broadcast_apply, zero_word, one_word, tovec_at, ascol_at, shapeCast_self, s369_at, s375_at, s381_at, s2176_at, s2183_at, s2190_at, dot3, newt, Rh_zero, th_zero, rel_zero, Rh_at _ 20 18 (by norm_num) rfl, th_at _ _ 20 18 (by norm_num) rfl, rel_at _ 20 18 (by norm_num) rfl] <;> rfl
theorem s637_at (b : Fin 128) : s637 x0 x1 (ix1 b) = rel (pk x1 b) 20 0 := by
  simp only [s637, k0_pay361, ValueIdx.mulf_apply, ValueIdx.addf_apply, ValueIdx.subf_apply, ValueIdx.broadcast_apply, zero_word, one_word, tovec_at, ascol_at, shapeCast_self, s545_at, s557_at, dot3, newt, Rh_zero, th_zero, rel_zero, Rh_at _ 20 18 (by norm_num) rfl, th_at _ _ 20 18 (by norm_num) rfl, rel_at _ 20 18 (by norm_num) rfl] <;> rfl
theorem s638_at (b : Fin 128) : s638 x0 x1 (ix1 b) = rel (pk x1 b) 20 1 := by
  simp only [s638, k0_pay362, ValueIdx.mulf_apply, ValueIdx.addf_apply, ValueIdx.subf_apply, ValueIdx.broadcast_apply, zero_word, one_word, tovec_at, ascol_at, shapeCast_self, s547_at, s559_at, dot3, newt, Rh_zero, th_zero, rel_zero, Rh_at _ 20 18 (by norm_num) rfl, th_at _ _ 20 18 (by norm_num) rfl, rel_at _ 20 18 (by norm_num) rfl] <;> rfl
theorem s639_at (b : Fin 128) : s639 x0 x1 (ix1 b) = rel (pk x1 b) 20 2 := by
  simp only [s639, k0_pay363, ValueIdx.mulf_apply, ValueIdx.addf_apply, ValueIdx.subf_apply, ValueIdx.broadcast_apply, zero_word, one_word, tovec_at, ascol_at, shapeCast_self, s549_at, s561_at, dot3, newt, Rh_zero, th_zero, rel_zero, Rh_at _ 20 18 (by norm_num) rfl, th_at _ _ 20 18 (by norm_num) rfl, rel_at _ 20 18 (by norm_num) rfl] <;> rfl
theorem s2372_at (b : Fin 128) : s2372 x0 x1 (ix1 b) = th (Rk x0 b) (pk x1 b) 20 0 := by
  simp only [s2372, k0_pay649, ValueIdx.mulf_apply, ValueIdx.addf_apply, ValueIdx.subf_apply, ValueIdx.broadcast_apply, zero_word, one_word, tovec_at, ascol_at, shapeCast_self, s637_at, s638_at, s639_at, s2134_at, s2141_at, s2148_at, s2198_at, dot3, newt, Rh_zero, th_zero, rel_zero, Rh_at _ 20 18 (by norm_num) rfl, th_at _ _ 20 18 (by norm_num) rfl, rel_at _ 20 18 (by norm_num) rfl] <;> rfl
theorem s2380_at (b : Fin 128) : s2380 x0 x1 (ix1 b) = th (Rk x0 b) (pk x1 b) 20 1 := by
  simp only [s2380, k0_pay650, ValueIdx.mulf_apply, ValueIdx.addf_apply, ValueIdx.subf_apply, ValueIdx.broadcast_apply, zero_word, one_word, tovec_at, ascol_at, shapeCast_self, s637_at, s638_at, s639_at, s2155_at, s2162_at, s2169_at, s2206_at, dot3, newt, Rh_zero, th_zero, rel_zero, Rh_at _ 20 18 (by norm_num) rfl, th_at _ _ 20 18 (by norm_num) rfl, rel_at _ 20 18 (by norm_num) rfl] <;> rfl
theorem s2388_at (b : Fin 128) : s2388 x0 x1 (ix1 b) = th (Rk x0 b) (pk x1 b) 20 2 := by
  simp only [s2388, k0_pay651, ValueIdx.mulf_apply, ValueIdx.addf_apply, ValueIdx.subf_apply, ValueIdx.broadcast_apply, zero_word, one_word, tovec_at, ascol_at, shapeCast_self, s637_at, s638_at, s639_at, s2176_at, s2183_at, s2190_at, s2214_at, dot3, newt, Rh_zero, th_zero, rel_zero, Rh_at _ 20 18 (by norm_num) rfl, th_at _ _ 20 18 (by norm_num) rfl, rel_at _ 20 18 (by norm_num) rfl] <;> rfl
theorem s3554_at (b : Fin 128) : s3554 x0 x1 (ix1 b) = ((0 : EReal) + ((Rh (Rk x0 b) 20 0 0) * (pk x1 b 20 0))) := by
  simp only [s3554, k0_pay827, ValueIdx.mulf_apply, ValueIdx.addf_apply, ValueIdx.subf_apply, ValueIdx.broadcast_apply, zero_word, one_word, tovec_at, ascol_at, shapeCast_self, s557_at, s2308_at, dot3, newt, Rh_zero, th_zero, rel_zero] <;> rfl
theorem s3555_at (b : Fin 128) : s3555 x0 x1 (ix1 b) = ((Rh (Rk x0 b) 20 0 1) * (pk x1 b 20 1)) := by
  simp only [s3555, k0_pay828, ValueIdx.mulf_apply, ValueIdx.addf_apply, ValueIdx.subf_apply, ValueIdx.broadcast_apply, zero_word, one_word, tovec_at, ascol_at, shapeCast_self, s559_at, s2315_at, dot3, newt, Rh_zero, th_zero, rel_zero] <;> rfl
theorem s3592_c0 (b : Fin 128) : s3592 x0 x1 (ix2 b (⟨0, by norm_num⟩ : Fin 16)) = Rh (Rk x0 b) 20 0 0 := by
  simp only [s3592, k0_pay829]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s557_at, s559_at, s561_at, s2308_at, s2315_at, s2322_at, s2329_at, s2336_at, s2343_at, s2350_at, s2357_at, s2364_at, s2372_at, s2380_at, s2388_at, s2650_at, s2651_at, s3554_at, s3555_at, dot3, newt, Rh_zero, th_zero, rel_zero, Rh_at _ 20 18 (by norm_num) rfl, th_at _ _ 20 18 (by norm_num) rfl, rel_at _ 20 18 (by norm_num) rfl] <;> rfl
theorem s3592_c1 (b : Fin 128) : s3592 x0 x1 (ix2 b (⟨1, by norm_num⟩ : Fin 16)) = Rh (Rk x0 b) 20 0 1 := by
  simp only [s3592, k0_pay829]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s557_at, s559_at, s561_at, s2308_at, s2315_at, s2322_at, s2329_at, s2336_at, s2343_at, s2350_at, s2357_at, s2364_at, s2372_at, s2380_at, s2388_at, s2650_at, s2651_at, s3554_at, s3555_at, dot3, newt, Rh_zero, th_zero, rel_zero, Rh_at _ 20 18 (by norm_num) rfl, th_at _ _ 20 18 (by norm_num) rfl, rel_at _ 20 18 (by norm_num) rfl] <;> rfl
theorem s3592_c2 (b : Fin 128) : s3592 x0 x1 (ix2 b (⟨2, by norm_num⟩ : Fin 16)) = Rh (Rk x0 b) 20 0 2 := by
  simp only [s3592, k0_pay829]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s557_at, s559_at, s561_at, s2308_at, s2315_at, s2322_at, s2329_at, s2336_at, s2343_at, s2350_at, s2357_at, s2364_at, s2372_at, s2380_at, s2388_at, s2650_at, s2651_at, s3554_at, s3555_at, dot3, newt, Rh_zero, th_zero, rel_zero, Rh_at _ 20 18 (by norm_num) rfl, th_at _ _ 20 18 (by norm_num) rfl, rel_at _ 20 18 (by norm_num) rfl] <;> rfl
theorem s3592_c3 (b : Fin 128) : s3592 x0 x1 (ix2 b (⟨3, by norm_num⟩ : Fin 16)) = newt (Rk x0 b) (pk x1 b) 20 0 := by
  simp only [s3592, k0_pay829]
  refine (concat_unit_piece 3 (by norm_num) _ _ _ (by simp) rfl rfl b).trans ?_
  simp only [ValueIdx.mulf_apply, ValueIdx.addf_apply, ValueIdx.subf_apply, ValueIdx.broadcast_apply, zero_word, one_word, tovec_at, ascol_at, shapeCast_self, s557_at, s559_at, s561_at, s2308_at, s2315_at, s2322_at, s2329_at, s2336_at, s2343_at, s2350_at, s2357_at, s2364_at, s2372_at, s2380_at, s2388_at, s2650_at, s2651_at, s3554_at, s3555_at, dot3, newt, Rh_zero, th_zero, rel_zero, Rh_at _ 20 18 (by norm_num) rfl, th_at _ _ 20 18 (by norm_num) rfl, rel_at _ 20 18 (by norm_num) rfl] <;> rfl
theorem s3592_c4 (b : Fin 128) : s3592 x0 x1 (ix2 b (⟨4, by norm_num⟩ : Fin 16)) = Rh (Rk x0 b) 20 1 0 := by
  simp only [s3592, k0_pay829]
  refine (concat_unit_piece 4 (by norm_num) _ _ _ (by simp) rfl rfl b).trans ?_
  simp only [ValueIdx.mulf_apply, ValueIdx.addf_apply, ValueIdx.subf_apply, ValueIdx.broadcast_apply, zero_word, one_word, tovec_at, ascol_at, shapeCast_self, s557_at, s559_at, s561_at, s2308_at, s2315_at, s2322_at, s2329_at, s2336_at, s2343_at, s2350_at, s2357_at, s2364_at, s2372_at, s2380_at, s2388_at, s2650_at, s2651_at, s3554_at, s3555_at, dot3, newt, Rh_zero, th_zero, rel_zero, Rh_at _ 20 18 (by norm_num) rfl, th_at _ _ 20 18 (by norm_num) rfl, rel_at _ 20 18 (by norm_num) rfl] <;> rfl
theorem s3592_c5 (b : Fin 128) : s3592 x0 x1 (ix2 b (⟨5, by norm_num⟩ : Fin 16)) = Rh (Rk x0 b) 20 1 1 := by
  simp only [s3592, k0_pay829]
  refine (concat_unit_piece 5 (by norm_num) _ _ _ (by simp) rfl rfl b).trans ?_
  simp only [ValueIdx.mulf_apply, ValueIdx.addf_apply, ValueIdx.subf_apply, ValueIdx.broadcast_apply, zero_word, one_word, tovec_at, ascol_at, shapeCast_self, s557_at, s559_at, s561_at, s2308_at, s2315_at, s2322_at, s2329_at, s2336_at, s2343_at, s2350_at, s2357_at, s2364_at, s2372_at, s2380_at, s2388_at, s2650_at, s2651_at, s3554_at, s3555_at, dot3, newt, Rh_zero, th_zero, rel_zero, Rh_at _ 20 18 (by norm_num) rfl, th_at _ _ 20 18 (by norm_num) rfl, rel_at _ 20 18 (by norm_num) rfl] <;> rfl
theorem s3592_c6 (b : Fin 128) : s3592 x0 x1 (ix2 b (⟨6, by norm_num⟩ : Fin 16)) = Rh (Rk x0 b) 20 1 2 := by
  simp only [s3592, k0_pay829]
  refine (concat_unit_piece 6 (by norm_num) _ _ _ (by simp) rfl rfl b).trans ?_
  simp only [ValueIdx.mulf_apply, ValueIdx.addf_apply, ValueIdx.subf_apply, ValueIdx.broadcast_apply, zero_word, one_word, tovec_at, ascol_at, shapeCast_self, s557_at, s559_at, s561_at, s2308_at, s2315_at, s2322_at, s2329_at, s2336_at, s2343_at, s2350_at, s2357_at, s2364_at, s2372_at, s2380_at, s2388_at, s2650_at, s2651_at, s3554_at, s3555_at, dot3, newt, Rh_zero, th_zero, rel_zero, Rh_at _ 20 18 (by norm_num) rfl, th_at _ _ 20 18 (by norm_num) rfl, rel_at _ 20 18 (by norm_num) rfl] <;> rfl
theorem s3592_c7 (b : Fin 128) : s3592 x0 x1 (ix2 b (⟨7, by norm_num⟩ : Fin 16)) = newt (Rk x0 b) (pk x1 b) 20 1 := by
  simp only [s3592, k0_pay829]
  refine (concat_unit_piece 7 (by norm_num) _ _ _ (by simp) rfl rfl b).trans ?_
  simp only [ValueIdx.mulf_apply, ValueIdx.addf_apply, ValueIdx.subf_apply, ValueIdx.broadcast_apply, zero_word, one_word, tovec_at, ascol_at, shapeCast_self, s557_at, s559_at, s561_at, s2308_at, s2315_at, s2322_at, s2329_at, s2336_at, s2343_at, s2350_at, s2357_at, s2364_at, s2372_at, s2380_at, s2388_at, s2650_at, s2651_at, s3554_at, s3555_at, dot3, newt, Rh_zero, th_zero, rel_zero, Rh_at _ 20 18 (by norm_num) rfl, th_at _ _ 20 18 (by norm_num) rfl, rel_at _ 20 18 (by norm_num) rfl] <;> rfl
theorem s3592_c8 (b : Fin 128) : s3592 x0 x1 (ix2 b (⟨8, by norm_num⟩ : Fin 16)) = Rh (Rk x0 b) 20 2 0 := by
  simp only [s3592, k0_pay829]
  refine (concat_unit_piece 8 (by norm_num) _ _ _ (by simp) rfl rfl b).trans ?_
  simp only [ValueIdx.mulf_apply, ValueIdx.addf_apply, ValueIdx.subf_apply, ValueIdx.broadcast_apply, zero_word, one_word, tovec_at, ascol_at, shapeCast_self, s557_at, s559_at, s561_at, s2308_at, s2315_at, s2322_at, s2329_at, s2336_at, s2343_at, s2350_at, s2357_at, s2364_at, s2372_at, s2380_at, s2388_at, s2650_at, s2651_at, s3554_at, s3555_at, dot3, newt, Rh_zero, th_zero, rel_zero, Rh_at _ 20 18 (by norm_num) rfl, th_at _ _ 20 18 (by norm_num) rfl, rel_at _ 20 18 (by norm_num) rfl] <;> rfl
theorem s3592_c9 (b : Fin 128) : s3592 x0 x1 (ix2 b (⟨9, by norm_num⟩ : Fin 16)) = Rh (Rk x0 b) 20 2 1 := by
  simp only [s3592, k0_pay829]
  refine (concat_unit_piece 9 (by norm_num) _ _ _ (by simp) rfl rfl b).trans ?_
  simp only [ValueIdx.mulf_apply, ValueIdx.addf_apply, ValueIdx.subf_apply, ValueIdx.broadcast_apply, zero_word, one_word, tovec_at, ascol_at, shapeCast_self, s557_at, s559_at, s561_at, s2308_at, s2315_at, s2322_at, s2329_at, s2336_at, s2343_at, s2350_at, s2357_at, s2364_at, s2372_at, s2380_at, s2388_at, s2650_at, s2651_at, s3554_at, s3555_at, dot3, newt, Rh_zero, th_zero, rel_zero, Rh_at _ 20 18 (by norm_num) rfl, th_at _ _ 20 18 (by norm_num) rfl, rel_at _ 20 18 (by norm_num) rfl] <;> rfl
theorem s3592_c10 (b : Fin 128) : s3592 x0 x1 (ix2 b (⟨10, by norm_num⟩ : Fin 16)) = Rh (Rk x0 b) 20 2 2 := by
  simp only [s3592, k0_pay829]
  refine (concat_unit_piece 10 (by norm_num) _ _ _ (by simp) rfl rfl b).trans ?_
  simp only [ValueIdx.mulf_apply, ValueIdx.addf_apply, ValueIdx.subf_apply, ValueIdx.broadcast_apply, zero_word, one_word, tovec_at, ascol_at, shapeCast_self, s557_at, s559_at, s561_at, s2308_at, s2315_at, s2322_at, s2329_at, s2336_at, s2343_at, s2350_at, s2357_at, s2364_at, s2372_at, s2380_at, s2388_at, s2650_at, s2651_at, s3554_at, s3555_at, dot3, newt, Rh_zero, th_zero, rel_zero, Rh_at _ 20 18 (by norm_num) rfl, th_at _ _ 20 18 (by norm_num) rfl, rel_at _ 20 18 (by norm_num) rfl] <;> rfl
theorem s3592_c11 (b : Fin 128) : s3592 x0 x1 (ix2 b (⟨11, by norm_num⟩ : Fin 16)) = newt (Rk x0 b) (pk x1 b) 20 2 := by
  simp only [s3592, k0_pay829]
  refine (concat_unit_piece 11 (by norm_num) _ _ _ (by simp) rfl rfl b).trans ?_
  simp only [ValueIdx.mulf_apply, ValueIdx.addf_apply, ValueIdx.subf_apply, ValueIdx.broadcast_apply, zero_word, one_word, tovec_at, ascol_at, shapeCast_self, s557_at, s559_at, s561_at, s2308_at, s2315_at, s2322_at, s2329_at, s2336_at, s2343_at, s2350_at, s2357_at, s2364_at, s2372_at, s2380_at, s2388_at, s2650_at, s2651_at, s3554_at, s3555_at, dot3, newt, Rh_zero, th_zero, rel_zero, Rh_at _ 20 18 (by norm_num) rfl, th_at _ _ 20 18 (by norm_num) rfl, rel_at _ 20 18 (by norm_num) rfl] <;> rfl
theorem s3592_c12 (b : Fin 128) : s3592 x0 x1 (ix2 b (⟨12, by norm_num⟩ : Fin 16)) = (0 : EReal) := by
  simp only [s3592, k0_pay829]
  refine (concat_unit_piece 12 (by norm_num) _ _ _ (by simp) rfl rfl b).trans ?_
  simp only [ValueIdx.mulf_apply, ValueIdx.addf_apply, ValueIdx.subf_apply, ValueIdx.broadcast_apply, zero_word, one_word, tovec_at, ascol_at, shapeCast_self, s557_at, s559_at, s561_at, s2308_at, s2315_at, s2322_at, s2329_at, s2336_at, s2343_at, s2350_at, s2357_at, s2364_at, s2372_at, s2380_at, s2388_at, s2650_at, s2651_at, s3554_at, s3555_at, dot3, newt, Rh_zero, th_zero, rel_zero, Rh_at _ 20 18 (by norm_num) rfl, th_at _ _ 20 18 (by norm_num) rfl, rel_at _ 20 18 (by norm_num) rfl] <;> rfl
theorem s3592_c13 (b : Fin 128) : s3592 x0 x1 (ix2 b (⟨13, by norm_num⟩ : Fin 16)) = (0 : EReal) := by
  simp only [s3592, k0_pay829]
  refine (concat_unit_piece 13 (by norm_num) _ _ _ (by simp) rfl rfl b).trans ?_
  simp only [ValueIdx.mulf_apply, ValueIdx.addf_apply, ValueIdx.subf_apply, ValueIdx.broadcast_apply, zero_word, one_word, tovec_at, ascol_at, shapeCast_self, s557_at, s559_at, s561_at, s2308_at, s2315_at, s2322_at, s2329_at, s2336_at, s2343_at, s2350_at, s2357_at, s2364_at, s2372_at, s2380_at, s2388_at, s2650_at, s2651_at, s3554_at, s3555_at, dot3, newt, Rh_zero, th_zero, rel_zero, Rh_at _ 20 18 (by norm_num) rfl, th_at _ _ 20 18 (by norm_num) rfl, rel_at _ 20 18 (by norm_num) rfl] <;> rfl
theorem s3592_c14 (b : Fin 128) : s3592 x0 x1 (ix2 b (⟨14, by norm_num⟩ : Fin 16)) = (0 : EReal) := by
  simp only [s3592, k0_pay829]
  refine (concat_unit_piece 14 (by norm_num) _ _ _ (by simp) rfl rfl b).trans ?_
  simp only [ValueIdx.mulf_apply, ValueIdx.addf_apply, ValueIdx.subf_apply, ValueIdx.broadcast_apply, zero_word, one_word, tovec_at, ascol_at, shapeCast_self, s557_at, s559_at, s561_at, s2308_at, s2315_at, s2322_at, s2329_at, s2336_at, s2343_at, s2350_at, s2357_at, s2364_at, s2372_at, s2380_at, s2388_at, s2650_at, s2651_at, s3554_at, s3555_at, dot3, newt, Rh_zero, th_zero, rel_zero, Rh_at _ 20 18 (by norm_num) rfl, th_at _ _ 20 18 (by norm_num) rfl, rel_at _ 20 18 (by norm_num) rfl] <;> rfl
theorem s3592_c15 (b : Fin 128) : s3592 x0 x1 (ix2 b (⟨15, by norm_num⟩ : Fin 16)) = (1 : EReal) := by
  simp only [s3592, k0_pay829]
  refine (concat_unit_piece 15 (by norm_num) _ _ _ (by simp) rfl rfl b).trans ?_
  simp only [ValueIdx.mulf_apply, ValueIdx.addf_apply, ValueIdx.subf_apply, ValueIdx.broadcast_apply, zero_word, one_word, tovec_at, ascol_at, shapeCast_self, s557_at, s559_at, s561_at, s2308_at, s2315_at, s2322_at, s2329_at, s2336_at, s2343_at, s2350_at, s2357_at, s2364_at, s2372_at, s2380_at, s2388_at, s2650_at, s2651_at, s3554_at, s3555_at, dot3, newt, Rh_zero, th_zero, rel_zero, Rh_at _ 20 18 (by norm_num) rfl, th_at _ _ 20 18 (by norm_num) rfl, rel_at _ 20 18 (by norm_num) rfl] <;> rfl
theorem s563_at (b : Fin 128) : s563 x0 x1 (ix1 b) = pk x1 b 21 0 := by
  simp only [s563, k0_pay295, ValueIdx.mulf_apply, ValueIdx.addf_apply, ValueIdx.subf_apply, ValueIdx.broadcast_apply, zero_word, one_word, tovec_at, ascol_at, shapeCast_self, slice_at (N := 72) _ 63 (by norm_num), s3_eq, dot3, newt, Rh_zero, th_zero, rel_zero] <;> rfl
theorem s565_at (b : Fin 128) : s565 x0 x1 (ix1 b) = pk x1 b 21 1 := by
  simp only [s565, k0_pay296, ValueIdx.mulf_apply, ValueIdx.addf_apply, ValueIdx.subf_apply, ValueIdx.broadcast_apply, zero_word, one_word, tovec_at, ascol_at, shapeCast_self, slice_at (N := 72) _ 64 (by norm_num), s3_eq, dot3, newt, Rh_zero, th_zero, rel_zero] <;> rfl
theorem s567_at (b : Fin 128) : s567 x0 x1 (ix1 b) = pk x1 b 21 2 := by
  simp only [s567, k0_pay297, ValueIdx.mulf_apply, ValueIdx.addf_apply, ValueIdx.subf_apply, ValueIdx.broadcast_apply, zero_word, one_word, tovec_at, ascol_at, shapeCast_self, slice_at (N := 72) _ 65 (by norm_num), s3_eq, dot3, newt, Rh_zero, th_zero, rel_zero] <;> rfl
theorem s395_at (b : Fin 128) : s395 x0 x1 (ix1 b) = Rk x0 b 21 2 0 := by
  simp only [s395, k0_pay208, ValueIdx.mulf_apply, ValueIdx.addf_apply, ValueIdx.subf_apply, ValueIdx.broadcast_apply, zero_word, one_word, tovec_at, ascol_at, shapeCast_self, slice_at (N := 216) _ 195 (by norm_num), s1_eq, dot3, newt, Rh_zero, th_zero, rel_zero] <;> rfl
theorem s383_at (b : Fin 128) : s383 x0 x1 (ix1 b) = Rk x0 b 21 0 0 := by
  simp only [s383, k0_pay202, ValueIdx.mulf_apply, ValueIdx.addf_apply, ValueIdx.subf_apply, ValueIdx.broadcast_apply, zero_word, one_word, tovec_at, ascol_at, shapeCast_self, slice_at (N := 216) _ 189 (by norm_num), s1_eq, dot3, newt, Rh_zero, th_zero, rel_zero] <;> rfl
theorem s389_at (b : Fin 128) : s389 x0 x1 (ix1 b) = Rk x0 b 21 1 0 := by
  simp only [s389, k0_pay205, ValueIdx.mulf_apply, ValueIdx.addf_apply, ValueIdx.subf_apply, ValueIdx.broadcast_apply, zero_word, one_word, tovec_at, ascol_at, shapeCast_self, slice_at (N := 216) _ 192 (by norm_num), s1_eq, dot3, newt, Rh_zero, th_zero, rel_zero] <;> rfl
theorem s2393_at (b : Fin 128) : s2393 x0 x1 (ix1 b) = (((0 : EReal) + ((Rh (Rk x0 b) 19 0 0) * (Rk x0 b 21 0 0))) + ((Rh (Rk x0 b) 19 0 1) * (Rk x0 b 21 1 0))) := by
  simp only [s2393, k0_pay652, ValueIdx.mulf_apply, ValueIdx.addf_apply, ValueIdx.subf_apply, ValueIdx.broadcast_apply, zero_word, one_word, tovec_at, ascol_at, shapeCast_self, s383_at, s389_at, s2221_at, s2228_at, dot3, newt, Rh_zero, th_zero, rel_zero] <;> rfl
theorem s2395_at (b : Fin 128) : s2395 x0 x1 (ix1 b) = Rh (Rk x0 b) 21 0 0 := by
  simp only [s2395, k0_pay653, ValueIdx.mulf_apply, ValueIdx.addf_apply, ValueIdx.subf_apply, ValueIdx.broadcast_apply, zero_word, one_word, tovec_at, ascol_at, shapeCast_self, s395_at, s2235_at, s2393_at, dot3, newt, Rh_zero, th_zero, rel_zero, Rh_at _ 21 19 (by norm_num) rfl, th_at _ _ 21 19 (by norm_num) rfl, rel_at _ 21 19 (by norm_num) rfl] <;> rfl
theorem s385_at (b : Fin 128) : s385 x0 x1 (ix1 b) = Rk x0 b 21 0 1 := by
  simp only [s385, k0_pay203, ValueIdx.mulf_apply, ValueIdx.addf_apply, ValueIdx.subf_apply, ValueIdx.broadcast_apply, zero_word, one_word, tovec_at, ascol_at, shapeCast_self, slice_at (N := 216) _ 190 (by norm_num), s1_eq, dot3, newt, Rh_zero, th_zero, rel_zero] <;> rfl
theorem s391_at (b : Fin 128) : s391 x0 x1 (ix1 b) = Rk x0 b 21 1 1 := by
  simp only [s391, k0_pay206, ValueIdx.mulf_apply, ValueIdx.addf_apply, ValueIdx.subf_apply, ValueIdx.broadcast_apply, zero_word, one_word, tovec_at, ascol_at, shapeCast_self, slice_at (N := 216) _ 193 (by norm_num), s1_eq, dot3, newt, Rh_zero, th_zero, rel_zero] <;> rfl
theorem s397_at (b : Fin 128) : s397 x0 x1 (ix1 b) = Rk x0 b 21 2 1 := by
  simp only [s397, k0_pay209, ValueIdx.mulf_apply, ValueIdx.addf_apply, ValueIdx.subf_apply, ValueIdx.broadcast_apply, zero_word, one_word, tovec_at, ascol_at, shapeCast_self, slice_at (N := 216) _ 196 (by norm_num), s1_eq, dot3, newt, Rh_zero, th_zero, rel_zero] <;> rfl
theorem s2402_at (b : Fin 128) : s2402 x0 x1 (ix1 b) = Rh (Rk x0 b) 21 0 1 := by
  simp only [s2402, k0_pay654, ValueIdx.mulf_apply, ValueIdx.addf_apply, ValueIdx.subf_apply, ValueIdx.broadcast_apply, zero_word, one_word, tovec_at, ascol_at, shapeCast_self, s385_at, s391_at, s397_at, s2221_at, s2228_at, s2235_at, dot3, newt, Rh_zero, th_zero, rel_zero, Rh_at _ 21 19 (by norm_num) rfl, th_at _ _ 21 19 (by norm_num) rfl, rel_at _ 21 19 (by norm_num) rfl] <;> rfl
theorem s387_at (b : Fin 128) : s387 x0 x1 (ix1 b) = Rk x0 b 21 0 2 := by
  simp only [s387, k0_pay204, ValueIdx.mulf_apply, ValueIdx.addf_apply, ValueIdx.subf_apply, ValueIdx.broadcast_apply, zero_word, one_word, tovec_at, ascol_at, shapeCast_self, slice_at (N := 216) _ 191 (by norm_num), s1_eq, dot3, newt, Rh_zero, th_zero, rel_zero] <;> rfl
theorem s393_at (b : Fin 128) : s393 x0 x1 (ix1 b) = Rk x0 b 21 1 2 := by
  simp only [s393, k0_pay207, ValueIdx.mulf_apply, ValueIdx.addf_apply, ValueIdx.subf_apply, ValueIdx.broadcast_apply, zero_word, one_word, tovec_at, ascol_at, shapeCast_self, slice_at (N := 216) _ 194 (by norm_num), s1_eq, dot3, newt, Rh_zero, th_zero, rel_zero] <;> rfl
theorem s399_at (b : Fin 128) : s399 x0 x1 (ix1 b) = Rk x0 b 21 2 2 := by
  simp only [s399, k0_pay210, ValueIdx.mulf_apply, ValueIdx.addf_apply, ValueIdx.subf_apply, ValueIdx.broadcast_apply, zero_word, one_word, tovec_at, ascol_at, shapeCast_self, slice_at (N := 216) _ 197 (by norm_num), s1_eq, dot3, newt, Rh_zero, th_zero, rel_zero] <;> rfl
theorem s2409_at (b : Fin 128) : s2409 x0 x1 (ix1 b) = Rh (Rk x0 b) 21 0 2 := by
  simp only [s2409, k0_pay655, ValueIdx.mulf_apply, ValueIdx.addf_apply, ValueIdx.subf_apply, ValueIdx.broadcast_apply, zero_word, one_word, tovec_at, ascol_at, shapeCast_self, s387_at, s393_at, s399_at, s2221_at, s2228_at, s2235_at, dot3, newt, Rh_zero, th_zero, rel_zero, Rh_at _ 21 19 (by norm_num) rfl, th_at _ _ 21 19 (by norm_num) rfl, rel_at _ 21 19 (by norm_num) rfl] <;> rfl
theorem s2416_at (b : Fin 128) : s2416 x0 x1 (ix1 b) = Rh (Rk x0 b) 21 1 0 := by
  simp only [s2416, k0_pay656, ValueIdx.mulf_apply, ValueIdx.addf_apply, ValueIdx.subf_apply, ValueIdx.broadcast_apply, zero_word, one_word, tovec_at, ascol_at, shapeCast_self, s383_at, s389_at, s395_at, s2242_at, s2249_at, s2256_at, dot3, newt, Rh_zero, th_zero, rel_zero, Rh_at _ 21 19 (by norm_num) rfl, th_at _ _ 21 19 (by norm_num) rfl, rel_at _ 21 19 (by norm_num) rfl] <;> rfl
theorem s2423_at (b : Fin 128) : s2423 x0 x1 (ix1 b) = Rh (Rk x0 b) 21 1 1 := by
  simp only [s2423, k0_pay657, ValueIdx.mulf_apply, ValueIdx.addf_apply, ValueIdx.subf_apply, ValueIdx.broadcast_apply, zero_word, one_word, tovec_at, ascol_at, shapeCast_self, s385_at, s391_at, s397_at, s2242_at, s2249_at, s2256_at, dot3, newt, Rh_zero, th_zero, rel_zero, Rh_at _ 21 19 (by norm_num) rfl, th_at _ _ 21 19 (by norm_num) rfl, rel_at _ 21 19 (by norm_num) rfl] <;> rfl
theorem s2430_at (b : Fin 128) : s2430 x0 x1 (ix1 b) = Rh (Rk x0 b) 21 1 2 := by
  simp only [s2430, k0_pay658, ValueIdx.mulf_apply, ValueIdx.addf_apply, ValueIdx.subf_apply, ValueIdx.broadcast_apply, zero_word, one_word, tovec_at, ascol_at, shapeCast_self, s387_at, s393_at, s399_at, s2242_at, s2249_at, s2256_at, dot3, newt, Rh_zero, th_zero, rel_zero, Rh_at _ 21 19 (by norm_num) rfl, th_at _ _ 21 19 (by norm_num) rfl, rel_at _ 21 19 (by norm_num) rfl] <;> rfl
theorem s2437_at (b : Fin 128) : s2437 x0 x1 (ix1 b) = Rh (Rk x0 b) 21 2 0 := by
  simp only [s2437, k0_pay659, ValueIdx.mulf_apply, ValueIdx.addf_apply, ValueIdx.subf_apply, ValueIdx.broadcast_apply, zero_word, one_word, tovec_at, ascol_at, shapeCast_self, s383_at, s389_at, s395_at, s2263_at, s2270_at, s2277_at, dot3, newt, Rh_zero, th_zero, rel_zero, Rh_at _ 21 19 (by norm_num) rfl, th_at _ _ 21 19 (by norm_num) rfl, rel_at _ 21 19 (by norm_num) rfl] <;> rfl
theorem s2444_at (b : Fin 128) : s2444 x0 x1 (ix1 b) = Rh (Rk x0 b) 21 2 1 := by
  simp only [s2444, k0_pay660, ValueIdx.mulf_apply, ValueIdx.addf_apply, ValueIdx.subf_apply, ValueIdx.broadcast_apply, zero_word, one_word, tovec_at, ascol_at, shapeCast_self, s385_at, s391_at, s397_at, s2263_at, s2270_at, s2277_at, dot3, newt, Rh_zero, th_zero, rel_zero, Rh_at _ 21 19 (by norm_num) rfl, th_at _ _ 21 19 (by norm_num) rfl, rel_at _ 21 19 (by norm_num) rfl] <;> rfl
theorem s2445_at (b : Fin 128) : s2445 x0 x1 (ix1 b) = ((Rh (Rk x0 b) 19 2 0) * (Rk x0 b 21 0 2)) := by
  simp only [s2445, k0_pay661, ValueIdx.mulf_apply, ValueIdx.addf_apply, ValueIdx.subf_apply, ValueIdx.broadcast_apply, zero_word, one_word, tovec_at, ascol_at, shapeCast_self, s387_at, s2263_at, dot3, newt, Rh_zero, th_zero, rel_zero] <;> rfl
theorem s2451_at (b : Fin 128) : s2451 x0 x1 (ix1 b) = Rh (Rk x0 b) 21 2 2 := by
  simp only [s2451, k0_pay662, ValueIdx.mulf_apply, ValueIdx.addf_apply, ValueIdx.subf_apply, ValueIdx.broadcast_apply, zero_word, one_word, tovec_at, ascol_at, shapeCast_self, s393_at, s399_at, s2270_at, s2277_at, s2445_at, dot3, newt, Rh_zero, th_zero, rel_zero, Rh_at _ 21 19 (by norm_num) rfl, th_at _ _ 21 19 (by norm_num) rfl, rel_at _ 21 19 (by norm_num) rfl] <;> rfl
theorem s640_at (b : Fin 128) : s640 x0 x1 (ix1 b) = rel (pk x1 b) 21 0 := by
  simp only [s640, k0_pay364, ValueIdx.mulf_apply, ValueIdx.addf_apply, ValueIdx.subf_apply, ValueIdx.broadcast_apply, zero_word, one_word, tovec_at, ascol_at, shapeCast_self, s551_at, s563_at, dot3, newt, Rh_zero, th_zero, rel_zero, Rh_at _ 21 19 (by norm_num) rfl, th_at _ _ 21 19 (by norm_num) rfl, rel_at _ 21 19 (by norm_num) rfl] <;> rfl
theorem s641_at (b : Fin 128) : s641 x0 x1 (ix1 b) = rel (pk x1 b) 21 1 := by
  simp only [s641, k0_pay365, ValueIdx.mulf_apply, ValueIdx.addf_apply, ValueIdx.subf_apply, ValueIdx.broadcast_apply, zero_word, one_word, tovec_at, ascol_at, shapeCast_self, s553_at, s565_at, dot3, newt, Rh_zero, th_zero, rel_zero, Rh_at _ 21 19 (by norm_num) rfl, th_at _ _ 21 19 (by norm_num) rfl, rel_at _ 21 19 (by norm_num) rfl] <;> rfl
theorem s642_at (b : Fin 128) : s642 x0 x1 (ix1 b) = rel (pk x1 b) 21 2 := by
  simp only [s642, k0_pay366, ValueIdx.mulf_apply, ValueIdx.addf_apply, ValueIdx.subf_apply, ValueIdx.broadcast_apply, zero_word, one_word, tovec_at, ascol_at, shapeCast_self, s555_at, s567_at, dot3, newt, Rh_zero, th_zero, rel_zero, Rh_at _ 21 19 (by norm_num) rfl, th_at _ _ 21 19 (by norm_num) rfl, rel_at _ 21 19 (by norm_num) rfl] <;> rfl
theorem s2467_at (b : Fin 128) : s2467 x0 x1 (ix1 b) = th (Rk x0 b) (pk x1 b) 21 1 := by
  simp only [s2467, k0_pay664, ValueIdx.mulf_apply, ValueIdx.addf_apply, ValueIdx.subf_apply, ValueIdx.broadcast_apply, zero_word, one_word, tovec_at, ascol_at, shapeCast_self, s640_at, s641_at, s642_at, s2242_at, s2249_at, s2256_at, s2293_at, dot3, newt, Rh_zero, th_zero, rel_zero, Rh_at _ 21 19 (by norm_num) rfl, th_at _ _ 21 19 (by norm_num) rfl, rel_at _ 21 19 (by norm_num) rfl] <;> rfl
theorem s2475_at (b : Fin 128) : s2475 x0 x1 (ix1 b) = th (Rk x0 b) (pk x1 b) 21 2 := by
  simp only [s2475, k0_pay665, ValueIdx.mulf_apply, ValueIdx.addf_apply, ValueIdx.subf_apply, ValueIdx.broadcast_apply, zero_word, one_word, tovec_at, ascol_at, shapeCast_self, s640_at, s641_at, s642_at, s2263_at, s2270_at, s2277_at, s2301_at, dot3, newt, Rh_zero, th_zero, rel_zero, Rh_at _ 21 19 (by norm_num) rfl, th_at _ _ 21 19 (by norm_num) rfl, rel_at _ 21 19 (by norm_num) rfl] <;> rfl
theorem s2459_at (b : Fin 128) : s2459 x0 x1 (ix1 b) = th (Rk x0 b) (pk x1 b) 21 0 := by
  simp only [s2459, k0_pay663, ValueIdx.mulf_apply, ValueIdx.addf_apply, ValueIdx.subf_apply, ValueIdx.broadcast_apply, zero_word, one_word, tovec_at, ascol_at, shapeCast_self, s640_at, s641_at, s642_at, s2221_at, s2228_at, s2235_at, s2285_at, dot3, newt, Rh_zero, th_zero, rel_zero, Rh_at _ 21 19 (by norm_num) rfl, th_at _ _ 21 19 (by norm_num) rfl, rel_at _ 21 19 (by norm_num) rfl] <;> rfl
theorem s3604_at (b : Fin 128) : s3604 x0 x1 (ix1 b) = newt (Rk x0 b) (pk x1 b) 21 0 := by
  simp only [s3604, k0_pay831, ValueIdx.mulf_apply, ValueIdx.addf_apply, ValueIdx.subf_apply, ValueIdx.broadcast_apply, zero_word, one_word, tovec_at, ascol_at, shapeCast_self, s563_at, s565_at, s567_at, s2395_at, s2402_at, s2409_at, s2459_at, dot3, newt, Rh_zero, th_zero, rel_zero, Rh_at _ 21 19 (by norm_num) rfl, th_at _ _ 21 19 (by norm_num) rfl, rel_at _ 21 19 (by norm_num) rfl] <;> rfl
theorem s3611_at (b : Fin 128) : s3611 x0 x1 (ix1 b) = ((((0 : EReal) + ((Rh (Rk x0 b) 21 1 0) * (pk x1 b 21 0))) + ((Rh (Rk x0 b) 21 1 1) * (pk x1 b 21 1))) + ((Rh (Rk x0 b) 21 1 2) * (pk x1 b 21 2))) := by
  simp only [s3611, k0_pay832, ValueIdx.mulf_apply, ValueIdx.addf_apply, ValueIdx.subf_apply, ValueIdx.broadcast_apply, zero_word, one_word, tovec_at, ascol_at, shapeCast_self, s563_at, s565_at, s567_at, s2416_at, s2423_at, s2430_at, dot3, newt, Rh_zero, th_zero, rel_zero] <;> rfl
theorem s3637_c0 (b : Fin 128) : s3637 x0 x1 (ix2 b (⟨0, by norm_num⟩ : Fin 16)) = Rh (Rk x0 b) 21 0 0 := by
  simp only [s3637, k0_pay833]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s563_at, s565_at, s567_at, s2395_at, s2402_at, s2409_at, s2416_at, s2423_at, s2430_at, s2437_at, s2444_at, s2451_at, s2467_at, s2475_at, s2650_at, s2651_at, s3604_at, s3611_at, dot3, newt, Rh_zero, th_zero, rel_zero, Rh_at _ 21 19 (by norm_num) rfl, th_at _ _ 21 19 (by norm_num) rfl, rel_at _ 21 19 (by norm_num) rfl] <;> rfl
theorem s3637_c1 (b : Fin 128) : s3637 x0 x1 (ix2 b (⟨1, by norm_num⟩ : Fin 16)) = Rh (Rk x0 b) 21 0 1 := by
  simp only [s3637, k0_pay833]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s563_at, s565_at, s567_at, s2395_at, s2402_at, s2409_at, s2416_at, s2423_at, s2430_at, s2437_at, s2444_at, s2451_at, s2467_at, s2475_at, s2650_at, s2651_at, s3604_at, s3611_at, dot3, newt, Rh_zero, th_zero, rel_zero, Rh_at _ 21 19 (by norm_num) rfl, th_at _ _ 21 19 (by norm_num) rfl, rel_at _ 21 19 (by norm_num) rfl] <;> rfl
theorem s3637_c2 (b : Fin 128) : s3637 x0 x1 (ix2 b (⟨2, by norm_num⟩ : Fin 16)) = Rh (Rk x0 b) 21 0 2 := by
  simp only [s3637, k0_pay833]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s563_at, s565_at, s567_at, s2395_at, s2402_at, s2409_at, s2416_at, s2423_at, s2430_at, s2437_at, s2444_at, s2451_at, s2467_at, s2475_at, s2650_at, s2651_at, s3604_at, s3611_at, dot3, newt, Rh_zero, th_zero, rel_zero, Rh_at _ 21 19 (by norm_num) rfl, th_at _ _ 21 19 (by norm_num) rfl, rel_at _ 21 19 (by norm_num) rfl] <;> rfl
theorem s3637_c3 (b : Fin 128) : s3637 x0 x1 (ix2 b (⟨3, by norm_num⟩ : Fin 16)) = newt (Rk x0 b) (pk x1 b) 21 0 := by
  simp only [s3637, k0_pay833]
  refine (concat_unit_piece 3 (by norm_num) _ _ _ (by simp) rfl rfl b).trans ?_
  simp only [ValueIdx.mulf_apply, ValueIdx.addf_apply, ValueIdx.subf_apply, ValueIdx.broadcast_apply, zero_word, one_word, tovec_at, ascol_at, shapeCast_self, s563_at, s565_at, s567_at, s2395_at, s2402_at, s2409_at, s2416_at, s2423_at, s2430_at, s2437_at, s2444_at, s2451_at, s2467_at, s2475_at, s2650_at, s2651_at, s3604_at, s3611_at, dot3, newt, Rh_zero, th_zero, rel_zero, Rh_at _ 21 19 (by norm_num) rfl, th_at _ _ 21 19 (by norm_num) rfl, rel_at _ 21 19 (by norm_num) rfl] <;> rfl
theorem s3637_c4 (b : Fin 128) : s3637 x0 x1 (ix2 b (⟨4, by norm_num⟩ : Fin 16)) = Rh (Rk x0 b) 21 1 0 := by
  simp only [s3637, k0_pay833]
  refine (concat_unit_piece 4 (by norm_num) _ _ _ (by simp) rfl rfl b).trans ?_
  simp only [ValueIdx.mulf_apply, ValueIdx.addf_apply, ValueIdx.subf_apply, ValueIdx.broadcast_apply, zero_word, one_word, tovec_at, ascol_at, shapeCast_self, s563_at, s565_at, s567_at, s2395_at, s2402_at, s2409_at, s2416_at, s2423_at, s2430_at, s2437_at, s2444_at, s2451_at, s2467_at, s2475_at, s2650_at, s2651_at, s3604_at, s3611_at, dot3, newt, Rh_zero, th_zero, rel_zero, Rh_at _ 21 19 (by norm_num) rfl, th_at _ _ 21 19 (by norm_num) rfl, rel_at _ 21 19 (by norm_num) rfl] <;> rfl
theorem s3637_c5 (b : Fin 128) : s3637 x0 x1 (ix2 b (⟨5, by norm_num⟩ : Fin 16)) = Rh (Rk x0 b) 21 1 1 := by
  simp only [s3637, k0_pay833]
  refine (concat_unit_piece 5 (by norm_num) _ _ _ (by simp) rfl rfl b).trans ?_
  simp only [ValueIdx.mulf_apply, ValueIdx.addf_apply, ValueIdx.subf_apply, ValueIdx.broadcast_apply, zero_word, one_word, tovec_at, ascol_at, shapeCast_self, s563_at, s565_at, s567_at, s2395_at, s2402_at, s2409_at, s2416_at, s2423_at, s2430_at, s2437_at, s2444_at, s2451_at, s2467_at, s2475_at, s2650_at, s2651_at, s3604_at, s3611_at, dot3, newt, Rh_zero, th_zero, rel_zero, Rh_at _ 21 19 (by norm_num) rfl, th_at _ _ 21 19 (by norm_num) rfl, rel_at _ 21 19 (by norm_num) rfl] <;> rfl
theorem s3637_c6 (b : Fin 128) : s3637 x0 x1 (ix2 b (⟨6, by norm_num⟩ : Fin 16)) = Rh (Rk x0 b) 21 1 2 := by
  simp only [s3637, k0_pay833]
  refine (concat_unit_piece 6 (by norm_num) _ _ _ (by simp) rfl rfl b).trans ?_
  simp only [ValueIdx.mulf_apply, ValueIdx.addf_apply, ValueIdx.subf_apply, ValueIdx.broadcast_apply, zero_word, one_word, tovec_at, ascol_at, shapeCast_self, s563_at, s565_at, s567_at, s2395_at, s2402_at, s2409_at, s2416_at, s2423_at, s2430_at, s2437_at, s2444_at, s2451_at, s2467_at, s2475_at, s2650_at, s2651_at, s3604_at, s3611_at, dot3, newt, Rh_zero, th_zero, rel_zero, Rh_at _ 21 19 (by norm_num) rfl, th_at _ _ 21 19 (by norm_num) rfl, rel_at _ 21 19 (by norm_num) rfl] <;> rfl
theorem s3637_c7 (b : Fin 128) : s3637 x0 x1 (ix2 b (⟨7, by norm_num⟩ : Fin 16)) = newt (Rk x0 b) (pk x1 b) 21 1 := by
  simp only [s3637, k0_pay833]
  refine (concat_unit_piece 7 (by norm_num) _ _ _ (by simp) rfl rfl b).trans ?_
  simp only [ValueIdx.mulf_apply, ValueIdx.addf_apply, ValueIdx.subf_apply, ValueIdx.broadcast_apply, zero_word, one_word, tovec_at, ascol_at, shapeCast_self, s563_at, s565_at, s567_at, s2395_at, s2402_at, s2409_at, s2416_at, s2423_at, s2430_at, s2437_at, s2444_at, s2451_at, s2467_at, s2475_at, s2650_at, s2651_at, s3604_at, s3611_at, dot3, newt, Rh_zero, th_zero, rel_zero, Rh_at _ 21 19 (by norm_num) rfl, th_at _ _ 21 19 (by norm_num) rfl, rel_at _ 21 19 (by norm_num) rfl] <;> rfl
theorem s3637_c8 (b : Fin 128) : s3637 x0 x1 (ix2 b (⟨8, by norm_num⟩ : Fin 16)) = Rh (Rk x0 b) 21 2 0 := by
  simp only [s3637, k0_pay833]
  refine (concat_unit_piece 8 (by norm_num) _ _ _ (by simp) rfl rfl b).trans ?_
  simp only [ValueIdx.mulf_apply, ValueIdx.addf_apply, ValueIdx.subf_apply, ValueIdx.broadcast_apply, zero_word, one_word, tovec_at, ascol_at, shapeCast_self, s563_at, s565_at, s567_at, s2395_at, s2402_at, s2409_at, s2416_at, s2423_at, s2430_at, s2437_at, s2444_at, s2451_at, s2467_at, s2475_at, s2650_at, s2651_at, s3604_at, s3611_at, dot3, newt, Rh_zero, th_zero, rel_zero, Rh_at _ 21 19 (by norm_num) rfl, th_at _ _ 21 19 (by norm_num) rfl, rel_at _ 21 19 (by norm_num) rfl] <;> rfl
theorem s3637_c9 (b : Fin 128) : s3637 x0 x1 (ix2 b (⟨9, by norm_num⟩ : Fin 16)) = Rh (Rk x0 b) 21 2 1 := by
  simp only [s3637, k0_pay833]
  refine (concat_unit_piece 9 (by norm_num) _ _ _ (by simp) rfl rfl b).trans ?_
  simp only [ValueIdx.mulf_apply, ValueIdx.addf_apply, ValueIdx.subf_apply, ValueIdx.broadcast_apply, zero_word, one_word, tovec_at, ascol_at, shapeCast_self, s563_at, s565_at, s567_at, s2395_at, s2402_at, s2409_at, s2416_at, s2423_at, s2430_at, s2437_at, s2444_at, s2451_at, s2467_at, s2475_at, s2650_at, s2651_at, s3604_at, s3611_at, dot3, newt, Rh_zero, th_zero, rel_zero, Rh_at _ 21 19 (by norm_num) rfl, th_at _ _ 21 19 (by norm_num) rfl, rel_at _ 21 19 (by norm_num) rfl] <;> rfl
theorem s3637_c10 (b : Fin 128) : s3637 x0 x1 (ix2 b (⟨10, by norm_num⟩ : Fin 16)) = Rh (Rk x0 b) 21 2 2 := by
  simp only [s3637, k0_pay833]
  refine (concat_unit_piece 10 (by norm_num) _ _ _ (by simp) rfl rfl b).trans ?_
  simp only [ValueIdx.mulf_apply, ValueIdx.addf_apply, ValueIdx.subf_apply, ValueIdx.broadcast_apply, zero_word, one_word, tovec_at, ascol_at, shapeCast_self, s563_at, s565_at, s567_at, s2395_at, s2402_at, s2409_at, s2416_at, s2423_at, s2430_at, s2437_at, s2444_at, s2451_at, s2467_at, s2475_at, s2650_at, s2651_at, s3604_at, s3611_at, dot3, newt, Rh_zero, th_zero, rel_zero, Rh_at _ 21 19 (by norm_num) rfl, th_at _ _ 21 19 (by norm_num) rfl, rel_at _ 21 19 (by norm_num) rfl] <;> rfl
theorem s3637_c11 (b : Fin 128) : s3637 x0 x1 (ix2 b (⟨11, by norm_num⟩ : Fin 16)) = newt (Rk x0 b) (pk x1 b) 21 2 := by
  simp only [s3637, k0_pay833]
  refine (concat_unit_piece 11 (by norm_num) _ _ _ (by simp) rfl rfl b).trans ?_
  simp only [ValueIdx.mulf_apply, ValueIdx.addf_apply, ValueIdx.subf_apply, ValueIdx.broadcast_apply, zero_word, one_word, tovec_at, ascol_at, shapeCast_self, s563_at, s565_at, s567_at, s2395_at, s2402_at, s2409_at, s2416_at, s2423_at, s2430_at, s2437_at, s2444_at, s2451_at, s2467_at, s2475_at, s2650_at, s2651_at, s3604_at, s3611_at, dot3, newt, Rh_zero, th_zero, rel_zero, Rh_at _ 21 19 (by norm_num) rfl, th_at _ _ 21 19 (by norm_num) rfl, rel_at _ 21 19 (by norm_num) rfl] <;> rfl
theorem s3637_c12 (b : Fin 128) : s3637 x0 x1 (ix2 b (⟨12, by norm_num⟩ : Fin 16)) = (0 : EReal) := by
  simp only [s3637, k0_pay833]
  refine (concat_unit_piece 12 (by norm_num) _ _ _ (by simp) rfl rfl b).trans ?_
  simp only [ValueIdx.mulf_apply, ValueIdx.addf_apply, ValueIdx.subf_apply, ValueIdx.broadcast_apply, zero_word, one_word, tovec_at, ascol_at, shapeCast_self, s563_at, s565_at, s567_at, s2395_at, s2402_at, s2409_at, s2416_at, s2423_at, s2430_at, s2437_at, s2444_at, s2451_at, s2467_at, s2475_at, s2650_at, s2651_at, s3604_at, s3611_at, dot3, newt, Rh_zero, th_zero, rel_zero, Rh_at _ 21 19 (by norm_num) rfl, th_at _ _ 21 19 (by norm_num) rfl, rel_at _ 21 19 (by norm_num) rfl] <;> rfl
theorem s3637_c13 (b : Fin 128) : s3637 x0 x1 (ix2 b (⟨13, by norm_num⟩ : Fin 16)) = (0 : EReal) := by
  simp only [s3637, k0_pay833]
  refine (concat_unit_piece 13 (by norm_num) _ _ _ (by simp) rfl rfl b).trans ?_
  simp only [ValueIdx.mulf_apply, ValueIdx.addf_apply, ValueIdx.subf_apply, ValueIdx.broadcast_apply, zero_word, one_word, tovec_at, ascol_at, shapeCast_self, s563_at, s565_at, s567_at, s2395_at, s2402_at, s2409_at, s2416_at, s2423_at, s2430_at, s2437_at, s2444_at, s2451_at, s2467_at, s2475_at, s2650_at, s2651_at, s3604_at, s3611_at, dot3, newt, Rh_zero, th_zero, rel_zero, Rh_at _ 21 19 (by norm_num) rfl, th_at _ _ 21 19 (by norm_num) rfl, rel_at _ 21 19 (by norm_num) rfl] <;> rfl
theorem s3637_c14 (b : Fin 128) : s3637 x0 x1 (ix2 b (⟨14, by norm_num⟩ : Fin 16)) = (0 : EReal) := by
  simp only [s3637, k0_pay833]
  refine (concat_unit_piece 14 (by norm_num) _ _ _ (by simp) rfl rfl b).trans ?_
  simp only [ValueIdx.mulf_apply, ValueIdx.addf_apply, ValueIdx.subf_apply, ValueIdx.broadcast_apply, zero_word, one_word, tovec_at, ascol_at, shapeCast_self, s563_at, s565_at, s567_at, s2395_at, s2402_at, s2409_at, s2416_at, s2423_at, s2430_at, s2437_at, s2444_at, s2451_at, s2467_at, s2475_at, s2650_at, s2651_at, s3604_at, s3611_at, dot3, newt, Rh_zero, th_zero, rel_zero, Rh_at _ 21 19 (by norm_num) rfl, th_at _ _ 21 19 (by norm_num) rfl, rel_at _ 21 19 (by norm_num) rfl] <;> rfl
theorem s3637_c15 (b : Fin 128) : s3637 x0 x1 (ix2 b (⟨15, by norm_num⟩ : Fin 16)) = (1 : EReal) := by
  simp only [s3637, k0_pay833]
  refine (concat_unit_piece 15 (by norm_num) _ _ _ (by simp) rfl rfl b).trans ?_
  simp only [ValueIdx.mulf_apply, ValueIdx.addf_apply, ValueIdx.subf_apply, ValueIdx.broadcast_apply, zero_word, one_word, tovec_at, ascol_at, shapeCast_self, s563_at, s565_at, s567_at, s2395_at, s2402_at, s2409_at, s2416_at, s2423_at, s2430_at, s2437_at, s2444_at, s2451_at, s2467_at, s2475_at, s2650_at, s2651_at, s3604_at, s3611_at, dot3, newt, Rh_zero, th_zero, rel_zero, Rh_at _ 21 19 (by norm_num) rfl, th_at _ _ 21 19 (by norm_num) rfl, rel_at _ 21 19 (by norm_num) rfl] <;> rfl
theorem s405_at (b : Fin 128) : s405 x0 x1 (ix1 b) = Rk x0 b 22 0 2 := by
  simp only [s405, k0_pay213, ValueIdx.mulf_apply, ValueIdx.addf_apply, ValueIdx.subf_apply, ValueIdx.broadcast_apply, zero_word, one_word, tovec_at, ascol_at, shapeCast_self, slice_at (N := 216) _ 200 (by norm_num), s1_eq, dot3, newt, Rh_zero, th_zero, rel_zero] <;> rfl
theorem s411_at (b : Fin 128) : s411 x0 x1 (ix1 b) = Rk x0 b 22 1 2 := by
  simp only [s411, k0_pay216, ValueIdx.mulf_apply, ValueIdx.addf_apply, ValueIdx.subf_apply, ValueIdx.broadcast_apply, zero_word, one_word, tovec_at, ascol_at, shapeCast_self, slice_at (N := 216) _ 203 (by norm_num), s1_eq, dot3, newt, Rh_zero, th_zero, rel_zero] <;> rfl
theorem s417_at (b : Fin 128) : s417 x0 x1 (ix1 b) = Rk x0 b 22 2 2 := by
  simp only [s417, k0_pay220, ValueIdx.mulf_apply, ValueIdx.addf_apply, ValueIdx.subf_apply, ValueIdx.broadcast_apply, zero_word, one_word, tovec_at, ascol_at, shapeCast_self, slice_at (N := 216) _ 206 (by norm_num), s1_eq, dot3, newt, Rh_zero, th_zero, rel_zero] <;> rfl
theorem s2496_at (b : Fin 128) : s2496 x0 x1 (ix1 b) = Rh (Rk x0 b) 22 0 2 := by
  simp only [s2496, k0_pay668, ValueIdx.mulf_apply, ValueIdx.addf_apply, ValueIdx.subf_apply, ValueIdx.broadcast_apply, zero_word, one_word, tovec_at, ascol_at, shapeCast_self, s405_at, s411_at, s417_at, s2308_at, s2315_at, s2322_at, dot3, newt, Rh_zero, th_zero, rel_zero, Rh_at _ 22 20 (by norm_num) rfl, th_at _ _ 22 20 (by norm_num) rfl, rel_at _ 22 20 (by norm_num) rfl] <;> rfl
theorem s407_at (b : Fin 128) : s407 x0 x1 (ix1 b) = Rk x0 b 22 1 0 := by
  simp only [s407, k0_pay214, ValueIdx.mulf_apply, ValueIdx.addf_apply, ValueIdx.subf_apply, ValueIdx.broadcast_apply, zero_word, one_word, tovec_at, ascol_at, shapeCast_self, slice_at (N := 216) _ 201 (by norm_num), s1_eq, dot3, newt, Rh_zero, th_zero, rel_zero] <;> rfl
theorem s413_at (b : Fin 128) : s413 x0 x1 (ix1 b) = Rk x0 b 22 2 0 := by
  simp only [s413, k0_pay217, ValueIdx.mulf_apply, ValueIdx.addf_apply, ValueIdx.subf_apply, ValueIdx.broadcast_apply, zero_word, one_word, tovec_at, ascol_at, shapeCast_self, slice_at (N := 216) _ 204 (by norm_num), s1_eq, dot3, newt, Rh_zero, th_zero, rel_zero] <;> rfl
theorem s401_at (b : Fin 128) : s401 x0 x1 (ix1 b) = Rk x0 b 22 0 0 := by
  simp only [s401, k0_pay211, ValueIdx.mulf_apply, ValueIdx.addf_apply, ValueIdx.subf_apply, ValueIdx.broadcast_apply, zero_word, one_word, tovec_at, ascol_at, shapeCast_self, slice_at (N := 216) _ 198 (by norm_num), s1_eq, dot3, newt, Rh_zero, th_zero, rel_zero] <;> rfl
theorem s2497_at (b : Fin 128) : s2497 x0 x1 (ix1 b) = ((Rh (Rk x0 b) 20 1 0) * (Rk x0 b 22 0 0)) := by
  simp only [s2497, k0_pay669, ValueIdx.mulf_apply, ValueIdx.addf_apply, ValueIdx.subf_apply, ValueIdx.broadcast_apply, zero_word, one_word, tovec_at, ascol_at, shapeCast_self, s401_at, s2329_at, dot3, newt, Rh_zero, th_zero, rel_zero] <;> rfl
theorem s2498_at (b : Fin 128) : s2498 x0 x1 (ix1 b) = (0 : EReal) := by
  simp only [s2498, k0_pay670, ValueIdx.mulf_apply, ValueIdx.addf_apply, ValueIdx.subf_apply, ValueIdx.broadcast_apply, zero_word, one_word, tovec_at, ascol_at, shapeCast_self, dot3, newt, Rh_zero, th_zero, rel_zero] <;> rfl
theorem s2503_at (b : Fin 128) : s2503 x0 x1 (ix1 b) = Rh (Rk x0 b) 22 1 0 := by
  simp only [s2503, k0_pay671, ValueIdx.mulf_apply, ValueIdx.addf_apply, ValueIdx.subf_apply, ValueIdx.broadcast_apply, zero_word, one_word, tovec_at, ascol_at, shapeCast_self, s407_at, s413_at, s2336_at, s2343_at, s2497_at, s2498_at, dot3, newt, Rh_zero, th_zero, rel_zero, Rh_at _ 22 20 (by norm_num) rfl, th_at _ _ 22 20 (by norm_num) rfl, rel_at _ 22 20 (by norm_num) rfl] <;> rfl
theorem s403_at (b : Fin 128) : s403 x0 x1 (ix1 b) = Rk x0 b 22 0 1 := by
  simp only [s403, k0_pay212, ValueIdx.mulf_apply, ValueIdx.addf_apply, ValueIdx.subf_apply, ValueIdx.broadcast_apply, zero_word, one_word, tovec_at, ascol_at, shapeCast_self, slice_at (N := 216) _ 199 (by norm_num), s1_eq, dot3, newt, Rh_zero, th_zero, rel_zero] <;> rfl
theorem s409_at (b : Fin 128) : s409 x0 x1 (ix1 b) = Rk x0 b 22 1 1 := by
  simp only [s409, k0_pay215, ValueIdx.mulf_apply, ValueIdx.addf_apply, ValueIdx.subf_apply, ValueIdx.broadcast_apply, zero_word, one_word, tovec_at, ascol_at, shapeCast_self, slice_at (N := 216) _ 202 (by norm_num), s1_eq, dot3, newt, Rh_zero, th_zero, rel_zero] <;> rfl
theorem s414_at (b : Fin 128) : s414 x0 x1 (ix2 b (0 : Fin 1)) = Rk x0 b 22 2 1 := by
  simp only [s414, k0_pay218, ValueIdx.mulf_apply, ValueIdx.addf_apply, ValueIdx.subf_apply, ValueIdx.broadcast_apply, zero_word, one_word, tovec_at, ascol_at, shapeCast_self, slice_at (N := 216) _ 205 (by norm_num), s1_eq, dot3, newt, Rh_zero, th_zero, rel_zero] <;> rfl
theorem s415_at (b : Fin 128) : s415 x0 x1 (ix1 b) = Rk x0 b 22 2 1 := by
  simp only [s415, k0_pay219, ValueIdx.mulf_apply, ValueIdx.addf_apply, ValueIdx.subf_apply, ValueIdx.broadcast_apply, zero_word, one_word, tovec_at, ascol_at, shapeCast_self, s414_at, dot3, newt, Rh_zero, th_zero, rel_zero] <;> rfl
theorem s2510_at (b : Fin 128) : s2510 x0 x1 (ix1 b) = Rh (Rk x0 b) 22 1 1 := by
  simp only [s2510, k0_pay672, ValueIdx.mulf_apply, ValueIdx.addf_apply, ValueIdx.subf_apply, ValueIdx.broadcast_apply, zero_word, one_word, tovec_at, ascol_at, shapeCast_self, s403_at, s409_at, s415_at, s2329_at, s2336_at, s2343_at, dot3, newt, Rh_zero, th_zero, rel_zero, Rh_at _ 22 20 (by norm_num) rfl, th_at _ _ 22 20 (by norm_num) rfl, rel_at _ 22 20 (by norm_num) rfl] <;> rfl
theorem s2517_at (b : Fin 128) : s2517 x0 x1 (ix1 b) = Rh (Rk x0 b) 22 1 2 := by
  simp only [s2517, k0_pay673, ValueIdx.mulf_apply, ValueIdx.addf_apply, ValueIdx.subf_apply, ValueIdx.broadcast_apply, zero_word, one_word, tovec_at, ascol_at, shapeCast_self, s405_at, s411_at, s417_at, s2329_at, s2336_at, s2343_at, dot3, newt, Rh_zero, th_zero, rel_zero, Rh_at _ 22 20 (by norm_num) rfl, th_at _ _ 22 20 (by norm_num) rfl, rel_at _ 22 20 (by norm_num) rfl] <;> rfl
theorem s2524_at (b : Fin 128) : s2524 x0 x1 (ix1 b) = Rh (Rk x0 b) 22 2 0 := by
  simp only [s2524, k0_pay674, ValueIdx.mulf_apply, ValueIdx.addf_apply, ValueIdx.subf_apply, ValueIdx.broadcast_apply, zero_word, one_word, tovec_at, ascol_at, shapeCast_self, s401_at, s407_at, s413_at, s2350_at, s2357_at, s2364_at, dot3, newt, Rh_zero, th_zero, rel_zero, Rh_at _ 22 20 (by norm_num) rfl, th_at _ _ 22 20 (by norm_num) rfl, rel_at _ 22 20 (by norm_num) rfl] <;> rfl
theorem s2531_at (b : Fin 128) : s2531 x0 x1 (ix1 b) = Rh (Rk x0 b) 22 2 1 := by
  simp only [s2531, k0_pay675, ValueIdx.mulf_apply, ValueIdx.addf_apply, ValueIdx.subf_apply, ValueIdx.broadcast_apply, zero_word, one_word, tovec_at, ascol_at, shapeCast_self, s403_at, s409_at, s415_at, s2350_at, s2357_at, s2364_at, dot3, newt, Rh_zero, th_zero, rel_zero, Rh_at _ 22 20 (by norm_num) rfl, th_at _ _ 22 20 (by norm_num) rfl, rel_at _ 22 20 (by norm_num) rfl] <;> rfl
theorem s2538_at (b : Fin 128) : s2538 x0 x1 (ix1 b) = Rh (Rk x0 b) 22 2 2 := by
  simp only [s2538, k0_pay676, ValueIdx.mulf_apply, ValueIdx.addf_apply, ValueIdx.subf_apply, ValueIdx.broadcast_apply, zero_word, one_word, tovec_at, ascol_at, shapeCast_self, s405_at, s411_at, s417_at, s2350_at, s2357_at, s2364_at, dot3, newt, Rh_zero, th_zero, rel_zero, Rh_at _ 22 20 (by norm_num) rfl, th_at _ _ 22 20 (by norm_num) rfl, rel_at _ 22 20 (by norm_num) rfl] <;> rfl
theorem s569_at (b : Fin 128) : s569 x0 x1 (ix1 b) = pk x1 b 22 0 := by
  simp only [s569, k0_pay298, ValueIdx.mulf_apply, ValueIdx.addf_apply, ValueIdx.subf_apply, ValueIdx.broadcast_apply, zero_word, one_word, tovec_at, ascol_at, shapeCast_self, slice_at (N := 72) _ 66 (by norm_num), s3_eq, dot3, newt, Rh_zero, th_zero, rel_zero] <;> rfl
theorem s571_at (b : Fin 128) : s571 x0 x1 (ix1 b) = pk x1 b 22 1 := by
  simp only [s571, k0_pay299, ValueIdx.mulf_apply, ValueIdx.addf_apply, ValueIdx.subf_apply, ValueIdx.broadcast_apply, zero_word, one_word, tovec_at, ascol_at, shapeCast_self, slice_at (N := 72) _ 67 (by norm_num), s3_eq, dot3, newt, Rh_zero, th_zero, rel_zero] <;> rfl
theorem s573_at (b : Fin 128) : s573 x0 x1 (ix1 b) = pk x1 b 22 2 := by
  simp only [s573, k0_pay300, ValueIdx.mulf_apply, ValueIdx.addf_apply, ValueIdx.subf_apply, ValueIdx.broadcast_apply, zero_word, one_word, tovec_at, ascol_at, shapeCast_self, slice_at (N := 72) _ 68 (by norm_num), s3_eq, dot3, newt, Rh_zero, th_zero, rel_zero] <;> rfl
theorem s2482_at (b : Fin 128) : s2482 x0 x1 (ix1 b) = Rh (Rk x0 b) 22 0 0 := by
  simp only [s2482, k0_pay666, ValueIdx.mulf_apply, ValueIdx.addf_apply, ValueIdx.subf_apply, ValueIdx.broadcast_apply, zero_word, one_word, tovec_at, ascol_at, shapeCast_self, s401_at, s407_at, s413_at, s2308_at, s2315_at, s2322_at, dot3, newt, Rh_zero, th_zero, rel_zero, Rh_at _ 22 20 (by norm_num) rfl, th_at _ _ 22 20 (by norm_num) rfl, rel_at _ 22 20 (by norm_num) rfl] <;> rfl
theorem s2489_at (b : Fin 128) : s2489 x0 x1 (ix1 b) = Rh (Rk x0 b) 22 0 1 := by
  simp only [s2489, k0_pay667, ValueIdx.mulf_apply, ValueIdx.addf_apply, ValueIdx.subf_apply, ValueIdx.broadcast_apply, zero_word, one_word, tovec_at, ascol_at, shapeCast_self, s403_at, s409_at, s415_at, s2308_at, s2315_at, s2322_at, dot3, newt, Rh_zero, th_zero, rel_zero, Rh_at _ 22 20 (by norm_num) rfl, th_at _ _ 22 20 (by norm_num) rfl, rel_at _ 22 20 (by norm_num) rfl] <;> rfl
theorem s643_at (b : Fin 128) : s643 x0 x1 (ix1 b) = rel (pk x1 b) 22 0 := by
  simp only [s643, k0_pay367, ValueIdx.mulf_apply, ValueIdx.addf_apply, ValueIdx.subf_apply, ValueIdx.broadcast_apply, zero_word, one_word, tovec_at, ascol_at, shapeCast_self, s557_at, s569_at, dot3, newt, Rh_zero, th_zero, rel_zero, Rh_at _ 22 20 (by norm_num) rfl, th_at _ _ 22 20 (by norm_num) rfl, rel_at _ 22 20 (by norm_num) rfl] <;> rfl
theorem s644_at (b : Fin 128) : s644 x0 x1 (ix1 b) = rel (pk x1 b) 22 1 := by
  simp only [s644, k0_pay368, ValueIdx.mulf_apply, ValueIdx.addf_apply, ValueIdx.subf_apply, ValueIdx.broadcast_apply, zero_word, one_word, tovec_at, ascol_at, shapeCast_self, s559_at, s571_at, dot3, newt, Rh_zero, th_zero, rel_zero, Rh_at _ 22 20 (by norm_num) rfl, th_at _ _ 22 20 (by norm_num) rfl, rel_at _ 22 20 (by norm_num) rfl] <;> rfl
theorem s645_at (b : Fin 128) : s645 x0 x1 (ix1 b) = rel (pk x1 b) 22 2 := by
  simp only [s645, k0_pay369, ValueIdx.mulf_apply, ValueIdx.addf_apply, ValueIdx.subf_apply, ValueIdx.broadcast_apply, zero_word, one_word, tovec_at, ascol_at, shapeCast_self, s561_at, s573_at, dot3, newt, Rh_zero, th_zero, rel_zero, Rh_at _ 22 20 (by norm_num) rfl, th_at _ _ 22 20 (by norm_num) rfl, rel_at _ 22 20 (by norm_num) rfl] <;> rfl
theorem s2546_at (b : Fin 128) : s2546 x0 x1 (ix1 b) = th (Rk x0 b) (pk x1 b) 22 0 := by
  simp only [s2546, k0_pay677, ValueIdx.mulf_apply, ValueIdx.addf_apply, ValueIdx.subf_apply, ValueIdx.broadcast_apply, zero_word, one_word, tovec_at, ascol_at, shapeCast_self, s643_at, s644_at, s645_at, s2308_at, s2315_at, s2322_at, s2372_at, dot3, newt, Rh_zero, th_zero, rel_zero, Rh_at _ 22 20 (by norm_num) rfl, th_at _ _ 22 20 (by norm_num) rfl, rel_at _ 22 20 (by norm_num) rfl] <;> rfl
theorem s3649_at (b : Fin 128) : s3649 x0 x1 (ix1 b) = newt (Rk x0 b) (pk x1 b) 22 0 := by
  simp only [s3649, k0_pay835, ValueIdx.mulf_apply, ValueIdx.addf_apply, ValueIdx.subf_apply, ValueIdx.broadcast_apply, zero_word, one_word, tovec_at, ascol_at, shapeCast_self, s569_at, s571_at, s573_at, s2482_at, s2489_at, s2496_at, s2546_at, dot3, newt, Rh_zero, th_zero, rel_zero, Rh_at _ 22 20 (by norm_num) rfl, th_at _ _ 22 20 (by norm_num) rfl, rel_at _ 22 20 (by norm_num) rfl] <;> rfl
theorem s2551_at (b : Fin 128) : s2551 x0 x1 (ix1 b) = (((0 : EReal) + ((Rh (Rk x0 b) 20 1 0) * (rel (pk x1 b) 22 0))) + ((Rh (Rk x0 b) 20 1 1) * (rel (pk x1 b) 22 1))) := by
  simp only [s2551, k0_pay678, ValueIdx.mulf_apply, ValueIdx.addf_apply, ValueIdx.subf_apply, ValueIdx.broadcast_apply, zero_word, one_word, tovec_at, ascol_at, shapeCast_self, s643_at, s644_at, s2329_at, s2336_at, dot3, newt, Rh_zero, th_zero, rel_zero] <;> rfl
theorem s2554_at (b : Fin 128) : s2554 x0 x1 (ix1 b) = th (Rk x0 b) (pk x1 b) 22 1 := by
  simp only [s2554, k0_pay679, ValueIdx.mulf_apply, ValueIdx.addf_apply, ValueIdx.subf_apply, ValueIdx.broadcast_apply, zero_word, one_word, tovec_at, ascol_at, shapeCast_self, s645_at, s2343_at, s2380_at, s2551_at, dot3, newt, Rh_zero, th_zero, rel_zero, Rh_at _ 22 20 (by norm_num) rfl, th_at _ _ 22 20 (by norm_num) rfl, rel_at _ 22 20 (by norm_num) rfl] <;> rfl
theorem s3657_at (b : Fin 128) : s3657 x0 x1 (ix1 b) = newt (Rk x0 b) (pk x1 b) 22 1 := by
  simp only [s3657, k0_pay836, ValueIdx.mulf_apply, ValueIdx.addf_apply, ValueIdx.subf_apply, ValueIdx.broadcast_apply, zero_word, one_word, tovec_at, ascol_at, shapeCast_self, s569_at, s571_at, s573_at, s2503_at, s2510_at, s2517_at, s2554_at, dot3, newt, Rh_zero, th_zero, rel_zero, Rh_at _ 22 20 (by norm_num) rfl, th_at _ _ 22 20 (by norm_num) rfl, rel_at _ 22 20 (by norm_num) rfl] <;> rfl
theorem s2562_at (b : Fin 128) : s2562 x0 x1 (ix1 b) = th (Rk x0 b) (pk x1 b) 22 2 := by
  simp only [s2562, k0_pay680, ValueIdx.mulf_apply, ValueIdx.addf_apply, ValueIdx.subf_apply, ValueIdx.broadcast_apply, zero_word, one_word, tovec_at, ascol_at, shapeCast_self, s643_at, s644_at, s645_at, s2350_at, s2357_at, s2364_at, s2388_at, dot3, newt, Rh_zero, th_zero, rel_zero, Rh_at _ 22 20 (by norm_num) rfl, th_at _ _ 22 20 (by norm_num) rfl, rel_at _ 22 20 (by norm_num) rfl] <;> rfl
theorem s3665_at (b : Fin 128) : s3665 x0 x1 (ix1 b) = newt (Rk x0 b) (pk x1 b) 22 2 := by
  simp only [s3665, k0_pay837, ValueIdx.mulf_apply, ValueIdx.addf_apply, ValueIdx.subf_apply, ValueIdx.broadcast_apply, zero_word, one_word, tovec_at, ascol_at, shapeCast_self, s569_at, s571_at, s573_at, s2524_at, s2531_at, s2538_at, s2562_at, dot3, newt, Rh_zero, th_zero, rel_zero, Rh_at _ 22 20 (by norm_num) rfl, th_at _ _ 22 20 (by norm_num) rfl, rel_at _ 22 20 (by norm_num) rfl] <;> rfl
theorem s3666_at (b : Fin 128) : s3666 x0 x1 (ix2 b (0 : Fin 1)) = Rh (Rk x0 b) 22 0 0 := by
  simp only [s3666, k0_pay838, ValueIdx.mulf_apply, ValueIdx.addf_apply, ValueIdx.subf_apply, ValueIdx.broadcast_apply, zero_word, one_word, tovec_at, ascol_at, shapeCast_self, s2482_at, dot3, newt, Rh_zero, th_zero, rel_zero, Rh_at _ 22 20 (by norm_num) rfl, th_at _ _ 22 20 (by norm_num) rfl, rel_at _ 22 20 (by norm_num) rfl] <;> rfl
theorem s3667_at (b : Fin 128) : s3667 x0 x1 (ix2 b (0 : Fin 1)) = Rh (Rk x0 b) 22 0 1 := by
  simp only [s3667, k0_pay839, ValueIdx.mulf_apply, ValueIdx.addf_apply, ValueIdx.subf_apply, ValueIdx.broadcast_apply, zero_word, one_word, tovec_at, ascol_at, shapeCast_self, s2489_at, dot3, newt, Rh_zero, th_zero, rel_zero, Rh_at _ 22 20 (by norm_num) rfl, th_at _ _ 22 20 (by norm_num) rfl, rel_at _ 22 20 (by norm_num) rfl] <;> rfl
theorem s3682_c0 (b : Fin 128) : s3682 x0 x1 (ix2 b (⟨0, by norm_num⟩ : Fin 16)) = Rh (Rk x0 b) 22 0 0 := by
  simp only [s3682, k0_pay840]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s2496_at, s2503_at, s2510_at, s2517_at, s2524_at, s2531_at, s2538_at, s2650_at, s2651_at, s3649_at, s3657_at, s3665_at, s3666_at, s3667_at, dot3, newt, Rh_zero, th_zero, rel_zero, Rh_at _ 22 20 (by norm_num) rfl, th_at _ _ 22 20 (by norm_num) rfl, rel_at _ 22 20 (by norm_num) rfl] <;> rfl
theorem s3682_c1 (b : Fin 128) : s3682 x0 x1 (ix2 b (⟨1, by norm_num⟩ : Fin 16)) = Rh (Rk x0 b) 22 0 1 := by
  simp only [s3682, k0_pay840]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s2496_at, s2503_at, s2510_at, s2517_at, s2524_at, s2531_at, s2538_at, s2650_at, s2651_at, s3649_at, s3657_at, s3665_at, s3666_at, s3667_at, dot3, newt, Rh_zero, th_zero, rel_zero, Rh_at _ 22 20 (by norm_num) rfl, th_at _ _ 22 20 (by norm_num) rfl, rel_at _ 22 20 (by norm_num) rfl] <;> rfl
theorem s3682_c2 (b : Fin 128) : s3682 x0 x1 (ix2 b (⟨2, by norm_num⟩ : Fin 16)) = Rh (Rk x0 b) 22 0 2 := by
  simp only [s3682, k0_pay840]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s2496_at, s2503_at, s2510_at, s2517_at, s2524_at, s2531_at, s2538_at, s2650_at, s2651_at, s3649_at, s3657_at, s3665_at, s3666_at, s3667_at, dot3, newt, Rh_zero, th_zero, rel_zero, Rh_at _ 22 20 (by norm_num) rfl, th_at _ _ 22 20 (by norm_num) rfl, rel_at _ 22 20 (by norm_num) rfl] <;> rfl
theorem s3682_c3 (b : Fin 128) : s3682 x0 x1 (ix2 b (⟨3, by norm_num⟩ : Fin 16)) = newt (Rk x0 b) (pk x1 b) 22 0 := by
  simp only [s3682, k0_pay840]
  refine (concat_unit_piece 3 (by norm_num) _ _ _ (by simp) rfl rfl b).trans ?_
  simp only [ValueIdx.mulf_apply, ValueIdx.addf_apply, ValueIdx.subf_apply, ValueIdx.broadcast_apply, zero_word, one_word, tovec_at, ascol_at, shapeCast_self, s2496_at, s2503_at, s2510_at, s2517_at, s2524_at, s2531_at, s2538_at, s2650_at, s2651_at, s3649_at, s3657_at, s3665_at, s3666_at, s3667_at, dot3, newt, Rh_zero, th_zero, rel_zero, Rh_at _ 22 20 (by norm_num) rfl, th_at _ _ 22 20 (by norm_num) rfl, rel_at _ 22 20 (by norm_num) rfl] <;> rfl
theorem s3682_c4 (b : Fin 128) : s3682 x0 x1 (ix2 b (⟨4, by norm_num⟩ : Fin 16)) = Rh (Rk x0 b) 22 1 0 := by
  simp only [s3682, k0_pay840]
  refine (concat_unit_piece 4 (by norm_num) _ _ _ (by simp) rfl rfl b).trans ?_
  simp only [ValueIdx.mulf_apply, ValueIdx.addf_apply, ValueIdx.subf_apply, ValueIdx.broadcast_apply, zero_word, one_word, tovec_at, ascol_at, shapeCast_self, s2496_at, s2503_at, s2510_at, s2517_at, s2524_at, s2531_at, s2538_at, s2650_at, s2651_at, s3649_at, s3657_at, s3665_at, s3666_at, s3667_at, dot3, newt, Rh_zero, th_zero, rel_zero, Rh_at _ 22 20 (by norm_num) rfl, th_at _ _ 22 20 (by norm_num) rfl, rel_at _ 22 20 (by norm_num) rfl] <;> rfl
theorem s3682_c5 (b : Fin 128) : s3682 x0 x1 (ix2 b (⟨5, by norm_num⟩ : Fin 16)) = Rh (Rk x0 b) 22 1 1 := by
  simp only [s3682, k0_pay840]
  refine (concat_unit_piece 5 (by norm_num) _ _ _ (by simp) rfl rfl b).trans ?_
  simp only [ValueIdx.mulf_apply, ValueIdx.addf_apply, ValueIdx.subf_apply, ValueIdx.broadcast_apply, zero_word, one_word, tovec_at, ascol_at, shapeCast_self, s2496_at, s2503_at, s2510_at, s2517_at, s2524_at, s2531_at, s2538_at, s2650_at, s2651_at, s3649_at, s3657_at, s3665_at, s3666_at, s3667_at, dot3, newt, Rh_zero, th_zero, rel_zero, Rh_at _ 22 20 (by norm_num) rfl, th_at _ _ 22 20 (by norm_num) rfl, rel_at _ 22 20 (by norm_num) rfl] <;> rfl
theorem s3682_c6 (b : Fin 128) : s3682 x0 x1 (ix2 b (⟨6, by norm_num⟩ : Fin 16)) = Rh (Rk x0 b) 22 1 2 := by
  simp only [s3682, k0_pay840]
  refine (concat_unit_piece 6 (by norm_num) _ _ _ (by simp) rfl rfl b).trans ?_
  simp only [ValueIdx.mulf_apply, ValueIdx.addf_apply, ValueIdx.subf_apply, ValueIdx.broadcast_apply, zero_word, one_word, tovec_at, ascol_at, shapeCast_self, s2496_at, s2503_at, s2510_at, s2517_at, s2524_at, s2531_at, s2538_at, s2650_at, s2651_at, s3649_at, s3657_at, s3665_at, s3666_at, s3667_at, dot3, newt, Rh_zero, th_zero, rel_zero, Rh_at _ 22 20 (by norm_num) rfl, th_at _ _ 22 20 (by norm_num) rfl, rel_at _ 22 20 (by norm_num) rfl] <;> rfl
theorem s3682_c7 (b : Fin 128) : s3682 x0 x1 (ix2 b (⟨7, by norm_num⟩ : Fin 16)) = newt (Rk x0 b) (pk x1 b) 22 1 := by
  simp only [s3682, k0_pay840]
  refine (concat_unit_piece 7 (by norm_num) _ _ _ (by simp) rfl rfl b).trans ?_
  simp only [ValueIdx.mulf_apply, ValueIdx.addf_apply, ValueIdx.subf_apply, ValueIdx.broadcast_apply, zero_word, one_word, tovec_at, ascol_at, shapeCast_self, s2496_at, s2503_at, s2510_at, s2517_at, s2524_at, s2531_at, s2538_at, s2650_at, s2651_at, s3649_at, s3657_at, s3665_at, s3666_at, s3667_at, dot3, newt, Rh_zero, th_zero, rel_zero, Rh_at _ 22 20 (by norm_num) rfl, th_at _ _ 22 20 (by norm_num) rfl, rel_at _ 22 20 (by norm_num) rfl] <;> rfl
theorem s3682_c8 (b : Fin 128) : s3682 x0 x1 (ix2 b (⟨8, by norm_num⟩ : Fin 16)) = Rh (Rk x0 b) 22 2 0 := by
  simp only [s3682, k0_pay840]
  refine (concat_unit_piece 8 (by norm_num) _ _ _ (by simp) rfl rfl b).trans ?_
  simp only [ValueIdx.mulf_apply, ValueIdx.addf_apply, ValueIdx.subf_apply, ValueIdx.broadcast_apply, zero_word, one_word, tovec_at, ascol_at, shapeCast_self, s2496_at, s2503_at, s2510_at, s2517_at, s2524_at, s2531_at, s2538_at, s2650_at, s2651_at, s3649_at, s3657_at, s3665_at, s3666_at, s3667_at, dot3, newt, Rh_zero, th_zero, rel_zero, Rh_at _ 22 20 (by norm_num) rfl, th_at _ _ 22 20 (by norm_num) rfl, rel_at _ 22 20 (by norm_num) rfl] <;> rfl
theorem s3682_c9 (b : Fin 128) : s3682 x0 x1 (ix2 b (⟨9, by norm_num⟩ : Fin 16)) = Rh (Rk x0 b) 22 2 1 := by
  simp only [s3682, k0_pay840]
  refine (concat_unit_piece 9 (by norm_num) _ _ _ (by simp) rfl rfl b).trans ?_
  simp only [ValueIdx.mulf_apply, ValueIdx.addf_apply, ValueIdx.subf_apply, ValueIdx.broadcast_apply, zero_word, one_word, tovec_at, ascol_at, shapeCast_self, s2496_at, s2503_at, s2510_at, s2517_at, s2524_at, s2531_at, s2538_at, s2650_at, s2651_at, s3649_at, s3657_at, s3665_at, s3666_at, s3667_at, dot3, newt, Rh_zero, th_zero, rel_zero, Rh_at _ 22 20 (by norm_num) rfl, th_at _ _ 22 20 (by norm_num) rfl, rel_at _ 22 20 (by norm_num) rfl] <;> rfl
theorem s3682_c10 (b : Fin 128) : s3682 x0 x1 (ix2 b (⟨10, by norm_num⟩ : Fin 16)) = Rh (Rk x0 b) 22 2 2 := by
  simp only [s3682, k0_pay840]
  refine (concat_unit_piece 10 (by norm_num) _ _ _ (by simp) rfl rfl b).trans ?_
  simp only [ValueIdx.mulf_apply, ValueIdx.addf_apply, ValueIdx.subf_apply, ValueIdx.broadcast_apply, zero_word, one_word, tovec_at, ascol_at, shapeCast_self, s2496_at, s2503_at, s2510_at, s2517_at, s2524_at, s2531_at, s2538_at, s2650_at, s2651_at, s3649_at, s3657_at, s3665_at, s3666_at, s3667_at, dot3, newt, Rh_zero, th_zero, rel_zero, Rh_at _ 22 20 (by norm_num) rfl, th_at _ _ 22 20 (by norm_num) rfl, rel_at _ 22 20 (by norm_num) rfl] <;> rfl
theorem s3682_c11 (b : Fin 128) : s3682 x0 x1 (ix2 b (⟨11, by norm_num⟩ : Fin 16)) = newt (Rk x0 b) (pk x1 b) 22 2 := by
  simp only [s3682, k0_pay840]
  refine (concat_unit_piece 11 (by norm_num) _ _ _ (by simp) rfl rfl b).trans ?_
  simp only [ValueIdx.mulf_apply, ValueIdx.addf_apply, ValueIdx.subf_apply, ValueIdx.broadcast_apply, zero_word, one_word, tovec_at, ascol_at, shapeCast_self, s2496_at, s2503_at, s2510_at, s2517_at, s2524_at, s2531_at, s2538_at, s2650_at, s2651_at, s3649_at, s3657_at, s3665_at, s3666_at, s3667_at, dot3, newt, Rh_zero, th_zero, rel_zero, Rh_at _ 22 20 (by norm_num) rfl, th_at _ _ 22 20 (by norm_num) rfl, rel_at _ 22 20 (by norm_num) rfl] <;> rfl
theorem s3682_c12 (b : Fin 128) : s3682 x0 x1 (ix2 b (⟨12, by norm_num⟩ : Fin 16)) = (0 : EReal) := by
  simp only [s3682, k0_pay840]
  refine (concat_unit_piece 12 (by norm_num) _ _ _ (by simp) rfl rfl b).trans ?_
  simp only [ValueIdx.mulf_apply, ValueIdx.addf_apply, ValueIdx.subf_apply, ValueIdx.broadcast_apply, zero_word, one_word, tovec_at, ascol_at, shapeCast_self, s2496_at, s2503_at, s2510_at, s2517_at, s2524_at, s2531_at, s2538_at, s2650_at, s2651_at, s3649_at, s3657_at, s3665_at, s3666_at, s3667_at, dot3, newt, Rh_zero, th_zero, rel_zero, Rh_at _ 22 20 (by norm_num) rfl, th_at _ _ 22 20 (by norm_num) rfl, rel_at _ 22 20 (by norm_num) rfl] <;> rfl
theorem s3682_c13 (b : Fin 128) : s3682 x0 x1 (ix2 b (⟨13, by norm_num⟩ : Fin 16)) = (0 : EReal) := by
  simp only [s3682, k0_pay840]
  refine (concat_unit_piece 13 (by norm_num) _ _ _ (by simp) rfl rfl b).trans ?_
  simp only [ValueIdx.mulf_apply, ValueIdx.addf_apply, ValueIdx.subf_apply, ValueIdx.broadcast_apply, zero_word, one_word, tovec_at, ascol_at, shapeCast_self, s2496_at, s2503_at, s2510_at, s2517_at, s2524_at, s2531_at, s2538_at, s2650_at, s2651_at, s3649_at, s3657_at, s3665_at, s3666_at, s3667_at, dot3, newt, Rh_zero, th_zero, rel_zero, Rh_at _ 22 20 (by norm_num) rfl, th_at _ _ 22 20 (by norm_num) rfl, rel_at _ 22 20 (by norm_num) rfl] <;> rfl
theorem s3682_c14 (b : Fin 128) : s3682 x0 x1 (ix2 b (⟨14, by norm_num⟩ : Fin 16)) = (0 : EReal) := by
  simp only [s3682, k0_pay840]
  refine (concat_unit_piece 14 (by norm_num) _ _ _ (by simp) rfl rfl b).trans ?_
  simp only [ValueIdx.mulf_apply, ValueIdx.addf_apply, ValueIdx.subf_apply, ValueIdx.broadcast_apply, zero_word, one_word, tovec_at, ascol_at, shapeCast_self, s2496_at, s2503_at, s2510_at, s2517_at, s2524_at, s2531_at, s2538_at, s2650_at, s2651_at, s3649_at, s3657_at, s3665_at, s3666_at, s3667_at, dot3, newt, Rh_zero, th_zero, rel_zero, Rh_at _ 22 20 (by norm_num) rfl, th_at _ _ 22 20 (by norm_num) rfl, rel_at _ 22 20 (by norm_num) rfl] <;> rfl
theorem s3682_c15 (b : Fin 128) : s3682 x0 x1 (ix2 b (⟨15, by norm_num⟩ : Fin 16)) = (1 : EReal) := by
  simp only [s3682, k0_pay840]
  refine (concat_unit_piece 15 (by norm_num) _ _ _ (by simp) rfl rfl b).trans ?_
  simp only [ValueIdx.mulf_apply, ValueIdx.addf_apply, ValueIdx.subf_apply, ValueIdx.broadcast_apply, zero_word, one_word, tovec_at, ascol_at, shapeCast_self, s2496_at, s2503_at, s2510_at, s2517_at, s2524_at, s2531_at, s2538_at, s2650_at, s2651_at, s3649_at, s3657_at, s3665_at, s3666_at, s3667_at, dot3, newt, Rh_zero, th_zero, rel_zero, Rh_at _ 22 20 (by norm_num) rfl, th_at _ _ 22 20 (by norm_num) rfl, rel_at _ 22 20 (by norm_num) rfl] <;> rfl
theorem s419_at (b : Fin 128) : s419 x0 x1 (ix1 b) = Rk x0 b 23 0 0 := by
  simp only [s419, k0_pay221, ValueIdx.mulf_apply, ValueIdx.addf_apply, ValueIdx.subf_apply, ValueIdx.broadcast_apply, zero_word, one_word, tovec_at, ascol_at, shapeCast_self, slice_at (N := 216) _ 207 (by norm_num), s1_eq, dot3, newt, Rh_zero, th_zero, rel_zero] <;> rfl
theorem s425_at (b : Fin 128) : s425 x0 x1 (ix1 b) = Rk x0 b 23 1 0 := by
  simp only [s425, k0_pay224, ValueIdx.mulf_apply, ValueIdx.addf_apply, ValueIdx.subf_apply, ValueIdx.broadcast_apply, zero_word, one_word, tovec_at, ascol_at, shapeCast_self, slice_at (N := 216) _ 210 (by norm_num), s1_eq, dot3, newt, Rh_zero, th_zero, rel_zero] <;> rfl
theorem s431_at (b : Fin 128) : s431 x0 x1 (ix1 b) = Rk x0 b 23 2 0 := by
  simp only [s431, k0_pay227, ValueIdx.mulf_apply, ValueIdx.addf_apply, ValueIdx.subf_apply, ValueIdx.broadcast_apply, zero_word, one_word, tovec_at, ascol_at, shapeCast_self, slice_at (N := 216) _ 213 (by norm_num), s1_eq, dot3, newt, Rh_zero, th_zero, rel_zero] <;> rfl
theorem s2569_at (b : Fin 128) : s2569 x0 x1 (ix1 b) = Rh (Rk x0 b) 23 0 0 := by
  simp only [s2569, k0_pay681, ValueIdx.mulf_apply, ValueIdx.addf_apply, ValueIdx.subf_apply, ValueIdx.broadcast_apply, zero_word, one_word, tovec_at, ascol_at, shapeCast_self, s419_at, s425_at, s431_at, s2395_at, s2402_at, s2409_at, dot3, newt, Rh_zero, th_zero, rel_zero, Rh_at _ 23 21 (by norm_num) rfl, th_at _ _ 23 21 (by norm_num) rfl, rel_at _ 23 21 (by norm_num) rfl] <;> rfl
theorem s3711_at (b : Fin 128) : s3711 x0 x1 (ix2 b (0 : Fin 1)) = Rh (Rk x0 b) 23 0 0 := by
  simp only [s3711, k0_pay842, ValueIdx.mulf_apply, ValueIdx.addf_apply, ValueIdx.subf_apply, ValueIdx.broadcast_apply, zero_word, one_word, tovec_at, ascol_at, shapeCast_self, s2569_at, dot3, newt, Rh_zero, th_zero, rel_zero, Rh_at _ 23 21 (by norm_num) rfl, th_at _ _ 23 21 (by norm_num) rfl, rel_at _ 23 21 (by norm_num) rfl] <;> rfl
theorem s421_at (b : Fin 128) : s421 x0 x1 (ix1 b) = Rk x0 b 23 0 1 := by
  simp only [s421, k0_pay222, ValueIdx.mulf_apply, ValueIdx.addf_apply, ValueIdx.subf_apply, ValueIdx.broadcast_apply, zero_word, one_word, tovec_at, ascol_at, shapeCast_self, slice_at (N := 216) _ 208 (by norm_num), s1_eq, dot3, newt, Rh_zero, th_zero, rel_zero] <;> rfl
theorem s427_at (b : Fin 128) : s427 x0 x1 (ix1 b) = Rk x0 b 23 1 1 := by
  simp only [s427, k0_pay225, ValueIdx.mulf_apply, ValueIdx.addf_apply, ValueIdx.subf_apply, ValueIdx.broadcast_apply, zero_word, one_word, tovec_at, ascol_at, shapeCast_self, slice_at (N := 216) _ 211 (by norm_num), s1_eq, dot3, newt, Rh_zero, th_zero, rel_zero] <;> rfl
theorem s433_at (b : Fin 128) : s433 x0 x1 (ix1 b) = Rk x0 b 23 2 1 := by
  simp only [s433, k0_pay228, ValueIdx.mulf_apply, ValueIdx.addf_apply, ValueIdx.subf_apply, ValueIdx.broadcast_apply, zero_word, one_word, tovec_at, ascol_at, shapeCast_self, slice_at (N := 216) _ 214 (by norm_num), s1_eq, dot3, newt, Rh_zero, th_zero, rel_zero] <;> rfl
theorem s2576_at (b : Fin 128) : s2576 x0 x1 (ix1 b) = Rh (Rk x0 b) 23 0 1 := by
  simp only [s2576, k0_pay682, ValueIdx.mulf_apply, ValueIdx.addf_apply, ValueIdx.subf_apply, ValueIdx.broadcast_apply, zero_word, one_word, tovec_at, ascol_at, shapeCast_self, s421_at, s427_at, s433_at, s2395_at, s2402_at, s2409_at, dot3, newt, Rh_zero, th_zero, rel_zero, Rh_at _ 23 21 (by norm_num) rfl, th_at _ _ 23 21 (by norm_num) rfl, rel_at _ 23 21 (by norm_num) rfl] <;> rfl
theorem s3712_at (b : Fin 128) : s3712 x0 x1 (ix2 b (0 : Fin 1)) = Rh (Rk x0 b) 23 0 1 := by
  simp only [s3712, k0_pay843, ValueIdx.mulf_apply, ValueIdx.addf_apply, ValueIdx.subf_apply, ValueIdx.broadcast_apply, zero_word, one_word, tovec_at, ascol_at, shapeCast_self, s2576_at, dot3, newt, Rh_zero, th_zero, rel_zero, Rh_at _ 23 21 (by norm_num) rfl, th_at _ _ 23 21 (by norm_num) rfl, rel_at _ 23 21 (by norm_num) rfl] <;> rfl
theorem s423_at (b : Fin 128) : s423 x0 x1 (ix1 b) = Rk x0 b 23 0 2 := by
  simp only [s423, k0_pay223, ValueIdx.mulf_apply, ValueIdx.addf_apply, ValueIdx.subf_apply, ValueIdx.broadcast_apply, zero_word, one_word, tovec_at, ascol_at, shapeCast_self, slice_at (N := 216) _ 209 (by norm_num), s1_eq, dot3, newt, Rh_zero, th_zero, rel_zero] <;> rfl
theorem s429_at (b : Fin 128) : s429 x0 x1 (ix1 b) = Rk x0 b 23 1 2 := by
  simp only [s429, k0_pay226, ValueIdx.mulf_apply, ValueIdx.addf_apply, ValueIdx.subf_apply, ValueIdx.broadcast_apply, zero_word, one_word, tovec_at, ascol_at, shapeCast_self, slice_at (N := 216) _ 212 (by norm_num), s1_eq, dot3, newt, Rh_zero, th_zero, rel_zero] <;> rfl
theorem s435_at (b : Fin 128) : s435 x0 x1 (ix1 b) = Rk x0 b 23 2 2 := by
  simp only [s435, k0_pay229, ValueIdx.mulf_apply, ValueIdx.addf_apply, ValueIdx.subf_apply, ValueIdx.broadcast_apply, zero_word, one_word, tovec_at, ascol_at, shapeCast_self, slice_at (N := 216) _ 215 (by norm_num), s1_eq, dot3, newt, Rh_zero, th_zero, rel_zero] <;> rfl
theorem s2583_at (b : Fin 128) : s2583 x0 x1 (ix1 b) = Rh (Rk x0 b) 23 0 2 := by
  simp only [s2583, k0_pay683, ValueIdx.mulf_apply, ValueIdx.addf_apply, ValueIdx.subf_apply, ValueIdx.broadcast_apply, zero_word, one_word, tovec_at, ascol_at, shapeCast_self, s423_at, s429_at, s435_at, s2395_at, s2402_at, s2409_at, dot3, newt, Rh_zero, th_zero, rel_zero, Rh_at _ 23 21 (by norm_num) rfl, th_at _ _ 23 21 (by norm_num) rfl, rel_at _ 23 21 (by norm_num) rfl] <;> rfl
theorem s3713_at (b : Fin 128) : s3713 x0 x1 (ix2 b (0 : Fin 1)) = Rh (Rk x0 b) 23 0 2 := by
  simp only [s3713, k0_pay844, ValueIdx.mulf_apply, ValueIdx.addf_apply, ValueIdx.subf_apply, ValueIdx.broadcast_apply, zero_word, one_word, tovec_at, ascol_at, shapeCast_self, s2583_at, dot3, newt, Rh_zero, th_zero, rel_zero, Rh_at _ 23 21 (by norm_num) rfl, th_at _ _ 23 21 (by norm_num) rfl, rel_at _ 23 21 (by norm_num) rfl] <;> rfl
theorem s575_at (b : Fin 128) : s575 x0 x1 (ix1 b) = pk x1 b 23 0 := by
  simp only [s575, k0_pay301, ValueIdx.mulf_apply, ValueIdx.addf_apply, ValueIdx.subf_apply, ValueIdx.broadcast_apply, zero_word, one_word, tovec_at, ascol_at, shapeCast_self, slice_at (N := 72) _ 69 (by norm_num), s3_eq, dot3, newt, Rh_zero, th_zero, rel_zero] <;> rfl
theorem s577_at (b : Fin 128) : s577 x0 x1 (ix1 b) = pk x1 b 23 1 := by
  simp only [s577, k0_pay302, ValueIdx.mulf_apply, ValueIdx.addf_apply, ValueIdx.subf_apply, ValueIdx.broadcast_apply, zero_word, one_word, tovec_at, ascol_at, shapeCast_self, slice_at (N := 72) _ 70 (by norm_num), s3_eq, dot3, newt, Rh_zero, th_zero, rel_zero] <;> rfl
theorem s579_at (b : Fin 128) : s579 x0 x1 (ix1 b) = pk x1 b 23 2 := by
  simp only [s579, k0_pay303, ValueIdx.mulf_apply, ValueIdx.addf_apply, ValueIdx.subf_apply, ValueIdx.broadcast_apply, zero_word, one_word, tovec_at, ascol_at, shapeCast_self, slice_at (N := 72) _ 71 (by norm_num), s3_eq, dot3, newt, Rh_zero, th_zero, rel_zero] <;> rfl
theorem s646_at (b : Fin 128) : s646 x0 x1 (ix1 b) = rel (pk x1 b) 23 0 := by
  simp only [s646, k0_pay370, ValueIdx.mulf_apply, ValueIdx.addf_apply, ValueIdx.subf_apply, ValueIdx.broadcast_apply, zero_word, one_word, tovec_at, ascol_at, shapeCast_self, s563_at, s575_at, dot3, newt, Rh_zero, th_zero, rel_zero, Rh_at _ 23 21 (by norm_num) rfl, th_at _ _ 23 21 (by norm_num) rfl, rel_at _ 23 21 (by norm_num) rfl] <;> rfl
theorem s647_at (b : Fin 128) : s647 x0 x1 (ix1 b) = rel (pk x1 b) 23 1 := by
  simp only [s647, k0_pay371, ValueIdx.mulf_apply, ValueIdx.addf_apply, ValueIdx.subf_apply, ValueIdx.broadcast_apply, zero_word, one_word, tovec_at, ascol_at, shapeCast_self, s565_at, s577_at, dot3, newt, Rh_zero, th_zero, rel_zero, Rh_at _ 23 21 (by norm_num) rfl, th_at _ _ 23 21 (by norm_num) rfl, rel_at _ 23 21 (by norm_num) rfl] <;> rfl
theorem s648_at (b : Fin 128) : s648 x0 x1 (ix1 b) = rel (pk x1 b) 23 2 := by
  simp only [s648, k0_pay372, ValueIdx.mulf_apply, ValueIdx.addf_apply, ValueIdx.subf_apply, ValueIdx.broadcast_apply, zero_word, one_word, tovec_at, ascol_at, shapeCast_self, s567_at, s579_at, dot3, newt, Rh_zero, th_zero, rel_zero, Rh_at _ 23 21 (by norm_num) rfl, th_at _ _ 23 21 (by norm_num) rfl, rel_at _ 23 21 (by norm_num) rfl] <;> rfl
theorem s2633_at (b : Fin 128) : s2633 x0 x1 (ix1 b) = th (Rk x0 b) (pk x1 b) 23 0 := by
  simp only [s2633, k0_pay690, ValueIdx.mulf_apply, ValueIdx.addf_apply, ValueIdx.subf_apply, ValueIdx.broadcast_apply, zero_word, one_word, tovec_at, ascol_at, shapeCast_self, s646_at, s647_at, s648_at, s2395_at, s2402_at, s2409_at, s2459_at, dot3, newt, Rh_zero, th_zero, rel_zero, Rh_at _ 23 21 (by norm_num) rfl, th_at _ _ 23 21 (by norm_num) rfl, rel_at _ 23 21 (by norm_num) rfl] <;> rfl
theorem s3714_at (b : Fin 128) : s3714 x0 x1 (ix2 b (0 : Fin 1)) = newt (Rk x0 b) (pk x1 b) 23 0 := by
  simp only [s3714, k0_pay845, ValueIdx.mulf_apply, ValueIdx.addf_apply, ValueIdx.subf_apply, ValueIdx.broadcast_apply, zero_word, one_word, tovec_at, ascol_at, shapeCast_self, s575_at, s577_at, s579_at, s2569_at, s2576_at, s2583_at, s2633_at, dot3, newt, Rh_zero, th_zero, rel_zero, Rh_at _ 23 21 (by norm_num) rfl, th_at _ _ 23 21 (by norm_num) rfl, rel_at _ 23 21 (by norm_num) rfl] <;> rfl
theorem s2590_at (b : Fin 128) : s2590 x0 x1 (ix1 b) = Rh (Rk x0 b) 23 1 0 := by
  simp only [s2590, k0_pay684, ValueIdx.mulf_apply, ValueIdx.addf_apply, ValueIdx.subf_apply, ValueIdx.broadcast_apply, zero_word, one_word, tovec_at, ascol_at, shapeCast_self, s419_at, s425_at, s431_at, s2416_at, s2423_at, s2430_at, dot3, newt, Rh_zero, th_zero, rel_zero, Rh_at _ 23 21 (by norm_num) rfl, th_at _ _ 23 21 (by norm_num) rfl, rel_at _ 23 21 (by norm_num) rfl] <;> rfl
theorem s3715_at (b : Fin 128) : s3715 x0 x1 (ix2 b (0 : Fin 1)) = Rh (Rk x0 b) 23 1 0 := by
  simp only [s3715, k0_pay846, ValueIdx.mulf_apply, ValueIdx.addf_apply, ValueIdx.subf_apply, ValueIdx.broadcast_apply, zero_word, one_word, tovec_at, ascol_at, shapeCast_self, s2590_at, dot3, newt, Rh_zero, th_zero, rel_zero, Rh_at _ 23 21 (by norm_num) rfl, th_at _ _ 23 21 (by norm_num) rfl, rel_at _ 23 21 (by norm_num) rfl] <;> rfl
theorem s2597_at (b : Fin 128) : s2597 x0 x1 (ix1 b) = Rh (Rk x0 b) 23 1 1 := by
  simp only [s2597, k0_pay685, ValueIdx.mulf_apply, ValueIdx.addf_apply, ValueIdx.subf_apply, ValueIdx.broadcast_apply, zero_word, one_word, tovec_at, ascol_at, shapeCast_self, s421_at, s427_at, s433_at, s2416_at, s2423_at, s2430_at, dot3, newt, Rh_zero, th_zero, rel_zero, Rh_at _ 23 21 (by norm_num) rfl, th_at _ _ 23 21 (by norm_num) rfl, rel_at _ 23 21 (by norm_num) rfl] <;> rfl
theorem s3716_at (b : Fin 128) : s3716 x0 x1 (ix2 b (0 : Fin 1)) = Rh (Rk x0 b) 23 1 1 := by
  simp only [s3716, k0_pay847, ValueIdx.mulf_apply, ValueIdx.addf_apply, ValueIdx.subf_apply, ValueIdx.broadcast_apply, zero_word, one_word, tovec_at, ascol_at, shapeCast_self, s2597_at, dot3, newt, Rh_zero, th_zero, rel_zero, Rh_at _ 23 21 (by norm_num) rfl, th_at _ _ 23 21 (by norm_num) rfl, rel_at _ 23 21 (by norm_num) rfl] <;> rfl
theorem s2604_at (b : Fin 128) : s2604 x0 x1 (ix1 b) = Rh (Rk x0 b) 23 1 2 := by
  simp only [s2604, k0_pay686, ValueIdx.mulf_apply, ValueIdx.addf_apply, ValueIdx.subf_apply, ValueIdx.broadcast_apply, zero_word, one_word, tovec_at, ascol_at, shapeCast_self, s423_at, s429_at, s435_at, s2416_at, s2423_at, s2430_at, dot3, newt, Rh_zero, th_zero, rel_zero, Rh_at _ 23 21 (by norm_num) rfl, th_at _ _ 23 21 (by norm_num) rfl, rel_at _ 23 21 (by norm_num) rfl] <;> rfl
theorem s3717_at (b : Fin 128) : s3717 x0 x1 (ix2 b (0 : Fin 1)) = Rh (Rk x0 b) 23 1 2 := by
  simp only [s3717, k0_pay848, ValueIdx.mulf_apply, ValueIdx.addf_apply, ValueIdx.subf_apply, ValueIdx.broadcast_apply, zero_word, one_word, tovec_at, ascol_at, shapeCast_self, s2604_at, dot3, newt, Rh_zero, th_zero, rel_zero, Rh_at _ 23 21 (by norm_num) rfl, th_at _ _ 23 21 (by norm_num) rfl, rel_at _ 23 21 (by norm_num) rfl] <;> rfl
theorem s2641_at (b : Fin 128) : s2641 x0 x1 (ix1 b) = th (Rk x0 b) (pk x1 b) 23 1 := by
  simp only [s2641, k0_pay691, ValueIdx.mulf_apply, ValueIdx.addf_apply, ValueIdx.subf_apply, ValueIdx.broadcast_apply, zero_word, one_word, tovec_at, ascol_at, shapeCast_self, s646_at, s647_at, s648_at, s2416_at, s2423_at, s2430_at, s2467_at, dot3, newt, Rh_zero, th_zero, rel_zero, Rh_at _ 23 21 (by norm_num) rfl, th_at _ _ 23 21 (by norm_num) rfl, rel_at _ 23 21 (by norm_num) rfl] <;> rfl
theorem s3718_at (b : Fin 128) : s3718 x0 x1 (ix2 b (0 : Fin 1)) = newt (Rk x0 b) (pk x1 b) 23 1 := by
  simp only [s3718, k0_pay849, ValueIdx.mulf_apply, ValueIdx.addf_apply, ValueIdx.subf_apply, ValueIdx.broadcast_apply, zero_word, one_word, tovec_at, ascol_at, shapeCast_self, s575_at, s577_at, s579_at, s2590_at, s2597_at, s2604_at, s2641_at, dot3, newt, Rh_zero, th_zero, rel_zero, Rh_at _ 23 21 (by norm_num) rfl, th_at _ _ 23 21 (by norm_num) rfl, rel_at _ 23 21 (by norm_num) rfl] <;> rfl
theorem s2611_at (b : Fin 128) : s2611 x0 x1 (ix1 b) = Rh (Rk x0 b) 23 2 0 := by
  simp only [s2611, k0_pay687, ValueIdx.mulf_apply, ValueIdx.addf_apply, ValueIdx.subf_apply, ValueIdx.broadcast_apply, zero_word, one_word, tovec_at, ascol_at, shapeCast_self, s419_at, s425_at, s431_at, s2437_at, s2444_at, s2451_at, dot3, newt, Rh_zero, th_zero, rel_zero, Rh_at _ 23 21 (by norm_num) rfl, th_at _ _ 23 21 (by norm_num) rfl, rel_at _ 23 21 (by norm_num) rfl] <;> rfl
theorem s3719_at (b : Fin 128) : s3719 x0 x1 (ix2 b (0 : Fin 1)) = Rh (Rk x0 b) 23 2 0 := by
  simp only [s3719, k0_pay850, ValueIdx.mulf_apply, ValueIdx.addf_apply, ValueIdx.subf_apply, ValueIdx.broadcast_apply, zero_word, one_word, tovec_at, ascol_at, shapeCast_self, s2611_at, dot3, newt, Rh_zero, th_zero, rel_zero, Rh_at _ 23 21 (by norm_num) rfl, th_at _ _ 23 21 (by norm_num) rfl, rel_at _ 23 21 (by norm_num) rfl] <;> rfl
theorem s2618_at (b : Fin 128) : s2618 x0 x1 (ix1 b) = Rh (Rk x0 b) 23 2 1 := by
  simp only [s2618, k0_pay688, ValueIdx.mulf_apply, ValueIdx.addf_apply, ValueIdx.subf_apply, ValueIdx.broadcast_apply, zero_word, one_word, tovec_at, ascol_at, shapeCast_self, s421_at, s427_at, s433_at, s2437_at, s2444_at, s2451_at, dot3, newt, Rh_zero, th_zero, rel_zero, Rh_at _ 23 21 (by norm_num) rfl, th_at _ _ 23 21 (by norm_num) rfl, rel_at _ 23 21 (by norm_num) rfl] <;> rfl
theorem s3720_at (b : Fin 128) : s3720 x0 x1 (ix2 b (0 : Fin 1)) = Rh (Rk x0 b) 23 2 1 := by
  simp only [s3720, k0_pay851, ValueIdx.mulf_apply, ValueIdx.addf_apply, ValueIdx.subf_apply, ValueIdx.broadcast_apply, zero_word, one_word, tovec_at, ascol_at, shapeCast_self, s2618_at, dot3, newt, Rh_zero, th_zero, rel_zero, Rh_at _ 23 21 (by norm_num) rfl, th_at _ _ 23 21 (by norm_num) rfl, rel_at _ 23 21 (by norm_num) rfl] <;> rfl
theorem s2625_at (b : Fin 128) : s2625 x0 x1 (ix1 b) = Rh (Rk x0 b) 23 2 2 := by
  simp only [s2625, k0_pay689, ValueIdx.mulf_apply, ValueIdx.addf_apply, ValueIdx.subf_apply, ValueIdx.broadcast_apply, zero_word, one_word, tovec_at, ascol_at, shapeCast_self, s423_at, s429_at, s435_at, s2437_at, s2444_at, s2451_at, dot3, newt, Rh_zero, th_zero, rel_zero, Rh_at _ 23 21 (by norm_num) rfl, th_at _ _ 23 21 (by norm_num) rfl, rel_at _ 23 21 (by norm_num) rfl] <;> rfl
theorem s3721_at (b : Fin 128) : s3721 x0 x1 (ix2 b (0 : Fin 1)) = Rh (Rk x0 b) 23 2 2 := by
  simp only [s3721, k0_pay852, ValueIdx.mulf_apply, ValueIdx.addf_apply, ValueIdx.subf_apply, ValueIdx.broadcast_apply, zero_word, one_word, tovec_at, ascol_at, shapeCast_self, s2625_at, dot3, newt, Rh_zero, th_zero, rel_zero, Rh_at _ 23 21 (by norm_num) rfl, th_at _ _ 23 21 (by norm_num) rfl, rel_at _ 23 21 (by norm_num) rfl] <;> rfl
theorem s2649_at (b : Fin 128) : s2649 x0 x1 (ix1 b) = th (Rk x0 b) (pk x1 b) 23 2 := by
  simp only [s2649, k0_pay692, ValueIdx.mulf_apply, ValueIdx.addf_apply, ValueIdx.subf_apply, ValueIdx.broadcast_apply, zero_word, one_word, tovec_at, ascol_at, shapeCast_self, s646_at, s647_at, s648_at, s2437_at, s2444_at, s2451_at, s2475_at, dot3, newt, Rh_zero, th_zero, rel_zero, Rh_at _ 23 21 (by norm_num) rfl, th_at _ _ 23 21 (by norm_num) rfl, rel_at _ 23 21 (by norm_num) rfl] <;> rfl
theorem s3722_at (b : Fin 128) : s3722 x0 x1 (ix2 b (0 : Fin 1)) = newt (Rk x0 b) (pk x1 b) 23 2 := by
  simp only [s3722, k0_pay853, ValueIdx.mulf_apply, ValueIdx.addf_apply, ValueIdx.subf_apply, ValueIdx.broadcast_apply, zero_word, one_word, tovec_at, ascol_at, shapeCast_self, s575_at, s577_at, s579_at, s2611_at, s2618_at, s2625_at, s2649_at, dot3, newt, Rh_zero, th_zero, rel_zero, Rh_at _ 23 21 (by norm_num) rfl, th_at _ _ 23 21 (by norm_num) rfl, rel_at _ 23 21 (by norm_num) rfl] <;> rfl
theorem s3723_at (b : Fin 128) : s3723 x0 x1 (ix2 b (0 : Fin 1)) = (0 : EReal) := by
  simp only [s3723, k0_pay854, ValueIdx.mulf_apply, ValueIdx.addf_apply, ValueIdx.subf_apply, ValueIdx.broadcast_apply, zero_word, one_word, tovec_at, ascol_at, shapeCast_self, s2650_at, dot3, newt, Rh_zero, th_zero, rel_zero] <;> rfl
theorem s3724_at (b : Fin 128) : s3724 x0 x1 (ix2 b (0 : Fin 1)) = (0 : EReal) := by
  simp only [s3724, k0_pay855, ValueIdx.mulf_apply, ValueIdx.addf_apply, ValueIdx.subf_apply, ValueIdx.broadcast_apply, zero_word, one_word, tovec_at, ascol_at, shapeCast_self, s2650_at, dot3, newt, Rh_zero, th_zero, rel_zero] <;> rfl
theorem s3727_c0 (b : Fin 128) : s3727 x0 x1 (ix2 b (⟨0, by norm_num⟩ : Fin 16)) = Rh (Rk x0 b) 23 0 0 := by
  simp only [s3727, k0_pay1]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3711_at, s3712_at, s3713_at, s3714_at, s3715_at, s3716_at, s3717_at, s3718_at, s3719_at, s3720_at, s3721_at, s3722_at, s3723_at, s3724_at, dot3, newt, Rh_zero, th_zero, rel_zero, Rh_at _ 23 21 (by norm_num) rfl, th_at _ _ 23 21 (by norm_num) rfl, rel_at _ 23 21 (by norm_num) rfl] <;> rfl
theorem s3727_c1 (b : Fin 128) : s3727 x0 x1 (ix2 b (⟨1, by norm_num⟩ : Fin 16)) = Rh (Rk x0 b) 23 0 1 := by
  simp only [s3727, k0_pay1]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3711_at, s3712_at, s3713_at, s3714_at, s3715_at, s3716_at, s3717_at, s3718_at, s3719_at, s3720_at, s3721_at, s3722_at, s3723_at, s3724_at, dot3, newt, Rh_zero, th_zero, rel_zero, Rh_at _ 23 21 (by norm_num) rfl, th_at _ _ 23 21 (by norm_num) rfl, rel_at _ 23 21 (by norm_num) rfl] <;> rfl
theorem s3727_c2 (b : Fin 128) : s3727 x0 x1 (ix2 b (⟨2, by norm_num⟩ : Fin 16)) = Rh (Rk x0 b) 23 0 2 := by
  simp only [s3727, k0_pay1]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3711_at, s3712_at, s3713_at, s3714_at, s3715_at, s3716_at, s3717_at, s3718_at, s3719_at, s3720_at, s3721_at, s3722_at, s3723_at, s3724_at, dot3, newt, Rh_zero, th_zero, rel_zero, Rh_at _ 23 21 (by norm_num) rfl, th_at _ _ 23 21 (by norm_num) rfl, rel_at _ 23 21 (by norm_num) rfl] <;> rfl
theorem s3727_c3 (b : Fin 128) : s3727 x0 x1 (ix2 b (⟨3, by norm_num⟩ : Fin 16)) = newt (Rk x0 b) (pk x1 b) 23 0 := by
  simp only [s3727, k0_pay1]
  refine (concat_unit_piece 3 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3711_at, s3712_at, s3713_at, s3714_at, s3715_at, s3716_at, s3717_at, s3718_at, s3719_at, s3720_at, s3721_at, s3722_at, s3723_at, s3724_at, dot3, newt, Rh_zero, th_zero, rel_zero, Rh_at _ 23 21 (by norm_num) rfl, th_at _ _ 23 21 (by norm_num) rfl, rel_at _ 23 21 (by norm_num) rfl] <;> rfl
theorem s3727_c4 (b : Fin 128) : s3727 x0 x1 (ix2 b (⟨4, by norm_num⟩ : Fin 16)) = Rh (Rk x0 b) 23 1 0 := by
  simp only [s3727, k0_pay1]
  refine (concat_unit_piece 4 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3711_at, s3712_at, s3713_at, s3714_at, s3715_at, s3716_at, s3717_at, s3718_at, s3719_at, s3720_at, s3721_at, s3722_at, s3723_at, s3724_at, dot3, newt, Rh_zero, th_zero, rel_zero, Rh_at _ 23 21 (by norm_num) rfl, th_at _ _ 23 21 (by norm_num) rfl, rel_at _ 23 21 (by norm_num) rfl] <;> rfl
theorem s3727_c5 (b : Fin 128) : s3727 x0 x1 (ix2 b (⟨5, by norm_num⟩ : Fin 16)) = Rh (Rk x0 b) 23 1 1 := by
  simp only [s3727, k0_pay1]
  refine (concat_unit_piece 5 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3711_at, s3712_at, s3713_at, s3714_at, s3715_at, s3716_at, s3717_at, s3718_at, s3719_at, s3720_at, s3721_at, s3722_at, s3723_at, s3724_at, dot3, newt, Rh_zero, th_zero, rel_zero, Rh_at _ 23 21 (by norm_num) rfl, th_at _ _ 23 21 (by norm_num) rfl, rel_at _ 23 21 (by norm_num) rfl] <;> rfl
theorem s3727_c6 (b : Fin 128) : s3727 x0 x1 (ix2 b (⟨6, by norm_num⟩ : Fin 16)) = Rh (Rk x0 b) 23 1 2 := by
  simp only [s3727, k0_pay1]
  refine (concat_unit_piece 6 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3711_at, s3712_at, s3713_at, s3714_at, s3715_at, s3716_at, s3717_at, s3718_at, s3719_at, s3720_at, s3721_at, s3722_at, s3723_at, s3724_at, dot3, newt, Rh_zero, th_zero, rel_zero, Rh_at _ 23 21 (by norm_num) rfl, th_at _ _ 23 21 (by norm_num) rfl, rel_at _ 23 21 (by norm_num) rfl] <;> rfl
theorem s3727_c7 (b : Fin 128) : s3727 x0 x1 (ix2 b (⟨7, by norm_num⟩ : Fin 16)) = newt (Rk x0 b) (pk x1 b) 23 1 := by
  simp only [s3727, k0_pay1]
  refine (concat_unit_piece 7 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3711_at, s3712_at, s3713_at, s3714_at, s3715_at, s3716_at, s3717_at, s3718_at, s3719_at, s3720_at, s3721_at, s3722_at, s3723_at, s3724_at, dot3, newt, Rh_zero, th_zero, rel_zero, Rh_at _ 23 21 (by norm_num) rfl, th_at _ _ 23 21 (by norm_num) rfl, rel_at _ 23 21 (by norm_num) rfl] <;> rfl
theorem s3727_c8 (b : Fin 128) : s3727 x0 x1 (ix2 b (⟨8, by norm_num⟩ : Fin 16)) = Rh (Rk x0 b) 23 2 0 := by
  simp only [s3727, k0_pay1]
  refine (concat_unit_piece 8 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3711_at, s3712_at, s3713_at, s3714_at, s3715_at, s3716_at, s3717_at, s3718_at, s3719_at, s3720_at, s3721_at, s3722_at, s3723_at, s3724_at, dot3, newt, Rh_zero, th_zero, rel_zero, Rh_at _ 23 21 (by norm_num) rfl, th_at _ _ 23 21 (by norm_num) rfl, rel_at _ 23 21 (by norm_num) rfl] <;> rfl
theorem s3727_c9 (b : Fin 128) : s3727 x0 x1 (ix2 b (⟨9, by norm_num⟩ : Fin 16)) = Rh (Rk x0 b) 23 2 1 := by
  simp only [s3727, k0_pay1]
  refine (concat_unit_piece 9 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3711_at, s3712_at, s3713_at, s3714_at, s3715_at, s3716_at, s3717_at, s3718_at, s3719_at, s3720_at, s3721_at, s3722_at, s3723_at, s3724_at, dot3, newt, Rh_zero, th_zero, rel_zero, Rh_at _ 23 21 (by norm_num) rfl, th_at _ _ 23 21 (by norm_num) rfl, rel_at _ 23 21 (by norm_num) rfl] <;> rfl
theorem s3727_c10 (b : Fin 128) : s3727 x0 x1 (ix2 b (⟨10, by norm_num⟩ : Fin 16)) = Rh (Rk x0 b) 23 2 2 := by
  simp only [s3727, k0_pay1]
  refine (concat_unit_piece 10 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3711_at, s3712_at, s3713_at, s3714_at, s3715_at, s3716_at, s3717_at, s3718_at, s3719_at, s3720_at, s3721_at, s3722_at, s3723_at, s3724_at, dot3, newt, Rh_zero, th_zero, rel_zero, Rh_at _ 23 21 (by norm_num) rfl, th_at _ _ 23 21 (by norm_num) rfl, rel_at _ 23 21 (by norm_num) rfl] <;> rfl
theorem s3727_c11 (b : Fin 128) : s3727 x0 x1 (ix2 b (⟨11, by norm_num⟩ : Fin 16)) = newt (Rk x0 b) (pk x1 b) 23 2 := by
  simp only [s3727, k0_pay1]
  refine (concat_unit_piece 11 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3711_at, s3712_at, s3713_at, s3714_at, s3715_at, s3716_at, s3717_at, s3718_at, s3719_at, s3720_at, s3721_at, s3722_at, s3723_at, s3724_at, dot3, newt, Rh_zero, th_zero, rel_zero, Rh_at _ 23 21 (by norm_num) rfl, th_at _ _ 23 21 (by norm_num) rfl, rel_at _ 23 21 (by norm_num) rfl] <;> rfl
theorem s3727_c12 (b : Fin 128) : s3727 x0 x1 (ix2 b (⟨12, by norm_num⟩ : Fin 16)) = (0 : EReal) := by
  simp only [s3727, k0_pay1]
  refine (concat_unit_piece 12 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3711_at, s3712_at, s3713_at, s3714_at, s3715_at, s3716_at, s3717_at, s3718_at, s3719_at, s3720_at, s3721_at, s3722_at, s3723_at, s3724_at, dot3, newt, Rh_zero, th_zero, rel_zero, Rh_at _ 23 21 (by norm_num) rfl, th_at _ _ 23 21 (by norm_num) rfl, rel_at _ 23 21 (by norm_num) rfl] <;> rfl
theorem s3727_c13 (b : Fin 128) : s3727 x0 x1 (ix2 b (⟨13, by norm_num⟩ : Fin 16)) = (0 : EReal) := by
  simp only [s3727, k0_pay1]
  refine (concat_unit_piece 13 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3711_at, s3712_at, s3713_at, s3714_at, s3715_at, s3716_at, s3717_at, s3718_at, s3719_at, s3720_at, s3721_at, s3722_at, s3723_at, s3724_at, dot3, newt, Rh_zero, th_zero, rel_zero, Rh_at _ 23 21 (by norm_num) rfl, th_at _ _ 23 21 (by norm_num) rfl, rel_at _ 23 21 (by norm_num) rfl] <;> rfl
theorem s3727_c14 (b : Fin 128) : s3727 x0 x1 (ix2 b (⟨14, by norm_num⟩ : Fin 16)) = (0 : EReal) := by
  simp only [s3727, k0_pay1]
  refine (concat_unit_piece 14 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3711_at, s3712_at, s3713_at, s3714_at, s3715_at, s3716_at, s3717_at, s3718_at, s3719_at, s3720_at, s3721_at, s3722_at, s3723_at, s3724_at, dot3, newt, Rh_zero, th_zero, rel_zero, Rh_at _ 23 21 (by norm_num) rfl, th_at _ _ 23 21 (by norm_num) rfl, rel_at _ 23 21 (by norm_num) rfl] <;> rfl
theorem s3727_c15 (b : Fin 128) : s3727 x0 x1 (ix2 b (⟨15, by norm_num⟩ : Fin 16)) = (1 : EReal) := by
  simp only [s3727, k0_pay1]
  refine (concat_unit_piece 15 (by norm_num) _ _ _ (by simp) rfl rfl b).trans ?_
  simp only [ValueIdx.mulf_apply, ValueIdx.addf_apply, ValueIdx.subf_apply, ValueIdx.broadcast_apply, zero_word, one_word, tovec_at, ascol_at, shapeCast_self, s2650_at, s2651_at, s3711_at, s3712_at, s3713_at, s3714_at, s3715_at, s3716_at, s3717_at, s3718_at, s3719_at, s3720_at, s3721_at, s3722_at, s3723_at, s3724_at, dot3, newt, Rh_zero, th_zero, rel_zero, Rh_at _ 23 21 (by norm_num) rfl, th_at _ _ 23 21 (by norm_num) rfl, rel_at _ 23 21 (by norm_num) rfl] <;> rfl
theorem s2696_c0 (b : Fin 128) : s2696 x0 x1 (ix2 b (⟨0, by norm_num⟩ : Fin 3)) = th (Rk x0 b) (pk x1 b) 0 0 := by
  simp only [s2696, k0_pay698]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s437_at, s439_at, s441_at, dot3, newt, Rh_zero, th_zero, rel_zero] <;> rfl
theorem s2696_c1 (b : Fin 128) : s2696 x0 x1 (ix2 b (⟨1, by norm_num⟩ : Fin 3)) = th (Rk x0 b) (pk x1 b) 0 1 := by
  simp only [s2696, k0_pay698]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s437_at, s439_at, s441_at, dot3, newt, Rh_zero, th_zero, rel_zero] <;> rfl
theorem s2696_c2 (b : Fin 128) : s2696 x0 x1 (ix2 b (⟨2, by norm_num⟩ : Fin 3)) = th (Rk x0 b) (pk x1 b) 0 2 := by
  simp only [s2696, k0_pay698]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s437_at, s439_at, s441_at, dot3, newt, Rh_zero, th_zero, rel_zero] <;> rfl
theorem s2741_c0 (b : Fin 128) : s2741 x0 x1 (ix2 b (⟨0, by norm_num⟩ : Fin 3)) = th (Rk x0 b) (pk x1 b) 1 0 := by
  simp only [s2741, k0_pay702]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s719_at, s727_at, s735_at, dot3, newt, Rh_zero, th_zero, rel_zero, Rh_at _ 1 0 (by norm_num) rfl, th_at _ _ 1 0 (by norm_num) rfl, rel_at _ 1 0 (by norm_num) rfl] <;> rfl
theorem s2741_c1 (b : Fin 128) : s2741 x0 x1 (ix2 b (⟨1, by norm_num⟩ : Fin 3)) = th (Rk x0 b) (pk x1 b) 1 1 := by
  simp only [s2741, k0_pay702]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s719_at, s727_at, s735_at, dot3, newt, Rh_zero, th_zero, rel_zero, Rh_at _ 1 0 (by norm_num) rfl, th_at _ _ 1 0 (by norm_num) rfl, rel_at _ 1 0 (by norm_num) rfl] <;> rfl
theorem s2741_c2 (b : Fin 128) : s2741 x0 x1 (ix2 b (⟨2, by norm_num⟩ : Fin 3)) = th (Rk x0 b) (pk x1 b) 1 2 := by
  simp only [s2741, k0_pay702]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s719_at, s727_at, s735_at, dot3, newt, Rh_zero, th_zero, rel_zero, Rh_at _ 1 0 (by norm_num) rfl, th_at _ _ 1 0 (by norm_num) rfl, rel_at _ 1 0 (by norm_num) rfl] <;> rfl
theorem s2786_c0 (b : Fin 128) : s2786 x0 x1 (ix2 b (⟨0, by norm_num⟩ : Fin 3)) = th (Rk x0 b) (pk x1 b) 2 0 := by
  simp only [s2786, k0_pay709]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s806_at, s814_at, s822_at, dot3, newt, Rh_zero, th_zero, rel_zero, Rh_at _ 2 0 (by norm_num) rfl, th_at _ _ 2 0 (by norm_num) rfl, rel_at _ 2 0 (by norm_num) rfl] <;> rfl
theorem s2786_c1 (b : Fin 128) : s2786 x0 x1 (ix2 b (⟨1, by norm_num⟩ : Fin 3)) = th (Rk x0 b) (pk x1 b) 2 1 := by
  simp only [s2786, k0_pay709]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s806_at, s814_at, s822_at, dot3, newt, Rh_zero, th_zero, rel_zero, Rh_at _ 2 0 (by norm_num) rfl, th_at _ _ 2 0 (by norm_num) rfl, rel_at _ 2 0 (by norm_num) rfl] <;> rfl
theorem s2786_c2 (b : Fin 128) : s2786 x0 x1 (ix2 b (⟨2, by norm_num⟩ : Fin 3)) = th (Rk x0 b) (pk x1 b) 2 2 := by
  simp only [s2786, k0_pay709]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s806_at, s814_at, s822_at, dot3, newt, Rh_zero, th_zero, rel_zero, Rh_at _ 2 0 (by norm_num) rfl, th_at _ _ 2 0 (by norm_num) rfl, rel_at _ 2 0 (by norm_num) rfl] <;> rfl
theorem s2831_c0 (b : Fin 128) : s2831 x0 x1 (ix2 b (⟨0, by norm_num⟩ : Fin 3)) = th (Rk x0 b) (pk x1 b) 3 0 := by
  simp only [s2831, k0_pay725]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s893_at, s901_at, s909_at, dot3, newt, Rh_zero, th_zero, rel_zero, Rh_at _ 3 0 (by norm_num) rfl, th_at _ _ 3 0 (by norm_num) rfl, rel_at _ 3 0 (by norm_num) rfl] <;> rfl
theorem s2831_c1 (b : Fin 128) : s2831 x0 x1 (ix2 b (⟨1, by norm_num⟩ : Fin 3)) = th (Rk x0 b) (pk x1 b) 3 1 := by
  simp only [s2831, k0_pay725]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s893_at, s901_at, s909_at, dot3, newt, Rh_zero, th_zero, rel_zero, Rh_at _ 3 0 (by norm_num) rfl, th_at _ _ 3 0 (by norm_num) rfl, rel_at _ 3 0 (by norm_num) rfl] <;> rfl
theorem s2831_c2 (b : Fin 128) : s2831 x0 x1 (ix2 b (⟨2, by norm_num⟩ : Fin 3)) = th (Rk x0 b) (pk x1 b) 3 2 := by
  simp only [s2831, k0_pay725]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s893_at, s901_at, s909_at, dot3, newt, Rh_zero, th_zero, rel_zero, Rh_at _ 3 0 (by norm_num) rfl, th_at _ _ 3 0 (by norm_num) rfl, rel_at _ 3 0 (by norm_num) rfl] <;> rfl
theorem s2876_c0 (b : Fin 128) : s2876 x0 x1 (ix2 b (⟨0, by norm_num⟩ : Fin 3)) = th (Rk x0 b) (pk x1 b) 4 0 := by
  simp only [s2876, k0_pay727]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s980_at, s988_at, s996_at, dot3, newt, Rh_zero, th_zero, rel_zero, Rh_at _ 4 1 (by norm_num) rfl, th_at _ _ 4 1 (by norm_num) rfl, rel_at _ 4 1 (by norm_num) rfl] <;> rfl
theorem s2876_c1 (b : Fin 128) : s2876 x0 x1 (ix2 b (⟨1, by norm_num⟩ : Fin 3)) = th (Rk x0 b) (pk x1 b) 4 1 := by
  simp only [s2876, k0_pay727]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s980_at, s988_at, s996_at, dot3, newt, Rh_zero, th_zero, rel_zero, Rh_at _ 4 1 (by norm_num) rfl, th_at _ _ 4 1 (by norm_num) rfl, rel_at _ 4 1 (by norm_num) rfl] <;> rfl
theorem s2876_c2 (b : Fin 128) : s2876 x0 x1 (ix2 b (⟨2, by norm_num⟩ : Fin 3)) = th (Rk x0 b) (pk x1 b) 4 2 := by
  simp only [s2876, k0_pay727]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s980_at, s988_at, s996_at, dot3, newt, Rh_zero, th_zero, rel_zero, Rh_at _ 4 1 (by norm_num) rfl, th_at _ _ 4 1 (by norm_num) rfl, rel_at _ 4 1 (by norm_num) rfl] <;> rfl
theorem s2921_c0 (b : Fin 128) : s2921 x0 x1 (ix2 b (⟨0, by norm_num⟩ : Fin 3)) = th (Rk x0 b) (pk x1 b) 5 0 := by
  simp only [s2921, k0_pay731]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s1067_at, s1075_at, s1083_at, dot3, newt, Rh_zero, th_zero, rel_zero, Rh_at _ 5 2 (by norm_num) rfl, th_at _ _ 5 2 (by norm_num) rfl, rel_at _ 5 2 (by norm_num) rfl] <;> rfl
theorem s2921_c1 (b : Fin 128) : s2921 x0 x1 (ix2 b (⟨1, by norm_num⟩ : Fin 3)) = th (Rk x0 b) (pk x1 b) 5 1 := by
  simp only [s2921, k0_pay731]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s1067_at, s1075_at, s1083_at, dot3, newt, Rh_zero, th_zero, rel_zero, Rh_at _ 5 2 (by norm_num) rfl, th_at _ _ 5 2 (by norm_num) rfl, rel_at _ 5 2 (by norm_num) rfl] <;> rfl
theorem s2921_c2 (b : Fin 128) : s2921 x0 x1 (ix2 b (⟨2, by norm_num⟩ : Fin 3)) = th (Rk x0 b) (pk x1 b) 5 2 := by
  simp only [s2921, k0_pay731]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s1067_at, s1075_at, s1083_at, dot3, newt, Rh_zero, th_zero, rel_zero, Rh_at _ 5 2 (by norm_num) rfl, th_at _ _ 5 2 (by norm_num) rfl, rel_at _ 5 2 (by norm_num) rfl] <;> rfl
theorem s2966_c0 (b : Fin 128) : s2966 x0 x1 (ix2 b (⟨0, by norm_num⟩ : Fin 3)) = th (Rk x0 b) (pk x1 b) 6 0 := by
  simp only [s2966, k0_pay735]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s1154_at, s1162_at, s1170_at, dot3, newt, Rh_zero, th_zero, rel_zero, Rh_at _ 6 3 (by norm_num) rfl, th_at _ _ 6 3 (by norm_num) rfl, rel_at _ 6 3 (by norm_num) rfl] <;> rfl
theorem s2966_c1 (b : Fin 128) : s2966 x0 x1 (ix2 b (⟨1, by norm_num⟩ : Fin 3)) = th (Rk x0 b) (pk x1 b) 6 1 := by
  simp only [s2966, k0_pay735]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s1154_at, s1162_at, s1170_at, dot3, newt, Rh_zero, th_zero, rel_zero, Rh_at _ 6 3 (by norm_num) rfl, th_at _ _ 6 3 (by norm_num) rfl, rel_at _ 6 3 (by norm_num) rfl] <;> rfl
theorem s2966_c2 (b : Fin 128) : s2966 x0 x1 (ix2 b (⟨2, by norm_num⟩ : Fin 3)) = th (Rk x0 b) (pk x1 b) 6 2 := by
  simp only [s2966, k0_pay735]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s1154_at, s1162_at, s1170_at, dot3, newt, Rh_zero, th_zero, rel_zero, Rh_at _ 6 3 (by norm_num) rfl, th_at _ _ 6 3 (by norm_num) rfl, rel_at _ 6 3 (by norm_num) rfl] <;> rfl
theorem s3011_c0 (b : Fin 128) : s3011 x0 x1 (ix2 b (⟨0, by norm_num⟩ : Fin 3)) = th (Rk x0 b) (pk x1 b) 7 0 := by
  simp only [s3011, k0_pay742]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s1241_at, s1249_at, s1257_at, dot3, newt, Rh_zero, th_zero, rel_zero, Rh_at _ 7 4 (by norm_num) rfl, th_at _ _ 7 4 (by norm_num) rfl, rel_at _ 7 4 (by norm_num) rfl] <;> rfl
theorem s3011_c1 (b : Fin 128) : s3011 x0 x1 (ix2 b (⟨1, by norm_num⟩ : Fin 3)) = th (Rk x0 b) (pk x1 b) 7 1 := by
  simp only [s3011, k0_pay742]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s1241_at, s1249_at, s1257_at, dot3, newt, Rh_zero, th_zero, rel_zero, Rh_at _ 7 4 (by norm_num) rfl, th_at _ _ 7 4 (by norm_num) rfl, rel_at _ 7 4 (by norm_num) rfl] <;> rfl
theorem s3011_c2 (b : Fin 128) : s3011 x0 x1 (ix2 b (⟨2, by norm_num⟩ : Fin 3)) = th (Rk x0 b) (pk x1 b) 7 2 := by
  simp only [s3011, k0_pay742]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s1241_at, s1249_at, s1257_at, dot3, newt, Rh_zero, th_zero, rel_zero, Rh_at _ 7 4 (by norm_num) rfl, th_at _ _ 7 4 (by norm_num) rfl, rel_at _ 7 4 (by norm_num) rfl] <;> rfl
theorem s3056_c0 (b : Fin 128) : s3056 x0 x1 (ix2 b (⟨0, by norm_num⟩ : Fin 3)) = th (Rk x0 b) (pk x1 b) 8 0 := by
  simp only [s3056, k0_pay758]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s1328_at, s1336_at, s1344_at, dot3, newt, Rh_zero, th_zero, rel_zero, Rh_at _ 8 5 (by norm_num) rfl, th_at _ _ 8 5 (by norm_num) rfl, rel_at _ 8 5 (by norm_num) rfl] <;> rfl
theorem s3056_c1 (b : Fin 128) : s3056 x0 x1 (ix2 b (⟨1, by norm_num⟩ : Fin 3)) = th (Rk x0 b) (pk x1 b) 8 1 := by
  simp only [s3056, k0_pay758]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s1328_at, s1336_at, s1344_at, dot3, newt, Rh_zero, th_zero, rel_zero, Rh_at _ 8 5 (by norm_num) rfl, th_at _ _ 8 5 (by norm_num) rfl, rel_at _ 8 5 (by norm_num) rfl] <;> rfl
theorem s3056_c2 (b : Fin 128) : s3056 x0 x1 (ix2 b (⟨2, by norm_num⟩ : Fin 3)) = th (Rk x0 b) (pk x1 b) 8 2 := by
  simp only [s3056, k0_pay758]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s1328_at, s1336_at, s1344_at, dot3, newt, Rh_zero, th_zero, rel_zero, Rh_at _ 8 5 (by norm_num) rfl, th_at _ _ 8 5 (by norm_num) rfl, rel_at _ 8 5 (by norm_num) rfl] <;> rfl
theorem s3101_c0 (b : Fin 128) : s3101 x0 x1 (ix2 b (⟨0, by norm_num⟩ : Fin 3)) = th (Rk x0 b) (pk x1 b) 9 0 := by
  simp only [s3101, k0_pay760]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s1415_at, s1423_at, s1431_at, dot3, newt, Rh_zero, th_zero, rel_zero, Rh_at _ 9 6 (by norm_num) rfl, th_at _ _ 9 6 (by norm_num) rfl, rel_at _ 9 6 (by norm_num) rfl] <;> rfl
theorem s3101_c1 (b : Fin 128) : s3101 x0 x1 (ix2 b (⟨1, by norm_num⟩ : Fin 3)) = th (Rk x0 b) (pk x1 b) 9 1 := by
  simp only [s3101, k0_pay760]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s1415_at, s1423_at, s1431_at, dot3, newt, Rh_zero, th_zero, rel_zero, Rh_at _ 9 6 (by norm_num) rfl, th_at _ _ 9 6 (by norm_num) rfl, rel_at _ 9 6 (by norm_num) rfl] <;> rfl
theorem s3101_c2 (b : Fin 128) : s3101 x0 x1 (ix2 b (⟨2, by norm_num⟩ : Fin 3)) = th (Rk x0 b) (pk x1 b) 9 2 := by
  simp only [s3101, k0_pay760]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s1415_at, s1423_at, s1431_at, dot3, newt, Rh_zero, th_zero, rel_zero, Rh_at _ 9 6 (by norm_num) rfl, th_at _ _ 9 6 (by norm_num) rfl, rel_at _ 9 6 (by norm_num) rfl] <;> rfl
theorem s3146_c0 (b : Fin 128) : s3146 x0 x1 (ix2 b (⟨0, by norm_num⟩ : Fin 3)) = th (Rk x0 b) (pk x1 b) 10 0 := by
  simp only [s3146, k0_pay764]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s1502_at, s1510_at, s1518_at, dot3, newt, Rh_zero, th_zero, rel_zero, Rh_at _ 10 7 (by norm_num) rfl, th_at _ _ 10 7 (by norm_num) rfl, rel_at _ 10 7 (by norm_num) rfl] <;> rfl
theorem s3146_c1 (b : Fin 128) : s3146 x0 x1 (ix2 b (⟨1, by norm_num⟩ : Fin 3)) = th (Rk x0 b) (pk x1 b) 10 1 := by
  simp only [s3146, k0_pay764]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s1502_at, s1510_at, s1518_at, dot3, newt, Rh_zero, th_zero, rel_zero, Rh_at _ 10 7 (by norm_num) rfl, th_at _ _ 10 7 (by norm_num) rfl, rel_at _ 10 7 (by norm_num) rfl] <;> rfl
theorem s3146_c2 (b : Fin 128) : s3146 x0 x1 (ix2 b (⟨2, by norm_num⟩ : Fin 3)) = th (Rk x0 b) (pk x1 b) 10 2 := by
  simp only [s3146, k0_pay764]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s1502_at, s1510_at, s1518_at, dot3, newt, Rh_zero, th_zero, rel_zero, Rh_at _ 10 7 (by norm_num) rfl, th_at _ _ 10 7 (by norm_num) rfl, rel_at _ 10 7 (by norm_num) rfl] <;> rfl
theorem s3191_c0 (b : Fin 128) : s3191 x0 x1 (ix2 b (⟨0, by norm_num⟩ : Fin 3)) = th (Rk x0 b) (pk x1 b) 11 0 := by
  simp only [s3191, k0_pay768]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s1589_at, s1597_at, s1605_at, dot3, newt, Rh_zero, th_zero, rel_zero, Rh_at _ 11 8 (by norm_num) rfl, th_at _ _ 11 8 (by norm_num) rfl, rel_at _ 11 8 (by norm_num) rfl] <;> rfl
theorem s3191_c1 (b : Fin 128) : s3191 x0 x1 (ix2 b (⟨1, by norm_num⟩ : Fin 3)) = th (Rk x0 b) (pk x1 b) 11 1 := by
  simp only [s3191, k0_pay768]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s1589_at, s1597_at, s1605_at, dot3, newt, Rh_zero, th_zero, rel_zero, Rh_at _ 11 8 (by norm_num) rfl, th_at _ _ 11 8 (by norm_num) rfl, rel_at _ 11 8 (by norm_num) rfl] <;> rfl
theorem s3191_c2 (b : Fin 128) : s3191 x0 x1 (ix2 b (⟨2, by norm_num⟩ : Fin 3)) = th (Rk x0 b) (pk x1 b) 11 2 := by
  simp only [s3191, k0_pay768]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s1589_at, s1597_at, s1605_at, dot3, newt, Rh_zero, th_zero, rel_zero, Rh_at _ 11 8 (by norm_num) rfl, th_at _ _ 11 8 (by norm_num) rfl, rel_at _ 11 8 (by norm_num) rfl] <;> rfl
theorem s3236_c0 (b : Fin 128) : s3236 x0 x1 (ix2 b (⟨0, by norm_num⟩ : Fin 3)) = th (Rk x0 b) (pk x1 b) 12 0 := by
  simp only [s3236, k0_pay775]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s1676_at, s1684_at, s1692_at, dot3, newt, Rh_zero, th_zero, rel_zero, Rh_at _ 12 9 (by norm_num) rfl, th_at _ _ 12 9 (by norm_num) rfl, rel_at _ 12 9 (by norm_num) rfl] <;> rfl
theorem s3236_c1 (b : Fin 128) : s3236 x0 x1 (ix2 b (⟨1, by norm_num⟩ : Fin 3)) = th (Rk x0 b) (pk x1 b) 12 1 := by
  simp only [s3236, k0_pay775]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s1676_at, s1684_at, s1692_at, dot3, newt, Rh_zero, th_zero, rel_zero, Rh_at _ 12 9 (by norm_num) rfl, th_at _ _ 12 9 (by norm_num) rfl, rel_at _ 12 9 (by norm_num) rfl] <;> rfl
theorem s3236_c2 (b : Fin 128) : s3236 x0 x1 (ix2 b (⟨2, by norm_num⟩ : Fin 3)) = th (Rk x0 b) (pk x1 b) 12 2 := by
  simp only [s3236, k0_pay775]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s1676_at, s1684_at, s1692_at, dot3, newt, Rh_zero, th_zero, rel_zero, Rh_at _ 12 9 (by norm_num) rfl, th_at _ _ 12 9 (by norm_num) rfl, rel_at _ 12 9 (by norm_num) rfl] <;> rfl
theorem s3281_c0 (b : Fin 128) : s3281 x0 x1 (ix2 b (⟨0, by norm_num⟩ : Fin 3)) = th (Rk x0 b) (pk x1 b) 13 0 := by
  simp only [s3281, k0_pay791]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s1763_at, s1771_at, s1779_at, dot3, newt, Rh_zero, th_zero, rel_zero, Rh_at _ 13 9 (by norm_num) rfl, th_at _ _ 13 9 (by norm_num) rfl, rel_at _ 13 9 (by norm_num) rfl] <;> rfl
theorem s3281_c1 (b : Fin 128) : s3281 x0 x1 (ix2 b (⟨1, by norm_num⟩ : Fin 3)) = th (Rk x0 b) (pk x1 b) 13 1 := by
  simp only [s3281, k0_pay791]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s1763_at, s1771_at, s1779_at, dot3, newt, Rh_zero, th_zero, rel_zero, Rh_at _ 13 9 (by norm_num) rfl, th_at _ _ 13 9 (by norm_num) rfl, rel_at _ 13 9 (by norm_num) rfl] <;> rfl
theorem s3281_c2 (b : Fin 128) : s3281 x0 x1 (ix2 b (⟨2, by norm_num⟩ : Fin 3)) = th (Rk x0 b) (pk x1 b) 13 2 := by
  simp only [s3281, k0_pay791]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s1763_at, s1771_at, s1779_at, dot3, newt, Rh_zero, th_zero, rel_zero, Rh_at _ 13 9 (by norm_num) rfl, th_at _ _ 13 9 (by norm_num) rfl, rel_at _ 13 9 (by norm_num) rfl] <;> rfl
theorem s3326_c0 (b : Fin 128) : s3326 x0 x1 (ix2 b (⟨0, by norm_num⟩ : Fin 3)) = th (Rk x0 b) (pk x1 b) 14 0 := by
  simp only [s3326, k0_pay793]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s1850_at, s1858_at, s1866_at, dot3, newt, Rh_zero, th_zero, rel_zero, Rh_at _ 14 9 (by norm_num) rfl, th_at _ _ 14 9 (by norm_num) rfl, rel_at _ 14 9 (by norm_num) rfl] <;> rfl
theorem s3326_c1 (b : Fin 128) : s3326 x0 x1 (ix2 b (⟨1, by norm_num⟩ : Fin 3)) = th (Rk x0 b) (pk x1 b) 14 1 := by
  simp only [s3326, k0_pay793]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s1850_at, s1858_at, s1866_at, dot3, newt, Rh_zero, th_zero, rel_zero, Rh_at _ 14 9 (by norm_num) rfl, th_at _ _ 14 9 (by norm_num) rfl, rel_at _ 14 9 (by norm_num) rfl] <;> rfl
theorem s3326_c2 (b : Fin 128) : s3326 x0 x1 (ix2 b (⟨2, by norm_num⟩ : Fin 3)) = th (Rk x0 b) (pk x1 b) 14 2 := by
  simp only [s3326, k0_pay793]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s1850_at, s1858_at, s1866_at, dot3, newt, Rh_zero, th_zero, rel_zero, Rh_at _ 14 9 (by norm_num) rfl, th_at _ _ 14 9 (by norm_num) rfl, rel_at _ 14 9 (by norm_num) rfl] <;> rfl
theorem s3371_c0 (b : Fin 128) : s3371 x0 x1 (ix2 b (⟨0, by norm_num⟩ : Fin 3)) = th (Rk x0 b) (pk x1 b) 15 0 := by
  simp only [s3371, k0_pay797]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s1937_at, s1945_at, s1953_at, dot3, newt, Rh_zero, th_zero, rel_zero, Rh_at _ 15 12 (by norm_num) rfl, th_at _ _ 15 12 (by norm_num) rfl, rel_at _ 15 12 (by norm_num) rfl] <;> rfl
theorem s3371_c1 (b : Fin 128) : s3371 x0 x1 (ix2 b (⟨1, by norm_num⟩ : Fin 3)) = th (Rk x0 b) (pk x1 b) 15 1 := by
  simp only [s3371, k0_pay797]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s1937_at, s1945_at, s1953_at, dot3, newt, Rh_zero, th_zero, rel_zero, Rh_at _ 15 12 (by norm_num) rfl, th_at _ _ 15 12 (by norm_num) rfl, rel_at _ 15 12 (by norm_num) rfl] <;> rfl
theorem s3371_c2 (b : Fin 128) : s3371 x0 x1 (ix2 b (⟨2, by norm_num⟩ : Fin 3)) = th (Rk x0 b) (pk x1 b) 15 2 := by
  simp only [s3371, k0_pay797]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s1937_at, s1945_at, s1953_at, dot3, newt, Rh_zero, th_zero, rel_zero, Rh_at _ 15 12 (by norm_num) rfl, th_at _ _ 15 12 (by norm_num) rfl, rel_at _ 15 12 (by norm_num) rfl] <;> rfl
theorem s3416_c0 (b : Fin 128) : s3416 x0 x1 (ix2 b (⟨0, by norm_num⟩ : Fin 3)) = th (Rk x0 b) (pk x1 b) 16 0 := by
  simp only [s3416, k0_pay801]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s2024_at, s2032_at, s2040_at, dot3, newt, Rh_zero, th_zero, rel_zero, Rh_at _ 16 13 (by norm_num) rfl, th_at _ _ 16 13 (by norm_num) rfl, rel_at _ 16 13 (by norm_num) rfl] <;> rfl
theorem s3416_c1 (b : Fin 128) : s3416 x0 x1 (ix2 b (⟨1, by norm_num⟩ : Fin 3)) = th (Rk x0 b) (pk x1 b) 16 1 := by
  simp only [s3416, k0_pay801]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s2024_at, s2032_at, s2040_at, dot3, newt, Rh_zero, th_zero, rel_zero, Rh_at _ 16 13 (by norm_num) rfl, th_at _ _ 16 13 (by norm_num) rfl, rel_at _ 16 13 (by norm_num) rfl] <;> rfl
theorem s3416_c2 (b : Fin 128) : s3416 x0 x1 (ix2 b (⟨2, by norm_num⟩ : Fin 3)) = th (Rk x0 b) (pk x1 b) 16 2 := by
  simp only [s3416, k0_pay801]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s2024_at, s2032_at, s2040_at, dot3, newt, Rh_zero, th_zero, rel_zero, Rh_at _ 16 13 (by norm_num) rfl, th_at _ _ 16 13 (by norm_num) rfl, rel_at _ 16 13 (by norm_num) rfl] <;> rfl
theorem s3461_c0 (b : Fin 128) : s3461 x0 x1 (ix2 b (⟨0, by norm_num⟩ : Fin 3)) = th (Rk x0 b) (pk x1 b) 17 0 := by
  simp only [s3461, k0_pay808]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s2111_at, s2119_at, s2127_at, dot3, newt, Rh_zero, th_zero, rel_zero, Rh_at _ 17 14 (by norm_num) rfl, th_at _ _ 17 14 (by norm_num) rfl, rel_at _ 17 14 (by norm_num) rfl] <;> rfl
theorem s3461_c1 (b : Fin 128) : s3461 x0 x1 (ix2 b (⟨1, by norm_num⟩ : Fin 3)) = th (Rk x0 b) (pk x1 b) 17 1 := by
  simp only [s3461, k0_pay808]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s2111_at, s2119_at, s2127_at, dot3, newt, Rh_zero, th_zero, rel_zero, Rh_at _ 17 14 (by norm_num) rfl, th_at _ _ 17 14 (by norm_num) rfl, rel_at _ 17 14 (by norm_num) rfl] <;> rfl
theorem s3461_c2 (b : Fin 128) : s3461 x0 x1 (ix2 b (⟨2, by norm_num⟩ : Fin 3)) = th (Rk x0 b) (pk x1 b) 17 2 := by
  simp only [s3461, k0_pay808]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s2111_at, s2119_at, s2127_at, dot3, newt, Rh_zero, th_zero, rel_zero, Rh_at _ 17 14 (by norm_num) rfl, th_at _ _ 17 14 (by norm_num) rfl, rel_at _ 17 14 (by norm_num) rfl] <;> rfl
theorem s3506_c0 (b : Fin 128) : s3506 x0 x1 (ix2 b (⟨0, by norm_num⟩ : Fin 3)) = th (Rk x0 b) (pk x1 b) 18 0 := by
  simp only [s3506, k0_pay824]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s2198_at, s2206_at, s2214_at, dot3, newt, Rh_zero, th_zero, rel_zero, Rh_at _ 18 16 (by norm_num) rfl, th_at _ _ 18 16 (by norm_num) rfl, rel_at _ 18 16 (by norm_num) rfl] <;> rfl
theorem s3506_c1 (b : Fin 128) : s3506 x0 x1 (ix2 b (⟨1, by norm_num⟩ : Fin 3)) = th (Rk x0 b) (pk x1 b) 18 1 := by
  simp only [s3506, k0_pay824]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s2198_at, s2206_at, s2214_at, dot3, newt, Rh_zero, th_zero, rel_zero, Rh_at _ 18 16 (by norm_num) rfl, th_at _ _ 18 16 (by norm_num) rfl, rel_at _ 18 16 (by norm_num) rfl] <;> rfl
theorem s3506_c2 (b : Fin 128) : s3506 x0 x1 (ix2 b (⟨2, by norm_num⟩ : Fin 3)) = th (Rk x0 b) (pk x1 b) 18 2 := by
  simp only [s3506, k0_pay824]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s2198_at, s2206_at, s2214_at, dot3, newt, Rh_zero, th_zero, rel_zero, Rh_at _ 18 16 (by norm_num) rfl, th_at _ _ 18 16 (by norm_num) rfl, rel_at _ 18 16 (by norm_num) rfl] <;> rfl
theorem s3551_c0 (b : Fin 128) : s3551 x0 x1 (ix2 b (⟨0, by norm_num⟩ : Fin 3)) = th (Rk x0 b) (pk x1 b) 19 0 := by
  simp only [s3551, k0_pay826]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s2285_at, s2293_at, s2301_at, dot3, newt, Rh_zero, th_zero, rel_zero, Rh_at _ 19 17 (by norm_num) rfl, th_at _ _ 19 17 (by norm_num) rfl, rel_at _ 19 17 (by norm_num) rfl] <;> rfl
theorem s3551_c1 (b : Fin 128) : s3551 x0 x1 (ix2 b (⟨1, by norm_num⟩ : Fin 3)) = th (Rk x0 b) (pk x1 b) 19 1 := by
  simp only [s3551, k0_pay826]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s2285_at, s2293_at, s2301_at, dot3, newt, Rh_zero, th_zero, rel_zero, Rh_at _ 19 17 (by norm_num) rfl, th_at _ _ 19 17 (by norm_num) rfl, rel_at _ 19 17 (by norm_num) rfl] <;> rfl
theorem s3551_c2 (b : Fin 128) : s3551 x0 x1 (ix2 b (⟨2, by norm_num⟩ : Fin 3)) = th (Rk x0 b) (pk x1 b) 19 2 := by
  simp only [s3551, k0_pay826]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s2285_at, s2293_at, s2301_at, dot3, newt, Rh_zero, th_zero, rel_zero, Rh_at _ 19 17 (by norm_num) rfl, th_at _ _ 19 17 (by norm_num) rfl, rel_at _ 19 17 (by norm_num) rfl] <;> rfl
theorem s3596_c0 (b : Fin 128) : s3596 x0 x1 (ix2 b (⟨0, by norm_num⟩ : Fin 3)) = th (Rk x0 b) (pk x1 b) 20 0 := by
  simp only [s3596, k0_pay830]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s2372_at, s2380_at, s2388_at, dot3, newt, Rh_zero, th_zero, rel_zero, Rh_at _ 20 18 (by norm_num) rfl, th_at _ _ 20 18 (by norm_num) rfl, rel_at _ 20 18 (by norm_num) rfl] <;> rfl
theorem s3596_c1 (b : Fin 128) : s3596 x0 x1 (ix2 b (⟨1, by norm_num⟩ : Fin 3)) = th (Rk x0 b) (pk x1 b) 20 1 := by
  simp only [s3596, k0_pay830]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s2372_at, s2380_at, s2388_at, dot3, newt, Rh_zero, th_zero, rel_zero, Rh_at _ 20 18 (by norm_num) rfl, th_at _ _ 20 18 (by norm_num) rfl, rel_at _ 20 18 (by norm_num) rfl] <;> rfl
theorem s3596_c2 (b : Fin 128) : s3596 x0 x1 (ix2 b (⟨2, by norm_num⟩ : Fin 3)) = th (Rk x0 b) (pk x1 b) 20 2 := by
  simp only [s3596, k0_pay830]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s2372_at, s2380_at, s2388_at, dot3, newt, Rh_zero, th_zero, rel_zero, Rh_at _ 20 18 (by norm_num) rfl, th_at _ _ 20 18 (by norm_num) rfl, rel_at _ 20 18 (by norm_num) rfl] <;> rfl
theorem s3641_c0 (b : Fin 128) : s3641 x0 x1 (ix2 b (⟨0, by norm_num⟩ : Fin 3)) = th (Rk x0 b) (pk x1 b) 21 0 := by
  simp only [s3641, k0_pay834]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s2459_at, s2467_at, s2475_at, dot3, newt, Rh_zero, th_zero, rel_zero, Rh_at _ 21 19 (by norm_num) rfl, th_at _ _ 21 19 (by norm_num) rfl, rel_at _ 21 19 (by norm_num) rfl] <;> rfl
theorem s3641_c1 (b : Fin 128) : s3641 x0 x1 (ix2 b (⟨1, by norm_num⟩ : Fin 3)) = th (Rk x0 b) (pk x1 b) 21 1 := by
  simp only [s3641, k0_pay834]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s2459_at, s2467_at, s2475_at, dot3, newt, Rh_zero, th_zero, rel_zero, Rh_at _ 21 19 (by norm_num) rfl, th_at _ _ 21 19 (by norm_num) rfl, rel_at _ 21 19 (by norm_num) rfl] <;> rfl
theorem s3641_c2 (b : Fin 128) : s3641 x0 x1 (ix2 b (⟨2, by norm_num⟩ : Fin 3)) = th (Rk x0 b) (pk x1 b) 21 2 := by
  simp only [s3641, k0_pay834]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s2459_at, s2467_at, s2475_at, dot3, newt, Rh_zero, th_zero, rel_zero, Rh_at _ 21 19 (by norm_num) rfl, th_at _ _ 21 19 (by norm_num) rfl, rel_at _ 21 19 (by norm_num) rfl] <;> rfl
theorem s3686_c0 (b : Fin 128) : s3686 x0 x1 (ix2 b (⟨0, by norm_num⟩ : Fin 3)) = th (Rk x0 b) (pk x1 b) 22 0 := by
  simp only [s3686, k0_pay841]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s2546_at, s2554_at, s2562_at, dot3, newt, Rh_zero, th_zero, rel_zero, Rh_at _ 22 20 (by norm_num) rfl, th_at _ _ 22 20 (by norm_num) rfl, rel_at _ 22 20 (by norm_num) rfl] <;> rfl
theorem s3686_c1 (b : Fin 128) : s3686 x0 x1 (ix2 b (⟨1, by norm_num⟩ : Fin 3)) = th (Rk x0 b) (pk x1 b) 22 1 := by
  simp only [s3686, k0_pay841]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s2546_at, s2554_at, s2562_at, dot3, newt, Rh_zero, th_zero, rel_zero, Rh_at _ 22 20 (by norm_num) rfl, th_at _ _ 22 20 (by norm_num) rfl, rel_at _ 22 20 (by norm_num) rfl] <;> rfl
theorem s3686_c2 (b : Fin 128) : s3686 x0 x1 (ix2 b (⟨2, by norm_num⟩ : Fin 3)) = th (Rk x0 b) (pk x1 b) 22 2 := by
  simp only [s3686, k0_pay841]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s2546_at, s2554_at, s2562_at, dot3, newt, Rh_zero, th_zero, rel_zero, Rh_at _ 22 20 (by norm_num) rfl, th_at _ _ 22 20 (by norm_num) rfl, rel_at _ 22 20 (by norm_num) rfl] <;> rfl
theorem s3731_c0 (b : Fin 128) : s3731 x0 x1 (ix2 b (⟨0, by norm_num⟩ : Fin 3)) = th (Rk x0 b) (pk x1 b) 23 0 := by
  simp only [s3731, k0_pay2]
  refine (concat_unit_piece 0 (by norm_num) _ _ _ (by simp) rfl rfl b).trans ?_
  simp only [ValueIdx.mulf_apply, ValueIdx.addf_apply, ValueIdx.subf_apply, ValueIdx.broadcast_apply, zero_word, one_word, tovec_at, ascol_at, shapeCast_self, s2633_at, s2641_at, s2649_at, dot3, newt, Rh_zero, th_zero, rel_zero, Rh_at _ 23 21 (by norm_num) rfl, th_at _ _ 23 21 (by norm_num) rfl, rel_at _ 23 21 (by norm_num) rfl] <;> rfl
theorem s3731_c1 (b : Fin 128) : s3731 x0 x1 (ix2 b (⟨1, by norm_num⟩ : Fin 3)) = th (Rk x0 b) (pk x1 b) 23 1 := by
  simp only [s3731, k0_pay2]
  refine (concat_unit_piece 1 (by norm_num) _ _ _ (by simp) rfl rfl b).trans ?_
  simp only [ValueIdx.mulf_apply, ValueIdx.addf_apply, ValueIdx.subf_apply, ValueIdx.broadcast_apply, zero_word, one_word, tovec_at, ascol_at, shapeCast_self, s2633_at, s2641_at, s2649_at, dot3, newt, Rh_zero, th_zero, rel_zero, Rh_at _ 23 21 (by norm_num) rfl, th_at _ _ 23 21 (by norm_num) rfl, rel_at _ 23 21 (by norm_num) rfl] <;> rfl
theorem s3731_c2 (b : Fin 128) : s3731 x0 x1 (ix2 b (⟨2, by norm_num⟩ : Fin 3)) = th (Rk x0 b) (pk x1 b) 23 2 := by
  simp only [s3731, k0_pay2]
  refine (concat_unit_piece 2 (by norm_num) _ _ _ (by simp) rfl rfl b).trans ?_
  simp only [ValueIdx.mulf_apply, ValueIdx.addf_apply, ValueIdx.subf_apply, ValueIdx.broadcast_apply, zero_word, one_word, tovec_at, ascol_at, shapeCast_self, s2633_at, s2641_at, s2649_at, dot3, newt, Rh_zero, th_zero, rel_zero, Rh_at _ 23 21 (by norm_num) rfl, th_at _ _ 23 21 (by norm_num) rfl, rel_at _ 23 21 (by norm_num) rfl] <;> rfl

/-- The 24 blocks of 16 columns laid side by side in the first result, by joint. -/
def blk16 : Fin 24 → FVec Ideal S128x16 .f32
  | ⟨0, _⟩ => s2692 x0 x1
  | ⟨1, _⟩ => s2737 x0 x1
  | ⟨2, _⟩ => s2782 x0 x1
  | ⟨3, _⟩ => s2827 x0 x1
  | ⟨4, _⟩ => s2872 x0 x1
  | ⟨5, _⟩ => s2917 x0 x1
  | ⟨6, _⟩ => s2962 x0 x1
  | ⟨7, _⟩ => s3007 x0 x1
  | ⟨8, _⟩ => s3052 x0 x1
  | ⟨9, _⟩ => s3097 x0 x1
  | ⟨10, _⟩ => s3142 x0 x1
  | ⟨11, _⟩ => s3187 x0 x1
  | ⟨12, _⟩ => s3232 x0 x1
  | ⟨13, _⟩ => s3277 x0 x1
  | ⟨14, _⟩ => s3322 x0 x1
  | ⟨15, _⟩ => s3367 x0 x1
  | ⟨16, _⟩ => s3412 x0 x1
  | ⟨17, _⟩ => s3457 x0 x1
  | ⟨18, _⟩ => s3502 x0 x1
  | ⟨19, _⟩ => s3547 x0 x1
  | ⟨20, _⟩ => s3592 x0 x1
  | ⟨21, _⟩ => s3637 x0 x1
  | ⟨22, _⟩ => s3682 x0 x1
  | ⟨23, _⟩ => s3727 x0 x1
  | ⟨_ + 24, h⟩ => absurd h (Nat.not_lt.2 (Nat.le_add_left _ _))
/-- The 24 blocks of 3 columns laid side by side in the second result, by joint. -/
def blk3 : Fin 24 → FVec Ideal S128x3 .f32
  | ⟨0, _⟩ => s2696 x0 x1
  | ⟨1, _⟩ => s2741 x0 x1
  | ⟨2, _⟩ => s2786 x0 x1
  | ⟨3, _⟩ => s2831 x0 x1
  | ⟨4, _⟩ => s2876 x0 x1
  | ⟨5, _⟩ => s2921 x0 x1
  | ⟨6, _⟩ => s2966 x0 x1
  | ⟨7, _⟩ => s3011 x0 x1
  | ⟨8, _⟩ => s3056 x0 x1
  | ⟨9, _⟩ => s3101 x0 x1
  | ⟨10, _⟩ => s3146 x0 x1
  | ⟨11, _⟩ => s3191 x0 x1
  | ⟨12, _⟩ => s3236 x0 x1
  | ⟨13, _⟩ => s3281 x0 x1
  | ⟨14, _⟩ => s3326 x0 x1
  | ⟨15, _⟩ => s3371 x0 x1
  | ⟨16, _⟩ => s3416 x0 x1
  | ⟨17, _⟩ => s3461 x0 x1
  | ⟨18, _⟩ => s3506 x0 x1
  | ⟨19, _⟩ => s3551 x0 x1
  | ⟨20, _⟩ => s3596 x0 x1
  | ⟨21, _⟩ => s3641 x0 x1
  | ⟨22, _⟩ => s3686 x0 x1
  | ⟨23, _⟩ => s3731 x0 x1
  | ⟨_ + 24, h⟩ => absurd h (Nat.not_lt.2 (Nat.le_add_left _ _))

/-- Column s of block j of the first result at row b: entry (s / 4, s % 4) of [[Rh j, newt j], [0, 1]]. -/
theorem blk16_at (b : Fin 128) (j : Fin 24) (r c : Fin 4) :
    blk16 x0 x1 j (ix2 b (⟨4 * r.val + c.val, by omega⟩ : Fin 16)) = homog (Rh (Rk x0 b) j.val) (newt (Rk x0 b) (pk x1 b) j.val) r c := by
  fin_cases j <;> fin_cases r <;> fin_cases c
  · first | exact s2692_c0 x0 x1 b | (refine (s2692_c0 x0 x1 b).trans ?_; simp [homog])
  · first | exact s2692_c1 x0 x1 b | (refine (s2692_c1 x0 x1 b).trans ?_; simp [homog])
  · first | exact s2692_c2 x0 x1 b | (refine (s2692_c2 x0 x1 b).trans ?_; simp [homog])
  · first | exact s2692_c3 x0 x1 b | (refine (s2692_c3 x0 x1 b).trans ?_; simp [homog])
  · first | exact s2692_c4 x0 x1 b | (refine (s2692_c4 x0 x1 b).trans ?_; simp [homog])
  · first | exact s2692_c5 x0 x1 b | (refine (s2692_c5 x0 x1 b).trans ?_; simp [homog])
  · first | exact s2692_c6 x0 x1 b | (refine (s2692_c6 x0 x1 b).trans ?_; simp [homog])
  · first | exact s2692_c7 x0 x1 b | (refine (s2692_c7 x0 x1 b).trans ?_; simp [homog])
  · first | exact s2692_c8 x0 x1 b | (refine (s2692_c8 x0 x1 b).trans ?_; simp [homog])
  · first | exact s2692_c9 x0 x1 b | (refine (s2692_c9 x0 x1 b).trans ?_; simp [homog])
  · first | exact s2692_c10 x0 x1 b | (refine (s2692_c10 x0 x1 b).trans ?_; simp [homog])
  · first | exact s2692_c11 x0 x1 b | (refine (s2692_c11 x0 x1 b).trans ?_; simp [homog])
  · first | exact s2692_c12 x0 x1 b | (refine (s2692_c12 x0 x1 b).trans ?_; simp [homog])
  · first | exact s2692_c13 x0 x1 b | (refine (s2692_c13 x0 x1 b).trans ?_; simp [homog])
  · first | exact s2692_c14 x0 x1 b | (refine (s2692_c14 x0 x1 b).trans ?_; simp [homog])
  · first | exact s2692_c15 x0 x1 b | (refine (s2692_c15 x0 x1 b).trans ?_; simp [homog])
  · first | exact s2737_c0 x0 x1 b | (refine (s2737_c0 x0 x1 b).trans ?_; simp [homog])
  · first | exact s2737_c1 x0 x1 b | (refine (s2737_c1 x0 x1 b).trans ?_; simp [homog])
  · first | exact s2737_c2 x0 x1 b | (refine (s2737_c2 x0 x1 b).trans ?_; simp [homog])
  · first | exact s2737_c3 x0 x1 b | (refine (s2737_c3 x0 x1 b).trans ?_; simp [homog])
  · first | exact s2737_c4 x0 x1 b | (refine (s2737_c4 x0 x1 b).trans ?_; simp [homog])
  · first | exact s2737_c5 x0 x1 b | (refine (s2737_c5 x0 x1 b).trans ?_; simp [homog])
  · first | exact s2737_c6 x0 x1 b | (refine (s2737_c6 x0 x1 b).trans ?_; simp [homog])
  · first | exact s2737_c7 x0 x1 b | (refine (s2737_c7 x0 x1 b).trans ?_; simp [homog])
  · first | exact s2737_c8 x0 x1 b | (refine (s2737_c8 x0 x1 b).trans ?_; simp [homog])
  · first | exact s2737_c9 x0 x1 b | (refine (s2737_c9 x0 x1 b).trans ?_; simp [homog])
  · first | exact s2737_c10 x0 x1 b | (refine (s2737_c10 x0 x1 b).trans ?_; simp [homog])
  · first | exact s2737_c11 x0 x1 b | (refine (s2737_c11 x0 x1 b).trans ?_; simp [homog])
  · first | exact s2737_c12 x0 x1 b | (refine (s2737_c12 x0 x1 b).trans ?_; simp [homog])
  · first | exact s2737_c13 x0 x1 b | (refine (s2737_c13 x0 x1 b).trans ?_; simp [homog])
  · first | exact s2737_c14 x0 x1 b | (refine (s2737_c14 x0 x1 b).trans ?_; simp [homog])
  · first | exact s2737_c15 x0 x1 b | (refine (s2737_c15 x0 x1 b).trans ?_; simp [homog])
  · first | exact s2782_c0 x0 x1 b | (refine (s2782_c0 x0 x1 b).trans ?_; simp [homog])
  · first | exact s2782_c1 x0 x1 b | (refine (s2782_c1 x0 x1 b).trans ?_; simp [homog])
  · first | exact s2782_c2 x0 x1 b | (refine (s2782_c2 x0 x1 b).trans ?_; simp [homog])
  · first | exact s2782_c3 x0 x1 b | (refine (s2782_c3 x0 x1 b).trans ?_; simp [homog])
  · first | exact s2782_c4 x0 x1 b | (refine (s2782_c4 x0 x1 b).trans ?_; simp [homog])
  · first | exact s2782_c5 x0 x1 b | (refine (s2782_c5 x0 x1 b).trans ?_; simp [homog])
  · first | exact s2782_c6 x0 x1 b | (refine (s2782_c6 x0 x1 b).trans ?_; simp [homog])
  · first | exact s2782_c7 x0 x1 b | (refine (s2782_c7 x0 x1 b).trans ?_; simp [homog])
  · first | exact s2782_c8 x0 x1 b | (refine (s2782_c8 x0 x1 b).trans ?_; simp [homog])
  · first | exact s2782_c9 x0 x1 b | (refine (s2782_c9 x0 x1 b).trans ?_; simp [homog])
  · first | exact s2782_c10 x0 x1 b | (refine (s2782_c10 x0 x1 b).trans ?_; simp [homog])
  · first | exact s2782_c11 x0 x1 b | (refine (s2782_c11 x0 x1 b).trans ?_; simp [homog])
  · first | exact s2782_c12 x0 x1 b | (refine (s2782_c12 x0 x1 b).trans ?_; simp [homog])
  · first | exact s2782_c13 x0 x1 b | (refine (s2782_c13 x0 x1 b).trans ?_; simp [homog])
  · first | exact s2782_c14 x0 x1 b | (refine (s2782_c14 x0 x1 b).trans ?_; simp [homog])
  · first | exact s2782_c15 x0 x1 b | (refine (s2782_c15 x0 x1 b).trans ?_; simp [homog])
  · first | exact s2827_c0 x0 x1 b | (refine (s2827_c0 x0 x1 b).trans ?_; simp [homog])
  · first | exact s2827_c1 x0 x1 b | (refine (s2827_c1 x0 x1 b).trans ?_; simp [homog])
  · first | exact s2827_c2 x0 x1 b | (refine (s2827_c2 x0 x1 b).trans ?_; simp [homog])
  · first | exact s2827_c3 x0 x1 b | (refine (s2827_c3 x0 x1 b).trans ?_; simp [homog])
  · first | exact s2827_c4 x0 x1 b | (refine (s2827_c4 x0 x1 b).trans ?_; simp [homog])
  · first | exact s2827_c5 x0 x1 b | (refine (s2827_c5 x0 x1 b).trans ?_; simp [homog])
  · first | exact s2827_c6 x0 x1 b | (refine (s2827_c6 x0 x1 b).trans ?_; simp [homog])
  · first | exact s2827_c7 x0 x1 b | (refine (s2827_c7 x0 x1 b).trans ?_; simp [homog])
  · first | exact s2827_c8 x0 x1 b | (refine (s2827_c8 x0 x1 b).trans ?_; simp [homog])
  · first | exact s2827_c9 x0 x1 b | (refine (s2827_c9 x0 x1 b).trans ?_; simp [homog])
  · first | exact s2827_c10 x0 x1 b | (refine (s2827_c10 x0 x1 b).trans ?_; simp [homog])
  · first | exact s2827_c11 x0 x1 b | (refine (s2827_c11 x0 x1 b).trans ?_; simp [homog])
  · first | exact s2827_c12 x0 x1 b | (refine (s2827_c12 x0 x1 b).trans ?_; simp [homog])
  · first | exact s2827_c13 x0 x1 b | (refine (s2827_c13 x0 x1 b).trans ?_; simp [homog])
  · first | exact s2827_c14 x0 x1 b | (refine (s2827_c14 x0 x1 b).trans ?_; simp [homog])
  · first | exact s2827_c15 x0 x1 b | (refine (s2827_c15 x0 x1 b).trans ?_; simp [homog])
  · first | exact s2872_c0 x0 x1 b | (refine (s2872_c0 x0 x1 b).trans ?_; simp [homog])
  · first | exact s2872_c1 x0 x1 b | (refine (s2872_c1 x0 x1 b).trans ?_; simp [homog])
  · first | exact s2872_c2 x0 x1 b | (refine (s2872_c2 x0 x1 b).trans ?_; simp [homog])
  · first | exact s2872_c3 x0 x1 b | (refine (s2872_c3 x0 x1 b).trans ?_; simp [homog])
  · first | exact s2872_c4 x0 x1 b | (refine (s2872_c4 x0 x1 b).trans ?_; simp [homog])
  · first | exact s2872_c5 x0 x1 b | (refine (s2872_c5 x0 x1 b).trans ?_; simp [homog])
  · first | exact s2872_c6 x0 x1 b | (refine (s2872_c6 x0 x1 b).trans ?_; simp [homog])
  · first | exact s2872_c7 x0 x1 b | (refine (s2872_c7 x0 x1 b).trans ?_; simp [homog])
  · first | exact s2872_c8 x0 x1 b | (refine (s2872_c8 x0 x1 b).trans ?_; simp [homog])
  · first | exact s2872_c9 x0 x1 b | (refine (s2872_c9 x0 x1 b).trans ?_; simp [homog])
  · first | exact s2872_c10 x0 x1 b | (refine (s2872_c10 x0 x1 b).trans ?_; simp [homog])
  · first | exact s2872_c11 x0 x1 b | (refine (s2872_c11 x0 x1 b).trans ?_; simp [homog])
  · first | exact s2872_c12 x0 x1 b | (refine (s2872_c12 x0 x1 b).trans ?_; simp [homog])
  · first | exact s2872_c13 x0 x1 b | (refine (s2872_c13 x0 x1 b).trans ?_; simp [homog])
  · first | exact s2872_c14 x0 x1 b | (refine (s2872_c14 x0 x1 b).trans ?_; simp [homog])
  · first | exact s2872_c15 x0 x1 b | (refine (s2872_c15 x0 x1 b).trans ?_; simp [homog])
  · first | exact s2917_c0 x0 x1 b | (refine (s2917_c0 x0 x1 b).trans ?_; simp [homog])
  · first | exact s2917_c1 x0 x1 b | (refine (s2917_c1 x0 x1 b).trans ?_; simp [homog])
  · first | exact s2917_c2 x0 x1 b | (refine (s2917_c2 x0 x1 b).trans ?_; simp [homog])
  · first | exact s2917_c3 x0 x1 b | (refine (s2917_c3 x0 x1 b).trans ?_; simp [homog])
  · first | exact s2917_c4 x0 x1 b | (refine (s2917_c4 x0 x1 b).trans ?_; simp [homog])
  · first | exact s2917_c5 x0 x1 b | (refine (s2917_c5 x0 x1 b).trans ?_; simp [homog])
  · first | exact s2917_c6 x0 x1 b | (refine (s2917_c6 x0 x1 b).trans ?_; simp [homog])
  · first | exact s2917_c7 x0 x1 b | (refine (s2917_c7 x0 x1 b).trans ?_; simp [homog])
  · first | exact s2917_c8 x0 x1 b | (refine (s2917_c8 x0 x1 b).trans ?_; simp [homog])
  · first | exact s2917_c9 x0 x1 b | (refine (s2917_c9 x0 x1 b).trans ?_; simp [homog])
  · first | exact s2917_c10 x0 x1 b | (refine (s2917_c10 x0 x1 b).trans ?_; simp [homog])
  · first | exact s2917_c11 x0 x1 b | (refine (s2917_c11 x0 x1 b).trans ?_; simp [homog])
  · first | exact s2917_c12 x0 x1 b | (refine (s2917_c12 x0 x1 b).trans ?_; simp [homog])
  · first | exact s2917_c13 x0 x1 b | (refine (s2917_c13 x0 x1 b).trans ?_; simp [homog])
  · first | exact s2917_c14 x0 x1 b | (refine (s2917_c14 x0 x1 b).trans ?_; simp [homog])
  · first | exact s2917_c15 x0 x1 b | (refine (s2917_c15 x0 x1 b).trans ?_; simp [homog])
  · first | exact s2962_c0 x0 x1 b | (refine (s2962_c0 x0 x1 b).trans ?_; simp [homog])
  · first | exact s2962_c1 x0 x1 b | (refine (s2962_c1 x0 x1 b).trans ?_; simp [homog])
  · first | exact s2962_c2 x0 x1 b | (refine (s2962_c2 x0 x1 b).trans ?_; simp [homog])
  · first | exact s2962_c3 x0 x1 b | (refine (s2962_c3 x0 x1 b).trans ?_; simp [homog])
  · first | exact s2962_c4 x0 x1 b | (refine (s2962_c4 x0 x1 b).trans ?_; simp [homog])
  · first | exact s2962_c5 x0 x1 b | (refine (s2962_c5 x0 x1 b).trans ?_; simp [homog])
  · first | exact s2962_c6 x0 x1 b | (refine (s2962_c6 x0 x1 b).trans ?_; simp [homog])
  · first | exact s2962_c7 x0 x1 b | (refine (s2962_c7 x0 x1 b).trans ?_; simp [homog])
  · first | exact s2962_c8 x0 x1 b | (refine (s2962_c8 x0 x1 b).trans ?_; simp [homog])
  · first | exact s2962_c9 x0 x1 b | (refine (s2962_c9 x0 x1 b).trans ?_; simp [homog])
  · first | exact s2962_c10 x0 x1 b | (refine (s2962_c10 x0 x1 b).trans ?_; simp [homog])
  · first | exact s2962_c11 x0 x1 b | (refine (s2962_c11 x0 x1 b).trans ?_; simp [homog])
  · first | exact s2962_c12 x0 x1 b | (refine (s2962_c12 x0 x1 b).trans ?_; simp [homog])
  · first | exact s2962_c13 x0 x1 b | (refine (s2962_c13 x0 x1 b).trans ?_; simp [homog])
  · first | exact s2962_c14 x0 x1 b | (refine (s2962_c14 x0 x1 b).trans ?_; simp [homog])
  · first | exact s2962_c15 x0 x1 b | (refine (s2962_c15 x0 x1 b).trans ?_; simp [homog])
  · first | exact s3007_c0 x0 x1 b | (refine (s3007_c0 x0 x1 b).trans ?_; simp [homog])
  · first | exact s3007_c1 x0 x1 b | (refine (s3007_c1 x0 x1 b).trans ?_; simp [homog])
  · first | exact s3007_c2 x0 x1 b | (refine (s3007_c2 x0 x1 b).trans ?_; simp [homog])
  · first | exact s3007_c3 x0 x1 b | (refine (s3007_c3 x0 x1 b).trans ?_; simp [homog])
  · first | exact s3007_c4 x0 x1 b | (refine (s3007_c4 x0 x1 b).trans ?_; simp [homog])
  · first | exact s3007_c5 x0 x1 b | (refine (s3007_c5 x0 x1 b).trans ?_; simp [homog])
  · first | exact s3007_c6 x0 x1 b | (refine (s3007_c6 x0 x1 b).trans ?_; simp [homog])
  · first | exact s3007_c7 x0 x1 b | (refine (s3007_c7 x0 x1 b).trans ?_; simp [homog])
  · first | exact s3007_c8 x0 x1 b | (refine (s3007_c8 x0 x1 b).trans ?_; simp [homog])
  · first | exact s3007_c9 x0 x1 b | (refine (s3007_c9 x0 x1 b).trans ?_; simp [homog])
  · first | exact s3007_c10 x0 x1 b | (refine (s3007_c10 x0 x1 b).trans ?_; simp [homog])
  · first | exact s3007_c11 x0 x1 b | (refine (s3007_c11 x0 x1 b).trans ?_; simp [homog])
  · first | exact s3007_c12 x0 x1 b | (refine (s3007_c12 x0 x1 b).trans ?_; simp [homog])
  · first | exact s3007_c13 x0 x1 b | (refine (s3007_c13 x0 x1 b).trans ?_; simp [homog])
  · first | exact s3007_c14 x0 x1 b | (refine (s3007_c14 x0 x1 b).trans ?_; simp [homog])
  · first | exact s3007_c15 x0 x1 b | (refine (s3007_c15 x0 x1 b).trans ?_; simp [homog])
  · first | exact s3052_c0 x0 x1 b | (refine (s3052_c0 x0 x1 b).trans ?_; simp [homog])
  · first | exact s3052_c1 x0 x1 b | (refine (s3052_c1 x0 x1 b).trans ?_; simp [homog])
  · first | exact s3052_c2 x0 x1 b | (refine (s3052_c2 x0 x1 b).trans ?_; simp [homog])
  · first | exact s3052_c3 x0 x1 b | (refine (s3052_c3 x0 x1 b).trans ?_; simp [homog])
  · first | exact s3052_c4 x0 x1 b | (refine (s3052_c4 x0 x1 b).trans ?_; simp [homog])
  · first | exact s3052_c5 x0 x1 b | (refine (s3052_c5 x0 x1 b).trans ?_; simp [homog])
  · first | exact s3052_c6 x0 x1 b | (refine (s3052_c6 x0 x1 b).trans ?_; simp [homog])
  · first | exact s3052_c7 x0 x1 b | (refine (s3052_c7 x0 x1 b).trans ?_; simp [homog])
  · first | exact s3052_c8 x0 x1 b | (refine (s3052_c8 x0 x1 b).trans ?_; simp [homog])
  · first | exact s3052_c9 x0 x1 b | (refine (s3052_c9 x0 x1 b).trans ?_; simp [homog])
  · first | exact s3052_c10 x0 x1 b | (refine (s3052_c10 x0 x1 b).trans ?_; simp [homog])
  · first | exact s3052_c11 x0 x1 b | (refine (s3052_c11 x0 x1 b).trans ?_; simp [homog])
  · first | exact s3052_c12 x0 x1 b | (refine (s3052_c12 x0 x1 b).trans ?_; simp [homog])
  · first | exact s3052_c13 x0 x1 b | (refine (s3052_c13 x0 x1 b).trans ?_; simp [homog])
  · first | exact s3052_c14 x0 x1 b | (refine (s3052_c14 x0 x1 b).trans ?_; simp [homog])
  · first | exact s3052_c15 x0 x1 b | (refine (s3052_c15 x0 x1 b).trans ?_; simp [homog])
  · first | exact s3097_c0 x0 x1 b | (refine (s3097_c0 x0 x1 b).trans ?_; simp [homog])
  · first | exact s3097_c1 x0 x1 b | (refine (s3097_c1 x0 x1 b).trans ?_; simp [homog])
  · first | exact s3097_c2 x0 x1 b | (refine (s3097_c2 x0 x1 b).trans ?_; simp [homog])
  · first | exact s3097_c3 x0 x1 b | (refine (s3097_c3 x0 x1 b).trans ?_; simp [homog])
  · first | exact s3097_c4 x0 x1 b | (refine (s3097_c4 x0 x1 b).trans ?_; simp [homog])
  · first | exact s3097_c5 x0 x1 b | (refine (s3097_c5 x0 x1 b).trans ?_; simp [homog])
  · first | exact s3097_c6 x0 x1 b | (refine (s3097_c6 x0 x1 b).trans ?_; simp [homog])
  · first | exact s3097_c7 x0 x1 b | (refine (s3097_c7 x0 x1 b).trans ?_; simp [homog])
  · first | exact s3097_c8 x0 x1 b | (refine (s3097_c8 x0 x1 b).trans ?_; simp [homog])
  · first | exact s3097_c9 x0 x1 b | (refine (s3097_c9 x0 x1 b).trans ?_; simp [homog])
  · first | exact s3097_c10 x0 x1 b | (refine (s3097_c10 x0 x1 b).trans ?_; simp [homog])
  · first | exact s3097_c11 x0 x1 b | (refine (s3097_c11 x0 x1 b).trans ?_; simp [homog])
  · first | exact s3097_c12 x0 x1 b | (refine (s3097_c12 x0 x1 b).trans ?_; simp [homog])
  · first | exact s3097_c13 x0 x1 b | (refine (s3097_c13 x0 x1 b).trans ?_; simp [homog])
  · first | exact s3097_c14 x0 x1 b | (refine (s3097_c14 x0 x1 b).trans ?_; simp [homog])
  · first | exact s3097_c15 x0 x1 b | (refine (s3097_c15 x0 x1 b).trans ?_; simp [homog])
  · first | exact s3142_c0 x0 x1 b | (refine (s3142_c0 x0 x1 b).trans ?_; simp [homog])
  · first | exact s3142_c1 x0 x1 b | (refine (s3142_c1 x0 x1 b).trans ?_; simp [homog])
  · first | exact s3142_c2 x0 x1 b | (refine (s3142_c2 x0 x1 b).trans ?_; simp [homog])
  · first | exact s3142_c3 x0 x1 b | (refine (s3142_c3 x0 x1 b).trans ?_; simp [homog])
  · first | exact s3142_c4 x0 x1 b | (refine (s3142_c4 x0 x1 b).trans ?_; simp [homog])
  · first | exact s3142_c5 x0 x1 b | (refine (s3142_c5 x0 x1 b).trans ?_; simp [homog])
  · first | exact s3142_c6 x0 x1 b | (refine (s3142_c6 x0 x1 b).trans ?_; simp [homog])
  · first | exact s3142_c7 x0 x1 b | (refine (s3142_c7 x0 x1 b).trans ?_; simp [homog])
  · first | exact s3142_c8 x0 x1 b | (refine (s3142_c8 x0 x1 b).trans ?_; simp [homog])
  · first | exact s3142_c9 x0 x1 b | (refine (s3142_c9 x0 x1 b).trans ?_; simp [homog])
  · first | exact s3142_c10 x0 x1 b | (refine (s3142_c10 x0 x1 b).trans ?_; simp [homog])
  · first | exact s3142_c11 x0 x1 b | (refine (s3142_c11 x0 x1 b).trans ?_; simp [homog])
  · first | exact s3142_c12 x0 x1 b | (refine (s3142_c12 x0 x1 b).trans ?_; simp [homog])
  · first | exact s3142_c13 x0 x1 b | (refine (s3142_c13 x0 x1 b).trans ?_; simp [homog])
  · first | exact s3142_c14 x0 x1 b | (refine (s3142_c14 x0 x1 b).trans ?_; simp [homog])
  · first | exact s3142_c15 x0 x1 b | (refine (s3142_c15 x0 x1 b).trans ?_; simp [homog])
  · first | exact s3187_c0 x0 x1 b | (refine (s3187_c0 x0 x1 b).trans ?_; simp [homog])
  · first | exact s3187_c1 x0 x1 b | (refine (s3187_c1 x0 x1 b).trans ?_; simp [homog])
  · first | exact s3187_c2 x0 x1 b | (refine (s3187_c2 x0 x1 b).trans ?_; simp [homog])
  · first | exact s3187_c3 x0 x1 b | (refine (s3187_c3 x0 x1 b).trans ?_; simp [homog])
  · first | exact s3187_c4 x0 x1 b | (refine (s3187_c4 x0 x1 b).trans ?_; simp [homog])
  · first | exact s3187_c5 x0 x1 b | (refine (s3187_c5 x0 x1 b).trans ?_; simp [homog])
  · first | exact s3187_c6 x0 x1 b | (refine (s3187_c6 x0 x1 b).trans ?_; simp [homog])
  · first | exact s3187_c7 x0 x1 b | (refine (s3187_c7 x0 x1 b).trans ?_; simp [homog])
  · first | exact s3187_c8 x0 x1 b | (refine (s3187_c8 x0 x1 b).trans ?_; simp [homog])
  · first | exact s3187_c9 x0 x1 b | (refine (s3187_c9 x0 x1 b).trans ?_; simp [homog])
  · first | exact s3187_c10 x0 x1 b | (refine (s3187_c10 x0 x1 b).trans ?_; simp [homog])
  · first | exact s3187_c11 x0 x1 b | (refine (s3187_c11 x0 x1 b).trans ?_; simp [homog])
  · first | exact s3187_c12 x0 x1 b | (refine (s3187_c12 x0 x1 b).trans ?_; simp [homog])
  · first | exact s3187_c13 x0 x1 b | (refine (s3187_c13 x0 x1 b).trans ?_; simp [homog])
  · first | exact s3187_c14 x0 x1 b | (refine (s3187_c14 x0 x1 b).trans ?_; simp [homog])
  · first | exact s3187_c15 x0 x1 b | (refine (s3187_c15 x0 x1 b).trans ?_; simp [homog])
  · first | exact s3232_c0 x0 x1 b | (refine (s3232_c0 x0 x1 b).trans ?_; simp [homog])
  · first | exact s3232_c1 x0 x1 b | (refine (s3232_c1 x0 x1 b).trans ?_; simp [homog])
  · first | exact s3232_c2 x0 x1 b | (refine (s3232_c2 x0 x1 b).trans ?_; simp [homog])
  · first | exact s3232_c3 x0 x1 b | (refine (s3232_c3 x0 x1 b).trans ?_; simp [homog])
  · first | exact s3232_c4 x0 x1 b | (refine (s3232_c4 x0 x1 b).trans ?_; simp [homog])
  · first | exact s3232_c5 x0 x1 b | (refine (s3232_c5 x0 x1 b).trans ?_; simp [homog])
  · first | exact s3232_c6 x0 x1 b | (refine (s3232_c6 x0 x1 b).trans ?_; simp [homog])
  · first | exact s3232_c7 x0 x1 b | (refine (s3232_c7 x0 x1 b).trans ?_; simp [homog])
  · first | exact s3232_c8 x0 x1 b | (refine (s3232_c8 x0 x1 b).trans ?_; simp [homog])
  · first | exact s3232_c9 x0 x1 b | (refine (s3232_c9 x0 x1 b).trans ?_; simp [homog])
  · first | exact s3232_c10 x0 x1 b | (refine (s3232_c10 x0 x1 b).trans ?_; simp [homog])
  · first | exact s3232_c11 x0 x1 b | (refine (s3232_c11 x0 x1 b).trans ?_; simp [homog])
  · first | exact s3232_c12 x0 x1 b | (refine (s3232_c12 x0 x1 b).trans ?_; simp [homog])
  · first | exact s3232_c13 x0 x1 b | (refine (s3232_c13 x0 x1 b).trans ?_; simp [homog])
  · first | exact s3232_c14 x0 x1 b | (refine (s3232_c14 x0 x1 b).trans ?_; simp [homog])
  · first | exact s3232_c15 x0 x1 b | (refine (s3232_c15 x0 x1 b).trans ?_; simp [homog])
  · first | exact s3277_c0 x0 x1 b | (refine (s3277_c0 x0 x1 b).trans ?_; simp [homog])
  · first | exact s3277_c1 x0 x1 b | (refine (s3277_c1 x0 x1 b).trans ?_; simp [homog])
  · first | exact s3277_c2 x0 x1 b | (refine (s3277_c2 x0 x1 b).trans ?_; simp [homog])
  · first | exact s3277_c3 x0 x1 b | (refine (s3277_c3 x0 x1 b).trans ?_; simp [homog])
  · first | exact s3277_c4 x0 x1 b | (refine (s3277_c4 x0 x1 b).trans ?_; simp [homog])
  · first | exact s3277_c5 x0 x1 b | (refine (s3277_c5 x0 x1 b).trans ?_; simp [homog])
  · first | exact s3277_c6 x0 x1 b | (refine (s3277_c6 x0 x1 b).trans ?_; simp [homog])
  · first | exact s3277_c7 x0 x1 b | (refine (s3277_c7 x0 x1 b).trans ?_; simp [homog])
  · first | exact s3277_c8 x0 x1 b | (refine (s3277_c8 x0 x1 b).trans ?_; simp [homog])
  · first | exact s3277_c9 x0 x1 b | (refine (s3277_c9 x0 x1 b).trans ?_; simp [homog])
  · first | exact s3277_c10 x0 x1 b | (refine (s3277_c10 x0 x1 b).trans ?_; simp [homog])
  · first | exact s3277_c11 x0 x1 b | (refine (s3277_c11 x0 x1 b).trans ?_; simp [homog])
  · first | exact s3277_c12 x0 x1 b | (refine (s3277_c12 x0 x1 b).trans ?_; simp [homog])
  · first | exact s3277_c13 x0 x1 b | (refine (s3277_c13 x0 x1 b).trans ?_; simp [homog])
  · first | exact s3277_c14 x0 x1 b | (refine (s3277_c14 x0 x1 b).trans ?_; simp [homog])
  · first | exact s3277_c15 x0 x1 b | (refine (s3277_c15 x0 x1 b).trans ?_; simp [homog])
  · first | exact s3322_c0 x0 x1 b | (refine (s3322_c0 x0 x1 b).trans ?_; simp [homog])
  · first | exact s3322_c1 x0 x1 b | (refine (s3322_c1 x0 x1 b).trans ?_; simp [homog])
  · first | exact s3322_c2 x0 x1 b | (refine (s3322_c2 x0 x1 b).trans ?_; simp [homog])
  · first | exact s3322_c3 x0 x1 b | (refine (s3322_c3 x0 x1 b).trans ?_; simp [homog])
  · first | exact s3322_c4 x0 x1 b | (refine (s3322_c4 x0 x1 b).trans ?_; simp [homog])
  · first | exact s3322_c5 x0 x1 b | (refine (s3322_c5 x0 x1 b).trans ?_; simp [homog])
  · first | exact s3322_c6 x0 x1 b | (refine (s3322_c6 x0 x1 b).trans ?_; simp [homog])
  · first | exact s3322_c7 x0 x1 b | (refine (s3322_c7 x0 x1 b).trans ?_; simp [homog])
  · first | exact s3322_c8 x0 x1 b | (refine (s3322_c8 x0 x1 b).trans ?_; simp [homog])
  · first | exact s3322_c9 x0 x1 b | (refine (s3322_c9 x0 x1 b).trans ?_; simp [homog])
  · first | exact s3322_c10 x0 x1 b | (refine (s3322_c10 x0 x1 b).trans ?_; simp [homog])
  · first | exact s3322_c11 x0 x1 b | (refine (s3322_c11 x0 x1 b).trans ?_; simp [homog])
  · first | exact s3322_c12 x0 x1 b | (refine (s3322_c12 x0 x1 b).trans ?_; simp [homog])
  · first | exact s3322_c13 x0 x1 b | (refine (s3322_c13 x0 x1 b).trans ?_; simp [homog])
  · first | exact s3322_c14 x0 x1 b | (refine (s3322_c14 x0 x1 b).trans ?_; simp [homog])
  · first | exact s3322_c15 x0 x1 b | (refine (s3322_c15 x0 x1 b).trans ?_; simp [homog])
  · first | exact s3367_c0 x0 x1 b | (refine (s3367_c0 x0 x1 b).trans ?_; simp [homog])
  · first | exact s3367_c1 x0 x1 b | (refine (s3367_c1 x0 x1 b).trans ?_; simp [homog])
  · first | exact s3367_c2 x0 x1 b | (refine (s3367_c2 x0 x1 b).trans ?_; simp [homog])
  · first | exact s3367_c3 x0 x1 b | (refine (s3367_c3 x0 x1 b).trans ?_; simp [homog])
  · first | exact s3367_c4 x0 x1 b | (refine (s3367_c4 x0 x1 b).trans ?_; simp [homog])
  · first | exact s3367_c5 x0 x1 b | (refine (s3367_c5 x0 x1 b).trans ?_; simp [homog])
  · first | exact s3367_c6 x0 x1 b | (refine (s3367_c6 x0 x1 b).trans ?_; simp [homog])
  · first | exact s3367_c7 x0 x1 b | (refine (s3367_c7 x0 x1 b).trans ?_; simp [homog])
  · first | exact s3367_c8 x0 x1 b | (refine (s3367_c8 x0 x1 b).trans ?_; simp [homog])
  · first | exact s3367_c9 x0 x1 b | (refine (s3367_c9 x0 x1 b).trans ?_; simp [homog])
  · first | exact s3367_c10 x0 x1 b | (refine (s3367_c10 x0 x1 b).trans ?_; simp [homog])
  · first | exact s3367_c11 x0 x1 b | (refine (s3367_c11 x0 x1 b).trans ?_; simp [homog])
  · first | exact s3367_c12 x0 x1 b | (refine (s3367_c12 x0 x1 b).trans ?_; simp [homog])
  · first | exact s3367_c13 x0 x1 b | (refine (s3367_c13 x0 x1 b).trans ?_; simp [homog])
  · first | exact s3367_c14 x0 x1 b | (refine (s3367_c14 x0 x1 b).trans ?_; simp [homog])
  · first | exact s3367_c15 x0 x1 b | (refine (s3367_c15 x0 x1 b).trans ?_; simp [homog])
  · first | exact s3412_c0 x0 x1 b | (refine (s3412_c0 x0 x1 b).trans ?_; simp [homog])
  · first | exact s3412_c1 x0 x1 b | (refine (s3412_c1 x0 x1 b).trans ?_; simp [homog])
  · first | exact s3412_c2 x0 x1 b | (refine (s3412_c2 x0 x1 b).trans ?_; simp [homog])
  · first | exact s3412_c3 x0 x1 b | (refine (s3412_c3 x0 x1 b).trans ?_; simp [homog])
  · first | exact s3412_c4 x0 x1 b | (refine (s3412_c4 x0 x1 b).trans ?_; simp [homog])
  · first | exact s3412_c5 x0 x1 b | (refine (s3412_c5 x0 x1 b).trans ?_; simp [homog])
  · first | exact s3412_c6 x0 x1 b | (refine (s3412_c6 x0 x1 b).trans ?_; simp [homog])
  · first | exact s3412_c7 x0 x1 b | (refine (s3412_c7 x0 x1 b).trans ?_; simp [homog])
  · first | exact s3412_c8 x0 x1 b | (refine (s3412_c8 x0 x1 b).trans ?_; simp [homog])
  · first | exact s3412_c9 x0 x1 b | (refine (s3412_c9 x0 x1 b).trans ?_; simp [homog])
  · first | exact s3412_c10 x0 x1 b | (refine (s3412_c10 x0 x1 b).trans ?_; simp [homog])
  · first | exact s3412_c11 x0 x1 b | (refine (s3412_c11 x0 x1 b).trans ?_; simp [homog])
  · first | exact s3412_c12 x0 x1 b | (refine (s3412_c12 x0 x1 b).trans ?_; simp [homog])
  · first | exact s3412_c13 x0 x1 b | (refine (s3412_c13 x0 x1 b).trans ?_; simp [homog])
  · first | exact s3412_c14 x0 x1 b | (refine (s3412_c14 x0 x1 b).trans ?_; simp [homog])
  · first | exact s3412_c15 x0 x1 b | (refine (s3412_c15 x0 x1 b).trans ?_; simp [homog])
  · first | exact s3457_c0 x0 x1 b | (refine (s3457_c0 x0 x1 b).trans ?_; simp [homog])
  · first | exact s3457_c1 x0 x1 b | (refine (s3457_c1 x0 x1 b).trans ?_; simp [homog])
  · first | exact s3457_c2 x0 x1 b | (refine (s3457_c2 x0 x1 b).trans ?_; simp [homog])
  · first | exact s3457_c3 x0 x1 b | (refine (s3457_c3 x0 x1 b).trans ?_; simp [homog])
  · first | exact s3457_c4 x0 x1 b | (refine (s3457_c4 x0 x1 b).trans ?_; simp [homog])
  · first | exact s3457_c5 x0 x1 b | (refine (s3457_c5 x0 x1 b).trans ?_; simp [homog])
  · first | exact s3457_c6 x0 x1 b | (refine (s3457_c6 x0 x1 b).trans ?_; simp [homog])
  · first | exact s3457_c7 x0 x1 b | (refine (s3457_c7 x0 x1 b).trans ?_; simp [homog])
  · first | exact s3457_c8 x0 x1 b | (refine (s3457_c8 x0 x1 b).trans ?_; simp [homog])
  · first | exact s3457_c9 x0 x1 b | (refine (s3457_c9 x0 x1 b).trans ?_; simp [homog])
  · first | exact s3457_c10 x0 x1 b | (refine (s3457_c10 x0 x1 b).trans ?_; simp [homog])
  · first | exact s3457_c11 x0 x1 b | (refine (s3457_c11 x0 x1 b).trans ?_; simp [homog])
  · first | exact s3457_c12 x0 x1 b | (refine (s3457_c12 x0 x1 b).trans ?_; simp [homog])
  · first | exact s3457_c13 x0 x1 b | (refine (s3457_c13 x0 x1 b).trans ?_; simp [homog])
  · first | exact s3457_c14 x0 x1 b | (refine (s3457_c14 x0 x1 b).trans ?_; simp [homog])
  · first | exact s3457_c15 x0 x1 b | (refine (s3457_c15 x0 x1 b).trans ?_; simp [homog])
  · first | exact s3502_c0 x0 x1 b | (refine (s3502_c0 x0 x1 b).trans ?_; simp [homog])
  · first | exact s3502_c1 x0 x1 b | (refine (s3502_c1 x0 x1 b).trans ?_; simp [homog])
  · first | exact s3502_c2 x0 x1 b | (refine (s3502_c2 x0 x1 b).trans ?_; simp [homog])
  · first | exact s3502_c3 x0 x1 b | (refine (s3502_c3 x0 x1 b).trans ?_; simp [homog])
  · first | exact s3502_c4 x0 x1 b | (refine (s3502_c4 x0 x1 b).trans ?_; simp [homog])
  · first | exact s3502_c5 x0 x1 b | (refine (s3502_c5 x0 x1 b).trans ?_; simp [homog])
  · first | exact s3502_c6 x0 x1 b | (refine (s3502_c6 x0 x1 b).trans ?_; simp [homog])
  · first | exact s3502_c7 x0 x1 b | (refine (s3502_c7 x0 x1 b).trans ?_; simp [homog])
  · first | exact s3502_c8 x0 x1 b | (refine (s3502_c8 x0 x1 b).trans ?_; simp [homog])
  · first | exact s3502_c9 x0 x1 b | (refine (s3502_c9 x0 x1 b).trans ?_; simp [homog])
  · first | exact s3502_c10 x0 x1 b | (refine (s3502_c10 x0 x1 b).trans ?_; simp [homog])
  · first | exact s3502_c11 x0 x1 b | (refine (s3502_c11 x0 x1 b).trans ?_; simp [homog])
  · first | exact s3502_c12 x0 x1 b | (refine (s3502_c12 x0 x1 b).trans ?_; simp [homog])
  · first | exact s3502_c13 x0 x1 b | (refine (s3502_c13 x0 x1 b).trans ?_; simp [homog])
  · first | exact s3502_c14 x0 x1 b | (refine (s3502_c14 x0 x1 b).trans ?_; simp [homog])
  · first | exact s3502_c15 x0 x1 b | (refine (s3502_c15 x0 x1 b).trans ?_; simp [homog])
  · first | exact s3547_c0 x0 x1 b | (refine (s3547_c0 x0 x1 b).trans ?_; simp [homog])
  · first | exact s3547_c1 x0 x1 b | (refine (s3547_c1 x0 x1 b).trans ?_; simp [homog])
  · first | exact s3547_c2 x0 x1 b | (refine (s3547_c2 x0 x1 b).trans ?_; simp [homog])
  · first | exact s3547_c3 x0 x1 b | (refine (s3547_c3 x0 x1 b).trans ?_; simp [homog])
  · first | exact s3547_c4 x0 x1 b | (refine (s3547_c4 x0 x1 b).trans ?_; simp [homog])
  · first | exact s3547_c5 x0 x1 b | (refine (s3547_c5 x0 x1 b).trans ?_; simp [homog])
  · first | exact s3547_c6 x0 x1 b | (refine (s3547_c6 x0 x1 b).trans ?_; simp [homog])
  · first | exact s3547_c7 x0 x1 b | (refine (s3547_c7 x0 x1 b).trans ?_; simp [homog])
  · first | exact s3547_c8 x0 x1 b | (refine (s3547_c8 x0 x1 b).trans ?_; simp [homog])
  · first | exact s3547_c9 x0 x1 b | (refine (s3547_c9 x0 x1 b).trans ?_; simp [homog])
  · first | exact s3547_c10 x0 x1 b | (refine (s3547_c10 x0 x1 b).trans ?_; simp [homog])
  · first | exact s3547_c11 x0 x1 b | (refine (s3547_c11 x0 x1 b).trans ?_; simp [homog])
  · first | exact s3547_c12 x0 x1 b | (refine (s3547_c12 x0 x1 b).trans ?_; simp [homog])
  · first | exact s3547_c13 x0 x1 b | (refine (s3547_c13 x0 x1 b).trans ?_; simp [homog])
  · first | exact s3547_c14 x0 x1 b | (refine (s3547_c14 x0 x1 b).trans ?_; simp [homog])
  · first | exact s3547_c15 x0 x1 b | (refine (s3547_c15 x0 x1 b).trans ?_; simp [homog])
  · first | exact s3592_c0 x0 x1 b | (refine (s3592_c0 x0 x1 b).trans ?_; simp [homog])
  · first | exact s3592_c1 x0 x1 b | (refine (s3592_c1 x0 x1 b).trans ?_; simp [homog])
  · first | exact s3592_c2 x0 x1 b | (refine (s3592_c2 x0 x1 b).trans ?_; simp [homog])
  · first | exact s3592_c3 x0 x1 b | (refine (s3592_c3 x0 x1 b).trans ?_; simp [homog])
  · first | exact s3592_c4 x0 x1 b | (refine (s3592_c4 x0 x1 b).trans ?_; simp [homog])
  · first | exact s3592_c5 x0 x1 b | (refine (s3592_c5 x0 x1 b).trans ?_; simp [homog])
  · first | exact s3592_c6 x0 x1 b | (refine (s3592_c6 x0 x1 b).trans ?_; simp [homog])
  · first | exact s3592_c7 x0 x1 b | (refine (s3592_c7 x0 x1 b).trans ?_; simp [homog])
  · first | exact s3592_c8 x0 x1 b | (refine (s3592_c8 x0 x1 b).trans ?_; simp [homog])
  · first | exact s3592_c9 x0 x1 b | (refine (s3592_c9 x0 x1 b).trans ?_; simp [homog])
  · first | exact s3592_c10 x0 x1 b | (refine (s3592_c10 x0 x1 b).trans ?_; simp [homog])
  · first | exact s3592_c11 x0 x1 b | (refine (s3592_c11 x0 x1 b).trans ?_; simp [homog])
  · first | exact s3592_c12 x0 x1 b | (refine (s3592_c12 x0 x1 b).trans ?_; simp [homog])
  · first | exact s3592_c13 x0 x1 b | (refine (s3592_c13 x0 x1 b).trans ?_; simp [homog])
  · first | exact s3592_c14 x0 x1 b | (refine (s3592_c14 x0 x1 b).trans ?_; simp [homog])
  · first | exact s3592_c15 x0 x1 b | (refine (s3592_c15 x0 x1 b).trans ?_; simp [homog])
  · first | exact s3637_c0 x0 x1 b | (refine (s3637_c0 x0 x1 b).trans ?_; simp [homog])
  · first | exact s3637_c1 x0 x1 b | (refine (s3637_c1 x0 x1 b).trans ?_; simp [homog])
  · first | exact s3637_c2 x0 x1 b | (refine (s3637_c2 x0 x1 b).trans ?_; simp [homog])
  · first | exact s3637_c3 x0 x1 b | (refine (s3637_c3 x0 x1 b).trans ?_; simp [homog])
  · first | exact s3637_c4 x0 x1 b | (refine (s3637_c4 x0 x1 b).trans ?_; simp [homog])
  · first | exact s3637_c5 x0 x1 b | (refine (s3637_c5 x0 x1 b).trans ?_; simp [homog])
  · first | exact s3637_c6 x0 x1 b | (refine (s3637_c6 x0 x1 b).trans ?_; simp [homog])
  · first | exact s3637_c7 x0 x1 b | (refine (s3637_c7 x0 x1 b).trans ?_; simp [homog])
  · first | exact s3637_c8 x0 x1 b | (refine (s3637_c8 x0 x1 b).trans ?_; simp [homog])
  · first | exact s3637_c9 x0 x1 b | (refine (s3637_c9 x0 x1 b).trans ?_; simp [homog])
  · first | exact s3637_c10 x0 x1 b | (refine (s3637_c10 x0 x1 b).trans ?_; simp [homog])
  · first | exact s3637_c11 x0 x1 b | (refine (s3637_c11 x0 x1 b).trans ?_; simp [homog])
  · first | exact s3637_c12 x0 x1 b | (refine (s3637_c12 x0 x1 b).trans ?_; simp [homog])
  · first | exact s3637_c13 x0 x1 b | (refine (s3637_c13 x0 x1 b).trans ?_; simp [homog])
  · first | exact s3637_c14 x0 x1 b | (refine (s3637_c14 x0 x1 b).trans ?_; simp [homog])
  · first | exact s3637_c15 x0 x1 b | (refine (s3637_c15 x0 x1 b).trans ?_; simp [homog])
  · first | exact s3682_c0 x0 x1 b | (refine (s3682_c0 x0 x1 b).trans ?_; simp [homog])
  · first | exact s3682_c1 x0 x1 b | (refine (s3682_c1 x0 x1 b).trans ?_; simp [homog])
  · first | exact s3682_c2 x0 x1 b | (refine (s3682_c2 x0 x1 b).trans ?_; simp [homog])
  · first | exact s3682_c3 x0 x1 b | (refine (s3682_c3 x0 x1 b).trans ?_; simp [homog])
  · first | exact s3682_c4 x0 x1 b | (refine (s3682_c4 x0 x1 b).trans ?_; simp [homog])
  · first | exact s3682_c5 x0 x1 b | (refine (s3682_c5 x0 x1 b).trans ?_; simp [homog])
  · first | exact s3682_c6 x0 x1 b | (refine (s3682_c6 x0 x1 b).trans ?_; simp [homog])
  · first | exact s3682_c7 x0 x1 b | (refine (s3682_c7 x0 x1 b).trans ?_; simp [homog])
  · first | exact s3682_c8 x0 x1 b | (refine (s3682_c8 x0 x1 b).trans ?_; simp [homog])
  · first | exact s3682_c9 x0 x1 b | (refine (s3682_c9 x0 x1 b).trans ?_; simp [homog])
  · first | exact s3682_c10 x0 x1 b | (refine (s3682_c10 x0 x1 b).trans ?_; simp [homog])
  · first | exact s3682_c11 x0 x1 b | (refine (s3682_c11 x0 x1 b).trans ?_; simp [homog])
  · first | exact s3682_c12 x0 x1 b | (refine (s3682_c12 x0 x1 b).trans ?_; simp [homog])
  · first | exact s3682_c13 x0 x1 b | (refine (s3682_c13 x0 x1 b).trans ?_; simp [homog])
  · first | exact s3682_c14 x0 x1 b | (refine (s3682_c14 x0 x1 b).trans ?_; simp [homog])
  · first | exact s3682_c15 x0 x1 b | (refine (s3682_c15 x0 x1 b).trans ?_; simp [homog])
  · first | exact s3727_c0 x0 x1 b | (refine (s3727_c0 x0 x1 b).trans ?_; simp [homog])
  · first | exact s3727_c1 x0 x1 b | (refine (s3727_c1 x0 x1 b).trans ?_; simp [homog])
  · first | exact s3727_c2 x0 x1 b | (refine (s3727_c2 x0 x1 b).trans ?_; simp [homog])
  · first | exact s3727_c3 x0 x1 b | (refine (s3727_c3 x0 x1 b).trans ?_; simp [homog])
  · first | exact s3727_c4 x0 x1 b | (refine (s3727_c4 x0 x1 b).trans ?_; simp [homog])
  · first | exact s3727_c5 x0 x1 b | (refine (s3727_c5 x0 x1 b).trans ?_; simp [homog])
  · first | exact s3727_c6 x0 x1 b | (refine (s3727_c6 x0 x1 b).trans ?_; simp [homog])
  · first | exact s3727_c7 x0 x1 b | (refine (s3727_c7 x0 x1 b).trans ?_; simp [homog])
  · first | exact s3727_c8 x0 x1 b | (refine (s3727_c8 x0 x1 b).trans ?_; simp [homog])
  · first | exact s3727_c9 x0 x1 b | (refine (s3727_c9 x0 x1 b).trans ?_; simp [homog])
  · first | exact s3727_c10 x0 x1 b | (refine (s3727_c10 x0 x1 b).trans ?_; simp [homog])
  · first | exact s3727_c11 x0 x1 b | (refine (s3727_c11 x0 x1 b).trans ?_; simp [homog])
  · first | exact s3727_c12 x0 x1 b | (refine (s3727_c12 x0 x1 b).trans ?_; simp [homog])
  · first | exact s3727_c13 x0 x1 b | (refine (s3727_c13 x0 x1 b).trans ?_; simp [homog])
  · first | exact s3727_c14 x0 x1 b | (refine (s3727_c14 x0 x1 b).trans ?_; simp [homog])
  · first | exact s3727_c15 x0 x1 b | (refine (s3727_c15 x0 x1 b).trans ?_; simp [homog])
/-- Column r of block j of the second result at row b: the posed position th j r. -/
theorem blk3_at (b : Fin 128) (j : Fin 24) (r : Fin 3) :
    blk3 x0 x1 j (ix2 b r) = th (Rk x0 b) (pk x1 b) j.val r := by
  fin_cases j <;> fin_cases r
  · exact s2696_c0 x0 x1 b
  · exact s2696_c1 x0 x1 b
  · exact s2696_c2 x0 x1 b
  · exact s2741_c0 x0 x1 b
  · exact s2741_c1 x0 x1 b
  · exact s2741_c2 x0 x1 b
  · exact s2786_c0 x0 x1 b
  · exact s2786_c1 x0 x1 b
  · exact s2786_c2 x0 x1 b
  · exact s2831_c0 x0 x1 b
  · exact s2831_c1 x0 x1 b
  · exact s2831_c2 x0 x1 b
  · exact s2876_c0 x0 x1 b
  · exact s2876_c1 x0 x1 b
  · exact s2876_c2 x0 x1 b
  · exact s2921_c0 x0 x1 b
  · exact s2921_c1 x0 x1 b
  · exact s2921_c2 x0 x1 b
  · exact s2966_c0 x0 x1 b
  · exact s2966_c1 x0 x1 b
  · exact s2966_c2 x0 x1 b
  · exact s3011_c0 x0 x1 b
  · exact s3011_c1 x0 x1 b
  · exact s3011_c2 x0 x1 b
  · exact s3056_c0 x0 x1 b
  · exact s3056_c1 x0 x1 b
  · exact s3056_c2 x0 x1 b
  · exact s3101_c0 x0 x1 b
  · exact s3101_c1 x0 x1 b
  · exact s3101_c2 x0 x1 b
  · exact s3146_c0 x0 x1 b
  · exact s3146_c1 x0 x1 b
  · exact s3146_c2 x0 x1 b
  · exact s3191_c0 x0 x1 b
  · exact s3191_c1 x0 x1 b
  · exact s3191_c2 x0 x1 b
  · exact s3236_c0 x0 x1 b
  · exact s3236_c1 x0 x1 b
  · exact s3236_c2 x0 x1 b
  · exact s3281_c0 x0 x1 b
  · exact s3281_c1 x0 x1 b
  · exact s3281_c2 x0 x1 b
  · exact s3326_c0 x0 x1 b
  · exact s3326_c1 x0 x1 b
  · exact s3326_c2 x0 x1 b
  · exact s3371_c0 x0 x1 b
  · exact s3371_c1 x0 x1 b
  · exact s3371_c2 x0 x1 b
  · exact s3416_c0 x0 x1 b
  · exact s3416_c1 x0 x1 b
  · exact s3416_c2 x0 x1 b
  · exact s3461_c0 x0 x1 b
  · exact s3461_c1 x0 x1 b
  · exact s3461_c2 x0 x1 b
  · exact s3506_c0 x0 x1 b
  · exact s3506_c1 x0 x1 b
  · exact s3506_c2 x0 x1 b
  · exact s3551_c0 x0 x1 b
  · exact s3551_c1 x0 x1 b
  · exact s3551_c2 x0 x1 b
  · exact s3596_c0 x0 x1 b
  · exact s3596_c1 x0 x1 b
  · exact s3596_c2 x0 x1 b
  · exact s3641_c0 x0 x1 b
  · exact s3641_c1 x0 x1 b
  · exact s3641_c2 x0 x1 b
  · exact s3686_c0 x0 x1 b
  · exact s3686_c1 x0 x1 b
  · exact s3686_c2 x0 x1 b
  · exact s3731_c0 x0 x1 b
  · exact s3731_c1 x0 x1 b
  · exact s3731_c2 x0 x1 b

/-- The stored blocks are these blocks side by side. -/
theorem out16_eq : s3732 x0 x1 = concatenate S128x384 1 [⟨S128x16, s2692 x0 x1⟩, ⟨S128x16, s2737 x0 x1⟩, ⟨S128x16, s2782 x0 x1⟩, ⟨S128x16, s2827 x0 x1⟩, ⟨S128x16, s2872 x0 x1⟩, ⟨S128x16, s2917 x0 x1⟩, ⟨S128x16, s2962 x0 x1⟩, ⟨S128x16, s3007 x0 x1⟩, ⟨S128x16, s3052 x0 x1⟩, ⟨S128x16, s3097 x0 x1⟩, ⟨S128x16, s3142 x0 x1⟩, ⟨S128x16, s3187 x0 x1⟩, ⟨S128x16, s3232 x0 x1⟩, ⟨S128x16, s3277 x0 x1⟩, ⟨S128x16, s3322 x0 x1⟩, ⟨S128x16, s3367 x0 x1⟩, ⟨S128x16, s3412 x0 x1⟩, ⟨S128x16, s3457 x0 x1⟩, ⟨S128x16, s3502 x0 x1⟩, ⟨S128x16, s3547 x0 x1⟩, ⟨S128x16, s3592 x0 x1⟩, ⟨S128x16, s3637 x0 x1⟩, ⟨S128x16, s3682 x0 x1⟩, ⟨S128x16, s3727 x0 x1⟩] concatenates_S128x16_S128x16_S128x16_S128x16_S128x16_S128x16_S128x16_S128x16_S128x16_S128x16_S128x16_S128x16_S128x16_S128x16_S128x16_S128x16_S128x16_S128x16_S128x16_S128x16_S128x16_S128x16_S128x16_S128x16_S128x384_d1 := rfl
theorem out3_eq : s3733 x0 x1 = concatenate S128x72 1 [⟨S128x3, s2696 x0 x1⟩, ⟨S128x3, s2741 x0 x1⟩, ⟨S128x3, s2786 x0 x1⟩, ⟨S128x3, s2831 x0 x1⟩, ⟨S128x3, s2876 x0 x1⟩, ⟨S128x3, s2921 x0 x1⟩, ⟨S128x3, s2966 x0 x1⟩, ⟨S128x3, s3011 x0 x1⟩, ⟨S128x3, s3056 x0 x1⟩, ⟨S128x3, s3101 x0 x1⟩, ⟨S128x3, s3146 x0 x1⟩, ⟨S128x3, s3191 x0 x1⟩, ⟨S128x3, s3236 x0 x1⟩, ⟨S128x3, s3281 x0 x1⟩, ⟨S128x3, s3326 x0 x1⟩, ⟨S128x3, s3371 x0 x1⟩, ⟨S128x3, s3416 x0 x1⟩, ⟨S128x3, s3461 x0 x1⟩, ⟨S128x3, s3506 x0 x1⟩, ⟨S128x3, s3551 x0 x1⟩, ⟨S128x3, s3596 x0 x1⟩, ⟨S128x3, s3641 x0 x1⟩, ⟨S128x3, s3686 x0 x1⟩, ⟨S128x3, s3731 x0 x1⟩] concatenates_S128x3_S128x3_S128x3_S128x3_S128x3_S128x3_S128x3_S128x3_S128x3_S128x3_S128x3_S128x3_S128x3_S128x3_S128x3_S128x3_S128x3_S128x3_S128x3_S128x3_S128x3_S128x3_S128x3_S128x3_S128x72_d1 := rfl

end Cert.KernelIdeal.KV

end
-- ==== Proof.PoseArrays.lean ====
/-
  The posed skeleton of a whole batch, as functions of the two argument arrays.

  rot : [131072, 24, 3, 3] holds the local matrices, pos : [131072, 24, 3] the rest positions. Batch element b reads its
  own joints: R j = rot[b, j], p j = pos[b, j]. The results are the corrected transforms [131072, 24, 4, 4] — entry
  (b, j, r, c) of [[Rh j, th j - Rh j p j], [0, 1]] — and the posed positions [131072, 24, 3] — entry (b, j, r) of th j.
-/
import proofs.«156383_j88811333747289_2_alg».proof.Proof.PoseSpec
import Idealize.ShloMosaic.Lib.ValueIdx

noncomputable section

namespace Cert.Pose

open Idealize.ShloMosaic Idealize.ShloMosaic.ValueIdx

abbrev SRot : Shape := ⟨4, ![131072, 24, 3, 3]⟩
abbrev SPos : Shape := ⟨3, ![131072, 24, 3]⟩
abbrev STf : Shape := ⟨4, ![131072, 24, 4, 4]⟩

/-- A joint number as a coordinate of the joint axis (numbers past the tree wrap; none is used). -/
def jt (j : ℕ) : Fin 24 := ⟨j % 24, Nat.mod_lt _ (by norm_num)⟩

theorem jt_val (j : Fin 24) : jt j.val = j := Fin.ext (Nat.mod_eq_of_lt j.isLt)

/-- Batch element b's local matrices. -/
def Rof (rot : SRot.Idx → EReal) (b : Fin 131072) : ℕ → Fin 3 → Fin 3 → EReal := fun j r c => rot (ix4 b (jt j) r c)
/-- Batch element b's rest positions. -/
def pof (pos : SPos.Idx → EReal) (b : Fin 131072) : ℕ → Fin 3 → EReal := fun j k => pos (ix3 b (jt j) k)

/-- The corrected transforms of the whole batch. -/
def tfArr (rot : SRot.Idx → EReal) (pos : SPos.Idx → EReal) : STf.Idx → EReal := fun i =>
  homog (Rh (Rof rot (i 0)) (i 1).val) (newt (Rof rot (i 0)) (pof pos (i 0)) (i 1).val) (i 2) (i 3)

/-- The posed positions of the whole batch. -/
def posedArr (rot : SRot.Idx → EReal) (pos : SPos.Idx → EReal) : SPos.Idx → EReal := fun i =>
  th (Rof rot (i 0)) (pof pos (i 0)) (i 1).val (i 2)

theorem tfArr_apply (rot : SRot.Idx → EReal) (pos : SPos.Idx → EReal) (b : Fin 131072) (j : Fin 24) (r c : Fin 4) :
    tfArr rot pos (ix4 b j r c) = homog (Rh (Rof rot b) j.val) (newt (Rof rot b) (pof pos b) j.val) r c := rfl

theorem posedArr_apply (rot : SRot.Idx → EReal) (pos : SPos.Idx → EReal) (b : Fin 131072) (j : Fin 24) (r : Fin 3) :
    posedArr rot pos (ix3 b j r) = th (Rof rot b) (pof pos b) j.val r := rfl

end Cert.Pose

end
-- ==== Proof.KBlocks.lean ====
/-
  The two blocks a grid point stores, read at an index, and the two whole-array functions they are blocks of.

  Row b of what a point stores is the posed skeleton of row b of what it loaded (KFacts): column 16 j + 4 r + c of the
  first stored block is entry (r, c) of [[Rh j, newt j], [0, 1]], column 3 j + r of the second is th j r. So a stored
  block is a block of ONE function of the whole recast arguments — G2 on [131072, 384], G3 on [131072, 72]: row B of the
  result is the posed skeleton of row B — as soon as the loaded rows are rows of those arrays. Recast to
  [131072, 24, 4, 4] and [131072, 24, 3], with the arguments recast from [131072, 24, 3, 3] and [131072, 24, 3], G2 and G3
  are the corrected transforms and the posed positions of PoseArrays: entry (B, j, r, c) sits at row B, column
  16 j + 4 r + c, and local entry (B, j, r, c) at row B, column 9 j + 3 r + c.
-/
import proofs.«156383_j88811333747289_2_alg».proof.Proof.KFacts
import proofs.«156383_j88811333747289_2_alg».proof.Proof.PoseArrays
import Idealize.ShloMosaic.Lib.Pipeline.Value

noncomputable section

namespace Cert.KernelIdeal.KVal

open Cert.KernelIdeal Cert.KernelIdeal.Gen Cert.KernelIdeal.KD Cert.KernelIdeal.KV Cert.Pose
open Idealize.ShloMosaic Idealize.ShloMosaic.ValueIdx

/-! ## Pieces of one shape side by side -/

/-- If every piece has the shape S, the extents along the axis of the first k pieces sum to k times S's extent. -/
theorem prefix_extents {α : Type} (xs : List ((s : Shape) × (s.Idx → α))) (S t : Shape) (a : Fin t.rank) (hr : S.rank = t.rank)
    (hall : ∀ x ∈ xs, x.1 = S) (k : ℕ) (hk : k ≤ xs.length) :
    (((xs.take k).map (·.1)).map fun s => if h : s.rank = t.rank then s.size (a.cast h.symm) else 0).sum
      = S.size (a.cast hr.symm) * k := by
  have hconst : ∀ y ∈ (((xs.take k).map (·.1)).map fun s => if h : s.rank = t.rank then s.size (a.cast h.symm) else 0),
      y = S.size (a.cast hr.symm) := by
    intro y hy
    simp only [List.mem_map] at hy
    obtain ⟨s, ⟨x, hx, rfl⟩, rfl⟩ := hy
    have hxS : x.1 = S := hall x (List.mem_of_mem_take hx)
    obtain ⟨s, f⟩ := x
    subst hxS
    exact dif_pos hr
  rw [List.sum_eq_card_nsmul _ _ hconst]
  simp only [List.length_map, List.length_take, Nat.min_eq_left hk, smul_eq_mul]
  exact Nat.mul_comm _ _

/-! ## The two stored blocks at an index -/

/-- Column 16 j + 4 r + c of the first stored block at row b: entry (r, c) of [[Rh j, newt j], [0, 1]] of row b's inputs. -/
theorem stored16_at (x0 : Vec Ideal S128x216 .f32) (x1 : Vec Ideal S128x72 .f32) (b : Fin 128) (j : Fin 24) (r c : Fin 4) :
    s3732 x0 x1 (ix2 b (⟨16 * j.val + 4 * r.val + c.val, by omega⟩ : Fin 384))
      = homog (Rh (Rk x0 b) j.val) (newt (Rk x0 b) (pk x1 b) j.val) r c := by
  rw [out16_eq]
  refine Eq.trans ?_ (blk16_at x0 x1 b j r c)
  refine concatenate_apply_piece (t := S128x384) 1 _ _ _ j.val ?_ S128x16 (blk16 x0 x1 j) ?_ rfl (16 * j.val) ?_
    (ix2 b (⟨4 * r.val + c.val, by omega⟩ : Fin 16)) ?_ ?_
  · simp
  · fin_cases j <;> rfl
  · exact prefix_extents _ S128x16 S128x384 1 rfl (by simp) j.val (by have := j.isLt; simp <;> omega)
  · intro a ha
    match a with
    | ⟨0, _⟩ => rfl
    | ⟨1, _⟩ => exact absurd rfl ha
  · show 16 * j.val + (4 * r.val + c.val) = 16 * j.val + 4 * r.val + c.val
    omega

/-- Column 3 j + r of the second stored block at row b: the posed position th j r of row b's inputs. -/
theorem stored3_at (x0 : Vec Ideal S128x216 .f32) (x1 : Vec Ideal S128x72 .f32) (b : Fin 128) (j : Fin 24) (r : Fin 3) :
    s3733 x0 x1 (ix2 b (⟨3 * j.val + r.val, by omega⟩ : Fin 72)) = th (Rk x0 b) (pk x1 b) j.val r := by
  rw [out3_eq]
  refine Eq.trans ?_ (blk3_at x0 x1 b j r)
  refine concatenate_apply_piece (t := S128x72) 1 _ _ _ j.val ?_ S128x3 (blk3 x0 x1 j) ?_ rfl (3 * j.val) ?_
    (ix2 b r) ?_ ?_
  · simp
  · fin_cases j <;> rfl
  · exact prefix_extents _ S128x3 S128x72 1 rfl (by simp) j.val (by have := j.isLt; simp <;> omega)
  · intro a ha
    match a with
    | ⟨0, _⟩ => rfl
    | ⟨1, _⟩ => exact absurd rfl ha
  · show 3 * j.val + r.val = 3 * j.val + r.val
    rfl

/-! ## The whole arrays -/

/-- Row B of the recast first argument as 24 local matrices. -/
def Rrow (a0 : S131072x216.Idx → EReal) (B : Fin 131072) : ℕ → Fin 3 → Fin 3 → EReal := fun j r c =>
  a0 (ix2 B ⟨(9 * j + 3 * r.val + c.val) % 216, Nat.mod_lt _ (by norm_num)⟩)
/-- Row B of the recast second argument as 24 rest positions. -/
def prow (a1 : S131072x72.Idx → EReal) (B : Fin 131072) : ℕ → Fin 3 → EReal := fun j k =>
  a1 (ix2 B ⟨(3 * j + k.val) % 72, Nat.mod_lt _ (by norm_num)⟩)

/-- The first output array: row B, column 16 j + 4 r + c is entry (r, c) of [[Rh j, newt j], [0, 1]] of row B. -/
def G2 (a0 : S131072x216.Idx → EReal) (a1 : S131072x72.Idx → EReal) : S131072x384.Idx → EReal := fun i =>
  homog (Rh (Rrow a0 (i 0)) ((i 1).val / 16)) (newt (Rrow a0 (i 0)) (prow a1 (i 0)) ((i 1).val / 16))
    ⟨(i 1).val % 16 / 4, by omega⟩ ⟨(i 1).val % 4, by omega⟩
/-- The second output array: row B, column 3 j + r is th j r of row B. -/
def G3 (a0 : S131072x216.Idx → EReal) (a1 : S131072x72.Idx → EReal) : S131072x72.Idx → EReal := fun i =>
  th (Rrow a0 (i 0)) (prow a1 (i 0)) ((i 1).val / 3) ⟨(i 1).val % 3, by omega⟩

theorem G2_apply (a0 : S131072x216.Idx → EReal) (a1 : S131072x72.Idx → EReal) (B : Fin 131072) (j : Fin 24) (r c : Fin 4) :
    G2 a0 a1 (ix2 B (⟨16 * j.val + 4 * r.val + c.val, by omega⟩ : Fin 384))
      = homog (Rh (Rrow a0 B) j.val) (newt (Rrow a0 B) (prow a1 B) j.val) r c := by
  have hj : (16 * j.val + 4 * r.val + c.val) / 16 = j.val := by omega
  have er : (⟨(16 * j.val + 4 * r.val + c.val) % 16 / 4, by omega⟩ : Fin 4) = r := Fin.ext (by show _ % 16 / 4 = r.val; omega)
  have ec : (⟨(16 * j.val + 4 * r.val + c.val) % 4, by omega⟩ : Fin 4) = c := Fin.ext (by show _ % 4 = c.val; omega)
  show homog (Rh (Rrow a0 B) ((16 * j.val + 4 * r.val + c.val) / 16))
      (newt (Rrow a0 B) (prow a1 B) ((16 * j.val + 4 * r.val + c.val) / 16))
      ⟨(16 * j.val + 4 * r.val + c.val) % 16 / 4, _⟩ ⟨(16 * j.val + 4 * r.val + c.val) % 4, _⟩ = _
  rw [er, ec, hj]

theorem G3_apply (a0 : S131072x216.Idx → EReal) (a1 : S131072x72.Idx → EReal) (B : Fin 131072) (j : Fin 24) (r : Fin 3) :
    G3 a0 a1 (ix2 B (⟨3 * j.val + r.val, by omega⟩ : Fin 72)) = th (Rrow a0 B) (prow a1 B) j.val r := by
  have hj : (3 * j.val + r.val) / 3 = j.val := by omega
  have er : (⟨(3 * j.val + r.val) % 3, by omega⟩ : Fin 3) = r := Fin.ext (by show _ % 3 = r.val; omega)
  show th (Rrow a0 B) (prow a1 B) ((3 * j.val + r.val) / 3) ⟨(3 * j.val + r.val) % 3, _⟩ = _
  rw [er, hj]

/-- A stored block of the first output, at any index, when row (y 0) of the loaded blocks is row B of the arrays. -/
theorem point16 (x0 : Vec Ideal S128x216 .f32) (x1 : Vec Ideal S128x72 .f32)
    (a0 : S131072x216.Idx → EReal) (a1 : S131072x72.Idx → EReal) (y : S128x384.Idx) (B : Fin 131072)
    (h0 : ∀ n : Fin 216, x0 (ix2 (show Fin 128 from y 0) n) = a0 (ix2 B n))
    (h1 : ∀ n : Fin 72, x1 (ix2 (show Fin 128 from y 0) n) = a1 (ix2 B n)) :
    s3732 x0 x1 y = G2 a0 a1 (ix2 B (show Fin 384 from y 1)) := by
  obtain ⟨b, q, rfl⟩ : ∃ (b : Fin 128) (q : Fin 384), y = ix2 b q := ⟨y 0, y 1, eq_ix2 y⟩
  have hq : q = (⟨16 * (q.val / 16) + 4 * (q.val % 16 / 4) + q.val % 4, by omega⟩ : Fin 384) := Fin.ext (by show q.val = 16 * (q.val / 16) + 4 * (q.val % 16 / 4) + q.val % 4; omega)
  have hR : Rk x0 b = Rrow a0 B := by funext j r c; exact h0 _
  have hp : pk x1 b = prow a1 B := by funext j k; exact h1 _
  show s3732 x0 x1 (ix2 b q) = G2 a0 a1 (ix2 B q)
  rw [hq, stored16_at x0 x1 b ⟨q.val / 16, by omega⟩ ⟨q.val % 16 / 4, by omega⟩ ⟨q.val % 4, by omega⟩,
    G2_apply a0 a1 B ⟨q.val / 16, by omega⟩ ⟨q.val % 16 / 4, by omega⟩ ⟨q.val % 4, by omega⟩, hR, hp]

/-- A stored block of the second output, at any index. -/
theorem point3 (x0 : Vec Ideal S128x216 .f32) (x1 : Vec Ideal S128x72 .f32)
    (a0 : S131072x216.Idx → EReal) (a1 : S131072x72.Idx → EReal) (y : S128x72.Idx) (B : Fin 131072)
    (h0 : ∀ n : Fin 216, x0 (ix2 (show Fin 128 from y 0) n) = a0 (ix2 B n))
    (h1 : ∀ n : Fin 72, x1 (ix2 (show Fin 128 from y 0) n) = a1 (ix2 B n)) :
    s3733 x0 x1 y = G3 a0 a1 (ix2 B (show Fin 72 from y 1)) := by
  obtain ⟨b, q, rfl⟩ : ∃ (b : Fin 128) (q : Fin 72), y = ix2 b q := ⟨y 0, y 1, eq_ix2 y⟩
  have hq : q = (⟨3 * (q.val / 3) + q.val % 3, by omega⟩ : Fin 72) := Fin.ext (by show q.val = 3 * (q.val / 3) + q.val % 3; omega)
  have hR : Rk x0 b = Rrow a0 B := by funext j r c; exact h0 _
  have hp : pk x1 b = prow a1 B := by funext j k; exact h1 _
  show s3733 x0 x1 (ix2 b q) = G3 a0 a1 (ix2 B q)
  rw [hq, stored3_at x0 x1 b ⟨q.val / 3, by omega⟩ ⟨q.val % 3, by omega⟩,
    G3_apply a0 a1 B ⟨q.val / 3, by omega⟩ ⟨q.val % 3, by omega⟩, hR, hp]

/-! ## Recasting back: the arrays of the posed skeleton -/

section Recast
variable (rot : SRot.Idx → EReal) (pos : SPos.Idx → EReal)
  (h0 : SRot.ShapeCasts S131072x216) (h1 : SPos.ShapeCasts S131072x72)

/-- Row B of the recast rotations is batch element B's local matrices. -/
theorem Rrow_recast (B : Fin 131072) : Rrow (shapeCast S131072x216 rot h0) B = Rof rot B := by
  funext j r c
  have hr : r.val < 3 := r.isLt
  have hc : c.val < 3 := c.isLt
  exact shapeCast_apply rot h0 _ (ix4 B (jt j) r c) (by
    rw [Shape.rowMajor_val_four, Shape.rowMajor_val_two]
    show ((B.val * 24 + j % 24) * 3 + r.val) * 3 + c.val = B.val * 216 + (9 * j + 3 * r.val + c.val) % 216
    omega)
/-- Row B of the recast rest positions is batch element B's rest positions. -/
theorem prow_recast (B : Fin 131072) : prow (shapeCast S131072x72 pos h1) B = pof pos B := by
  funext j k
  have hk : k.val < 3 := k.isLt
  exact shapeCast_apply pos h1 _ (ix3 B (jt j) k) (by
    rw [Shape.rowMajor_val_three, Shape.rowMajor_val_two]
    show (B.val * 24 + j % 24) * 3 + k.val = B.val * 72 + (3 * j + k.val) % 72
    omega)

/-- THE FIRST RESULT: the first output array recast to [131072, 24, 4, 4] is the corrected transforms. -/
theorem tf_recast (h : S131072x384.ShapeCasts S131072x24x4x4) :
    shapeCast S131072x24x4x4 (G2 (shapeCast S131072x216 rot h0) (shapeCast S131072x72 pos h1)) h = tfArr rot pos := by
  funext i
  obtain ⟨B, j, r, c, rfl⟩ : ∃ (B : Fin 131072) (j : Fin 24) (r c : Fin 4), i = ix4 B j r c := ⟨i 0, i 1, i 2, i 3, eq_ix4 i⟩
  have hj : j.val < 24 := j.isLt
  have hr : r.val < 4 := r.isLt
  have hc : c.val < 4 := c.isLt
  rw [shapeCast_apply _ h (ix4 B j r c) (ix2 B (⟨16 * j.val + 4 * r.val + c.val, by omega⟩ : Fin 384)) (by
    rw [Shape.rowMajor_val_four, Shape.rowMajor_val_two]
    show B.val * 384 + (16 * j.val + 4 * r.val + c.val) = ((B.val * 24 + j.val) * 4 + r.val) * 4 + c.val
    omega)]
  rw [G2_apply, Rrow_recast, prow_recast, tfArr_apply]

/-- THE SECOND RESULT: the second output array recast to [131072, 24, 3] is the posed positions. -/
theorem posed_recast (h : S131072x72.ShapeCasts S131072x24x3) :
    shapeCast S131072x24x3 (G3 (shapeCast S131072x216 rot h0) (shapeCast S131072x72 pos h1)) h = posedArr rot pos := by
  funext i
  obtain ⟨B, j, r, rfl⟩ : ∃ (B : Fin 131072) (j : Fin 24) (r : Fin 3), i = ix3 B j r := ⟨i 0, i 1, i 2, eq_ix3 i⟩
  have hj : j.val < 24 := j.isLt
  have hr : r.val < 3 := r.isLt
  rw [shapeCast_apply _ h (ix3 B j r) (ix2 B (⟨3 * j.val + r.val, by omega⟩ : Fin 72)) (by
    rw [Shape.rowMajor_val_three, Shape.rowMajor_val_two]
    show B.val * 72 + (3 * j.val + r.val) = (B.val * 24 + j.val) * 3 + r.val
    omega)]
  rw [G3_apply, Rrow_recast, prow_recast, posedArr_apply]

end Recast

end Cert.KernelIdeal.KVal

end
-- ==== Proof.KValue.lean ====
/-
  The idealized kernel's two results as functions of its two arguments.

  The region works on the arguments recast as [131072, 216] and [131072, 72] and on grid point t handles rows
  128 t … 128 t + 127: it loads block t of each, and stores block t of two arrays [131072, 384] and [131072, 72]; the
  results are those two arrays recast to [131072, 24, 4, 4] and [131072, 24, 3].
  Row b of what point t stores is the posed skeleton of row b of what it loaded (KFacts: column 16 j + 4 r + c of the
  first stored block is entry (r, c) of [[Rh j, newt j], [0, 1]], column 3 j + r of the second is th j r). Hence each
  stored block is block t of ONE whole-array function of the recast arguments (G2, G3: row B of the result is the posed
  skeleton of row B of the recast arguments), the 1024 blocks cover the arrays, so the arrays end equal to G2 and G3;
  and recasting back, entry (B, j, r, c) of the first result is entry (r, c) of batch element B's corrected transform of
  joint j, entry (B, j, r) of the second its posed position: the arrays tfArr and posedArr of PoseArrays.
-/
import proofs.«156383_j88811333747289_2_alg».proof.Proof.FramePI
import proofs.«156383_j88811333747289_2_alg».proof.Proof.KBlocks
import Idealize.ShloMosaic.Lib.Pipeline.Value
import Idealize.ShloMosaic.Lib.StableHlo.Run

noncomputable section

namespace Cert.KernelIdeal.KVal

open Cert.KernelIdeal Cert.KernelIdeal.Gen Cert.KernelIdeal.GenP Cert.KernelIdeal.KD Cert.KernelIdeal.KV Cert.Pose
open Idealize.ShloMosaic Idealize.ShloMosaic.TcCoe Idealize.ShloMosaic.ValueIdx Idealize.SL.Sem
open Idealize.ShloMosaic.Pipeline (Dat)

/-! ## What a point writes back, the cover, the arrays after the run -/

section Run
variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 1024 points: every window's block at point t is block row t, column block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- WHAT POINT t WRITES BACK to the first output is block t of G2 of the recast arguments. -/
theorem flushed2_eq (c : Dev nD) (t : Fin cfg0.N) :
    (dats m 0 c).flushed 2 t = ((cfg0.win 2).blk t).view.read (Elt Ideal) (G2 (V m c main_v0) (V m c main_v1)) := by
  show (cfg0.win 2).cut (grid0.coords t) ((dats m 0 c).after 2 t) = _
  rw [after0_2]
  unfold out0_2
  rw [View.canon_unit_zero hz]
  obtain ⟨e00, e01, e10, e11, e20, e21, e30, e31⟩ := idx_facts t
  have ht : t.val < 1024 := t.isLt
  funext y
  have hy0 : (y 0).val < 128 := (y 0).isLt
  have hy1 : (y 1).val < 384 := (y 1).isLt
  refine (point16 (iblk m c 0 t) (iblk m c 1 t) (V m c main_v0) (V m c main_v1) y
    ⟨win0_2.index t (0 : Fin 2) * 128 + (y 0).val, by omega⟩ ?_ ?_).trans ?_
  · intro n
    have hn : n.val < 216 := n.isLt
    show V m c main_v0 (((cfg0.win 0).blk t).view.emb (ix2 (show Fin 128 from y 0) n)) = V m c main_v0 (ix2 _ n)
    refine congrArg (V m c main_v0) (funext fun a => Fin.ext ?_)
    match a with
    | ⟨0, _⟩ => show win0_0.index t (0 : Fin 2) * 128 + 1 * (y 0).val = win0_2.index t (0 : Fin 2) * 128 + (y 0).val; omega
    | ⟨1, _⟩ => show win0_0.index t (1 : Fin 2) * 216 + 1 * n.val = n.val; omega
  · intro n
    have hn : n.val < 72 := n.isLt
    show V m c main_v1 (((cfg0.win 1).blk t).view.emb (ix2 (show Fin 128 from y 0) n)) = V m c main_v1 (ix2 _ n)
    refine congrArg (V m c main_v1) (funext fun a => Fin.ext ?_)
    match a with
    | ⟨0, _⟩ => show win0_1.index t (0 : Fin 2) * 128 + 1 * (y 0).val = win0_2.index t (0 : Fin 2) * 128 + (y 0).val; omega
    | ⟨1, _⟩ => show win0_1.index t (1 : Fin 2) * 72 + 1 * n.val = n.val; omega
  · show G2 (V m c main_v0) (V m c main_v1) (ix2 _ (show Fin 384 from y 1))
      = G2 (V m c main_v0) (V m c main_v1) (((cfg0.win 2).blk t).view.emb y)
    refine congrArg (G2 (V m c main_v0) (V m c main_v1)) (funext fun a => Fin.ext ?_)
    match a with
    | ⟨0, _⟩ => show win0_2.index t (0 : Fin 2) * 128 + (y 0).val = win0_2.index t (0 : Fin 2) * 128 + 1 * (y 0).val; omega
    | ⟨1, _⟩ => show (y 1).val = win0_2.index t (1 : Fin 2) * 384 + 1 * (y 1).val; omega

/-- WHAT POINT t WRITES BACK to the second output is block t of G3 of the recast arguments. -/
theorem flushed3_eq (c : Dev nD) (t : Fin cfg0.N) :
    (dats m 0 c).flushed 3 t = ((cfg0.win 3).blk t).view.read (Elt Ideal) (G3 (V m c main_v0) (V m c main_v1)) := by
  show (cfg0.win 3).cut (grid0.coords t) ((dats m 0 c).after 3 t) = _
  rw [after0_3]
  unfold out0_3
  rw [View.canon_unit_zero hz]
  obtain ⟨e00, e01, e10, e11, e20, e21, e30, e31⟩ := idx_facts t
  have ht : t.val < 1024 := t.isLt
  funext y
  have hy0 : (y 0).val < 128 := (y 0).isLt
  have hy1 : (y 1).val < 72 := (y 1).isLt
  refine (point3 (iblk m c 0 t) (iblk m c 1 t) (V m c main_v0) (V m c main_v1) y
    ⟨win0_3.index t (0 : Fin 2) * 128 + (y 0).val, by omega⟩ ?_ ?_).trans ?_
  · intro n
    have hn : n.val < 216 := n.isLt
    show V m c main_v0 (((cfg0.win 0).blk t).view.emb (ix2 (show Fin 128 from y 0) n)) = V m c main_v0 (ix2 _ n)
    refine congrArg (V m c main_v0) (funext fun a => Fin.ext ?_)
    match a with
    | ⟨0, _⟩ => show win0_0.index t (0 : Fin 2) * 128 + 1 * (y 0).val = win0_3.index t (0 : Fin 2) * 128 + (y 0).val; omega
    | ⟨1, _⟩ => show win0_0.index t (1 : Fin 2) * 216 + 1 * n.val = n.val; omega
  · intro n
    have hn : n.val < 72 := n.isLt
    show V m c main_v1 (((cfg0.win 1).blk t).view.emb (ix2 (show Fin 128 from y 0) n)) = V m c main_v1 (ix2 _ n)
    refine congrArg (V m c main_v1) (funext fun a => Fin.ext ?_)
    match a with
    | ⟨0, _⟩ => show win0_1.index t (0 : Fin 2) * 128 + 1 * (y 0).val = win0_3.index t (0 : Fin 2) * 128 + (y 0).val; omega
    | ⟨1, _⟩ => show win0_1.index t (1 : Fin 2) * 72 + 1 * n.val = n.val; omega
  · show G3 (V m c main_v0) (V m c main_v1) (ix2 _ (show Fin 72 from y 1))
      = G3 (V m c main_v0) (V m c main_v1) (((cfg0.win 3).blk t).view.emb y)
    refine congrArg (G3 (V m c main_v0) (V m c main_v1)) (funext fun a => Fin.ext ?_)
    match a with
    | ⟨0, _⟩ => show win0_3.index t (0 : Fin 2) * 128 + (y 0).val = win0_3.index t (0 : Fin 2) * 128 + 1 * (y 0).val; omega
    | ⟨1, _⟩ => show (y 1).val = win0_3.index t (1 : Fin 2) * 72 + 1 * (y 1).val; omega

/-- An index of the first output array is in point t's block iff each coordinate is in the block's range. -/
theorem mem_blk2 (t : Fin cfg0.N) (i : S131072x384.Idx) :
    i ∈ ((cfg0.win 2).blk t).view.set ↔ ∀ a : Fin 2, win0_2.index t a * S128x384.size a ≤ (i a).val ∧ (i a).val < win0_2.index t a * S128x384.size a + S128x384.size a := by
  show i ∈ ((View.whole main_v2_0).slice (win0_2.rect t)).set ↔ _
  rw [View.set_slice_whole, Rect.mem_set_unit]
  exact Iff.rfl
theorem mem_blk3 (t : Fin cfg0.N) (i : S131072x72.Idx) :
    i ∈ ((cfg0.win 3).blk t).view.set ↔ ∀ a : Fin 2, win0_3.index t a * S128x72.size a ≤ (i a).val ∧ (i a).val < win0_3.index t a * S128x72.size a + S128x72.size a := by
  show i ∈ ((View.whole main_v2_1).slice (win0_3.rect t)).set ↔ _
  rw [View.set_slice_whole, Rect.mem_set_unit]
  exact Iff.rfl

/-- Every index of the first output array is in the block of the point its row belongs to: point (row / 128). -/
theorem cover2 (i : S131072x384.Idx) : ∃ t : Fin cfg0.N, (cfg0.win 2).flush t = true ∧ i ∈ ((cfg0.win 2).blk t).view.set := by
  have hi0 : (i 0).val < 131072 := (i 0).isLt
  have hi1 : (i 1).val < 384 := (i 1).isLt
  refine ⟨⟨(i 0).val / 128, by show (i 0).val / 128 < 1024; omega⟩, flush0_2 _, ?_⟩
  rw [mem_blk2]
  obtain ⟨e00, e01, e10, e11, e20, e21, e30, e31⟩ := idx_facts ⟨(i 0).val / 128, by show (i 0).val / 128 < 1024; omega⟩
  have e20' : win0_2.index ⟨(i 0).val / 128, by show (i 0).val / 128 < 1024; omega⟩ (0 : Fin 2) = (i 0).val / 128 := e20
  intro a
  match a with
  | ⟨0, _⟩ => show win0_2.index _ (0 : Fin 2) * 128 ≤ (i 0).val ∧ (i 0).val < win0_2.index _ (0 : Fin 2) * 128 + 128; omega
  | ⟨1, _⟩ => show win0_2.index _ (1 : Fin 2) * 384 ≤ (i 1).val ∧ (i 1).val < win0_2.index _ (1 : Fin 2) * 384 + 384; omega
theorem cover3 (i : S131072x72.Idx) : ∃ t : Fin cfg0.N, (cfg0.win 3).flush t = true ∧ i ∈ ((cfg0.win 3).blk t).view.set := by
  have hi0 : (i 0).val < 131072 := (i 0).isLt
  have hi1 : (i 1).val < 72 := (i 1).isLt
  refine ⟨⟨(i 0).val / 128, by show (i 0).val / 128 < 1024; omega⟩, flush0_3 _, ?_⟩
  rw [mem_blk3]
  obtain ⟨e00, e01, e10, e11, e20, e21, e30, e31⟩ := idx_facts ⟨(i 0).val / 128, by show (i 0).val / 128 < 1024; omega⟩
  have e30' : win0_3.index ⟨(i 0).val / 128, by show (i 0).val / 128 < 1024; omega⟩ (0 : Fin 2) = (i 0).val / 128 := e30
  intro a
  match a with
  | ⟨0, _⟩ => show win0_3.index _ (0 : Fin 2) * 128 ≤ (i 0).val ∧ (i 0).val < win0_3.index _ (0 : Fin 2) * 128 + 128; omega
  | ⟨1, _⟩ => show win0_3.index _ (1 : Fin 2) * 72 ≤ (i 1).val ∧ (i 1).val < win0_3.index _ (1 : Fin 2) * 72 + 72; omega

/-- THE OUTPUT ARRAYS after the run are G2 and G3 of the recast arguments. -/
theorem final2 (c : Dev nD) : (dats m 0 c).arrAt 2 cfg0.N = G2 (V m c main_v0) (V m c main_v1) :=
  (dats m 0 c).arrAt_eq_of_cover 2 (G2 (V m c main_v0) (V m c main_v1)) (fun t _ => flushed2_eq m c t) cover2
theorem final3 (c : Dev nD) : (dats m 0 c).arrAt 3 cfg0.N = G3 (V m c main_v0) (V m c main_v1) :=
  (dats m 0 c).arrAt_eq_of_cover 3 (G3 (V m c main_v0) (V m c main_v1)) (fun t _ => flushed3_eq m c t) cover3

/-! ## The recasts around the region -/

/-- The region finds the arguments recast to two axes. -/
theorem V_v0 (c : Dev nD) : (V m c main_v0 : S131072x216.Idx → EReal)
    = shapeCast S131072x216 (m ((c : Thread nD τ).loc main_arg0)) shapeCasts_S131072x24x3x3_S131072x216 := by
  show StableHlo.after hostOps0 (fun b => m (c, b)) (Proc.devRef .tc main_v0) = _
  after_results
  rfl
theorem V_v1 (c : Dev nD) : (V m c main_v1 : S131072x72.Idx → EReal)
    = shapeCast S131072x72 (m ((c : Thread nD τ).loc main_arg1)) shapeCasts_S131072x24x3_S131072x72 := by
  show StableHlo.after hostOps0 (fun b => m (c, b)) (Proc.devRef .tc main_v1) = _
  after_results
  rfl

/-- The results are the output arrays recast to the results' shapes. -/
theorem res3 (c : Dev nD) : Pipeline.afterTail₀ cfgs (dats m) 0 (V0 m) [hostOps1] c main_v3
    = shapeCast S131072x24x4x4 ((dats m 0 c).arrAt 2 cfg0.N) shapeCasts_S131072x384_S131072x24x4x4 := by
  unfold Pipeline.afterTail₀
  show StableHlo.after hostOps1 _ (Proc.devRef .tc main_v3) = _
  after_results
  exact congrArg (fun x => shapeCast S131072x24x4x4 x shapeCasts_S131072x384_S131072x24x4x4)
    (Pipeline.withArrays_arr spec0 launch0.win.arr_inj c _ _ 2)
theorem res4 (c : Dev nD) : Pipeline.afterTail₀ cfgs (dats m) 0 (V0 m) [hostOps1] c main_v4
    = shapeCast S131072x24x3 ((dats m 0 c).arrAt 3 cfg0.N) shapeCasts_S131072x72_S131072x24x3 := by
  unfold Pipeline.afterTail₀
  show StableHlo.after hostOps1 _ (Proc.devRef .tc main_v4) = _
  after_results
  exact congrArg (fun x => shapeCast S131072x24x3 x shapeCasts_S131072x72_S131072x24x3)
    (Pipeline.withArrays_arr spec0 launch0.win.arr_inj c _ _ 3)

end Run

/-! ## The run -/

/-- Every weakly fair execution of the idealized kernel terminates with the first result at the corrected transforms and the
    second at the posed positions of its arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = tfArr (m ((c.tc : Thread nD τ).loc main_arg0)) (m ((c.tc : Thread nD τ).loc main_arg1))
      ∧ r.2.mem ((c.tc : Thread nD τ).loc main_v4) = posedArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v3 (Pipeline.mem_restRefs_of main_v3 (by decide) (by decide))).trans
        ((res3 m c).trans (by rw [final2, V_v0, V_v1]; exact tf_recast _ _ _ _ _)),
      ((h c).2 main_v4 (Pipeline.mem_restRefs_of main_v4 (by decide) (by decide))).trans
        ((res4 m c).trans (by rw [final3, V_v0, V_v1]; exact posed_recast _ _ _ _ _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KVal

end
-- ==== Proof.LibStraightLine.lean ====
/-
  A straight line of operations in single-assignment form, read one operation at a time.

  A line of operations rewrites a valuation of the buffers, operation by operation. When every buffer is written by at most
  one operation of the line, and an operation's operands are written before it, the valuation after the WHOLE line already
  satisfies each operation's equation: the buffer the k-th operation writes holds that operation's function of what its
  operand buffers hold — all read after the whole line, because nothing later touches either. So the value of the last
  buffer follows from the operations' equations one by one, sharing every intermediate buffer, and the composed term of the
  whole line is never formed.

  The buffers the operations write are listed once, in order (`WritesAre`); "no operation from position k on writes r" is
  then the absence of r from the list's tail, a question about references alone.
  General: nothing here depends on a particular program.
-/
import Idealize.ShloMosaic.Lib.StableHlo.Run

namespace Cert.LibStraightLine

open Idealize.ShloMosaic Idealize.ShloMosaic.StableHlo

variable {τ : Topo} {sig : RefSig} {Val : EltTy → Type}

/-- Two lines one after the other. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A buffer that no operation from position k on writes holds, after the line, what it held after the first k operations. -/
theorem after_eq_take (ops : List (HloOp τ sig Val)) (V : Valuation τ sig Val) (k : Nat) (b : DevRef τ sig)
    (h : ∀ op ∈ ops.drop k, b ∉ op.writes) : after ops V b = after (ops.take k) V b := by
  conv_lhs => rw [← List.take_append_drop k ops]
  rw [after_append, after_of_forall_not_mem _ _ h]

/-- A buffer that no operation past position k writes holds, after the line, what operation k left in it. -/
theorem after_eq_result (ops : List (HloOp τ sig Val)) (V : Valuation τ sig Val) (k : Nat) (hk : k < ops.length)
    (b : DevRef τ sig) (h : ∀ op ∈ ops.drop (k + 1), b ∉ op.writes) :
    after ops V b = (ops[k]).result (after (ops.take k) V) b := by
  rw [after_eq_take ops V (k + 1) b h, List.take_succ_eq_append_getElem hk, after_append, after_cons, after_nil]

/-- The buffers the operations write are, in order, the references W: each operation writes exactly one. -/
def WritesAre (ops : List (HloOp τ sig Val)) (W : List (Ref sig .tc)) : Prop :=
  ops.map (fun op => op.writes) = W.map fun r => ({(Proc.devRef .tc r : DevRef τ sig)} : Finset (DevRef τ sig))

/-- A reference absent from the list's tail is written by no operation from that position on. -/
theorem not_written {ops : List (HloOp τ sig Val)} {W : List (Ref sig .tc)} (hW : WritesAre ops W) (k : Nat)
    {y : Ref sig .tc} (hy : y ∉ W.drop k) : ∀ op ∈ ops.drop k, (Proc.devRef .tc y : DevRef τ sig) ∉ op.writes := by
  intro op hop hmem
  have h1 : op.writes ∈ (ops.drop k).map (fun op => op.writes) := List.mem_map.mpr ⟨op, hop, rfl⟩
  unfold WritesAre at hW
  rw [List.map_drop, hW, ← List.map_drop] at h1
  obtain ⟨r, hr, he⟩ := List.mem_map.mp h1
  rw [← he, Finset.mem_singleton] at hmem
  exact hy (Proc.devRef_injective _ hmem ▸ hr)

variable {ops : List (HloOp τ sig Val)} {V : Valuation τ sig Val}

/-- Operation k defines its result buffer. -/
theorem nullary_at (k : Nat) (hk : k < ops.length) {y : Ref sig .tc} {v : y.ty.Contents Val} {hy}
    (hop : ops[k] = nullary y v hy)
    (hy' : ∀ op ∈ ops.drop (k + 1), (Proc.devRef .tc y : DevRef τ sig) ∉ op.writes) :
    after ops V (Proc.devRef .tc y) = v := by
  rw [after_eq_result ops V k hk _ hy', hop, nullary_result]

/-- Operation k applies its function to its operand buffer as the whole line leaves it. -/
theorem unary_at (k : Nat) (hk : k < ops.length) {x y : Ref sig .tc} {f : x.ty.Contents Val → y.ty.Contents Val} {hx hy}
    (hop : ops[k] = unary x y f hx hy)
    (hy' : ∀ op ∈ ops.drop (k + 1), (Proc.devRef .tc y : DevRef τ sig) ∉ op.writes)
    (hx' : ∀ op ∈ ops.drop k, (Proc.devRef .tc x : DevRef τ sig) ∉ op.writes) :
    after ops V (Proc.devRef .tc y) = f (after ops V (Proc.devRef .tc x)) := by
  rw [after_eq_result ops V k hk _ hy', hop, unary_result, ← after_eq_take ops V k _ hx']

theorem binary_at (k : Nat) (hk : k < ops.length) {a b y : Ref sig .tc}
    {f : a.ty.Contents Val → b.ty.Contents Val → y.ty.Contents Val} {ha hb hy}
    (hop : ops[k] = binary a b y f ha hb hy)
    (hy' : ∀ op ∈ ops.drop (k + 1), (Proc.devRef .tc y : DevRef τ sig) ∉ op.writes)
    (ha' : ∀ op ∈ ops.drop k, (Proc.devRef .tc a : DevRef τ sig) ∉ op.writes)
    (hb' : ∀ op ∈ ops.drop k, (Proc.devRef .tc b : DevRef τ sig) ∉ op.writes) :
    after ops V (Proc.devRef .tc y) = f (after ops V (Proc.devRef .tc a)) (after ops V (Proc.devRef .tc b)) := by
  rw [after_eq_result ops V k hk _ hy', hop, binary_result, ← after_eq_take ops V k _ ha', ← after_eq_take ops V k _ hb']

theorem ternary_at (k : Nat) (hk : k < ops.length) {c a b y : Ref sig .tc}
    {f : c.ty.Contents Val → a.ty.Contents Val → b.ty.Contents Val → y.ty.Contents Val} {hc ha hb hy}
    (hop : ops[k] = ternary c a b y f hc ha hb hy)
    (hy' : ∀ op ∈ ops.drop (k + 1), (Proc.devRef .tc y : DevRef τ sig) ∉ op.writes)
    (hc' : ∀ op ∈ ops.drop k, (Proc.devRef .tc c : DevRef τ sig) ∉ op.writes)
    (ha' : ∀ op ∈ ops.drop k, (Proc.devRef .tc a : DevRef τ sig) ∉ op.writes)
    (hb' : ∀ op ∈ ops.drop k, (Proc.devRef .tc b : DevRef τ sig) ∉ op.writes) :
    after ops V (Proc.devRef .tc y)
      = f (after ops V (Proc.devRef .tc c)) (after ops V (Proc.devRef .tc a)) (after ops V (Proc.devRef .tc b)) := by
  rw [after_eq_result ops V k hk _ hy', hop, ternary_result, ← after_eq_take ops V k _ hc', ← after_eq_take ops V k _ ha',
    ← after_eq_take ops V k _ hb']

theorem reshape_at (k : Nat) (hk : k < ops.length) {x y : Ref sig .tc} {he : x.ty.elt = y.ty.elt}
    {hn : x.ty.shape.ShapeCasts y.ty.shape} {hx hy}
    (hop : ops[k] = reshape x y he hn hx hy)
    (hy' : ∀ op ∈ ops.drop (k + 1), (Proc.devRef .tc y : DevRef τ sig) ∉ op.writes)
    (hx' : ∀ op ∈ ops.drop k, (Proc.devRef .tc x : DevRef τ sig) ∉ op.writes) :
    after ops V (Proc.devRef .tc y) = fun i => he ▸ shapeCast y.ty.shape (after ops V (Proc.devRef .tc x)) hn i := by
  rw [after_eq_result ops V k hk _ hy', hop, reshape_result, ← after_eq_take ops V k _ hx']

/-- A buffer no operation writes holds its launch contents. -/
theorem untouched_at {W : List (Ref sig .tc)} (hW : WritesAre ops W) {r : Ref sig .tc} (hr : r ∉ W) :
    after ops V (Proc.devRef .tc r) = V (Proc.devRef .tc r) :=
  after_of_forall_not_mem ops V (by simpa using not_written hW 0 (by simpa using hr))

end Cert.LibStraightLine
-- ==== Proof.RefOps.lean ====
/-
  The reference program as one straight line of operations, and its run.

  The reference poses a skeleton of 24 joints for each of 131072 batch elements. Written out, it is 132 array operations
  in single-assignment form: the parent table and its gather of the joint positions (the positions relative to the
  parent, the root keeping its own), the rotations padded with a zero row and the relative positions closed with a one
  into 4×4 local transforms, one slice, recast and batched 4×4 product per joint down the tree, the 24 world transforms
  stacked again, and from the stack the two results: its translation column, and the stack minus the zero-padded
  product of each world transform with the joint's rest position. The two paddings are module-local functions of two
  operations each (the padding value converted to a float, then the pad); they are listed here at their call sites,
  over the buffers of their calls.

  This file lists the operations in program order (`ops`), shows that the printed program is exactly that line run step
  by step (`main_eq`), and concludes (`run_main`) that every weakly fair execution from any memory with zero counters
  terminates with every buffer holding the fold of the operations over the launch contents. It also lists, in the same
  order, the buffer each operation writes (`W`, `writes_eq`): every buffer is written by exactly one operation, after
  the operations that write its operands, which is what lets the line be read one operation at a time.
  Nothing here looks inside an operation: the equations hold for any float values.
-/
import proofs.«156383_j88811333747289_2_alg».proof.Proof.Gen.ReferenceIdeal
import Idealize.ShloMosaic.Lib.StableHlo.Run
import proofs.«156383_j88811333747289_2_alg».proof.Proof.LibStraightLine

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

set_option maxRecDepth 4096 in
/-- The reference's 132 operations in program order, numbered from 0 in the margin. Operations 18–19 are the first
    padding function's two (the zero converted to a float; the rotations padded with a fourth row), at its call;
    operations 129–130 the second's (the zero converted; the 4×1 columns padded on the left to 4×4), at its call. -/
abbrev ops : List (HloOp τ sig (Elt F)) :=
  [ StableHlo.nullary main_c (fun i => lit0 (S24.rowMajor i)),  -- 0
    StableHlo.unary main_arg1 main_v0 (broadcastInDim S131072x24x3x1 ![0, 1, 2] bcast_S131072x24x3_S131072x24x3x1_0_1_2 : (⟨S131072x24x3, .f32⟩ : BufTy).Contents (Elt F) → (⟨S131072x24x3x1, .f32⟩ : BufTy).Contents (Elt F)),  -- 1
    StableHlo.nullary main_c_0 (constantI S_ 32 0#32),  -- 2
    StableHlo.unary main_c_0 main_v1 (broadcastInDim S24 ![] bcast_S_S24 : (⟨S_, .i32⟩ : BufTy).Contents (Elt F) → (⟨S24, .i32⟩ : BufTy).Contents (Elt F)),  -- 3
    StableHlo.binary main_c main_v1 main_v2 (cmpi .slt : (⟨S24, .i32⟩ : BufTy).Contents (Elt F) → (⟨S24, .i32⟩ : BufTy).Contents (Elt F) → (⟨S24, .i1⟩ : BufTy).Contents (Elt F)),  -- 4
    StableHlo.nullary main_c_1 (constantI S_ 32 24#32),  -- 5
    StableHlo.unary main_c_1 main_v3 (broadcastInDim S24 ![] bcast_S_S24 : (⟨S_, .i32⟩ : BufTy).Contents (Elt F) → (⟨S24, .i32⟩ : BufTy).Contents (Elt F)),  -- 6
    StableHlo.binary main_c main_v3 main_v4 (addi : (⟨S24, .i32⟩ : BufTy).Contents (Elt F) → (⟨S24, .i32⟩ : BufTy).Contents (Elt F) → (⟨S24, .i32⟩ : BufTy).Contents (Elt F)),  -- 7
    StableHlo.ternary main_v2 main_v4 main_c main_v5 (select : (⟨S24, .i1⟩ : BufTy).Contents (Elt F) → (⟨S24, .i32⟩ : BufTy).Contents (Elt F) → (⟨S24, .i32⟩ : BufTy).Contents (Elt F) → (⟨S24, .i32⟩ : BufTy).Contents (Elt F)),  -- 8
    StableHlo.unary main_v5 main_v6 (broadcastInDim S24x1 ![0] bcast_S24_S24x1_0 : (⟨S24, .i32⟩ : BufTy).Contents (Elt F) → (⟨S24x1, .i32⟩ : BufTy).Contents (Elt F)),  -- 9
    StableHlo.binary main_v0 main_v6 main_v7 ((fun x i => Host.gather gather_S131072x24x3x1_S24x1_S131072x24x3x1_023_1_n_n_1_1_131072131 x i) : (⟨S131072x24x3x1, .f32⟩ : BufTy).Contents (Elt F) → (⟨S24x1, .i32⟩ : BufTy).Contents (Elt F) → (⟨S131072x24x3x1, .f32⟩ : BufTy).Contents (Elt F)),  -- 10
    StableHlo.binary main_v0 main_v7 main_v8 (subf : (⟨S131072x24x3x1, .f32⟩ : BufTy).Contents (Elt F) → (⟨S131072x24x3x1, .f32⟩ : BufTy).Contents (Elt F) → (⟨S131072x24x3x1, .f32⟩ : BufTy).Contents (Elt F)),  -- 11
    StableHlo.unary main_v0 main_v9 ((extractStridedSlice S131072x1x3x1 ![0, 0, 0, 0] · slices_S131072x24x3x1_S131072x1x3x1_0_0_0_0) : (⟨S131072x24x3x1, .f32⟩ : BufTy).Contents (Elt F) → (⟨S131072x1x3x1, .f32⟩ : BufTy).Contents (Elt F)),  -- 12
    StableHlo.reshape main_v9 main_v10 rfl shapeCasts_S131072x1x3x1_S131072x3x1,  -- 13
    StableHlo.nullary main_c_2 (constantI S_ 32 0#32),  -- 14
    StableHlo.unary main_c_2 main_v11 (broadcastInDim S1 ![] bcast_S_S1 : (⟨S_, .i32⟩ : BufTy).Contents (Elt F) → (⟨S1, .i32⟩ : BufTy).Contents (Elt F)),  -- 15
    StableHlo.ternary main_v8 main_v11 main_v10 main_v12 ((fun x i u => Host.scatter scatter_S131072x24x3x1_S1_S131072x3x1_012_1_1_0 (fun _ b => b) x i u) : (⟨S131072x24x3x1, .f32⟩ : BufTy).Contents (Elt F) → (⟨S1, .i32⟩ : BufTy).Contents (Elt F) → (⟨S131072x3x1, .f32⟩ : BufTy).Contents (Elt F) → (⟨S131072x24x3x1, .f32⟩ : BufTy).Contents (Elt F)),  -- 16
    StableHlo.nullary main_c_3 (constantI S_ 32 0#32),  -- 17
    StableHlo.TRef.unary (.of main_c_3 : StableHlo.TRef sig ⟨S_, .i32⟩) main_call0.v0 (sitofp .f32),  -- 18
    StableHlo.TRef.binary (.of main_arg0 : StableHlo.TRef sig ⟨S131072x24x3x3, .f32⟩) main_call0.v0 main_call0.v1 (fun x v => pad S131072x24x4x3 ![0, 0, 0, 0] ![0, 0, 1, 0] ![0, 0, 0, 0] x v pads_S131072x24x3x3_S131072x24x4x3_000_000_010_000 h_S_),  -- 19
    StableHlo.nullary main_cst (constant S_ .f32 0x3F800000#32),  -- 20
    StableHlo.unary main_cst main_v14 (broadcastInDim S131072x24x1x1 ![] bcast_S_S131072x24x1x1 : (⟨S_, .f32⟩ : BufTy).Contents (Elt F) → (⟨S131072x24x1x1, .f32⟩ : BufTy).Contents (Elt F)),  -- 21
    StableHlo.binary main_v12 main_v14 main_v15 ((fun a b => concatenate S131072x24x4x1 2 [⟨S131072x24x3x1, a⟩, ⟨S131072x24x1x1, b⟩] concatenates_S131072x24x3x1_S131072x24x1x1_S131072x24x4x1_d2) : (⟨S131072x24x3x1, .f32⟩ : BufTy).Contents (Elt F) → (⟨S131072x24x1x1, .f32⟩ : BufTy).Contents (Elt F) → (⟨S131072x24x4x1, .f32⟩ : BufTy).Contents (Elt F)),  -- 22
    StableHlo.binary main_v13 main_v15 main_v16 ((fun a b => concatenate S131072x24x4x4 3 [⟨S131072x24x4x3, a⟩, ⟨S131072x24x4x1, b⟩] concatenates_S131072x24x4x3_S131072x24x4x1_S131072x24x4x4_d3) : (⟨S131072x24x4x3, .f32⟩ : BufTy).Contents (Elt F) → (⟨S131072x24x4x1, .f32⟩ : BufTy).Contents (Elt F) → (⟨S131072x24x4x4, .f32⟩ : BufTy).Contents (Elt F)),  -- 23
    StableHlo.unary main_v16 main_v17 ((extractStridedSlice S131072x1x4x4 ![0, 0, 0, 0] · slices_S131072x24x4x4_S131072x1x4x4_0_0_0_0) : (⟨S131072x24x4x4, .f32⟩ : BufTy).Contents (Elt F) → (⟨S131072x1x4x4, .f32⟩ : BufTy).Contents (Elt F)),  -- 24
    StableHlo.reshape main_v17 main_v18 rfl shapeCasts_S131072x1x4x4_S131072x4x4,  -- 25
    StableHlo.unary main_v16 main_v19 ((extractStridedSlice S131072x1x4x4 ![0, 1, 0, 0] · slices_S131072x24x4x4_S131072x1x4x4_0_1_0_0) : (⟨S131072x24x4x4, .f32⟩ : BufTy).Contents (Elt F) → (⟨S131072x1x4x4, .f32⟩ : BufTy).Contents (Elt F)),  -- 26
    StableHlo.reshape main_v19 main_v20 rfl shapeCasts_S131072x1x4x4_S131072x4x4,  -- 27
    StableHlo.binary main_v18 main_v20 main_v21 ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F)),  -- 28
    StableHlo.unary main_v16 main_v22 ((extractStridedSlice S131072x1x4x4 ![0, 2, 0, 0] · slices_S131072x24x4x4_S131072x1x4x4_0_2_0_0) : (⟨S131072x24x4x4, .f32⟩ : BufTy).Contents (Elt F) → (⟨S131072x1x4x4, .f32⟩ : BufTy).Contents (Elt F)),  -- 29
    StableHlo.reshape main_v22 main_v23 rfl shapeCasts_S131072x1x4x4_S131072x4x4,  -- 30
    StableHlo.binary main_v18 main_v23 main_v24 ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F)),  -- 31
    StableHlo.unary main_v16 main_v25 ((extractStridedSlice S131072x1x4x4 ![0, 3, 0, 0] · slices_S131072x24x4x4_S131072x1x4x4_0_3_0_0) : (⟨S131072x24x4x4, .f32⟩ : BufTy).Contents (Elt F) → (⟨S131072x1x4x4, .f32⟩ : BufTy).Contents (Elt F)),  -- 32
    StableHlo.reshape main_v25 main_v26 rfl shapeCasts_S131072x1x4x4_S131072x4x4,  -- 33
    StableHlo.binary main_v18 main_v26 main_v27 ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F)),  -- 34
    StableHlo.unary main_v16 main_v28 ((extractStridedSlice S131072x1x4x4 ![0, 4, 0, 0] · slices_S131072x24x4x4_S131072x1x4x4_0_4_0_0) : (⟨S131072x24x4x4, .f32⟩ : BufTy).Contents (Elt F) → (⟨S131072x1x4x4, .f32⟩ : BufTy).Contents (Elt F)),  -- 35
    StableHlo.reshape main_v28 main_v29 rfl shapeCasts_S131072x1x4x4_S131072x4x4,  -- 36
    StableHlo.binary main_v21 main_v29 main_v30 ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F)),  -- 37
    StableHlo.unary main_v16 main_v31 ((extractStridedSlice S131072x1x4x4 ![0, 5, 0, 0] · slices_S131072x24x4x4_S131072x1x4x4_0_5_0_0) : (⟨S131072x24x4x4, .f32⟩ : BufTy).Contents (Elt F) → (⟨S131072x1x4x4, .f32⟩ : BufTy).Contents (Elt F)),  -- 38
    StableHlo.reshape main_v31 main_v32 rfl shapeCasts_S131072x1x4x4_S131072x4x4,  -- 39
    StableHlo.binary main_v24 main_v32 main_v33 ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F)),  -- 40
    StableHlo.unary main_v16 main_v34 ((extractStridedSlice S131072x1x4x4 ![0, 6, 0, 0] · slices_S131072x24x4x4_S131072x1x4x4_0_6_0_0) : (⟨S131072x24x4x4, .f32⟩ : BufTy).Contents (Elt F) → (⟨S131072x1x4x4, .f32⟩ : BufTy).Contents (Elt F)),  -- 41
    StableHlo.reshape main_v34 main_v35 rfl shapeCasts_S131072x1x4x4_S131072x4x4,  -- 42
    StableHlo.binary main_v27 main_v35 main_v36 ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F)),  -- 43
    StableHlo.unary main_v16 main_v37 ((extractStridedSlice S131072x1x4x4 ![0, 7, 0, 0] · slices_S131072x24x4x4_S131072x1x4x4_0_7_0_0) : (⟨S131072x24x4x4, .f32⟩ : BufTy).Contents (Elt F) → (⟨S131072x1x4x4, .f32⟩ : BufTy).Contents (Elt F)),  -- 44
    StableHlo.reshape main_v37 main_v38 rfl shapeCasts_S131072x1x4x4_S131072x4x4,  -- 45
    StableHlo.binary main_v30 main_v38 main_v39 ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F)),  -- 46
    StableHlo.unary main_v16 main_v40 ((extractStridedSlice S131072x1x4x4 ![0, 8, 0, 0] · slices_S131072x24x4x4_S131072x1x4x4_0_8_0_0) : (⟨S131072x24x4x4, .f32⟩ : BufTy).Contents (Elt F) → (⟨S131072x1x4x4, .f32⟩ : BufTy).Contents (Elt F)),  -- 47
    StableHlo.reshape main_v40 main_v41 rfl shapeCasts_S131072x1x4x4_S131072x4x4,  -- 48
    StableHlo.binary main_v33 main_v41 main_v42 ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F)),  -- 49
    StableHlo.unary main_v16 main_v43 ((extractStridedSlice S131072x1x4x4 ![0, 9, 0, 0] · slices_S131072x24x4x4_S131072x1x4x4_0_9_0_0) : (⟨S131072x24x4x4, .f32⟩ : BufTy).Contents (Elt F) → (⟨S131072x1x4x4, .f32⟩ : BufTy).Contents (Elt F)),  -- 50
    StableHlo.reshape main_v43 main_v44 rfl shapeCasts_S131072x1x4x4_S131072x4x4,  -- 51
    StableHlo.binary main_v36 main_v44 main_v45 ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F)),  -- 52
    StableHlo.unary main_v16 main_v46 ((extractStridedSlice S131072x1x4x4 ![0, 10, 0, 0] · slices_S131072x24x4x4_S131072x1x4x4_0_10_0_0) : (⟨S131072x24x4x4, .f32⟩ : BufTy).Contents (Elt F) → (⟨S131072x1x4x4, .f32⟩ : BufTy).Contents (Elt F)),  -- 53
    StableHlo.reshape main_v46 main_v47 rfl shapeCasts_S131072x1x4x4_S131072x4x4,  -- 54
    StableHlo.binary main_v39 main_v47 main_v48 ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F)),  -- 55
    StableHlo.unary main_v16 main_v49 ((extractStridedSlice S131072x1x4x4 ![0, 11, 0, 0] · slices_S131072x24x4x4_S131072x1x4x4_0_11_0_0) : (⟨S131072x24x4x4, .f32⟩ : BufTy).Contents (Elt F) → (⟨S131072x1x4x4, .f32⟩ : BufTy).Contents (Elt F)),  -- 56
    StableHlo.reshape main_v49 main_v50 rfl shapeCasts_S131072x1x4x4_S131072x4x4,  -- 57
    StableHlo.binary main_v42 main_v50 main_v51 ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F)),  -- 58
    StableHlo.unary main_v16 main_v52 ((extractStridedSlice S131072x1x4x4 ![0, 12, 0, 0] · slices_S131072x24x4x4_S131072x1x4x4_0_12_0_0) : (⟨S131072x24x4x4, .f32⟩ : BufTy).Contents (Elt F) → (⟨S131072x1x4x4, .f32⟩ : BufTy).Contents (Elt F)),  -- 59
    StableHlo.reshape main_v52 main_v53 rfl shapeCasts_S131072x1x4x4_S131072x4x4,  -- 60
    StableHlo.binary main_v45 main_v53 main_v54 ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F)),  -- 61
    StableHlo.unary main_v16 main_v55 ((extractStridedSlice S131072x1x4x4 ![0, 13, 0, 0] · slices_S131072x24x4x4_S131072x1x4x4_0_13_0_0) : (⟨S131072x24x4x4, .f32⟩ : BufTy).Contents (Elt F) → (⟨S131072x1x4x4, .f32⟩ : BufTy).Contents (Elt F)),  -- 62
    StableHlo.reshape main_v55 main_v56 rfl shapeCasts_S131072x1x4x4_S131072x4x4,  -- 63
    StableHlo.binary main_v45 main_v56 main_v57 ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F)),  -- 64
    StableHlo.unary main_v16 main_v58 ((extractStridedSlice S131072x1x4x4 ![0, 14, 0, 0] · slices_S131072x24x4x4_S131072x1x4x4_0_14_0_0) : (⟨S131072x24x4x4, .f32⟩ : BufTy).Contents (Elt F) → (⟨S131072x1x4x4, .f32⟩ : BufTy).Contents (Elt F)),  -- 65
    StableHlo.reshape main_v58 main_v59 rfl shapeCasts_S131072x1x4x4_S131072x4x4,  -- 66
    StableHlo.binary main_v45 main_v59 main_v60 ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F)),  -- 67
    StableHlo.unary main_v16 main_v61 ((extractStridedSlice S131072x1x4x4 ![0, 15, 0, 0] · slices_S131072x24x4x4_S131072x1x4x4_0_15_0_0) : (⟨S131072x24x4x4, .f32⟩ : BufTy).Contents (Elt F) → (⟨S131072x1x4x4, .f32⟩ : BufTy).Contents (Elt F)),  -- 68
    StableHlo.reshape main_v61 main_v62 rfl shapeCasts_S131072x1x4x4_S131072x4x4,  -- 69
    StableHlo.binary main_v54 main_v62 main_v63 ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F)),  -- 70
    StableHlo.unary main_v16 main_v64 ((extractStridedSlice S131072x1x4x4 ![0, 16, 0, 0] · slices_S131072x24x4x4_S131072x1x4x4_0_16_0_0) : (⟨S131072x24x4x4, .f32⟩ : BufTy).Contents (Elt F) → (⟨S131072x1x4x4, .f32⟩ : BufTy).Contents (Elt F)),  -- 71
    StableHlo.reshape main_v64 main_v65 rfl shapeCasts_S131072x1x4x4_S131072x4x4,  -- 72
    StableHlo.binary main_v57 main_v65 main_v66 ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F)),  -- 73
    StableHlo.unary main_v16 main_v67 ((extractStridedSlice S131072x1x4x4 ![0, 17, 0, 0] · slices_S131072x24x4x4_S131072x1x4x4_0_17_0_0) : (⟨S131072x24x4x4, .f32⟩ : BufTy).Contents (Elt F) → (⟨S131072x1x4x4, .f32⟩ : BufTy).Contents (Elt F)),  -- 74
    StableHlo.reshape main_v67 main_v68 rfl shapeCasts_S131072x1x4x4_S131072x4x4,  -- 75
    StableHlo.binary main_v60 main_v68 main_v69 ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F)),  -- 76
    StableHlo.unary main_v16 main_v70 ((extractStridedSlice S131072x1x4x4 ![0, 18, 0, 0] · slices_S131072x24x4x4_S131072x1x4x4_0_18_0_0) : (⟨S131072x24x4x4, .f32⟩ : BufTy).Contents (Elt F) → (⟨S131072x1x4x4, .f32⟩ : BufTy).Contents (Elt F)),  -- 77
    StableHlo.reshape main_v70 main_v71 rfl shapeCasts_S131072x1x4x4_S131072x4x4,  -- 78
    StableHlo.binary main_v66 main_v71 main_v72 ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F)),  -- 79
    StableHlo.unary main_v16 main_v73 ((extractStridedSlice S131072x1x4x4 ![0, 19, 0, 0] · slices_S131072x24x4x4_S131072x1x4x4_0_19_0_0) : (⟨S131072x24x4x4, .f32⟩ : BufTy).Contents (Elt F) → (⟨S131072x1x4x4, .f32⟩ : BufTy).Contents (Elt F)),  -- 80
    StableHlo.reshape main_v73 main_v74 rfl shapeCasts_S131072x1x4x4_S131072x4x4,  -- 81
    StableHlo.binary main_v69 main_v74 main_v75 ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F)),  -- 82
    StableHlo.unary main_v16 main_v76 ((extractStridedSlice S131072x1x4x4 ![0, 20, 0, 0] · slices_S131072x24x4x4_S131072x1x4x4_0_20_0_0) : (⟨S131072x24x4x4, .f32⟩ : BufTy).Contents (Elt F) → (⟨S131072x1x4x4, .f32⟩ : BufTy).Contents (Elt F)),  -- 83
    StableHlo.reshape main_v76 main_v77 rfl shapeCasts_S131072x1x4x4_S131072x4x4,  -- 84
    StableHlo.binary main_v72 main_v77 main_v78 ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F)),  -- 85
    StableHlo.unary main_v16 main_v79 ((extractStridedSlice S131072x1x4x4 ![0, 21, 0, 0] · slices_S131072x24x4x4_S131072x1x4x4_0_21_0_0) : (⟨S131072x24x4x4, .f32⟩ : BufTy).Contents (Elt F) → (⟨S131072x1x4x4, .f32⟩ : BufTy).Contents (Elt F)),  -- 86
    StableHlo.reshape main_v79 main_v80 rfl shapeCasts_S131072x1x4x4_S131072x4x4,  -- 87
    StableHlo.binary main_v75 main_v80 main_v81 ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F)),  -- 88
    StableHlo.unary main_v16 main_v82 ((extractStridedSlice S131072x1x4x4 ![0, 22, 0, 0] · slices_S131072x24x4x4_S131072x1x4x4_0_22_0_0) : (⟨S131072x24x4x4, .f32⟩ : BufTy).Contents (Elt F) → (⟨S131072x1x4x4, .f32⟩ : BufTy).Contents (Elt F)),  -- 89
    StableHlo.reshape main_v82 main_v83 rfl shapeCasts_S131072x1x4x4_S131072x4x4,  -- 90
    StableHlo.binary main_v78 main_v83 main_v84 ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F)),  -- 91
    StableHlo.unary main_v16 main_v85 ((extractStridedSlice S131072x1x4x4 ![0, 23, 0, 0] · slices_S131072x24x4x4_S131072x1x4x4_0_23_0_0) : (⟨S131072x24x4x4, .f32⟩ : BufTy).Contents (Elt F) → (⟨S131072x1x4x4, .f32⟩ : BufTy).Contents (Elt F)),  -- 92
    StableHlo.reshape main_v85 main_v86 rfl shapeCasts_S131072x1x4x4_S131072x4x4,  -- 93
    StableHlo.binary main_v81 main_v86 main_v87 ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F)),  -- 94
    StableHlo.unary main_v18 main_v88 (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)),  -- 95
    StableHlo.unary main_v21 main_v89 (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)),  -- 96
    StableHlo.unary main_v24 main_v90 (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)),  -- 97
    StableHlo.unary main_v27 main_v91 (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)),  -- 98
    StableHlo.unary main_v30 main_v92 (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)),  -- 99
    StableHlo.unary main_v33 main_v93 (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)),  -- 100
    StableHlo.unary main_v36 main_v94 (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)),  -- 101
    StableHlo.unary main_v39 main_v95 (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)),  -- 102
    StableHlo.unary main_v42 main_v96 (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)),  -- 103
    StableHlo.unary main_v45 main_v97 (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)),  -- 104
    StableHlo.unary main_v48 main_v98 (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)),  -- 105
    StableHlo.unary main_v51 main_v99 (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)),  -- 106
    StableHlo.unary main_v54 main_v100 (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)),  -- 107
    StableHlo.unary main_v57 main_v101 (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)),  -- 108
    StableHlo.unary main_v60 main_v102 (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)),  -- 109
    StableHlo.unary main_v63 main_v103 (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)),  -- 110
    StableHlo.unary main_v66 main_v104 (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)),  -- 111
    StableHlo.unary main_v69 main_v105 (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)),  -- 112
    StableHlo.unary main_v72 main_v106 (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)),  -- 113
    StableHlo.unary main_v75 main_v107 (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)),  -- 114
    StableHlo.unary main_v78 main_v108 (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)),  -- 115
    StableHlo.unary main_v81 main_v109 (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)),  -- 116
    StableHlo.unary main_v84 main_v110 (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)),  -- 117
    StableHlo.unary main_v87 main_v111 (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)),  -- 118
    StableHlo.nary ![main_v88, main_v89, main_v90, main_v91, main_v92, main_v93, main_v94, main_v95, main_v96, main_v97, main_v98, main_v99, main_v100, main_v101, main_v102, main_v103] main_v112 (fun u => concatenate S131072x16x4x4 1 [⟨S131072x1x4x4, u 0⟩, ⟨S131072x1x4x4, u 1⟩, ⟨S131072x1x4x4, u 2⟩, ⟨S131072x1x4x4, u 3⟩, ⟨S131072x1x4x4, u 4⟩, ⟨S131072x1x4x4, u 5⟩, ⟨S131072x1x4x4, u 6⟩, ⟨S131072x1x4x4, u 7⟩, ⟨S131072x1x4x4, u 8⟩, ⟨S131072x1x4x4, u 9⟩, ⟨S131072x1x4x4, u 10⟩, ⟨S131072x1x4x4, u 11⟩, ⟨S131072x1x4x4, u 12⟩, ⟨S131072x1x4x4, u 13⟩, ⟨S131072x1x4x4, u 14⟩, ⟨S131072x1x4x4, u 15⟩] concatenates_S131072x1x4x4_S131072x1x4x4_S131072x1x4x4_S131072x1x4x4_S131072x1x4x4_S131072x1x4x4_S131072x1x4x4_S131072x1x4x4_S131072x1x4x4_S131072x1x4x4_S131072x1x4x4_S131072x1x4x4_S131072x1x4x4_S131072x1x4x4_S131072x1x4x4_S131072x1x4x4_S131072x16x4x4_d1),  -- 119
    StableHlo.nary ![main_v104, main_v105, main_v106, main_v107, main_v108, main_v109, main_v110, main_v111] main_v113 (fun u => concatenate S131072x8x4x4 1 [⟨S131072x1x4x4, u 0⟩, ⟨S131072x1x4x4, u 1⟩, ⟨S131072x1x4x4, u 2⟩, ⟨S131072x1x4x4, u 3⟩, ⟨S131072x1x4x4, u 4⟩, ⟨S131072x1x4x4, u 5⟩, ⟨S131072x1x4x4, u 6⟩, ⟨S131072x1x4x4, u 7⟩] concatenates_S131072x1x4x4_S131072x1x4x4_S131072x1x4x4_S131072x1x4x4_S131072x1x4x4_S131072x1x4x4_S131072x1x4x4_S131072x1x4x4_S131072x8x4x4_d1),  -- 120
    StableHlo.binary main_v112 main_v113 main_v114 ((fun a b => concatenate S131072x24x4x4 1 [⟨S131072x16x4x4, a⟩, ⟨S131072x8x4x4, b⟩] concatenates_S131072x16x4x4_S131072x8x4x4_S131072x24x4x4_d1) : (⟨S131072x16x4x4, .f32⟩ : BufTy).Contents (Elt F) → (⟨S131072x8x4x4, .f32⟩ : BufTy).Contents (Elt F) → (⟨S131072x24x4x4, .f32⟩ : BufTy).Contents (Elt F)),  -- 121
    StableHlo.unary main_v114 main_v115 ((extractStridedSlice S131072x24x3x1 ![0, 0, 0, 3] · slices_S131072x24x4x4_S131072x24x3x1_0_0_0_3) : (⟨S131072x24x4x4, .f32⟩ : BufTy).Contents (Elt F) → (⟨S131072x24x3x1, .f32⟩ : BufTy).Contents (Elt F)),  -- 122
    StableHlo.reshape main_v115 main_v116 rfl shapeCasts_S131072x24x3x1_S131072x24x3,  -- 123
    StableHlo.nullary main_cst_4 (constant S_ .f32 0x00000000#32),  -- 124
    StableHlo.unary main_cst_4 main_v117 (broadcastInDim S131072x24x1x1 ![] bcast_S_S131072x24x1x1 : (⟨S_, .f32⟩ : BufTy).Contents (Elt F) → (⟨S131072x24x1x1, .f32⟩ : BufTy).Contents (Elt F)),  -- 125
    StableHlo.binary main_v0 main_v117 main_v118 ((fun a b => concatenate S131072x24x4x1 2 [⟨S131072x24x3x1, a⟩, ⟨S131072x24x1x1, b⟩] concatenates_S131072x24x3x1_S131072x24x1x1_S131072x24x4x1_d2) : (⟨S131072x24x3x1, .f32⟩ : BufTy).Contents (Elt F) → (⟨S131072x24x1x1, .f32⟩ : BufTy).Contents (Elt F) → (⟨S131072x24x4x1, .f32⟩ : BufTy).Contents (Elt F)),  -- 126
    StableHlo.binary main_v114 main_v118 main_v119 ((fun l r => Host.dotGeneral dot_S131072x24x4x4_S131072x24x4x1_S131072x24x4x1_3_2_2_3_01_01 none l r) : (⟨S131072x24x4x4, .f32⟩ : BufTy).Contents (Elt F) → (⟨S131072x24x4x1, .f32⟩ : BufTy).Contents (Elt F) → (⟨S131072x24x4x1, .f32⟩ : BufTy).Contents (Elt F)),  -- 127
    StableHlo.nullary main_c_5 (constantI S_ 32 0#32),  -- 128
    StableHlo.TRef.unary (.of main_c_5 : StableHlo.TRef sig ⟨S_, .i32⟩) main_call1.v0 (sitofp .f32),  -- 129
    StableHlo.TRef.binary (.of main_v119 : StableHlo.TRef sig ⟨S131072x24x4x1, .f32⟩) main_call1.v0 main_call1.v1 (fun x v => pad S131072x24x4x4 ![0, 0, 0, 3] ![0, 0, 0, 0] ![0, 0, 0, 0] x v pads_S131072x24x4x1_S131072x24x4x4_000_000_000_300 h_S_),  -- 130
    StableHlo.binary main_v114 main_v120 main_v121 (subf : (⟨S131072x24x4x4, .f32⟩ : BufTy).Contents (Elt F) → (⟨S131072x24x4x4, .f32⟩ : BufTy).Contents (Elt F) → (⟨S131072x24x4x4, .f32⟩ : BufTy).Contents (Elt F)) ]  -- 131

/-- The line has 132 operations. -/
theorem ops_length : (ops (F := F)).length = 132 := rfl

/-- A position below 132 is a position of the line. -/
theorem ops_lt {k : Nat} (h : k < 132) : k < (ops (F := F)).length := by rw [ops_length]; exact h

set_option maxRecDepth 8192 in
set_option maxHeartbeats 4000000 in
/-- The printed program is that straight line: its three consecutive parts run in order, each padding function's
    body substituted at its call and the call's buffer record at its fields, are one chain of single steps once
    sequencing is reassociated. -/
theorem main_eq (c : Dev nD) : main (F := F) c = seq ops := by
  simp only [main, main_part0, main_part1, main_part2, fn_pad.body, fn_pad_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    unary_bufs_sub .., reshape_bufs_sub .., nullary_bufs_sub .., unary_bufs_sub .., ternary_bufs_sub .., nullary_bufs_sub ..,
    unary_bufs_sub .., binary_bufs_sub .., nullary_bufs_sub .., unary_bufs_sub .., binary_bufs_sub .., binary_bufs_sub ..,
    unary_bufs_sub .., reshape_bufs_sub .., unary_bufs_sub .., reshape_bufs_sub .., binary_bufs_sub .., unary_bufs_sub ..,
    reshape_bufs_sub .., binary_bufs_sub .., unary_bufs_sub .., reshape_bufs_sub .., binary_bufs_sub .., unary_bufs_sub ..,
    reshape_bufs_sub .., binary_bufs_sub .., unary_bufs_sub .., reshape_bufs_sub .., binary_bufs_sub .., unary_bufs_sub ..,
    reshape_bufs_sub .., binary_bufs_sub .., unary_bufs_sub .., reshape_bufs_sub .., binary_bufs_sub .., unary_bufs_sub ..,
    reshape_bufs_sub .., binary_bufs_sub .., unary_bufs_sub .., reshape_bufs_sub .., binary_bufs_sub .., unary_bufs_sub ..,
    reshape_bufs_sub .., binary_bufs_sub .., unary_bufs_sub .., reshape_bufs_sub .., binary_bufs_sub .., unary_bufs_sub ..,
    reshape_bufs_sub .., binary_bufs_sub .., unary_bufs_sub .., reshape_bufs_sub .., binary_bufs_sub .., unary_bufs_sub ..,
    reshape_bufs_sub .., binary_bufs_sub .., unary_bufs_sub .., reshape_bufs_sub .., binary_bufs_sub .., unary_bufs_sub ..,
    reshape_bufs_sub .., binary_bufs_sub .., unary_bufs_sub .., reshape_bufs_sub .., binary_bufs_sub .., unary_bufs_sub ..,
    reshape_bufs_sub .., binary_bufs_sub .., unary_bufs_sub .., reshape_bufs_sub .., binary_bufs_sub .., unary_bufs_sub ..,
    reshape_bufs_sub .., binary_bufs_sub .., unary_bufs_sub .., reshape_bufs_sub .., binary_bufs_sub .., unary_bufs_sub ..,
    reshape_bufs_sub .., binary_bufs_sub .., unary_bufs_sub .., reshape_bufs_sub .., binary_bufs_sub .., unary_bufs_sub ..,
    unary_bufs_sub .., unary_bufs_sub .., unary_bufs_sub .., unary_bufs_sub .., unary_bufs_sub .., unary_bufs_sub ..,
    unary_bufs_sub .., unary_bufs_sub .., unary_bufs_sub .., unary_bufs_sub .., unary_bufs_sub .., unary_bufs_sub ..,
    unary_bufs_sub .., unary_bufs_sub .., unary_bufs_sub .., unary_bufs_sub .., unary_bufs_sub .., unary_bufs_sub ..,
    unary_bufs_sub .., unary_bufs_sub .., unary_bufs_sub .., unary_bufs_sub .., unary_bufs_sub .., nary_bufs_sub ..,
    nary_bufs_sub .., binary_bufs_sub .., unary_bufs_sub .., reshape_bufs_sub .., nullary_bufs_sub .., unary_bufs_sub ..,
    binary_bufs_sub .., binary_bufs_sub .., nullary_bufs_sub .., unary_bufs_sub .., binary_bufs_sub .., binary_bufs_sub ..⟩

set_option maxRecDepth 8192 in
/-- For any float values, from any memory with zero counters: every weakly fair execution of the reference on the
    TensorCores terminates, and every final state has each TensorCore buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The buffer each operation writes, in program order: operation k writes the k-th. No buffer occurs twice, and the
    two argument buffers do not occur. -/
abbrev W : List (Ref sig .tc) :=
  [ main_c, main_v0, main_c_0, main_v1, main_v2, main_c_1, main_v3, main_v4, main_v5, main_v6,
    main_v7, main_v8, main_v9, main_v10, main_c_2, main_v11, main_v12, main_c_3, main_call0_v0, main_v13,
    main_cst, main_v14, main_v15, main_v16, main_v17, main_v18, main_v19, main_v20, main_v21, main_v22,
    main_v23, main_v24, main_v25, main_v26, main_v27, main_v28, main_v29, main_v30, main_v31, main_v32,
    main_v33, main_v34, main_v35, main_v36, main_v37, main_v38, main_v39, main_v40, main_v41, main_v42,
    main_v43, main_v44, main_v45, main_v46, main_v47, main_v48, main_v49, main_v50, main_v51, main_v52,
    main_v53, main_v54, main_v55, main_v56, main_v57, main_v58, main_v59, main_v60, main_v61, main_v62,
    main_v63, main_v64, main_v65, main_v66, main_v67, main_v68, main_v69, main_v70, main_v71, main_v72,
    main_v73, main_v74, main_v75, main_v76, main_v77, main_v78, main_v79, main_v80, main_v81, main_v82,
    main_v83, main_v84, main_v85, main_v86, main_v87, main_v88, main_v89, main_v90, main_v91, main_v92,
    main_v93, main_v94, main_v95, main_v96, main_v97, main_v98, main_v99, main_v100, main_v101, main_v102,
    main_v103, main_v104, main_v105, main_v106, main_v107, main_v108, main_v109, main_v110, main_v111, main_v112,
    main_v113, main_v114, main_v115, main_v116, main_cst_4, main_v117, main_v118, main_v119, main_c_5, main_call1_v0,
    main_v120, main_v121 ]

set_option maxRecDepth 8192 in
/-- Each operation writes exactly one buffer, the one listed for it. -/
theorem writes_eq :
    (ops (F := F)).map (fun op => op.writes)
      = W.map fun r => ({(Proc.devRef .tc r : DevRef τ sig)} : Finset (DevRef τ sig)) := rfl

/-- The line is in single-assignment form: operation k writes the k-th listed buffer and no other. -/
theorem hW : Cert.LibStraightLine.WritesAre (ops (F := F)) W := writes_eq

end Cert.ReferenceIdeal.RefRun

end
-- ==== Proof.LibStraightLineMore.lean ====
/-
  A straight line of operations in single-assignment form, read one operation at a time: the operation with any number
  of operands.

  The companion file reads the operations of one, two and three operands (and a recast) off a single-assignment line:
  the buffer the k-th operation writes holds, after the WHOLE line, that operation's function of what its operand
  buffers hold after the whole line. Here is the same fact for the operation that takes a finite family of operands (a
  concatenation of several arrays is one): its result buffer holds the function of the family of its operands' final
  contents. An operation spelt over typed references is, by definition, the plain operation at the references they
  carry, so the plain lemmas read it as it stands.
  General: nothing here depends on a particular program.
-/
import proofs.«156383_j88811333747289_2_alg».proof.Proof.LibStraightLine

namespace Cert.LibStraightLine

open Idealize.ShloMosaic Idealize.ShloMosaic.StableHlo

variable {τ : Topo} {sig : RefSig} {Val : EltTy → Type}
variable {ops : List (HloOp τ sig Val)} {V : Valuation τ sig Val}

/-- Operation k applies its function to the family of its operand buffers as the whole line leaves them. -/
theorem nary_at (k : Nat) (hk : k < ops.length) {n : Nat} {xs : Fin n → Ref sig .tc} {y : Ref sig .tc}
    {f : ((i : Fin n) → (xs i).ty.Contents Val) → y.ty.Contents Val} {hxs hy}
    (hop : ops[k] = nary xs y f hxs hy)
    (hy' : ∀ op ∈ ops.drop (k + 1), (Proc.devRef .tc y : DevRef τ sig) ∉ op.writes)
    (hxs' : ∀ i : Fin n, ∀ op ∈ ops.drop k, (Proc.devRef .tc (xs i) : DevRef τ sig) ∉ op.writes) :
    after ops V (Proc.devRef .tc y) = f (fun i => after ops V (Proc.devRef .tc (xs i))) := by
  rw [after_eq_result ops V k hk _ hy', hop, nary_result]
  congr 1
  funext i
  exact (after_eq_take ops V k _ (hxs' i)).symm

end Cert.LibStraightLine
-- ==== Proof.RefEqs.lean ====
/-
  The reference program read one operation at a time.

  The reference is a straight line of 132 array operations in single-assignment form: every buffer is written by exactly
  one operation, and only after the operations that write its operands. So the contents the WHOLE line leaves in the
  buffers already satisfy each operation's own equation: the buffer operation k writes holds that operation's function of
  what its operand buffers hold, all read after the whole line, because nothing later touches either side. This file
  states that equation for every operation, named after the buffer it defines, for an arbitrary launch valuation `V`;
  the two argument buffers, which no operation writes, keep their launch contents. Read in order, the equations are the
  reference's defining recurrences: the relative joint positions, the 4×4 local transforms, one matrix product per joint
  down the tree, the stacked world transforms and the two results taken from the stack. Nothing here looks inside an
  operation, so the equations hold for any float values; the composed term of the whole line is never formed.
-/
import proofs.«156383_j88811333747289_2_alg».proof.Proof.RefOps
import proofs.«156383_j88811333747289_2_alg».proof.Proof.LibStraightLine
import proofs.«156383_j88811333747289_2_alg».proof.Proof.LibStraightLineMore

noncomputable section

namespace Cert.ReferenceIdeal.RefRun

open Cert.ReferenceIdeal Cert.ReferenceIdeal.Gen Idealize.ShloMosaic Idealize.ShloMosaic.TcCoe Idealize.SL.Sem
  Idealize.ShloMosaic.StableHlo Cert.LibStraightLine

variable {F : FTy → Type} [FloatOps F]

/-- "No operation from position k on writes this buffer": the buffer does not occur in the list of written buffers from
    position k on, a finite check on references. -/
local macro "nw " k:num : term => `(not_written hW $k (by decide))

/-- An operation's buffer is a device buffer that is not scoped: both by computation on the literal reference. -/
local macro "dv" : term => `(⟨by decide, rfl⟩)

/-- The rotations' buffer is written by no operation: it holds its launch contents. -/
theorem at_arg0 (V : Valuation τ sig (Elt F)) :
    after ops V (main_arg0 : DevRef τ sig) = V (main_arg0 : DevRef τ sig) :=
  untouched_at hW (by decide)

/-- The positions' buffer is written by no operation: it holds its launch contents. -/
theorem at_arg1 (V : Valuation τ sig (Elt F)) :
    after ops V (main_arg1 : DevRef τ sig) = V (main_arg1 : DevRef τ sig) :=
  untouched_at hW (by decide)

/-- Operation 0: after the whole line the buffer of `%c` holds the parent table: for each of the 24 joints the index of its parent (0 for the root). -/
theorem at_c (V : Valuation τ sig (Elt F)) :
    after ops V (main_c : DevRef τ sig)
      = ((fun i => lit0 (S24.rowMajor i)) : (⟨S24, .i32⟩ : BufTy).Contents (Elt F)) :=
  nullary_at (y := main_c) (v := (fun i => lit0 (S24.rowMajor i))) (hy := dv) 0 (ops_lt (by decide)) rfl (nw 1)

/-- Operation 1: after the whole line the buffer of `%0` holds `%arg1` broadcast to shape 131072×24×3×1, its axes placed at axes [0, 1, 2]. -/
theorem at_v0 (V : Valuation τ sig (Elt F)) :
    after ops V (main_v0 : DevRef τ sig)
      = (broadcastInDim S131072x24x3x1 ![0, 1, 2] bcast_S131072x24x3_S131072x24x3x1_0_1_2 : (⟨S131072x24x3, .f32⟩ : BufTy).Contents (Elt F) → (⟨S131072x24x3x1, .f32⟩ : BufTy).Contents (Elt F)) (after ops V (main_arg1 : DevRef τ sig) : (⟨S131072x24x3, .f32⟩ : BufTy).Contents (Elt F)) :=
  unary_at (x := main_arg1) (y := main_v0) (f := (broadcastInDim S131072x24x3x1 ![0, 1, 2] bcast_S131072x24x3_S131072x24x3x1_0_1_2 : (⟨S131072x24x3, .f32⟩ : BufTy).Contents (Elt F) → (⟨S131072x24x3x1, .f32⟩ : BufTy).Contents (Elt F))) (hx := dv) (hy := dv) 1 (ops_lt (by decide)) rfl (nw 2) (nw 1)

/-- Operation 2: after the whole line the buffer of `%c_0` holds the integer constant 0. -/
theorem at_c_0 (V : Valuation τ sig (Elt F)) :
    after ops V (main_c_0 : DevRef τ sig)
      = (constantI S_ 32 0#32) :=
  nullary_at (y := main_c_0) (v := (constantI S_ 32 0#32)) (hy := dv) 2 (ops_lt (by decide)) rfl (nw 3)

/-- Operation 3: after the whole line the buffer of `%1` holds the scalar `%c_0` repeated to shape 24. -/
theorem at_v1 (V : Valuation τ sig (Elt F)) :
    after ops V (main_v1 : DevRef τ sig)
      = (broadcastInDim S24 ![] bcast_S_S24 : (⟨S_, .i32⟩ : BufTy).Contents (Elt F) → (⟨S24, .i32⟩ : BufTy).Contents (Elt F)) (after ops V (main_c_0 : DevRef τ sig) : (⟨S_, .i32⟩ : BufTy).Contents (Elt F)) :=
  unary_at (x := main_c_0) (y := main_v1) (f := (broadcastInDim S24 ![] bcast_S_S24 : (⟨S_, .i32⟩ : BufTy).Contents (Elt F) → (⟨S24, .i32⟩ : BufTy).Contents (Elt F))) (hx := dv) (hy := dv) 3 (ops_lt (by decide)) rfl (nw 4) (nw 3)

/-- Operation 4: after the whole line the buffer of `%2` holds the elementwise signed comparison `%c` < `%1`. -/
theorem at_v2 (V : Valuation τ sig (Elt F)) :
    after ops V (main_v2 : DevRef τ sig)
      = (cmpi .slt : (⟨S24, .i32⟩ : BufTy).Contents (Elt F) → (⟨S24, .i32⟩ : BufTy).Contents (Elt F) → (⟨S24, .i1⟩ : BufTy).Contents (Elt F)) (after ops V (main_c : DevRef τ sig) : (⟨S24, .i32⟩ : BufTy).Contents (Elt F)) (after ops V (main_v1 : DevRef τ sig) : (⟨S24, .i32⟩ : BufTy).Contents (Elt F)) :=
  binary_at (a := main_c) (b := main_v1) (y := main_v2) (f := (cmpi .slt : (⟨S24, .i32⟩ : BufTy).Contents (Elt F) → (⟨S24, .i32⟩ : BufTy).Contents (Elt F) → (⟨S24, .i1⟩ : BufTy).Contents (Elt F))) (ha := dv) (hb := dv) (hy := dv) 4 (ops_lt (by decide)) rfl (nw 5) (nw 4) (nw 4)

/-- Operation 5: after the whole line the buffer of `%c_1` holds the integer constant 24. -/
theorem at_c_1 (V : Valuation τ sig (Elt F)) :
    after ops V (main_c_1 : DevRef τ sig)
      = (constantI S_ 32 24#32) :=
  nullary_at (y := main_c_1) (v := (constantI S_ 32 24#32)) (hy := dv) 5 (ops_lt (by decide)) rfl (nw 6)

/-- Operation 6: after the whole line the buffer of `%3` holds the scalar `%c_1` repeated to shape 24. -/
theorem at_v3 (V : Valuation τ sig (Elt F)) :
    after ops V (main_v3 : DevRef τ sig)
      = (broadcastInDim S24 ![] bcast_S_S24 : (⟨S_, .i32⟩ : BufTy).Contents (Elt F) → (⟨S24, .i32⟩ : BufTy).Contents (Elt F)) (after ops V (main_c_1 : DevRef τ sig) : (⟨S_, .i32⟩ : BufTy).Contents (Elt F)) :=
  unary_at (x := main_c_1) (y := main_v3) (f := (broadcastInDim S24 ![] bcast_S_S24 : (⟨S_, .i32⟩ : BufTy).Contents (Elt F) → (⟨S24, .i32⟩ : BufTy).Contents (Elt F))) (hx := dv) (hy := dv) 6 (ops_lt (by decide)) rfl (nw 7) (nw 6)

/-- Operation 7: after the whole line the buffer of `%4` holds the elementwise integer sum `%c` + `%3`. -/
theorem at_v4 (V : Valuation τ sig (Elt F)) :
    after ops V (main_v4 : DevRef τ sig)
      = (addi : (⟨S24, .i32⟩ : BufTy).Contents (Elt F) → (⟨S24, .i32⟩ : BufTy).Contents (Elt F) → (⟨S24, .i32⟩ : BufTy).Contents (Elt F)) (after ops V (main_c : DevRef τ sig) : (⟨S24, .i32⟩ : BufTy).Contents (Elt F)) (after ops V (main_v3 : DevRef τ sig) : (⟨S24, .i32⟩ : BufTy).Contents (Elt F)) :=
  binary_at (a := main_c) (b := main_v3) (y := main_v4) (f := (addi : (⟨S24, .i32⟩ : BufTy).Contents (Elt F) → (⟨S24, .i32⟩ : BufTy).Contents (Elt F) → (⟨S24, .i32⟩ : BufTy).Contents (Elt F))) (ha := dv) (hb := dv) (hy := dv) 7 (ops_lt (by decide)) rfl (nw 8) (nw 7) (nw 7)

/-- Operation 8: after the whole line the buffer of `%5` holds elementwise, `%4` where `%2` holds and `%c` elsewhere. -/
theorem at_v5 (V : Valuation τ sig (Elt F)) :
    after ops V (main_v5 : DevRef τ sig)
      = (select : (⟨S24, .i1⟩ : BufTy).Contents (Elt F) → (⟨S24, .i32⟩ : BufTy).Contents (Elt F) → (⟨S24, .i32⟩ : BufTy).Contents (Elt F) → (⟨S24, .i32⟩ : BufTy).Contents (Elt F)) (after ops V (main_v2 : DevRef τ sig) : (⟨S24, .i1⟩ : BufTy).Contents (Elt F)) (after ops V (main_v4 : DevRef τ sig) : (⟨S24, .i32⟩ : BufTy).Contents (Elt F)) (after ops V (main_c : DevRef τ sig) : (⟨S24, .i32⟩ : BufTy).Contents (Elt F)) :=
  ternary_at (c := main_v2) (a := main_v4) (b := main_c) (y := main_v5) (f := (select : (⟨S24, .i1⟩ : BufTy).Contents (Elt F) → (⟨S24, .i32⟩ : BufTy).Contents (Elt F) → (⟨S24, .i32⟩ : BufTy).Contents (Elt F) → (⟨S24, .i32⟩ : BufTy).Contents (Elt F))) (hc := dv) (ha := dv) (hb := dv) (hy := dv) 8 (ops_lt (by decide)) rfl (nw 9) (nw 8) (nw 8) (nw 8)

/-- Operation 9: after the whole line the buffer of `%6` holds `%5` broadcast to shape 24×1, its axes placed at axes [0]. -/
theorem at_v6 (V : Valuation τ sig (Elt F)) :
    after ops V (main_v6 : DevRef τ sig)
      = (broadcastInDim S24x1 ![0] bcast_S24_S24x1_0 : (⟨S24, .i32⟩ : BufTy).Contents (Elt F) → (⟨S24x1, .i32⟩ : BufTy).Contents (Elt F)) (after ops V (main_v5 : DevRef τ sig) : (⟨S24, .i32⟩ : BufTy).Contents (Elt F)) :=
  unary_at (x := main_v5) (y := main_v6) (f := (broadcastInDim S24x1 ![0] bcast_S24_S24x1_0 : (⟨S24, .i32⟩ : BufTy).Contents (Elt F) → (⟨S24x1, .i32⟩ : BufTy).Contents (Elt F))) (hx := dv) (hy := dv) 9 (ops_lt (by decide)) rfl (nw 10) (nw 9)

/-- Operation 10: after the whole line the buffer of `%7` holds the gather of `%0` at the index table `%6`: along the joint axis, row j is the row of `%0` at the j-th index. -/
theorem at_v7 (V : Valuation τ sig (Elt F)) :
    after ops V (main_v7 : DevRef τ sig)
      = Host.gather gather_S131072x24x3x1_S24x1_S131072x24x3x1_023_1_n_n_1_1_131072131 (after ops V (main_v0 : DevRef τ sig) : (⟨S131072x24x3x1, .f32⟩ : BufTy).Contents (Elt F)) (after ops V (main_v6 : DevRef τ sig) : (⟨S24x1, .i32⟩ : BufTy).Contents (Elt F)) :=
  binary_at (a := main_v0) (b := main_v6) (y := main_v7) (f := ((fun x i => Host.gather gather_S131072x24x3x1_S24x1_S131072x24x3x1_023_1_n_n_1_1_131072131 x i) : (⟨S131072x24x3x1, .f32⟩ : BufTy).Contents (Elt F) → (⟨S24x1, .i32⟩ : BufTy).Contents (Elt F) → (⟨S131072x24x3x1, .f32⟩ : BufTy).Contents (Elt F))) (ha := dv) (hb := dv) (hy := dv) 10 (ops_lt (by decide)) rfl (nw 11) (nw 10) (nw 10)

/-- Operation 11: after the whole line the buffer of `%8` holds the elementwise difference `%0` − `%7`. -/
theorem at_v8 (V : Valuation τ sig (Elt F)) :
    after ops V (main_v8 : DevRef τ sig)
      = (subf : (⟨S131072x24x3x1, .f32⟩ : BufTy).Contents (Elt F) → (⟨S131072x24x3x1, .f32⟩ : BufTy).Contents (Elt F) → (⟨S131072x24x3x1, .f32⟩ : BufTy).Contents (Elt F)) (after ops V (main_v0 : DevRef τ sig) : (⟨S131072x24x3x1, .f32⟩ : BufTy).Contents (Elt F)) (after ops V (main_v7 : DevRef τ sig) : (⟨S131072x24x3x1, .f32⟩ : BufTy).Contents (Elt F)) :=
  binary_at (a := main_v0) (b := main_v7) (y := main_v8) (f := (subf : (⟨S131072x24x3x1, .f32⟩ : BufTy).Contents (Elt F) → (⟨S131072x24x3x1, .f32⟩ : BufTy).Contents (Elt F) → (⟨S131072x24x3x1, .f32⟩ : BufTy).Contents (Elt F))) (ha := dv) (hb := dv) (hy := dv) 11 (ops_lt (by decide)) rfl (nw 12) (nw 11) (nw 11)

/-- Operation 12: after the whole line the buffer of `%9` holds the block of `%0` of shape 131072×1×3×1 starting at [0, 0, 0, 0]. -/
theorem at_v9 (V : Valuation τ sig (Elt F)) :
    after ops V (main_v9 : DevRef τ sig)
      = extractStridedSlice S131072x1x3x1 ![0, 0, 0, 0] (after ops V (main_v0 : DevRef τ sig) : (⟨S131072x24x3x1, .f32⟩ : BufTy).Contents (Elt F)) slices_S131072x24x3x1_S131072x1x3x1_0_0_0_0 :=
  unary_at (x := main_v0) (y := main_v9) (f := ((extractStridedSlice S131072x1x3x1 ![0, 0, 0, 0] · slices_S131072x24x3x1_S131072x1x3x1_0_0_0_0) : (⟨S131072x24x3x1, .f32⟩ : BufTy).Contents (Elt F) → (⟨S131072x1x3x1, .f32⟩ : BufTy).Contents (Elt F))) (hx := dv) (hy := dv) 12 (ops_lt (by decide)) rfl (nw 13) (nw 12)

/-- Operation 13: after the whole line the buffer of `%10` holds `%9` recast to shape 131072×3×1, the same elements in row-major order. -/
theorem at_v10 (V : Valuation τ sig (Elt F)) :
    after ops V (main_v10 : DevRef τ sig)
      = shapeCast S131072x3x1 (after ops V (main_v9 : DevRef τ sig) : (⟨S131072x1x3x1, .f32⟩ : BufTy).Contents (Elt F)) shapeCasts_S131072x1x3x1_S131072x3x1 :=
  reshape_at (x := main_v9) (y := main_v10) (he := rfl) (hn := shapeCasts_S131072x1x3x1_S131072x3x1) (hx := dv) (hy := dv) 13 (ops_lt (by decide)) rfl (nw 14) (nw 13)

/-- Operation 14: after the whole line the buffer of `%c_2` holds the integer constant 0. -/
theorem at_c_2 (V : Valuation τ sig (Elt F)) :
    after ops V (main_c_2 : DevRef τ sig)
      = (constantI S_ 32 0#32) :=
  nullary_at (y := main_c_2) (v := (constantI S_ 32 0#32)) (hy := dv) 14 (ops_lt (by decide)) rfl (nw 15)

/-- Operation 15: after the whole line the buffer of `%11` holds the scalar `%c_2` repeated to shape 1. -/
theorem at_v11 (V : Valuation τ sig (Elt F)) :
    after ops V (main_v11 : DevRef τ sig)
      = (broadcastInDim S1 ![] bcast_S_S1 : (⟨S_, .i32⟩ : BufTy).Contents (Elt F) → (⟨S1, .i32⟩ : BufTy).Contents (Elt F)) (after ops V (main_c_2 : DevRef τ sig) : (⟨S_, .i32⟩ : BufTy).Contents (Elt F)) :=
  unary_at (x := main_c_2) (y := main_v11) (f := (broadcastInDim S1 ![] bcast_S_S1 : (⟨S_, .i32⟩ : BufTy).Contents (Elt F) → (⟨S1, .i32⟩ : BufTy).Contents (Elt F))) (hx := dv) (hy := dv) 15 (ops_lt (by decide)) rfl (nw 16) (nw 15)

/-- Operation 16: after the whole line the buffer of `%12` holds `%8` with the update `%10` written over it at the joint-axis index `%11`. -/
theorem at_v12 (V : Valuation τ sig (Elt F)) :
    after ops V (main_v12 : DevRef τ sig)
      = Host.scatter scatter_S131072x24x3x1_S1_S131072x3x1_012_1_1_0 (fun _ b => b) (after ops V (main_v8 : DevRef τ sig) : (⟨S131072x24x3x1, .f32⟩ : BufTy).Contents (Elt F)) (after ops V (main_v11 : DevRef τ sig) : (⟨S1, .i32⟩ : BufTy).Contents (Elt F)) (after ops V (main_v10 : DevRef τ sig) : (⟨S131072x3x1, .f32⟩ : BufTy).Contents (Elt F)) :=
  ternary_at (c := main_v8) (a := main_v11) (b := main_v10) (y := main_v12) (f := ((fun x i u => Host.scatter scatter_S131072x24x3x1_S1_S131072x3x1_012_1_1_0 (fun _ b => b) x i u) : (⟨S131072x24x3x1, .f32⟩ : BufTy).Contents (Elt F) → (⟨S1, .i32⟩ : BufTy).Contents (Elt F) → (⟨S131072x3x1, .f32⟩ : BufTy).Contents (Elt F) → (⟨S131072x24x3x1, .f32⟩ : BufTy).Contents (Elt F))) (hc := dv) (ha := dv) (hb := dv) (hy := dv) 16 (ops_lt (by decide)) rfl (nw 17) (nw 16) (nw 16) (nw 16)

/-- Operation 17: after the whole line the buffer of `%c_3` holds the integer constant 0. -/
theorem at_c_3 (V : Valuation τ sig (Elt F)) :
    after ops V (main_c_3 : DevRef τ sig)
      = (constantI S_ 32 0#32) :=
  nullary_at (y := main_c_3) (v := (constantI S_ 32 0#32)) (hy := dv) 17 (ops_lt (by decide)) rfl (nw 18)

/-- Operation 18: after the whole line the buffer of the first padding function's `%0` holds the integer `%c_3` converted to a float. -/
theorem at_call0_v0 (V : Valuation τ sig (Elt F)) :
    after ops V (main_call0_v0 : DevRef τ sig)
      = sitofp .f32 (after ops V (main_c_3 : DevRef τ sig) : (⟨S_, .i32⟩ : BufTy).Contents (Elt F)) :=
  unary_at (x := main_c_3) (y := main_call0_v0) (f := (sitofp .f32 : (⟨S_, .i32⟩ : BufTy).Contents (Elt F) → (⟨S_, .f32⟩ : BufTy).Contents (Elt F))) (hx := dv) (hy := dv) 18 (ops_lt (by decide)) rfl (nw 19) (nw 18)

/-- Operation 19: after the whole line the buffer of `%13` holds `%arg0` padded with the value the first padding function's `%0` to shape 131072×24×4×3: [0, 0, 0, 0] entries before and [0, 0, 1, 0] after along each axis. -/
theorem at_v13 (V : Valuation τ sig (Elt F)) :
    after ops V (main_v13 : DevRef τ sig)
      = pad S131072x24x4x3 ![0, 0, 0, 0] ![0, 0, 1, 0] ![0, 0, 0, 0] (after ops V (main_arg0 : DevRef τ sig) : (⟨S131072x24x3x3, .f32⟩ : BufTy).Contents (Elt F)) (after ops V (main_call0_v0 : DevRef τ sig) : (⟨S_, .f32⟩ : BufTy).Contents (Elt F)) pads_S131072x24x3x3_S131072x24x4x3_000_000_010_000 h_S_ :=
  binary_at (a := main_arg0) (b := main_call0_v0) (y := main_v13) (f := ((fun x v => pad S131072x24x4x3 ![0, 0, 0, 0] ![0, 0, 1, 0] ![0, 0, 0, 0] x v pads_S131072x24x3x3_S131072x24x4x3_000_000_010_000 h_S_) : (⟨S131072x24x3x3, .f32⟩ : BufTy).Contents (Elt F) → (⟨S_, .f32⟩ : BufTy).Contents (Elt F) → (⟨S131072x24x4x3, .f32⟩ : BufTy).Contents (Elt F))) (ha := dv) (hb := dv) (hy := dv) 19 (ops_lt (by decide)) rfl (nw 20) (nw 19) (nw 19)

/-- Operation 20: after the whole line the buffer of `%cst` holds the float constant 1. -/
theorem at_cst (V : Valuation τ sig (Elt F)) :
    after ops V (main_cst : DevRef τ sig)
      = (constant S_ .f32 0x3F800000#32) :=
  nullary_at (y := main_cst) (v := (constant S_ .f32 0x3F800000#32)) (hy := dv) 20 (ops_lt (by decide)) rfl (nw 21)

/-- Operation 21: after the whole line the buffer of `%14` holds the scalar `%cst` repeated to shape 131072×24×1×1. -/
theorem at_v14 (V : Valuation τ sig (Elt F)) :
    after ops V (main_v14 : DevRef τ sig)
      = (broadcastInDim S131072x24x1x1 ![] bcast_S_S131072x24x1x1 : (⟨S_, .f32⟩ : BufTy).Contents (Elt F) → (⟨S131072x24x1x1, .f32⟩ : BufTy).Contents (Elt F)) (after ops V (main_cst : DevRef τ sig) : (⟨S_, .f32⟩ : BufTy).Contents (Elt F)) :=
  unary_at (x := main_cst) (y := main_v14) (f := (broadcastInDim S131072x24x1x1 ![] bcast_S_S131072x24x1x1 : (⟨S_, .f32⟩ : BufTy).Contents (Elt F) → (⟨S131072x24x1x1, .f32⟩ : BufTy).Contents (Elt F))) (hx := dv) (hy := dv) 21 (ops_lt (by decide)) rfl (nw 22) (nw 21)

/-- Operation 22: after the whole line the buffer of `%15` holds `%12`, `%14` joined along axis 2. -/
theorem at_v15 (V : Valuation τ sig (Elt F)) :
    after ops V (main_v15 : DevRef τ sig)
      = concatenate S131072x24x4x1 2 [⟨S131072x24x3x1, (after ops V (main_v12 : DevRef τ sig) : (⟨S131072x24x3x1, .f32⟩ : BufTy).Contents (Elt F))⟩, ⟨S131072x24x1x1, (after ops V (main_v14 : DevRef τ sig) : (⟨S131072x24x1x1, .f32⟩ : BufTy).Contents (Elt F))⟩] concatenates_S131072x24x3x1_S131072x24x1x1_S131072x24x4x1_d2 :=
  binary_at (a := main_v12) (b := main_v14) (y := main_v15) (f := ((fun a b => concatenate S131072x24x4x1 2 [⟨S131072x24x3x1, a⟩, ⟨S131072x24x1x1, b⟩] concatenates_S131072x24x3x1_S131072x24x1x1_S131072x24x4x1_d2) : (⟨S131072x24x3x1, .f32⟩ : BufTy).Contents (Elt F) → (⟨S131072x24x1x1, .f32⟩ : BufTy).Contents (Elt F) → (⟨S131072x24x4x1, .f32⟩ : BufTy).Contents (Elt F))) (ha := dv) (hb := dv) (hy := dv) 22 (ops_lt (by decide)) rfl (nw 23) (nw 22) (nw 22)

/-- Operation 23: after the whole line the buffer of `%16` holds `%13`, `%15` joined along axis 3. -/
theorem at_v16 (V : Valuation τ sig (Elt F)) :
    after ops V (main_v16 : DevRef τ sig)
      = concatenate S131072x24x4x4 3 [⟨S131072x24x4x3, (after ops V (main_v13 : DevRef τ sig) : (⟨S131072x24x4x3, .f32⟩ : BufTy).Contents (Elt F))⟩, ⟨S131072x24x4x1, (after ops V (main_v15 : DevRef τ sig) : (⟨S131072x24x4x1, .f32⟩ : BufTy).Contents (Elt F))⟩] concatenates_S131072x24x4x3_S131072x24x4x1_S131072x24x4x4_d3 :=
  binary_at (a := main_v13) (b := main_v15) (y := main_v16) (f := ((fun a b => concatenate S131072x24x4x4 3 [⟨S131072x24x4x3, a⟩, ⟨S131072x24x4x1, b⟩] concatenates_S131072x24x4x3_S131072x24x4x1_S131072x24x4x4_d3) : (⟨S131072x24x4x3, .f32⟩ : BufTy).Contents (Elt F) → (⟨S131072x24x4x1, .f32⟩ : BufTy).Contents (Elt F) → (⟨S131072x24x4x4, .f32⟩ : BufTy).Contents (Elt F))) (ha := dv) (hb := dv) (hy := dv) 23 (ops_lt (by decide)) rfl (nw 24) (nw 23) (nw 23)

/-- Operation 24: after the whole line the buffer of `%17` holds the block of `%16` of shape 131072×1×4×4 starting at [0, 0, 0, 0]. -/
theorem at_v17 (V : Valuation τ sig (Elt F)) :
    after ops V (main_v17 : DevRef τ sig)
      = extractStridedSlice S131072x1x4x4 ![0, 0, 0, 0] (after ops V (main_v16 : DevRef τ sig) : (⟨S131072x24x4x4, .f32⟩ : BufTy).Contents (Elt F)) slices_S131072x24x4x4_S131072x1x4x4_0_0_0_0 :=
  unary_at (x := main_v16) (y := main_v17) (f := ((extractStridedSlice S131072x1x4x4 ![0, 0, 0, 0] · slices_S131072x24x4x4_S131072x1x4x4_0_0_0_0) : (⟨S131072x24x4x4, .f32⟩ : BufTy).Contents (Elt F) → (⟨S131072x1x4x4, .f32⟩ : BufTy).Contents (Elt F))) (hx := dv) (hy := dv) 24 (ops_lt (by decide)) rfl (nw 25) (nw 24)

/-- Operation 25: after the whole line the buffer of `%18` holds `%17` recast to shape 131072×4×4, the same elements in row-major order. -/
theorem at_v18 (V : Valuation τ sig (Elt F)) :
    after ops V (main_v18 : DevRef τ sig)
      = shapeCast S131072x4x4 (after ops V (main_v17 : DevRef τ sig) : (⟨S131072x1x4x4, .f32⟩ : BufTy).Contents (Elt F)) shapeCasts_S131072x1x4x4_S131072x4x4 :=
  reshape_at (x := main_v17) (y := main_v18) (he := rfl) (hn := shapeCasts_S131072x1x4x4_S131072x4x4) (hx := dv) (hy := dv) 25 (ops_lt (by decide)) rfl (nw 26) (nw 25)

/-- Operation 26: after the whole line the buffer of `%19` holds the block of `%16` of shape 131072×1×4×4 starting at [0, 1, 0, 0]. -/
theorem at_v19 (V : Valuation τ sig (Elt F)) :
    after ops V (main_v19 : DevRef τ sig)
      = extractStridedSlice S131072x1x4x4 ![0, 1, 0, 0] (after ops V (main_v16 : DevRef τ sig) : (⟨S131072x24x4x4, .f32⟩ : BufTy).Contents (Elt F)) slices_S131072x24x4x4_S131072x1x4x4_0_1_0_0 :=
  unary_at (x := main_v16) (y := main_v19) (f := ((extractStridedSlice S131072x1x4x4 ![0, 1, 0, 0] · slices_S131072x24x4x4_S131072x1x4x4_0_1_0_0) : (⟨S131072x24x4x4, .f32⟩ : BufTy).Contents (Elt F) → (⟨S131072x1x4x4, .f32⟩ : BufTy).Contents (Elt F))) (hx := dv) (hy := dv) 26 (ops_lt (by decide)) rfl (nw 27) (nw 26)

/-- Operation 27: after the whole line the buffer of `%20` holds `%19` recast to shape 131072×4×4, the same elements in row-major order. -/
theorem at_v20 (V : Valuation τ sig (Elt F)) :
    after ops V (main_v20 : DevRef τ sig)
      = shapeCast S131072x4x4 (after ops V (main_v19 : DevRef τ sig) : (⟨S131072x1x4x4, .f32⟩ : BufTy).Contents (Elt F)) shapeCasts_S131072x1x4x4_S131072x4x4 :=
  reshape_at (x := main_v19) (y := main_v20) (he := rfl) (hn := shapeCasts_S131072x1x4x4_S131072x4x4) (hx := dv) (hy := dv) 27 (ops_lt (by decide)) rfl (nw 28) (nw 27)

/-- Operation 28: after the whole line the buffer of `%21` holds the batched matrix product `%18` · `%20`, one 4×4 product per batch element. -/
theorem at_v21 (V : Valuation τ sig (Elt F)) :
    after ops V (main_v21 : DevRef τ sig)
      = Host.dotGeneral dot_S131072x4x4_S131072x4x4_S131072x4x4_2_1_1_2_0_0 none (after ops V (main_v18 : DevRef τ sig) : (⟨S131072x4x4, .f32⟩ : BufTy).Contents (Elt F)) (after ops V (main_v20 : DevRef τ sig) : (⟨S131072x4x4, .f32⟩ : BufTy).Contents (Elt F)) :=
  binary_at (a := main_v18) (b := main_v20) (y := main_v21) (f := ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F))) (ha := dv) (hb := dv) (hy := dv) 28 (ops_lt (by decide)) rfl (nw 29) (nw 28) (nw 28)

/-- Operation 29: after the whole line the buffer of `%22` holds the block of `%16` of shape 131072×1×4×4 starting at [0, 2, 0, 0]. -/
theorem at_v22 (V : Valuation τ sig (Elt F)) :
    after ops V (main_v22 : DevRef τ sig)
      = extractStridedSlice S131072x1x4x4 ![0, 2, 0, 0] (after ops V (main_v16 : DevRef τ sig) : (⟨S131072x24x4x4, .f32⟩ : BufTy).Contents (Elt F)) slices_S131072x24x4x4_S131072x1x4x4_0_2_0_0 :=
  unary_at (x := main_v16) (y := main_v22) (f := ((extractStridedSlice S131072x1x4x4 ![0, 2, 0, 0] · slices_S131072x24x4x4_S131072x1x4x4_0_2_0_0) : (⟨S131072x24x4x4, .f32⟩ : BufTy).Contents (Elt F) → (⟨S131072x1x4x4, .f32⟩ : BufTy).Contents (Elt F))) (hx := dv) (hy := dv) 29 (ops_lt (by decide)) rfl (nw 30) (nw 29)

/-- Operation 30: after the whole line the buffer of `%23` holds `%22` recast to shape 131072×4×4, the same elements in row-major order. -/
theorem at_v23 (V : Valuation τ sig (Elt F)) :
    after ops V (main_v23 : DevRef τ sig)
      = shapeCast S131072x4x4 (after ops V (main_v22 : DevRef τ sig) : (⟨S131072x1x4x4, .f32⟩ : BufTy).Contents (Elt F)) shapeCasts_S131072x1x4x4_S131072x4x4 :=
  reshape_at (x := main_v22) (y := main_v23) (he := rfl) (hn := shapeCasts_S131072x1x4x4_S131072x4x4) (hx := dv) (hy := dv) 30 (ops_lt (by decide)) rfl (nw 31) (nw 30)

/-- Operation 31: after the whole line the buffer of `%24` holds the batched matrix product `%18` · `%23`, one 4×4 product per batch element. -/
theorem at_v24 (V : Valuation τ sig (Elt F)) :
    after ops V (main_v24 : DevRef τ sig)
      = Host.dotGeneral dot_S131072x4x4_S131072x4x4_S131072x4x4_2_1_1_2_0_0 none (after ops V (main_v18 : DevRef τ sig) : (⟨S131072x4x4, .f32⟩ : BufTy).Contents (Elt F)) (after ops V (main_v23 : DevRef τ sig) : (⟨S131072x4x4, .f32⟩ : BufTy).Contents (Elt F)) :=
  binary_at (a := main_v18) (b := main_v23) (y := main_v24) (f := ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F))) (ha := dv) (hb := dv) (hy := dv) 31 (ops_lt (by decide)) rfl (nw 32) (nw 31) (nw 31)

/-- Operation 32: after the whole line the buffer of `%25` holds the block of `%16` of shape 131072×1×4×4 starting at [0, 3, 0, 0]. -/
theorem at_v25 (V : Valuation τ sig (Elt F)) :
    after ops V (main_v25 : DevRef τ sig)
      = extractStridedSlice S131072x1x4x4 ![0, 3, 0, 0] (after ops V (main_v16 : DevRef τ sig) : (⟨S131072x24x4x4, .f32⟩ : BufTy).Contents (Elt F)) slices_S131072x24x4x4_S131072x1x4x4_0_3_0_0 :=
  unary_at (x := main_v16) (y := main_v25) (f := ((extractStridedSlice S131072x1x4x4 ![0, 3, 0, 0] · slices_S131072x24x4x4_S131072x1x4x4_0_3_0_0) : (⟨S131072x24x4x4, .f32⟩ : BufTy).Contents (Elt F) → (⟨S131072x1x4x4, .f32⟩ : BufTy).Contents (Elt F))) (hx := dv) (hy := dv) 32 (ops_lt (by decide)) rfl (nw 33) (nw 32)

/-- Operation 33: after the whole line the buffer of `%26` holds `%25` recast to shape 131072×4×4, the same elements in row-major order. -/
theorem at_v26 (V : Valuation τ sig (Elt F)) :
    after ops V (main_v26 : DevRef τ sig)
      = shapeCast S131072x4x4 (after ops V (main_v25 : DevRef τ sig) : (⟨S131072x1x4x4, .f32⟩ : BufTy).Contents (Elt F)) shapeCasts_S131072x1x4x4_S131072x4x4 :=
  reshape_at (x := main_v25) (y := main_v26) (he := rfl) (hn := shapeCasts_S131072x1x4x4_S131072x4x4) (hx := dv) (hy := dv) 33 (ops_lt (by decide)) rfl (nw 34) (nw 33)

/-- Operation 34: after the whole line the buffer of `%27` holds the batched matrix product `%18` · `%26`, one 4×4 product per batch element. -/
theorem at_v27 (V : Valuation τ sig (Elt F)) :
    after ops V (main_v27 : DevRef τ sig)
      = Host.dotGeneral dot_S131072x4x4_S131072x4x4_S131072x4x4_2_1_1_2_0_0 none (after ops V (main_v18 : DevRef τ sig) : (⟨S131072x4x4, .f32⟩ : BufTy).Contents (Elt F)) (after ops V (main_v26 : DevRef τ sig) : (⟨S131072x4x4, .f32⟩ : BufTy).Contents (Elt F)) :=
  binary_at (a := main_v18) (b := main_v26) (y := main_v27) (f := ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F))) (ha := dv) (hb := dv) (hy := dv) 34 (ops_lt (by decide)) rfl (nw 35) (nw 34) (nw 34)

/-- Operation 35: after the whole line the buffer of `%28` holds the block of `%16` of shape 131072×1×4×4 starting at [0, 4, 0, 0]. -/
theorem at_v28 (V : Valuation τ sig (Elt F)) :
    after ops V (main_v28 : DevRef τ sig)
      = extractStridedSlice S131072x1x4x4 ![0, 4, 0, 0] (after ops V (main_v16 : DevRef τ sig) : (⟨S131072x24x4x4, .f32⟩ : BufTy).Contents (Elt F)) slices_S131072x24x4x4_S131072x1x4x4_0_4_0_0 :=
  unary_at (x := main_v16) (y := main_v28) (f := ((extractStridedSlice S131072x1x4x4 ![0, 4, 0, 0] · slices_S131072x24x4x4_S131072x1x4x4_0_4_0_0) : (⟨S131072x24x4x4, .f32⟩ : BufTy).Contents (Elt F) → (⟨S131072x1x4x4, .f32⟩ : BufTy).Contents (Elt F))) (hx := dv) (hy := dv) 35 (ops_lt (by decide)) rfl (nw 36) (nw 35)

/-- Operation 36: after the whole line the buffer of `%29` holds `%28` recast to shape 131072×4×4, the same elements in row-major order. -/
theorem at_v29 (V : Valuation τ sig (Elt F)) :
    after ops V (main_v29 : DevRef τ sig)
      = shapeCast S131072x4x4 (after ops V (main_v28 : DevRef τ sig) : (⟨S131072x1x4x4, .f32⟩ : BufTy).Contents (Elt F)) shapeCasts_S131072x1x4x4_S131072x4x4 :=
  reshape_at (x := main_v28) (y := main_v29) (he := rfl) (hn := shapeCasts_S131072x1x4x4_S131072x4x4) (hx := dv) (hy := dv) 36 (ops_lt (by decide)) rfl (nw 37) (nw 36)

/-- Operation 37: after the whole line the buffer of `%30` holds the batched matrix product `%21` · `%29`, one 4×4 product per batch element. -/
theorem at_v30 (V : Valuation τ sig (Elt F)) :
    after ops V (main_v30 : DevRef τ sig)
      = Host.dotGeneral dot_S131072x4x4_S131072x4x4_S131072x4x4_2_1_1_2_0_0 none (after ops V (main_v21 : DevRef τ sig) : (⟨S131072x4x4, .f32⟩ : BufTy).Contents (Elt F)) (after ops V (main_v29 : DevRef τ sig) : (⟨S131072x4x4, .f32⟩ : BufTy).Contents (Elt F)) :=
  binary_at (a := main_v21) (b := main_v29) (y := main_v30) (f := ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F))) (ha := dv) (hb := dv) (hy := dv) 37 (ops_lt (by decide)) rfl (nw 38) (nw 37) (nw 37)

/-- Operation 38: after the whole line the buffer of `%31` holds the block of `%16` of shape 131072×1×4×4 starting at [0, 5, 0, 0]. -/
theorem at_v31 (V : Valuation τ sig (Elt F)) :
    after ops V (main_v31 : DevRef τ sig)
      = extractStridedSlice S131072x1x4x4 ![0, 5, 0, 0] (after ops V (main_v16 : DevRef τ sig) : (⟨S131072x24x4x4, .f32⟩ : BufTy).Contents (Elt F)) slices_S131072x24x4x4_S131072x1x4x4_0_5_0_0 :=
  unary_at (x := main_v16) (y := main_v31) (f := ((extractStridedSlice S131072x1x4x4 ![0, 5, 0, 0] · slices_S131072x24x4x4_S131072x1x4x4_0_5_0_0) : (⟨S131072x24x4x4, .f32⟩ : BufTy).Contents (Elt F) → (⟨S131072x1x4x4, .f32⟩ : BufTy).Contents (Elt F))) (hx := dv) (hy := dv) 38 (ops_lt (by decide)) rfl (nw 39) (nw 38)

/-- Operation 39: after the whole line the buffer of `%32` holds `%31` recast to shape 131072×4×4, the same elements in row-major order. -/
theorem at_v32 (V : Valuation τ sig (Elt F)) :
    after ops V (main_v32 : DevRef τ sig)
      = shapeCast S131072x4x4 (after ops V (main_v31 : DevRef τ sig) : (⟨S131072x1x4x4, .f32⟩ : BufTy).Contents (Elt F)) shapeCasts_S131072x1x4x4_S131072x4x4 :=
  reshape_at (x := main_v31) (y := main_v32) (he := rfl) (hn := shapeCasts_S131072x1x4x4_S131072x4x4) (hx := dv) (hy := dv) 39 (ops_lt (by decide)) rfl (nw 40) (nw 39)

/-- Operation 40: after the whole line the buffer of `%33` holds the batched matrix product `%24` · `%32`, one 4×4 product per batch element. -/
theorem at_v33 (V : Valuation τ sig (Elt F)) :
    after ops V (main_v33 : DevRef τ sig)
      = Host.dotGeneral dot_S131072x4x4_S131072x4x4_S131072x4x4_2_1_1_2_0_0 none (after ops V (main_v24 : DevRef τ sig) : (⟨S131072x4x4, .f32⟩ : BufTy).Contents (Elt F)) (after ops V (main_v32 : DevRef τ sig) : (⟨S131072x4x4, .f32⟩ : BufTy).Contents (Elt F)) :=
  binary_at (a := main_v24) (b := main_v32) (y := main_v33) (f := ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F))) (ha := dv) (hb := dv) (hy := dv) 40 (ops_lt (by decide)) rfl (nw 41) (nw 40) (nw 40)

/-- Operation 41: after the whole line the buffer of `%34` holds the block of `%16` of shape 131072×1×4×4 starting at [0, 6, 0, 0]. -/
theorem at_v34 (V : Valuation τ sig (Elt F)) :
    after ops V (main_v34 : DevRef τ sig)
      = extractStridedSlice S131072x1x4x4 ![0, 6, 0, 0] (after ops V (main_v16 : DevRef τ sig) : (⟨S131072x24x4x4, .f32⟩ : BufTy).Contents (Elt F)) slices_S131072x24x4x4_S131072x1x4x4_0_6_0_0 :=
  unary_at (x := main_v16) (y := main_v34) (f := ((extractStridedSlice S131072x1x4x4 ![0, 6, 0, 0] · slices_S131072x24x4x4_S131072x1x4x4_0_6_0_0) : (⟨S131072x24x4x4, .f32⟩ : BufTy).Contents (Elt F) → (⟨S131072x1x4x4, .f32⟩ : BufTy).Contents (Elt F))) (hx := dv) (hy := dv) 41 (ops_lt (by decide)) rfl (nw 42) (nw 41)

/-- Operation 42: after the whole line the buffer of `%35` holds `%34` recast to shape 131072×4×4, the same elements in row-major order. -/
theorem at_v35 (V : Valuation τ sig (Elt F)) :
    after ops V (main_v35 : DevRef τ sig)
      = shapeCast S131072x4x4 (after ops V (main_v34 : DevRef τ sig) : (⟨S131072x1x4x4, .f32⟩ : BufTy).Contents (Elt F)) shapeCasts_S131072x1x4x4_S131072x4x4 :=
  reshape_at (x := main_v34) (y := main_v35) (he := rfl) (hn := shapeCasts_S131072x1x4x4_S131072x4x4) (hx := dv) (hy := dv) 42 (ops_lt (by decide)) rfl (nw 43) (nw 42)

/-- Operation 43: after the whole line the buffer of `%36` holds the batched matrix product `%27` · `%35`, one 4×4 product per batch element. -/
theorem at_v36 (V : Valuation τ sig (Elt F)) :
    after ops V (main_v36 : DevRef τ sig)
      = Host.dotGeneral dot_S131072x4x4_S131072x4x4_S131072x4x4_2_1_1_2_0_0 none (after ops V (main_v27 : DevRef τ sig) : (⟨S131072x4x4, .f32⟩ : BufTy).Contents (Elt F)) (after ops V (main_v35 : DevRef τ sig) : (⟨S131072x4x4, .f32⟩ : BufTy).Contents (Elt F)) :=
  binary_at (a := main_v27) (b := main_v35) (y := main_v36) (f := ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F))) (ha := dv) (hb := dv) (hy := dv) 43 (ops_lt (by decide)) rfl (nw 44) (nw 43) (nw 43)

/-- Operation 44: after the whole line the buffer of `%37` holds the block of `%16` of shape 131072×1×4×4 starting at [0, 7, 0, 0]. -/
theorem at_v37 (V : Valuation τ sig (Elt F)) :
    after ops V (main_v37 : DevRef τ sig)
      = extractStridedSlice S131072x1x4x4 ![0, 7, 0, 0] (after ops V (main_v16 : DevRef τ sig) : (⟨S131072x24x4x4, .f32⟩ : BufTy).Contents (Elt F)) slices_S131072x24x4x4_S131072x1x4x4_0_7_0_0 :=
  unary_at (x := main_v16) (y := main_v37) (f := ((extractStridedSlice S131072x1x4x4 ![0, 7, 0, 0] · slices_S131072x24x4x4_S131072x1x4x4_0_7_0_0) : (⟨S131072x24x4x4, .f32⟩ : BufTy).Contents (Elt F) → (⟨S131072x1x4x4, .f32⟩ : BufTy).Contents (Elt F))) (hx := dv) (hy := dv) 44 (ops_lt (by decide)) rfl (nw 45) (nw 44)

/-- Operation 45: after the whole line the buffer of `%38` holds `%37` recast to shape 131072×4×4, the same elements in row-major order. -/
theorem at_v38 (V : Valuation τ sig (Elt F)) :
    after ops V (main_v38 : DevRef τ sig)
      = shapeCast S131072x4x4 (after ops V (main_v37 : DevRef τ sig) : (⟨S131072x1x4x4, .f32⟩ : BufTy).Contents (Elt F)) shapeCasts_S131072x1x4x4_S131072x4x4 :=
  reshape_at (x := main_v37) (y := main_v38) (he := rfl) (hn := shapeCasts_S131072x1x4x4_S131072x4x4) (hx := dv) (hy := dv) 45 (ops_lt (by decide)) rfl (nw 46) (nw 45)

/-- Operation 46: after the whole line the buffer of `%39` holds the batched matrix product `%30` · `%38`, one 4×4 product per batch element. -/
theorem at_v39 (V : Valuation τ sig (Elt F)) :
    after ops V (main_v39 : DevRef τ sig)
      = Host.dotGeneral dot_S131072x4x4_S131072x4x4_S131072x4x4_2_1_1_2_0_0 none (after ops V (main_v30 : DevRef τ sig) : (⟨S131072x4x4, .f32⟩ : BufTy).Contents (Elt F)) (after ops V (main_v38 : DevRef τ sig) : (⟨S131072x4x4, .f32⟩ : BufTy).Contents (Elt F)) :=
  binary_at (a := main_v30) (b := main_v38) (y := main_v39) (f := ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F))) (ha := dv) (hb := dv) (hy := dv) 46 (ops_lt (by decide)) rfl (nw 47) (nw 46) (nw 46)

/-- Operation 47: after the whole line the buffer of `%40` holds the block of `%16` of shape 131072×1×4×4 starting at [0, 8, 0, 0]. -/
theorem at_v40 (V : Valuation τ sig (Elt F)) :
    after ops V (main_v40 : DevRef τ sig)
      = extractStridedSlice S131072x1x4x4 ![0, 8, 0, 0] (after ops V (main_v16 : DevRef τ sig) : (⟨S131072x24x4x4, .f32⟩ : BufTy).Contents (Elt F)) slices_S131072x24x4x4_S131072x1x4x4_0_8_0_0 :=
  unary_at (x := main_v16) (y := main_v40) (f := ((extractStridedSlice S131072x1x4x4 ![0, 8, 0, 0] · slices_S131072x24x4x4_S131072x1x4x4_0_8_0_0) : (⟨S131072x24x4x4, .f32⟩ : BufTy).Contents (Elt F) → (⟨S131072x1x4x4, .f32⟩ : BufTy).Contents (Elt F))) (hx := dv) (hy := dv) 47 (ops_lt (by decide)) rfl (nw 48) (nw 47)

/-- Operation 48: after the whole line the buffer of `%41` holds `%40` recast to shape 131072×4×4, the same elements in row-major order. -/
theorem at_v41 (V : Valuation τ sig (Elt F)) :
    after ops V (main_v41 : DevRef τ sig)
      = shapeCast S131072x4x4 (after ops V (main_v40 : DevRef τ sig) : (⟨S131072x1x4x4, .f32⟩ : BufTy).Contents (Elt F)) shapeCasts_S131072x1x4x4_S131072x4x4 :=
  reshape_at (x := main_v40) (y := main_v41) (he := rfl) (hn := shapeCasts_S131072x1x4x4_S131072x4x4) (hx := dv) (hy := dv) 48 (ops_lt (by decide)) rfl (nw 49) (nw 48)

/-- Operation 49: after the whole line the buffer of `%42` holds the batched matrix product `%33` · `%41`, one 4×4 product per batch element. -/
theorem at_v42 (V : Valuation τ sig (Elt F)) :
    after ops V (main_v42 : DevRef τ sig)
      = Host.dotGeneral dot_S131072x4x4_S131072x4x4_S131072x4x4_2_1_1_2_0_0 none (after ops V (main_v33 : DevRef τ sig) : (⟨S131072x4x4, .f32⟩ : BufTy).Contents (Elt F)) (after ops V (main_v41 : DevRef τ sig) : (⟨S131072x4x4, .f32⟩ : BufTy).Contents (Elt F)) :=
  binary_at (a := main_v33) (b := main_v41) (y := main_v42) (f := ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F))) (ha := dv) (hb := dv) (hy := dv) 49 (ops_lt (by decide)) rfl (nw 50) (nw 49) (nw 49)

/-- Operation 50: after the whole line the buffer of `%43` holds the block of `%16` of shape 131072×1×4×4 starting at [0, 9, 0, 0]. -/
theorem at_v43 (V : Valuation τ sig (Elt F)) :
    after ops V (main_v43 : DevRef τ sig)
      = extractStridedSlice S131072x1x4x4 ![0, 9, 0, 0] (after ops V (main_v16 : DevRef τ sig) : (⟨S131072x24x4x4, .f32⟩ : BufTy).Contents (Elt F)) slices_S131072x24x4x4_S131072x1x4x4_0_9_0_0 :=
  unary_at (x := main_v16) (y := main_v43) (f := ((extractStridedSlice S131072x1x4x4 ![0, 9, 0, 0] · slices_S131072x24x4x4_S131072x1x4x4_0_9_0_0) : (⟨S131072x24x4x4, .f32⟩ : BufTy).Contents (Elt F) → (⟨S131072x1x4x4, .f32⟩ : BufTy).Contents (Elt F))) (hx := dv) (hy := dv) 50 (ops_lt (by decide)) rfl (nw 51) (nw 50)

/-- Operation 51: after the whole line the buffer of `%44` holds `%43` recast to shape 131072×4×4, the same elements in row-major order. -/
theorem at_v44 (V : Valuation τ sig (Elt F)) :
    after ops V (main_v44 : DevRef τ sig)
      = shapeCast S131072x4x4 (after ops V (main_v43 : DevRef τ sig) : (⟨S131072x1x4x4, .f32⟩ : BufTy).Contents (Elt F)) shapeCasts_S131072x1x4x4_S131072x4x4 :=
  reshape_at (x := main_v43) (y := main_v44) (he := rfl) (hn := shapeCasts_S131072x1x4x4_S131072x4x4) (hx := dv) (hy := dv) 51 (ops_lt (by decide)) rfl (nw 52) (nw 51)

/-- Operation 52: after the whole line the buffer of `%45` holds the batched matrix product `%36` · `%44`, one 4×4 product per batch element. -/
theorem at_v45 (V : Valuation τ sig (Elt F)) :
    after ops V (main_v45 : DevRef τ sig)
      = Host.dotGeneral dot_S131072x4x4_S131072x4x4_S131072x4x4_2_1_1_2_0_0 none (after ops V (main_v36 : DevRef τ sig) : (⟨S131072x4x4, .f32⟩ : BufTy).Contents (Elt F)) (after ops V (main_v44 : DevRef τ sig) : (⟨S131072x4x4, .f32⟩ : BufTy).Contents (Elt F)) :=
  binary_at (a := main_v36) (b := main_v44) (y := main_v45) (f := ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F))) (ha := dv) (hb := dv) (hy := dv) 52 (ops_lt (by decide)) rfl (nw 53) (nw 52) (nw 52)

/-- Operation 53: after the whole line the buffer of `%46` holds the block of `%16` of shape 131072×1×4×4 starting at [0, 10, 0, 0]. -/
theorem at_v46 (V : Valuation τ sig (Elt F)) :
    after ops V (main_v46 : DevRef τ sig)
      = extractStridedSlice S131072x1x4x4 ![0, 10, 0, 0] (after ops V (main_v16 : DevRef τ sig) : (⟨S131072x24x4x4, .f32⟩ : BufTy).Contents (Elt F)) slices_S131072x24x4x4_S131072x1x4x4_0_10_0_0 :=
  unary_at (x := main_v16) (y := main_v46) (f := ((extractStridedSlice S131072x1x4x4 ![0, 10, 0, 0] · slices_S131072x24x4x4_S131072x1x4x4_0_10_0_0) : (⟨S131072x24x4x4, .f32⟩ : BufTy).Contents (Elt F) → (⟨S131072x1x4x4, .f32⟩ : BufTy).Contents (Elt F))) (hx := dv) (hy := dv) 53 (ops_lt (by decide)) rfl (nw 54) (nw 53)

/-- Operation 54: after the whole line the buffer of `%47` holds `%46` recast to shape 131072×4×4, the same elements in row-major order. -/
theorem at_v47 (V : Valuation τ sig (Elt F)) :
    after ops V (main_v47 : DevRef τ sig)
      = shapeCast S131072x4x4 (after ops V (main_v46 : DevRef τ sig) : (⟨S131072x1x4x4, .f32⟩ : BufTy).Contents (Elt F)) shapeCasts_S131072x1x4x4_S131072x4x4 :=
  reshape_at (x := main_v46) (y := main_v47) (he := rfl) (hn := shapeCasts_S131072x1x4x4_S131072x4x4) (hx := dv) (hy := dv) 54 (ops_lt (by decide)) rfl (nw 55) (nw 54)

/-- Operation 55: after the whole line the buffer of `%48` holds the batched matrix product `%39` · `%47`, one 4×4 product per batch element. -/
theorem at_v48 (V : Valuation τ sig (Elt F)) :
    after ops V (main_v48 : DevRef τ sig)
      = Host.dotGeneral dot_S131072x4x4_S131072x4x4_S131072x4x4_2_1_1_2_0_0 none (after ops V (main_v39 : DevRef τ sig) : (⟨S131072x4x4, .f32⟩ : BufTy).Contents (Elt F)) (after ops V (main_v47 : DevRef τ sig) : (⟨S131072x4x4, .f32⟩ : BufTy).Contents (Elt F)) :=
  binary_at (a := main_v39) (b := main_v47) (y := main_v48) (f := ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F))) (ha := dv) (hb := dv) (hy := dv) 55 (ops_lt (by decide)) rfl (nw 56) (nw 55) (nw 55)

/-- Operation 56: after the whole line the buffer of `%49` holds the block of `%16` of shape 131072×1×4×4 starting at [0, 11, 0, 0]. -/
theorem at_v49 (V : Valuation τ sig (Elt F)) :
    after ops V (main_v49 : DevRef τ sig)
      = extractStridedSlice S131072x1x4x4 ![0, 11, 0, 0] (after ops V (main_v16 : DevRef τ sig) : (⟨S131072x24x4x4, .f32⟩ : BufTy).Contents (Elt F)) slices_S131072x24x4x4_S131072x1x4x4_0_11_0_0 :=
  unary_at (x := main_v16) (y := main_v49) (f := ((extractStridedSlice S131072x1x4x4 ![0, 11, 0, 0] · slices_S131072x24x4x4_S131072x1x4x4_0_11_0_0) : (⟨S131072x24x4x4, .f32⟩ : BufTy).Contents (Elt F) → (⟨S131072x1x4x4, .f32⟩ : BufTy).Contents (Elt F))) (hx := dv) (hy := dv) 56 (ops_lt (by decide)) rfl (nw 57) (nw 56)

/-- Operation 57: after the whole line the buffer of `%50` holds `%49` recast to shape 131072×4×4, the same elements in row-major order. -/
theorem at_v50 (V : Valuation τ sig (Elt F)) :
    after ops V (main_v50 : DevRef τ sig)
      = shapeCast S131072x4x4 (after ops V (main_v49 : DevRef τ sig) : (⟨S131072x1x4x4, .f32⟩ : BufTy).Contents (Elt F)) shapeCasts_S131072x1x4x4_S131072x4x4 :=
  reshape_at (x := main_v49) (y := main_v50) (he := rfl) (hn := shapeCasts_S131072x1x4x4_S131072x4x4) (hx := dv) (hy := dv) 57 (ops_lt (by decide)) rfl (nw 58) (nw 57)

/-- Operation 58: after the whole line the buffer of `%51` holds the batched matrix product `%42` · `%50`, one 4×4 product per batch element. -/
theorem at_v51 (V : Valuation τ sig (Elt F)) :
    after ops V (main_v51 : DevRef τ sig)
      = Host.dotGeneral dot_S131072x4x4_S131072x4x4_S131072x4x4_2_1_1_2_0_0 none (after ops V (main_v42 : DevRef τ sig) : (⟨S131072x4x4, .f32⟩ : BufTy).Contents (Elt F)) (after ops V (main_v50 : DevRef τ sig) : (⟨S131072x4x4, .f32⟩ : BufTy).Contents (Elt F)) :=
  binary_at (a := main_v42) (b := main_v50) (y := main_v51) (f := ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F))) (ha := dv) (hb := dv) (hy := dv) 58 (ops_lt (by decide)) rfl (nw 59) (nw 58) (nw 58)

/-- Operation 59: after the whole line the buffer of `%52` holds the block of `%16` of shape 131072×1×4×4 starting at [0, 12, 0, 0]. -/
theorem at_v52 (V : Valuation τ sig (Elt F)) :
    after ops V (main_v52 : DevRef τ sig)
      = extractStridedSlice S131072x1x4x4 ![0, 12, 0, 0] (after ops V (main_v16 : DevRef τ sig) : (⟨S131072x24x4x4, .f32⟩ : BufTy).Contents (Elt F)) slices_S131072x24x4x4_S131072x1x4x4_0_12_0_0 :=
  unary_at (x := main_v16) (y := main_v52) (f := ((extractStridedSlice S131072x1x4x4 ![0, 12, 0, 0] · slices_S131072x24x4x4_S131072x1x4x4_0_12_0_0) : (⟨S131072x24x4x4, .f32⟩ : BufTy).Contents (Elt F) → (⟨S131072x1x4x4, .f32⟩ : BufTy).Contents (Elt F))) (hx := dv) (hy := dv) 59 (ops_lt (by decide)) rfl (nw 60) (nw 59)

/-- Operation 60: after the whole line the buffer of `%53` holds `%52` recast to shape 131072×4×4, the same elements in row-major order. -/
theorem at_v53 (V : Valuation τ sig (Elt F)) :
    after ops V (main_v53 : DevRef τ sig)
      = shapeCast S131072x4x4 (after ops V (main_v52 : DevRef τ sig) : (⟨S131072x1x4x4, .f32⟩ : BufTy).Contents (Elt F)) shapeCasts_S131072x1x4x4_S131072x4x4 :=
  reshape_at (x := main_v52) (y := main_v53) (he := rfl) (hn := shapeCasts_S131072x1x4x4_S131072x4x4) (hx := dv) (hy := dv) 60 (ops_lt (by decide)) rfl (nw 61) (nw 60)

/-- Operation 61: after the whole line the buffer of `%54` holds the batched matrix product `%45` · `%53`, one 4×4 product per batch element. -/
theorem at_v54 (V : Valuation τ sig (Elt F)) :
    after ops V (main_v54 : DevRef τ sig)
      = Host.dotGeneral dot_S131072x4x4_S131072x4x4_S131072x4x4_2_1_1_2_0_0 none (after ops V (main_v45 : DevRef τ sig) : (⟨S131072x4x4, .f32⟩ : BufTy).Contents (Elt F)) (after ops V (main_v53 : DevRef τ sig) : (⟨S131072x4x4, .f32⟩ : BufTy).Contents (Elt F)) :=
  binary_at (a := main_v45) (b := main_v53) (y := main_v54) (f := ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F))) (ha := dv) (hb := dv) (hy := dv) 61 (ops_lt (by decide)) rfl (nw 62) (nw 61) (nw 61)

/-- Operation 62: after the whole line the buffer of `%55` holds the block of `%16` of shape 131072×1×4×4 starting at [0, 13, 0, 0]. -/
theorem at_v55 (V : Valuation τ sig (Elt F)) :
    after ops V (main_v55 : DevRef τ sig)
      = extractStridedSlice S131072x1x4x4 ![0, 13, 0, 0] (after ops V (main_v16 : DevRef τ sig) : (⟨S131072x24x4x4, .f32⟩ : BufTy).Contents (Elt F)) slices_S131072x24x4x4_S131072x1x4x4_0_13_0_0 :=
  unary_at (x := main_v16) (y := main_v55) (f := ((extractStridedSlice S131072x1x4x4 ![0, 13, 0, 0] · slices_S131072x24x4x4_S131072x1x4x4_0_13_0_0) : (⟨S131072x24x4x4, .f32⟩ : BufTy).Contents (Elt F) → (⟨S131072x1x4x4, .f32⟩ : BufTy).Contents (Elt F))) (hx := dv) (hy := dv) 62 (ops_lt (by decide)) rfl (nw 63) (nw 62)

/-- Operation 63: after the whole line the buffer of `%56` holds `%55` recast to shape 131072×4×4, the same elements in row-major order. -/
theorem at_v56 (V : Valuation τ sig (Elt F)) :
    after ops V (main_v56 : DevRef τ sig)
      = shapeCast S131072x4x4 (after ops V (main_v55 : DevRef τ sig) : (⟨S131072x1x4x4, .f32⟩ : BufTy).Contents (Elt F)) shapeCasts_S131072x1x4x4_S131072x4x4 :=
  reshape_at (x := main_v55) (y := main_v56) (he := rfl) (hn := shapeCasts_S131072x1x4x4_S131072x4x4) (hx := dv) (hy := dv) 63 (ops_lt (by decide)) rfl (nw 64) (nw 63)

/-- Operation 64: after the whole line the buffer of `%57` holds the batched matrix product `%45` · `%56`, one 4×4 product per batch element. -/
theorem at_v57 (V : Valuation τ sig (Elt F)) :
    after ops V (main_v57 : DevRef τ sig)
      = Host.dotGeneral dot_S131072x4x4_S131072x4x4_S131072x4x4_2_1_1_2_0_0 none (after ops V (main_v45 : DevRef τ sig) : (⟨S131072x4x4, .f32⟩ : BufTy).Contents (Elt F)) (after ops V (main_v56 : DevRef τ sig) : (⟨S131072x4x4, .f32⟩ : BufTy).Contents (Elt F)) :=
  binary_at (a := main_v45) (b := main_v56) (y := main_v57) (f := ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F))) (ha := dv) (hb := dv) (hy := dv) 64 (ops_lt (by decide)) rfl (nw 65) (nw 64) (nw 64)

/-- Operation 65: after the whole line the buffer of `%58` holds the block of `%16` of shape 131072×1×4×4 starting at [0, 14, 0, 0]. -/
theorem at_v58 (V : Valuation τ sig (Elt F)) :
    after ops V (main_v58 : DevRef τ sig)
      = extractStridedSlice S131072x1x4x4 ![0, 14, 0, 0] (after ops V (main_v16 : DevRef τ sig) : (⟨S131072x24x4x4, .f32⟩ : BufTy).Contents (Elt F)) slices_S131072x24x4x4_S131072x1x4x4_0_14_0_0 :=
  unary_at (x := main_v16) (y := main_v58) (f := ((extractStridedSlice S131072x1x4x4 ![0, 14, 0, 0] · slices_S131072x24x4x4_S131072x1x4x4_0_14_0_0) : (⟨S131072x24x4x4, .f32⟩ : BufTy).Contents (Elt F) → (⟨S131072x1x4x4, .f32⟩ : BufTy).Contents (Elt F))) (hx := dv) (hy := dv) 65 (ops_lt (by decide)) rfl (nw 66) (nw 65)

/-- Operation 66: after the whole line the buffer of `%59` holds `%58` recast to shape 131072×4×4, the same elements in row-major order. -/
theorem at_v59 (V : Valuation τ sig (Elt F)) :
    after ops V (main_v59 : DevRef τ sig)
      = shapeCast S131072x4x4 (after ops V (main_v58 : DevRef τ sig) : (⟨S131072x1x4x4, .f32⟩ : BufTy).Contents (Elt F)) shapeCasts_S131072x1x4x4_S131072x4x4 :=
  reshape_at (x := main_v58) (y := main_v59) (he := rfl) (hn := shapeCasts_S131072x1x4x4_S131072x4x4) (hx := dv) (hy := dv) 66 (ops_lt (by decide)) rfl (nw 67) (nw 66)

/-- Operation 67: after the whole line the buffer of `%60` holds the batched matrix product `%45` · `%59`, one 4×4 product per batch element. -/
theorem at_v60 (V : Valuation τ sig (Elt F)) :
    after ops V (main_v60 : DevRef τ sig)
      = Host.dotGeneral dot_S131072x4x4_S131072x4x4_S131072x4x4_2_1_1_2_0_0 none (after ops V (main_v45 : DevRef τ sig) : (⟨S131072x4x4, .f32⟩ : BufTy).Contents (Elt F)) (after ops V (main_v59 : DevRef τ sig) : (⟨S131072x4x4, .f32⟩ : BufTy).Contents (Elt F)) :=
  binary_at (a := main_v45) (b := main_v59) (y := main_v60) (f := ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F))) (ha := dv) (hb := dv) (hy := dv) 67 (ops_lt (by decide)) rfl (nw 68) (nw 67) (nw 67)

/-- Operation 68: after the whole line the buffer of `%61` holds the block of `%16` of shape 131072×1×4×4 starting at [0, 15, 0, 0]. -/
theorem at_v61 (V : Valuation τ sig (Elt F)) :
    after ops V (main_v61 : DevRef τ sig)
      = extractStridedSlice S131072x1x4x4 ![0, 15, 0, 0] (after ops V (main_v16 : DevRef τ sig) : (⟨S131072x24x4x4, .f32⟩ : BufTy).Contents (Elt F)) slices_S131072x24x4x4_S131072x1x4x4_0_15_0_0 :=
  unary_at (x := main_v16) (y := main_v61) (f := ((extractStridedSlice S131072x1x4x4 ![0, 15, 0, 0] · slices_S131072x24x4x4_S131072x1x4x4_0_15_0_0) : (⟨S131072x24x4x4, .f32⟩ : BufTy).Contents (Elt F) → (⟨S131072x1x4x4, .f32⟩ : BufTy).Contents (Elt F))) (hx := dv) (hy := dv) 68 (ops_lt (by decide)) rfl (nw 69) (nw 68)

/-- Operation 69: after the whole line the buffer of `%62` holds `%61` recast to shape 131072×4×4, the same elements in row-major order. -/
theorem at_v62 (V : Valuation τ sig (Elt F)) :
    after ops V (main_v62 : DevRef τ sig)
      = shapeCast S131072x4x4 (after ops V (main_v61 : DevRef τ sig) : (⟨S131072x1x4x4, .f32⟩ : BufTy).Contents (Elt F)) shapeCasts_S131072x1x4x4_S131072x4x4 :=
  reshape_at (x := main_v61) (y := main_v62) (he := rfl) (hn := shapeCasts_S131072x1x4x4_S131072x4x4) (hx := dv) (hy := dv) 69 (ops_lt (by decide)) rfl (nw 70) (nw 69)

/-- Operation 70: after the whole line the buffer of `%63` holds the batched matrix product `%54` · `%62`, one 4×4 product per batch element. -/
theorem at_v63 (V : Valuation τ sig (Elt F)) :
    after ops V (main_v63 : DevRef τ sig)
      = Host.dotGeneral dot_S131072x4x4_S131072x4x4_S131072x4x4_2_1_1_2_0_0 none (after ops V (main_v54 : DevRef τ sig) : (⟨S131072x4x4, .f32⟩ : BufTy).Contents (Elt F)) (after ops V (main_v62 : DevRef τ sig) : (⟨S131072x4x4, .f32⟩ : BufTy).Contents (Elt F)) :=
  binary_at (a := main_v54) (b := main_v62) (y := main_v63) (f := ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F))) (ha := dv) (hb := dv) (hy := dv) 70 (ops_lt (by decide)) rfl (nw 71) (nw 70) (nw 70)

/-- Operation 71: after the whole line the buffer of `%64` holds the block of `%16` of shape 131072×1×4×4 starting at [0, 16, 0, 0]. -/
theorem at_v64 (V : Valuation τ sig (Elt F)) :
    after ops V (main_v64 : DevRef τ sig)
      = extractStridedSlice S131072x1x4x4 ![0, 16, 0, 0] (after ops V (main_v16 : DevRef τ sig) : (⟨S131072x24x4x4, .f32⟩ : BufTy).Contents (Elt F)) slices_S131072x24x4x4_S131072x1x4x4_0_16_0_0 :=
  unary_at (x := main_v16) (y := main_v64) (f := ((extractStridedSlice S131072x1x4x4 ![0, 16, 0, 0] · slices_S131072x24x4x4_S131072x1x4x4_0_16_0_0) : (⟨S131072x24x4x4, .f32⟩ : BufTy).Contents (Elt F) → (⟨S131072x1x4x4, .f32⟩ : BufTy).Contents (Elt F))) (hx := dv) (hy := dv) 71 (ops_lt (by decide)) rfl (nw 72) (nw 71)

/-- Operation 72: after the whole line the buffer of `%65` holds `%64` recast to shape 131072×4×4, the same elements in row-major order. -/
theorem at_v65 (V : Valuation τ sig (Elt F)) :
    after ops V (main_v65 : DevRef τ sig)
      = shapeCast S131072x4x4 (after ops V (main_v64 : DevRef τ sig) : (⟨S131072x1x4x4, .f32⟩ : BufTy).Contents (Elt F)) shapeCasts_S131072x1x4x4_S131072x4x4 :=
  reshape_at (x := main_v64) (y := main_v65) (he := rfl) (hn := shapeCasts_S131072x1x4x4_S131072x4x4) (hx := dv) (hy := dv) 72 (ops_lt (by decide)) rfl (nw 73) (nw 72)

/-- Operation 73: after the whole line the buffer of `%66` holds the batched matrix product `%57` · `%65`, one 4×4 product per batch element. -/
theorem at_v66 (V : Valuation τ sig (Elt F)) :
    after ops V (main_v66 : DevRef τ sig)
      = Host.dotGeneral dot_S131072x4x4_S131072x4x4_S131072x4x4_2_1_1_2_0_0 none (after ops V (main_v57 : DevRef τ sig) : (⟨S131072x4x4, .f32⟩ : BufTy).Contents (Elt F)) (after ops V (main_v65 : DevRef τ sig) : (⟨S131072x4x4, .f32⟩ : BufTy).Contents (Elt F)) :=
  binary_at (a := main_v57) (b := main_v65) (y := main_v66) (f := ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F))) (ha := dv) (hb := dv) (hy := dv) 73 (ops_lt (by decide)) rfl (nw 74) (nw 73) (nw 73)

/-- Operation 74: after the whole line the buffer of `%67` holds the block of `%16` of shape 131072×1×4×4 starting at [0, 17, 0, 0]. -/
theorem at_v67 (V : Valuation τ sig (Elt F)) :
    after ops V (main_v67 : DevRef τ sig)
      = extractStridedSlice S131072x1x4x4 ![0, 17, 0, 0] (after ops V (main_v16 : DevRef τ sig) : (⟨S131072x24x4x4, .f32⟩ : BufTy).Contents (Elt F)) slices_S131072x24x4x4_S131072x1x4x4_0_17_0_0 :=
  unary_at (x := main_v16) (y := main_v67) (f := ((extractStridedSlice S131072x1x4x4 ![0, 17, 0, 0] · slices_S131072x24x4x4_S131072x1x4x4_0_17_0_0) : (⟨S131072x24x4x4, .f32⟩ : BufTy).Contents (Elt F) → (⟨S131072x1x4x4, .f32⟩ : BufTy).Contents (Elt F))) (hx := dv) (hy := dv) 74 (ops_lt (by decide)) rfl (nw 75) (nw 74)

/-- Operation 75: after the whole line the buffer of `%68` holds `%67` recast to shape 131072×4×4, the same elements in row-major order. -/
theorem at_v68 (V : Valuation τ sig (Elt F)) :
    after ops V (main_v68 : DevRef τ sig)
      = shapeCast S131072x4x4 (after ops V (main_v67 : DevRef τ sig) : (⟨S131072x1x4x4, .f32⟩ : BufTy).Contents (Elt F)) shapeCasts_S131072x1x4x4_S131072x4x4 :=
  reshape_at (x := main_v67) (y := main_v68) (he := rfl) (hn := shapeCasts_S131072x1x4x4_S131072x4x4) (hx := dv) (hy := dv) 75 (ops_lt (by decide)) rfl (nw 76) (nw 75)

/-- Operation 76: after the whole line the buffer of `%69` holds the batched matrix product `%60` · `%68`, one 4×4 product per batch element. -/
theorem at_v69 (V : Valuation τ sig (Elt F)) :
    after ops V (main_v69 : DevRef τ sig)
      = Host.dotGeneral dot_S131072x4x4_S131072x4x4_S131072x4x4_2_1_1_2_0_0 none (after ops V (main_v60 : DevRef τ sig) : (⟨S131072x4x4, .f32⟩ : BufTy).Contents (Elt F)) (after ops V (main_v68 : DevRef τ sig) : (⟨S131072x4x4, .f32⟩ : BufTy).Contents (Elt F)) :=
  binary_at (a := main_v60) (b := main_v68) (y := main_v69) (f := ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F))) (ha := dv) (hb := dv) (hy := dv) 76 (ops_lt (by decide)) rfl (nw 77) (nw 76) (nw 76)

/-- Operation 77: after the whole line the buffer of `%70` holds the block of `%16` of shape 131072×1×4×4 starting at [0, 18, 0, 0]. -/
theorem at_v70 (V : Valuation τ sig (Elt F)) :
    after ops V (main_v70 : DevRef τ sig)
      = extractStridedSlice S131072x1x4x4 ![0, 18, 0, 0] (after ops V (main_v16 : DevRef τ sig) : (⟨S131072x24x4x4, .f32⟩ : BufTy).Contents (Elt F)) slices_S131072x24x4x4_S131072x1x4x4_0_18_0_0 :=
  unary_at (x := main_v16) (y := main_v70) (f := ((extractStridedSlice S131072x1x4x4 ![0, 18, 0, 0] · slices_S131072x24x4x4_S131072x1x4x4_0_18_0_0) : (⟨S131072x24x4x4, .f32⟩ : BufTy).Contents (Elt F) → (⟨S131072x1x4x4, .f32⟩ : BufTy).Contents (Elt F))) (hx := dv) (hy := dv) 77 (ops_lt (by decide)) rfl (nw 78) (nw 77)

/-- Operation 78: after the whole line the buffer of `%71` holds `%70` recast to shape 131072×4×4, the same elements in row-major order. -/
theorem at_v71 (V : Valuation τ sig (Elt F)) :
    after ops V (main_v71 : DevRef τ sig)
      = shapeCast S131072x4x4 (after ops V (main_v70 : DevRef τ sig) : (⟨S131072x1x4x4, .f32⟩ : BufTy).Contents (Elt F)) shapeCasts_S131072x1x4x4_S131072x4x4 :=
  reshape_at (x := main_v70) (y := main_v71) (he := rfl) (hn := shapeCasts_S131072x1x4x4_S131072x4x4) (hx := dv) (hy := dv) 78 (ops_lt (by decide)) rfl (nw 79) (nw 78)

/-- Operation 79: after the whole line the buffer of `%72` holds the batched matrix product `%66` · `%71`, one 4×4 product per batch element. -/
theorem at_v72 (V : Valuation τ sig (Elt F)) :
    after ops V (main_v72 : DevRef τ sig)
      = Host.dotGeneral dot_S131072x4x4_S131072x4x4_S131072x4x4_2_1_1_2_0_0 none (after ops V (main_v66 : DevRef τ sig) : (⟨S131072x4x4, .f32⟩ : BufTy).Contents (Elt F)) (after ops V (main_v71 : DevRef τ sig) : (⟨S131072x4x4, .f32⟩ : BufTy).Contents (Elt F)) :=
  binary_at (a := main_v66) (b := main_v71) (y := main_v72) (f := ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F))) (ha := dv) (hb := dv) (hy := dv) 79 (ops_lt (by decide)) rfl (nw 80) (nw 79) (nw 79)

/-- Operation 80: after the whole line the buffer of `%73` holds the block of `%16` of shape 131072×1×4×4 starting at [0, 19, 0, 0]. -/
theorem at_v73 (V : Valuation τ sig (Elt F)) :
    after ops V (main_v73 : DevRef τ sig)
      = extractStridedSlice S131072x1x4x4 ![0, 19, 0, 0] (after ops V (main_v16 : DevRef τ sig) : (⟨S131072x24x4x4, .f32⟩ : BufTy).Contents (Elt F)) slices_S131072x24x4x4_S131072x1x4x4_0_19_0_0 :=
  unary_at (x := main_v16) (y := main_v73) (f := ((extractStridedSlice S131072x1x4x4 ![0, 19, 0, 0] · slices_S131072x24x4x4_S131072x1x4x4_0_19_0_0) : (⟨S131072x24x4x4, .f32⟩ : BufTy).Contents (Elt F) → (⟨S131072x1x4x4, .f32⟩ : BufTy).Contents (Elt F))) (hx := dv) (hy := dv) 80 (ops_lt (by decide)) rfl (nw 81) (nw 80)

/-- Operation 81: after the whole line the buffer of `%74` holds `%73` recast to shape 131072×4×4, the same elements in row-major order. -/
theorem at_v74 (V : Valuation τ sig (Elt F)) :
    after ops V (main_v74 : DevRef τ sig)
      = shapeCast S131072x4x4 (after ops V (main_v73 : DevRef τ sig) : (⟨S131072x1x4x4, .f32⟩ : BufTy).Contents (Elt F)) shapeCasts_S131072x1x4x4_S131072x4x4 :=
  reshape_at (x := main_v73) (y := main_v74) (he := rfl) (hn := shapeCasts_S131072x1x4x4_S131072x4x4) (hx := dv) (hy := dv) 81 (ops_lt (by decide)) rfl (nw 82) (nw 81)

/-- Operation 82: after the whole line the buffer of `%75` holds the batched matrix product `%69` · `%74`, one 4×4 product per batch element. -/
theorem at_v75 (V : Valuation τ sig (Elt F)) :
    after ops V (main_v75 : DevRef τ sig)
      = Host.dotGeneral dot_S131072x4x4_S131072x4x4_S131072x4x4_2_1_1_2_0_0 none (after ops V (main_v69 : DevRef τ sig) : (⟨S131072x4x4, .f32⟩ : BufTy).Contents (Elt F)) (after ops V (main_v74 : DevRef τ sig) : (⟨S131072x4x4, .f32⟩ : BufTy).Contents (Elt F)) :=
  binary_at (a := main_v69) (b := main_v74) (y := main_v75) (f := ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F))) (ha := dv) (hb := dv) (hy := dv) 82 (ops_lt (by decide)) rfl (nw 83) (nw 82) (nw 82)

/-- Operation 83: after the whole line the buffer of `%76` holds the block of `%16` of shape 131072×1×4×4 starting at [0, 20, 0, 0]. -/
theorem at_v76 (V : Valuation τ sig (Elt F)) :
    after ops V (main_v76 : DevRef τ sig)
      = extractStridedSlice S131072x1x4x4 ![0, 20, 0, 0] (after ops V (main_v16 : DevRef τ sig) : (⟨S131072x24x4x4, .f32⟩ : BufTy).Contents (Elt F)) slices_S131072x24x4x4_S131072x1x4x4_0_20_0_0 :=
  unary_at (x := main_v16) (y := main_v76) (f := ((extractStridedSlice S131072x1x4x4 ![0, 20, 0, 0] · slices_S131072x24x4x4_S131072x1x4x4_0_20_0_0) : (⟨S131072x24x4x4, .f32⟩ : BufTy).Contents (Elt F) → (⟨S131072x1x4x4, .f32⟩ : BufTy).Contents (Elt F))) (hx := dv) (hy := dv) 83 (ops_lt (by decide)) rfl (nw 84) (nw 83)

/-- Operation 84: after the whole line the buffer of `%77` holds `%76` recast to shape 131072×4×4, the same elements in row-major order. -/
theorem at_v77 (V : Valuation τ sig (Elt F)) :
    after ops V (main_v77 : DevRef τ sig)
      = shapeCast S131072x4x4 (after ops V (main_v76 : DevRef τ sig) : (⟨S131072x1x4x4, .f32⟩ : BufTy).Contents (Elt F)) shapeCasts_S131072x1x4x4_S131072x4x4 :=
  reshape_at (x := main_v76) (y := main_v77) (he := rfl) (hn := shapeCasts_S131072x1x4x4_S131072x4x4) (hx := dv) (hy := dv) 84 (ops_lt (by decide)) rfl (nw 85) (nw 84)

/-- Operation 85: after the whole line the buffer of `%78` holds the batched matrix product `%72` · `%77`, one 4×4 product per batch element. -/
theorem at_v78 (V : Valuation τ sig (Elt F)) :
    after ops V (main_v78 : DevRef τ sig)
      = Host.dotGeneral dot_S131072x4x4_S131072x4x4_S131072x4x4_2_1_1_2_0_0 none (after ops V (main_v72 : DevRef τ sig) : (⟨S131072x4x4, .f32⟩ : BufTy).Contents (Elt F)) (after ops V (main_v77 : DevRef τ sig) : (⟨S131072x4x4, .f32⟩ : BufTy).Contents (Elt F)) :=
  binary_at (a := main_v72) (b := main_v77) (y := main_v78) (f := ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F))) (ha := dv) (hb := dv) (hy := dv) 85 (ops_lt (by decide)) rfl (nw 86) (nw 85) (nw 85)

/-- Operation 86: after the whole line the buffer of `%79` holds the block of `%16` of shape 131072×1×4×4 starting at [0, 21, 0, 0]. -/
theorem at_v79 (V : Valuation τ sig (Elt F)) :
    after ops V (main_v79 : DevRef τ sig)
      = extractStridedSlice S131072x1x4x4 ![0, 21, 0, 0] (after ops V (main_v16 : DevRef τ sig) : (⟨S131072x24x4x4, .f32⟩ : BufTy).Contents (Elt F)) slices_S131072x24x4x4_S131072x1x4x4_0_21_0_0 :=
  unary_at (x := main_v16) (y := main_v79) (f := ((extractStridedSlice S131072x1x4x4 ![0, 21, 0, 0] · slices_S131072x24x4x4_S131072x1x4x4_0_21_0_0) : (⟨S131072x24x4x4, .f32⟩ : BufTy).Contents (Elt F) → (⟨S131072x1x4x4, .f32⟩ : BufTy).Contents (Elt F))) (hx := dv) (hy := dv) 86 (ops_lt (by decide)) rfl (nw 87) (nw 86)

/-- Operation 87: after the whole line the buffer of `%80` holds `%79` recast to shape 131072×4×4, the same elements in row-major order. -/
theorem at_v80 (V : Valuation τ sig (Elt F)) :
    after ops V (main_v80 : DevRef τ sig)
      = shapeCast S131072x4x4 (after ops V (main_v79 : DevRef τ sig) : (⟨S131072x1x4x4, .f32⟩ : BufTy).Contents (Elt F)) shapeCasts_S131072x1x4x4_S131072x4x4 :=
  reshape_at (x := main_v79) (y := main_v80) (he := rfl) (hn := shapeCasts_S131072x1x4x4_S131072x4x4) (hx := dv) (hy := dv) 87 (ops_lt (by decide)) rfl (nw 88) (nw 87)

/-- Operation 88: after the whole line the buffer of `%81` holds the batched matrix product `%75` · `%80`, one 4×4 product per batch element. -/
theorem at_v81 (V : Valuation τ sig (Elt F)) :
    after ops V (main_v81 : DevRef τ sig)
      = Host.dotGeneral dot_S131072x4x4_S131072x4x4_S131072x4x4_2_1_1_2_0_0 none (after ops V (main_v75 : DevRef τ sig) : (⟨S131072x4x4, .f32⟩ : BufTy).Contents (Elt F)) (after ops V (main_v80 : DevRef τ sig) : (⟨S131072x4x4, .f32⟩ : BufTy).Contents (Elt F)) :=
  binary_at (a := main_v75) (b := main_v80) (y := main_v81) (f := ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F))) (ha := dv) (hb := dv) (hy := dv) 88 (ops_lt (by decide)) rfl (nw 89) (nw 88) (nw 88)

/-- Operation 89: after the whole line the buffer of `%82` holds the block of `%16` of shape 131072×1×4×4 starting at [0, 22, 0, 0]. -/
theorem at_v82 (V : Valuation τ sig (Elt F)) :
    after ops V (main_v82 : DevRef τ sig)
      = extractStridedSlice S131072x1x4x4 ![0, 22, 0, 0] (after ops V (main_v16 : DevRef τ sig) : (⟨S131072x24x4x4, .f32⟩ : BufTy).Contents (Elt F)) slices_S131072x24x4x4_S131072x1x4x4_0_22_0_0 :=
  unary_at (x := main_v16) (y := main_v82) (f := ((extractStridedSlice S131072x1x4x4 ![0, 22, 0, 0] · slices_S131072x24x4x4_S131072x1x4x4_0_22_0_0) : (⟨S131072x24x4x4, .f32⟩ : BufTy).Contents (Elt F) → (⟨S131072x1x4x4, .f32⟩ : BufTy).Contents (Elt F))) (hx := dv) (hy := dv) 89 (ops_lt (by decide)) rfl (nw 90) (nw 89)

/-- Operation 90: after the whole line the buffer of `%83` holds `%82` recast to shape 131072×4×4, the same elements in row-major order. -/
theorem at_v83 (V : Valuation τ sig (Elt F)) :
    after ops V (main_v83 : DevRef τ sig)
      = shapeCast S131072x4x4 (after ops V (main_v82 : DevRef τ sig) : (⟨S131072x1x4x4, .f32⟩ : BufTy).Contents (Elt F)) shapeCasts_S131072x1x4x4_S131072x4x4 :=
  reshape_at (x := main_v82) (y := main_v83) (he := rfl) (hn := shapeCasts_S131072x1x4x4_S131072x4x4) (hx := dv) (hy := dv) 90 (ops_lt (by decide)) rfl (nw 91) (nw 90)

/-- Operation 91: after the whole line the buffer of `%84` holds the batched matrix product `%78` · `%83`, one 4×4 product per batch element. -/
theorem at_v84 (V : Valuation τ sig (Elt F)) :
    after ops V (main_v84 : DevRef τ sig)
      = Host.dotGeneral dot_S131072x4x4_S131072x4x4_S131072x4x4_2_1_1_2_0_0 none (after ops V (main_v78 : DevRef τ sig) : (⟨S131072x4x4, .f32⟩ : BufTy).Contents (Elt F)) (after ops V (main_v83 : DevRef τ sig) : (⟨S131072x4x4, .f32⟩ : BufTy).Contents (Elt F)) :=
  binary_at (a := main_v78) (b := main_v83) (y := main_v84) (f := ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F))) (ha := dv) (hb := dv) (hy := dv) 91 (ops_lt (by decide)) rfl (nw 92) (nw 91) (nw 91)

/-- Operation 92: after the whole line the buffer of `%85` holds the block of `%16` of shape 131072×1×4×4 starting at [0, 23, 0, 0]. -/
theorem at_v85 (V : Valuation τ sig (Elt F)) :
    after ops V (main_v85 : DevRef τ sig)
      = extractStridedSlice S131072x1x4x4 ![0, 23, 0, 0] (after ops V (main_v16 : DevRef τ sig) : (⟨S131072x24x4x4, .f32⟩ : BufTy).Contents (Elt F)) slices_S131072x24x4x4_S131072x1x4x4_0_23_0_0 :=
  unary_at (x := main_v16) (y := main_v85) (f := ((extractStridedSlice S131072x1x4x4 ![0, 23, 0, 0] · slices_S131072x24x4x4_S131072x1x4x4_0_23_0_0) : (⟨S131072x24x4x4, .f32⟩ : BufTy).Contents (Elt F) → (⟨S131072x1x4x4, .f32⟩ : BufTy).Contents (Elt F))) (hx := dv) (hy := dv) 92 (ops_lt (by decide)) rfl (nw 93) (nw 92)

/-- Operation 93: after the whole line the buffer of `%86` holds `%85` recast to shape 131072×4×4, the same elements in row-major order. -/
theorem at_v86 (V : Valuation τ sig (Elt F)) :
    after ops V (main_v86 : DevRef τ sig)
      = shapeCast S131072x4x4 (after ops V (main_v85 : DevRef τ sig) : (⟨S131072x1x4x4, .f32⟩ : BufTy).Contents (Elt F)) shapeCasts_S131072x1x4x4_S131072x4x4 :=
  reshape_at (x := main_v85) (y := main_v86) (he := rfl) (hn := shapeCasts_S131072x1x4x4_S131072x4x4) (hx := dv) (hy := dv) 93 (ops_lt (by decide)) rfl (nw 94) (nw 93)

/-- Operation 94: after the whole line the buffer of `%87` holds the batched matrix product `%81` · `%86`, one 4×4 product per batch element. -/
theorem at_v87 (V : Valuation τ sig (Elt F)) :
    after ops V (main_v87 : DevRef τ sig)
      = Host.dotGeneral dot_S131072x4x4_S131072x4x4_S131072x4x4_2_1_1_2_0_0 none (after ops V (main_v81 : DevRef τ sig) : (⟨S131072x4x4, .f32⟩ : BufTy).Contents (Elt F)) (after ops V (main_v86 : DevRef τ sig) : (⟨S131072x4x4, .f32⟩ : BufTy).Contents (Elt F)) :=
  binary_at (a := main_v81) (b := main_v86) (y := main_v87) (f := ((fun l r => Host.dotGeneral dot_S131072x4x4_S131072x4x4_S131072x4x4_2_1_1_2_0_0 none l r) : (⟨S131072x4x4, .f32⟩ : BufTy).Contents (Elt F) → (⟨S131072x4x4, .f32⟩ : BufTy).Contents (Elt F) → (⟨S131072x4x4, .f32⟩ : BufTy).Contents (Elt F))) (ha := dv) (hb := dv) (hy := dv) 94 (ops_lt (by decide)) rfl (nw 95) (nw 94) (nw 94)

/-- Operation 95: after the whole line the buffer of `%88` holds `%18` broadcast to shape 131072×1×4×4, its axes placed at axes [0, 2, 3]. -/
theorem at_v88 (V : Valuation τ sig (Elt F)) :
    after ops V (main_v88 : DevRef τ sig)
      = (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)) (after ops V (main_v18 : DevRef τ sig) : (⟨S131072x4x4, .f32⟩ : BufTy).Contents (Elt F)) :=
  unary_at (x := main_v18) (y := main_v88) (f := (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F))) (hx := dv) (hy := dv) 95 (ops_lt (by decide)) rfl (nw 96) (nw 95)

/-- Operation 96: after the whole line the buffer of `%89` holds `%21` broadcast to shape 131072×1×4×4, its axes placed at axes [0, 2, 3]. -/
theorem at_v89 (V : Valuation τ sig (Elt F)) :
    after ops V (main_v89 : DevRef τ sig)
      = (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)) (after ops V (main_v21 : DevRef τ sig) : (⟨S131072x4x4, .f32⟩ : BufTy).Contents (Elt F)) :=
  unary_at (x := main_v21) (y := main_v89) (f := (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F))) (hx := dv) (hy := dv) 96 (ops_lt (by decide)) rfl (nw 97) (nw 96)

/-- Operation 97: after the whole line the buffer of `%90` holds `%24` broadcast to shape 131072×1×4×4, its axes placed at axes [0, 2, 3]. -/
theorem at_v90 (V : Valuation τ sig (Elt F)) :
    after ops V (main_v90 : DevRef τ sig)
      = (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)) (after ops V (main_v24 : DevRef τ sig) : (⟨S131072x4x4, .f32⟩ : BufTy).Contents (Elt F)) :=
  unary_at (x := main_v24) (y := main_v90) (f := (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F))) (hx := dv) (hy := dv) 97 (ops_lt (by decide)) rfl (nw 98) (nw 97)

/-- Operation 98: after the whole line the buffer of `%91` holds `%27` broadcast to shape 131072×1×4×4, its axes placed at axes [0, 2, 3]. -/
theorem at_v91 (V : Valuation τ sig (Elt F)) :
    after ops V (main_v91 : DevRef τ sig)
      = (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)) (after ops V (main_v27 : DevRef τ sig) : (⟨S131072x4x4, .f32⟩ : BufTy).Contents (Elt F)) :=
  unary_at (x := main_v27) (y := main_v91) (f := (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F))) (hx := dv) (hy := dv) 98 (ops_lt (by decide)) rfl (nw 99) (nw 98)

/-- Operation 99: after the whole line the buffer of `%92` holds `%30` broadcast to shape 131072×1×4×4, its axes placed at axes [0, 2, 3]. -/
theorem at_v92 (V : Valuation τ sig (Elt F)) :
    after ops V (main_v92 : DevRef τ sig)
      = (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)) (after ops V (main_v30 : DevRef τ sig) : (⟨S131072x4x4, .f32⟩ : BufTy).Contents (Elt F)) :=
  unary_at (x := main_v30) (y := main_v92) (f := (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F))) (hx := dv) (hy := dv) 99 (ops_lt (by decide)) rfl (nw 100) (nw 99)

/-- Operation 100: after the whole line the buffer of `%93` holds `%33` broadcast to shape 131072×1×4×4, its axes placed at axes [0, 2, 3]. -/
theorem at_v93 (V : Valuation τ sig (Elt F)) :
    after ops V (main_v93 : DevRef τ sig)
      = (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)) (after ops V (main_v33 : DevRef τ sig) : (⟨S131072x4x4, .f32⟩ : BufTy).Contents (Elt F)) :=
  unary_at (x := main_v33) (y := main_v93) (f := (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F))) (hx := dv) (hy := dv) 100 (ops_lt (by decide)) rfl (nw 101) (nw 100)

/-- Operation 101: after the whole line the buffer of `%94` holds `%36` broadcast to shape 131072×1×4×4, its axes placed at axes [0, 2, 3]. -/
theorem at_v94 (V : Valuation τ sig (Elt F)) :
    after ops V (main_v94 : DevRef τ sig)
      = (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)) (after ops V (main_v36 : DevRef τ sig) : (⟨S131072x4x4, .f32⟩ : BufTy).Contents (Elt F)) :=
  unary_at (x := main_v36) (y := main_v94) (f := (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F))) (hx := dv) (hy := dv) 101 (ops_lt (by decide)) rfl (nw 102) (nw 101)

/-- Operation 102: after the whole line the buffer of `%95` holds `%39` broadcast to shape 131072×1×4×4, its axes placed at axes [0, 2, 3]. -/
theorem at_v95 (V : Valuation τ sig (Elt F)) :
    after ops V (main_v95 : DevRef τ sig)
      = (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)) (after ops V (main_v39 : DevRef τ sig) : (⟨S131072x4x4, .f32⟩ : BufTy).Contents (Elt F)) :=
  unary_at (x := main_v39) (y := main_v95) (f := (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F))) (hx := dv) (hy := dv) 102 (ops_lt (by decide)) rfl (nw 103) (nw 102)

/-- Operation 103: after the whole line the buffer of `%96` holds `%42` broadcast to shape 131072×1×4×4, its axes placed at axes [0, 2, 3]. -/
theorem at_v96 (V : Valuation τ sig (Elt F)) :
    after ops V (main_v96 : DevRef τ sig)
      = (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)) (after ops V (main_v42 : DevRef τ sig) : (⟨S131072x4x4, .f32⟩ : BufTy).Contents (Elt F)) :=
  unary_at (x := main_v42) (y := main_v96) (f := (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F))) (hx := dv) (hy := dv) 103 (ops_lt (by decide)) rfl (nw 104) (nw 103)

/-- Operation 104: after the whole line the buffer of `%97` holds `%45` broadcast to shape 131072×1×4×4, its axes placed at axes [0, 2, 3]. -/
theorem at_v97 (V : Valuation τ sig (Elt F)) :
    after ops V (main_v97 : DevRef τ sig)
      = (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)) (after ops V (main_v45 : DevRef τ sig) : (⟨S131072x4x4, .f32⟩ : BufTy).Contents (Elt F)) :=
  unary_at (x := main_v45) (y := main_v97) (f := (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F))) (hx := dv) (hy := dv) 104 (ops_lt (by decide)) rfl (nw 105) (nw 104)

/-- Operation 105: after the whole line the buffer of `%98` holds `%48` broadcast to shape 131072×1×4×4, its axes placed at axes [0, 2, 3]. -/
theorem at_v98 (V : Valuation τ sig (Elt F)) :
    after ops V (main_v98 : DevRef τ sig)
      = (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)) (after ops V (main_v48 : DevRef τ sig) : (⟨S131072x4x4, .f32⟩ : BufTy).Contents (Elt F)) :=
  unary_at (x := main_v48) (y := main_v98) (f := (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F))) (hx := dv) (hy := dv) 105 (ops_lt (by decide)) rfl (nw 106) (nw 105)

/-- Operation 106: after the whole line the buffer of `%99` holds `%51` broadcast to shape 131072×1×4×4, its axes placed at axes [0, 2, 3]. -/
theorem at_v99 (V : Valuation τ sig (Elt F)) :
    after ops V (main_v99 : DevRef τ sig)
      = (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)) (after ops V (main_v51 : DevRef τ sig) : (⟨S131072x4x4, .f32⟩ : BufTy).Contents (Elt F)) :=
  unary_at (x := main_v51) (y := main_v99) (f := (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F))) (hx := dv) (hy := dv) 106 (ops_lt (by decide)) rfl (nw 107) (nw 106)

/-- Operation 107: after the whole line the buffer of `%100` holds `%54` broadcast to shape 131072×1×4×4, its axes placed at axes [0, 2, 3]. -/
theorem at_v100 (V : Valuation τ sig (Elt F)) :
    after ops V (main_v100 : DevRef τ sig)
      = (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)) (after ops V (main_v54 : DevRef τ sig) : (⟨S131072x4x4, .f32⟩ : BufTy).Contents (Elt F)) :=
  unary_at (x := main_v54) (y := main_v100) (f := (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F))) (hx := dv) (hy := dv) 107 (ops_lt (by decide)) rfl (nw 108) (nw 107)

/-- Operation 108: after the whole line the buffer of `%101` holds `%57` broadcast to shape 131072×1×4×4, its axes placed at axes [0, 2, 3]. -/
theorem at_v101 (V : Valuation τ sig (Elt F)) :
    after ops V (main_v101 : DevRef τ sig)
      = (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)) (after ops V (main_v57 : DevRef τ sig) : (⟨S131072x4x4, .f32⟩ : BufTy).Contents (Elt F)) :=
  unary_at (x := main_v57) (y := main_v101) (f := (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F))) (hx := dv) (hy := dv) 108 (ops_lt (by decide)) rfl (nw 109) (nw 108)

/-- Operation 109: after the whole line the buffer of `%102` holds `%60` broadcast to shape 131072×1×4×4, its axes placed at axes [0, 2, 3]. -/
theorem at_v102 (V : Valuation τ sig (Elt F)) :
    after ops V (main_v102 : DevRef τ sig)
      = (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)) (after ops V (main_v60 : DevRef τ sig) : (⟨S131072x4x4, .f32⟩ : BufTy).Contents (Elt F)) :=
  unary_at (x := main_v60) (y := main_v102) (f := (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F))) (hx := dv) (hy := dv) 109 (ops_lt (by decide)) rfl (nw 110) (nw 109)

/-- Operation 110: after the whole line the buffer of `%103` holds `%63` broadcast to shape 131072×1×4×4, its axes placed at axes [0, 2, 3]. -/
theorem at_v103 (V : Valuation τ sig (Elt F)) :
    after ops V (main_v103 : DevRef τ sig)
      = (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)) (after ops V (main_v63 : DevRef τ sig) : (⟨S131072x4x4, .f32⟩ : BufTy).Contents (Elt F)) :=
  unary_at (x := main_v63) (y := main_v103) (f := (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F))) (hx := dv) (hy := dv) 110 (ops_lt (by decide)) rfl (nw 111) (nw 110)

/-- Operation 111: after the whole line the buffer of `%104` holds `%66` broadcast to shape 131072×1×4×4, its axes placed at axes [0, 2, 3]. -/
theorem at_v104 (V : Valuation τ sig (Elt F)) :
    after ops V (main_v104 : DevRef τ sig)
      = (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)) (after ops V (main_v66 : DevRef τ sig) : (⟨S131072x4x4, .f32⟩ : BufTy).Contents (Elt F)) :=
  unary_at (x := main_v66) (y := main_v104) (f := (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F))) (hx := dv) (hy := dv) 111 (ops_lt (by decide)) rfl (nw 112) (nw 111)

/-- Operation 112: after the whole line the buffer of `%105` holds `%69` broadcast to shape 131072×1×4×4, its axes placed at axes [0, 2, 3]. -/
theorem at_v105 (V : Valuation τ sig (Elt F)) :
    after ops V (main_v105 : DevRef τ sig)
      = (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)) (after ops V (main_v69 : DevRef τ sig) : (⟨S131072x4x4, .f32⟩ : BufTy).Contents (Elt F)) :=
  unary_at (x := main_v69) (y := main_v105) (f := (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F))) (hx := dv) (hy := dv) 112 (ops_lt (by decide)) rfl (nw 113) (nw 112)

/-- Operation 113: after the whole line the buffer of `%106` holds `%72` broadcast to shape 131072×1×4×4, its axes placed at axes [0, 2, 3]. -/
theorem at_v106 (V : Valuation τ sig (Elt F)) :
    after ops V (main_v106 : DevRef τ sig)
      = (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)) (after ops V (main_v72 : DevRef τ sig) : (⟨S131072x4x4, .f32⟩ : BufTy).Contents (Elt F)) :=
  unary_at (x := main_v72) (y := main_v106) (f := (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F))) (hx := dv) (hy := dv) 113 (ops_lt (by decide)) rfl (nw 114) (nw 113)

/-- Operation 114: after the whole line the buffer of `%107` holds `%75` broadcast to shape 131072×1×4×4, its axes placed at axes [0, 2, 3]. -/
theorem at_v107 (V : Valuation τ sig (Elt F)) :
    after ops V (main_v107 : DevRef τ sig)
      = (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)) (after ops V (main_v75 : DevRef τ sig) : (⟨S131072x4x4, .f32⟩ : BufTy).Contents (Elt F)) :=
  unary_at (x := main_v75) (y := main_v107) (f := (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F))) (hx := dv) (hy := dv) 114 (ops_lt (by decide)) rfl (nw 115) (nw 114)

/-- Operation 115: after the whole line the buffer of `%108` holds `%78` broadcast to shape 131072×1×4×4, its axes placed at axes [0, 2, 3]. -/
theorem at_v108 (V : Valuation τ sig (Elt F)) :
    after ops V (main_v108 : DevRef τ sig)
      = (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)) (after ops V (main_v78 : DevRef τ sig) : (⟨S131072x4x4, .f32⟩ : BufTy).Contents (Elt F)) :=
  unary_at (x := main_v78) (y := main_v108) (f := (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F))) (hx := dv) (hy := dv) 115 (ops_lt (by decide)) rfl (nw 116) (nw 115)

/-- Operation 116: after the whole line the buffer of `%109` holds `%81` broadcast to shape 131072×1×4×4, its axes placed at axes [0, 2, 3]. -/
theorem at_v109 (V : Valuation τ sig (Elt F)) :
    after ops V (main_v109 : DevRef τ sig)
      = (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)) (after ops V (main_v81 : DevRef τ sig) : (⟨S131072x4x4, .f32⟩ : BufTy).Contents (Elt F)) :=
  unary_at (x := main_v81) (y := main_v109) (f := (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F))) (hx := dv) (hy := dv) 116 (ops_lt (by decide)) rfl (nw 117) (nw 116)

/-- Operation 117: after the whole line the buffer of `%110` holds `%84` broadcast to shape 131072×1×4×4, its axes placed at axes [0, 2, 3]. -/
theorem at_v110 (V : Valuation τ sig (Elt F)) :
    after ops V (main_v110 : DevRef τ sig)
      = (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)) (after ops V (main_v84 : DevRef τ sig) : (⟨S131072x4x4, .f32⟩ : BufTy).Contents (Elt F)) :=
  unary_at (x := main_v84) (y := main_v110) (f := (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F))) (hx := dv) (hy := dv) 117 (ops_lt (by decide)) rfl (nw 118) (nw 117)

/-- Operation 118: after the whole line the buffer of `%111` holds `%87` broadcast to shape 131072×1×4×4, its axes placed at axes [0, 2, 3]. -/
theorem at_v111 (V : Valuation τ sig (Elt F)) :
    after ops V (main_v111 : DevRef τ sig)
      = (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F)) (after ops V (main_v87 : DevRef τ sig) : (⟨S131072x4x4, .f32⟩ : BufTy).Contents (Elt F)) :=
  unary_at (x := main_v87) (y := main_v111) (f := (broadcastInDim S131072x1x4x4 ![0, 2, 3] bcast_S131072x4x4_S131072x1x4x4_0_2_3 : (⟨S131072x4x4, .f32⟩ : BufTy).Contents (Elt F) → (⟨S131072x1x4x4, .f32⟩ : BufTy).Contents (Elt F))) (hx := dv) (hy := dv) 118 (ops_lt (by decide)) rfl (nw 119) (nw 118)

/-- Operation 119: after the whole line the buffer of `%112` holds `%88`, `%89`, `%90`, `%91`, `%92`, `%93`, `%94`, `%95`, `%96`, `%97`, `%98`, `%99`, `%100`, `%101`, `%102`, `%103` joined along axis 1. -/
theorem at_v112 (V : Valuation τ sig (Elt F)) :
    after ops V (main_v112 : DevRef τ sig)
      = concatenate S131072x16x4x4 1 [⟨S131072x1x4x4, (after ops V (main_v88 : DevRef τ sig) : (⟨S131072x1x4x4, .f32⟩ : BufTy).Contents (Elt F))⟩, ⟨S131072x1x4x4, (after ops V (main_v89 : DevRef τ sig) : (⟨S131072x1x4x4, .f32⟩ : BufTy).Contents (Elt F))⟩, ⟨S131072x1x4x4, (after ops V (main_v90 : DevRef τ sig) : (⟨S131072x1x4x4, .f32⟩ : BufTy).Contents (Elt F))⟩, ⟨S131072x1x4x4, (after ops V (main_v91 : DevRef τ sig) : (⟨S131072x1x4x4, .f32⟩ : BufTy).Contents (Elt F))⟩, ⟨S131072x1x4x4, (after ops V (main_v92 : DevRef τ sig) : (⟨S131072x1x4x4, .f32⟩ : BufTy).Contents (Elt F))⟩, ⟨S131072x1x4x4, (after ops V (main_v93 : DevRef τ sig) : (⟨S131072x1x4x4, .f32⟩ : BufTy).Contents (Elt F))⟩, ⟨S131072x1x4x4, (after ops V (main_v94 : DevRef τ sig) : (⟨S131072x1x4x4, .f32⟩ : BufTy).Contents (Elt F))⟩, ⟨S131072x1x4x4, (after ops V (main_v95 : DevRef τ sig) : (⟨S131072x1x4x4, .f32⟩ : BufTy).Contents (Elt F))⟩, ⟨S131072x1x4x4, (after ops V (main_v96 : DevRef τ sig) : (⟨S131072x1x4x4, .f32⟩ : BufTy).Contents (Elt F))⟩, ⟨S131072x1x4x4, (after ops V (main_v97 : DevRef τ sig) : (⟨S131072x1x4x4, .f32⟩ : BufTy).Contents (Elt F))⟩, ⟨S131072x1x4x4, (after ops V (main_v98 : DevRef τ sig) : (⟨S131072x1x4x4, .f32⟩ : BufTy).Contents (Elt F))⟩, ⟨S131072x1x4x4, (after ops V (main_v99 : DevRef τ sig) : (⟨S131072x1x4x4, .f32⟩ : BufTy).Contents (Elt F))⟩, ⟨S131072x1x4x4, (after ops V (main_v100 : DevRef τ sig) : (⟨S131072x1x4x4, .f32⟩ : BufTy).Contents (Elt F))⟩, ⟨S131072x1x4x4, (after ops V (main_v101 : DevRef τ sig) : (⟨S131072x1x4x4, .f32⟩ : BufTy).Contents (Elt F))⟩, ⟨S131072x1x4x4, (after ops V (main_v102 : DevRef τ sig) : (⟨S131072x1x4x4, .f32⟩ : BufTy).Contents (Elt F))⟩, ⟨S131072x1x4x4, (after ops V (main_v103 : DevRef τ sig) : (⟨S131072x1x4x4, .f32⟩ : BufTy).Contents (Elt F))⟩] concatenates_S131072x1x4x4_S131072x1x4x4_S131072x1x4x4_S131072x1x4x4_S131072x1x4x4_S131072x1x4x4_S131072x1x4x4_S131072x1x4x4_S131072x1x4x4_S131072x1x4x4_S131072x1x4x4_S131072x1x4x4_S131072x1x4x4_S131072x1x4x4_S131072x1x4x4_S131072x1x4x4_S131072x16x4x4_d1 :=
  nary_at (xs := ![main_v88, main_v89, main_v90, main_v91, main_v92, main_v93, main_v94, main_v95, main_v96, main_v97, main_v98, main_v99, main_v100, main_v101, main_v102, main_v103]) (y := main_v112) (f := (fun u => concatenate S131072x16x4x4 1 [⟨S131072x1x4x4, u 0⟩, ⟨S131072x1x4x4, u 1⟩, ⟨S131072x1x4x4, u 2⟩, ⟨S131072x1x4x4, u 3⟩, ⟨S131072x1x4x4, u 4⟩, ⟨S131072x1x4x4, u 5⟩, ⟨S131072x1x4x4, u 6⟩, ⟨S131072x1x4x4, u 7⟩, ⟨S131072x1x4x4, u 8⟩, ⟨S131072x1x4x4, u 9⟩, ⟨S131072x1x4x4, u 10⟩, ⟨S131072x1x4x4, u 11⟩, ⟨S131072x1x4x4, u 12⟩, ⟨S131072x1x4x4, u 13⟩, ⟨S131072x1x4x4, u 14⟩, ⟨S131072x1x4x4, u 15⟩] concatenates_S131072x1x4x4_S131072x1x4x4_S131072x1x4x4_S131072x1x4x4_S131072x1x4x4_S131072x1x4x4_S131072x1x4x4_S131072x1x4x4_S131072x1x4x4_S131072x1x4x4_S131072x1x4x4_S131072x1x4x4_S131072x1x4x4_S131072x1x4x4_S131072x1x4x4_S131072x1x4x4_S131072x16x4x4_d1)) (hxs := by decide) (hy := dv) 119 (ops_lt (by decide)) rfl (nw 120) (fun i => not_written hW 119 (by revert i; decide))

/-- Operation 120: after the whole line the buffer of `%113` holds `%104`, `%105`, `%106`, `%107`, `%108`, `%109`, `%110`, `%111` joined along axis 1. -/
theorem at_v113 (V : Valuation τ sig (Elt F)) :
    after ops V (main_v113 : DevRef τ sig)
      = concatenate S131072x8x4x4 1 [⟨S131072x1x4x4, (after ops V (main_v104 : DevRef τ sig) : (⟨S131072x1x4x4, .f32⟩ : BufTy).Contents (Elt F))⟩, ⟨S131072x1x4x4, (after ops V (main_v105 : DevRef τ sig) : (⟨S131072x1x4x4, .f32⟩ : BufTy).Contents (Elt F))⟩, ⟨S131072x1x4x4, (after ops V (main_v106 : DevRef τ sig) : (⟨S131072x1x4x4, .f32⟩ : BufTy).Contents (Elt F))⟩, ⟨S131072x1x4x4, (after ops V (main_v107 : DevRef τ sig) : (⟨S131072x1x4x4, .f32⟩ : BufTy).Contents (Elt F))⟩, ⟨S131072x1x4x4, (after ops V (main_v108 : DevRef τ sig) : (⟨S131072x1x4x4, .f32⟩ : BufTy).Contents (Elt F))⟩, ⟨S131072x1x4x4, (after ops V (main_v109 : DevRef τ sig) : (⟨S131072x1x4x4, .f32⟩ : BufTy).Contents (Elt F))⟩, ⟨S131072x1x4x4, (after ops V (main_v110 : DevRef τ sig) : (⟨S131072x1x4x4, .f32⟩ : BufTy).Contents (Elt F))⟩, ⟨S131072x1x4x4, (after ops V (main_v111 : DevRef τ sig) : (⟨S131072x1x4x4, .f32⟩ : BufTy).Contents (Elt F))⟩] concatenates_S131072x1x4x4_S131072x1x4x4_S131072x1x4x4_S131072x1x4x4_S131072x1x4x4_S131072x1x4x4_S131072x1x4x4_S131072x1x4x4_S131072x8x4x4_d1 :=
  nary_at (xs := ![main_v104, main_v105, main_v106, main_v107, main_v108, main_v109, main_v110, main_v111]) (y := main_v113) (f := (fun u => concatenate S131072x8x4x4 1 [⟨S131072x1x4x4, u 0⟩, ⟨S131072x1x4x4, u 1⟩, ⟨S131072x1x4x4, u 2⟩, ⟨S131072x1x4x4, u 3⟩, ⟨S131072x1x4x4, u 4⟩, ⟨S131072x1x4x4, u 5⟩, ⟨S131072x1x4x4, u 6⟩, ⟨S131072x1x4x4, u 7⟩] concatenates_S131072x1x4x4_S131072x1x4x4_S131072x1x4x4_S131072x1x4x4_S131072x1x4x4_S131072x1x4x4_S131072x1x4x4_S131072x1x4x4_S131072x8x4x4_d1)) (hxs := by decide) (hy := dv) 120 (ops_lt (by decide)) rfl (nw 121) (fun i => not_written hW 120 (by revert i; decide))

/-- Operation 121: after the whole line the buffer of `%114` holds `%112`, `%113` joined along axis 1. -/
theorem at_v114 (V : Valuation τ sig (Elt F)) :
    after ops V (main_v114 : DevRef τ sig)
      = concatenate S131072x24x4x4 1 [⟨S131072x16x4x4, (after ops V (main_v112 : DevRef τ sig) : (⟨S131072x16x4x4, .f32⟩ : BufTy).Contents (Elt F))⟩, ⟨S131072x8x4x4, (after ops V (main_v113 : DevRef τ sig) : (⟨S131072x8x4x4, .f32⟩ : BufTy).Contents (Elt F))⟩] concatenates_S131072x16x4x4_S131072x8x4x4_S131072x24x4x4_d1 :=
  binary_at (a := main_v112) (b := main_v113) (y := main_v114) (f := ((fun a b => concatenate S131072x24x4x4 1 [⟨S131072x16x4x4, a⟩, ⟨S131072x8x4x4, b⟩] concatenates_S131072x16x4x4_S131072x8x4x4_S131072x24x4x4_d1) : (⟨S131072x16x4x4, .f32⟩ : BufTy).Contents (Elt F) → (⟨S131072x8x4x4, .f32⟩ : BufTy).Contents (Elt F) → (⟨S131072x24x4x4, .f32⟩ : BufTy).Contents (Elt F))) (ha := dv) (hb := dv) (hy := dv) 121 (ops_lt (by decide)) rfl (nw 122) (nw 121) (nw 121)

/-- Operation 122: after the whole line the buffer of `%115` holds the block of `%114` of shape 131072×24×3×1 starting at [0, 0, 0, 3]. -/
theorem at_v115 (V : Valuation τ sig (Elt F)) :
    after ops V (main_v115 : DevRef τ sig)
      = extractStridedSlice S131072x24x3x1 ![0, 0, 0, 3] (after ops V (main_v114 : DevRef τ sig) : (⟨S131072x24x4x4, .f32⟩ : BufTy).Contents (Elt F)) slices_S131072x24x4x4_S131072x24x3x1_0_0_0_3 :=
  unary_at (x := main_v114) (y := main_v115) (f := ((extractStridedSlice S131072x24x3x1 ![0, 0, 0, 3] · slices_S131072x24x4x4_S131072x24x3x1_0_0_0_3) : (⟨S131072x24x4x4, .f32⟩ : BufTy).Contents (Elt F) → (⟨S131072x24x3x1, .f32⟩ : BufTy).Contents (Elt F))) (hx := dv) (hy := dv) 122 (ops_lt (by decide)) rfl (nw 123) (nw 122)

/-- Operation 123: after the whole line the buffer of `%116` holds `%115` recast to shape 131072×24×3, the same elements in row-major order. -/
theorem at_v116 (V : Valuation τ sig (Elt F)) :
    after ops V (main_v116 : DevRef τ sig)
      = shapeCast S131072x24x3 (after ops V (main_v115 : DevRef τ sig) : (⟨S131072x24x3x1, .f32⟩ : BufTy).Contents (Elt F)) shapeCasts_S131072x24x3x1_S131072x24x3 :=
  reshape_at (x := main_v115) (y := main_v116) (he := rfl) (hn := shapeCasts_S131072x24x3x1_S131072x24x3) (hx := dv) (hy := dv) 123 (ops_lt (by decide)) rfl (nw 124) (nw 123)

/-- Operation 124: after the whole line the buffer of `%cst_4` holds the float constant 0. -/
theorem at_cst_4 (V : Valuation τ sig (Elt F)) :
    after ops V (main_cst_4 : DevRef τ sig)
      = (constant S_ .f32 0x00000000#32) :=
  nullary_at (y := main_cst_4) (v := (constant S_ .f32 0x00000000#32)) (hy := dv) 124 (ops_lt (by decide)) rfl (nw 125)

/-- Operation 125: after the whole line the buffer of `%117` holds the scalar `%cst_4` repeated to shape 131072×24×1×1. -/
theorem at_v117 (V : Valuation τ sig (Elt F)) :
    after ops V (main_v117 : DevRef τ sig)
      = (broadcastInDim S131072x24x1x1 ![] bcast_S_S131072x24x1x1 : (⟨S_, .f32⟩ : BufTy).Contents (Elt F) → (⟨S131072x24x1x1, .f32⟩ : BufTy).Contents (Elt F)) (after ops V (main_cst_4 : DevRef τ sig) : (⟨S_, .f32⟩ : BufTy).Contents (Elt F)) :=
  unary_at (x := main_cst_4) (y := main_v117) (f := (broadcastInDim S131072x24x1x1 ![] bcast_S_S131072x24x1x1 : (⟨S_, .f32⟩ : BufTy).Contents (Elt F) → (⟨S131072x24x1x1, .f32⟩ : BufTy).Contents (Elt F))) (hx := dv) (hy := dv) 125 (ops_lt (by decide)) rfl (nw 126) (nw 125)

/-- Operation 126: after the whole line the buffer of `%118` holds `%0`, `%117` joined along axis 2. -/
theorem at_v118 (V : Valuation τ sig (Elt F)) :
    after ops V (main_v118 : DevRef τ sig)
      = concatenate S131072x24x4x1 2 [⟨S131072x24x3x1, (after ops V (main_v0 : DevRef τ sig) : (⟨S131072x24x3x1, .f32⟩ : BufTy).Contents (Elt F))⟩, ⟨S131072x24x1x1, (after ops V (main_v117 : DevRef τ sig) : (⟨S131072x24x1x1, .f32⟩ : BufTy).Contents (Elt F))⟩] concatenates_S131072x24x3x1_S131072x24x1x1_S131072x24x4x1_d2 :=
  binary_at (a := main_v0) (b := main_v117) (y := main_v118) (f := ((fun a b => concatenate S131072x24x4x1 2 [⟨S131072x24x3x1, a⟩, ⟨S131072x24x1x1, b⟩] concatenates_S131072x24x3x1_S131072x24x1x1_S131072x24x4x1_d2) : (⟨S131072x24x3x1, .f32⟩ : BufTy).Contents (Elt F) → (⟨S131072x24x1x1, .f32⟩ : BufTy).Contents (Elt F) → (⟨S131072x24x4x1, .f32⟩ : BufTy).Contents (Elt F))) (ha := dv) (hb := dv) (hy := dv) 126 (ops_lt (by decide)) rfl (nw 127) (nw 126) (nw 126)

/-- Operation 127: after the whole line the buffer of `%119` holds the batched product `%114` · `%118`, one 4×4 matrix times a 4×1 column per batch element and joint. -/
theorem at_v119 (V : Valuation τ sig (Elt F)) :
    after ops V (main_v119 : DevRef τ sig)
      = Host.dotGeneral dot_S131072x24x4x4_S131072x24x4x1_S131072x24x4x1_3_2_2_3_01_01 none (after ops V (main_v114 : DevRef τ sig) : (⟨S131072x24x4x4, .f32⟩ : BufTy).Contents (Elt F)) (after ops V (main_v118 : DevRef τ sig) : (⟨S131072x24x4x1, .f32⟩ : BufTy).Contents (Elt F)) :=
  binary_at (a := main_v114) (b := main_v118) (y := main_v119) (f := ((fun l r => Host.dotGeneral dot_S131072x24x4x4_S131072x24x4x1_S131072x24x4x1_3_2_2_3_01_01 none l r) : (⟨S131072x24x4x4, .f32⟩ : BufTy).Contents (Elt F) → (⟨S131072x24x4x1, .f32⟩ : BufTy).Contents (Elt F) → (⟨S131072x24x4x1, .f32⟩ : BufTy).Contents (Elt F))) (ha := dv) (hb := dv) (hy := dv) 127 (ops_lt (by decide)) rfl (nw 128) (nw 127) (nw 127)

/-- Operation 128: after the whole line the buffer of `%c_5` holds the integer constant 0. -/
theorem at_c_5 (V : Valuation τ sig (Elt F)) :
    after ops V (main_c_5 : DevRef τ sig)
      = (constantI S_ 32 0#32) :=
  nullary_at (y := main_c_5) (v := (constantI S_ 32 0#32)) (hy := dv) 128 (ops_lt (by decide)) rfl (nw 129)

/-- Operation 129: after the whole line the buffer of the second padding function's `%0` holds the integer `%c_5` converted to a float. -/
theorem at_call1_v0 (V : Valuation τ sig (Elt F)) :
    after ops V (main_call1_v0 : DevRef τ sig)
      = sitofp .f32 (after ops V (main_c_5 : DevRef τ sig) : (⟨S_, .i32⟩ : BufTy).Contents (Elt F)) :=
  unary_at (x := main_c_5) (y := main_call1_v0) (f := (sitofp .f32 : (⟨S_, .i32⟩ : BufTy).Contents (Elt F) → (⟨S_, .f32⟩ : BufTy).Contents (Elt F))) (hx := dv) (hy := dv) 129 (ops_lt (by decide)) rfl (nw 130) (nw 129)

/-- Operation 130: after the whole line the buffer of `%120` holds `%119` padded with the value the second padding function's `%0` to shape 131072×24×4×4: [0, 0, 0, 3] entries before and [0, 0, 0, 0] after along each axis. -/
theorem at_v120 (V : Valuation τ sig (Elt F)) :
    after ops V (main_v120 : DevRef τ sig)
      = pad S131072x24x4x4 ![0, 0, 0, 3] ![0, 0, 0, 0] ![0, 0, 0, 0] (after ops V (main_v119 : DevRef τ sig) : (⟨S131072x24x4x1, .f32⟩ : BufTy).Contents (Elt F)) (after ops V (main_call1_v0 : DevRef τ sig) : (⟨S_, .f32⟩ : BufTy).Contents (Elt F)) pads_S131072x24x4x1_S131072x24x4x4_000_000_000_300 h_S_ :=
  binary_at (a := main_v119) (b := main_call1_v0) (y := main_v120) (f := ((fun x v => pad S131072x24x4x4 ![0, 0, 0, 3] ![0, 0, 0, 0] ![0, 0, 0, 0] x v pads_S131072x24x4x1_S131072x24x4x4_000_000_000_300 h_S_) : (⟨S131072x24x4x1, .f32⟩ : BufTy).Contents (Elt F) → (⟨S_, .f32⟩ : BufTy).Contents (Elt F) → (⟨S131072x24x4x4, .f32⟩ : BufTy).Contents (Elt F))) (ha := dv) (hb := dv) (hy := dv) 130 (ops_lt (by decide)) rfl (nw 131) (nw 130) (nw 130)

/-- Operation 131: after the whole line the buffer of `%121` holds the elementwise difference `%114` − `%120`. -/
theorem at_v121 (V : Valuation τ sig (Elt F)) :
    after ops V (main_v121 : DevRef τ sig)
      = (subf : (⟨S131072x24x4x4, .f32⟩ : BufTy).Contents (Elt F) → (⟨S131072x24x4x4, .f32⟩ : BufTy).Contents (Elt F) → (⟨S131072x24x4x4, .f32⟩ : BufTy).Contents (Elt F)) (after ops V (main_v114 : DevRef τ sig) : (⟨S131072x24x4x4, .f32⟩ : BufTy).Contents (Elt F)) (after ops V (main_v120 : DevRef τ sig) : (⟨S131072x24x4x4, .f32⟩ : BufTy).Contents (Elt F)) :=
  binary_at (a := main_v114) (b := main_v120) (y := main_v121) (f := (subf : (⟨S131072x24x4x4, .f32⟩ : BufTy).Contents (Elt F) → (⟨S131072x24x4x4, .f32⟩ : BufTy).Contents (Elt F) → (⟨S131072x24x4x4, .f32⟩ : BufTy).Contents (Elt F))) (ha := dv) (hb := dv) (hy := dv) 131 (ops_lt (by decide)) rfl (nw 132) (nw 131) (nw 131)

end Cert.ReferenceIdeal.RefRun

end
-- ==== Proof.RefStages1.lean ====
/-
  The reference program's data-moving operations and its matrix products, each read at one index.

  The program keeps, for every batch element b, 24 joints j, each with a 4x4 matrix. It cuts one joint's matrix out of
  the stack (a slice along the joint axis, then a reshape that drops that axis), multiplies two such stacks of matrices
  batch element by batch element, puts a matrix back as a one-joint stack, and lays the 24 one-joint stacks end to end
  along the joint axis (16 of them, then 8, then the two runs). It also glues a fourth row under a 3-row column, a fourth
  column beside a 3-column block, cuts the last column's first three rows out, and multiplies every joint's matrix by a
  4-vector. Each lemma says which element of its operand such an operation reads at the index (b, j, r, c); a product
  is the sum over the four inner indices of the products of the entries.
-/
import proofs.«156383_j88811333747289_2_alg».proof.Proof.Gen.ReferenceIdeal
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StackMember

noncomputable section

open scoped BigOperators

namespace Cert.ReferenceIdeal.RefStage

open Idealize.ShloMosaic Idealize.ShloMosaic.ValueIdx Cert.ReferenceIdeal Cert.ReferenceIdeal.Gen

variable {α : Type}

/-! ## One joint cut out of the stack, and the joint axis dropped -/

/-- The slice that keeps joint n of every batch element reads, at (b, 0, r, c), the stack at (b, n, r, c). -/
theorem slice_joint_apply (n : Nat) (hn : n < 24) (x : S131072x24x4x4.Idx → α)
    (h : S131072x24x4x4.Slices ![0, n, 0, 0] S131072x1x4x4) (b : Fin 131072) (r c : Fin 4) :
    extractStridedSlice S131072x1x4x4 ![0, n, 0, 0] x h (ix4 b (0 : Fin 1) r c) = x (ix4 b (⟨n, hn⟩ : Fin 24) r c) :=
  slice4_axis1_apply n x h b (0 : Fin 1) r c ⟨n, hn⟩ rfl

/-- Dropping the one-joint axis: the reshape to [B, 4, 4] reads, at (b, r, c), its operand at (b, 0, r, c). -/
theorem reshape_joint_apply (v : S131072x1x4x4.Idx → α) (h : S131072x1x4x4.ShapeCasts S131072x4x4)
    (b : Fin 131072) (r c : Fin 4) :
    shapeCast S131072x4x4 v h (ix3 b r c) = v (ix4 b (0 : Fin 1) r c) :=
  shapeCast_apply v h (ix3 b r c) (ix4 b (0 : Fin 1) r c) (by
    rw [Shape.rowMajor_val_four, Shape.rowMajor_val_three]
    show ((b.val * 1 + 0) * 4 + r.val) * 4 + c.val = (b.val * 4 + r.val) * 4 + c.val
    omega)

/-- A joint's matrix: the slice of joint n, reshaped to [B, 4, 4], reads at (b, r, c) the stack at (b, n, r, c). -/
theorem joint_apply (n : Nat) (hn : n < 24) (x : S131072x24x4x4.Idx → α)
    (h : S131072x24x4x4.Slices ![0, n, 0, 0] S131072x1x4x4) (hc : S131072x1x4x4.ShapeCasts S131072x4x4)
    (b : Fin 131072) (r c : Fin 4) :
    shapeCast S131072x4x4 (extractStridedSlice S131072x1x4x4 ![0, n, 0, 0] x h) hc (ix3 b r c)
      = x (ix4 b (⟨n, hn⟩ : Fin 24) r c) := by
  rw [reshape_joint_apply, slice_joint_apply n hn]

/-! ## The root's rest position cut out, and the last column's first three rows -/

/-- The slice that keeps joint 0 of a stack of columns [B, 24, 3, 1], reshaped to [B, 3, 1], reads at (b, k, 0) the
    stack at (b, 0, k, 0). -/
theorem root_column_apply (x : S131072x24x3x1.Idx → α)
    (h : S131072x24x3x1.Slices ![0, 0, 0, 0] S131072x1x3x1) (hc : S131072x1x3x1.ShapeCasts S131072x3x1)
    (b : Fin 131072) (k : Fin 3) :
    shapeCast S131072x3x1 (extractStridedSlice S131072x1x3x1 ![0, 0, 0, 0] x h) hc (ix3 b k (0 : Fin 1))
      = x (ix4 b (0 : Fin 24) k (0 : Fin 1)) := by
  rw [shapeCast_apply _ hc (ix3 b k (0 : Fin 1)) (ix4 b (0 : Fin 1) k (0 : Fin 1)) (by
    rw [Shape.rowMajor_val_four, Shape.rowMajor_val_three]
    show ((b.val * 1 + 0) * 3 + k.val) * 1 + 0 = (b.val * 3 + k.val) * 1 + 0
    omega)]
  exact slice4_axis1_apply 0 x h b (0 : Fin 1) k (0 : Fin 1) (0 : Fin 24) rfl

/-- The slice that keeps rows 0, 1, 2 of column 3 of every joint's matrix, reshaped to [B, 24, 3], reads at (b, j, k)
    the stack at (b, j, k, 3). -/
theorem last_column_apply (x : S131072x24x4x4.Idx → α)
    (h : S131072x24x4x4.Slices ![0, 0, 0, 3] S131072x24x3x1) (hc : S131072x24x3x1.ShapeCasts S131072x24x3)
    (b : Fin 131072) (j : Fin 24) (k : Fin 3) :
    shapeCast S131072x24x3 (extractStridedSlice S131072x24x3x1 ![0, 0, 0, 3] x h) hc (ix3 b j k)
      = x (ix4 b j (⟨k.val, by have := k.isLt; omega⟩ : Fin 4) (3 : Fin 4)) := by
  rw [shapeCast_apply _ hc (ix3 b j k) (ix4 b j k (0 : Fin 1)) (by
    rw [Shape.rowMajor_val_four, Shape.rowMajor_val_three]
    show ((b.val * 24 + j.val) * 3 + k.val) * 1 + 0 = (b.val * 24 + j.val) * 3 + k.val
    omega)]
  exact extractStridedSlice_apply _ x h (ix4 b j k (0 : Fin 1)) _ (fun a => match a with
    | ⟨0, _⟩ => (Nat.zero_add _).symm
    | ⟨1, _⟩ => (Nat.zero_add _).symm
    | ⟨2, _⟩ => (Nat.zero_add _).symm
    | ⟨3, _⟩ => rfl)

/-! ## The products -/

/-- The product of two stacks of 4x4 matrices, batch element by batch element: entry (r, c) of batch element b is the
    sum over the inner index of the products of the entries. -/
theorem dot_stack_apply (l r : FVec Ideal S131072x4x4 .f32) (b : Fin 131072) (i j : Fin 4) :
    Host.dotGeneral dot_S131072x4x4_S131072x4x4_S131072x4x4_2_1_1_2_0_0 none l r (ix3 b i j)
      = ∑ k : Fin 4, l (ix3 b i k) * r (ix3 b k j) :=
  StackMember.dotGeneral_stack_apply dot_S131072x4x4_S131072x4x4_S131072x4x4_2_1_1_2_0_0_wf none l r b i j

/-- Every joint's 4x4 matrix applied to that joint's 4-vector: row r of joint j of batch element b is the sum over the
    inner index of the matrix entries times the vector entries. -/
theorem dot_joints_apply (l : FVec Ideal S131072x24x4x4 .f32) (r : FVec Ideal S131072x24x4x1 .f32)
    (b : Fin 131072) (j : Fin 24) (i : Fin 4) :
    Host.dotGeneral dot_S131072x24x4x4_S131072x24x4x1_S131072x24x4x1_3_2_2_3_01_01 none l r (ix4 b j i (0 : Fin 1))
      = ∑ k : Fin 4, l (ix4 b j i k) * r (ix4 b j k (0 : Fin 1)) := by
  show FloatOps.dotGeneral _ none _ l r (ix4 b j i (0 : Fin 1)) = _
  rw [Ideal.dotGeneral_apply,
    ← Equiv.sum_comp (contrEquiv1 dot_S131072x24x4x4_S131072x24x4x1_S131072x24x4x1_3_2_2_3_01_01 4 rfl rfl).symm]
  refine Finset.sum_congr rfl fun k _ => ?_
  have ck := contrEquiv1_symm_val dot_S131072x24x4x4_S131072x24x4x1_S131072x24x4x1_3_2_2_3_01_01 4 rfl rfl k
  have hl : dot_S131072x24x4x4_S131072x24x4x1_S131072x24x4x1_3_2_2_3_01_01.lhsIdx (ix4 b j i (0 : Fin 1))
      ((contrEquiv1 _ 4 rfl rfl).symm k) = ix4 b j i k := by
    funext ax; apply Fin.ext
    match ax with
    | ⟨0, _⟩ => simp [DotDims.lhsIdx, dot_S131072x24x4x4_S131072x24x4x1_S131072x24x4x1_3_2_2_3_01_01] <;> first | rfl | exact ck
    | ⟨1, _⟩ => simp [DotDims.lhsIdx, dot_S131072x24x4x4_S131072x24x4x1_S131072x24x4x1_3_2_2_3_01_01] <;> first | rfl | exact ck
    | ⟨2, _⟩ => simp [DotDims.lhsIdx, dot_S131072x24x4x4_S131072x24x4x1_S131072x24x4x1_3_2_2_3_01_01] <;> first | rfl | exact ck
    | ⟨3, _⟩ => simp [DotDims.lhsIdx, dot_S131072x24x4x4_S131072x24x4x1_S131072x24x4x1_3_2_2_3_01_01] <;> first | rfl | exact ck
  have hr : dot_S131072x24x4x4_S131072x24x4x1_S131072x24x4x1_3_2_2_3_01_01.rhsIdx (ix4 b j i (0 : Fin 1))
      ((contrEquiv1 _ 4 rfl rfl).symm k) = ix4 b j k (0 : Fin 1) := by
    funext ax; apply Fin.ext
    match ax with
    | ⟨0, _⟩ => simp [DotDims.rhsIdx, dot_S131072x24x4x4_S131072x24x4x1_S131072x24x4x1_3_2_2_3_01_01] <;> first | rfl | exact ck
    | ⟨1, _⟩ => simp [DotDims.rhsIdx, dot_S131072x24x4x4_S131072x24x4x1_S131072x24x4x1_3_2_2_3_01_01] <;> first | rfl | exact ck
    | ⟨2, _⟩ => simp [DotDims.rhsIdx, dot_S131072x24x4x4_S131072x24x4x1_S131072x24x4x1_3_2_2_3_01_01] <;> first | rfl | exact ck
    | ⟨3, _⟩ => simp [DotDims.rhsIdx, dot_S131072x24x4x4_S131072x24x4x1_S131072x24x4x1_3_2_2_3_01_01] <;> first | rfl | exact ck
  rw [hl, hr]

/-! ## Two pieces laid end to end -/

/-- A fourth row under a 3-row column: rows 0, 1, 2 read the column, row 3 reads the one-row piece. -/
theorem concat_rows_apply (x : S131072x24x3x1.Idx → α) (y : S131072x24x1x1.Idx → α)
    (h : Shape.Concatenates [S131072x24x3x1, S131072x24x1x1] S131072x24x4x1 2)
    (b : Fin 131072) (j : Fin 24) (r : Fin 4) :
    concatenate S131072x24x4x1 2 [⟨S131072x24x3x1, x⟩, ⟨S131072x24x1x1, y⟩] h (ix4 b j r (0 : Fin 1))
      = if hr : r.val < 3 then x (ix4 b j (⟨r.val, hr⟩ : Fin 3) (0 : Fin 1)) else y (ix4 b j (0 : Fin 1) (0 : Fin 1)) := by
  split
  · next hr =>
    exact concatenate_pair_apply_left 2 x y h (ix4 b j r (0 : Fin 1)) rfl (ix4 b j (⟨r.val, hr⟩ : Fin 3) (0 : Fin 1))
      (fun a => match a with
        | ⟨0, _⟩ => rfl
        | ⟨1, _⟩ => rfl
        | ⟨2, _⟩ => rfl
        | ⟨3, _⟩ => rfl)
  · next hr =>
    exact concatenate_pair_apply_right 2 x y h (ix4 b j r (0 : Fin 1)) rfl rfl (ix4 b j (0 : Fin 1) (0 : Fin 1))
      (fun a ha => match a, ha with
        | ⟨0, _⟩, _ => rfl
        | ⟨1, _⟩, _ => rfl
        | ⟨2, _⟩, ha => absurd rfl ha
        | ⟨3, _⟩, _ => rfl)
      (by show 0 + 3 = r.val; have := r.isLt; omega)

/-- A fourth column beside a 3-column block: columns 0, 1, 2 read the block, column 3 reads the one-column piece. -/
theorem concat_cols_apply (x : S131072x24x4x3.Idx → α) (y : S131072x24x4x1.Idx → α)
    (h : Shape.Concatenates [S131072x24x4x3, S131072x24x4x1] S131072x24x4x4 3)
    (b : Fin 131072) (j : Fin 24) (r c : Fin 4) :
    concatenate S131072x24x4x4 3 [⟨S131072x24x4x3, x⟩, ⟨S131072x24x4x1, y⟩] h (ix4 b j r c)
      = if hc : c.val < 3 then x (ix4 b j r (⟨c.val, hc⟩ : Fin 3)) else y (ix4 b j r (0 : Fin 1)) := by
  split
  · next hc =>
    exact concatenate_pair_apply_left 3 x y h (ix4 b j r c) rfl (ix4 b j r (⟨c.val, hc⟩ : Fin 3))
      (fun a => match a with
        | ⟨0, _⟩ => rfl
        | ⟨1, _⟩ => rfl
        | ⟨2, _⟩ => rfl
        | ⟨3, _⟩ => rfl)
  · next hc =>
    exact concatenate_pair_apply_right 3 x y h (ix4 b j r c) rfl rfl (ix4 b j r (0 : Fin 1))
      (fun a ha => match a, ha with
        | ⟨0, _⟩, _ => rfl
        | ⟨1, _⟩, _ => rfl
        | ⟨2, _⟩, _ => rfl
        | ⟨3, _⟩, ha => absurd rfl ha)
      (by show 0 + 3 = c.val; have := c.isLt; omega)

/-- The first 16 joints followed by the last 8: joint j < 16 reads the first run at j, joint j ≥ 16 the second at j - 16. -/
theorem concat_runs_apply (x : S131072x16x4x4.Idx → α) (y : S131072x8x4x4.Idx → α)
    (h : Shape.Concatenates [S131072x16x4x4, S131072x8x4x4] S131072x24x4x4 1)
    (b : Fin 131072) (j : Fin 24) (r c : Fin 4) :
    concatenate S131072x24x4x4 1 [⟨S131072x16x4x4, x⟩, ⟨S131072x8x4x4, y⟩] h (ix4 b j r c)
      = if hj : j.val < 16 then x (ix4 b (⟨j.val, hj⟩ : Fin 16) r c)
        else y (ix4 b (⟨j.val - 16, by have := j.isLt; omega⟩ : Fin 8) r c) := by
  split
  · next hj =>
    exact concatenate_pair_apply_left 1 x y h (ix4 b j r c) rfl (ix4 b (⟨j.val, hj⟩ : Fin 16) r c)
      (fun a => match a with
        | ⟨0, _⟩ => rfl
        | ⟨1, _⟩ => rfl
        | ⟨2, _⟩ => rfl
        | ⟨3, _⟩ => rfl)
  · next hj =>
    exact concatenate_pair_apply_right 1 x y h (ix4 b j r c) rfl rfl
      (ix4 b (⟨j.val - 16, by have := j.isLt; omega⟩ : Fin 8) r c)
      (fun a ha => match a, ha with
        | ⟨0, _⟩, _ => rfl
        | ⟨1, _⟩, ha => absurd rfl ha
        | ⟨2, _⟩, _ => rfl
        | ⟨3, _⟩, _ => rfl)
      (by show j.val - 16 + 16 = j.val; omega)

/-! ## A matrix put back as a one-joint stack, and the one-joint stacks laid end to end -/

/-- The broadcast of a stack of matrices [B, 4, 4] to a one-joint stack [B, 1, 4, 4] reads, at (b, 0, r, c), the
    matrix entry (b, r, c). -/
theorem unit_joint_apply (x : S131072x4x4.Idx → α)
    (h : S131072x4x4.BroadcastsInDim S131072x1x4x4 (![0, 2, 3] : Fin 3 → Fin S131072x1x4x4.rank))
    (b : Fin 131072) (r c : Fin 4) :
    broadcastInDim S131072x1x4x4 ![0, 2, 3] h x (ix4 b (0 : Fin 1) r c) = x (ix3 b r c) :=
  broadcastInDim_apply _ h x (ix4 b (0 : Fin 1) r c) (ix3 b r c) (fun a => match a with
    | ⟨0, _⟩ => rfl
    | ⟨1, _⟩ => rfl
    | ⟨2, _⟩ => rfl)

/-- Sixteen one-joint stacks laid end to end along the joint axis: joint n reads piece n at (b, 0, r, c). -/
theorem concat16_apply (u : Fin 16 → S131072x1x4x4.Idx → α)
    (h : Shape.Concatenates [S131072x1x4x4, S131072x1x4x4, S131072x1x4x4, S131072x1x4x4, S131072x1x4x4, S131072x1x4x4, S131072x1x4x4, S131072x1x4x4, S131072x1x4x4, S131072x1x4x4, S131072x1x4x4, S131072x1x4x4, S131072x1x4x4, S131072x1x4x4, S131072x1x4x4, S131072x1x4x4] S131072x16x4x4 1)
    (b : Fin 131072) (n : Fin 16) (r c : Fin 4) :
    concatenate S131072x16x4x4 1 [⟨S131072x1x4x4, u 0⟩, ⟨S131072x1x4x4, u 1⟩, ⟨S131072x1x4x4, u 2⟩, ⟨S131072x1x4x4, u 3⟩, ⟨S131072x1x4x4, u 4⟩, ⟨S131072x1x4x4, u 5⟩, ⟨S131072x1x4x4, u 6⟩, ⟨S131072x1x4x4, u 7⟩, ⟨S131072x1x4x4, u 8⟩, ⟨S131072x1x4x4, u 9⟩, ⟨S131072x1x4x4, u 10⟩, ⟨S131072x1x4x4, u 11⟩, ⟨S131072x1x4x4, u 12⟩, ⟨S131072x1x4x4, u 13⟩, ⟨S131072x1x4x4, u 14⟩, ⟨S131072x1x4x4, u 15⟩] h (ix4 b n r c)
      = u n (ix4 b (0 : Fin 1) r c) :=
  concatenate_ofFn_unit_apply (t := S131072x16x4x4) (s₁ := S131072x1x4x4) 1 u h rfl rfl (ix4 b n r c) n rfl
    (ix4 b (0 : Fin 1) r c)
    (fun a ha => match a, ha with
      | ⟨0, _⟩, _ => rfl
      | ⟨1, _⟩, ha => absurd rfl ha
      | ⟨2, _⟩, _ => rfl
      | ⟨3, _⟩, _ => rfl)

/-- Eight one-joint stacks laid end to end along the joint axis: joint n reads piece n at (b, 0, r, c). -/
theorem concat8_apply (u : Fin 8 → S131072x1x4x4.Idx → α)
    (h : Shape.Concatenates [S131072x1x4x4, S131072x1x4x4, S131072x1x4x4, S131072x1x4x4, S131072x1x4x4, S131072x1x4x4, S131072x1x4x4, S131072x1x4x4] S131072x8x4x4 1)
    (b : Fin 131072) (n : Fin 8) (r c : Fin 4) :
    concatenate S131072x8x4x4 1 [⟨S131072x1x4x4, u 0⟩, ⟨S131072x1x4x4, u 1⟩, ⟨S131072x1x4x4, u 2⟩, ⟨S131072x1x4x4, u 3⟩, ⟨S131072x1x4x4, u 4⟩, ⟨S131072x1x4x4, u 5⟩, ⟨S131072x1x4x4, u 6⟩, ⟨S131072x1x4x4, u 7⟩] h (ix4 b n r c)
      = u n (ix4 b (0 : Fin 1) r c) :=
  concatenate_ofFn_unit_apply (t := S131072x8x4x4) (s₁ := S131072x1x4x4) 1 u h rfl rfl (ix4 b n r c) n rfl
    (ix4 b (0 : Fin 1) r c)
    (fun a ha => match a, ha with
      | ⟨0, _⟩, _ => rfl
      | ⟨1, _⟩, ha => absurd rfl ha
      | ⟨2, _⟩, _ => rfl
      | ⟨3, _⟩, _ => rfl)

end Cert.ReferenceIdeal.RefStage

end
-- ==== Proof.RefStages2.lean ====
/-
  The reference program's remaining layout operations and its constants, each read at one index.

  A rest position [B, 24, 3] is turned into a column [B, 24, 3, 1]; a 3x3 block gets a fourth row of the padding value
  under it; a 4-vector [B, 24, 4, 1] gets three columns of the padding value in front of it; the padding value is the
  integer 0 converted to a float, which is the real 0; and the arrays filled with one constant, 1 or 0, read that
  constant everywhere.
-/
import proofs.«156383_j88811333747289_2_alg».proof.Proof.Gen.ReferenceIdeal
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import Idealize.ShloMosaic.Lib.KernelVsHost

noncomputable section

open scoped BigOperators

namespace Cert.ReferenceIdeal.RefStage

open Idealize.ShloMosaic Idealize.ShloMosaic.ValueIdx Cert.ReferenceIdeal Cert.ReferenceIdeal.Gen

variable {α : Type}

/-! ## A rest position as a column -/

/-- The broadcast of [B, 24, 3] to [B, 24, 3, 1] reads, at (b, j, k, 0), its operand at (b, j, k). -/
theorem column_apply (x : S131072x24x3.Idx → α)
    (h : S131072x24x3.BroadcastsInDim S131072x24x3x1 (![0, 1, 2] : Fin 3 → Fin S131072x24x3x1.rank))
    (b : Fin 131072) (j : Fin 24) (k : Fin 3) :
    broadcastInDim S131072x24x3x1 ![0, 1, 2] h x (ix4 b j k (0 : Fin 1)) = x (ix3 b j k) :=
  broadcastInDim_apply _ h x (ix4 b j k (0 : Fin 1)) (ix3 b j k) (fun a => match a with
    | ⟨0, _⟩ => rfl
    | ⟨1, _⟩ => rfl
    | ⟨2, _⟩ => rfl)

/-! ## The two paddings -/

/-- One row of the padding value under every 3x3 block: rows 0, 1, 2 read the block, row 3 the padding value. -/
theorem pad_row_apply (x : S131072x24x3x3.Idx → α) (v : S_.Idx → α)
    (h : S131072x24x3x3.Pads (![0, 0, 0, 0] : Fin 4 → Nat) ![0, 0, 1, 0] ![0, 0, 0, 0] S131072x24x4x3)
    (hu : 0 < S_.numel) (b : Fin 131072) (j : Fin 24) (r : Fin 4) (c : Fin 3) :
    pad S131072x24x4x3 ![0, 0, 0, 0] ![0, 0, 1, 0] ![0, 0, 0, 0] x v h hu (ix4 b j r c)
      = if hr : r.val < 3 then x (ix4 b j (⟨r.val, hr⟩ : Fin 3) c) else v ix0 := by
  split
  · next hr =>
    exact pad_apply_of_inside _ _ _ x v h hu (ix4 b j r c) (ix4 b j (⟨r.val, hr⟩ : Fin 3) c) (fun a => match a with
      | ⟨0, _⟩ => by show b.val = 0 + b.val * (0 + 1); omega
      | ⟨1, _⟩ => by show j.val = 0 + j.val * (0 + 1); omega
      | ⟨2, _⟩ => by show r.val = 0 + r.val * (0 + 1); omega
      | ⟨3, _⟩ => by show c.val = 0 + c.val * (0 + 1); omega)
  · next hr =>
    rw [pad_apply_of_not_inside _ _ _ x v h hu (ix4 b j r c) (2 : Fin 4) (fun hin => hr (by
      have h3 := hin.2.2
      have e : ((ix4 b j r c : S131072x24x4x3.Idx) ((2 : Fin 4).cast h.1)).val = r.val := rfl
      rw [e] at h3
      have e0 : (![0, 0, 0, 0] : Fin 4 → Nat) 2 = 0 := rfl
      have e3 : S131072x24x3x3.size (2 : Fin 4) = 3 := rfl
      rw [e0, e3, Nat.sub_zero, Nat.zero_add, Nat.div_one] at h3
      exact h3))]
    exact congrArg v (eq_ix0 _)

/-- Three columns of the padding value in front of every 4-vector: columns 0, 1, 2 read the padding value, column 3
    the vector. -/
theorem pad_cols_apply (x : S131072x24x4x1.Idx → α) (v : S_.Idx → α)
    (h : S131072x24x4x1.Pads (![0, 0, 0, 3] : Fin 4 → Nat) ![0, 0, 0, 0] ![0, 0, 0, 0] S131072x24x4x4)
    (hu : 0 < S_.numel) (b : Fin 131072) (j : Fin 24) (r c : Fin 4) :
    pad S131072x24x4x4 ![0, 0, 0, 3] ![0, 0, 0, 0] ![0, 0, 0, 0] x v h hu (ix4 b j r c)
      = if c.val < 3 then v ix0 else x (ix4 b j r (0 : Fin 1)) := by
  split
  · next hc =>
    rw [pad_apply_of_not_inside _ _ _ x v h hu (ix4 b j r c) (3 : Fin 4) (fun hin => by
      have h1 := hin.1
      have e : ((ix4 b j r c : S131072x24x4x4.Idx) ((3 : Fin 4).cast h.1)).val = c.val := rfl
      have e0 : (![0, 0, 0, 3] : Fin 4 → Nat) 3 = 3 := rfl
      rw [e, e0] at h1
      omega)]
    exact congrArg v (eq_ix0 _)
  · next hc =>
    exact pad_apply_of_inside _ _ _ x v h hu (ix4 b j r c) (ix4 b j r (0 : Fin 1)) (fun a => match a with
      | ⟨0, _⟩ => by show b.val = 0 + b.val * (0 + 1); omega
      | ⟨1, _⟩ => by show j.val = 0 + j.val * (0 + 1); omega
      | ⟨2, _⟩ => by show r.val = 0 + r.val * (0 + 1); omega
      | ⟨3, _⟩ => by show c.val = 3 + 0 * (0 + 1); have := c.isLt; omega)

/-- The padding value: the integer 0 converted to a float is the real 0. -/
theorem sitofp_zero : FloatOps.sitofp (F := Ideal) .f32 (0#32) = (0 : EReal) := by
  show (((0#32 : BitVec 32).toInt : ℝ) : EReal) = 0
  simp

/-- The padding value as the program computes it: the conversion of the scalar array holding the integer 0. -/
theorem pad_value_apply (i : S_.Idx) : (sitofp (F := Ideal) .f32 (constantI S_ 32 0#32) : FVec Ideal S_ .f32) i = (0 : EReal) := by
  rw [sitofp_apply, constantI_apply, sitofp_zero]

/-! ## The arrays filled with one constant -/

/-- The array filled with the float whose bits are 0x3F800000 reads 1 everywhere. -/
theorem splat_one_apply (h : S_.BroadcastsInDim S131072x24x1x1 (![] : Fin 0 → Fin S131072x24x1x1.rank))
    (i : S131072x24x1x1.Idx) :
    broadcastInDim S131072x24x1x1 ![] h (constant (F := Ideal) S_ .f32 0x3F800000#32) i = (1 : EReal) := by
  rw [broadcastInDim_scalar_apply, constant_apply, Ideal.ofBits_one_f32]

/-- The array filled with the float whose bits are all zero reads 0 everywhere. -/
theorem splat_zero_apply (h : S_.BroadcastsInDim S131072x24x1x1 (![] : Fin 0 → Fin S131072x24x1x1.rank))
    (i : S131072x24x1x1.Idx) :
    broadcastInDim S131072x24x1x1 ![] h (constant (F := Ideal) S_ .f32 0x00000000#32) i = (0 : EReal) := by
  rw [broadcastInDim_scalar_apply, constant_apply, Ideal.ofBits_zero_f32]

end Cert.ReferenceIdeal.RefStage

end
-- ==== Proof.RefStages3.lean ====
/-
  The reference program's parent table, its gather of every joint's parent, and its overwrite of the root's entry,
  each read at one index.

  The table lists, for each of the 24 joints, the number of its parent (the root lists itself). The program first
  "normalises" the table — an entry below zero would have 24 added — which changes nothing, every entry being at least
  zero; then, for every joint j, it fetches the column of joint (table j): a gather along the joint axis whose start
  index is clamped into the joints' range, which no entry leaves. Last it overwrites joint 0's column of one array
  with a column taken from another: a scatter of one window at the start index 0.
-/
import proofs.«156383_j88811333747289_2_alg».proof.Proof.Gen.ReferenceIdeal
import proofs.«156383_j88811333747289_2_alg».proof.Proof.PoseSpec
import proofs.«156383_j88811333747289_2_alg».proof.Proof.PoseArrays
import Idealize.ShloMosaic.Lib.ValueIdx
import Idealize.ShloMosaic.Lib.ValueLayout
import Idealize.ShloMosaic.Lib.Pipeline.Value
import Idealize.ShloMosaic.Lib.IdealHost
import Mathlib.Tactic.FinCases

noncomputable section

namespace Cert.ReferenceIdeal.RefStage

open Idealize.ShloMosaic Idealize.ShloMosaic.ValueIdx Cert.ReferenceIdeal Cert.ReferenceIdeal.Gen

variable {α : Type}

/-! ## The parent table -/

/-- The table's array reads, at joint j, the table's entry j. -/
theorem table_apply (j : Fin 24) : (fun i => lit0 (S24.rowMajor i) : IVec S24 32) (ix1 j) = lit0 j := by
  show lit0 (S24.rowMajor (ix1 j)) = lit0 j
  exact congrArg lit0 (Fin.ext (Shape.rowMajor_val_one _))

/-- No entry of the table is below zero, read as a signed word. -/
theorem table_nonneg (j : Fin 24) : IntOp.cmpi .slt (lit0 j) 0#32 = 0#1 := by
  fin_cases j <;> rfl

/-- Normalising the table changes nothing: where an entry is below zero it would take the entry plus 24, and none is. -/
theorem table_normalised (h0 h24 : S_.BroadcastsInDim S24 (![] : Fin 0 → Fin S24.rank)) :
    select (cmpi .slt (fun i => lit0 (S24.rowMajor i) : IVec S24 32) (broadcastInDim S24 ![] h0 (constantI S_ 32 0#32)))
        (addi (fun i => lit0 (S24.rowMajor i) : IVec S24 32) (broadcastInDim S24 ![] h24 (constantI S_ 32 24#32)))
        (fun i => lit0 (S24.rowMajor i) : IVec S24 32)
      = (fun i => lit0 (S24.rowMajor i) : IVec S24 32) := by
  funext i
  obtain ⟨j, rfl⟩ : ∃ j : Fin 24, i = ix1 j := ⟨i 0, eq_ix1 i⟩
  rw [select_apply]
  show Scalar.select (IntOp.cmpi .slt ((fun i => lit0 (S24.rowMajor i) : IVec S24 32) (ix1 j))
    (broadcastInDim S24 ![] h0 (constantI S_ 32 0#32) (ix1 j))) _ _ = _
  rw [broadcastInDim_scalar_apply, constantI_apply, table_apply, table_nonneg, select_zero]

/-- The table as a one-column array [24, 1] reads, at (j, 0), the table at j. -/
theorem table_column_apply (v : S24.Idx → α) (h : S24.BroadcastsInDim S24x1 (![0] : Fin 1 → Fin S24x1.rank)) (j : Fin 24) :
    broadcastInDim S24x1 ![0] h v (ix2 j (0 : Fin 1)) = v (ix1 j) :=
  broadcastInDim_apply _ h v (ix2 j (0 : Fin 1)) (ix1 j) (fun a => match a with
    | ⟨0, _⟩ => rfl)

/-- The start indices the gather is given — the normalised table as a one-column array — read, at (j, 0), the table's
    entry j. -/
theorem parents_index_apply (h0 h24 : S_.BroadcastsInDim S24 (![] : Fin 0 → Fin S24.rank))
    (hb : S24.BroadcastsInDim S24x1 (![0] : Fin 1 → Fin S24x1.rank)) (j : Fin 24) :
    broadcastInDim S24x1 ![0] hb
        (select (cmpi .slt (fun i => lit0 (S24.rowMajor i) : IVec S24 32) (broadcastInDim S24 ![] h0 (constantI S_ 32 0#32)))
          (addi (fun i => lit0 (S24.rowMajor i) : IVec S24 32) (broadcastInDim S24 ![] h24 (constantI S_ 32 24#32)))
          (fun i => lit0 (S24.rowMajor i) : IVec S24 32)) (ix2 j (0 : Fin 1))
      = lit0 j := by
  rw [table_normalised, table_column_apply]
  exact table_apply j

/-! ## The gather of every joint's parent -/

/-- The joint whose number the table lists for joint j (the number clamped into the joints' range, which it never
    leaves). -/
def parent (j : Fin 24) : Fin 24 := ⟨min (lit0 j).toInt.toNat 23, by omega⟩

/-- The table is the skeleton's parent function. -/
theorem parent_val (j : Fin 24) : (parent j).val = Cert.Pose.par j.val := by
  fin_cases j <;> rfl

/-- The joint-axis coordinate of joint j's parent number is parent j. -/
theorem jt_par (j : Fin 24) : Cert.Pose.jt (Cert.Pose.par j.val) = parent j := by
  rw [← parent_val]
  exact Cert.Pose.jt_val _

/-- The gather reads, at (b, j, k, 0), the operand at (b, parent j, k, 0). -/
theorem gather_parent_apply (x : S131072x24x3x1.Idx → α) (idx : IVec S24x1 32)
    (b : Fin 131072) (j : Fin 24) (k : Fin 3) (hidx : idx (ix2 j (0 : Fin 1)) = lit0 j) :
    Host.gather gather_S131072x24x3x1_S24x1_S131072x24x3x1_023_1_n_n_1_1_131072131 x idx (ix4 b j k (0 : Fin 1)) = x (ix4 b (parent j) k (0 : Fin 1)) := by
  unfold Host.gather
  congr 1
  funext a
  refine Fin.ext ?_
  show gather_S131072x24x3x1_S24x1_S131072x24x3x1_023_1_n_n_1_1_131072131.start _ idx a + gather_S131072x24x3x1_S24x1_S131072x24x3x1_023_1_n_n_1_1_131072131.batchCoord _ a + gather_S131072x24x3x1_S24x1_S131072x24x3x1_023_1_n_n_1_1_131072131.offCoord _ a = _
  rw [GatherDims.batchCoord_eq_zero _ _ _ List.not_mem_nil, Nat.add_zero]
  match a with
  | ⟨0, _⟩ =>
    simp [GatherDims.start, GatherDims.offCoord, gather_S131072x24x3x1_S24x1_S131072x24x3x1_023_1_n_n_1_1_131072131, Shape.kept]
    rfl
  | ⟨1, h1⟩ =>
    have hmem : (⟨1, h1⟩ : Fin S131072x24x3x1.rank) ∈ gather_S131072x24x3x1_S24x1_S131072x24x3x1_023_1_n_n_1_1_131072131.startIndexMap := List.mem_singleton.mpr rfl
    rw [GatherDims.offCoord_eq_zero _ _ _ (fun h => ((GatherDims.mem_sKept _ _).mp h).1 (List.mem_singleton.mpr rfl)),
      Nat.add_zero]
    unfold GatherDims.start
    rw [dif_pos hmem]
    have hsi : gather_S131072x24x3x1_S24x1_S131072x24x3x1_023_1_n_n_1_1_131072131.siIdx (ix4 b j k (0 : Fin 1)) ⟨List.idxOf (⟨1, h1⟩ : Fin S131072x24x3x1.rank) gather_S131072x24x3x1_S24x1_S131072x24x3x1_023_1_n_n_1_1_131072131.startIndexMap,
        List.idxOf_lt_length_iff.2 hmem⟩ = ix2 j (0 : Fin 1) := by
      funext c; refine Fin.ext ?_
      match c with
      | ⟨0, _⟩ => rfl
      | ⟨1, _⟩ => rfl
    rw [hsi, hidx]
    rfl
  | ⟨2, _⟩ =>
    simp [GatherDims.start, GatherDims.offCoord, gather_S131072x24x3x1_S24x1_S131072x24x3x1_023_1_n_n_1_1_131072131, Shape.kept]
    rfl
  | ⟨3, _⟩ =>
    simp [GatherDims.start, GatherDims.offCoord, gather_S131072x24x3x1_S24x1_S131072x24x3x1_023_1_n_n_1_1_131072131, Shape.kept]
    rfl

/-! ## A fold of overwrites -/

section Overwrite
variable {N I V : Type}

/-- A fold of steps, each of which changes at most the entry it names, leaves alone an entry that no step names. -/
theorem foldl_overwrite_miss (step : (I → V) → N → (I → V)) (ρ : N → I)
    (hmiss : ∀ r n i, i ≠ ρ n → step r n i = r i) :
    ∀ (L : List N) (x : I → V) (i : I), (∀ n ∈ L, i ≠ ρ n) → L.foldl step x i = x i
  | [], _, _, _ => rfl
  | n :: L, x, i, h => by
    rw [List.foldl_cons, foldl_overwrite_miss step ρ hmiss L (step x n) i (fun m hm => h m (List.mem_cons_of_mem _ hm)),
      hmiss x n i (h n List.mem_cons_self)]

/-- A fold of steps, each of which sets the entry it names and changes no other, over steps that name different
    entries: the entry a step names holds what that step set. -/
theorem foldl_overwrite_hit (step : (I → V) → N → (I → V)) (ρ : N → I) (g : N → V)
    (hhit : ∀ r n, step r n (ρ n) = g n) (hmiss : ∀ r n i, i ≠ ρ n → step r n i = r i) :
    ∀ (L : List N) (x : I → V) (n₀ : N), n₀ ∈ L → L.Nodup → (∀ n ∈ L, ∀ m ∈ L, ρ n = ρ m → n = m) →
      L.foldl step x (ρ n₀) = g n₀
  | [], _, _, h, _, _ => absurd h List.not_mem_nil
  | n :: L, x, n₀, hmem, hnd, hinj => by
    rw [List.foldl_cons]
    by_cases e : n₀ = n
    · subst e
      rw [foldl_overwrite_miss step ρ hmiss L _ _ (fun m hm hρ => by
        have := hinj n₀ List.mem_cons_self m (List.mem_cons_of_mem _ hm) hρ
        subst this
        exact (List.nodup_cons.1 hnd).1 hm), hhit]
    · exact foldl_overwrite_hit step ρ g hhit hmiss L _ n₀ ((List.mem_cons.1 hmem).resolve_left e)
        (List.nodup_cons.1 hnd).2 (fun a ha c hc => hinj a (List.mem_cons_of_mem _ ha) c (List.mem_cons_of_mem _ hc))

end Overwrite

/-! ## A scatter that sets: each update element lands somewhere, no two at one place -/

section ScatterSet
variable {s si u : Shape} {w : Nat}

/-- Where an update element lands, the result holds that element. -/
theorem scatter_set_hit (d : ScatterDims s si u) (x : s.Idx → α) (idx : IVec si w) (upd : u.Idx → α)
    (ρ : u.Idx → s.Idx) (hρ : ∀ jj, d.resultIdx? jj idx = some (ρ jj)) (hinj : Function.Injective ρ) (jj : u.Idx) :
    Host.scatter d (fun _ v => v) x idx upd (ρ jj) = upd jj := by
  unfold Host.scatter
  obtain ⟨n₀, rfl⟩ : ∃ n₀, u.rowMajor.symm n₀ = jj := ⟨u.rowMajor jj, Equiv.symm_apply_apply _ _⟩
  exact foldl_overwrite_hit _ (fun n => ρ (u.rowMajor.symm n)) (fun n => upd (u.rowMajor.symm n))
    (fun r n => by dsimp only; rw [hρ]; exact if_pos rfl)
    (fun r n i hi => by dsimp only; rw [hρ]; exact if_neg hi)
    _ x n₀ (List.mem_finRange _) (List.nodup_finRange _)
    (fun n _ m _ h => u.rowMajor.symm.injective (hinj h))

/-- Where no update element lands, the result holds the operand's element. -/
theorem scatter_set_miss (d : ScatterDims s si u) (x : s.Idx → α) (idx : IVec si w) (upd : u.Idx → α)
    (ρ : u.Idx → s.Idx) (hρ : ∀ jj, d.resultIdx? jj idx = some (ρ jj)) (i : s.Idx) (hi : ∀ jj, i ≠ ρ jj) :
    Host.scatter d (fun _ v => v) x idx upd i = x i := by
  unfold Host.scatter
  exact foldl_overwrite_miss _ (fun n => ρ (u.rowMajor.symm n))
    (fun r n i hi => by dsimp only; rw [hρ]; exact if_neg hi)
    _ x i (fun n _ => hi _)

end ScatterSet

/-! ## The root's entry overwritten -/

/-- Where the window's element (b, k, 0) lands when the start index is 0: at (b, 0, k, 0). -/
theorem scatter_lands (idx : IVec S1 32) (h0 : idx (ix1 (0 : Fin 1)) = 0#32)
    (b : Fin 131072) (k : Fin 3) (z : Fin 1) :
    scatter_S131072x24x3x1_S1_S131072x3x1_012_1_1_0.resultIdx? (ix3 b k z) idx = some (ix4 b (0 : Fin 24) k z) := by
  have hstart : ∀ a, scatter_S131072x24x3x1_S1_S131072x3x1_012_1_1_0.start (ix3 b k z) idx a = 0 := fun a => by
    unfold ScatterDims.start
    split
    · next ha =>
      obtain rfl : a = 1 := List.mem_singleton.mp ha
      have hsi : scatter_S131072x24x3x1_S1_S131072x3x1_012_1_1_0.siIdx (ix3 b k z) ⟨List.idxOf (1 : Fin S131072x24x3x1.rank) scatter_S131072x24x3x1_S1_S131072x3x1_012_1_1_0.scatterDimsToOperandDims,
          List.idxOf_lt_length_iff.2 ha⟩ = ix1 (0 : Fin 1) := by
        funext c; refine Fin.ext ?_
        match c with
        | ⟨0, _⟩ => rfl
      rw [hsi, h0]; rfl
    · rfl
  have hwin : ∀ a, scatter_S131072x24x3x1_S1_S131072x3x1_012_1_1_0.window (ix3 b k z) a = (ix4 b (0 : Fin 24) k z a).val := fun a => by
    match a with
    | ⟨0, _⟩ => simp [ScatterDims.window, scatter_S131072x24x3x1_S1_S131072x3x1_012_1_1_0, Shape.kept] <;> rfl
    | ⟨1, _⟩ => simp [ScatterDims.window, scatter_S131072x24x3x1_S1_S131072x3x1_012_1_1_0, Shape.kept] <;> rfl
    | ⟨2, _⟩ => simp [ScatterDims.window, scatter_S131072x24x3x1_S1_S131072x3x1_012_1_1_0, Shape.kept] <;> rfl
    | ⟨3, _⟩ => simp [ScatterDims.window, scatter_S131072x24x3x1_S1_S131072x3x1_012_1_1_0, Shape.kept] <;> first | rfl | exact Fin.val_eq_zero _
  have hall : ∀ a, 0 ≤ scatter_S131072x24x3x1_S1_S131072x3x1_012_1_1_0.start (ix3 b k z) idx a + (scatter_S131072x24x3x1_S1_S131072x3x1_012_1_1_0.window (ix3 b k z) a : ℤ)
      ∧ scatter_S131072x24x3x1_S1_S131072x3x1_012_1_1_0.start (ix3 b k z) idx a + (scatter_S131072x24x3x1_S1_S131072x3x1_012_1_1_0.window (ix3 b k z) a : ℤ) < (S131072x24x3x1.size a : ℤ) := fun a => by
    rw [hstart a, hwin a, Int.zero_add]
    exact ⟨Int.natCast_nonneg _, by exact_mod_cast (ix4 b (0 : Fin 24) k z a).isLt⟩
  unfold ScatterDims.resultIdx?
  split
  · refine congrArg some (funext fun a => Fin.ext ?_)
    show (scatter_S131072x24x3x1_S1_S131072x3x1_012_1_1_0.start (ix3 b k z) idx a + (scatter_S131072x24x3x1_S1_S131072x3x1_012_1_1_0.window (ix3 b k z) a : ℤ)).toNat = _
    rw [hstart a, hwin a, Int.zero_add, Int.toNat_natCast]
  · next hn => exact absurd hall hn

/-- Where the window's element lands, as a function of its index. -/
def rootSlot (jj : S131072x3x1.Idx) : S131072x24x3x1.Idx := ix4 (jj 0) (0 : Fin 24) (jj 1) (jj 2)

/-- The overwrite of joint 0's column by a scatter of one window at the start index 0: at joint 0 the result reads the
    update, at every other joint the operand. -/
theorem scatter_root_apply (x : S131072x24x3x1.Idx → α) (idx : IVec S1 32) (u : S131072x3x1.Idx → α)
    (h0 : idx (ix1 (0 : Fin 1)) = 0#32) (b : Fin 131072) (j : Fin 24) (k : Fin 3) :
    Host.scatter scatter_S131072x24x3x1_S1_S131072x3x1_012_1_1_0 (fun _ v => v) x idx u (ix4 b j k (0 : Fin 1))
      = if j.val = 0 then u (ix3 b k (0 : Fin 1)) else x (ix4 b j k (0 : Fin 1)) := by
  have hρ : ∀ jj, scatter_S131072x24x3x1_S1_S131072x3x1_012_1_1_0.resultIdx? jj idx = some (rootSlot jj) := fun jj =>
    (congrArg (fun jj => scatter_S131072x24x3x1_S1_S131072x3x1_012_1_1_0.resultIdx? jj idx) (eq_ix3 jj)).trans (scatter_lands idx h0 _ _ _)
  by_cases hj : j.val = 0
  · rw [if_pos hj]
    obtain rfl : j = 0 := Fin.ext hj
    have hinj : Function.Injective rootSlot := fun p q h => by
      funext c
      match c with
      | ⟨0, _⟩ => exact congrFun h 0
      | ⟨1, _⟩ => exact congrFun h 2
      | ⟨2, _⟩ => exact congrFun h 3
    have e : rootSlot (ix3 b k (0 : Fin 1)) = ix4 b (0 : Fin 24) k (0 : Fin 1) := rfl
    rw [← e]
    exact scatter_set_hit _ x idx u rootSlot hρ hinj (ix3 b k (0 : Fin 1))
  · rw [if_neg hj]
    exact scatter_set_miss _ x idx u rootSlot hρ _ (fun jj h =>
      hj (congrArg (fun i : S131072x24x3x1.Idx => (i 1).val) h))

end Cert.ReferenceIdeal.RefStage

end
-- ==== Proof.RefLocal.lean ====
/-
  The first stage of the reference program, read at an index: the local transform of every joint.

  From the two argument arrays — the local 3x3 matrices rot[b, j] and the rest positions pos[b, j] — the program forms,
  for every batch element b and joint j, the local translation rel j (the rest position relative to the parent's; the
  root keeps its own), the local homogeneous transform Lm j = [[R j, rel j], [0, 1]], and the rest position as a
  homogeneous direction (p j; 0). This file follows the program's operations one by one, each through its equation and
  its reading at an index, and lands on those three formulas. The argument arrays' launch contents are named rot and
  pos through the two equations hrot and hpos, so that they have the plain array types the formulas are stated over.
-/
import proofs.«156383_j88811333747289_2_alg».proof.Proof.RefEqs
import proofs.«156383_j88811333747289_2_alg».proof.Proof.RefStages1
import proofs.«156383_j88811333747289_2_alg».proof.Proof.RefStages2
import proofs.«156383_j88811333747289_2_alg».proof.Proof.RefStages3
import proofs.«156383_j88811333747289_2_alg».proof.Proof.PoseArrays

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.ReferenceIdeal.RefRun Cert.ReferenceIdeal.RefStage

variable (V : Valuation τ sig (Elt Ideal)) (rot : Cert.Pose.SRot.Idx → EReal) (pos : Cert.Pose.SPos.Idx → EReal)

namespace Local

/-! ## The rest positions as columns, and the parents' -/

/-- The column array holds the rest positions: entry (b, j, k, 0) is pos[b, j, k]. -/
theorem pos_column_apply (hpos : V (main_arg1 : DevRef τ sig) = pos) (b : Fin 131072) (j : Fin 24) (k : Fin 3) :
    (after ops V (main_v0 : DevRef τ sig) : (⟨S131072x24x3x1, .f32⟩ : BufTy).Contents (Elt Ideal)) (ix4 b j k (0 : Fin 1)) = pos (ix3 b j k) := by
  rw [at_v0, at_arg1, hpos]
  exact column_apply _ _ b j k

/-- The gather's start indices are the parent table: entry (j, 0) is the table's entry j. -/
theorem parents_apply (j : Fin 24) :
    (after ops V (main_v6 : DevRef τ sig) : (⟨S24x1, .i32⟩ : BufTy).Contents (Elt Ideal)) (ix2 j (0 : Fin 1)) = lit0 j := by
  rw [at_v6, at_v5, at_v2, at_v4, at_v1, at_v3, at_c, at_c_0, at_c_1]
  exact parents_index_apply _ _ _ j

/-- The gathered array holds every joint's parent's rest position. -/
theorem parent_column_apply (hpos : V (main_arg1 : DevRef τ sig) = pos) (b : Fin 131072) (j : Fin 24) (k : Fin 3) :
    (after ops V (main_v7 : DevRef τ sig) : (⟨S131072x24x3x1, .f32⟩ : BufTy).Contents (Elt Ideal)) (ix4 b j k (0 : Fin 1)) = pos (ix3 b (parent j) k) := by
  rw [at_v7]
  exact (gather_parent_apply _ _ b j k (parents_apply V j)).trans (pos_column_apply V pos hpos b (parent j) k)

/-- The difference array: every joint's rest position less its parent's. -/
theorem diff_column_apply (hpos : V (main_arg1 : DevRef τ sig) = pos) (b : Fin 131072) (j : Fin 24) (k : Fin 3) :
    (after ops V (main_v8 : DevRef τ sig) : (⟨S131072x24x3x1, .f32⟩ : BufTy).Contents (Elt Ideal)) (ix4 b j k (0 : Fin 1))
      = pos (ix3 b j k) - pos (ix3 b (parent j) k) := by
  rw [at_v8, subf_apply, pos_column_apply V pos hpos, parent_column_apply V pos hpos]

/-- The root's rest position, cut out of the column array. -/
theorem root_apply (hpos : V (main_arg1 : DevRef τ sig) = pos) (b : Fin 131072) (k : Fin 3) :
    (after ops V (main_v10 : DevRef τ sig) : (⟨S131072x3x1, .f32⟩ : BufTy).Contents (Elt Ideal)) (ix3 b k (0 : Fin 1)) = pos (ix3 b (0 : Fin 24) k) := by
  rw [at_v10, at_v9]
  exact (root_column_apply _ _ _ b k).trans (pos_column_apply V pos hpos b (0 : Fin 24) k)

/-- The scatter's start index is 0. -/
theorem start_apply : (after ops V (main_v11 : DevRef τ sig) : (⟨S1, .i32⟩ : BufTy).Contents (Elt Ideal)) (ix1 (0 : Fin 1)) = 0#32 := by
  rw [at_v11, at_c_2, broadcastInDim_scalar_apply, constantI_apply]

/-- Away from the root the local translation is the rest position less the parent's. -/
theorem rel_of_ne_zero (p : ℕ → Fin 3 → EReal) (n : ℕ) (hn : n ≠ 0) (k : Fin 3) :
    Cert.Pose.rel p n k = p n k - p (Cert.Pose.par n) k := by
  cases n with
  | zero => exact absurd rfl hn
  | succ m => rfl

end Local

open Local

/-- THE LOCAL TRANSLATIONS: after the root's entry is overwritten, entry (b, j, k, 0) is rel j k of batch element b. -/
theorem rel_apply (hpos : V (main_arg1 : DevRef τ sig) = pos) (b : Fin 131072) (j : Fin 24) (k : Fin 3) :
    (after ops V (main_v12 : DevRef τ sig) : (⟨S131072x24x3x1, .f32⟩ : BufTy).Contents (Elt Ideal)) (ix4 b j k (0 : Fin 1))
      = Cert.Pose.rel (Cert.Pose.pof pos b) j.val k := by
  rw [at_v12, scatter_root_apply _ _ _ (start_apply V)]
  by_cases hj : j.val = 0
  · rw [if_pos hj, root_apply V pos hpos]
    obtain rfl : j = 0 := Fin.ext hj
    rfl
  · rw [if_neg hj, diff_column_apply V pos hpos, rel_of_ne_zero _ _ hj]
    show _ = pos (ix3 b (Cert.Pose.jt j.val) k) - pos (ix3 b (Cert.Pose.jt (Cert.Pose.par j.val)) k)
    rw [Cert.Pose.jt_val, jt_par]

namespace Local

/-! ## The local matrices with a fourth row, the local translations with a fourth entry -/

/-- The first padding's value is 0. -/
theorem pad_value_eq (i : S_.Idx) : (after ops V (main_call0_v0 : DevRef τ sig) : (⟨S_, .f32⟩ : BufTy).Contents (Elt Ideal)) i = (0 : EReal) := by
  rw [at_call0_v0, at_c_3]
  exact pad_value_apply i

/-- The padded local matrices: rows 0, 1, 2 are rot[b, j], row 3 is zero. -/
theorem rot_rows_apply (hrot : V (main_arg0 : DevRef τ sig) = rot) (b : Fin 131072) (j : Fin 24) (r : Fin 4) (c : Fin 3) :
    (after ops V (main_v13 : DevRef τ sig) : (⟨S131072x24x4x3, .f32⟩ : BufTy).Contents (Elt Ideal)) (ix4 b j r c)
      = if hr : r.val < 3 then rot (ix4 b j (⟨r.val, hr⟩ : Fin 3) c) else 0 := by
  rw [at_v13, pad_row_apply, at_arg0, hrot]
  by_cases hr : r.val < 3
  · simp only [dif_pos hr]
  · simp only [dif_neg hr]
    exact pad_value_eq V ix0

/-- The local translations with a 1 under them. -/
theorem rel_rows_apply (hpos : V (main_arg1 : DevRef τ sig) = pos) (b : Fin 131072) (j : Fin 24) (r : Fin 4) :
    (after ops V (main_v15 : DevRef τ sig) : (⟨S131072x24x4x1, .f32⟩ : BufTy).Contents (Elt Ideal)) (ix4 b j r (0 : Fin 1))
      = if hr : r.val < 3 then Cert.Pose.rel (Cert.Pose.pof pos b) j.val (⟨r.val, hr⟩ : Fin 3) else 1 := by
  rw [at_v15, concat_rows_apply]
  by_cases hr : r.val < 3
  · simp only [dif_pos hr]
    exact rel_apply V pos hpos b j _
  · simp only [dif_neg hr]
    rw [at_v14, at_cst]
    exact splat_one_apply _ _

end Local

/-- THE LOCAL TRANSFORMS: entry (b, j, r, c) of the assembled array is entry (r, c) of Lm j = [[R j, rel j], [0, 1]] of
    batch element b. -/
theorem local_apply (hrot : V (main_arg0 : DevRef τ sig) = rot) (hpos : V (main_arg1 : DevRef τ sig) = pos)
    (b : Fin 131072) (j : Fin 24) (r c : Fin 4) :
    (after ops V (main_v16 : DevRef τ sig) : (⟨S131072x24x4x4, .f32⟩ : BufTy).Contents (Elt Ideal)) (ix4 b j r c)
      = Cert.Pose.Lm (Cert.Pose.Rof rot b) (Cert.Pose.pof pos b) j.val r c := by
  rw [at_v16, concat_cols_apply]
  unfold Cert.Pose.Lm Cert.Pose.homog
  by_cases hc : c.val < 3
  · simp only [dif_pos hc]
    rw [rot_rows_apply V rot hrot]
    by_cases hr : r.val < 3
    · simp only [dif_pos hr]
      show rot (ix4 b j _ _) = rot (ix4 b (Cert.Pose.jt j.val) _ _)
      rw [Cert.Pose.jt_val]
    · simp only [dif_neg hr, if_pos hc]
  · simp only [dif_neg hc]
    rw [rel_rows_apply V pos hpos]
    by_cases hr : r.val < 3
    · simp only [dif_pos hr]
    · simp only [dif_neg hr, if_neg hc]

/-- THE REST POSITIONS AS DIRECTIONS: entry (b, j, k, 0) is entry k of (p j; 0) of batch element b. -/
theorem rest_apply (hpos : V (main_arg1 : DevRef τ sig) = pos) (b : Fin 131072) (j : Fin 24) (k : Fin 4) :
    (after ops V (main_v118 : DevRef τ sig) : (⟨S131072x24x4x1, .f32⟩ : BufTy).Contents (Elt Ideal)) (ix4 b j k (0 : Fin 1))
      = Cert.Pose.rest (Cert.Pose.pof pos b) j.val k := by
  rw [at_v118, concat_rows_apply]
  unfold Cert.Pose.rest
  by_cases hk : k.val < 3
  · simp only [dif_pos hk]
    rw [pos_column_apply V pos hpos]
    show pos (ix3 b j _) = pos (ix3 b (Cert.Pose.jt j.val) _)
    rw [Cert.Pose.jt_val]
  · simp only [dif_neg hk]
    rw [at_v117, at_cst_4]
    exact splat_zero_apply _ _

end Cert.ReferenceIdeal.RefValue

end
-- ==== Proof.RefValue.lean ====
/-
  The reference program's two results, as functions of its two argument arrays.

  Read one operation at a time, the reference builds for every batch element b and joint j the 4×4 local transform
  Lm j = [[R j, rel j], [0, 1]] — the joint's 3×3 matrix padded with a zero row, beside the column of its rest position
  relative to its parent's (the root keeps its own) closed with a one —, multiplies the local transforms down the tree,
  T j = T (par j) · Lm j with T 0 = Lm 0, one batched 4×4 product per joint, and lays the 24 products end to end along
  the joint axis. Its first result is that stack minus, in the last column, the product of every T j with the joint's
  rest position as a direction (p j; 0); its second result is the first three rows of the stack's last column. The
  algebra of the posed skeleton identifies the first with [[Rh j, th j − Rh j p j], [0, 1]] and the second with th j.

  That the assembled array of local transforms holds Lm j, and the array of rest directions (p j; 0), is read off the
  line in the companion file on the local transforms; this file starts from those two facts. Every lemma below reads
  one buffer of the line at one index (b, j, r, c), from the equation of the operation that writes it and the lemmas
  for its operands; nothing of full size is ever unfolded.
-/
import proofs.«156383_j88811333747289_2_alg».proof.Proof.RefEqs
import proofs.«156383_j88811333747289_2_alg».proof.Proof.PoseArrays
import proofs.«156383_j88811333747289_2_alg».proof.Proof.RefStages1
import proofs.«156383_j88811333747289_2_alg».proof.Proof.RefStages2
import proofs.«156383_j88811333747289_2_alg».proof.Proof.RefLocal

noncomputable section

open scoped BigOperators

namespace Cert.ReferenceIdeal.RefValue

open Cert.ReferenceIdeal Cert.ReferenceIdeal.Gen Cert.ReferenceIdeal.RefRun Cert.ReferenceIdeal.RefStage
  Idealize.ShloMosaic Idealize.ShloMosaic.TcCoe Idealize.SL.Sem Idealize.ShloMosaic.StableHlo Idealize.ShloMosaic.ValueIdx

/-! ## The one-step law of the composed transforms -/

/-- A joint other than the root composes its parent's transform with its own local one. -/
theorem T_at (R : ℕ → Fin 3 → Fin 3 → EReal) (p : ℕ → Fin 3 → EReal) (j q : ℕ) (hj : 0 < j) (hq : Pose.par j = q) :
    Pose.T R p j = Pose.mul4 (Pose.T R p q) (Pose.Lm R p j) := by
  obtain ⟨i, rfl⟩ : ∃ i, j = i + 1 := ⟨j - 1, by omega⟩
  rw [Pose.T_succ, hq]

/-- An entry of a product of two 4×4 matrices is the sum over the inner index. -/
theorem mul4_apply (A B : Fin 4 → Fin 4 → EReal) (r c : Fin 4) : Pose.mul4 A B r c = ∑ k : Fin 4, A r k * B k c := rfl

variable (V : Valuation τ sig (Elt Ideal))

/-- The local matrices the launch holds. -/
abbrev rot : Pose.SRot.Idx → EReal := V (main_arg0 : DevRef τ sig)
/-- The rest positions the launch holds. -/
abbrev pos : Pose.SPos.Idx → EReal := V (main_arg1 : DevRef τ sig)
/-- Batch element b's local matrices. -/
abbrev Rb (b : Fin 131072) : ℕ → Fin 3 → Fin 3 → EReal := Pose.Rof (rot V) b
/-- Batch element b's rest positions. -/
abbrev Pb (b : Fin 131072) : ℕ → Fin 3 → EReal := Pose.pof (pos V) b

/-! ## The composed transforms, joint by joint -/

/-- Joint 0's local transform, cut out of the stack. -/
theorem lj_0 (b : Fin 131072) (r c : Fin 4) :
    (after ops V (main_v18 : DevRef τ sig) : S131072x4x4.Idx → EReal) (ix3 b r c) = Pose.Lm (Rb V b) (Pb V b) 0 r c := by
  rw [at_v18, at_v17, joint_apply 0 (by norm_num), local_apply V (rot V) (pos V) rfl rfl]

/-- The root's composed transform is its local one. -/
theorem tb_0 (b : Fin 131072) (r c : Fin 4) :
    (after ops V (main_v18 : DevRef τ sig) : S131072x4x4.Idx → EReal) (ix3 b r c) = Pose.T (Rb V b) (Pb V b) 0 r c := by
  rw [lj_0, Pose.T_zero]

/-- Joint 1's local transform, cut out of the stack. -/
theorem lj_1 (b : Fin 131072) (r c : Fin 4) :
    (after ops V (main_v20 : DevRef τ sig) : S131072x4x4.Idx → EReal) (ix3 b r c) = Pose.Lm (Rb V b) (Pb V b) 1 r c := by
  rw [at_v20, at_v19, joint_apply 1 (by norm_num), local_apply V (rot V) (pos V) rfl rfl]

/-- Joint 1's composed transform: its parent's (joint 0) times its local one. -/
theorem tb_1 (b : Fin 131072) (r c : Fin 4) :
    (after ops V (main_v21 : DevRef τ sig) : S131072x4x4.Idx → EReal) (ix3 b r c) = Pose.T (Rb V b) (Pb V b) 1 r c := by
  rw [at_v21, dot_stack_apply, T_at _ _ 1 0 (by norm_num) rfl, mul4_apply]
  exact Finset.sum_congr (M := EReal) rfl fun k _ => by rw [tb_0, lj_1]

/-- Joint 2's local transform, cut out of the stack. -/
theorem lj_2 (b : Fin 131072) (r c : Fin 4) :
    (after ops V (main_v23 : DevRef τ sig) : S131072x4x4.Idx → EReal) (ix3 b r c) = Pose.Lm (Rb V b) (Pb V b) 2 r c := by
  rw [at_v23, at_v22, joint_apply 2 (by norm_num), local_apply V (rot V) (pos V) rfl rfl]

/-- Joint 2's composed transform: its parent's (joint 0) times its local one. -/
theorem tb_2 (b : Fin 131072) (r c : Fin 4) :
    (after ops V (main_v24 : DevRef τ sig) : S131072x4x4.Idx → EReal) (ix3 b r c) = Pose.T (Rb V b) (Pb V b) 2 r c := by
  rw [at_v24, dot_stack_apply, T_at _ _ 2 0 (by norm_num) rfl, mul4_apply]
  exact Finset.sum_congr (M := EReal) rfl fun k _ => by rw [tb_0, lj_2]

/-- Joint 3's local transform, cut out of the stack. -/
theorem lj_3 (b : Fin 131072) (r c : Fin 4) :
    (after ops V (main_v26 : DevRef τ sig) : S131072x4x4.Idx → EReal) (ix3 b r c) = Pose.Lm (Rb V b) (Pb V b) 3 r c := by
  rw [at_v26, at_v25, joint_apply 3 (by norm_num), local_apply V (rot V) (pos V) rfl rfl]

/-- Joint 3's composed transform: its parent's (joint 0) times its local one. -/
theorem tb_3 (b : Fin 131072) (r c : Fin 4) :
    (after ops V (main_v27 : DevRef τ sig) : S131072x4x4.Idx → EReal) (ix3 b r c) = Pose.T (Rb V b) (Pb V b) 3 r c := by
  rw [at_v27, dot_stack_apply, T_at _ _ 3 0 (by norm_num) rfl, mul4_apply]
  exact Finset.sum_congr (M := EReal) rfl fun k _ => by rw [tb_0, lj_3]

/-- Joint 4's local transform, cut out of the stack. -/
theorem lj_4 (b : Fin 131072) (r c : Fin 4) :
    (after ops V (main_v29 : DevRef τ sig) : S131072x4x4.Idx → EReal) (ix3 b r c) = Pose.Lm (Rb V b) (Pb V b) 4 r c := by
  rw [at_v29, at_v28, joint_apply 4 (by norm_num), local_apply V (rot V) (pos V) rfl rfl]

/-- Joint 4's composed transform: its parent's (joint 1) times its local one. -/
theorem tb_4 (b : Fin 131072) (r c : Fin 4) :
    (after ops V (main_v30 : DevRef τ sig) : S131072x4x4.Idx → EReal) (ix3 b r c) = Pose.T (Rb V b) (Pb V b) 4 r c := by
  rw [at_v30, dot_stack_apply, T_at _ _ 4 1 (by norm_num) rfl, mul4_apply]
  exact Finset.sum_congr (M := EReal) rfl fun k _ => by rw [tb_1, lj_4]

/-- Joint 5's local transform, cut out of the stack. -/
theorem lj_5 (b : Fin 131072) (r c : Fin 4) :
    (after ops V (main_v32 : DevRef τ sig) : S131072x4x4.Idx → EReal) (ix3 b r c) = Pose.Lm (Rb V b) (Pb V b) 5 r c := by
  rw [at_v32, at_v31, joint_apply 5 (by norm_num), local_apply V (rot V) (pos V) rfl rfl]

/-- Joint 5's composed transform: its parent's (joint 2) times its local one. -/
theorem tb_5 (b : Fin 131072) (r c : Fin 4) :
    (after ops V (main_v33 : DevRef τ sig) : S131072x4x4.Idx → EReal) (ix3 b r c) = Pose.T (Rb V b) (Pb V b) 5 r c := by
  rw [at_v33, dot_stack_apply, T_at _ _ 5 2 (by norm_num) rfl, mul4_apply]
  exact Finset.sum_congr (M := EReal) rfl fun k _ => by rw [tb_2, lj_5]

/-- Joint 6's local transform, cut out of the stack. -/
theorem lj_6 (b : Fin 131072) (r c : Fin 4) :
    (after ops V (main_v35 : DevRef τ sig) : S131072x4x4.Idx → EReal) (ix3 b r c) = Pose.Lm (Rb V b) (Pb V b) 6 r c := by
  rw [at_v35, at_v34, joint_apply 6 (by norm_num), local_apply V (rot V) (pos V) rfl rfl]

/-- Joint 6's composed transform: its parent's (joint 3) times its local one. -/
theorem tb_6 (b : Fin 131072) (r c : Fin 4) :
    (after ops V (main_v36 : DevRef τ sig) : S131072x4x4.Idx → EReal) (ix3 b r c) = Pose.T (Rb V b) (Pb V b) 6 r c := by
  rw [at_v36, dot_stack_apply, T_at _ _ 6 3 (by norm_num) rfl, mul4_apply]
  exact Finset.sum_congr (M := EReal) rfl fun k _ => by rw [tb_3, lj_6]

/-- Joint 7's local transform, cut out of the stack. -/
theorem lj_7 (b : Fin 131072) (r c : Fin 4) :
    (after ops V (main_v38 : DevRef τ sig) : S131072x4x4.Idx → EReal) (ix3 b r c) = Pose.Lm (Rb V b) (Pb V b) 7 r c := by
  rw [at_v38, at_v37, joint_apply 7 (by norm_num), local_apply V (rot V) (pos V) rfl rfl]

/-- Joint 7's composed transform: its parent's (joint 4) times its local one. -/
theorem tb_7 (b : Fin 131072) (r c : Fin 4) :
    (after ops V (main_v39 : DevRef τ sig) : S131072x4x4.Idx → EReal) (ix3 b r c) = Pose.T (Rb V b) (Pb V b) 7 r c := by
  rw [at_v39, dot_stack_apply, T_at _ _ 7 4 (by norm_num) rfl, mul4_apply]
  exact Finset.sum_congr (M := EReal) rfl fun k _ => by rw [tb_4, lj_7]

/-- Joint 8's local transform, cut out of the stack. -/
theorem lj_8 (b : Fin 131072) (r c : Fin 4) :
    (after ops V (main_v41 : DevRef τ sig) : S131072x4x4.Idx → EReal) (ix3 b r c) = Pose.Lm (Rb V b) (Pb V b) 8 r c := by
  rw [at_v41, at_v40, joint_apply 8 (by norm_num), local_apply V (rot V) (pos V) rfl rfl]

/-- Joint 8's composed transform: its parent's (joint 5) times its local one. -/
theorem tb_8 (b : Fin 131072) (r c : Fin 4) :
    (after ops V (main_v42 : DevRef τ sig) : S131072x4x4.Idx → EReal) (ix3 b r c) = Pose.T (Rb V b) (Pb V b) 8 r c := by
  rw [at_v42, dot_stack_apply, T_at _ _ 8 5 (by norm_num) rfl, mul4_apply]
  exact Finset.sum_congr (M := EReal) rfl fun k _ => by rw [tb_5, lj_8]

/-- Joint 9's local transform, cut out of the stack. -/
theorem lj_9 (b : Fin 131072) (r c : Fin 4) :
    (after ops V (main_v44 : DevRef τ sig) : S131072x4x4.Idx → EReal) (ix3 b r c) = Pose.Lm (Rb V b) (Pb V b) 9 r c := by
  rw [at_v44, at_v43, joint_apply 9 (by norm_num), local_apply V (rot V) (pos V) rfl rfl]

/-- Joint 9's composed transform: its parent's (joint 6) times its local one. -/
theorem tb_9 (b : Fin 131072) (r c : Fin 4) :
    (after ops V (main_v45 : DevRef τ sig) : S131072x4x4.Idx → EReal) (ix3 b r c) = Pose.T (Rb V b) (Pb V b) 9 r c := by
  rw [at_v45, dot_stack_apply, T_at _ _ 9 6 (by norm_num) rfl, mul4_apply]
  exact Finset.sum_congr (M := EReal) rfl fun k _ => by rw [tb_6, lj_9]

/-- Joint 10's local transform, cut out of the stack. -/
theorem lj_10 (b : Fin 131072) (r c : Fin 4) :
    (after ops V (main_v47 : DevRef τ sig) : S131072x4x4.Idx → EReal) (ix3 b r c) = Pose.Lm (Rb V b) (Pb V b) 10 r c := by
  rw [at_v47, at_v46, joint_apply 10 (by norm_num), local_apply V (rot V) (pos V) rfl rfl]

/-- Joint 10's composed transform: its parent's (joint 7) times its local one. -/
theorem tb_10 (b : Fin 131072) (r c : Fin 4) :
    (after ops V (main_v48 : DevRef τ sig) : S131072x4x4.Idx → EReal) (ix3 b r c) = Pose.T (Rb V b) (Pb V b) 10 r c := by
  rw [at_v48, dot_stack_apply, T_at _ _ 10 7 (by norm_num) rfl, mul4_apply]
  exact Finset.sum_congr (M := EReal) rfl fun k _ => by rw [tb_7, lj_10]

/-- Joint 11's local transform, cut out of the stack. -/
theorem lj_11 (b : Fin 131072) (r c : Fin 4) :
    (after ops V (main_v50 : DevRef τ sig) : S131072x4x4.Idx → EReal) (ix3 b r c) = Pose.Lm (Rb V b) (Pb V b) 11 r c := by
  rw [at_v50, at_v49, joint_apply 11 (by norm_num), local_apply V (rot V) (pos V) rfl rfl]

/-- Joint 11's composed transform: its parent's (joint 8) times its local one. -/
theorem tb_11 (b : Fin 131072) (r c : Fin 4) :
    (after ops V (main_v51 : DevRef τ sig) : S131072x4x4.Idx → EReal) (ix3 b r c) = Pose.T (Rb V b) (Pb V b) 11 r c := by
  rw [at_v51, dot_stack_apply, T_at _ _ 11 8 (by norm_num) rfl, mul4_apply]
  exact Finset.sum_congr (M := EReal) rfl fun k _ => by rw [tb_8, lj_11]

/-- Joint 12's local transform, cut out of the stack. -/
theorem lj_12 (b : Fin 131072) (r c : Fin 4) :
    (after ops V (main_v53 : DevRef τ sig) : S131072x4x4.Idx → EReal) (ix3 b r c) = Pose.Lm (Rb V b) (Pb V b) 12 r c := by
  rw [at_v53, at_v52, joint_apply 12 (by norm_num), local_apply V (rot V) (pos V) rfl rfl]

/-- Joint 12's composed transform: its parent's (joint 9) times its local one. -/
theorem tb_12 (b : Fin 131072) (r c : Fin 4) :
    (after ops V (main_v54 : DevRef τ sig) : S131072x4x4.Idx → EReal) (ix3 b r c) = Pose.T (Rb V b) (Pb V b) 12 r c := by
  rw [at_v54, dot_stack_apply, T_at _ _ 12 9 (by norm_num) rfl, mul4_apply]
  exact Finset.sum_congr (M := EReal) rfl fun k _ => by rw [tb_9, lj_12]

/-- Joint 13's local transform, cut out of the stack. -/
theorem lj_13 (b : Fin 131072) (r c : Fin 4) :
    (after ops V (main_v56 : DevRef τ sig) : S131072x4x4.Idx → EReal) (ix3 b r c) = Pose.Lm (Rb V b) (Pb V b) 13 r c := by
  rw [at_v56, at_v55, joint_apply 13 (by norm_num), local_apply V (rot V) (pos V) rfl rfl]

/-- Joint 13's composed transform: its parent's (joint 9) times its local one. -/
theorem tb_13 (b : Fin 131072) (r c : Fin 4) :
    (after ops V (main_v57 : DevRef τ sig) : S131072x4x4.Idx → EReal) (ix3 b r c) = Pose.T (Rb V b) (Pb V b) 13 r c := by
  rw [at_v57, dot_stack_apply, T_at _ _ 13 9 (by norm_num) rfl, mul4_apply]
  exact Finset.sum_congr (M := EReal) rfl fun k _ => by rw [tb_9, lj_13]

/-- Joint 14's local transform, cut out of the stack. -/
theorem lj_14 (b : Fin 131072) (r c : Fin 4) :
    (after ops V (main_v59 : DevRef τ sig) : S131072x4x4.Idx → EReal) (ix3 b r c) = Pose.Lm (Rb V b) (Pb V b) 14 r c := by
  rw [at_v59, at_v58, joint_apply 14 (by norm_num), local_apply V (rot V) (pos V) rfl rfl]

/-- Joint 14's composed transform: its parent's (joint 9) times its local one. -/
theorem tb_14 (b : Fin 131072) (r c : Fin 4) :
    (after ops V (main_v60 : DevRef τ sig) : S131072x4x4.Idx → EReal) (ix3 b r c) = Pose.T (Rb V b) (Pb V b) 14 r c := by
  rw [at_v60, dot_stack_apply, T_at _ _ 14 9 (by norm_num) rfl, mul4_apply]
  exact Finset.sum_congr (M := EReal) rfl fun k _ => by rw [tb_9, lj_14]

/-- Joint 15's local transform, cut out of the stack. -/
theorem lj_15 (b : Fin 131072) (r c : Fin 4) :
    (after ops V (main_v62 : DevRef τ sig) : S131072x4x4.Idx → EReal) (ix3 b r c) = Pose.Lm (Rb V b) (Pb V b) 15 r c := by
  rw [at_v62, at_v61, joint_apply 15 (by norm_num), local_apply V (rot V) (pos V) rfl rfl]

/-- Joint 15's composed transform: its parent's (joint 12) times its local one. -/
theorem tb_15 (b : Fin 131072) (r c : Fin 4) :
    (after ops V (main_v63 : DevRef τ sig) : S131072x4x4.Idx → EReal) (ix3 b r c) = Pose.T (Rb V b) (Pb V b) 15 r c := by
  rw [at_v63, dot_stack_apply, T_at _ _ 15 12 (by norm_num) rfl, mul4_apply]
  exact Finset.sum_congr (M := EReal) rfl fun k _ => by rw [tb_12, lj_15]

/-- Joint 16's local transform, cut out of the stack. -/
theorem lj_16 (b : Fin 131072) (r c : Fin 4) :
    (after ops V (main_v65 : DevRef τ sig) : S131072x4x4.Idx → EReal) (ix3 b r c) = Pose.Lm (Rb V b) (Pb V b) 16 r c := by
  rw [at_v65, at_v64, joint_apply 16 (by norm_num), local_apply V (rot V) (pos V) rfl rfl]

/-- Joint 16's composed transform: its parent's (joint 13) times its local one. -/
theorem tb_16 (b : Fin 131072) (r c : Fin 4) :
    (after ops V (main_v66 : DevRef τ sig) : S131072x4x4.Idx → EReal) (ix3 b r c) = Pose.T (Rb V b) (Pb V b) 16 r c := by
  rw [at_v66, dot_stack_apply, T_at _ _ 16 13 (by norm_num) rfl, mul4_apply]
  exact Finset.sum_congr (M := EReal) rfl fun k _ => by rw [tb_13, lj_16]

/-- Joint 17's local transform, cut out of the stack. -/
theorem lj_17 (b : Fin 131072) (r c : Fin 4) :
    (after ops V (main_v68 : DevRef τ sig) : S131072x4x4.Idx → EReal) (ix3 b r c) = Pose.Lm (Rb V b) (Pb V b) 17 r c := by
  rw [at_v68, at_v67, joint_apply 17 (by norm_num), local_apply V (rot V) (pos V) rfl rfl]

/-- Joint 17's composed transform: its parent's (joint 14) times its local one. -/
theorem tb_17 (b : Fin 131072) (r c : Fin 4) :
    (after ops V (main_v69 : DevRef τ sig) : S131072x4x4.Idx → EReal) (ix3 b r c) = Pose.T (Rb V b) (Pb V b) 17 r c := by
  rw [at_v69, dot_stack_apply, T_at _ _ 17 14 (by norm_num) rfl, mul4_apply]
  exact Finset.sum_congr (M := EReal) rfl fun k _ => by rw [tb_14, lj_17]

/-- Joint 18's local transform, cut out of the stack. -/
theorem lj_18 (b : Fin 131072) (r c : Fin 4) :
    (after ops V (main_v71 : DevRef τ sig) : S131072x4x4.Idx → EReal) (ix3 b r c) = Pose.Lm (Rb V b) (Pb V b) 18 r c := by
  rw [at_v71, at_v70, joint_apply 18 (by norm_num), local_apply V (rot V) (pos V) rfl rfl]

/-- Joint 18's composed transform: its parent's (joint 16) times its local one. -/
theorem tb_18 (b : Fin 131072) (r c : Fin 4) :
    (after ops V (main_v72 : DevRef τ sig) : S131072x4x4.Idx → EReal) (ix3 b r c) = Pose.T (Rb V b) (Pb V b) 18 r c := by
  rw [at_v72, dot_stack_apply, T_at _ _ 18 16 (by norm_num) rfl, mul4_apply]
  exact Finset.sum_congr (M := EReal) rfl fun k _ => by rw [tb_16, lj_18]

/-- Joint 19's local transform, cut out of the stack. -/
theorem lj_19 (b : Fin 131072) (r c : Fin 4) :
    (after ops V (main_v74 : DevRef τ sig) : S131072x4x4.Idx → EReal) (ix3 b r c) = Pose.Lm (Rb V b) (Pb V b) 19 r c := by
  rw [at_v74, at_v73, joint_apply 19 (by norm_num), local_apply V (rot V) (pos V) rfl rfl]

/-- Joint 19's composed transform: its parent's (joint 17) times its local one. -/
theorem tb_19 (b : Fin 131072) (r c : Fin 4) :
    (after ops V (main_v75 : DevRef τ sig) : S131072x4x4.Idx → EReal) (ix3 b r c) = Pose.T (Rb V b) (Pb V b) 19 r c := by
  rw [at_v75, dot_stack_apply, T_at _ _ 19 17 (by norm_num) rfl, mul4_apply]
  exact Finset.sum_congr (M := EReal) rfl fun k _ => by rw [tb_17, lj_19]

/-- Joint 20's local transform, cut out of the stack. -/
theorem lj_20 (b : Fin 131072) (r c : Fin 4) :
    (after ops V (main_v77 : DevRef τ sig) : S131072x4x4.Idx → EReal) (ix3 b r c) = Pose.Lm (Rb V b) (Pb V b) 20 r c := by
  rw [at_v77, at_v76, joint_apply 20 (by norm_num), local_apply V (rot V) (pos V) rfl rfl]

/-- Joint 20's composed transform: its parent's (joint 18) times its local one. -/
theorem tb_20 (b : Fin 131072) (r c : Fin 4) :
    (after ops V (main_v78 : DevRef τ sig) : S131072x4x4.Idx → EReal) (ix3 b r c) = Pose.T (Rb V b) (Pb V b) 20 r c := by
  rw [at_v78, dot_stack_apply, T_at _ _ 20 18 (by norm_num) rfl, mul4_apply]
  exact Finset.sum_congr (M := EReal) rfl fun k _ => by rw [tb_18, lj_20]

/-- Joint 21's local transform, cut out of the stack. -/
theorem lj_21 (b : Fin 131072) (r c : Fin 4) :
    (after ops V (main_v80 : DevRef τ sig) : S131072x4x4.Idx → EReal) (ix3 b r c) = Pose.Lm (Rb V b) (Pb V b) 21 r c := by
  rw [at_v80, at_v79, joint_apply 21 (by norm_num), local_apply V (rot V) (pos V) rfl rfl]

/-- Joint 21's composed transform: its parent's (joint 19) times its local one. -/
theorem tb_21 (b : Fin 131072) (r c : Fin 4) :
    (after ops V (main_v81 : DevRef τ sig) : S131072x4x4.Idx → EReal) (ix3 b r c) = Pose.T (Rb V b) (Pb V b) 21 r c := by
  rw [at_v81, dot_stack_apply, T_at _ _ 21 19 (by norm_num) rfl, mul4_apply]
  exact Finset.sum_congr (M := EReal) rfl fun k _ => by rw [tb_19, lj_21]

/-- Joint 22's local transform, cut out of the stack. -/
theorem lj_22 (b : Fin 131072) (r c : Fin 4) :
    (after ops V (main_v83 : DevRef τ sig) : S131072x4x4.Idx → EReal) (ix3 b r c) = Pose.Lm (Rb V b) (Pb V b) 22 r c := by
  rw [at_v83, at_v82, joint_apply 22 (by norm_num), local_apply V (rot V) (pos V) rfl rfl]

/-- Joint 22's composed transform: its parent's (joint 20) times its local one. -/
theorem tb_22 (b : Fin 131072) (r c : Fin 4) :
    (after ops V (main_v84 : DevRef τ sig) : S131072x4x4.Idx → EReal) (ix3 b r c) = Pose.T (Rb V b) (Pb V b) 22 r c := by
  rw [at_v84, dot_stack_apply, T_at _ _ 22 20 (by norm_num) rfl, mul4_apply]
  exact Finset.sum_congr (M := EReal) rfl fun k _ => by rw [tb_20, lj_22]

/-- Joint 23's local transform, cut out of the stack. -/
theorem lj_23 (b : Fin 131072) (r c : Fin 4) :
    (after ops V (main_v86 : DevRef τ sig) : S131072x4x4.Idx → EReal) (ix3 b r c) = Pose.Lm (Rb V b) (Pb V b) 23 r c := by
  rw [at_v86, at_v85, joint_apply 23 (by norm_num), local_apply V (rot V) (pos V) rfl rfl]

/-- Joint 23's composed transform: its parent's (joint 21) times its local one. -/
theorem tb_23 (b : Fin 131072) (r c : Fin 4) :
    (after ops V (main_v87 : DevRef τ sig) : S131072x4x4.Idx → EReal) (ix3 b r c) = Pose.T (Rb V b) (Pb V b) 23 r c := by
  rw [at_v87, dot_stack_apply, T_at _ _ 23 21 (by norm_num) rfl, mul4_apply]
  exact Finset.sum_congr (M := EReal) rfl fun k _ => by rw [tb_21, lj_23]

/-! ## The stack of the 24 composed transforms -/

/-- Joint 0's composed transform as a one-joint stack. -/
theorem un_0 (b : Fin 131072) (r c : Fin 4) :
    (after ops V (main_v88 : DevRef τ sig) : S131072x1x4x4.Idx → EReal) (ix4 b (0 : Fin 1) r c) = Pose.T (Rb V b) (Pb V b) 0 r c := by
  rw [at_v88, unit_joint_apply, tb_0]

/-- Joint 1's composed transform as a one-joint stack. -/
theorem un_1 (b : Fin 131072) (r c : Fin 4) :
    (after ops V (main_v89 : DevRef τ sig) : S131072x1x4x4.Idx → EReal) (ix4 b (0 : Fin 1) r c) = Pose.T (Rb V b) (Pb V b) 1 r c := by
  rw [at_v89, unit_joint_apply, tb_1]

/-- Joint 2's composed transform as a one-joint stack. -/
theorem un_2 (b : Fin 131072) (r c : Fin 4) :
    (after ops V (main_v90 : DevRef τ sig) : S131072x1x4x4.Idx → EReal) (ix4 b (0 : Fin 1) r c) = Pose.T (Rb V b) (Pb V b) 2 r c := by
  rw [at_v90, unit_joint_apply, tb_2]

/-- Joint 3's composed transform as a one-joint stack. -/
theorem un_3 (b : Fin 131072) (r c : Fin 4) :
    (after ops V (main_v91 : DevRef τ sig) : S131072x1x4x4.Idx → EReal) (ix4 b (0 : Fin 1) r c) = Pose.T (Rb V b) (Pb V b) 3 r c := by
  rw [at_v91, unit_joint_apply, tb_3]

/-- Joint 4's composed transform as a one-joint stack. -/
theorem un_4 (b : Fin 131072) (r c : Fin 4) :
    (after ops V (main_v92 : DevRef τ sig) : S131072x1x4x4.Idx → EReal) (ix4 b (0 : Fin 1) r c) = Pose.T (Rb V b) (Pb V b) 4 r c := by
  rw [at_v92, unit_joint_apply, tb_4]

/-- Joint 5's composed transform as a one-joint stack. -/
theorem un_5 (b : Fin 131072) (r c : Fin 4) :
    (after ops V (main_v93 : DevRef τ sig) : S131072x1x4x4.Idx → EReal) (ix4 b (0 : Fin 1) r c) = Pose.T (Rb V b) (Pb V b) 5 r c := by
  rw [at_v93, unit_joint_apply, tb_5]

/-- Joint 6's composed transform as a one-joint stack. -/
theorem un_6 (b : Fin 131072) (r c : Fin 4) :
    (after ops V (main_v94 : DevRef τ sig) : S131072x1x4x4.Idx → EReal) (ix4 b (0 : Fin 1) r c) = Pose.T (Rb V b) (Pb V b) 6 r c := by
  rw [at_v94, unit_joint_apply, tb_6]

/-- Joint 7's composed transform as a one-joint stack. -/
theorem un_7 (b : Fin 131072) (r c : Fin 4) :
    (after ops V (main_v95 : DevRef τ sig) : S131072x1x4x4.Idx → EReal) (ix4 b (0 : Fin 1) r c) = Pose.T (Rb V b) (Pb V b) 7 r c := by
  rw [at_v95, unit_joint_apply, tb_7]

/-- Joint 8's composed transform as a one-joint stack. -/
theorem un_8 (b : Fin 131072) (r c : Fin 4) :
    (after ops V (main_v96 : DevRef τ sig) : S131072x1x4x4.Idx → EReal) (ix4 b (0 : Fin 1) r c) = Pose.T (Rb V b) (Pb V b) 8 r c := by
  rw [at_v96, unit_joint_apply, tb_8]

/-- Joint 9's composed transform as a one-joint stack. -/
theorem un_9 (b : Fin 131072) (r c : Fin 4) :
    (after ops V (main_v97 : DevRef τ sig) : S131072x1x4x4.Idx → EReal) (ix4 b (0 : Fin 1) r c) = Pose.T (Rb V b) (Pb V b) 9 r c := by
  rw [at_v97, unit_joint_apply, tb_9]

/-- Joint 10's composed transform as a one-joint stack. -/
theorem un_10 (b : Fin 131072) (r c : Fin 4) :
    (after ops V (main_v98 : DevRef τ sig) : S131072x1x4x4.Idx → EReal) (ix4 b (0 : Fin 1) r c) = Pose.T (Rb V b) (Pb V b) 10 r c := by
  rw [at_v98, unit_joint_apply, tb_10]

/-- Joint 11's composed transform as a one-joint stack. -/
theorem un_11 (b : Fin 131072) (r c : Fin 4) :
    (after ops V (main_v99 : DevRef τ sig) : S131072x1x4x4.Idx → EReal) (ix4 b (0 : Fin 1) r c) = Pose.T (Rb V b) (Pb V b) 11 r c := by
  rw [at_v99, unit_joint_apply, tb_11]

/-- Joint 12's composed transform as a one-joint stack. -/
theorem un_12 (b : Fin 131072) (r c : Fin 4) :
    (after ops V (main_v100 : DevRef τ sig) : S131072x1x4x4.Idx → EReal) (ix4 b (0 : Fin 1) r c) = Pose.T (Rb V b) (Pb V b) 12 r c := by
  rw [at_v100, unit_joint_apply, tb_12]

/-- Joint 13's composed transform as a one-joint stack. -/
theorem un_13 (b : Fin 131072) (r c : Fin 4) :
    (after ops V (main_v101 : DevRef τ sig) : S131072x1x4x4.Idx → EReal) (ix4 b (0 : Fin 1) r c) = Pose.T (Rb V b) (Pb V b) 13 r c := by
  rw [at_v101, unit_joint_apply, tb_13]

/-- Joint 14's composed transform as a one-joint stack. -/
theorem un_14 (b : Fin 131072) (r c : Fin 4) :
    (after ops V (main_v102 : DevRef τ sig) : S131072x1x4x4.Idx → EReal) (ix4 b (0 : Fin 1) r c) = Pose.T (Rb V b) (Pb V b) 14 r c := by
  rw [at_v102, unit_joint_apply, tb_14]

/-- Joint 15's composed transform as a one-joint stack. -/
theorem un_15 (b : Fin 131072) (r c : Fin 4) :
    (after ops V (main_v103 : DevRef τ sig) : S131072x1x4x4.Idx → EReal) (ix4 b (0 : Fin 1) r c) = Pose.T (Rb V b) (Pb V b) 15 r c := by
  rw [at_v103, unit_joint_apply, tb_15]

/-- Joint 16's composed transform as a one-joint stack. -/
theorem un_16 (b : Fin 131072) (r c : Fin 4) :
    (after ops V (main_v104 : DevRef τ sig) : S131072x1x4x4.Idx → EReal) (ix4 b (0 : Fin 1) r c) = Pose.T (Rb V b) (Pb V b) 16 r c := by
  rw [at_v104, unit_joint_apply, tb_16]

/-- Joint 17's composed transform as a one-joint stack. -/
theorem un_17 (b : Fin 131072) (r c : Fin 4) :
    (after ops V (main_v105 : DevRef τ sig) : S131072x1x4x4.Idx → EReal) (ix4 b (0 : Fin 1) r c) = Pose.T (Rb V b) (Pb V b) 17 r c := by
  rw [at_v105, unit_joint_apply, tb_17]

/-- Joint 18's composed transform as a one-joint stack. -/
theorem un_18 (b : Fin 131072) (r c : Fin 4) :
    (after ops V (main_v106 : DevRef τ sig) : S131072x1x4x4.Idx → EReal) (ix4 b (0 : Fin 1) r c) = Pose.T (Rb V b) (Pb V b) 18 r c := by
  rw [at_v106, unit_joint_apply, tb_18]

/-- Joint 19's composed transform as a one-joint stack. -/
theorem un_19 (b : Fin 131072) (r c : Fin 4) :
    (after ops V (main_v107 : DevRef τ sig) : S131072x1x4x4.Idx → EReal) (ix4 b (0 : Fin 1) r c) = Pose.T (Rb V b) (Pb V b) 19 r c := by
  rw [at_v107, unit_joint_apply, tb_19]

/-- Joint 20's composed transform as a one-joint stack. -/
theorem un_20 (b : Fin 131072) (r c : Fin 4) :
    (after ops V (main_v108 : DevRef τ sig) : S131072x1x4x4.Idx → EReal) (ix4 b (0 : Fin 1) r c) = Pose.T (Rb V b) (Pb V b) 20 r c := by
  rw [at_v108, unit_joint_apply, tb_20]

/-- Joint 21's composed transform as a one-joint stack. -/
theorem un_21 (b : Fin 131072) (r c : Fin 4) :
    (after ops V (main_v109 : DevRef τ sig) : S131072x1x4x4.Idx → EReal) (ix4 b (0 : Fin 1) r c) = Pose.T (Rb V b) (Pb V b) 21 r c := by
  rw [at_v109, unit_joint_apply, tb_21]

/-- Joint 22's composed transform as a one-joint stack. -/
theorem un_22 (b : Fin 131072) (r c : Fin 4) :
    (after ops V (main_v110 : DevRef τ sig) : S131072x1x4x4.Idx → EReal) (ix4 b (0 : Fin 1) r c) = Pose.T (Rb V b) (Pb V b) 22 r c := by
  rw [at_v110, unit_joint_apply, tb_22]

/-- Joint 23's composed transform as a one-joint stack. -/
theorem un_23 (b : Fin 131072) (r c : Fin 4) :
    (after ops V (main_v111 : DevRef τ sig) : S131072x1x4x4.Idx → EReal) (ix4 b (0 : Fin 1) r c) = Pose.T (Rb V b) (Pb V b) 23 r c := by
  rw [at_v111, unit_joint_apply, tb_23]

/-- The first sixteen joints' composed transforms, laid end to end. -/
theorem v112_apply (b : Fin 131072) (n : Fin 16) (r c : Fin 4) :
    (after ops V (main_v112 : DevRef τ sig) : S131072x16x4x4.Idx → EReal) (ix4 b n r c) = Pose.T (Rb V b) (Pb V b) n.val r c := by
  rw [at_v112]
  refine (concat16_apply
    ![(after ops V (main_v88 : DevRef τ sig) : S131072x1x4x4.Idx → EReal),
      (after ops V (main_v89 : DevRef τ sig) : S131072x1x4x4.Idx → EReal),
      (after ops V (main_v90 : DevRef τ sig) : S131072x1x4x4.Idx → EReal),
      (after ops V (main_v91 : DevRef τ sig) : S131072x1x4x4.Idx → EReal),
      (after ops V (main_v92 : DevRef τ sig) : S131072x1x4x4.Idx → EReal),
      (after ops V (main_v93 : DevRef τ sig) : S131072x1x4x4.Idx → EReal),
      (after ops V (main_v94 : DevRef τ sig) : S131072x1x4x4.Idx → EReal),
      (after ops V (main_v95 : DevRef τ sig) : S131072x1x4x4.Idx → EReal),
      (after ops V (main_v96 : DevRef τ sig) : S131072x1x4x4.Idx → EReal),
      (after ops V (main_v97 : DevRef τ sig) : S131072x1x4x4.Idx → EReal),
      (after ops V (main_v98 : DevRef τ sig) : S131072x1x4x4.Idx → EReal),
      (after ops V (main_v99 : DevRef τ sig) : S131072x1x4x4.Idx → EReal),
      (after ops V (main_v100 : DevRef τ sig) : S131072x1x4x4.Idx → EReal),
      (after ops V (main_v101 : DevRef τ sig) : S131072x1x4x4.Idx → EReal),
      (after ops V (main_v102 : DevRef τ sig) : S131072x1x4x4.Idx → EReal),
      (after ops V (main_v103 : DevRef τ sig) : S131072x1x4x4.Idx → EReal)] _ b n r c).trans ?_
  fin_cases n
  exacts [un_0 V b r c, un_1 V b r c, un_2 V b r c, un_3 V b r c, un_4 V b r c, un_5 V b r c, un_6 V b r c, un_7 V b r c, un_8 V b r c, un_9 V b r c, un_10 V b r c, un_11 V b r c, un_12 V b r c, un_13 V b r c, un_14 V b r c, un_15 V b r c]

/-- The last eight joints' composed transforms, laid end to end. -/
theorem v113_apply (b : Fin 131072) (n : Fin 8) (r c : Fin 4) :
    (after ops V (main_v113 : DevRef τ sig) : S131072x8x4x4.Idx → EReal) (ix4 b n r c) = Pose.T (Rb V b) (Pb V b) (n.val + 16) r c := by
  rw [at_v113]
  refine (concat8_apply
    ![(after ops V (main_v104 : DevRef τ sig) : S131072x1x4x4.Idx → EReal),
      (after ops V (main_v105 : DevRef τ sig) : S131072x1x4x4.Idx → EReal),
      (after ops V (main_v106 : DevRef τ sig) : S131072x1x4x4.Idx → EReal),
      (after ops V (main_v107 : DevRef τ sig) : S131072x1x4x4.Idx → EReal),
      (after ops V (main_v108 : DevRef τ sig) : S131072x1x4x4.Idx → EReal),
      (after ops V (main_v109 : DevRef τ sig) : S131072x1x4x4.Idx → EReal),
      (after ops V (main_v110 : DevRef τ sig) : S131072x1x4x4.Idx → EReal),
      (after ops V (main_v111 : DevRef τ sig) : S131072x1x4x4.Idx → EReal)] _ b n r c).trans ?_
  fin_cases n
  exacts [un_16 V b r c, un_17 V b r c, un_18 V b r c, un_19 V b r c, un_20 V b r c, un_21 V b r c, un_22 V b r c, un_23 V b r c]

/-- The stack: entry (b, j, r, c) is entry (r, c) of joint j's composed transform. -/
theorem v114_apply (b : Fin 131072) (j : Fin 24) (r c : Fin 4) :
    (after ops V (main_v114 : DevRef τ sig) : S131072x24x4x4.Idx → EReal) (ix4 b j r c) = Pose.T (Rb V b) (Pb V b) j.val r c := by
  rw [at_v114, concat_runs_apply]
  by_cases hj : j.val < 16
  · rw [dif_pos hj, v112_apply]
  · rw [dif_neg hj, v113_apply]
    show Pose.T (Rb V b) (Pb V b) (j.val - 16 + 16) r c = _
    rw [Nat.sub_add_cancel (by omega)]

/-! ## The two results -/

/-- THE POSED POSITIONS: the second result holds the posed joint positions of the whole batch. -/
theorem posed_eq :
    (after ops V (main_v116 : DevRef τ sig) : Pose.SPos.Idx → EReal) = Pose.posedArr (rot V) (pos V) := by
  funext i
  obtain ⟨b, j, k, rfl⟩ : ∃ (b : Fin 131072) (j : Fin 24) (k : Fin 3), i = ix3 b j k := ⟨i 0, i 1, i 2, eq_ix3 i⟩
  rw [at_v116, at_v115, last_column_apply, v114_apply, Pose.posedArr_apply]
  exact Pose.posed_eq _ _ j.val k

/-- The correction: zero in the first three columns, in the last the composed transform applied to (p j; 0). -/
theorem v120_apply (b : Fin 131072) (j : Fin 24) (r c : Fin 4) :
    (after ops V (main_v120 : DevRef τ sig) : S131072x24x4x4.Idx → EReal) (ix4 b j r c) = Pose.corr (Rb V b) (Pb V b) j.val r c := by
  rw [at_v120, pad_cols_apply, at_call1_v0, at_c_5, pad_value_apply]
  unfold Pose.corr
  by_cases hc : c.val < 3
  · rw [if_pos hc, if_pos hc]
  · rw [if_neg hc, if_neg hc, at_v119, dot_joints_apply]
    exact Finset.sum_congr (M := EReal) rfl fun k _ => by rw [v114_apply, rest_apply V (pos V) rfl]

/-- THE CORRECTED TRANSFORMS: the first result holds [[Rh j, th j − Rh j p j], [0, 1]] for the whole batch. -/
theorem tf_eq :
    (after ops V (main_v121 : DevRef τ sig) : Pose.STf.Idx → EReal) = Pose.tfArr (rot V) (pos V) := by
  funext i
  obtain ⟨b, j, r, c, rfl⟩ : ∃ (b : Fin 131072) (j : Fin 24) (r c : Fin 4), i = ix4 b j r c :=
    ⟨i 0, i 1, i 2, i 3, eq_ix4 i⟩
  rw [at_v121, subf_apply, v114_apply, v120_apply, Pose.tfArr_apply]
  exact Pose.tf_eq _ _ j.val r c

/-- For the ideal float values, from any memory with zero counters: every weakly fair execution of the reference
    terminates with its first result the corrected transforms and its second the posed positions of the launch's two
    arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v121)
          = Pose.tfArr (m ((c.tc : Thread nD τ).loc main_arg0)) (m ((c.tc : Thread nD τ).loc main_arg1))
      ∧ r.2.mem ((c.tc : Thread nD τ).loc main_v116)
          = Pose.posedArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v121).trans (tf_eq _), (h c main_v116).trans (posed_eq _),
      (h c main_arg0).trans (at_arg0 _), (h c main_arg1).trans (at_arg1 _)⟩)
    (run_main m ρ)

end Cert.ReferenceIdeal.RefValue

end
-- ==== Proof.lean ====
/-
  Posing a 24-joint skeleton, batched: the kernel against its reference, on the extended reals.

  Each of 131072 batch elements has, per joint j, a local 3x3 matrix R j and a rest position p j; joint j > 0 hangs from
  its parent par j < j. The reference builds the local homogeneous transforms Lm j = [[R j, p j - p (par j)], [0, 1]]
  (the root keeps p 0), multiplies them down the tree, T j = T (par j) * Lm j, and returns the posed positions (column 3
  of T j) and the corrected transforms T j - [0 | T j (p j; 0)]. The kernel works on blocks of 128 batch elements at a
  time and composes the affine pairs directly: Rh j = Rh (par j) * R j, th j = Rh (par j) * (p j - p (par j)) + th (par j),
  and returns th j and [[Rh j, th j - Rh j p j], [0, 1]].
  The two agree on the extended reals with no assumption on the inputs: a 4x4 product of matrices with last row
  (0, 0, 0, 1) is the 3x3 product and the affine composition because x * 0 = 0, x * 1 = x and x + 0 = x hold at the
  infinities too (PoseSpec: T_eq, tf_eq, posed_eq). So the precondition, that the inputs are finite, is not used.

  The modules: PoseSpec (the formulas and their agreement, per batch element), PoseArrays (the two results as arrays);
  for the idealized kernel KDefsI / KRow / KFacts (row b of every value of the body is a formula of row b's skeleton),
  FramePI (the kernel's run), KValue (each stored block is a block of one whole-array function, the blocks cover, and the
  recast results are the arrays of PoseArrays); for the reference RefOps / RefEqs (its run, one operation at a time),
  RefStages1-3 (each kind of operation read at an index), RefLocal (the local transforms), RefValue (the 23 products
  down the tree, the stack, the two results); FramePK (the kernel's run as printed, for its frame).
  The idealization rewrote nothing, so the preservation conjunct is trivial.
-/
import proofs.«156383_j88811333747289_2_alg».proof.Defs
import proofs.«156383_j88811333747289_2_alg».proof.Proof.Gen.Kernel
import proofs.«156383_j88811333747289_2_alg».proof.Proof.Gen.KernelIdeal
import proofs.«156383_j88811333747289_2_alg».proof.Proof.Gen.ReferenceIdeal
import proofs.«156383_j88811333747289_2_alg».proof.Proof.Gen.Pre_finite_inputs
import proofs.«156383_j88811333747289_2_alg».proof.Proof.FramePK
import proofs.«156383_j88811333747289_2_alg».proof.Proof.KValue
import proofs.«156383_j88811333747289_2_alg».proof.Proof.RefValue
import Idealize.ShloMosaic.Adequacy
import Idealize.ShloMosaic.Init

noncomputable section

namespace Cert.Proof

open Idealize.ShloMosaic Idealize.SL.Sem

/-- The claim from four statements about the three programs: the kernel and its idealization run and leave their
    arguments alone (hK, hKI); the idealized kernel (hV) and the idealized reference (hR) each end with the corrected
    transforms and the posed positions of their own arguments, the arguments unchanged. The frames are hK, hKI and hR
    with its results dropped; the two value runs, from memories agreeing on the arguments, end with the same arrays. -/
theorem claim_of
    (hK : ∀ (m : (ℓ : Loc Cert.Kernel.nD Cert.Kernel.τ Cert.Kernel.sig) → Buf (Elt Bits) ℓ) (ρ : Dev Cert.Kernel.nD → PrngReg),
      θ_run (Cert.Kernel.defs (F := Bits)) (onTc (τ := Cert.Kernel.τ) (Cert.Kernel.main (F := Bits))) ⟨m, fun _ => 0, ρ⟩ (fun r => ∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)))
    (hKI : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)))
    (hV : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v3) = Cert.Pose.tfArr (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_v4) = Cert.Pose.posedArr (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)))
    (hR : ∀ (m : (ℓ : Loc Cert.ReferenceIdeal.nD Cert.ReferenceIdeal.τ Cert.ReferenceIdeal.sig) → Buf (Elt Ideal) ℓ) (ρ : Dev Cert.ReferenceIdeal.nD → PrngReg),
      θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
        r.2.mem ((c.tc : Thread Cert.ReferenceIdeal.nD Cert.ReferenceIdeal.τ).loc Cert.ReferenceIdeal.main_v121) = Cert.Pose.tfArr (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_v116) = Cert.Pose.posedArr (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))) :
    Cert.Claim :=
  ⟨Cert.Kernel.Gen.facts, Cert.KernelIdeal.Gen.facts, Cert.ReferenceIdeal.Gen.facts, Cert.Pre_finite_inputs.Gen.facts,
    fun m ρ _ => hK m ρ,
    fun m ρ _ => hKI m ρ,
    fun m ρ _ => (θ_run (Cert.ReferenceIdeal.defs (F := Ideal)) _ _).mono (fun _ h c => ⟨(h c).2.2.1, (h c).2.2.2⟩) (hR m ρ),
    trivial,
    fun m ρ m' ρ' _ hagree =>
      ⟨fun c => Cert.Pose.tfArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
        fun c => Cert.Pose.posedArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
        hV m ρ,
        (θ_run (Cert.ReferenceIdeal.defs (F := Ideal)) _ _).mono (fun _ h c =>
          ⟨by rw [(h c).1, (hagree c).1, (hagree c).2], by rw [(h c).2.1, (hagree c).1, (hagree c).2], (h c).2.2.1, (h c).2.2.2⟩)
          (hR m' ρ')⟩⟩

/-- The certificate's claim. -/
theorem claim : Cert.Claim :=
  claim_of (fun m ρ => Cert.Kernel.GenP.frame m ρ) (fun m ρ => Cert.KernelIdeal.GenP.frame m ρ)
    (fun m ρ => Cert.KernelIdeal.KVal.run m ρ) (fun m ρ => Cert.ReferenceIdeal.RefValue.run m ρ)

end Cert.Proof

end
